-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v517)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v517) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v572) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4 : Shape := ⟨2, ![2048, 4]⟩
abbrev S2048x16384 : Shape := ⟨2, ![2048, 16384]⟩
abbrev S21 : Shape := ⟨1, ![21]⟩
abbrev S_ : Shape := ⟨0, ![]⟩

class Facts : Prop where
  bcast_S_S2048x4 : S_.BroadcastsInDim S2048x4 (![] : Fin 0 → Fin S2048x4.rank)
  reducesTo_S2048x4_S_d0_1 : S2048x4.ReducesTo [0, 1] S_
  h_S_ : 0 < S_.numel
  bcast_S_S2048x16384 : S_.BroadcastsInDim S2048x16384 (![] : Fin 0 → Fin S2048x16384.rank)
  reducesTo_S2048x16384_S_d0_1 : S2048x16384.ReducesTo [0, 1] S_
  bcast_S_S21 : S_.BroadcastsInDim S21 (![] : Fin 0 → Fin S21.rank)
  reducesTo_S21_S_d0 : S21.ReducesTo [0] S_

variable [Facts]

def fn_part1 {F : FTy → Type} [FloatOps F] (main_v13 : IVec S_ 1) (main_v16 : IVec S21 1) : IVec S_ 1 :=
  let main_c_5 : IVec S_ 1 := constantI S_ 1 1#1
  let main_v17 : IVec S_ 1 := (fun x v => Host.reduce IntOp.andi x v reducesTo_S21_S_d0 h_S_) main_v16 main_c_5
  let main_v18 : IVec S_ 1 := andi main_v13 main_v17
  main_v18

def fn {F : FTy → Type} [FloatOps F] (main_arg0 : FVec F S2048x4 .f32) (main_arg1 : FVec F S2048x16384 .f32) (main_arg2 : FVec F S2048x16384 .f32) (main_arg3 : FVec F S21 .f32) : IVec S_ 1 :=
  let main_v0 : FVec F S2048x4 .f32 := Host.absf main_arg0
  let main_cst : FVec F S_ .f32 := constant S_ .f32 0x7F800000#32
  let main_v1 : FVec F S2048x4 .f32 := broadcastInDim S2048x4 ![] bcast_S_S2048x4 main_cst
  let main_v2 : IVec S2048x4 1 := cmpf .olt main_v0 main_v1
  let main_c : IVec S_ 1 := constantI S_ 1 1#1
  let main_v3 : IVec S_ 1 := (fun x v => Host.reduce IntOp.andi x v reducesTo_S2048x4_S_d0_1 h_S_) main_v2 main_c
  let main_v4 : FVec F S2048x16384 .f32 := Host.absf main_arg1
  let main_cst_0 : FVec F S_ .f32 := constant S_ .f32 0x7F800000#32
  let main_v5 : FVec F S2048x16384 .f32 := broadcastInDim S2048x16384 ![] bcast_S_S2048x16384 main_cst_0
  let main_v6 : IVec S2048x16384 1 := cmpf .olt main_v4 main_v5
  let main_c_1 : IVec S_ 1 := constantI S_ 1 1#1
  let main_v7 : IVec S_ 1 := (fun x v => Host.reduce IntOp.andi x v reducesTo_S2048x16384_S_d0_1 h_S_) main_v6 main_c_1
  let main_v8 : IVec S_ 1 := andi main_v3 main_v7
  let main_v9 : FVec F S2048x16384 .f32 := Host.absf main_arg2
  let main_cst_2 : FVec F S_ .f32 := constant S_ .f32 0x7F800000#32
  let main_v10 : FVec F S2048x16384 .f32 := broadcastInDim S2048x16384 ![] bcast_S_S2048x16384 main_cst_2
  let main_v11 : IVec S2048x16384 1 := cmpf .olt main_v9 main_v10
  let main_c_3 : IVec S_ 1 := constantI S_ 1 1#1
  let main_v12 : IVec S_ 1 := (fun x v => Host.reduce IntOp.andi x v reducesTo_S2048x16384_S_d0_1 h_S_) main_v11 main_c_3
  let main_v13 : IVec S_ 1 := andi main_v8 main_v12
  let main_v14 : FVec F S21 .f32 := Host.absf main_arg3
  let main_cst_4 : FVec F S_ .f32 := constant S_ .f32 0x7F800000#32
  let main_v15 : FVec F S21 .f32 := broadcastInDim S21 ![] bcast_S_S21 main_cst_4
  let main_v16 : IVec S21 1 := cmpf .olt main_v14 main_v15
  fn_part1 (F := F) main_v13 main_v16
-- ==== Kernel.lean ====
abbrev S2048x4 : Shape := ⟨2, ![2048, 4]⟩
abbrev S2048x16384 : Shape := ⟨2, ![2048, 16384]⟩
abbrev S21 : Shape := ⟨1, ![21]⟩
abbrev S256x256 : Shape := ⟨2, ![256, 256]⟩
abbrev S_ : Shape := ⟨0, ![]⟩
abbrev S256x2x2x2x2x2x2x2x2 : Shape := ⟨9, ![256, 2, 2, 2, 2, 2, 2, 2, 2]⟩
abbrev S1 : Shape := ⟨1, ![1]⟩
abbrev S256x2x2x2x2x2x2x2 : Shape := ⟨8, ![256, 2, 2, 2, 2, 2, 2, 2]⟩
abbrev S256x2x1x2x2x2x2x2x2 : Shape := ⟨9, ![256, 2, 1, 2, 2, 2, 2, 2, 2]⟩
abbrev S256x2x2x1x2x2x2x2x2 : Shape := ⟨9, ![256, 2, 2, 1, 2, 2, 2, 2, 2]⟩
abbrev S256x2x2x2x2x2x1x2x2 : Shape := ⟨9, ![256, 2, 2, 2, 2, 2, 1, 2, 2]⟩
abbrev S256x2x2x2x2x2x2x1x2 : Shape := ⟨9, ![256, 2, 2, 2, 2, 2, 2, 1, 2]⟩
abbrev S256x1x2x2x2x2x2x2x2 : Shape := ⟨9, ![256, 1, 2, 2, 2, 2, 2, 2, 2]⟩
abbrev S256x2x2x2x1x2x2x2x2 : Shape := ⟨9, ![256, 2, 2, 2, 1, 2, 2, 2, 2]⟩
abbrev S256x2x2x2x2x1x2x2x2 : Shape := ⟨9, ![256, 2, 2, 2, 2, 1, 2, 2, 2]⟩
abbrev S256x2x2x2x2x2x2x2x1 : Shape := ⟨9, ![256, 2, 2, 2, 2, 2, 2, 2, 1]⟩
abbrev S256 : Shape := ⟨1, ![256]⟩
abbrev S1x256 : Shape := ⟨2, ![1, 256]⟩
abbrev S16384x1 : Shape := ⟨2, ![16384, 1]⟩
abbrev S2048x512 : Shape := ⟨2, ![2048, 512]⟩
abbrev S512x1 : Shape := ⟨2, ![512, 1]⟩
abbrev S512x4 : Shape := ⟨2, ![512, 4]⟩
abbrev S512x8 : Shape := ⟨2, ![512, 8]⟩
abbrev S512x2 : Shape := ⟨2, ![512, 2]⟩
abbrev S512x16 : Shape := ⟨2, ![512, 16]⟩
abbrev S512x32 : Shape := ⟨2, ![512, 32]⟩
abbrev S512x64 : Shape := ⟨2, ![512, 64]⟩
abbrev S512x128 : Shape := ⟨2, ![512, 128]⟩
abbrev S512x256 : Shape := ⟨2, ![512, 256]⟩
abbrev S512 : Shape := ⟨1, ![512]⟩
abbrev S16384 : Shape := ⟨1, ![16384]⟩

abbrev nBuf : Space → Nat
  | .hbm => 1807
  | .vmem => 9
  | .smem => 0
  | _ => 0

abbrev hbmTy0_0 (i : Nat) : BufTy := match i % 128 with
  | 0 => ⟨S2048x4, .f32⟩
  | 1 => ⟨S2048x16384, .f32⟩
  | 2 => ⟨S2048x16384, .f32⟩
  | 3 => ⟨S21, .f32⟩
  | 4 => ⟨S256x256, .i32⟩
  | 5 => ⟨S256x256, .i32⟩
  | 6 => ⟨S_, .i32⟩
  | 7 => ⟨S256x256, .i32⟩
  | 8 => ⟨S256x256, .i32⟩
  | 9 => ⟨S256x256, .i1⟩
  | 10 => ⟨S256x256, .f32⟩
  | 11 => ⟨S256x2x2x2x2x2x2x2x2, .f32⟩
  | 12 => ⟨S1, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .i32⟩
  | 21 => ⟨S_, .i32⟩
  | 22 => ⟨S_, .i1⟩
  | 23 => ⟨S_, .i32⟩
  | 24 => ⟨S_, .i32⟩
  | 25 => ⟨S_, .i32⟩
  | 26 => ⟨S1, .i32⟩
  | 27 => ⟨S1, .i32⟩
  | 28 => ⟨S1, .i32⟩
  | 29 => ⟨S_, .i32⟩
  | 30 => ⟨S1, .i32⟩
  | 31 => ⟨S1, .i1⟩
  | 32 => ⟨S1, .i1⟩
  | 33 => ⟨S1, .i1⟩
  | 34 => ⟨S_, .i1⟩
  | 35 => ⟨S_, .i1⟩
  | 36 => ⟨S256x2x2x2x2x2x2x2, .f32⟩
  | 37 => ⟨S256x2x2x2x2x2x2x2, .i1⟩
  | 38 => ⟨S_, .f32⟩
  | 39 => ⟨S256x2x2x2x2x2x2x2, .f32⟩
  | 40 => ⟨S256x2x2x2x2x2x2x2, .f32⟩
  | 41 => ⟨S_, .i32⟩
  | 42 => ⟨S_, .i32⟩
  | 43 => ⟨S_, .i1⟩
  | 44 => ⟨S_, .i32⟩
  | 45 => ⟨S_, .i32⟩
  | 46 => ⟨S_, .i32⟩
  | 47 => ⟨S1, .i32⟩
  | 48 => ⟨S1, .i32⟩
  | 49 => ⟨S1, .i32⟩
  | 50 => ⟨S_, .i32⟩
  | 51 => ⟨S1, .i32⟩
  | 52 => ⟨S1, .i1⟩
  | 53 => ⟨S1, .i1⟩
  | 54 => ⟨S1, .i1⟩
  | 55 => ⟨S_, .i1⟩
  | 56 => ⟨S_, .i1⟩
  | 57 => ⟨S256x2x2x2x2x2x2x2, .f32⟩
  | 58 => ⟨S256x2x2x2x2x2x2x2, .i1⟩
  | 59 => ⟨S_, .f32⟩
  | 60 => ⟨S256x2x2x2x2x2x2x2, .f32⟩
  | 61 => ⟨S256x2x2x2x2x2x2x2, .f32⟩
  | 62 => ⟨S256x2x2x2x2x2x2x2, .f32⟩
  | 63 => ⟨S256x2x2x2x2x2x2x2, .f32⟩
  | 64 => ⟨S256x2x2x2x2x2x2x2, .f32⟩
  | 65 => ⟨S256x2x2x2x2x2x2x2, .f32⟩
  | 66 => ⟨S256x2x2x2x2x2x2x2, .f32⟩
  | 67 => ⟨S256x2x2x2x2x2x2x2, .f32⟩
  | 68 => ⟨S256x2x2x2x2x2x2x2, .f32⟩
  | 69 => ⟨S256x2x2x2x2x2x2x2, .f32⟩
  | 70 => ⟨S256x2x2x2x2x2x2x2, .f32⟩
  | 71 => ⟨S256x2x2x2x2x2x2x2, .f32⟩
  | 72 => ⟨S256x2x1x2x2x2x2x2x2, .f32⟩
  | 73 => ⟨S256x2x1x2x2x2x2x2x2, .f32⟩
  | 74 => ⟨S256x2x2x2x2x2x2x2x2, .f32⟩
  | 75 => ⟨S1, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S_, .i32⟩
  | 84 => ⟨S_, .i32⟩
  | 85 => ⟨S_, .i1⟩
  | 86 => ⟨S_, .i32⟩
  | 87 => ⟨S_, .i32⟩
  | 88 => ⟨S_, .i32⟩
  | 89 => ⟨S1, .i32⟩
  | 90 => ⟨S1, .i32⟩
  | 91 => ⟨S1, .i32⟩
  | 92 => ⟨S_, .i32⟩
  | 93 => ⟨S1, .i32⟩
  | 94 => ⟨S1, .i1⟩
  | 95 => ⟨S1, .i1⟩
  | 96 => ⟨S1, .i1⟩
  | 97 => ⟨S_, .i1⟩
  | 98 => ⟨S_, .i1⟩
  | 99 => ⟨S256x2x2x2x2x2x2x2, .f32⟩
  | 100 => ⟨S256x2x2x2x2x2x2x2, .i1⟩
  | 101 => ⟨S_, .f32⟩
  | 102 => ⟨S256x2x2x2x2x2x2x2, .f32⟩
  | 103 => ⟨S256x2x2x2x2x2x2x2, .f32⟩
  | 104 => ⟨S_, .i32⟩
  | 105 => ⟨S_, .i32⟩
  | 106 => ⟨S_, .i1⟩
  | 107 => ⟨S_, .i32⟩
  | 108 => ⟨S_, .i32⟩
  | 109 => ⟨S_, .i32⟩
  | 110 => ⟨S1, .i32⟩
  | 111 => ⟨S1, .i32⟩
  | 112 => ⟨S1, .i32⟩
  | 113 => ⟨S_, .i32⟩
  | 114 => ⟨S1, .i32⟩
  | 115 => ⟨S1, .i1⟩
  | 116 => ⟨S1, .i1⟩
  | 117 => ⟨S1, .i1⟩
  | 118 => ⟨S_, .i1⟩
  | 119 => ⟨S_, .i1⟩
  | 120 => ⟨S256x2x2x2x2x2x2x2, .f32⟩
  | 121 => ⟨S256x2x2x2x2x2x2x2, .i1⟩
  | 122 => ⟨S_, .f32⟩
  | 123 => ⟨S256x2x2x2x2x2x2x2, .f32⟩
  | 124 => ⟨S256x2x2x2x2x2x2x2, .f32⟩
  | 125 => ⟨S256x2x2x2x2x2x2x2, .f32⟩
  | 126 => ⟨S256x2x2x2x2x2x2x2, .f32⟩
  | 127 => ⟨S256x2x2x2x2x2x2x2, .f32⟩
  | _ => ⟨S2048x4, .f32⟩

abbrev hbmTy0_1 (i : Nat) : BufTy := match i % 128 with
  | 0 => ⟨S256x2x2x2x2x2x2x2, .f32⟩
  | 1 => ⟨S256x2x2x2x2x2x2x2, .f32⟩
  | 2 => ⟨S256x2x2x2x2x2x2x2, .f32⟩
  | 3 => ⟨S256x2x2x2x2x2x2x2, .f32⟩
  | 4 => ⟨S256x2x2x2x2x2x2x2, .f32⟩
  | 5 => ⟨S256x2x2x2x2x2x2x2, .f32⟩
  | 6 => ⟨S256x2x2x2x2x2x2x2, .f32⟩
  | 7 => ⟨S256x2x2x1x2x2x2x2x2, .f32⟩
  | 8 => ⟨S256x2x2x1x2x2x2x2x2, .f32⟩
  | 9 => ⟨S256x2x2x2x2x2x2x2x2, .f32⟩
  | 10 => ⟨S_, .i32⟩
  | 11 => ⟨S_, .i32⟩
  | 12 => ⟨S_, .i1⟩
  | 13 => ⟨S_, .i32⟩
  | 14 => ⟨S_, .i32⟩
  | 15 => ⟨S_, .i32⟩
  | 16 => ⟨S1, .i32⟩
  | 17 => ⟨S1, .i32⟩
  | 18 => ⟨S1, .i32⟩
  | 19 => ⟨S_, .i32⟩
  | 20 => ⟨S1, .i32⟩
  | 21 => ⟨S1, .i1⟩
  | 22 => ⟨S1, .i1⟩
  | 23 => ⟨S1, .i1⟩
  | 24 => ⟨S_, .i1⟩
  | 25 => ⟨S_, .i1⟩
  | 26 => ⟨S256x2x2x2x2x2x2x2, .f32⟩
  | 27 => ⟨S256x2x2x2x2x2x2x2, .i1⟩
  | 28 => ⟨S_, .f32⟩
  | 29 => ⟨S256x2x2x2x2x2x2x2, .f32⟩
  | 30 => ⟨S256x2x2x2x2x2x2x2, .f32⟩
  | 31 => ⟨S_, .i32⟩
  | 32 => ⟨S_, .i32⟩
  | 33 => ⟨S_, .i1⟩
  | 34 => ⟨S_, .i32⟩
  | 35 => ⟨S_, .i32⟩
  | 36 => ⟨S_, .i32⟩
  | 37 => ⟨S1, .i32⟩
  | 38 => ⟨S1, .i32⟩
  | 39 => ⟨S1, .i32⟩
  | 40 => ⟨S_, .i32⟩
  | 41 => ⟨S1, .i32⟩
  | 42 => ⟨S1, .i1⟩
  | 43 => ⟨S1, .i1⟩
  | 44 => ⟨S1, .i1⟩
  | 45 => ⟨S_, .i1⟩
  | 46 => ⟨S_, .i1⟩
  | 47 => ⟨S256x2x2x2x2x2x2x2, .f32⟩
  | 48 => ⟨S256x2x2x2x2x2x2x2, .i1⟩
  | 49 => ⟨S_, .f32⟩
  | 50 => ⟨S256x2x2x2x2x2x2x2, .f32⟩
  | 51 => ⟨S256x2x2x2x2x2x2x2, .f32⟩
  | 52 => ⟨S256x2x2x2x2x2x2x2, .f32⟩
  | 53 => ⟨S256x2x1x2x2x2x2x2x2, .f32⟩
  | 54 => ⟨S256x2x1x2x2x2x2x2x2, .f32⟩
  | 55 => ⟨S256x2x2x2x2x2x2x2x2, .f32⟩
  | 56 => ⟨S1, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .i32⟩
  | 65 => ⟨S_, .i32⟩
  | 66 => ⟨S_, .i1⟩
  | 67 => ⟨S_, .i32⟩
  | 68 => ⟨S_, .i32⟩
  | 69 => ⟨S_, .i32⟩
  | 70 => ⟨S1, .i32⟩
  | 71 => ⟨S1, .i32⟩
  | 72 => ⟨S1, .i32⟩
  | 73 => ⟨S_, .i32⟩
  | 74 => ⟨S1, .i32⟩
  | 75 => ⟨S1, .i1⟩
  | 76 => ⟨S1, .i1⟩
  | 77 => ⟨S1, .i1⟩
  | 78 => ⟨S_, .i1⟩
  | 79 => ⟨S_, .i1⟩
  | 80 => ⟨S256x2x2x2x2x2x2x2, .f32⟩
  | 81 => ⟨S256x2x2x2x2x2x2x2, .i1⟩
  | 82 => ⟨S_, .f32⟩
  | 83 => ⟨S256x2x2x2x2x2x2x2, .f32⟩
  | 84 => ⟨S256x2x2x2x2x2x2x2, .f32⟩
  | 85 => ⟨S_, .i32⟩
  | 86 => ⟨S_, .i32⟩
  | 87 => ⟨S_, .i1⟩
  | 88 => ⟨S_, .i32⟩
  | 89 => ⟨S_, .i32⟩
  | 90 => ⟨S_, .i32⟩
  | 91 => ⟨S1, .i32⟩
  | 92 => ⟨S1, .i32⟩
  | 93 => ⟨S1, .i32⟩
  | 94 => ⟨S_, .i32⟩
  | 95 => ⟨S1, .i32⟩
  | 96 => ⟨S1, .i1⟩
  | 97 => ⟨S1, .i1⟩
  | 98 => ⟨S1, .i1⟩
  | 99 => ⟨S_, .i1⟩
  | 100 => ⟨S_, .i1⟩
  | 101 => ⟨S256x2x2x2x2x2x2x2, .f32⟩
  | 102 => ⟨S256x2x2x2x2x2x2x2, .i1⟩
  | 103 => ⟨S_, .f32⟩
  | 104 => ⟨S256x2x2x2x2x2x2x2, .f32⟩
  | 105 => ⟨S256x2x2x2x2x2x2x2, .f32⟩
  | 106 => ⟨S256x2x2x2x2x2x2x2, .f32⟩
  | 107 => ⟨S256x2x2x2x2x2x2x2, .f32⟩
  | 108 => ⟨S256x2x2x2x2x2x2x2, .f32⟩
  | 109 => ⟨S256x2x2x2x2x2x2x2, .f32⟩
  | 110 => ⟨S256x2x2x2x2x2x2x2, .f32⟩
  | 111 => ⟨S256x2x2x2x2x2x2x2, .f32⟩
  | 112 => ⟨S256x2x2x2x2x2x2x2, .f32⟩
  | 113 => ⟨S256x2x2x2x2x2x2x2, .f32⟩
  | 114 => ⟨S256x2x2x2x2x2x2x2, .f32⟩
  | 115 => ⟨S256x2x2x2x2x2x2x2, .f32⟩
  | 116 => ⟨S256x2x2x2x2x2x1x2x2, .f32⟩
  | 117 => ⟨S256x2x2x2x2x2x1x2x2, .f32⟩
  | 118 => ⟨S256x2x2x2x2x2x2x2x2, .f32⟩
  | 119 => ⟨S1, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .i32⟩
  | _ => ⟨S2048x4, .f32⟩

abbrev hbmTy0_2 (i : Nat) : BufTy := match i % 128 with
  | 0 => ⟨S_, .i32⟩
  | 1 => ⟨S_, .i1⟩
  | 2 => ⟨S_, .i32⟩
  | 3 => ⟨S_, .i32⟩
  | 4 => ⟨S_, .i32⟩
  | 5 => ⟨S1, .i32⟩
  | 6 => ⟨S1, .i32⟩
  | 7 => ⟨S1, .i32⟩
  | 8 => ⟨S_, .i32⟩
  | 9 => ⟨S1, .i32⟩
  | 10 => ⟨S1, .i1⟩
  | 11 => ⟨S1, .i1⟩
  | 12 => ⟨S1, .i1⟩
  | 13 => ⟨S_, .i1⟩
  | 14 => ⟨S_, .i1⟩
  | 15 => ⟨S256x2x2x2x2x2x2x2, .f32⟩
  | 16 => ⟨S256x2x2x2x2x2x2x2, .i1⟩
  | 17 => ⟨S_, .f32⟩
  | 18 => ⟨S256x2x2x2x2x2x2x2, .f32⟩
  | 19 => ⟨S256x2x2x2x2x2x2x2, .f32⟩
  | 20 => ⟨S_, .i32⟩
  | 21 => ⟨S_, .i32⟩
  | 22 => ⟨S_, .i1⟩
  | 23 => ⟨S_, .i32⟩
  | 24 => ⟨S_, .i32⟩
  | 25 => ⟨S_, .i32⟩
  | 26 => ⟨S1, .i32⟩
  | 27 => ⟨S1, .i32⟩
  | 28 => ⟨S1, .i32⟩
  | 29 => ⟨S_, .i32⟩
  | 30 => ⟨S1, .i32⟩
  | 31 => ⟨S1, .i1⟩
  | 32 => ⟨S1, .i1⟩
  | 33 => ⟨S1, .i1⟩
  | 34 => ⟨S_, .i1⟩
  | 35 => ⟨S_, .i1⟩
  | 36 => ⟨S256x2x2x2x2x2x2x2, .f32⟩
  | 37 => ⟨S256x2x2x2x2x2x2x2, .i1⟩
  | 38 => ⟨S_, .f32⟩
  | 39 => ⟨S256x2x2x2x2x2x2x2, .f32⟩
  | 40 => ⟨S256x2x2x2x2x2x2x2, .f32⟩
  | 41 => ⟨S256x2x2x2x2x2x2x2, .f32⟩
  | 42 => ⟨S256x2x2x2x2x2x2x2, .f32⟩
  | 43 => ⟨S256x2x2x2x2x2x2x2, .f32⟩
  | 44 => ⟨S256x2x2x2x2x2x2x2, .f32⟩
  | 45 => ⟨S256x2x2x2x2x2x2x2, .f32⟩
  | 46 => ⟨S256x2x2x2x2x2x2x2, .f32⟩
  | 47 => ⟨S256x2x2x2x2x2x2x2, .f32⟩
  | 48 => ⟨S256x2x2x2x2x2x2x2, .f32⟩
  | 49 => ⟨S256x2x2x2x2x2x2x2, .f32⟩
  | 50 => ⟨S256x2x2x2x2x2x2x2, .f32⟩
  | 51 => ⟨S256x2x2x2x2x2x2x1x2, .f32⟩
  | 52 => ⟨S256x2x2x2x2x2x2x1x2, .f32⟩
  | 53 => ⟨S256x2x2x2x2x2x2x2x2, .f32⟩
  | 54 => ⟨S_, .i32⟩
  | 55 => ⟨S_, .i32⟩
  | 56 => ⟨S_, .i1⟩
  | 57 => ⟨S_, .i32⟩
  | 58 => ⟨S_, .i32⟩
  | 59 => ⟨S_, .i32⟩
  | 60 => ⟨S1, .i32⟩
  | 61 => ⟨S1, .i32⟩
  | 62 => ⟨S1, .i32⟩
  | 63 => ⟨S_, .i32⟩
  | 64 => ⟨S1, .i32⟩
  | 65 => ⟨S1, .i1⟩
  | 66 => ⟨S1, .i1⟩
  | 67 => ⟨S1, .i1⟩
  | 68 => ⟨S_, .i1⟩
  | 69 => ⟨S_, .i1⟩
  | 70 => ⟨S256x2x2x2x2x2x2x2, .f32⟩
  | 71 => ⟨S256x2x2x2x2x2x2x2, .i1⟩
  | 72 => ⟨S_, .f32⟩
  | 73 => ⟨S256x2x2x2x2x2x2x2, .f32⟩
  | 74 => ⟨S256x2x2x2x2x2x2x2, .f32⟩
  | 75 => ⟨S_, .i32⟩
  | 76 => ⟨S_, .i32⟩
  | 77 => ⟨S_, .i1⟩
  | 78 => ⟨S_, .i32⟩
  | 79 => ⟨S_, .i32⟩
  | 80 => ⟨S_, .i32⟩
  | 81 => ⟨S1, .i32⟩
  | 82 => ⟨S1, .i32⟩
  | 83 => ⟨S1, .i32⟩
  | 84 => ⟨S_, .i32⟩
  | 85 => ⟨S1, .i32⟩
  | 86 => ⟨S1, .i1⟩
  | 87 => ⟨S1, .i1⟩
  | 88 => ⟨S1, .i1⟩
  | 89 => ⟨S_, .i1⟩
  | 90 => ⟨S_, .i1⟩
  | 91 => ⟨S256x2x2x2x2x2x2x2, .f32⟩
  | 92 => ⟨S256x2x2x2x2x2x2x2, .i1⟩
  | 93 => ⟨S_, .f32⟩
  | 94 => ⟨S256x2x2x2x2x2x2x2, .f32⟩
  | 95 => ⟨S256x2x2x2x2x2x2x2, .f32⟩
  | 96 => ⟨S256x2x2x2x2x2x2x2, .f32⟩
  | 97 => ⟨S256x2x2x2x2x2x2x1x2, .f32⟩
  | 98 => ⟨S256x2x2x2x2x2x2x1x2, .f32⟩
  | 99 => ⟨S256x2x2x2x2x2x2x2x2, .f32⟩
  | 100 => ⟨S1, .f32⟩
  | 101 => ⟨S_, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .i32⟩
  | 109 => ⟨S_, .i32⟩
  | 110 => ⟨S_, .i1⟩
  | 111 => ⟨S_, .i32⟩
  | 112 => ⟨S_, .i32⟩
  | 113 => ⟨S_, .i32⟩
  | 114 => ⟨S1, .i32⟩
  | 115 => ⟨S1, .i32⟩
  | 116 => ⟨S1, .i32⟩
  | 117 => ⟨S_, .i32⟩
  | 118 => ⟨S1, .i32⟩
  | 119 => ⟨S1, .i1⟩
  | 120 => ⟨S1, .i1⟩
  | 121 => ⟨S1, .i1⟩
  | 122 => ⟨S_, .i1⟩
  | 123 => ⟨S_, .i1⟩
  | 124 => ⟨S256x2x2x2x2x2x2x2, .f32⟩
  | 125 => ⟨S256x2x2x2x2x2x2x2, .i1⟩
  | 126 => ⟨S_, .f32⟩
  | 127 => ⟨S256x2x2x2x2x2x2x2, .f32⟩
  | _ => ⟨S2048x4, .f32⟩

abbrev hbmTy0_3 (i : Nat) : BufTy := match i % 128 with
  | 0 => ⟨S256x2x2x2x2x2x2x2, .f32⟩
  | 1 => ⟨S_, .i32⟩
  | 2 => ⟨S_, .i32⟩
  | 3 => ⟨S_, .i1⟩
  | 4 => ⟨S_, .i32⟩
  | 5 => ⟨S_, .i32⟩
  | 6 => ⟨S_, .i32⟩
  | 7 => ⟨S1, .i32⟩
  | 8 => ⟨S1, .i32⟩
  | 9 => ⟨S1, .i32⟩
  | 10 => ⟨S_, .i32⟩
  | 11 => ⟨S1, .i32⟩
  | 12 => ⟨S1, .i1⟩
  | 13 => ⟨S1, .i1⟩
  | 14 => ⟨S1, .i1⟩
  | 15 => ⟨S_, .i1⟩
  | 16 => ⟨S_, .i1⟩
  | 17 => ⟨S256x2x2x2x2x2x2x2, .f32⟩
  | 18 => ⟨S256x2x2x2x2x2x2x2, .i1⟩
  | 19 => ⟨S_, .f32⟩
  | 20 => ⟨S256x2x2x2x2x2x2x2, .f32⟩
  | 21 => ⟨S256x2x2x2x2x2x2x2, .f32⟩
  | 22 => ⟨S256x2x2x2x2x2x2x2, .f32⟩
  | 23 => ⟨S256x2x2x2x2x2x2x2, .f32⟩
  | 24 => ⟨S256x2x2x2x2x2x2x2, .f32⟩
  | 25 => ⟨S256x2x2x2x2x2x2x2, .f32⟩
  | 26 => ⟨S256x2x2x2x2x2x2x2, .f32⟩
  | 27 => ⟨S256x2x2x2x2x2x2x2, .f32⟩
  | 28 => ⟨S256x2x2x2x2x2x2x2, .f32⟩
  | 29 => ⟨S256x2x2x2x2x2x2x2, .f32⟩
  | 30 => ⟨S256x2x2x2x2x2x2x2, .f32⟩
  | 31 => ⟨S256x2x2x2x2x2x2x2, .f32⟩
  | 32 => ⟨S256x1x2x2x2x2x2x2x2, .f32⟩
  | 33 => ⟨S256x1x2x2x2x2x2x2x2, .f32⟩
  | 34 => ⟨S256x2x2x2x2x2x2x2x2, .f32⟩
  | 35 => ⟨S1, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .i32⟩
  | 44 => ⟨S_, .i32⟩
  | 45 => ⟨S_, .i1⟩
  | 46 => ⟨S_, .i32⟩
  | 47 => ⟨S_, .i32⟩
  | 48 => ⟨S_, .i32⟩
  | 49 => ⟨S1, .i32⟩
  | 50 => ⟨S1, .i32⟩
  | 51 => ⟨S1, .i32⟩
  | 52 => ⟨S_, .i32⟩
  | 53 => ⟨S1, .i32⟩
  | 54 => ⟨S1, .i1⟩
  | 55 => ⟨S1, .i1⟩
  | 56 => ⟨S1, .i1⟩
  | 57 => ⟨S_, .i1⟩
  | 58 => ⟨S_, .i1⟩
  | 59 => ⟨S256x2x2x2x2x2x2x2, .f32⟩
  | 60 => ⟨S256x2x2x2x2x2x2x2, .i1⟩
  | 61 => ⟨S_, .f32⟩
  | 62 => ⟨S256x2x2x2x2x2x2x2, .f32⟩
  | 63 => ⟨S256x2x2x2x2x2x2x2, .f32⟩
  | 64 => ⟨S_, .i32⟩
  | 65 => ⟨S_, .i32⟩
  | 66 => ⟨S_, .i1⟩
  | 67 => ⟨S_, .i32⟩
  | 68 => ⟨S_, .i32⟩
  | 69 => ⟨S_, .i32⟩
  | 70 => ⟨S1, .i32⟩
  | 71 => ⟨S1, .i32⟩
  | 72 => ⟨S1, .i32⟩
  | 73 => ⟨S_, .i32⟩
  | 74 => ⟨S1, .i32⟩
  | 75 => ⟨S1, .i1⟩
  | 76 => ⟨S1, .i1⟩
  | 77 => ⟨S1, .i1⟩
  | 78 => ⟨S_, .i1⟩
  | 79 => ⟨S_, .i1⟩
  | 80 => ⟨S256x2x2x2x2x2x2x2, .f32⟩
  | 81 => ⟨S256x2x2x2x2x2x2x2, .i1⟩
  | 82 => ⟨S_, .f32⟩
  | 83 => ⟨S256x2x2x2x2x2x2x2, .f32⟩
  | 84 => ⟨S256x2x2x2x2x2x2x2, .f32⟩
  | 85 => ⟨S256x2x2x2x2x2x2x2, .f32⟩
  | 86 => ⟨S256x2x2x2x2x2x2x2, .f32⟩
  | 87 => ⟨S256x2x2x2x2x2x2x2, .f32⟩
  | 88 => ⟨S256x2x2x2x2x2x2x2, .f32⟩
  | 89 => ⟨S256x2x2x2x2x2x2x2, .f32⟩
  | 90 => ⟨S256x2x2x2x2x2x2x2, .f32⟩
  | 91 => ⟨S256x2x2x2x2x2x2x2, .f32⟩
  | 92 => ⟨S256x2x2x2x2x2x2x2, .f32⟩
  | 93 => ⟨S256x2x2x2x2x2x2x2, .f32⟩
  | 94 => ⟨S256x2x2x2x2x2x2x2, .f32⟩
  | 95 => ⟨S256x2x1x2x2x2x2x2x2, .f32⟩
  | 96 => ⟨S256x2x1x2x2x2x2x2x2, .f32⟩
  | 97 => ⟨S256x2x2x2x2x2x2x2x2, .f32⟩
  | 98 => ⟨S_, .i32⟩
  | 99 => ⟨S_, .i32⟩
  | 100 => ⟨S_, .i1⟩
  | 101 => ⟨S_, .i32⟩
  | 102 => ⟨S_, .i32⟩
  | 103 => ⟨S_, .i32⟩
  | 104 => ⟨S1, .i32⟩
  | 105 => ⟨S1, .i32⟩
  | 106 => ⟨S1, .i32⟩
  | 107 => ⟨S_, .i32⟩
  | 108 => ⟨S1, .i32⟩
  | 109 => ⟨S1, .i1⟩
  | 110 => ⟨S1, .i1⟩
  | 111 => ⟨S1, .i1⟩
  | 112 => ⟨S_, .i1⟩
  | 113 => ⟨S_, .i1⟩
  | 114 => ⟨S256x2x2x2x2x2x2x2, .f32⟩
  | 115 => ⟨S256x2x2x2x2x2x2x2, .i1⟩
  | 116 => ⟨S_, .f32⟩
  | 117 => ⟨S256x2x2x2x2x2x2x2, .f32⟩
  | 118 => ⟨S256x2x2x2x2x2x2x2, .f32⟩
  | 119 => ⟨S_, .i32⟩
  | 120 => ⟨S_, .i32⟩
  | 121 => ⟨S_, .i1⟩
  | 122 => ⟨S_, .i32⟩
  | 123 => ⟨S_, .i32⟩
  | 124 => ⟨S_, .i32⟩
  | 125 => ⟨S1, .i32⟩
  | 126 => ⟨S1, .i32⟩
  | 127 => ⟨S1, .i32⟩
  | _ => ⟨S2048x4, .f32⟩

abbrev hbmTy0_4 (i : Nat) : BufTy := match i % 128 with
  | 0 => ⟨S_, .i32⟩
  | 1 => ⟨S1, .i32⟩
  | 2 => ⟨S1, .i1⟩
  | 3 => ⟨S1, .i1⟩
  | 4 => ⟨S1, .i1⟩
  | 5 => ⟨S_, .i1⟩
  | 6 => ⟨S_, .i1⟩
  | 7 => ⟨S256x2x2x2x2x2x2x2, .f32⟩
  | 8 => ⟨S256x2x2x2x2x2x2x2, .i1⟩
  | 9 => ⟨S_, .f32⟩
  | 10 => ⟨S256x2x2x2x2x2x2x2, .f32⟩
  | 11 => ⟨S256x2x2x2x2x2x2x2, .f32⟩
  | 12 => ⟨S256x2x2x2x2x2x2x2, .f32⟩
  | 13 => ⟨S256x1x2x2x2x2x2x2x2, .f32⟩
  | 14 => ⟨S256x1x2x2x2x2x2x2x2, .f32⟩
  | 15 => ⟨S256x2x2x2x2x2x2x2x2, .f32⟩
  | 16 => ⟨S1, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .i32⟩
  | 25 => ⟨S_, .i32⟩
  | 26 => ⟨S_, .i1⟩
  | 27 => ⟨S_, .i32⟩
  | 28 => ⟨S_, .i32⟩
  | 29 => ⟨S_, .i32⟩
  | 30 => ⟨S1, .i32⟩
  | 31 => ⟨S1, .i32⟩
  | 32 => ⟨S1, .i32⟩
  | 33 => ⟨S_, .i32⟩
  | 34 => ⟨S1, .i32⟩
  | 35 => ⟨S1, .i1⟩
  | 36 => ⟨S1, .i1⟩
  | 37 => ⟨S1, .i1⟩
  | 38 => ⟨S_, .i1⟩
  | 39 => ⟨S_, .i1⟩
  | 40 => ⟨S256x2x2x2x2x2x2x2, .f32⟩
  | 41 => ⟨S256x2x2x2x2x2x2x2, .i1⟩
  | 42 => ⟨S_, .f32⟩
  | 43 => ⟨S256x2x2x2x2x2x2x2, .f32⟩
  | 44 => ⟨S256x2x2x2x2x2x2x2, .f32⟩
  | 45 => ⟨S_, .i32⟩
  | 46 => ⟨S_, .i32⟩
  | 47 => ⟨S_, .i1⟩
  | 48 => ⟨S_, .i32⟩
  | 49 => ⟨S_, .i32⟩
  | 50 => ⟨S_, .i32⟩
  | 51 => ⟨S1, .i32⟩
  | 52 => ⟨S1, .i32⟩
  | 53 => ⟨S1, .i32⟩
  | 54 => ⟨S_, .i32⟩
  | 55 => ⟨S1, .i32⟩
  | 56 => ⟨S1, .i1⟩
  | 57 => ⟨S1, .i1⟩
  | 58 => ⟨S1, .i1⟩
  | 59 => ⟨S_, .i1⟩
  | 60 => ⟨S_, .i1⟩
  | 61 => ⟨S256x2x2x2x2x2x2x2, .f32⟩
  | 62 => ⟨S256x2x2x2x2x2x2x2, .i1⟩
  | 63 => ⟨S_, .f32⟩
  | 64 => ⟨S256x2x2x2x2x2x2x2, .f32⟩
  | 65 => ⟨S256x2x2x2x2x2x2x2, .f32⟩
  | 66 => ⟨S256x2x2x2x2x2x2x2, .f32⟩
  | 67 => ⟨S256x2x2x2x2x2x2x2, .f32⟩
  | 68 => ⟨S256x2x2x2x2x2x2x2, .f32⟩
  | 69 => ⟨S256x2x2x2x2x2x2x2, .f32⟩
  | 70 => ⟨S256x2x2x2x2x2x2x2, .f32⟩
  | 71 => ⟨S256x2x2x2x2x2x2x2, .f32⟩
  | 72 => ⟨S256x2x2x2x2x2x2x2, .f32⟩
  | 73 => ⟨S256x2x2x2x2x2x2x2, .f32⟩
  | 74 => ⟨S256x2x2x2x2x2x2x2, .f32⟩
  | 75 => ⟨S256x2x2x2x2x2x2x2, .f32⟩
  | 76 => ⟨S256x2x2x1x2x2x2x2x2, .f32⟩
  | 77 => ⟨S256x2x2x1x2x2x2x2x2, .f32⟩
  | 78 => ⟨S256x2x2x2x2x2x2x2x2, .f32⟩
  | 79 => ⟨S1, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .i32⟩
  | 88 => ⟨S_, .i32⟩
  | 89 => ⟨S_, .i1⟩
  | 90 => ⟨S_, .i32⟩
  | 91 => ⟨S_, .i32⟩
  | 92 => ⟨S_, .i32⟩
  | 93 => ⟨S1, .i32⟩
  | 94 => ⟨S1, .i32⟩
  | 95 => ⟨S1, .i32⟩
  | 96 => ⟨S_, .i32⟩
  | 97 => ⟨S1, .i32⟩
  | 98 => ⟨S1, .i1⟩
  | 99 => ⟨S1, .i1⟩
  | 100 => ⟨S1, .i1⟩
  | 101 => ⟨S_, .i1⟩
  | 102 => ⟨S_, .i1⟩
  | 103 => ⟨S256x2x2x2x2x2x2x2, .f32⟩
  | 104 => ⟨S256x2x2x2x2x2x2x2, .i1⟩
  | 105 => ⟨S_, .f32⟩
  | 106 => ⟨S256x2x2x2x2x2x2x2, .f32⟩
  | 107 => ⟨S256x2x2x2x2x2x2x2, .f32⟩
  | 108 => ⟨S_, .i32⟩
  | 109 => ⟨S_, .i32⟩
  | 110 => ⟨S_, .i1⟩
  | 111 => ⟨S_, .i32⟩
  | 112 => ⟨S_, .i32⟩
  | 113 => ⟨S_, .i32⟩
  | 114 => ⟨S1, .i32⟩
  | 115 => ⟨S1, .i32⟩
  | 116 => ⟨S1, .i32⟩
  | 117 => ⟨S_, .i32⟩
  | 118 => ⟨S1, .i32⟩
  | 119 => ⟨S1, .i1⟩
  | 120 => ⟨S1, .i1⟩
  | 121 => ⟨S1, .i1⟩
  | 122 => ⟨S_, .i1⟩
  | 123 => ⟨S_, .i1⟩
  | 124 => ⟨S256x2x2x2x2x2x2x2, .f32⟩
  | 125 => ⟨S256x2x2x2x2x2x2x2, .i1⟩
  | 126 => ⟨S_, .f32⟩
  | 127 => ⟨S256x2x2x2x2x2x2x2, .f32⟩
  | _ => ⟨S2048x4, .f32⟩

abbrev hbmTy0_5 (i : Nat) : BufTy := match i % 128 with
  | 0 => ⟨S256x2x2x2x2x2x2x2, .f32⟩
  | 1 => ⟨S256x2x2x2x2x2x2x2, .f32⟩
  | 2 => ⟨S256x2x2x2x2x2x2x2, .f32⟩
  | 3 => ⟨S256x2x2x2x2x2x2x2, .f32⟩
  | 4 => ⟨S256x2x2x2x2x2x2x2, .f32⟩
  | 5 => ⟨S256x2x2x2x2x2x2x2, .f32⟩
  | 6 => ⟨S256x2x2x2x2x2x2x2, .f32⟩
  | 7 => ⟨S256x2x2x2x2x2x2x2, .f32⟩
  | 8 => ⟨S256x2x2x2x2x2x2x2, .f32⟩
  | 9 => ⟨S256x2x2x2x2x2x2x2, .f32⟩
  | 10 => ⟨S256x2x2x2x2x2x2x2, .f32⟩
  | 11 => ⟨S256x2x2x2x1x2x2x2x2, .f32⟩
  | 12 => ⟨S256x2x2x2x1x2x2x2x2, .f32⟩
  | 13 => ⟨S256x2x2x2x2x2x2x2x2, .f32⟩
  | 14 => ⟨S_, .i32⟩
  | 15 => ⟨S_, .i32⟩
  | 16 => ⟨S_, .i1⟩
  | 17 => ⟨S_, .i32⟩
  | 18 => ⟨S_, .i32⟩
  | 19 => ⟨S_, .i32⟩
  | 20 => ⟨S1, .i32⟩
  | 21 => ⟨S1, .i32⟩
  | 22 => ⟨S1, .i32⟩
  | 23 => ⟨S_, .i32⟩
  | 24 => ⟨S1, .i32⟩
  | 25 => ⟨S1, .i1⟩
  | 26 => ⟨S1, .i1⟩
  | 27 => ⟨S1, .i1⟩
  | 28 => ⟨S_, .i1⟩
  | 29 => ⟨S_, .i1⟩
  | 30 => ⟨S256x2x2x2x2x2x2x2, .f32⟩
  | 31 => ⟨S256x2x2x2x2x2x2x2, .i1⟩
  | 32 => ⟨S_, .f32⟩
  | 33 => ⟨S256x2x2x2x2x2x2x2, .f32⟩
  | 34 => ⟨S256x2x2x2x2x2x2x2, .f32⟩
  | 35 => ⟨S_, .i32⟩
  | 36 => ⟨S_, .i32⟩
  | 37 => ⟨S_, .i1⟩
  | 38 => ⟨S_, .i32⟩
  | 39 => ⟨S_, .i32⟩
  | 40 => ⟨S_, .i32⟩
  | 41 => ⟨S1, .i32⟩
  | 42 => ⟨S1, .i32⟩
  | 43 => ⟨S1, .i32⟩
  | 44 => ⟨S_, .i32⟩
  | 45 => ⟨S1, .i32⟩
  | 46 => ⟨S1, .i1⟩
  | 47 => ⟨S1, .i1⟩
  | 48 => ⟨S1, .i1⟩
  | 49 => ⟨S_, .i1⟩
  | 50 => ⟨S_, .i1⟩
  | 51 => ⟨S256x2x2x2x2x2x2x2, .f32⟩
  | 52 => ⟨S256x2x2x2x2x2x2x2, .i1⟩
  | 53 => ⟨S_, .f32⟩
  | 54 => ⟨S256x2x2x2x2x2x2x2, .f32⟩
  | 55 => ⟨S256x2x2x2x2x2x2x2, .f32⟩
  | 56 => ⟨S256x2x2x2x2x2x2x2, .f32⟩
  | 57 => ⟨S256x2x2x2x1x2x2x2x2, .f32⟩
  | 58 => ⟨S256x2x2x2x1x2x2x2x2, .f32⟩
  | 59 => ⟨S256x2x2x2x2x2x2x2x2, .f32⟩
  | 60 => ⟨S1, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .i32⟩
  | 69 => ⟨S_, .i32⟩
  | 70 => ⟨S_, .i1⟩
  | 71 => ⟨S_, .i32⟩
  | 72 => ⟨S_, .i32⟩
  | 73 => ⟨S_, .i32⟩
  | 74 => ⟨S1, .i32⟩
  | 75 => ⟨S1, .i32⟩
  | 76 => ⟨S1, .i32⟩
  | 77 => ⟨S_, .i32⟩
  | 78 => ⟨S1, .i32⟩
  | 79 => ⟨S1, .i1⟩
  | 80 => ⟨S1, .i1⟩
  | 81 => ⟨S1, .i1⟩
  | 82 => ⟨S_, .i1⟩
  | 83 => ⟨S_, .i1⟩
  | 84 => ⟨S256x2x2x2x2x2x2x2, .f32⟩
  | 85 => ⟨S256x2x2x2x2x2x2x2, .i1⟩
  | 86 => ⟨S_, .f32⟩
  | 87 => ⟨S256x2x2x2x2x2x2x2, .f32⟩
  | 88 => ⟨S256x2x2x2x2x2x2x2, .f32⟩
  | 89 => ⟨S_, .i32⟩
  | 90 => ⟨S_, .i32⟩
  | 91 => ⟨S_, .i1⟩
  | 92 => ⟨S_, .i32⟩
  | 93 => ⟨S_, .i32⟩
  | 94 => ⟨S_, .i32⟩
  | 95 => ⟨S1, .i32⟩
  | 96 => ⟨S1, .i32⟩
  | 97 => ⟨S1, .i32⟩
  | 98 => ⟨S_, .i32⟩
  | 99 => ⟨S1, .i32⟩
  | 100 => ⟨S1, .i1⟩
  | 101 => ⟨S1, .i1⟩
  | 102 => ⟨S1, .i1⟩
  | 103 => ⟨S_, .i1⟩
  | 104 => ⟨S_, .i1⟩
  | 105 => ⟨S256x2x2x2x2x2x2x2, .f32⟩
  | 106 => ⟨S256x2x2x2x2x2x2x2, .i1⟩
  | 107 => ⟨S_, .f32⟩
  | 108 => ⟨S256x2x2x2x2x2x2x2, .f32⟩
  | 109 => ⟨S256x2x2x2x2x2x2x2, .f32⟩
  | 110 => ⟨S256x2x2x2x2x2x2x2, .f32⟩
  | 111 => ⟨S256x2x2x2x2x2x2x2, .f32⟩
  | 112 => ⟨S256x2x2x2x2x2x2x2, .f32⟩
  | 113 => ⟨S256x2x2x2x2x2x2x2, .f32⟩
  | 114 => ⟨S256x2x2x2x2x2x2x2, .f32⟩
  | 115 => ⟨S256x2x2x2x2x2x2x2, .f32⟩
  | 116 => ⟨S256x2x2x2x2x2x2x2, .f32⟩
  | 117 => ⟨S256x2x2x2x2x2x2x2, .f32⟩
  | 118 => ⟨S256x2x2x2x2x2x2x2, .f32⟩
  | 119 => ⟨S256x2x2x2x2x2x2x2, .f32⟩
  | 120 => ⟨S256x2x2x2x2x1x2x2x2, .f32⟩
  | 121 => ⟨S256x2x2x2x2x1x2x2x2, .f32⟩
  | 122 => ⟨S256x2x2x2x2x2x2x2x2, .f32⟩
  | 123 => ⟨S1, .f32⟩
  | 124 => ⟨S_, .f32⟩
  | 125 => ⟨S_, .f32⟩
  | 126 => ⟨S_, .f32⟩
  | 127 => ⟨S_, .f32⟩
  | _ => ⟨S2048x4, .f32⟩

abbrev hbmTy0_6 (i : Nat) : BufTy := match i % 128 with
  | 0 => ⟨S_, .f32⟩
  | 1 => ⟨S_, .f32⟩
  | 2 => ⟨S_, .f32⟩
  | 3 => ⟨S_, .i32⟩
  | 4 => ⟨S_, .i32⟩
  | 5 => ⟨S_, .i1⟩
  | 6 => ⟨S_, .i32⟩
  | 7 => ⟨S_, .i32⟩
  | 8 => ⟨S_, .i32⟩
  | 9 => ⟨S1, .i32⟩
  | 10 => ⟨S1, .i32⟩
  | 11 => ⟨S1, .i32⟩
  | 12 => ⟨S_, .i32⟩
  | 13 => ⟨S1, .i32⟩
  | 14 => ⟨S1, .i1⟩
  | 15 => ⟨S1, .i1⟩
  | 16 => ⟨S1, .i1⟩
  | 17 => ⟨S_, .i1⟩
  | 18 => ⟨S_, .i1⟩
  | 19 => ⟨S256x2x2x2x2x2x2x2, .f32⟩
  | 20 => ⟨S256x2x2x2x2x2x2x2, .i1⟩
  | 21 => ⟨S_, .f32⟩
  | 22 => ⟨S256x2x2x2x2x2x2x2, .f32⟩
  | 23 => ⟨S256x2x2x2x2x2x2x2, .f32⟩
  | 24 => ⟨S_, .i32⟩
  | 25 => ⟨S_, .i32⟩
  | 26 => ⟨S_, .i1⟩
  | 27 => ⟨S_, .i32⟩
  | 28 => ⟨S_, .i32⟩
  | 29 => ⟨S_, .i32⟩
  | 30 => ⟨S1, .i32⟩
  | 31 => ⟨S1, .i32⟩
  | 32 => ⟨S1, .i32⟩
  | 33 => ⟨S_, .i32⟩
  | 34 => ⟨S1, .i32⟩
  | 35 => ⟨S1, .i1⟩
  | 36 => ⟨S1, .i1⟩
  | 37 => ⟨S1, .i1⟩
  | 38 => ⟨S_, .i1⟩
  | 39 => ⟨S_, .i1⟩
  | 40 => ⟨S256x2x2x2x2x2x2x2, .f32⟩
  | 41 => ⟨S256x2x2x2x2x2x2x2, .i1⟩
  | 42 => ⟨S_, .f32⟩
  | 43 => ⟨S256x2x2x2x2x2x2x2, .f32⟩
  | 44 => ⟨S256x2x2x2x2x2x2x2, .f32⟩
  | 45 => ⟨S256x2x2x2x2x2x2x2, .f32⟩
  | 46 => ⟨S256x2x2x2x2x2x2x2, .f32⟩
  | 47 => ⟨S256x2x2x2x2x2x2x2, .f32⟩
  | 48 => ⟨S256x2x2x2x2x2x2x2, .f32⟩
  | 49 => ⟨S256x2x2x2x2x2x2x2, .f32⟩
  | 50 => ⟨S256x2x2x2x2x2x2x2, .f32⟩
  | 51 => ⟨S256x2x2x2x2x2x2x2, .f32⟩
  | 52 => ⟨S256x2x2x2x2x2x2x2, .f32⟩
  | 53 => ⟨S256x2x2x2x2x2x2x2, .f32⟩
  | 54 => ⟨S256x2x2x2x2x2x2x2, .f32⟩
  | 55 => ⟨S256x2x2x2x2x2x1x2x2, .f32⟩
  | 56 => ⟨S256x2x2x2x2x2x1x2x2, .f32⟩
  | 57 => ⟨S256x2x2x2x2x2x2x2x2, .f32⟩
  | 58 => ⟨S_, .i32⟩
  | 59 => ⟨S_, .i32⟩
  | 60 => ⟨S_, .i1⟩
  | 61 => ⟨S_, .i32⟩
  | 62 => ⟨S_, .i32⟩
  | 63 => ⟨S_, .i32⟩
  | 64 => ⟨S1, .i32⟩
  | 65 => ⟨S1, .i32⟩
  | 66 => ⟨S1, .i32⟩
  | 67 => ⟨S_, .i32⟩
  | 68 => ⟨S1, .i32⟩
  | 69 => ⟨S1, .i1⟩
  | 70 => ⟨S1, .i1⟩
  | 71 => ⟨S1, .i1⟩
  | 72 => ⟨S_, .i1⟩
  | 73 => ⟨S_, .i1⟩
  | 74 => ⟨S256x2x2x2x2x2x2x2, .f32⟩
  | 75 => ⟨S256x2x2x2x2x2x2x2, .i1⟩
  | 76 => ⟨S_, .f32⟩
  | 77 => ⟨S256x2x2x2x2x2x2x2, .f32⟩
  | 78 => ⟨S256x2x2x2x2x2x2x2, .f32⟩
  | 79 => ⟨S_, .i32⟩
  | 80 => ⟨S_, .i32⟩
  | 81 => ⟨S_, .i1⟩
  | 82 => ⟨S_, .i32⟩
  | 83 => ⟨S_, .i32⟩
  | 84 => ⟨S_, .i32⟩
  | 85 => ⟨S1, .i32⟩
  | 86 => ⟨S1, .i32⟩
  | 87 => ⟨S1, .i32⟩
  | 88 => ⟨S_, .i32⟩
  | 89 => ⟨S1, .i32⟩
  | 90 => ⟨S1, .i1⟩
  | 91 => ⟨S1, .i1⟩
  | 92 => ⟨S1, .i1⟩
  | 93 => ⟨S_, .i1⟩
  | 94 => ⟨S_, .i1⟩
  | 95 => ⟨S256x2x2x2x2x2x2x2, .f32⟩
  | 96 => ⟨S256x2x2x2x2x2x2x2, .i1⟩
  | 97 => ⟨S_, .f32⟩
  | 98 => ⟨S256x2x2x2x2x2x2x2, .f32⟩
  | 99 => ⟨S256x2x2x2x2x2x2x2, .f32⟩
  | 100 => ⟨S256x2x2x2x2x2x2x2, .f32⟩
  | 101 => ⟨S256x2x2x2x2x1x2x2x2, .f32⟩
  | 102 => ⟨S256x2x2x2x2x1x2x2x2, .f32⟩
  | 103 => ⟨S256x2x2x2x2x2x2x2x2, .f32⟩
  | 104 => ⟨S1, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .i32⟩
  | 113 => ⟨S_, .i32⟩
  | 114 => ⟨S_, .i1⟩
  | 115 => ⟨S_, .i32⟩
  | 116 => ⟨S_, .i32⟩
  | 117 => ⟨S_, .i32⟩
  | 118 => ⟨S1, .i32⟩
  | 119 => ⟨S1, .i32⟩
  | 120 => ⟨S1, .i32⟩
  | 121 => ⟨S_, .i32⟩
  | 122 => ⟨S1, .i32⟩
  | 123 => ⟨S1, .i1⟩
  | 124 => ⟨S1, .i1⟩
  | 125 => ⟨S1, .i1⟩
  | 126 => ⟨S_, .i1⟩
  | 127 => ⟨S_, .i1⟩
  | _ => ⟨S2048x4, .f32⟩

abbrev hbmTy0_7 (i : Nat) : BufTy := match i % 128 with
  | 0 => ⟨S256x2x2x2x2x2x2x2, .f32⟩
  | 1 => ⟨S256x2x2x2x2x2x2x2, .i1⟩
  | 2 => ⟨S_, .f32⟩
  | 3 => ⟨S256x2x2x2x2x2x2x2, .f32⟩
  | 4 => ⟨S256x2x2x2x2x2x2x2, .f32⟩
  | 5 => ⟨S_, .i32⟩
  | 6 => ⟨S_, .i32⟩
  | 7 => ⟨S_, .i1⟩
  | 8 => ⟨S_, .i32⟩
  | 9 => ⟨S_, .i32⟩
  | 10 => ⟨S_, .i32⟩
  | 11 => ⟨S1, .i32⟩
  | 12 => ⟨S1, .i32⟩
  | 13 => ⟨S1, .i32⟩
  | 14 => ⟨S_, .i32⟩
  | 15 => ⟨S1, .i32⟩
  | 16 => ⟨S1, .i1⟩
  | 17 => ⟨S1, .i1⟩
  | 18 => ⟨S1, .i1⟩
  | 19 => ⟨S_, .i1⟩
  | 20 => ⟨S_, .i1⟩
  | 21 => ⟨S256x2x2x2x2x2x2x2, .f32⟩
  | 22 => ⟨S256x2x2x2x2x2x2x2, .i1⟩
  | 23 => ⟨S_, .f32⟩
  | 24 => ⟨S256x2x2x2x2x2x2x2, .f32⟩
  | 25 => ⟨S256x2x2x2x2x2x2x2, .f32⟩
  | 26 => ⟨S256x2x2x2x2x2x2x2, .f32⟩
  | 27 => ⟨S256x2x2x2x2x2x2x2, .f32⟩
  | 28 => ⟨S256x2x2x2x2x2x2x2, .f32⟩
  | 29 => ⟨S256x2x2x2x2x2x2x2, .f32⟩
  | 30 => ⟨S256x2x2x2x2x2x2x2, .f32⟩
  | 31 => ⟨S256x2x2x2x2x2x2x2, .f32⟩
  | 32 => ⟨S256x2x2x2x2x2x2x2, .f32⟩
  | 33 => ⟨S256x2x2x2x2x2x2x2, .f32⟩
  | 34 => ⟨S256x2x2x2x2x2x2x2, .f32⟩
  | 35 => ⟨S256x2x2x2x2x2x2x2, .f32⟩
  | 36 => ⟨S256x2x2x2x2x2x2x1x2, .f32⟩
  | 37 => ⟨S256x2x2x2x2x2x2x1x2, .f32⟩
  | 38 => ⟨S256x2x2x2x2x2x2x2x2, .f32⟩
  | 39 => ⟨S1, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S_, .i32⟩
  | 48 => ⟨S_, .i32⟩
  | 49 => ⟨S_, .i1⟩
  | 50 => ⟨S_, .i32⟩
  | 51 => ⟨S_, .i32⟩
  | 52 => ⟨S_, .i32⟩
  | 53 => ⟨S1, .i32⟩
  | 54 => ⟨S1, .i32⟩
  | 55 => ⟨S1, .i32⟩
  | 56 => ⟨S_, .i32⟩
  | 57 => ⟨S1, .i32⟩
  | 58 => ⟨S1, .i1⟩
  | 59 => ⟨S1, .i1⟩
  | 60 => ⟨S1, .i1⟩
  | 61 => ⟨S_, .i1⟩
  | 62 => ⟨S_, .i1⟩
  | 63 => ⟨S256x2x2x2x2x2x2x2, .f32⟩
  | 64 => ⟨S256x2x2x2x2x2x2x2, .i1⟩
  | 65 => ⟨S_, .f32⟩
  | 66 => ⟨S256x2x2x2x2x2x2x2, .f32⟩
  | 67 => ⟨S256x2x2x2x2x2x2x2, .f32⟩
  | 68 => ⟨S_, .i32⟩
  | 69 => ⟨S_, .i32⟩
  | 70 => ⟨S_, .i1⟩
  | 71 => ⟨S_, .i32⟩
  | 72 => ⟨S_, .i32⟩
  | 73 => ⟨S_, .i32⟩
  | 74 => ⟨S1, .i32⟩
  | 75 => ⟨S1, .i32⟩
  | 76 => ⟨S1, .i32⟩
  | 77 => ⟨S_, .i32⟩
  | 78 => ⟨S1, .i32⟩
  | 79 => ⟨S1, .i1⟩
  | 80 => ⟨S1, .i1⟩
  | 81 => ⟨S1, .i1⟩
  | 82 => ⟨S_, .i1⟩
  | 83 => ⟨S_, .i1⟩
  | 84 => ⟨S256x2x2x2x2x2x2x2, .f32⟩
  | 85 => ⟨S256x2x2x2x2x2x2x2, .i1⟩
  | 86 => ⟨S_, .f32⟩
  | 87 => ⟨S256x2x2x2x2x2x2x2, .f32⟩
  | 88 => ⟨S256x2x2x2x2x2x2x2, .f32⟩
  | 89 => ⟨S256x2x2x2x2x2x2x2, .f32⟩
  | 90 => ⟨S256x2x2x2x2x2x2x2, .f32⟩
  | 91 => ⟨S256x2x2x2x2x2x2x2, .f32⟩
  | 92 => ⟨S256x2x2x2x2x2x2x2, .f32⟩
  | 93 => ⟨S256x2x2x2x2x2x2x2, .f32⟩
  | 94 => ⟨S256x2x2x2x2x2x2x2, .f32⟩
  | 95 => ⟨S256x2x2x2x2x2x2x2, .f32⟩
  | 96 => ⟨S256x2x2x2x2x2x2x2, .f32⟩
  | 97 => ⟨S256x2x2x2x2x2x2x2, .f32⟩
  | 98 => ⟨S256x2x2x2x2x2x2x2, .f32⟩
  | 99 => ⟨S256x2x2x2x2x2x2x2x1, .f32⟩
  | 100 => ⟨S256x2x2x2x2x2x2x2x1, .f32⟩
  | 101 => ⟨S256x2x2x2x2x2x2x2x2, .f32⟩
  | 102 => ⟨S_, .i32⟩
  | 103 => ⟨S_, .i32⟩
  | 104 => ⟨S_, .i1⟩
  | 105 => ⟨S_, .i32⟩
  | 106 => ⟨S_, .i32⟩
  | 107 => ⟨S_, .i32⟩
  | 108 => ⟨S1, .i32⟩
  | 109 => ⟨S1, .i32⟩
  | 110 => ⟨S1, .i32⟩
  | 111 => ⟨S_, .i32⟩
  | 112 => ⟨S1, .i32⟩
  | 113 => ⟨S1, .i1⟩
  | 114 => ⟨S1, .i1⟩
  | 115 => ⟨S1, .i1⟩
  | 116 => ⟨S_, .i1⟩
  | 117 => ⟨S_, .i1⟩
  | 118 => ⟨S256x2x2x2x2x2x2x2, .f32⟩
  | 119 => ⟨S256x2x2x2x2x2x2x2, .i1⟩
  | 120 => ⟨S_, .f32⟩
  | 121 => ⟨S256x2x2x2x2x2x2x2, .f32⟩
  | 122 => ⟨S256x2x2x2x2x2x2x2, .f32⟩
  | 123 => ⟨S_, .i32⟩
  | 124 => ⟨S_, .i32⟩
  | 125 => ⟨S_, .i1⟩
  | 126 => ⟨S_, .i32⟩
  | 127 => ⟨S_, .i32⟩
  | _ => ⟨S2048x4, .f32⟩

abbrev hbmTy0_8 (i : Nat) : BufTy := match i % 128 with
  | 0 => ⟨S_, .i32⟩
  | 1 => ⟨S1, .i32⟩
  | 2 => ⟨S1, .i32⟩
  | 3 => ⟨S1, .i32⟩
  | 4 => ⟨S_, .i32⟩
  | 5 => ⟨S1, .i32⟩
  | 6 => ⟨S1, .i1⟩
  | 7 => ⟨S1, .i1⟩
  | 8 => ⟨S1, .i1⟩
  | 9 => ⟨S_, .i1⟩
  | 10 => ⟨S_, .i1⟩
  | 11 => ⟨S256x2x2x2x2x2x2x2, .f32⟩
  | 12 => ⟨S256x2x2x2x2x2x2x2, .i1⟩
  | 13 => ⟨S_, .f32⟩
  | 14 => ⟨S256x2x2x2x2x2x2x2, .f32⟩
  | 15 => ⟨S256x2x2x2x2x2x2x2, .f32⟩
  | 16 => ⟨S256x2x2x2x2x2x2x2, .f32⟩
  | 17 => ⟨S256x2x2x2x2x2x2x2x1, .f32⟩
  | 18 => ⟨S256x2x2x2x2x2x2x2x1, .f32⟩
  | 19 => ⟨S256x2x2x2x2x2x2x2x2, .f32⟩
  | 20 => ⟨S1, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .i32⟩
  | 29 => ⟨S_, .i32⟩
  | 30 => ⟨S_, .i1⟩
  | 31 => ⟨S_, .i32⟩
  | 32 => ⟨S_, .i32⟩
  | 33 => ⟨S_, .i32⟩
  | 34 => ⟨S1, .i32⟩
  | 35 => ⟨S1, .i32⟩
  | 36 => ⟨S1, .i32⟩
  | 37 => ⟨S_, .i32⟩
  | 38 => ⟨S1, .i32⟩
  | 39 => ⟨S1, .i1⟩
  | 40 => ⟨S1, .i1⟩
  | 41 => ⟨S1, .i1⟩
  | 42 => ⟨S_, .i1⟩
  | 43 => ⟨S_, .i1⟩
  | 44 => ⟨S256x2x2x2x2x2x2x2, .f32⟩
  | 45 => ⟨S256x2x2x2x2x2x2x2, .i1⟩
  | 46 => ⟨S_, .f32⟩
  | 47 => ⟨S256x2x2x2x2x2x2x2, .f32⟩
  | 48 => ⟨S256x2x2x2x2x2x2x2, .f32⟩
  | 49 => ⟨S_, .i32⟩
  | 50 => ⟨S_, .i32⟩
  | 51 => ⟨S_, .i1⟩
  | 52 => ⟨S_, .i32⟩
  | 53 => ⟨S_, .i32⟩
  | 54 => ⟨S_, .i32⟩
  | 55 => ⟨S1, .i32⟩
  | 56 => ⟨S1, .i32⟩
  | 57 => ⟨S1, .i32⟩
  | 58 => ⟨S_, .i32⟩
  | 59 => ⟨S1, .i32⟩
  | 60 => ⟨S1, .i1⟩
  | 61 => ⟨S1, .i1⟩
  | 62 => ⟨S1, .i1⟩
  | 63 => ⟨S_, .i1⟩
  | 64 => ⟨S_, .i1⟩
  | 65 => ⟨S256x2x2x2x2x2x2x2, .f32⟩
  | 66 => ⟨S256x2x2x2x2x2x2x2, .i1⟩
  | 67 => ⟨S_, .f32⟩
  | 68 => ⟨S256x2x2x2x2x2x2x2, .f32⟩
  | 69 => ⟨S256x2x2x2x2x2x2x2, .f32⟩
  | 70 => ⟨S256x2x2x2x2x2x2x2, .f32⟩
  | 71 => ⟨S256x2x2x2x2x2x2x2, .f32⟩
  | 72 => ⟨S256x2x2x2x2x2x2x2, .f32⟩
  | 73 => ⟨S256x2x2x2x2x2x2x2, .f32⟩
  | 74 => ⟨S256x2x2x2x2x2x2x2, .f32⟩
  | 75 => ⟨S256x2x2x2x2x2x2x2, .f32⟩
  | 76 => ⟨S256x2x2x2x2x2x2x2, .f32⟩
  | 77 => ⟨S256x2x2x2x2x2x2x2, .f32⟩
  | 78 => ⟨S256x2x2x2x2x2x2x2, .f32⟩
  | 79 => ⟨S256x2x2x2x2x2x2x2, .f32⟩
  | 80 => ⟨S256x2x2x1x2x2x2x2x2, .f32⟩
  | 81 => ⟨S256x2x2x1x2x2x2x2x2, .f32⟩
  | 82 => ⟨S256x2x2x2x2x2x2x2x2, .f32⟩
  | 83 => ⟨S1, .f32⟩
  | 84 => ⟨S_, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .i32⟩
  | 92 => ⟨S_, .i32⟩
  | 93 => ⟨S_, .i1⟩
  | 94 => ⟨S_, .i32⟩
  | 95 => ⟨S_, .i32⟩
  | 96 => ⟨S_, .i32⟩
  | 97 => ⟨S1, .i32⟩
  | 98 => ⟨S1, .i32⟩
  | 99 => ⟨S1, .i32⟩
  | 100 => ⟨S_, .i32⟩
  | 101 => ⟨S1, .i32⟩
  | 102 => ⟨S1, .i1⟩
  | 103 => ⟨S1, .i1⟩
  | 104 => ⟨S1, .i1⟩
  | 105 => ⟨S_, .i1⟩
  | 106 => ⟨S_, .i1⟩
  | 107 => ⟨S256x2x2x2x2x2x2x2, .f32⟩
  | 108 => ⟨S256x2x2x2x2x2x2x2, .i1⟩
  | 109 => ⟨S_, .f32⟩
  | 110 => ⟨S256x2x2x2x2x2x2x2, .f32⟩
  | 111 => ⟨S256x2x2x2x2x2x2x2, .f32⟩
  | 112 => ⟨S_, .i32⟩
  | 113 => ⟨S_, .i32⟩
  | 114 => ⟨S_, .i1⟩
  | 115 => ⟨S_, .i32⟩
  | 116 => ⟨S_, .i32⟩
  | 117 => ⟨S_, .i32⟩
  | 118 => ⟨S1, .i32⟩
  | 119 => ⟨S1, .i32⟩
  | 120 => ⟨S1, .i32⟩
  | 121 => ⟨S_, .i32⟩
  | 122 => ⟨S1, .i32⟩
  | 123 => ⟨S1, .i1⟩
  | 124 => ⟨S1, .i1⟩
  | 125 => ⟨S1, .i1⟩
  | 126 => ⟨S_, .i1⟩
  | 127 => ⟨S_, .i1⟩
  | _ => ⟨S2048x4, .f32⟩

abbrev hbmTy0_9 (i : Nat) : BufTy := match i % 128 with
  | 0 => ⟨S256x2x2x2x2x2x2x2, .f32⟩
  | 1 => ⟨S256x2x2x2x2x2x2x2, .i1⟩
  | 2 => ⟨S_, .f32⟩
  | 3 => ⟨S256x2x2x2x2x2x2x2, .f32⟩
  | 4 => ⟨S256x2x2x2x2x2x2x2, .f32⟩
  | 5 => ⟨S256x2x2x2x2x2x2x2, .f32⟩
  | 6 => ⟨S256x2x2x2x2x2x2x2, .f32⟩
  | 7 => ⟨S256x2x2x2x2x2x2x2, .f32⟩
  | 8 => ⟨S256x2x2x2x2x2x2x2, .f32⟩
  | 9 => ⟨S256x2x2x2x2x2x2x2, .f32⟩
  | 10 => ⟨S256x2x2x2x2x2x2x2, .f32⟩
  | 11 => ⟨S256x2x2x2x2x2x2x2, .f32⟩
  | 12 => ⟨S256x2x2x2x2x2x2x2, .f32⟩
  | 13 => ⟨S256x2x2x2x2x2x2x2, .f32⟩
  | 14 => ⟨S256x2x2x2x2x2x2x2, .f32⟩
  | 15 => ⟨S256x2x2x2x2x2x1x2x2, .f32⟩
  | 16 => ⟨S256x2x2x2x2x2x1x2x2, .f32⟩
  | 17 => ⟨S256x2x2x2x2x2x2x2x2, .f32⟩
  | 18 => ⟨S_, .i32⟩
  | 19 => ⟨S_, .i32⟩
  | 20 => ⟨S_, .i1⟩
  | 21 => ⟨S_, .i32⟩
  | 22 => ⟨S_, .i32⟩
  | 23 => ⟨S_, .i32⟩
  | 24 => ⟨S1, .i32⟩
  | 25 => ⟨S1, .i32⟩
  | 26 => ⟨S1, .i32⟩
  | 27 => ⟨S_, .i32⟩
  | 28 => ⟨S1, .i32⟩
  | 29 => ⟨S1, .i1⟩
  | 30 => ⟨S1, .i1⟩
  | 31 => ⟨S1, .i1⟩
  | 32 => ⟨S_, .i1⟩
  | 33 => ⟨S_, .i1⟩
  | 34 => ⟨S256x2x2x2x2x2x2x2, .f32⟩
  | 35 => ⟨S256x2x2x2x2x2x2x2, .i1⟩
  | 36 => ⟨S_, .f32⟩
  | 37 => ⟨S256x2x2x2x2x2x2x2, .f32⟩
  | 38 => ⟨S256x2x2x2x2x2x2x2, .f32⟩
  | 39 => ⟨S_, .i32⟩
  | 40 => ⟨S_, .i32⟩
  | 41 => ⟨S_, .i1⟩
  | 42 => ⟨S_, .i32⟩
  | 43 => ⟨S_, .i32⟩
  | 44 => ⟨S_, .i32⟩
  | 45 => ⟨S1, .i32⟩
  | 46 => ⟨S1, .i32⟩
  | 47 => ⟨S1, .i32⟩
  | 48 => ⟨S_, .i32⟩
  | 49 => ⟨S1, .i32⟩
  | 50 => ⟨S1, .i1⟩
  | 51 => ⟨S1, .i1⟩
  | 52 => ⟨S1, .i1⟩
  | 53 => ⟨S_, .i1⟩
  | 54 => ⟨S_, .i1⟩
  | 55 => ⟨S256x2x2x2x2x2x2x2, .f32⟩
  | 56 => ⟨S256x2x2x2x2x2x2x2, .i1⟩
  | 57 => ⟨S_, .f32⟩
  | 58 => ⟨S256x2x2x2x2x2x2x2, .f32⟩
  | 59 => ⟨S256x2x2x2x2x2x2x2, .f32⟩
  | 60 => ⟨S256x2x2x2x2x2x2x2, .f32⟩
  | 61 => ⟨S256x2x2x1x2x2x2x2x2, .f32⟩
  | 62 => ⟨S256x2x2x1x2x2x2x2x2, .f32⟩
  | 63 => ⟨S256x2x2x2x2x2x2x2x2, .f32⟩
  | 64 => ⟨S1, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .i32⟩
  | 73 => ⟨S_, .i32⟩
  | 74 => ⟨S_, .i1⟩
  | 75 => ⟨S_, .i32⟩
  | 76 => ⟨S_, .i32⟩
  | 77 => ⟨S_, .i32⟩
  | 78 => ⟨S1, .i32⟩
  | 79 => ⟨S1, .i32⟩
  | 80 => ⟨S1, .i32⟩
  | 81 => ⟨S_, .i32⟩
  | 82 => ⟨S1, .i32⟩
  | 83 => ⟨S1, .i1⟩
  | 84 => ⟨S1, .i1⟩
  | 85 => ⟨S1, .i1⟩
  | 86 => ⟨S_, .i1⟩
  | 87 => ⟨S_, .i1⟩
  | 88 => ⟨S256x2x2x2x2x2x2x2, .f32⟩
  | 89 => ⟨S256x2x2x2x2x2x2x2, .i1⟩
  | 90 => ⟨S_, .f32⟩
  | 91 => ⟨S256x2x2x2x2x2x2x2, .f32⟩
  | 92 => ⟨S256x2x2x2x2x2x2x2, .f32⟩
  | 93 => ⟨S_, .i32⟩
  | 94 => ⟨S_, .i32⟩
  | 95 => ⟨S_, .i1⟩
  | 96 => ⟨S_, .i32⟩
  | 97 => ⟨S_, .i32⟩
  | 98 => ⟨S_, .i32⟩
  | 99 => ⟨S1, .i32⟩
  | 100 => ⟨S1, .i32⟩
  | 101 => ⟨S1, .i32⟩
  | 102 => ⟨S_, .i32⟩
  | 103 => ⟨S1, .i32⟩
  | 104 => ⟨S1, .i1⟩
  | 105 => ⟨S1, .i1⟩
  | 106 => ⟨S1, .i1⟩
  | 107 => ⟨S_, .i1⟩
  | 108 => ⟨S_, .i1⟩
  | 109 => ⟨S256x2x2x2x2x2x2x2, .f32⟩
  | 110 => ⟨S256x2x2x2x2x2x2x2, .i1⟩
  | 111 => ⟨S_, .f32⟩
  | 112 => ⟨S256x2x2x2x2x2x2x2, .f32⟩
  | 113 => ⟨S256x2x2x2x2x2x2x2, .f32⟩
  | 114 => ⟨S256x2x2x2x2x2x2x2, .f32⟩
  | 115 => ⟨S256x2x2x2x2x2x2x2, .f32⟩
  | 116 => ⟨S256x2x2x2x2x2x2x2, .f32⟩
  | 117 => ⟨S256x2x2x2x2x2x2x2, .f32⟩
  | 118 => ⟨S256x2x2x2x2x2x2x2, .f32⟩
  | 119 => ⟨S256x2x2x2x2x2x2x2, .f32⟩
  | 120 => ⟨S256x2x2x2x2x2x2x2, .f32⟩
  | 121 => ⟨S256x2x2x2x2x2x2x2, .f32⟩
  | 122 => ⟨S256x2x2x2x2x2x2x2, .f32⟩
  | 123 => ⟨S256x2x2x2x2x2x2x2, .f32⟩
  | 124 => ⟨S256x2x1x2x2x2x2x2x2, .f32⟩
  | 125 => ⟨S256x2x1x2x2x2x2x2x2, .f32⟩
  | 126 => ⟨S256x2x2x2x2x2x2x2x2, .f32⟩
  | 127 => ⟨S1, .f32⟩
  | _ => ⟨S2048x4, .f32⟩

abbrev hbmTy0_10 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S_, .i32⟩
  | 8 => ⟨S_, .i32⟩
  | 9 => ⟨S_, .i1⟩
  | 10 => ⟨S_, .i32⟩
  | 11 => ⟨S_, .i32⟩
  | 12 => ⟨S_, .i32⟩
  | 13 => ⟨S1, .i32⟩
  | 14 => ⟨S1, .i32⟩
  | 15 => ⟨S1, .i32⟩
  | 16 => ⟨S_, .i32⟩
  | 17 => ⟨S1, .i32⟩
  | 18 => ⟨S1, .i1⟩
  | 19 => ⟨S1, .i1⟩
  | 20 => ⟨S1, .i1⟩
  | 21 => ⟨S_, .i1⟩
  | 22 => ⟨S_, .i1⟩
  | 23 => ⟨S256x2x2x2x2x2x2x2, .f32⟩
  | 24 => ⟨S256x2x2x2x2x2x2x2, .i1⟩
  | 25 => ⟨S_, .f32⟩
  | 26 => ⟨S256x2x2x2x2x2x2x2, .f32⟩
  | 27 => ⟨S256x2x2x2x2x2x2x2, .f32⟩
  | 28 => ⟨S_, .i32⟩
  | 29 => ⟨S_, .i32⟩
  | 30 => ⟨S_, .i1⟩
  | 31 => ⟨S_, .i32⟩
  | 32 => ⟨S_, .i32⟩
  | 33 => ⟨S_, .i32⟩
  | 34 => ⟨S1, .i32⟩
  | 35 => ⟨S1, .i32⟩
  | 36 => ⟨S1, .i32⟩
  | 37 => ⟨S_, .i32⟩
  | 38 => ⟨S1, .i32⟩
  | 39 => ⟨S1, .i1⟩
  | 40 => ⟨S1, .i1⟩
  | 41 => ⟨S1, .i1⟩
  | 42 => ⟨S_, .i1⟩
  | 43 => ⟨S_, .i1⟩
  | 44 => ⟨S256x2x2x2x2x2x2x2, .f32⟩
  | 45 => ⟨S256x2x2x2x2x2x2x2, .i1⟩
  | 46 => ⟨S_, .f32⟩
  | 47 => ⟨S256x2x2x2x2x2x2x2, .f32⟩
  | 48 => ⟨S256x2x2x2x2x2x2x2, .f32⟩
  | 49 => ⟨S256x2x2x2x2x2x2x2, .f32⟩
  | 50 => ⟨S256x2x2x2x2x2x2x2, .f32⟩
  | 51 => ⟨S256x2x2x2x2x2x2x2, .f32⟩
  | 52 => ⟨S256x2x2x2x2x2x2x2, .f32⟩
  | 53 => ⟨S256x2x2x2x2x2x2x2, .f32⟩
  | 54 => ⟨S256x2x2x2x2x2x2x2, .f32⟩
  | 55 => ⟨S256x2x2x2x2x2x2x2, .f32⟩
  | 56 => ⟨S256x2x2x2x2x2x2x2, .f32⟩
  | 57 => ⟨S256x2x2x2x2x2x2x2, .f32⟩
  | 58 => ⟨S256x2x2x2x2x2x2x2, .f32⟩
  | 59 => ⟨S256x2x2x1x2x2x2x2x2, .f32⟩
  | 60 => ⟨S256x2x2x1x2x2x2x2x2, .f32⟩
  | 61 => ⟨S256x2x2x2x2x2x2x2x2, .f32⟩
  | 62 => ⟨S_, .i32⟩
  | 63 => ⟨S_, .i32⟩
  | 64 => ⟨S_, .i1⟩
  | 65 => ⟨S_, .i32⟩
  | 66 => ⟨S_, .i32⟩
  | 67 => ⟨S_, .i32⟩
  | 68 => ⟨S1, .i32⟩
  | 69 => ⟨S1, .i32⟩
  | 70 => ⟨S1, .i32⟩
  | 71 => ⟨S_, .i32⟩
  | 72 => ⟨S1, .i32⟩
  | 73 => ⟨S1, .i1⟩
  | 74 => ⟨S1, .i1⟩
  | 75 => ⟨S1, .i1⟩
  | 76 => ⟨S_, .i1⟩
  | 77 => ⟨S_, .i1⟩
  | 78 => ⟨S256x2x2x2x2x2x2x2, .f32⟩
  | 79 => ⟨S256x2x2x2x2x2x2x2, .i1⟩
  | 80 => ⟨S_, .f32⟩
  | 81 => ⟨S256x2x2x2x2x2x2x2, .f32⟩
  | 82 => ⟨S256x2x2x2x2x2x2x2, .f32⟩
  | 83 => ⟨S_, .i32⟩
  | 84 => ⟨S_, .i32⟩
  | 85 => ⟨S_, .i1⟩
  | 86 => ⟨S_, .i32⟩
  | 87 => ⟨S_, .i32⟩
  | 88 => ⟨S_, .i32⟩
  | 89 => ⟨S1, .i32⟩
  | 90 => ⟨S1, .i32⟩
  | 91 => ⟨S1, .i32⟩
  | 92 => ⟨S_, .i32⟩
  | 93 => ⟨S1, .i32⟩
  | 94 => ⟨S1, .i1⟩
  | 95 => ⟨S1, .i1⟩
  | 96 => ⟨S1, .i1⟩
  | 97 => ⟨S_, .i1⟩
  | 98 => ⟨S_, .i1⟩
  | 99 => ⟨S256x2x2x2x2x2x2x2, .f32⟩
  | 100 => ⟨S256x2x2x2x2x2x2x2, .i1⟩
  | 101 => ⟨S_, .f32⟩
  | 102 => ⟨S256x2x2x2x2x2x2x2, .f32⟩
  | 103 => ⟨S256x2x2x2x2x2x2x2, .f32⟩
  | 104 => ⟨S256x2x2x2x2x2x2x2, .f32⟩
  | 105 => ⟨S256x2x1x2x2x2x2x2x2, .f32⟩
  | 106 => ⟨S256x2x1x2x2x2x2x2x2, .f32⟩
  | 107 => ⟨S256x2x2x2x2x2x2x2x2, .f32⟩
  | 108 => ⟨S1, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .i32⟩
  | 117 => ⟨S_, .i32⟩
  | 118 => ⟨S_, .i1⟩
  | 119 => ⟨S_, .i32⟩
  | 120 => ⟨S_, .i32⟩
  | 121 => ⟨S_, .i32⟩
  | 122 => ⟨S1, .i32⟩
  | 123 => ⟨S1, .i32⟩
  | 124 => ⟨S1, .i32⟩
  | 125 => ⟨S_, .i32⟩
  | 126 => ⟨S1, .i32⟩
  | 127 => ⟨S1, .i1⟩
  | _ => ⟨S2048x4, .f32⟩

abbrev hbmTy0_11 (i : Nat) : BufTy := match i % 128 with
  | 0 => ⟨S1, .i1⟩
  | 1 => ⟨S1, .i1⟩
  | 2 => ⟨S_, .i1⟩
  | 3 => ⟨S_, .i1⟩
  | 4 => ⟨S256x2x2x2x2x2x2x2, .f32⟩
  | 5 => ⟨S256x2x2x2x2x2x2x2, .i1⟩
  | 6 => ⟨S_, .f32⟩
  | 7 => ⟨S256x2x2x2x2x2x2x2, .f32⟩
  | 8 => ⟨S256x2x2x2x2x2x2x2, .f32⟩
  | 9 => ⟨S_, .i32⟩
  | 10 => ⟨S_, .i32⟩
  | 11 => ⟨S_, .i1⟩
  | 12 => ⟨S_, .i32⟩
  | 13 => ⟨S_, .i32⟩
  | 14 => ⟨S_, .i32⟩
  | 15 => ⟨S1, .i32⟩
  | 16 => ⟨S1, .i32⟩
  | 17 => ⟨S1, .i32⟩
  | 18 => ⟨S_, .i32⟩
  | 19 => ⟨S1, .i32⟩
  | 20 => ⟨S1, .i1⟩
  | 21 => ⟨S1, .i1⟩
  | 22 => ⟨S1, .i1⟩
  | 23 => ⟨S_, .i1⟩
  | 24 => ⟨S_, .i1⟩
  | 25 => ⟨S256x2x2x2x2x2x2x2, .f32⟩
  | 26 => ⟨S256x2x2x2x2x2x2x2, .i1⟩
  | 27 => ⟨S_, .f32⟩
  | 28 => ⟨S256x2x2x2x2x2x2x2, .f32⟩
  | 29 => ⟨S256x2x2x2x2x2x2x2, .f32⟩
  | 30 => ⟨S256x2x2x2x2x2x2x2, .f32⟩
  | 31 => ⟨S256x2x2x2x2x2x2x2, .f32⟩
  | 32 => ⟨S256x2x2x2x2x2x2x2, .f32⟩
  | 33 => ⟨S256x2x2x2x2x2x2x2, .f32⟩
  | 34 => ⟨S256x2x2x2x2x2x2x2, .f32⟩
  | 35 => ⟨S256x2x2x2x2x2x2x2, .f32⟩
  | 36 => ⟨S256x2x2x2x2x2x2x2, .f32⟩
  | 37 => ⟨S256x2x2x2x2x2x2x2, .f32⟩
  | 38 => ⟨S256x2x2x2x2x2x2x2, .f32⟩
  | 39 => ⟨S256x2x2x2x2x2x2x2, .f32⟩
  | 40 => ⟨S256x2x2x2x2x2x1x2x2, .f32⟩
  | 41 => ⟨S256x2x2x2x2x2x1x2x2, .f32⟩
  | 42 => ⟨S256x2x2x2x2x2x2x2x2, .f32⟩
  | 43 => ⟨S1, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .i32⟩
  | 52 => ⟨S_, .i32⟩
  | 53 => ⟨S_, .i1⟩
  | 54 => ⟨S_, .i32⟩
  | 55 => ⟨S_, .i32⟩
  | 56 => ⟨S_, .i32⟩
  | 57 => ⟨S1, .i32⟩
  | 58 => ⟨S1, .i32⟩
  | 59 => ⟨S1, .i32⟩
  | 60 => ⟨S_, .i32⟩
  | 61 => ⟨S1, .i32⟩
  | 62 => ⟨S1, .i1⟩
  | 63 => ⟨S1, .i1⟩
  | 64 => ⟨S1, .i1⟩
  | 65 => ⟨S_, .i1⟩
  | 66 => ⟨S_, .i1⟩
  | 67 => ⟨S256x2x2x2x2x2x2x2, .f32⟩
  | 68 => ⟨S256x2x2x2x2x2x2x2, .i1⟩
  | 69 => ⟨S_, .f32⟩
  | 70 => ⟨S256x2x2x2x2x2x2x2, .f32⟩
  | 71 => ⟨S256x2x2x2x2x2x2x2, .f32⟩
  | 72 => ⟨S_, .i32⟩
  | 73 => ⟨S_, .i32⟩
  | 74 => ⟨S_, .i1⟩
  | 75 => ⟨S_, .i32⟩
  | 76 => ⟨S_, .i32⟩
  | 77 => ⟨S_, .i32⟩
  | 78 => ⟨S1, .i32⟩
  | 79 => ⟨S1, .i32⟩
  | 80 => ⟨S1, .i32⟩
  | 81 => ⟨S_, .i32⟩
  | 82 => ⟨S1, .i32⟩
  | 83 => ⟨S1, .i1⟩
  | 84 => ⟨S1, .i1⟩
  | 85 => ⟨S1, .i1⟩
  | 86 => ⟨S_, .i1⟩
  | 87 => ⟨S_, .i1⟩
  | 88 => ⟨S256x2x2x2x2x2x2x2, .f32⟩
  | 89 => ⟨S256x2x2x2x2x2x2x2, .i1⟩
  | 90 => ⟨S_, .f32⟩
  | 91 => ⟨S256x2x2x2x2x2x2x2, .f32⟩
  | 92 => ⟨S256x2x2x2x2x2x2x2, .f32⟩
  | 93 => ⟨S256x2x2x2x2x2x2x2, .f32⟩
  | 94 => ⟨S256x2x2x2x2x2x2x2, .f32⟩
  | 95 => ⟨S256x2x2x2x2x2x2x2, .f32⟩
  | 96 => ⟨S256x2x2x2x2x2x2x2, .f32⟩
  | 97 => ⟨S256x2x2x2x2x2x2x2, .f32⟩
  | 98 => ⟨S256x2x2x2x2x2x2x2, .f32⟩
  | 99 => ⟨S256x2x2x2x2x2x2x2, .f32⟩
  | 100 => ⟨S256x2x2x2x2x2x2x2, .f32⟩
  | 101 => ⟨S256x2x2x2x2x2x2x2, .f32⟩
  | 102 => ⟨S256x2x2x2x2x2x2x2, .f32⟩
  | 103 => ⟨S256x2x2x2x2x2x2x1x2, .f32⟩
  | 104 => ⟨S256x2x2x2x2x2x2x1x2, .f32⟩
  | 105 => ⟨S256x2x2x2x2x2x2x2x2, .f32⟩
  | 106 => ⟨S_, .i32⟩
  | 107 => ⟨S_, .i32⟩
  | 108 => ⟨S_, .i1⟩
  | 109 => ⟨S_, .i32⟩
  | 110 => ⟨S_, .i32⟩
  | 111 => ⟨S_, .i32⟩
  | 112 => ⟨S1, .i32⟩
  | 113 => ⟨S1, .i32⟩
  | 114 => ⟨S1, .i32⟩
  | 115 => ⟨S_, .i32⟩
  | 116 => ⟨S1, .i32⟩
  | 117 => ⟨S1, .i1⟩
  | 118 => ⟨S1, .i1⟩
  | 119 => ⟨S1, .i1⟩
  | 120 => ⟨S_, .i1⟩
  | 121 => ⟨S_, .i1⟩
  | 122 => ⟨S256x2x2x2x2x2x2x2, .f32⟩
  | 123 => ⟨S256x2x2x2x2x2x2x2, .i1⟩
  | 124 => ⟨S_, .f32⟩
  | 125 => ⟨S256x2x2x2x2x2x2x2, .f32⟩
  | 126 => ⟨S256x2x2x2x2x2x2x2, .f32⟩
  | 127 => ⟨S_, .i32⟩
  | _ => ⟨S2048x4, .f32⟩

abbrev hbmTy0_12 (i : Nat) : BufTy := match i % 128 with
  | 0 => ⟨S_, .i32⟩
  | 1 => ⟨S_, .i1⟩
  | 2 => ⟨S_, .i32⟩
  | 3 => ⟨S_, .i32⟩
  | 4 => ⟨S_, .i32⟩
  | 5 => ⟨S1, .i32⟩
  | 6 => ⟨S1, .i32⟩
  | 7 => ⟨S1, .i32⟩
  | 8 => ⟨S_, .i32⟩
  | 9 => ⟨S1, .i32⟩
  | 10 => ⟨S1, .i1⟩
  | 11 => ⟨S1, .i1⟩
  | 12 => ⟨S1, .i1⟩
  | 13 => ⟨S_, .i1⟩
  | 14 => ⟨S_, .i1⟩
  | 15 => ⟨S256x2x2x2x2x2x2x2, .f32⟩
  | 16 => ⟨S256x2x2x2x2x2x2x2, .i1⟩
  | 17 => ⟨S_, .f32⟩
  | 18 => ⟨S256x2x2x2x2x2x2x2, .f32⟩
  | 19 => ⟨S256x2x2x2x2x2x2x2, .f32⟩
  | 20 => ⟨S256x2x2x2x2x2x2x2, .f32⟩
  | 21 => ⟨S256x2x2x2x2x2x2x1x2, .f32⟩
  | 22 => ⟨S256x2x2x2x2x2x2x1x2, .f32⟩
  | 23 => ⟨S256x2x2x2x2x2x2x2x2, .f32⟩
  | 24 => ⟨S1, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .i32⟩
  | 33 => ⟨S_, .i32⟩
  | 34 => ⟨S_, .i1⟩
  | 35 => ⟨S_, .i32⟩
  | 36 => ⟨S_, .i32⟩
  | 37 => ⟨S_, .i32⟩
  | 38 => ⟨S1, .i32⟩
  | 39 => ⟨S1, .i32⟩
  | 40 => ⟨S1, .i32⟩
  | 41 => ⟨S_, .i32⟩
  | 42 => ⟨S1, .i32⟩
  | 43 => ⟨S1, .i1⟩
  | 44 => ⟨S1, .i1⟩
  | 45 => ⟨S1, .i1⟩
  | 46 => ⟨S_, .i1⟩
  | 47 => ⟨S_, .i1⟩
  | 48 => ⟨S256x2x2x2x2x2x2x2, .f32⟩
  | 49 => ⟨S256x2x2x2x2x2x2x2, .i1⟩
  | 50 => ⟨S_, .f32⟩
  | 51 => ⟨S256x2x2x2x2x2x2x2, .f32⟩
  | 52 => ⟨S256x2x2x2x2x2x2x2, .f32⟩
  | 53 => ⟨S_, .i32⟩
  | 54 => ⟨S_, .i32⟩
  | 55 => ⟨S_, .i1⟩
  | 56 => ⟨S_, .i32⟩
  | 57 => ⟨S_, .i32⟩
  | 58 => ⟨S_, .i32⟩
  | 59 => ⟨S1, .i32⟩
  | 60 => ⟨S1, .i32⟩
  | 61 => ⟨S1, .i32⟩
  | 62 => ⟨S_, .i32⟩
  | 63 => ⟨S1, .i32⟩
  | 64 => ⟨S1, .i1⟩
  | 65 => ⟨S1, .i1⟩
  | 66 => ⟨S1, .i1⟩
  | 67 => ⟨S_, .i1⟩
  | 68 => ⟨S_, .i1⟩
  | 69 => ⟨S256x2x2x2x2x2x2x2, .f32⟩
  | 70 => ⟨S256x2x2x2x2x2x2x2, .i1⟩
  | 71 => ⟨S_, .f32⟩
  | 72 => ⟨S256x2x2x2x2x2x2x2, .f32⟩
  | 73 => ⟨S256x2x2x2x2x2x2x2, .f32⟩
  | 74 => ⟨S256x2x2x2x2x2x2x2, .f32⟩
  | 75 => ⟨S256x2x2x2x2x2x2x2, .f32⟩
  | 76 => ⟨S256x2x2x2x2x2x2x2, .f32⟩
  | 77 => ⟨S256x2x2x2x2x2x2x2, .f32⟩
  | 78 => ⟨S256x2x2x2x2x2x2x2, .f32⟩
  | 79 => ⟨S256x2x2x2x2x2x2x2, .f32⟩
  | 80 => ⟨S256x2x2x2x2x2x2x2, .f32⟩
  | 81 => ⟨S256x2x2x2x2x2x2x2, .f32⟩
  | 82 => ⟨S256x2x2x2x2x2x2x2, .f32⟩
  | 83 => ⟨S256x2x2x2x2x2x2x2, .f32⟩
  | 84 => ⟨S256x2x2x1x2x2x2x2x2, .f32⟩
  | 85 => ⟨S256x2x2x1x2x2x2x2x2, .f32⟩
  | 86 => ⟨S256x2x2x2x2x2x2x2x2, .f32⟩
  | 87 => ⟨S1, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .i32⟩
  | 96 => ⟨S_, .i32⟩
  | 97 => ⟨S_, .i1⟩
  | 98 => ⟨S_, .i32⟩
  | 99 => ⟨S_, .i32⟩
  | 100 => ⟨S_, .i32⟩
  | 101 => ⟨S1, .i32⟩
  | 102 => ⟨S1, .i32⟩
  | 103 => ⟨S1, .i32⟩
  | 104 => ⟨S_, .i32⟩
  | 105 => ⟨S1, .i32⟩
  | 106 => ⟨S1, .i1⟩
  | 107 => ⟨S1, .i1⟩
  | 108 => ⟨S1, .i1⟩
  | 109 => ⟨S_, .i1⟩
  | 110 => ⟨S_, .i1⟩
  | 111 => ⟨S256x2x2x2x2x2x2x2, .f32⟩
  | 112 => ⟨S256x2x2x2x2x2x2x2, .i1⟩
  | 113 => ⟨S_, .f32⟩
  | 114 => ⟨S256x2x2x2x2x2x2x2, .f32⟩
  | 115 => ⟨S256x2x2x2x2x2x2x2, .f32⟩
  | 116 => ⟨S_, .i32⟩
  | 117 => ⟨S_, .i32⟩
  | 118 => ⟨S_, .i1⟩
  | 119 => ⟨S_, .i32⟩
  | 120 => ⟨S_, .i32⟩
  | 121 => ⟨S_, .i32⟩
  | 122 => ⟨S1, .i32⟩
  | 123 => ⟨S1, .i32⟩
  | 124 => ⟨S1, .i32⟩
  | 125 => ⟨S_, .i32⟩
  | 126 => ⟨S1, .i32⟩
  | 127 => ⟨S1, .i1⟩
  | _ => ⟨S2048x4, .f32⟩

abbrev hbmTy0_13 (i : Nat) : BufTy := match i % 128 with
  | 0 => ⟨S1, .i1⟩
  | 1 => ⟨S1, .i1⟩
  | 2 => ⟨S_, .i1⟩
  | 3 => ⟨S_, .i1⟩
  | 4 => ⟨S256x2x2x2x2x2x2x2, .f32⟩
  | 5 => ⟨S256x2x2x2x2x2x2x2, .i1⟩
  | 6 => ⟨S_, .f32⟩
  | 7 => ⟨S256x2x2x2x2x2x2x2, .f32⟩
  | 8 => ⟨S256x2x2x2x2x2x2x2, .f32⟩
  | 9 => ⟨S256x2x2x2x2x2x2x2, .f32⟩
  | 10 => ⟨S256x2x2x2x2x2x2x2, .f32⟩
  | 11 => ⟨S256x2x2x2x2x2x2x2, .f32⟩
  | 12 => ⟨S256x2x2x2x2x2x2x2, .f32⟩
  | 13 => ⟨S256x2x2x2x2x2x2x2, .f32⟩
  | 14 => ⟨S256x2x2x2x2x2x2x2, .f32⟩
  | 15 => ⟨S256x2x2x2x2x2x2x2, .f32⟩
  | 16 => ⟨S256x2x2x2x2x2x2x2, .f32⟩
  | 17 => ⟨S256x2x2x2x2x2x2x2, .f32⟩
  | 18 => ⟨S256x2x2x2x2x2x2x2, .f32⟩
  | 19 => ⟨S256x2x2x2x2x2x1x2x2, .f32⟩
  | 20 => ⟨S256x2x2x2x2x2x1x2x2, .f32⟩
  | 21 => ⟨S256x2x2x2x2x2x2x2x2, .f32⟩
  | 22 => ⟨S_, .i32⟩
  | 23 => ⟨S_, .i32⟩
  | 24 => ⟨S_, .i1⟩
  | 25 => ⟨S_, .i32⟩
  | 26 => ⟨S_, .i32⟩
  | 27 => ⟨S_, .i32⟩
  | 28 => ⟨S1, .i32⟩
  | 29 => ⟨S1, .i32⟩
  | 30 => ⟨S1, .i32⟩
  | 31 => ⟨S_, .i32⟩
  | 32 => ⟨S1, .i32⟩
  | 33 => ⟨S1, .i1⟩
  | 34 => ⟨S1, .i1⟩
  | 35 => ⟨S1, .i1⟩
  | 36 => ⟨S_, .i1⟩
  | 37 => ⟨S_, .i1⟩
  | 38 => ⟨S256x2x2x2x2x2x2x2, .f32⟩
  | 39 => ⟨S256x2x2x2x2x2x2x2, .i1⟩
  | 40 => ⟨S_, .f32⟩
  | 41 => ⟨S256x2x2x2x2x2x2x2, .f32⟩
  | 42 => ⟨S256x2x2x2x2x2x2x2, .f32⟩
  | 43 => ⟨S_, .i32⟩
  | 44 => ⟨S_, .i32⟩
  | 45 => ⟨S_, .i1⟩
  | 46 => ⟨S_, .i32⟩
  | 47 => ⟨S_, .i32⟩
  | 48 => ⟨S_, .i32⟩
  | 49 => ⟨S1, .i32⟩
  | 50 => ⟨S1, .i32⟩
  | 51 => ⟨S1, .i32⟩
  | 52 => ⟨S_, .i32⟩
  | 53 => ⟨S1, .i32⟩
  | 54 => ⟨S1, .i1⟩
  | 55 => ⟨S1, .i1⟩
  | 56 => ⟨S1, .i1⟩
  | 57 => ⟨S_, .i1⟩
  | 58 => ⟨S_, .i1⟩
  | 59 => ⟨S256x2x2x2x2x2x2x2, .f32⟩
  | 60 => ⟨S256x2x2x2x2x2x2x2, .i1⟩
  | 61 => ⟨S_, .f32⟩
  | 62 => ⟨S256x2x2x2x2x2x2x2, .f32⟩
  | 63 => ⟨S256x2x2x2x2x2x2x2, .f32⟩
  | 64 => ⟨S256x2x2x2x2x2x2x2, .f32⟩
  | 65 => ⟨S256x2x2x1x2x2x2x2x2, .f32⟩
  | 66 => ⟨S256x2x2x1x2x2x2x2x2, .f32⟩
  | 67 => ⟨S256x2x2x2x2x2x2x2x2, .f32⟩
  | 68 => ⟨S1, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .i32⟩
  | 77 => ⟨S_, .i32⟩
  | 78 => ⟨S_, .i1⟩
  | 79 => ⟨S_, .i32⟩
  | 80 => ⟨S_, .i32⟩
  | 81 => ⟨S_, .i32⟩
  | 82 => ⟨S1, .i32⟩
  | 83 => ⟨S1, .i32⟩
  | 84 => ⟨S1, .i32⟩
  | 85 => ⟨S_, .i32⟩
  | 86 => ⟨S1, .i32⟩
  | 87 => ⟨S1, .i1⟩
  | 88 => ⟨S1, .i1⟩
  | 89 => ⟨S1, .i1⟩
  | 90 => ⟨S_, .i1⟩
  | 91 => ⟨S_, .i1⟩
  | 92 => ⟨S256x2x2x2x2x2x2x2, .f32⟩
  | 93 => ⟨S256x2x2x2x2x2x2x2, .i1⟩
  | 94 => ⟨S_, .f32⟩
  | 95 => ⟨S256x2x2x2x2x2x2x2, .f32⟩
  | 96 => ⟨S256x2x2x2x2x2x2x2, .f32⟩
  | 97 => ⟨S_, .i32⟩
  | 98 => ⟨S_, .i32⟩
  | 99 => ⟨S_, .i1⟩
  | 100 => ⟨S_, .i32⟩
  | 101 => ⟨S_, .i32⟩
  | 102 => ⟨S_, .i32⟩
  | 103 => ⟨S1, .i32⟩
  | 104 => ⟨S1, .i32⟩
  | 105 => ⟨S1, .i32⟩
  | 106 => ⟨S_, .i32⟩
  | 107 => ⟨S1, .i32⟩
  | 108 => ⟨S1, .i1⟩
  | 109 => ⟨S1, .i1⟩
  | 110 => ⟨S1, .i1⟩
  | 111 => ⟨S_, .i1⟩
  | 112 => ⟨S_, .i1⟩
  | 113 => ⟨S256x2x2x2x2x2x2x2, .f32⟩
  | 114 => ⟨S256x2x2x2x2x2x2x2, .i1⟩
  | 115 => ⟨S_, .f32⟩
  | 116 => ⟨S256x2x2x2x2x2x2x2, .f32⟩
  | 117 => ⟨S256x2x2x2x2x2x2x2, .f32⟩
  | 118 => ⟨S256x2x2x2x2x2x2x2, .f32⟩
  | 119 => ⟨S256x2x2x2x2x2x2x2, .f32⟩
  | 120 => ⟨S256x2x2x2x2x2x2x2, .f32⟩
  | 121 => ⟨S256x2x2x2x2x2x2x2, .f32⟩
  | 122 => ⟨S256x2x2x2x2x2x2x2, .f32⟩
  | 123 => ⟨S256x2x2x2x2x2x2x2, .f32⟩
  | 124 => ⟨S256x2x2x2x2x2x2x2, .f32⟩
  | 125 => ⟨S256x2x2x2x2x2x2x2, .f32⟩
  | 126 => ⟨S256x2x2x2x2x2x2x2, .f32⟩
  | 127 => ⟨S256x2x2x2x2x2x2x2, .f32⟩
  | _ => ⟨S2048x4, .f32⟩

abbrev hbmTy0_14 (i : Nat) : BufTy := match i % 128 with
  | 0 => ⟨S256x2x2x2x2x2x1x2x2, .f32⟩
  | 1 => ⟨S256x2x2x2x2x2x1x2x2, .f32⟩
  | 2 => ⟨S256x2x2x2x2x2x2x2x2, .f32⟩
  | 3 => ⟨S256x256, .f32⟩
  | 4 => ⟨S256, .i32⟩
  | 5 => ⟨S_, .i32⟩
  | 6 => ⟨S256, .i32⟩
  | 7 => ⟨S256, .i32⟩
  | 8 => ⟨S_, .i32⟩
  | 9 => ⟨S256, .i32⟩
  | 10 => ⟨S256, .i32⟩
  | 11 => ⟨S256, .f32⟩
  | 12 => ⟨S1x256, .f32⟩
  | 13 => ⟨S16384x1, .f32⟩
  | 14 => ⟨S16384, .f32⟩
  | _ => ⟨S2048x4, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | _ => ⟨S2048x4, .f32⟩

abbrev bufTy : (tb : Table) → Fin (tcTables nBuf tb) → BufTy
  | .hbm, ⟨i, _⟩ => hbmTy i
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S2048x4, .f32⟩
  | .local _ .vmem, ⟨5, _⟩ => ⟨S256x256, .f32⟩
  | .local _ .vmem, ⟨6, _⟩ => ⟨S1x256, .f32⟩
  | .local _ .vmem, ⟨7, _⟩ => ⟨S512x1, .f32⟩
  | .local _ .vmem, ⟨8, _⟩ => ⟨S512x1, .f32⟩
  | _, _ => ⟨S2048x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_call0_c : Ref sig .tc := ⟨.hbm, 21, rfl⟩
abbrev main_call0_v0 : Ref sig .tc := ⟨.hbm, 22, rfl⟩
abbrev main_call0_c_0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_c_1 : Ref sig .tc := ⟨.hbm, 27, rfl⟩
abbrev main_call0_v4 : Ref sig .tc := ⟨.hbm, 28, rfl⟩
abbrev main_call0_c_2 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_c_3 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_cst : Ref sig .tc := ⟨.hbm, 38, rfl⟩
abbrev main_call0_v12 : Ref sig .tc := ⟨.hbm, 39, rfl⟩
abbrev main_v13 : Ref sig .tc := ⟨.hbm, 40, rfl⟩
abbrev main_c_2 : Ref sig .tc := ⟨.hbm, 41, rfl⟩
abbrev main_call1_c : Ref sig .tc := ⟨.hbm, 42, rfl⟩
abbrev main_call1_v0 : Ref sig .tc := ⟨.hbm, 43, rfl⟩
abbrev main_call1_c_0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_c_1 : Ref sig .tc := ⟨.hbm, 48, rfl⟩
abbrev main_call1_v4 : Ref sig .tc := ⟨.hbm, 49, rfl⟩
abbrev main_call1_c_2 : Ref sig .tc := ⟨.hbm, 50, rfl⟩
abbrev main_call1_v5 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_c_3 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_cst : Ref sig .tc := ⟨.hbm, 59, rfl⟩
abbrev main_call1_v12 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_cst_3 : Ref sig .tc := ⟨.hbm, 77, rfl⟩
abbrev main_v30 : Ref sig .tc := ⟨.hbm, 78, rfl⟩
abbrev main_v31 : Ref sig .tc := ⟨.hbm, 79, rfl⟩
abbrev main_cst_4 : Ref sig .tc := ⟨.hbm, 80, rfl⟩
abbrev main_v32 : Ref sig .tc := ⟨.hbm, 81, rfl⟩
abbrev main_v33 : Ref sig .tc := ⟨.hbm, 82, rfl⟩
abbrev main_c_5 : Ref sig .tc := ⟨.hbm, 83, rfl⟩
abbrev main_call2_c : Ref sig .tc := ⟨.hbm, 84, rfl⟩
abbrev main_call2_v0 : Ref sig .tc := ⟨.hbm, 85, rfl⟩
abbrev main_call2_c_0 : Ref sig .tc := ⟨.hbm, 86, rfl⟩
abbrev main_call2_v1 : Ref sig .tc := ⟨.hbm, 87, rfl⟩
abbrev main_call2_v2 : Ref sig .tc := ⟨.hbm, 88, rfl⟩
abbrev main_call2_v3 : Ref sig .tc := ⟨.hbm, 89, rfl⟩
abbrev main_call2_c_1 : Ref sig .tc := ⟨.hbm, 90, rfl⟩
abbrev main_call2_v4 : Ref sig .tc := ⟨.hbm, 91, rfl⟩
abbrev main_call2_c_2 : Ref sig .tc := ⟨.hbm, 92, rfl⟩
abbrev main_call2_v5 : Ref sig .tc := ⟨.hbm, 93, rfl⟩
abbrev main_call2_v6 : Ref sig .tc := ⟨.hbm, 94, rfl⟩
abbrev main_call2_v7 : Ref sig .tc := ⟨.hbm, 95, rfl⟩
abbrev main_call2_v8 : Ref sig .tc := ⟨.hbm, 96, rfl⟩
abbrev main_call2_c_3 : Ref sig .tc := ⟨.hbm, 97, rfl⟩
abbrev main_call2_v9 : Ref sig .tc := ⟨.hbm, 98, rfl⟩
abbrev main_call2_v10 : Ref sig .tc := ⟨.hbm, 99, rfl⟩
abbrev main_call2_v11 : Ref sig .tc := ⟨.hbm, 100, rfl⟩
abbrev main_call2_cst : Ref sig .tc := ⟨.hbm, 101, rfl⟩
abbrev main_call2_v12 : Ref sig .tc := ⟨.hbm, 102, rfl⟩
abbrev main_v34 : Ref sig .tc := ⟨.hbm, 103, rfl⟩
abbrev main_c_6 : Ref sig .tc := ⟨.hbm, 104, rfl⟩
abbrev main_call3_c : Ref sig .tc := ⟨.hbm, 105, rfl⟩
abbrev main_call3_v0 : Ref sig .tc := ⟨.hbm, 106, rfl⟩
abbrev main_call3_c_0 : Ref sig .tc := ⟨.hbm, 107, rfl⟩
abbrev main_call3_v1 : Ref sig .tc := ⟨.hbm, 108, rfl⟩
abbrev main_call3_v2 : Ref sig .tc := ⟨.hbm, 109, rfl⟩
abbrev main_call3_v3 : Ref sig .tc := ⟨.hbm, 110, rfl⟩
abbrev main_call3_c_1 : Ref sig .tc := ⟨.hbm, 111, rfl⟩
abbrev main_call3_v4 : Ref sig .tc := ⟨.hbm, 112, rfl⟩
abbrev main_call3_c_2 : Ref sig .tc := ⟨.hbm, 113, rfl⟩
abbrev main_call3_v5 : Ref sig .tc := ⟨.hbm, 114, rfl⟩
abbrev main_call3_v6 : Ref sig .tc := ⟨.hbm, 115, rfl⟩
abbrev main_call3_v7 : Ref sig .tc := ⟨.hbm, 116, rfl⟩
abbrev main_call3_v8 : Ref sig .tc := ⟨.hbm, 117, rfl⟩
abbrev main_call3_c_3 : Ref sig .tc := ⟨.hbm, 118, rfl⟩
abbrev main_call3_v9 : Ref sig .tc := ⟨.hbm, 119, rfl⟩
abbrev main_call3_v10 : Ref sig .tc := ⟨.hbm, 120, rfl⟩
abbrev main_call3_v11 : Ref sig .tc := ⟨.hbm, 121, rfl⟩
abbrev main_call3_cst : Ref sig .tc := ⟨.hbm, 122, rfl⟩
abbrev main_call3_v12 : Ref sig .tc := ⟨.hbm, 123, rfl⟩
abbrev main_v35 : Ref sig .tc := ⟨.hbm, 124, rfl⟩
abbrev main_v36 : Ref sig .tc := ⟨.hbm, 125, rfl⟩
abbrev main_v37 : Ref sig .tc := ⟨.hbm, 126, rfl⟩
abbrev main_v38 : Ref sig .tc := ⟨.hbm, 127, rfl⟩
abbrev main_v39 : Ref sig .tc := ⟨.hbm, 128, rfl⟩
abbrev main_v40 : Ref sig .tc := ⟨.hbm, 129, rfl⟩
abbrev main_v41 : Ref sig .tc := ⟨.hbm, 130, rfl⟩
abbrev main_v42 : Ref sig .tc := ⟨.hbm, 131, rfl⟩
abbrev main_v43 : Ref sig .tc := ⟨.hbm, 132, rfl⟩
abbrev main_v44 : Ref sig .tc := ⟨.hbm, 133, rfl⟩
abbrev main_v45 : Ref sig .tc := ⟨.hbm, 134, rfl⟩
abbrev main_v46 : Ref sig .tc := ⟨.hbm, 135, rfl⟩
abbrev main_v47 : Ref sig .tc := ⟨.hbm, 136, rfl⟩
abbrev main_v48 : Ref sig .tc := ⟨.hbm, 137, rfl⟩
abbrev main_c_7 : Ref sig .tc := ⟨.hbm, 138, rfl⟩
abbrev main_call4_c : Ref sig .tc := ⟨.hbm, 139, rfl⟩
abbrev main_call4_v0 : Ref sig .tc := ⟨.hbm, 140, rfl⟩
abbrev main_call4_c_0 : Ref sig .tc := ⟨.hbm, 141, rfl⟩
abbrev main_call4_v1 : Ref sig .tc := ⟨.hbm, 142, rfl⟩
abbrev main_call4_v2 : Ref sig .tc := ⟨.hbm, 143, rfl⟩
abbrev main_call4_v3 : Ref sig .tc := ⟨.hbm, 144, rfl⟩
abbrev main_call4_c_1 : Ref sig .tc := ⟨.hbm, 145, rfl⟩
abbrev main_call4_v4 : Ref sig .tc := ⟨.hbm, 146, rfl⟩
abbrev main_call4_c_2 : Ref sig .tc := ⟨.hbm, 147, rfl⟩
abbrev main_call4_v5 : Ref sig .tc := ⟨.hbm, 148, rfl⟩
abbrev main_call4_v6 : Ref sig .tc := ⟨.hbm, 149, rfl⟩
abbrev main_call4_v7 : Ref sig .tc := ⟨.hbm, 150, rfl⟩
abbrev main_call4_v8 : Ref sig .tc := ⟨.hbm, 151, rfl⟩
abbrev main_call4_c_3 : Ref sig .tc := ⟨.hbm, 152, rfl⟩
abbrev main_call4_v9 : Ref sig .tc := ⟨.hbm, 153, rfl⟩
abbrev main_call4_v10 : Ref sig .tc := ⟨.hbm, 154, rfl⟩
abbrev main_call4_v11 : Ref sig .tc := ⟨.hbm, 155, rfl⟩
abbrev main_call4_cst : Ref sig .tc := ⟨.hbm, 156, rfl⟩
abbrev main_call4_v12 : Ref sig .tc := ⟨.hbm, 157, rfl⟩
abbrev main_v49 : Ref sig .tc := ⟨.hbm, 158, rfl⟩
abbrev main_c_8 : Ref sig .tc := ⟨.hbm, 159, rfl⟩
abbrev main_call5_c : Ref sig .tc := ⟨.hbm, 160, rfl⟩
abbrev main_call5_v0 : Ref sig .tc := ⟨.hbm, 161, rfl⟩
abbrev main_call5_c_0 : Ref sig .tc := ⟨.hbm, 162, rfl⟩
abbrev main_call5_v1 : Ref sig .tc := ⟨.hbm, 163, rfl⟩
abbrev main_call5_v2 : Ref sig .tc := ⟨.hbm, 164, rfl⟩
abbrev main_call5_v3 : Ref sig .tc := ⟨.hbm, 165, rfl⟩
abbrev main_call5_c_1 : Ref sig .tc := ⟨.hbm, 166, rfl⟩
abbrev main_call5_v4 : Ref sig .tc := ⟨.hbm, 167, rfl⟩
abbrev main_call5_c_2 : Ref sig .tc := ⟨.hbm, 168, rfl⟩
abbrev main_call5_v5 : Ref sig .tc := ⟨.hbm, 169, rfl⟩
abbrev main_call5_v6 : Ref sig .tc := ⟨.hbm, 170, rfl⟩
abbrev main_call5_v7 : Ref sig .tc := ⟨.hbm, 171, rfl⟩
abbrev main_call5_v8 : Ref sig .tc := ⟨.hbm, 172, rfl⟩
abbrev main_call5_c_3 : Ref sig .tc := ⟨.hbm, 173, rfl⟩
abbrev main_call5_v9 : Ref sig .tc := ⟨.hbm, 174, rfl⟩
abbrev main_call5_v10 : Ref sig .tc := ⟨.hbm, 175, rfl⟩
abbrev main_call5_v11 : Ref sig .tc := ⟨.hbm, 176, rfl⟩
abbrev main_call5_cst : Ref sig .tc := ⟨.hbm, 177, rfl⟩
abbrev main_call5_v12 : Ref sig .tc := ⟨.hbm, 178, rfl⟩
abbrev main_v50 : Ref sig .tc := ⟨.hbm, 179, rfl⟩
abbrev main_v51 : Ref sig .tc := ⟨.hbm, 180, rfl⟩
abbrev main_v52 : Ref sig .tc := ⟨.hbm, 181, rfl⟩
abbrev main_v53 : Ref sig .tc := ⟨.hbm, 182, rfl⟩
abbrev main_v54 : Ref sig .tc := ⟨.hbm, 183, rfl⟩
abbrev main_v55 : Ref sig .tc := ⟨.hbm, 184, rfl⟩
abbrev main_v56 : Ref sig .tc := ⟨.hbm, 185, rfl⟩
abbrev main_cst_9 : Ref sig .tc := ⟨.hbm, 186, rfl⟩
abbrev main_v57 : Ref sig .tc := ⟨.hbm, 187, rfl⟩
abbrev main_v58 : Ref sig .tc := ⟨.hbm, 188, rfl⟩
abbrev main_cst_10 : Ref sig .tc := ⟨.hbm, 189, rfl⟩
abbrev main_v59 : Ref sig .tc := ⟨.hbm, 190, rfl⟩
abbrev main_v60 : Ref sig .tc := ⟨.hbm, 191, rfl⟩
abbrev main_c_11 : Ref sig .tc := ⟨.hbm, 192, rfl⟩
abbrev main_call7_c : Ref sig .tc := ⟨.hbm, 193, rfl⟩
abbrev main_call7_v0 : Ref sig .tc := ⟨.hbm, 194, rfl⟩
abbrev main_call7_c_0 : Ref sig .tc := ⟨.hbm, 195, rfl⟩
abbrev main_call7_v1 : Ref sig .tc := ⟨.hbm, 196, rfl⟩
abbrev main_call7_v2 : Ref sig .tc := ⟨.hbm, 197, rfl⟩
abbrev main_call7_v3 : Ref sig .tc := ⟨.hbm, 198, rfl⟩
abbrev main_call7_c_1 : Ref sig .tc := ⟨.hbm, 199, rfl⟩
abbrev main_call7_v4 : Ref sig .tc := ⟨.hbm, 200, rfl⟩
abbrev main_call7_c_2 : Ref sig .tc := ⟨.hbm, 201, rfl⟩
abbrev main_call7_v5 : Ref sig .tc := ⟨.hbm, 202, rfl⟩
abbrev main_call7_v6 : Ref sig .tc := ⟨.hbm, 203, rfl⟩
abbrev main_call7_v7 : Ref sig .tc := ⟨.hbm, 204, rfl⟩
abbrev main_call7_v8 : Ref sig .tc := ⟨.hbm, 205, rfl⟩
abbrev main_call7_c_3 : Ref sig .tc := ⟨.hbm, 206, rfl⟩
abbrev main_call7_v9 : Ref sig .tc := ⟨.hbm, 207, rfl⟩
abbrev main_call7_v10 : Ref sig .tc := ⟨.hbm, 208, rfl⟩
abbrev main_call7_v11 : Ref sig .tc := ⟨.hbm, 209, rfl⟩
abbrev main_call7_cst : Ref sig .tc := ⟨.hbm, 210, rfl⟩
abbrev main_call7_v12 : Ref sig .tc := ⟨.hbm, 211, rfl⟩
abbrev main_v61 : Ref sig .tc := ⟨.hbm, 212, rfl⟩
abbrev main_c_12 : Ref sig .tc := ⟨.hbm, 213, rfl⟩
abbrev main_call8_c : Ref sig .tc := ⟨.hbm, 214, rfl⟩
abbrev main_call8_v0 : Ref sig .tc := ⟨.hbm, 215, rfl⟩
abbrev main_call8_c_0 : Ref sig .tc := ⟨.hbm, 216, rfl⟩
abbrev main_call8_v1 : Ref sig .tc := ⟨.hbm, 217, rfl⟩
abbrev main_call8_v2 : Ref sig .tc := ⟨.hbm, 218, rfl⟩
abbrev main_call8_v3 : Ref sig .tc := ⟨.hbm, 219, rfl⟩
abbrev main_call8_c_1 : Ref sig .tc := ⟨.hbm, 220, rfl⟩
abbrev main_call8_v4 : Ref sig .tc := ⟨.hbm, 221, rfl⟩
abbrev main_call8_c_2 : Ref sig .tc := ⟨.hbm, 222, rfl⟩
abbrev main_call8_v5 : Ref sig .tc := ⟨.hbm, 223, rfl⟩
abbrev main_call8_v6 : Ref sig .tc := ⟨.hbm, 224, rfl⟩
abbrev main_call8_v7 : Ref sig .tc := ⟨.hbm, 225, rfl⟩
abbrev main_call8_v8 : Ref sig .tc := ⟨.hbm, 226, rfl⟩
abbrev main_call8_c_3 : Ref sig .tc := ⟨.hbm, 227, rfl⟩
abbrev main_call8_v9 : Ref sig .tc := ⟨.hbm, 228, rfl⟩
abbrev main_call8_v10 : Ref sig .tc := ⟨.hbm, 229, rfl⟩
abbrev main_call8_v11 : Ref sig .tc := ⟨.hbm, 230, rfl⟩
abbrev main_call8_cst : Ref sig .tc := ⟨.hbm, 231, rfl⟩
abbrev main_call8_v12 : Ref sig .tc := ⟨.hbm, 232, rfl⟩
abbrev main_v62 : Ref sig .tc := ⟨.hbm, 233, rfl⟩
abbrev main_v63 : Ref sig .tc := ⟨.hbm, 234, rfl⟩
abbrev main_v64 : Ref sig .tc := ⟨.hbm, 235, rfl⟩
abbrev main_v65 : Ref sig .tc := ⟨.hbm, 236, rfl⟩
abbrev main_v66 : Ref sig .tc := ⟨.hbm, 237, rfl⟩
abbrev main_v67 : Ref sig .tc := ⟨.hbm, 238, rfl⟩
abbrev main_v68 : Ref sig .tc := ⟨.hbm, 239, rfl⟩
abbrev main_v69 : Ref sig .tc := ⟨.hbm, 240, rfl⟩
abbrev main_v70 : Ref sig .tc := ⟨.hbm, 241, rfl⟩
abbrev main_v71 : Ref sig .tc := ⟨.hbm, 242, rfl⟩
abbrev main_v72 : Ref sig .tc := ⟨.hbm, 243, rfl⟩
abbrev main_v73 : Ref sig .tc := ⟨.hbm, 244, rfl⟩
abbrev main_v74 : Ref sig .tc := ⟨.hbm, 245, rfl⟩
abbrev main_v75 : Ref sig .tc := ⟨.hbm, 246, rfl⟩
abbrev main_v76 : Ref sig .tc := ⟨.hbm, 247, rfl⟩
abbrev main_v77 : Ref sig .tc := ⟨.hbm, 248, rfl⟩
abbrev main_cst_13 : Ref sig .tc := ⟨.hbm, 249, rfl⟩
abbrev main_v78 : Ref sig .tc := ⟨.hbm, 250, rfl⟩
abbrev main_v79 : Ref sig .tc := ⟨.hbm, 251, rfl⟩
abbrev main_cst_14 : Ref sig .tc := ⟨.hbm, 252, rfl⟩
abbrev main_v80 : Ref sig .tc := ⟨.hbm, 253, rfl⟩
abbrev main_v81 : Ref sig .tc := ⟨.hbm, 254, rfl⟩
abbrev main_c_15 : Ref sig .tc := ⟨.hbm, 255, rfl⟩
abbrev main_call9_c : Ref sig .tc := ⟨.hbm, 256, rfl⟩
abbrev main_call9_v0 : Ref sig .tc := ⟨.hbm, 257, rfl⟩
abbrev main_call9_c_0 : Ref sig .tc := ⟨.hbm, 258, rfl⟩
abbrev main_call9_v1 : Ref sig .tc := ⟨.hbm, 259, rfl⟩
abbrev main_call9_v2 : Ref sig .tc := ⟨.hbm, 260, rfl⟩
abbrev main_call9_v3 : Ref sig .tc := ⟨.hbm, 261, rfl⟩
abbrev main_call9_c_1 : Ref sig .tc := ⟨.hbm, 262, rfl⟩
abbrev main_call9_v4 : Ref sig .tc := ⟨.hbm, 263, rfl⟩
abbrev main_call9_c_2 : Ref sig .tc := ⟨.hbm, 264, rfl⟩
abbrev main_call9_v5 : Ref sig .tc := ⟨.hbm, 265, rfl⟩
abbrev main_call9_v6 : Ref sig .tc := ⟨.hbm, 266, rfl⟩
abbrev main_call9_v7 : Ref sig .tc := ⟨.hbm, 267, rfl⟩
abbrev main_call9_v8 : Ref sig .tc := ⟨.hbm, 268, rfl⟩
abbrev main_call9_c_3 : Ref sig .tc := ⟨.hbm, 269, rfl⟩
abbrev main_call9_v9 : Ref sig .tc := ⟨.hbm, 270, rfl⟩
abbrev main_call9_v10 : Ref sig .tc := ⟨.hbm, 271, rfl⟩
abbrev main_call9_v11 : Ref sig .tc := ⟨.hbm, 272, rfl⟩
abbrev main_call9_cst : Ref sig .tc := ⟨.hbm, 273, rfl⟩
abbrev main_call9_v12 : Ref sig .tc := ⟨.hbm, 274, rfl⟩
abbrev main_v82 : Ref sig .tc := ⟨.hbm, 275, rfl⟩
abbrev main_c_16 : Ref sig .tc := ⟨.hbm, 276, rfl⟩
abbrev main_call10_c : Ref sig .tc := ⟨.hbm, 277, rfl⟩
abbrev main_call10_v0 : Ref sig .tc := ⟨.hbm, 278, rfl⟩
abbrev main_call10_c_0 : Ref sig .tc := ⟨.hbm, 279, rfl⟩
abbrev main_call10_v1 : Ref sig .tc := ⟨.hbm, 280, rfl⟩
abbrev main_call10_v2 : Ref sig .tc := ⟨.hbm, 281, rfl⟩
abbrev main_call10_v3 : Ref sig .tc := ⟨.hbm, 282, rfl⟩
abbrev main_call10_c_1 : Ref sig .tc := ⟨.hbm, 283, rfl⟩
abbrev main_call10_v4 : Ref sig .tc := ⟨.hbm, 284, rfl⟩
abbrev main_call10_c_2 : Ref sig .tc := ⟨.hbm, 285, rfl⟩
abbrev main_call10_v5 : Ref sig .tc := ⟨.hbm, 286, rfl⟩
abbrev main_call10_v6 : Ref sig .tc := ⟨.hbm, 287, rfl⟩
abbrev main_call10_v7 : Ref sig .tc := ⟨.hbm, 288, rfl⟩
abbrev main_call10_v8 : Ref sig .tc := ⟨.hbm, 289, rfl⟩
abbrev main_call10_c_3 : Ref sig .tc := ⟨.hbm, 290, rfl⟩
abbrev main_call10_v9 : Ref sig .tc := ⟨.hbm, 291, rfl⟩
abbrev main_call10_v10 : Ref sig .tc := ⟨.hbm, 292, rfl⟩
abbrev main_call10_v11 : Ref sig .tc := ⟨.hbm, 293, rfl⟩
abbrev main_call10_cst : Ref sig .tc := ⟨.hbm, 294, rfl⟩
abbrev main_call10_v12 : Ref sig .tc := ⟨.hbm, 295, rfl⟩
abbrev main_v83 : Ref sig .tc := ⟨.hbm, 296, rfl⟩
abbrev main_v84 : Ref sig .tc := ⟨.hbm, 297, rfl⟩
abbrev main_v85 : Ref sig .tc := ⟨.hbm, 298, rfl⟩
abbrev main_v86 : Ref sig .tc := ⟨.hbm, 299, rfl⟩
abbrev main_v87 : Ref sig .tc := ⟨.hbm, 300, rfl⟩
abbrev main_v88 : Ref sig .tc := ⟨.hbm, 301, rfl⟩
abbrev main_v89 : Ref sig .tc := ⟨.hbm, 302, rfl⟩
abbrev main_v90 : Ref sig .tc := ⟨.hbm, 303, rfl⟩
abbrev main_v91 : Ref sig .tc := ⟨.hbm, 304, rfl⟩
abbrev main_v92 : Ref sig .tc := ⟨.hbm, 305, rfl⟩
abbrev main_v93 : Ref sig .tc := ⟨.hbm, 306, rfl⟩
abbrev main_v94 : Ref sig .tc := ⟨.hbm, 307, rfl⟩
abbrev main_v95 : Ref sig .tc := ⟨.hbm, 308, rfl⟩
abbrev main_v96 : Ref sig .tc := ⟨.hbm, 309, rfl⟩
abbrev main_c_17 : Ref sig .tc := ⟨.hbm, 310, rfl⟩
abbrev main_call11_c : Ref sig .tc := ⟨.hbm, 311, rfl⟩
abbrev main_call11_v0 : Ref sig .tc := ⟨.hbm, 312, rfl⟩
abbrev main_call11_c_0 : Ref sig .tc := ⟨.hbm, 313, rfl⟩
abbrev main_call11_v1 : Ref sig .tc := ⟨.hbm, 314, rfl⟩
abbrev main_call11_v2 : Ref sig .tc := ⟨.hbm, 315, rfl⟩
abbrev main_call11_v3 : Ref sig .tc := ⟨.hbm, 316, rfl⟩
abbrev main_call11_c_1 : Ref sig .tc := ⟨.hbm, 317, rfl⟩
abbrev main_call11_v4 : Ref sig .tc := ⟨.hbm, 318, rfl⟩
abbrev main_call11_c_2 : Ref sig .tc := ⟨.hbm, 319, rfl⟩
abbrev main_call11_v5 : Ref sig .tc := ⟨.hbm, 320, rfl⟩
abbrev main_call11_v6 : Ref sig .tc := ⟨.hbm, 321, rfl⟩
abbrev main_call11_v7 : Ref sig .tc := ⟨.hbm, 322, rfl⟩
abbrev main_call11_v8 : Ref sig .tc := ⟨.hbm, 323, rfl⟩
abbrev main_call11_c_3 : Ref sig .tc := ⟨.hbm, 324, rfl⟩
abbrev main_call11_v9 : Ref sig .tc := ⟨.hbm, 325, rfl⟩
abbrev main_call11_v10 : Ref sig .tc := ⟨.hbm, 326, rfl⟩
abbrev main_call11_v11 : Ref sig .tc := ⟨.hbm, 327, rfl⟩
abbrev main_call11_cst : Ref sig .tc := ⟨.hbm, 328, rfl⟩
abbrev main_call11_v12 : Ref sig .tc := ⟨.hbm, 329, rfl⟩
abbrev main_v97 : Ref sig .tc := ⟨.hbm, 330, rfl⟩
abbrev main_c_18 : Ref sig .tc := ⟨.hbm, 331, rfl⟩
abbrev main_call12_c : Ref sig .tc := ⟨.hbm, 332, rfl⟩
abbrev main_call12_v0 : Ref sig .tc := ⟨.hbm, 333, rfl⟩
abbrev main_call12_c_0 : Ref sig .tc := ⟨.hbm, 334, rfl⟩
abbrev main_call12_v1 : Ref sig .tc := ⟨.hbm, 335, rfl⟩
abbrev main_call12_v2 : Ref sig .tc := ⟨.hbm, 336, rfl⟩
abbrev main_call12_v3 : Ref sig .tc := ⟨.hbm, 337, rfl⟩
abbrev main_call12_c_1 : Ref sig .tc := ⟨.hbm, 338, rfl⟩
abbrev main_call12_v4 : Ref sig .tc := ⟨.hbm, 339, rfl⟩
abbrev main_call12_c_2 : Ref sig .tc := ⟨.hbm, 340, rfl⟩
abbrev main_call12_v5 : Ref sig .tc := ⟨.hbm, 341, rfl⟩
abbrev main_call12_v6 : Ref sig .tc := ⟨.hbm, 342, rfl⟩
abbrev main_call12_v7 : Ref sig .tc := ⟨.hbm, 343, rfl⟩
abbrev main_call12_v8 : Ref sig .tc := ⟨.hbm, 344, rfl⟩
abbrev main_call12_c_3 : Ref sig .tc := ⟨.hbm, 345, rfl⟩
abbrev main_call12_v9 : Ref sig .tc := ⟨.hbm, 346, rfl⟩
abbrev main_call12_v10 : Ref sig .tc := ⟨.hbm, 347, rfl⟩
abbrev main_call12_v11 : Ref sig .tc := ⟨.hbm, 348, rfl⟩
abbrev main_call12_cst : Ref sig .tc := ⟨.hbm, 349, rfl⟩
abbrev main_call12_v12 : Ref sig .tc := ⟨.hbm, 350, rfl⟩
abbrev main_v98 : Ref sig .tc := ⟨.hbm, 351, rfl⟩
abbrev main_v99 : Ref sig .tc := ⟨.hbm, 352, rfl⟩
abbrev main_v100 : Ref sig .tc := ⟨.hbm, 353, rfl⟩
abbrev main_v101 : Ref sig .tc := ⟨.hbm, 354, rfl⟩
abbrev main_v102 : Ref sig .tc := ⟨.hbm, 355, rfl⟩
abbrev main_v103 : Ref sig .tc := ⟨.hbm, 356, rfl⟩
abbrev main_v104 : Ref sig .tc := ⟨.hbm, 357, rfl⟩
abbrev main_cst_19 : Ref sig .tc := ⟨.hbm, 358, rfl⟩
abbrev main_v105 : Ref sig .tc := ⟨.hbm, 359, rfl⟩
abbrev main_v106 : Ref sig .tc := ⟨.hbm, 360, rfl⟩
abbrev main_cst_20 : Ref sig .tc := ⟨.hbm, 361, rfl⟩
abbrev main_v107 : Ref sig .tc := ⟨.hbm, 362, rfl⟩
abbrev main_v108 : Ref sig .tc := ⟨.hbm, 363, rfl⟩
abbrev main_c_21 : Ref sig .tc := ⟨.hbm, 364, rfl⟩
abbrev main_call14_c : Ref sig .tc := ⟨.hbm, 365, rfl⟩
abbrev main_call14_v0 : Ref sig .tc := ⟨.hbm, 366, rfl⟩
abbrev main_call14_c_0 : Ref sig .tc := ⟨.hbm, 367, rfl⟩
abbrev main_call14_v1 : Ref sig .tc := ⟨.hbm, 368, rfl⟩
abbrev main_call14_v2 : Ref sig .tc := ⟨.hbm, 369, rfl⟩
abbrev main_call14_v3 : Ref sig .tc := ⟨.hbm, 370, rfl⟩
abbrev main_call14_c_1 : Ref sig .tc := ⟨.hbm, 371, rfl⟩
abbrev main_call14_v4 : Ref sig .tc := ⟨.hbm, 372, rfl⟩
abbrev main_call14_c_2 : Ref sig .tc := ⟨.hbm, 373, rfl⟩
abbrev main_call14_v5 : Ref sig .tc := ⟨.hbm, 374, rfl⟩
abbrev main_call14_v6 : Ref sig .tc := ⟨.hbm, 375, rfl⟩
abbrev main_call14_v7 : Ref sig .tc := ⟨.hbm, 376, rfl⟩
abbrev main_call14_v8 : Ref sig .tc := ⟨.hbm, 377, rfl⟩
abbrev main_call14_c_3 : Ref sig .tc := ⟨.hbm, 378, rfl⟩
abbrev main_call14_v9 : Ref sig .tc := ⟨.hbm, 379, rfl⟩
abbrev main_call14_v10 : Ref sig .tc := ⟨.hbm, 380, rfl⟩
abbrev main_call14_v11 : Ref sig .tc := ⟨.hbm, 381, rfl⟩
abbrev main_call14_cst : Ref sig .tc := ⟨.hbm, 382, rfl⟩
abbrev main_call14_v12 : Ref sig .tc := ⟨.hbm, 383, rfl⟩
abbrev main_v109 : Ref sig .tc := ⟨.hbm, 384, rfl⟩
abbrev main_c_22 : Ref sig .tc := ⟨.hbm, 385, rfl⟩
abbrev main_call15_c : Ref sig .tc := ⟨.hbm, 386, rfl⟩
abbrev main_call15_v0 : Ref sig .tc := ⟨.hbm, 387, rfl⟩
abbrev main_call15_c_0 : Ref sig .tc := ⟨.hbm, 388, rfl⟩
abbrev main_call15_v1 : Ref sig .tc := ⟨.hbm, 389, rfl⟩
abbrev main_call15_v2 : Ref sig .tc := ⟨.hbm, 390, rfl⟩
abbrev main_call15_v3 : Ref sig .tc := ⟨.hbm, 391, rfl⟩
abbrev main_call15_c_1 : Ref sig .tc := ⟨.hbm, 392, rfl⟩
abbrev main_call15_v4 : Ref sig .tc := ⟨.hbm, 393, rfl⟩
abbrev main_call15_c_2 : Ref sig .tc := ⟨.hbm, 394, rfl⟩
abbrev main_call15_v5 : Ref sig .tc := ⟨.hbm, 395, rfl⟩
abbrev main_call15_v6 : Ref sig .tc := ⟨.hbm, 396, rfl⟩
abbrev main_call15_v7 : Ref sig .tc := ⟨.hbm, 397, rfl⟩
abbrev main_call15_v8 : Ref sig .tc := ⟨.hbm, 398, rfl⟩
abbrev main_call15_c_3 : Ref sig .tc := ⟨.hbm, 399, rfl⟩
abbrev main_call15_v9 : Ref sig .tc := ⟨.hbm, 400, rfl⟩
abbrev main_call15_v10 : Ref sig .tc := ⟨.hbm, 401, rfl⟩
abbrev main_call15_v11 : Ref sig .tc := ⟨.hbm, 402, rfl⟩
abbrev main_call15_cst : Ref sig .tc := ⟨.hbm, 403, rfl⟩
abbrev main_call15_v12 : Ref sig .tc := ⟨.hbm, 404, rfl⟩
abbrev main_v110 : Ref sig .tc := ⟨.hbm, 405, rfl⟩
abbrev main_v111 : Ref sig .tc := ⟨.hbm, 406, rfl⟩
abbrev main_v112 : Ref sig .tc := ⟨.hbm, 407, rfl⟩
abbrev main_v113 : Ref sig .tc := ⟨.hbm, 408, rfl⟩
abbrev main_v114 : Ref sig .tc := ⟨.hbm, 409, rfl⟩
abbrev main_v115 : Ref sig .tc := ⟨.hbm, 410, rfl⟩
abbrev main_v116 : Ref sig .tc := ⟨.hbm, 411, rfl⟩
abbrev main_v117 : Ref sig .tc := ⟨.hbm, 412, rfl⟩
abbrev main_v118 : Ref sig .tc := ⟨.hbm, 413, rfl⟩
abbrev main_v119 : Ref sig .tc := ⟨.hbm, 414, rfl⟩
abbrev main_v120 : Ref sig .tc := ⟨.hbm, 415, rfl⟩
abbrev main_v121 : Ref sig .tc := ⟨.hbm, 416, rfl⟩
abbrev main_v122 : Ref sig .tc := ⟨.hbm, 417, rfl⟩
abbrev main_v123 : Ref sig .tc := ⟨.hbm, 418, rfl⟩
abbrev main_v124 : Ref sig .tc := ⟨.hbm, 419, rfl⟩
abbrev main_v125 : Ref sig .tc := ⟨.hbm, 420, rfl⟩
abbrev main_cst_23 : Ref sig .tc := ⟨.hbm, 421, rfl⟩
abbrev main_v126 : Ref sig .tc := ⟨.hbm, 422, rfl⟩
abbrev main_v127 : Ref sig .tc := ⟨.hbm, 423, rfl⟩
abbrev main_cst_24 : Ref sig .tc := ⟨.hbm, 424, rfl⟩
abbrev main_v128 : Ref sig .tc := ⟨.hbm, 425, rfl⟩
abbrev main_v129 : Ref sig .tc := ⟨.hbm, 426, rfl⟩
abbrev main_c_25 : Ref sig .tc := ⟨.hbm, 427, rfl⟩
abbrev main_call16_c : Ref sig .tc := ⟨.hbm, 428, rfl⟩
abbrev main_call16_v0 : Ref sig .tc := ⟨.hbm, 429, rfl⟩
abbrev main_call16_c_0 : Ref sig .tc := ⟨.hbm, 430, rfl⟩
abbrev main_call16_v1 : Ref sig .tc := ⟨.hbm, 431, rfl⟩
abbrev main_call16_v2 : Ref sig .tc := ⟨.hbm, 432, rfl⟩
abbrev main_call16_v3 : Ref sig .tc := ⟨.hbm, 433, rfl⟩
abbrev main_call16_c_1 : Ref sig .tc := ⟨.hbm, 434, rfl⟩
abbrev main_call16_v4 : Ref sig .tc := ⟨.hbm, 435, rfl⟩
abbrev main_call16_c_2 : Ref sig .tc := ⟨.hbm, 436, rfl⟩
abbrev main_call16_v5 : Ref sig .tc := ⟨.hbm, 437, rfl⟩
abbrev main_call16_v6 : Ref sig .tc := ⟨.hbm, 438, rfl⟩
abbrev main_call16_v7 : Ref sig .tc := ⟨.hbm, 439, rfl⟩
abbrev main_call16_v8 : Ref sig .tc := ⟨.hbm, 440, rfl⟩
abbrev main_call16_c_3 : Ref sig .tc := ⟨.hbm, 441, rfl⟩
abbrev main_call16_v9 : Ref sig .tc := ⟨.hbm, 442, rfl⟩
abbrev main_call16_v10 : Ref sig .tc := ⟨.hbm, 443, rfl⟩
abbrev main_call16_v11 : Ref sig .tc := ⟨.hbm, 444, rfl⟩
abbrev main_call16_cst : Ref sig .tc := ⟨.hbm, 445, rfl⟩
abbrev main_call16_v12 : Ref sig .tc := ⟨.hbm, 446, rfl⟩
abbrev main_v130 : Ref sig .tc := ⟨.hbm, 447, rfl⟩
abbrev main_c_26 : Ref sig .tc := ⟨.hbm, 448, rfl⟩
abbrev main_call17_c : Ref sig .tc := ⟨.hbm, 449, rfl⟩
abbrev main_call17_v0 : Ref sig .tc := ⟨.hbm, 450, rfl⟩
abbrev main_call17_c_0 : Ref sig .tc := ⟨.hbm, 451, rfl⟩
abbrev main_call17_v1 : Ref sig .tc := ⟨.hbm, 452, rfl⟩
abbrev main_call17_v2 : Ref sig .tc := ⟨.hbm, 453, rfl⟩
abbrev main_call17_v3 : Ref sig .tc := ⟨.hbm, 454, rfl⟩
abbrev main_call17_c_1 : Ref sig .tc := ⟨.hbm, 455, rfl⟩
abbrev main_call17_v4 : Ref sig .tc := ⟨.hbm, 456, rfl⟩
abbrev main_call17_c_2 : Ref sig .tc := ⟨.hbm, 457, rfl⟩
abbrev main_call17_v5 : Ref sig .tc := ⟨.hbm, 458, rfl⟩
abbrev main_call17_v6 : Ref sig .tc := ⟨.hbm, 459, rfl⟩
abbrev main_call17_v7 : Ref sig .tc := ⟨.hbm, 460, rfl⟩
abbrev main_call17_v8 : Ref sig .tc := ⟨.hbm, 461, rfl⟩
abbrev main_call17_c_3 : Ref sig .tc := ⟨.hbm, 462, rfl⟩
abbrev main_call17_v9 : Ref sig .tc := ⟨.hbm, 463, rfl⟩
abbrev main_call17_v10 : Ref sig .tc := ⟨.hbm, 464, rfl⟩
abbrev main_call17_v11 : Ref sig .tc := ⟨.hbm, 465, rfl⟩
abbrev main_call17_cst : Ref sig .tc := ⟨.hbm, 466, rfl⟩
abbrev main_call17_v12 : Ref sig .tc := ⟨.hbm, 467, rfl⟩
abbrev main_v131 : Ref sig .tc := ⟨.hbm, 468, rfl⟩
abbrev main_v132 : Ref sig .tc := ⟨.hbm, 469, rfl⟩
abbrev main_v133 : Ref sig .tc := ⟨.hbm, 470, rfl⟩
abbrev main_v134 : Ref sig .tc := ⟨.hbm, 471, rfl⟩
abbrev main_v135 : Ref sig .tc := ⟨.hbm, 472, rfl⟩
abbrev main_v136 : Ref sig .tc := ⟨.hbm, 473, rfl⟩
abbrev main_v137 : Ref sig .tc := ⟨.hbm, 474, rfl⟩
abbrev main_v138 : Ref sig .tc := ⟨.hbm, 475, rfl⟩
abbrev main_v139 : Ref sig .tc := ⟨.hbm, 476, rfl⟩
abbrev main_v140 : Ref sig .tc := ⟨.hbm, 477, rfl⟩
abbrev main_v141 : Ref sig .tc := ⟨.hbm, 478, rfl⟩
abbrev main_v142 : Ref sig .tc := ⟨.hbm, 479, rfl⟩
abbrev main_v143 : Ref sig .tc := ⟨.hbm, 480, rfl⟩
abbrev main_v144 : Ref sig .tc := ⟨.hbm, 481, rfl⟩
abbrev main_c_27 : Ref sig .tc := ⟨.hbm, 482, rfl⟩
abbrev main_call18_c : Ref sig .tc := ⟨.hbm, 483, rfl⟩
abbrev main_call18_v0 : Ref sig .tc := ⟨.hbm, 484, rfl⟩
abbrev main_call18_c_0 : Ref sig .tc := ⟨.hbm, 485, rfl⟩
abbrev main_call18_v1 : Ref sig .tc := ⟨.hbm, 486, rfl⟩
abbrev main_call18_v2 : Ref sig .tc := ⟨.hbm, 487, rfl⟩
abbrev main_call18_v3 : Ref sig .tc := ⟨.hbm, 488, rfl⟩
abbrev main_call18_c_1 : Ref sig .tc := ⟨.hbm, 489, rfl⟩
abbrev main_call18_v4 : Ref sig .tc := ⟨.hbm, 490, rfl⟩
abbrev main_call18_c_2 : Ref sig .tc := ⟨.hbm, 491, rfl⟩
abbrev main_call18_v5 : Ref sig .tc := ⟨.hbm, 492, rfl⟩
abbrev main_call18_v6 : Ref sig .tc := ⟨.hbm, 493, rfl⟩
abbrev main_call18_v7 : Ref sig .tc := ⟨.hbm, 494, rfl⟩
abbrev main_call18_v8 : Ref sig .tc := ⟨.hbm, 495, rfl⟩
abbrev main_call18_c_3 : Ref sig .tc := ⟨.hbm, 496, rfl⟩
abbrev main_call18_v9 : Ref sig .tc := ⟨.hbm, 497, rfl⟩
abbrev main_call18_v10 : Ref sig .tc := ⟨.hbm, 498, rfl⟩
abbrev main_call18_v11 : Ref sig .tc := ⟨.hbm, 499, rfl⟩
abbrev main_call18_cst : Ref sig .tc := ⟨.hbm, 500, rfl⟩
abbrev main_call18_v12 : Ref sig .tc := ⟨.hbm, 501, rfl⟩
abbrev main_v145 : Ref sig .tc := ⟨.hbm, 502, rfl⟩
abbrev main_c_28 : Ref sig .tc := ⟨.hbm, 503, rfl⟩
abbrev main_call19_c : Ref sig .tc := ⟨.hbm, 504, rfl⟩
abbrev main_call19_v0 : Ref sig .tc := ⟨.hbm, 505, rfl⟩
abbrev main_call19_c_0 : Ref sig .tc := ⟨.hbm, 506, rfl⟩
abbrev main_call19_v1 : Ref sig .tc := ⟨.hbm, 507, rfl⟩
abbrev main_call19_v2 : Ref sig .tc := ⟨.hbm, 508, rfl⟩
abbrev main_call19_v3 : Ref sig .tc := ⟨.hbm, 509, rfl⟩
abbrev main_call19_c_1 : Ref sig .tc := ⟨.hbm, 510, rfl⟩
abbrev main_call19_v4 : Ref sig .tc := ⟨.hbm, 511, rfl⟩
abbrev main_call19_c_2 : Ref sig .tc := ⟨.hbm, 512, rfl⟩
abbrev main_call19_v5 : Ref sig .tc := ⟨.hbm, 513, rfl⟩
abbrev main_call19_v6 : Ref sig .tc := ⟨.hbm, 514, rfl⟩
abbrev main_call19_v7 : Ref sig .tc := ⟨.hbm, 515, rfl⟩
abbrev main_call19_v8 : Ref sig .tc := ⟨.hbm, 516, rfl⟩
abbrev main_call19_c_3 : Ref sig .tc := ⟨.hbm, 517, rfl⟩
abbrev main_call19_v9 : Ref sig .tc := ⟨.hbm, 518, rfl⟩
abbrev main_call19_v10 : Ref sig .tc := ⟨.hbm, 519, rfl⟩
abbrev main_call19_v11 : Ref sig .tc := ⟨.hbm, 520, rfl⟩
abbrev main_call19_cst : Ref sig .tc := ⟨.hbm, 521, rfl⟩
abbrev main_call19_v12 : Ref sig .tc := ⟨.hbm, 522, rfl⟩
abbrev main_v146 : Ref sig .tc := ⟨.hbm, 523, rfl⟩
abbrev main_v147 : Ref sig .tc := ⟨.hbm, 524, rfl⟩
abbrev main_v148 : Ref sig .tc := ⟨.hbm, 525, rfl⟩
abbrev main_v149 : Ref sig .tc := ⟨.hbm, 526, rfl⟩
abbrev main_v150 : Ref sig .tc := ⟨.hbm, 527, rfl⟩
abbrev main_v151 : Ref sig .tc := ⟨.hbm, 528, rfl⟩
abbrev main_v152 : Ref sig .tc := ⟨.hbm, 529, rfl⟩
abbrev main_cst_29 : Ref sig .tc := ⟨.hbm, 530, rfl⟩
abbrev main_v153 : Ref sig .tc := ⟨.hbm, 531, rfl⟩
abbrev main_v154 : Ref sig .tc := ⟨.hbm, 532, rfl⟩
abbrev main_cst_30 : Ref sig .tc := ⟨.hbm, 533, rfl⟩
abbrev main_v155 : Ref sig .tc := ⟨.hbm, 534, rfl⟩
abbrev main_v156 : Ref sig .tc := ⟨.hbm, 535, rfl⟩
abbrev main_c_31 : Ref sig .tc := ⟨.hbm, 536, rfl⟩
abbrev main_call21_c : Ref sig .tc := ⟨.hbm, 537, rfl⟩
abbrev main_call21_v0 : Ref sig .tc := ⟨.hbm, 538, rfl⟩
abbrev main_call21_c_0 : Ref sig .tc := ⟨.hbm, 539, rfl⟩
abbrev main_call21_v1 : Ref sig .tc := ⟨.hbm, 540, rfl⟩
abbrev main_call21_v2 : Ref sig .tc := ⟨.hbm, 541, rfl⟩
abbrev main_call21_v3 : Ref sig .tc := ⟨.hbm, 542, rfl⟩
abbrev main_call21_c_1 : Ref sig .tc := ⟨.hbm, 543, rfl⟩
abbrev main_call21_v4 : Ref sig .tc := ⟨.hbm, 544, rfl⟩
abbrev main_call21_c_2 : Ref sig .tc := ⟨.hbm, 545, rfl⟩
abbrev main_call21_v5 : Ref sig .tc := ⟨.hbm, 546, rfl⟩
abbrev main_call21_v6 : Ref sig .tc := ⟨.hbm, 547, rfl⟩
abbrev main_call21_v7 : Ref sig .tc := ⟨.hbm, 548, rfl⟩
abbrev main_call21_v8 : Ref sig .tc := ⟨.hbm, 549, rfl⟩
abbrev main_call21_c_3 : Ref sig .tc := ⟨.hbm, 550, rfl⟩
abbrev main_call21_v9 : Ref sig .tc := ⟨.hbm, 551, rfl⟩
abbrev main_call21_v10 : Ref sig .tc := ⟨.hbm, 552, rfl⟩
abbrev main_call21_v11 : Ref sig .tc := ⟨.hbm, 553, rfl⟩
abbrev main_call21_cst : Ref sig .tc := ⟨.hbm, 554, rfl⟩
abbrev main_call21_v12 : Ref sig .tc := ⟨.hbm, 555, rfl⟩
abbrev main_v157 : Ref sig .tc := ⟨.hbm, 556, rfl⟩
abbrev main_c_32 : Ref sig .tc := ⟨.hbm, 557, rfl⟩
abbrev main_call22_c : Ref sig .tc := ⟨.hbm, 558, rfl⟩
abbrev main_call22_v0 : Ref sig .tc := ⟨.hbm, 559, rfl⟩
abbrev main_call22_c_0 : Ref sig .tc := ⟨.hbm, 560, rfl⟩
abbrev main_call22_v1 : Ref sig .tc := ⟨.hbm, 561, rfl⟩
abbrev main_call22_v2 : Ref sig .tc := ⟨.hbm, 562, rfl⟩
abbrev main_call22_v3 : Ref sig .tc := ⟨.hbm, 563, rfl⟩
abbrev main_call22_c_1 : Ref sig .tc := ⟨.hbm, 564, rfl⟩
abbrev main_call22_v4 : Ref sig .tc := ⟨.hbm, 565, rfl⟩
abbrev main_call22_c_2 : Ref sig .tc := ⟨.hbm, 566, rfl⟩
abbrev main_call22_v5 : Ref sig .tc := ⟨.hbm, 567, rfl⟩
abbrev main_call22_v6 : Ref sig .tc := ⟨.hbm, 568, rfl⟩
abbrev main_call22_v7 : Ref sig .tc := ⟨.hbm, 569, rfl⟩
abbrev main_call22_v8 : Ref sig .tc := ⟨.hbm, 570, rfl⟩
abbrev main_call22_c_3 : Ref sig .tc := ⟨.hbm, 571, rfl⟩
abbrev main_call22_v9 : Ref sig .tc := ⟨.hbm, 572, rfl⟩
abbrev main_call22_v10 : Ref sig .tc := ⟨.hbm, 573, rfl⟩
abbrev main_call22_v11 : Ref sig .tc := ⟨.hbm, 574, rfl⟩
abbrev main_call22_cst : Ref sig .tc := ⟨.hbm, 575, rfl⟩
abbrev main_call22_v12 : Ref sig .tc := ⟨.hbm, 576, rfl⟩
abbrev main_v158 : Ref sig .tc := ⟨.hbm, 577, rfl⟩
abbrev main_v159 : Ref sig .tc := ⟨.hbm, 578, rfl⟩
abbrev main_v160 : Ref sig .tc := ⟨.hbm, 579, rfl⟩
abbrev main_v161 : Ref sig .tc := ⟨.hbm, 580, rfl⟩
abbrev main_v162 : Ref sig .tc := ⟨.hbm, 581, rfl⟩
abbrev main_v163 : Ref sig .tc := ⟨.hbm, 582, rfl⟩
abbrev main_v164 : Ref sig .tc := ⟨.hbm, 583, rfl⟩
abbrev main_v165 : Ref sig .tc := ⟨.hbm, 584, rfl⟩
abbrev main_v166 : Ref sig .tc := ⟨.hbm, 585, rfl⟩
abbrev main_v167 : Ref sig .tc := ⟨.hbm, 586, rfl⟩
abbrev main_v168 : Ref sig .tc := ⟨.hbm, 587, rfl⟩
abbrev main_v169 : Ref sig .tc := ⟨.hbm, 588, rfl⟩
abbrev main_v170 : Ref sig .tc := ⟨.hbm, 589, rfl⟩
abbrev main_v171 : Ref sig .tc := ⟨.hbm, 590, rfl⟩
abbrev main_v172 : Ref sig .tc := ⟨.hbm, 591, rfl⟩
abbrev main_v173 : Ref sig .tc := ⟨.hbm, 592, rfl⟩
abbrev main_cst_33 : Ref sig .tc := ⟨.hbm, 593, rfl⟩
abbrev main_v174 : Ref sig .tc := ⟨.hbm, 594, rfl⟩
abbrev main_v175 : Ref sig .tc := ⟨.hbm, 595, rfl⟩
abbrev main_cst_34 : Ref sig .tc := ⟨.hbm, 596, rfl⟩
abbrev main_v176 : Ref sig .tc := ⟨.hbm, 597, rfl⟩
abbrev main_v177 : Ref sig .tc := ⟨.hbm, 598, rfl⟩
abbrev main_c_35 : Ref sig .tc := ⟨.hbm, 599, rfl⟩
abbrev main_call23_c : Ref sig .tc := ⟨.hbm, 600, rfl⟩
abbrev main_call23_v0 : Ref sig .tc := ⟨.hbm, 601, rfl⟩
abbrev main_call23_c_0 : Ref sig .tc := ⟨.hbm, 602, rfl⟩
abbrev main_call23_v1 : Ref sig .tc := ⟨.hbm, 603, rfl⟩
abbrev main_call23_v2 : Ref sig .tc := ⟨.hbm, 604, rfl⟩
abbrev main_call23_v3 : Ref sig .tc := ⟨.hbm, 605, rfl⟩
abbrev main_call23_c_1 : Ref sig .tc := ⟨.hbm, 606, rfl⟩
abbrev main_call23_v4 : Ref sig .tc := ⟨.hbm, 607, rfl⟩
abbrev main_call23_c_2 : Ref sig .tc := ⟨.hbm, 608, rfl⟩
abbrev main_call23_v5 : Ref sig .tc := ⟨.hbm, 609, rfl⟩
abbrev main_call23_v6 : Ref sig .tc := ⟨.hbm, 610, rfl⟩
abbrev main_call23_v7 : Ref sig .tc := ⟨.hbm, 611, rfl⟩
abbrev main_call23_v8 : Ref sig .tc := ⟨.hbm, 612, rfl⟩
abbrev main_call23_c_3 : Ref sig .tc := ⟨.hbm, 613, rfl⟩
abbrev main_call23_v9 : Ref sig .tc := ⟨.hbm, 614, rfl⟩
abbrev main_call23_v10 : Ref sig .tc := ⟨.hbm, 615, rfl⟩
abbrev main_call23_v11 : Ref sig .tc := ⟨.hbm, 616, rfl⟩
abbrev main_call23_cst : Ref sig .tc := ⟨.hbm, 617, rfl⟩
abbrev main_call23_v12 : Ref sig .tc := ⟨.hbm, 618, rfl⟩
abbrev main_v178 : Ref sig .tc := ⟨.hbm, 619, rfl⟩
abbrev main_c_36 : Ref sig .tc := ⟨.hbm, 620, rfl⟩
abbrev main_call24_c : Ref sig .tc := ⟨.hbm, 621, rfl⟩
abbrev main_call24_v0 : Ref sig .tc := ⟨.hbm, 622, rfl⟩
abbrev main_call24_c_0 : Ref sig .tc := ⟨.hbm, 623, rfl⟩
abbrev main_call24_v1 : Ref sig .tc := ⟨.hbm, 624, rfl⟩
abbrev main_call24_v2 : Ref sig .tc := ⟨.hbm, 625, rfl⟩
abbrev main_call24_v3 : Ref sig .tc := ⟨.hbm, 626, rfl⟩
abbrev main_call24_c_1 : Ref sig .tc := ⟨.hbm, 627, rfl⟩
abbrev main_call24_v4 : Ref sig .tc := ⟨.hbm, 628, rfl⟩
abbrev main_call24_c_2 : Ref sig .tc := ⟨.hbm, 629, rfl⟩
abbrev main_call24_v5 : Ref sig .tc := ⟨.hbm, 630, rfl⟩
abbrev main_call24_v6 : Ref sig .tc := ⟨.hbm, 631, rfl⟩
abbrev main_call24_v7 : Ref sig .tc := ⟨.hbm, 632, rfl⟩
abbrev main_call24_v8 : Ref sig .tc := ⟨.hbm, 633, rfl⟩
abbrev main_call24_c_3 : Ref sig .tc := ⟨.hbm, 634, rfl⟩
abbrev main_call24_v9 : Ref sig .tc := ⟨.hbm, 635, rfl⟩
abbrev main_call24_v10 : Ref sig .tc := ⟨.hbm, 636, rfl⟩
abbrev main_call24_v11 : Ref sig .tc := ⟨.hbm, 637, rfl⟩
abbrev main_call24_cst : Ref sig .tc := ⟨.hbm, 638, rfl⟩
abbrev main_call24_v12 : Ref sig .tc := ⟨.hbm, 639, rfl⟩
abbrev main_v179 : Ref sig .tc := ⟨.hbm, 640, rfl⟩
abbrev main_v180 : Ref sig .tc := ⟨.hbm, 641, rfl⟩
abbrev main_v181 : Ref sig .tc := ⟨.hbm, 642, rfl⟩
abbrev main_v182 : Ref sig .tc := ⟨.hbm, 643, rfl⟩
abbrev main_v183 : Ref sig .tc := ⟨.hbm, 644, rfl⟩
abbrev main_v184 : Ref sig .tc := ⟨.hbm, 645, rfl⟩
abbrev main_v185 : Ref sig .tc := ⟨.hbm, 646, rfl⟩
abbrev main_v186 : Ref sig .tc := ⟨.hbm, 647, rfl⟩
abbrev main_v187 : Ref sig .tc := ⟨.hbm, 648, rfl⟩
abbrev main_v188 : Ref sig .tc := ⟨.hbm, 649, rfl⟩
abbrev main_v189 : Ref sig .tc := ⟨.hbm, 650, rfl⟩
abbrev main_v190 : Ref sig .tc := ⟨.hbm, 651, rfl⟩
abbrev main_v191 : Ref sig .tc := ⟨.hbm, 652, rfl⟩
abbrev main_v192 : Ref sig .tc := ⟨.hbm, 653, rfl⟩
abbrev main_c_37 : Ref sig .tc := ⟨.hbm, 654, rfl⟩
abbrev main_call25_c : Ref sig .tc := ⟨.hbm, 655, rfl⟩
abbrev main_call25_v0 : Ref sig .tc := ⟨.hbm, 656, rfl⟩
abbrev main_call25_c_0 : Ref sig .tc := ⟨.hbm, 657, rfl⟩
abbrev main_call25_v1 : Ref sig .tc := ⟨.hbm, 658, rfl⟩
abbrev main_call25_v2 : Ref sig .tc := ⟨.hbm, 659, rfl⟩
abbrev main_call25_v3 : Ref sig .tc := ⟨.hbm, 660, rfl⟩
abbrev main_call25_c_1 : Ref sig .tc := ⟨.hbm, 661, rfl⟩
abbrev main_call25_v4 : Ref sig .tc := ⟨.hbm, 662, rfl⟩
abbrev main_call25_c_2 : Ref sig .tc := ⟨.hbm, 663, rfl⟩
abbrev main_call25_v5 : Ref sig .tc := ⟨.hbm, 664, rfl⟩
abbrev main_call25_v6 : Ref sig .tc := ⟨.hbm, 665, rfl⟩
abbrev main_call25_v7 : Ref sig .tc := ⟨.hbm, 666, rfl⟩
abbrev main_call25_v8 : Ref sig .tc := ⟨.hbm, 667, rfl⟩
abbrev main_call25_c_3 : Ref sig .tc := ⟨.hbm, 668, rfl⟩
abbrev main_call25_v9 : Ref sig .tc := ⟨.hbm, 669, rfl⟩
abbrev main_call25_v10 : Ref sig .tc := ⟨.hbm, 670, rfl⟩
abbrev main_call25_v11 : Ref sig .tc := ⟨.hbm, 671, rfl⟩
abbrev main_call25_cst : Ref sig .tc := ⟨.hbm, 672, rfl⟩
abbrev main_call25_v12 : Ref sig .tc := ⟨.hbm, 673, rfl⟩
abbrev main_v193 : Ref sig .tc := ⟨.hbm, 674, rfl⟩
abbrev main_c_38 : Ref sig .tc := ⟨.hbm, 675, rfl⟩
abbrev main_call26_c : Ref sig .tc := ⟨.hbm, 676, rfl⟩
abbrev main_call26_v0 : Ref sig .tc := ⟨.hbm, 677, rfl⟩
abbrev main_call26_c_0 : Ref sig .tc := ⟨.hbm, 678, rfl⟩
abbrev main_call26_v1 : Ref sig .tc := ⟨.hbm, 679, rfl⟩
abbrev main_call26_v2 : Ref sig .tc := ⟨.hbm, 680, rfl⟩
abbrev main_call26_v3 : Ref sig .tc := ⟨.hbm, 681, rfl⟩
abbrev main_call26_c_1 : Ref sig .tc := ⟨.hbm, 682, rfl⟩
abbrev main_call26_v4 : Ref sig .tc := ⟨.hbm, 683, rfl⟩
abbrev main_call26_c_2 : Ref sig .tc := ⟨.hbm, 684, rfl⟩
abbrev main_call26_v5 : Ref sig .tc := ⟨.hbm, 685, rfl⟩
abbrev main_call26_v6 : Ref sig .tc := ⟨.hbm, 686, rfl⟩
abbrev main_call26_v7 : Ref sig .tc := ⟨.hbm, 687, rfl⟩
abbrev main_call26_v8 : Ref sig .tc := ⟨.hbm, 688, rfl⟩
abbrev main_call26_c_3 : Ref sig .tc := ⟨.hbm, 689, rfl⟩
abbrev main_call26_v9 : Ref sig .tc := ⟨.hbm, 690, rfl⟩
abbrev main_call26_v10 : Ref sig .tc := ⟨.hbm, 691, rfl⟩
abbrev main_call26_v11 : Ref sig .tc := ⟨.hbm, 692, rfl⟩
abbrev main_call26_cst : Ref sig .tc := ⟨.hbm, 693, rfl⟩
abbrev main_call26_v12 : Ref sig .tc := ⟨.hbm, 694, rfl⟩
abbrev main_v194 : Ref sig .tc := ⟨.hbm, 695, rfl⟩
abbrev main_v195 : Ref sig .tc := ⟨.hbm, 696, rfl⟩
abbrev main_v196 : Ref sig .tc := ⟨.hbm, 697, rfl⟩
abbrev main_v197 : Ref sig .tc := ⟨.hbm, 698, rfl⟩
abbrev main_v198 : Ref sig .tc := ⟨.hbm, 699, rfl⟩
abbrev main_v199 : Ref sig .tc := ⟨.hbm, 700, rfl⟩
abbrev main_v200 : Ref sig .tc := ⟨.hbm, 701, rfl⟩
abbrev main_cst_39 : Ref sig .tc := ⟨.hbm, 702, rfl⟩
abbrev main_v201 : Ref sig .tc := ⟨.hbm, 703, rfl⟩
abbrev main_v202 : Ref sig .tc := ⟨.hbm, 704, rfl⟩
abbrev main_cst_40 : Ref sig .tc := ⟨.hbm, 705, rfl⟩
abbrev main_v203 : Ref sig .tc := ⟨.hbm, 706, rfl⟩
abbrev main_v204 : Ref sig .tc := ⟨.hbm, 707, rfl⟩
abbrev main_c_41 : Ref sig .tc := ⟨.hbm, 708, rfl⟩
abbrev main_call28_c : Ref sig .tc := ⟨.hbm, 709, rfl⟩
abbrev main_call28_v0 : Ref sig .tc := ⟨.hbm, 710, rfl⟩
abbrev main_call28_c_0 : Ref sig .tc := ⟨.hbm, 711, rfl⟩
abbrev main_call28_v1 : Ref sig .tc := ⟨.hbm, 712, rfl⟩
abbrev main_call28_v2 : Ref sig .tc := ⟨.hbm, 713, rfl⟩
abbrev main_call28_v3 : Ref sig .tc := ⟨.hbm, 714, rfl⟩
abbrev main_call28_c_1 : Ref sig .tc := ⟨.hbm, 715, rfl⟩
abbrev main_call28_v4 : Ref sig .tc := ⟨.hbm, 716, rfl⟩
abbrev main_call28_c_2 : Ref sig .tc := ⟨.hbm, 717, rfl⟩
abbrev main_call28_v5 : Ref sig .tc := ⟨.hbm, 718, rfl⟩
abbrev main_call28_v6 : Ref sig .tc := ⟨.hbm, 719, rfl⟩
abbrev main_call28_v7 : Ref sig .tc := ⟨.hbm, 720, rfl⟩
abbrev main_call28_v8 : Ref sig .tc := ⟨.hbm, 721, rfl⟩
abbrev main_call28_c_3 : Ref sig .tc := ⟨.hbm, 722, rfl⟩
abbrev main_call28_v9 : Ref sig .tc := ⟨.hbm, 723, rfl⟩
abbrev main_call28_v10 : Ref sig .tc := ⟨.hbm, 724, rfl⟩
abbrev main_call28_v11 : Ref sig .tc := ⟨.hbm, 725, rfl⟩
abbrev main_call28_cst : Ref sig .tc := ⟨.hbm, 726, rfl⟩
abbrev main_call28_v12 : Ref sig .tc := ⟨.hbm, 727, rfl⟩
abbrev main_v205 : Ref sig .tc := ⟨.hbm, 728, rfl⟩
abbrev main_c_42 : Ref sig .tc := ⟨.hbm, 729, rfl⟩
abbrev main_call29_c : Ref sig .tc := ⟨.hbm, 730, rfl⟩
abbrev main_call29_v0 : Ref sig .tc := ⟨.hbm, 731, rfl⟩
abbrev main_call29_c_0 : Ref sig .tc := ⟨.hbm, 732, rfl⟩
abbrev main_call29_v1 : Ref sig .tc := ⟨.hbm, 733, rfl⟩
abbrev main_call29_v2 : Ref sig .tc := ⟨.hbm, 734, rfl⟩
abbrev main_call29_v3 : Ref sig .tc := ⟨.hbm, 735, rfl⟩
abbrev main_call29_c_1 : Ref sig .tc := ⟨.hbm, 736, rfl⟩
abbrev main_call29_v4 : Ref sig .tc := ⟨.hbm, 737, rfl⟩
abbrev main_call29_c_2 : Ref sig .tc := ⟨.hbm, 738, rfl⟩
abbrev main_call29_v5 : Ref sig .tc := ⟨.hbm, 739, rfl⟩
abbrev main_call29_v6 : Ref sig .tc := ⟨.hbm, 740, rfl⟩
abbrev main_call29_v7 : Ref sig .tc := ⟨.hbm, 741, rfl⟩
abbrev main_call29_v8 : Ref sig .tc := ⟨.hbm, 742, rfl⟩
abbrev main_call29_c_3 : Ref sig .tc := ⟨.hbm, 743, rfl⟩
abbrev main_call29_v9 : Ref sig .tc := ⟨.hbm, 744, rfl⟩
abbrev main_call29_v10 : Ref sig .tc := ⟨.hbm, 745, rfl⟩
abbrev main_call29_v11 : Ref sig .tc := ⟨.hbm, 746, rfl⟩
abbrev main_call29_cst : Ref sig .tc := ⟨.hbm, 747, rfl⟩
abbrev main_call29_v12 : Ref sig .tc := ⟨.hbm, 748, rfl⟩
abbrev main_v206 : Ref sig .tc := ⟨.hbm, 749, rfl⟩
abbrev main_v207 : Ref sig .tc := ⟨.hbm, 750, rfl⟩
abbrev main_v208 : Ref sig .tc := ⟨.hbm, 751, rfl⟩
abbrev main_v209 : Ref sig .tc := ⟨.hbm, 752, rfl⟩
abbrev main_v210 : Ref sig .tc := ⟨.hbm, 753, rfl⟩
abbrev main_v211 : Ref sig .tc := ⟨.hbm, 754, rfl⟩
abbrev main_v212 : Ref sig .tc := ⟨.hbm, 755, rfl⟩
abbrev main_v213 : Ref sig .tc := ⟨.hbm, 756, rfl⟩
abbrev main_v214 : Ref sig .tc := ⟨.hbm, 757, rfl⟩
abbrev main_v215 : Ref sig .tc := ⟨.hbm, 758, rfl⟩
abbrev main_v216 : Ref sig .tc := ⟨.hbm, 759, rfl⟩
abbrev main_v217 : Ref sig .tc := ⟨.hbm, 760, rfl⟩
abbrev main_v218 : Ref sig .tc := ⟨.hbm, 761, rfl⟩
abbrev main_v219 : Ref sig .tc := ⟨.hbm, 762, rfl⟩
abbrev main_v220 : Ref sig .tc := ⟨.hbm, 763, rfl⟩
abbrev main_v221 : Ref sig .tc := ⟨.hbm, 764, rfl⟩
abbrev main_cst_43 : Ref sig .tc := ⟨.hbm, 765, rfl⟩
abbrev main_v222 : Ref sig .tc := ⟨.hbm, 766, rfl⟩
abbrev main_v223 : Ref sig .tc := ⟨.hbm, 767, rfl⟩
abbrev main_cst_44 : Ref sig .tc := ⟨.hbm, 768, rfl⟩
abbrev main_v224 : Ref sig .tc := ⟨.hbm, 769, rfl⟩
abbrev main_v225 : Ref sig .tc := ⟨.hbm, 770, rfl⟩
abbrev main_c_45 : Ref sig .tc := ⟨.hbm, 771, rfl⟩
abbrev main_call30_c : Ref sig .tc := ⟨.hbm, 772, rfl⟩
abbrev main_call30_v0 : Ref sig .tc := ⟨.hbm, 773, rfl⟩
abbrev main_call30_c_0 : Ref sig .tc := ⟨.hbm, 774, rfl⟩
abbrev main_call30_v1 : Ref sig .tc := ⟨.hbm, 775, rfl⟩
abbrev main_call30_v2 : Ref sig .tc := ⟨.hbm, 776, rfl⟩
abbrev main_call30_v3 : Ref sig .tc := ⟨.hbm, 777, rfl⟩
abbrev main_call30_c_1 : Ref sig .tc := ⟨.hbm, 778, rfl⟩
abbrev main_call30_v4 : Ref sig .tc := ⟨.hbm, 779, rfl⟩
abbrev main_call30_c_2 : Ref sig .tc := ⟨.hbm, 780, rfl⟩
abbrev main_call30_v5 : Ref sig .tc := ⟨.hbm, 781, rfl⟩
abbrev main_call30_v6 : Ref sig .tc := ⟨.hbm, 782, rfl⟩
abbrev main_call30_v7 : Ref sig .tc := ⟨.hbm, 783, rfl⟩
abbrev main_call30_v8 : Ref sig .tc := ⟨.hbm, 784, rfl⟩
abbrev main_call30_c_3 : Ref sig .tc := ⟨.hbm, 785, rfl⟩
abbrev main_call30_v9 : Ref sig .tc := ⟨.hbm, 786, rfl⟩
abbrev main_call30_v10 : Ref sig .tc := ⟨.hbm, 787, rfl⟩
abbrev main_call30_v11 : Ref sig .tc := ⟨.hbm, 788, rfl⟩
abbrev main_call30_cst : Ref sig .tc := ⟨.hbm, 789, rfl⟩
abbrev main_call30_v12 : Ref sig .tc := ⟨.hbm, 790, rfl⟩
abbrev main_v226 : Ref sig .tc := ⟨.hbm, 791, rfl⟩
abbrev main_c_46 : Ref sig .tc := ⟨.hbm, 792, rfl⟩
abbrev main_call31_c : Ref sig .tc := ⟨.hbm, 793, rfl⟩
abbrev main_call31_v0 : Ref sig .tc := ⟨.hbm, 794, rfl⟩
abbrev main_call31_c_0 : Ref sig .tc := ⟨.hbm, 795, rfl⟩
abbrev main_call31_v1 : Ref sig .tc := ⟨.hbm, 796, rfl⟩
abbrev main_call31_v2 : Ref sig .tc := ⟨.hbm, 797, rfl⟩
abbrev main_call31_v3 : Ref sig .tc := ⟨.hbm, 798, rfl⟩
abbrev main_call31_c_1 : Ref sig .tc := ⟨.hbm, 799, rfl⟩
abbrev main_call31_v4 : Ref sig .tc := ⟨.hbm, 800, rfl⟩
abbrev main_call31_c_2 : Ref sig .tc := ⟨.hbm, 801, rfl⟩
abbrev main_call31_v5 : Ref sig .tc := ⟨.hbm, 802, rfl⟩
abbrev main_call31_v6 : Ref sig .tc := ⟨.hbm, 803, rfl⟩
abbrev main_call31_v7 : Ref sig .tc := ⟨.hbm, 804, rfl⟩
abbrev main_call31_v8 : Ref sig .tc := ⟨.hbm, 805, rfl⟩
abbrev main_call31_c_3 : Ref sig .tc := ⟨.hbm, 806, rfl⟩
abbrev main_call31_v9 : Ref sig .tc := ⟨.hbm, 807, rfl⟩
abbrev main_call31_v10 : Ref sig .tc := ⟨.hbm, 808, rfl⟩
abbrev main_call31_v11 : Ref sig .tc := ⟨.hbm, 809, rfl⟩
abbrev main_call31_cst : Ref sig .tc := ⟨.hbm, 810, rfl⟩
abbrev main_call31_v12 : Ref sig .tc := ⟨.hbm, 811, rfl⟩
abbrev main_v227 : Ref sig .tc := ⟨.hbm, 812, rfl⟩
abbrev main_v228 : Ref sig .tc := ⟨.hbm, 813, rfl⟩
abbrev main_v229 : Ref sig .tc := ⟨.hbm, 814, rfl⟩
abbrev main_v230 : Ref sig .tc := ⟨.hbm, 815, rfl⟩
abbrev main_v231 : Ref sig .tc := ⟨.hbm, 816, rfl⟩
abbrev main_v232 : Ref sig .tc := ⟨.hbm, 817, rfl⟩
abbrev main_v233 : Ref sig .tc := ⟨.hbm, 818, rfl⟩
abbrev main_v234 : Ref sig .tc := ⟨.hbm, 819, rfl⟩
abbrev main_v235 : Ref sig .tc := ⟨.hbm, 820, rfl⟩
abbrev main_v236 : Ref sig .tc := ⟨.hbm, 821, rfl⟩
abbrev main_v237 : Ref sig .tc := ⟨.hbm, 822, rfl⟩
abbrev main_v238 : Ref sig .tc := ⟨.hbm, 823, rfl⟩
abbrev main_v239 : Ref sig .tc := ⟨.hbm, 824, rfl⟩
abbrev main_v240 : Ref sig .tc := ⟨.hbm, 825, rfl⟩
abbrev main_c_47 : Ref sig .tc := ⟨.hbm, 826, rfl⟩
abbrev main_call32_c : Ref sig .tc := ⟨.hbm, 827, rfl⟩
abbrev main_call32_v0 : Ref sig .tc := ⟨.hbm, 828, rfl⟩
abbrev main_call32_c_0 : Ref sig .tc := ⟨.hbm, 829, rfl⟩
abbrev main_call32_v1 : Ref sig .tc := ⟨.hbm, 830, rfl⟩
abbrev main_call32_v2 : Ref sig .tc := ⟨.hbm, 831, rfl⟩
abbrev main_call32_v3 : Ref sig .tc := ⟨.hbm, 832, rfl⟩
abbrev main_call32_c_1 : Ref sig .tc := ⟨.hbm, 833, rfl⟩
abbrev main_call32_v4 : Ref sig .tc := ⟨.hbm, 834, rfl⟩
abbrev main_call32_c_2 : Ref sig .tc := ⟨.hbm, 835, rfl⟩
abbrev main_call32_v5 : Ref sig .tc := ⟨.hbm, 836, rfl⟩
abbrev main_call32_v6 : Ref sig .tc := ⟨.hbm, 837, rfl⟩
abbrev main_call32_v7 : Ref sig .tc := ⟨.hbm, 838, rfl⟩
abbrev main_call32_v8 : Ref sig .tc := ⟨.hbm, 839, rfl⟩
abbrev main_call32_c_3 : Ref sig .tc := ⟨.hbm, 840, rfl⟩
abbrev main_call32_v9 : Ref sig .tc := ⟨.hbm, 841, rfl⟩
abbrev main_call32_v10 : Ref sig .tc := ⟨.hbm, 842, rfl⟩
abbrev main_call32_v11 : Ref sig .tc := ⟨.hbm, 843, rfl⟩
abbrev main_call32_cst : Ref sig .tc := ⟨.hbm, 844, rfl⟩
abbrev main_call32_v12 : Ref sig .tc := ⟨.hbm, 845, rfl⟩
abbrev main_v241 : Ref sig .tc := ⟨.hbm, 846, rfl⟩
abbrev main_c_48 : Ref sig .tc := ⟨.hbm, 847, rfl⟩
abbrev main_call33_c : Ref sig .tc := ⟨.hbm, 848, rfl⟩
abbrev main_call33_v0 : Ref sig .tc := ⟨.hbm, 849, rfl⟩
abbrev main_call33_c_0 : Ref sig .tc := ⟨.hbm, 850, rfl⟩
abbrev main_call33_v1 : Ref sig .tc := ⟨.hbm, 851, rfl⟩
abbrev main_call33_v2 : Ref sig .tc := ⟨.hbm, 852, rfl⟩
abbrev main_call33_v3 : Ref sig .tc := ⟨.hbm, 853, rfl⟩
abbrev main_call33_c_1 : Ref sig .tc := ⟨.hbm, 854, rfl⟩
abbrev main_call33_v4 : Ref sig .tc := ⟨.hbm, 855, rfl⟩
abbrev main_call33_c_2 : Ref sig .tc := ⟨.hbm, 856, rfl⟩
abbrev main_call33_v5 : Ref sig .tc := ⟨.hbm, 857, rfl⟩
abbrev main_call33_v6 : Ref sig .tc := ⟨.hbm, 858, rfl⟩
abbrev main_call33_v7 : Ref sig .tc := ⟨.hbm, 859, rfl⟩
abbrev main_call33_v8 : Ref sig .tc := ⟨.hbm, 860, rfl⟩
abbrev main_call33_c_3 : Ref sig .tc := ⟨.hbm, 861, rfl⟩
abbrev main_call33_v9 : Ref sig .tc := ⟨.hbm, 862, rfl⟩
abbrev main_call33_v10 : Ref sig .tc := ⟨.hbm, 863, rfl⟩
abbrev main_call33_v11 : Ref sig .tc := ⟨.hbm, 864, rfl⟩
abbrev main_call33_cst : Ref sig .tc := ⟨.hbm, 865, rfl⟩
abbrev main_call33_v12 : Ref sig .tc := ⟨.hbm, 866, rfl⟩
abbrev main_v242 : Ref sig .tc := ⟨.hbm, 867, rfl⟩
abbrev main_v243 : Ref sig .tc := ⟨.hbm, 868, rfl⟩
abbrev main_v244 : Ref sig .tc := ⟨.hbm, 869, rfl⟩
abbrev main_v245 : Ref sig .tc := ⟨.hbm, 870, rfl⟩
abbrev main_v246 : Ref sig .tc := ⟨.hbm, 871, rfl⟩
abbrev main_v247 : Ref sig .tc := ⟨.hbm, 872, rfl⟩
abbrev main_v248 : Ref sig .tc := ⟨.hbm, 873, rfl⟩
abbrev main_cst_49 : Ref sig .tc := ⟨.hbm, 874, rfl⟩
abbrev main_v249 : Ref sig .tc := ⟨.hbm, 875, rfl⟩
abbrev main_v250 : Ref sig .tc := ⟨.hbm, 876, rfl⟩
abbrev main_cst_50 : Ref sig .tc := ⟨.hbm, 877, rfl⟩
abbrev main_v251 : Ref sig .tc := ⟨.hbm, 878, rfl⟩
abbrev main_v252 : Ref sig .tc := ⟨.hbm, 879, rfl⟩
abbrev main_c_51 : Ref sig .tc := ⟨.hbm, 880, rfl⟩
abbrev main_call35_c : Ref sig .tc := ⟨.hbm, 881, rfl⟩
abbrev main_call35_v0 : Ref sig .tc := ⟨.hbm, 882, rfl⟩
abbrev main_call35_c_0 : Ref sig .tc := ⟨.hbm, 883, rfl⟩
abbrev main_call35_v1 : Ref sig .tc := ⟨.hbm, 884, rfl⟩
abbrev main_call35_v2 : Ref sig .tc := ⟨.hbm, 885, rfl⟩
abbrev main_call35_v3 : Ref sig .tc := ⟨.hbm, 886, rfl⟩
abbrev main_call35_c_1 : Ref sig .tc := ⟨.hbm, 887, rfl⟩
abbrev main_call35_v4 : Ref sig .tc := ⟨.hbm, 888, rfl⟩
abbrev main_call35_c_2 : Ref sig .tc := ⟨.hbm, 889, rfl⟩
abbrev main_call35_v5 : Ref sig .tc := ⟨.hbm, 890, rfl⟩
abbrev main_call35_v6 : Ref sig .tc := ⟨.hbm, 891, rfl⟩
abbrev main_call35_v7 : Ref sig .tc := ⟨.hbm, 892, rfl⟩
abbrev main_call35_v8 : Ref sig .tc := ⟨.hbm, 893, rfl⟩
abbrev main_call35_c_3 : Ref sig .tc := ⟨.hbm, 894, rfl⟩
abbrev main_call35_v9 : Ref sig .tc := ⟨.hbm, 895, rfl⟩
abbrev main_call35_v10 : Ref sig .tc := ⟨.hbm, 896, rfl⟩
abbrev main_call35_v11 : Ref sig .tc := ⟨.hbm, 897, rfl⟩
abbrev main_call35_cst : Ref sig .tc := ⟨.hbm, 898, rfl⟩
abbrev main_call35_v12 : Ref sig .tc := ⟨.hbm, 899, rfl⟩
abbrev main_v253 : Ref sig .tc := ⟨.hbm, 900, rfl⟩
abbrev main_c_52 : Ref sig .tc := ⟨.hbm, 901, rfl⟩
abbrev main_call36_c : Ref sig .tc := ⟨.hbm, 902, rfl⟩
abbrev main_call36_v0 : Ref sig .tc := ⟨.hbm, 903, rfl⟩
abbrev main_call36_c_0 : Ref sig .tc := ⟨.hbm, 904, rfl⟩
abbrev main_call36_v1 : Ref sig .tc := ⟨.hbm, 905, rfl⟩
abbrev main_call36_v2 : Ref sig .tc := ⟨.hbm, 906, rfl⟩
abbrev main_call36_v3 : Ref sig .tc := ⟨.hbm, 907, rfl⟩
abbrev main_call36_c_1 : Ref sig .tc := ⟨.hbm, 908, rfl⟩
abbrev main_call36_v4 : Ref sig .tc := ⟨.hbm, 909, rfl⟩
abbrev main_call36_c_2 : Ref sig .tc := ⟨.hbm, 910, rfl⟩
abbrev main_call36_v5 : Ref sig .tc := ⟨.hbm, 911, rfl⟩
abbrev main_call36_v6 : Ref sig .tc := ⟨.hbm, 912, rfl⟩
abbrev main_call36_v7 : Ref sig .tc := ⟨.hbm, 913, rfl⟩
abbrev main_call36_v8 : Ref sig .tc := ⟨.hbm, 914, rfl⟩
abbrev main_call36_c_3 : Ref sig .tc := ⟨.hbm, 915, rfl⟩
abbrev main_call36_v9 : Ref sig .tc := ⟨.hbm, 916, rfl⟩
abbrev main_call36_v10 : Ref sig .tc := ⟨.hbm, 917, rfl⟩
abbrev main_call36_v11 : Ref sig .tc := ⟨.hbm, 918, rfl⟩
abbrev main_call36_cst : Ref sig .tc := ⟨.hbm, 919, rfl⟩
abbrev main_call36_v12 : Ref sig .tc := ⟨.hbm, 920, rfl⟩
abbrev main_v254 : Ref sig .tc := ⟨.hbm, 921, rfl⟩
abbrev main_v255 : Ref sig .tc := ⟨.hbm, 922, rfl⟩
abbrev main_v256 : Ref sig .tc := ⟨.hbm, 923, rfl⟩
abbrev main_v257 : Ref sig .tc := ⟨.hbm, 924, rfl⟩
abbrev main_v258 : Ref sig .tc := ⟨.hbm, 925, rfl⟩
abbrev main_v259 : Ref sig .tc := ⟨.hbm, 926, rfl⟩
abbrev main_v260 : Ref sig .tc := ⟨.hbm, 927, rfl⟩
abbrev main_v261 : Ref sig .tc := ⟨.hbm, 928, rfl⟩
abbrev main_v262 : Ref sig .tc := ⟨.hbm, 929, rfl⟩
abbrev main_v263 : Ref sig .tc := ⟨.hbm, 930, rfl⟩
abbrev main_v264 : Ref sig .tc := ⟨.hbm, 931, rfl⟩
abbrev main_v265 : Ref sig .tc := ⟨.hbm, 932, rfl⟩
abbrev main_v266 : Ref sig .tc := ⟨.hbm, 933, rfl⟩
abbrev main_v267 : Ref sig .tc := ⟨.hbm, 934, rfl⟩
abbrev main_v268 : Ref sig .tc := ⟨.hbm, 935, rfl⟩
abbrev main_v269 : Ref sig .tc := ⟨.hbm, 936, rfl⟩
abbrev main_cst_53 : Ref sig .tc := ⟨.hbm, 937, rfl⟩
abbrev main_v270 : Ref sig .tc := ⟨.hbm, 938, rfl⟩
abbrev main_v271 : Ref sig .tc := ⟨.hbm, 939, rfl⟩
abbrev main_cst_54 : Ref sig .tc := ⟨.hbm, 940, rfl⟩
abbrev main_v272 : Ref sig .tc := ⟨.hbm, 941, rfl⟩
abbrev main_v273 : Ref sig .tc := ⟨.hbm, 942, rfl⟩
abbrev main_c_55 : Ref sig .tc := ⟨.hbm, 943, rfl⟩
abbrev main_call37_c : Ref sig .tc := ⟨.hbm, 944, rfl⟩
abbrev main_call37_v0 : Ref sig .tc := ⟨.hbm, 945, rfl⟩
abbrev main_call37_c_0 : Ref sig .tc := ⟨.hbm, 946, rfl⟩
abbrev main_call37_v1 : Ref sig .tc := ⟨.hbm, 947, rfl⟩
abbrev main_call37_v2 : Ref sig .tc := ⟨.hbm, 948, rfl⟩
abbrev main_call37_v3 : Ref sig .tc := ⟨.hbm, 949, rfl⟩
abbrev main_call37_c_1 : Ref sig .tc := ⟨.hbm, 950, rfl⟩
abbrev main_call37_v4 : Ref sig .tc := ⟨.hbm, 951, rfl⟩
abbrev main_call37_c_2 : Ref sig .tc := ⟨.hbm, 952, rfl⟩
abbrev main_call37_v5 : Ref sig .tc := ⟨.hbm, 953, rfl⟩
abbrev main_call37_v6 : Ref sig .tc := ⟨.hbm, 954, rfl⟩
abbrev main_call37_v7 : Ref sig .tc := ⟨.hbm, 955, rfl⟩
abbrev main_call37_v8 : Ref sig .tc := ⟨.hbm, 956, rfl⟩
abbrev main_call37_c_3 : Ref sig .tc := ⟨.hbm, 957, rfl⟩
abbrev main_call37_v9 : Ref sig .tc := ⟨.hbm, 958, rfl⟩
abbrev main_call37_v10 : Ref sig .tc := ⟨.hbm, 959, rfl⟩
abbrev main_call37_v11 : Ref sig .tc := ⟨.hbm, 960, rfl⟩
abbrev main_call37_cst : Ref sig .tc := ⟨.hbm, 961, rfl⟩
abbrev main_call37_v12 : Ref sig .tc := ⟨.hbm, 962, rfl⟩
abbrev main_v274 : Ref sig .tc := ⟨.hbm, 963, rfl⟩
abbrev main_c_56 : Ref sig .tc := ⟨.hbm, 964, rfl⟩
abbrev main_call38_c : Ref sig .tc := ⟨.hbm, 965, rfl⟩
abbrev main_call38_v0 : Ref sig .tc := ⟨.hbm, 966, rfl⟩
abbrev main_call38_c_0 : Ref sig .tc := ⟨.hbm, 967, rfl⟩
abbrev main_call38_v1 : Ref sig .tc := ⟨.hbm, 968, rfl⟩
abbrev main_call38_v2 : Ref sig .tc := ⟨.hbm, 969, rfl⟩
abbrev main_call38_v3 : Ref sig .tc := ⟨.hbm, 970, rfl⟩
abbrev main_call38_c_1 : Ref sig .tc := ⟨.hbm, 971, rfl⟩
abbrev main_call38_v4 : Ref sig .tc := ⟨.hbm, 972, rfl⟩
abbrev main_call38_c_2 : Ref sig .tc := ⟨.hbm, 973, rfl⟩
abbrev main_call38_v5 : Ref sig .tc := ⟨.hbm, 974, rfl⟩
abbrev main_call38_v6 : Ref sig .tc := ⟨.hbm, 975, rfl⟩
abbrev main_call38_v7 : Ref sig .tc := ⟨.hbm, 976, rfl⟩
abbrev main_call38_v8 : Ref sig .tc := ⟨.hbm, 977, rfl⟩
abbrev main_call38_c_3 : Ref sig .tc := ⟨.hbm, 978, rfl⟩
abbrev main_call38_v9 : Ref sig .tc := ⟨.hbm, 979, rfl⟩
abbrev main_call38_v10 : Ref sig .tc := ⟨.hbm, 980, rfl⟩
abbrev main_call38_v11 : Ref sig .tc := ⟨.hbm, 981, rfl⟩
abbrev main_call38_cst : Ref sig .tc := ⟨.hbm, 982, rfl⟩
abbrev main_call38_v12 : Ref sig .tc := ⟨.hbm, 983, rfl⟩
abbrev main_v275 : Ref sig .tc := ⟨.hbm, 984, rfl⟩
abbrev main_v276 : Ref sig .tc := ⟨.hbm, 985, rfl⟩
abbrev main_v277 : Ref sig .tc := ⟨.hbm, 986, rfl⟩
abbrev main_v278 : Ref sig .tc := ⟨.hbm, 987, rfl⟩
abbrev main_v279 : Ref sig .tc := ⟨.hbm, 988, rfl⟩
abbrev main_v280 : Ref sig .tc := ⟨.hbm, 989, rfl⟩
abbrev main_v281 : Ref sig .tc := ⟨.hbm, 990, rfl⟩
abbrev main_v282 : Ref sig .tc := ⟨.hbm, 991, rfl⟩
abbrev main_v283 : Ref sig .tc := ⟨.hbm, 992, rfl⟩
abbrev main_v284 : Ref sig .tc := ⟨.hbm, 993, rfl⟩
abbrev main_v285 : Ref sig .tc := ⟨.hbm, 994, rfl⟩
abbrev main_v286 : Ref sig .tc := ⟨.hbm, 995, rfl⟩
abbrev main_v287 : Ref sig .tc := ⟨.hbm, 996, rfl⟩
abbrev main_v288 : Ref sig .tc := ⟨.hbm, 997, rfl⟩
abbrev main_c_57 : Ref sig .tc := ⟨.hbm, 998, rfl⟩
abbrev main_call39_c : Ref sig .tc := ⟨.hbm, 999, rfl⟩
abbrev main_call39_v0 : Ref sig .tc := ⟨.hbm, 1000, rfl⟩
abbrev main_call39_c_0 : Ref sig .tc := ⟨.hbm, 1001, rfl⟩
abbrev main_call39_v1 : Ref sig .tc := ⟨.hbm, 1002, rfl⟩
abbrev main_call39_v2 : Ref sig .tc := ⟨.hbm, 1003, rfl⟩
abbrev main_call39_v3 : Ref sig .tc := ⟨.hbm, 1004, rfl⟩
abbrev main_call39_c_1 : Ref sig .tc := ⟨.hbm, 1005, rfl⟩
abbrev main_call39_v4 : Ref sig .tc := ⟨.hbm, 1006, rfl⟩
abbrev main_call39_c_2 : Ref sig .tc := ⟨.hbm, 1007, rfl⟩
abbrev main_call39_v5 : Ref sig .tc := ⟨.hbm, 1008, rfl⟩
abbrev main_call39_v6 : Ref sig .tc := ⟨.hbm, 1009, rfl⟩
abbrev main_call39_v7 : Ref sig .tc := ⟨.hbm, 1010, rfl⟩
abbrev main_call39_v8 : Ref sig .tc := ⟨.hbm, 1011, rfl⟩
abbrev main_call39_c_3 : Ref sig .tc := ⟨.hbm, 1012, rfl⟩
abbrev main_call39_v9 : Ref sig .tc := ⟨.hbm, 1013, rfl⟩
abbrev main_call39_v10 : Ref sig .tc := ⟨.hbm, 1014, rfl⟩
abbrev main_call39_v11 : Ref sig .tc := ⟨.hbm, 1015, rfl⟩
abbrev main_call39_cst : Ref sig .tc := ⟨.hbm, 1016, rfl⟩
abbrev main_call39_v12 : Ref sig .tc := ⟨.hbm, 1017, rfl⟩
abbrev main_v289 : Ref sig .tc := ⟨.hbm, 1018, rfl⟩
abbrev main_c_58 : Ref sig .tc := ⟨.hbm, 1019, rfl⟩
abbrev main_call40_c : Ref sig .tc := ⟨.hbm, 1020, rfl⟩
abbrev main_call40_v0 : Ref sig .tc := ⟨.hbm, 1021, rfl⟩
abbrev main_call40_c_0 : Ref sig .tc := ⟨.hbm, 1022, rfl⟩
abbrev main_call40_v1 : Ref sig .tc := ⟨.hbm, 1023, rfl⟩
abbrev main_call40_v2 : Ref sig .tc := ⟨.hbm, 1024, rfl⟩
abbrev main_call40_v3 : Ref sig .tc := ⟨.hbm, 1025, rfl⟩
abbrev main_call40_c_1 : Ref sig .tc := ⟨.hbm, 1026, rfl⟩
abbrev main_call40_v4 : Ref sig .tc := ⟨.hbm, 1027, rfl⟩
abbrev main_call40_c_2 : Ref sig .tc := ⟨.hbm, 1028, rfl⟩
abbrev main_call40_v5 : Ref sig .tc := ⟨.hbm, 1029, rfl⟩
abbrev main_call40_v6 : Ref sig .tc := ⟨.hbm, 1030, rfl⟩
abbrev main_call40_v7 : Ref sig .tc := ⟨.hbm, 1031, rfl⟩
abbrev main_call40_v8 : Ref sig .tc := ⟨.hbm, 1032, rfl⟩
abbrev main_call40_c_3 : Ref sig .tc := ⟨.hbm, 1033, rfl⟩
abbrev main_call40_v9 : Ref sig .tc := ⟨.hbm, 1034, rfl⟩
abbrev main_call40_v10 : Ref sig .tc := ⟨.hbm, 1035, rfl⟩
abbrev main_call40_v11 : Ref sig .tc := ⟨.hbm, 1036, rfl⟩
abbrev main_call40_cst : Ref sig .tc := ⟨.hbm, 1037, rfl⟩
abbrev main_call40_v12 : Ref sig .tc := ⟨.hbm, 1038, rfl⟩
abbrev main_v290 : Ref sig .tc := ⟨.hbm, 1039, rfl⟩
abbrev main_v291 : Ref sig .tc := ⟨.hbm, 1040, rfl⟩
abbrev main_v292 : Ref sig .tc := ⟨.hbm, 1041, rfl⟩
abbrev main_v293 : Ref sig .tc := ⟨.hbm, 1042, rfl⟩
abbrev main_v294 : Ref sig .tc := ⟨.hbm, 1043, rfl⟩
abbrev main_v295 : Ref sig .tc := ⟨.hbm, 1044, rfl⟩
abbrev main_v296 : Ref sig .tc := ⟨.hbm, 1045, rfl⟩
abbrev main_cst_59 : Ref sig .tc := ⟨.hbm, 1046, rfl⟩
abbrev main_v297 : Ref sig .tc := ⟨.hbm, 1047, rfl⟩
abbrev main_v298 : Ref sig .tc := ⟨.hbm, 1048, rfl⟩
abbrev main_cst_60 : Ref sig .tc := ⟨.hbm, 1049, rfl⟩
abbrev main_v299 : Ref sig .tc := ⟨.hbm, 1050, rfl⟩
abbrev main_v300 : Ref sig .tc := ⟨.hbm, 1051, rfl⟩
abbrev main_c_61 : Ref sig .tc := ⟨.hbm, 1052, rfl⟩
abbrev main_call42_c : Ref sig .tc := ⟨.hbm, 1053, rfl⟩
abbrev main_call42_v0 : Ref sig .tc := ⟨.hbm, 1054, rfl⟩
abbrev main_call42_c_0 : Ref sig .tc := ⟨.hbm, 1055, rfl⟩
abbrev main_call42_v1 : Ref sig .tc := ⟨.hbm, 1056, rfl⟩
abbrev main_call42_v2 : Ref sig .tc := ⟨.hbm, 1057, rfl⟩
abbrev main_call42_v3 : Ref sig .tc := ⟨.hbm, 1058, rfl⟩
abbrev main_call42_c_1 : Ref sig .tc := ⟨.hbm, 1059, rfl⟩
abbrev main_call42_v4 : Ref sig .tc := ⟨.hbm, 1060, rfl⟩
abbrev main_call42_c_2 : Ref sig .tc := ⟨.hbm, 1061, rfl⟩
abbrev main_call42_v5 : Ref sig .tc := ⟨.hbm, 1062, rfl⟩
abbrev main_call42_v6 : Ref sig .tc := ⟨.hbm, 1063, rfl⟩
abbrev main_call42_v7 : Ref sig .tc := ⟨.hbm, 1064, rfl⟩
abbrev main_call42_v8 : Ref sig .tc := ⟨.hbm, 1065, rfl⟩
abbrev main_call42_c_3 : Ref sig .tc := ⟨.hbm, 1066, rfl⟩
abbrev main_call42_v9 : Ref sig .tc := ⟨.hbm, 1067, rfl⟩
abbrev main_call42_v10 : Ref sig .tc := ⟨.hbm, 1068, rfl⟩
abbrev main_call42_v11 : Ref sig .tc := ⟨.hbm, 1069, rfl⟩
abbrev main_call42_cst : Ref sig .tc := ⟨.hbm, 1070, rfl⟩
abbrev main_call42_v12 : Ref sig .tc := ⟨.hbm, 1071, rfl⟩
abbrev main_v301 : Ref sig .tc := ⟨.hbm, 1072, rfl⟩
abbrev main_c_62 : Ref sig .tc := ⟨.hbm, 1073, rfl⟩
abbrev main_call43_c : Ref sig .tc := ⟨.hbm, 1074, rfl⟩
abbrev main_call43_v0 : Ref sig .tc := ⟨.hbm, 1075, rfl⟩
abbrev main_call43_c_0 : Ref sig .tc := ⟨.hbm, 1076, rfl⟩
abbrev main_call43_v1 : Ref sig .tc := ⟨.hbm, 1077, rfl⟩
abbrev main_call43_v2 : Ref sig .tc := ⟨.hbm, 1078, rfl⟩
abbrev main_call43_v3 : Ref sig .tc := ⟨.hbm, 1079, rfl⟩
abbrev main_call43_c_1 : Ref sig .tc := ⟨.hbm, 1080, rfl⟩
abbrev main_call43_v4 : Ref sig .tc := ⟨.hbm, 1081, rfl⟩
abbrev main_call43_c_2 : Ref sig .tc := ⟨.hbm, 1082, rfl⟩
abbrev main_call43_v5 : Ref sig .tc := ⟨.hbm, 1083, rfl⟩
abbrev main_call43_v6 : Ref sig .tc := ⟨.hbm, 1084, rfl⟩
abbrev main_call43_v7 : Ref sig .tc := ⟨.hbm, 1085, rfl⟩
abbrev main_call43_v8 : Ref sig .tc := ⟨.hbm, 1086, rfl⟩
abbrev main_call43_c_3 : Ref sig .tc := ⟨.hbm, 1087, rfl⟩
abbrev main_call43_v9 : Ref sig .tc := ⟨.hbm, 1088, rfl⟩
abbrev main_call43_v10 : Ref sig .tc := ⟨.hbm, 1089, rfl⟩
abbrev main_call43_v11 : Ref sig .tc := ⟨.hbm, 1090, rfl⟩
abbrev main_call43_cst : Ref sig .tc := ⟨.hbm, 1091, rfl⟩
abbrev main_call43_v12 : Ref sig .tc := ⟨.hbm, 1092, rfl⟩
abbrev main_v302 : Ref sig .tc := ⟨.hbm, 1093, rfl⟩
abbrev main_v303 : Ref sig .tc := ⟨.hbm, 1094, rfl⟩
abbrev main_v304 : Ref sig .tc := ⟨.hbm, 1095, rfl⟩
abbrev main_v305 : Ref sig .tc := ⟨.hbm, 1096, rfl⟩
abbrev main_v306 : Ref sig .tc := ⟨.hbm, 1097, rfl⟩
abbrev main_v307 : Ref sig .tc := ⟨.hbm, 1098, rfl⟩
abbrev main_v308 : Ref sig .tc := ⟨.hbm, 1099, rfl⟩
abbrev main_v309 : Ref sig .tc := ⟨.hbm, 1100, rfl⟩
abbrev main_v310 : Ref sig .tc := ⟨.hbm, 1101, rfl⟩
abbrev main_v311 : Ref sig .tc := ⟨.hbm, 1102, rfl⟩
abbrev main_v312 : Ref sig .tc := ⟨.hbm, 1103, rfl⟩
abbrev main_v313 : Ref sig .tc := ⟨.hbm, 1104, rfl⟩
abbrev main_v314 : Ref sig .tc := ⟨.hbm, 1105, rfl⟩
abbrev main_v315 : Ref sig .tc := ⟨.hbm, 1106, rfl⟩
abbrev main_v316 : Ref sig .tc := ⟨.hbm, 1107, rfl⟩
abbrev main_v317 : Ref sig .tc := ⟨.hbm, 1108, rfl⟩
abbrev main_cst_63 : Ref sig .tc := ⟨.hbm, 1109, rfl⟩
abbrev main_v318 : Ref sig .tc := ⟨.hbm, 1110, rfl⟩
abbrev main_v319 : Ref sig .tc := ⟨.hbm, 1111, rfl⟩
abbrev main_cst_64 : Ref sig .tc := ⟨.hbm, 1112, rfl⟩
abbrev main_v320 : Ref sig .tc := ⟨.hbm, 1113, rfl⟩
abbrev main_v321 : Ref sig .tc := ⟨.hbm, 1114, rfl⟩
abbrev main_c_65 : Ref sig .tc := ⟨.hbm, 1115, rfl⟩
abbrev main_call44_c : Ref sig .tc := ⟨.hbm, 1116, rfl⟩
abbrev main_call44_v0 : Ref sig .tc := ⟨.hbm, 1117, rfl⟩
abbrev main_call44_c_0 : Ref sig .tc := ⟨.hbm, 1118, rfl⟩
abbrev main_call44_v1 : Ref sig .tc := ⟨.hbm, 1119, rfl⟩
abbrev main_call44_v2 : Ref sig .tc := ⟨.hbm, 1120, rfl⟩
abbrev main_call44_v3 : Ref sig .tc := ⟨.hbm, 1121, rfl⟩
abbrev main_call44_c_1 : Ref sig .tc := ⟨.hbm, 1122, rfl⟩
abbrev main_call44_v4 : Ref sig .tc := ⟨.hbm, 1123, rfl⟩
abbrev main_call44_c_2 : Ref sig .tc := ⟨.hbm, 1124, rfl⟩
abbrev main_call44_v5 : Ref sig .tc := ⟨.hbm, 1125, rfl⟩
abbrev main_call44_v6 : Ref sig .tc := ⟨.hbm, 1126, rfl⟩
abbrev main_call44_v7 : Ref sig .tc := ⟨.hbm, 1127, rfl⟩
abbrev main_call44_v8 : Ref sig .tc := ⟨.hbm, 1128, rfl⟩
abbrev main_call44_c_3 : Ref sig .tc := ⟨.hbm, 1129, rfl⟩
abbrev main_call44_v9 : Ref sig .tc := ⟨.hbm, 1130, rfl⟩
abbrev main_call44_v10 : Ref sig .tc := ⟨.hbm, 1131, rfl⟩
abbrev main_call44_v11 : Ref sig .tc := ⟨.hbm, 1132, rfl⟩
abbrev main_call44_cst : Ref sig .tc := ⟨.hbm, 1133, rfl⟩
abbrev main_call44_v12 : Ref sig .tc := ⟨.hbm, 1134, rfl⟩
abbrev main_v322 : Ref sig .tc := ⟨.hbm, 1135, rfl⟩
abbrev main_c_66 : Ref sig .tc := ⟨.hbm, 1136, rfl⟩
abbrev main_call45_c : Ref sig .tc := ⟨.hbm, 1137, rfl⟩
abbrev main_call45_v0 : Ref sig .tc := ⟨.hbm, 1138, rfl⟩
abbrev main_call45_c_0 : Ref sig .tc := ⟨.hbm, 1139, rfl⟩
abbrev main_call45_v1 : Ref sig .tc := ⟨.hbm, 1140, rfl⟩
abbrev main_call45_v2 : Ref sig .tc := ⟨.hbm, 1141, rfl⟩
abbrev main_call45_v3 : Ref sig .tc := ⟨.hbm, 1142, rfl⟩
abbrev main_call45_c_1 : Ref sig .tc := ⟨.hbm, 1143, rfl⟩
abbrev main_call45_v4 : Ref sig .tc := ⟨.hbm, 1144, rfl⟩
abbrev main_call45_c_2 : Ref sig .tc := ⟨.hbm, 1145, rfl⟩
abbrev main_call45_v5 : Ref sig .tc := ⟨.hbm, 1146, rfl⟩
abbrev main_call45_v6 : Ref sig .tc := ⟨.hbm, 1147, rfl⟩
abbrev main_call45_v7 : Ref sig .tc := ⟨.hbm, 1148, rfl⟩
abbrev main_call45_v8 : Ref sig .tc := ⟨.hbm, 1149, rfl⟩
abbrev main_call45_c_3 : Ref sig .tc := ⟨.hbm, 1150, rfl⟩
abbrev main_call45_v9 : Ref sig .tc := ⟨.hbm, 1151, rfl⟩
abbrev main_call45_v10 : Ref sig .tc := ⟨.hbm, 1152, rfl⟩
abbrev main_call45_v11 : Ref sig .tc := ⟨.hbm, 1153, rfl⟩
abbrev main_call45_cst : Ref sig .tc := ⟨.hbm, 1154, rfl⟩
abbrev main_call45_v12 : Ref sig .tc := ⟨.hbm, 1155, rfl⟩
abbrev main_v323 : Ref sig .tc := ⟨.hbm, 1156, rfl⟩
abbrev main_v324 : Ref sig .tc := ⟨.hbm, 1157, rfl⟩
abbrev main_v325 : Ref sig .tc := ⟨.hbm, 1158, rfl⟩
abbrev main_v326 : Ref sig .tc := ⟨.hbm, 1159, rfl⟩
abbrev main_v327 : Ref sig .tc := ⟨.hbm, 1160, rfl⟩
abbrev main_v328 : Ref sig .tc := ⟨.hbm, 1161, rfl⟩
abbrev main_v329 : Ref sig .tc := ⟨.hbm, 1162, rfl⟩
abbrev main_v330 : Ref sig .tc := ⟨.hbm, 1163, rfl⟩
abbrev main_v331 : Ref sig .tc := ⟨.hbm, 1164, rfl⟩
abbrev main_v332 : Ref sig .tc := ⟨.hbm, 1165, rfl⟩
abbrev main_v333 : Ref sig .tc := ⟨.hbm, 1166, rfl⟩
abbrev main_v334 : Ref sig .tc := ⟨.hbm, 1167, rfl⟩
abbrev main_v335 : Ref sig .tc := ⟨.hbm, 1168, rfl⟩
abbrev main_v336 : Ref sig .tc := ⟨.hbm, 1169, rfl⟩
abbrev main_c_67 : Ref sig .tc := ⟨.hbm, 1170, rfl⟩
abbrev main_call46_c : Ref sig .tc := ⟨.hbm, 1171, rfl⟩
abbrev main_call46_v0 : Ref sig .tc := ⟨.hbm, 1172, rfl⟩
abbrev main_call46_c_0 : Ref sig .tc := ⟨.hbm, 1173, rfl⟩
abbrev main_call46_v1 : Ref sig .tc := ⟨.hbm, 1174, rfl⟩
abbrev main_call46_v2 : Ref sig .tc := ⟨.hbm, 1175, rfl⟩
abbrev main_call46_v3 : Ref sig .tc := ⟨.hbm, 1176, rfl⟩
abbrev main_call46_c_1 : Ref sig .tc := ⟨.hbm, 1177, rfl⟩
abbrev main_call46_v4 : Ref sig .tc := ⟨.hbm, 1178, rfl⟩
abbrev main_call46_c_2 : Ref sig .tc := ⟨.hbm, 1179, rfl⟩
abbrev main_call46_v5 : Ref sig .tc := ⟨.hbm, 1180, rfl⟩
abbrev main_call46_v6 : Ref sig .tc := ⟨.hbm, 1181, rfl⟩
abbrev main_call46_v7 : Ref sig .tc := ⟨.hbm, 1182, rfl⟩
abbrev main_call46_v8 : Ref sig .tc := ⟨.hbm, 1183, rfl⟩
abbrev main_call46_c_3 : Ref sig .tc := ⟨.hbm, 1184, rfl⟩
abbrev main_call46_v9 : Ref sig .tc := ⟨.hbm, 1185, rfl⟩
abbrev main_call46_v10 : Ref sig .tc := ⟨.hbm, 1186, rfl⟩
abbrev main_call46_v11 : Ref sig .tc := ⟨.hbm, 1187, rfl⟩
abbrev main_call46_cst : Ref sig .tc := ⟨.hbm, 1188, rfl⟩
abbrev main_call46_v12 : Ref sig .tc := ⟨.hbm, 1189, rfl⟩
abbrev main_v337 : Ref sig .tc := ⟨.hbm, 1190, rfl⟩
abbrev main_c_68 : Ref sig .tc := ⟨.hbm, 1191, rfl⟩
abbrev main_call47_c : Ref sig .tc := ⟨.hbm, 1192, rfl⟩
abbrev main_call47_v0 : Ref sig .tc := ⟨.hbm, 1193, rfl⟩
abbrev main_call47_c_0 : Ref sig .tc := ⟨.hbm, 1194, rfl⟩
abbrev main_call47_v1 : Ref sig .tc := ⟨.hbm, 1195, rfl⟩
abbrev main_call47_v2 : Ref sig .tc := ⟨.hbm, 1196, rfl⟩
abbrev main_call47_v3 : Ref sig .tc := ⟨.hbm, 1197, rfl⟩
abbrev main_call47_c_1 : Ref sig .tc := ⟨.hbm, 1198, rfl⟩
abbrev main_call47_v4 : Ref sig .tc := ⟨.hbm, 1199, rfl⟩
abbrev main_call47_c_2 : Ref sig .tc := ⟨.hbm, 1200, rfl⟩
abbrev main_call47_v5 : Ref sig .tc := ⟨.hbm, 1201, rfl⟩
abbrev main_call47_v6 : Ref sig .tc := ⟨.hbm, 1202, rfl⟩
abbrev main_call47_v7 : Ref sig .tc := ⟨.hbm, 1203, rfl⟩
abbrev main_call47_v8 : Ref sig .tc := ⟨.hbm, 1204, rfl⟩
abbrev main_call47_c_3 : Ref sig .tc := ⟨.hbm, 1205, rfl⟩
abbrev main_call47_v9 : Ref sig .tc := ⟨.hbm, 1206, rfl⟩
abbrev main_call47_v10 : Ref sig .tc := ⟨.hbm, 1207, rfl⟩
abbrev main_call47_v11 : Ref sig .tc := ⟨.hbm, 1208, rfl⟩
abbrev main_call47_cst : Ref sig .tc := ⟨.hbm, 1209, rfl⟩
abbrev main_call47_v12 : Ref sig .tc := ⟨.hbm, 1210, rfl⟩
abbrev main_v338 : Ref sig .tc := ⟨.hbm, 1211, rfl⟩
abbrev main_v339 : Ref sig .tc := ⟨.hbm, 1212, rfl⟩
abbrev main_v340 : Ref sig .tc := ⟨.hbm, 1213, rfl⟩
abbrev main_v341 : Ref sig .tc := ⟨.hbm, 1214, rfl⟩
abbrev main_v342 : Ref sig .tc := ⟨.hbm, 1215, rfl⟩
abbrev main_v343 : Ref sig .tc := ⟨.hbm, 1216, rfl⟩
abbrev main_v344 : Ref sig .tc := ⟨.hbm, 1217, rfl⟩
abbrev main_cst_69 : Ref sig .tc := ⟨.hbm, 1218, rfl⟩
abbrev main_v345 : Ref sig .tc := ⟨.hbm, 1219, rfl⟩
abbrev main_v346 : Ref sig .tc := ⟨.hbm, 1220, rfl⟩
abbrev main_cst_70 : Ref sig .tc := ⟨.hbm, 1221, rfl⟩
abbrev main_v347 : Ref sig .tc := ⟨.hbm, 1222, rfl⟩
abbrev main_v348 : Ref sig .tc := ⟨.hbm, 1223, rfl⟩
abbrev main_c_71 : Ref sig .tc := ⟨.hbm, 1224, rfl⟩
abbrev main_call49_c : Ref sig .tc := ⟨.hbm, 1225, rfl⟩
abbrev main_call49_v0 : Ref sig .tc := ⟨.hbm, 1226, rfl⟩
abbrev main_call49_c_0 : Ref sig .tc := ⟨.hbm, 1227, rfl⟩
abbrev main_call49_v1 : Ref sig .tc := ⟨.hbm, 1228, rfl⟩
abbrev main_call49_v2 : Ref sig .tc := ⟨.hbm, 1229, rfl⟩
abbrev main_call49_v3 : Ref sig .tc := ⟨.hbm, 1230, rfl⟩
abbrev main_call49_c_1 : Ref sig .tc := ⟨.hbm, 1231, rfl⟩
abbrev main_call49_v4 : Ref sig .tc := ⟨.hbm, 1232, rfl⟩
abbrev main_call49_c_2 : Ref sig .tc := ⟨.hbm, 1233, rfl⟩
abbrev main_call49_v5 : Ref sig .tc := ⟨.hbm, 1234, rfl⟩
abbrev main_call49_v6 : Ref sig .tc := ⟨.hbm, 1235, rfl⟩
abbrev main_call49_v7 : Ref sig .tc := ⟨.hbm, 1236, rfl⟩
abbrev main_call49_v8 : Ref sig .tc := ⟨.hbm, 1237, rfl⟩
abbrev main_call49_c_3 : Ref sig .tc := ⟨.hbm, 1238, rfl⟩
abbrev main_call49_v9 : Ref sig .tc := ⟨.hbm, 1239, rfl⟩
abbrev main_call49_v10 : Ref sig .tc := ⟨.hbm, 1240, rfl⟩
abbrev main_call49_v11 : Ref sig .tc := ⟨.hbm, 1241, rfl⟩
abbrev main_call49_cst : Ref sig .tc := ⟨.hbm, 1242, rfl⟩
abbrev main_call49_v12 : Ref sig .tc := ⟨.hbm, 1243, rfl⟩
abbrev main_v349 : Ref sig .tc := ⟨.hbm, 1244, rfl⟩
abbrev main_c_72 : Ref sig .tc := ⟨.hbm, 1245, rfl⟩
abbrev main_call50_c : Ref sig .tc := ⟨.hbm, 1246, rfl⟩
abbrev main_call50_v0 : Ref sig .tc := ⟨.hbm, 1247, rfl⟩
abbrev main_call50_c_0 : Ref sig .tc := ⟨.hbm, 1248, rfl⟩
abbrev main_call50_v1 : Ref sig .tc := ⟨.hbm, 1249, rfl⟩
abbrev main_call50_v2 : Ref sig .tc := ⟨.hbm, 1250, rfl⟩
abbrev main_call50_v3 : Ref sig .tc := ⟨.hbm, 1251, rfl⟩
abbrev main_call50_c_1 : Ref sig .tc := ⟨.hbm, 1252, rfl⟩
abbrev main_call50_v4 : Ref sig .tc := ⟨.hbm, 1253, rfl⟩
abbrev main_call50_c_2 : Ref sig .tc := ⟨.hbm, 1254, rfl⟩
abbrev main_call50_v5 : Ref sig .tc := ⟨.hbm, 1255, rfl⟩
abbrev main_call50_v6 : Ref sig .tc := ⟨.hbm, 1256, rfl⟩
abbrev main_call50_v7 : Ref sig .tc := ⟨.hbm, 1257, rfl⟩
abbrev main_call50_v8 : Ref sig .tc := ⟨.hbm, 1258, rfl⟩
abbrev main_call50_c_3 : Ref sig .tc := ⟨.hbm, 1259, rfl⟩
abbrev main_call50_v9 : Ref sig .tc := ⟨.hbm, 1260, rfl⟩
abbrev main_call50_v10 : Ref sig .tc := ⟨.hbm, 1261, rfl⟩
abbrev main_call50_v11 : Ref sig .tc := ⟨.hbm, 1262, rfl⟩
abbrev main_call50_cst : Ref sig .tc := ⟨.hbm, 1263, rfl⟩
abbrev main_call50_v12 : Ref sig .tc := ⟨.hbm, 1264, rfl⟩
abbrev main_v350 : Ref sig .tc := ⟨.hbm, 1265, rfl⟩
abbrev main_v351 : Ref sig .tc := ⟨.hbm, 1266, rfl⟩
abbrev main_v352 : Ref sig .tc := ⟨.hbm, 1267, rfl⟩
abbrev main_v353 : Ref sig .tc := ⟨.hbm, 1268, rfl⟩
abbrev main_v354 : Ref sig .tc := ⟨.hbm, 1269, rfl⟩
abbrev main_v355 : Ref sig .tc := ⟨.hbm, 1270, rfl⟩
abbrev main_v356 : Ref sig .tc := ⟨.hbm, 1271, rfl⟩
abbrev main_v357 : Ref sig .tc := ⟨.hbm, 1272, rfl⟩
abbrev main_v358 : Ref sig .tc := ⟨.hbm, 1273, rfl⟩
abbrev main_v359 : Ref sig .tc := ⟨.hbm, 1274, rfl⟩
abbrev main_v360 : Ref sig .tc := ⟨.hbm, 1275, rfl⟩
abbrev main_v361 : Ref sig .tc := ⟨.hbm, 1276, rfl⟩
abbrev main_v362 : Ref sig .tc := ⟨.hbm, 1277, rfl⟩
abbrev main_v363 : Ref sig .tc := ⟨.hbm, 1278, rfl⟩
abbrev main_v364 : Ref sig .tc := ⟨.hbm, 1279, rfl⟩
abbrev main_v365 : Ref sig .tc := ⟨.hbm, 1280, rfl⟩
abbrev main_cst_73 : Ref sig .tc := ⟨.hbm, 1281, rfl⟩
abbrev main_v366 : Ref sig .tc := ⟨.hbm, 1282, rfl⟩
abbrev main_v367 : Ref sig .tc := ⟨.hbm, 1283, rfl⟩
abbrev main_cst_74 : Ref sig .tc := ⟨.hbm, 1284, rfl⟩
abbrev main_v368 : Ref sig .tc := ⟨.hbm, 1285, rfl⟩
abbrev main_v369 : Ref sig .tc := ⟨.hbm, 1286, rfl⟩
abbrev main_c_75 : Ref sig .tc := ⟨.hbm, 1287, rfl⟩
abbrev main_call51_c : Ref sig .tc := ⟨.hbm, 1288, rfl⟩
abbrev main_call51_v0 : Ref sig .tc := ⟨.hbm, 1289, rfl⟩
abbrev main_call51_c_0 : Ref sig .tc := ⟨.hbm, 1290, rfl⟩
abbrev main_call51_v1 : Ref sig .tc := ⟨.hbm, 1291, rfl⟩
abbrev main_call51_v2 : Ref sig .tc := ⟨.hbm, 1292, rfl⟩
abbrev main_call51_v3 : Ref sig .tc := ⟨.hbm, 1293, rfl⟩
abbrev main_call51_c_1 : Ref sig .tc := ⟨.hbm, 1294, rfl⟩
abbrev main_call51_v4 : Ref sig .tc := ⟨.hbm, 1295, rfl⟩
abbrev main_call51_c_2 : Ref sig .tc := ⟨.hbm, 1296, rfl⟩
abbrev main_call51_v5 : Ref sig .tc := ⟨.hbm, 1297, rfl⟩
abbrev main_call51_v6 : Ref sig .tc := ⟨.hbm, 1298, rfl⟩
abbrev main_call51_v7 : Ref sig .tc := ⟨.hbm, 1299, rfl⟩
abbrev main_call51_v8 : Ref sig .tc := ⟨.hbm, 1300, rfl⟩
abbrev main_call51_c_3 : Ref sig .tc := ⟨.hbm, 1301, rfl⟩
abbrev main_call51_v9 : Ref sig .tc := ⟨.hbm, 1302, rfl⟩
abbrev main_call51_v10 : Ref sig .tc := ⟨.hbm, 1303, rfl⟩
abbrev main_call51_v11 : Ref sig .tc := ⟨.hbm, 1304, rfl⟩
abbrev main_call51_cst : Ref sig .tc := ⟨.hbm, 1305, rfl⟩
abbrev main_call51_v12 : Ref sig .tc := ⟨.hbm, 1306, rfl⟩
abbrev main_v370 : Ref sig .tc := ⟨.hbm, 1307, rfl⟩
abbrev main_c_76 : Ref sig .tc := ⟨.hbm, 1308, rfl⟩
abbrev main_call52_c : Ref sig .tc := ⟨.hbm, 1309, rfl⟩
abbrev main_call52_v0 : Ref sig .tc := ⟨.hbm, 1310, rfl⟩
abbrev main_call52_c_0 : Ref sig .tc := ⟨.hbm, 1311, rfl⟩
abbrev main_call52_v1 : Ref sig .tc := ⟨.hbm, 1312, rfl⟩
abbrev main_call52_v2 : Ref sig .tc := ⟨.hbm, 1313, rfl⟩
abbrev main_call52_v3 : Ref sig .tc := ⟨.hbm, 1314, rfl⟩
abbrev main_call52_c_1 : Ref sig .tc := ⟨.hbm, 1315, rfl⟩
abbrev main_call52_v4 : Ref sig .tc := ⟨.hbm, 1316, rfl⟩
abbrev main_call52_c_2 : Ref sig .tc := ⟨.hbm, 1317, rfl⟩
abbrev main_call52_v5 : Ref sig .tc := ⟨.hbm, 1318, rfl⟩
abbrev main_call52_v6 : Ref sig .tc := ⟨.hbm, 1319, rfl⟩
abbrev main_call52_v7 : Ref sig .tc := ⟨.hbm, 1320, rfl⟩
abbrev main_call52_v8 : Ref sig .tc := ⟨.hbm, 1321, rfl⟩
abbrev main_call52_c_3 : Ref sig .tc := ⟨.hbm, 1322, rfl⟩
abbrev main_call52_v9 : Ref sig .tc := ⟨.hbm, 1323, rfl⟩
abbrev main_call52_v10 : Ref sig .tc := ⟨.hbm, 1324, rfl⟩
abbrev main_call52_v11 : Ref sig .tc := ⟨.hbm, 1325, rfl⟩
abbrev main_call52_cst : Ref sig .tc := ⟨.hbm, 1326, rfl⟩
abbrev main_call52_v12 : Ref sig .tc := ⟨.hbm, 1327, rfl⟩
abbrev main_v371 : Ref sig .tc := ⟨.hbm, 1328, rfl⟩
abbrev main_v372 : Ref sig .tc := ⟨.hbm, 1329, rfl⟩
abbrev main_v373 : Ref sig .tc := ⟨.hbm, 1330, rfl⟩
abbrev main_v374 : Ref sig .tc := ⟨.hbm, 1331, rfl⟩
abbrev main_v375 : Ref sig .tc := ⟨.hbm, 1332, rfl⟩
abbrev main_v376 : Ref sig .tc := ⟨.hbm, 1333, rfl⟩
abbrev main_v377 : Ref sig .tc := ⟨.hbm, 1334, rfl⟩
abbrev main_v378 : Ref sig .tc := ⟨.hbm, 1335, rfl⟩
abbrev main_v379 : Ref sig .tc := ⟨.hbm, 1336, rfl⟩
abbrev main_v380 : Ref sig .tc := ⟨.hbm, 1337, rfl⟩
abbrev main_v381 : Ref sig .tc := ⟨.hbm, 1338, rfl⟩
abbrev main_v382 : Ref sig .tc := ⟨.hbm, 1339, rfl⟩
abbrev main_v383 : Ref sig .tc := ⟨.hbm, 1340, rfl⟩
abbrev main_v384 : Ref sig .tc := ⟨.hbm, 1341, rfl⟩
abbrev main_c_77 : Ref sig .tc := ⟨.hbm, 1342, rfl⟩
abbrev main_call53_c : Ref sig .tc := ⟨.hbm, 1343, rfl⟩
abbrev main_call53_v0 : Ref sig .tc := ⟨.hbm, 1344, rfl⟩
abbrev main_call53_c_0 : Ref sig .tc := ⟨.hbm, 1345, rfl⟩
abbrev main_call53_v1 : Ref sig .tc := ⟨.hbm, 1346, rfl⟩
abbrev main_call53_v2 : Ref sig .tc := ⟨.hbm, 1347, rfl⟩
abbrev main_call53_v3 : Ref sig .tc := ⟨.hbm, 1348, rfl⟩
abbrev main_call53_c_1 : Ref sig .tc := ⟨.hbm, 1349, rfl⟩
abbrev main_call53_v4 : Ref sig .tc := ⟨.hbm, 1350, rfl⟩
abbrev main_call53_c_2 : Ref sig .tc := ⟨.hbm, 1351, rfl⟩
abbrev main_call53_v5 : Ref sig .tc := ⟨.hbm, 1352, rfl⟩
abbrev main_call53_v6 : Ref sig .tc := ⟨.hbm, 1353, rfl⟩
abbrev main_call53_v7 : Ref sig .tc := ⟨.hbm, 1354, rfl⟩
abbrev main_call53_v8 : Ref sig .tc := ⟨.hbm, 1355, rfl⟩
abbrev main_call53_c_3 : Ref sig .tc := ⟨.hbm, 1356, rfl⟩
abbrev main_call53_v9 : Ref sig .tc := ⟨.hbm, 1357, rfl⟩
abbrev main_call53_v10 : Ref sig .tc := ⟨.hbm, 1358, rfl⟩
abbrev main_call53_v11 : Ref sig .tc := ⟨.hbm, 1359, rfl⟩
abbrev main_call53_cst : Ref sig .tc := ⟨.hbm, 1360, rfl⟩
abbrev main_call53_v12 : Ref sig .tc := ⟨.hbm, 1361, rfl⟩
abbrev main_v385 : Ref sig .tc := ⟨.hbm, 1362, rfl⟩
abbrev main_c_78 : Ref sig .tc := ⟨.hbm, 1363, rfl⟩
abbrev main_call54_c : Ref sig .tc := ⟨.hbm, 1364, rfl⟩
abbrev main_call54_v0 : Ref sig .tc := ⟨.hbm, 1365, rfl⟩
abbrev main_call54_c_0 : Ref sig .tc := ⟨.hbm, 1366, rfl⟩
abbrev main_call54_v1 : Ref sig .tc := ⟨.hbm, 1367, rfl⟩
abbrev main_call54_v2 : Ref sig .tc := ⟨.hbm, 1368, rfl⟩
abbrev main_call54_v3 : Ref sig .tc := ⟨.hbm, 1369, rfl⟩
abbrev main_call54_c_1 : Ref sig .tc := ⟨.hbm, 1370, rfl⟩
abbrev main_call54_v4 : Ref sig .tc := ⟨.hbm, 1371, rfl⟩
abbrev main_call54_c_2 : Ref sig .tc := ⟨.hbm, 1372, rfl⟩
abbrev main_call54_v5 : Ref sig .tc := ⟨.hbm, 1373, rfl⟩
abbrev main_call54_v6 : Ref sig .tc := ⟨.hbm, 1374, rfl⟩
abbrev main_call54_v7 : Ref sig .tc := ⟨.hbm, 1375, rfl⟩
abbrev main_call54_v8 : Ref sig .tc := ⟨.hbm, 1376, rfl⟩
abbrev main_call54_c_3 : Ref sig .tc := ⟨.hbm, 1377, rfl⟩
abbrev main_call54_v9 : Ref sig .tc := ⟨.hbm, 1378, rfl⟩
abbrev main_call54_v10 : Ref sig .tc := ⟨.hbm, 1379, rfl⟩
abbrev main_call54_v11 : Ref sig .tc := ⟨.hbm, 1380, rfl⟩
abbrev main_call54_cst : Ref sig .tc := ⟨.hbm, 1381, rfl⟩
abbrev main_call54_v12 : Ref sig .tc := ⟨.hbm, 1382, rfl⟩
abbrev main_v386 : Ref sig .tc := ⟨.hbm, 1383, rfl⟩
abbrev main_v387 : Ref sig .tc := ⟨.hbm, 1384, rfl⟩
abbrev main_v388 : Ref sig .tc := ⟨.hbm, 1385, rfl⟩
abbrev main_v389 : Ref sig .tc := ⟨.hbm, 1386, rfl⟩
abbrev main_v390 : Ref sig .tc := ⟨.hbm, 1387, rfl⟩
abbrev main_v391 : Ref sig .tc := ⟨.hbm, 1388, rfl⟩
abbrev main_v392 : Ref sig .tc := ⟨.hbm, 1389, rfl⟩
abbrev main_cst_79 : Ref sig .tc := ⟨.hbm, 1390, rfl⟩
abbrev main_v393 : Ref sig .tc := ⟨.hbm, 1391, rfl⟩
abbrev main_v394 : Ref sig .tc := ⟨.hbm, 1392, rfl⟩
abbrev main_cst_80 : Ref sig .tc := ⟨.hbm, 1393, rfl⟩
abbrev main_v395 : Ref sig .tc := ⟨.hbm, 1394, rfl⟩
abbrev main_v396 : Ref sig .tc := ⟨.hbm, 1395, rfl⟩
abbrev main_c_81 : Ref sig .tc := ⟨.hbm, 1396, rfl⟩
abbrev main_call56_c : Ref sig .tc := ⟨.hbm, 1397, rfl⟩
abbrev main_call56_v0 : Ref sig .tc := ⟨.hbm, 1398, rfl⟩
abbrev main_call56_c_0 : Ref sig .tc := ⟨.hbm, 1399, rfl⟩
abbrev main_call56_v1 : Ref sig .tc := ⟨.hbm, 1400, rfl⟩
abbrev main_call56_v2 : Ref sig .tc := ⟨.hbm, 1401, rfl⟩
abbrev main_call56_v3 : Ref sig .tc := ⟨.hbm, 1402, rfl⟩
abbrev main_call56_c_1 : Ref sig .tc := ⟨.hbm, 1403, rfl⟩
abbrev main_call56_v4 : Ref sig .tc := ⟨.hbm, 1404, rfl⟩
abbrev main_call56_c_2 : Ref sig .tc := ⟨.hbm, 1405, rfl⟩
abbrev main_call56_v5 : Ref sig .tc := ⟨.hbm, 1406, rfl⟩
abbrev main_call56_v6 : Ref sig .tc := ⟨.hbm, 1407, rfl⟩
abbrev main_call56_v7 : Ref sig .tc := ⟨.hbm, 1408, rfl⟩
abbrev main_call56_v8 : Ref sig .tc := ⟨.hbm, 1409, rfl⟩
abbrev main_call56_c_3 : Ref sig .tc := ⟨.hbm, 1410, rfl⟩
abbrev main_call56_v9 : Ref sig .tc := ⟨.hbm, 1411, rfl⟩
abbrev main_call56_v10 : Ref sig .tc := ⟨.hbm, 1412, rfl⟩
abbrev main_call56_v11 : Ref sig .tc := ⟨.hbm, 1413, rfl⟩
abbrev main_call56_cst : Ref sig .tc := ⟨.hbm, 1414, rfl⟩
abbrev main_call56_v12 : Ref sig .tc := ⟨.hbm, 1415, rfl⟩
abbrev main_v397 : Ref sig .tc := ⟨.hbm, 1416, rfl⟩
abbrev main_c_82 : Ref sig .tc := ⟨.hbm, 1417, rfl⟩
abbrev main_call57_c : Ref sig .tc := ⟨.hbm, 1418, rfl⟩
abbrev main_call57_v0 : Ref sig .tc := ⟨.hbm, 1419, rfl⟩
abbrev main_call57_c_0 : Ref sig .tc := ⟨.hbm, 1420, rfl⟩
abbrev main_call57_v1 : Ref sig .tc := ⟨.hbm, 1421, rfl⟩
abbrev main_call57_v2 : Ref sig .tc := ⟨.hbm, 1422, rfl⟩
abbrev main_call57_v3 : Ref sig .tc := ⟨.hbm, 1423, rfl⟩
abbrev main_call57_c_1 : Ref sig .tc := ⟨.hbm, 1424, rfl⟩
abbrev main_call57_v4 : Ref sig .tc := ⟨.hbm, 1425, rfl⟩
abbrev main_call57_c_2 : Ref sig .tc := ⟨.hbm, 1426, rfl⟩
abbrev main_call57_v5 : Ref sig .tc := ⟨.hbm, 1427, rfl⟩
abbrev main_call57_v6 : Ref sig .tc := ⟨.hbm, 1428, rfl⟩
abbrev main_call57_v7 : Ref sig .tc := ⟨.hbm, 1429, rfl⟩
abbrev main_call57_v8 : Ref sig .tc := ⟨.hbm, 1430, rfl⟩
abbrev main_call57_c_3 : Ref sig .tc := ⟨.hbm, 1431, rfl⟩
abbrev main_call57_v9 : Ref sig .tc := ⟨.hbm, 1432, rfl⟩
abbrev main_call57_v10 : Ref sig .tc := ⟨.hbm, 1433, rfl⟩
abbrev main_call57_v11 : Ref sig .tc := ⟨.hbm, 1434, rfl⟩
abbrev main_call57_cst : Ref sig .tc := ⟨.hbm, 1435, rfl⟩
abbrev main_call57_v12 : Ref sig .tc := ⟨.hbm, 1436, rfl⟩
abbrev main_v398 : Ref sig .tc := ⟨.hbm, 1437, rfl⟩
abbrev main_v399 : Ref sig .tc := ⟨.hbm, 1438, rfl⟩
abbrev main_v400 : Ref sig .tc := ⟨.hbm, 1439, rfl⟩
abbrev main_v401 : Ref sig .tc := ⟨.hbm, 1440, rfl⟩
abbrev main_v402 : Ref sig .tc := ⟨.hbm, 1441, rfl⟩
abbrev main_v403 : Ref sig .tc := ⟨.hbm, 1442, rfl⟩
abbrev main_v404 : Ref sig .tc := ⟨.hbm, 1443, rfl⟩
abbrev main_v405 : Ref sig .tc := ⟨.hbm, 1444, rfl⟩
abbrev main_v406 : Ref sig .tc := ⟨.hbm, 1445, rfl⟩
abbrev main_v407 : Ref sig .tc := ⟨.hbm, 1446, rfl⟩
abbrev main_v408 : Ref sig .tc := ⟨.hbm, 1447, rfl⟩
abbrev main_v409 : Ref sig .tc := ⟨.hbm, 1448, rfl⟩
abbrev main_v410 : Ref sig .tc := ⟨.hbm, 1449, rfl⟩
abbrev main_v411 : Ref sig .tc := ⟨.hbm, 1450, rfl⟩
abbrev main_v412 : Ref sig .tc := ⟨.hbm, 1451, rfl⟩
abbrev main_v413 : Ref sig .tc := ⟨.hbm, 1452, rfl⟩
abbrev main_cst_83 : Ref sig .tc := ⟨.hbm, 1453, rfl⟩
abbrev main_v414 : Ref sig .tc := ⟨.hbm, 1454, rfl⟩
abbrev main_v415 : Ref sig .tc := ⟨.hbm, 1455, rfl⟩
abbrev main_cst_84 : Ref sig .tc := ⟨.hbm, 1456, rfl⟩
abbrev main_v416 : Ref sig .tc := ⟨.hbm, 1457, rfl⟩
abbrev main_v417 : Ref sig .tc := ⟨.hbm, 1458, rfl⟩
abbrev main_c_85 : Ref sig .tc := ⟨.hbm, 1459, rfl⟩
abbrev main_call58_c : Ref sig .tc := ⟨.hbm, 1460, rfl⟩
abbrev main_call58_v0 : Ref sig .tc := ⟨.hbm, 1461, rfl⟩
abbrev main_call58_c_0 : Ref sig .tc := ⟨.hbm, 1462, rfl⟩
abbrev main_call58_v1 : Ref sig .tc := ⟨.hbm, 1463, rfl⟩
abbrev main_call58_v2 : Ref sig .tc := ⟨.hbm, 1464, rfl⟩
abbrev main_call58_v3 : Ref sig .tc := ⟨.hbm, 1465, rfl⟩
abbrev main_call58_c_1 : Ref sig .tc := ⟨.hbm, 1466, rfl⟩
abbrev main_call58_v4 : Ref sig .tc := ⟨.hbm, 1467, rfl⟩
abbrev main_call58_c_2 : Ref sig .tc := ⟨.hbm, 1468, rfl⟩
abbrev main_call58_v5 : Ref sig .tc := ⟨.hbm, 1469, rfl⟩
abbrev main_call58_v6 : Ref sig .tc := ⟨.hbm, 1470, rfl⟩
abbrev main_call58_v7 : Ref sig .tc := ⟨.hbm, 1471, rfl⟩
abbrev main_call58_v8 : Ref sig .tc := ⟨.hbm, 1472, rfl⟩
abbrev main_call58_c_3 : Ref sig .tc := ⟨.hbm, 1473, rfl⟩
abbrev main_call58_v9 : Ref sig .tc := ⟨.hbm, 1474, rfl⟩
abbrev main_call58_v10 : Ref sig .tc := ⟨.hbm, 1475, rfl⟩
abbrev main_call58_v11 : Ref sig .tc := ⟨.hbm, 1476, rfl⟩
abbrev main_call58_cst : Ref sig .tc := ⟨.hbm, 1477, rfl⟩
abbrev main_call58_v12 : Ref sig .tc := ⟨.hbm, 1478, rfl⟩
abbrev main_v418 : Ref sig .tc := ⟨.hbm, 1479, rfl⟩
abbrev main_c_86 : Ref sig .tc := ⟨.hbm, 1480, rfl⟩
abbrev main_call59_c : Ref sig .tc := ⟨.hbm, 1481, rfl⟩
abbrev main_call59_v0 : Ref sig .tc := ⟨.hbm, 1482, rfl⟩
abbrev main_call59_c_0 : Ref sig .tc := ⟨.hbm, 1483, rfl⟩
abbrev main_call59_v1 : Ref sig .tc := ⟨.hbm, 1484, rfl⟩
abbrev main_call59_v2 : Ref sig .tc := ⟨.hbm, 1485, rfl⟩
abbrev main_call59_v3 : Ref sig .tc := ⟨.hbm, 1486, rfl⟩
abbrev main_call59_c_1 : Ref sig .tc := ⟨.hbm, 1487, rfl⟩
abbrev main_call59_v4 : Ref sig .tc := ⟨.hbm, 1488, rfl⟩
abbrev main_call59_c_2 : Ref sig .tc := ⟨.hbm, 1489, rfl⟩
abbrev main_call59_v5 : Ref sig .tc := ⟨.hbm, 1490, rfl⟩
abbrev main_call59_v6 : Ref sig .tc := ⟨.hbm, 1491, rfl⟩
abbrev main_call59_v7 : Ref sig .tc := ⟨.hbm, 1492, rfl⟩
abbrev main_call59_v8 : Ref sig .tc := ⟨.hbm, 1493, rfl⟩
abbrev main_call59_c_3 : Ref sig .tc := ⟨.hbm, 1494, rfl⟩
abbrev main_call59_v9 : Ref sig .tc := ⟨.hbm, 1495, rfl⟩
abbrev main_call59_v10 : Ref sig .tc := ⟨.hbm, 1496, rfl⟩
abbrev main_call59_v11 : Ref sig .tc := ⟨.hbm, 1497, rfl⟩
abbrev main_call59_cst : Ref sig .tc := ⟨.hbm, 1498, rfl⟩
abbrev main_call59_v12 : Ref sig .tc := ⟨.hbm, 1499, rfl⟩
abbrev main_v419 : Ref sig .tc := ⟨.hbm, 1500, rfl⟩
abbrev main_v420 : Ref sig .tc := ⟨.hbm, 1501, rfl⟩
abbrev main_v421 : Ref sig .tc := ⟨.hbm, 1502, rfl⟩
abbrev main_v422 : Ref sig .tc := ⟨.hbm, 1503, rfl⟩
abbrev main_v423 : Ref sig .tc := ⟨.hbm, 1504, rfl⟩
abbrev main_v424 : Ref sig .tc := ⟨.hbm, 1505, rfl⟩
abbrev main_v425 : Ref sig .tc := ⟨.hbm, 1506, rfl⟩
abbrev main_v426 : Ref sig .tc := ⟨.hbm, 1507, rfl⟩
abbrev main_v427 : Ref sig .tc := ⟨.hbm, 1508, rfl⟩
abbrev main_v428 : Ref sig .tc := ⟨.hbm, 1509, rfl⟩
abbrev main_v429 : Ref sig .tc := ⟨.hbm, 1510, rfl⟩
abbrev main_v430 : Ref sig .tc := ⟨.hbm, 1511, rfl⟩
abbrev main_v431 : Ref sig .tc := ⟨.hbm, 1512, rfl⟩
abbrev main_v432 : Ref sig .tc := ⟨.hbm, 1513, rfl⟩
abbrev main_c_87 : Ref sig .tc := ⟨.hbm, 1514, rfl⟩
abbrev main_call60_c : Ref sig .tc := ⟨.hbm, 1515, rfl⟩
abbrev main_call60_v0 : Ref sig .tc := ⟨.hbm, 1516, rfl⟩
abbrev main_call60_c_0 : Ref sig .tc := ⟨.hbm, 1517, rfl⟩
abbrev main_call60_v1 : Ref sig .tc := ⟨.hbm, 1518, rfl⟩
abbrev main_call60_v2 : Ref sig .tc := ⟨.hbm, 1519, rfl⟩
abbrev main_call60_v3 : Ref sig .tc := ⟨.hbm, 1520, rfl⟩
abbrev main_call60_c_1 : Ref sig .tc := ⟨.hbm, 1521, rfl⟩
abbrev main_call60_v4 : Ref sig .tc := ⟨.hbm, 1522, rfl⟩
abbrev main_call60_c_2 : Ref sig .tc := ⟨.hbm, 1523, rfl⟩
abbrev main_call60_v5 : Ref sig .tc := ⟨.hbm, 1524, rfl⟩
abbrev main_call60_v6 : Ref sig .tc := ⟨.hbm, 1525, rfl⟩
abbrev main_call60_v7 : Ref sig .tc := ⟨.hbm, 1526, rfl⟩
abbrev main_call60_v8 : Ref sig .tc := ⟨.hbm, 1527, rfl⟩
abbrev main_call60_c_3 : Ref sig .tc := ⟨.hbm, 1528, rfl⟩
abbrev main_call60_v9 : Ref sig .tc := ⟨.hbm, 1529, rfl⟩
abbrev main_call60_v10 : Ref sig .tc := ⟨.hbm, 1530, rfl⟩
abbrev main_call60_v11 : Ref sig .tc := ⟨.hbm, 1531, rfl⟩
abbrev main_call60_cst : Ref sig .tc := ⟨.hbm, 1532, rfl⟩
abbrev main_call60_v12 : Ref sig .tc := ⟨.hbm, 1533, rfl⟩
abbrev main_v433 : Ref sig .tc := ⟨.hbm, 1534, rfl⟩
abbrev main_c_88 : Ref sig .tc := ⟨.hbm, 1535, rfl⟩
abbrev main_call61_c : Ref sig .tc := ⟨.hbm, 1536, rfl⟩
abbrev main_call61_v0 : Ref sig .tc := ⟨.hbm, 1537, rfl⟩
abbrev main_call61_c_0 : Ref sig .tc := ⟨.hbm, 1538, rfl⟩
abbrev main_call61_v1 : Ref sig .tc := ⟨.hbm, 1539, rfl⟩
abbrev main_call61_v2 : Ref sig .tc := ⟨.hbm, 1540, rfl⟩
abbrev main_call61_v3 : Ref sig .tc := ⟨.hbm, 1541, rfl⟩
abbrev main_call61_c_1 : Ref sig .tc := ⟨.hbm, 1542, rfl⟩
abbrev main_call61_v4 : Ref sig .tc := ⟨.hbm, 1543, rfl⟩
abbrev main_call61_c_2 : Ref sig .tc := ⟨.hbm, 1544, rfl⟩
abbrev main_call61_v5 : Ref sig .tc := ⟨.hbm, 1545, rfl⟩
abbrev main_call61_v6 : Ref sig .tc := ⟨.hbm, 1546, rfl⟩
abbrev main_call61_v7 : Ref sig .tc := ⟨.hbm, 1547, rfl⟩
abbrev main_call61_v8 : Ref sig .tc := ⟨.hbm, 1548, rfl⟩
abbrev main_call61_c_3 : Ref sig .tc := ⟨.hbm, 1549, rfl⟩
abbrev main_call61_v9 : Ref sig .tc := ⟨.hbm, 1550, rfl⟩
abbrev main_call61_v10 : Ref sig .tc := ⟨.hbm, 1551, rfl⟩
abbrev main_call61_v11 : Ref sig .tc := ⟨.hbm, 1552, rfl⟩
abbrev main_call61_cst : Ref sig .tc := ⟨.hbm, 1553, rfl⟩
abbrev main_call61_v12 : Ref sig .tc := ⟨.hbm, 1554, rfl⟩
abbrev main_v434 : Ref sig .tc := ⟨.hbm, 1555, rfl⟩
abbrev main_v435 : Ref sig .tc := ⟨.hbm, 1556, rfl⟩
abbrev main_v436 : Ref sig .tc := ⟨.hbm, 1557, rfl⟩
abbrev main_v437 : Ref sig .tc := ⟨.hbm, 1558, rfl⟩
abbrev main_v438 : Ref sig .tc := ⟨.hbm, 1559, rfl⟩
abbrev main_v439 : Ref sig .tc := ⟨.hbm, 1560, rfl⟩
abbrev main_v440 : Ref sig .tc := ⟨.hbm, 1561, rfl⟩
abbrev main_cst_89 : Ref sig .tc := ⟨.hbm, 1562, rfl⟩
abbrev main_v441 : Ref sig .tc := ⟨.hbm, 1563, rfl⟩
abbrev main_v442 : Ref sig .tc := ⟨.hbm, 1564, rfl⟩
abbrev main_cst_90 : Ref sig .tc := ⟨.hbm, 1565, rfl⟩
abbrev main_v443 : Ref sig .tc := ⟨.hbm, 1566, rfl⟩
abbrev main_v444 : Ref sig .tc := ⟨.hbm, 1567, rfl⟩
abbrev main_c_91 : Ref sig .tc := ⟨.hbm, 1568, rfl⟩
abbrev main_call63_c : Ref sig .tc := ⟨.hbm, 1569, rfl⟩
abbrev main_call63_v0 : Ref sig .tc := ⟨.hbm, 1570, rfl⟩
abbrev main_call63_c_0 : Ref sig .tc := ⟨.hbm, 1571, rfl⟩
abbrev main_call63_v1 : Ref sig .tc := ⟨.hbm, 1572, rfl⟩
abbrev main_call63_v2 : Ref sig .tc := ⟨.hbm, 1573, rfl⟩
abbrev main_call63_v3 : Ref sig .tc := ⟨.hbm, 1574, rfl⟩
abbrev main_call63_c_1 : Ref sig .tc := ⟨.hbm, 1575, rfl⟩
abbrev main_call63_v4 : Ref sig .tc := ⟨.hbm, 1576, rfl⟩
abbrev main_call63_c_2 : Ref sig .tc := ⟨.hbm, 1577, rfl⟩
abbrev main_call63_v5 : Ref sig .tc := ⟨.hbm, 1578, rfl⟩
abbrev main_call63_v6 : Ref sig .tc := ⟨.hbm, 1579, rfl⟩
abbrev main_call63_v7 : Ref sig .tc := ⟨.hbm, 1580, rfl⟩
abbrev main_call63_v8 : Ref sig .tc := ⟨.hbm, 1581, rfl⟩
abbrev main_call63_c_3 : Ref sig .tc := ⟨.hbm, 1582, rfl⟩
abbrev main_call63_v9 : Ref sig .tc := ⟨.hbm, 1583, rfl⟩
abbrev main_call63_v10 : Ref sig .tc := ⟨.hbm, 1584, rfl⟩
abbrev main_call63_v11 : Ref sig .tc := ⟨.hbm, 1585, rfl⟩
abbrev main_call63_cst : Ref sig .tc := ⟨.hbm, 1586, rfl⟩
abbrev main_call63_v12 : Ref sig .tc := ⟨.hbm, 1587, rfl⟩
abbrev main_v445 : Ref sig .tc := ⟨.hbm, 1588, rfl⟩
abbrev main_c_92 : Ref sig .tc := ⟨.hbm, 1589, rfl⟩
abbrev main_call64_c : Ref sig .tc := ⟨.hbm, 1590, rfl⟩
abbrev main_call64_v0 : Ref sig .tc := ⟨.hbm, 1591, rfl⟩
abbrev main_call64_c_0 : Ref sig .tc := ⟨.hbm, 1592, rfl⟩
abbrev main_call64_v1 : Ref sig .tc := ⟨.hbm, 1593, rfl⟩
abbrev main_call64_v2 : Ref sig .tc := ⟨.hbm, 1594, rfl⟩
abbrev main_call64_v3 : Ref sig .tc := ⟨.hbm, 1595, rfl⟩
abbrev main_call64_c_1 : Ref sig .tc := ⟨.hbm, 1596, rfl⟩
abbrev main_call64_v4 : Ref sig .tc := ⟨.hbm, 1597, rfl⟩
abbrev main_call64_c_2 : Ref sig .tc := ⟨.hbm, 1598, rfl⟩
abbrev main_call64_v5 : Ref sig .tc := ⟨.hbm, 1599, rfl⟩
abbrev main_call64_v6 : Ref sig .tc := ⟨.hbm, 1600, rfl⟩
abbrev main_call64_v7 : Ref sig .tc := ⟨.hbm, 1601, rfl⟩
abbrev main_call64_v8 : Ref sig .tc := ⟨.hbm, 1602, rfl⟩
abbrev main_call64_c_3 : Ref sig .tc := ⟨.hbm, 1603, rfl⟩
abbrev main_call64_v9 : Ref sig .tc := ⟨.hbm, 1604, rfl⟩
abbrev main_call64_v10 : Ref sig .tc := ⟨.hbm, 1605, rfl⟩
abbrev main_call64_v11 : Ref sig .tc := ⟨.hbm, 1606, rfl⟩
abbrev main_call64_cst : Ref sig .tc := ⟨.hbm, 1607, rfl⟩
abbrev main_call64_v12 : Ref sig .tc := ⟨.hbm, 1608, rfl⟩
abbrev main_v446 : Ref sig .tc := ⟨.hbm, 1609, rfl⟩
abbrev main_v447 : Ref sig .tc := ⟨.hbm, 1610, rfl⟩
abbrev main_v448 : Ref sig .tc := ⟨.hbm, 1611, rfl⟩
abbrev main_v449 : Ref sig .tc := ⟨.hbm, 1612, rfl⟩
abbrev main_v450 : Ref sig .tc := ⟨.hbm, 1613, rfl⟩
abbrev main_v451 : Ref sig .tc := ⟨.hbm, 1614, rfl⟩
abbrev main_v452 : Ref sig .tc := ⟨.hbm, 1615, rfl⟩
abbrev main_v453 : Ref sig .tc := ⟨.hbm, 1616, rfl⟩
abbrev main_v454 : Ref sig .tc := ⟨.hbm, 1617, rfl⟩
abbrev main_v455 : Ref sig .tc := ⟨.hbm, 1618, rfl⟩
abbrev main_v456 : Ref sig .tc := ⟨.hbm, 1619, rfl⟩
abbrev main_v457 : Ref sig .tc := ⟨.hbm, 1620, rfl⟩
abbrev main_v458 : Ref sig .tc := ⟨.hbm, 1621, rfl⟩
abbrev main_v459 : Ref sig .tc := ⟨.hbm, 1622, rfl⟩
abbrev main_v460 : Ref sig .tc := ⟨.hbm, 1623, rfl⟩
abbrev main_v461 : Ref sig .tc := ⟨.hbm, 1624, rfl⟩
abbrev main_cst_93 : Ref sig .tc := ⟨.hbm, 1625, rfl⟩
abbrev main_v462 : Ref sig .tc := ⟨.hbm, 1626, rfl⟩
abbrev main_v463 : Ref sig .tc := ⟨.hbm, 1627, rfl⟩
abbrev main_cst_94 : Ref sig .tc := ⟨.hbm, 1628, rfl⟩
abbrev main_v464 : Ref sig .tc := ⟨.hbm, 1629, rfl⟩
abbrev main_v465 : Ref sig .tc := ⟨.hbm, 1630, rfl⟩
abbrev main_c_95 : Ref sig .tc := ⟨.hbm, 1631, rfl⟩
abbrev main_call65_c : Ref sig .tc := ⟨.hbm, 1632, rfl⟩
abbrev main_call65_v0 : Ref sig .tc := ⟨.hbm, 1633, rfl⟩
abbrev main_call65_c_0 : Ref sig .tc := ⟨.hbm, 1634, rfl⟩
abbrev main_call65_v1 : Ref sig .tc := ⟨.hbm, 1635, rfl⟩
abbrev main_call65_v2 : Ref sig .tc := ⟨.hbm, 1636, rfl⟩
abbrev main_call65_v3 : Ref sig .tc := ⟨.hbm, 1637, rfl⟩
abbrev main_call65_c_1 : Ref sig .tc := ⟨.hbm, 1638, rfl⟩
abbrev main_call65_v4 : Ref sig .tc := ⟨.hbm, 1639, rfl⟩
abbrev main_call65_c_2 : Ref sig .tc := ⟨.hbm, 1640, rfl⟩
abbrev main_call65_v5 : Ref sig .tc := ⟨.hbm, 1641, rfl⟩
abbrev main_call65_v6 : Ref sig .tc := ⟨.hbm, 1642, rfl⟩
abbrev main_call65_v7 : Ref sig .tc := ⟨.hbm, 1643, rfl⟩
abbrev main_call65_v8 : Ref sig .tc := ⟨.hbm, 1644, rfl⟩
abbrev main_call65_c_3 : Ref sig .tc := ⟨.hbm, 1645, rfl⟩
abbrev main_call65_v9 : Ref sig .tc := ⟨.hbm, 1646, rfl⟩
abbrev main_call65_v10 : Ref sig .tc := ⟨.hbm, 1647, rfl⟩
abbrev main_call65_v11 : Ref sig .tc := ⟨.hbm, 1648, rfl⟩
abbrev main_call65_cst : Ref sig .tc := ⟨.hbm, 1649, rfl⟩
abbrev main_call65_v12 : Ref sig .tc := ⟨.hbm, 1650, rfl⟩
abbrev main_v466 : Ref sig .tc := ⟨.hbm, 1651, rfl⟩
abbrev main_c_96 : Ref sig .tc := ⟨.hbm, 1652, rfl⟩
abbrev main_call66_c : Ref sig .tc := ⟨.hbm, 1653, rfl⟩
abbrev main_call66_v0 : Ref sig .tc := ⟨.hbm, 1654, rfl⟩
abbrev main_call66_c_0 : Ref sig .tc := ⟨.hbm, 1655, rfl⟩
abbrev main_call66_v1 : Ref sig .tc := ⟨.hbm, 1656, rfl⟩
abbrev main_call66_v2 : Ref sig .tc := ⟨.hbm, 1657, rfl⟩
abbrev main_call66_v3 : Ref sig .tc := ⟨.hbm, 1658, rfl⟩
abbrev main_call66_c_1 : Ref sig .tc := ⟨.hbm, 1659, rfl⟩
abbrev main_call66_v4 : Ref sig .tc := ⟨.hbm, 1660, rfl⟩
abbrev main_call66_c_2 : Ref sig .tc := ⟨.hbm, 1661, rfl⟩
abbrev main_call66_v5 : Ref sig .tc := ⟨.hbm, 1662, rfl⟩
abbrev main_call66_v6 : Ref sig .tc := ⟨.hbm, 1663, rfl⟩
abbrev main_call66_v7 : Ref sig .tc := ⟨.hbm, 1664, rfl⟩
abbrev main_call66_v8 : Ref sig .tc := ⟨.hbm, 1665, rfl⟩
abbrev main_call66_c_3 : Ref sig .tc := ⟨.hbm, 1666, rfl⟩
abbrev main_call66_v9 : Ref sig .tc := ⟨.hbm, 1667, rfl⟩
abbrev main_call66_v10 : Ref sig .tc := ⟨.hbm, 1668, rfl⟩
abbrev main_call66_v11 : Ref sig .tc := ⟨.hbm, 1669, rfl⟩
abbrev main_call66_cst : Ref sig .tc := ⟨.hbm, 1670, rfl⟩
abbrev main_call66_v12 : Ref sig .tc := ⟨.hbm, 1671, rfl⟩
abbrev main_v467 : Ref sig .tc := ⟨.hbm, 1672, rfl⟩
abbrev main_v468 : Ref sig .tc := ⟨.hbm, 1673, rfl⟩
abbrev main_v469 : Ref sig .tc := ⟨.hbm, 1674, rfl⟩
abbrev main_v470 : Ref sig .tc := ⟨.hbm, 1675, rfl⟩
abbrev main_v471 : Ref sig .tc := ⟨.hbm, 1676, rfl⟩
abbrev main_v472 : Ref sig .tc := ⟨.hbm, 1677, rfl⟩
abbrev main_v473 : Ref sig .tc := ⟨.hbm, 1678, rfl⟩
abbrev main_v474 : Ref sig .tc := ⟨.hbm, 1679, rfl⟩
abbrev main_v475 : Ref sig .tc := ⟨.hbm, 1680, rfl⟩
abbrev main_v476 : Ref sig .tc := ⟨.hbm, 1681, rfl⟩
abbrev main_v477 : Ref sig .tc := ⟨.hbm, 1682, rfl⟩
abbrev main_v478 : Ref sig .tc := ⟨.hbm, 1683, rfl⟩
abbrev main_v479 : Ref sig .tc := ⟨.hbm, 1684, rfl⟩
abbrev main_v480 : Ref sig .tc := ⟨.hbm, 1685, rfl⟩
abbrev main_c_97 : Ref sig .tc := ⟨.hbm, 1686, rfl⟩
abbrev main_call67_c : Ref sig .tc := ⟨.hbm, 1687, rfl⟩
abbrev main_call67_v0 : Ref sig .tc := ⟨.hbm, 1688, rfl⟩
abbrev main_call67_c_0 : Ref sig .tc := ⟨.hbm, 1689, rfl⟩
abbrev main_call67_v1 : Ref sig .tc := ⟨.hbm, 1690, rfl⟩
abbrev main_call67_v2 : Ref sig .tc := ⟨.hbm, 1691, rfl⟩
abbrev main_call67_v3 : Ref sig .tc := ⟨.hbm, 1692, rfl⟩
abbrev main_call67_c_1 : Ref sig .tc := ⟨.hbm, 1693, rfl⟩
abbrev main_call67_v4 : Ref sig .tc := ⟨.hbm, 1694, rfl⟩
abbrev main_call67_c_2 : Ref sig .tc := ⟨.hbm, 1695, rfl⟩
abbrev main_call67_v5 : Ref sig .tc := ⟨.hbm, 1696, rfl⟩
abbrev main_call67_v6 : Ref sig .tc := ⟨.hbm, 1697, rfl⟩
abbrev main_call67_v7 : Ref sig .tc := ⟨.hbm, 1698, rfl⟩
abbrev main_call67_v8 : Ref sig .tc := ⟨.hbm, 1699, rfl⟩
abbrev main_call67_c_3 : Ref sig .tc := ⟨.hbm, 1700, rfl⟩
abbrev main_call67_v9 : Ref sig .tc := ⟨.hbm, 1701, rfl⟩
abbrev main_call67_v10 : Ref sig .tc := ⟨.hbm, 1702, rfl⟩
abbrev main_call67_v11 : Ref sig .tc := ⟨.hbm, 1703, rfl⟩
abbrev main_call67_cst : Ref sig .tc := ⟨.hbm, 1704, rfl⟩
abbrev main_call67_v12 : Ref sig .tc := ⟨.hbm, 1705, rfl⟩
abbrev main_v481 : Ref sig .tc := ⟨.hbm, 1706, rfl⟩
abbrev main_c_98 : Ref sig .tc := ⟨.hbm, 1707, rfl⟩
abbrev main_call68_c : Ref sig .tc := ⟨.hbm, 1708, rfl⟩
abbrev main_call68_v0 : Ref sig .tc := ⟨.hbm, 1709, rfl⟩
abbrev main_call68_c_0 : Ref sig .tc := ⟨.hbm, 1710, rfl⟩
abbrev main_call68_v1 : Ref sig .tc := ⟨.hbm, 1711, rfl⟩
abbrev main_call68_v2 : Ref sig .tc := ⟨.hbm, 1712, rfl⟩
abbrev main_call68_v3 : Ref sig .tc := ⟨.hbm, 1713, rfl⟩
abbrev main_call68_c_1 : Ref sig .tc := ⟨.hbm, 1714, rfl⟩
abbrev main_call68_v4 : Ref sig .tc := ⟨.hbm, 1715, rfl⟩
abbrev main_call68_c_2 : Ref sig .tc := ⟨.hbm, 1716, rfl⟩
abbrev main_call68_v5 : Ref sig .tc := ⟨.hbm, 1717, rfl⟩
abbrev main_call68_v6 : Ref sig .tc := ⟨.hbm, 1718, rfl⟩
abbrev main_call68_v7 : Ref sig .tc := ⟨.hbm, 1719, rfl⟩
abbrev main_call68_v8 : Ref sig .tc := ⟨.hbm, 1720, rfl⟩
abbrev main_call68_c_3 : Ref sig .tc := ⟨.hbm, 1721, rfl⟩
abbrev main_call68_v9 : Ref sig .tc := ⟨.hbm, 1722, rfl⟩
abbrev main_call68_v10 : Ref sig .tc := ⟨.hbm, 1723, rfl⟩
abbrev main_call68_v11 : Ref sig .tc := ⟨.hbm, 1724, rfl⟩
abbrev main_call68_cst : Ref sig .tc := ⟨.hbm, 1725, rfl⟩
abbrev main_call68_v12 : Ref sig .tc := ⟨.hbm, 1726, rfl⟩
abbrev main_v482 : Ref sig .tc := ⟨.hbm, 1727, rfl⟩
abbrev main_v483 : Ref sig .tc := ⟨.hbm, 1728, rfl⟩
abbrev main_v484 : Ref sig .tc := ⟨.hbm, 1729, rfl⟩
abbrev main_v485 : Ref sig .tc := ⟨.hbm, 1730, rfl⟩
abbrev main_v486 : Ref sig .tc := ⟨.hbm, 1731, rfl⟩
abbrev main_v487 : Ref sig .tc := ⟨.hbm, 1732, rfl⟩
abbrev main_v488 : Ref sig .tc := ⟨.hbm, 1733, rfl⟩
abbrev main_cst_99 : Ref sig .tc := ⟨.hbm, 1734, rfl⟩
abbrev main_v489 : Ref sig .tc := ⟨.hbm, 1735, rfl⟩
abbrev main_v490 : Ref sig .tc := ⟨.hbm, 1736, rfl⟩
abbrev main_cst_100 : Ref sig .tc := ⟨.hbm, 1737, rfl⟩
abbrev main_v491 : Ref sig .tc := ⟨.hbm, 1738, rfl⟩
abbrev main_v492 : Ref sig .tc := ⟨.hbm, 1739, rfl⟩
abbrev main_c_101 : Ref sig .tc := ⟨.hbm, 1740, rfl⟩
abbrev main_call70_c : Ref sig .tc := ⟨.hbm, 1741, rfl⟩
abbrev main_call70_v0 : Ref sig .tc := ⟨.hbm, 1742, rfl⟩
abbrev main_call70_c_0 : Ref sig .tc := ⟨.hbm, 1743, rfl⟩
abbrev main_call70_v1 : Ref sig .tc := ⟨.hbm, 1744, rfl⟩
abbrev main_call70_v2 : Ref sig .tc := ⟨.hbm, 1745, rfl⟩
abbrev main_call70_v3 : Ref sig .tc := ⟨.hbm, 1746, rfl⟩
abbrev main_call70_c_1 : Ref sig .tc := ⟨.hbm, 1747, rfl⟩
abbrev main_call70_v4 : Ref sig .tc := ⟨.hbm, 1748, rfl⟩
abbrev main_call70_c_2 : Ref sig .tc := ⟨.hbm, 1749, rfl⟩
abbrev main_call70_v5 : Ref sig .tc := ⟨.hbm, 1750, rfl⟩
abbrev main_call70_v6 : Ref sig .tc := ⟨.hbm, 1751, rfl⟩
abbrev main_call70_v7 : Ref sig .tc := ⟨.hbm, 1752, rfl⟩
abbrev main_call70_v8 : Ref sig .tc := ⟨.hbm, 1753, rfl⟩
abbrev main_call70_c_3 : Ref sig .tc := ⟨.hbm, 1754, rfl⟩
abbrev main_call70_v9 : Ref sig .tc := ⟨.hbm, 1755, rfl⟩
abbrev main_call70_v10 : Ref sig .tc := ⟨.hbm, 1756, rfl⟩
abbrev main_call70_v11 : Ref sig .tc := ⟨.hbm, 1757, rfl⟩
abbrev main_call70_cst : Ref sig .tc := ⟨.hbm, 1758, rfl⟩
abbrev main_call70_v12 : Ref sig .tc := ⟨.hbm, 1759, rfl⟩
abbrev main_v493 : Ref sig .tc := ⟨.hbm, 1760, rfl⟩
abbrev main_c_102 : Ref sig .tc := ⟨.hbm, 1761, rfl⟩
abbrev main_call71_c : Ref sig .tc := ⟨.hbm, 1762, rfl⟩
abbrev main_call71_v0 : Ref sig .tc := ⟨.hbm, 1763, rfl⟩
abbrev main_call71_c_0 : Ref sig .tc := ⟨.hbm, 1764, rfl⟩
abbrev main_call71_v1 : Ref sig .tc := ⟨.hbm, 1765, rfl⟩
abbrev main_call71_v2 : Ref sig .tc := ⟨.hbm, 1766, rfl⟩
abbrev main_call71_v3 : Ref sig .tc := ⟨.hbm, 1767, rfl⟩
abbrev main_call71_c_1 : Ref sig .tc := ⟨.hbm, 1768, rfl⟩
abbrev main_call71_v4 : Ref sig .tc := ⟨.hbm, 1769, rfl⟩
abbrev main_call71_c_2 : Ref sig .tc := ⟨.hbm, 1770, rfl⟩
abbrev main_call71_v5 : Ref sig .tc := ⟨.hbm, 1771, rfl⟩
abbrev main_call71_v6 : Ref sig .tc := ⟨.hbm, 1772, rfl⟩
abbrev main_call71_v7 : Ref sig .tc := ⟨.hbm, 1773, rfl⟩
abbrev main_call71_v8 : Ref sig .tc := ⟨.hbm, 1774, rfl⟩
abbrev main_call71_c_3 : Ref sig .tc := ⟨.hbm, 1775, rfl⟩
abbrev main_call71_v9 : Ref sig .tc := ⟨.hbm, 1776, rfl⟩
abbrev main_call71_v10 : Ref sig .tc := ⟨.hbm, 1777, rfl⟩
abbrev main_call71_v11 : Ref sig .tc := ⟨.hbm, 1778, rfl⟩
abbrev main_call71_cst : Ref sig .tc := ⟨.hbm, 1779, rfl⟩
abbrev main_call71_v12 : Ref sig .tc := ⟨.hbm, 1780, rfl⟩
abbrev main_v494 : Ref sig .tc := ⟨.hbm, 1781, rfl⟩
abbrev main_v495 : Ref sig .tc := ⟨.hbm, 1782, rfl⟩
abbrev main_v496 : Ref sig .tc := ⟨.hbm, 1783, rfl⟩
abbrev main_v497 : Ref sig .tc := ⟨.hbm, 1784, rfl⟩
abbrev main_v498 : Ref sig .tc := ⟨.hbm, 1785, rfl⟩
abbrev main_v499 : Ref sig .tc := ⟨.hbm, 1786, rfl⟩
abbrev main_v500 : Ref sig .tc := ⟨.hbm, 1787, rfl⟩
abbrev main_v501 : Ref sig .tc := ⟨.hbm, 1788, rfl⟩
abbrev main_v502 : Ref sig .tc := ⟨.hbm, 1789, rfl⟩
abbrev main_v503 : Ref sig .tc := ⟨.hbm, 1790, rfl⟩
abbrev main_v504 : Ref sig .tc := ⟨.hbm, 1791, rfl⟩
abbrev main_v505 : Ref sig .tc := ⟨.hbm, 1792, rfl⟩
abbrev main_v506 : Ref sig .tc := ⟨.hbm, 1793, rfl⟩
abbrev main_v507 : Ref sig .tc := ⟨.hbm, 1794, rfl⟩
abbrev main_v508 : Ref sig .tc := ⟨.hbm, 1795, rfl⟩
abbrev main_v509 : Ref sig .tc := ⟨.hbm, 1796, rfl⟩
abbrev main_c_103 : Ref sig .tc := ⟨.hbm, 1797, rfl⟩
abbrev main_v510 : Ref sig .tc := ⟨.hbm, 1798, rfl⟩
abbrev main_v511 : Ref sig .tc := ⟨.hbm, 1799, rfl⟩
abbrev main_c_104 : Ref sig .tc := ⟨.hbm, 1800, rfl⟩
abbrev main_v512 : Ref sig .tc := ⟨.hbm, 1801, rfl⟩
abbrev main_v513 : Ref sig .tc := ⟨.hbm, 1802, rfl⟩
abbrev main_v514 : Ref sig .tc := ⟨.hbm, 1803, rfl⟩
abbrev main_v515 : Ref sig .tc := ⟨.hbm, 1804, rfl⟩
abbrev main_v516 : Ref sig .tc := ⟨.hbm, 1805, rfl⟩
abbrev main_v517 : Ref sig .tc := ⟨.hbm, 1806, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S256x256 : S_.BroadcastsInDim S256x256 (![] : Fin 0 → Fin S256x256.rank)
  shapeCasts_S256x256_S256x2x2x2x2x2x2x2x2 : S256x256.ShapeCasts S256x2x2x2x2x2x2x2x2
  slices_S21_S1_0 : S21.Slices ![0] S1
  shapeCasts_S1_S_ : S1.ShapeCasts S_
  bcast_S_S1 : S_.BroadcastsInDim S1 (![] : Fin 0 → Fin S1.rank)
  reducesTo_S1_S_d0 : S1.ReducesTo [0] S_
  h_S_ : 0 < S_.numel
  bcast_S_S256x2x2x2x2x2x2x2 : S_.BroadcastsInDim S256x2x2x2x2x2x2x2 (![] : Fin 0 → Fin S256x2x2x2x2x2x2x2.rank)
  bcast_S256x2x2x2x2x2x2x2_S256x2x1x2x2x2x2x2x2_0_1_3_4_5_6_7_8 : S256x2x2x2x2x2x2x2.BroadcastsInDim S256x2x1x2x2x2x2x2x2 (![0, 1, 3, 4, 5, 6, 7, 8] : Fin 8 → Fin S256x2x1x2x2x2x2x2x2.rank)
  concatenates_S256x2x1x2x2x2x2x2x2_S256x2x1x2x2x2x2x2x2_S256x2x2x2x2x2x2x2x2_d2 : Shape.Concatenates [S256x2x1x2x2x2x2x2x2, S256x2x1x2x2x2x2x2x2] S256x2x2x2x2x2x2x2x2 2
  slices_S21_S1_1 : S21.Slices ![1] S1
  bcast_S256x2x2x2x2x2x2x2_S256x2x2x1x2x2x2x2x2_0_1_2_4_5_6_7_8 : S256x2x2x2x2x2x2x2.BroadcastsInDim S256x2x2x1x2x2x2x2x2 (![0, 1, 2, 4, 5, 6, 7, 8] : Fin 8 → Fin S256x2x2x1x2x2x2x2x2.rank)
  concatenates_S256x2x2x1x2x2x2x2x2_S256x2x2x1x2x2x2x2x2_S256x2x2x2x2x2x2x2x2_d3 : Shape.Concatenates [S256x2x2x1x2x2x2x2x2, S256x2x2x1x2x2x2x2x2] S256x2x2x2x2x2x2x2x2 3
  slices_S21_S1_2 : S21.Slices ![2] S1
  bcast_S256x2x2x2x2x2x2x2_S256x2x2x2x2x2x1x2x2_0_1_2_3_4_5_7_8 : S256x2x2x2x2x2x2x2.BroadcastsInDim S256x2x2x2x2x2x1x2x2 (![0, 1, 2, 3, 4, 5, 7, 8] : Fin 8 → Fin S256x2x2x2x2x2x1x2x2.rank)
  concatenates_S256x2x2x2x2x2x1x2x2_S256x2x2x2x2x2x1x2x2_S256x2x2x2x2x2x2x2x2_d6 : Shape.Concatenates [S256x2x2x2x2x2x1x2x2, S256x2x2x2x2x2x1x2x2] S256x2x2x2x2x2x2x2x2 6
  slices_S21_S1_3 : S21.Slices ![3] S1
  bcast_S256x2x2x2x2x2x2x2_S256x2x2x2x2x2x2x1x2_0_1_2_3_4_5_6_8 : S256x2x2x2x2x2x2x2.BroadcastsInDim S256x2x2x2x2x2x2x1x2 (![0, 1, 2, 3, 4, 5, 6, 8] : Fin 8 → Fin S256x2x2x2x2x2x2x1x2.rank)
  concatenates_S256x2x2x2x2x2x2x1x2_S256x2x2x2x2x2x2x1x2_S256x2x2x2x2x2x2x2x2_d7 : Shape.Concatenates [S256x2x2x2x2x2x2x1x2, S256x2x2x2x2x2x2x1x2] S256x2x2x2x2x2x2x2x2 7
  slices_S21_S1_4 : S21.Slices ![4] S1
  bcast_S256x2x2x2x2x2x2x2_S256x1x2x2x2x2x2x2x2_0_2_3_4_5_6_7_8 : S256x2x2x2x2x2x2x2.BroadcastsInDim S256x1x2x2x2x2x2x2x2 (![0, 2, 3, 4, 5, 6, 7, 8] : Fin 8 → Fin S256x1x2x2x2x2x2x2x2.rank)
  concatenates_S256x1x2x2x2x2x2x2x2_S256x1x2x2x2x2x2x2x2_S256x2x2x2x2x2x2x2x2_d1 : Shape.Concatenates [S256x1x2x2x2x2x2x2x2, S256x1x2x2x2x2x2x2x2] S256x2x2x2x2x2x2x2x2 1
  slices_S21_S1_5 : S21.Slices ![5] S1
  slices_S21_S1_6 : S21.Slices ![6] S1
  slices_S21_S1_7 : S21.Slices ![7] S1
  bcast_S256x2x2x2x2x2x2x2_S256x2x2x2x1x2x2x2x2_0_1_2_3_5_6_7_8 : S256x2x2x2x2x2x2x2.BroadcastsInDim S256x2x2x2x1x2x2x2x2 (![0, 1, 2, 3, 5, 6, 7, 8] : Fin 8 → Fin S256x2x2x2x1x2x2x2x2.rank)
  concatenates_S256x2x2x2x1x2x2x2x2_S256x2x2x2x1x2x2x2x2_S256x2x2x2x2x2x2x2x2_d4 : Shape.Concatenates [S256x2x2x2x1x2x2x2x2, S256x2x2x2x1x2x2x2x2] S256x2x2x2x2x2x2x2x2 4
  slices_S21_S1_8 : S21.Slices ![8] S1
  bcast_S256x2x2x2x2x2x2x2_S256x2x2x2x2x1x2x2x2_0_1_2_3_4_6_7_8 : S256x2x2x2x2x2x2x2.BroadcastsInDim S256x2x2x2x2x1x2x2x2 (![0, 1, 2, 3, 4, 6, 7, 8] : Fin 8 → Fin S256x2x2x2x2x1x2x2x2.rank)
  concatenates_S256x2x2x2x2x1x2x2x2_S256x2x2x2x2x1x2x2x2_S256x2x2x2x2x2x2x2x2_d5 : Shape.Concatenates [S256x2x2x2x2x1x2x2x2, S256x2x2x2x2x1x2x2x2] S256x2x2x2x2x2x2x2x2 5
  slices_S21_S1_9 : S21.Slices ![9] S1
  slices_S21_S1_10 : S21.Slices ![10] S1
  slices_S21_S1_11 : S21.Slices ![11] S1
  bcast_S256x2x2x2x2x2x2x2_S256x2x2x2x2x2x2x2x1_0_1_2_3_4_5_6_7 : S256x2x2x2x2x2x2x2.BroadcastsInDim S256x2x2x2x2x2x2x2x1 (![0, 1, 2, 3, 4, 5, 6, 7] : Fin 8 → Fin S256x2x2x2x2x2x2x2x1.rank)
  concatenates_S256x2x2x2x2x2x2x2x1_S256x2x2x2x2x2x2x2x1_S256x2x2x2x2x2x2x2x2_d8 : Shape.Concatenates [S256x2x2x2x2x2x2x2x1, S256x2x2x2x2x2x2x2x1] S256x2x2x2x2x2x2x2x2 8
  slices_S21_S1_12 : S21.Slices ![12] S1
  slices_S21_S1_13 : S21.Slices ![13] S1
  slices_S21_S1_14 : S21.Slices ![14] S1
  slices_S21_S1_15 : S21.Slices ![15] S1
  slices_S21_S1_16 : S21.Slices ![16] S1
  slices_S21_S1_17 : S21.Slices ![17] S1
  slices_S21_S1_18 : S21.Slices ![18] S1
  slices_S21_S1_19 : S21.Slices ![19] S1
  slices_S21_S1_20 : S21.Slices ![20] S1
  shapeCasts_S256x2x2x2x2x2x2x2x2_S256x256 : S256x2x2x2x2x2x2x2x2.ShapeCasts S256x256
  bcast_S_S256 : S_.BroadcastsInDim S256 (![] : Fin 0 → Fin S256.rank)
  shapeCasts_S256_S1x256 : S256.ShapeCasts S1x256
  inb_S2048x512_S2048x512_0_0 : ∀ a, (![0, 0] : Fin 2 → Nat) a + S2048x512.size a ≤ S2048x512.size a
  h_S2048x512 : 0 < S2048x512.numel
  inb_S2048x4_S2048x4_0_0 : ∀ a, (![0, 0] : Fin 2 → Nat) a + S2048x4.size a ≤ S2048x4.size a
  h_S2048x4 : 0 < S2048x4.numel
  bitsLt_bf16_f32 : FTy.bits .bf16 < FTy.bits .f32
  concatenates_S512x4_S512x4_S512x8_d1 : Shape.Concatenates [S512x4, S512x4] S512x8 1
  slices_S512x8_o0_7_S512x1 : S512x8.Slices ![0, 7] S512x1
  concatenates_S512x1_S512x1_S512x2_d1 : Shape.Concatenates [S512x1, S512x1] S512x2 1
  slices_S512x8_o0_6_S512x1 : S512x8.Slices ![0, 6] S512x1
  broadcasts_S512x1_S512x2 : S512x1.Broadcasts S512x2
  concatenates_S512x2_S512x2_S512x4_d1 : Shape.Concatenates [S512x2, S512x2] S512x4 1
  slices_S512x8_o0_5_S512x1 : S512x8.Slices ![0, 5] S512x1
  broadcasts_S512x1_S512x4 : S512x1.Broadcasts S512x4
  slices_S512x8_o0_4_S512x1 : S512x8.Slices ![0, 4] S512x1
  broadcasts_S512x1_S512x8 : S512x1.Broadcasts S512x8
  concatenates_S512x8_S512x8_S512x16_d1 : Shape.Concatenates [S512x8, S512x8] S512x16 1
  slices_S512x8_o0_3_S512x1 : S512x8.Slices ![0, 3] S512x1
  broadcasts_S512x1_S512x16 : S512x1.Broadcasts S512x16
  concatenates_S512x16_S512x16_S512x32_d1 : Shape.Concatenates [S512x16, S512x16] S512x32 1
  slices_S512x8_o0_2_S512x1 : S512x8.Slices ![0, 2] S512x1
  broadcasts_S512x1_S512x32 : S512x1.Broadcasts S512x32
  concatenates_S512x32_S512x32_S512x64_d1 : Shape.Concatenates [S512x32, S512x32] S512x64 1
  slices_S512x8_o0_1_S512x1 : S512x8.Slices ![0, 1] S512x1
  broadcasts_S512x1_S512x64 : S512x1.Broadcasts S512x64
  concatenates_S512x64_S512x64_S512x128_d1 : Shape.Concatenates [S512x64, S512x64] S512x128 1
  slices_S512x8_o0_0_S512x1 : S512x8.Slices ![0, 0] S512x1
  broadcasts_S512x1_S512x128 : S512x1.Broadcasts S512x128
  concatenates_S512x128_S512x128_S512x256_d1 : Shape.Concatenates [S512x128, S512x128] S512x256 1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  reduces_S512x256_S512 : S512x256.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  shapeCasts_S16384x1_S16384 : S16384x1.ShapeCasts S16384
  gather_S256x2x2x2x2x2x2x2x2_S1_S256x2x2x2x2x2x2x2_01234567_2_n_n_2_0_25621222222_wf : GatherDims.WF S256x2x2x2x2x2x2x2x2 S1 S256x2x2x2x2x2x2x2 [0, 1, 2, 3, 4, 5, 6, 7] [2] [] [2] [] 0 ![256, 2, 1, 2, 2, 2, 2, 2, 2]
  gather_S256x2x2x2x2x2x2x2x2_S1_S256x2x2x2x2x2x2x2_01234567_3_n_n_3_0_25622122222_wf : GatherDims.WF S256x2x2x2x2x2x2x2x2 S1 S256x2x2x2x2x2x2x2 [0, 1, 2, 3, 4, 5, 6, 7] [3] [] [3] [] 0 ![256, 2, 2, 1, 2, 2, 2, 2, 2]
  gather_S256x2x2x2x2x2x2x2x2_S1_S256x2x2x2x2x2x2x2_01234567_6_n_n_6_0_25622222122_wf : GatherDims.WF S256x2x2x2x2x2x2x2x2 S1 S256x2x2x2x2x2x2x2 [0, 1, 2, 3, 4, 5, 6, 7] [6] [] [6] [] 0 ![256, 2, 2, 2, 2, 2, 1, 2, 2]
  gather_S256x2x2x2x2x2x2x2x2_S1_S256x2x2x2x2x2x2x2_01234567_7_n_n_7_0_25622222212_wf : GatherDims.WF S256x2x2x2x2x2x2x2x2 S1 S256x2x2x2x2x2x2x2 [0, 1, 2, 3, 4, 5, 6, 7] [7] [] [7] [] 0 ![256, 2, 2, 2, 2, 2, 2, 1, 2]
  gather_S256x2x2x2x2x2x2x2x2_S1_S256x2x2x2x2x2x2x2_01234567_1_n_n_1_0_25612222222_wf : GatherDims.WF S256x2x2x2x2x2x2x2x2 S1 S256x2x2x2x2x2x2x2 [0, 1, 2, 3, 4, 5, 6, 7] [1] [] [1] [] 0 ![256, 1, 2, 2, 2, 2, 2, 2, 2]
  gather_S256x2x2x2x2x2x2x2x2_S1_S256x2x2x2x2x2x2x2_01234567_4_n_n_4_0_25622212222_wf : GatherDims.WF S256x2x2x2x2x2x2x2x2 S1 S256x2x2x2x2x2x2x2 [0, 1, 2, 3, 4, 5, 6, 7] [4] [] [4] [] 0 ![256, 2, 2, 2, 1, 2, 2, 2, 2]
  gather_S256x2x2x2x2x2x2x2x2_S1_S256x2x2x2x2x2x2x2_01234567_5_n_n_5_0_25622221222_wf : GatherDims.WF S256x2x2x2x2x2x2x2x2 S1 S256x2x2x2x2x2x2x2 [0, 1, 2, 3, 4, 5, 6, 7] [5] [] [5] [] 0 ![256, 2, 2, 2, 2, 1, 2, 2, 2]
  gather_S256x2x2x2x2x2x2x2x2_S1_S256x2x2x2x2x2x2x2_01234567_8_n_n_8_0_25622222221_wf : GatherDims.WF S256x2x2x2x2x2x2x2x2 S1 S256x2x2x2x2x2x2x2 [0, 1, 2, 3, 4, 5, 6, 7] [8] [] [8] [] 0 ![256, 2, 2, 2, 2, 2, 2, 2, 1]
  dot_S2048x512_S2048x4_S512x4_0_0_1_1_n_n_wf : DotDims.WF S2048x512 S2048x4 S512x4 [0] [0] [1] [1] [] []
  dot_S512x256_S256x256_S512x256_1_0_0_1_n_n_wf : DotDims.WF S512x256 S256x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S2048x16384.size a
  hwx0_0 : ∀ i : grid0.Coords, EltTy.bits .f32 = 32 ∨ (Rect.block (s := S2048x16384) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x16384.size a
  hwx0_1 : ∀ i : grid0.Coords, EltTy.bits .f32 = 32 ∨ (Rect.block (s := S2048x16384) S2048x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x4.size a ≤ S2048x4.size a
  hwx0_2 : ∀ i : grid0.Coords, EltTy.bits .f32 = 32 ∨ (Rect.block (s := S2048x4) S2048x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S16384x1.size a
  hwx0_5 : ∀ i : grid0.Coords, EltTy.bits .f32 = 32 ∨ (Rect.block (s := S16384x1) S512x1.size (cc0_transform_5 i) (hinb0_5 i)).WholeWords (EltTy.packing .f32)

variable [Facts₀]

def gather_S256x2x2x2x2x2x2x2x2_S1_S256x2x2x2x2x2x2x2_01234567_2_n_n_2_0_25621222222 : GatherDims S256x2x2x2x2x2x2x2x2 S1 S256x2x2x2x2x2x2x2 where
  offsetDims := [0, 1, 2, 3, 4, 5, 6, 7]
  collapsedSliceDims := [2]
  operandBatchingDims := []
  startIndicesBatchingDims := []
  startIndexMap := [2]
  indexVectorDim := 0
  sliceSizes := ![256, 2, 1, 2, 2, 2, 2, 2, 2]
  wf := gather_S256x2x2x2x2x2x2x2x2_S1_S256x2x2x2x2x2x2x2_01234567_2_n_n_2_0_25621222222_wf
def gather_S256x2x2x2x2x2x2x2x2_S1_S256x2x2x2x2x2x2x2_01234567_3_n_n_3_0_25622122222 : GatherDims S256x2x2x2x2x2x2x2x2 S1 S256x2x2x2x2x2x2x2 where
  offsetDims := [0, 1, 2, 3, 4, 5, 6, 7]
  collapsedSliceDims := [3]
  operandBatchingDims := []
  startIndicesBatchingDims := []
  startIndexMap := [3]
  indexVectorDim := 0
  sliceSizes := ![256, 2, 2, 1, 2, 2, 2, 2, 2]
  wf := gather_S256x2x2x2x2x2x2x2x2_S1_S256x2x2x2x2x2x2x2_01234567_3_n_n_3_0_25622122222_wf
def gather_S256x2x2x2x2x2x2x2x2_S1_S256x2x2x2x2x2x2x2_01234567_6_n_n_6_0_25622222122 : GatherDims S256x2x2x2x2x2x2x2x2 S1 S256x2x2x2x2x2x2x2 where
  offsetDims := [0, 1, 2, 3, 4, 5, 6, 7]
  collapsedSliceDims := [6]
  operandBatchingDims := []
  startIndicesBatchingDims := []
  startIndexMap := [6]
  indexVectorDim := 0
  sliceSizes := ![256, 2, 2, 2, 2, 2, 1, 2, 2]
  wf := gather_S256x2x2x2x2x2x2x2x2_S1_S256x2x2x2x2x2x2x2_01234567_6_n_n_6_0_25622222122_wf
def gather_S256x2x2x2x2x2x2x2x2_S1_S256x2x2x2x2x2x2x2_01234567_7_n_n_7_0_25622222212 : GatherDims S256x2x2x2x2x2x2x2x2 S1 S256x2x2x2x2x2x2x2 where
  offsetDims := [0, 1, 2, 3, 4, 5, 6, 7]
  collapsedSliceDims := [7]
  operandBatchingDims := []
  startIndicesBatchingDims := []
  startIndexMap := [7]
  indexVectorDim := 0
  sliceSizes := ![256, 2, 2, 2, 2, 2, 2, 1, 2]
  wf := gather_S256x2x2x2x2x2x2x2x2_S1_S256x2x2x2x2x2x2x2_01234567_7_n_n_7_0_25622222212_wf
def gather_S256x2x2x2x2x2x2x2x2_S1_S256x2x2x2x2x2x2x2_01234567_1_n_n_1_0_25612222222 : GatherDims S256x2x2x2x2x2x2x2x2 S1 S256x2x2x2x2x2x2x2 where
  offsetDims := [0, 1, 2, 3, 4, 5, 6, 7]
  collapsedSliceDims := [1]
  operandBatchingDims := []
  startIndicesBatchingDims := []
  startIndexMap := [1]
  indexVectorDim := 0
  sliceSizes := ![256, 1, 2, 2, 2, 2, 2, 2, 2]
  wf := gather_S256x2x2x2x2x2x2x2x2_S1_S256x2x2x2x2x2x2x2_01234567_1_n_n_1_0_25612222222_wf
def gather_S256x2x2x2x2x2x2x2x2_S1_S256x2x2x2x2x2x2x2_01234567_4_n_n_4_0_25622212222 : GatherDims S256x2x2x2x2x2x2x2x2 S1 S256x2x2x2x2x2x2x2 where
  offsetDims := [0, 1, 2, 3, 4, 5, 6, 7]
  collapsedSliceDims := [4]
  operandBatchingDims := []
  startIndicesBatchingDims := []
  startIndexMap := [4]
  indexVectorDim := 0
  sliceSizes := ![256, 2, 2, 2, 1, 2, 2, 2, 2]
  wf := gather_S256x2x2x2x2x2x2x2x2_S1_S256x2x2x2x2x2x2x2_01234567_4_n_n_4_0_25622212222_wf
def gather_S256x2x2x2x2x2x2x2x2_S1_S256x2x2x2x2x2x2x2_01234567_5_n_n_5_0_25622221222 : GatherDims S256x2x2x2x2x2x2x2x2 S1 S256x2x2x2x2x2x2x2 where
  offsetDims := [0, 1, 2, 3, 4, 5, 6, 7]
  collapsedSliceDims := [5]
  operandBatchingDims := []
  startIndicesBatchingDims := []
  startIndexMap := [5]
  indexVectorDim := 0
  sliceSizes := ![256, 2, 2, 2, 2, 1, 2, 2, 2]
  wf := gather_S256x2x2x2x2x2x2x2x2_S1_S256x2x2x2x2x2x2x2_01234567_5_n_n_5_0_25622221222_wf
def gather_S256x2x2x2x2x2x2x2x2_S1_S256x2x2x2x2x2x2x2_01234567_8_n_n_8_0_25622222221 : GatherDims S256x2x2x2x2x2x2x2x2 S1 S256x2x2x2x2x2x2x2 where
  offsetDims := [0, 1, 2, 3, 4, 5, 6, 7]
  collapsedSliceDims := [8]
  operandBatchingDims := []
  startIndicesBatchingDims := []
  startIndexMap := [8]
  indexVectorDim := 0
  sliceSizes := ![256, 2, 2, 2, 2, 2, 2, 2, 1]
  wf := gather_S256x2x2x2x2x2x2x2x2_S1_S256x2x2x2x2x2x2x2_01234567_8_n_n_8_0_25622222221_wf
def dot_S2048x512_S2048x4_S512x4_0_0_1_1_n_n : DotDims S2048x512 S2048x4 S512x4 where
  lhsContracting := [0]
  rhsContracting := [0]
  lhsNonContracting := [1]
  rhsNonContracting := [1]
  lhsBatch := []
  rhsBatch := []
  wf := dot_S2048x512_S2048x4_S512x4_0_0_1_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

abbrev win0_0 : Pipeline.Window sig grid0 :=
  Pipeline.Window.ofSpec (Memref.whole main_arg2) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S2048x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v508) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v515) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v516) S512x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S2048x4 : Shape := ⟨2, ![2048, 4]⟩
abbrev S2048x16384 : Shape := ⟨2, ![2048, 16384]⟩
abbrev S21 : Shape := ⟨1, ![21]⟩
abbrev S16384x4 : Shape := ⟨2, ![16384, 4]⟩
abbrev S16384x8 : Shape := ⟨2, ![16384, 8]⟩
abbrev S_ : Shape := ⟨0, ![]⟩
abbrev S16384x8x1 : Shape := ⟨3, ![16384, 8, 1]⟩
abbrev S16384x8x2 : Shape := ⟨3, ![16384, 8, 2]⟩
abbrev S16384x1x2 : Shape := ⟨3, ![16384, 1, 2]⟩
abbrev S16384x2 : Shape := ⟨2, ![16384, 2]⟩
abbrev S16384x2x1 : Shape := ⟨3, ![16384, 2, 1]⟩
abbrev S16384x2x2 : Shape := ⟨3, ![16384, 2, 2]⟩
abbrev S16384x2x2x1 : Shape := ⟨4, ![16384, 2, 2, 1]⟩
abbrev S16384x1x1x2 : Shape := ⟨4, ![16384, 1, 1, 2]⟩
abbrev S16384x2x2x2 : Shape := ⟨4, ![16384, 2, 2, 2]⟩
abbrev S16384x2x2x2x1 : Shape := ⟨5, ![16384, 2, 2, 2, 1]⟩
abbrev S16384x1x1x1x2 : Shape := ⟨5, ![16384, 1, 1, 1, 2]⟩
abbrev S16384x2x2x2x2 : Shape := ⟨5, ![16384, 2, 2, 2, 2]⟩
abbrev S16384x2x2x2x2x1 : Shape := ⟨6, ![16384, 2, 2, 2, 2, 1]⟩
abbrev S16384x1x1x1x1x2 : Shape := ⟨6, ![16384, 1, 1, 1, 1, 2]⟩
abbrev S16384x2x2x2x2x2 : Shape := ⟨6, ![16384, 2, 2, 2, 2, 2]⟩
abbrev S16384x2x2x2x2x2x1 : Shape := ⟨7, ![16384, 2, 2, 2, 2, 2, 1]⟩
abbrev S16384x1x1x1x1x1x2 : Shape := ⟨7, ![16384, 1, 1, 1, 1, 1, 2]⟩
abbrev S16384x2x2x2x2x2x2 : Shape := ⟨7, ![16384, 2, 2, 2, 2, 2, 2]⟩
abbrev S16384x2x2x2x2x2x2x1 : Shape := ⟨8, ![16384, 2, 2, 2, 2, 2, 2, 1]⟩
abbrev S16384x1x1x1x1x1x1x2 : Shape := ⟨8, ![16384, 1, 1, 1, 1, 1, 1, 2]⟩
abbrev S16384x2x2x2x2x2x2x2 : Shape := ⟨8, ![16384, 2, 2, 2, 2, 2, 2, 2]⟩
abbrev S16384x2x2x2x2x2x2x2x1 : Shape := ⟨9, ![16384, 2, 2, 2, 2, 2, 2, 2, 1]⟩
abbrev S16384x1x1x1x1x1x1x1x2 : Shape := ⟨9, ![16384, 1, 1, 1, 1, 1, 1, 1, 2]⟩
abbrev S16384x2x2x2x2x2x2x2x2 : Shape := ⟨9, ![16384, 2, 2, 2, 2, 2, 2, 2, 2]⟩
abbrev S1 : Shape := ⟨1, ![1]⟩
abbrev S16384x2x1x2x2x2x2x2x2 : Shape := ⟨9, ![16384, 2, 1, 2, 2, 2, 2, 2, 2]⟩
abbrev S16384x2x2x1x2x2x2x2x2 : Shape := ⟨9, ![16384, 2, 2, 1, 2, 2, 2, 2, 2]⟩
abbrev S16384x2x2x2x2x2x1x2x2 : Shape := ⟨9, ![16384, 2, 2, 2, 2, 2, 1, 2, 2]⟩
abbrev S16384x2x2x2x2x2x2x1x2 : Shape := ⟨9, ![16384, 2, 2, 2, 2, 2, 2, 1, 2]⟩
abbrev S16384x1x2x2x2x2x2x2x2 : Shape := ⟨9, ![16384, 1, 2, 2, 2, 2, 2, 2, 2]⟩
abbrev S16384x2x2x2x1x2x2x2x2 : Shape := ⟨9, ![16384, 2, 2, 2, 1, 2, 2, 2, 2]⟩
abbrev S16384x2x2x2x2x1x2x2x2 : Shape := ⟨9, ![16384, 2, 2, 2, 2, 1, 2, 2, 2]⟩
abbrev S16384x1 : Shape := ⟨2, ![16384, 1]⟩
abbrev S16384 : Shape := ⟨1, ![16384]⟩

abbrev nBuf : Space → Nat
  | .hbm => 1863
  | .vmem => 0
  | .smem => 0
  | _ => 0

abbrev hbmTy0_0 (i : Nat) : BufTy := match i % 128 with
  | 0 => ⟨S2048x4, .f32⟩
  | 1 => ⟨S2048x16384, .f32⟩
  | 2 => ⟨S2048x16384, .f32⟩
  | 3 => ⟨S21, .f32⟩
  | 4 => ⟨S16384x4, .f32⟩
  | 5 => ⟨S16384x4, .f32⟩
  | 6 => ⟨S16384x8, .f32⟩
  | 7 => ⟨S_, .f32⟩
  | 8 => ⟨S16384x8, .f32⟩
  | 9 => ⟨S16384x8, .f32⟩
  | 10 => ⟨S16384x8, .f32⟩
  | 11 => ⟨S16384x8, .f32⟩
  | 12 => ⟨S16384x8x1, .f32⟩
  | 13 => ⟨S16384x8x1, .f32⟩
  | 14 => ⟨S16384x8x2, .f32⟩
  | 15 => ⟨S16384x1x2, .f32⟩
  | 16 => ⟨S16384x2, .f32⟩
  | 17 => ⟨S16384x2x1, .f32⟩
  | 18 => ⟨S16384x1x2, .f32⟩
  | 19 => ⟨S16384x2, .f32⟩
  | 20 => ⟨S16384x1x2, .f32⟩
  | 21 => ⟨S16384x2x2, .f32⟩
  | 22 => ⟨S16384x2x2, .f32⟩
  | 23 => ⟨S16384x2x2, .f32⟩
  | 24 => ⟨S16384x2x2x1, .f32⟩
  | 25 => ⟨S16384x1x2, .f32⟩
  | 26 => ⟨S16384x2, .f32⟩
  | 27 => ⟨S16384x1x1x2, .f32⟩
  | 28 => ⟨S16384x2x2x2, .f32⟩
  | 29 => ⟨S16384x2x2x2, .f32⟩
  | 30 => ⟨S16384x2x2x2, .f32⟩
  | 31 => ⟨S16384x2x2x2x1, .f32⟩
  | 32 => ⟨S16384x1x2, .f32⟩
  | 33 => ⟨S16384x2, .f32⟩
  | 34 => ⟨S16384x1x1x1x2, .f32⟩
  | 35 => ⟨S16384x2x2x2x2, .f32⟩
  | 36 => ⟨S16384x2x2x2x2, .f32⟩
  | 37 => ⟨S16384x2x2x2x2, .f32⟩
  | 38 => ⟨S16384x2x2x2x2x1, .f32⟩
  | 39 => ⟨S16384x1x2, .f32⟩
  | 40 => ⟨S16384x2, .f32⟩
  | 41 => ⟨S16384x1x1x1x1x2, .f32⟩
  | 42 => ⟨S16384x2x2x2x2x2, .f32⟩
  | 43 => ⟨S16384x2x2x2x2x2, .f32⟩
  | 44 => ⟨S16384x2x2x2x2x2, .f32⟩
  | 45 => ⟨S16384x2x2x2x2x2x1, .f32⟩
  | 46 => ⟨S16384x1x2, .f32⟩
  | 47 => ⟨S16384x2, .f32⟩
  | 48 => ⟨S16384x1x1x1x1x1x2, .f32⟩
  | 49 => ⟨S16384x2x2x2x2x2x2, .f32⟩
  | 50 => ⟨S16384x2x2x2x2x2x2, .f32⟩
  | 51 => ⟨S16384x2x2x2x2x2x2, .f32⟩
  | 52 => ⟨S16384x2x2x2x2x2x2x1, .f32⟩
  | 53 => ⟨S16384x1x2, .f32⟩
  | 54 => ⟨S16384x2, .f32⟩
  | 55 => ⟨S16384x1x1x1x1x1x1x2, .f32⟩
  | 56 => ⟨S16384x2x2x2x2x2x2x2, .f32⟩
  | 57 => ⟨S16384x2x2x2x2x2x2x2, .f32⟩
  | 58 => ⟨S16384x2x2x2x2x2x2x2, .f32⟩
  | 59 => ⟨S16384x2x2x2x2x2x2x2x1, .f32⟩
  | 60 => ⟨S16384x1x2, .f32⟩
  | 61 => ⟨S16384x2, .f32⟩
  | 62 => ⟨S16384x1x1x1x1x1x1x1x2, .f32⟩
  | 63 => ⟨S16384x2x2x2x2x2x2x2x2, .f32⟩
  | 64 => ⟨S16384x2x2x2x2x2x2x2x2, .f32⟩
  | 65 => ⟨S16384x2x2x2x2x2x2x2x2, .f32⟩
  | 66 => ⟨S1, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .i32⟩
  | 75 => ⟨S_, .i32⟩
  | 76 => ⟨S_, .i1⟩
  | 77 => ⟨S_, .i32⟩
  | 78 => ⟨S_, .i32⟩
  | 79 => ⟨S_, .i32⟩
  | 80 => ⟨S1, .i32⟩
  | 81 => ⟨S1, .i32⟩
  | 82 => ⟨S1, .i32⟩
  | 83 => ⟨S_, .i32⟩
  | 84 => ⟨S1, .i32⟩
  | 85 => ⟨S1, .i1⟩
  | 86 => ⟨S1, .i1⟩
  | 87 => ⟨S1, .i1⟩
  | 88 => ⟨S_, .i1⟩
  | 89 => ⟨S_, .i1⟩
  | 90 => ⟨S16384x2x2x2x2x2x2x2, .f32⟩
  | 91 => ⟨S16384x2x2x2x2x2x2x2, .i1⟩
  | 92 => ⟨S_, .f32⟩
  | 93 => ⟨S16384x2x2x2x2x2x2x2, .f32⟩
  | 94 => ⟨S16384x2x2x2x2x2x2x2, .f32⟩
  | 95 => ⟨S_, .i32⟩
  | 96 => ⟨S_, .i32⟩
  | 97 => ⟨S_, .i1⟩
  | 98 => ⟨S_, .i32⟩
  | 99 => ⟨S_, .i32⟩
  | 100 => ⟨S_, .i32⟩
  | 101 => ⟨S1, .i32⟩
  | 102 => ⟨S1, .i32⟩
  | 103 => ⟨S1, .i32⟩
  | 104 => ⟨S_, .i32⟩
  | 105 => ⟨S1, .i32⟩
  | 106 => ⟨S1, .i1⟩
  | 107 => ⟨S1, .i1⟩
  | 108 => ⟨S1, .i1⟩
  | 109 => ⟨S_, .i1⟩
  | 110 => ⟨S_, .i1⟩
  | 111 => ⟨S16384x2x2x2x2x2x2x2, .f32⟩
  | 112 => ⟨S16384x2x2x2x2x2x2x2, .i1⟩
  | 113 => ⟨S_, .f32⟩
  | 114 => ⟨S16384x2x2x2x2x2x2x2, .f32⟩
  | 115 => ⟨S16384x2x2x2x2x2x2x2, .f32⟩
  | 116 => ⟨S16384x2x2x2x2x2x2x2, .f32⟩
  | 117 => ⟨S16384x2x2x2x2x2x2x2, .f32⟩
  | 118 => ⟨S16384x2x2x2x2x2x2x2, .f32⟩
  | 119 => ⟨S16384x2x2x2x2x2x2x2, .f32⟩
  | 120 => ⟨S16384x2x2x2x2x2x2x2, .f32⟩
  | 121 => ⟨S16384x2x2x2x2x2x2x2, .f32⟩
  | 122 => ⟨S16384x2x2x2x2x2x2x2, .f32⟩
  | 123 => ⟨S16384x2x2x2x2x2x2x2, .f32⟩
  | 124 => ⟨S16384x2x2x2x2x2x2x2, .f32⟩
  | 125 => ⟨S16384x2x2x2x2x2x2x2, .f32⟩
  | 126 => ⟨S16384x2x1x2x2x2x2x2x2, .f32⟩
  | 127 => ⟨S16384x2x1x2x2x2x2x2x2, .f32⟩
  | _ => ⟨S2048x4, .f32⟩

abbrev hbmTy0_1 (i : Nat) : BufTy := match i % 128 with
  | 0 => ⟨S16384x2x2x2x2x2x2x2x2, .f32⟩
  | 1 => ⟨S1, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .i32⟩
  | 10 => ⟨S_, .i32⟩
  | 11 => ⟨S_, .i1⟩
  | 12 => ⟨S_, .i32⟩
  | 13 => ⟨S_, .i32⟩
  | 14 => ⟨S_, .i32⟩
  | 15 => ⟨S1, .i32⟩
  | 16 => ⟨S1, .i32⟩
  | 17 => ⟨S1, .i32⟩
  | 18 => ⟨S_, .i32⟩
  | 19 => ⟨S1, .i32⟩
  | 20 => ⟨S1, .i1⟩
  | 21 => ⟨S1, .i1⟩
  | 22 => ⟨S1, .i1⟩
  | 23 => ⟨S_, .i1⟩
  | 24 => ⟨S_, .i1⟩
  | 25 => ⟨S16384x2x2x2x2x2x2x2, .f32⟩
  | 26 => ⟨S16384x2x2x2x2x2x2x2, .i1⟩
  | 27 => ⟨S_, .f32⟩
  | 28 => ⟨S16384x2x2x2x2x2x2x2, .f32⟩
  | 29 => ⟨S16384x2x2x2x2x2x2x2, .f32⟩
  | 30 => ⟨S_, .i32⟩
  | 31 => ⟨S_, .i32⟩
  | 32 => ⟨S_, .i1⟩
  | 33 => ⟨S_, .i32⟩
  | 34 => ⟨S_, .i32⟩
  | 35 => ⟨S_, .i32⟩
  | 36 => ⟨S1, .i32⟩
  | 37 => ⟨S1, .i32⟩
  | 38 => ⟨S1, .i32⟩
  | 39 => ⟨S_, .i32⟩
  | 40 => ⟨S1, .i32⟩
  | 41 => ⟨S1, .i1⟩
  | 42 => ⟨S1, .i1⟩
  | 43 => ⟨S1, .i1⟩
  | 44 => ⟨S_, .i1⟩
  | 45 => ⟨S_, .i1⟩
  | 46 => ⟨S16384x2x2x2x2x2x2x2, .f32⟩
  | 47 => ⟨S16384x2x2x2x2x2x2x2, .i1⟩
  | 48 => ⟨S_, .f32⟩
  | 49 => ⟨S16384x2x2x2x2x2x2x2, .f32⟩
  | 50 => ⟨S16384x2x2x2x2x2x2x2, .f32⟩
  | 51 => ⟨S16384x2x2x2x2x2x2x2, .f32⟩
  | 52 => ⟨S16384x2x2x2x2x2x2x2, .f32⟩
  | 53 => ⟨S16384x2x2x2x2x2x2x2, .f32⟩
  | 54 => ⟨S16384x2x2x2x2x2x2x2, .f32⟩
  | 55 => ⟨S16384x2x2x2x2x2x2x2, .f32⟩
  | 56 => ⟨S16384x2x2x2x2x2x2x2, .f32⟩
  | 57 => ⟨S16384x2x2x2x2x2x2x2, .f32⟩
  | 58 => ⟨S16384x2x2x2x2x2x2x2, .f32⟩
  | 59 => ⟨S16384x2x2x2x2x2x2x2, .f32⟩
  | 60 => ⟨S16384x2x2x2x2x2x2x2, .f32⟩
  | 61 => ⟨S16384x2x2x1x2x2x2x2x2, .f32⟩
  | 62 => ⟨S16384x2x2x1x2x2x2x2x2, .f32⟩
  | 63 => ⟨S16384x2x2x2x2x2x2x2x2, .f32⟩
  | 64 => ⟨S_, .i32⟩
  | 65 => ⟨S_, .i32⟩
  | 66 => ⟨S_, .i1⟩
  | 67 => ⟨S_, .i32⟩
  | 68 => ⟨S_, .i32⟩
  | 69 => ⟨S_, .i32⟩
  | 70 => ⟨S1, .i32⟩
  | 71 => ⟨S1, .i32⟩
  | 72 => ⟨S1, .i32⟩
  | 73 => ⟨S_, .i32⟩
  | 74 => ⟨S1, .i32⟩
  | 75 => ⟨S1, .i1⟩
  | 76 => ⟨S1, .i1⟩
  | 77 => ⟨S1, .i1⟩
  | 78 => ⟨S_, .i1⟩
  | 79 => ⟨S_, .i1⟩
  | 80 => ⟨S16384x2x2x2x2x2x2x2, .f32⟩
  | 81 => ⟨S16384x2x2x2x2x2x2x2, .i1⟩
  | 82 => ⟨S_, .f32⟩
  | 83 => ⟨S16384x2x2x2x2x2x2x2, .f32⟩
  | 84 => ⟨S16384x2x2x2x2x2x2x2, .f32⟩
  | 85 => ⟨S_, .i32⟩
  | 86 => ⟨S_, .i32⟩
  | 87 => ⟨S_, .i1⟩
  | 88 => ⟨S_, .i32⟩
  | 89 => ⟨S_, .i32⟩
  | 90 => ⟨S_, .i32⟩
  | 91 => ⟨S1, .i32⟩
  | 92 => ⟨S1, .i32⟩
  | 93 => ⟨S1, .i32⟩
  | 94 => ⟨S_, .i32⟩
  | 95 => ⟨S1, .i32⟩
  | 96 => ⟨S1, .i1⟩
  | 97 => ⟨S1, .i1⟩
  | 98 => ⟨S1, .i1⟩
  | 99 => ⟨S_, .i1⟩
  | 100 => ⟨S_, .i1⟩
  | 101 => ⟨S16384x2x2x2x2x2x2x2, .f32⟩
  | 102 => ⟨S16384x2x2x2x2x2x2x2, .i1⟩
  | 103 => ⟨S_, .f32⟩
  | 104 => ⟨S16384x2x2x2x2x2x2x2, .f32⟩
  | 105 => ⟨S16384x2x2x2x2x2x2x2, .f32⟩
  | 106 => ⟨S16384x2x2x2x2x2x2x2, .f32⟩
  | 107 => ⟨S16384x2x1x2x2x2x2x2x2, .f32⟩
  | 108 => ⟨S16384x2x1x2x2x2x2x2x2, .f32⟩
  | 109 => ⟨S16384x2x2x2x2x2x2x2x2, .f32⟩
  | 110 => ⟨S1, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .f32⟩
  | 118 => ⟨S_, .i32⟩
  | 119 => ⟨S_, .i32⟩
  | 120 => ⟨S_, .i1⟩
  | 121 => ⟨S_, .i32⟩
  | 122 => ⟨S_, .i32⟩
  | 123 => ⟨S_, .i32⟩
  | 124 => ⟨S1, .i32⟩
  | 125 => ⟨S1, .i32⟩
  | 126 => ⟨S1, .i32⟩
  | 127 => ⟨S_, .i32⟩
  | _ => ⟨S2048x4, .f32⟩

abbrev hbmTy0_2 (i : Nat) : BufTy := match i % 128 with
  | 0 => ⟨S1, .i32⟩
  | 1 => ⟨S1, .i1⟩
  | 2 => ⟨S1, .i1⟩
  | 3 => ⟨S1, .i1⟩
  | 4 => ⟨S_, .i1⟩
  | 5 => ⟨S_, .i1⟩
  | 6 => ⟨S16384x2x2x2x2x2x2x2, .f32⟩
  | 7 => ⟨S16384x2x2x2x2x2x2x2, .i1⟩
  | 8 => ⟨S_, .f32⟩
  | 9 => ⟨S16384x2x2x2x2x2x2x2, .f32⟩
  | 10 => ⟨S16384x2x2x2x2x2x2x2, .f32⟩
  | 11 => ⟨S_, .i32⟩
  | 12 => ⟨S_, .i32⟩
  | 13 => ⟨S_, .i1⟩
  | 14 => ⟨S_, .i32⟩
  | 15 => ⟨S_, .i32⟩
  | 16 => ⟨S_, .i32⟩
  | 17 => ⟨S1, .i32⟩
  | 18 => ⟨S1, .i32⟩
  | 19 => ⟨S1, .i32⟩
  | 20 => ⟨S_, .i32⟩
  | 21 => ⟨S1, .i32⟩
  | 22 => ⟨S1, .i1⟩
  | 23 => ⟨S1, .i1⟩
  | 24 => ⟨S1, .i1⟩
  | 25 => ⟨S_, .i1⟩
  | 26 => ⟨S_, .i1⟩
  | 27 => ⟨S16384x2x2x2x2x2x2x2, .f32⟩
  | 28 => ⟨S16384x2x2x2x2x2x2x2, .i1⟩
  | 29 => ⟨S_, .f32⟩
  | 30 => ⟨S16384x2x2x2x2x2x2x2, .f32⟩
  | 31 => ⟨S16384x2x2x2x2x2x2x2, .f32⟩
  | 32 => ⟨S16384x2x2x2x2x2x2x2, .f32⟩
  | 33 => ⟨S16384x2x2x2x2x2x2x2, .f32⟩
  | 34 => ⟨S16384x2x2x2x2x2x2x2, .f32⟩
  | 35 => ⟨S16384x2x2x2x2x2x2x2, .f32⟩
  | 36 => ⟨S16384x2x2x2x2x2x2x2, .f32⟩
  | 37 => ⟨S16384x2x2x2x2x2x2x2, .f32⟩
  | 38 => ⟨S16384x2x2x2x2x2x2x2, .f32⟩
  | 39 => ⟨S16384x2x2x2x2x2x2x2, .f32⟩
  | 40 => ⟨S16384x2x2x2x2x2x2x2, .f32⟩
  | 41 => ⟨S16384x2x2x2x2x2x2x2, .f32⟩
  | 42 => ⟨S16384x2x2x2x2x2x1x2x2, .f32⟩
  | 43 => ⟨S16384x2x2x2x2x2x1x2x2, .f32⟩
  | 44 => ⟨S16384x2x2x2x2x2x2x2x2, .f32⟩
  | 45 => ⟨S1, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .i32⟩
  | 54 => ⟨S_, .i32⟩
  | 55 => ⟨S_, .i1⟩
  | 56 => ⟨S_, .i32⟩
  | 57 => ⟨S_, .i32⟩
  | 58 => ⟨S_, .i32⟩
  | 59 => ⟨S1, .i32⟩
  | 60 => ⟨S1, .i32⟩
  | 61 => ⟨S1, .i32⟩
  | 62 => ⟨S_, .i32⟩
  | 63 => ⟨S1, .i32⟩
  | 64 => ⟨S1, .i1⟩
  | 65 => ⟨S1, .i1⟩
  | 66 => ⟨S1, .i1⟩
  | 67 => ⟨S_, .i1⟩
  | 68 => ⟨S_, .i1⟩
  | 69 => ⟨S16384x2x2x2x2x2x2x2, .f32⟩
  | 70 => ⟨S16384x2x2x2x2x2x2x2, .i1⟩
  | 71 => ⟨S_, .f32⟩
  | 72 => ⟨S16384x2x2x2x2x2x2x2, .f32⟩
  | 73 => ⟨S16384x2x2x2x2x2x2x2, .f32⟩
  | 74 => ⟨S_, .i32⟩
  | 75 => ⟨S_, .i32⟩
  | 76 => ⟨S_, .i1⟩
  | 77 => ⟨S_, .i32⟩
  | 78 => ⟨S_, .i32⟩
  | 79 => ⟨S_, .i32⟩
  | 80 => ⟨S1, .i32⟩
  | 81 => ⟨S1, .i32⟩
  | 82 => ⟨S1, .i32⟩
  | 83 => ⟨S_, .i32⟩
  | 84 => ⟨S1, .i32⟩
  | 85 => ⟨S1, .i1⟩
  | 86 => ⟨S1, .i1⟩
  | 87 => ⟨S1, .i1⟩
  | 88 => ⟨S_, .i1⟩
  | 89 => ⟨S_, .i1⟩
  | 90 => ⟨S16384x2x2x2x2x2x2x2, .f32⟩
  | 91 => ⟨S16384x2x2x2x2x2x2x2, .i1⟩
  | 92 => ⟨S_, .f32⟩
  | 93 => ⟨S16384x2x2x2x2x2x2x2, .f32⟩
  | 94 => ⟨S16384x2x2x2x2x2x2x2, .f32⟩
  | 95 => ⟨S16384x2x2x2x2x2x2x2, .f32⟩
  | 96 => ⟨S16384x2x2x2x2x2x2x2, .f32⟩
  | 97 => ⟨S16384x2x2x2x2x2x2x2, .f32⟩
  | 98 => ⟨S16384x2x2x2x2x2x2x2, .f32⟩
  | 99 => ⟨S16384x2x2x2x2x2x2x2, .f32⟩
  | 100 => ⟨S16384x2x2x2x2x2x2x2, .f32⟩
  | 101 => ⟨S16384x2x2x2x2x2x2x2, .f32⟩
  | 102 => ⟨S16384x2x2x2x2x2x2x2, .f32⟩
  | 103 => ⟨S16384x2x2x2x2x2x2x2, .f32⟩
  | 104 => ⟨S16384x2x2x2x2x2x2x2, .f32⟩
  | 105 => ⟨S16384x2x2x2x2x2x2x1x2, .f32⟩
  | 106 => ⟨S16384x2x2x2x2x2x2x1x2, .f32⟩
  | 107 => ⟨S16384x2x2x2x2x2x2x2x2, .f32⟩
  | 108 => ⟨S_, .i32⟩
  | 109 => ⟨S_, .i32⟩
  | 110 => ⟨S_, .i1⟩
  | 111 => ⟨S_, .i32⟩
  | 112 => ⟨S_, .i32⟩
  | 113 => ⟨S_, .i32⟩
  | 114 => ⟨S1, .i32⟩
  | 115 => ⟨S1, .i32⟩
  | 116 => ⟨S1, .i32⟩
  | 117 => ⟨S_, .i32⟩
  | 118 => ⟨S1, .i32⟩
  | 119 => ⟨S1, .i1⟩
  | 120 => ⟨S1, .i1⟩
  | 121 => ⟨S1, .i1⟩
  | 122 => ⟨S_, .i1⟩
  | 123 => ⟨S_, .i1⟩
  | 124 => ⟨S16384x2x2x2x2x2x2x2, .f32⟩
  | 125 => ⟨S16384x2x2x2x2x2x2x2, .i1⟩
  | 126 => ⟨S_, .f32⟩
  | 127 => ⟨S16384x2x2x2x2x2x2x2, .f32⟩
  | _ => ⟨S2048x4, .f32⟩

abbrev hbmTy0_3 (i : Nat) : BufTy := match i % 128 with
  | 0 => ⟨S16384x2x2x2x2x2x2x2, .f32⟩
  | 1 => ⟨S_, .i32⟩
  | 2 => ⟨S_, .i32⟩
  | 3 => ⟨S_, .i1⟩
  | 4 => ⟨S_, .i32⟩
  | 5 => ⟨S_, .i32⟩
  | 6 => ⟨S_, .i32⟩
  | 7 => ⟨S1, .i32⟩
  | 8 => ⟨S1, .i32⟩
  | 9 => ⟨S1, .i32⟩
  | 10 => ⟨S_, .i32⟩
  | 11 => ⟨S1, .i32⟩
  | 12 => ⟨S1, .i1⟩
  | 13 => ⟨S1, .i1⟩
  | 14 => ⟨S1, .i1⟩
  | 15 => ⟨S_, .i1⟩
  | 16 => ⟨S_, .i1⟩
  | 17 => ⟨S16384x2x2x2x2x2x2x2, .f32⟩
  | 18 => ⟨S16384x2x2x2x2x2x2x2, .i1⟩
  | 19 => ⟨S_, .f32⟩
  | 20 => ⟨S16384x2x2x2x2x2x2x2, .f32⟩
  | 21 => ⟨S16384x2x2x2x2x2x2x2, .f32⟩
  | 22 => ⟨S16384x2x2x2x2x2x2x2, .f32⟩
  | 23 => ⟨S16384x2x2x2x2x2x2x1x2, .f32⟩
  | 24 => ⟨S16384x2x2x2x2x2x2x1x2, .f32⟩
  | 25 => ⟨S16384x2x2x2x2x2x2x2x2, .f32⟩
  | 26 => ⟨S1, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .i32⟩
  | 35 => ⟨S_, .i32⟩
  | 36 => ⟨S_, .i1⟩
  | 37 => ⟨S_, .i32⟩
  | 38 => ⟨S_, .i32⟩
  | 39 => ⟨S_, .i32⟩
  | 40 => ⟨S1, .i32⟩
  | 41 => ⟨S1, .i32⟩
  | 42 => ⟨S1, .i32⟩
  | 43 => ⟨S_, .i32⟩
  | 44 => ⟨S1, .i32⟩
  | 45 => ⟨S1, .i1⟩
  | 46 => ⟨S1, .i1⟩
  | 47 => ⟨S1, .i1⟩
  | 48 => ⟨S_, .i1⟩
  | 49 => ⟨S_, .i1⟩
  | 50 => ⟨S16384x2x2x2x2x2x2x2, .f32⟩
  | 51 => ⟨S16384x2x2x2x2x2x2x2, .i1⟩
  | 52 => ⟨S_, .f32⟩
  | 53 => ⟨S16384x2x2x2x2x2x2x2, .f32⟩
  | 54 => ⟨S16384x2x2x2x2x2x2x2, .f32⟩
  | 55 => ⟨S_, .i32⟩
  | 56 => ⟨S_, .i32⟩
  | 57 => ⟨S_, .i1⟩
  | 58 => ⟨S_, .i32⟩
  | 59 => ⟨S_, .i32⟩
  | 60 => ⟨S_, .i32⟩
  | 61 => ⟨S1, .i32⟩
  | 62 => ⟨S1, .i32⟩
  | 63 => ⟨S1, .i32⟩
  | 64 => ⟨S_, .i32⟩
  | 65 => ⟨S1, .i32⟩
  | 66 => ⟨S1, .i1⟩
  | 67 => ⟨S1, .i1⟩
  | 68 => ⟨S1, .i1⟩
  | 69 => ⟨S_, .i1⟩
  | 70 => ⟨S_, .i1⟩
  | 71 => ⟨S16384x2x2x2x2x2x2x2, .f32⟩
  | 72 => ⟨S16384x2x2x2x2x2x2x2, .i1⟩
  | 73 => ⟨S_, .f32⟩
  | 74 => ⟨S16384x2x2x2x2x2x2x2, .f32⟩
  | 75 => ⟨S16384x2x2x2x2x2x2x2, .f32⟩
  | 76 => ⟨S16384x2x2x2x2x2x2x2, .f32⟩
  | 77 => ⟨S16384x2x2x2x2x2x2x2, .f32⟩
  | 78 => ⟨S16384x2x2x2x2x2x2x2, .f32⟩
  | 79 => ⟨S16384x2x2x2x2x2x2x2, .f32⟩
  | 80 => ⟨S16384x2x2x2x2x2x2x2, .f32⟩
  | 81 => ⟨S16384x2x2x2x2x2x2x2, .f32⟩
  | 82 => ⟨S16384x2x2x2x2x2x2x2, .f32⟩
  | 83 => ⟨S16384x2x2x2x2x2x2x2, .f32⟩
  | 84 => ⟨S16384x2x2x2x2x2x2x2, .f32⟩
  | 85 => ⟨S16384x2x2x2x2x2x2x2, .f32⟩
  | 86 => ⟨S16384x1x2x2x2x2x2x2x2, .f32⟩
  | 87 => ⟨S16384x1x2x2x2x2x2x2x2, .f32⟩
  | 88 => ⟨S16384x2x2x2x2x2x2x2x2, .f32⟩
  | 89 => ⟨S1, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .i32⟩
  | 98 => ⟨S_, .i32⟩
  | 99 => ⟨S_, .i1⟩
  | 100 => ⟨S_, .i32⟩
  | 101 => ⟨S_, .i32⟩
  | 102 => ⟨S_, .i32⟩
  | 103 => ⟨S1, .i32⟩
  | 104 => ⟨S1, .i32⟩
  | 105 => ⟨S1, .i32⟩
  | 106 => ⟨S_, .i32⟩
  | 107 => ⟨S1, .i32⟩
  | 108 => ⟨S1, .i1⟩
  | 109 => ⟨S1, .i1⟩
  | 110 => ⟨S1, .i1⟩
  | 111 => ⟨S_, .i1⟩
  | 112 => ⟨S_, .i1⟩
  | 113 => ⟨S16384x2x2x2x2x2x2x2, .f32⟩
  | 114 => ⟨S16384x2x2x2x2x2x2x2, .i1⟩
  | 115 => ⟨S_, .f32⟩
  | 116 => ⟨S16384x2x2x2x2x2x2x2, .f32⟩
  | 117 => ⟨S16384x2x2x2x2x2x2x2, .f32⟩
  | 118 => ⟨S_, .i32⟩
  | 119 => ⟨S_, .i32⟩
  | 120 => ⟨S_, .i1⟩
  | 121 => ⟨S_, .i32⟩
  | 122 => ⟨S_, .i32⟩
  | 123 => ⟨S_, .i32⟩
  | 124 => ⟨S1, .i32⟩
  | 125 => ⟨S1, .i32⟩
  | 126 => ⟨S1, .i32⟩
  | 127 => ⟨S_, .i32⟩
  | _ => ⟨S2048x4, .f32⟩

abbrev hbmTy0_4 (i : Nat) : BufTy := match i % 128 with
  | 0 => ⟨S1, .i32⟩
  | 1 => ⟨S1, .i1⟩
  | 2 => ⟨S1, .i1⟩
  | 3 => ⟨S1, .i1⟩
  | 4 => ⟨S_, .i1⟩
  | 5 => ⟨S_, .i1⟩
  | 6 => ⟨S16384x2x2x2x2x2x2x2, .f32⟩
  | 7 => ⟨S16384x2x2x2x2x2x2x2, .i1⟩
  | 8 => ⟨S_, .f32⟩
  | 9 => ⟨S16384x2x2x2x2x2x2x2, .f32⟩
  | 10 => ⟨S16384x2x2x2x2x2x2x2, .f32⟩
  | 11 => ⟨S16384x2x2x2x2x2x2x2, .f32⟩
  | 12 => ⟨S16384x2x2x2x2x2x2x2, .f32⟩
  | 13 => ⟨S16384x2x2x2x2x2x2x2, .f32⟩
  | 14 => ⟨S16384x2x2x2x2x2x2x2, .f32⟩
  | 15 => ⟨S16384x2x2x2x2x2x2x2, .f32⟩
  | 16 => ⟨S16384x2x2x2x2x2x2x2, .f32⟩
  | 17 => ⟨S16384x2x2x2x2x2x2x2, .f32⟩
  | 18 => ⟨S16384x2x2x2x2x2x2x2, .f32⟩
  | 19 => ⟨S16384x2x2x2x2x2x2x2, .f32⟩
  | 20 => ⟨S16384x2x2x2x2x2x2x2, .f32⟩
  | 21 => ⟨S16384x2x1x2x2x2x2x2x2, .f32⟩
  | 22 => ⟨S16384x2x1x2x2x2x2x2x2, .f32⟩
  | 23 => ⟨S16384x2x2x2x2x2x2x2x2, .f32⟩
  | 24 => ⟨S_, .i32⟩
  | 25 => ⟨S_, .i32⟩
  | 26 => ⟨S_, .i1⟩
  | 27 => ⟨S_, .i32⟩
  | 28 => ⟨S_, .i32⟩
  | 29 => ⟨S_, .i32⟩
  | 30 => ⟨S1, .i32⟩
  | 31 => ⟨S1, .i32⟩
  | 32 => ⟨S1, .i32⟩
  | 33 => ⟨S_, .i32⟩
  | 34 => ⟨S1, .i32⟩
  | 35 => ⟨S1, .i1⟩
  | 36 => ⟨S1, .i1⟩
  | 37 => ⟨S1, .i1⟩
  | 38 => ⟨S_, .i1⟩
  | 39 => ⟨S_, .i1⟩
  | 40 => ⟨S16384x2x2x2x2x2x2x2, .f32⟩
  | 41 => ⟨S16384x2x2x2x2x2x2x2, .i1⟩
  | 42 => ⟨S_, .f32⟩
  | 43 => ⟨S16384x2x2x2x2x2x2x2, .f32⟩
  | 44 => ⟨S16384x2x2x2x2x2x2x2, .f32⟩
  | 45 => ⟨S_, .i32⟩
  | 46 => ⟨S_, .i32⟩
  | 47 => ⟨S_, .i1⟩
  | 48 => ⟨S_, .i32⟩
  | 49 => ⟨S_, .i32⟩
  | 50 => ⟨S_, .i32⟩
  | 51 => ⟨S1, .i32⟩
  | 52 => ⟨S1, .i32⟩
  | 53 => ⟨S1, .i32⟩
  | 54 => ⟨S_, .i32⟩
  | 55 => ⟨S1, .i32⟩
  | 56 => ⟨S1, .i1⟩
  | 57 => ⟨S1, .i1⟩
  | 58 => ⟨S1, .i1⟩
  | 59 => ⟨S_, .i1⟩
  | 60 => ⟨S_, .i1⟩
  | 61 => ⟨S16384x2x2x2x2x2x2x2, .f32⟩
  | 62 => ⟨S16384x2x2x2x2x2x2x2, .i1⟩
  | 63 => ⟨S_, .f32⟩
  | 64 => ⟨S16384x2x2x2x2x2x2x2, .f32⟩
  | 65 => ⟨S16384x2x2x2x2x2x2x2, .f32⟩
  | 66 => ⟨S16384x2x2x2x2x2x2x2, .f32⟩
  | 67 => ⟨S16384x1x2x2x2x2x2x2x2, .f32⟩
  | 68 => ⟨S16384x1x2x2x2x2x2x2x2, .f32⟩
  | 69 => ⟨S16384x2x2x2x2x2x2x2x2, .f32⟩
  | 70 => ⟨S1, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .i32⟩
  | 79 => ⟨S_, .i32⟩
  | 80 => ⟨S_, .i1⟩
  | 81 => ⟨S_, .i32⟩
  | 82 => ⟨S_, .i32⟩
  | 83 => ⟨S_, .i32⟩
  | 84 => ⟨S1, .i32⟩
  | 85 => ⟨S1, .i32⟩
  | 86 => ⟨S1, .i32⟩
  | 87 => ⟨S_, .i32⟩
  | 88 => ⟨S1, .i32⟩
  | 89 => ⟨S1, .i1⟩
  | 90 => ⟨S1, .i1⟩
  | 91 => ⟨S1, .i1⟩
  | 92 => ⟨S_, .i1⟩
  | 93 => ⟨S_, .i1⟩
  | 94 => ⟨S16384x2x2x2x2x2x2x2, .f32⟩
  | 95 => ⟨S16384x2x2x2x2x2x2x2, .i1⟩
  | 96 => ⟨S_, .f32⟩
  | 97 => ⟨S16384x2x2x2x2x2x2x2, .f32⟩
  | 98 => ⟨S16384x2x2x2x2x2x2x2, .f32⟩
  | 99 => ⟨S_, .i32⟩
  | 100 => ⟨S_, .i32⟩
  | 101 => ⟨S_, .i1⟩
  | 102 => ⟨S_, .i32⟩
  | 103 => ⟨S_, .i32⟩
  | 104 => ⟨S_, .i32⟩
  | 105 => ⟨S1, .i32⟩
  | 106 => ⟨S1, .i32⟩
  | 107 => ⟨S1, .i32⟩
  | 108 => ⟨S_, .i32⟩
  | 109 => ⟨S1, .i32⟩
  | 110 => ⟨S1, .i1⟩
  | 111 => ⟨S1, .i1⟩
  | 112 => ⟨S1, .i1⟩
  | 113 => ⟨S_, .i1⟩
  | 114 => ⟨S_, .i1⟩
  | 115 => ⟨S16384x2x2x2x2x2x2x2, .f32⟩
  | 116 => ⟨S16384x2x2x2x2x2x2x2, .i1⟩
  | 117 => ⟨S_, .f32⟩
  | 118 => ⟨S16384x2x2x2x2x2x2x2, .f32⟩
  | 119 => ⟨S16384x2x2x2x2x2x2x2, .f32⟩
  | 120 => ⟨S16384x2x2x2x2x2x2x2, .f32⟩
  | 121 => ⟨S16384x2x2x2x2x2x2x2, .f32⟩
  | 122 => ⟨S16384x2x2x2x2x2x2x2, .f32⟩
  | 123 => ⟨S16384x2x2x2x2x2x2x2, .f32⟩
  | 124 => ⟨S16384x2x2x2x2x2x2x2, .f32⟩
  | 125 => ⟨S16384x2x2x2x2x2x2x2, .f32⟩
  | 126 => ⟨S16384x2x2x2x2x2x2x2, .f32⟩
  | 127 => ⟨S16384x2x2x2x2x2x2x2, .f32⟩
  | _ => ⟨S2048x4, .f32⟩

abbrev hbmTy0_5 (i : Nat) : BufTy := match i % 128 with
  | 0 => ⟨S16384x2x2x2x2x2x2x2, .f32⟩
  | 1 => ⟨S16384x2x2x2x2x2x2x2, .f32⟩
  | 2 => ⟨S16384x2x2x1x2x2x2x2x2, .f32⟩
  | 3 => ⟨S16384x2x2x1x2x2x2x2x2, .f32⟩
  | 4 => ⟨S16384x2x2x2x2x2x2x2x2, .f32⟩
  | 5 => ⟨S1, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S_, .i32⟩
  | 14 => ⟨S_, .i32⟩
  | 15 => ⟨S_, .i1⟩
  | 16 => ⟨S_, .i32⟩
  | 17 => ⟨S_, .i32⟩
  | 18 => ⟨S_, .i32⟩
  | 19 => ⟨S1, .i32⟩
  | 20 => ⟨S1, .i32⟩
  | 21 => ⟨S1, .i32⟩
  | 22 => ⟨S_, .i32⟩
  | 23 => ⟨S1, .i32⟩
  | 24 => ⟨S1, .i1⟩
  | 25 => ⟨S1, .i1⟩
  | 26 => ⟨S1, .i1⟩
  | 27 => ⟨S_, .i1⟩
  | 28 => ⟨S_, .i1⟩
  | 29 => ⟨S16384x2x2x2x2x2x2x2, .f32⟩
  | 30 => ⟨S16384x2x2x2x2x2x2x2, .i1⟩
  | 31 => ⟨S_, .f32⟩
  | 32 => ⟨S16384x2x2x2x2x2x2x2, .f32⟩
  | 33 => ⟨S16384x2x2x2x2x2x2x2, .f32⟩
  | 34 => ⟨S_, .i32⟩
  | 35 => ⟨S_, .i32⟩
  | 36 => ⟨S_, .i1⟩
  | 37 => ⟨S_, .i32⟩
  | 38 => ⟨S_, .i32⟩
  | 39 => ⟨S_, .i32⟩
  | 40 => ⟨S1, .i32⟩
  | 41 => ⟨S1, .i32⟩
  | 42 => ⟨S1, .i32⟩
  | 43 => ⟨S_, .i32⟩
  | 44 => ⟨S1, .i32⟩
  | 45 => ⟨S1, .i1⟩
  | 46 => ⟨S1, .i1⟩
  | 47 => ⟨S1, .i1⟩
  | 48 => ⟨S_, .i1⟩
  | 49 => ⟨S_, .i1⟩
  | 50 => ⟨S16384x2x2x2x2x2x2x2, .f32⟩
  | 51 => ⟨S16384x2x2x2x2x2x2x2, .i1⟩
  | 52 => ⟨S_, .f32⟩
  | 53 => ⟨S16384x2x2x2x2x2x2x2, .f32⟩
  | 54 => ⟨S16384x2x2x2x2x2x2x2, .f32⟩
  | 55 => ⟨S16384x2x2x2x2x2x2x2, .f32⟩
  | 56 => ⟨S16384x2x2x2x2x2x2x2, .f32⟩
  | 57 => ⟨S16384x2x2x2x2x2x2x2, .f32⟩
  | 58 => ⟨S16384x2x2x2x2x2x2x2, .f32⟩
  | 59 => ⟨S16384x2x2x2x2x2x2x2, .f32⟩
  | 60 => ⟨S16384x2x2x2x2x2x2x2, .f32⟩
  | 61 => ⟨S16384x2x2x2x2x2x2x2, .f32⟩
  | 62 => ⟨S16384x2x2x2x2x2x2x2, .f32⟩
  | 63 => ⟨S16384x2x2x2x2x2x2x2, .f32⟩
  | 64 => ⟨S16384x2x2x2x2x2x2x2, .f32⟩
  | 65 => ⟨S16384x2x2x2x1x2x2x2x2, .f32⟩
  | 66 => ⟨S16384x2x2x2x1x2x2x2x2, .f32⟩
  | 67 => ⟨S16384x2x2x2x2x2x2x2x2, .f32⟩
  | 68 => ⟨S_, .i32⟩
  | 69 => ⟨S_, .i32⟩
  | 70 => ⟨S_, .i1⟩
  | 71 => ⟨S_, .i32⟩
  | 72 => ⟨S_, .i32⟩
  | 73 => ⟨S_, .i32⟩
  | 74 => ⟨S1, .i32⟩
  | 75 => ⟨S1, .i32⟩
  | 76 => ⟨S1, .i32⟩
  | 77 => ⟨S_, .i32⟩
  | 78 => ⟨S1, .i32⟩
  | 79 => ⟨S1, .i1⟩
  | 80 => ⟨S1, .i1⟩
  | 81 => ⟨S1, .i1⟩
  | 82 => ⟨S_, .i1⟩
  | 83 => ⟨S_, .i1⟩
  | 84 => ⟨S16384x2x2x2x2x2x2x2, .f32⟩
  | 85 => ⟨S16384x2x2x2x2x2x2x2, .i1⟩
  | 86 => ⟨S_, .f32⟩
  | 87 => ⟨S16384x2x2x2x2x2x2x2, .f32⟩
  | 88 => ⟨S16384x2x2x2x2x2x2x2, .f32⟩
  | 89 => ⟨S_, .i32⟩
  | 90 => ⟨S_, .i32⟩
  | 91 => ⟨S_, .i1⟩
  | 92 => ⟨S_, .i32⟩
  | 93 => ⟨S_, .i32⟩
  | 94 => ⟨S_, .i32⟩
  | 95 => ⟨S1, .i32⟩
  | 96 => ⟨S1, .i32⟩
  | 97 => ⟨S1, .i32⟩
  | 98 => ⟨S_, .i32⟩
  | 99 => ⟨S1, .i32⟩
  | 100 => ⟨S1, .i1⟩
  | 101 => ⟨S1, .i1⟩
  | 102 => ⟨S1, .i1⟩
  | 103 => ⟨S_, .i1⟩
  | 104 => ⟨S_, .i1⟩
  | 105 => ⟨S16384x2x2x2x2x2x2x2, .f32⟩
  | 106 => ⟨S16384x2x2x2x2x2x2x2, .i1⟩
  | 107 => ⟨S_, .f32⟩
  | 108 => ⟨S16384x2x2x2x2x2x2x2, .f32⟩
  | 109 => ⟨S16384x2x2x2x2x2x2x2, .f32⟩
  | 110 => ⟨S16384x2x2x2x2x2x2x2, .f32⟩
  | 111 => ⟨S16384x2x2x2x1x2x2x2x2, .f32⟩
  | 112 => ⟨S16384x2x2x2x1x2x2x2x2, .f32⟩
  | 113 => ⟨S16384x2x2x2x2x2x2x2x2, .f32⟩
  | 114 => ⟨S1, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .i32⟩
  | 123 => ⟨S_, .i32⟩
  | 124 => ⟨S_, .i1⟩
  | 125 => ⟨S_, .i32⟩
  | 126 => ⟨S_, .i32⟩
  | 127 => ⟨S_, .i32⟩
  | _ => ⟨S2048x4, .f32⟩

abbrev hbmTy0_6 (i : Nat) : BufTy := match i % 128 with
  | 0 => ⟨S1, .i32⟩
  | 1 => ⟨S1, .i32⟩
  | 2 => ⟨S1, .i32⟩
  | 3 => ⟨S_, .i32⟩
  | 4 => ⟨S1, .i32⟩
  | 5 => ⟨S1, .i1⟩
  | 6 => ⟨S1, .i1⟩
  | 7 => ⟨S1, .i1⟩
  | 8 => ⟨S_, .i1⟩
  | 9 => ⟨S_, .i1⟩
  | 10 => ⟨S16384x2x2x2x2x2x2x2, .f32⟩
  | 11 => ⟨S16384x2x2x2x2x2x2x2, .i1⟩
  | 12 => ⟨S_, .f32⟩
  | 13 => ⟨S16384x2x2x2x2x2x2x2, .f32⟩
  | 14 => ⟨S16384x2x2x2x2x2x2x2, .f32⟩
  | 15 => ⟨S_, .i32⟩
  | 16 => ⟨S_, .i32⟩
  | 17 => ⟨S_, .i1⟩
  | 18 => ⟨S_, .i32⟩
  | 19 => ⟨S_, .i32⟩
  | 20 => ⟨S_, .i32⟩
  | 21 => ⟨S1, .i32⟩
  | 22 => ⟨S1, .i32⟩
  | 23 => ⟨S1, .i32⟩
  | 24 => ⟨S_, .i32⟩
  | 25 => ⟨S1, .i32⟩
  | 26 => ⟨S1, .i1⟩
  | 27 => ⟨S1, .i1⟩
  | 28 => ⟨S1, .i1⟩
  | 29 => ⟨S_, .i1⟩
  | 30 => ⟨S_, .i1⟩
  | 31 => ⟨S16384x2x2x2x2x2x2x2, .f32⟩
  | 32 => ⟨S16384x2x2x2x2x2x2x2, .i1⟩
  | 33 => ⟨S_, .f32⟩
  | 34 => ⟨S16384x2x2x2x2x2x2x2, .f32⟩
  | 35 => ⟨S16384x2x2x2x2x2x2x2, .f32⟩
  | 36 => ⟨S16384x2x2x2x2x2x2x2, .f32⟩
  | 37 => ⟨S16384x2x2x2x2x2x2x2, .f32⟩
  | 38 => ⟨S16384x2x2x2x2x2x2x2, .f32⟩
  | 39 => ⟨S16384x2x2x2x2x2x2x2, .f32⟩
  | 40 => ⟨S16384x2x2x2x2x2x2x2, .f32⟩
  | 41 => ⟨S16384x2x2x2x2x2x2x2, .f32⟩
  | 42 => ⟨S16384x2x2x2x2x2x2x2, .f32⟩
  | 43 => ⟨S16384x2x2x2x2x2x2x2, .f32⟩
  | 44 => ⟨S16384x2x2x2x2x2x2x2, .f32⟩
  | 45 => ⟨S16384x2x2x2x2x2x2x2, .f32⟩
  | 46 => ⟨S16384x2x2x2x2x1x2x2x2, .f32⟩
  | 47 => ⟨S16384x2x2x2x2x1x2x2x2, .f32⟩
  | 48 => ⟨S16384x2x2x2x2x2x2x2x2, .f32⟩
  | 49 => ⟨S1, .f32⟩
  | 50 => ⟨S_, .f32⟩
  | 51 => ⟨S_, .f32⟩
  | 52 => ⟨S_, .f32⟩
  | 53 => ⟨S_, .f32⟩
  | 54 => ⟨S_, .f32⟩
  | 55 => ⟨S_, .f32⟩
  | 56 => ⟨S_, .f32⟩
  | 57 => ⟨S_, .i32⟩
  | 58 => ⟨S_, .i32⟩
  | 59 => ⟨S_, .i1⟩
  | 60 => ⟨S_, .i32⟩
  | 61 => ⟨S_, .i32⟩
  | 62 => ⟨S_, .i32⟩
  | 63 => ⟨S1, .i32⟩
  | 64 => ⟨S1, .i32⟩
  | 65 => ⟨S1, .i32⟩
  | 66 => ⟨S_, .i32⟩
  | 67 => ⟨S1, .i32⟩
  | 68 => ⟨S1, .i1⟩
  | 69 => ⟨S1, .i1⟩
  | 70 => ⟨S1, .i1⟩
  | 71 => ⟨S_, .i1⟩
  | 72 => ⟨S_, .i1⟩
  | 73 => ⟨S16384x2x2x2x2x2x2x2, .f32⟩
  | 74 => ⟨S16384x2x2x2x2x2x2x2, .i1⟩
  | 75 => ⟨S_, .f32⟩
  | 76 => ⟨S16384x2x2x2x2x2x2x2, .f32⟩
  | 77 => ⟨S16384x2x2x2x2x2x2x2, .f32⟩
  | 78 => ⟨S_, .i32⟩
  | 79 => ⟨S_, .i32⟩
  | 80 => ⟨S_, .i1⟩
  | 81 => ⟨S_, .i32⟩
  | 82 => ⟨S_, .i32⟩
  | 83 => ⟨S_, .i32⟩
  | 84 => ⟨S1, .i32⟩
  | 85 => ⟨S1, .i32⟩
  | 86 => ⟨S1, .i32⟩
  | 87 => ⟨S_, .i32⟩
  | 88 => ⟨S1, .i32⟩
  | 89 => ⟨S1, .i1⟩
  | 90 => ⟨S1, .i1⟩
  | 91 => ⟨S1, .i1⟩
  | 92 => ⟨S_, .i1⟩
  | 93 => ⟨S_, .i1⟩
  | 94 => ⟨S16384x2x2x2x2x2x2x2, .f32⟩
  | 95 => ⟨S16384x2x2x2x2x2x2x2, .i1⟩
  | 96 => ⟨S_, .f32⟩
  | 97 => ⟨S16384x2x2x2x2x2x2x2, .f32⟩
  | 98 => ⟨S16384x2x2x2x2x2x2x2, .f32⟩
  | 99 => ⟨S16384x2x2x2x2x2x2x2, .f32⟩
  | 100 => ⟨S16384x2x2x2x2x2x2x2, .f32⟩
  | 101 => ⟨S16384x2x2x2x2x2x2x2, .f32⟩
  | 102 => ⟨S16384x2x2x2x2x2x2x2, .f32⟩
  | 103 => ⟨S16384x2x2x2x2x2x2x2, .f32⟩
  | 104 => ⟨S16384x2x2x2x2x2x2x2, .f32⟩
  | 105 => ⟨S16384x2x2x2x2x2x2x2, .f32⟩
  | 106 => ⟨S16384x2x2x2x2x2x2x2, .f32⟩
  | 107 => ⟨S16384x2x2x2x2x2x2x2, .f32⟩
  | 108 => ⟨S16384x2x2x2x2x2x2x2, .f32⟩
  | 109 => ⟨S16384x2x2x2x2x2x1x2x2, .f32⟩
  | 110 => ⟨S16384x2x2x2x2x2x1x2x2, .f32⟩
  | 111 => ⟨S16384x2x2x2x2x2x2x2x2, .f32⟩
  | 112 => ⟨S_, .i32⟩
  | 113 => ⟨S_, .i32⟩
  | 114 => ⟨S_, .i1⟩
  | 115 => ⟨S_, .i32⟩
  | 116 => ⟨S_, .i32⟩
  | 117 => ⟨S_, .i32⟩
  | 118 => ⟨S1, .i32⟩
  | 119 => ⟨S1, .i32⟩
  | 120 => ⟨S1, .i32⟩
  | 121 => ⟨S_, .i32⟩
  | 122 => ⟨S1, .i32⟩
  | 123 => ⟨S1, .i1⟩
  | 124 => ⟨S1, .i1⟩
  | 125 => ⟨S1, .i1⟩
  | 126 => ⟨S_, .i1⟩
  | 127 => ⟨S_, .i1⟩
  | _ => ⟨S2048x4, .f32⟩

abbrev hbmTy0_7 (i : Nat) : BufTy := match i % 128 with
  | 0 => ⟨S16384x2x2x2x2x2x2x2, .f32⟩
  | 1 => ⟨S16384x2x2x2x2x2x2x2, .i1⟩
  | 2 => ⟨S_, .f32⟩
  | 3 => ⟨S16384x2x2x2x2x2x2x2, .f32⟩
  | 4 => ⟨S16384x2x2x2x2x2x2x2, .f32⟩
  | 5 => ⟨S_, .i32⟩
  | 6 => ⟨S_, .i32⟩
  | 7 => ⟨S_, .i1⟩
  | 8 => ⟨S_, .i32⟩
  | 9 => ⟨S_, .i32⟩
  | 10 => ⟨S_, .i32⟩
  | 11 => ⟨S1, .i32⟩
  | 12 => ⟨S1, .i32⟩
  | 13 => ⟨S1, .i32⟩
  | 14 => ⟨S_, .i32⟩
  | 15 => ⟨S1, .i32⟩
  | 16 => ⟨S1, .i1⟩
  | 17 => ⟨S1, .i1⟩
  | 18 => ⟨S1, .i1⟩
  | 19 => ⟨S_, .i1⟩
  | 20 => ⟨S_, .i1⟩
  | 21 => ⟨S16384x2x2x2x2x2x2x2, .f32⟩
  | 22 => ⟨S16384x2x2x2x2x2x2x2, .i1⟩
  | 23 => ⟨S_, .f32⟩
  | 24 => ⟨S16384x2x2x2x2x2x2x2, .f32⟩
  | 25 => ⟨S16384x2x2x2x2x2x2x2, .f32⟩
  | 26 => ⟨S16384x2x2x2x2x2x2x2, .f32⟩
  | 27 => ⟨S16384x2x2x2x2x1x2x2x2, .f32⟩
  | 28 => ⟨S16384x2x2x2x2x1x2x2x2, .f32⟩
  | 29 => ⟨S16384x2x2x2x2x2x2x2x2, .f32⟩
  | 30 => ⟨S1, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .i32⟩
  | 39 => ⟨S_, .i32⟩
  | 40 => ⟨S_, .i1⟩
  | 41 => ⟨S_, .i32⟩
  | 42 => ⟨S_, .i32⟩
  | 43 => ⟨S_, .i32⟩
  | 44 => ⟨S1, .i32⟩
  | 45 => ⟨S1, .i32⟩
  | 46 => ⟨S1, .i32⟩
  | 47 => ⟨S_, .i32⟩
  | 48 => ⟨S1, .i32⟩
  | 49 => ⟨S1, .i1⟩
  | 50 => ⟨S1, .i1⟩
  | 51 => ⟨S1, .i1⟩
  | 52 => ⟨S_, .i1⟩
  | 53 => ⟨S_, .i1⟩
  | 54 => ⟨S16384x2x2x2x2x2x2x2, .f32⟩
  | 55 => ⟨S16384x2x2x2x2x2x2x2, .i1⟩
  | 56 => ⟨S_, .f32⟩
  | 57 => ⟨S16384x2x2x2x2x2x2x2, .f32⟩
  | 58 => ⟨S16384x2x2x2x2x2x2x2, .f32⟩
  | 59 => ⟨S_, .i32⟩
  | 60 => ⟨S_, .i32⟩
  | 61 => ⟨S_, .i1⟩
  | 62 => ⟨S_, .i32⟩
  | 63 => ⟨S_, .i32⟩
  | 64 => ⟨S_, .i32⟩
  | 65 => ⟨S1, .i32⟩
  | 66 => ⟨S1, .i32⟩
  | 67 => ⟨S1, .i32⟩
  | 68 => ⟨S_, .i32⟩
  | 69 => ⟨S1, .i32⟩
  | 70 => ⟨S1, .i1⟩
  | 71 => ⟨S1, .i1⟩
  | 72 => ⟨S1, .i1⟩
  | 73 => ⟨S_, .i1⟩
  | 74 => ⟨S_, .i1⟩
  | 75 => ⟨S16384x2x2x2x2x2x2x2, .f32⟩
  | 76 => ⟨S16384x2x2x2x2x2x2x2, .i1⟩
  | 77 => ⟨S_, .f32⟩
  | 78 => ⟨S16384x2x2x2x2x2x2x2, .f32⟩
  | 79 => ⟨S16384x2x2x2x2x2x2x2, .f32⟩
  | 80 => ⟨S16384x2x2x2x2x2x2x2, .f32⟩
  | 81 => ⟨S16384x2x2x2x2x2x2x2, .f32⟩
  | 82 => ⟨S16384x2x2x2x2x2x2x2, .f32⟩
  | 83 => ⟨S16384x2x2x2x2x2x2x2, .f32⟩
  | 84 => ⟨S16384x2x2x2x2x2x2x2, .f32⟩
  | 85 => ⟨S16384x2x2x2x2x2x2x2, .f32⟩
  | 86 => ⟨S16384x2x2x2x2x2x2x2, .f32⟩
  | 87 => ⟨S16384x2x2x2x2x2x2x2, .f32⟩
  | 88 => ⟨S16384x2x2x2x2x2x2x2, .f32⟩
  | 89 => ⟨S16384x2x2x2x2x2x2x2, .f32⟩
  | 90 => ⟨S16384x2x2x2x2x2x2x1x2, .f32⟩
  | 91 => ⟨S16384x2x2x2x2x2x2x1x2, .f32⟩
  | 92 => ⟨S16384x2x2x2x2x2x2x2x2, .f32⟩
  | 93 => ⟨S1, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .i32⟩
  | 102 => ⟨S_, .i32⟩
  | 103 => ⟨S_, .i1⟩
  | 104 => ⟨S_, .i32⟩
  | 105 => ⟨S_, .i32⟩
  | 106 => ⟨S_, .i32⟩
  | 107 => ⟨S1, .i32⟩
  | 108 => ⟨S1, .i32⟩
  | 109 => ⟨S1, .i32⟩
  | 110 => ⟨S_, .i32⟩
  | 111 => ⟨S1, .i32⟩
  | 112 => ⟨S1, .i1⟩
  | 113 => ⟨S1, .i1⟩
  | 114 => ⟨S1, .i1⟩
  | 115 => ⟨S_, .i1⟩
  | 116 => ⟨S_, .i1⟩
  | 117 => ⟨S16384x2x2x2x2x2x2x2, .f32⟩
  | 118 => ⟨S16384x2x2x2x2x2x2x2, .i1⟩
  | 119 => ⟨S_, .f32⟩
  | 120 => ⟨S16384x2x2x2x2x2x2x2, .f32⟩
  | 121 => ⟨S16384x2x2x2x2x2x2x2, .f32⟩
  | 122 => ⟨S_, .i32⟩
  | 123 => ⟨S_, .i32⟩
  | 124 => ⟨S_, .i1⟩
  | 125 => ⟨S_, .i32⟩
  | 126 => ⟨S_, .i32⟩
  | 127 => ⟨S_, .i32⟩
  | _ => ⟨S2048x4, .f32⟩

abbrev hbmTy0_8 (i : Nat) : BufTy := match i % 128 with
  | 0 => ⟨S1, .i32⟩
  | 1 => ⟨S1, .i32⟩
  | 2 => ⟨S1, .i32⟩
  | 3 => ⟨S_, .i32⟩
  | 4 => ⟨S1, .i32⟩
  | 5 => ⟨S1, .i1⟩
  | 6 => ⟨S1, .i1⟩
  | 7 => ⟨S1, .i1⟩
  | 8 => ⟨S_, .i1⟩
  | 9 => ⟨S_, .i1⟩
  | 10 => ⟨S16384x2x2x2x2x2x2x2, .f32⟩
  | 11 => ⟨S16384x2x2x2x2x2x2x2, .i1⟩
  | 12 => ⟨S_, .f32⟩
  | 13 => ⟨S16384x2x2x2x2x2x2x2, .f32⟩
  | 14 => ⟨S16384x2x2x2x2x2x2x2, .f32⟩
  | 15 => ⟨S16384x2x2x2x2x2x2x2, .f32⟩
  | 16 => ⟨S16384x2x2x2x2x2x2x2, .f32⟩
  | 17 => ⟨S16384x2x2x2x2x2x2x2, .f32⟩
  | 18 => ⟨S16384x2x2x2x2x2x2x2, .f32⟩
  | 19 => ⟨S16384x2x2x2x2x2x2x2, .f32⟩
  | 20 => ⟨S16384x2x2x2x2x2x2x2, .f32⟩
  | 21 => ⟨S16384x2x2x2x2x2x2x2, .f32⟩
  | 22 => ⟨S16384x2x2x2x2x2x2x2, .f32⟩
  | 23 => ⟨S16384x2x2x2x2x2x2x2, .f32⟩
  | 24 => ⟨S16384x2x2x2x2x2x2x2, .f32⟩
  | 25 => ⟨S16384x2x2x2x2x2x2x2x1, .f32⟩
  | 26 => ⟨S16384x2x2x2x2x2x2x2x1, .f32⟩
  | 27 => ⟨S16384x2x2x2x2x2x2x2x2, .f32⟩
  | 28 => ⟨S_, .i32⟩
  | 29 => ⟨S_, .i32⟩
  | 30 => ⟨S_, .i1⟩
  | 31 => ⟨S_, .i32⟩
  | 32 => ⟨S_, .i32⟩
  | 33 => ⟨S_, .i32⟩
  | 34 => ⟨S1, .i32⟩
  | 35 => ⟨S1, .i32⟩
  | 36 => ⟨S1, .i32⟩
  | 37 => ⟨S_, .i32⟩
  | 38 => ⟨S1, .i32⟩
  | 39 => ⟨S1, .i1⟩
  | 40 => ⟨S1, .i1⟩
  | 41 => ⟨S1, .i1⟩
  | 42 => ⟨S_, .i1⟩
  | 43 => ⟨S_, .i1⟩
  | 44 => ⟨S16384x2x2x2x2x2x2x2, .f32⟩
  | 45 => ⟨S16384x2x2x2x2x2x2x2, .i1⟩
  | 46 => ⟨S_, .f32⟩
  | 47 => ⟨S16384x2x2x2x2x2x2x2, .f32⟩
  | 48 => ⟨S16384x2x2x2x2x2x2x2, .f32⟩
  | 49 => ⟨S_, .i32⟩
  | 50 => ⟨S_, .i32⟩
  | 51 => ⟨S_, .i1⟩
  | 52 => ⟨S_, .i32⟩
  | 53 => ⟨S_, .i32⟩
  | 54 => ⟨S_, .i32⟩
  | 55 => ⟨S1, .i32⟩
  | 56 => ⟨S1, .i32⟩
  | 57 => ⟨S1, .i32⟩
  | 58 => ⟨S_, .i32⟩
  | 59 => ⟨S1, .i32⟩
  | 60 => ⟨S1, .i1⟩
  | 61 => ⟨S1, .i1⟩
  | 62 => ⟨S1, .i1⟩
  | 63 => ⟨S_, .i1⟩
  | 64 => ⟨S_, .i1⟩
  | 65 => ⟨S16384x2x2x2x2x2x2x2, .f32⟩
  | 66 => ⟨S16384x2x2x2x2x2x2x2, .i1⟩
  | 67 => ⟨S_, .f32⟩
  | 68 => ⟨S16384x2x2x2x2x2x2x2, .f32⟩
  | 69 => ⟨S16384x2x2x2x2x2x2x2, .f32⟩
  | 70 => ⟨S16384x2x2x2x2x2x2x2, .f32⟩
  | 71 => ⟨S16384x2x2x2x2x2x2x2x1, .f32⟩
  | 72 => ⟨S16384x2x2x2x2x2x2x2x1, .f32⟩
  | 73 => ⟨S16384x2x2x2x2x2x2x2x2, .f32⟩
  | 74 => ⟨S1, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .i32⟩
  | 83 => ⟨S_, .i32⟩
  | 84 => ⟨S_, .i1⟩
  | 85 => ⟨S_, .i32⟩
  | 86 => ⟨S_, .i32⟩
  | 87 => ⟨S_, .i32⟩
  | 88 => ⟨S1, .i32⟩
  | 89 => ⟨S1, .i32⟩
  | 90 => ⟨S1, .i32⟩
  | 91 => ⟨S_, .i32⟩
  | 92 => ⟨S1, .i32⟩
  | 93 => ⟨S1, .i1⟩
  | 94 => ⟨S1, .i1⟩
  | 95 => ⟨S1, .i1⟩
  | 96 => ⟨S_, .i1⟩
  | 97 => ⟨S_, .i1⟩
  | 98 => ⟨S16384x2x2x2x2x2x2x2, .f32⟩
  | 99 => ⟨S16384x2x2x2x2x2x2x2, .i1⟩
  | 100 => ⟨S_, .f32⟩
  | 101 => ⟨S16384x2x2x2x2x2x2x2, .f32⟩
  | 102 => ⟨S16384x2x2x2x2x2x2x2, .f32⟩
  | 103 => ⟨S_, .i32⟩
  | 104 => ⟨S_, .i32⟩
  | 105 => ⟨S_, .i1⟩
  | 106 => ⟨S_, .i32⟩
  | 107 => ⟨S_, .i32⟩
  | 108 => ⟨S_, .i32⟩
  | 109 => ⟨S1, .i32⟩
  | 110 => ⟨S1, .i32⟩
  | 111 => ⟨S1, .i32⟩
  | 112 => ⟨S_, .i32⟩
  | 113 => ⟨S1, .i32⟩
  | 114 => ⟨S1, .i1⟩
  | 115 => ⟨S1, .i1⟩
  | 116 => ⟨S1, .i1⟩
  | 117 => ⟨S_, .i1⟩
  | 118 => ⟨S_, .i1⟩
  | 119 => ⟨S16384x2x2x2x2x2x2x2, .f32⟩
  | 120 => ⟨S16384x2x2x2x2x2x2x2, .i1⟩
  | 121 => ⟨S_, .f32⟩
  | 122 => ⟨S16384x2x2x2x2x2x2x2, .f32⟩
  | 123 => ⟨S16384x2x2x2x2x2x2x2, .f32⟩
  | 124 => ⟨S16384x2x2x2x2x2x2x2, .f32⟩
  | 125 => ⟨S16384x2x2x2x2x2x2x2, .f32⟩
  | 126 => ⟨S16384x2x2x2x2x2x2x2, .f32⟩
  | 127 => ⟨S16384x2x2x2x2x2x2x2, .f32⟩
  | _ => ⟨S2048x4, .f32⟩

abbrev hbmTy0_9 (i : Nat) : BufTy := match i % 128 with
  | 0 => ⟨S16384x2x2x2x2x2x2x2, .f32⟩
  | 1 => ⟨S16384x2x2x2x2x2x2x2, .f32⟩
  | 2 => ⟨S16384x2x2x2x2x2x2x2, .f32⟩
  | 3 => ⟨S16384x2x2x2x2x2x2x2, .f32⟩
  | 4 => ⟨S16384x2x2x2x2x2x2x2, .f32⟩
  | 5 => ⟨S16384x2x2x2x2x2x2x2, .f32⟩
  | 6 => ⟨S16384x2x2x1x2x2x2x2x2, .f32⟩
  | 7 => ⟨S16384x2x2x1x2x2x2x2x2, .f32⟩
  | 8 => ⟨S16384x2x2x2x2x2x2x2x2, .f32⟩
  | 9 => ⟨S1, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .i32⟩
  | 18 => ⟨S_, .i32⟩
  | 19 => ⟨S_, .i1⟩
  | 20 => ⟨S_, .i32⟩
  | 21 => ⟨S_, .i32⟩
  | 22 => ⟨S_, .i32⟩
  | 23 => ⟨S1, .i32⟩
  | 24 => ⟨S1, .i32⟩
  | 25 => ⟨S1, .i32⟩
  | 26 => ⟨S_, .i32⟩
  | 27 => ⟨S1, .i32⟩
  | 28 => ⟨S1, .i1⟩
  | 29 => ⟨S1, .i1⟩
  | 30 => ⟨S1, .i1⟩
  | 31 => ⟨S_, .i1⟩
  | 32 => ⟨S_, .i1⟩
  | 33 => ⟨S16384x2x2x2x2x2x2x2, .f32⟩
  | 34 => ⟨S16384x2x2x2x2x2x2x2, .i1⟩
  | 35 => ⟨S_, .f32⟩
  | 36 => ⟨S16384x2x2x2x2x2x2x2, .f32⟩
  | 37 => ⟨S16384x2x2x2x2x2x2x2, .f32⟩
  | 38 => ⟨S_, .i32⟩
  | 39 => ⟨S_, .i32⟩
  | 40 => ⟨S_, .i1⟩
  | 41 => ⟨S_, .i32⟩
  | 42 => ⟨S_, .i32⟩
  | 43 => ⟨S_, .i32⟩
  | 44 => ⟨S1, .i32⟩
  | 45 => ⟨S1, .i32⟩
  | 46 => ⟨S1, .i32⟩
  | 47 => ⟨S_, .i32⟩
  | 48 => ⟨S1, .i32⟩
  | 49 => ⟨S1, .i1⟩
  | 50 => ⟨S1, .i1⟩
  | 51 => ⟨S1, .i1⟩
  | 52 => ⟨S_, .i1⟩
  | 53 => ⟨S_, .i1⟩
  | 54 => ⟨S16384x2x2x2x2x2x2x2, .f32⟩
  | 55 => ⟨S16384x2x2x2x2x2x2x2, .i1⟩
  | 56 => ⟨S_, .f32⟩
  | 57 => ⟨S16384x2x2x2x2x2x2x2, .f32⟩
  | 58 => ⟨S16384x2x2x2x2x2x2x2, .f32⟩
  | 59 => ⟨S16384x2x2x2x2x2x2x2, .f32⟩
  | 60 => ⟨S16384x2x2x2x2x2x2x2, .f32⟩
  | 61 => ⟨S16384x2x2x2x2x2x2x2, .f32⟩
  | 62 => ⟨S16384x2x2x2x2x2x2x2, .f32⟩
  | 63 => ⟨S16384x2x2x2x2x2x2x2, .f32⟩
  | 64 => ⟨S16384x2x2x2x2x2x2x2, .f32⟩
  | 65 => ⟨S16384x2x2x2x2x2x2x2, .f32⟩
  | 66 => ⟨S16384x2x2x2x2x2x2x2, .f32⟩
  | 67 => ⟨S16384x2x2x2x2x2x2x2, .f32⟩
  | 68 => ⟨S16384x2x2x2x2x2x2x2, .f32⟩
  | 69 => ⟨S16384x2x2x2x2x2x1x2x2, .f32⟩
  | 70 => ⟨S16384x2x2x2x2x2x1x2x2, .f32⟩
  | 71 => ⟨S16384x2x2x2x2x2x2x2x2, .f32⟩
  | 72 => ⟨S_, .i32⟩
  | 73 => ⟨S_, .i32⟩
  | 74 => ⟨S_, .i1⟩
  | 75 => ⟨S_, .i32⟩
  | 76 => ⟨S_, .i32⟩
  | 77 => ⟨S_, .i32⟩
  | 78 => ⟨S1, .i32⟩
  | 79 => ⟨S1, .i32⟩
  | 80 => ⟨S1, .i32⟩
  | 81 => ⟨S_, .i32⟩
  | 82 => ⟨S1, .i32⟩
  | 83 => ⟨S1, .i1⟩
  | 84 => ⟨S1, .i1⟩
  | 85 => ⟨S1, .i1⟩
  | 86 => ⟨S_, .i1⟩
  | 87 => ⟨S_, .i1⟩
  | 88 => ⟨S16384x2x2x2x2x2x2x2, .f32⟩
  | 89 => ⟨S16384x2x2x2x2x2x2x2, .i1⟩
  | 90 => ⟨S_, .f32⟩
  | 91 => ⟨S16384x2x2x2x2x2x2x2, .f32⟩
  | 92 => ⟨S16384x2x2x2x2x2x2x2, .f32⟩
  | 93 => ⟨S_, .i32⟩
  | 94 => ⟨S_, .i32⟩
  | 95 => ⟨S_, .i1⟩
  | 96 => ⟨S_, .i32⟩
  | 97 => ⟨S_, .i32⟩
  | 98 => ⟨S_, .i32⟩
  | 99 => ⟨S1, .i32⟩
  | 100 => ⟨S1, .i32⟩
  | 101 => ⟨S1, .i32⟩
  | 102 => ⟨S_, .i32⟩
  | 103 => ⟨S1, .i32⟩
  | 104 => ⟨S1, .i1⟩
  | 105 => ⟨S1, .i1⟩
  | 106 => ⟨S1, .i1⟩
  | 107 => ⟨S_, .i1⟩
  | 108 => ⟨S_, .i1⟩
  | 109 => ⟨S16384x2x2x2x2x2x2x2, .f32⟩
  | 110 => ⟨S16384x2x2x2x2x2x2x2, .i1⟩
  | 111 => ⟨S_, .f32⟩
  | 112 => ⟨S16384x2x2x2x2x2x2x2, .f32⟩
  | 113 => ⟨S16384x2x2x2x2x2x2x2, .f32⟩
  | 114 => ⟨S16384x2x2x2x2x2x2x2, .f32⟩
  | 115 => ⟨S16384x2x2x1x2x2x2x2x2, .f32⟩
  | 116 => ⟨S16384x2x2x1x2x2x2x2x2, .f32⟩
  | 117 => ⟨S16384x2x2x2x2x2x2x2x2, .f32⟩
  | 118 => ⟨S1, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .i32⟩
  | 127 => ⟨S_, .i32⟩
  | _ => ⟨S2048x4, .f32⟩

abbrev hbmTy0_10 (i : Nat) : BufTy := match i % 128 with
  | 0 => ⟨S_, .i1⟩
  | 1 => ⟨S_, .i32⟩
  | 2 => ⟨S_, .i32⟩
  | 3 => ⟨S_, .i32⟩
  | 4 => ⟨S1, .i32⟩
  | 5 => ⟨S1, .i32⟩
  | 6 => ⟨S1, .i32⟩
  | 7 => ⟨S_, .i32⟩
  | 8 => ⟨S1, .i32⟩
  | 9 => ⟨S1, .i1⟩
  | 10 => ⟨S1, .i1⟩
  | 11 => ⟨S1, .i1⟩
  | 12 => ⟨S_, .i1⟩
  | 13 => ⟨S_, .i1⟩
  | 14 => ⟨S16384x2x2x2x2x2x2x2, .f32⟩
  | 15 => ⟨S16384x2x2x2x2x2x2x2, .i1⟩
  | 16 => ⟨S_, .f32⟩
  | 17 => ⟨S16384x2x2x2x2x2x2x2, .f32⟩
  | 18 => ⟨S16384x2x2x2x2x2x2x2, .f32⟩
  | 19 => ⟨S_, .i32⟩
  | 20 => ⟨S_, .i32⟩
  | 21 => ⟨S_, .i1⟩
  | 22 => ⟨S_, .i32⟩
  | 23 => ⟨S_, .i32⟩
  | 24 => ⟨S_, .i32⟩
  | 25 => ⟨S1, .i32⟩
  | 26 => ⟨S1, .i32⟩
  | 27 => ⟨S1, .i32⟩
  | 28 => ⟨S_, .i32⟩
  | 29 => ⟨S1, .i32⟩
  | 30 => ⟨S1, .i1⟩
  | 31 => ⟨S1, .i1⟩
  | 32 => ⟨S1, .i1⟩
  | 33 => ⟨S_, .i1⟩
  | 34 => ⟨S_, .i1⟩
  | 35 => ⟨S16384x2x2x2x2x2x2x2, .f32⟩
  | 36 => ⟨S16384x2x2x2x2x2x2x2, .i1⟩
  | 37 => ⟨S_, .f32⟩
  | 38 => ⟨S16384x2x2x2x2x2x2x2, .f32⟩
  | 39 => ⟨S16384x2x2x2x2x2x2x2, .f32⟩
  | 40 => ⟨S16384x2x2x2x2x2x2x2, .f32⟩
  | 41 => ⟨S16384x2x2x2x2x2x2x2, .f32⟩
  | 42 => ⟨S16384x2x2x2x2x2x2x2, .f32⟩
  | 43 => ⟨S16384x2x2x2x2x2x2x2, .f32⟩
  | 44 => ⟨S16384x2x2x2x2x2x2x2, .f32⟩
  | 45 => ⟨S16384x2x2x2x2x2x2x2, .f32⟩
  | 46 => ⟨S16384x2x2x2x2x2x2x2, .f32⟩
  | 47 => ⟨S16384x2x2x2x2x2x2x2, .f32⟩
  | 48 => ⟨S16384x2x2x2x2x2x2x2, .f32⟩
  | 49 => ⟨S16384x2x2x2x2x2x2x2, .f32⟩
  | 50 => ⟨S16384x2x1x2x2x2x2x2x2, .f32⟩
  | 51 => ⟨S16384x2x1x2x2x2x2x2x2, .f32⟩
  | 52 => ⟨S16384x2x2x2x2x2x2x2x2, .f32⟩
  | 53 => ⟨S1, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .i32⟩
  | 62 => ⟨S_, .i32⟩
  | 63 => ⟨S_, .i1⟩
  | 64 => ⟨S_, .i32⟩
  | 65 => ⟨S_, .i32⟩
  | 66 => ⟨S_, .i32⟩
  | 67 => ⟨S1, .i32⟩
  | 68 => ⟨S1, .i32⟩
  | 69 => ⟨S1, .i32⟩
  | 70 => ⟨S_, .i32⟩
  | 71 => ⟨S1, .i32⟩
  | 72 => ⟨S1, .i1⟩
  | 73 => ⟨S1, .i1⟩
  | 74 => ⟨S1, .i1⟩
  | 75 => ⟨S_, .i1⟩
  | 76 => ⟨S_, .i1⟩
  | 77 => ⟨S16384x2x2x2x2x2x2x2, .f32⟩
  | 78 => ⟨S16384x2x2x2x2x2x2x2, .i1⟩
  | 79 => ⟨S_, .f32⟩
  | 80 => ⟨S16384x2x2x2x2x2x2x2, .f32⟩
  | 81 => ⟨S16384x2x2x2x2x2x2x2, .f32⟩
  | 82 => ⟨S_, .i32⟩
  | 83 => ⟨S_, .i32⟩
  | 84 => ⟨S_, .i1⟩
  | 85 => ⟨S_, .i32⟩
  | 86 => ⟨S_, .i32⟩
  | 87 => ⟨S_, .i32⟩
  | 88 => ⟨S1, .i32⟩
  | 89 => ⟨S1, .i32⟩
  | 90 => ⟨S1, .i32⟩
  | 91 => ⟨S_, .i32⟩
  | 92 => ⟨S1, .i32⟩
  | 93 => ⟨S1, .i1⟩
  | 94 => ⟨S1, .i1⟩
  | 95 => ⟨S1, .i1⟩
  | 96 => ⟨S_, .i1⟩
  | 97 => ⟨S_, .i1⟩
  | 98 => ⟨S16384x2x2x2x2x2x2x2, .f32⟩
  | 99 => ⟨S16384x2x2x2x2x2x2x2, .i1⟩
  | 100 => ⟨S_, .f32⟩
  | 101 => ⟨S16384x2x2x2x2x2x2x2, .f32⟩
  | 102 => ⟨S16384x2x2x2x2x2x2x2, .f32⟩
  | 103 => ⟨S16384x2x2x2x2x2x2x2, .f32⟩
  | 104 => ⟨S16384x2x2x2x2x2x2x2, .f32⟩
  | 105 => ⟨S16384x2x2x2x2x2x2x2, .f32⟩
  | 106 => ⟨S16384x2x2x2x2x2x2x2, .f32⟩
  | 107 => ⟨S16384x2x2x2x2x2x2x2, .f32⟩
  | 108 => ⟨S16384x2x2x2x2x2x2x2, .f32⟩
  | 109 => ⟨S16384x2x2x2x2x2x2x2, .f32⟩
  | 110 => ⟨S16384x2x2x2x2x2x2x2, .f32⟩
  | 111 => ⟨S16384x2x2x2x2x2x2x2, .f32⟩
  | 112 => ⟨S16384x2x2x2x2x2x2x2, .f32⟩
  | 113 => ⟨S16384x2x2x1x2x2x2x2x2, .f32⟩
  | 114 => ⟨S16384x2x2x1x2x2x2x2x2, .f32⟩
  | 115 => ⟨S16384x2x2x2x2x2x2x2x2, .f32⟩
  | 116 => ⟨S_, .i32⟩
  | 117 => ⟨S_, .i32⟩
  | 118 => ⟨S_, .i1⟩
  | 119 => ⟨S_, .i32⟩
  | 120 => ⟨S_, .i32⟩
  | 121 => ⟨S_, .i32⟩
  | 122 => ⟨S1, .i32⟩
  | 123 => ⟨S1, .i32⟩
  | 124 => ⟨S1, .i32⟩
  | 125 => ⟨S_, .i32⟩
  | 126 => ⟨S1, .i32⟩
  | 127 => ⟨S1, .i1⟩
  | _ => ⟨S2048x4, .f32⟩

abbrev hbmTy0_11 (i : Nat) : BufTy := match i % 128 with
  | 0 => ⟨S1, .i1⟩
  | 1 => ⟨S1, .i1⟩
  | 2 => ⟨S_, .i1⟩
  | 3 => ⟨S_, .i1⟩
  | 4 => ⟨S16384x2x2x2x2x2x2x2, .f32⟩
  | 5 => ⟨S16384x2x2x2x2x2x2x2, .i1⟩
  | 6 => ⟨S_, .f32⟩
  | 7 => ⟨S16384x2x2x2x2x2x2x2, .f32⟩
  | 8 => ⟨S16384x2x2x2x2x2x2x2, .f32⟩
  | 9 => ⟨S_, .i32⟩
  | 10 => ⟨S_, .i32⟩
  | 11 => ⟨S_, .i1⟩
  | 12 => ⟨S_, .i32⟩
  | 13 => ⟨S_, .i32⟩
  | 14 => ⟨S_, .i32⟩
  | 15 => ⟨S1, .i32⟩
  | 16 => ⟨S1, .i32⟩
  | 17 => ⟨S1, .i32⟩
  | 18 => ⟨S_, .i32⟩
  | 19 => ⟨S1, .i32⟩
  | 20 => ⟨S1, .i1⟩
  | 21 => ⟨S1, .i1⟩
  | 22 => ⟨S1, .i1⟩
  | 23 => ⟨S_, .i1⟩
  | 24 => ⟨S_, .i1⟩
  | 25 => ⟨S16384x2x2x2x2x2x2x2, .f32⟩
  | 26 => ⟨S16384x2x2x2x2x2x2x2, .i1⟩
  | 27 => ⟨S_, .f32⟩
  | 28 => ⟨S16384x2x2x2x2x2x2x2, .f32⟩
  | 29 => ⟨S16384x2x2x2x2x2x2x2, .f32⟩
  | 30 => ⟨S16384x2x2x2x2x2x2x2, .f32⟩
  | 31 => ⟨S16384x2x1x2x2x2x2x2x2, .f32⟩
  | 32 => ⟨S16384x2x1x2x2x2x2x2x2, .f32⟩
  | 33 => ⟨S16384x2x2x2x2x2x2x2x2, .f32⟩
  | 34 => ⟨S1, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .i32⟩
  | 43 => ⟨S_, .i32⟩
  | 44 => ⟨S_, .i1⟩
  | 45 => ⟨S_, .i32⟩
  | 46 => ⟨S_, .i32⟩
  | 47 => ⟨S_, .i32⟩
  | 48 => ⟨S1, .i32⟩
  | 49 => ⟨S1, .i32⟩
  | 50 => ⟨S1, .i32⟩
  | 51 => ⟨S_, .i32⟩
  | 52 => ⟨S1, .i32⟩
  | 53 => ⟨S1, .i1⟩
  | 54 => ⟨S1, .i1⟩
  | 55 => ⟨S1, .i1⟩
  | 56 => ⟨S_, .i1⟩
  | 57 => ⟨S_, .i1⟩
  | 58 => ⟨S16384x2x2x2x2x2x2x2, .f32⟩
  | 59 => ⟨S16384x2x2x2x2x2x2x2, .i1⟩
  | 60 => ⟨S_, .f32⟩
  | 61 => ⟨S16384x2x2x2x2x2x2x2, .f32⟩
  | 62 => ⟨S16384x2x2x2x2x2x2x2, .f32⟩
  | 63 => ⟨S_, .i32⟩
  | 64 => ⟨S_, .i32⟩
  | 65 => ⟨S_, .i1⟩
  | 66 => ⟨S_, .i32⟩
  | 67 => ⟨S_, .i32⟩
  | 68 => ⟨S_, .i32⟩
  | 69 => ⟨S1, .i32⟩
  | 70 => ⟨S1, .i32⟩
  | 71 => ⟨S1, .i32⟩
  | 72 => ⟨S_, .i32⟩
  | 73 => ⟨S1, .i32⟩
  | 74 => ⟨S1, .i1⟩
  | 75 => ⟨S1, .i1⟩
  | 76 => ⟨S1, .i1⟩
  | 77 => ⟨S_, .i1⟩
  | 78 => ⟨S_, .i1⟩
  | 79 => ⟨S16384x2x2x2x2x2x2x2, .f32⟩
  | 80 => ⟨S16384x2x2x2x2x2x2x2, .i1⟩
  | 81 => ⟨S_, .f32⟩
  | 82 => ⟨S16384x2x2x2x2x2x2x2, .f32⟩
  | 83 => ⟨S16384x2x2x2x2x2x2x2, .f32⟩
  | 84 => ⟨S16384x2x2x2x2x2x2x2, .f32⟩
  | 85 => ⟨S16384x2x2x2x2x2x2x2, .f32⟩
  | 86 => ⟨S16384x2x2x2x2x2x2x2, .f32⟩
  | 87 => ⟨S16384x2x2x2x2x2x2x2, .f32⟩
  | 88 => ⟨S16384x2x2x2x2x2x2x2, .f32⟩
  | 89 => ⟨S16384x2x2x2x2x2x2x2, .f32⟩
  | 90 => ⟨S16384x2x2x2x2x2x2x2, .f32⟩
  | 91 => ⟨S16384x2x2x2x2x2x2x2, .f32⟩
  | 92 => ⟨S16384x2x2x2x2x2x2x2, .f32⟩
  | 93 => ⟨S16384x2x2x2x2x2x2x2, .f32⟩
  | 94 => ⟨S16384x2x2x2x2x2x1x2x2, .f32⟩
  | 95 => ⟨S16384x2x2x2x2x2x1x2x2, .f32⟩
  | 96 => ⟨S16384x2x2x2x2x2x2x2x2, .f32⟩
  | 97 => ⟨S1, .f32⟩
  | 98 => ⟨S_, .f32⟩
  | 99 => ⟨S_, .f32⟩
  | 100 => ⟨S_, .f32⟩
  | 101 => ⟨S_, .f32⟩
  | 102 => ⟨S_, .f32⟩
  | 103 => ⟨S_, .f32⟩
  | 104 => ⟨S_, .f32⟩
  | 105 => ⟨S_, .i32⟩
  | 106 => ⟨S_, .i32⟩
  | 107 => ⟨S_, .i1⟩
  | 108 => ⟨S_, .i32⟩
  | 109 => ⟨S_, .i32⟩
  | 110 => ⟨S_, .i32⟩
  | 111 => ⟨S1, .i32⟩
  | 112 => ⟨S1, .i32⟩
  | 113 => ⟨S1, .i32⟩
  | 114 => ⟨S_, .i32⟩
  | 115 => ⟨S1, .i32⟩
  | 116 => ⟨S1, .i1⟩
  | 117 => ⟨S1, .i1⟩
  | 118 => ⟨S1, .i1⟩
  | 119 => ⟨S_, .i1⟩
  | 120 => ⟨S_, .i1⟩
  | 121 => ⟨S16384x2x2x2x2x2x2x2, .f32⟩
  | 122 => ⟨S16384x2x2x2x2x2x2x2, .i1⟩
  | 123 => ⟨S_, .f32⟩
  | 124 => ⟨S16384x2x2x2x2x2x2x2, .f32⟩
  | 125 => ⟨S16384x2x2x2x2x2x2x2, .f32⟩
  | 126 => ⟨S_, .i32⟩
  | 127 => ⟨S_, .i32⟩
  | _ => ⟨S2048x4, .f32⟩

abbrev hbmTy0_12 (i : Nat) : BufTy := match i % 128 with
  | 0 => ⟨S_, .i1⟩
  | 1 => ⟨S_, .i32⟩
  | 2 => ⟨S_, .i32⟩
  | 3 => ⟨S_, .i32⟩
  | 4 => ⟨S1, .i32⟩
  | 5 => ⟨S1, .i32⟩
  | 6 => ⟨S1, .i32⟩
  | 7 => ⟨S_, .i32⟩
  | 8 => ⟨S1, .i32⟩
  | 9 => ⟨S1, .i1⟩
  | 10 => ⟨S1, .i1⟩
  | 11 => ⟨S1, .i1⟩
  | 12 => ⟨S_, .i1⟩
  | 13 => ⟨S_, .i1⟩
  | 14 => ⟨S16384x2x2x2x2x2x2x2, .f32⟩
  | 15 => ⟨S16384x2x2x2x2x2x2x2, .i1⟩
  | 16 => ⟨S_, .f32⟩
  | 17 => ⟨S16384x2x2x2x2x2x2x2, .f32⟩
  | 18 => ⟨S16384x2x2x2x2x2x2x2, .f32⟩
  | 19 => ⟨S16384x2x2x2x2x2x2x2, .f32⟩
  | 20 => ⟨S16384x2x2x2x2x2x2x2, .f32⟩
  | 21 => ⟨S16384x2x2x2x2x2x2x2, .f32⟩
  | 22 => ⟨S16384x2x2x2x2x2x2x2, .f32⟩
  | 23 => ⟨S16384x2x2x2x2x2x2x2, .f32⟩
  | 24 => ⟨S16384x2x2x2x2x2x2x2, .f32⟩
  | 25 => ⟨S16384x2x2x2x2x2x2x2, .f32⟩
  | 26 => ⟨S16384x2x2x2x2x2x2x2, .f32⟩
  | 27 => ⟨S16384x2x2x2x2x2x2x2, .f32⟩
  | 28 => ⟨S16384x2x2x2x2x2x2x2, .f32⟩
  | 29 => ⟨S16384x2x2x2x2x2x2x1x2, .f32⟩
  | 30 => ⟨S16384x2x2x2x2x2x2x1x2, .f32⟩
  | 31 => ⟨S16384x2x2x2x2x2x2x2x2, .f32⟩
  | 32 => ⟨S_, .i32⟩
  | 33 => ⟨S_, .i32⟩
  | 34 => ⟨S_, .i1⟩
  | 35 => ⟨S_, .i32⟩
  | 36 => ⟨S_, .i32⟩
  | 37 => ⟨S_, .i32⟩
  | 38 => ⟨S1, .i32⟩
  | 39 => ⟨S1, .i32⟩
  | 40 => ⟨S1, .i32⟩
  | 41 => ⟨S_, .i32⟩
  | 42 => ⟨S1, .i32⟩
  | 43 => ⟨S1, .i1⟩
  | 44 => ⟨S1, .i1⟩
  | 45 => ⟨S1, .i1⟩
  | 46 => ⟨S_, .i1⟩
  | 47 => ⟨S_, .i1⟩
  | 48 => ⟨S16384x2x2x2x2x2x2x2, .f32⟩
  | 49 => ⟨S16384x2x2x2x2x2x2x2, .i1⟩
  | 50 => ⟨S_, .f32⟩
  | 51 => ⟨S16384x2x2x2x2x2x2x2, .f32⟩
  | 52 => ⟨S16384x2x2x2x2x2x2x2, .f32⟩
  | 53 => ⟨S_, .i32⟩
  | 54 => ⟨S_, .i32⟩
  | 55 => ⟨S_, .i1⟩
  | 56 => ⟨S_, .i32⟩
  | 57 => ⟨S_, .i32⟩
  | 58 => ⟨S_, .i32⟩
  | 59 => ⟨S1, .i32⟩
  | 60 => ⟨S1, .i32⟩
  | 61 => ⟨S1, .i32⟩
  | 62 => ⟨S_, .i32⟩
  | 63 => ⟨S1, .i32⟩
  | 64 => ⟨S1, .i1⟩
  | 65 => ⟨S1, .i1⟩
  | 66 => ⟨S1, .i1⟩
  | 67 => ⟨S_, .i1⟩
  | 68 => ⟨S_, .i1⟩
  | 69 => ⟨S16384x2x2x2x2x2x2x2, .f32⟩
  | 70 => ⟨S16384x2x2x2x2x2x2x2, .i1⟩
  | 71 => ⟨S_, .f32⟩
  | 72 => ⟨S16384x2x2x2x2x2x2x2, .f32⟩
  | 73 => ⟨S16384x2x2x2x2x2x2x2, .f32⟩
  | 74 => ⟨S16384x2x2x2x2x2x2x2, .f32⟩
  | 75 => ⟨S16384x2x2x2x2x2x2x1x2, .f32⟩
  | 76 => ⟨S16384x2x2x2x2x2x2x1x2, .f32⟩
  | 77 => ⟨S16384x2x2x2x2x2x2x2x2, .f32⟩
  | 78 => ⟨S1, .f32⟩
  | 79 => ⟨S_, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .i32⟩
  | 87 => ⟨S_, .i32⟩
  | 88 => ⟨S_, .i1⟩
  | 89 => ⟨S_, .i32⟩
  | 90 => ⟨S_, .i32⟩
  | 91 => ⟨S_, .i32⟩
  | 92 => ⟨S1, .i32⟩
  | 93 => ⟨S1, .i32⟩
  | 94 => ⟨S1, .i32⟩
  | 95 => ⟨S_, .i32⟩
  | 96 => ⟨S1, .i32⟩
  | 97 => ⟨S1, .i1⟩
  | 98 => ⟨S1, .i1⟩
  | 99 => ⟨S1, .i1⟩
  | 100 => ⟨S_, .i1⟩
  | 101 => ⟨S_, .i1⟩
  | 102 => ⟨S16384x2x2x2x2x2x2x2, .f32⟩
  | 103 => ⟨S16384x2x2x2x2x2x2x2, .i1⟩
  | 104 => ⟨S_, .f32⟩
  | 105 => ⟨S16384x2x2x2x2x2x2x2, .f32⟩
  | 106 => ⟨S16384x2x2x2x2x2x2x2, .f32⟩
  | 107 => ⟨S_, .i32⟩
  | 108 => ⟨S_, .i32⟩
  | 109 => ⟨S_, .i1⟩
  | 110 => ⟨S_, .i32⟩
  | 111 => ⟨S_, .i32⟩
  | 112 => ⟨S_, .i32⟩
  | 113 => ⟨S1, .i32⟩
  | 114 => ⟨S1, .i32⟩
  | 115 => ⟨S1, .i32⟩
  | 116 => ⟨S_, .i32⟩
  | 117 => ⟨S1, .i32⟩
  | 118 => ⟨S1, .i1⟩
  | 119 => ⟨S1, .i1⟩
  | 120 => ⟨S1, .i1⟩
  | 121 => ⟨S_, .i1⟩
  | 122 => ⟨S_, .i1⟩
  | 123 => ⟨S16384x2x2x2x2x2x2x2, .f32⟩
  | 124 => ⟨S16384x2x2x2x2x2x2x2, .i1⟩
  | 125 => ⟨S_, .f32⟩
  | 126 => ⟨S16384x2x2x2x2x2x2x2, .f32⟩
  | 127 => ⟨S16384x2x2x2x2x2x2x2, .f32⟩
  | _ => ⟨S2048x4, .f32⟩

abbrev hbmTy0_13 (i : Nat) : BufTy := match i % 128 with
  | 0 => ⟨S16384x2x2x2x2x2x2x2, .f32⟩
  | 1 => ⟨S16384x2x2x2x2x2x2x2, .f32⟩
  | 2 => ⟨S16384x2x2x2x2x2x2x2, .f32⟩
  | 3 => ⟨S16384x2x2x2x2x2x2x2, .f32⟩
  | 4 => ⟨S16384x2x2x2x2x2x2x2, .f32⟩
  | 5 => ⟨S16384x2x2x2x2x2x2x2, .f32⟩
  | 6 => ⟨S16384x2x2x2x2x2x2x2, .f32⟩
  | 7 => ⟨S16384x2x2x2x2x2x2x2, .f32⟩
  | 8 => ⟨S16384x2x2x2x2x2x2x2, .f32⟩
  | 9 => ⟨S16384x2x2x2x2x2x2x2, .f32⟩
  | 10 => ⟨S16384x2x2x1x2x2x2x2x2, .f32⟩
  | 11 => ⟨S16384x2x2x1x2x2x2x2x2, .f32⟩
  | 12 => ⟨S16384x2x2x2x2x2x2x2x2, .f32⟩
  | 13 => ⟨S1, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S_, .i32⟩
  | 22 => ⟨S_, .i32⟩
  | 23 => ⟨S_, .i1⟩
  | 24 => ⟨S_, .i32⟩
  | 25 => ⟨S_, .i32⟩
  | 26 => ⟨S_, .i32⟩
  | 27 => ⟨S1, .i32⟩
  | 28 => ⟨S1, .i32⟩
  | 29 => ⟨S1, .i32⟩
  | 30 => ⟨S_, .i32⟩
  | 31 => ⟨S1, .i32⟩
  | 32 => ⟨S1, .i1⟩
  | 33 => ⟨S1, .i1⟩
  | 34 => ⟨S1, .i1⟩
  | 35 => ⟨S_, .i1⟩
  | 36 => ⟨S_, .i1⟩
  | 37 => ⟨S16384x2x2x2x2x2x2x2, .f32⟩
  | 38 => ⟨S16384x2x2x2x2x2x2x2, .i1⟩
  | 39 => ⟨S_, .f32⟩
  | 40 => ⟨S16384x2x2x2x2x2x2x2, .f32⟩
  | 41 => ⟨S16384x2x2x2x2x2x2x2, .f32⟩
  | 42 => ⟨S_, .i32⟩
  | 43 => ⟨S_, .i32⟩
  | 44 => ⟨S_, .i1⟩
  | 45 => ⟨S_, .i32⟩
  | 46 => ⟨S_, .i32⟩
  | 47 => ⟨S_, .i32⟩
  | 48 => ⟨S1, .i32⟩
  | 49 => ⟨S1, .i32⟩
  | 50 => ⟨S1, .i32⟩
  | 51 => ⟨S_, .i32⟩
  | 52 => ⟨S1, .i32⟩
  | 53 => ⟨S1, .i1⟩
  | 54 => ⟨S1, .i1⟩
  | 55 => ⟨S1, .i1⟩
  | 56 => ⟨S_, .i1⟩
  | 57 => ⟨S_, .i1⟩
  | 58 => ⟨S16384x2x2x2x2x2x2x2, .f32⟩
  | 59 => ⟨S16384x2x2x2x2x2x2x2, .i1⟩
  | 60 => ⟨S_, .f32⟩
  | 61 => ⟨S16384x2x2x2x2x2x2x2, .f32⟩
  | 62 => ⟨S16384x2x2x2x2x2x2x2, .f32⟩
  | 63 => ⟨S16384x2x2x2x2x2x2x2, .f32⟩
  | 64 => ⟨S16384x2x2x2x2x2x2x2, .f32⟩
  | 65 => ⟨S16384x2x2x2x2x2x2x2, .f32⟩
  | 66 => ⟨S16384x2x2x2x2x2x2x2, .f32⟩
  | 67 => ⟨S16384x2x2x2x2x2x2x2, .f32⟩
  | 68 => ⟨S16384x2x2x2x2x2x2x2, .f32⟩
  | 69 => ⟨S16384x2x2x2x2x2x2x2, .f32⟩
  | 70 => ⟨S16384x2x2x2x2x2x2x2, .f32⟩
  | 71 => ⟨S16384x2x2x2x2x2x2x2, .f32⟩
  | 72 => ⟨S16384x2x2x2x2x2x2x2, .f32⟩
  | 73 => ⟨S16384x2x2x2x2x2x1x2x2, .f32⟩
  | 74 => ⟨S16384x2x2x2x2x2x1x2x2, .f32⟩
  | 75 => ⟨S16384x2x2x2x2x2x2x2x2, .f32⟩
  | 76 => ⟨S_, .i32⟩
  | 77 => ⟨S_, .i32⟩
  | 78 => ⟨S_, .i1⟩
  | 79 => ⟨S_, .i32⟩
  | 80 => ⟨S_, .i32⟩
  | 81 => ⟨S_, .i32⟩
  | 82 => ⟨S1, .i32⟩
  | 83 => ⟨S1, .i32⟩
  | 84 => ⟨S1, .i32⟩
  | 85 => ⟨S_, .i32⟩
  | 86 => ⟨S1, .i32⟩
  | 87 => ⟨S1, .i1⟩
  | 88 => ⟨S1, .i1⟩
  | 89 => ⟨S1, .i1⟩
  | 90 => ⟨S_, .i1⟩
  | 91 => ⟨S_, .i1⟩
  | 92 => ⟨S16384x2x2x2x2x2x2x2, .f32⟩
  | 93 => ⟨S16384x2x2x2x2x2x2x2, .i1⟩
  | 94 => ⟨S_, .f32⟩
  | 95 => ⟨S16384x2x2x2x2x2x2x2, .f32⟩
  | 96 => ⟨S16384x2x2x2x2x2x2x2, .f32⟩
  | 97 => ⟨S_, .i32⟩
  | 98 => ⟨S_, .i32⟩
  | 99 => ⟨S_, .i1⟩
  | 100 => ⟨S_, .i32⟩
  | 101 => ⟨S_, .i32⟩
  | 102 => ⟨S_, .i32⟩
  | 103 => ⟨S1, .i32⟩
  | 104 => ⟨S1, .i32⟩
  | 105 => ⟨S1, .i32⟩
  | 106 => ⟨S_, .i32⟩
  | 107 => ⟨S1, .i32⟩
  | 108 => ⟨S1, .i1⟩
  | 109 => ⟨S1, .i1⟩
  | 110 => ⟨S1, .i1⟩
  | 111 => ⟨S_, .i1⟩
  | 112 => ⟨S_, .i1⟩
  | 113 => ⟨S16384x2x2x2x2x2x2x2, .f32⟩
  | 114 => ⟨S16384x2x2x2x2x2x2x2, .i1⟩
  | 115 => ⟨S_, .f32⟩
  | 116 => ⟨S16384x2x2x2x2x2x2x2, .f32⟩
  | 117 => ⟨S16384x2x2x2x2x2x2x2, .f32⟩
  | 118 => ⟨S16384x2x2x2x2x2x2x2, .f32⟩
  | 119 => ⟨S16384x2x2x1x2x2x2x2x2, .f32⟩
  | 120 => ⟨S16384x2x2x1x2x2x2x2x2, .f32⟩
  | 121 => ⟨S16384x2x2x2x2x2x2x2x2, .f32⟩
  | 122 => ⟨S1, .f32⟩
  | 123 => ⟨S_, .f32⟩
  | 124 => ⟨S_, .f32⟩
  | 125 => ⟨S_, .f32⟩
  | 126 => ⟨S_, .f32⟩
  | 127 => ⟨S_, .f32⟩
  | _ => ⟨S2048x4, .f32⟩

abbrev hbmTy0_14 (i : Nat) : BufTy := match i % 128 with
  | 0 => ⟨S_, .f32⟩
  | 1 => ⟨S_, .f32⟩
  | 2 => ⟨S_, .i32⟩
  | 3 => ⟨S_, .i32⟩
  | 4 => ⟨S_, .i1⟩
  | 5 => ⟨S_, .i32⟩
  | 6 => ⟨S_, .i32⟩
  | 7 => ⟨S_, .i32⟩
  | 8 => ⟨S1, .i32⟩
  | 9 => ⟨S1, .i32⟩
  | 10 => ⟨S1, .i32⟩
  | 11 => ⟨S_, .i32⟩
  | 12 => ⟨S1, .i32⟩
  | 13 => ⟨S1, .i1⟩
  | 14 => ⟨S1, .i1⟩
  | 15 => ⟨S1, .i1⟩
  | 16 => ⟨S_, .i1⟩
  | 17 => ⟨S_, .i1⟩
  | 18 => ⟨S16384x2x2x2x2x2x2x2, .f32⟩
  | 19 => ⟨S16384x2x2x2x2x2x2x2, .i1⟩
  | 20 => ⟨S_, .f32⟩
  | 21 => ⟨S16384x2x2x2x2x2x2x2, .f32⟩
  | 22 => ⟨S16384x2x2x2x2x2x2x2, .f32⟩
  | 23 => ⟨S_, .i32⟩
  | 24 => ⟨S_, .i32⟩
  | 25 => ⟨S_, .i1⟩
  | 26 => ⟨S_, .i32⟩
  | 27 => ⟨S_, .i32⟩
  | 28 => ⟨S_, .i32⟩
  | 29 => ⟨S1, .i32⟩
  | 30 => ⟨S1, .i32⟩
  | 31 => ⟨S1, .i32⟩
  | 32 => ⟨S_, .i32⟩
  | 33 => ⟨S1, .i32⟩
  | 34 => ⟨S1, .i1⟩
  | 35 => ⟨S1, .i1⟩
  | 36 => ⟨S1, .i1⟩
  | 37 => ⟨S_, .i1⟩
  | 38 => ⟨S_, .i1⟩
  | 39 => ⟨S16384x2x2x2x2x2x2x2, .f32⟩
  | 40 => ⟨S16384x2x2x2x2x2x2x2, .i1⟩
  | 41 => ⟨S_, .f32⟩
  | 42 => ⟨S16384x2x2x2x2x2x2x2, .f32⟩
  | 43 => ⟨S16384x2x2x2x2x2x2x2, .f32⟩
  | 44 => ⟨S16384x2x2x2x2x2x2x2, .f32⟩
  | 45 => ⟨S16384x2x2x2x2x2x2x2, .f32⟩
  | 46 => ⟨S16384x2x2x2x2x2x2x2, .f32⟩
  | 47 => ⟨S16384x2x2x2x2x2x2x2, .f32⟩
  | 48 => ⟨S16384x2x2x2x2x2x2x2, .f32⟩
  | 49 => ⟨S16384x2x2x2x2x2x2x2, .f32⟩
  | 50 => ⟨S16384x2x2x2x2x2x2x2, .f32⟩
  | 51 => ⟨S16384x2x2x2x2x2x2x2, .f32⟩
  | 52 => ⟨S16384x2x2x2x2x2x2x2, .f32⟩
  | 53 => ⟨S16384x2x2x2x2x2x2x2, .f32⟩
  | 54 => ⟨S16384x2x2x2x2x2x1x2x2, .f32⟩
  | 55 => ⟨S16384x2x2x2x2x2x1x2x2, .f32⟩
  | 56 => ⟨S16384x2x2x2x2x2x2x2x2, .f32⟩
  | 57 => ⟨S16384x2x2x2x2x2x2x2x2, .f32⟩
  | 58 => ⟨S_, .f32⟩
  | 59 => ⟨S16384x2, .f32⟩
  | 60 => ⟨S16384x1, .f32⟩
  | 61 => ⟨S16384, .f32⟩
  | 62 => ⟨S16384x1, .f32⟩
  | 63 => ⟨S16384, .f32⟩
  | 64 => ⟨S16384, .f32⟩
  | 65 => ⟨S_, .f32⟩
  | 66 => ⟨S16384, .f32⟩
  | 67 => ⟨S16384, .f32⟩
  | 68 => ⟨S_, .f32⟩
  | 69 => ⟨S16384, .f32⟩
  | 70 => ⟨S16384, .f32⟩
  | _ => ⟨S2048x4, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | _ => ⟨S2048x4, .f32⟩

abbrev bufTy : (tb : Table) → Fin (tcTables nBuf tb) → BufTy
  | .hbm, ⟨i, _⟩ => hbmTy i
  | _, _ => ⟨S2048x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_v62 : Ref sig .tc := ⟨.hbm, 67, rfl⟩
abbrev main_cst_0 : Ref sig .tc := ⟨.hbm, 68, rfl⟩
abbrev main_v63 : Ref sig .tc := ⟨.hbm, 69, rfl⟩
abbrev main_v64 : Ref sig .tc := ⟨.hbm, 70, rfl⟩
abbrev main_cst_1 : Ref sig .tc := ⟨.hbm, 71, rfl⟩
abbrev main_v65 : Ref sig .tc := ⟨.hbm, 72, rfl⟩
abbrev main_v66 : Ref sig .tc := ⟨.hbm, 73, rfl⟩
abbrev main_c : Ref sig .tc := ⟨.hbm, 74, rfl⟩
abbrev main_call0_c : Ref sig .tc := ⟨.hbm, 75, rfl⟩
abbrev main_call0_v0 : Ref sig .tc := ⟨.hbm, 76, rfl⟩
abbrev main_call0_c_0 : Ref sig .tc := ⟨.hbm, 77, rfl⟩
abbrev main_call0_v1 : Ref sig .tc := ⟨.hbm, 78, rfl⟩
abbrev main_call0_v2 : Ref sig .tc := ⟨.hbm, 79, rfl⟩
abbrev main_call0_v3 : Ref sig .tc := ⟨.hbm, 80, rfl⟩
abbrev main_call0_c_1 : Ref sig .tc := ⟨.hbm, 81, rfl⟩
abbrev main_call0_v4 : Ref sig .tc := ⟨.hbm, 82, rfl⟩
abbrev main_call0_c_2 : Ref sig .tc := ⟨.hbm, 83, rfl⟩
abbrev main_call0_v5 : Ref sig .tc := ⟨.hbm, 84, rfl⟩
abbrev main_call0_v6 : Ref sig .tc := ⟨.hbm, 85, rfl⟩
abbrev main_call0_v7 : Ref sig .tc := ⟨.hbm, 86, rfl⟩
abbrev main_call0_v8 : Ref sig .tc := ⟨.hbm, 87, rfl⟩
abbrev main_call0_c_3 : Ref sig .tc := ⟨.hbm, 88, rfl⟩
abbrev main_call0_v9 : Ref sig .tc := ⟨.hbm, 89, rfl⟩
abbrev main_call0_v10 : Ref sig .tc := ⟨.hbm, 90, rfl⟩
abbrev main_call0_v11 : Ref sig .tc := ⟨.hbm, 91, rfl⟩
abbrev main_call0_cst : Ref sig .tc := ⟨.hbm, 92, rfl⟩
abbrev main_call0_v12 : Ref sig .tc := ⟨.hbm, 93, rfl⟩
abbrev main_v67 : Ref sig .tc := ⟨.hbm, 94, rfl⟩
abbrev main_c_2 : Ref sig .tc := ⟨.hbm, 95, rfl⟩
abbrev main_call1_c : Ref sig .tc := ⟨.hbm, 96, rfl⟩
abbrev main_call1_v0 : Ref sig .tc := ⟨.hbm, 97, rfl⟩
abbrev main_call1_c_0 : Ref sig .tc := ⟨.hbm, 98, rfl⟩
abbrev main_call1_v1 : Ref sig .tc := ⟨.hbm, 99, rfl⟩
abbrev main_call1_v2 : Ref sig .tc := ⟨.hbm, 100, rfl⟩
abbrev main_call1_v3 : Ref sig .tc := ⟨.hbm, 101, rfl⟩
abbrev main_call1_c_1 : Ref sig .tc := ⟨.hbm, 102, rfl⟩
abbrev main_call1_v4 : Ref sig .tc := ⟨.hbm, 103, rfl⟩
abbrev main_call1_c_2 : Ref sig .tc := ⟨.hbm, 104, rfl⟩
abbrev main_call1_v5 : Ref sig .tc := ⟨.hbm, 105, rfl⟩
abbrev main_call1_v6 : Ref sig .tc := ⟨.hbm, 106, rfl⟩
abbrev main_call1_v7 : Ref sig .tc := ⟨.hbm, 107, rfl⟩
abbrev main_call1_v8 : Ref sig .tc := ⟨.hbm, 108, rfl⟩
abbrev main_call1_c_3 : Ref sig .tc := ⟨.hbm, 109, rfl⟩
abbrev main_call1_v9 : Ref sig .tc := ⟨.hbm, 110, rfl⟩
abbrev main_call1_v10 : Ref sig .tc := ⟨.hbm, 111, rfl⟩
abbrev main_call1_v11 : Ref sig .tc := ⟨.hbm, 112, rfl⟩
abbrev main_call1_cst : Ref sig .tc := ⟨.hbm, 113, rfl⟩
abbrev main_call1_v12 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_cst_3 : Ref sig .tc := ⟨.hbm, 131, rfl⟩
abbrev main_v84 : Ref sig .tc := ⟨.hbm, 132, rfl⟩
abbrev main_v85 : Ref sig .tc := ⟨.hbm, 133, rfl⟩
abbrev main_cst_4 : Ref sig .tc := ⟨.hbm, 134, rfl⟩
abbrev main_v86 : Ref sig .tc := ⟨.hbm, 135, rfl⟩
abbrev main_v87 : Ref sig .tc := ⟨.hbm, 136, rfl⟩
abbrev main_c_5 : Ref sig .tc := ⟨.hbm, 137, rfl⟩
abbrev main_call2_c : Ref sig .tc := ⟨.hbm, 138, rfl⟩
abbrev main_call2_v0 : Ref sig .tc := ⟨.hbm, 139, rfl⟩
abbrev main_call2_c_0 : Ref sig .tc := ⟨.hbm, 140, rfl⟩
abbrev main_call2_v1 : Ref sig .tc := ⟨.hbm, 141, rfl⟩
abbrev main_call2_v2 : Ref sig .tc := ⟨.hbm, 142, rfl⟩
abbrev main_call2_v3 : Ref sig .tc := ⟨.hbm, 143, rfl⟩
abbrev main_call2_c_1 : Ref sig .tc := ⟨.hbm, 144, rfl⟩
abbrev main_call2_v4 : Ref sig .tc := ⟨.hbm, 145, rfl⟩
abbrev main_call2_c_2 : Ref sig .tc := ⟨.hbm, 146, rfl⟩
abbrev main_call2_v5 : Ref sig .tc := ⟨.hbm, 147, rfl⟩
abbrev main_call2_v6 : Ref sig .tc := ⟨.hbm, 148, rfl⟩
abbrev main_call2_v7 : Ref sig .tc := ⟨.hbm, 149, rfl⟩
abbrev main_call2_v8 : Ref sig .tc := ⟨.hbm, 150, rfl⟩
abbrev main_call2_c_3 : Ref sig .tc := ⟨.hbm, 151, rfl⟩
abbrev main_call2_v9 : Ref sig .tc := ⟨.hbm, 152, rfl⟩
abbrev main_call2_v10 : Ref sig .tc := ⟨.hbm, 153, rfl⟩
abbrev main_call2_v11 : Ref sig .tc := ⟨.hbm, 154, rfl⟩
abbrev main_call2_cst : Ref sig .tc := ⟨.hbm, 155, rfl⟩
abbrev main_call2_v12 : Ref sig .tc := ⟨.hbm, 156, rfl⟩
abbrev main_v88 : Ref sig .tc := ⟨.hbm, 157, rfl⟩
abbrev main_c_6 : Ref sig .tc := ⟨.hbm, 158, rfl⟩
abbrev main_call3_c : Ref sig .tc := ⟨.hbm, 159, rfl⟩
abbrev main_call3_v0 : Ref sig .tc := ⟨.hbm, 160, rfl⟩
abbrev main_call3_c_0 : Ref sig .tc := ⟨.hbm, 161, rfl⟩
abbrev main_call3_v1 : Ref sig .tc := ⟨.hbm, 162, rfl⟩
abbrev main_call3_v2 : Ref sig .tc := ⟨.hbm, 163, rfl⟩
abbrev main_call3_v3 : Ref sig .tc := ⟨.hbm, 164, rfl⟩
abbrev main_call3_c_1 : Ref sig .tc := ⟨.hbm, 165, rfl⟩
abbrev main_call3_v4 : Ref sig .tc := ⟨.hbm, 166, rfl⟩
abbrev main_call3_c_2 : Ref sig .tc := ⟨.hbm, 167, rfl⟩
abbrev main_call3_v5 : Ref sig .tc := ⟨.hbm, 168, rfl⟩
abbrev main_call3_v6 : Ref sig .tc := ⟨.hbm, 169, rfl⟩
abbrev main_call3_v7 : Ref sig .tc := ⟨.hbm, 170, rfl⟩
abbrev main_call3_v8 : Ref sig .tc := ⟨.hbm, 171, rfl⟩
abbrev main_call3_c_3 : Ref sig .tc := ⟨.hbm, 172, rfl⟩
abbrev main_call3_v9 : Ref sig .tc := ⟨.hbm, 173, rfl⟩
abbrev main_call3_v10 : Ref sig .tc := ⟨.hbm, 174, rfl⟩
abbrev main_call3_v11 : Ref sig .tc := ⟨.hbm, 175, rfl⟩
abbrev main_call3_cst : Ref sig .tc := ⟨.hbm, 176, rfl⟩
abbrev main_call3_v12 : Ref sig .tc := ⟨.hbm, 177, rfl⟩
abbrev main_v89 : Ref sig .tc := ⟨.hbm, 178, rfl⟩
abbrev main_v90 : Ref sig .tc := ⟨.hbm, 179, rfl⟩
abbrev main_v91 : Ref sig .tc := ⟨.hbm, 180, rfl⟩
abbrev main_v92 : Ref sig .tc := ⟨.hbm, 181, rfl⟩
abbrev main_v93 : Ref sig .tc := ⟨.hbm, 182, rfl⟩
abbrev main_v94 : Ref sig .tc := ⟨.hbm, 183, rfl⟩
abbrev main_v95 : Ref sig .tc := ⟨.hbm, 184, rfl⟩
abbrev main_v96 : Ref sig .tc := ⟨.hbm, 185, rfl⟩
abbrev main_v97 : Ref sig .tc := ⟨.hbm, 186, rfl⟩
abbrev main_v98 : Ref sig .tc := ⟨.hbm, 187, rfl⟩
abbrev main_v99 : Ref sig .tc := ⟨.hbm, 188, rfl⟩
abbrev main_v100 : Ref sig .tc := ⟨.hbm, 189, rfl⟩
abbrev main_v101 : Ref sig .tc := ⟨.hbm, 190, rfl⟩
abbrev main_v102 : Ref sig .tc := ⟨.hbm, 191, rfl⟩
abbrev main_c_7 : Ref sig .tc := ⟨.hbm, 192, rfl⟩
abbrev main_call4_c : Ref sig .tc := ⟨.hbm, 193, rfl⟩
abbrev main_call4_v0 : Ref sig .tc := ⟨.hbm, 194, rfl⟩
abbrev main_call4_c_0 : Ref sig .tc := ⟨.hbm, 195, rfl⟩
abbrev main_call4_v1 : Ref sig .tc := ⟨.hbm, 196, rfl⟩
abbrev main_call4_v2 : Ref sig .tc := ⟨.hbm, 197, rfl⟩
abbrev main_call4_v3 : Ref sig .tc := ⟨.hbm, 198, rfl⟩
abbrev main_call4_c_1 : Ref sig .tc := ⟨.hbm, 199, rfl⟩
abbrev main_call4_v4 : Ref sig .tc := ⟨.hbm, 200, rfl⟩
abbrev main_call4_c_2 : Ref sig .tc := ⟨.hbm, 201, rfl⟩
abbrev main_call4_v5 : Ref sig .tc := ⟨.hbm, 202, rfl⟩
abbrev main_call4_v6 : Ref sig .tc := ⟨.hbm, 203, rfl⟩
abbrev main_call4_v7 : Ref sig .tc := ⟨.hbm, 204, rfl⟩
abbrev main_call4_v8 : Ref sig .tc := ⟨.hbm, 205, rfl⟩
abbrev main_call4_c_3 : Ref sig .tc := ⟨.hbm, 206, rfl⟩
abbrev main_call4_v9 : Ref sig .tc := ⟨.hbm, 207, rfl⟩
abbrev main_call4_v10 : Ref sig .tc := ⟨.hbm, 208, rfl⟩
abbrev main_call4_v11 : Ref sig .tc := ⟨.hbm, 209, rfl⟩
abbrev main_call4_cst : Ref sig .tc := ⟨.hbm, 210, rfl⟩
abbrev main_call4_v12 : Ref sig .tc := ⟨.hbm, 211, rfl⟩
abbrev main_v103 : Ref sig .tc := ⟨.hbm, 212, rfl⟩
abbrev main_c_8 : Ref sig .tc := ⟨.hbm, 213, rfl⟩
abbrev main_call5_c : Ref sig .tc := ⟨.hbm, 214, rfl⟩
abbrev main_call5_v0 : Ref sig .tc := ⟨.hbm, 215, rfl⟩
abbrev main_call5_c_0 : Ref sig .tc := ⟨.hbm, 216, rfl⟩
abbrev main_call5_v1 : Ref sig .tc := ⟨.hbm, 217, rfl⟩
abbrev main_call5_v2 : Ref sig .tc := ⟨.hbm, 218, rfl⟩
abbrev main_call5_v3 : Ref sig .tc := ⟨.hbm, 219, rfl⟩
abbrev main_call5_c_1 : Ref sig .tc := ⟨.hbm, 220, rfl⟩
abbrev main_call5_v4 : Ref sig .tc := ⟨.hbm, 221, rfl⟩
abbrev main_call5_c_2 : Ref sig .tc := ⟨.hbm, 222, rfl⟩
abbrev main_call5_v5 : Ref sig .tc := ⟨.hbm, 223, rfl⟩
abbrev main_call5_v6 : Ref sig .tc := ⟨.hbm, 224, rfl⟩
abbrev main_call5_v7 : Ref sig .tc := ⟨.hbm, 225, rfl⟩
abbrev main_call5_v8 : Ref sig .tc := ⟨.hbm, 226, rfl⟩
abbrev main_call5_c_3 : Ref sig .tc := ⟨.hbm, 227, rfl⟩
abbrev main_call5_v9 : Ref sig .tc := ⟨.hbm, 228, rfl⟩
abbrev main_call5_v10 : Ref sig .tc := ⟨.hbm, 229, rfl⟩
abbrev main_call5_v11 : Ref sig .tc := ⟨.hbm, 230, rfl⟩
abbrev main_call5_cst : Ref sig .tc := ⟨.hbm, 231, rfl⟩
abbrev main_call5_v12 : Ref sig .tc := ⟨.hbm, 232, rfl⟩
abbrev main_v104 : Ref sig .tc := ⟨.hbm, 233, rfl⟩
abbrev main_v105 : Ref sig .tc := ⟨.hbm, 234, rfl⟩
abbrev main_v106 : Ref sig .tc := ⟨.hbm, 235, rfl⟩
abbrev main_v107 : Ref sig .tc := ⟨.hbm, 236, rfl⟩
abbrev main_v108 : Ref sig .tc := ⟨.hbm, 237, rfl⟩
abbrev main_v109 : Ref sig .tc := ⟨.hbm, 238, rfl⟩
abbrev main_v110 : Ref sig .tc := ⟨.hbm, 239, rfl⟩
abbrev main_cst_9 : Ref sig .tc := ⟨.hbm, 240, rfl⟩
abbrev main_v111 : Ref sig .tc := ⟨.hbm, 241, rfl⟩
abbrev main_v112 : Ref sig .tc := ⟨.hbm, 242, rfl⟩
abbrev main_cst_10 : Ref sig .tc := ⟨.hbm, 243, rfl⟩
abbrev main_v113 : Ref sig .tc := ⟨.hbm, 244, rfl⟩
abbrev main_v114 : Ref sig .tc := ⟨.hbm, 245, rfl⟩
abbrev main_c_11 : Ref sig .tc := ⟨.hbm, 246, rfl⟩
abbrev main_call7_c : Ref sig .tc := ⟨.hbm, 247, rfl⟩
abbrev main_call7_v0 : Ref sig .tc := ⟨.hbm, 248, rfl⟩
abbrev main_call7_c_0 : Ref sig .tc := ⟨.hbm, 249, rfl⟩
abbrev main_call7_v1 : Ref sig .tc := ⟨.hbm, 250, rfl⟩
abbrev main_call7_v2 : Ref sig .tc := ⟨.hbm, 251, rfl⟩
abbrev main_call7_v3 : Ref sig .tc := ⟨.hbm, 252, rfl⟩
abbrev main_call7_c_1 : Ref sig .tc := ⟨.hbm, 253, rfl⟩
abbrev main_call7_v4 : Ref sig .tc := ⟨.hbm, 254, rfl⟩
abbrev main_call7_c_2 : Ref sig .tc := ⟨.hbm, 255, rfl⟩
abbrev main_call7_v5 : Ref sig .tc := ⟨.hbm, 256, rfl⟩
abbrev main_call7_v6 : Ref sig .tc := ⟨.hbm, 257, rfl⟩
abbrev main_call7_v7 : Ref sig .tc := ⟨.hbm, 258, rfl⟩
abbrev main_call7_v8 : Ref sig .tc := ⟨.hbm, 259, rfl⟩
abbrev main_call7_c_3 : Ref sig .tc := ⟨.hbm, 260, rfl⟩
abbrev main_call7_v9 : Ref sig .tc := ⟨.hbm, 261, rfl⟩
abbrev main_call7_v10 : Ref sig .tc := ⟨.hbm, 262, rfl⟩
abbrev main_call7_v11 : Ref sig .tc := ⟨.hbm, 263, rfl⟩
abbrev main_call7_cst : Ref sig .tc := ⟨.hbm, 264, rfl⟩
abbrev main_call7_v12 : Ref sig .tc := ⟨.hbm, 265, rfl⟩
abbrev main_v115 : Ref sig .tc := ⟨.hbm, 266, rfl⟩
abbrev main_c_12 : Ref sig .tc := ⟨.hbm, 267, rfl⟩
abbrev main_call8_c : Ref sig .tc := ⟨.hbm, 268, rfl⟩
abbrev main_call8_v0 : Ref sig .tc := ⟨.hbm, 269, rfl⟩
abbrev main_call8_c_0 : Ref sig .tc := ⟨.hbm, 270, rfl⟩
abbrev main_call8_v1 : Ref sig .tc := ⟨.hbm, 271, rfl⟩
abbrev main_call8_v2 : Ref sig .tc := ⟨.hbm, 272, rfl⟩
abbrev main_call8_v3 : Ref sig .tc := ⟨.hbm, 273, rfl⟩
abbrev main_call8_c_1 : Ref sig .tc := ⟨.hbm, 274, rfl⟩
abbrev main_call8_v4 : Ref sig .tc := ⟨.hbm, 275, rfl⟩
abbrev main_call8_c_2 : Ref sig .tc := ⟨.hbm, 276, rfl⟩
abbrev main_call8_v5 : Ref sig .tc := ⟨.hbm, 277, rfl⟩
abbrev main_call8_v6 : Ref sig .tc := ⟨.hbm, 278, rfl⟩
abbrev main_call8_v7 : Ref sig .tc := ⟨.hbm, 279, rfl⟩
abbrev main_call8_v8 : Ref sig .tc := ⟨.hbm, 280, rfl⟩
abbrev main_call8_c_3 : Ref sig .tc := ⟨.hbm, 281, rfl⟩
abbrev main_call8_v9 : Ref sig .tc := ⟨.hbm, 282, rfl⟩
abbrev main_call8_v10 : Ref sig .tc := ⟨.hbm, 283, rfl⟩
abbrev main_call8_v11 : Ref sig .tc := ⟨.hbm, 284, rfl⟩
abbrev main_call8_cst : Ref sig .tc := ⟨.hbm, 285, rfl⟩
abbrev main_call8_v12 : Ref sig .tc := ⟨.hbm, 286, rfl⟩
abbrev main_v116 : Ref sig .tc := ⟨.hbm, 287, rfl⟩
abbrev main_v117 : Ref sig .tc := ⟨.hbm, 288, rfl⟩
abbrev main_v118 : Ref sig .tc := ⟨.hbm, 289, rfl⟩
abbrev main_v119 : Ref sig .tc := ⟨.hbm, 290, rfl⟩
abbrev main_v120 : Ref sig .tc := ⟨.hbm, 291, rfl⟩
abbrev main_v121 : Ref sig .tc := ⟨.hbm, 292, rfl⟩
abbrev main_v122 : Ref sig .tc := ⟨.hbm, 293, rfl⟩
abbrev main_v123 : Ref sig .tc := ⟨.hbm, 294, rfl⟩
abbrev main_v124 : Ref sig .tc := ⟨.hbm, 295, rfl⟩
abbrev main_v125 : Ref sig .tc := ⟨.hbm, 296, rfl⟩
abbrev main_v126 : Ref sig .tc := ⟨.hbm, 297, rfl⟩
abbrev main_v127 : Ref sig .tc := ⟨.hbm, 298, rfl⟩
abbrev main_v128 : Ref sig .tc := ⟨.hbm, 299, rfl⟩
abbrev main_v129 : Ref sig .tc := ⟨.hbm, 300, rfl⟩
abbrev main_v130 : Ref sig .tc := ⟨.hbm, 301, rfl⟩
abbrev main_v131 : Ref sig .tc := ⟨.hbm, 302, rfl⟩
abbrev main_cst_13 : Ref sig .tc := ⟨.hbm, 303, rfl⟩
abbrev main_v132 : Ref sig .tc := ⟨.hbm, 304, rfl⟩
abbrev main_v133 : Ref sig .tc := ⟨.hbm, 305, rfl⟩
abbrev main_cst_14 : Ref sig .tc := ⟨.hbm, 306, rfl⟩
abbrev main_v134 : Ref sig .tc := ⟨.hbm, 307, rfl⟩
abbrev main_v135 : Ref sig .tc := ⟨.hbm, 308, rfl⟩
abbrev main_c_15 : Ref sig .tc := ⟨.hbm, 309, rfl⟩
abbrev main_call9_c : Ref sig .tc := ⟨.hbm, 310, rfl⟩
abbrev main_call9_v0 : Ref sig .tc := ⟨.hbm, 311, rfl⟩
abbrev main_call9_c_0 : Ref sig .tc := ⟨.hbm, 312, rfl⟩
abbrev main_call9_v1 : Ref sig .tc := ⟨.hbm, 313, rfl⟩
abbrev main_call9_v2 : Ref sig .tc := ⟨.hbm, 314, rfl⟩
abbrev main_call9_v3 : Ref sig .tc := ⟨.hbm, 315, rfl⟩
abbrev main_call9_c_1 : Ref sig .tc := ⟨.hbm, 316, rfl⟩
abbrev main_call9_v4 : Ref sig .tc := ⟨.hbm, 317, rfl⟩
abbrev main_call9_c_2 : Ref sig .tc := ⟨.hbm, 318, rfl⟩
abbrev main_call9_v5 : Ref sig .tc := ⟨.hbm, 319, rfl⟩
abbrev main_call9_v6 : Ref sig .tc := ⟨.hbm, 320, rfl⟩
abbrev main_call9_v7 : Ref sig .tc := ⟨.hbm, 321, rfl⟩
abbrev main_call9_v8 : Ref sig .tc := ⟨.hbm, 322, rfl⟩
abbrev main_call9_c_3 : Ref sig .tc := ⟨.hbm, 323, rfl⟩
abbrev main_call9_v9 : Ref sig .tc := ⟨.hbm, 324, rfl⟩
abbrev main_call9_v10 : Ref sig .tc := ⟨.hbm, 325, rfl⟩
abbrev main_call9_v11 : Ref sig .tc := ⟨.hbm, 326, rfl⟩
abbrev main_call9_cst : Ref sig .tc := ⟨.hbm, 327, rfl⟩
abbrev main_call9_v12 : Ref sig .tc := ⟨.hbm, 328, rfl⟩
abbrev main_v136 : Ref sig .tc := ⟨.hbm, 329, rfl⟩
abbrev main_c_16 : Ref sig .tc := ⟨.hbm, 330, rfl⟩
abbrev main_call10_c : Ref sig .tc := ⟨.hbm, 331, rfl⟩
abbrev main_call10_v0 : Ref sig .tc := ⟨.hbm, 332, rfl⟩
abbrev main_call10_c_0 : Ref sig .tc := ⟨.hbm, 333, rfl⟩
abbrev main_call10_v1 : Ref sig .tc := ⟨.hbm, 334, rfl⟩
abbrev main_call10_v2 : Ref sig .tc := ⟨.hbm, 335, rfl⟩
abbrev main_call10_v3 : Ref sig .tc := ⟨.hbm, 336, rfl⟩
abbrev main_call10_c_1 : Ref sig .tc := ⟨.hbm, 337, rfl⟩
abbrev main_call10_v4 : Ref sig .tc := ⟨.hbm, 338, rfl⟩
abbrev main_call10_c_2 : Ref sig .tc := ⟨.hbm, 339, rfl⟩
abbrev main_call10_v5 : Ref sig .tc := ⟨.hbm, 340, rfl⟩
abbrev main_call10_v6 : Ref sig .tc := ⟨.hbm, 341, rfl⟩
abbrev main_call10_v7 : Ref sig .tc := ⟨.hbm, 342, rfl⟩
abbrev main_call10_v8 : Ref sig .tc := ⟨.hbm, 343, rfl⟩
abbrev main_call10_c_3 : Ref sig .tc := ⟨.hbm, 344, rfl⟩
abbrev main_call10_v9 : Ref sig .tc := ⟨.hbm, 345, rfl⟩
abbrev main_call10_v10 : Ref sig .tc := ⟨.hbm, 346, rfl⟩
abbrev main_call10_v11 : Ref sig .tc := ⟨.hbm, 347, rfl⟩
abbrev main_call10_cst : Ref sig .tc := ⟨.hbm, 348, rfl⟩
abbrev main_call10_v12 : Ref sig .tc := ⟨.hbm, 349, rfl⟩
abbrev main_v137 : Ref sig .tc := ⟨.hbm, 350, rfl⟩
abbrev main_v138 : Ref sig .tc := ⟨.hbm, 351, rfl⟩
abbrev main_v139 : Ref sig .tc := ⟨.hbm, 352, rfl⟩
abbrev main_v140 : Ref sig .tc := ⟨.hbm, 353, rfl⟩
abbrev main_v141 : Ref sig .tc := ⟨.hbm, 354, rfl⟩
abbrev main_v142 : Ref sig .tc := ⟨.hbm, 355, rfl⟩
abbrev main_v143 : Ref sig .tc := ⟨.hbm, 356, rfl⟩
abbrev main_v144 : Ref sig .tc := ⟨.hbm, 357, rfl⟩
abbrev main_v145 : Ref sig .tc := ⟨.hbm, 358, rfl⟩
abbrev main_v146 : Ref sig .tc := ⟨.hbm, 359, rfl⟩
abbrev main_v147 : Ref sig .tc := ⟨.hbm, 360, rfl⟩
abbrev main_v148 : Ref sig .tc := ⟨.hbm, 361, rfl⟩
abbrev main_v149 : Ref sig .tc := ⟨.hbm, 362, rfl⟩
abbrev main_v150 : Ref sig .tc := ⟨.hbm, 363, rfl⟩
abbrev main_c_17 : Ref sig .tc := ⟨.hbm, 364, rfl⟩
abbrev main_call11_c : Ref sig .tc := ⟨.hbm, 365, rfl⟩
abbrev main_call11_v0 : Ref sig .tc := ⟨.hbm, 366, rfl⟩
abbrev main_call11_c_0 : Ref sig .tc := ⟨.hbm, 367, rfl⟩
abbrev main_call11_v1 : Ref sig .tc := ⟨.hbm, 368, rfl⟩
abbrev main_call11_v2 : Ref sig .tc := ⟨.hbm, 369, rfl⟩
abbrev main_call11_v3 : Ref sig .tc := ⟨.hbm, 370, rfl⟩
abbrev main_call11_c_1 : Ref sig .tc := ⟨.hbm, 371, rfl⟩
abbrev main_call11_v4 : Ref sig .tc := ⟨.hbm, 372, rfl⟩
abbrev main_call11_c_2 : Ref sig .tc := ⟨.hbm, 373, rfl⟩
abbrev main_call11_v5 : Ref sig .tc := ⟨.hbm, 374, rfl⟩
abbrev main_call11_v6 : Ref sig .tc := ⟨.hbm, 375, rfl⟩
abbrev main_call11_v7 : Ref sig .tc := ⟨.hbm, 376, rfl⟩
abbrev main_call11_v8 : Ref sig .tc := ⟨.hbm, 377, rfl⟩
abbrev main_call11_c_3 : Ref sig .tc := ⟨.hbm, 378, rfl⟩
abbrev main_call11_v9 : Ref sig .tc := ⟨.hbm, 379, rfl⟩
abbrev main_call11_v10 : Ref sig .tc := ⟨.hbm, 380, rfl⟩
abbrev main_call11_v11 : Ref sig .tc := ⟨.hbm, 381, rfl⟩
abbrev main_call11_cst : Ref sig .tc := ⟨.hbm, 382, rfl⟩
abbrev main_call11_v12 : Ref sig .tc := ⟨.hbm, 383, rfl⟩
abbrev main_v151 : Ref sig .tc := ⟨.hbm, 384, rfl⟩
abbrev main_c_18 : Ref sig .tc := ⟨.hbm, 385, rfl⟩
abbrev main_call12_c : Ref sig .tc := ⟨.hbm, 386, rfl⟩
abbrev main_call12_v0 : Ref sig .tc := ⟨.hbm, 387, rfl⟩
abbrev main_call12_c_0 : Ref sig .tc := ⟨.hbm, 388, rfl⟩
abbrev main_call12_v1 : Ref sig .tc := ⟨.hbm, 389, rfl⟩
abbrev main_call12_v2 : Ref sig .tc := ⟨.hbm, 390, rfl⟩
abbrev main_call12_v3 : Ref sig .tc := ⟨.hbm, 391, rfl⟩
abbrev main_call12_c_1 : Ref sig .tc := ⟨.hbm, 392, rfl⟩
abbrev main_call12_v4 : Ref sig .tc := ⟨.hbm, 393, rfl⟩
abbrev main_call12_c_2 : Ref sig .tc := ⟨.hbm, 394, rfl⟩
abbrev main_call12_v5 : Ref sig .tc := ⟨.hbm, 395, rfl⟩
abbrev main_call12_v6 : Ref sig .tc := ⟨.hbm, 396, rfl⟩
abbrev main_call12_v7 : Ref sig .tc := ⟨.hbm, 397, rfl⟩
abbrev main_call12_v8 : Ref sig .tc := ⟨.hbm, 398, rfl⟩
abbrev main_call12_c_3 : Ref sig .tc := ⟨.hbm, 399, rfl⟩
abbrev main_call12_v9 : Ref sig .tc := ⟨.hbm, 400, rfl⟩
abbrev main_call12_v10 : Ref sig .tc := ⟨.hbm, 401, rfl⟩
abbrev main_call12_v11 : Ref sig .tc := ⟨.hbm, 402, rfl⟩
abbrev main_call12_cst : Ref sig .tc := ⟨.hbm, 403, rfl⟩
abbrev main_call12_v12 : Ref sig .tc := ⟨.hbm, 404, rfl⟩
abbrev main_v152 : Ref sig .tc := ⟨.hbm, 405, rfl⟩
abbrev main_v153 : Ref sig .tc := ⟨.hbm, 406, rfl⟩
abbrev main_v154 : Ref sig .tc := ⟨.hbm, 407, rfl⟩
abbrev main_v155 : Ref sig .tc := ⟨.hbm, 408, rfl⟩
abbrev main_v156 : Ref sig .tc := ⟨.hbm, 409, rfl⟩
abbrev main_v157 : Ref sig .tc := ⟨.hbm, 410, rfl⟩
abbrev main_v158 : Ref sig .tc := ⟨.hbm, 411, rfl⟩
abbrev main_cst_19 : Ref sig .tc := ⟨.hbm, 412, rfl⟩
abbrev main_v159 : Ref sig .tc := ⟨.hbm, 413, rfl⟩
abbrev main_v160 : Ref sig .tc := ⟨.hbm, 414, rfl⟩
abbrev main_cst_20 : Ref sig .tc := ⟨.hbm, 415, rfl⟩
abbrev main_v161 : Ref sig .tc := ⟨.hbm, 416, rfl⟩
abbrev main_v162 : Ref sig .tc := ⟨.hbm, 417, rfl⟩
abbrev main_c_21 : Ref sig .tc := ⟨.hbm, 418, rfl⟩
abbrev main_call14_c : Ref sig .tc := ⟨.hbm, 419, rfl⟩
abbrev main_call14_v0 : Ref sig .tc := ⟨.hbm, 420, rfl⟩
abbrev main_call14_c_0 : Ref sig .tc := ⟨.hbm, 421, rfl⟩
abbrev main_call14_v1 : Ref sig .tc := ⟨.hbm, 422, rfl⟩
abbrev main_call14_v2 : Ref sig .tc := ⟨.hbm, 423, rfl⟩
abbrev main_call14_v3 : Ref sig .tc := ⟨.hbm, 424, rfl⟩
abbrev main_call14_c_1 : Ref sig .tc := ⟨.hbm, 425, rfl⟩
abbrev main_call14_v4 : Ref sig .tc := ⟨.hbm, 426, rfl⟩
abbrev main_call14_c_2 : Ref sig .tc := ⟨.hbm, 427, rfl⟩
abbrev main_call14_v5 : Ref sig .tc := ⟨.hbm, 428, rfl⟩
abbrev main_call14_v6 : Ref sig .tc := ⟨.hbm, 429, rfl⟩
abbrev main_call14_v7 : Ref sig .tc := ⟨.hbm, 430, rfl⟩
abbrev main_call14_v8 : Ref sig .tc := ⟨.hbm, 431, rfl⟩
abbrev main_call14_c_3 : Ref sig .tc := ⟨.hbm, 432, rfl⟩
abbrev main_call14_v9 : Ref sig .tc := ⟨.hbm, 433, rfl⟩
abbrev main_call14_v10 : Ref sig .tc := ⟨.hbm, 434, rfl⟩
abbrev main_call14_v11 : Ref sig .tc := ⟨.hbm, 435, rfl⟩
abbrev main_call14_cst : Ref sig .tc := ⟨.hbm, 436, rfl⟩
abbrev main_call14_v12 : Ref sig .tc := ⟨.hbm, 437, rfl⟩
abbrev main_v163 : Ref sig .tc := ⟨.hbm, 438, rfl⟩
abbrev main_c_22 : Ref sig .tc := ⟨.hbm, 439, rfl⟩
abbrev main_call15_c : Ref sig .tc := ⟨.hbm, 440, rfl⟩
abbrev main_call15_v0 : Ref sig .tc := ⟨.hbm, 441, rfl⟩
abbrev main_call15_c_0 : Ref sig .tc := ⟨.hbm, 442, rfl⟩
abbrev main_call15_v1 : Ref sig .tc := ⟨.hbm, 443, rfl⟩
abbrev main_call15_v2 : Ref sig .tc := ⟨.hbm, 444, rfl⟩
abbrev main_call15_v3 : Ref sig .tc := ⟨.hbm, 445, rfl⟩
abbrev main_call15_c_1 : Ref sig .tc := ⟨.hbm, 446, rfl⟩
abbrev main_call15_v4 : Ref sig .tc := ⟨.hbm, 447, rfl⟩
abbrev main_call15_c_2 : Ref sig .tc := ⟨.hbm, 448, rfl⟩
abbrev main_call15_v5 : Ref sig .tc := ⟨.hbm, 449, rfl⟩
abbrev main_call15_v6 : Ref sig .tc := ⟨.hbm, 450, rfl⟩
abbrev main_call15_v7 : Ref sig .tc := ⟨.hbm, 451, rfl⟩
abbrev main_call15_v8 : Ref sig .tc := ⟨.hbm, 452, rfl⟩
abbrev main_call15_c_3 : Ref sig .tc := ⟨.hbm, 453, rfl⟩
abbrev main_call15_v9 : Ref sig .tc := ⟨.hbm, 454, rfl⟩
abbrev main_call15_v10 : Ref sig .tc := ⟨.hbm, 455, rfl⟩
abbrev main_call15_v11 : Ref sig .tc := ⟨.hbm, 456, rfl⟩
abbrev main_call15_cst : Ref sig .tc := ⟨.hbm, 457, rfl⟩
abbrev main_call15_v12 : Ref sig .tc := ⟨.hbm, 458, rfl⟩
abbrev main_v164 : Ref sig .tc := ⟨.hbm, 459, rfl⟩
abbrev main_v165 : Ref sig .tc := ⟨.hbm, 460, rfl⟩
abbrev main_v166 : Ref sig .tc := ⟨.hbm, 461, rfl⟩
abbrev main_v167 : Ref sig .tc := ⟨.hbm, 462, rfl⟩
abbrev main_v168 : Ref sig .tc := ⟨.hbm, 463, rfl⟩
abbrev main_v169 : Ref sig .tc := ⟨.hbm, 464, rfl⟩
abbrev main_v170 : Ref sig .tc := ⟨.hbm, 465, rfl⟩
abbrev main_v171 : Ref sig .tc := ⟨.hbm, 466, rfl⟩
abbrev main_v172 : Ref sig .tc := ⟨.hbm, 467, rfl⟩
abbrev main_v173 : Ref sig .tc := ⟨.hbm, 468, rfl⟩
abbrev main_v174 : Ref sig .tc := ⟨.hbm, 469, rfl⟩
abbrev main_v175 : Ref sig .tc := ⟨.hbm, 470, rfl⟩
abbrev main_v176 : Ref sig .tc := ⟨.hbm, 471, rfl⟩
abbrev main_v177 : Ref sig .tc := ⟨.hbm, 472, rfl⟩
abbrev main_v178 : Ref sig .tc := ⟨.hbm, 473, rfl⟩
abbrev main_v179 : Ref sig .tc := ⟨.hbm, 474, rfl⟩
abbrev main_cst_23 : Ref sig .tc := ⟨.hbm, 475, rfl⟩
abbrev main_v180 : Ref sig .tc := ⟨.hbm, 476, rfl⟩
abbrev main_v181 : Ref sig .tc := ⟨.hbm, 477, rfl⟩
abbrev main_cst_24 : Ref sig .tc := ⟨.hbm, 478, rfl⟩
abbrev main_v182 : Ref sig .tc := ⟨.hbm, 479, rfl⟩
abbrev main_v183 : Ref sig .tc := ⟨.hbm, 480, rfl⟩
abbrev main_c_25 : Ref sig .tc := ⟨.hbm, 481, rfl⟩
abbrev main_call16_c : Ref sig .tc := ⟨.hbm, 482, rfl⟩
abbrev main_call16_v0 : Ref sig .tc := ⟨.hbm, 483, rfl⟩
abbrev main_call16_c_0 : Ref sig .tc := ⟨.hbm, 484, rfl⟩
abbrev main_call16_v1 : Ref sig .tc := ⟨.hbm, 485, rfl⟩
abbrev main_call16_v2 : Ref sig .tc := ⟨.hbm, 486, rfl⟩
abbrev main_call16_v3 : Ref sig .tc := ⟨.hbm, 487, rfl⟩
abbrev main_call16_c_1 : Ref sig .tc := ⟨.hbm, 488, rfl⟩
abbrev main_call16_v4 : Ref sig .tc := ⟨.hbm, 489, rfl⟩
abbrev main_call16_c_2 : Ref sig .tc := ⟨.hbm, 490, rfl⟩
abbrev main_call16_v5 : Ref sig .tc := ⟨.hbm, 491, rfl⟩
abbrev main_call16_v6 : Ref sig .tc := ⟨.hbm, 492, rfl⟩
abbrev main_call16_v7 : Ref sig .tc := ⟨.hbm, 493, rfl⟩
abbrev main_call16_v8 : Ref sig .tc := ⟨.hbm, 494, rfl⟩
abbrev main_call16_c_3 : Ref sig .tc := ⟨.hbm, 495, rfl⟩
abbrev main_call16_v9 : Ref sig .tc := ⟨.hbm, 496, rfl⟩
abbrev main_call16_v10 : Ref sig .tc := ⟨.hbm, 497, rfl⟩
abbrev main_call16_v11 : Ref sig .tc := ⟨.hbm, 498, rfl⟩
abbrev main_call16_cst : Ref sig .tc := ⟨.hbm, 499, rfl⟩
abbrev main_call16_v12 : Ref sig .tc := ⟨.hbm, 500, rfl⟩
abbrev main_v184 : Ref sig .tc := ⟨.hbm, 501, rfl⟩
abbrev main_c_26 : Ref sig .tc := ⟨.hbm, 502, rfl⟩
abbrev main_call17_c : Ref sig .tc := ⟨.hbm, 503, rfl⟩
abbrev main_call17_v0 : Ref sig .tc := ⟨.hbm, 504, rfl⟩
abbrev main_call17_c_0 : Ref sig .tc := ⟨.hbm, 505, rfl⟩
abbrev main_call17_v1 : Ref sig .tc := ⟨.hbm, 506, rfl⟩
abbrev main_call17_v2 : Ref sig .tc := ⟨.hbm, 507, rfl⟩
abbrev main_call17_v3 : Ref sig .tc := ⟨.hbm, 508, rfl⟩
abbrev main_call17_c_1 : Ref sig .tc := ⟨.hbm, 509, rfl⟩
abbrev main_call17_v4 : Ref sig .tc := ⟨.hbm, 510, rfl⟩
abbrev main_call17_c_2 : Ref sig .tc := ⟨.hbm, 511, rfl⟩
abbrev main_call17_v5 : Ref sig .tc := ⟨.hbm, 512, rfl⟩
abbrev main_call17_v6 : Ref sig .tc := ⟨.hbm, 513, rfl⟩
abbrev main_call17_v7 : Ref sig .tc := ⟨.hbm, 514, rfl⟩
abbrev main_call17_v8 : Ref sig .tc := ⟨.hbm, 515, rfl⟩
abbrev main_call17_c_3 : Ref sig .tc := ⟨.hbm, 516, rfl⟩
abbrev main_call17_v9 : Ref sig .tc := ⟨.hbm, 517, rfl⟩
abbrev main_call17_v10 : Ref sig .tc := ⟨.hbm, 518, rfl⟩
abbrev main_call17_v11 : Ref sig .tc := ⟨.hbm, 519, rfl⟩
abbrev main_call17_cst : Ref sig .tc := ⟨.hbm, 520, rfl⟩
abbrev main_call17_v12 : Ref sig .tc := ⟨.hbm, 521, rfl⟩
abbrev main_v185 : Ref sig .tc := ⟨.hbm, 522, rfl⟩
abbrev main_v186 : Ref sig .tc := ⟨.hbm, 523, rfl⟩
abbrev main_v187 : Ref sig .tc := ⟨.hbm, 524, rfl⟩
abbrev main_v188 : Ref sig .tc := ⟨.hbm, 525, rfl⟩
abbrev main_v189 : Ref sig .tc := ⟨.hbm, 526, rfl⟩
abbrev main_v190 : Ref sig .tc := ⟨.hbm, 527, rfl⟩
abbrev main_v191 : Ref sig .tc := ⟨.hbm, 528, rfl⟩
abbrev main_v192 : Ref sig .tc := ⟨.hbm, 529, rfl⟩
abbrev main_v193 : Ref sig .tc := ⟨.hbm, 530, rfl⟩
abbrev main_v194 : Ref sig .tc := ⟨.hbm, 531, rfl⟩
abbrev main_v195 : Ref sig .tc := ⟨.hbm, 532, rfl⟩
abbrev main_v196 : Ref sig .tc := ⟨.hbm, 533, rfl⟩
abbrev main_v197 : Ref sig .tc := ⟨.hbm, 534, rfl⟩
abbrev main_v198 : Ref sig .tc := ⟨.hbm, 535, rfl⟩
abbrev main_c_27 : Ref sig .tc := ⟨.hbm, 536, rfl⟩
abbrev main_call18_c : Ref sig .tc := ⟨.hbm, 537, rfl⟩
abbrev main_call18_v0 : Ref sig .tc := ⟨.hbm, 538, rfl⟩
abbrev main_call18_c_0 : Ref sig .tc := ⟨.hbm, 539, rfl⟩
abbrev main_call18_v1 : Ref sig .tc := ⟨.hbm, 540, rfl⟩
abbrev main_call18_v2 : Ref sig .tc := ⟨.hbm, 541, rfl⟩
abbrev main_call18_v3 : Ref sig .tc := ⟨.hbm, 542, rfl⟩
abbrev main_call18_c_1 : Ref sig .tc := ⟨.hbm, 543, rfl⟩
abbrev main_call18_v4 : Ref sig .tc := ⟨.hbm, 544, rfl⟩
abbrev main_call18_c_2 : Ref sig .tc := ⟨.hbm, 545, rfl⟩
abbrev main_call18_v5 : Ref sig .tc := ⟨.hbm, 546, rfl⟩
abbrev main_call18_v6 : Ref sig .tc := ⟨.hbm, 547, rfl⟩
abbrev main_call18_v7 : Ref sig .tc := ⟨.hbm, 548, rfl⟩
abbrev main_call18_v8 : Ref sig .tc := ⟨.hbm, 549, rfl⟩
abbrev main_call18_c_3 : Ref sig .tc := ⟨.hbm, 550, rfl⟩
abbrev main_call18_v9 : Ref sig .tc := ⟨.hbm, 551, rfl⟩
abbrev main_call18_v10 : Ref sig .tc := ⟨.hbm, 552, rfl⟩
abbrev main_call18_v11 : Ref sig .tc := ⟨.hbm, 553, rfl⟩
abbrev main_call18_cst : Ref sig .tc := ⟨.hbm, 554, rfl⟩
abbrev main_call18_v12 : Ref sig .tc := ⟨.hbm, 555, rfl⟩
abbrev main_v199 : Ref sig .tc := ⟨.hbm, 556, rfl⟩
abbrev main_c_28 : Ref sig .tc := ⟨.hbm, 557, rfl⟩
abbrev main_call19_c : Ref sig .tc := ⟨.hbm, 558, rfl⟩
abbrev main_call19_v0 : Ref sig .tc := ⟨.hbm, 559, rfl⟩
abbrev main_call19_c_0 : Ref sig .tc := ⟨.hbm, 560, rfl⟩
abbrev main_call19_v1 : Ref sig .tc := ⟨.hbm, 561, rfl⟩
abbrev main_call19_v2 : Ref sig .tc := ⟨.hbm, 562, rfl⟩
abbrev main_call19_v3 : Ref sig .tc := ⟨.hbm, 563, rfl⟩
abbrev main_call19_c_1 : Ref sig .tc := ⟨.hbm, 564, rfl⟩
abbrev main_call19_v4 : Ref sig .tc := ⟨.hbm, 565, rfl⟩
abbrev main_call19_c_2 : Ref sig .tc := ⟨.hbm, 566, rfl⟩
abbrev main_call19_v5 : Ref sig .tc := ⟨.hbm, 567, rfl⟩
abbrev main_call19_v6 : Ref sig .tc := ⟨.hbm, 568, rfl⟩
abbrev main_call19_v7 : Ref sig .tc := ⟨.hbm, 569, rfl⟩
abbrev main_call19_v8 : Ref sig .tc := ⟨.hbm, 570, rfl⟩
abbrev main_call19_c_3 : Ref sig .tc := ⟨.hbm, 571, rfl⟩
abbrev main_call19_v9 : Ref sig .tc := ⟨.hbm, 572, rfl⟩
abbrev main_call19_v10 : Ref sig .tc := ⟨.hbm, 573, rfl⟩
abbrev main_call19_v11 : Ref sig .tc := ⟨.hbm, 574, rfl⟩
abbrev main_call19_cst : Ref sig .tc := ⟨.hbm, 575, rfl⟩
abbrev main_call19_v12 : Ref sig .tc := ⟨.hbm, 576, rfl⟩
abbrev main_v200 : Ref sig .tc := ⟨.hbm, 577, rfl⟩
abbrev main_v201 : Ref sig .tc := ⟨.hbm, 578, rfl⟩
abbrev main_v202 : Ref sig .tc := ⟨.hbm, 579, rfl⟩
abbrev main_v203 : Ref sig .tc := ⟨.hbm, 580, rfl⟩
abbrev main_v204 : Ref sig .tc := ⟨.hbm, 581, rfl⟩
abbrev main_v205 : Ref sig .tc := ⟨.hbm, 582, rfl⟩
abbrev main_v206 : Ref sig .tc := ⟨.hbm, 583, rfl⟩
abbrev main_cst_29 : Ref sig .tc := ⟨.hbm, 584, rfl⟩
abbrev main_v207 : Ref sig .tc := ⟨.hbm, 585, rfl⟩
abbrev main_v208 : Ref sig .tc := ⟨.hbm, 586, rfl⟩
abbrev main_cst_30 : Ref sig .tc := ⟨.hbm, 587, rfl⟩
abbrev main_v209 : Ref sig .tc := ⟨.hbm, 588, rfl⟩
abbrev main_v210 : Ref sig .tc := ⟨.hbm, 589, rfl⟩
abbrev main_c_31 : Ref sig .tc := ⟨.hbm, 590, rfl⟩
abbrev main_call21_c : Ref sig .tc := ⟨.hbm, 591, rfl⟩
abbrev main_call21_v0 : Ref sig .tc := ⟨.hbm, 592, rfl⟩
abbrev main_call21_c_0 : Ref sig .tc := ⟨.hbm, 593, rfl⟩
abbrev main_call21_v1 : Ref sig .tc := ⟨.hbm, 594, rfl⟩
abbrev main_call21_v2 : Ref sig .tc := ⟨.hbm, 595, rfl⟩
abbrev main_call21_v3 : Ref sig .tc := ⟨.hbm, 596, rfl⟩
abbrev main_call21_c_1 : Ref sig .tc := ⟨.hbm, 597, rfl⟩
abbrev main_call21_v4 : Ref sig .tc := ⟨.hbm, 598, rfl⟩
abbrev main_call21_c_2 : Ref sig .tc := ⟨.hbm, 599, rfl⟩
abbrev main_call21_v5 : Ref sig .tc := ⟨.hbm, 600, rfl⟩
abbrev main_call21_v6 : Ref sig .tc := ⟨.hbm, 601, rfl⟩
abbrev main_call21_v7 : Ref sig .tc := ⟨.hbm, 602, rfl⟩
abbrev main_call21_v8 : Ref sig .tc := ⟨.hbm, 603, rfl⟩
abbrev main_call21_c_3 : Ref sig .tc := ⟨.hbm, 604, rfl⟩
abbrev main_call21_v9 : Ref sig .tc := ⟨.hbm, 605, rfl⟩
abbrev main_call21_v10 : Ref sig .tc := ⟨.hbm, 606, rfl⟩
abbrev main_call21_v11 : Ref sig .tc := ⟨.hbm, 607, rfl⟩
abbrev main_call21_cst : Ref sig .tc := ⟨.hbm, 608, rfl⟩
abbrev main_call21_v12 : Ref sig .tc := ⟨.hbm, 609, rfl⟩
abbrev main_v211 : Ref sig .tc := ⟨.hbm, 610, rfl⟩
abbrev main_c_32 : Ref sig .tc := ⟨.hbm, 611, rfl⟩
abbrev main_call22_c : Ref sig .tc := ⟨.hbm, 612, rfl⟩
abbrev main_call22_v0 : Ref sig .tc := ⟨.hbm, 613, rfl⟩
abbrev main_call22_c_0 : Ref sig .tc := ⟨.hbm, 614, rfl⟩
abbrev main_call22_v1 : Ref sig .tc := ⟨.hbm, 615, rfl⟩
abbrev main_call22_v2 : Ref sig .tc := ⟨.hbm, 616, rfl⟩
abbrev main_call22_v3 : Ref sig .tc := ⟨.hbm, 617, rfl⟩
abbrev main_call22_c_1 : Ref sig .tc := ⟨.hbm, 618, rfl⟩
abbrev main_call22_v4 : Ref sig .tc := ⟨.hbm, 619, rfl⟩
abbrev main_call22_c_2 : Ref sig .tc := ⟨.hbm, 620, rfl⟩
abbrev main_call22_v5 : Ref sig .tc := ⟨.hbm, 621, rfl⟩
abbrev main_call22_v6 : Ref sig .tc := ⟨.hbm, 622, rfl⟩
abbrev main_call22_v7 : Ref sig .tc := ⟨.hbm, 623, rfl⟩
abbrev main_call22_v8 : Ref sig .tc := ⟨.hbm, 624, rfl⟩
abbrev main_call22_c_3 : Ref sig .tc := ⟨.hbm, 625, rfl⟩
abbrev main_call22_v9 : Ref sig .tc := ⟨.hbm, 626, rfl⟩
abbrev main_call22_v10 : Ref sig .tc := ⟨.hbm, 627, rfl⟩
abbrev main_call22_v11 : Ref sig .tc := ⟨.hbm, 628, rfl⟩
abbrev main_call22_cst : Ref sig .tc := ⟨.hbm, 629, rfl⟩
abbrev main_call22_v12 : Ref sig .tc := ⟨.hbm, 630, rfl⟩
abbrev main_v212 : Ref sig .tc := ⟨.hbm, 631, rfl⟩
abbrev main_v213 : Ref sig .tc := ⟨.hbm, 632, rfl⟩
abbrev main_v214 : Ref sig .tc := ⟨.hbm, 633, rfl⟩
abbrev main_v215 : Ref sig .tc := ⟨.hbm, 634, rfl⟩
abbrev main_v216 : Ref sig .tc := ⟨.hbm, 635, rfl⟩
abbrev main_v217 : Ref sig .tc := ⟨.hbm, 636, rfl⟩
abbrev main_v218 : Ref sig .tc := ⟨.hbm, 637, rfl⟩
abbrev main_v219 : Ref sig .tc := ⟨.hbm, 638, rfl⟩
abbrev main_v220 : Ref sig .tc := ⟨.hbm, 639, rfl⟩
abbrev main_v221 : Ref sig .tc := ⟨.hbm, 640, rfl⟩
abbrev main_v222 : Ref sig .tc := ⟨.hbm, 641, rfl⟩
abbrev main_v223 : Ref sig .tc := ⟨.hbm, 642, rfl⟩
abbrev main_v224 : Ref sig .tc := ⟨.hbm, 643, rfl⟩
abbrev main_v225 : Ref sig .tc := ⟨.hbm, 644, rfl⟩
abbrev main_v226 : Ref sig .tc := ⟨.hbm, 645, rfl⟩
abbrev main_v227 : Ref sig .tc := ⟨.hbm, 646, rfl⟩
abbrev main_cst_33 : Ref sig .tc := ⟨.hbm, 647, rfl⟩
abbrev main_v228 : Ref sig .tc := ⟨.hbm, 648, rfl⟩
abbrev main_v229 : Ref sig .tc := ⟨.hbm, 649, rfl⟩
abbrev main_cst_34 : Ref sig .tc := ⟨.hbm, 650, rfl⟩
abbrev main_v230 : Ref sig .tc := ⟨.hbm, 651, rfl⟩
abbrev main_v231 : Ref sig .tc := ⟨.hbm, 652, rfl⟩
abbrev main_c_35 : Ref sig .tc := ⟨.hbm, 653, rfl⟩
abbrev main_call23_c : Ref sig .tc := ⟨.hbm, 654, rfl⟩
abbrev main_call23_v0 : Ref sig .tc := ⟨.hbm, 655, rfl⟩
abbrev main_call23_c_0 : Ref sig .tc := ⟨.hbm, 656, rfl⟩
abbrev main_call23_v1 : Ref sig .tc := ⟨.hbm, 657, rfl⟩
abbrev main_call23_v2 : Ref sig .tc := ⟨.hbm, 658, rfl⟩
abbrev main_call23_v3 : Ref sig .tc := ⟨.hbm, 659, rfl⟩
abbrev main_call23_c_1 : Ref sig .tc := ⟨.hbm, 660, rfl⟩
abbrev main_call23_v4 : Ref sig .tc := ⟨.hbm, 661, rfl⟩
abbrev main_call23_c_2 : Ref sig .tc := ⟨.hbm, 662, rfl⟩
abbrev main_call23_v5 : Ref sig .tc := ⟨.hbm, 663, rfl⟩
abbrev main_call23_v6 : Ref sig .tc := ⟨.hbm, 664, rfl⟩
abbrev main_call23_v7 : Ref sig .tc := ⟨.hbm, 665, rfl⟩
abbrev main_call23_v8 : Ref sig .tc := ⟨.hbm, 666, rfl⟩
abbrev main_call23_c_3 : Ref sig .tc := ⟨.hbm, 667, rfl⟩
abbrev main_call23_v9 : Ref sig .tc := ⟨.hbm, 668, rfl⟩
abbrev main_call23_v10 : Ref sig .tc := ⟨.hbm, 669, rfl⟩
abbrev main_call23_v11 : Ref sig .tc := ⟨.hbm, 670, rfl⟩
abbrev main_call23_cst : Ref sig .tc := ⟨.hbm, 671, rfl⟩
abbrev main_call23_v12 : Ref sig .tc := ⟨.hbm, 672, rfl⟩
abbrev main_v232 : Ref sig .tc := ⟨.hbm, 673, rfl⟩
abbrev main_c_36 : Ref sig .tc := ⟨.hbm, 674, rfl⟩
abbrev main_call24_c : Ref sig .tc := ⟨.hbm, 675, rfl⟩
abbrev main_call24_v0 : Ref sig .tc := ⟨.hbm, 676, rfl⟩
abbrev main_call24_c_0 : Ref sig .tc := ⟨.hbm, 677, rfl⟩
abbrev main_call24_v1 : Ref sig .tc := ⟨.hbm, 678, rfl⟩
abbrev main_call24_v2 : Ref sig .tc := ⟨.hbm, 679, rfl⟩
abbrev main_call24_v3 : Ref sig .tc := ⟨.hbm, 680, rfl⟩
abbrev main_call24_c_1 : Ref sig .tc := ⟨.hbm, 681, rfl⟩
abbrev main_call24_v4 : Ref sig .tc := ⟨.hbm, 682, rfl⟩
abbrev main_call24_c_2 : Ref sig .tc := ⟨.hbm, 683, rfl⟩
abbrev main_call24_v5 : Ref sig .tc := ⟨.hbm, 684, rfl⟩
abbrev main_call24_v6 : Ref sig .tc := ⟨.hbm, 685, rfl⟩
abbrev main_call24_v7 : Ref sig .tc := ⟨.hbm, 686, rfl⟩
abbrev main_call24_v8 : Ref sig .tc := ⟨.hbm, 687, rfl⟩
abbrev main_call24_c_3 : Ref sig .tc := ⟨.hbm, 688, rfl⟩
abbrev main_call24_v9 : Ref sig .tc := ⟨.hbm, 689, rfl⟩
abbrev main_call24_v10 : Ref sig .tc := ⟨.hbm, 690, rfl⟩
abbrev main_call24_v11 : Ref sig .tc := ⟨.hbm, 691, rfl⟩
abbrev main_call24_cst : Ref sig .tc := ⟨.hbm, 692, rfl⟩
abbrev main_call24_v12 : Ref sig .tc := ⟨.hbm, 693, rfl⟩
abbrev main_v233 : Ref sig .tc := ⟨.hbm, 694, rfl⟩
abbrev main_v234 : Ref sig .tc := ⟨.hbm, 695, rfl⟩
abbrev main_v235 : Ref sig .tc := ⟨.hbm, 696, rfl⟩
abbrev main_v236 : Ref sig .tc := ⟨.hbm, 697, rfl⟩
abbrev main_v237 : Ref sig .tc := ⟨.hbm, 698, rfl⟩
abbrev main_v238 : Ref sig .tc := ⟨.hbm, 699, rfl⟩
abbrev main_v239 : Ref sig .tc := ⟨.hbm, 700, rfl⟩
abbrev main_v240 : Ref sig .tc := ⟨.hbm, 701, rfl⟩
abbrev main_v241 : Ref sig .tc := ⟨.hbm, 702, rfl⟩
abbrev main_v242 : Ref sig .tc := ⟨.hbm, 703, rfl⟩
abbrev main_v243 : Ref sig .tc := ⟨.hbm, 704, rfl⟩
abbrev main_v244 : Ref sig .tc := ⟨.hbm, 705, rfl⟩
abbrev main_v245 : Ref sig .tc := ⟨.hbm, 706, rfl⟩
abbrev main_v246 : Ref sig .tc := ⟨.hbm, 707, rfl⟩
abbrev main_c_37 : Ref sig .tc := ⟨.hbm, 708, rfl⟩
abbrev main_call25_c : Ref sig .tc := ⟨.hbm, 709, rfl⟩
abbrev main_call25_v0 : Ref sig .tc := ⟨.hbm, 710, rfl⟩
abbrev main_call25_c_0 : Ref sig .tc := ⟨.hbm, 711, rfl⟩
abbrev main_call25_v1 : Ref sig .tc := ⟨.hbm, 712, rfl⟩
abbrev main_call25_v2 : Ref sig .tc := ⟨.hbm, 713, rfl⟩
abbrev main_call25_v3 : Ref sig .tc := ⟨.hbm, 714, rfl⟩
abbrev main_call25_c_1 : Ref sig .tc := ⟨.hbm, 715, rfl⟩
abbrev main_call25_v4 : Ref sig .tc := ⟨.hbm, 716, rfl⟩
abbrev main_call25_c_2 : Ref sig .tc := ⟨.hbm, 717, rfl⟩
abbrev main_call25_v5 : Ref sig .tc := ⟨.hbm, 718, rfl⟩
abbrev main_call25_v6 : Ref sig .tc := ⟨.hbm, 719, rfl⟩
abbrev main_call25_v7 : Ref sig .tc := ⟨.hbm, 720, rfl⟩
abbrev main_call25_v8 : Ref sig .tc := ⟨.hbm, 721, rfl⟩
abbrev main_call25_c_3 : Ref sig .tc := ⟨.hbm, 722, rfl⟩
abbrev main_call25_v9 : Ref sig .tc := ⟨.hbm, 723, rfl⟩
abbrev main_call25_v10 : Ref sig .tc := ⟨.hbm, 724, rfl⟩
abbrev main_call25_v11 : Ref sig .tc := ⟨.hbm, 725, rfl⟩
abbrev main_call25_cst : Ref sig .tc := ⟨.hbm, 726, rfl⟩
abbrev main_call25_v12 : Ref sig .tc := ⟨.hbm, 727, rfl⟩
abbrev main_v247 : Ref sig .tc := ⟨.hbm, 728, rfl⟩
abbrev main_c_38 : Ref sig .tc := ⟨.hbm, 729, rfl⟩
abbrev main_call26_c : Ref sig .tc := ⟨.hbm, 730, rfl⟩
abbrev main_call26_v0 : Ref sig .tc := ⟨.hbm, 731, rfl⟩
abbrev main_call26_c_0 : Ref sig .tc := ⟨.hbm, 732, rfl⟩
abbrev main_call26_v1 : Ref sig .tc := ⟨.hbm, 733, rfl⟩
abbrev main_call26_v2 : Ref sig .tc := ⟨.hbm, 734, rfl⟩
abbrev main_call26_v3 : Ref sig .tc := ⟨.hbm, 735, rfl⟩
abbrev main_call26_c_1 : Ref sig .tc := ⟨.hbm, 736, rfl⟩
abbrev main_call26_v4 : Ref sig .tc := ⟨.hbm, 737, rfl⟩
abbrev main_call26_c_2 : Ref sig .tc := ⟨.hbm, 738, rfl⟩
abbrev main_call26_v5 : Ref sig .tc := ⟨.hbm, 739, rfl⟩
abbrev main_call26_v6 : Ref sig .tc := ⟨.hbm, 740, rfl⟩
abbrev main_call26_v7 : Ref sig .tc := ⟨.hbm, 741, rfl⟩
abbrev main_call26_v8 : Ref sig .tc := ⟨.hbm, 742, rfl⟩
abbrev main_call26_c_3 : Ref sig .tc := ⟨.hbm, 743, rfl⟩
abbrev main_call26_v9 : Ref sig .tc := ⟨.hbm, 744, rfl⟩
abbrev main_call26_v10 : Ref sig .tc := ⟨.hbm, 745, rfl⟩
abbrev main_call26_v11 : Ref sig .tc := ⟨.hbm, 746, rfl⟩
abbrev main_call26_cst : Ref sig .tc := ⟨.hbm, 747, rfl⟩
abbrev main_call26_v12 : Ref sig .tc := ⟨.hbm, 748, rfl⟩
abbrev main_v248 : Ref sig .tc := ⟨.hbm, 749, rfl⟩
abbrev main_v249 : Ref sig .tc := ⟨.hbm, 750, rfl⟩
abbrev main_v250 : Ref sig .tc := ⟨.hbm, 751, rfl⟩
abbrev main_v251 : Ref sig .tc := ⟨.hbm, 752, rfl⟩
abbrev main_v252 : Ref sig .tc := ⟨.hbm, 753, rfl⟩
abbrev main_v253 : Ref sig .tc := ⟨.hbm, 754, rfl⟩
abbrev main_v254 : Ref sig .tc := ⟨.hbm, 755, rfl⟩
abbrev main_cst_39 : Ref sig .tc := ⟨.hbm, 756, rfl⟩
abbrev main_v255 : Ref sig .tc := ⟨.hbm, 757, rfl⟩
abbrev main_v256 : Ref sig .tc := ⟨.hbm, 758, rfl⟩
abbrev main_cst_40 : Ref sig .tc := ⟨.hbm, 759, rfl⟩
abbrev main_v257 : Ref sig .tc := ⟨.hbm, 760, rfl⟩
abbrev main_v258 : Ref sig .tc := ⟨.hbm, 761, rfl⟩
abbrev main_c_41 : Ref sig .tc := ⟨.hbm, 762, rfl⟩
abbrev main_call28_c : Ref sig .tc := ⟨.hbm, 763, rfl⟩
abbrev main_call28_v0 : Ref sig .tc := ⟨.hbm, 764, rfl⟩
abbrev main_call28_c_0 : Ref sig .tc := ⟨.hbm, 765, rfl⟩
abbrev main_call28_v1 : Ref sig .tc := ⟨.hbm, 766, rfl⟩
abbrev main_call28_v2 : Ref sig .tc := ⟨.hbm, 767, rfl⟩
abbrev main_call28_v3 : Ref sig .tc := ⟨.hbm, 768, rfl⟩
abbrev main_call28_c_1 : Ref sig .tc := ⟨.hbm, 769, rfl⟩
abbrev main_call28_v4 : Ref sig .tc := ⟨.hbm, 770, rfl⟩
abbrev main_call28_c_2 : Ref sig .tc := ⟨.hbm, 771, rfl⟩
abbrev main_call28_v5 : Ref sig .tc := ⟨.hbm, 772, rfl⟩
abbrev main_call28_v6 : Ref sig .tc := ⟨.hbm, 773, rfl⟩
abbrev main_call28_v7 : Ref sig .tc := ⟨.hbm, 774, rfl⟩
abbrev main_call28_v8 : Ref sig .tc := ⟨.hbm, 775, rfl⟩
abbrev main_call28_c_3 : Ref sig .tc := ⟨.hbm, 776, rfl⟩
abbrev main_call28_v9 : Ref sig .tc := ⟨.hbm, 777, rfl⟩
abbrev main_call28_v10 : Ref sig .tc := ⟨.hbm, 778, rfl⟩
abbrev main_call28_v11 : Ref sig .tc := ⟨.hbm, 779, rfl⟩
abbrev main_call28_cst : Ref sig .tc := ⟨.hbm, 780, rfl⟩
abbrev main_call28_v12 : Ref sig .tc := ⟨.hbm, 781, rfl⟩
abbrev main_v259 : Ref sig .tc := ⟨.hbm, 782, rfl⟩
abbrev main_c_42 : Ref sig .tc := ⟨.hbm, 783, rfl⟩
abbrev main_call29_c : Ref sig .tc := ⟨.hbm, 784, rfl⟩
abbrev main_call29_v0 : Ref sig .tc := ⟨.hbm, 785, rfl⟩
abbrev main_call29_c_0 : Ref sig .tc := ⟨.hbm, 786, rfl⟩
abbrev main_call29_v1 : Ref sig .tc := ⟨.hbm, 787, rfl⟩
abbrev main_call29_v2 : Ref sig .tc := ⟨.hbm, 788, rfl⟩
abbrev main_call29_v3 : Ref sig .tc := ⟨.hbm, 789, rfl⟩
abbrev main_call29_c_1 : Ref sig .tc := ⟨.hbm, 790, rfl⟩
abbrev main_call29_v4 : Ref sig .tc := ⟨.hbm, 791, rfl⟩
abbrev main_call29_c_2 : Ref sig .tc := ⟨.hbm, 792, rfl⟩
abbrev main_call29_v5 : Ref sig .tc := ⟨.hbm, 793, rfl⟩
abbrev main_call29_v6 : Ref sig .tc := ⟨.hbm, 794, rfl⟩
abbrev main_call29_v7 : Ref sig .tc := ⟨.hbm, 795, rfl⟩
abbrev main_call29_v8 : Ref sig .tc := ⟨.hbm, 796, rfl⟩
abbrev main_call29_c_3 : Ref sig .tc := ⟨.hbm, 797, rfl⟩
abbrev main_call29_v9 : Ref sig .tc := ⟨.hbm, 798, rfl⟩
abbrev main_call29_v10 : Ref sig .tc := ⟨.hbm, 799, rfl⟩
abbrev main_call29_v11 : Ref sig .tc := ⟨.hbm, 800, rfl⟩
abbrev main_call29_cst : Ref sig .tc := ⟨.hbm, 801, rfl⟩
abbrev main_call29_v12 : Ref sig .tc := ⟨.hbm, 802, rfl⟩
abbrev main_v260 : Ref sig .tc := ⟨.hbm, 803, rfl⟩
abbrev main_v261 : Ref sig .tc := ⟨.hbm, 804, rfl⟩
abbrev main_v262 : Ref sig .tc := ⟨.hbm, 805, rfl⟩
abbrev main_v263 : Ref sig .tc := ⟨.hbm, 806, rfl⟩
abbrev main_v264 : Ref sig .tc := ⟨.hbm, 807, rfl⟩
abbrev main_v265 : Ref sig .tc := ⟨.hbm, 808, rfl⟩
abbrev main_v266 : Ref sig .tc := ⟨.hbm, 809, rfl⟩
abbrev main_v267 : Ref sig .tc := ⟨.hbm, 810, rfl⟩
abbrev main_v268 : Ref sig .tc := ⟨.hbm, 811, rfl⟩
abbrev main_v269 : Ref sig .tc := ⟨.hbm, 812, rfl⟩
abbrev main_v270 : Ref sig .tc := ⟨.hbm, 813, rfl⟩
abbrev main_v271 : Ref sig .tc := ⟨.hbm, 814, rfl⟩
abbrev main_v272 : Ref sig .tc := ⟨.hbm, 815, rfl⟩
abbrev main_v273 : Ref sig .tc := ⟨.hbm, 816, rfl⟩
abbrev main_v274 : Ref sig .tc := ⟨.hbm, 817, rfl⟩
abbrev main_v275 : Ref sig .tc := ⟨.hbm, 818, rfl⟩
abbrev main_cst_43 : Ref sig .tc := ⟨.hbm, 819, rfl⟩
abbrev main_v276 : Ref sig .tc := ⟨.hbm, 820, rfl⟩
abbrev main_v277 : Ref sig .tc := ⟨.hbm, 821, rfl⟩
abbrev main_cst_44 : Ref sig .tc := ⟨.hbm, 822, rfl⟩
abbrev main_v278 : Ref sig .tc := ⟨.hbm, 823, rfl⟩
abbrev main_v279 : Ref sig .tc := ⟨.hbm, 824, rfl⟩
abbrev main_c_45 : Ref sig .tc := ⟨.hbm, 825, rfl⟩
abbrev main_call30_c : Ref sig .tc := ⟨.hbm, 826, rfl⟩
abbrev main_call30_v0 : Ref sig .tc := ⟨.hbm, 827, rfl⟩
abbrev main_call30_c_0 : Ref sig .tc := ⟨.hbm, 828, rfl⟩
abbrev main_call30_v1 : Ref sig .tc := ⟨.hbm, 829, rfl⟩
abbrev main_call30_v2 : Ref sig .tc := ⟨.hbm, 830, rfl⟩
abbrev main_call30_v3 : Ref sig .tc := ⟨.hbm, 831, rfl⟩
abbrev main_call30_c_1 : Ref sig .tc := ⟨.hbm, 832, rfl⟩
abbrev main_call30_v4 : Ref sig .tc := ⟨.hbm, 833, rfl⟩
abbrev main_call30_c_2 : Ref sig .tc := ⟨.hbm, 834, rfl⟩
abbrev main_call30_v5 : Ref sig .tc := ⟨.hbm, 835, rfl⟩
abbrev main_call30_v6 : Ref sig .tc := ⟨.hbm, 836, rfl⟩
abbrev main_call30_v7 : Ref sig .tc := ⟨.hbm, 837, rfl⟩
abbrev main_call30_v8 : Ref sig .tc := ⟨.hbm, 838, rfl⟩
abbrev main_call30_c_3 : Ref sig .tc := ⟨.hbm, 839, rfl⟩
abbrev main_call30_v9 : Ref sig .tc := ⟨.hbm, 840, rfl⟩
abbrev main_call30_v10 : Ref sig .tc := ⟨.hbm, 841, rfl⟩
abbrev main_call30_v11 : Ref sig .tc := ⟨.hbm, 842, rfl⟩
abbrev main_call30_cst : Ref sig .tc := ⟨.hbm, 843, rfl⟩
abbrev main_call30_v12 : Ref sig .tc := ⟨.hbm, 844, rfl⟩
abbrev main_v280 : Ref sig .tc := ⟨.hbm, 845, rfl⟩
abbrev main_c_46 : Ref sig .tc := ⟨.hbm, 846, rfl⟩
abbrev main_call31_c : Ref sig .tc := ⟨.hbm, 847, rfl⟩
abbrev main_call31_v0 : Ref sig .tc := ⟨.hbm, 848, rfl⟩
abbrev main_call31_c_0 : Ref sig .tc := ⟨.hbm, 849, rfl⟩
abbrev main_call31_v1 : Ref sig .tc := ⟨.hbm, 850, rfl⟩
abbrev main_call31_v2 : Ref sig .tc := ⟨.hbm, 851, rfl⟩
abbrev main_call31_v3 : Ref sig .tc := ⟨.hbm, 852, rfl⟩
abbrev main_call31_c_1 : Ref sig .tc := ⟨.hbm, 853, rfl⟩
abbrev main_call31_v4 : Ref sig .tc := ⟨.hbm, 854, rfl⟩
abbrev main_call31_c_2 : Ref sig .tc := ⟨.hbm, 855, rfl⟩
abbrev main_call31_v5 : Ref sig .tc := ⟨.hbm, 856, rfl⟩
abbrev main_call31_v6 : Ref sig .tc := ⟨.hbm, 857, rfl⟩
abbrev main_call31_v7 : Ref sig .tc := ⟨.hbm, 858, rfl⟩
abbrev main_call31_v8 : Ref sig .tc := ⟨.hbm, 859, rfl⟩
abbrev main_call31_c_3 : Ref sig .tc := ⟨.hbm, 860, rfl⟩
abbrev main_call31_v9 : Ref sig .tc := ⟨.hbm, 861, rfl⟩
abbrev main_call31_v10 : Ref sig .tc := ⟨.hbm, 862, rfl⟩
abbrev main_call31_v11 : Ref sig .tc := ⟨.hbm, 863, rfl⟩
abbrev main_call31_cst : Ref sig .tc := ⟨.hbm, 864, rfl⟩
abbrev main_call31_v12 : Ref sig .tc := ⟨.hbm, 865, rfl⟩
abbrev main_v281 : Ref sig .tc := ⟨.hbm, 866, rfl⟩
abbrev main_v282 : Ref sig .tc := ⟨.hbm, 867, rfl⟩
abbrev main_v283 : Ref sig .tc := ⟨.hbm, 868, rfl⟩
abbrev main_v284 : Ref sig .tc := ⟨.hbm, 869, rfl⟩
abbrev main_v285 : Ref sig .tc := ⟨.hbm, 870, rfl⟩
abbrev main_v286 : Ref sig .tc := ⟨.hbm, 871, rfl⟩
abbrev main_v287 : Ref sig .tc := ⟨.hbm, 872, rfl⟩
abbrev main_v288 : Ref sig .tc := ⟨.hbm, 873, rfl⟩
abbrev main_v289 : Ref sig .tc := ⟨.hbm, 874, rfl⟩
abbrev main_v290 : Ref sig .tc := ⟨.hbm, 875, rfl⟩
abbrev main_v291 : Ref sig .tc := ⟨.hbm, 876, rfl⟩
abbrev main_v292 : Ref sig .tc := ⟨.hbm, 877, rfl⟩
abbrev main_v293 : Ref sig .tc := ⟨.hbm, 878, rfl⟩
abbrev main_v294 : Ref sig .tc := ⟨.hbm, 879, rfl⟩
abbrev main_c_47 : Ref sig .tc := ⟨.hbm, 880, rfl⟩
abbrev main_call32_c : Ref sig .tc := ⟨.hbm, 881, rfl⟩
abbrev main_call32_v0 : Ref sig .tc := ⟨.hbm, 882, rfl⟩
abbrev main_call32_c_0 : Ref sig .tc := ⟨.hbm, 883, rfl⟩
abbrev main_call32_v1 : Ref sig .tc := ⟨.hbm, 884, rfl⟩
abbrev main_call32_v2 : Ref sig .tc := ⟨.hbm, 885, rfl⟩
abbrev main_call32_v3 : Ref sig .tc := ⟨.hbm, 886, rfl⟩
abbrev main_call32_c_1 : Ref sig .tc := ⟨.hbm, 887, rfl⟩
abbrev main_call32_v4 : Ref sig .tc := ⟨.hbm, 888, rfl⟩
abbrev main_call32_c_2 : Ref sig .tc := ⟨.hbm, 889, rfl⟩
abbrev main_call32_v5 : Ref sig .tc := ⟨.hbm, 890, rfl⟩
abbrev main_call32_v6 : Ref sig .tc := ⟨.hbm, 891, rfl⟩
abbrev main_call32_v7 : Ref sig .tc := ⟨.hbm, 892, rfl⟩
abbrev main_call32_v8 : Ref sig .tc := ⟨.hbm, 893, rfl⟩
abbrev main_call32_c_3 : Ref sig .tc := ⟨.hbm, 894, rfl⟩
abbrev main_call32_v9 : Ref sig .tc := ⟨.hbm, 895, rfl⟩
abbrev main_call32_v10 : Ref sig .tc := ⟨.hbm, 896, rfl⟩
abbrev main_call32_v11 : Ref sig .tc := ⟨.hbm, 897, rfl⟩
abbrev main_call32_cst : Ref sig .tc := ⟨.hbm, 898, rfl⟩
abbrev main_call32_v12 : Ref sig .tc := ⟨.hbm, 899, rfl⟩
abbrev main_v295 : Ref sig .tc := ⟨.hbm, 900, rfl⟩
abbrev main_c_48 : Ref sig .tc := ⟨.hbm, 901, rfl⟩
abbrev main_call33_c : Ref sig .tc := ⟨.hbm, 902, rfl⟩
abbrev main_call33_v0 : Ref sig .tc := ⟨.hbm, 903, rfl⟩
abbrev main_call33_c_0 : Ref sig .tc := ⟨.hbm, 904, rfl⟩
abbrev main_call33_v1 : Ref sig .tc := ⟨.hbm, 905, rfl⟩
abbrev main_call33_v2 : Ref sig .tc := ⟨.hbm, 906, rfl⟩
abbrev main_call33_v3 : Ref sig .tc := ⟨.hbm, 907, rfl⟩
abbrev main_call33_c_1 : Ref sig .tc := ⟨.hbm, 908, rfl⟩
abbrev main_call33_v4 : Ref sig .tc := ⟨.hbm, 909, rfl⟩
abbrev main_call33_c_2 : Ref sig .tc := ⟨.hbm, 910, rfl⟩
abbrev main_call33_v5 : Ref sig .tc := ⟨.hbm, 911, rfl⟩
abbrev main_call33_v6 : Ref sig .tc := ⟨.hbm, 912, rfl⟩
abbrev main_call33_v7 : Ref sig .tc := ⟨.hbm, 913, rfl⟩
abbrev main_call33_v8 : Ref sig .tc := ⟨.hbm, 914, rfl⟩
abbrev main_call33_c_3 : Ref sig .tc := ⟨.hbm, 915, rfl⟩
abbrev main_call33_v9 : Ref sig .tc := ⟨.hbm, 916, rfl⟩
abbrev main_call33_v10 : Ref sig .tc := ⟨.hbm, 917, rfl⟩
abbrev main_call33_v11 : Ref sig .tc := ⟨.hbm, 918, rfl⟩
abbrev main_call33_cst : Ref sig .tc := ⟨.hbm, 919, rfl⟩
abbrev main_call33_v12 : Ref sig .tc := ⟨.hbm, 920, rfl⟩
abbrev main_v296 : Ref sig .tc := ⟨.hbm, 921, rfl⟩
abbrev main_v297 : Ref sig .tc := ⟨.hbm, 922, rfl⟩
abbrev main_v298 : Ref sig .tc := ⟨.hbm, 923, rfl⟩
abbrev main_v299 : Ref sig .tc := ⟨.hbm, 924, rfl⟩
abbrev main_v300 : Ref sig .tc := ⟨.hbm, 925, rfl⟩
abbrev main_v301 : Ref sig .tc := ⟨.hbm, 926, rfl⟩
abbrev main_v302 : Ref sig .tc := ⟨.hbm, 927, rfl⟩
abbrev main_cst_49 : Ref sig .tc := ⟨.hbm, 928, rfl⟩
abbrev main_v303 : Ref sig .tc := ⟨.hbm, 929, rfl⟩
abbrev main_v304 : Ref sig .tc := ⟨.hbm, 930, rfl⟩
abbrev main_cst_50 : Ref sig .tc := ⟨.hbm, 931, rfl⟩
abbrev main_v305 : Ref sig .tc := ⟨.hbm, 932, rfl⟩
abbrev main_v306 : Ref sig .tc := ⟨.hbm, 933, rfl⟩
abbrev main_c_51 : Ref sig .tc := ⟨.hbm, 934, rfl⟩
abbrev main_call35_c : Ref sig .tc := ⟨.hbm, 935, rfl⟩
abbrev main_call35_v0 : Ref sig .tc := ⟨.hbm, 936, rfl⟩
abbrev main_call35_c_0 : Ref sig .tc := ⟨.hbm, 937, rfl⟩
abbrev main_call35_v1 : Ref sig .tc := ⟨.hbm, 938, rfl⟩
abbrev main_call35_v2 : Ref sig .tc := ⟨.hbm, 939, rfl⟩
abbrev main_call35_v3 : Ref sig .tc := ⟨.hbm, 940, rfl⟩
abbrev main_call35_c_1 : Ref sig .tc := ⟨.hbm, 941, rfl⟩
abbrev main_call35_v4 : Ref sig .tc := ⟨.hbm, 942, rfl⟩
abbrev main_call35_c_2 : Ref sig .tc := ⟨.hbm, 943, rfl⟩
abbrev main_call35_v5 : Ref sig .tc := ⟨.hbm, 944, rfl⟩
abbrev main_call35_v6 : Ref sig .tc := ⟨.hbm, 945, rfl⟩
abbrev main_call35_v7 : Ref sig .tc := ⟨.hbm, 946, rfl⟩
abbrev main_call35_v8 : Ref sig .tc := ⟨.hbm, 947, rfl⟩
abbrev main_call35_c_3 : Ref sig .tc := ⟨.hbm, 948, rfl⟩
abbrev main_call35_v9 : Ref sig .tc := ⟨.hbm, 949, rfl⟩
abbrev main_call35_v10 : Ref sig .tc := ⟨.hbm, 950, rfl⟩
abbrev main_call35_v11 : Ref sig .tc := ⟨.hbm, 951, rfl⟩
abbrev main_call35_cst : Ref sig .tc := ⟨.hbm, 952, rfl⟩
abbrev main_call35_v12 : Ref sig .tc := ⟨.hbm, 953, rfl⟩
abbrev main_v307 : Ref sig .tc := ⟨.hbm, 954, rfl⟩
abbrev main_c_52 : Ref sig .tc := ⟨.hbm, 955, rfl⟩
abbrev main_call36_c : Ref sig .tc := ⟨.hbm, 956, rfl⟩
abbrev main_call36_v0 : Ref sig .tc := ⟨.hbm, 957, rfl⟩
abbrev main_call36_c_0 : Ref sig .tc := ⟨.hbm, 958, rfl⟩
abbrev main_call36_v1 : Ref sig .tc := ⟨.hbm, 959, rfl⟩
abbrev main_call36_v2 : Ref sig .tc := ⟨.hbm, 960, rfl⟩
abbrev main_call36_v3 : Ref sig .tc := ⟨.hbm, 961, rfl⟩
abbrev main_call36_c_1 : Ref sig .tc := ⟨.hbm, 962, rfl⟩
abbrev main_call36_v4 : Ref sig .tc := ⟨.hbm, 963, rfl⟩
abbrev main_call36_c_2 : Ref sig .tc := ⟨.hbm, 964, rfl⟩
abbrev main_call36_v5 : Ref sig .tc := ⟨.hbm, 965, rfl⟩
abbrev main_call36_v6 : Ref sig .tc := ⟨.hbm, 966, rfl⟩
abbrev main_call36_v7 : Ref sig .tc := ⟨.hbm, 967, rfl⟩
abbrev main_call36_v8 : Ref sig .tc := ⟨.hbm, 968, rfl⟩
abbrev main_call36_c_3 : Ref sig .tc := ⟨.hbm, 969, rfl⟩
abbrev main_call36_v9 : Ref sig .tc := ⟨.hbm, 970, rfl⟩
abbrev main_call36_v10 : Ref sig .tc := ⟨.hbm, 971, rfl⟩
abbrev main_call36_v11 : Ref sig .tc := ⟨.hbm, 972, rfl⟩
abbrev main_call36_cst : Ref sig .tc := ⟨.hbm, 973, rfl⟩
abbrev main_call36_v12 : Ref sig .tc := ⟨.hbm, 974, rfl⟩
abbrev main_v308 : Ref sig .tc := ⟨.hbm, 975, rfl⟩
abbrev main_v309 : Ref sig .tc := ⟨.hbm, 976, rfl⟩
abbrev main_v310 : Ref sig .tc := ⟨.hbm, 977, rfl⟩
abbrev main_v311 : Ref sig .tc := ⟨.hbm, 978, rfl⟩
abbrev main_v312 : Ref sig .tc := ⟨.hbm, 979, rfl⟩
abbrev main_v313 : Ref sig .tc := ⟨.hbm, 980, rfl⟩
abbrev main_v314 : Ref sig .tc := ⟨.hbm, 981, rfl⟩
abbrev main_v315 : Ref sig .tc := ⟨.hbm, 982, rfl⟩
abbrev main_v316 : Ref sig .tc := ⟨.hbm, 983, rfl⟩
abbrev main_v317 : Ref sig .tc := ⟨.hbm, 984, rfl⟩
abbrev main_v318 : Ref sig .tc := ⟨.hbm, 985, rfl⟩
abbrev main_v319 : Ref sig .tc := ⟨.hbm, 986, rfl⟩
abbrev main_v320 : Ref sig .tc := ⟨.hbm, 987, rfl⟩
abbrev main_v321 : Ref sig .tc := ⟨.hbm, 988, rfl⟩
abbrev main_v322 : Ref sig .tc := ⟨.hbm, 989, rfl⟩
abbrev main_v323 : Ref sig .tc := ⟨.hbm, 990, rfl⟩
abbrev main_cst_53 : Ref sig .tc := ⟨.hbm, 991, rfl⟩
abbrev main_v324 : Ref sig .tc := ⟨.hbm, 992, rfl⟩
abbrev main_v325 : Ref sig .tc := ⟨.hbm, 993, rfl⟩
abbrev main_cst_54 : Ref sig .tc := ⟨.hbm, 994, rfl⟩
abbrev main_v326 : Ref sig .tc := ⟨.hbm, 995, rfl⟩
abbrev main_v327 : Ref sig .tc := ⟨.hbm, 996, rfl⟩
abbrev main_c_55 : Ref sig .tc := ⟨.hbm, 997, rfl⟩
abbrev main_call37_c : Ref sig .tc := ⟨.hbm, 998, rfl⟩
abbrev main_call37_v0 : Ref sig .tc := ⟨.hbm, 999, rfl⟩
abbrev main_call37_c_0 : Ref sig .tc := ⟨.hbm, 1000, rfl⟩
abbrev main_call37_v1 : Ref sig .tc := ⟨.hbm, 1001, rfl⟩
abbrev main_call37_v2 : Ref sig .tc := ⟨.hbm, 1002, rfl⟩
abbrev main_call37_v3 : Ref sig .tc := ⟨.hbm, 1003, rfl⟩
abbrev main_call37_c_1 : Ref sig .tc := ⟨.hbm, 1004, rfl⟩
abbrev main_call37_v4 : Ref sig .tc := ⟨.hbm, 1005, rfl⟩
abbrev main_call37_c_2 : Ref sig .tc := ⟨.hbm, 1006, rfl⟩
abbrev main_call37_v5 : Ref sig .tc := ⟨.hbm, 1007, rfl⟩
abbrev main_call37_v6 : Ref sig .tc := ⟨.hbm, 1008, rfl⟩
abbrev main_call37_v7 : Ref sig .tc := ⟨.hbm, 1009, rfl⟩
abbrev main_call37_v8 : Ref sig .tc := ⟨.hbm, 1010, rfl⟩
abbrev main_call37_c_3 : Ref sig .tc := ⟨.hbm, 1011, rfl⟩
abbrev main_call37_v9 : Ref sig .tc := ⟨.hbm, 1012, rfl⟩
abbrev main_call37_v10 : Ref sig .tc := ⟨.hbm, 1013, rfl⟩
abbrev main_call37_v11 : Ref sig .tc := ⟨.hbm, 1014, rfl⟩
abbrev main_call37_cst : Ref sig .tc := ⟨.hbm, 1015, rfl⟩
abbrev main_call37_v12 : Ref sig .tc := ⟨.hbm, 1016, rfl⟩
abbrev main_v328 : Ref sig .tc := ⟨.hbm, 1017, rfl⟩
abbrev main_c_56 : Ref sig .tc := ⟨.hbm, 1018, rfl⟩
abbrev main_call38_c : Ref sig .tc := ⟨.hbm, 1019, rfl⟩
abbrev main_call38_v0 : Ref sig .tc := ⟨.hbm, 1020, rfl⟩
abbrev main_call38_c_0 : Ref sig .tc := ⟨.hbm, 1021, rfl⟩
abbrev main_call38_v1 : Ref sig .tc := ⟨.hbm, 1022, rfl⟩
abbrev main_call38_v2 : Ref sig .tc := ⟨.hbm, 1023, rfl⟩
abbrev main_call38_v3 : Ref sig .tc := ⟨.hbm, 1024, rfl⟩
abbrev main_call38_c_1 : Ref sig .tc := ⟨.hbm, 1025, rfl⟩
abbrev main_call38_v4 : Ref sig .tc := ⟨.hbm, 1026, rfl⟩
abbrev main_call38_c_2 : Ref sig .tc := ⟨.hbm, 1027, rfl⟩
abbrev main_call38_v5 : Ref sig .tc := ⟨.hbm, 1028, rfl⟩
abbrev main_call38_v6 : Ref sig .tc := ⟨.hbm, 1029, rfl⟩
abbrev main_call38_v7 : Ref sig .tc := ⟨.hbm, 1030, rfl⟩
abbrev main_call38_v8 : Ref sig .tc := ⟨.hbm, 1031, rfl⟩
abbrev main_call38_c_3 : Ref sig .tc := ⟨.hbm, 1032, rfl⟩
abbrev main_call38_v9 : Ref sig .tc := ⟨.hbm, 1033, rfl⟩
abbrev main_call38_v10 : Ref sig .tc := ⟨.hbm, 1034, rfl⟩
abbrev main_call38_v11 : Ref sig .tc := ⟨.hbm, 1035, rfl⟩
abbrev main_call38_cst : Ref sig .tc := ⟨.hbm, 1036, rfl⟩
abbrev main_call38_v12 : Ref sig .tc := ⟨.hbm, 1037, rfl⟩
abbrev main_v329 : Ref sig .tc := ⟨.hbm, 1038, rfl⟩
abbrev main_v330 : Ref sig .tc := ⟨.hbm, 1039, rfl⟩
abbrev main_v331 : Ref sig .tc := ⟨.hbm, 1040, rfl⟩
abbrev main_v332 : Ref sig .tc := ⟨.hbm, 1041, rfl⟩
abbrev main_v333 : Ref sig .tc := ⟨.hbm, 1042, rfl⟩
abbrev main_v334 : Ref sig .tc := ⟨.hbm, 1043, rfl⟩
abbrev main_v335 : Ref sig .tc := ⟨.hbm, 1044, rfl⟩
abbrev main_v336 : Ref sig .tc := ⟨.hbm, 1045, rfl⟩
abbrev main_v337 : Ref sig .tc := ⟨.hbm, 1046, rfl⟩
abbrev main_v338 : Ref sig .tc := ⟨.hbm, 1047, rfl⟩
abbrev main_v339 : Ref sig .tc := ⟨.hbm, 1048, rfl⟩
abbrev main_v340 : Ref sig .tc := ⟨.hbm, 1049, rfl⟩
abbrev main_v341 : Ref sig .tc := ⟨.hbm, 1050, rfl⟩
abbrev main_v342 : Ref sig .tc := ⟨.hbm, 1051, rfl⟩
abbrev main_c_57 : Ref sig .tc := ⟨.hbm, 1052, rfl⟩
abbrev main_call39_c : Ref sig .tc := ⟨.hbm, 1053, rfl⟩
abbrev main_call39_v0 : Ref sig .tc := ⟨.hbm, 1054, rfl⟩
abbrev main_call39_c_0 : Ref sig .tc := ⟨.hbm, 1055, rfl⟩
abbrev main_call39_v1 : Ref sig .tc := ⟨.hbm, 1056, rfl⟩
abbrev main_call39_v2 : Ref sig .tc := ⟨.hbm, 1057, rfl⟩
abbrev main_call39_v3 : Ref sig .tc := ⟨.hbm, 1058, rfl⟩
abbrev main_call39_c_1 : Ref sig .tc := ⟨.hbm, 1059, rfl⟩
abbrev main_call39_v4 : Ref sig .tc := ⟨.hbm, 1060, rfl⟩
abbrev main_call39_c_2 : Ref sig .tc := ⟨.hbm, 1061, rfl⟩
abbrev main_call39_v5 : Ref sig .tc := ⟨.hbm, 1062, rfl⟩
abbrev main_call39_v6 : Ref sig .tc := ⟨.hbm, 1063, rfl⟩
abbrev main_call39_v7 : Ref sig .tc := ⟨.hbm, 1064, rfl⟩
abbrev main_call39_v8 : Ref sig .tc := ⟨.hbm, 1065, rfl⟩
abbrev main_call39_c_3 : Ref sig .tc := ⟨.hbm, 1066, rfl⟩
abbrev main_call39_v9 : Ref sig .tc := ⟨.hbm, 1067, rfl⟩
abbrev main_call39_v10 : Ref sig .tc := ⟨.hbm, 1068, rfl⟩
abbrev main_call39_v11 : Ref sig .tc := ⟨.hbm, 1069, rfl⟩
abbrev main_call39_cst : Ref sig .tc := ⟨.hbm, 1070, rfl⟩
abbrev main_call39_v12 : Ref sig .tc := ⟨.hbm, 1071, rfl⟩
abbrev main_v343 : Ref sig .tc := ⟨.hbm, 1072, rfl⟩
abbrev main_c_58 : Ref sig .tc := ⟨.hbm, 1073, rfl⟩
abbrev main_call40_c : Ref sig .tc := ⟨.hbm, 1074, rfl⟩
abbrev main_call40_v0 : Ref sig .tc := ⟨.hbm, 1075, rfl⟩
abbrev main_call40_c_0 : Ref sig .tc := ⟨.hbm, 1076, rfl⟩
abbrev main_call40_v1 : Ref sig .tc := ⟨.hbm, 1077, rfl⟩
abbrev main_call40_v2 : Ref sig .tc := ⟨.hbm, 1078, rfl⟩
abbrev main_call40_v3 : Ref sig .tc := ⟨.hbm, 1079, rfl⟩
abbrev main_call40_c_1 : Ref sig .tc := ⟨.hbm, 1080, rfl⟩
abbrev main_call40_v4 : Ref sig .tc := ⟨.hbm, 1081, rfl⟩
abbrev main_call40_c_2 : Ref sig .tc := ⟨.hbm, 1082, rfl⟩
abbrev main_call40_v5 : Ref sig .tc := ⟨.hbm, 1083, rfl⟩
abbrev main_call40_v6 : Ref sig .tc := ⟨.hbm, 1084, rfl⟩
abbrev main_call40_v7 : Ref sig .tc := ⟨.hbm, 1085, rfl⟩
abbrev main_call40_v8 : Ref sig .tc := ⟨.hbm, 1086, rfl⟩
abbrev main_call40_c_3 : Ref sig .tc := ⟨.hbm, 1087, rfl⟩
abbrev main_call40_v9 : Ref sig .tc := ⟨.hbm, 1088, rfl⟩
abbrev main_call40_v10 : Ref sig .tc := ⟨.hbm, 1089, rfl⟩
abbrev main_call40_v11 : Ref sig .tc := ⟨.hbm, 1090, rfl⟩
abbrev main_call40_cst : Ref sig .tc := ⟨.hbm, 1091, rfl⟩
abbrev main_call40_v12 : Ref sig .tc := ⟨.hbm, 1092, rfl⟩
abbrev main_v344 : Ref sig .tc := ⟨.hbm, 1093, rfl⟩
abbrev main_v345 : Ref sig .tc := ⟨.hbm, 1094, rfl⟩
abbrev main_v346 : Ref sig .tc := ⟨.hbm, 1095, rfl⟩
abbrev main_v347 : Ref sig .tc := ⟨.hbm, 1096, rfl⟩
abbrev main_v348 : Ref sig .tc := ⟨.hbm, 1097, rfl⟩
abbrev main_v349 : Ref sig .tc := ⟨.hbm, 1098, rfl⟩
abbrev main_v350 : Ref sig .tc := ⟨.hbm, 1099, rfl⟩
abbrev main_cst_59 : Ref sig .tc := ⟨.hbm, 1100, rfl⟩
abbrev main_v351 : Ref sig .tc := ⟨.hbm, 1101, rfl⟩
abbrev main_v352 : Ref sig .tc := ⟨.hbm, 1102, rfl⟩
abbrev main_cst_60 : Ref sig .tc := ⟨.hbm, 1103, rfl⟩
abbrev main_v353 : Ref sig .tc := ⟨.hbm, 1104, rfl⟩
abbrev main_v354 : Ref sig .tc := ⟨.hbm, 1105, rfl⟩
abbrev main_c_61 : Ref sig .tc := ⟨.hbm, 1106, rfl⟩
abbrev main_call42_c : Ref sig .tc := ⟨.hbm, 1107, rfl⟩
abbrev main_call42_v0 : Ref sig .tc := ⟨.hbm, 1108, rfl⟩
abbrev main_call42_c_0 : Ref sig .tc := ⟨.hbm, 1109, rfl⟩
abbrev main_call42_v1 : Ref sig .tc := ⟨.hbm, 1110, rfl⟩
abbrev main_call42_v2 : Ref sig .tc := ⟨.hbm, 1111, rfl⟩
abbrev main_call42_v3 : Ref sig .tc := ⟨.hbm, 1112, rfl⟩
abbrev main_call42_c_1 : Ref sig .tc := ⟨.hbm, 1113, rfl⟩
abbrev main_call42_v4 : Ref sig .tc := ⟨.hbm, 1114, rfl⟩
abbrev main_call42_c_2 : Ref sig .tc := ⟨.hbm, 1115, rfl⟩
abbrev main_call42_v5 : Ref sig .tc := ⟨.hbm, 1116, rfl⟩
abbrev main_call42_v6 : Ref sig .tc := ⟨.hbm, 1117, rfl⟩
abbrev main_call42_v7 : Ref sig .tc := ⟨.hbm, 1118, rfl⟩
abbrev main_call42_v8 : Ref sig .tc := ⟨.hbm, 1119, rfl⟩
abbrev main_call42_c_3 : Ref sig .tc := ⟨.hbm, 1120, rfl⟩
abbrev main_call42_v9 : Ref sig .tc := ⟨.hbm, 1121, rfl⟩
abbrev main_call42_v10 : Ref sig .tc := ⟨.hbm, 1122, rfl⟩
abbrev main_call42_v11 : Ref sig .tc := ⟨.hbm, 1123, rfl⟩
abbrev main_call42_cst : Ref sig .tc := ⟨.hbm, 1124, rfl⟩
abbrev main_call42_v12 : Ref sig .tc := ⟨.hbm, 1125, rfl⟩
abbrev main_v355 : Ref sig .tc := ⟨.hbm, 1126, rfl⟩
abbrev main_c_62 : Ref sig .tc := ⟨.hbm, 1127, rfl⟩
abbrev main_call43_c : Ref sig .tc := ⟨.hbm, 1128, rfl⟩
abbrev main_call43_v0 : Ref sig .tc := ⟨.hbm, 1129, rfl⟩
abbrev main_call43_c_0 : Ref sig .tc := ⟨.hbm, 1130, rfl⟩
abbrev main_call43_v1 : Ref sig .tc := ⟨.hbm, 1131, rfl⟩
abbrev main_call43_v2 : Ref sig .tc := ⟨.hbm, 1132, rfl⟩
abbrev main_call43_v3 : Ref sig .tc := ⟨.hbm, 1133, rfl⟩
abbrev main_call43_c_1 : Ref sig .tc := ⟨.hbm, 1134, rfl⟩
abbrev main_call43_v4 : Ref sig .tc := ⟨.hbm, 1135, rfl⟩
abbrev main_call43_c_2 : Ref sig .tc := ⟨.hbm, 1136, rfl⟩
abbrev main_call43_v5 : Ref sig .tc := ⟨.hbm, 1137, rfl⟩
abbrev main_call43_v6 : Ref sig .tc := ⟨.hbm, 1138, rfl⟩
abbrev main_call43_v7 : Ref sig .tc := ⟨.hbm, 1139, rfl⟩
abbrev main_call43_v8 : Ref sig .tc := ⟨.hbm, 1140, rfl⟩
abbrev main_call43_c_3 : Ref sig .tc := ⟨.hbm, 1141, rfl⟩
abbrev main_call43_v9 : Ref sig .tc := ⟨.hbm, 1142, rfl⟩
abbrev main_call43_v10 : Ref sig .tc := ⟨.hbm, 1143, rfl⟩
abbrev main_call43_v11 : Ref sig .tc := ⟨.hbm, 1144, rfl⟩
abbrev main_call43_cst : Ref sig .tc := ⟨.hbm, 1145, rfl⟩
abbrev main_call43_v12 : Ref sig .tc := ⟨.hbm, 1146, rfl⟩
abbrev main_v356 : Ref sig .tc := ⟨.hbm, 1147, rfl⟩
abbrev main_v357 : Ref sig .tc := ⟨.hbm, 1148, rfl⟩
abbrev main_v358 : Ref sig .tc := ⟨.hbm, 1149, rfl⟩
abbrev main_v359 : Ref sig .tc := ⟨.hbm, 1150, rfl⟩
abbrev main_v360 : Ref sig .tc := ⟨.hbm, 1151, rfl⟩
abbrev main_v361 : Ref sig .tc := ⟨.hbm, 1152, rfl⟩
abbrev main_v362 : Ref sig .tc := ⟨.hbm, 1153, rfl⟩
abbrev main_v363 : Ref sig .tc := ⟨.hbm, 1154, rfl⟩
abbrev main_v364 : Ref sig .tc := ⟨.hbm, 1155, rfl⟩
abbrev main_v365 : Ref sig .tc := ⟨.hbm, 1156, rfl⟩
abbrev main_v366 : Ref sig .tc := ⟨.hbm, 1157, rfl⟩
abbrev main_v367 : Ref sig .tc := ⟨.hbm, 1158, rfl⟩
abbrev main_v368 : Ref sig .tc := ⟨.hbm, 1159, rfl⟩
abbrev main_v369 : Ref sig .tc := ⟨.hbm, 1160, rfl⟩
abbrev main_v370 : Ref sig .tc := ⟨.hbm, 1161, rfl⟩
abbrev main_v371 : Ref sig .tc := ⟨.hbm, 1162, rfl⟩
abbrev main_cst_63 : Ref sig .tc := ⟨.hbm, 1163, rfl⟩
abbrev main_v372 : Ref sig .tc := ⟨.hbm, 1164, rfl⟩
abbrev main_v373 : Ref sig .tc := ⟨.hbm, 1165, rfl⟩
abbrev main_cst_64 : Ref sig .tc := ⟨.hbm, 1166, rfl⟩
abbrev main_v374 : Ref sig .tc := ⟨.hbm, 1167, rfl⟩
abbrev main_v375 : Ref sig .tc := ⟨.hbm, 1168, rfl⟩
abbrev main_c_65 : Ref sig .tc := ⟨.hbm, 1169, rfl⟩
abbrev main_call44_c : Ref sig .tc := ⟨.hbm, 1170, rfl⟩
abbrev main_call44_v0 : Ref sig .tc := ⟨.hbm, 1171, rfl⟩
abbrev main_call44_c_0 : Ref sig .tc := ⟨.hbm, 1172, rfl⟩
abbrev main_call44_v1 : Ref sig .tc := ⟨.hbm, 1173, rfl⟩
abbrev main_call44_v2 : Ref sig .tc := ⟨.hbm, 1174, rfl⟩
abbrev main_call44_v3 : Ref sig .tc := ⟨.hbm, 1175, rfl⟩
abbrev main_call44_c_1 : Ref sig .tc := ⟨.hbm, 1176, rfl⟩
abbrev main_call44_v4 : Ref sig .tc := ⟨.hbm, 1177, rfl⟩
abbrev main_call44_c_2 : Ref sig .tc := ⟨.hbm, 1178, rfl⟩
abbrev main_call44_v5 : Ref sig .tc := ⟨.hbm, 1179, rfl⟩
abbrev main_call44_v6 : Ref sig .tc := ⟨.hbm, 1180, rfl⟩
abbrev main_call44_v7 : Ref sig .tc := ⟨.hbm, 1181, rfl⟩
abbrev main_call44_v8 : Ref sig .tc := ⟨.hbm, 1182, rfl⟩
abbrev main_call44_c_3 : Ref sig .tc := ⟨.hbm, 1183, rfl⟩
abbrev main_call44_v9 : Ref sig .tc := ⟨.hbm, 1184, rfl⟩
abbrev main_call44_v10 : Ref sig .tc := ⟨.hbm, 1185, rfl⟩
abbrev main_call44_v11 : Ref sig .tc := ⟨.hbm, 1186, rfl⟩
abbrev main_call44_cst : Ref sig .tc := ⟨.hbm, 1187, rfl⟩
abbrev main_call44_v12 : Ref sig .tc := ⟨.hbm, 1188, rfl⟩
abbrev main_v376 : Ref sig .tc := ⟨.hbm, 1189, rfl⟩
abbrev main_c_66 : Ref sig .tc := ⟨.hbm, 1190, rfl⟩
abbrev main_call45_c : Ref sig .tc := ⟨.hbm, 1191, rfl⟩
abbrev main_call45_v0 : Ref sig .tc := ⟨.hbm, 1192, rfl⟩
abbrev main_call45_c_0 : Ref sig .tc := ⟨.hbm, 1193, rfl⟩
abbrev main_call45_v1 : Ref sig .tc := ⟨.hbm, 1194, rfl⟩
abbrev main_call45_v2 : Ref sig .tc := ⟨.hbm, 1195, rfl⟩
abbrev main_call45_v3 : Ref sig .tc := ⟨.hbm, 1196, rfl⟩
abbrev main_call45_c_1 : Ref sig .tc := ⟨.hbm, 1197, rfl⟩
abbrev main_call45_v4 : Ref sig .tc := ⟨.hbm, 1198, rfl⟩
abbrev main_call45_c_2 : Ref sig .tc := ⟨.hbm, 1199, rfl⟩
abbrev main_call45_v5 : Ref sig .tc := ⟨.hbm, 1200, rfl⟩
abbrev main_call45_v6 : Ref sig .tc := ⟨.hbm, 1201, rfl⟩
abbrev main_call45_v7 : Ref sig .tc := ⟨.hbm, 1202, rfl⟩
abbrev main_call45_v8 : Ref sig .tc := ⟨.hbm, 1203, rfl⟩
abbrev main_call45_c_3 : Ref sig .tc := ⟨.hbm, 1204, rfl⟩
abbrev main_call45_v9 : Ref sig .tc := ⟨.hbm, 1205, rfl⟩
abbrev main_call45_v10 : Ref sig .tc := ⟨.hbm, 1206, rfl⟩
abbrev main_call45_v11 : Ref sig .tc := ⟨.hbm, 1207, rfl⟩
abbrev main_call45_cst : Ref sig .tc := ⟨.hbm, 1208, rfl⟩
abbrev main_call45_v12 : Ref sig .tc := ⟨.hbm, 1209, rfl⟩
abbrev main_v377 : Ref sig .tc := ⟨.hbm, 1210, rfl⟩
abbrev main_v378 : Ref sig .tc := ⟨.hbm, 1211, rfl⟩
abbrev main_v379 : Ref sig .tc := ⟨.hbm, 1212, rfl⟩
abbrev main_v380 : Ref sig .tc := ⟨.hbm, 1213, rfl⟩
abbrev main_v381 : Ref sig .tc := ⟨.hbm, 1214, rfl⟩
abbrev main_v382 : Ref sig .tc := ⟨.hbm, 1215, rfl⟩
abbrev main_v383 : Ref sig .tc := ⟨.hbm, 1216, rfl⟩
abbrev main_v384 : Ref sig .tc := ⟨.hbm, 1217, rfl⟩
abbrev main_v385 : Ref sig .tc := ⟨.hbm, 1218, rfl⟩
abbrev main_v386 : Ref sig .tc := ⟨.hbm, 1219, rfl⟩
abbrev main_v387 : Ref sig .tc := ⟨.hbm, 1220, rfl⟩
abbrev main_v388 : Ref sig .tc := ⟨.hbm, 1221, rfl⟩
abbrev main_v389 : Ref sig .tc := ⟨.hbm, 1222, rfl⟩
abbrev main_v390 : Ref sig .tc := ⟨.hbm, 1223, rfl⟩
abbrev main_c_67 : Ref sig .tc := ⟨.hbm, 1224, rfl⟩
abbrev main_call46_c : Ref sig .tc := ⟨.hbm, 1225, rfl⟩
abbrev main_call46_v0 : Ref sig .tc := ⟨.hbm, 1226, rfl⟩
abbrev main_call46_c_0 : Ref sig .tc := ⟨.hbm, 1227, rfl⟩
abbrev main_call46_v1 : Ref sig .tc := ⟨.hbm, 1228, rfl⟩
abbrev main_call46_v2 : Ref sig .tc := ⟨.hbm, 1229, rfl⟩
abbrev main_call46_v3 : Ref sig .tc := ⟨.hbm, 1230, rfl⟩
abbrev main_call46_c_1 : Ref sig .tc := ⟨.hbm, 1231, rfl⟩
abbrev main_call46_v4 : Ref sig .tc := ⟨.hbm, 1232, rfl⟩
abbrev main_call46_c_2 : Ref sig .tc := ⟨.hbm, 1233, rfl⟩
abbrev main_call46_v5 : Ref sig .tc := ⟨.hbm, 1234, rfl⟩
abbrev main_call46_v6 : Ref sig .tc := ⟨.hbm, 1235, rfl⟩
abbrev main_call46_v7 : Ref sig .tc := ⟨.hbm, 1236, rfl⟩
abbrev main_call46_v8 : Ref sig .tc := ⟨.hbm, 1237, rfl⟩
abbrev main_call46_c_3 : Ref sig .tc := ⟨.hbm, 1238, rfl⟩
abbrev main_call46_v9 : Ref sig .tc := ⟨.hbm, 1239, rfl⟩
abbrev main_call46_v10 : Ref sig .tc := ⟨.hbm, 1240, rfl⟩
abbrev main_call46_v11 : Ref sig .tc := ⟨.hbm, 1241, rfl⟩
abbrev main_call46_cst : Ref sig .tc := ⟨.hbm, 1242, rfl⟩
abbrev main_call46_v12 : Ref sig .tc := ⟨.hbm, 1243, rfl⟩
abbrev main_v391 : Ref sig .tc := ⟨.hbm, 1244, rfl⟩
abbrev main_c_68 : Ref sig .tc := ⟨.hbm, 1245, rfl⟩
abbrev main_call47_c : Ref sig .tc := ⟨.hbm, 1246, rfl⟩
abbrev main_call47_v0 : Ref sig .tc := ⟨.hbm, 1247, rfl⟩
abbrev main_call47_c_0 : Ref sig .tc := ⟨.hbm, 1248, rfl⟩
abbrev main_call47_v1 : Ref sig .tc := ⟨.hbm, 1249, rfl⟩
abbrev main_call47_v2 : Ref sig .tc := ⟨.hbm, 1250, rfl⟩
abbrev main_call47_v3 : Ref sig .tc := ⟨.hbm, 1251, rfl⟩
abbrev main_call47_c_1 : Ref sig .tc := ⟨.hbm, 1252, rfl⟩
abbrev main_call47_v4 : Ref sig .tc := ⟨.hbm, 1253, rfl⟩
abbrev main_call47_c_2 : Ref sig .tc := ⟨.hbm, 1254, rfl⟩
abbrev main_call47_v5 : Ref sig .tc := ⟨.hbm, 1255, rfl⟩
abbrev main_call47_v6 : Ref sig .tc := ⟨.hbm, 1256, rfl⟩
abbrev main_call47_v7 : Ref sig .tc := ⟨.hbm, 1257, rfl⟩
abbrev main_call47_v8 : Ref sig .tc := ⟨.hbm, 1258, rfl⟩
abbrev main_call47_c_3 : Ref sig .tc := ⟨.hbm, 1259, rfl⟩
abbrev main_call47_v9 : Ref sig .tc := ⟨.hbm, 1260, rfl⟩
abbrev main_call47_v10 : Ref sig .tc := ⟨.hbm, 1261, rfl⟩
abbrev main_call47_v11 : Ref sig .tc := ⟨.hbm, 1262, rfl⟩
abbrev main_call47_cst : Ref sig .tc := ⟨.hbm, 1263, rfl⟩
abbrev main_call47_v12 : Ref sig .tc := ⟨.hbm, 1264, rfl⟩
abbrev main_v392 : Ref sig .tc := ⟨.hbm, 1265, rfl⟩
abbrev main_v393 : Ref sig .tc := ⟨.hbm, 1266, rfl⟩
abbrev main_v394 : Ref sig .tc := ⟨.hbm, 1267, rfl⟩
abbrev main_v395 : Ref sig .tc := ⟨.hbm, 1268, rfl⟩
abbrev main_v396 : Ref sig .tc := ⟨.hbm, 1269, rfl⟩
abbrev main_v397 : Ref sig .tc := ⟨.hbm, 1270, rfl⟩
abbrev main_v398 : Ref sig .tc := ⟨.hbm, 1271, rfl⟩
abbrev main_cst_69 : Ref sig .tc := ⟨.hbm, 1272, rfl⟩
abbrev main_v399 : Ref sig .tc := ⟨.hbm, 1273, rfl⟩
abbrev main_v400 : Ref sig .tc := ⟨.hbm, 1274, rfl⟩
abbrev main_cst_70 : Ref sig .tc := ⟨.hbm, 1275, rfl⟩
abbrev main_v401 : Ref sig .tc := ⟨.hbm, 1276, rfl⟩
abbrev main_v402 : Ref sig .tc := ⟨.hbm, 1277, rfl⟩
abbrev main_c_71 : Ref sig .tc := ⟨.hbm, 1278, rfl⟩
abbrev main_call49_c : Ref sig .tc := ⟨.hbm, 1279, rfl⟩
abbrev main_call49_v0 : Ref sig .tc := ⟨.hbm, 1280, rfl⟩
abbrev main_call49_c_0 : Ref sig .tc := ⟨.hbm, 1281, rfl⟩
abbrev main_call49_v1 : Ref sig .tc := ⟨.hbm, 1282, rfl⟩
abbrev main_call49_v2 : Ref sig .tc := ⟨.hbm, 1283, rfl⟩
abbrev main_call49_v3 : Ref sig .tc := ⟨.hbm, 1284, rfl⟩
abbrev main_call49_c_1 : Ref sig .tc := ⟨.hbm, 1285, rfl⟩
abbrev main_call49_v4 : Ref sig .tc := ⟨.hbm, 1286, rfl⟩
abbrev main_call49_c_2 : Ref sig .tc := ⟨.hbm, 1287, rfl⟩
abbrev main_call49_v5 : Ref sig .tc := ⟨.hbm, 1288, rfl⟩
abbrev main_call49_v6 : Ref sig .tc := ⟨.hbm, 1289, rfl⟩
abbrev main_call49_v7 : Ref sig .tc := ⟨.hbm, 1290, rfl⟩
abbrev main_call49_v8 : Ref sig .tc := ⟨.hbm, 1291, rfl⟩
abbrev main_call49_c_3 : Ref sig .tc := ⟨.hbm, 1292, rfl⟩
abbrev main_call49_v9 : Ref sig .tc := ⟨.hbm, 1293, rfl⟩
abbrev main_call49_v10 : Ref sig .tc := ⟨.hbm, 1294, rfl⟩
abbrev main_call49_v11 : Ref sig .tc := ⟨.hbm, 1295, rfl⟩
abbrev main_call49_cst : Ref sig .tc := ⟨.hbm, 1296, rfl⟩
abbrev main_call49_v12 : Ref sig .tc := ⟨.hbm, 1297, rfl⟩
abbrev main_v403 : Ref sig .tc := ⟨.hbm, 1298, rfl⟩
abbrev main_c_72 : Ref sig .tc := ⟨.hbm, 1299, rfl⟩
abbrev main_call50_c : Ref sig .tc := ⟨.hbm, 1300, rfl⟩
abbrev main_call50_v0 : Ref sig .tc := ⟨.hbm, 1301, rfl⟩
abbrev main_call50_c_0 : Ref sig .tc := ⟨.hbm, 1302, rfl⟩
abbrev main_call50_v1 : Ref sig .tc := ⟨.hbm, 1303, rfl⟩
abbrev main_call50_v2 : Ref sig .tc := ⟨.hbm, 1304, rfl⟩
abbrev main_call50_v3 : Ref sig .tc := ⟨.hbm, 1305, rfl⟩
abbrev main_call50_c_1 : Ref sig .tc := ⟨.hbm, 1306, rfl⟩
abbrev main_call50_v4 : Ref sig .tc := ⟨.hbm, 1307, rfl⟩
abbrev main_call50_c_2 : Ref sig .tc := ⟨.hbm, 1308, rfl⟩
abbrev main_call50_v5 : Ref sig .tc := ⟨.hbm, 1309, rfl⟩
abbrev main_call50_v6 : Ref sig .tc := ⟨.hbm, 1310, rfl⟩
abbrev main_call50_v7 : Ref sig .tc := ⟨.hbm, 1311, rfl⟩
abbrev main_call50_v8 : Ref sig .tc := ⟨.hbm, 1312, rfl⟩
abbrev main_call50_c_3 : Ref sig .tc := ⟨.hbm, 1313, rfl⟩
abbrev main_call50_v9 : Ref sig .tc := ⟨.hbm, 1314, rfl⟩
abbrev main_call50_v10 : Ref sig .tc := ⟨.hbm, 1315, rfl⟩
abbrev main_call50_v11 : Ref sig .tc := ⟨.hbm, 1316, rfl⟩
abbrev main_call50_cst : Ref sig .tc := ⟨.hbm, 1317, rfl⟩
abbrev main_call50_v12 : Ref sig .tc := ⟨.hbm, 1318, rfl⟩
abbrev main_v404 : Ref sig .tc := ⟨.hbm, 1319, rfl⟩
abbrev main_v405 : Ref sig .tc := ⟨.hbm, 1320, rfl⟩
abbrev main_v406 : Ref sig .tc := ⟨.hbm, 1321, rfl⟩
abbrev main_v407 : Ref sig .tc := ⟨.hbm, 1322, rfl⟩
abbrev main_v408 : Ref sig .tc := ⟨.hbm, 1323, rfl⟩
abbrev main_v409 : Ref sig .tc := ⟨.hbm, 1324, rfl⟩
abbrev main_v410 : Ref sig .tc := ⟨.hbm, 1325, rfl⟩
abbrev main_v411 : Ref sig .tc := ⟨.hbm, 1326, rfl⟩
abbrev main_v412 : Ref sig .tc := ⟨.hbm, 1327, rfl⟩
abbrev main_v413 : Ref sig .tc := ⟨.hbm, 1328, rfl⟩
abbrev main_v414 : Ref sig .tc := ⟨.hbm, 1329, rfl⟩
abbrev main_v415 : Ref sig .tc := ⟨.hbm, 1330, rfl⟩
abbrev main_v416 : Ref sig .tc := ⟨.hbm, 1331, rfl⟩
abbrev main_v417 : Ref sig .tc := ⟨.hbm, 1332, rfl⟩
abbrev main_v418 : Ref sig .tc := ⟨.hbm, 1333, rfl⟩
abbrev main_v419 : Ref sig .tc := ⟨.hbm, 1334, rfl⟩
abbrev main_cst_73 : Ref sig .tc := ⟨.hbm, 1335, rfl⟩
abbrev main_v420 : Ref sig .tc := ⟨.hbm, 1336, rfl⟩
abbrev main_v421 : Ref sig .tc := ⟨.hbm, 1337, rfl⟩
abbrev main_cst_74 : Ref sig .tc := ⟨.hbm, 1338, rfl⟩
abbrev main_v422 : Ref sig .tc := ⟨.hbm, 1339, rfl⟩
abbrev main_v423 : Ref sig .tc := ⟨.hbm, 1340, rfl⟩
abbrev main_c_75 : Ref sig .tc := ⟨.hbm, 1341, rfl⟩
abbrev main_call51_c : Ref sig .tc := ⟨.hbm, 1342, rfl⟩
abbrev main_call51_v0 : Ref sig .tc := ⟨.hbm, 1343, rfl⟩
abbrev main_call51_c_0 : Ref sig .tc := ⟨.hbm, 1344, rfl⟩
abbrev main_call51_v1 : Ref sig .tc := ⟨.hbm, 1345, rfl⟩
abbrev main_call51_v2 : Ref sig .tc := ⟨.hbm, 1346, rfl⟩
abbrev main_call51_v3 : Ref sig .tc := ⟨.hbm, 1347, rfl⟩
abbrev main_call51_c_1 : Ref sig .tc := ⟨.hbm, 1348, rfl⟩
abbrev main_call51_v4 : Ref sig .tc := ⟨.hbm, 1349, rfl⟩
abbrev main_call51_c_2 : Ref sig .tc := ⟨.hbm, 1350, rfl⟩
abbrev main_call51_v5 : Ref sig .tc := ⟨.hbm, 1351, rfl⟩
abbrev main_call51_v6 : Ref sig .tc := ⟨.hbm, 1352, rfl⟩
abbrev main_call51_v7 : Ref sig .tc := ⟨.hbm, 1353, rfl⟩
abbrev main_call51_v8 : Ref sig .tc := ⟨.hbm, 1354, rfl⟩
abbrev main_call51_c_3 : Ref sig .tc := ⟨.hbm, 1355, rfl⟩
abbrev main_call51_v9 : Ref sig .tc := ⟨.hbm, 1356, rfl⟩
abbrev main_call51_v10 : Ref sig .tc := ⟨.hbm, 1357, rfl⟩
abbrev main_call51_v11 : Ref sig .tc := ⟨.hbm, 1358, rfl⟩
abbrev main_call51_cst : Ref sig .tc := ⟨.hbm, 1359, rfl⟩
abbrev main_call51_v12 : Ref sig .tc := ⟨.hbm, 1360, rfl⟩
abbrev main_v424 : Ref sig .tc := ⟨.hbm, 1361, rfl⟩
abbrev main_c_76 : Ref sig .tc := ⟨.hbm, 1362, rfl⟩
abbrev main_call52_c : Ref sig .tc := ⟨.hbm, 1363, rfl⟩
abbrev main_call52_v0 : Ref sig .tc := ⟨.hbm, 1364, rfl⟩
abbrev main_call52_c_0 : Ref sig .tc := ⟨.hbm, 1365, rfl⟩
abbrev main_call52_v1 : Ref sig .tc := ⟨.hbm, 1366, rfl⟩
abbrev main_call52_v2 : Ref sig .tc := ⟨.hbm, 1367, rfl⟩
abbrev main_call52_v3 : Ref sig .tc := ⟨.hbm, 1368, rfl⟩
abbrev main_call52_c_1 : Ref sig .tc := ⟨.hbm, 1369, rfl⟩
abbrev main_call52_v4 : Ref sig .tc := ⟨.hbm, 1370, rfl⟩
abbrev main_call52_c_2 : Ref sig .tc := ⟨.hbm, 1371, rfl⟩
abbrev main_call52_v5 : Ref sig .tc := ⟨.hbm, 1372, rfl⟩
abbrev main_call52_v6 : Ref sig .tc := ⟨.hbm, 1373, rfl⟩
abbrev main_call52_v7 : Ref sig .tc := ⟨.hbm, 1374, rfl⟩
abbrev main_call52_v8 : Ref sig .tc := ⟨.hbm, 1375, rfl⟩
abbrev main_call52_c_3 : Ref sig .tc := ⟨.hbm, 1376, rfl⟩
abbrev main_call52_v9 : Ref sig .tc := ⟨.hbm, 1377, rfl⟩
abbrev main_call52_v10 : Ref sig .tc := ⟨.hbm, 1378, rfl⟩
abbrev main_call52_v11 : Ref sig .tc := ⟨.hbm, 1379, rfl⟩
abbrev main_call52_cst : Ref sig .tc := ⟨.hbm, 1380, rfl⟩
abbrev main_call52_v12 : Ref sig .tc := ⟨.hbm, 1381, rfl⟩
abbrev main_v425 : Ref sig .tc := ⟨.hbm, 1382, rfl⟩
abbrev main_v426 : Ref sig .tc := ⟨.hbm, 1383, rfl⟩
abbrev main_v427 : Ref sig .tc := ⟨.hbm, 1384, rfl⟩
abbrev main_v428 : Ref sig .tc := ⟨.hbm, 1385, rfl⟩
abbrev main_v429 : Ref sig .tc := ⟨.hbm, 1386, rfl⟩
abbrev main_v430 : Ref sig .tc := ⟨.hbm, 1387, rfl⟩
abbrev main_v431 : Ref sig .tc := ⟨.hbm, 1388, rfl⟩
abbrev main_v432 : Ref sig .tc := ⟨.hbm, 1389, rfl⟩
abbrev main_v433 : Ref sig .tc := ⟨.hbm, 1390, rfl⟩
abbrev main_v434 : Ref sig .tc := ⟨.hbm, 1391, rfl⟩
abbrev main_v435 : Ref sig .tc := ⟨.hbm, 1392, rfl⟩
abbrev main_v436 : Ref sig .tc := ⟨.hbm, 1393, rfl⟩
abbrev main_v437 : Ref sig .tc := ⟨.hbm, 1394, rfl⟩
abbrev main_v438 : Ref sig .tc := ⟨.hbm, 1395, rfl⟩
abbrev main_c_77 : Ref sig .tc := ⟨.hbm, 1396, rfl⟩
abbrev main_call53_c : Ref sig .tc := ⟨.hbm, 1397, rfl⟩
abbrev main_call53_v0 : Ref sig .tc := ⟨.hbm, 1398, rfl⟩
abbrev main_call53_c_0 : Ref sig .tc := ⟨.hbm, 1399, rfl⟩
abbrev main_call53_v1 : Ref sig .tc := ⟨.hbm, 1400, rfl⟩
abbrev main_call53_v2 : Ref sig .tc := ⟨.hbm, 1401, rfl⟩
abbrev main_call53_v3 : Ref sig .tc := ⟨.hbm, 1402, rfl⟩
abbrev main_call53_c_1 : Ref sig .tc := ⟨.hbm, 1403, rfl⟩
abbrev main_call53_v4 : Ref sig .tc := ⟨.hbm, 1404, rfl⟩
abbrev main_call53_c_2 : Ref sig .tc := ⟨.hbm, 1405, rfl⟩
abbrev main_call53_v5 : Ref sig .tc := ⟨.hbm, 1406, rfl⟩
abbrev main_call53_v6 : Ref sig .tc := ⟨.hbm, 1407, rfl⟩
abbrev main_call53_v7 : Ref sig .tc := ⟨.hbm, 1408, rfl⟩
abbrev main_call53_v8 : Ref sig .tc := ⟨.hbm, 1409, rfl⟩
abbrev main_call53_c_3 : Ref sig .tc := ⟨.hbm, 1410, rfl⟩
abbrev main_call53_v9 : Ref sig .tc := ⟨.hbm, 1411, rfl⟩
abbrev main_call53_v10 : Ref sig .tc := ⟨.hbm, 1412, rfl⟩
abbrev main_call53_v11 : Ref sig .tc := ⟨.hbm, 1413, rfl⟩
abbrev main_call53_cst : Ref sig .tc := ⟨.hbm, 1414, rfl⟩
abbrev main_call53_v12 : Ref sig .tc := ⟨.hbm, 1415, rfl⟩
abbrev main_v439 : Ref sig .tc := ⟨.hbm, 1416, rfl⟩
abbrev main_c_78 : Ref sig .tc := ⟨.hbm, 1417, rfl⟩
abbrev main_call54_c : Ref sig .tc := ⟨.hbm, 1418, rfl⟩
abbrev main_call54_v0 : Ref sig .tc := ⟨.hbm, 1419, rfl⟩
abbrev main_call54_c_0 : Ref sig .tc := ⟨.hbm, 1420, rfl⟩
abbrev main_call54_v1 : Ref sig .tc := ⟨.hbm, 1421, rfl⟩
abbrev main_call54_v2 : Ref sig .tc := ⟨.hbm, 1422, rfl⟩
abbrev main_call54_v3 : Ref sig .tc := ⟨.hbm, 1423, rfl⟩
abbrev main_call54_c_1 : Ref sig .tc := ⟨.hbm, 1424, rfl⟩
abbrev main_call54_v4 : Ref sig .tc := ⟨.hbm, 1425, rfl⟩
abbrev main_call54_c_2 : Ref sig .tc := ⟨.hbm, 1426, rfl⟩
abbrev main_call54_v5 : Ref sig .tc := ⟨.hbm, 1427, rfl⟩
abbrev main_call54_v6 : Ref sig .tc := ⟨.hbm, 1428, rfl⟩
abbrev main_call54_v7 : Ref sig .tc := ⟨.hbm, 1429, rfl⟩
abbrev main_call54_v8 : Ref sig .tc := ⟨.hbm, 1430, rfl⟩
abbrev main_call54_c_3 : Ref sig .tc := ⟨.hbm, 1431, rfl⟩
abbrev main_call54_v9 : Ref sig .tc := ⟨.hbm, 1432, rfl⟩
abbrev main_call54_v10 : Ref sig .tc := ⟨.hbm, 1433, rfl⟩
abbrev main_call54_v11 : Ref sig .tc := ⟨.hbm, 1434, rfl⟩
abbrev main_call54_cst : Ref sig .tc := ⟨.hbm, 1435, rfl⟩
abbrev main_call54_v12 : Ref sig .tc := ⟨.hbm, 1436, rfl⟩
abbrev main_v440 : Ref sig .tc := ⟨.hbm, 1437, rfl⟩
abbrev main_v441 : Ref sig .tc := ⟨.hbm, 1438, rfl⟩
abbrev main_v442 : Ref sig .tc := ⟨.hbm, 1439, rfl⟩
abbrev main_v443 : Ref sig .tc := ⟨.hbm, 1440, rfl⟩
abbrev main_v444 : Ref sig .tc := ⟨.hbm, 1441, rfl⟩
abbrev main_v445 : Ref sig .tc := ⟨.hbm, 1442, rfl⟩
abbrev main_v446 : Ref sig .tc := ⟨.hbm, 1443, rfl⟩
abbrev main_cst_79 : Ref sig .tc := ⟨.hbm, 1444, rfl⟩
abbrev main_v447 : Ref sig .tc := ⟨.hbm, 1445, rfl⟩
abbrev main_v448 : Ref sig .tc := ⟨.hbm, 1446, rfl⟩
abbrev main_cst_80 : Ref sig .tc := ⟨.hbm, 1447, rfl⟩
abbrev main_v449 : Ref sig .tc := ⟨.hbm, 1448, rfl⟩
abbrev main_v450 : Ref sig .tc := ⟨.hbm, 1449, rfl⟩
abbrev main_c_81 : Ref sig .tc := ⟨.hbm, 1450, rfl⟩
abbrev main_call56_c : Ref sig .tc := ⟨.hbm, 1451, rfl⟩
abbrev main_call56_v0 : Ref sig .tc := ⟨.hbm, 1452, rfl⟩
abbrev main_call56_c_0 : Ref sig .tc := ⟨.hbm, 1453, rfl⟩
abbrev main_call56_v1 : Ref sig .tc := ⟨.hbm, 1454, rfl⟩
abbrev main_call56_v2 : Ref sig .tc := ⟨.hbm, 1455, rfl⟩
abbrev main_call56_v3 : Ref sig .tc := ⟨.hbm, 1456, rfl⟩
abbrev main_call56_c_1 : Ref sig .tc := ⟨.hbm, 1457, rfl⟩
abbrev main_call56_v4 : Ref sig .tc := ⟨.hbm, 1458, rfl⟩
abbrev main_call56_c_2 : Ref sig .tc := ⟨.hbm, 1459, rfl⟩
abbrev main_call56_v5 : Ref sig .tc := ⟨.hbm, 1460, rfl⟩
abbrev main_call56_v6 : Ref sig .tc := ⟨.hbm, 1461, rfl⟩
abbrev main_call56_v7 : Ref sig .tc := ⟨.hbm, 1462, rfl⟩
abbrev main_call56_v8 : Ref sig .tc := ⟨.hbm, 1463, rfl⟩
abbrev main_call56_c_3 : Ref sig .tc := ⟨.hbm, 1464, rfl⟩
abbrev main_call56_v9 : Ref sig .tc := ⟨.hbm, 1465, rfl⟩
abbrev main_call56_v10 : Ref sig .tc := ⟨.hbm, 1466, rfl⟩
abbrev main_call56_v11 : Ref sig .tc := ⟨.hbm, 1467, rfl⟩
abbrev main_call56_cst : Ref sig .tc := ⟨.hbm, 1468, rfl⟩
abbrev main_call56_v12 : Ref sig .tc := ⟨.hbm, 1469, rfl⟩
abbrev main_v451 : Ref sig .tc := ⟨.hbm, 1470, rfl⟩
abbrev main_c_82 : Ref sig .tc := ⟨.hbm, 1471, rfl⟩
abbrev main_call57_c : Ref sig .tc := ⟨.hbm, 1472, rfl⟩
abbrev main_call57_v0 : Ref sig .tc := ⟨.hbm, 1473, rfl⟩
abbrev main_call57_c_0 : Ref sig .tc := ⟨.hbm, 1474, rfl⟩
abbrev main_call57_v1 : Ref sig .tc := ⟨.hbm, 1475, rfl⟩
abbrev main_call57_v2 : Ref sig .tc := ⟨.hbm, 1476, rfl⟩
abbrev main_call57_v3 : Ref sig .tc := ⟨.hbm, 1477, rfl⟩
abbrev main_call57_c_1 : Ref sig .tc := ⟨.hbm, 1478, rfl⟩
abbrev main_call57_v4 : Ref sig .tc := ⟨.hbm, 1479, rfl⟩
abbrev main_call57_c_2 : Ref sig .tc := ⟨.hbm, 1480, rfl⟩
abbrev main_call57_v5 : Ref sig .tc := ⟨.hbm, 1481, rfl⟩
abbrev main_call57_v6 : Ref sig .tc := ⟨.hbm, 1482, rfl⟩
abbrev main_call57_v7 : Ref sig .tc := ⟨.hbm, 1483, rfl⟩
abbrev main_call57_v8 : Ref sig .tc := ⟨.hbm, 1484, rfl⟩
abbrev main_call57_c_3 : Ref sig .tc := ⟨.hbm, 1485, rfl⟩
abbrev main_call57_v9 : Ref sig .tc := ⟨.hbm, 1486, rfl⟩
abbrev main_call57_v10 : Ref sig .tc := ⟨.hbm, 1487, rfl⟩
abbrev main_call57_v11 : Ref sig .tc := ⟨.hbm, 1488, rfl⟩
abbrev main_call57_cst : Ref sig .tc := ⟨.hbm, 1489, rfl⟩
abbrev main_call57_v12 : Ref sig .tc := ⟨.hbm, 1490, rfl⟩
abbrev main_v452 : Ref sig .tc := ⟨.hbm, 1491, rfl⟩
abbrev main_v453 : Ref sig .tc := ⟨.hbm, 1492, rfl⟩
abbrev main_v454 : Ref sig .tc := ⟨.hbm, 1493, rfl⟩
abbrev main_v455 : Ref sig .tc := ⟨.hbm, 1494, rfl⟩
abbrev main_v456 : Ref sig .tc := ⟨.hbm, 1495, rfl⟩
abbrev main_v457 : Ref sig .tc := ⟨.hbm, 1496, rfl⟩
abbrev main_v458 : Ref sig .tc := ⟨.hbm, 1497, rfl⟩
abbrev main_v459 : Ref sig .tc := ⟨.hbm, 1498, rfl⟩
abbrev main_v460 : Ref sig .tc := ⟨.hbm, 1499, rfl⟩
abbrev main_v461 : Ref sig .tc := ⟨.hbm, 1500, rfl⟩
abbrev main_v462 : Ref sig .tc := ⟨.hbm, 1501, rfl⟩
abbrev main_v463 : Ref sig .tc := ⟨.hbm, 1502, rfl⟩
abbrev main_v464 : Ref sig .tc := ⟨.hbm, 1503, rfl⟩
abbrev main_v465 : Ref sig .tc := ⟨.hbm, 1504, rfl⟩
abbrev main_v466 : Ref sig .tc := ⟨.hbm, 1505, rfl⟩
abbrev main_v467 : Ref sig .tc := ⟨.hbm, 1506, rfl⟩
abbrev main_cst_83 : Ref sig .tc := ⟨.hbm, 1507, rfl⟩
abbrev main_v468 : Ref sig .tc := ⟨.hbm, 1508, rfl⟩
abbrev main_v469 : Ref sig .tc := ⟨.hbm, 1509, rfl⟩
abbrev main_cst_84 : Ref sig .tc := ⟨.hbm, 1510, rfl⟩
abbrev main_v470 : Ref sig .tc := ⟨.hbm, 1511, rfl⟩
abbrev main_v471 : Ref sig .tc := ⟨.hbm, 1512, rfl⟩
abbrev main_c_85 : Ref sig .tc := ⟨.hbm, 1513, rfl⟩
abbrev main_call58_c : Ref sig .tc := ⟨.hbm, 1514, rfl⟩
abbrev main_call58_v0 : Ref sig .tc := ⟨.hbm, 1515, rfl⟩
abbrev main_call58_c_0 : Ref sig .tc := ⟨.hbm, 1516, rfl⟩
abbrev main_call58_v1 : Ref sig .tc := ⟨.hbm, 1517, rfl⟩
abbrev main_call58_v2 : Ref sig .tc := ⟨.hbm, 1518, rfl⟩
abbrev main_call58_v3 : Ref sig .tc := ⟨.hbm, 1519, rfl⟩
abbrev main_call58_c_1 : Ref sig .tc := ⟨.hbm, 1520, rfl⟩
abbrev main_call58_v4 : Ref sig .tc := ⟨.hbm, 1521, rfl⟩
abbrev main_call58_c_2 : Ref sig .tc := ⟨.hbm, 1522, rfl⟩
abbrev main_call58_v5 : Ref sig .tc := ⟨.hbm, 1523, rfl⟩
abbrev main_call58_v6 : Ref sig .tc := ⟨.hbm, 1524, rfl⟩
abbrev main_call58_v7 : Ref sig .tc := ⟨.hbm, 1525, rfl⟩
abbrev main_call58_v8 : Ref sig .tc := ⟨.hbm, 1526, rfl⟩
abbrev main_call58_c_3 : Ref sig .tc := ⟨.hbm, 1527, rfl⟩
abbrev main_call58_v9 : Ref sig .tc := ⟨.hbm, 1528, rfl⟩
abbrev main_call58_v10 : Ref sig .tc := ⟨.hbm, 1529, rfl⟩
abbrev main_call58_v11 : Ref sig .tc := ⟨.hbm, 1530, rfl⟩
abbrev main_call58_cst : Ref sig .tc := ⟨.hbm, 1531, rfl⟩
abbrev main_call58_v12 : Ref sig .tc := ⟨.hbm, 1532, rfl⟩
abbrev main_v472 : Ref sig .tc := ⟨.hbm, 1533, rfl⟩
abbrev main_c_86 : Ref sig .tc := ⟨.hbm, 1534, rfl⟩
abbrev main_call59_c : Ref sig .tc := ⟨.hbm, 1535, rfl⟩
abbrev main_call59_v0 : Ref sig .tc := ⟨.hbm, 1536, rfl⟩
abbrev main_call59_c_0 : Ref sig .tc := ⟨.hbm, 1537, rfl⟩
abbrev main_call59_v1 : Ref sig .tc := ⟨.hbm, 1538, rfl⟩
abbrev main_call59_v2 : Ref sig .tc := ⟨.hbm, 1539, rfl⟩
abbrev main_call59_v3 : Ref sig .tc := ⟨.hbm, 1540, rfl⟩
abbrev main_call59_c_1 : Ref sig .tc := ⟨.hbm, 1541, rfl⟩
abbrev main_call59_v4 : Ref sig .tc := ⟨.hbm, 1542, rfl⟩
abbrev main_call59_c_2 : Ref sig .tc := ⟨.hbm, 1543, rfl⟩
abbrev main_call59_v5 : Ref sig .tc := ⟨.hbm, 1544, rfl⟩
abbrev main_call59_v6 : Ref sig .tc := ⟨.hbm, 1545, rfl⟩
abbrev main_call59_v7 : Ref sig .tc := ⟨.hbm, 1546, rfl⟩
abbrev main_call59_v8 : Ref sig .tc := ⟨.hbm, 1547, rfl⟩
abbrev main_call59_c_3 : Ref sig .tc := ⟨.hbm, 1548, rfl⟩
abbrev main_call59_v9 : Ref sig .tc := ⟨.hbm, 1549, rfl⟩
abbrev main_call59_v10 : Ref sig .tc := ⟨.hbm, 1550, rfl⟩
abbrev main_call59_v11 : Ref sig .tc := ⟨.hbm, 1551, rfl⟩
abbrev main_call59_cst : Ref sig .tc := ⟨.hbm, 1552, rfl⟩
abbrev main_call59_v12 : Ref sig .tc := ⟨.hbm, 1553, rfl⟩
abbrev main_v473 : Ref sig .tc := ⟨.hbm, 1554, rfl⟩
abbrev main_v474 : Ref sig .tc := ⟨.hbm, 1555, rfl⟩
abbrev main_v475 : Ref sig .tc := ⟨.hbm, 1556, rfl⟩
abbrev main_v476 : Ref sig .tc := ⟨.hbm, 1557, rfl⟩
abbrev main_v477 : Ref sig .tc := ⟨.hbm, 1558, rfl⟩
abbrev main_v478 : Ref sig .tc := ⟨.hbm, 1559, rfl⟩
abbrev main_v479 : Ref sig .tc := ⟨.hbm, 1560, rfl⟩
abbrev main_v480 : Ref sig .tc := ⟨.hbm, 1561, rfl⟩
abbrev main_v481 : Ref sig .tc := ⟨.hbm, 1562, rfl⟩
abbrev main_v482 : Ref sig .tc := ⟨.hbm, 1563, rfl⟩
abbrev main_v483 : Ref sig .tc := ⟨.hbm, 1564, rfl⟩
abbrev main_v484 : Ref sig .tc := ⟨.hbm, 1565, rfl⟩
abbrev main_v485 : Ref sig .tc := ⟨.hbm, 1566, rfl⟩
abbrev main_v486 : Ref sig .tc := ⟨.hbm, 1567, rfl⟩
abbrev main_c_87 : Ref sig .tc := ⟨.hbm, 1568, rfl⟩
abbrev main_call60_c : Ref sig .tc := ⟨.hbm, 1569, rfl⟩
abbrev main_call60_v0 : Ref sig .tc := ⟨.hbm, 1570, rfl⟩
abbrev main_call60_c_0 : Ref sig .tc := ⟨.hbm, 1571, rfl⟩
abbrev main_call60_v1 : Ref sig .tc := ⟨.hbm, 1572, rfl⟩
abbrev main_call60_v2 : Ref sig .tc := ⟨.hbm, 1573, rfl⟩
abbrev main_call60_v3 : Ref sig .tc := ⟨.hbm, 1574, rfl⟩
abbrev main_call60_c_1 : Ref sig .tc := ⟨.hbm, 1575, rfl⟩
abbrev main_call60_v4 : Ref sig .tc := ⟨.hbm, 1576, rfl⟩
abbrev main_call60_c_2 : Ref sig .tc := ⟨.hbm, 1577, rfl⟩
abbrev main_call60_v5 : Ref sig .tc := ⟨.hbm, 1578, rfl⟩
abbrev main_call60_v6 : Ref sig .tc := ⟨.hbm, 1579, rfl⟩
abbrev main_call60_v7 : Ref sig .tc := ⟨.hbm, 1580, rfl⟩
abbrev main_call60_v8 : Ref sig .tc := ⟨.hbm, 1581, rfl⟩
abbrev main_call60_c_3 : Ref sig .tc := ⟨.hbm, 1582, rfl⟩
abbrev main_call60_v9 : Ref sig .tc := ⟨.hbm, 1583, rfl⟩
abbrev main_call60_v10 : Ref sig .tc := ⟨.hbm, 1584, rfl⟩
abbrev main_call60_v11 : Ref sig .tc := ⟨.hbm, 1585, rfl⟩
abbrev main_call60_cst : Ref sig .tc := ⟨.hbm, 1586, rfl⟩
abbrev main_call60_v12 : Ref sig .tc := ⟨.hbm, 1587, rfl⟩
abbrev main_v487 : Ref sig .tc := ⟨.hbm, 1588, rfl⟩
abbrev main_c_88 : Ref sig .tc := ⟨.hbm, 1589, rfl⟩
abbrev main_call61_c : Ref sig .tc := ⟨.hbm, 1590, rfl⟩
abbrev main_call61_v0 : Ref sig .tc := ⟨.hbm, 1591, rfl⟩
abbrev main_call61_c_0 : Ref sig .tc := ⟨.hbm, 1592, rfl⟩
abbrev main_call61_v1 : Ref sig .tc := ⟨.hbm, 1593, rfl⟩
abbrev main_call61_v2 : Ref sig .tc := ⟨.hbm, 1594, rfl⟩
abbrev main_call61_v3 : Ref sig .tc := ⟨.hbm, 1595, rfl⟩
abbrev main_call61_c_1 : Ref sig .tc := ⟨.hbm, 1596, rfl⟩
abbrev main_call61_v4 : Ref sig .tc := ⟨.hbm, 1597, rfl⟩
abbrev main_call61_c_2 : Ref sig .tc := ⟨.hbm, 1598, rfl⟩
abbrev main_call61_v5 : Ref sig .tc := ⟨.hbm, 1599, rfl⟩
abbrev main_call61_v6 : Ref sig .tc := ⟨.hbm, 1600, rfl⟩
abbrev main_call61_v7 : Ref sig .tc := ⟨.hbm, 1601, rfl⟩
abbrev main_call61_v8 : Ref sig .tc := ⟨.hbm, 1602, rfl⟩
abbrev main_call61_c_3 : Ref sig .tc := ⟨.hbm, 1603, rfl⟩
abbrev main_call61_v9 : Ref sig .tc := ⟨.hbm, 1604, rfl⟩
abbrev main_call61_v10 : Ref sig .tc := ⟨.hbm, 1605, rfl⟩
abbrev main_call61_v11 : Ref sig .tc := ⟨.hbm, 1606, rfl⟩
abbrev main_call61_cst : Ref sig .tc := ⟨.hbm, 1607, rfl⟩
abbrev main_call61_v12 : Ref sig .tc := ⟨.hbm, 1608, rfl⟩
abbrev main_v488 : Ref sig .tc := ⟨.hbm, 1609, rfl⟩
abbrev main_v489 : Ref sig .tc := ⟨.hbm, 1610, rfl⟩
abbrev main_v490 : Ref sig .tc := ⟨.hbm, 1611, rfl⟩
abbrev main_v491 : Ref sig .tc := ⟨.hbm, 1612, rfl⟩
abbrev main_v492 : Ref sig .tc := ⟨.hbm, 1613, rfl⟩
abbrev main_v493 : Ref sig .tc := ⟨.hbm, 1614, rfl⟩
abbrev main_v494 : Ref sig .tc := ⟨.hbm, 1615, rfl⟩
abbrev main_cst_89 : Ref sig .tc := ⟨.hbm, 1616, rfl⟩
abbrev main_v495 : Ref sig .tc := ⟨.hbm, 1617, rfl⟩
abbrev main_v496 : Ref sig .tc := ⟨.hbm, 1618, rfl⟩
abbrev main_cst_90 : Ref sig .tc := ⟨.hbm, 1619, rfl⟩
abbrev main_v497 : Ref sig .tc := ⟨.hbm, 1620, rfl⟩
abbrev main_v498 : Ref sig .tc := ⟨.hbm, 1621, rfl⟩
abbrev main_c_91 : Ref sig .tc := ⟨.hbm, 1622, rfl⟩
abbrev main_call63_c : Ref sig .tc := ⟨.hbm, 1623, rfl⟩
abbrev main_call63_v0 : Ref sig .tc := ⟨.hbm, 1624, rfl⟩
abbrev main_call63_c_0 : Ref sig .tc := ⟨.hbm, 1625, rfl⟩
abbrev main_call63_v1 : Ref sig .tc := ⟨.hbm, 1626, rfl⟩
abbrev main_call63_v2 : Ref sig .tc := ⟨.hbm, 1627, rfl⟩
abbrev main_call63_v3 : Ref sig .tc := ⟨.hbm, 1628, rfl⟩
abbrev main_call63_c_1 : Ref sig .tc := ⟨.hbm, 1629, rfl⟩
abbrev main_call63_v4 : Ref sig .tc := ⟨.hbm, 1630, rfl⟩
abbrev main_call63_c_2 : Ref sig .tc := ⟨.hbm, 1631, rfl⟩
abbrev main_call63_v5 : Ref sig .tc := ⟨.hbm, 1632, rfl⟩
abbrev main_call63_v6 : Ref sig .tc := ⟨.hbm, 1633, rfl⟩
abbrev main_call63_v7 : Ref sig .tc := ⟨.hbm, 1634, rfl⟩
abbrev main_call63_v8 : Ref sig .tc := ⟨.hbm, 1635, rfl⟩
abbrev main_call63_c_3 : Ref sig .tc := ⟨.hbm, 1636, rfl⟩
abbrev main_call63_v9 : Ref sig .tc := ⟨.hbm, 1637, rfl⟩
abbrev main_call63_v10 : Ref sig .tc := ⟨.hbm, 1638, rfl⟩
abbrev main_call63_v11 : Ref sig .tc := ⟨.hbm, 1639, rfl⟩
abbrev main_call63_cst : Ref sig .tc := ⟨.hbm, 1640, rfl⟩
abbrev main_call63_v12 : Ref sig .tc := ⟨.hbm, 1641, rfl⟩
abbrev main_v499 : Ref sig .tc := ⟨.hbm, 1642, rfl⟩
abbrev main_c_92 : Ref sig .tc := ⟨.hbm, 1643, rfl⟩
abbrev main_call64_c : Ref sig .tc := ⟨.hbm, 1644, rfl⟩
abbrev main_call64_v0 : Ref sig .tc := ⟨.hbm, 1645, rfl⟩
abbrev main_call64_c_0 : Ref sig .tc := ⟨.hbm, 1646, rfl⟩
abbrev main_call64_v1 : Ref sig .tc := ⟨.hbm, 1647, rfl⟩
abbrev main_call64_v2 : Ref sig .tc := ⟨.hbm, 1648, rfl⟩
abbrev main_call64_v3 : Ref sig .tc := ⟨.hbm, 1649, rfl⟩
abbrev main_call64_c_1 : Ref sig .tc := ⟨.hbm, 1650, rfl⟩
abbrev main_call64_v4 : Ref sig .tc := ⟨.hbm, 1651, rfl⟩
abbrev main_call64_c_2 : Ref sig .tc := ⟨.hbm, 1652, rfl⟩
abbrev main_call64_v5 : Ref sig .tc := ⟨.hbm, 1653, rfl⟩
abbrev main_call64_v6 : Ref sig .tc := ⟨.hbm, 1654, rfl⟩
abbrev main_call64_v7 : Ref sig .tc := ⟨.hbm, 1655, rfl⟩
abbrev main_call64_v8 : Ref sig .tc := ⟨.hbm, 1656, rfl⟩
abbrev main_call64_c_3 : Ref sig .tc := ⟨.hbm, 1657, rfl⟩
abbrev main_call64_v9 : Ref sig .tc := ⟨.hbm, 1658, rfl⟩
abbrev main_call64_v10 : Ref sig .tc := ⟨.hbm, 1659, rfl⟩
abbrev main_call64_v11 : Ref sig .tc := ⟨.hbm, 1660, rfl⟩
abbrev main_call64_cst : Ref sig .tc := ⟨.hbm, 1661, rfl⟩
abbrev main_call64_v12 : Ref sig .tc := ⟨.hbm, 1662, rfl⟩
abbrev main_v500 : Ref sig .tc := ⟨.hbm, 1663, rfl⟩
abbrev main_v501 : Ref sig .tc := ⟨.hbm, 1664, rfl⟩
abbrev main_v502 : Ref sig .tc := ⟨.hbm, 1665, rfl⟩
abbrev main_v503 : Ref sig .tc := ⟨.hbm, 1666, rfl⟩
abbrev main_v504 : Ref sig .tc := ⟨.hbm, 1667, rfl⟩
abbrev main_v505 : Ref sig .tc := ⟨.hbm, 1668, rfl⟩
abbrev main_v506 : Ref sig .tc := ⟨.hbm, 1669, rfl⟩
abbrev main_v507 : Ref sig .tc := ⟨.hbm, 1670, rfl⟩
abbrev main_v508 : Ref sig .tc := ⟨.hbm, 1671, rfl⟩
abbrev main_v509 : Ref sig .tc := ⟨.hbm, 1672, rfl⟩
abbrev main_v510 : Ref sig .tc := ⟨.hbm, 1673, rfl⟩
abbrev main_v511 : Ref sig .tc := ⟨.hbm, 1674, rfl⟩
abbrev main_v512 : Ref sig .tc := ⟨.hbm, 1675, rfl⟩
abbrev main_v513 : Ref sig .tc := ⟨.hbm, 1676, rfl⟩
abbrev main_v514 : Ref sig .tc := ⟨.hbm, 1677, rfl⟩
abbrev main_v515 : Ref sig .tc := ⟨.hbm, 1678, rfl⟩
abbrev main_cst_93 : Ref sig .tc := ⟨.hbm, 1679, rfl⟩
abbrev main_v516 : Ref sig .tc := ⟨.hbm, 1680, rfl⟩
abbrev main_v517 : Ref sig .tc := ⟨.hbm, 1681, rfl⟩
abbrev main_cst_94 : Ref sig .tc := ⟨.hbm, 1682, rfl⟩
abbrev main_v518 : Ref sig .tc := ⟨.hbm, 1683, rfl⟩
abbrev main_v519 : Ref sig .tc := ⟨.hbm, 1684, rfl⟩
abbrev main_c_95 : Ref sig .tc := ⟨.hbm, 1685, rfl⟩
abbrev main_call65_c : Ref sig .tc := ⟨.hbm, 1686, rfl⟩
abbrev main_call65_v0 : Ref sig .tc := ⟨.hbm, 1687, rfl⟩
abbrev main_call65_c_0 : Ref sig .tc := ⟨.hbm, 1688, rfl⟩
abbrev main_call65_v1 : Ref sig .tc := ⟨.hbm, 1689, rfl⟩
abbrev main_call65_v2 : Ref sig .tc := ⟨.hbm, 1690, rfl⟩
abbrev main_call65_v3 : Ref sig .tc := ⟨.hbm, 1691, rfl⟩
abbrev main_call65_c_1 : Ref sig .tc := ⟨.hbm, 1692, rfl⟩
abbrev main_call65_v4 : Ref sig .tc := ⟨.hbm, 1693, rfl⟩
abbrev main_call65_c_2 : Ref sig .tc := ⟨.hbm, 1694, rfl⟩
abbrev main_call65_v5 : Ref sig .tc := ⟨.hbm, 1695, rfl⟩
abbrev main_call65_v6 : Ref sig .tc := ⟨.hbm, 1696, rfl⟩
abbrev main_call65_v7 : Ref sig .tc := ⟨.hbm, 1697, rfl⟩
abbrev main_call65_v8 : Ref sig .tc := ⟨.hbm, 1698, rfl⟩
abbrev main_call65_c_3 : Ref sig .tc := ⟨.hbm, 1699, rfl⟩
abbrev main_call65_v9 : Ref sig .tc := ⟨.hbm, 1700, rfl⟩
abbrev main_call65_v10 : Ref sig .tc := ⟨.hbm, 1701, rfl⟩
abbrev main_call65_v11 : Ref sig .tc := ⟨.hbm, 1702, rfl⟩
abbrev main_call65_cst : Ref sig .tc := ⟨.hbm, 1703, rfl⟩
abbrev main_call65_v12 : Ref sig .tc := ⟨.hbm, 1704, rfl⟩
abbrev main_v520 : Ref sig .tc := ⟨.hbm, 1705, rfl⟩
abbrev main_c_96 : Ref sig .tc := ⟨.hbm, 1706, rfl⟩
abbrev main_call66_c : Ref sig .tc := ⟨.hbm, 1707, rfl⟩
abbrev main_call66_v0 : Ref sig .tc := ⟨.hbm, 1708, rfl⟩
abbrev main_call66_c_0 : Ref sig .tc := ⟨.hbm, 1709, rfl⟩
abbrev main_call66_v1 : Ref sig .tc := ⟨.hbm, 1710, rfl⟩
abbrev main_call66_v2 : Ref sig .tc := ⟨.hbm, 1711, rfl⟩
abbrev main_call66_v3 : Ref sig .tc := ⟨.hbm, 1712, rfl⟩
abbrev main_call66_c_1 : Ref sig .tc := ⟨.hbm, 1713, rfl⟩
abbrev main_call66_v4 : Ref sig .tc := ⟨.hbm, 1714, rfl⟩
abbrev main_call66_c_2 : Ref sig .tc := ⟨.hbm, 1715, rfl⟩
abbrev main_call66_v5 : Ref sig .tc := ⟨.hbm, 1716, rfl⟩
abbrev main_call66_v6 : Ref sig .tc := ⟨.hbm, 1717, rfl⟩
abbrev main_call66_v7 : Ref sig .tc := ⟨.hbm, 1718, rfl⟩
abbrev main_call66_v8 : Ref sig .tc := ⟨.hbm, 1719, rfl⟩
abbrev main_call66_c_3 : Ref sig .tc := ⟨.hbm, 1720, rfl⟩
abbrev main_call66_v9 : Ref sig .tc := ⟨.hbm, 1721, rfl⟩
abbrev main_call66_v10 : Ref sig .tc := ⟨.hbm, 1722, rfl⟩
abbrev main_call66_v11 : Ref sig .tc := ⟨.hbm, 1723, rfl⟩
abbrev main_call66_cst : Ref sig .tc := ⟨.hbm, 1724, rfl⟩
abbrev main_call66_v12 : Ref sig .tc := ⟨.hbm, 1725, rfl⟩
abbrev main_v521 : Ref sig .tc := ⟨.hbm, 1726, rfl⟩
abbrev main_v522 : Ref sig .tc := ⟨.hbm, 1727, rfl⟩
abbrev main_v523 : Ref sig .tc := ⟨.hbm, 1728, rfl⟩
abbrev main_v524 : Ref sig .tc := ⟨.hbm, 1729, rfl⟩
abbrev main_v525 : Ref sig .tc := ⟨.hbm, 1730, rfl⟩
abbrev main_v526 : Ref sig .tc := ⟨.hbm, 1731, rfl⟩
abbrev main_v527 : Ref sig .tc := ⟨.hbm, 1732, rfl⟩
abbrev main_v528 : Ref sig .tc := ⟨.hbm, 1733, rfl⟩
abbrev main_v529 : Ref sig .tc := ⟨.hbm, 1734, rfl⟩
abbrev main_v530 : Ref sig .tc := ⟨.hbm, 1735, rfl⟩
abbrev main_v531 : Ref sig .tc := ⟨.hbm, 1736, rfl⟩
abbrev main_v532 : Ref sig .tc := ⟨.hbm, 1737, rfl⟩
abbrev main_v533 : Ref sig .tc := ⟨.hbm, 1738, rfl⟩
abbrev main_v534 : Ref sig .tc := ⟨.hbm, 1739, rfl⟩
abbrev main_c_97 : Ref sig .tc := ⟨.hbm, 1740, rfl⟩
abbrev main_call67_c : Ref sig .tc := ⟨.hbm, 1741, rfl⟩
abbrev main_call67_v0 : Ref sig .tc := ⟨.hbm, 1742, rfl⟩
abbrev main_call67_c_0 : Ref sig .tc := ⟨.hbm, 1743, rfl⟩
abbrev main_call67_v1 : Ref sig .tc := ⟨.hbm, 1744, rfl⟩
abbrev main_call67_v2 : Ref sig .tc := ⟨.hbm, 1745, rfl⟩
abbrev main_call67_v3 : Ref sig .tc := ⟨.hbm, 1746, rfl⟩
abbrev main_call67_c_1 : Ref sig .tc := ⟨.hbm, 1747, rfl⟩
abbrev main_call67_v4 : Ref sig .tc := ⟨.hbm, 1748, rfl⟩
abbrev main_call67_c_2 : Ref sig .tc := ⟨.hbm, 1749, rfl⟩
abbrev main_call67_v5 : Ref sig .tc := ⟨.hbm, 1750, rfl⟩
abbrev main_call67_v6 : Ref sig .tc := ⟨.hbm, 1751, rfl⟩
abbrev main_call67_v7 : Ref sig .tc := ⟨.hbm, 1752, rfl⟩
abbrev main_call67_v8 : Ref sig .tc := ⟨.hbm, 1753, rfl⟩
abbrev main_call67_c_3 : Ref sig .tc := ⟨.hbm, 1754, rfl⟩
abbrev main_call67_v9 : Ref sig .tc := ⟨.hbm, 1755, rfl⟩
abbrev main_call67_v10 : Ref sig .tc := ⟨.hbm, 1756, rfl⟩
abbrev main_call67_v11 : Ref sig .tc := ⟨.hbm, 1757, rfl⟩
abbrev main_call67_cst : Ref sig .tc := ⟨.hbm, 1758, rfl⟩
abbrev main_call67_v12 : Ref sig .tc := ⟨.hbm, 1759, rfl⟩
abbrev main_v535 : Ref sig .tc := ⟨.hbm, 1760, rfl⟩
abbrev main_c_98 : Ref sig .tc := ⟨.hbm, 1761, rfl⟩
abbrev main_call68_c : Ref sig .tc := ⟨.hbm, 1762, rfl⟩
abbrev main_call68_v0 : Ref sig .tc := ⟨.hbm, 1763, rfl⟩
abbrev main_call68_c_0 : Ref sig .tc := ⟨.hbm, 1764, rfl⟩
abbrev main_call68_v1 : Ref sig .tc := ⟨.hbm, 1765, rfl⟩
abbrev main_call68_v2 : Ref sig .tc := ⟨.hbm, 1766, rfl⟩
abbrev main_call68_v3 : Ref sig .tc := ⟨.hbm, 1767, rfl⟩
abbrev main_call68_c_1 : Ref sig .tc := ⟨.hbm, 1768, rfl⟩
abbrev main_call68_v4 : Ref sig .tc := ⟨.hbm, 1769, rfl⟩
abbrev main_call68_c_2 : Ref sig .tc := ⟨.hbm, 1770, rfl⟩
abbrev main_call68_v5 : Ref sig .tc := ⟨.hbm, 1771, rfl⟩
abbrev main_call68_v6 : Ref sig .tc := ⟨.hbm, 1772, rfl⟩
abbrev main_call68_v7 : Ref sig .tc := ⟨.hbm, 1773, rfl⟩
abbrev main_call68_v8 : Ref sig .tc := ⟨.hbm, 1774, rfl⟩
abbrev main_call68_c_3 : Ref sig .tc := ⟨.hbm, 1775, rfl⟩
abbrev main_call68_v9 : Ref sig .tc := ⟨.hbm, 1776, rfl⟩
abbrev main_call68_v10 : Ref sig .tc := ⟨.hbm, 1777, rfl⟩
abbrev main_call68_v11 : Ref sig .tc := ⟨.hbm, 1778, rfl⟩
abbrev main_call68_cst : Ref sig .tc := ⟨.hbm, 1779, rfl⟩
abbrev main_call68_v12 : Ref sig .tc := ⟨.hbm, 1780, rfl⟩
abbrev main_v536 : Ref sig .tc := ⟨.hbm, 1781, rfl⟩
abbrev main_v537 : Ref sig .tc := ⟨.hbm, 1782, rfl⟩
abbrev main_v538 : Ref sig .tc := ⟨.hbm, 1783, rfl⟩
abbrev main_v539 : Ref sig .tc := ⟨.hbm, 1784, rfl⟩
abbrev main_v540 : Ref sig .tc := ⟨.hbm, 1785, rfl⟩
abbrev main_v541 : Ref sig .tc := ⟨.hbm, 1786, rfl⟩
abbrev main_v542 : Ref sig .tc := ⟨.hbm, 1787, rfl⟩
abbrev main_cst_99 : Ref sig .tc := ⟨.hbm, 1788, rfl⟩
abbrev main_v543 : Ref sig .tc := ⟨.hbm, 1789, rfl⟩
abbrev main_v544 : Ref sig .tc := ⟨.hbm, 1790, rfl⟩
abbrev main_cst_100 : Ref sig .tc := ⟨.hbm, 1791, rfl⟩
abbrev main_v545 : Ref sig .tc := ⟨.hbm, 1792, rfl⟩
abbrev main_v546 : Ref sig .tc := ⟨.hbm, 1793, rfl⟩
abbrev main_c_101 : Ref sig .tc := ⟨.hbm, 1794, rfl⟩
abbrev main_call70_c : Ref sig .tc := ⟨.hbm, 1795, rfl⟩
abbrev main_call70_v0 : Ref sig .tc := ⟨.hbm, 1796, rfl⟩
abbrev main_call70_c_0 : Ref sig .tc := ⟨.hbm, 1797, rfl⟩
abbrev main_call70_v1 : Ref sig .tc := ⟨.hbm, 1798, rfl⟩
abbrev main_call70_v2 : Ref sig .tc := ⟨.hbm, 1799, rfl⟩
abbrev main_call70_v3 : Ref sig .tc := ⟨.hbm, 1800, rfl⟩
abbrev main_call70_c_1 : Ref sig .tc := ⟨.hbm, 1801, rfl⟩
abbrev main_call70_v4 : Ref sig .tc := ⟨.hbm, 1802, rfl⟩
abbrev main_call70_c_2 : Ref sig .tc := ⟨.hbm, 1803, rfl⟩
abbrev main_call70_v5 : Ref sig .tc := ⟨.hbm, 1804, rfl⟩
abbrev main_call70_v6 : Ref sig .tc := ⟨.hbm, 1805, rfl⟩
abbrev main_call70_v7 : Ref sig .tc := ⟨.hbm, 1806, rfl⟩
abbrev main_call70_v8 : Ref sig .tc := ⟨.hbm, 1807, rfl⟩
abbrev main_call70_c_3 : Ref sig .tc := ⟨.hbm, 1808, rfl⟩
abbrev main_call70_v9 : Ref sig .tc := ⟨.hbm, 1809, rfl⟩
abbrev main_call70_v10 : Ref sig .tc := ⟨.hbm, 1810, rfl⟩
abbrev main_call70_v11 : Ref sig .tc := ⟨.hbm, 1811, rfl⟩
abbrev main_call70_cst : Ref sig .tc := ⟨.hbm, 1812, rfl⟩
abbrev main_call70_v12 : Ref sig .tc := ⟨.hbm, 1813, rfl⟩
abbrev main_v547 : Ref sig .tc := ⟨.hbm, 1814, rfl⟩
abbrev main_c_102 : Ref sig .tc := ⟨.hbm, 1815, rfl⟩
abbrev main_call71_c : Ref sig .tc := ⟨.hbm, 1816, rfl⟩
abbrev main_call71_v0 : Ref sig .tc := ⟨.hbm, 1817, rfl⟩
abbrev main_call71_c_0 : Ref sig .tc := ⟨.hbm, 1818, rfl⟩
abbrev main_call71_v1 : Ref sig .tc := ⟨.hbm, 1819, rfl⟩
abbrev main_call71_v2 : Ref sig .tc := ⟨.hbm, 1820, rfl⟩
abbrev main_call71_v3 : Ref sig .tc := ⟨.hbm, 1821, rfl⟩
abbrev main_call71_c_1 : Ref sig .tc := ⟨.hbm, 1822, rfl⟩
abbrev main_call71_v4 : Ref sig .tc := ⟨.hbm, 1823, rfl⟩
abbrev main_call71_c_2 : Ref sig .tc := ⟨.hbm, 1824, rfl⟩
abbrev main_call71_v5 : Ref sig .tc := ⟨.hbm, 1825, rfl⟩
abbrev main_call71_v6 : Ref sig .tc := ⟨.hbm, 1826, rfl⟩
abbrev main_call71_v7 : Ref sig .tc := ⟨.hbm, 1827, rfl⟩
abbrev main_call71_v8 : Ref sig .tc := ⟨.hbm, 1828, rfl⟩
abbrev main_call71_c_3 : Ref sig .tc := ⟨.hbm, 1829, rfl⟩
abbrev main_call71_v9 : Ref sig .tc := ⟨.hbm, 1830, rfl⟩
abbrev main_call71_v10 : Ref sig .tc := ⟨.hbm, 1831, rfl⟩
abbrev main_call71_v11 : Ref sig .tc := ⟨.hbm, 1832, rfl⟩
abbrev main_call71_cst : Ref sig .tc := ⟨.hbm, 1833, rfl⟩
abbrev main_call71_v12 : Ref sig .tc := ⟨.hbm, 1834, rfl⟩
abbrev main_v548 : Ref sig .tc := ⟨.hbm, 1835, rfl⟩
abbrev main_v549 : Ref sig .tc := ⟨.hbm, 1836, rfl⟩
abbrev main_v550 : Ref sig .tc := ⟨.hbm, 1837, rfl⟩
abbrev main_v551 : Ref sig .tc := ⟨.hbm, 1838, rfl⟩
abbrev main_v552 : Ref sig .tc := ⟨.hbm, 1839, rfl⟩
abbrev main_v553 : Ref sig .tc := ⟨.hbm, 1840, rfl⟩
abbrev main_v554 : Ref sig .tc := ⟨.hbm, 1841, rfl⟩
abbrev main_v555 : Ref sig .tc := ⟨.hbm, 1842, rfl⟩
abbrev main_v556 : Ref sig .tc := ⟨.hbm, 1843, rfl⟩
abbrev main_v557 : Ref sig .tc := ⟨.hbm, 1844, rfl⟩
abbrev main_v558 : Ref sig .tc := ⟨.hbm, 1845, rfl⟩
abbrev main_v559 : Ref sig .tc := ⟨.hbm, 1846, rfl⟩
abbrev main_v560 : Ref sig .tc := ⟨.hbm, 1847, rfl⟩
abbrev main_v561 : Ref sig .tc := ⟨.hbm, 1848, rfl⟩
abbrev main_v562 : Ref sig .tc := ⟨.hbm, 1849, rfl⟩
abbrev main_cst_103 : Ref sig .tc := ⟨.hbm, 1850, rfl⟩
abbrev main_v563 : Ref sig .tc := ⟨.hbm, 1851, rfl⟩
abbrev main_v564 : Ref sig .tc := ⟨.hbm, 1852, rfl⟩
abbrev main_v565 : Ref sig .tc := ⟨.hbm, 1853, rfl⟩
abbrev main_v566 : Ref sig .tc := ⟨.hbm, 1854, rfl⟩
abbrev main_v567 : Ref sig .tc := ⟨.hbm, 1855, rfl⟩
abbrev main_v568 : Ref sig .tc := ⟨.hbm, 1856, rfl⟩
abbrev main_cst_104 : Ref sig .tc := ⟨.hbm, 1857, rfl⟩
abbrev main_v569 : Ref sig .tc := ⟨.hbm, 1858, rfl⟩
abbrev main_v570 : Ref sig .tc := ⟨.hbm, 1859, rfl⟩
abbrev main_cst_105 : Ref sig .tc := ⟨.hbm, 1860, rfl⟩
abbrev main_v571 : Ref sig .tc := ⟨.hbm, 1861, rfl⟩
abbrev main_v572 : Ref sig .tc := ⟨.hbm, 1862, rfl⟩

abbrev nD : Nat := 1
abbrev τ : Topo := Topo.v7x

variable {F : FTy → Type} [FloatOps F]

class Facts₀ : Prop where
  concatenates_S16384x4_S16384x4_S16384x8_d1 : Shape.Concatenates [S16384x4, S16384x4] S16384x8 1
  bcast_S_S16384x8 : S_.BroadcastsInDim S16384x8 (![] : Fin 0 → Fin S16384x8.rank)
  bcast_S16384x8_S16384x8x1_0_1 : S16384x8.BroadcastsInDim S16384x8x1 (![0, 1] : Fin 2 → Fin S16384x8x1.rank)
  concatenates_S16384x8x1_S16384x8x1_S16384x8x2_d2 : Shape.Concatenates [S16384x8x1, S16384x8x1] S16384x8x2 2
  slices_S16384x8x2_S16384x1x2_0_0_0 : S16384x8x2.Slices ![0, 0, 0] S16384x1x2
  shapeCasts_S16384x1x2_S16384x2 : S16384x1x2.ShapeCasts S16384x2
  bcast_S16384x2_S16384x2x1_0_1 : S16384x2.BroadcastsInDim S16384x2x1 (![0, 1] : Fin 2 → Fin S16384x2x1.rank)
  slices_S16384x8x2_S16384x1x2_0_1_0 : S16384x8x2.Slices ![0, 1, 0] S16384x1x2
  shapeCasts_S16384x2_S16384x1x2 : S16384x2.ShapeCasts S16384x1x2
  bcast_S16384x2x1_S16384x2x2_0_1_2 : S16384x2x1.BroadcastsInDim S16384x2x2 (![0, 1, 2] : Fin 3 → Fin S16384x2x2.rank)
  bcast_S16384x1x2_S16384x2x2_0_1_2 : S16384x1x2.BroadcastsInDim S16384x2x2 (![0, 1, 2] : Fin 3 → Fin S16384x2x2.rank)
  bcast_S16384x2x2_S16384x2x2x1_0_1_2 : S16384x2x2.BroadcastsInDim S16384x2x2x1 (![0, 1, 2] : Fin 3 → Fin S16384x2x2x1.rank)
  slices_S16384x8x2_S16384x1x2_0_2_0 : S16384x8x2.Slices ![0, 2, 0] S16384x1x2
  shapeCasts_S16384x2_S16384x1x1x2 : S16384x2.ShapeCasts S16384x1x1x2
  bcast_S16384x2x2x1_S16384x2x2x2_0_1_2_3 : S16384x2x2x1.BroadcastsInDim S16384x2x2x2 (![0, 1, 2, 3] : Fin 4 → Fin S16384x2x2x2.rank)
  bcast_S16384x1x1x2_S16384x2x2x2_0_1_2_3 : S16384x1x1x2.BroadcastsInDim S16384x2x2x2 (![0, 1, 2, 3] : Fin 4 → Fin S16384x2x2x2.rank)
  bcast_S16384x2x2x2_S16384x2x2x2x1_0_1_2_3 : S16384x2x2x2.BroadcastsInDim S16384x2x2x2x1 (![0, 1, 2, 3] : Fin 4 → Fin S16384x2x2x2x1.rank)
  slices_S16384x8x2_S16384x1x2_0_3_0 : S16384x8x2.Slices ![0, 3, 0] S16384x1x2
  shapeCasts_S16384x2_S16384x1x1x1x2 : S16384x2.ShapeCasts S16384x1x1x1x2
  bcast_S16384x2x2x2x1_S16384x2x2x2x2_0_1_2_3_4 : S16384x2x2x2x1.BroadcastsInDim S16384x2x2x2x2 (![0, 1, 2, 3, 4] : Fin 5 → Fin S16384x2x2x2x2.rank)
  bcast_S16384x1x1x1x2_S16384x2x2x2x2_0_1_2_3_4 : S16384x1x1x1x2.BroadcastsInDim S16384x2x2x2x2 (![0, 1, 2, 3, 4] : Fin 5 → Fin S16384x2x2x2x2.rank)
  bcast_S16384x2x2x2x2_S16384x2x2x2x2x1_0_1_2_3_4 : S16384x2x2x2x2.BroadcastsInDim S16384x2x2x2x2x1 (![0, 1, 2, 3, 4] : Fin 5 → Fin S16384x2x2x2x2x1.rank)
  slices_S16384x8x2_S16384x1x2_0_4_0 : S16384x8x2.Slices ![0, 4, 0] S16384x1x2
  shapeCasts_S16384x2_S16384x1x1x1x1x2 : S16384x2.ShapeCasts S16384x1x1x1x1x2
  bcast_S16384x2x2x2x2x1_S16384x2x2x2x2x2_0_1_2_3_4_5 : S16384x2x2x2x2x1.BroadcastsInDim S16384x2x2x2x2x2 (![0, 1, 2, 3, 4, 5] : Fin 6 → Fin S16384x2x2x2x2x2.rank)
  bcast_S16384x1x1x1x1x2_S16384x2x2x2x2x2_0_1_2_3_4_5 : S16384x1x1x1x1x2.BroadcastsInDim S16384x2x2x2x2x2 (![0, 1, 2, 3, 4, 5] : Fin 6 → Fin S16384x2x2x2x2x2.rank)
  bcast_S16384x2x2x2x2x2_S16384x2x2x2x2x2x1_0_1_2_3_4_5 : S16384x2x2x2x2x2.BroadcastsInDim S16384x2x2x2x2x2x1 (![0, 1, 2, 3, 4, 5] : Fin 6 → Fin S16384x2x2x2x2x2x1.rank)
  slices_S16384x8x2_S16384x1x2_0_5_0 : S16384x8x2.Slices ![0, 5, 0] S16384x1x2
  shapeCasts_S16384x2_S16384x1x1x1x1x1x2 : S16384x2.ShapeCasts S16384x1x1x1x1x1x2
  bcast_S16384x2x2x2x2x2x1_S16384x2x2x2x2x2x2_0_1_2_3_4_5_6 : S16384x2x2x2x2x2x1.BroadcastsInDim S16384x2x2x2x2x2x2 (![0, 1, 2, 3, 4, 5, 6] : Fin 7 → Fin S16384x2x2x2x2x2x2.rank)
  bcast_S16384x1x1x1x1x1x2_S16384x2x2x2x2x2x2_0_1_2_3_4_5_6 : S16384x1x1x1x1x1x2.BroadcastsInDim S16384x2x2x2x2x2x2 (![0, 1, 2, 3, 4, 5, 6] : Fin 7 → Fin S16384x2x2x2x2x2x2.rank)
  bcast_S16384x2x2x2x2x2x2_S16384x2x2x2x2x2x2x1_0_1_2_3_4_5_6 : S16384x2x2x2x2x2x2.BroadcastsInDim S16384x2x2x2x2x2x2x1 (![0, 1, 2, 3, 4, 5, 6] : Fin 7 → Fin S16384x2x2x2x2x2x2x1.rank)
  slices_S16384x8x2_S16384x1x2_0_6_0 : S16384x8x2.Slices ![0, 6, 0] S16384x1x2
  shapeCasts_S16384x2_S16384x1x1x1x1x1x1x2 : S16384x2.ShapeCasts S16384x1x1x1x1x1x1x2
  bcast_S16384x2x2x2x2x2x2x1_S16384x2x2x2x2x2x2x2_0_1_2_3_4_5_6_7 : S16384x2x2x2x2x2x2x1.BroadcastsInDim S16384x2x2x2x2x2x2x2 (![0, 1, 2, 3, 4, 5, 6, 7] : Fin 8 → Fin S16384x2x2x2x2x2x2x2.rank)
  bcast_S16384x1x1x1x1x1x1x2_S16384x2x2x2x2x2x2x2_0_1_2_3_4_5_6_7 : S16384x1x1x1x1x1x1x2.BroadcastsInDim S16384x2x2x2x2x2x2x2 (![0, 1, 2, 3, 4, 5, 6, 7] : Fin 8 → Fin S16384x2x2x2x2x2x2x2.rank)
  bcast_S16384x2x2x2x2x2x2x2_S16384x2x2x2x2x2x2x2x1_0_1_2_3_4_5_6_7 : S16384x2x2x2x2x2x2x2.BroadcastsInDim S16384x2x2x2x2x2x2x2x1 (![0, 1, 2, 3, 4, 5, 6, 7] : Fin 8 → Fin S16384x2x2x2x2x2x2x2x1.rank)
  slices_S16384x8x2_S16384x1x2_0_7_0 : S16384x8x2.Slices ![0, 7, 0] S16384x1x2
  shapeCasts_S16384x2_S16384x1x1x1x1x1x1x1x2 : S16384x2.ShapeCasts S16384x1x1x1x1x1x1x1x2
  bcast_S16384x2x2x2x2x2x2x2x1_S16384x2x2x2x2x2x2x2x2_0_1_2_3_4_5_6_7_8 : S16384x2x2x2x2x2x2x2x1.BroadcastsInDim S16384x2x2x2x2x2x2x2x2 (![0, 1, 2, 3, 4, 5, 6, 7, 8] : Fin 9 → Fin S16384x2x2x2x2x2x2x2x2.rank)
  bcast_S16384x1x1x1x1x1x1x1x2_S16384x2x2x2x2x2x2x2x2_0_1_2_3_4_5_6_7_8 : S16384x1x1x1x1x1x1x1x2.BroadcastsInDim S16384x2x2x2x2x2x2x2x2 (![0, 1, 2, 3, 4, 5, 6, 7, 8] : Fin 9 → Fin S16384x2x2x2x2x2x2x2x2.rank)
  slices_S21_S1_0 : S21.Slices ![0] S1
  shapeCasts_S1_S_ : S1.ShapeCasts S_
  bcast_S_S1 : S_.BroadcastsInDim S1 (![] : Fin 0 → Fin S1.rank)
  reducesTo_S1_S_d0 : S1.ReducesTo [0] S_
  h_S_ : 0 < S_.numel
  bcast_S_S16384x2x2x2x2x2x2x2 : S_.BroadcastsInDim S16384x2x2x2x2x2x2x2 (![] : Fin 0 → Fin S16384x2x2x2x2x2x2x2.rank)
  bcast_S16384x2x2x2x2x2x2x2_S16384x2x1x2x2x2x2x2x2_0_1_3_4_5_6_7_8 : S16384x2x2x2x2x2x2x2.BroadcastsInDim S16384x2x1x2x2x2x2x2x2 (![0, 1, 3, 4, 5, 6, 7, 8] : Fin 8 → Fin S16384x2x1x2x2x2x2x2x2.rank)
  concatenates_S16384x2x1x2x2x2x2x2x2_S16384x2x1x2x2x2x2x2x2_S16384x2x2x2x2x2x2x2x2_d2 : Shape.Concatenates [S16384x2x1x2x2x2x2x2x2, S16384x2x1x2x2x2x2x2x2] S16384x2x2x2x2x2x2x2x2 2
  slices_S21_S1_1 : S21.Slices ![1] S1
  bcast_S16384x2x2x2x2x2x2x2_S16384x2x2x1x2x2x2x2x2_0_1_2_4_5_6_7_8 : S16384x2x2x2x2x2x2x2.BroadcastsInDim S16384x2x2x1x2x2x2x2x2 (![0, 1, 2, 4, 5, 6, 7, 8] : Fin 8 → Fin S16384x2x2x1x2x2x2x2x2.rank)
  concatenates_S16384x2x2x1x2x2x2x2x2_S16384x2x2x1x2x2x2x2x2_S16384x2x2x2x2x2x2x2x2_d3 : Shape.Concatenates [S16384x2x2x1x2x2x2x2x2, S16384x2x2x1x2x2x2x2x2] S16384x2x2x2x2x2x2x2x2 3
  slices_S21_S1_2 : S21.Slices ![2] S1
  bcast_S16384x2x2x2x2x2x2x2_S16384x2x2x2x2x2x1x2x2_0_1_2_3_4_5_7_8 : S16384x2x2x2x2x2x2x2.BroadcastsInDim S16384x2x2x2x2x2x1x2x2 (![0, 1, 2, 3, 4, 5, 7, 8] : Fin 8 → Fin S16384x2x2x2x2x2x1x2x2.rank)
  concatenates_S16384x2x2x2x2x2x1x2x2_S16384x2x2x2x2x2x1x2x2_S16384x2x2x2x2x2x2x2x2_d6 : Shape.Concatenates [S16384x2x2x2x2x2x1x2x2, S16384x2x2x2x2x2x1x2x2] S16384x2x2x2x2x2x2x2x2 6
  slices_S21_S1_3 : S21.Slices ![3] S1
  bcast_S16384x2x2x2x2x2x2x2_S16384x2x2x2x2x2x2x1x2_0_1_2_3_4_5_6_8 : S16384x2x2x2x2x2x2x2.BroadcastsInDim S16384x2x2x2x2x2x2x1x2 (![0, 1, 2, 3, 4, 5, 6, 8] : Fin 8 → Fin S16384x2x2x2x2x2x2x1x2.rank)
  concatenates_S16384x2x2x2x2x2x2x1x2_S16384x2x2x2x2x2x2x1x2_S16384x2x2x2x2x2x2x2x2_d7 : Shape.Concatenates [S16384x2x2x2x2x2x2x1x2, S16384x2x2x2x2x2x2x1x2] S16384x2x2x2x2x2x2x2x2 7
  slices_S21_S1_4 : S21.Slices ![4] S1
  bcast_S16384x2x2x2x2x2x2x2_S16384x1x2x2x2x2x2x2x2_0_2_3_4_5_6_7_8 : S16384x2x2x2x2x2x2x2.BroadcastsInDim S16384x1x2x2x2x2x2x2x2 (![0, 2, 3, 4, 5, 6, 7, 8] : Fin 8 → Fin S16384x1x2x2x2x2x2x2x2.rank)
  concatenates_S16384x1x2x2x2x2x2x2x2_S16384x1x2x2x2x2x2x2x2_S16384x2x2x2x2x2x2x2x2_d1 : Shape.Concatenates [S16384x1x2x2x2x2x2x2x2, S16384x1x2x2x2x2x2x2x2] S16384x2x2x2x2x2x2x2x2 1
  slices_S21_S1_5 : S21.Slices ![5] S1
  slices_S21_S1_6 : S21.Slices ![6] S1
  slices_S21_S1_7 : S21.Slices ![7] S1
  bcast_S16384x2x2x2x2x2x2x2_S16384x2x2x2x1x2x2x2x2_0_1_2_3_5_6_7_8 : S16384x2x2x2x2x2x2x2.BroadcastsInDim S16384x2x2x2x1x2x2x2x2 (![0, 1, 2, 3, 5, 6, 7, 8] : Fin 8 → Fin S16384x2x2x2x1x2x2x2x2.rank)
  concatenates_S16384x2x2x2x1x2x2x2x2_S16384x2x2x2x1x2x2x2x2_S16384x2x2x2x2x2x2x2x2_d4 : Shape.Concatenates [S16384x2x2x2x1x2x2x2x2, S16384x2x2x2x1x2x2x2x2] S16384x2x2x2x2x2x2x2x2 4
  slices_S21_S1_8 : S21.Slices ![8] S1
  bcast_S16384x2x2x2x2x2x2x2_S16384x2x2x2x2x1x2x2x2_0_1_2_3_4_6_7_8 : S16384x2x2x2x2x2x2x2.BroadcastsInDim S16384x2x2x2x2x1x2x2x2 (![0, 1, 2, 3, 4, 6, 7, 8] : Fin 8 → Fin S16384x2x2x2x2x1x2x2x2.rank)
  concatenates_S16384x2x2x2x2x1x2x2x2_S16384x2x2x2x2x1x2x2x2_S16384x2x2x2x2x2x2x2x2_d5 : Shape.Concatenates [S16384x2x2x2x2x1x2x2x2, S16384x2x2x2x2x1x2x2x2] S16384x2x2x2x2x2x2x2x2 5
  slices_S21_S1_9 : S21.Slices ![9] S1
  slices_S21_S1_10 : S21.Slices ![10] S1
  slices_S21_S1_11 : S21.Slices ![11] S1
  concatenates_S16384x2x2x2x2x2x2x2x1_S16384x2x2x2x2x2x2x2x1_S16384x2x2x2x2x2x2x2x2_d8 : Shape.Concatenates [S16384x2x2x2x2x2x2x2x1, S16384x2x2x2x2x2x2x2x1] S16384x2x2x2x2x2x2x2x2 8
  slices_S21_S1_12 : S21.Slices ![12] S1
  slices_S21_S1_13 : S21.Slices ![13] S1
  slices_S21_S1_14 : S21.Slices ![14] S1
  slices_S21_S1_15 : S21.Slices ![15] S1
  slices_S21_S1_16 : S21.Slices ![16] S1
  slices_S21_S1_17 : S21.Slices ![17] S1
  slices_S21_S1_18 : S21.Slices ![18] S1
  slices_S21_S1_19 : S21.Slices ![19] S1
  slices_S21_S1_20 : S21.Slices ![20] S1
  reducesTo_S16384x2x2x2x2x2x2x2x2_S16384x2_d1_2_3_4_5_7_8 : S16384x2x2x2x2x2x2x2x2.ReducesTo [1, 2, 3, 4, 5, 7, 8] S16384x2
  slices_S16384x2_S16384x1_0_0 : S16384x2.Slices ![0, 0] S16384x1
  shapeCasts_S16384x1_S16384 : S16384x1.ShapeCasts S16384
  slices_S16384x2_S16384x1_0_1 : S16384x2.Slices ![0, 1] S16384x1
  bcast_S_S16384 : S_.BroadcastsInDim S16384 (![] : Fin 0 → Fin S16384.rank)
  dot_S2048x16384_S2048x4_S16384x4_0_0_1_1_n_n_wf : DotDims.WF S2048x16384 S2048x4 S16384x4 [0] [0] [1] [1] [] []
  gather_S16384x2x2x2x2x2x2x2x2_S1_S16384x2x2x2x2x2x2x2_01234567_2_n_n_2_0_1638421222222_wf : GatherDims.WF S16384x2x2x2x2x2x2x2x2 S1 S16384x2x2x2x2x2x2x2 [0, 1, 2, 3, 4, 5, 6, 7] [2] [] [2] [] 0 ![16384, 2, 1, 2, 2, 2, 2, 2, 2]
  gather_S16384x2x2x2x2x2x2x2x2_S1_S16384x2x2x2x2x2x2x2_01234567_3_n_n_3_0_1638422122222_wf : GatherDims.WF S16384x2x2x2x2x2x2x2x2 S1 S16384x2x2x2x2x2x2x2 [0, 1, 2, 3, 4, 5, 6, 7] [3] [] [3] [] 0 ![16384, 2, 2, 1, 2, 2, 2, 2, 2]
  gather_S16384x2x2x2x2x2x2x2x2_S1_S16384x2x2x2x2x2x2x2_01234567_6_n_n_6_0_1638422222122_wf : GatherDims.WF S16384x2x2x2x2x2x2x2x2 S1 S16384x2x2x2x2x2x2x2 [0, 1, 2, 3, 4, 5, 6, 7] [6] [] [6] [] 0 ![16384, 2, 2, 2, 2, 2, 1, 2, 2]
  gather_S16384x2x2x2x2x2x2x2x2_S1_S16384x2x2x2x2x2x2x2_01234567_7_n_n_7_0_1638422222212_wf : GatherDims.WF S16384x2x2x2x2x2x2x2x2 S1 S16384x2x2x2x2x2x2x2 [0, 1, 2, 3, 4, 5, 6, 7] [7] [] [7] [] 0 ![16384, 2, 2, 2, 2, 2, 2, 1, 2]
  gather_S16384x2x2x2x2x2x2x2x2_S1_S16384x2x2x2x2x2x2x2_01234567_1_n_n_1_0_1638412222222_wf : GatherDims.WF S16384x2x2x2x2x2x2x2x2 S1 S16384x2x2x2x2x2x2x2 [0, 1, 2, 3, 4, 5, 6, 7] [1] [] [1] [] 0 ![16384, 1, 2, 2, 2, 2, 2, 2, 2]
  gather_S16384x2x2x2x2x2x2x2x2_S1_S16384x2x2x2x2x2x2x2_01234567_4_n_n_4_0_1638422212222_wf : GatherDims.WF S16384x2x2x2x2x2x2x2x2 S1 S16384x2x2x2x2x2x2x2 [0, 1, 2, 3, 4, 5, 6, 7] [4] [] [4] [] 0 ![16384, 2, 2, 2, 1, 2, 2, 2, 2]
  gather_S16384x2x2x2x2x2x2x2x2_S1_S16384x2x2x2x2x2x2x2_01234567_5_n_n_5_0_1638422221222_wf : GatherDims.WF S16384x2x2x2x2x2x2x2x2 S1 S16384x2x2x2x2x2x2x2 [0, 1, 2, 3, 4, 5, 6, 7] [5] [] [5] [] 0 ![16384, 2, 2, 2, 2, 1, 2, 2, 2]
  gather_S16384x2x2x2x2x2x2x2x2_S1_S16384x2x2x2x2x2x2x2_01234567_8_n_n_8_0_1638422222221_wf : GatherDims.WF S16384x2x2x2x2x2x2x2x2 S1 S16384x2x2x2x2x2x2x2 [0, 1, 2, 3, 4, 5, 6, 7] [8] [] [8] [] 0 ![16384, 2, 2, 2, 2, 2, 2, 2, 1]

variable [Facts₀]

def dot_S2048x16384_S2048x4_S16384x4_0_0_1_1_n_n : DotDims S2048x16384 S2048x4 S16384x4 where
  lhsContracting := [0]
  rhsContracting := [0]
  lhsNonContracting := [1]
  rhsNonContracting := [1]
  lhsBatch := []
  rhsBatch := []
  wf := dot_S2048x16384_S2048x4_S16384x4_0_0_1_1_n_n_wf
def gather_S16384x2x2x2x2x2x2x2x2_S1_S16384x2x2x2x2x2x2x2_01234567_2_n_n_2_0_1638421222222 : GatherDims S16384x2x2x2x2x2x2x2x2 S1 S16384x2x2x2x2x2x2x2 where
  offsetDims := [0, 1, 2, 3, 4, 5, 6, 7]
  collapsedSliceDims := [2]
  operandBatchingDims := []
  startIndicesBatchingDims := []
  startIndexMap := [2]
  indexVectorDim := 0
  sliceSizes := ![16384, 2, 1, 2, 2, 2, 2, 2, 2]
  wf := gather_S16384x2x2x2x2x2x2x2x2_S1_S16384x2x2x2x2x2x2x2_01234567_2_n_n_2_0_1638421222222_wf
def gather_S16384x2x2x2x2x2x2x2x2_S1_S16384x2x2x2x2x2x2x2_01234567_3_n_n_3_0_1638422122222 : GatherDims S16384x2x2x2x2x2x2x2x2 S1 S16384x2x2x2x2x2x2x2 where
  offsetDims := [0, 1, 2, 3, 4, 5, 6, 7]
  collapsedSliceDims := [3]
  operandBatchingDims := []
  startIndicesBatchingDims := []
  startIndexMap := [3]
  indexVectorDim := 0
  sliceSizes := ![16384, 2, 2, 1, 2, 2, 2, 2, 2]
  wf := gather_S16384x2x2x2x2x2x2x2x2_S1_S16384x2x2x2x2x2x2x2_01234567_3_n_n_3_0_1638422122222_wf
def gather_S16384x2x2x2x2x2x2x2x2_S1_S16384x2x2x2x2x2x2x2_01234567_6_n_n_6_0_1638422222122 : GatherDims S16384x2x2x2x2x2x2x2x2 S1 S16384x2x2x2x2x2x2x2 where
  offsetDims := [0, 1, 2, 3, 4, 5, 6, 7]
  collapsedSliceDims := [6]
  operandBatchingDims := []
  startIndicesBatchingDims := []
  startIndexMap := [6]
  indexVectorDim := 0
  sliceSizes := ![16384, 2, 2, 2, 2, 2, 1, 2, 2]
  wf := gather_S16384x2x2x2x2x2x2x2x2_S1_S16384x2x2x2x2x2x2x2_01234567_6_n_n_6_0_1638422222122_wf
def gather_S16384x2x2x2x2x2x2x2x2_S1_S16384x2x2x2x2x2x2x2_01234567_7_n_n_7_0_1638422222212 : GatherDims S16384x2x2x2x2x2x2x2x2 S1 S16384x2x2x2x2x2x2x2 where
  offsetDims := [0, 1, 2, 3, 4, 5, 6, 7]
  collapsedSliceDims := [7]
  operandBatchingDims := []
  startIndicesBatchingDims := []
  startIndexMap := [7]
  indexVectorDim := 0
  sliceSizes := ![16384, 2, 2, 2, 2, 2, 2, 1, 2]
  wf := gather_S16384x2x2x2x2x2x2x2x2_S1_S16384x2x2x2x2x2x2x2_01234567_7_n_n_7_0_1638422222212_wf
def gather_S16384x2x2x2x2x2x2x2x2_S1_S16384x2x2x2x2x2x2x2_01234567_1_n_n_1_0_1638412222222 : GatherDims S16384x2x2x2x2x2x2x2x2 S1 S16384x2x2x2x2x2x2x2 where
  offsetDims := [0, 1, 2, 3, 4, 5, 6, 7]
  collapsedSliceDims := [1]
  operandBatchingDims := []
  startIndicesBatchingDims := []
  startIndexMap := [1]
  indexVectorDim := 0
  sliceSizes := ![16384, 1, 2, 2, 2, 2, 2, 2, 2]
  wf := gather_S16384x2x2x2x2x2x2x2x2_S1_S16384x2x2x2x2x2x2x2_01234567_1_n_n_1_0_1638412222222_wf
def gather_S16384x2x2x2x2x2x2x2x2_S1_S16384x2x2x2x2x2x2x2_01234567_4_n_n_4_0_1638422212222 : GatherDims S16384x2x2x2x2x2x2x2x2 S1 S16384x2x2x2x2x2x2x2 where
  offsetDims := [0, 1, 2, 3, 4, 5, 6, 7]
  collapsedSliceDims := [4]
  operandBatchingDims := []
  startIndicesBatchingDims := []
  startIndexMap := [4]
  indexVectorDim := 0
  sliceSizes := ![16384, 2, 2, 2, 1, 2, 2, 2, 2]
  wf := gather_S16384x2x2x2x2x2x2x2x2_S1_S16384x2x2x2x2x2x2x2_01234567_4_n_n_4_0_1638422212222_wf
def gather_S16384x2x2x2x2x2x2x2x2_S1_S16384x2x2x2x2x2x2x2_01234567_5_n_n_5_0_1638422221222 : GatherDims S16384x2x2x2x2x2x2x2x2 S1 S16384x2x2x2x2x2x2x2 where
  offsetDims := [0, 1, 2, 3, 4, 5, 6, 7]
  collapsedSliceDims := [5]
  operandBatchingDims := []
  startIndicesBatchingDims := []
  startIndexMap := [5]
  indexVectorDim := 0
  sliceSizes := ![16384, 2, 2, 2, 2, 1, 2, 2, 2]
  wf := gather_S16384x2x2x2x2x2x2x2x2_S1_S16384x2x2x2x2x2x2x2_01234567_5_n_n_5_0_1638422221222_wf
def gather_S16384x2x2x2x2x2x2x2x2_S1_S16384x2x2x2x2x2x2x2_01234567_8_n_n_8_0_1638422222221 : GatherDims S16384x2x2x2x2x2x2x2x2 S1 S16384x2x2x2x2x2x2x2 where
  offsetDims := [0, 1, 2, 3, 4, 5, 6, 7]
  collapsedSliceDims := [8]
  operandBatchingDims := []
  startIndicesBatchingDims := []
  startIndexMap := [8]
  indexVectorDim := 0
  sliceSizes := ![16384, 2, 2, 2, 2, 2, 2, 2, 1]
  wf := gather_S16384x2x2x2x2x2x2x2x2_S1_S16384x2x2x2x2x2x2x2_01234567_8_n_n_8_0_1638422222221_wf

class Facts : Prop extends Facts₀ where

variable [Facts]
-- ==== Proof.Spec.lean ====
/-
  The mathematics of the eight-qubit tree circuit, over the reals, with no program in sight.

  A basis state is a choice of one bit per wire, `q : Fin 8 → Fin 2` (wire 0 is the most significant bit of the
  flat index 0..255 that the programs use).  An amplitude vector is a real function of basis states.  The circuit
  is a fixed list of 31 gates: a rotation `ry w k` mixes the two amplitudes that differ only in wire `w` by the
  plane rotation of angle `θ k / 2`; a controlled flip `cx c t` exchanges, among the states whose wire `c` is 1,
  the two that differ only in wire `t`.  Every gate is linear and preserves the sum of squares; so does the circuit.
  The encoded input of an edge is the product state whose wire-`w` factor is `(cos (a w / 2), sin (a w / 2))`:
  a unit vector.  These definitions are what the two programs are compared through.
-/
import Mathlib.Analysis.SpecialFunctions.Trigonometric.Basic
import Mathlib.Algebra.BigOperators.Fin

namespace Cert.TTN

/-- A basis state of eight qubits: the bit of each wire. -/
abbrev Q := Fin 8 → Fin 2

/-- The two kinds of gate: a rotation of wire `w` by half of parameter `k`, a flip of wire `t` controlled by wire `c`. -/
inductive Gate
  | ry (w : Fin 8) (k : Fin 21)
  | cx (c t : Fin 8)

/-- The circuit, in the order the gates are applied. -/
def gates : List Gate :=
  [.ry 1 0, .ry 2 1, .cx 1 2, .ry 5 2, .ry 6 3, .cx 6 5, .ry 0 4, .ry 1 5, .cx 0 1, .ry 2 6, .ry 3 7, .cx 3 2,
   .ry 4 8, .ry 5 9, .cx 4 5, .ry 6 10, .ry 7 11, .cx 7 6, .ry 2 12, .ry 5 13, .cx 2 5, .ry 1 14, .ry 2 15, .cx 1 2,
   .ry 5 16, .ry 6 17, .cx 6 5, .ry 2 18, .ry 5 19, .cx 2 5, .ry 5 20]

/-- The basis state `q` with wire `w` set to `b`. -/
def setBit (q : Q) (w : Fin 8) (b : Fin 2) : Q := Function.update q w b

/-- One gate applied to an amplitude vector. -/
noncomputable def Gate.apply (θ : Fin 21 → ℝ) : Gate → (Q → ℝ) → Q → ℝ
  | .ry w k, f, q =>
      if q w = 0 then Real.cos (θ k / 2) * f (setBit q w 0) - Real.sin (θ k / 2) * f (setBit q w 1)
      else Real.sin (θ k / 2) * f (setBit q w 0) + Real.cos (θ k / 2) * f (setBit q w 1)
  | .cx c t, f, q => if q c = 0 then f q else f (setBit q t (1 - q t))

/-- The gates applied in order from the list `gs`. -/
noncomputable def runGates (θ : Fin 21 → ℝ) (gs : List Gate) (f : Q → ℝ) : Q → ℝ :=
  gs.foldl (fun f g => g.apply θ f) f

/-- The whole circuit. -/
noncomputable def circuit (θ : Fin 21 → ℝ) (f : Q → ℝ) : Q → ℝ := runGates θ gates f

/-- The amplitude vector of the basis state `j`. -/
noncomputable def basis (j : Q) : Q → ℝ := fun q => if q = j then 1 else 0

/-- The product state of eight encoded angles. -/
noncomputable def prodState (a : Fin 8 → ℝ) (q : Q) : ℝ :=
  ∏ w : Fin 8, if q w = 0 then Real.cos (a w / 2) else Real.sin (a w / 2)

end Cert.TTN
-- ==== Proof.Amp.lean ====
/-
  The quantities both programs compute for one edge, written on the extended reals.

  A flat column index `k < 256` names the basis state whose wire-`w` bit is the binary digit of `k` of weight
  `2^(7-w)` (wire 0 the most significant).  For half angles `h w` the encoded product state has the amplitude
  `∏ w, (cos (h w) or sin (h w))` at `k`, the factor chosen by the bit of wire `w`; the kernel multiplies the factors
  from wire 7 up to wire 0.  `kernelRow` is what the kernel stores for one edge: the encoded state times a
  256 × 256 matrix, squared entry by entry, weighted by a mask row and summed.
-/
import Idealize.ShloMosaic.PureOps.Ideal
import proofs.«130987_j14276471292017_1_alg».proof.Proof.Spec

noncomputable section

namespace Cert.TTN

open Idealize.ShloMosaic

/-- The bit of wire `w` in the flat index `k`: the binary digit of weight `2^(7-w)`. -/
def bitOf (k : Fin 256) (w : Fin 8) : Fin 2 := ⟨(k.val / 2 ^ (7 - w.val)) % 2, Nat.mod_lt _ (by decide)⟩

/-- The basis state a flat index names. -/
def toQ (k : Fin 256) : Q := fun w => bitOf k w

/-- One wire's factor: the cosine of the half angle for bit 0, the sine for bit 1. -/
def ampE (h : EReal) (b : Fin 2) : EReal := if b = 0 then Ideal.cos h else Ideal.sin h

/-- The encoded product state at flat index `k`, the factors multiplied from wire 7 up to wire 0. -/
def psiE (h : Fin 8 → EReal) (k : Fin 256) : EReal :=
  ((((((ampE (h 7) (bitOf k 7) * ampE (h 6) (bitOf k 6)) * ampE (h 5) (bitOf k 5)) * ampE (h 4) (bitOf k 4))
    * ampE (h 3) (bitOf k 3)) * ampE (h 2) (bitOf k 2)) * ampE (h 1) (bitOf k 1)) * ampE (h 0) (bitOf k 0)

/-- What the kernel stores for one edge with half angles `h`: with `φ k = 0 + ∑ j, ψ j · M j k`,
    the sum `0 + ∑ k, (φ k · φ k) · mask k`. -/
def kernelRow (h : Fin 8 → EReal) (M : Fin 256 → Fin 256 → EReal) (mask : Fin 256 → EReal) : EReal :=
  0 + ∑ k : Fin 256, ((0 + ∑ j : Fin 256, psiE h j * M j k) * (0 + ∑ j : Fin 256, psiE h j * M j k)) * mask k

end Cert.TTN

end
-- ==== Proof.BodyValueLayout.lean ====
/-
  Column operations of a 512-row vector read at one entry.

  The kernel builds its 256-column state by doubling rounds: from a state with `n` columns and the cosine and sine
  matrices (512 × 8) it cuts out column `q` of each, spreads it over the `n` columns, multiplies, and puts the two
  products side by side.  Read at row `r` and column `j` of the `n + n` columns, the new state is the old state at
  column `j % n` times the cosine entry `(r, q)` when `j / n = 0` and times the sine entry otherwise.  This file
  proves that reading, operation by operation: a column slice, a column spread over `n` columns, two blocks side by side.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.TTN.Body

open Idealize.ShloMosaic Idealize.ShloMosaic.ValueIdx

section Layout
variable {α : Type}

/-- Column `c` cut out of a 512 × n vector, read at row `r`: the entry `(r, c)`. -/
theorem slice_col_apply {n : Nat} (c : Nat) (hc : c < n) (x : (⟨2, ![512, n]⟩ : Shape).Idx → α)
    (h : (⟨2, ![512, n]⟩ : Shape).Slices ![0, c] ⟨2, ![512, 1]⟩) (r : Fin 512) (z : Fin 1) :
    extractStridedSlice ⟨2, ![512, 1]⟩ ![0, c] x h (ix2 r z) = x (ix2 r ⟨c, hc⟩) :=
  extractStridedSlice_apply _ x h _ _ fun a => match a with
    | ⟨0, _⟩ => by show r.val = 0 + r.val; omega
    | ⟨1, _⟩ => by show c = c + z.val; have := z.isLt; omega

/-- One column spread over `n` columns, read at `(r, j)`: the column's entry at row `r`. -/
theorem bcast_col_apply {n : Nat} (v : (⟨2, ![512, 1]⟩ : Shape).Idx → α)
    (h : (⟨2, ![512, 1]⟩ : Shape).Broadcasts ⟨2, ![512, n]⟩) (r : Fin 512) (j : Fin n) :
    broadcastTo ⟨2, ![512, n]⟩ v h (ix2 r j) = v (ix2 r (0 : Fin 1)) :=
  broadcastTo_apply v h _ _ fun a => match a with
    | ⟨0, _⟩ => by show r.val = if (512 : Nat) = 1 then 0 else r.val; rw [if_neg (by decide)]
    | ⟨1, _⟩ => by show (0 : Nat) = if (1 : Nat) = 1 then 0 else j.val; rw [if_pos rfl]

/-- Two 512 × n blocks side by side, read in the left block. -/
theorem concat_cols_left {n m : Nat} (x₁ x₂ : (⟨2, ![512, n]⟩ : Shape).Idx → α)
    (h : Shape.Concatenates [(⟨2, ![512, n]⟩ : Shape), ⟨2, ![512, n]⟩] ⟨2, ![512, m]⟩ 1) (r : Fin 512) (j : Fin m)
    (hj : j.val < n) :
    concatenate ⟨2, ![512, m]⟩ 1 [⟨⟨2, ![512, n]⟩, x₁⟩, ⟨⟨2, ![512, n]⟩, x₂⟩] h (ix2 r j) = x₁ (ix2 r ⟨j.val, hj⟩) :=
  concatenate_pair_apply_left 1 x₁ x₂ h (ix2 r j) rfl (ix2 r ⟨j.val, hj⟩) fun b => match b with
    | ⟨0, _⟩ => rfl
    | ⟨1, _⟩ => rfl

/-- Two 512 × n blocks side by side, read in the right block. -/
theorem concat_cols_right {n m : Nat} (x₁ x₂ : (⟨2, ![512, n]⟩ : Shape).Idx → α)
    (h : Shape.Concatenates [(⟨2, ![512, n]⟩ : Shape), ⟨2, ![512, n]⟩] ⟨2, ![512, m]⟩ 1) (r : Fin 512) (j : Fin m)
    (hj : n ≤ j.val) (hm : m = n + n) :
    concatenate ⟨2, ![512, m]⟩ 1 [⟨⟨2, ![512, n]⟩, x₁⟩, ⟨⟨2, ![512, n]⟩, x₂⟩] h (ix2 r j)
      = x₂ (ix2 r ⟨j.val - n, by have := j.isLt; omega⟩) :=
  concatenate_pair_apply_right 1 x₁ x₂ h (ix2 r j) rfl rfl (ix2 r ⟨j.val - n, by have := j.isLt; omega⟩)
    (fun b => match b with
      | ⟨0, _⟩ => fun _ => rfl
      | ⟨1, _⟩ => fun hb => absurd rfl hb)
    (by show j.val - n + n = j.val; omega)

end Layout

/-- One doubling round read at `(r, j)`: the old state at column `j % n` times the cosine entry `(r, q)` in the
    left half (`j / n` even), the sine entry in the right half. -/
theorem round_apply {n m : Nat} (q : Nat) (hq : q < 8) (S : FVec Ideal ⟨2, ![512, n]⟩ .f32)
    (C Sn : FVec Ideal ⟨2, ![512, 8]⟩ .f32)
    (hs : (⟨2, ![512, 8]⟩ : Shape).Slices ![0, q] ⟨2, ![512, 1]⟩)
    (hb : (⟨2, ![512, 1]⟩ : Shape).Broadcasts ⟨2, ![512, n]⟩)
    (hc : Shape.Concatenates [(⟨2, ![512, n]⟩ : Shape), ⟨2, ![512, n]⟩] ⟨2, ![512, m]⟩ 1) (hm : m = n + n)
    (r : Fin 512) (j : Fin m) :
    concatenate ⟨2, ![512, m]⟩ 1
        [⟨⟨2, ![512, n]⟩, mulf S (broadcastTo ⟨2, ![512, n]⟩ (extractStridedSlice ⟨2, ![512, 1]⟩ ![0, q] C hs) hb)⟩,
         ⟨⟨2, ![512, n]⟩, mulf S (broadcastTo ⟨2, ![512, n]⟩ (extractStridedSlice ⟨2, ![512, 1]⟩ ![0, q] Sn hs) hb)⟩] hc (ix2 r j)
      = S (ix2 r ⟨j.val % n, Nat.mod_lt _ (by have := j.isLt; omega)⟩)
          * (if (j.val / n) % 2 = 0 then C (ix2 r ⟨q, hq⟩) else Sn (ix2 r ⟨q, hq⟩)) := by
  have hjm := j.isLt
  by_cases hj : j.val < n
  · rw [concat_cols_left _ _ hc r j hj, mulf_apply, bcast_col_apply, slice_col_apply q hq,
      if_pos (by rw [Nat.div_eq_of_lt hj])]
    congr 2
    exact congrArg (ix2 r) (Fin.ext (Nat.mod_eq_of_lt hj).symm)
  · have hj' : n ≤ j.val := Nat.le_of_not_lt hj
    have hd : j.val / n = 1 := by
      rw [Nat.div_eq_iff (by omega)]; omega
    rw [concat_cols_right _ _ hc r j hj' hm, mulf_apply, bcast_col_apply, slice_col_apply q hq,
      if_neg (by rw [hd]; decide)]
    congr 2
    refine congrArg (ix2 r) (Fin.ext ?_)
    show j.val - n = j.val % n
    rw [Nat.mod_eq_sub_mod hj', Nat.mod_eq_of_lt (by omega)]

/-! ## Contractions, a row sum and a column cast read at an entry -/

section Contract
variable {K m n : Nat} {φ₁ φ₂ : FTy}

/-- A matrix product that contracts the ROWS of both operands (the left operand transposed), into a zero
    accumulator: entry `(a, b)` is the sum over `c` of `A (c, a) · B (c, b)`. -/
theorem matmulT_apply (w : DotDims.WF ⟨2, ![K, m]⟩ ⟨2, ![K, n]⟩ ⟨2, ![m, n]⟩ [0] [0] [1] [1] [] [])
    (prec : Option ContractPrecision) (A : FVec Ideal ⟨2, ![K, m]⟩ φ₁) (B : FVec Ideal ⟨2, ![K, n]⟩ φ₂)
    (a : Fin m) (b : Fin n) :
    matmul (⟨[0], [0], [1], [1], [], [], w⟩ : DotDims _ _ _) prec A B
        (constant (F := Ideal) ⟨2, ![m, n]⟩ .f32 0x00000000#32) (ix2 a b)
      = ∑ c : Fin K, A (ix2 c a) * B (ix2 c b) := by
  show FloatOps.matmul _ prec A B _ (ix2 a b) = _
  rw [Ideal.matmul_constant_zero_apply,
    ← Equiv.sum_comp (contrEquiv1 (⟨[0], [0], [1], [1], [], [], w⟩ : DotDims _ _ _) K rfl rfl).symm]
  refine Finset.sum_congr rfl fun c _ => ?_
  have c2 := contrEquiv1_symm_val
    (⟨[0], [0], [1], [1], [], [], w⟩ : DotDims ⟨2, ![K, m]⟩ ⟨2, ![K, n]⟩ ⟨2, ![m, n]⟩) K rfl rfl c
  have l2 : (⟨[0], [0], [1], [1], [], [], w⟩ : DotDims ⟨2, ![K, m]⟩ ⟨2, ![K, n]⟩ ⟨2, ![m, n]⟩).lhsIdx (ix2 a b)
      ((contrEquiv1 _ K rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![K, m]⟩ ⟨2, ![K, n]⟩ ⟨2, ![m, n]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The plain matrix product into a zero accumulator: entry `(a, b)` is the sum over `c` of `A (a, c) · B (c, b)`. -/
theorem matmulP_apply (w : DotDims.WF ⟨2, ![m, K]⟩ ⟨2, ![K, n]⟩ ⟨2, ![m, n]⟩ [1] [0] [0] [1] [] [])
    (prec : Option ContractPrecision) (A : FVec Ideal ⟨2, ![m, K]⟩ φ₁) (B : FVec Ideal ⟨2, ![K, n]⟩ φ₂)
    (a : Fin m) (b : Fin n) :
    matmul (⟨[1], [0], [0], [1], [], [], w⟩ : DotDims _ _ _) prec A B
        (constant (F := Ideal) ⟨2, ![m, n]⟩ .f32 0x00000000#32) (ix2 a b)
      = ∑ c : Fin K, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) K rfl rfl).symm]
  refine Finset.sum_congr rfl fun c _ => ?_
  have c2 := contrEquiv1_symm_val
    (⟨[1], [0], [0], [1], [], [], w⟩ : DotDims ⟨2, ![m, K]⟩ ⟨2, ![K, n]⟩ ⟨2, ![m, n]⟩) K rfl rfl c
  have l2 : (⟨[1], [0], [0], [1], [], [], w⟩ : DotDims ⟨2, ![m, K]⟩ ⟨2, ![K, n]⟩ ⟨2, ![m, n]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, K]⟩ ⟨2, ![K, n]⟩ ⟨2, ![m, n]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- The sum along the rows of an m × n vector, read at row `r`: the sum over the columns of the entries of that row. -/
theorem rowSum_apply (src : FVec Ideal ⟨2, ![m, n]⟩ .f32) (h : (⟨2, ![m, n]⟩ : Shape).Reduces [1] ⟨1, ![m]⟩)
    (hφ : FKind.Formats .f32) (hacc : (0x00000000#32 : BitVec 32) = FKind.add.neutral .f32 hφ) (r : Fin m) :
    multiReduction .add [1] ⟨1, ![m]⟩ src 0x00000000#32 h hφ hacc (ix1 r) = ∑ k : Fin n, src (ix2 r k) := by
  refine (Ideal.multiReduction_add_single src 0x00000000#32 h hφ hacc (ix1 r)).trans ?_
  show ∑ k : Fin n, src (h.lift (ix1 r) k) = _
  refine Finset.sum_congr rfl fun k _ => congrArg src ?_
  funext ax; apply Fin.ext
  match ax with
  | ⟨0, _⟩ => rfl
  | ⟨1, _⟩ => rfl

/-- An `[a]` array cast to `[a, 1]` reads, at `(i, u)`, the operand at `i`. -/
theorem shapeCast_a_a1_apply {α : Type} {a : Nat} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Contract

end Cert.TTN.Body

end
-- ==== Proof.BodyValueRounds.lean ====
/-
  The doubling rounds read along one flat column index.

  Fix a row `r` and a natural number `k`, and read every intermediate state at column `k % m`, `m` its number of
  columns.  A round for wire `q` takes a state with `n` columns to one with `n + n`: the new state at column
  `k % (n + n)` is the old state at column `k % n` times the factor of wire `q` chosen by the binary digit of `k` of
  weight `n`: the cosine entry `(r, q)` for digit 0, the sine entry for digit 1 (`fac`).  The first state, two columns,
  is the factor of its wire chosen by the last digit.
-/
import proofs.«130987_j14276471292017_1_alg».proof.Proof.BodyValueLayout

noncomputable section

open scoped BigOperators

namespace Cert.TTN.Body

open Idealize.ShloMosaic Idealize.ShloMosaic.ValueIdx

/-- The factor of wire `q` at the flat column index `k`: the cosine entry `(r, q)` when the binary digit of `k` of
    weight `d` is 0, the sine entry when it is 1. -/
def fac (C Sn : FVec Ideal ⟨2, ![512, 8]⟩ .f32) (r : Fin 512) (q : Fin 8) (d k : Nat) : EReal :=
  if (k / d) % 2 = 0 then C (ix2 r q) else Sn (ix2 r q)

/-- One doubling round read at column `k % (n + n)`. -/
theorem round_mod {n m : Nat} (q : Fin 8) (S : FVec Ideal ⟨2, ![512, n]⟩ .f32)
    (C Sn : FVec Ideal ⟨2, ![512, 8]⟩ .f32)
    (hs : (⟨2, ![512, 8]⟩ : Shape).Slices ![0, q.val] ⟨2, ![512, 1]⟩)
    (hb : (⟨2, ![512, 1]⟩ : Shape).Broadcasts ⟨2, ![512, n]⟩)
    (hc : Shape.Concatenates [(⟨2, ![512, n]⟩ : Shape), ⟨2, ![512, n]⟩] ⟨2, ![512, m]⟩ 1) (hm : m = n + n)
    (hn : 0 < n) (r : Fin 512) (k : Nat) :
    concatenate ⟨2, ![512, m]⟩ 1
        [⟨⟨2, ![512, n]⟩, mulf S (broadcastTo ⟨2, ![512, n]⟩ (extractStridedSlice ⟨2, ![512, 1]⟩ ![0, q.val] C hs) hb)⟩,
         ⟨⟨2, ![512, n]⟩, mulf S (broadcastTo ⟨2, ![512, n]⟩ (extractStridedSlice ⟨2, ![512, 1]⟩ ![0, q.val] Sn hs) hb)⟩] hc
        (ix2 r ⟨k % m, Nat.mod_lt _ (by omega)⟩)
      = S (ix2 r ⟨k % n, Nat.mod_lt _ hn⟩) * fac C Sn r q n k := by
  refine (round_apply q.val q.isLt S C Sn hs hb hc hm r _).trans ?_
  have e1 : (k % m) % n = k % n := by subst hm; exact Nat.mod_mod_of_dvd k ⟨2, by omega⟩
  have e2 : ((k % m) / n) % 2 = (k / n) % 2 := by
    subst hm
    rw [show n + n = n * 2 by omega, Nat.mod_mul_right_div_self, Nat.mod_mod]
  have ei : (⟨(k % m) % n, Nat.mod_lt _ hn⟩ : Fin n) = ⟨k % n, Nat.mod_lt _ hn⟩ := Fin.ext e1
  show S (ix2 r ⟨(k % m) % n, Nat.mod_lt _ hn⟩)
      * (if ((k % m) / n) % 2 = 0 then C (ix2 r ⟨q.val, q.isLt⟩) else Sn (ix2 r ⟨q.val, q.isLt⟩))
    = S (ix2 r ⟨k % n, Nat.mod_lt _ hn⟩) * (if (k / n) % 2 = 0 then C (ix2 r q) else Sn (ix2 r q))
  rw [← ei, ← e2]

/-- The first state (the cosine and the sine column of its wire side by side) read at column `k % 2`. -/
theorem base_mod (q : Fin 8) (C Sn : FVec Ideal ⟨2, ![512, 8]⟩ .f32)
    (hs : (⟨2, ![512, 8]⟩ : Shape).Slices ![0, q.val] ⟨2, ![512, 1]⟩)
    (hc : Shape.Concatenates [(⟨2, ![512, 1]⟩ : Shape), ⟨2, ![512, 1]⟩] ⟨2, ![512, 2]⟩ 1) (r : Fin 512) (k : Nat) :
    concatenate ⟨2, ![512, 2]⟩ 1
        [⟨⟨2, ![512, 1]⟩, extractStridedSlice ⟨2, ![512, 1]⟩ ![0, q.val] C hs⟩,
         ⟨⟨2, ![512, 1]⟩, extractStridedSlice ⟨2, ![512, 1]⟩ ![0, q.val] Sn hs⟩] hc
        (ix2 r ⟨k % 2, Nat.mod_lt _ (by decide)⟩)
      = fac C Sn r q 1 k := by
  unfold fac
  rw [Nat.div_one]
  by_cases h : k % 2 = 0
  · rw [if_pos h, concat_cols_left _ _ hc r _ (by show k % 2 < 1; omega), slice_col_apply q.val q.isLt]
  · rw [if_neg h, concat_cols_right _ _ hc r _ (by show 1 ≤ k % 2; omega) rfl, slice_col_apply q.val q.isLt]

end Cert.TTN.Body

end
-- ==== Proof.BodyValueAngles.lean ====
/-
  The kernel's half angles.

  For one tile of 512 edges the kernel multiplies the transposed outgoing and incoming incidence blocks (2048 nodes
  by 512 edges each) with the node features (2048 by 4), puts the two 512 × 4 products side by side and halves them.
  Entry `(r, w)` of the result is one half of the sum over the nodes `n` of `Ro (n, r) · X (n, w)` for `w < 4`, and of
  `Ri (n, r) · X (n, w - 4)` for `w ≥ 4`: the half angle of wire `w` at edge `r`.  The cosine and sine matrices are
  the cosine and sine of these entries.
-/
import proofs.«130987_j14276471292017_1_alg».proof.Proof.Gen.KernelIdeal.Skeleton
import proofs.«130987_j14276471292017_1_alg».proof.Proof.BodyValueLayout

noncomputable section

open scoped BigOperators

namespace Cert.TTN.Body

open Idealize.ShloMosaic Idealize.ShloMosaic.ValueIdx
open Cert.KernelIdeal Cert.KernelIdeal.Gen

/-- The eight half angles of edge row `r` of a tile: `0.5 · (Roᵀ X | Riᵀ X) (r, w)`. -/
def halfAngles (x0 x1 : Vec Ideal S2048x512 .f32) (x2 : Vec Ideal S2048x4 .f32) (r : Fin 512) (w : Fin 8) : EReal :=
  Ideal.ofBits .f32 0x3F000000#32 *
    (if h : w.val < 4 then 0 + ∑ n : Fin 2048, x0 (ix2 n r) * x2 (ix2 n ⟨w.val, h⟩)
     else 0 + ∑ n : Fin 2048, x1 (ix2 n r) * x2 (ix2 n ⟨w.val - 4, by have := w.isLt; omega⟩))

/-- The halved products at `(r, w)`. -/
theorem pay2_apply (x0 x1 : Vec Ideal S2048x512 .f32) (x2 : Vec Ideal S2048x4 .f32) (r : Fin 512) (w : Fin 8) :
    k0_pay2 (F := Ideal) x0 x1 x2 (ix2 r w) = halfAngles x0 x1 x2 r w := by
  unfold k0_pay2 halfAngles
  refine (mulf_apply _ _ _).trans ?_
  refine congrArg (Ideal.ofBits .f32 0x3F000000#32 * ·) ?_
  by_cases h : w.val < 4
  · rw [dif_pos h]
    refine (concat_cols_left _ _ _ r w h).trans ?_
    refine (matmulT_apply dot_S2048x512_S2048x4_S512x4_0_0_1_1_n_n_wf none _ _ r ⟨w.val, h⟩).trans ?_
    exact (zero_add _).symm
  · rw [dif_neg h]
    refine (concat_cols_right _ _ _ r w (Nat.le_of_not_lt h) rfl).trans ?_
    refine (matmulT_apply dot_S2048x512_S2048x4_S512x4_0_0_1_1_n_n_wf none _ _ r _).trans ?_
    exact (zero_add _).symm

/-- The cosine matrix at `(r, w)`. -/
theorem pay3_apply (x0 x1 : Vec Ideal S2048x512 .f32) (x2 : Vec Ideal S2048x4 .f32) (r : Fin 512) (w : Fin 8) :
    k0_pay3 (F := Ideal) x0 x1 x2 (ix2 r w) = Ideal.cos (halfAngles x0 x1 x2 r w) := by
  rw [← pay2_apply]; rfl

/-- The sine matrix at `(r, w)`. -/
theorem pay4_apply (x0 x1 : Vec Ideal S2048x512 .f32) (x2 : Vec Ideal S2048x4 .f32) (r : Fin 512) (w : Fin 8) :
    k0_pay4 (F := Ideal) x0 x1 x2 (ix2 r w) = Ideal.sin (halfAngles x0 x1 x2 r w) := by
  rw [← pay2_apply]; rfl

end Cert.TTN.Body

end
-- ==== Proof.BodyValueState.lean ====
/-
  The kernel's product state and the value it stores, at one row.

  From the cosine and sine matrices of the half angles the kernel builds, for each of its 512 edge rows, a state
  with 256 columns by seven doubling rounds: the round for wire `q` (from 6 down to 0) multiplies the state so far by
  the cosine of wire `q` on the left half of the new columns and by its sine on the right half.  At the flat column
  index `k` the result is the product over the wires, from wire 7 up to wire 0, of the cosine or sine of the wire's
  half angle, chosen by the binary digit of `k` of weight `2^(7-w)`: the encoded product state.  The kernel then
  multiplies this state by a 256 × 256 matrix, squares entry by entry, weights by a mask row and sums along the row.
-/
import proofs.«130987_j14276471292017_1_alg».proof.Proof.Gen.KernelIdeal.Skeleton
import proofs.«130987_j14276471292017_1_alg».proof.Proof.Amp
import proofs.«130987_j14276471292017_1_alg».proof.Proof.BodyValueRounds
import proofs.«130987_j14276471292017_1_alg».proof.Proof.BodyValueAngles

noncomputable section

open scoped BigOperators

namespace Cert.TTN.Body

open Idealize.ShloMosaic Idealize.ShloMosaic.ValueIdx
open Cert.KernelIdeal Cert.KernelIdeal.Gen

/-- The state after the rounds for wires 7 … 3, read at column `k % 32`. -/
theorem pay5_mod (x0 x1 : Vec Ideal S2048x512 .f32) (x2 : Vec Ideal S2048x4 .f32) (r : Fin 512) (k : Nat) :
    k0_pay5 (F := Ideal) x0 x1 x2 (ix2 r ⟨k % 32, Nat.mod_lt _ (by decide)⟩)
      = (((fac (k0_pay3 x0 x1 x2) (k0_pay4 x0 x1 x2) r 7 1 k * fac (k0_pay3 x0 x1 x2) (k0_pay4 x0 x1 x2) r 6 2 k)
            * fac (k0_pay3 x0 x1 x2) (k0_pay4 x0 x1 x2) r 5 4 k) * fac (k0_pay3 x0 x1 x2) (k0_pay4 x0 x1 x2) r 4 8 k)
          * fac (k0_pay3 x0 x1 x2) (k0_pay4 x0 x1 x2) r 3 16 k := by
  unfold k0_pay5
  generalize k0_pay3 x0 x1 x2 = C
  generalize k0_pay4 x0 x1 x2 = Sn
  refine (round_mod (n := 16) (m := 32) 3 _ C Sn _ _ _ rfl (by decide) r k).trans ?_
  refine congrArg (· * fac C Sn r 3 16 k) ?_
  refine (round_mod (n := 8) (m := 16) 4 _ C Sn _ _ _ rfl (by decide) r k).trans ?_
  refine congrArg (· * fac C Sn r 4 8 k) ?_
  refine (round_mod (n := 4) (m := 8) 5 _ C Sn _ _ _ rfl (by decide) r k).trans ?_
  refine congrArg (· * fac C Sn r 5 4 k) ?_
  refine (round_mod (n := 2) (m := 4) 6 _ C Sn _ _ _ rfl (by decide) r k).trans ?_
  refine congrArg (· * fac C Sn r 6 2 k) ?_
  exact base_mod 7 C Sn _ _ r k

/-- A vector's entry at column `j` is its entry at column `j % m`. -/
theorem at_mod {α : Type} {m : Nat} (V : (⟨2, ![512, m]⟩ : Shape).Idx → α) (r : Fin 512) (j : Fin m) :
    V (ix2 r j) = V (ix2 r ⟨j.val % m, Nat.mod_lt _ (by have := j.isLt; omega)⟩) :=
  congrArg (fun i => V (ix2 r i)) (Fin.ext (Nat.mod_eq_of_lt j.isLt).symm)

/-- The 256-column state of row `r` at the flat index `k`, from a 32-column state `P` and the cosine and sine
    matrices: `P` at column `k % 32` times the factors of wires 2, 1 and 0. -/
def stateAt (C Sn : FVec Ideal S512x8 .f32) (P : FVec Ideal S512x32 .f32) (r : Fin 512) (k : Nat) : EReal :=
  ((P (ix2 r ⟨k % 32, Nat.mod_lt _ (by decide)⟩) * fac C Sn r 2 32 k) * fac C Sn r 1 64 k) * fac C Sn r 0 128 k

/-- What the kernel stores at row `r`, over any cosine and sine matrices, any 32-column state `P`, any matrix `M` and
    mask row: with `φ k = 0 + ∑ j, state j · M (j, k)`, the sum `0 + ∑ k, (φ k · φ k) · mask k`. -/
theorem pay1_apply (C Sn : FVec Ideal S512x8 .f32) (P : FVec Ideal S512x32 .f32) (M : Vec Ideal S256x256 .f32)
    (mask : Vec Ideal S1x256 .f32) (r : Fin 512) (u : Fin 1) :
    k0_pay1 (F := Ideal) C Sn
        (mulf P (broadcastTo S512x32 (extractStridedSlice S512x1 ![0, 2] C slices_S512x8_o0_2_S512x1) broadcasts_S512x1_S512x32))
        (mulf P (broadcastTo S512x32 (extractStridedSlice S512x1 ![0, 2] Sn slices_S512x8_o0_2_S512x1) broadcasts_S512x1_S512x32))
        M mask (ix2 r u)
      = 0 + ∑ k : Fin 256, ((0 + ∑ j : Fin 256, stateAt C Sn P r j.val * M (ix2 j k))
          * (0 + ∑ j : Fin 256, stateAt C Sn P r j.val * M (ix2 j k))) * mask (ix2 (0 : Fin 1) k) := by
  unfold k0_pay1
  refine (shapeCast_a_a1_apply _ _ r u).trans ?_
  refine (rowSum_apply _ _ _ _ r).trans ?_
  refine Eq.trans ?_ (zero_add _).symm
  refine Finset.sum_congr rfl fun k _ => ?_
  refine (mulf_apply _ _ _).trans ?_
  refine congr (congrArg HMul.hMul ?_) ?_
  · refine (mulf_apply _ _ _).trans ?_
    have key : ∀ (V : FVec Ideal S512x256 .f32) (φ : EReal), V (ix2 r k) = φ → V (ix2 r k) * V (ix2 r k) = φ * φ :=
      fun V φ h => by rw [h]
    refine key _ _ ?_
    refine (matmulP_apply dot_S512x256_S256x256_S512x256_1_0_0_1_n_n_wf none _ _ r k).trans ?_
    refine Eq.trans ?_ (zero_add _).symm
    refine Finset.sum_congr rfl fun j _ => ?_
    refine congr (congrArg HMul.hMul ?_) ?_
    · refine (truncf_apply (ψ := .bf16) (φ := .f32) _ bitsLt_bf16_f32 _).trans ?_
      refine (at_mod _ r j).trans ?_
      unfold stateAt
      refine (round_mod (n := 128) (m := 256) 0 _ C Sn _ _ _ rfl (by decide) r j.val).trans ?_
      refine congrArg (· * fac C Sn r 0 128 j.val) ?_
      refine (round_mod (n := 64) (m := 128) 1 _ C Sn _ _ _ rfl (by decide) r j.val).trans ?_
      refine congrArg (· * fac C Sn r 1 64 j.val) ?_
      exact round_mod (n := 32) (m := 64) 2 P C Sn _ _ _ rfl (by decide) r j.val
    · exact (truncf_apply (ψ := .bf16) (φ := .f32) _ bitsLt_bf16_f32 _).trans (congrFun (shapeCast_self M _) _)
  · refine (broadcastTo_1b_ab_apply _ _ r k).trans ?_
    rw [shapeCast_self, shapeCast_self]

/-- A factor over the kernel's cosine and sine matrices is the amplitude factor of the half angle, chosen by the bit
    of the wire in the flat index. -/
theorem fac_eq_ampE (x0 x1 : Vec Ideal S2048x512 .f32) (x2 : Vec Ideal S2048x4 .f32) (r : Fin 512) (q : Fin 8)
    (d : Nat) (hd : d = 2 ^ (7 - q.val)) (k : Fin 256) :
    fac (k0_pay3 x0 x1 x2) (k0_pay4 x0 x1 x2) r q d k.val = ampE (halfAngles x0 x1 x2 r q) (bitOf k q) := by
  subst hd
  unfold fac ampE bitOf
  rw [pay3_apply, pay4_apply]
  exact if_congr ⟨fun h => Fin.ext h, fun h => congrArg Fin.val h⟩ rfl rfl

/-- The kernel's 256-column state at `(r, k)` is the encoded product state of the half angles. -/
theorem stateAt_eq_psiE (x0 x1 : Vec Ideal S2048x512 .f32) (x2 : Vec Ideal S2048x4 .f32) (r : Fin 512) (k : Fin 256) :
    stateAt (k0_pay3 x0 x1 x2) (k0_pay4 x0 x1 x2) (k0_pay5 x0 x1 x2) r k.val = psiE (halfAngles x0 x1 x2 r) k := by
  unfold stateAt psiE
  rw [pay5_mod, fac_eq_ampE x0 x1 x2 r 7 1 rfl k, fac_eq_ampE x0 x1 x2 r 6 2 rfl k, fac_eq_ampE x0 x1 x2 r 5 4 rfl k,
    fac_eq_ampE x0 x1 x2 r 4 8 rfl k, fac_eq_ampE x0 x1 x2 r 3 16 rfl k, fac_eq_ampE x0 x1 x2 r 2 32 rfl k,
    fac_eq_ampE x0 x1 x2 r 1 64 rfl k, fac_eq_ampE x0 x1 x2 r 0 128 rfl k]

/-- The body's stored value at row `r`, over the loaded blocks: the kernel row of the half angles. -/
theorem payload_value (x0 x1 : Vec Ideal S2048x512 .f32) (x2 : Vec Ideal S2048x4 .f32) (x3 : Vec Ideal S256x256 .f32)
    (x4 : Vec Ideal S1x256 .f32) (r : Fin 512) (u : Fin 1) :
    k0_pay1 (F := Ideal) (k0_pay3 x0 x1 x2) (k0_pay4 x0 x1 x2) (k0_pay6 x0 x1 x2) (k0_pay7 x0 x1 x2) x3 x4 (ix2 r u)
      = Cert.TTN.kernelRow (halfAngles x0 x1 x2 r) (fun j k => x3 (ix2 j k)) (fun k => x4 (ix2 (0 : Fin 1) k)) := by
  refine (pay1_apply (k0_pay3 x0 x1 x2) (k0_pay4 x0 x1 x2) (k0_pay5 x0 x1 x2) x3 x4 r u).trans ?_
  unfold Cert.TTN.kernelRow
  simp only [stateAt_eq_psiE]

end Cert.TTN.Body

end
-- ==== Proof.BodyValue.lean ====
/-
  The value the kernel's body leaves at one output row.

  The body loads its five blocks whole, computes, and stores one 512 × 1 column whole; so what it leaves at row `r` is
  the computed column at row `r`: with the eight half angles of edge row `r` (one half of the products of the
  transposed incidence blocks with the node features), the encoded product state of those half angles times the
  256 × 256 matrix, squared entry by entry, weighted by the mask row and summed.
-/
import proofs.«130987_j14276471292017_1_alg».proof.Proof.GenP.KernelIdeal.Frame
import proofs.«130987_j14276471292017_1_alg».proof.Proof.BodyValueState

noncomputable section

open scoped BigOperators

namespace Cert.TTN.Body

open Idealize.ShloMosaic Idealize.ShloMosaic.ValueIdx

/-- The offsets of a whole-block rectangle are zero. -/
theorem offsets_zero : (![0, 0] : Fin 2 → Nat) = fun _ => 0 := funext fun a => by fin_cases a <;> rfl

/-- What the body leaves at row `r` of its output block: the kernel row of the half angles of edge row `r`. -/
theorem body_value (x0 x1 : Vec Ideal Cert.KernelIdeal.S2048x512 .f32) (x2 : Vec Ideal Cert.KernelIdeal.S2048x4 .f32)
    (x3 : Vec Ideal Cert.KernelIdeal.S256x256 .f32) (x4 : Vec Ideal Cert.KernelIdeal.S1x256 .f32) (r : Fin 512) :
    Cert.KernelIdeal.Gen.out0_5 (F := Ideal) x0 x1 x2 x3 x4 (ix2 r (0 : Fin 1))
      = Cert.TTN.kernelRow (halfAngles x0 x1 x2 r) (fun j k => x3 (ix2 j k)) (fun k => x4 (ix2 (0 : Fin 1) k)) := by
  unfold Cert.KernelIdeal.Gen.out0_5
  rw [View.canon_unit_zero offsets_zero]
  simp only [View.ld_unit_zero (S := Cert.KernelIdeal.S2048x512) offsets_zero,
    View.ld_unit_zero (S := Cert.KernelIdeal.S2048x4) offsets_zero,
    View.ld_unit_zero (S := Cert.KernelIdeal.S256x256) offsets_zero,
    View.ld_unit_zero (S := Cert.KernelIdeal.S1x256) offsets_zero]
  exact payload_value x0 x1 x2 x3 x4 r 0

end Cert.TTN.Body

end
-- ==== Proof.Angles.lean ====
/-
  The encoding angles of an edge, from the whole arrays, and the reference's order of the product state.

  Edge `e` has eight angles: the first four are column `e` of the outgoing incidence matrix against the four feature
  columns, the last four the same for the incoming incidence matrix.  Both programs halve them.  The reference
  multiplies the eight factors of the product state from wire 0 up to wire 7.
-/
import Idealize.ShloMosaic.Lib.ValueIdx
import proofs.«130987_j14276471292017_1_alg».proof.Proof.Amp

noncomputable section

namespace Cert.TTN

open Idealize.ShloMosaic Idealize.ShloMosaic.ValueIdx

/-- The eight half angles of edge `e`: `0.5 · (roᵀ x | riᵀ x)[e, w]`, each sum started from zero. -/
def halfG (x : FVec Ideal ⟨2, ![2048, 4]⟩ .f32) (ri ro : FVec Ideal ⟨2, ![2048, 16384]⟩ .f32) (e : Fin 16384) (w : Fin 8) : EReal :=
  Ideal.ofBits .f32 0x3F000000#32 *
    (if h : w.val < 4 then 0 + ∑ n : Fin 2048, ro (ix2 n e) * x (ix2 n ⟨w.val, h⟩)
     else 0 + ∑ n : Fin 2048, ri (ix2 n e) * x (ix2 n ⟨w.val - 4, by omega⟩))

/-- The encoded product state at basis state `q`, the factors multiplied from wire 0 up to wire 7. -/
def psiRef (h : Fin 8 → EReal) (q : Q) : EReal :=
  ((((((ampE (h 0) (q 0) * ampE (h 1) (q 1)) * ampE (h 2) (q 2)) * ampE (h 3) (q 3)) * ampE (h 4) (q 4)) * ampE (h 5) (q 5))
    * ampE (h 6) (q 6)) * ampE (h 7) (q 7)

end Cert.TTN

end
-- ==== Proof.KernelRunLayout.lean ====
/-
  The kernel's result as one function of the whole arrays.

  For edge `e` the kernel stores, in row `e` of a one-column array, the kernel row of the eight half angles of that
  edge: the encoded product state times a 256 × 256 matrix, squared entry by entry, weighted by a mask row and summed.
  `colG` is that column as a function of the array's index; read as a vector of length 16384 (the column's rows in
  order) it is the same value at the same edge.
-/
import Idealize.ShloMosaic.Lib.Pipeline.Value
import Idealize.ShloMosaic.Lib.ValueIdx
import proofs.«130987_j14276471292017_1_alg».proof.Proof.Angles

noncomputable section

open scoped BigOperators

namespace Cert.TTN.KRun

open Idealize.ShloMosaic Idealize.ShloMosaic.ValueIdx

/-- The one-column array of the kernel rows: row `e` holds the kernel row of edge `e`'s half angles. -/
def colG (x : FVec Ideal ⟨2, ![2048, 4]⟩ .f32) (ri ro : FVec Ideal ⟨2, ![2048, 16384]⟩ .f32)
    (M : Fin 256 → Fin 256 → EReal) (mask : Fin 256 → EReal) : (⟨2, ![16384, 1]⟩ : Shape).Idx → EReal :=
  fun i => Cert.TTN.kernelRow (Cert.TTN.halfG x ri ro ⟨(i 0).val, idx2_lt0 i⟩) M mask

/-- The column at row `e`. -/
theorem colG_apply (x : FVec Ideal ⟨2, ![2048, 4]⟩ .f32) (ri ro : FVec Ideal ⟨2, ![2048, 16384]⟩ .f32)
    (M : Fin 256 → Fin 256 → EReal) (mask : Fin 256 → EReal) (e : Fin 16384) (u : Fin 1) :
    colG x ri ro M mask (ix2 e u) = Cert.TTN.kernelRow (Cert.TTN.halfG x ri ro e) M mask := rfl

/-- The column read as a vector of its 16384 rows: entry `e` is the kernel row of edge `e`. -/
theorem cast_colG (x : FVec Ideal ⟨2, ![2048, 4]⟩ .f32) (ri ro : FVec Ideal ⟨2, ![2048, 16384]⟩ .f32)
    (M : Fin 256 → Fin 256 → EReal) (mask : Fin 256 → EReal)
    (h : (⟨2, ![16384, 1]⟩ : Shape).ShapeCasts ⟨1, ![16384]⟩) :
    shapeCast ⟨1, ![16384]⟩ (colG x ri ro M mask) h
      = fun i : (⟨1, ![16384]⟩ : Shape).Idx =>
          Cert.TTN.kernelRow (Cert.TTN.halfG x ri ro ⟨(i 0).val, (i 0).isLt⟩) M mask := by
  funext i
  refine (shapeCast_apply (colG x ri ro M mask) h i (ix2 (⟨(i 0).val, (i 0).isLt⟩ : Fin 16384) (0 : Fin 1)) ?_).trans
    (colG_apply x ri ro M mask _ _)
  rw [Shape.rowMajor_val_two, Shape.rowMajor_val_one]
  show (i 0).val * 1 + 0 = (i 0).val
  omega

/-- Two functions of a one-column block's index are equal when they agree at every row. -/
theorem funext_col {α : Type} {f g : (⟨2, ![512, 1]⟩ : Shape).Idx → α}
    (h : ∀ r : Fin 512, f (ix2 r (0 : Fin 1)) = g (ix2 r (0 : Fin 1))) : f = g := by
  funext y
  have hy : y = ix2 (⟨(y 0).val, idx2_lt0 y⟩ : Fin 512) (0 : Fin 1) := by
    funext a
    match a with
    | ⟨0, _⟩ => rfl
    | ⟨1, _⟩ => exact Fin.ext (by have := idx2_lt1 y; show (y 1).val = 0; omega)
  rw [hy]
  exact h _

end Cert.TTN.KRun

end
-- ==== Proof.KernelRun.lean ====
/-
  The kernel program's run, with its result named.

  The pipeline runs the body at 32 grid points.  At point `t` the body sees columns `512 t … 512 t + 511` of the two
  incidence matrices, the whole feature matrix, the whole 256 × 256 matrix and the whole mask row, and leaves in its
  512 × 1 output block, at row `r`, the kernel row of the half angles of edge row `r` of the tile.  Edge row `r` of tile
  `t` is edge `512 t + r` of the whole arrays, so point `t` writes back block `t` of one column: row `e` holds the kernel
  row of edge `e`'s half angles.  The 32 blocks cover the column, so the column ends holding that function; the host then
  reads the 16384 × 1 column as a vector of length 16384, entry `e` the column's row `e`.
-/
import proofs.«130987_j14276471292017_1_alg».proof.Proof.GenP.KernelIdeal.Frame
import proofs.«130987_j14276471292017_1_alg».proof.Proof.BodyValue
import proofs.«130987_j14276471292017_1_alg».proof.Proof.KernelRunLayout
import Idealize.ShloMosaic.Lib.Pipeline.Value
import Idealize.ShloMosaic.Lib.Tactic

noncomputable section

open scoped BigOperators

namespace Cert.TTN.KRun

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (ρ : Dev nD → PrngReg)

/-! ## The index maps over the grid -/

/-- The printed index maps at point `t`: the two incidence windows and the output window move with `t` along the
    edge axis, the three whole windows stay at block zero. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## Each window's block of an array, entry by entry

The arrays are variables here: what a block read returns depends on the window's rectangle only. -/

/-- Window 0's block at point `t`, row `n`, column `r`, is the array at row `n`, column `512 t + r`. -/
theorem blk0_read (A : S2048x16384.Idx → EReal) (t : Fin cfg0.N) (n : Fin 2048) (r : Fin 512) (e : Fin 16384)
    (he : e.val = t.val * 512 + r.val) :
    ((cfg0.win 0).blk t).view.read (Elt Ideal) A (ix2 n r) = A (ix2 n e) := by
  obtain ⟨e0, e1, -⟩ := idx_facts t
  rw [View.read_apply]
  show A _ = A _
  refine congrArg A ?_
  funext a
  apply Fin.ext
  match a with
  | ⟨0, _⟩ => show win0_0.index t (0 : Fin 2) * 2048 + 1 * n.val = n.val; rw [e0]; omega
  | ⟨1, _⟩ => show win0_0.index t (1 : Fin 2) * 512 + 1 * r.val = e.val; rw [e1, he]; omega

/-- Window 1's block at point `t`, likewise. -/
theorem blk1_read (A : S2048x16384.Idx → EReal) (t : Fin cfg0.N) (n : Fin 2048) (r : Fin 512) (e : Fin 16384)
    (he : e.val = t.val * 512 + r.val) :
    ((cfg0.win 1).blk t).view.read (Elt Ideal) A (ix2 n r) = A (ix2 n e) := by
  obtain ⟨-, -, e0, e1, -⟩ := idx_facts t
  rw [View.read_apply]
  show A _ = A _
  refine congrArg A ?_
  funext a
  apply Fin.ext
  match a with
  | ⟨0, _⟩ => show win0_1.index t (0 : Fin 2) * 2048 + 1 * n.val = n.val; rw [e0]; omega
  | ⟨1, _⟩ => show win0_1.index t (1 : Fin 2) * 512 + 1 * r.val = e.val; rw [e1, he]; omega

/-- Window 2's block at any point is its whole array. -/
theorem blk2_read (A : S2048x4.Idx → EReal) (t : Fin cfg0.N) (n : Fin 2048) (w : Fin 4) :
    ((cfg0.win 2).blk t).view.read (Elt Ideal) A (ix2 n w) = A (ix2 n w) := by
  obtain ⟨-, -, -, -, e0, e1, -⟩ := idx_facts t
  rw [View.read_apply]
  show A _ = A _
  refine congrArg A ?_
  funext a
  apply Fin.ext
  match a with
  | ⟨0, _⟩ => show win0_2.index t (0 : Fin 2) * 2048 + 1 * n.val = n.val; rw [e0]; omega
  | ⟨1, _⟩ => show win0_2.index t (1 : Fin 2) * 4 + 1 * w.val = w.val; rw [e1]; omega

/-- Window 3's block at any point is its whole array. -/
theorem blk3_read (A : S256x256.Idx → EReal) (t : Fin cfg0.N) (j k : Fin 256) :
    ((cfg0.win 3).blk t).view.read (Elt Ideal) A (ix2 j k) = A (ix2 j k) := by
  obtain ⟨-, -, -, -, -, -, e0, e1, -⟩ := idx_facts t
  rw [View.read_apply]
  show A _ = A _
  refine congrArg A ?_
  funext a
  apply Fin.ext
  match a with
  | ⟨0, _⟩ => show win0_3.index t (0 : Fin 2) * 256 + 1 * j.val = j.val; rw [e0]; omega
  | ⟨1, _⟩ => show win0_3.index t (1 : Fin 2) * 256 + 1 * k.val = k.val; rw [e1]; omega

/-- Window 4's block at any point is its whole array. -/
theorem blk4_read (A : S1x256.Idx → EReal) (t : Fin cfg0.N) (u : Fin 1) (k : Fin 256) :
    ((cfg0.win 4).blk t).view.read (Elt Ideal) A (ix2 u k) = A (ix2 u k) := by
  obtain ⟨-, -, -, -, -, -, -, -, e0, e1, -⟩ := idx_facts t
  rw [View.read_apply]
  show A _ = A _
  refine congrArg A ?_
  funext a
  apply Fin.ext
  match a with
  | ⟨0, _⟩ => show win0_4.index t (0 : Fin 2) * 1 + 1 * u.val = u.val; rw [e0]; omega
  | ⟨1, _⟩ => show win0_4.index t (1 : Fin 2) * 256 + 1 * k.val = k.val; rw [e1]; omega

/-! ## What one point writes back -/

/-- The half angles of edge row `r` of a tile are those of edge `e` of the whole arrays, when the tile's incidence
    columns `r` are the whole matrices' columns `e` and the tile's features are the whole features. -/
theorem half_eq (x0 x1 : Vec Ideal S2048x512 .f32) (x2 : Vec Ideal S2048x4 .f32)
    (x : FVec Ideal ⟨2, ![2048, 4]⟩ .f32) (ri ro : FVec Ideal ⟨2, ![2048, 16384]⟩ .f32) (r : Fin 512) (e : Fin 16384)
    (h0 : ∀ n : Fin 2048, x0 (ix2 n r) = ro (ix2 n e)) (h1 : ∀ n : Fin 2048, x1 (ix2 n r) = ri (ix2 n e))
    (h2 : ∀ (n : Fin 2048) (w : Fin 4), x2 (ix2 n w) = x (ix2 n w)) :
    Cert.TTN.Body.halfAngles x0 x1 x2 r = Cert.TTN.halfG x ri ro e := by
  funext w
  unfold Cert.TTN.Body.halfAngles Cert.TTN.halfG
  by_cases h : w.val < 4
  · rw [dif_pos h, dif_pos h]
    exact congrArg (fun s : EReal => Ideal.ofBits .f32 0x3F000000#32 * (0 + s))
      (Finset.sum_congr rfl fun n _ => by rw [h0 n, h2 n])
  · rw [dif_neg h, dif_neg h]
    exact congrArg (fun s : EReal => Ideal.ofBits .f32 0x3F000000#32 * (0 + s))
      (Finset.sum_congr rfl fun n _ => by rw [h1 n, h2 n])

/-- What the body leaves at row `r` of its output block, from the five windows' blocks at point `t` of any arrays, is
    the column of kernel rows of those arrays at any index whose row is `512 t + r`. -/
theorem point_value (t : Fin cfg0.N) (A0 A1 : S2048x16384.Idx → EReal) (A2 : S2048x4.Idx → EReal)
    (A3 : S256x256.Idx → EReal) (A4 : S1x256.Idx → EReal) (r : Fin 512) (i : S16384x1.Idx)
    (hi : (i 0).val = t.val * 512 + r.val) :
    out0_5 (F := Ideal) (((cfg0.win 0).blk t).view.read (Elt Ideal) A0) (((cfg0.win 1).blk t).view.read (Elt Ideal) A1)
        (((cfg0.win 2).blk t).view.read (Elt Ideal) A2) (((cfg0.win 3).blk t).view.read (Elt Ideal) A3)
        (((cfg0.win 4).blk t).view.read (Elt Ideal) A4) (ix2 r (0 : Fin 1))
      = colG A2 A1 A0 (fun j k => A3 (ix2 j k)) (fun k => A4 (ix2 (0 : Fin 1) k)) i := by
  refine (Cert.TTN.Body.body_value _ _ _ _ _ r).trans ?_
  have h1 : Cert.TTN.Body.halfAngles (((cfg0.win 0).blk t).view.read (Elt Ideal) A0)
        (((cfg0.win 1).blk t).view.read (Elt Ideal) A1) (((cfg0.win 2).blk t).view.read (Elt Ideal) A2) r
      = Cert.TTN.halfG A2 A1 A0 ⟨(i 0).val, idx2_lt0 i⟩ :=
    half_eq _ _ _ A2 A1 A0 r ⟨(i 0).val, idx2_lt0 i⟩
      (fun n => blk0_read A0 t n r ⟨(i 0).val, idx2_lt0 i⟩ hi)
      (fun n => blk1_read A1 t n r ⟨(i 0).val, idx2_lt0 i⟩ hi)
      (fun n w => blk2_read A2 t n w)
  have h3 : (fun j k : Fin 256 => ((cfg0.win 3).blk t).view.read (Elt Ideal) A3 (ix2 j k))
      = fun j k : Fin 256 => A3 (ix2 j k) :=
    funext fun j => funext fun k => blk3_read A3 t j k
  have h4 : (fun k : Fin 256 => ((cfg0.win 4).blk t).view.read (Elt Ideal) A4 (ix2 (0 : Fin 1) k))
      = fun k : Fin 256 => A4 (ix2 (0 : Fin 1) k) :=
    funext fun k => blk4_read A4 t 0 k
  exact congr (congr (congrArg Cert.TTN.kernelRow h1) h3) h4

/-- A point writes back block `t` of a column `G` when what it holds at row `r` is `G` at row `512 t + r`. -/
theorem flushed_of (t : Fin cfg0.N) (X : Vec Ideal S512x1 .f32) (G : S16384x1.Idx → EReal)
    (h : ∀ (r : Fin 512) (i : S16384x1.Idx), (i 0).val = t.val * 512 + r.val → X (ix2 r (0 : Fin 1)) = G i) :
    (cfg0.win 5).cut (grid0.coords t) X = ((cfg0.win 5).blk t).view.read (Elt Ideal) G := by
  obtain ⟨-, -, -, -, -, -, -, -, -, -, e0, -⟩ := idx_facts t
  refine funext_col (fun r => ?_)
  rw [View.read_apply]
  show X (ix2 r (0 : Fin 1)) = G (((cfg0.win 5).blk t).view.emb (ix2 r (0 : Fin 1)))
  exact h r _ (by
    show win0_5.index t (0 : Fin 2) * 512 + 1 * r.val = t.val * 512 + r.val
    rw [e0]; omega)

/-- POINT `t` WRITES BACK block `t` of the column of kernel rows of the windows' arrays as the region finds them. -/
theorem flushed_eq (c : Dev nD) (t : Fin cfg0.N) :
    (dats m 0 c).flushed 5 t = ((cfg0.win 5).blk t).view.read (Elt Ideal)
      (colG (V m c (Pipeline.arrRef spec0 2)) (V m c (Pipeline.arrRef spec0 1)) (V m c (Pipeline.arrRef spec0 0))
        (fun j k => V m c (Pipeline.arrRef spec0 3) (ix2 j k))
        (fun k => V m c (Pipeline.arrRef spec0 4) (ix2 (0 : Fin 1) k))) := by
  show (cfg0.win 5).cut (grid0.coords t) ((dats m 0 c).after 5 t) = _
  rw [after0_5]
  unfold iblk
  exact flushed_of t _ _ (fun r i hi => point_value t (V m c (Pipeline.arrRef spec0 0)) (V m c (Pipeline.arrRef spec0 1))
    (V m c (Pipeline.arrRef spec0 2)) (V m c (Pipeline.arrRef spec0 3)) (V m c (Pipeline.arrRef spec0 4)) r i hi)

/-! ## The blocks cover the column -/

/-- An index of the column is in point `t`'s block iff each coordinate is in the block's range on its axis. -/
theorem mem_blk (t : Fin cfg0.N) (i : S16384x1.Idx) :
    i ∈ ((cfg0.win 5).blk t).view.set ↔ ∀ a : Fin 2, win0_5.index t a * S512x1.size a ≤ (i a).val
      ∧ (i a).val < win0_5.index t a * S512x1.size a + S512x1.size a := by
  show i ∈ ((View.whole main_v516).slice (win0_5.rect t)).set ↔ _
  rw [View.set_slice_whole, Rect.mem_set_unit]
  exact Iff.rfl

/-- Row `e` of the column is in the block of point `e / 512`. -/
theorem cover (i : S16384x1.Idx) :
    ∃ t : Fin cfg0.N, (cfg0.win 5).flush t = true ∧ i ∈ ((cfg0.win 5).blk t).view.set := by
  have hi0 : (i 0).val < 16384 := idx2_lt0 i
  have hi1 : (i 1).val < 1 := idx2_lt1 i
  have hN : cfg0.N = 32 := N_0
  obtain ⟨t, ht⟩ : ∃ t : Fin cfg0.N, t.val = (i 0).val / 512 := ⟨⟨(i 0).val / 512, by rw [hN]; omega⟩, rfl⟩
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 512 ≤ (i 0).val ∧ (i 0).val < win0_5.index t (0 : Fin 2) * 512 + 512
    rw [e0]; omega
  | ⟨1, _⟩ =>
    show win0_5.index t (1 : Fin 2) * 1 ≤ (i 1).val ∧ (i 1).val < win0_5.index t (1 : Fin 2) * 1 + 1
    rw [e1]; omega

/-- THE COLUMN after the region: the kernel rows of any arrays equal to the windows' arrays as the region finds them. -/
theorem final_of (c : Dev nD) (x : FVec Ideal ⟨2, ![2048, 4]⟩ .f32) (ri ro : FVec Ideal ⟨2, ![2048, 16384]⟩ .f32)
    (M : Fin 256 → Fin 256 → EReal) (mask : Fin 256 → EReal)
    (h0 : V m c (Pipeline.arrRef spec0 2) = x) (h1 : V m c (Pipeline.arrRef spec0 1) = ri)
    (h2 : V m c (Pipeline.arrRef spec0 0) = ro)
    (h3 : (fun j k : Fin 256 => V m c (Pipeline.arrRef spec0 3) (ix2 j k)) = M)
    (h4 : (fun k : Fin 256 => V m c (Pipeline.arrRef spec0 4) (ix2 (0 : Fin 1) k)) = mask) :
    (dats m 0 c).arrAt 5 cfg0.N = colG x ri ro M mask := by
  subst h0 h1 h2 h3 h4
  exact (dats m 0 c).arrAt_eq_of_cover 5 _ (fun t _ => flushed_eq m c t) cover

/-- The column after the region, of the arguments as launched. -/
theorem final (c : Dev nD) :
    (dats m 0 c).arrAt 5 cfg0.N
      = colG (m ((c.tc : Thread nD τ).loc main_arg0)) (m ((c.tc : Thread nD τ).loc main_arg1))
          (m ((c.tc : Thread nD τ).loc main_arg2)) (fun j k => V m c main_v508 (ix2 j k))
          (fun k => V m c main_v515 (ix2 (0 : Fin 1) k)) :=
  final_of m c _ _ _ _ _ (V_main_arg0 m c) (V_main_arg1 m c) (V_main_arg2 m c) rfl rfl

/-! ## The host reads the column as a vector -/

/-- The one host operation after the region reads the column buffer as a vector, whatever the buffers hold. -/
theorem tail_of (W : Valuation τ sig (Elt Ideal)) (h : S16384x1.ShapeCasts S16384) (G : S16384x1.Idx → EReal)
    (hW : W (Proc.devRef .tc main_v516) = G) :
    StableHlo.after (hostOps1 (F := Ideal)) W (Proc.devRef .tc main_v517) = shapeCast S16384 G h := by
  subst hW
  after_results
  rfl

/-- THE RESULT: after the region the host reads the 16384 × 1 column as a vector; entry `e` is the kernel row of edge
    `e`'s half angles. -/
theorem result_eq (c : Dev nD) :
    Pipeline.afterTail₀ cfgs (dats m) 0 (V0 m) [hostOps1] c main_v517
      = fun i : S16384.Idx => Cert.TTN.kernelRow
          (Cert.TTN.halfG (m ((c.tc : Thread nD τ).loc main_arg0)) (m ((c.tc : Thread nD τ).loc main_arg1))
            (m ((c.tc : Thread nD τ).loc main_arg2)) ⟨(i 0).val, (i 0).isLt⟩)
          (fun j k => V m c main_v508 (ix2 j k)) (fun k => V m c main_v515 (ix2 (0 : Fin 1) k)) := by
  have h : S16384x1.ShapeCasts S16384 := Cert.KernelIdeal.Facts₀.shapeCasts_S16384x1_S16384
  have e := (Pipeline.withArrays_arr spec0 launch0.win.arr_inj c (V0 m c)
    (fun w => (dats m 0 c).arrAt w cfg0.N) 5).trans (final m c)
  unfold Pipeline.afterTail₀
  exact (tail_of (Pipeline.withArrays spec0 c (V0 m c) (fun w => (dats m 0 c).arrAt w cfg0.N)) h _ e).trans
    (cast_colG _ _ _ _ _ h)

/-! ## The run -/

/-- The kernel program runs; its result array ends at the kernel rows of the edges' half angles (the matrix and the mask
    row as the region finds them), its arguments as launched. -/
theorem kernel_run : θ_run (defs (F := Ideal)) (onTc (τ := τ) (main (F := Ideal))) ⟨m, fun _ => 0, ρ⟩ (fun r => ∀ c : Dev nD,
      r.2.mem ((c.tc : Thread nD τ).loc main_v517)
        = (fun i : S16384.Idx => Cert.TTN.kernelRow
            (Cert.TTN.halfG (m ((c.tc : Thread nD τ).loc main_arg0)) (m ((c.tc : Thread nD τ).loc main_arg1))
              (m ((c.tc : Thread nD τ).loc main_arg2)) ⟨(i 0).val, (i 0).isLt⟩)
            (fun j k => V m c main_v508 (ix2 j k)) (fun k => V m c main_v515 (ix2 (0 : Fin 1) k)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v517 (Pipeline.mem_restRefs_of main_v517 (by decide) (by decide))).trans (result_eq m c),
      ((h c).1 2).trans (((dats m 0 c).arrAt_in 2 rfl _).trans ((A_eq m c 2).trans (V_main_arg0 m c))),
      ((h c).1 1).trans (((dats m 0 c).arrAt_in 1 rfl _).trans ((A_eq m c 1).trans (V_main_arg1 m c))),
      ((h c).1 0).trans (((dats m 0 c).arrAt_in 0 rfl _).trans ((A_eq m c 0).trans (V_main_arg2 m c))),
      ((h c).2 main_arg3 (Pipeline.mem_restRefs_of main_arg3 (by decide) (by decide))).trans (W_main_arg3 m (dats m) c)⟩)
    (run_main m ρ)

end Cert.TTN.KRun

end
-- ==== Proof.Gates.lean ====
/-
  The two gates as the host programs spell them, as functions of whole arrays on the extended reals.

  The state of `B` independent registers is an array of shape [B,2,2,2,2,2,2,2,2]: axis 0 the register, axis `w+1`
  the bit of wire `w`.  `jnp.take(state, i, axis)` lowers to a guarded gather (`takeTerm`): the position `i` wrapped
  if negative, checked to lie in [0, 1], the slice gathered, and a not-a-number fill selected if the check fails.
  A rotation (`ryTerm`) takes both slices of the wire's axis, forms `c·a₀ − s·a₁` and `s·a₀ + c·a₁` with
  `c = cos (θ/2)`, `s = sin (θ/2)`, gives each a unit axis back and concatenates them along it.  A controlled flip
  (`cxTerm`) takes both slices of the control's axis, reverses the second along the target's axis, and stacks them
  back.  The shapes and the side conditions of each operation are parameters, so that one definition serves every
  wire and both batch sizes.
-/
import Idealize.ShloMosaic.PureOps.Ideal
import Idealize.ShloMosaic.PureOps.ShapeOps
import Idealize.ShloMosaic.PureOps.Contract
import Idealize.ShloMosaic.PureOps.Vector

noncomputable section

namespace Cert.TTN.Gates

open Idealize.ShloMosaic

/-- The rank-0 shape and the one-element vector shape of the position operand. -/
abbrev S0 : Shape := ⟨0, ![]⟩
abbrev S1 : Shape := ⟨1, ![1]⟩

/-- The position a `take` reads, as the one-element start-index vector of its gather: a negative position wrapped by
    the axis length 2. -/
def takeStart (hb1 : S0.BroadcastsInDim S1 ![]) (i : IVec S0 32) : IVec S1 32 :=
  id (broadcastInDim S1 ![] hb1
    (select (cmpi .slt i (constantI S0 32 0#32)) (addi i (constantI S0 32 2#32)) i))

/-- `jnp.take(x, i, axis)` for one scalar position, as lowered: the gathered slice where the position lies in
    [0, 1], a not-a-number fill otherwise. -/
def takeTerm {s t : Shape} (d : GatherDims s S1 t) (hb1 : S0.BroadcastsInDim S1 ![]) (hbt : S0.BroadcastsInDim t ![])
    (hr : S1.ReducesTo [0] S0) (hu : 0 < S0.numel) (x : FVec Ideal s .f32) (i : IVec S0 32) : FVec Ideal t .f32 :=
  select
    (broadcastInDim t ![] hbt
      (Host.reduce IntOp.andi
        (andi (cmpi .sge (takeStart hb1 i) (broadcastInDim S1 ![] hb1 (constantI S0 32 0#32)))
              (cmpi .sle (takeStart hb1 i) (constantI S1 32 1#32)))
        (constantI S0 1 1#1) hr hu))
    (Host.gather d x (takeStart hb1 i))
    (broadcastInDim t ![] hbt (constant (F := Ideal) S0 .f32 0x7FC00000#32))

/-- A rotation of one wire: `s` the state's shape, `t` the shape with the wire's axis removed, `u` the shape with
    that axis of length one, `ax` the axis. `th` is the parameter (the full angle; the gate uses half of it). -/
def ryTerm {s t u : Shape} (ax : Fin s.rank) (dims : Fin t.rank → Fin u.rank) (d : GatherDims s S1 t)
    (hb1 : S0.BroadcastsInDim S1 ![]) (hbt : S0.BroadcastsInDim t ![]) (hr : S1.ReducesTo [0] S0) (hu : 0 < S0.numel)
    (hx : t.BroadcastsInDim u dims) (hc : Shape.Concatenates [u, u] s ax)
    (st : FVec Ideal s .f32) (th : FVec Ideal S0 .f32) : FVec Ideal s .f32 :=
  let c : FVec Ideal S0 .f32 := Host.cos (mulf (constant (F := Ideal) S0 .f32 0x3F000000#32) th)
  let sn : FVec Ideal S0 .f32 := Host.sin (mulf (constant (F := Ideal) S0 .f32 0x3F000000#32) th)
  let a0 := takeTerm d hb1 hbt hr hu st (constantI S0 32 0#32)
  let a1 := takeTerm d hb1 hbt hr hu st (constantI S0 32 1#32)
  concatenate s ax
    [⟨u, broadcastInDim u dims hx (subf (mulf (broadcastInDim t ![] hbt c) a0) (mulf (broadcastInDim t ![] hbt sn) a1))⟩,
     ⟨u, broadcastInDim u dims hx (addf (mulf (broadcastInDim t ![] hbt sn) a0) (mulf (broadcastInDim t ![] hbt c) a1))⟩] hc

/-- A controlled flip: `ax` the control's axis, `fl` the target's axis once the control's has been removed. -/
def cxTerm {s t u : Shape} (ax : Fin s.rank) (fl : Fin t.rank) (dims : Fin t.rank → Fin u.rank) (d : GatherDims s S1 t)
    (hb1 : S0.BroadcastsInDim S1 ![]) (hbt : S0.BroadcastsInDim t ![]) (hr : S1.ReducesTo [0] S0) (hu : 0 < S0.numel)
    (hx : t.BroadcastsInDim u dims) (hc : Shape.Concatenates [u, u] s ax)
    (st : FVec Ideal s .f32) : FVec Ideal s .f32 :=
  concatenate s ax
    [⟨u, broadcastInDim u dims hx (takeTerm d hb1 hbt hr hu st (constantI S0 32 0#32))⟩,
     ⟨u, broadcastInDim u dims hx (Host.reverse [fl] (takeTerm d hb1 hbt hr hu st (constantI S0 32 1#32)))⟩] hc

end Cert.TTN.Gates

end
-- ==== Proof.KHostG1.lean ====
/-
  Gates 1, 2, 3, 4, 5, 6, 7, 8 of the circuit as the host part of the kernel's program runs them on the 256 basis registers:
  for each gate, the stretch of host operations that computes it, and the fact that, from any buffer contents, the
  stretch leaves in the gate's result buffer the gate's term of the previous state (and of the parameter vector),
  and leaves the parameter vector alone.
-/
import proofs.«130987_j14276471292017_1_alg».proof.KernelIdeal
import proofs.«130987_j14276471292017_1_alg».proof.Proof.Gen.KernelIdeal
import proofs.«130987_j14276471292017_1_alg».proof.Proof.Gates
import Idealize.ShloMosaic.Lib.StableHlo.Run

set_option maxRecDepth 16384

noncomputable section

namespace Cert.TTN.KHost

open Idealize.ShloMosaic Idealize.ShloMosaic.TcCoe Idealize.SL.Sem Idealize.ShloMosaic.StableHlo
open Cert.KernelIdeal Cert.KernelIdeal.Gen

section Lists
variable {F : FTy → Type} [FloatOps F]

/-- The host operations of gate 1 (a rotation, parameter 0, axis 2). -/
abbrev G1 : List (HloOp τ sig (Elt F)) :=
  [ StableHlo.unary main_arg3 main_v7 ((extractStridedSlice S1 ![0] · slices_S21_S1_0) : (⟨S21, .f32⟩ : BufTy).Contents (Elt F) → (⟨S1, .f32⟩ : BufTy).Contents (Elt F)),
    StableHlo.reshape main_v7 main_v8 rfl shapeCasts_S1_S_,
    StableHlo.nullary main_cst (constant S_ .f32 0x3F000000#32),
    StableHlo.binary main_cst main_v8 main_v9 (mulf : (⟨S_, .f32⟩ : BufTy).Contents (Elt F) → (⟨S_, .f32⟩ : BufTy).Contents (Elt F) → (⟨S_, .f32⟩ : BufTy).Contents (Elt F)),
    StableHlo.unary main_v9 main_v10 (Host.cos : (⟨S_, .f32⟩ : BufTy).Contents (Elt F) → (⟨S_, .f32⟩ : BufTy).Contents (Elt F)),
    StableHlo.nullary main_cst_0 (constant S_ .f32 0x3F000000#32),
    StableHlo.binary main_cst_0 main_v8 main_v11 (mulf : (⟨S_, .f32⟩ : BufTy).Contents (Elt F) → (⟨S_, .f32⟩ : BufTy).Contents (Elt F) → (⟨S_, .f32⟩ : BufTy).Contents (Elt F)),
    StableHlo.unary main_v11 main_v12 (Host.sin : (⟨S_, .f32⟩ : BufTy).Contents (Elt F) → (⟨S_, .f32⟩ : BufTy).Contents (Elt F)),
    StableHlo.nullary main_c_1 (constantI S_ 32 0#32),
    StableHlo.TRef.nullary (.of main_call0_c : StableHlo.TRef sig ⟨S_, .i32⟩) (constantI S_ 32 0#32),
    StableHlo.TRef.binary (.of main_c_1 : StableHlo.TRef sig ⟨S_, .i32⟩) (.of main_call0_c : StableHlo.TRef sig ⟨S_, .i32⟩) (.of main_call0_v0 : StableHlo.TRef sig ⟨S_, .i1⟩) (cmpi .slt),
    StableHlo.TRef.nullary (.of main_call0_c_0 : StableHlo.TRef sig ⟨S_, .i32⟩) (constantI S_ 32 2#32),
    StableHlo.TRef.binary (.of main_c_1 : StableHlo.TRef sig ⟨S_, .i32⟩) (.of main_call0_c_0 : StableHlo.TRef sig ⟨S_, .i32⟩) (.of main_call0_v1 : StableHlo.TRef sig ⟨S_, .i32⟩) addi,
    StableHlo.TRef.ternary (.of main_call0_v0 : StableHlo.TRef sig ⟨S_, .i1⟩) (.of main_call0_v1 : StableHlo.TRef sig ⟨S_, .i32⟩) (.of main_c_1 : StableHlo.TRef sig ⟨S_, .i32⟩) (.of main_call0_v2 : StableHlo.TRef sig ⟨S_, .i32⟩) select,
    StableHlo.TRef.unary main_call0_call0.v0 (.of main_call0_v3 : StableHlo.TRef sig ⟨S1, .i32⟩) (broadcastInDim S1 ![] bcast_S_S1),
    StableHlo.TRef.nullary (.of main_call0_c_1 : StableHlo.TRef sig ⟨S1, .i32⟩) (constantI S1 32 1#32),
    StableHlo.TRef.unary (.of main_call0_v3 : StableHlo.TRef sig ⟨S1, .i32⟩) (.of main_call0_v4 : StableHlo.TRef sig ⟨S1, .i32⟩) id,
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v5 : StableHlo.TRef sig ⟨S1, .i32⟩) (broadcastInDim S1 ![] bcast_S_S1),
    StableHlo.TRef.binary (.of main_call0_v4 : StableHlo.TRef sig ⟨S1, .i32⟩) (.of main_call0_v5 : StableHlo.TRef sig ⟨S1, .i32⟩) (.of main_call0_v6 : StableHlo.TRef sig ⟨S1, .i1⟩) (cmpi .sge),
    StableHlo.TRef.binary (.of main_call0_v4 : StableHlo.TRef sig ⟨S1, .i32⟩) (.of main_call0_c_1 : StableHlo.TRef sig ⟨S1, .i32⟩) (.of main_call0_v7 : StableHlo.TRef sig ⟨S1, .i1⟩) (cmpi .sle),
    StableHlo.TRef.binary (.of main_call0_v6 : StableHlo.TRef sig ⟨S1, .i1⟩) (.of main_call0_v7 : StableHlo.TRef sig ⟨S1, .i1⟩) (.of main_call0_v8 : StableHlo.TRef sig ⟨S1, .i1⟩) andi,
    StableHlo.TRef.nullary (.of main_call0_c_3 : StableHlo.TRef sig ⟨S_, .i1⟩) (constantI S_ 1 1#1),
    StableHlo.TRef.binary (.of main_call0_v8 : StableHlo.TRef sig ⟨S1, .i1⟩) (.of main_call0_c_3 : StableHlo.TRef sig ⟨S_, .i1⟩) (.of main_call0_v9 : StableHlo.TRef sig ⟨S_, .i1⟩) (fun x v => Host.reduce IntOp.andi x v reducesTo_S1_S_d0 h_S_),
    StableHlo.TRef.binary (.of main_v6 : StableHlo.TRef sig ⟨S256x2x2x2x2x2x2x2x2, .f32⟩) (.of main_call0_v4 : StableHlo.TRef sig ⟨S1, .i32⟩) (.of main_call0_v10 : StableHlo.TRef sig ⟨S256x2x2x2x2x2x2x2, .f32⟩) (fun x i => Host.gather gather_S256x2x2x2x2x2x2x2x2_S1_S256x2x2x2x2x2x2x2_01234567_2_n_n_2_0_25621222222 x i),
    StableHlo.TRef.unary (.of main_call0_v9 : StableHlo.TRef sig ⟨S_, .i1⟩) (.of main_call0_v11 : StableHlo.TRef sig ⟨S256x2x2x2x2x2x2x2, .i1⟩) (broadcastInDim S256x2x2x2x2x2x2x2 ![] bcast_S_S256x2x2x2x2x2x2x2),
    StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v12 : StableHlo.TRef sig ⟨S256x2x2x2x2x2x2x2, .f32⟩) (broadcastInDim S256x2x2x2x2x2x2x2 ![] bcast_S_S256x2x2x2x2x2x2x2),
    StableHlo.TRef.ternary (.of main_call0_v11 : StableHlo.TRef sig ⟨S256x2x2x2x2x2x2x2, .i1⟩) (.of main_call0_v10 : StableHlo.TRef sig ⟨S256x2x2x2x2x2x2x2, .f32⟩) (.of main_call0_v12 : StableHlo.TRef sig ⟨S256x2x2x2x2x2x2x2, .f32⟩) (.of main_v13 : StableHlo.TRef sig ⟨S256x2x2x2x2x2x2x2, .f32⟩) select,
    StableHlo.nullary main_c_2 (constantI S_ 32 1#32),
    StableHlo.TRef.nullary (.of main_call1_c : StableHlo.TRef sig ⟨S_, .i32⟩) (constantI S_ 32 0#32),
    StableHlo.TRef.binary (.of main_c_2 : StableHlo.TRef sig ⟨S_, .i32⟩) (.of main_call1_c : StableHlo.TRef sig ⟨S_, .i32⟩) (.of main_call1_v0 : StableHlo.TRef sig ⟨S_, .i1⟩) (cmpi .slt),
    StableHlo.TRef.nullary (.of main_call1_c_0 : StableHlo.TRef sig ⟨S_, .i32⟩) (constantI S_ 32 2#32),
    StableHlo.TRef.binary (.of main_c_2 : StableHlo.TRef sig ⟨S_, .i32⟩) (.of main_call1_c_0 : StableHlo.TRef sig ⟨S_, .i32⟩) (.of main_call1_v1 : StableHlo.TRef sig ⟨S_, .i32⟩) addi,
    StableHlo.TRef.ternary (.of main_call1_v0 : StableHlo.TRef sig ⟨S_, .i1⟩) (.of main_call1_v1 : StableHlo.TRef sig ⟨S_, .i32⟩) (.of main_c_2 : StableHlo.TRef sig ⟨S_, .i32⟩) (.of main_call1_v2 : StableHlo.TRef sig ⟨S_, .i32⟩) select,
    StableHlo.TRef.unary main_call1_call0.v0 (.of main_call1_v3 : StableHlo.TRef sig ⟨S1, .i32⟩) (broadcastInDim S1 ![] bcast_S_S1),
    StableHlo.TRef.nullary (.of main_call1_c_1 : StableHlo.TRef sig ⟨S1, .i32⟩) (constantI S1 32 1#32),
    StableHlo.TRef.unary (.of main_call1_v3 : StableHlo.TRef sig ⟨S1, .i32⟩) (.of main_call1_v4 : StableHlo.TRef sig ⟨S1, .i32⟩) id,
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v5 : StableHlo.TRef sig ⟨S1, .i32⟩) (broadcastInDim S1 ![] bcast_S_S1),
    StableHlo.TRef.binary (.of main_call1_v4 : StableHlo.TRef sig ⟨S1, .i32⟩) (.of main_call1_v5 : StableHlo.TRef sig ⟨S1, .i32⟩) (.of main_call1_v6 : StableHlo.TRef sig ⟨S1, .i1⟩) (cmpi .sge),
    StableHlo.TRef.binary (.of main_call1_v4 : StableHlo.TRef sig ⟨S1, .i32⟩) (.of main_call1_c_1 : StableHlo.TRef sig ⟨S1, .i32⟩) (.of main_call1_v7 : StableHlo.TRef sig ⟨S1, .i1⟩) (cmpi .sle),
    StableHlo.TRef.binary (.of main_call1_v6 : StableHlo.TRef sig ⟨S1, .i1⟩) (.of main_call1_v7 : StableHlo.TRef sig ⟨S1, .i1⟩) (.of main_call1_v8 : StableHlo.TRef sig ⟨S1, .i1⟩) andi,
    StableHlo.TRef.nullary (.of main_call1_c_3 : StableHlo.TRef sig ⟨S_, .i1⟩) (constantI S_ 1 1#1),
    StableHlo.TRef.binary (.of main_call1_v8 : StableHlo.TRef sig ⟨S1, .i1⟩) (.of main_call1_c_3 : StableHlo.TRef sig ⟨S_, .i1⟩) (.of main_call1_v9 : StableHlo.TRef sig ⟨S_, .i1⟩) (fun x v => Host.reduce IntOp.andi x v reducesTo_S1_S_d0 h_S_),
    StableHlo.TRef.binary (.of main_v6 : StableHlo.TRef sig ⟨S256x2x2x2x2x2x2x2x2, .f32⟩) (.of main_call1_v4 : StableHlo.TRef sig ⟨S1, .i32⟩) (.of main_call1_v10 : StableHlo.TRef sig ⟨S256x2x2x2x2x2x2x2, .f32⟩) (fun x i => Host.gather gather_S256x2x2x2x2x2x2x2x2_S1_S256x2x2x2x2x2x2x2_01234567_2_n_n_2_0_25621222222 x i),
    StableHlo.TRef.unary (.of main_call1_v9 : StableHlo.TRef sig ⟨S_, .i1⟩) (.of main_call1_v11 : StableHlo.TRef sig ⟨S256x2x2x2x2x2x2x2, .i1⟩) (broadcastInDim S256x2x2x2x2x2x2x2 ![] bcast_S_S256x2x2x2x2x2x2x2),
    StableHlo.TRef.nullary (.of main_call1_cst : StableHlo.TRef sig ⟨S_, .f32⟩) (constant S_ .f32 0x7FC00000#32),
    StableHlo.TRef.unary (.of main_call1_cst : StableHlo.TRef sig ⟨S_, .f32⟩) (.of main_call1_v12 : StableHlo.TRef sig ⟨S256x2x2x2x2x2x2x2, .f32⟩) (broadcastInDim S256x2x2x2x2x2x2x2 ![] bcast_S_S256x2x2x2x2x2x2x2),
    StableHlo.TRef.ternary (.of main_call1_v11 : StableHlo.TRef sig ⟨S256x2x2x2x2x2x2x2, .i1⟩) (.of main_call1_v10 : StableHlo.TRef sig ⟨S256x2x2x2x2x2x2x2, .f32⟩) (.of main_call1_v12 : StableHlo.TRef sig ⟨S256x2x2x2x2x2x2x2, .f32⟩) (.of main_v14 : StableHlo.TRef sig ⟨S256x2x2x2x2x2x2x2, .f32⟩) select,
    StableHlo.unary main_v10 main_v15 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v15 main_v13 main_v16 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v12 main_v17 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v17 main_v14 main_v18 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.binary main_v16 main_v18 main_v19 (subf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v12 main_v20 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v20 main_v13 main_v21 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v10 main_v22 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v22 main_v14 main_v23 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.binary main_v21 main_v23 main_v24 (addf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v19 main_v25 (broadcastInDim S256x2x1x2x2x2x2x2x2 ![0, 1, 3, 4, 5, 6, 7, 8] bcast_S256x2x2x2x2x2x2x2_S256x2x1x2x2x2x2x2x2_0_1_3_4_5_6_7_8 : (⟨S256x2x2x2x2x2x2x2, .f32⟩ : BufTy).Contents (Elt F) → (⟨S256x2x1x2x2x2x2x2x2, .f32⟩ : BufTy).Contents (Elt F)),
    StableHlo.unary main_v24 main_v26 (broadcastInDim S256x2x1x2x2x2x2x2x2 ![0, 1, 3, 4, 5, 6, 7, 8] bcast_S256x2x2x2x2x2x2x2_S256x2x1x2x2x2x2x2x2_0_1_3_4_5_6_7_8 : (⟨S256x2x2x2x2x2x2x2, .f32⟩ : BufTy).Contents (Elt F) → (⟨S256x2x1x2x2x2x2x2x2, .f32⟩ : BufTy).Contents (Elt F)),
    StableHlo.binary main_v25 main_v26 main_v27 ((fun a b => concatenate S256x2x2x2x2x2x2x2x2 2 [⟨S256x2x1x2x2x2x2x2x2, a⟩, ⟨S256x2x1x2x2x2x2x2x2, b⟩] concatenates_S256x2x1x2x2x2x2x2x2_S256x2x1x2x2x2x2x2x2_S256x2x2x2x2x2x2x2x2_d2) : (⟨S256x2x1x2x2x2x2x2x2, .f32⟩ : BufTy).Contents (Elt F) → (⟨S256x2x1x2x2x2x2x2x2, .f32⟩ : BufTy).Contents (Elt F) → (⟨S256x2x2x2x2x2x2x2x2, .f32⟩ : BufTy).Contents (Elt F)) ]

/-- The host operations of gate 2 (a rotation, parameter 1, axis 3). -/
abbrev G2 : List (HloOp τ sig (Elt F)) :=
  [ StableHlo.unary main_arg3 main_v28 ((extractStridedSlice S1 ![1] · slices_S21_S1_1) : (⟨S21, .f32⟩ : BufTy).Contents (Elt F) → (⟨S1, .f32⟩ : BufTy).Contents (Elt F)),
    StableHlo.reshape main_v28 main_v29 rfl shapeCasts_S1_S_,
    StableHlo.nullary main_cst_3 (constant S_ .f32 0x3F000000#32),
    StableHlo.binary main_cst_3 main_v29 main_v30 (mulf : (⟨S_, .f32⟩ : BufTy).Contents (Elt F) → (⟨S_, .f32⟩ : BufTy).Contents (Elt F) → (⟨S_, .f32⟩ : BufTy).Contents (Elt F)),
    StableHlo.unary main_v30 main_v31 (Host.cos : (⟨S_, .f32⟩ : BufTy).Contents (Elt F) → (⟨S_, .f32⟩ : BufTy).Contents (Elt F)),
    StableHlo.nullary main_cst_4 (constant S_ .f32 0x3F000000#32),
    StableHlo.binary main_cst_4 main_v29 main_v32 (mulf : (⟨S_, .f32⟩ : BufTy).Contents (Elt F) → (⟨S_, .f32⟩ : BufTy).Contents (Elt F) → (⟨S_, .f32⟩ : BufTy).Contents (Elt F)),
    StableHlo.unary main_v32 main_v33 (Host.sin : (⟨S_, .f32⟩ : BufTy).Contents (Elt F) → (⟨S_, .f32⟩ : BufTy).Contents (Elt F)),
    StableHlo.nullary main_c_5 (constantI S_ 32 0#32),
    StableHlo.TRef.nullary (.of main_call2_c : StableHlo.TRef sig ⟨S_, .i32⟩) (constantI S_ 32 0#32),
    StableHlo.TRef.binary (.of main_c_5 : StableHlo.TRef sig ⟨S_, .i32⟩) (.of main_call2_c : StableHlo.TRef sig ⟨S_, .i32⟩) (.of main_call2_v0 : StableHlo.TRef sig ⟨S_, .i1⟩) (cmpi .slt),
    StableHlo.TRef.nullary (.of main_call2_c_0 : StableHlo.TRef sig ⟨S_, .i32⟩) (constantI S_ 32 2#32),
    StableHlo.TRef.binary (.of main_c_5 : StableHlo.TRef sig ⟨S_, .i32⟩) (.of main_call2_c_0 : StableHlo.TRef sig ⟨S_, .i32⟩) (.of main_call2_v1 : StableHlo.TRef sig ⟨S_, .i32⟩) addi,
    StableHlo.TRef.ternary (.of main_call2_v0 : StableHlo.TRef sig ⟨S_, .i1⟩) (.of main_call2_v1 : StableHlo.TRef sig ⟨S_, .i32⟩) (.of main_c_5 : StableHlo.TRef sig ⟨S_, .i32⟩) (.of main_call2_v2 : StableHlo.TRef sig ⟨S_, .i32⟩) select,
    StableHlo.TRef.unary main_call2_call0.v0 (.of main_call2_v3 : StableHlo.TRef sig ⟨S1, .i32⟩) (broadcastInDim S1 ![] bcast_S_S1),
    StableHlo.TRef.nullary (.of main_call2_c_1 : StableHlo.TRef sig ⟨S1, .i32⟩) (constantI S1 32 1#32),
    StableHlo.TRef.unary (.of main_call2_v3 : StableHlo.TRef sig ⟨S1, .i32⟩) (.of main_call2_v4 : StableHlo.TRef sig ⟨S1, .i32⟩) id,
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v5 : StableHlo.TRef sig ⟨S1, .i32⟩) (broadcastInDim S1 ![] bcast_S_S1),
    StableHlo.TRef.binary (.of main_call2_v4 : StableHlo.TRef sig ⟨S1, .i32⟩) (.of main_call2_v5 : StableHlo.TRef sig ⟨S1, .i32⟩) (.of main_call2_v6 : StableHlo.TRef sig ⟨S1, .i1⟩) (cmpi .sge),
    StableHlo.TRef.binary (.of main_call2_v4 : StableHlo.TRef sig ⟨S1, .i32⟩) (.of main_call2_c_1 : StableHlo.TRef sig ⟨S1, .i32⟩) (.of main_call2_v7 : StableHlo.TRef sig ⟨S1, .i1⟩) (cmpi .sle),
    StableHlo.TRef.binary (.of main_call2_v6 : StableHlo.TRef sig ⟨S1, .i1⟩) (.of main_call2_v7 : StableHlo.TRef sig ⟨S1, .i1⟩) (.of main_call2_v8 : StableHlo.TRef sig ⟨S1, .i1⟩) andi,
    StableHlo.TRef.nullary (.of main_call2_c_3 : StableHlo.TRef sig ⟨S_, .i1⟩) (constantI S_ 1 1#1),
    StableHlo.TRef.binary (.of main_call2_v8 : StableHlo.TRef sig ⟨S1, .i1⟩) (.of main_call2_c_3 : StableHlo.TRef sig ⟨S_, .i1⟩) (.of main_call2_v9 : StableHlo.TRef sig ⟨S_, .i1⟩) (fun x v => Host.reduce IntOp.andi x v reducesTo_S1_S_d0 h_S_),
    StableHlo.TRef.binary (.of main_v27 : StableHlo.TRef sig ⟨S256x2x2x2x2x2x2x2x2, .f32⟩) (.of main_call2_v4 : StableHlo.TRef sig ⟨S1, .i32⟩) (.of main_call2_v10 : StableHlo.TRef sig ⟨S256x2x2x2x2x2x2x2, .f32⟩) (fun x i => Host.gather gather_S256x2x2x2x2x2x2x2x2_S1_S256x2x2x2x2x2x2x2_01234567_3_n_n_3_0_25622122222 x i),
    StableHlo.TRef.unary (.of main_call2_v9 : StableHlo.TRef sig ⟨S_, .i1⟩) (.of main_call2_v11 : StableHlo.TRef sig ⟨S256x2x2x2x2x2x2x2, .i1⟩) (broadcastInDim S256x2x2x2x2x2x2x2 ![] bcast_S_S256x2x2x2x2x2x2x2),
    StableHlo.TRef.nullary (.of main_call2_cst : StableHlo.TRef sig ⟨S_, .f32⟩) (constant S_ .f32 0x7FC00000#32),
    StableHlo.TRef.unary (.of main_call2_cst : StableHlo.TRef sig ⟨S_, .f32⟩) (.of main_call2_v12 : StableHlo.TRef sig ⟨S256x2x2x2x2x2x2x2, .f32⟩) (broadcastInDim S256x2x2x2x2x2x2x2 ![] bcast_S_S256x2x2x2x2x2x2x2),
    StableHlo.TRef.ternary (.of main_call2_v11 : StableHlo.TRef sig ⟨S256x2x2x2x2x2x2x2, .i1⟩) (.of main_call2_v10 : StableHlo.TRef sig ⟨S256x2x2x2x2x2x2x2, .f32⟩) (.of main_call2_v12 : StableHlo.TRef sig ⟨S256x2x2x2x2x2x2x2, .f32⟩) (.of main_v34 : StableHlo.TRef sig ⟨S256x2x2x2x2x2x2x2, .f32⟩) select,
    StableHlo.nullary main_c_6 (constantI S_ 32 1#32),
    StableHlo.TRef.nullary (.of main_call3_c : StableHlo.TRef sig ⟨S_, .i32⟩) (constantI S_ 32 0#32),
    StableHlo.TRef.binary (.of main_c_6 : StableHlo.TRef sig ⟨S_, .i32⟩) (.of main_call3_c : StableHlo.TRef sig ⟨S_, .i32⟩) (.of main_call3_v0 : StableHlo.TRef sig ⟨S_, .i1⟩) (cmpi .slt),
    StableHlo.TRef.nullary (.of main_call3_c_0 : StableHlo.TRef sig ⟨S_, .i32⟩) (constantI S_ 32 2#32),
    StableHlo.TRef.binary (.of main_c_6 : StableHlo.TRef sig ⟨S_, .i32⟩) (.of main_call3_c_0 : StableHlo.TRef sig ⟨S_, .i32⟩) (.of main_call3_v1 : StableHlo.TRef sig ⟨S_, .i32⟩) addi,
    StableHlo.TRef.ternary (.of main_call3_v0 : StableHlo.TRef sig ⟨S_, .i1⟩) (.of main_call3_v1 : StableHlo.TRef sig ⟨S_, .i32⟩) (.of main_c_6 : StableHlo.TRef sig ⟨S_, .i32⟩) (.of main_call3_v2 : StableHlo.TRef sig ⟨S_, .i32⟩) select,
    StableHlo.TRef.unary main_call3_call0.v0 (.of main_call3_v3 : StableHlo.TRef sig ⟨S1, .i32⟩) (broadcastInDim S1 ![] bcast_S_S1),
    StableHlo.TRef.nullary (.of main_call3_c_1 : StableHlo.TRef sig ⟨S1, .i32⟩) (constantI S1 32 1#32),
    StableHlo.TRef.unary (.of main_call3_v3 : StableHlo.TRef sig ⟨S1, .i32⟩) (.of main_call3_v4 : StableHlo.TRef sig ⟨S1, .i32⟩) id,
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v5 : StableHlo.TRef sig ⟨S1, .i32⟩) (broadcastInDim S1 ![] bcast_S_S1),
    StableHlo.TRef.binary (.of main_call3_v4 : StableHlo.TRef sig ⟨S1, .i32⟩) (.of main_call3_v5 : StableHlo.TRef sig ⟨S1, .i32⟩) (.of main_call3_v6 : StableHlo.TRef sig ⟨S1, .i1⟩) (cmpi .sge),
    StableHlo.TRef.binary (.of main_call3_v4 : StableHlo.TRef sig ⟨S1, .i32⟩) (.of main_call3_c_1 : StableHlo.TRef sig ⟨S1, .i32⟩) (.of main_call3_v7 : StableHlo.TRef sig ⟨S1, .i1⟩) (cmpi .sle),
    StableHlo.TRef.binary (.of main_call3_v6 : StableHlo.TRef sig ⟨S1, .i1⟩) (.of main_call3_v7 : StableHlo.TRef sig ⟨S1, .i1⟩) (.of main_call3_v8 : StableHlo.TRef sig ⟨S1, .i1⟩) andi,
    StableHlo.TRef.nullary (.of main_call3_c_3 : StableHlo.TRef sig ⟨S_, .i1⟩) (constantI S_ 1 1#1),
    StableHlo.TRef.binary (.of main_call3_v8 : StableHlo.TRef sig ⟨S1, .i1⟩) (.of main_call3_c_3 : StableHlo.TRef sig ⟨S_, .i1⟩) (.of main_call3_v9 : StableHlo.TRef sig ⟨S_, .i1⟩) (fun x v => Host.reduce IntOp.andi x v reducesTo_S1_S_d0 h_S_),
    StableHlo.TRef.binary (.of main_v27 : StableHlo.TRef sig ⟨S256x2x2x2x2x2x2x2x2, .f32⟩) (.of main_call3_v4 : StableHlo.TRef sig ⟨S1, .i32⟩) (.of main_call3_v10 : StableHlo.TRef sig ⟨S256x2x2x2x2x2x2x2, .f32⟩) (fun x i => Host.gather gather_S256x2x2x2x2x2x2x2x2_S1_S256x2x2x2x2x2x2x2_01234567_3_n_n_3_0_25622122222 x i),
    StableHlo.TRef.unary (.of main_call3_v9 : StableHlo.TRef sig ⟨S_, .i1⟩) (.of main_call3_v11 : StableHlo.TRef sig ⟨S256x2x2x2x2x2x2x2, .i1⟩) (broadcastInDim S256x2x2x2x2x2x2x2 ![] bcast_S_S256x2x2x2x2x2x2x2),
    StableHlo.TRef.nullary (.of main_call3_cst : StableHlo.TRef sig ⟨S_, .f32⟩) (constant S_ .f32 0x7FC00000#32),
    StableHlo.TRef.unary (.of main_call3_cst : StableHlo.TRef sig ⟨S_, .f32⟩) (.of main_call3_v12 : StableHlo.TRef sig ⟨S256x2x2x2x2x2x2x2, .f32⟩) (broadcastInDim S256x2x2x2x2x2x2x2 ![] bcast_S_S256x2x2x2x2x2x2x2),
    StableHlo.TRef.ternary (.of main_call3_v11 : StableHlo.TRef sig ⟨S256x2x2x2x2x2x2x2, .i1⟩) (.of main_call3_v10 : StableHlo.TRef sig ⟨S256x2x2x2x2x2x2x2, .f32⟩) (.of main_call3_v12 : StableHlo.TRef sig ⟨S256x2x2x2x2x2x2x2, .f32⟩) (.of main_v35 : StableHlo.TRef sig ⟨S256x2x2x2x2x2x2x2, .f32⟩) select,
    StableHlo.unary main_v31 main_v36 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v36 main_v34 main_v37 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v33 main_v38 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v38 main_v35 main_v39 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.binary main_v37 main_v39 main_v40 (subf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v33 main_v41 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v41 main_v34 main_v42 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v31 main_v43 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v43 main_v35 main_v44 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.binary main_v42 main_v44 main_v45 (addf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v40 main_v46 (broadcastInDim S256x2x2x1x2x2x2x2x2 ![0, 1, 2, 4, 5, 6, 7, 8] bcast_S256x2x2x2x2x2x2x2_S256x2x2x1x2x2x2x2x2_0_1_2_4_5_6_7_8 : (⟨S256x2x2x2x2x2x2x2, .f32⟩ : BufTy).Contents (Elt F) → (⟨S256x2x2x1x2x2x2x2x2, .f32⟩ : BufTy).Contents (Elt F)),
    StableHlo.unary main_v45 main_v47 (broadcastInDim S256x2x2x1x2x2x2x2x2 ![0, 1, 2, 4, 5, 6, 7, 8] bcast_S256x2x2x2x2x2x2x2_S256x2x2x1x2x2x2x2x2_0_1_2_4_5_6_7_8 : (⟨S256x2x2x2x2x2x2x2, .f32⟩ : BufTy).Contents (Elt F) → (⟨S256x2x2x1x2x2x2x2x2, .f32⟩ : BufTy).Contents (Elt F)),
    StableHlo.binary main_v46 main_v47 main_v48 ((fun a b => concatenate S256x2x2x2x2x2x2x2x2 3 [⟨S256x2x2x1x2x2x2x2x2, a⟩, ⟨S256x2x2x1x2x2x2x2x2, b⟩] concatenates_S256x2x2x1x2x2x2x2x2_S256x2x2x1x2x2x2x2x2_S256x2x2x2x2x2x2x2x2_d3) : (⟨S256x2x2x1x2x2x2x2x2, .f32⟩ : BufTy).Contents (Elt F) → (⟨S256x2x2x1x2x2x2x2x2, .f32⟩ : BufTy).Contents (Elt F) → (⟨S256x2x2x2x2x2x2x2x2, .f32⟩ : BufTy).Contents (Elt F)) ]

/-- The host operations of gate 3 (a controlled flip, axis 2). -/
abbrev G3 : List (HloOp τ sig (Elt F)) :=
  [ StableHlo.nullary main_c_7 (constantI S_ 32 0#32),
    StableHlo.TRef.nullary (.of main_call4_c : StableHlo.TRef sig ⟨S_, .i32⟩) (constantI S_ 32 0#32),
    StableHlo.TRef.binary (.of main_c_7 : StableHlo.TRef sig ⟨S_, .i32⟩) (.of main_call4_c : StableHlo.TRef sig ⟨S_, .i32⟩) (.of main_call4_v0 : StableHlo.TRef sig ⟨S_, .i1⟩) (cmpi .slt),
    StableHlo.TRef.nullary (.of main_call4_c_0 : StableHlo.TRef sig ⟨S_, .i32⟩) (constantI S_ 32 2#32),
    StableHlo.TRef.binary (.of main_c_7 : StableHlo.TRef sig ⟨S_, .i32⟩) (.of main_call4_c_0 : StableHlo.TRef sig ⟨S_, .i32⟩) (.of main_call4_v1 : StableHlo.TRef sig ⟨S_, .i32⟩) addi,
    StableHlo.TRef.ternary (.of main_call4_v0 : StableHlo.TRef sig ⟨S_, .i1⟩) (.of main_call4_v1 : StableHlo.TRef sig ⟨S_, .i32⟩) (.of main_c_7 : StableHlo.TRef sig ⟨S_, .i32⟩) (.of main_call4_v2 : StableHlo.TRef sig ⟨S_, .i32⟩) select,
    StableHlo.TRef.unary main_call4_call0.v0 (.of main_call4_v3 : StableHlo.TRef sig ⟨S1, .i32⟩) (broadcastInDim S1 ![] bcast_S_S1),
    StableHlo.TRef.nullary (.of main_call4_c_1 : StableHlo.TRef sig ⟨S1, .i32⟩) (constantI S1 32 1#32),
    StableHlo.TRef.unary (.of main_call4_v3 : StableHlo.TRef sig ⟨S1, .i32⟩) (.of main_call4_v4 : StableHlo.TRef sig ⟨S1, .i32⟩) id,
    StableHlo.TRef.nullary (.of main_call4_c_2 : StableHlo.TRef sig ⟨S_, .i32⟩) (constantI S_ 32 0#32),
    StableHlo.TRef.unary (.of main_call4_c_2 : StableHlo.TRef sig ⟨S_, .i32⟩) (.of main_call4_v5 : StableHlo.TRef sig ⟨S1, .i32⟩) (broadcastInDim S1 ![] bcast_S_S1),
    StableHlo.TRef.binary (.of main_call4_v4 : StableHlo.TRef sig ⟨S1, .i32⟩) (.of main_call4_v5 : StableHlo.TRef sig ⟨S1, .i32⟩) (.of main_call4_v6 : StableHlo.TRef sig ⟨S1, .i1⟩) (cmpi .sge),
    StableHlo.TRef.binary (.of main_call4_v4 : StableHlo.TRef sig ⟨S1, .i32⟩) (.of main_call4_c_1 : StableHlo.TRef sig ⟨S1, .i32⟩) (.of main_call4_v7 : StableHlo.TRef sig ⟨S1, .i1⟩) (cmpi .sle),
    StableHlo.TRef.binary (.of main_call4_v6 : StableHlo.TRef sig ⟨S1, .i1⟩) (.of main_call4_v7 : StableHlo.TRef sig ⟨S1, .i1⟩) (.of main_call4_v8 : StableHlo.TRef sig ⟨S1, .i1⟩) andi,
    StableHlo.TRef.nullary (.of main_call4_c_3 : StableHlo.TRef sig ⟨S_, .i1⟩) (constantI S_ 1 1#1),
    StableHlo.TRef.binary (.of main_call4_v8 : StableHlo.TRef sig ⟨S1, .i1⟩) (.of main_call4_c_3 : StableHlo.TRef sig ⟨S_, .i1⟩) (.of main_call4_v9 : StableHlo.TRef sig ⟨S_, .i1⟩) (fun x v => Host.reduce IntOp.andi x v reducesTo_S1_S_d0 h_S_),
    StableHlo.TRef.binary (.of main_v48 : StableHlo.TRef sig ⟨S256x2x2x2x2x2x2x2x2, .f32⟩) (.of main_call4_v4 : StableHlo.TRef sig ⟨S1, .i32⟩) (.of main_call4_v10 : StableHlo.TRef sig ⟨S256x2x2x2x2x2x2x2, .f32⟩) (fun x i => Host.gather gather_S256x2x2x2x2x2x2x2x2_S1_S256x2x2x2x2x2x2x2_01234567_2_n_n_2_0_25621222222 x i),
    StableHlo.TRef.unary (.of main_call4_v9 : StableHlo.TRef sig ⟨S_, .i1⟩) (.of main_call4_v11 : StableHlo.TRef sig ⟨S256x2x2x2x2x2x2x2, .i1⟩) (broadcastInDim S256x2x2x2x2x2x2x2 ![] bcast_S_S256x2x2x2x2x2x2x2),
    StableHlo.TRef.nullary (.of main_call4_cst : StableHlo.TRef sig ⟨S_, .f32⟩) (constant S_ .f32 0x7FC00000#32),
    StableHlo.TRef.unary (.of main_call4_cst : StableHlo.TRef sig ⟨S_, .f32⟩) (.of main_call4_v12 : StableHlo.TRef sig ⟨S256x2x2x2x2x2x2x2, .f32⟩) (broadcastInDim S256x2x2x2x2x2x2x2 ![] bcast_S_S256x2x2x2x2x2x2x2),
    StableHlo.TRef.ternary (.of main_call4_v11 : StableHlo.TRef sig ⟨S256x2x2x2x2x2x2x2, .i1⟩) (.of main_call4_v10 : StableHlo.TRef sig ⟨S256x2x2x2x2x2x2x2, .f32⟩) (.of main_call4_v12 : StableHlo.TRef sig ⟨S256x2x2x2x2x2x2x2, .f32⟩) (.of main_v49 : StableHlo.TRef sig ⟨S256x2x2x2x2x2x2x2, .f32⟩) select,
    StableHlo.nullary main_c_8 (constantI S_ 32 1#32),
    StableHlo.TRef.nullary (.of main_call5_c : StableHlo.TRef sig ⟨S_, .i32⟩) (constantI S_ 32 0#32),
    StableHlo.TRef.binary (.of main_c_8 : StableHlo.TRef sig ⟨S_, .i32⟩) (.of main_call5_c : StableHlo.TRef sig ⟨S_, .i32⟩) (.of main_call5_v0 : StableHlo.TRef sig ⟨S_, .i1⟩) (cmpi .slt),
    StableHlo.TRef.nullary (.of main_call5_c_0 : StableHlo.TRef sig ⟨S_, .i32⟩) (constantI S_ 32 2#32),
    StableHlo.TRef.binary (.of main_c_8 : StableHlo.TRef sig ⟨S_, .i32⟩) (.of main_call5_c_0 : StableHlo.TRef sig ⟨S_, .i32⟩) (.of main_call5_v1 : StableHlo.TRef sig ⟨S_, .i32⟩) addi,
    StableHlo.TRef.ternary (.of main_call5_v0 : StableHlo.TRef sig ⟨S_, .i1⟩) (.of main_call5_v1 : StableHlo.TRef sig ⟨S_, .i32⟩) (.of main_c_8 : StableHlo.TRef sig ⟨S_, .i32⟩) (.of main_call5_v2 : StableHlo.TRef sig ⟨S_, .i32⟩) select,
    StableHlo.TRef.unary main_call5_call0.v0 (.of main_call5_v3 : StableHlo.TRef sig ⟨S1, .i32⟩) (broadcastInDim S1 ![] bcast_S_S1),
    StableHlo.TRef.nullary (.of main_call5_c_1 : StableHlo.TRef sig ⟨S1, .i32⟩) (constantI S1 32 1#32),
    StableHlo.TRef.unary (.of main_call5_v3 : StableHlo.TRef sig ⟨S1, .i32⟩) (.of main_call5_v4 : StableHlo.TRef sig ⟨S1, .i32⟩) id,
    StableHlo.TRef.nullary (.of main_call5_c_2 : StableHlo.TRef sig ⟨S_, .i32⟩) (constantI S_ 32 0#32),
    StableHlo.TRef.unary (.of main_call5_c_2 : StableHlo.TRef sig ⟨S_, .i32⟩) (.of main_call5_v5 : StableHlo.TRef sig ⟨S1, .i32⟩) (broadcastInDim S1 ![] bcast_S_S1),
    StableHlo.TRef.binary (.of main_call5_v4 : StableHlo.TRef sig ⟨S1, .i32⟩) (.of main_call5_v5 : StableHlo.TRef sig ⟨S1, .i32⟩) (.of main_call5_v6 : StableHlo.TRef sig ⟨S1, .i1⟩) (cmpi .sge),
    StableHlo.TRef.binary (.of main_call5_v4 : StableHlo.TRef sig ⟨S1, .i32⟩) (.of main_call5_c_1 : StableHlo.TRef sig ⟨S1, .i32⟩) (.of main_call5_v7 : StableHlo.TRef sig ⟨S1, .i1⟩) (cmpi .sle),
    StableHlo.TRef.binary (.of main_call5_v6 : StableHlo.TRef sig ⟨S1, .i1⟩) (.of main_call5_v7 : StableHlo.TRef sig ⟨S1, .i1⟩) (.of main_call5_v8 : StableHlo.TRef sig ⟨S1, .i1⟩) andi,
    StableHlo.TRef.nullary (.of main_call5_c_3 : StableHlo.TRef sig ⟨S_, .i1⟩) (constantI S_ 1 1#1),
    StableHlo.TRef.binary (.of main_call5_v8 : StableHlo.TRef sig ⟨S1, .i1⟩) (.of main_call5_c_3 : StableHlo.TRef sig ⟨S_, .i1⟩) (.of main_call5_v9 : StableHlo.TRef sig ⟨S_, .i1⟩) (fun x v => Host.reduce IntOp.andi x v reducesTo_S1_S_d0 h_S_),
    StableHlo.TRef.binary (.of main_v48 : StableHlo.TRef sig ⟨S256x2x2x2x2x2x2x2x2, .f32⟩) (.of main_call5_v4 : StableHlo.TRef sig ⟨S1, .i32⟩) (.of main_call5_v10 : StableHlo.TRef sig ⟨S256x2x2x2x2x2x2x2, .f32⟩) (fun x i => Host.gather gather_S256x2x2x2x2x2x2x2x2_S1_S256x2x2x2x2x2x2x2_01234567_2_n_n_2_0_25621222222 x i),
    StableHlo.TRef.unary (.of main_call5_v9 : StableHlo.TRef sig ⟨S_, .i1⟩) (.of main_call5_v11 : StableHlo.TRef sig ⟨S256x2x2x2x2x2x2x2, .i1⟩) (broadcastInDim S256x2x2x2x2x2x2x2 ![] bcast_S_S256x2x2x2x2x2x2x2),
    StableHlo.TRef.nullary (.of main_call5_cst : StableHlo.TRef sig ⟨S_, .f32⟩) (constant S_ .f32 0x7FC00000#32),
    StableHlo.TRef.unary (.of main_call5_cst : StableHlo.TRef sig ⟨S_, .f32⟩) (.of main_call5_v12 : StableHlo.TRef sig ⟨S256x2x2x2x2x2x2x2, .f32⟩) (broadcastInDim S256x2x2x2x2x2x2x2 ![] bcast_S_S256x2x2x2x2x2x2x2),
    StableHlo.TRef.ternary (.of main_call5_v11 : StableHlo.TRef sig ⟨S256x2x2x2x2x2x2x2, .i1⟩) (.of main_call5_v10 : StableHlo.TRef sig ⟨S256x2x2x2x2x2x2x2, .f32⟩) (.of main_call5_v12 : StableHlo.TRef sig ⟨S256x2x2x2x2x2x2x2, .f32⟩) (.of main_v50 : StableHlo.TRef sig ⟨S256x2x2x2x2x2x2x2, .f32⟩) select,
    StableHlo.TRef.unary (.of main_v50 : StableHlo.TRef sig ⟨S256x2x2x2x2x2x2x2, .f32⟩) (.of main_v51 : StableHlo.TRef sig ⟨S256x2x2x2x2x2x2x2, .f32⟩) (Host.reverse [2]),
    StableHlo.unary main_v49 main_v52 (broadcastInDim S256x2x1x2x2x2x2x2x2 ![0, 1, 3, 4, 5, 6, 7, 8] bcast_S256x2x2x2x2x2x2x2_S256x2x1x2x2x2x2x2x2_0_1_3_4_5_6_7_8 : (⟨S256x2x2x2x2x2x2x2, .f32⟩ : BufTy).Contents (Elt F) → (⟨S256x2x1x2x2x2x2x2x2, .f32⟩ : BufTy).Contents (Elt F)),
    StableHlo.unary main_v51 main_v53 (broadcastInDim S256x2x1x2x2x2x2x2x2 ![0, 1, 3, 4, 5, 6, 7, 8] bcast_S256x2x2x2x2x2x2x2_S256x2x1x2x2x2x2x2x2_0_1_3_4_5_6_7_8 : (⟨S256x2x2x2x2x2x2x2, .f32⟩ : BufTy).Contents (Elt F) → (⟨S256x2x1x2x2x2x2x2x2, .f32⟩ : BufTy).Contents (Elt F)),
    StableHlo.binary main_v52 main_v53 main_v54 ((fun a b => concatenate S256x2x2x2x2x2x2x2x2 2 [⟨S256x2x1x2x2x2x2x2x2, a⟩, ⟨S256x2x1x2x2x2x2x2x2, b⟩] concatenates_S256x2x1x2x2x2x2x2x2_S256x2x1x2x2x2x2x2x2_S256x2x2x2x2x2x2x2x2_d2) : (⟨S256x2x1x2x2x2x2x2x2, .f32⟩ : BufTy).Contents (Elt F) → (⟨S256x2x1x2x2x2x2x2x2, .f32⟩ : BufTy).Contents (Elt F) → (⟨S256x2x2x2x2x2x2x2x2, .f32⟩ : BufTy).Contents (Elt F)) ]

/-- The host operations of gate 4 (a rotation, parameter 2, axis 6). -/
abbrev G4 : List (HloOp τ sig (Elt F)) :=
  [ StableHlo.unary main_arg3 main_v55 ((extractStridedSlice S1 ![2] · slices_S21_S1_2) : (⟨S21, .f32⟩ : BufTy).Contents (Elt F) → (⟨S1, .f32⟩ : BufTy).Contents (Elt F)),
    StableHlo.reshape main_v55 main_v56 rfl shapeCasts_S1_S_,
    StableHlo.nullary main_cst_9 (constant S_ .f32 0x3F000000#32),
    StableHlo.binary main_cst_9 main_v56 main_v57 (mulf : (⟨S_, .f32⟩ : BufTy).Contents (Elt F) → (⟨S_, .f32⟩ : BufTy).Contents (Elt F) → (⟨S_, .f32⟩ : BufTy).Contents (Elt F)),
    StableHlo.unary main_v57 main_v58 (Host.cos : (⟨S_, .f32⟩ : BufTy).Contents (Elt F) → (⟨S_, .f32⟩ : BufTy).Contents (Elt F)),
    StableHlo.nullary main_cst_10 (constant S_ .f32 0x3F000000#32),
    StableHlo.binary main_cst_10 main_v56 main_v59 (mulf : (⟨S_, .f32⟩ : BufTy).Contents (Elt F) → (⟨S_, .f32⟩ : BufTy).Contents (Elt F) → (⟨S_, .f32⟩ : BufTy).Contents (Elt F)),
    StableHlo.unary main_v59 main_v60 (Host.sin : (⟨S_, .f32⟩ : BufTy).Contents (Elt F) → (⟨S_, .f32⟩ : BufTy).Contents (Elt F)),
    StableHlo.nullary main_c_11 (constantI S_ 32 0#32),
    StableHlo.TRef.nullary (.of main_call7_c : StableHlo.TRef sig ⟨S_, .i32⟩) (constantI S_ 32 0#32),
    StableHlo.TRef.binary (.of main_c_11 : StableHlo.TRef sig ⟨S_, .i32⟩) (.of main_call7_c : StableHlo.TRef sig ⟨S_, .i32⟩) (.of main_call7_v0 : StableHlo.TRef sig ⟨S_, .i1⟩) (cmpi .slt),
    StableHlo.TRef.nullary (.of main_call7_c_0 : StableHlo.TRef sig ⟨S_, .i32⟩) (constantI S_ 32 2#32),
    StableHlo.TRef.binary (.of main_c_11 : StableHlo.TRef sig ⟨S_, .i32⟩) (.of main_call7_c_0 : StableHlo.TRef sig ⟨S_, .i32⟩) (.of main_call7_v1 : StableHlo.TRef sig ⟨S_, .i32⟩) addi,
    StableHlo.TRef.ternary (.of main_call7_v0 : StableHlo.TRef sig ⟨S_, .i1⟩) (.of main_call7_v1 : StableHlo.TRef sig ⟨S_, .i32⟩) (.of main_c_11 : StableHlo.TRef sig ⟨S_, .i32⟩) (.of main_call7_v2 : StableHlo.TRef sig ⟨S_, .i32⟩) select,
    StableHlo.TRef.unary main_call7_call0.v0 (.of main_call7_v3 : StableHlo.TRef sig ⟨S1, .i32⟩) (broadcastInDim S1 ![] bcast_S_S1),
    StableHlo.TRef.nullary (.of main_call7_c_1 : StableHlo.TRef sig ⟨S1, .i32⟩) (constantI S1 32 1#32),
    StableHlo.TRef.unary (.of main_call7_v3 : StableHlo.TRef sig ⟨S1, .i32⟩) (.of main_call7_v4 : StableHlo.TRef sig ⟨S1, .i32⟩) id,
    StableHlo.TRef.nullary (.of main_call7_c_2 : StableHlo.TRef sig ⟨S_, .i32⟩) (constantI S_ 32 0#32),
    StableHlo.TRef.unary (.of main_call7_c_2 : StableHlo.TRef sig ⟨S_, .i32⟩) (.of main_call7_v5 : StableHlo.TRef sig ⟨S1, .i32⟩) (broadcastInDim S1 ![] bcast_S_S1),
    StableHlo.TRef.binary (.of main_call7_v4 : StableHlo.TRef sig ⟨S1, .i32⟩) (.of main_call7_v5 : StableHlo.TRef sig ⟨S1, .i32⟩) (.of main_call7_v6 : StableHlo.TRef sig ⟨S1, .i1⟩) (cmpi .sge),
    StableHlo.TRef.binary (.of main_call7_v4 : StableHlo.TRef sig ⟨S1, .i32⟩) (.of main_call7_c_1 : StableHlo.TRef sig ⟨S1, .i32⟩) (.of main_call7_v7 : StableHlo.TRef sig ⟨S1, .i1⟩) (cmpi .sle),
    StableHlo.TRef.binary (.of main_call7_v6 : StableHlo.TRef sig ⟨S1, .i1⟩) (.of main_call7_v7 : StableHlo.TRef sig ⟨S1, .i1⟩) (.of main_call7_v8 : StableHlo.TRef sig ⟨S1, .i1⟩) andi,
    StableHlo.TRef.nullary (.of main_call7_c_3 : StableHlo.TRef sig ⟨S_, .i1⟩) (constantI S_ 1 1#1),
    StableHlo.TRef.binary (.of main_call7_v8 : StableHlo.TRef sig ⟨S1, .i1⟩) (.of main_call7_c_3 : StableHlo.TRef sig ⟨S_, .i1⟩) (.of main_call7_v9 : StableHlo.TRef sig ⟨S_, .i1⟩) (fun x v => Host.reduce IntOp.andi x v reducesTo_S1_S_d0 h_S_),
    StableHlo.TRef.binary (.of main_v54 : StableHlo.TRef sig ⟨S256x2x2x2x2x2x2x2x2, .f32⟩) (.of main_call7_v4 : StableHlo.TRef sig ⟨S1, .i32⟩) (.of main_call7_v10 : StableHlo.TRef sig ⟨S256x2x2x2x2x2x2x2, .f32⟩) (fun x i => Host.gather gather_S256x2x2x2x2x2x2x2x2_S1_S256x2x2x2x2x2x2x2_01234567_6_n_n_6_0_25622222122 x i),
    StableHlo.TRef.unary (.of main_call7_v9 : StableHlo.TRef sig ⟨S_, .i1⟩) (.of main_call7_v11 : StableHlo.TRef sig ⟨S256x2x2x2x2x2x2x2, .i1⟩) (broadcastInDim S256x2x2x2x2x2x2x2 ![] bcast_S_S256x2x2x2x2x2x2x2),
    StableHlo.TRef.nullary (.of main_call7_cst : StableHlo.TRef sig ⟨S_, .f32⟩) (constant S_ .f32 0x7FC00000#32),
    StableHlo.TRef.unary (.of main_call7_cst : StableHlo.TRef sig ⟨S_, .f32⟩) (.of main_call7_v12 : StableHlo.TRef sig ⟨S256x2x2x2x2x2x2x2, .f32⟩) (broadcastInDim S256x2x2x2x2x2x2x2 ![] bcast_S_S256x2x2x2x2x2x2x2),
    StableHlo.TRef.ternary (.of main_call7_v11 : StableHlo.TRef sig ⟨S256x2x2x2x2x2x2x2, .i1⟩) (.of main_call7_v10 : StableHlo.TRef sig ⟨S256x2x2x2x2x2x2x2, .f32⟩) (.of main_call7_v12 : StableHlo.TRef sig ⟨S256x2x2x2x2x2x2x2, .f32⟩) (.of main_v61 : StableHlo.TRef sig ⟨S256x2x2x2x2x2x2x2, .f32⟩) select,
    StableHlo.nullary main_c_12 (constantI S_ 32 1#32),
    StableHlo.TRef.nullary (.of main_call8_c : StableHlo.TRef sig ⟨S_, .i32⟩) (constantI S_ 32 0#32),
    StableHlo.TRef.binary (.of main_c_12 : StableHlo.TRef sig ⟨S_, .i32⟩) (.of main_call8_c : StableHlo.TRef sig ⟨S_, .i32⟩) (.of main_call8_v0 : StableHlo.TRef sig ⟨S_, .i1⟩) (cmpi .slt),
    StableHlo.TRef.nullary (.of main_call8_c_0 : StableHlo.TRef sig ⟨S_, .i32⟩) (constantI S_ 32 2#32),
    StableHlo.TRef.binary (.of main_c_12 : StableHlo.TRef sig ⟨S_, .i32⟩) (.of main_call8_c_0 : StableHlo.TRef sig ⟨S_, .i32⟩) (.of main_call8_v1 : StableHlo.TRef sig ⟨S_, .i32⟩) addi,
    StableHlo.TRef.ternary (.of main_call8_v0 : StableHlo.TRef sig ⟨S_, .i1⟩) (.of main_call8_v1 : StableHlo.TRef sig ⟨S_, .i32⟩) (.of main_c_12 : StableHlo.TRef sig ⟨S_, .i32⟩) (.of main_call8_v2 : StableHlo.TRef sig ⟨S_, .i32⟩) select,
    StableHlo.TRef.unary main_call8_call0.v0 (.of main_call8_v3 : StableHlo.TRef sig ⟨S1, .i32⟩) (broadcastInDim S1 ![] bcast_S_S1),
    StableHlo.TRef.nullary (.of main_call8_c_1 : StableHlo.TRef sig ⟨S1, .i32⟩) (constantI S1 32 1#32),
    StableHlo.TRef.unary (.of main_call8_v3 : StableHlo.TRef sig ⟨S1, .i32⟩) (.of main_call8_v4 : StableHlo.TRef sig ⟨S1, .i32⟩) id,
    StableHlo.TRef.nullary (.of main_call8_c_2 : StableHlo.TRef sig ⟨S_, .i32⟩) (constantI S_ 32 0#32),
    StableHlo.TRef.unary (.of main_call8_c_2 : StableHlo.TRef sig ⟨S_, .i32⟩) (.of main_call8_v5 : StableHlo.TRef sig ⟨S1, .i32⟩) (broadcastInDim S1 ![] bcast_S_S1),
    StableHlo.TRef.binary (.of main_call8_v4 : StableHlo.TRef sig ⟨S1, .i32⟩) (.of main_call8_v5 : StableHlo.TRef sig ⟨S1, .i32⟩) (.of main_call8_v6 : StableHlo.TRef sig ⟨S1, .i1⟩) (cmpi .sge),
    StableHlo.TRef.binary (.of main_call8_v4 : StableHlo.TRef sig ⟨S1, .i32⟩) (.of main_call8_c_1 : StableHlo.TRef sig ⟨S1, .i32⟩) (.of main_call8_v7 : StableHlo.TRef sig ⟨S1, .i1⟩) (cmpi .sle),
    StableHlo.TRef.binary (.of main_call8_v6 : StableHlo.TRef sig ⟨S1, .i1⟩) (.of main_call8_v7 : StableHlo.TRef sig ⟨S1, .i1⟩) (.of main_call8_v8 : StableHlo.TRef sig ⟨S1, .i1⟩) andi,
    StableHlo.TRef.nullary (.of main_call8_c_3 : StableHlo.TRef sig ⟨S_, .i1⟩) (constantI S_ 1 1#1),
    StableHlo.TRef.binary (.of main_call8_v8 : StableHlo.TRef sig ⟨S1, .i1⟩) (.of main_call8_c_3 : StableHlo.TRef sig ⟨S_, .i1⟩) (.of main_call8_v9 : StableHlo.TRef sig ⟨S_, .i1⟩) (fun x v => Host.reduce IntOp.andi x v reducesTo_S1_S_d0 h_S_),
    StableHlo.TRef.binary (.of main_v54 : StableHlo.TRef sig ⟨S256x2x2x2x2x2x2x2x2, .f32⟩) (.of main_call8_v4 : StableHlo.TRef sig ⟨S1, .i32⟩) (.of main_call8_v10 : StableHlo.TRef sig ⟨S256x2x2x2x2x2x2x2, .f32⟩) (fun x i => Host.gather gather_S256x2x2x2x2x2x2x2x2_S1_S256x2x2x2x2x2x2x2_01234567_6_n_n_6_0_25622222122 x i),
    StableHlo.TRef.unary (.of main_call8_v9 : StableHlo.TRef sig ⟨S_, .i1⟩) (.of main_call8_v11 : StableHlo.TRef sig ⟨S256x2x2x2x2x2x2x2, .i1⟩) (broadcastInDim S256x2x2x2x2x2x2x2 ![] bcast_S_S256x2x2x2x2x2x2x2),
    StableHlo.TRef.nullary (.of main_call8_cst : StableHlo.TRef sig ⟨S_, .f32⟩) (constant S_ .f32 0x7FC00000#32),
    StableHlo.TRef.unary (.of main_call8_cst : StableHlo.TRef sig ⟨S_, .f32⟩) (.of main_call8_v12 : StableHlo.TRef sig ⟨S256x2x2x2x2x2x2x2, .f32⟩) (broadcastInDim S256x2x2x2x2x2x2x2 ![] bcast_S_S256x2x2x2x2x2x2x2),
    StableHlo.TRef.ternary (.of main_call8_v11 : StableHlo.TRef sig ⟨S256x2x2x2x2x2x2x2, .i1⟩) (.of main_call8_v10 : StableHlo.TRef sig ⟨S256x2x2x2x2x2x2x2, .f32⟩) (.of main_call8_v12 : StableHlo.TRef sig ⟨S256x2x2x2x2x2x2x2, .f32⟩) (.of main_v62 : StableHlo.TRef sig ⟨S256x2x2x2x2x2x2x2, .f32⟩) select,
    StableHlo.unary main_v58 main_v63 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v63 main_v61 main_v64 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v60 main_v65 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v65 main_v62 main_v66 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.binary main_v64 main_v66 main_v67 (subf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v60 main_v68 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v68 main_v61 main_v69 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v58 main_v70 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v70 main_v62 main_v71 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.binary main_v69 main_v71 main_v72 (addf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v67 main_v73 (broadcastInDim S256x2x2x2x2x2x1x2x2 ![0, 1, 2, 3, 4, 5, 7, 8] bcast_S256x2x2x2x2x2x2x2_S256x2x2x2x2x2x1x2x2_0_1_2_3_4_5_7_8 : (⟨S256x2x2x2x2x2x2x2, .f32⟩ : BufTy).Contents (Elt F) → (⟨S256x2x2x2x2x2x1x2x2, .f32⟩ : BufTy).Contents (Elt F)),
    StableHlo.unary main_v72 main_v74 (broadcastInDim S256x2x2x2x2x2x1x2x2 ![0, 1, 2, 3, 4, 5, 7, 8] bcast_S256x2x2x2x2x2x2x2_S256x2x2x2x2x2x1x2x2_0_1_2_3_4_5_7_8 : (⟨S256x2x2x2x2x2x2x2, .f32⟩ : BufTy).Contents (Elt F) → (⟨S256x2x2x2x2x2x1x2x2, .f32⟩ : BufTy).Contents (Elt F)),
    StableHlo.binary main_v73 main_v74 main_v75 ((fun a b => concatenate S256x2x2x2x2x2x2x2x2 6 [⟨S256x2x2x2x2x2x1x2x2, a⟩, ⟨S256x2x2x2x2x2x1x2x2, b⟩] concatenates_S256x2x2x2x2x2x1x2x2_S256x2x2x2x2x2x1x2x2_S256x2x2x2x2x2x2x2x2_d6) : (⟨S256x2x2x2x2x2x1x2x2, .f32⟩ : BufTy).Contents (Elt F) → (⟨S256x2x2x2x2x2x1x2x2, .f32⟩ : BufTy).Contents (Elt F) → (⟨S256x2x2x2x2x2x2x2x2, .f32⟩ : BufTy).Contents (Elt F)) ]

/-- The host operations of gate 5 (a rotation, parameter 3, axis 7). -/
abbrev G5 : List (HloOp τ sig (Elt F)) :=
  [ StableHlo.unary main_arg3 main_v76 ((extractStridedSlice S1 ![3] · slices_S21_S1_3) : (⟨S21, .f32⟩ : BufTy).Contents (Elt F) → (⟨S1, .f32⟩ : BufTy).Contents (Elt F)),
    StableHlo.reshape main_v76 main_v77 rfl shapeCasts_S1_S_,
    StableHlo.nullary main_cst_13 (constant S_ .f32 0x3F000000#32),
    StableHlo.binary main_cst_13 main_v77 main_v78 (mulf : (⟨S_, .f32⟩ : BufTy).Contents (Elt F) → (⟨S_, .f32⟩ : BufTy).Contents (Elt F) → (⟨S_, .f32⟩ : BufTy).Contents (Elt F)),
    StableHlo.unary main_v78 main_v79 (Host.cos : (⟨S_, .f32⟩ : BufTy).Contents (Elt F) → (⟨S_, .f32⟩ : BufTy).Contents (Elt F)),
    StableHlo.nullary main_cst_14 (constant S_ .f32 0x3F000000#32),
    StableHlo.binary main_cst_14 main_v77 main_v80 (mulf : (⟨S_, .f32⟩ : BufTy).Contents (Elt F) → (⟨S_, .f32⟩ : BufTy).Contents (Elt F) → (⟨S_, .f32⟩ : BufTy).Contents (Elt F)),
    StableHlo.unary main_v80 main_v81 (Host.sin : (⟨S_, .f32⟩ : BufTy).Contents (Elt F) → (⟨S_, .f32⟩ : BufTy).Contents (Elt F)),
    StableHlo.nullary main_c_15 (constantI S_ 32 0#32),
    StableHlo.TRef.nullary (.of main_call9_c : StableHlo.TRef sig ⟨S_, .i32⟩) (constantI S_ 32 0#32),
    StableHlo.TRef.binary (.of main_c_15 : StableHlo.TRef sig ⟨S_, .i32⟩) (.of main_call9_c : StableHlo.TRef sig ⟨S_, .i32⟩) (.of main_call9_v0 : StableHlo.TRef sig ⟨S_, .i1⟩) (cmpi .slt),
    StableHlo.TRef.nullary (.of main_call9_c_0 : StableHlo.TRef sig ⟨S_, .i32⟩) (constantI S_ 32 2#32),
    StableHlo.TRef.binary (.of main_c_15 : StableHlo.TRef sig ⟨S_, .i32⟩) (.of main_call9_c_0 : StableHlo.TRef sig ⟨S_, .i32⟩) (.of main_call9_v1 : StableHlo.TRef sig ⟨S_, .i32⟩) addi,
    StableHlo.TRef.ternary (.of main_call9_v0 : StableHlo.TRef sig ⟨S_, .i1⟩) (.of main_call9_v1 : StableHlo.TRef sig ⟨S_, .i32⟩) (.of main_c_15 : StableHlo.TRef sig ⟨S_, .i32⟩) (.of main_call9_v2 : StableHlo.TRef sig ⟨S_, .i32⟩) select,
    StableHlo.TRef.unary main_call9_call0.v0 (.of main_call9_v3 : StableHlo.TRef sig ⟨S1, .i32⟩) (broadcastInDim S1 ![] bcast_S_S1),
    StableHlo.TRef.nullary (.of main_call9_c_1 : StableHlo.TRef sig ⟨S1, .i32⟩) (constantI S1 32 1#32),
    StableHlo.TRef.unary (.of main_call9_v3 : StableHlo.TRef sig ⟨S1, .i32⟩) (.of main_call9_v4 : StableHlo.TRef sig ⟨S1, .i32⟩) id,
    StableHlo.TRef.nullary (.of main_call9_c_2 : StableHlo.TRef sig ⟨S_, .i32⟩) (constantI S_ 32 0#32),
    StableHlo.TRef.unary (.of main_call9_c_2 : StableHlo.TRef sig ⟨S_, .i32⟩) (.of main_call9_v5 : StableHlo.TRef sig ⟨S1, .i32⟩) (broadcastInDim S1 ![] bcast_S_S1),
    StableHlo.TRef.binary (.of main_call9_v4 : StableHlo.TRef sig ⟨S1, .i32⟩) (.of main_call9_v5 : StableHlo.TRef sig ⟨S1, .i32⟩) (.of main_call9_v6 : StableHlo.TRef sig ⟨S1, .i1⟩) (cmpi .sge),
    StableHlo.TRef.binary (.of main_call9_v4 : StableHlo.TRef sig ⟨S1, .i32⟩) (.of main_call9_c_1 : StableHlo.TRef sig ⟨S1, .i32⟩) (.of main_call9_v7 : StableHlo.TRef sig ⟨S1, .i1⟩) (cmpi .sle),
    StableHlo.TRef.binary (.of main_call9_v6 : StableHlo.TRef sig ⟨S1, .i1⟩) (.of main_call9_v7 : StableHlo.TRef sig ⟨S1, .i1⟩) (.of main_call9_v8 : StableHlo.TRef sig ⟨S1, .i1⟩) andi,
    StableHlo.TRef.nullary (.of main_call9_c_3 : StableHlo.TRef sig ⟨S_, .i1⟩) (constantI S_ 1 1#1),
    StableHlo.TRef.binary (.of main_call9_v8 : StableHlo.TRef sig ⟨S1, .i1⟩) (.of main_call9_c_3 : StableHlo.TRef sig ⟨S_, .i1⟩) (.of main_call9_v9 : StableHlo.TRef sig ⟨S_, .i1⟩) (fun x v => Host.reduce IntOp.andi x v reducesTo_S1_S_d0 h_S_),
    StableHlo.TRef.binary (.of main_v75 : StableHlo.TRef sig ⟨S256x2x2x2x2x2x2x2x2, .f32⟩) (.of main_call9_v4 : StableHlo.TRef sig ⟨S1, .i32⟩) (.of main_call9_v10 : StableHlo.TRef sig ⟨S256x2x2x2x2x2x2x2, .f32⟩) (fun x i => Host.gather gather_S256x2x2x2x2x2x2x2x2_S1_S256x2x2x2x2x2x2x2_01234567_7_n_n_7_0_25622222212 x i),
    StableHlo.TRef.unary (.of main_call9_v9 : StableHlo.TRef sig ⟨S_, .i1⟩) (.of main_call9_v11 : StableHlo.TRef sig ⟨S256x2x2x2x2x2x2x2, .i1⟩) (broadcastInDim S256x2x2x2x2x2x2x2 ![] bcast_S_S256x2x2x2x2x2x2x2),
    StableHlo.TRef.nullary (.of main_call9_cst : StableHlo.TRef sig ⟨S_, .f32⟩) (constant S_ .f32 0x7FC00000#32),
    StableHlo.TRef.unary (.of main_call9_cst : StableHlo.TRef sig ⟨S_, .f32⟩) (.of main_call9_v12 : StableHlo.TRef sig ⟨S256x2x2x2x2x2x2x2, .f32⟩) (broadcastInDim S256x2x2x2x2x2x2x2 ![] bcast_S_S256x2x2x2x2x2x2x2),
    StableHlo.TRef.ternary (.of main_call9_v11 : StableHlo.TRef sig ⟨S256x2x2x2x2x2x2x2, .i1⟩) (.of main_call9_v10 : StableHlo.TRef sig ⟨S256x2x2x2x2x2x2x2, .f32⟩) (.of main_call9_v12 : StableHlo.TRef sig ⟨S256x2x2x2x2x2x2x2, .f32⟩) (.of main_v82 : StableHlo.TRef sig ⟨S256x2x2x2x2x2x2x2, .f32⟩) select,
    StableHlo.nullary main_c_16 (constantI S_ 32 1#32),
    StableHlo.TRef.nullary (.of main_call10_c : StableHlo.TRef sig ⟨S_, .i32⟩) (constantI S_ 32 0#32),
    StableHlo.TRef.binary (.of main_c_16 : StableHlo.TRef sig ⟨S_, .i32⟩) (.of main_call10_c : StableHlo.TRef sig ⟨S_, .i32⟩) (.of main_call10_v0 : StableHlo.TRef sig ⟨S_, .i1⟩) (cmpi .slt),
    StableHlo.TRef.nullary (.of main_call10_c_0 : StableHlo.TRef sig ⟨S_, .i32⟩) (constantI S_ 32 2#32),
    StableHlo.TRef.binary (.of main_c_16 : StableHlo.TRef sig ⟨S_, .i32⟩) (.of main_call10_c_0 : StableHlo.TRef sig ⟨S_, .i32⟩) (.of main_call10_v1 : StableHlo.TRef sig ⟨S_, .i32⟩) addi,
    StableHlo.TRef.ternary (.of main_call10_v0 : StableHlo.TRef sig ⟨S_, .i1⟩) (.of main_call10_v1 : StableHlo.TRef sig ⟨S_, .i32⟩) (.of main_c_16 : StableHlo.TRef sig ⟨S_, .i32⟩) (.of main_call10_v2 : StableHlo.TRef sig ⟨S_, .i32⟩) select,
    StableHlo.TRef.unary main_call10_call0.v0 (.of main_call10_v3 : StableHlo.TRef sig ⟨S1, .i32⟩) (broadcastInDim S1 ![] bcast_S_S1),
    StableHlo.TRef.nullary (.of main_call10_c_1 : StableHlo.TRef sig ⟨S1, .i32⟩) (constantI S1 32 1#32),
    StableHlo.TRef.unary (.of main_call10_v3 : StableHlo.TRef sig ⟨S1, .i32⟩) (.of main_call10_v4 : StableHlo.TRef sig ⟨S1, .i32⟩) id,
    StableHlo.TRef.nullary (.of main_call10_c_2 : StableHlo.TRef sig ⟨S_, .i32⟩) (constantI S_ 32 0#32),
    StableHlo.TRef.unary (.of main_call10_c_2 : StableHlo.TRef sig ⟨S_, .i32⟩) (.of main_call10_v5 : StableHlo.TRef sig ⟨S1, .i32⟩) (broadcastInDim S1 ![] bcast_S_S1),
    StableHlo.TRef.binary (.of main_call10_v4 : StableHlo.TRef sig ⟨S1, .i32⟩) (.of main_call10_v5 : StableHlo.TRef sig ⟨S1, .i32⟩) (.of main_call10_v6 : StableHlo.TRef sig ⟨S1, .i1⟩) (cmpi .sge),
    StableHlo.TRef.binary (.of main_call10_v4 : StableHlo.TRef sig ⟨S1, .i32⟩) (.of main_call10_c_1 : StableHlo.TRef sig ⟨S1, .i32⟩) (.of main_call10_v7 : StableHlo.TRef sig ⟨S1, .i1⟩) (cmpi .sle),
    StableHlo.TRef.binary (.of main_call10_v6 : StableHlo.TRef sig ⟨S1, .i1⟩) (.of main_call10_v7 : StableHlo.TRef sig ⟨S1, .i1⟩) (.of main_call10_v8 : StableHlo.TRef sig ⟨S1, .i1⟩) andi,
    StableHlo.TRef.nullary (.of main_call10_c_3 : StableHlo.TRef sig ⟨S_, .i1⟩) (constantI S_ 1 1#1),
    StableHlo.TRef.binary (.of main_call10_v8 : StableHlo.TRef sig ⟨S1, .i1⟩) (.of main_call10_c_3 : StableHlo.TRef sig ⟨S_, .i1⟩) (.of main_call10_v9 : StableHlo.TRef sig ⟨S_, .i1⟩) (fun x v => Host.reduce IntOp.andi x v reducesTo_S1_S_d0 h_S_),
    StableHlo.TRef.binary (.of main_v75 : StableHlo.TRef sig ⟨S256x2x2x2x2x2x2x2x2, .f32⟩) (.of main_call10_v4 : StableHlo.TRef sig ⟨S1, .i32⟩) (.of main_call10_v10 : StableHlo.TRef sig ⟨S256x2x2x2x2x2x2x2, .f32⟩) (fun x i => Host.gather gather_S256x2x2x2x2x2x2x2x2_S1_S256x2x2x2x2x2x2x2_01234567_7_n_n_7_0_25622222212 x i),
    StableHlo.TRef.unary (.of main_call10_v9 : StableHlo.TRef sig ⟨S_, .i1⟩) (.of main_call10_v11 : StableHlo.TRef sig ⟨S256x2x2x2x2x2x2x2, .i1⟩) (broadcastInDim S256x2x2x2x2x2x2x2 ![] bcast_S_S256x2x2x2x2x2x2x2),
    StableHlo.TRef.nullary (.of main_call10_cst : StableHlo.TRef sig ⟨S_, .f32⟩) (constant S_ .f32 0x7FC00000#32),
    StableHlo.TRef.unary (.of main_call10_cst : StableHlo.TRef sig ⟨S_, .f32⟩) (.of main_call10_v12 : StableHlo.TRef sig ⟨S256x2x2x2x2x2x2x2, .f32⟩) (broadcastInDim S256x2x2x2x2x2x2x2 ![] bcast_S_S256x2x2x2x2x2x2x2),
    StableHlo.TRef.ternary (.of main_call10_v11 : StableHlo.TRef sig ⟨S256x2x2x2x2x2x2x2, .i1⟩) (.of main_call10_v10 : StableHlo.TRef sig ⟨S256x2x2x2x2x2x2x2, .f32⟩) (.of main_call10_v12 : StableHlo.TRef sig ⟨S256x2x2x2x2x2x2x2, .f32⟩) (.of main_v83 : StableHlo.TRef sig ⟨S256x2x2x2x2x2x2x2, .f32⟩) select,
    StableHlo.unary main_v79 main_v84 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v84 main_v82 main_v85 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v81 main_v86 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v86 main_v83 main_v87 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.binary main_v85 main_v87 main_v88 (subf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v81 main_v89 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v89 main_v82 main_v90 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v79 main_v91 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v91 main_v83 main_v92 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.binary main_v90 main_v92 main_v93 (addf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v88 main_v94 (broadcastInDim S256x2x2x2x2x2x2x1x2 ![0, 1, 2, 3, 4, 5, 6, 8] bcast_S256x2x2x2x2x2x2x2_S256x2x2x2x2x2x2x1x2_0_1_2_3_4_5_6_8 : (⟨S256x2x2x2x2x2x2x2, .f32⟩ : BufTy).Contents (Elt F) → (⟨S256x2x2x2x2x2x2x1x2, .f32⟩ : BufTy).Contents (Elt F)),
    StableHlo.unary main_v93 main_v95 (broadcastInDim S256x2x2x2x2x2x2x1x2 ![0, 1, 2, 3, 4, 5, 6, 8] bcast_S256x2x2x2x2x2x2x2_S256x2x2x2x2x2x2x1x2_0_1_2_3_4_5_6_8 : (⟨S256x2x2x2x2x2x2x2, .f32⟩ : BufTy).Contents (Elt F) → (⟨S256x2x2x2x2x2x2x1x2, .f32⟩ : BufTy).Contents (Elt F)),
    StableHlo.binary main_v94 main_v95 main_v96 ((fun a b => concatenate S256x2x2x2x2x2x2x2x2 7 [⟨S256x2x2x2x2x2x2x1x2, a⟩, ⟨S256x2x2x2x2x2x2x1x2, b⟩] concatenates_S256x2x2x2x2x2x2x1x2_S256x2x2x2x2x2x2x1x2_S256x2x2x2x2x2x2x2x2_d7) : (⟨S256x2x2x2x2x2x2x1x2, .f32⟩ : BufTy).Contents (Elt F) → (⟨S256x2x2x2x2x2x2x1x2, .f32⟩ : BufTy).Contents (Elt F) → (⟨S256x2x2x2x2x2x2x2x2, .f32⟩ : BufTy).Contents (Elt F)) ]

/-- The host operations of gate 6 (a controlled flip, axis 7). -/
abbrev G6 : List (HloOp τ sig (Elt F)) :=
  [ StableHlo.nullary main_c_17 (constantI S_ 32 0#32),
    StableHlo.TRef.nullary (.of main_call11_c : StableHlo.TRef sig ⟨S_, .i32⟩) (constantI S_ 32 0#32),
    StableHlo.TRef.binary (.of main_c_17 : StableHlo.TRef sig ⟨S_, .i32⟩) (.of main_call11_c : StableHlo.TRef sig ⟨S_, .i32⟩) (.of main_call11_v0 : StableHlo.TRef sig ⟨S_, .i1⟩) (cmpi .slt),
    StableHlo.TRef.nullary (.of main_call11_c_0 : StableHlo.TRef sig ⟨S_, .i32⟩) (constantI S_ 32 2#32),
    StableHlo.TRef.binary (.of main_c_17 : StableHlo.TRef sig ⟨S_, .i32⟩) (.of main_call11_c_0 : StableHlo.TRef sig ⟨S_, .i32⟩) (.of main_call11_v1 : StableHlo.TRef sig ⟨S_, .i32⟩) addi,
    StableHlo.TRef.ternary (.of main_call11_v0 : StableHlo.TRef sig ⟨S_, .i1⟩) (.of main_call11_v1 : StableHlo.TRef sig ⟨S_, .i32⟩) (.of main_c_17 : StableHlo.TRef sig ⟨S_, .i32⟩) (.of main_call11_v2 : StableHlo.TRef sig ⟨S_, .i32⟩) select,
    StableHlo.TRef.unary main_call11_call0.v0 (.of main_call11_v3 : StableHlo.TRef sig ⟨S1, .i32⟩) (broadcastInDim S1 ![] bcast_S_S1),
    StableHlo.TRef.nullary (.of main_call11_c_1 : StableHlo.TRef sig ⟨S1, .i32⟩) (constantI S1 32 1#32),
    StableHlo.TRef.unary (.of main_call11_v3 : StableHlo.TRef sig ⟨S1, .i32⟩) (.of main_call11_v4 : StableHlo.TRef sig ⟨S1, .i32⟩) id,
    StableHlo.TRef.nullary (.of main_call11_c_2 : StableHlo.TRef sig ⟨S_, .i32⟩) (constantI S_ 32 0#32),
    StableHlo.TRef.unary (.of main_call11_c_2 : StableHlo.TRef sig ⟨S_, .i32⟩) (.of main_call11_v5 : StableHlo.TRef sig ⟨S1, .i32⟩) (broadcastInDim S1 ![] bcast_S_S1),
    StableHlo.TRef.binary (.of main_call11_v4 : StableHlo.TRef sig ⟨S1, .i32⟩) (.of main_call11_v5 : StableHlo.TRef sig ⟨S1, .i32⟩) (.of main_call11_v6 : StableHlo.TRef sig ⟨S1, .i1⟩) (cmpi .sge),
    StableHlo.TRef.binary (.of main_call11_v4 : StableHlo.TRef sig ⟨S1, .i32⟩) (.of main_call11_c_1 : StableHlo.TRef sig ⟨S1, .i32⟩) (.of main_call11_v7 : StableHlo.TRef sig ⟨S1, .i1⟩) (cmpi .sle),
    StableHlo.TRef.binary (.of main_call11_v6 : StableHlo.TRef sig ⟨S1, .i1⟩) (.of main_call11_v7 : StableHlo.TRef sig ⟨S1, .i1⟩) (.of main_call11_v8 : StableHlo.TRef sig ⟨S1, .i1⟩) andi,
    StableHlo.TRef.nullary (.of main_call11_c_3 : StableHlo.TRef sig ⟨S_, .i1⟩) (constantI S_ 1 1#1),
    StableHlo.TRef.binary (.of main_call11_v8 : StableHlo.TRef sig ⟨S1, .i1⟩) (.of main_call11_c_3 : StableHlo.TRef sig ⟨S_, .i1⟩) (.of main_call11_v9 : StableHlo.TRef sig ⟨S_, .i1⟩) (fun x v => Host.reduce IntOp.andi x v reducesTo_S1_S_d0 h_S_),
    StableHlo.TRef.binary (.of main_v96 : StableHlo.TRef sig ⟨S256x2x2x2x2x2x2x2x2, .f32⟩) (.of main_call11_v4 : StableHlo.TRef sig ⟨S1, .i32⟩) (.of main_call11_v10 : StableHlo.TRef sig ⟨S256x2x2x2x2x2x2x2, .f32⟩) (fun x i => Host.gather gather_S256x2x2x2x2x2x2x2x2_S1_S256x2x2x2x2x2x2x2_01234567_7_n_n_7_0_25622222212 x i),
    StableHlo.TRef.unary (.of main_call11_v9 : StableHlo.TRef sig ⟨S_, .i1⟩) (.of main_call11_v11 : StableHlo.TRef sig ⟨S256x2x2x2x2x2x2x2, .i1⟩) (broadcastInDim S256x2x2x2x2x2x2x2 ![] bcast_S_S256x2x2x2x2x2x2x2),
    StableHlo.TRef.nullary (.of main_call11_cst : StableHlo.TRef sig ⟨S_, .f32⟩) (constant S_ .f32 0x7FC00000#32),
    StableHlo.TRef.unary (.of main_call11_cst : StableHlo.TRef sig ⟨S_, .f32⟩) (.of main_call11_v12 : StableHlo.TRef sig ⟨S256x2x2x2x2x2x2x2, .f32⟩) (broadcastInDim S256x2x2x2x2x2x2x2 ![] bcast_S_S256x2x2x2x2x2x2x2),
    StableHlo.TRef.ternary (.of main_call11_v11 : StableHlo.TRef sig ⟨S256x2x2x2x2x2x2x2, .i1⟩) (.of main_call11_v10 : StableHlo.TRef sig ⟨S256x2x2x2x2x2x2x2, .f32⟩) (.of main_call11_v12 : StableHlo.TRef sig ⟨S256x2x2x2x2x2x2x2, .f32⟩) (.of main_v97 : StableHlo.TRef sig ⟨S256x2x2x2x2x2x2x2, .f32⟩) select,
    StableHlo.nullary main_c_18 (constantI S_ 32 1#32),
    StableHlo.TRef.nullary (.of main_call12_c : StableHlo.TRef sig ⟨S_, .i32⟩) (constantI S_ 32 0#32),
    StableHlo.TRef.binary (.of main_c_18 : StableHlo.TRef sig ⟨S_, .i32⟩) (.of main_call12_c : StableHlo.TRef sig ⟨S_, .i32⟩) (.of main_call12_v0 : StableHlo.TRef sig ⟨S_, .i1⟩) (cmpi .slt),
    StableHlo.TRef.nullary (.of main_call12_c_0 : StableHlo.TRef sig ⟨S_, .i32⟩) (constantI S_ 32 2#32),
    StableHlo.TRef.binary (.of main_c_18 : StableHlo.TRef sig ⟨S_, .i32⟩) (.of main_call12_c_0 : StableHlo.TRef sig ⟨S_, .i32⟩) (.of main_call12_v1 : StableHlo.TRef sig ⟨S_, .i32⟩) addi,
    StableHlo.TRef.ternary (.of main_call12_v0 : StableHlo.TRef sig ⟨S_, .i1⟩) (.of main_call12_v1 : StableHlo.TRef sig ⟨S_, .i32⟩) (.of main_c_18 : StableHlo.TRef sig ⟨S_, .i32⟩) (.of main_call12_v2 : StableHlo.TRef sig ⟨S_, .i32⟩) select,
    StableHlo.TRef.unary main_call12_call0.v0 (.of main_call12_v3 : StableHlo.TRef sig ⟨S1, .i32⟩) (broadcastInDim S1 ![] bcast_S_S1),
    StableHlo.TRef.nullary (.of main_call12_c_1 : StableHlo.TRef sig ⟨S1, .i32⟩) (constantI S1 32 1#32),
    StableHlo.TRef.unary (.of main_call12_v3 : StableHlo.TRef sig ⟨S1, .i32⟩) (.of main_call12_v4 : StableHlo.TRef sig ⟨S1, .i32⟩) id,
    StableHlo.TRef.nullary (.of main_call12_c_2 : StableHlo.TRef sig ⟨S_, .i32⟩) (constantI S_ 32 0#32),
    StableHlo.TRef.unary (.of main_call12_c_2 : StableHlo.TRef sig ⟨S_, .i32⟩) (.of main_call12_v5 : StableHlo.TRef sig ⟨S1, .i32⟩) (broadcastInDim S1 ![] bcast_S_S1),
    StableHlo.TRef.binary (.of main_call12_v4 : StableHlo.TRef sig ⟨S1, .i32⟩) (.of main_call12_v5 : StableHlo.TRef sig ⟨S1, .i32⟩) (.of main_call12_v6 : StableHlo.TRef sig ⟨S1, .i1⟩) (cmpi .sge),
    StableHlo.TRef.binary (.of main_call12_v4 : StableHlo.TRef sig ⟨S1, .i32⟩) (.of main_call12_c_1 : StableHlo.TRef sig ⟨S1, .i32⟩) (.of main_call12_v7 : StableHlo.TRef sig ⟨S1, .i1⟩) (cmpi .sle),
    StableHlo.TRef.binary (.of main_call12_v6 : StableHlo.TRef sig ⟨S1, .i1⟩) (.of main_call12_v7 : StableHlo.TRef sig ⟨S1, .i1⟩) (.of main_call12_v8 : StableHlo.TRef sig ⟨S1, .i1⟩) andi,
    StableHlo.TRef.nullary (.of main_call12_c_3 : StableHlo.TRef sig ⟨S_, .i1⟩) (constantI S_ 1 1#1),
    StableHlo.TRef.binary (.of main_call12_v8 : StableHlo.TRef sig ⟨S1, .i1⟩) (.of main_call12_c_3 : StableHlo.TRef sig ⟨S_, .i1⟩) (.of main_call12_v9 : StableHlo.TRef sig ⟨S_, .i1⟩) (fun x v => Host.reduce IntOp.andi x v reducesTo_S1_S_d0 h_S_),
    StableHlo.TRef.binary (.of main_v96 : StableHlo.TRef sig ⟨S256x2x2x2x2x2x2x2x2, .f32⟩) (.of main_call12_v4 : StableHlo.TRef sig ⟨S1, .i32⟩) (.of main_call12_v10 : StableHlo.TRef sig ⟨S256x2x2x2x2x2x2x2, .f32⟩) (fun x i => Host.gather gather_S256x2x2x2x2x2x2x2x2_S1_S256x2x2x2x2x2x2x2_01234567_7_n_n_7_0_25622222212 x i),
    StableHlo.TRef.unary (.of main_call12_v9 : StableHlo.TRef sig ⟨S_, .i1⟩) (.of main_call12_v11 : StableHlo.TRef sig ⟨S256x2x2x2x2x2x2x2, .i1⟩) (broadcastInDim S256x2x2x2x2x2x2x2 ![] bcast_S_S256x2x2x2x2x2x2x2),
    StableHlo.TRef.nullary (.of main_call12_cst : StableHlo.TRef sig ⟨S_, .f32⟩) (constant S_ .f32 0x7FC00000#32),
    StableHlo.TRef.unary (.of main_call12_cst : StableHlo.TRef sig ⟨S_, .f32⟩) (.of main_call12_v12 : StableHlo.TRef sig ⟨S256x2x2x2x2x2x2x2, .f32⟩) (broadcastInDim S256x2x2x2x2x2x2x2 ![] bcast_S_S256x2x2x2x2x2x2x2),
    StableHlo.TRef.ternary (.of main_call12_v11 : StableHlo.TRef sig ⟨S256x2x2x2x2x2x2x2, .i1⟩) (.of main_call12_v10 : StableHlo.TRef sig ⟨S256x2x2x2x2x2x2x2, .f32⟩) (.of main_call12_v12 : StableHlo.TRef sig ⟨S256x2x2x2x2x2x2x2, .f32⟩) (.of main_v98 : StableHlo.TRef sig ⟨S256x2x2x2x2x2x2x2, .f32⟩) select,
    StableHlo.TRef.unary (.of main_v98 : StableHlo.TRef sig ⟨S256x2x2x2x2x2x2x2, .f32⟩) (.of main_v99 : StableHlo.TRef sig ⟨S256x2x2x2x2x2x2x2, .f32⟩) (Host.reverse [6]),
    StableHlo.unary main_v97 main_v100 (broadcastInDim S256x2x2x2x2x2x2x1x2 ![0, 1, 2, 3, 4, 5, 6, 8] bcast_S256x2x2x2x2x2x2x2_S256x2x2x2x2x2x2x1x2_0_1_2_3_4_5_6_8 : (⟨S256x2x2x2x2x2x2x2, .f32⟩ : BufTy).Contents (Elt F) → (⟨S256x2x2x2x2x2x2x1x2, .f32⟩ : BufTy).Contents (Elt F)),
    StableHlo.unary main_v99 main_v101 (broadcastInDim S256x2x2x2x2x2x2x1x2 ![0, 1, 2, 3, 4, 5, 6, 8] bcast_S256x2x2x2x2x2x2x2_S256x2x2x2x2x2x2x1x2_0_1_2_3_4_5_6_8 : (⟨S256x2x2x2x2x2x2x2, .f32⟩ : BufTy).Contents (Elt F) → (⟨S256x2x2x2x2x2x2x1x2, .f32⟩ : BufTy).Contents (Elt F)),
    StableHlo.binary main_v100 main_v101 main_v102 ((fun a b => concatenate S256x2x2x2x2x2x2x2x2 7 [⟨S256x2x2x2x2x2x2x1x2, a⟩, ⟨S256x2x2x2x2x2x2x1x2, b⟩] concatenates_S256x2x2x2x2x2x2x1x2_S256x2x2x2x2x2x2x1x2_S256x2x2x2x2x2x2x2x2_d7) : (⟨S256x2x2x2x2x2x2x1x2, .f32⟩ : BufTy).Contents (Elt F) → (⟨S256x2x2x2x2x2x2x1x2, .f32⟩ : BufTy).Contents (Elt F) → (⟨S256x2x2x2x2x2x2x2x2, .f32⟩ : BufTy).Contents (Elt F)) ]

/-- The host operations of gate 7 (a rotation, parameter 4, axis 1). -/
abbrev G7 : List (HloOp τ sig (Elt F)) :=
  [ StableHlo.unary main_arg3 main_v103 ((extractStridedSlice S1 ![4] · slices_S21_S1_4) : (⟨S21, .f32⟩ : BufTy).Contents (Elt F) → (⟨S1, .f32⟩ : BufTy).Contents (Elt F)),
    StableHlo.reshape main_v103 main_v104 rfl shapeCasts_S1_S_,
    StableHlo.nullary main_cst_19 (constant S_ .f32 0x3F000000#32),
    StableHlo.binary main_cst_19 main_v104 main_v105 (mulf : (⟨S_, .f32⟩ : BufTy).Contents (Elt F) → (⟨S_, .f32⟩ : BufTy).Contents (Elt F) → (⟨S_, .f32⟩ : BufTy).Contents (Elt F)),
    StableHlo.unary main_v105 main_v106 (Host.cos : (⟨S_, .f32⟩ : BufTy).Contents (Elt F) → (⟨S_, .f32⟩ : BufTy).Contents (Elt F)),
    StableHlo.nullary main_cst_20 (constant S_ .f32 0x3F000000#32),
    StableHlo.binary main_cst_20 main_v104 main_v107 (mulf : (⟨S_, .f32⟩ : BufTy).Contents (Elt F) → (⟨S_, .f32⟩ : BufTy).Contents (Elt F) → (⟨S_, .f32⟩ : BufTy).Contents (Elt F)),
    StableHlo.unary main_v107 main_v108 (Host.sin : (⟨S_, .f32⟩ : BufTy).Contents (Elt F) → (⟨S_, .f32⟩ : BufTy).Contents (Elt F)),
    StableHlo.nullary main_c_21 (constantI S_ 32 0#32),
    StableHlo.TRef.nullary (.of main_call14_c : StableHlo.TRef sig ⟨S_, .i32⟩) (constantI S_ 32 0#32),
    StableHlo.TRef.binary (.of main_c_21 : StableHlo.TRef sig ⟨S_, .i32⟩) (.of main_call14_c : StableHlo.TRef sig ⟨S_, .i32⟩) (.of main_call14_v0 : StableHlo.TRef sig ⟨S_, .i1⟩) (cmpi .slt),
    StableHlo.TRef.nullary (.of main_call14_c_0 : StableHlo.TRef sig ⟨S_, .i32⟩) (constantI S_ 32 2#32),
    StableHlo.TRef.binary (.of main_c_21 : StableHlo.TRef sig ⟨S_, .i32⟩) (.of main_call14_c_0 : StableHlo.TRef sig ⟨S_, .i32⟩) (.of main_call14_v1 : StableHlo.TRef sig ⟨S_, .i32⟩) addi,
    StableHlo.TRef.ternary (.of main_call14_v0 : StableHlo.TRef sig ⟨S_, .i1⟩) (.of main_call14_v1 : StableHlo.TRef sig ⟨S_, .i32⟩) (.of main_c_21 : StableHlo.TRef sig ⟨S_, .i32⟩) (.of main_call14_v2 : StableHlo.TRef sig ⟨S_, .i32⟩) select,
    StableHlo.TRef.unary main_call14_call0.v0 (.of main_call14_v3 : StableHlo.TRef sig ⟨S1, .i32⟩) (broadcastInDim S1 ![] bcast_S_S1),
    StableHlo.TRef.nullary (.of main_call14_c_1 : StableHlo.TRef sig ⟨S1, .i32⟩) (constantI S1 32 1#32),
    StableHlo.TRef.unary (.of main_call14_v3 : StableHlo.TRef sig ⟨S1, .i32⟩) (.of main_call14_v4 : StableHlo.TRef sig ⟨S1, .i32⟩) id,
    StableHlo.TRef.nullary (.of main_call14_c_2 : StableHlo.TRef sig ⟨S_, .i32⟩) (constantI S_ 32 0#32),
    StableHlo.TRef.unary (.of main_call14_c_2 : StableHlo.TRef sig ⟨S_, .i32⟩) (.of main_call14_v5 : StableHlo.TRef sig ⟨S1, .i32⟩) (broadcastInDim S1 ![] bcast_S_S1),
    StableHlo.TRef.binary (.of main_call14_v4 : StableHlo.TRef sig ⟨S1, .i32⟩) (.of main_call14_v5 : StableHlo.TRef sig ⟨S1, .i32⟩) (.of main_call14_v6 : StableHlo.TRef sig ⟨S1, .i1⟩) (cmpi .sge),
    StableHlo.TRef.binary (.of main_call14_v4 : StableHlo.TRef sig ⟨S1, .i32⟩) (.of main_call14_c_1 : StableHlo.TRef sig ⟨S1, .i32⟩) (.of main_call14_v7 : StableHlo.TRef sig ⟨S1, .i1⟩) (cmpi .sle),
    StableHlo.TRef.binary (.of main_call14_v6 : StableHlo.TRef sig ⟨S1, .i1⟩) (.of main_call14_v7 : StableHlo.TRef sig ⟨S1, .i1⟩) (.of main_call14_v8 : StableHlo.TRef sig ⟨S1, .i1⟩) andi,
    StableHlo.TRef.nullary (.of main_call14_c_3 : StableHlo.TRef sig ⟨S_, .i1⟩) (constantI S_ 1 1#1),
    StableHlo.TRef.binary (.of main_call14_v8 : StableHlo.TRef sig ⟨S1, .i1⟩) (.of main_call14_c_3 : StableHlo.TRef sig ⟨S_, .i1⟩) (.of main_call14_v9 : StableHlo.TRef sig ⟨S_, .i1⟩) (fun x v => Host.reduce IntOp.andi x v reducesTo_S1_S_d0 h_S_),
    StableHlo.TRef.binary (.of main_v102 : StableHlo.TRef sig ⟨S256x2x2x2x2x2x2x2x2, .f32⟩) (.of main_call14_v4 : StableHlo.TRef sig ⟨S1, .i32⟩) (.of main_call14_v10 : StableHlo.TRef sig ⟨S256x2x2x2x2x2x2x2, .f32⟩) (fun x i => Host.gather gather_S256x2x2x2x2x2x2x2x2_S1_S256x2x2x2x2x2x2x2_01234567_1_n_n_1_0_25612222222 x i),
    StableHlo.TRef.unary (.of main_call14_v9 : StableHlo.TRef sig ⟨S_, .i1⟩) (.of main_call14_v11 : StableHlo.TRef sig ⟨S256x2x2x2x2x2x2x2, .i1⟩) (broadcastInDim S256x2x2x2x2x2x2x2 ![] bcast_S_S256x2x2x2x2x2x2x2),
    StableHlo.TRef.nullary (.of main_call14_cst : StableHlo.TRef sig ⟨S_, .f32⟩) (constant S_ .f32 0x7FC00000#32),
    StableHlo.TRef.unary (.of main_call14_cst : StableHlo.TRef sig ⟨S_, .f32⟩) (.of main_call14_v12 : StableHlo.TRef sig ⟨S256x2x2x2x2x2x2x2, .f32⟩) (broadcastInDim S256x2x2x2x2x2x2x2 ![] bcast_S_S256x2x2x2x2x2x2x2),
    StableHlo.TRef.ternary (.of main_call14_v11 : StableHlo.TRef sig ⟨S256x2x2x2x2x2x2x2, .i1⟩) (.of main_call14_v10 : StableHlo.TRef sig ⟨S256x2x2x2x2x2x2x2, .f32⟩) (.of main_call14_v12 : StableHlo.TRef sig ⟨S256x2x2x2x2x2x2x2, .f32⟩) (.of main_v109 : StableHlo.TRef sig ⟨S256x2x2x2x2x2x2x2, .f32⟩) select,
    StableHlo.nullary main_c_22 (constantI S_ 32 1#32),
    StableHlo.TRef.nullary (.of main_call15_c : StableHlo.TRef sig ⟨S_, .i32⟩) (constantI S_ 32 0#32),
    StableHlo.TRef.binary (.of main_c_22 : StableHlo.TRef sig ⟨S_, .i32⟩) (.of main_call15_c : StableHlo.TRef sig ⟨S_, .i32⟩) (.of main_call15_v0 : StableHlo.TRef sig ⟨S_, .i1⟩) (cmpi .slt),
    StableHlo.TRef.nullary (.of main_call15_c_0 : StableHlo.TRef sig ⟨S_, .i32⟩) (constantI S_ 32 2#32),
    StableHlo.TRef.binary (.of main_c_22 : StableHlo.TRef sig ⟨S_, .i32⟩) (.of main_call15_c_0 : StableHlo.TRef sig ⟨S_, .i32⟩) (.of main_call15_v1 : StableHlo.TRef sig ⟨S_, .i32⟩) addi,
    StableHlo.TRef.ternary (.of main_call15_v0 : StableHlo.TRef sig ⟨S_, .i1⟩) (.of main_call15_v1 : StableHlo.TRef sig ⟨S_, .i32⟩) (.of main_c_22 : StableHlo.TRef sig ⟨S_, .i32⟩) (.of main_call15_v2 : StableHlo.TRef sig ⟨S_, .i32⟩) select,
    StableHlo.TRef.unary main_call15_call0.v0 (.of main_call15_v3 : StableHlo.TRef sig ⟨S1, .i32⟩) (broadcastInDim S1 ![] bcast_S_S1),
    StableHlo.TRef.nullary (.of main_call15_c_1 : StableHlo.TRef sig ⟨S1, .i32⟩) (constantI S1 32 1#32),
    StableHlo.TRef.unary (.of main_call15_v3 : StableHlo.TRef sig ⟨S1, .i32⟩) (.of main_call15_v4 : StableHlo.TRef sig ⟨S1, .i32⟩) id,
    StableHlo.TRef.nullary (.of main_call15_c_2 : StableHlo.TRef sig ⟨S_, .i32⟩) (constantI S_ 32 0#32),
    StableHlo.TRef.unary (.of main_call15_c_2 : StableHlo.TRef sig ⟨S_, .i32⟩) (.of main_call15_v5 : StableHlo.TRef sig ⟨S1, .i32⟩) (broadcastInDim S1 ![] bcast_S_S1),
    StableHlo.TRef.binary (.of main_call15_v4 : StableHlo.TRef sig ⟨S1, .i32⟩) (.of main_call15_v5 : StableHlo.TRef sig ⟨S1, .i32⟩) (.of main_call15_v6 : StableHlo.TRef sig ⟨S1, .i1⟩) (cmpi .sge),
    StableHlo.TRef.binary (.of main_call15_v4 : StableHlo.TRef sig ⟨S1, .i32⟩) (.of main_call15_c_1 : StableHlo.TRef sig ⟨S1, .i32⟩) (.of main_call15_v7 : StableHlo.TRef sig ⟨S1, .i1⟩) (cmpi .sle),
    StableHlo.TRef.binary (.of main_call15_v6 : StableHlo.TRef sig ⟨S1, .i1⟩) (.of main_call15_v7 : StableHlo.TRef sig ⟨S1, .i1⟩) (.of main_call15_v8 : StableHlo.TRef sig ⟨S1, .i1⟩) andi,
    StableHlo.TRef.nullary (.of main_call15_c_3 : StableHlo.TRef sig ⟨S_, .i1⟩) (constantI S_ 1 1#1),
    StableHlo.TRef.binary (.of main_call15_v8 : StableHlo.TRef sig ⟨S1, .i1⟩) (.of main_call15_c_3 : StableHlo.TRef sig ⟨S_, .i1⟩) (.of main_call15_v9 : StableHlo.TRef sig ⟨S_, .i1⟩) (fun x v => Host.reduce IntOp.andi x v reducesTo_S1_S_d0 h_S_),
    StableHlo.TRef.binary (.of main_v102 : StableHlo.TRef sig ⟨S256x2x2x2x2x2x2x2x2, .f32⟩) (.of main_call15_v4 : StableHlo.TRef sig ⟨S1, .i32⟩) (.of main_call15_v10 : StableHlo.TRef sig ⟨S256x2x2x2x2x2x2x2, .f32⟩) (fun x i => Host.gather gather_S256x2x2x2x2x2x2x2x2_S1_S256x2x2x2x2x2x2x2_01234567_1_n_n_1_0_25612222222 x i),
    StableHlo.TRef.unary (.of main_call15_v9 : StableHlo.TRef sig ⟨S_, .i1⟩) (.of main_call15_v11 : StableHlo.TRef sig ⟨S256x2x2x2x2x2x2x2, .i1⟩) (broadcastInDim S256x2x2x2x2x2x2x2 ![] bcast_S_S256x2x2x2x2x2x2x2),
    StableHlo.TRef.nullary (.of main_call15_cst : StableHlo.TRef sig ⟨S_, .f32⟩) (constant S_ .f32 0x7FC00000#32),
    StableHlo.TRef.unary (.of main_call15_cst : StableHlo.TRef sig ⟨S_, .f32⟩) (.of main_call15_v12 : StableHlo.TRef sig ⟨S256x2x2x2x2x2x2x2, .f32⟩) (broadcastInDim S256x2x2x2x2x2x2x2 ![] bcast_S_S256x2x2x2x2x2x2x2),
    StableHlo.TRef.ternary (.of main_call15_v11 : StableHlo.TRef sig ⟨S256x2x2x2x2x2x2x2, .i1⟩) (.of main_call15_v10 : StableHlo.TRef sig ⟨S256x2x2x2x2x2x2x2, .f32⟩) (.of main_call15_v12 : StableHlo.TRef sig ⟨S256x2x2x2x2x2x2x2, .f32⟩) (.of main_v110 : StableHlo.TRef sig ⟨S256x2x2x2x2x2x2x2, .f32⟩) select,
    StableHlo.unary main_v106 main_v111 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v111 main_v109 main_v112 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v108 main_v113 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v113 main_v110 main_v114 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.binary main_v112 main_v114 main_v115 (subf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v108 main_v116 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v116 main_v109 main_v117 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v106 main_v118 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v118 main_v110 main_v119 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.binary main_v117 main_v119 main_v120 (addf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v115 main_v121 (broadcastInDim S256x1x2x2x2x2x2x2x2 ![0, 2, 3, 4, 5, 6, 7, 8] bcast_S256x2x2x2x2x2x2x2_S256x1x2x2x2x2x2x2x2_0_2_3_4_5_6_7_8 : (⟨S256x2x2x2x2x2x2x2, .f32⟩ : BufTy).Contents (Elt F) → (⟨S256x1x2x2x2x2x2x2x2, .f32⟩ : BufTy).Contents (Elt F)),
    StableHlo.unary main_v120 main_v122 (broadcastInDim S256x1x2x2x2x2x2x2x2 ![0, 2, 3, 4, 5, 6, 7, 8] bcast_S256x2x2x2x2x2x2x2_S256x1x2x2x2x2x2x2x2_0_2_3_4_5_6_7_8 : (⟨S256x2x2x2x2x2x2x2, .f32⟩ : BufTy).Contents (Elt F) → (⟨S256x1x2x2x2x2x2x2x2, .f32⟩ : BufTy).Contents (Elt F)),
    StableHlo.binary main_v121 main_v122 main_v123 ((fun a b => concatenate S256x2x2x2x2x2x2x2x2 1 [⟨S256x1x2x2x2x2x2x2x2, a⟩, ⟨S256x1x2x2x2x2x2x2x2, b⟩] concatenates_S256x1x2x2x2x2x2x2x2_S256x1x2x2x2x2x2x2x2_S256x2x2x2x2x2x2x2x2_d1) : (⟨S256x1x2x2x2x2x2x2x2, .f32⟩ : BufTy).Contents (Elt F) → (⟨S256x1x2x2x2x2x2x2x2, .f32⟩ : BufTy).Contents (Elt F) → (⟨S256x2x2x2x2x2x2x2x2, .f32⟩ : BufTy).Contents (Elt F)) ]

/-- The host operations of gate 8 (a rotation, parameter 5, axis 2). -/
abbrev G8 : List (HloOp τ sig (Elt F)) :=
  [ StableHlo.unary main_arg3 main_v124 ((extractStridedSlice S1 ![5] · slices_S21_S1_5) : (⟨S21, .f32⟩ : BufTy).Contents (Elt F) → (⟨S1, .f32⟩ : BufTy).Contents (Elt F)),
    StableHlo.reshape main_v124 main_v125 rfl shapeCasts_S1_S_,
    StableHlo.nullary main_cst_23 (constant S_ .f32 0x3F000000#32),
    StableHlo.binary main_cst_23 main_v125 main_v126 (mulf : (⟨S_, .f32⟩ : BufTy).Contents (Elt F) → (⟨S_, .f32⟩ : BufTy).Contents (Elt F) → (⟨S_, .f32⟩ : BufTy).Contents (Elt F)),
    StableHlo.unary main_v126 main_v127 (Host.cos : (⟨S_, .f32⟩ : BufTy).Contents (Elt F) → (⟨S_, .f32⟩ : BufTy).Contents (Elt F)),
    StableHlo.nullary main_cst_24 (constant S_ .f32 0x3F000000#32),
    StableHlo.binary main_cst_24 main_v125 main_v128 (mulf : (⟨S_, .f32⟩ : BufTy).Contents (Elt F) → (⟨S_, .f32⟩ : BufTy).Contents (Elt F) → (⟨S_, .f32⟩ : BufTy).Contents (Elt F)),
    StableHlo.unary main_v128 main_v129 (Host.sin : (⟨S_, .f32⟩ : BufTy).Contents (Elt F) → (⟨S_, .f32⟩ : BufTy).Contents (Elt F)),
    StableHlo.nullary main_c_25 (constantI S_ 32 0#32),
    StableHlo.TRef.nullary (.of main_call16_c : StableHlo.TRef sig ⟨S_, .i32⟩) (constantI S_ 32 0#32),
    StableHlo.TRef.binary (.of main_c_25 : StableHlo.TRef sig ⟨S_, .i32⟩) (.of main_call16_c : StableHlo.TRef sig ⟨S_, .i32⟩) (.of main_call16_v0 : StableHlo.TRef sig ⟨S_, .i1⟩) (cmpi .slt),
    StableHlo.TRef.nullary (.of main_call16_c_0 : StableHlo.TRef sig ⟨S_, .i32⟩) (constantI S_ 32 2#32),
    StableHlo.TRef.binary (.of main_c_25 : StableHlo.TRef sig ⟨S_, .i32⟩) (.of main_call16_c_0 : StableHlo.TRef sig ⟨S_, .i32⟩) (.of main_call16_v1 : StableHlo.TRef sig ⟨S_, .i32⟩) addi,
    StableHlo.TRef.ternary (.of main_call16_v0 : StableHlo.TRef sig ⟨S_, .i1⟩) (.of main_call16_v1 : StableHlo.TRef sig ⟨S_, .i32⟩) (.of main_c_25 : StableHlo.TRef sig ⟨S_, .i32⟩) (.of main_call16_v2 : StableHlo.TRef sig ⟨S_, .i32⟩) select,
    StableHlo.TRef.unary main_call16_call0.v0 (.of main_call16_v3 : StableHlo.TRef sig ⟨S1, .i32⟩) (broadcastInDim S1 ![] bcast_S_S1),
    StableHlo.TRef.nullary (.of main_call16_c_1 : StableHlo.TRef sig ⟨S1, .i32⟩) (constantI S1 32 1#32),
    StableHlo.TRef.unary (.of main_call16_v3 : StableHlo.TRef sig ⟨S1, .i32⟩) (.of main_call16_v4 : StableHlo.TRef sig ⟨S1, .i32⟩) id,
    StableHlo.TRef.nullary (.of main_call16_c_2 : StableHlo.TRef sig ⟨S_, .i32⟩) (constantI S_ 32 0#32),
    StableHlo.TRef.unary (.of main_call16_c_2 : StableHlo.TRef sig ⟨S_, .i32⟩) (.of main_call16_v5 : StableHlo.TRef sig ⟨S1, .i32⟩) (broadcastInDim S1 ![] bcast_S_S1),
    StableHlo.TRef.binary (.of main_call16_v4 : StableHlo.TRef sig ⟨S1, .i32⟩) (.of main_call16_v5 : StableHlo.TRef sig ⟨S1, .i32⟩) (.of main_call16_v6 : StableHlo.TRef sig ⟨S1, .i1⟩) (cmpi .sge),
    StableHlo.TRef.binary (.of main_call16_v4 : StableHlo.TRef sig ⟨S1, .i32⟩) (.of main_call16_c_1 : StableHlo.TRef sig ⟨S1, .i32⟩) (.of main_call16_v7 : StableHlo.TRef sig ⟨S1, .i1⟩) (cmpi .sle),
    StableHlo.TRef.binary (.of main_call16_v6 : StableHlo.TRef sig ⟨S1, .i1⟩) (.of main_call16_v7 : StableHlo.TRef sig ⟨S1, .i1⟩) (.of main_call16_v8 : StableHlo.TRef sig ⟨S1, .i1⟩) andi,
    StableHlo.TRef.nullary (.of main_call16_c_3 : StableHlo.TRef sig ⟨S_, .i1⟩) (constantI S_ 1 1#1),
    StableHlo.TRef.binary (.of main_call16_v8 : StableHlo.TRef sig ⟨S1, .i1⟩) (.of main_call16_c_3 : StableHlo.TRef sig ⟨S_, .i1⟩) (.of main_call16_v9 : StableHlo.TRef sig ⟨S_, .i1⟩) (fun x v => Host.reduce IntOp.andi x v reducesTo_S1_S_d0 h_S_),
    StableHlo.TRef.binary (.of main_v123 : StableHlo.TRef sig ⟨S256x2x2x2x2x2x2x2x2, .f32⟩) (.of main_call16_v4 : StableHlo.TRef sig ⟨S1, .i32⟩) (.of main_call16_v10 : StableHlo.TRef sig ⟨S256x2x2x2x2x2x2x2, .f32⟩) (fun x i => Host.gather gather_S256x2x2x2x2x2x2x2x2_S1_S256x2x2x2x2x2x2x2_01234567_2_n_n_2_0_25621222222 x i),
    StableHlo.TRef.unary (.of main_call16_v9 : StableHlo.TRef sig ⟨S_, .i1⟩) (.of main_call16_v11 : StableHlo.TRef sig ⟨S256x2x2x2x2x2x2x2, .i1⟩) (broadcastInDim S256x2x2x2x2x2x2x2 ![] bcast_S_S256x2x2x2x2x2x2x2),
    StableHlo.TRef.nullary (.of main_call16_cst : StableHlo.TRef sig ⟨S_, .f32⟩) (constant S_ .f32 0x7FC00000#32),
    StableHlo.TRef.unary (.of main_call16_cst : StableHlo.TRef sig ⟨S_, .f32⟩) (.of main_call16_v12 : StableHlo.TRef sig ⟨S256x2x2x2x2x2x2x2, .f32⟩) (broadcastInDim S256x2x2x2x2x2x2x2 ![] bcast_S_S256x2x2x2x2x2x2x2),
    StableHlo.TRef.ternary (.of main_call16_v11 : StableHlo.TRef sig ⟨S256x2x2x2x2x2x2x2, .i1⟩) (.of main_call16_v10 : StableHlo.TRef sig ⟨S256x2x2x2x2x2x2x2, .f32⟩) (.of main_call16_v12 : StableHlo.TRef sig ⟨S256x2x2x2x2x2x2x2, .f32⟩) (.of main_v130 : StableHlo.TRef sig ⟨S256x2x2x2x2x2x2x2, .f32⟩) select,
    StableHlo.nullary main_c_26 (constantI S_ 32 1#32),
    StableHlo.TRef.nullary (.of main_call17_c : StableHlo.TRef sig ⟨S_, .i32⟩) (constantI S_ 32 0#32),
    StableHlo.TRef.binary (.of main_c_26 : StableHlo.TRef sig ⟨S_, .i32⟩) (.of main_call17_c : StableHlo.TRef sig ⟨S_, .i32⟩) (.of main_call17_v0 : StableHlo.TRef sig ⟨S_, .i1⟩) (cmpi .slt),
    StableHlo.TRef.nullary (.of main_call17_c_0 : StableHlo.TRef sig ⟨S_, .i32⟩) (constantI S_ 32 2#32),
    StableHlo.TRef.binary (.of main_c_26 : StableHlo.TRef sig ⟨S_, .i32⟩) (.of main_call17_c_0 : StableHlo.TRef sig ⟨S_, .i32⟩) (.of main_call17_v1 : StableHlo.TRef sig ⟨S_, .i32⟩) addi,
    StableHlo.TRef.ternary (.of main_call17_v0 : StableHlo.TRef sig ⟨S_, .i1⟩) (.of main_call17_v1 : StableHlo.TRef sig ⟨S_, .i32⟩) (.of main_c_26 : StableHlo.TRef sig ⟨S_, .i32⟩) (.of main_call17_v2 : StableHlo.TRef sig ⟨S_, .i32⟩) select,
    StableHlo.TRef.unary main_call17_call0.v0 (.of main_call17_v3 : StableHlo.TRef sig ⟨S1, .i32⟩) (broadcastInDim S1 ![] bcast_S_S1),
    StableHlo.TRef.nullary (.of main_call17_c_1 : StableHlo.TRef sig ⟨S1, .i32⟩) (constantI S1 32 1#32),
    StableHlo.TRef.unary (.of main_call17_v3 : StableHlo.TRef sig ⟨S1, .i32⟩) (.of main_call17_v4 : StableHlo.TRef sig ⟨S1, .i32⟩) id,
    StableHlo.TRef.nullary (.of main_call17_c_2 : StableHlo.TRef sig ⟨S_, .i32⟩) (constantI S_ 32 0#32),
    StableHlo.TRef.unary (.of main_call17_c_2 : StableHlo.TRef sig ⟨S_, .i32⟩) (.of main_call17_v5 : StableHlo.TRef sig ⟨S1, .i32⟩) (broadcastInDim S1 ![] bcast_S_S1),
    StableHlo.TRef.binary (.of main_call17_v4 : StableHlo.TRef sig ⟨S1, .i32⟩) (.of main_call17_v5 : StableHlo.TRef sig ⟨S1, .i32⟩) (.of main_call17_v6 : StableHlo.TRef sig ⟨S1, .i1⟩) (cmpi .sge),
    StableHlo.TRef.binary (.of main_call17_v4 : StableHlo.TRef sig ⟨S1, .i32⟩) (.of main_call17_c_1 : StableHlo.TRef sig ⟨S1, .i32⟩) (.of main_call17_v7 : StableHlo.TRef sig ⟨S1, .i1⟩) (cmpi .sle),
    StableHlo.TRef.binary (.of main_call17_v6 : StableHlo.TRef sig ⟨S1, .i1⟩) (.of main_call17_v7 : StableHlo.TRef sig ⟨S1, .i1⟩) (.of main_call17_v8 : StableHlo.TRef sig ⟨S1, .i1⟩) andi,
    StableHlo.TRef.nullary (.of main_call17_c_3 : StableHlo.TRef sig ⟨S_, .i1⟩) (constantI S_ 1 1#1),
    StableHlo.TRef.binary (.of main_call17_v8 : StableHlo.TRef sig ⟨S1, .i1⟩) (.of main_call17_c_3 : StableHlo.TRef sig ⟨S_, .i1⟩) (.of main_call17_v9 : StableHlo.TRef sig ⟨S_, .i1⟩) (fun x v => Host.reduce IntOp.andi x v reducesTo_S1_S_d0 h_S_),
    StableHlo.TRef.binary (.of main_v123 : StableHlo.TRef sig ⟨S256x2x2x2x2x2x2x2x2, .f32⟩) (.of main_call17_v4 : StableHlo.TRef sig ⟨S1, .i32⟩) (.of main_call17_v10 : StableHlo.TRef sig ⟨S256x2x2x2x2x2x2x2, .f32⟩) (fun x i => Host.gather gather_S256x2x2x2x2x2x2x2x2_S1_S256x2x2x2x2x2x2x2_01234567_2_n_n_2_0_25621222222 x i),
    StableHlo.TRef.unary (.of main_call17_v9 : StableHlo.TRef sig ⟨S_, .i1⟩) (.of main_call17_v11 : StableHlo.TRef sig ⟨S256x2x2x2x2x2x2x2, .i1⟩) (broadcastInDim S256x2x2x2x2x2x2x2 ![] bcast_S_S256x2x2x2x2x2x2x2),
    StableHlo.TRef.nullary (.of main_call17_cst : StableHlo.TRef sig ⟨S_, .f32⟩) (constant S_ .f32 0x7FC00000#32),
    StableHlo.TRef.unary (.of main_call17_cst : StableHlo.TRef sig ⟨S_, .f32⟩) (.of main_call17_v12 : StableHlo.TRef sig ⟨S256x2x2x2x2x2x2x2, .f32⟩) (broadcastInDim S256x2x2x2x2x2x2x2 ![] bcast_S_S256x2x2x2x2x2x2x2),
    StableHlo.TRef.ternary (.of main_call17_v11 : StableHlo.TRef sig ⟨S256x2x2x2x2x2x2x2, .i1⟩) (.of main_call17_v10 : StableHlo.TRef sig ⟨S256x2x2x2x2x2x2x2, .f32⟩) (.of main_call17_v12 : StableHlo.TRef sig ⟨S256x2x2x2x2x2x2x2, .f32⟩) (.of main_v131 : StableHlo.TRef sig ⟨S256x2x2x2x2x2x2x2, .f32⟩) select,
    StableHlo.unary main_v127 main_v132 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v132 main_v130 main_v133 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v129 main_v134 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v134 main_v131 main_v135 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.binary main_v133 main_v135 main_v136 (subf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v129 main_v137 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v137 main_v130 main_v138 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v127 main_v139 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v139 main_v131 main_v140 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.binary main_v138 main_v140 main_v141 (addf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v136 main_v142 (broadcastInDim S256x2x1x2x2x2x2x2x2 ![0, 1, 3, 4, 5, 6, 7, 8] bcast_S256x2x2x2x2x2x2x2_S256x2x1x2x2x2x2x2x2_0_1_3_4_5_6_7_8 : (⟨S256x2x2x2x2x2x2x2, .f32⟩ : BufTy).Contents (Elt F) → (⟨S256x2x1x2x2x2x2x2x2, .f32⟩ : BufTy).Contents (Elt F)),
    StableHlo.unary main_v141 main_v143 (broadcastInDim S256x2x1x2x2x2x2x2x2 ![0, 1, 3, 4, 5, 6, 7, 8] bcast_S256x2x2x2x2x2x2x2_S256x2x1x2x2x2x2x2x2_0_1_3_4_5_6_7_8 : (⟨S256x2x2x2x2x2x2x2, .f32⟩ : BufTy).Contents (Elt F) → (⟨S256x2x1x2x2x2x2x2x2, .f32⟩ : BufTy).Contents (Elt F)),
    StableHlo.binary main_v142 main_v143 main_v144 ((fun a b => concatenate S256x2x2x2x2x2x2x2x2 2 [⟨S256x2x1x2x2x2x2x2x2, a⟩, ⟨S256x2x1x2x2x2x2x2x2, b⟩] concatenates_S256x2x1x2x2x2x2x2x2_S256x2x1x2x2x2x2x2x2_S256x2x2x2x2x2x2x2x2_d2) : (⟨S256x2x1x2x2x2x2x2x2, .f32⟩ : BufTy).Contents (Elt F) → (⟨S256x2x1x2x2x2x2x2x2, .f32⟩ : BufTy).Contents (Elt F) → (⟨S256x2x2x2x2x2x2x2x2, .f32⟩ : BufTy).Contents (Elt F)) ]

end Lists

-- the layout operations stay folded while the fold of the host operations is opened
attribute [local irreducible] Host.gather Host.reduce concatenate broadcastInDim Host.reverse shapeCast extractStridedSlice

set_option maxHeartbeats 1600000 in
theorem gate1 (W : Valuation τ sig (Elt Ideal)) :
    after (G1 (F := Ideal)) W (main_v27 : DevRef τ sig)
      = Cert.TTN.Gates.ryTerm (s := S256x2x2x2x2x2x2x2x2) (t := S256x2x2x2x2x2x2x2) (u := S256x2x1x2x2x2x2x2x2) 2 ![0, 1, 3, 4, 5, 6, 7, 8] gather_S256x2x2x2x2x2x2x2x2_S1_S256x2x2x2x2x2x2x2_01234567_2_n_n_2_0_25621222222 bcast_S_S1 bcast_S_S256x2x2x2x2x2x2x2 reducesTo_S1_S_d0 h_S_ bcast_S256x2x2x2x2x2x2x2_S256x2x1x2x2x2x2x2x2_0_1_3_4_5_6_7_8 concatenates_S256x2x1x2x2x2x2x2x2_S256x2x1x2x2x2x2x2x2_S256x2x2x2x2x2x2x2x2_d2
        (W (main_v6 : DevRef τ sig)) (shapeCast S_ (extractStridedSlice S1 ![0] (W (main_arg3 : DevRef τ sig)) slices_S21_S1_0) shapeCasts_S1_S_) := by
  simp only [after_cons, after_nil]
  rfl

set_option maxHeartbeats 1600000 in
theorem gate1_arg3 (W : Valuation τ sig (Elt Ideal)) :
    after (G1 (F := Ideal)) W (main_arg3 : DevRef τ sig) = W (main_arg3 : DevRef τ sig) := by
  simp only [after_cons, after_nil]
  rfl

set_option maxHeartbeats 1600000 in
theorem gate2 (W : Valuation τ sig (Elt Ideal)) :
    after (G2 (F := Ideal)) W (main_v48 : DevRef τ sig)
      = Cert.TTN.Gates.ryTerm (s := S256x2x2x2x2x2x2x2x2) (t := S256x2x2x2x2x2x2x2) (u := S256x2x2x1x2x2x2x2x2) 3 ![0, 1, 2, 4, 5, 6, 7, 8] gather_S256x2x2x2x2x2x2x2x2_S1_S256x2x2x2x2x2x2x2_01234567_3_n_n_3_0_25622122222 bcast_S_S1 bcast_S_S256x2x2x2x2x2x2x2 reducesTo_S1_S_d0 h_S_ bcast_S256x2x2x2x2x2x2x2_S256x2x2x1x2x2x2x2x2_0_1_2_4_5_6_7_8 concatenates_S256x2x2x1x2x2x2x2x2_S256x2x2x1x2x2x2x2x2_S256x2x2x2x2x2x2x2x2_d3
        (W (main_v27 : DevRef τ sig)) (shapeCast S_ (extractStridedSlice S1 ![1] (W (main_arg3 : DevRef τ sig)) slices_S21_S1_1) shapeCasts_S1_S_) := by
  simp only [after_cons, after_nil]
  rfl

set_option maxHeartbeats 1600000 in
theorem gate2_arg3 (W : Valuation τ sig (Elt Ideal)) :
    after (G2 (F := Ideal)) W (main_arg3 : DevRef τ sig) = W (main_arg3 : DevRef τ sig) := by
  simp only [after_cons, after_nil]
  rfl

set_option maxHeartbeats 1600000 in
theorem gate3 (W : Valuation τ sig (Elt Ideal)) :
    after (G3 (F := Ideal)) W (main_v54 : DevRef τ sig)
      = Cert.TTN.Gates.cxTerm (s := S256x2x2x2x2x2x2x2x2) (t := S256x2x2x2x2x2x2x2) (u := S256x2x1x2x2x2x2x2x2) 2 2 ![0, 1, 3, 4, 5, 6, 7, 8] gather_S256x2x2x2x2x2x2x2x2_S1_S256x2x2x2x2x2x2x2_01234567_2_n_n_2_0_25621222222 bcast_S_S1 bcast_S_S256x2x2x2x2x2x2x2 reducesTo_S1_S_d0 h_S_ bcast_S256x2x2x2x2x2x2x2_S256x2x1x2x2x2x2x2x2_0_1_3_4_5_6_7_8 concatenates_S256x2x1x2x2x2x2x2x2_S256x2x1x2x2x2x2x2x2_S256x2x2x2x2x2x2x2x2_d2
        (W (main_v48 : DevRef τ sig)) := by
  simp only [after_cons, after_nil]
  rfl

set_option maxHeartbeats 1600000 in
theorem gate3_arg3 (W : Valuation τ sig (Elt Ideal)) :
    after (G3 (F := Ideal)) W (main_arg3 : DevRef τ sig) = W (main_arg3 : DevRef τ sig) := by
  simp only [after_cons, after_nil]
  rfl

set_option maxHeartbeats 1600000 in
theorem gate4 (W : Valuation τ sig (Elt Ideal)) :
    after (G4 (F := Ideal)) W (main_v75 : DevRef τ sig)
      = Cert.TTN.Gates.ryTerm (s := S256x2x2x2x2x2x2x2x2) (t := S256x2x2x2x2x2x2x2) (u := S256x2x2x2x2x2x1x2x2) 6 ![0, 1, 2, 3, 4, 5, 7, 8] gather_S256x2x2x2x2x2x2x2x2_S1_S256x2x2x2x2x2x2x2_01234567_6_n_n_6_0_25622222122 bcast_S_S1 bcast_S_S256x2x2x2x2x2x2x2 reducesTo_S1_S_d0 h_S_ bcast_S256x2x2x2x2x2x2x2_S256x2x2x2x2x2x1x2x2_0_1_2_3_4_5_7_8 concatenates_S256x2x2x2x2x2x1x2x2_S256x2x2x2x2x2x1x2x2_S256x2x2x2x2x2x2x2x2_d6
        (W (main_v54 : DevRef τ sig)) (shapeCast S_ (extractStridedSlice S1 ![2] (W (main_arg3 : DevRef τ sig)) slices_S21_S1_2) shapeCasts_S1_S_) := by
  simp only [after_cons, after_nil]
  rfl

set_option maxHeartbeats 1600000 in
theorem gate4_arg3 (W : Valuation τ sig (Elt Ideal)) :
    after (G4 (F := Ideal)) W (main_arg3 : DevRef τ sig) = W (main_arg3 : DevRef τ sig) := by
  simp only [after_cons, after_nil]
  rfl

set_option maxHeartbeats 1600000 in
theorem gate5 (W : Valuation τ sig (Elt Ideal)) :
    after (G5 (F := Ideal)) W (main_v96 : DevRef τ sig)
      = Cert.TTN.Gates.ryTerm (s := S256x2x2x2x2x2x2x2x2) (t := S256x2x2x2x2x2x2x2) (u := S256x2x2x2x2x2x2x1x2) 7 ![0, 1, 2, 3, 4, 5, 6, 8] gather_S256x2x2x2x2x2x2x2x2_S1_S256x2x2x2x2x2x2x2_01234567_7_n_n_7_0_25622222212 bcast_S_S1 bcast_S_S256x2x2x2x2x2x2x2 reducesTo_S1_S_d0 h_S_ bcast_S256x2x2x2x2x2x2x2_S256x2x2x2x2x2x2x1x2_0_1_2_3_4_5_6_8 concatenates_S256x2x2x2x2x2x2x1x2_S256x2x2x2x2x2x2x1x2_S256x2x2x2x2x2x2x2x2_d7
        (W (main_v75 : DevRef τ sig)) (shapeCast S_ (extractStridedSlice S1 ![3] (W (main_arg3 : DevRef τ sig)) slices_S21_S1_3) shapeCasts_S1_S_) := by
  simp only [after_cons, after_nil]
  rfl

set_option maxHeartbeats 1600000 in
theorem gate5_arg3 (W : Valuation τ sig (Elt Ideal)) :
    after (G5 (F := Ideal)) W (main_arg3 : DevRef τ sig) = W (main_arg3 : DevRef τ sig) := by
  simp only [after_cons, after_nil]
  rfl

set_option maxHeartbeats 1600000 in
theorem gate6 (W : Valuation τ sig (Elt Ideal)) :
    after (G6 (F := Ideal)) W (main_v102 : DevRef τ sig)
      = Cert.TTN.Gates.cxTerm (s := S256x2x2x2x2x2x2x2x2) (t := S256x2x2x2x2x2x2x2) (u := S256x2x2x2x2x2x2x1x2) 7 6 ![0, 1, 2, 3, 4, 5, 6, 8] gather_S256x2x2x2x2x2x2x2x2_S1_S256x2x2x2x2x2x2x2_01234567_7_n_n_7_0_25622222212 bcast_S_S1 bcast_S_S256x2x2x2x2x2x2x2 reducesTo_S1_S_d0 h_S_ bcast_S256x2x2x2x2x2x2x2_S256x2x2x2x2x2x2x1x2_0_1_2_3_4_5_6_8 concatenates_S256x2x2x2x2x2x2x1x2_S256x2x2x2x2x2x2x1x2_S256x2x2x2x2x2x2x2x2_d7
        (W (main_v96 : DevRef τ sig)) := by
  simp only [after_cons, after_nil]
  rfl

set_option maxHeartbeats 1600000 in
theorem gate6_arg3 (W : Valuation τ sig (Elt Ideal)) :
    after (G6 (F := Ideal)) W (main_arg3 : DevRef τ sig) = W (main_arg3 : DevRef τ sig) := by
  simp only [after_cons, after_nil]
  rfl

set_option maxHeartbeats 1600000 in
theorem gate7 (W : Valuation τ sig (Elt Ideal)) :
    after (G7 (F := Ideal)) W (main_v123 : DevRef τ sig)
      = Cert.TTN.Gates.ryTerm (s := S256x2x2x2x2x2x2x2x2) (t := S256x2x2x2x2x2x2x2) (u := S256x1x2x2x2x2x2x2x2) 1 ![0, 2, 3, 4, 5, 6, 7, 8] gather_S256x2x2x2x2x2x2x2x2_S1_S256x2x2x2x2x2x2x2_01234567_1_n_n_1_0_25612222222 bcast_S_S1 bcast_S_S256x2x2x2x2x2x2x2 reducesTo_S1_S_d0 h_S_ bcast_S256x2x2x2x2x2x2x2_S256x1x2x2x2x2x2x2x2_0_2_3_4_5_6_7_8 concatenates_S256x1x2x2x2x2x2x2x2_S256x1x2x2x2x2x2x2x2_S256x2x2x2x2x2x2x2x2_d1
        (W (main_v102 : DevRef τ sig)) (shapeCast S_ (extractStridedSlice S1 ![4] (W (main_arg3 : DevRef τ sig)) slices_S21_S1_4) shapeCasts_S1_S_) := by
  simp only [after_cons, after_nil]
  rfl

set_option maxHeartbeats 1600000 in
theorem gate7_arg3 (W : Valuation τ sig (Elt Ideal)) :
    after (G7 (F := Ideal)) W (main_arg3 : DevRef τ sig) = W (main_arg3 : DevRef τ sig) := by
  simp only [after_cons, after_nil]
  rfl

set_option maxHeartbeats 1600000 in
theorem gate8 (W : Valuation τ sig (Elt Ideal)) :
    after (G8 (F := Ideal)) W (main_v144 : DevRef τ sig)
      = Cert.TTN.Gates.ryTerm (s := S256x2x2x2x2x2x2x2x2) (t := S256x2x2x2x2x2x2x2) (u := S256x2x1x2x2x2x2x2x2) 2 ![0, 1, 3, 4, 5, 6, 7, 8] gather_S256x2x2x2x2x2x2x2x2_S1_S256x2x2x2x2x2x2x2_01234567_2_n_n_2_0_25621222222 bcast_S_S1 bcast_S_S256x2x2x2x2x2x2x2 reducesTo_S1_S_d0 h_S_ bcast_S256x2x2x2x2x2x2x2_S256x2x1x2x2x2x2x2x2_0_1_3_4_5_6_7_8 concatenates_S256x2x1x2x2x2x2x2x2_S256x2x1x2x2x2x2x2x2_S256x2x2x2x2x2x2x2x2_d2
        (W (main_v123 : DevRef τ sig)) (shapeCast S_ (extractStridedSlice S1 ![5] (W (main_arg3 : DevRef τ sig)) slices_S21_S1_5) shapeCasts_S1_S_) := by
  simp only [after_cons, after_nil]
  rfl

set_option maxHeartbeats 1600000 in
theorem gate8_arg3 (W : Valuation τ sig (Elt Ideal)) :
    after (G8 (F := Ideal)) W (main_arg3 : DevRef τ sig) = W (main_arg3 : DevRef τ sig) := by
  simp only [after_cons, after_nil]
  rfl

end Cert.TTN.KHost

end
-- ==== Proof.KHostG2.lean ====
/-
  Gates 9, 10, 11, 12, 13, 14, 15, 16 of the circuit as the host part of the kernel's program runs them on the 256 basis registers:
  for each gate, the stretch of host operations that computes it, and the fact that, from any buffer contents, the
  stretch leaves in the gate's result buffer the gate's term of the previous state (and of the parameter vector),
  and leaves the parameter vector alone.
-/
import proofs.«130987_j14276471292017_1_alg».proof.KernelIdeal
import proofs.«130987_j14276471292017_1_alg».proof.Proof.Gen.KernelIdeal
import proofs.«130987_j14276471292017_1_alg».proof.Proof.Gates
import Idealize.ShloMosaic.Lib.StableHlo.Run

set_option maxRecDepth 16384

noncomputable section

namespace Cert.TTN.KHost

open Idealize.ShloMosaic Idealize.ShloMosaic.TcCoe Idealize.SL.Sem Idealize.ShloMosaic.StableHlo
open Cert.KernelIdeal Cert.KernelIdeal.Gen

section Lists
variable {F : FTy → Type} [FloatOps F]

/-- The host operations of gate 9 (a controlled flip, axis 1). -/
abbrev G9 : List (HloOp τ sig (Elt F)) :=
  [ StableHlo.nullary main_c_27 (constantI S_ 32 0#32),
    StableHlo.TRef.nullary (.of main_call18_c : StableHlo.TRef sig ⟨S_, .i32⟩) (constantI S_ 32 0#32),
    StableHlo.TRef.binary (.of main_c_27 : StableHlo.TRef sig ⟨S_, .i32⟩) (.of main_call18_c : StableHlo.TRef sig ⟨S_, .i32⟩) (.of main_call18_v0 : StableHlo.TRef sig ⟨S_, .i1⟩) (cmpi .slt),
    StableHlo.TRef.nullary (.of main_call18_c_0 : StableHlo.TRef sig ⟨S_, .i32⟩) (constantI S_ 32 2#32),
    StableHlo.TRef.binary (.of main_c_27 : StableHlo.TRef sig ⟨S_, .i32⟩) (.of main_call18_c_0 : StableHlo.TRef sig ⟨S_, .i32⟩) (.of main_call18_v1 : StableHlo.TRef sig ⟨S_, .i32⟩) addi,
    StableHlo.TRef.ternary (.of main_call18_v0 : StableHlo.TRef sig ⟨S_, .i1⟩) (.of main_call18_v1 : StableHlo.TRef sig ⟨S_, .i32⟩) (.of main_c_27 : StableHlo.TRef sig ⟨S_, .i32⟩) (.of main_call18_v2 : StableHlo.TRef sig ⟨S_, .i32⟩) select,
    StableHlo.TRef.unary main_call18_call0.v0 (.of main_call18_v3 : StableHlo.TRef sig ⟨S1, .i32⟩) (broadcastInDim S1 ![] bcast_S_S1),
    StableHlo.TRef.nullary (.of main_call18_c_1 : StableHlo.TRef sig ⟨S1, .i32⟩) (constantI S1 32 1#32),
    StableHlo.TRef.unary (.of main_call18_v3 : StableHlo.TRef sig ⟨S1, .i32⟩) (.of main_call18_v4 : StableHlo.TRef sig ⟨S1, .i32⟩) id,
    StableHlo.TRef.nullary (.of main_call18_c_2 : StableHlo.TRef sig ⟨S_, .i32⟩) (constantI S_ 32 0#32),
    StableHlo.TRef.unary (.of main_call18_c_2 : StableHlo.TRef sig ⟨S_, .i32⟩) (.of main_call18_v5 : StableHlo.TRef sig ⟨S1, .i32⟩) (broadcastInDim S1 ![] bcast_S_S1),
    StableHlo.TRef.binary (.of main_call18_v4 : StableHlo.TRef sig ⟨S1, .i32⟩) (.of main_call18_v5 : StableHlo.TRef sig ⟨S1, .i32⟩) (.of main_call18_v6 : StableHlo.TRef sig ⟨S1, .i1⟩) (cmpi .sge),
    StableHlo.TRef.binary (.of main_call18_v4 : StableHlo.TRef sig ⟨S1, .i32⟩) (.of main_call18_c_1 : StableHlo.TRef sig ⟨S1, .i32⟩) (.of main_call18_v7 : StableHlo.TRef sig ⟨S1, .i1⟩) (cmpi .sle),
    StableHlo.TRef.binary (.of main_call18_v6 : StableHlo.TRef sig ⟨S1, .i1⟩) (.of main_call18_v7 : StableHlo.TRef sig ⟨S1, .i1⟩) (.of main_call18_v8 : StableHlo.TRef sig ⟨S1, .i1⟩) andi,
    StableHlo.TRef.nullary (.of main_call18_c_3 : StableHlo.TRef sig ⟨S_, .i1⟩) (constantI S_ 1 1#1),
    StableHlo.TRef.binary (.of main_call18_v8 : StableHlo.TRef sig ⟨S1, .i1⟩) (.of main_call18_c_3 : StableHlo.TRef sig ⟨S_, .i1⟩) (.of main_call18_v9 : StableHlo.TRef sig ⟨S_, .i1⟩) (fun x v => Host.reduce IntOp.andi x v reducesTo_S1_S_d0 h_S_),
    StableHlo.TRef.binary (.of main_v144 : StableHlo.TRef sig ⟨S256x2x2x2x2x2x2x2x2, .f32⟩) (.of main_call18_v4 : StableHlo.TRef sig ⟨S1, .i32⟩) (.of main_call18_v10 : StableHlo.TRef sig ⟨S256x2x2x2x2x2x2x2, .f32⟩) (fun x i => Host.gather gather_S256x2x2x2x2x2x2x2x2_S1_S256x2x2x2x2x2x2x2_01234567_1_n_n_1_0_25612222222 x i),
    StableHlo.TRef.unary (.of main_call18_v9 : StableHlo.TRef sig ⟨S_, .i1⟩) (.of main_call18_v11 : StableHlo.TRef sig ⟨S256x2x2x2x2x2x2x2, .i1⟩) (broadcastInDim S256x2x2x2x2x2x2x2 ![] bcast_S_S256x2x2x2x2x2x2x2),
    StableHlo.TRef.nullary (.of main_call18_cst : StableHlo.TRef sig ⟨S_, .f32⟩) (constant S_ .f32 0x7FC00000#32),
    StableHlo.TRef.unary (.of main_call18_cst : StableHlo.TRef sig ⟨S_, .f32⟩) (.of main_call18_v12 : StableHlo.TRef sig ⟨S256x2x2x2x2x2x2x2, .f32⟩) (broadcastInDim S256x2x2x2x2x2x2x2 ![] bcast_S_S256x2x2x2x2x2x2x2),
    StableHlo.TRef.ternary (.of main_call18_v11 : StableHlo.TRef sig ⟨S256x2x2x2x2x2x2x2, .i1⟩) (.of main_call18_v10 : StableHlo.TRef sig ⟨S256x2x2x2x2x2x2x2, .f32⟩) (.of main_call18_v12 : StableHlo.TRef sig ⟨S256x2x2x2x2x2x2x2, .f32⟩) (.of main_v145 : StableHlo.TRef sig ⟨S256x2x2x2x2x2x2x2, .f32⟩) select,
    StableHlo.nullary main_c_28 (constantI S_ 32 1#32),
    StableHlo.TRef.nullary (.of main_call19_c : StableHlo.TRef sig ⟨S_, .i32⟩) (constantI S_ 32 0#32),
    StableHlo.TRef.binary (.of main_c_28 : StableHlo.TRef sig ⟨S_, .i32⟩) (.of main_call19_c : StableHlo.TRef sig ⟨S_, .i32⟩) (.of main_call19_v0 : StableHlo.TRef sig ⟨S_, .i1⟩) (cmpi .slt),
    StableHlo.TRef.nullary (.of main_call19_c_0 : StableHlo.TRef sig ⟨S_, .i32⟩) (constantI S_ 32 2#32),
    StableHlo.TRef.binary (.of main_c_28 : StableHlo.TRef sig ⟨S_, .i32⟩) (.of main_call19_c_0 : StableHlo.TRef sig ⟨S_, .i32⟩) (.of main_call19_v1 : StableHlo.TRef sig ⟨S_, .i32⟩) addi,
    StableHlo.TRef.ternary (.of main_call19_v0 : StableHlo.TRef sig ⟨S_, .i1⟩) (.of main_call19_v1 : StableHlo.TRef sig ⟨S_, .i32⟩) (.of main_c_28 : StableHlo.TRef sig ⟨S_, .i32⟩) (.of main_call19_v2 : StableHlo.TRef sig ⟨S_, .i32⟩) select,
    StableHlo.TRef.unary main_call19_call0.v0 (.of main_call19_v3 : StableHlo.TRef sig ⟨S1, .i32⟩) (broadcastInDim S1 ![] bcast_S_S1),
    StableHlo.TRef.nullary (.of main_call19_c_1 : StableHlo.TRef sig ⟨S1, .i32⟩) (constantI S1 32 1#32),
    StableHlo.TRef.unary (.of main_call19_v3 : StableHlo.TRef sig ⟨S1, .i32⟩) (.of main_call19_v4 : StableHlo.TRef sig ⟨S1, .i32⟩) id,
    StableHlo.TRef.nullary (.of main_call19_c_2 : StableHlo.TRef sig ⟨S_, .i32⟩) (constantI S_ 32 0#32),
    StableHlo.TRef.unary (.of main_call19_c_2 : StableHlo.TRef sig ⟨S_, .i32⟩) (.of main_call19_v5 : StableHlo.TRef sig ⟨S1, .i32⟩) (broadcastInDim S1 ![] bcast_S_S1),
    StableHlo.TRef.binary (.of main_call19_v4 : StableHlo.TRef sig ⟨S1, .i32⟩) (.of main_call19_v5 : StableHlo.TRef sig ⟨S1, .i32⟩) (.of main_call19_v6 : StableHlo.TRef sig ⟨S1, .i1⟩) (cmpi .sge),
    StableHlo.TRef.binary (.of main_call19_v4 : StableHlo.TRef sig ⟨S1, .i32⟩) (.of main_call19_c_1 : StableHlo.TRef sig ⟨S1, .i32⟩) (.of main_call19_v7 : StableHlo.TRef sig ⟨S1, .i1⟩) (cmpi .sle),
    StableHlo.TRef.binary (.of main_call19_v6 : StableHlo.TRef sig ⟨S1, .i1⟩) (.of main_call19_v7 : StableHlo.TRef sig ⟨S1, .i1⟩) (.of main_call19_v8 : StableHlo.TRef sig ⟨S1, .i1⟩) andi,
    StableHlo.TRef.nullary (.of main_call19_c_3 : StableHlo.TRef sig ⟨S_, .i1⟩) (constantI S_ 1 1#1),
    StableHlo.TRef.binary (.of main_call19_v8 : StableHlo.TRef sig ⟨S1, .i1⟩) (.of main_call19_c_3 : StableHlo.TRef sig ⟨S_, .i1⟩) (.of main_call19_v9 : StableHlo.TRef sig ⟨S_, .i1⟩) (fun x v => Host.reduce IntOp.andi x v reducesTo_S1_S_d0 h_S_),
    StableHlo.TRef.binary (.of main_v144 : StableHlo.TRef sig ⟨S256x2x2x2x2x2x2x2x2, .f32⟩) (.of main_call19_v4 : StableHlo.TRef sig ⟨S1, .i32⟩) (.of main_call19_v10 : StableHlo.TRef sig ⟨S256x2x2x2x2x2x2x2, .f32⟩) (fun x i => Host.gather gather_S256x2x2x2x2x2x2x2x2_S1_S256x2x2x2x2x2x2x2_01234567_1_n_n_1_0_25612222222 x i),
    StableHlo.TRef.unary (.of main_call19_v9 : StableHlo.TRef sig ⟨S_, .i1⟩) (.of main_call19_v11 : StableHlo.TRef sig ⟨S256x2x2x2x2x2x2x2, .i1⟩) (broadcastInDim S256x2x2x2x2x2x2x2 ![] bcast_S_S256x2x2x2x2x2x2x2),
    StableHlo.TRef.nullary (.of main_call19_cst : StableHlo.TRef sig ⟨S_, .f32⟩) (constant S_ .f32 0x7FC00000#32),
    StableHlo.TRef.unary (.of main_call19_cst : StableHlo.TRef sig ⟨S_, .f32⟩) (.of main_call19_v12 : StableHlo.TRef sig ⟨S256x2x2x2x2x2x2x2, .f32⟩) (broadcastInDim S256x2x2x2x2x2x2x2 ![] bcast_S_S256x2x2x2x2x2x2x2),
    StableHlo.TRef.ternary (.of main_call19_v11 : StableHlo.TRef sig ⟨S256x2x2x2x2x2x2x2, .i1⟩) (.of main_call19_v10 : StableHlo.TRef sig ⟨S256x2x2x2x2x2x2x2, .f32⟩) (.of main_call19_v12 : StableHlo.TRef sig ⟨S256x2x2x2x2x2x2x2, .f32⟩) (.of main_v146 : StableHlo.TRef sig ⟨S256x2x2x2x2x2x2x2, .f32⟩) select,
    StableHlo.TRef.unary (.of main_v146 : StableHlo.TRef sig ⟨S256x2x2x2x2x2x2x2, .f32⟩) (.of main_v147 : StableHlo.TRef sig ⟨S256x2x2x2x2x2x2x2, .f32⟩) (Host.reverse [1]),
    StableHlo.unary main_v145 main_v148 (broadcastInDim S256x1x2x2x2x2x2x2x2 ![0, 2, 3, 4, 5, 6, 7, 8] bcast_S256x2x2x2x2x2x2x2_S256x1x2x2x2x2x2x2x2_0_2_3_4_5_6_7_8 : (⟨S256x2x2x2x2x2x2x2, .f32⟩ : BufTy).Contents (Elt F) → (⟨S256x1x2x2x2x2x2x2x2, .f32⟩ : BufTy).Contents (Elt F)),
    StableHlo.unary main_v147 main_v149 (broadcastInDim S256x1x2x2x2x2x2x2x2 ![0, 2, 3, 4, 5, 6, 7, 8] bcast_S256x2x2x2x2x2x2x2_S256x1x2x2x2x2x2x2x2_0_2_3_4_5_6_7_8 : (⟨S256x2x2x2x2x2x2x2, .f32⟩ : BufTy).Contents (Elt F) → (⟨S256x1x2x2x2x2x2x2x2, .f32⟩ : BufTy).Contents (Elt F)),
    StableHlo.binary main_v148 main_v149 main_v150 ((fun a b => concatenate S256x2x2x2x2x2x2x2x2 1 [⟨S256x1x2x2x2x2x2x2x2, a⟩, ⟨S256x1x2x2x2x2x2x2x2, b⟩] concatenates_S256x1x2x2x2x2x2x2x2_S256x1x2x2x2x2x2x2x2_S256x2x2x2x2x2x2x2x2_d1) : (⟨S256x1x2x2x2x2x2x2x2, .f32⟩ : BufTy).Contents (Elt F) → (⟨S256x1x2x2x2x2x2x2x2, .f32⟩ : BufTy).Contents (Elt F) → (⟨S256x2x2x2x2x2x2x2x2, .f32⟩ : BufTy).Contents (Elt F)) ]

/-- The host operations of gate 10 (a rotation, parameter 6, axis 3). -/
abbrev G10 : List (HloOp τ sig (Elt F)) :=
  [ StableHlo.unary main_arg3 main_v151 ((extractStridedSlice S1 ![6] · slices_S21_S1_6) : (⟨S21, .f32⟩ : BufTy).Contents (Elt F) → (⟨S1, .f32⟩ : BufTy).Contents (Elt F)),
    StableHlo.reshape main_v151 main_v152 rfl shapeCasts_S1_S_,
    StableHlo.nullary main_cst_29 (constant S_ .f32 0x3F000000#32),
    StableHlo.binary main_cst_29 main_v152 main_v153 (mulf : (⟨S_, .f32⟩ : BufTy).Contents (Elt F) → (⟨S_, .f32⟩ : BufTy).Contents (Elt F) → (⟨S_, .f32⟩ : BufTy).Contents (Elt F)),
    StableHlo.unary main_v153 main_v154 (Host.cos : (⟨S_, .f32⟩ : BufTy).Contents (Elt F) → (⟨S_, .f32⟩ : BufTy).Contents (Elt F)),
    StableHlo.nullary main_cst_30 (constant S_ .f32 0x3F000000#32),
    StableHlo.binary main_cst_30 main_v152 main_v155 (mulf : (⟨S_, .f32⟩ : BufTy).Contents (Elt F) → (⟨S_, .f32⟩ : BufTy).Contents (Elt F) → (⟨S_, .f32⟩ : BufTy).Contents (Elt F)),
    StableHlo.unary main_v155 main_v156 (Host.sin : (⟨S_, .f32⟩ : BufTy).Contents (Elt F) → (⟨S_, .f32⟩ : BufTy).Contents (Elt F)),
    StableHlo.nullary main_c_31 (constantI S_ 32 0#32),
    StableHlo.TRef.nullary (.of main_call21_c : StableHlo.TRef sig ⟨S_, .i32⟩) (constantI S_ 32 0#32),
    StableHlo.TRef.binary (.of main_c_31 : StableHlo.TRef sig ⟨S_, .i32⟩) (.of main_call21_c : StableHlo.TRef sig ⟨S_, .i32⟩) (.of main_call21_v0 : StableHlo.TRef sig ⟨S_, .i1⟩) (cmpi .slt),
    StableHlo.TRef.nullary (.of main_call21_c_0 : StableHlo.TRef sig ⟨S_, .i32⟩) (constantI S_ 32 2#32),
    StableHlo.TRef.binary (.of main_c_31 : StableHlo.TRef sig ⟨S_, .i32⟩) (.of main_call21_c_0 : StableHlo.TRef sig ⟨S_, .i32⟩) (.of main_call21_v1 : StableHlo.TRef sig ⟨S_, .i32⟩) addi,
    StableHlo.TRef.ternary (.of main_call21_v0 : StableHlo.TRef sig ⟨S_, .i1⟩) (.of main_call21_v1 : StableHlo.TRef sig ⟨S_, .i32⟩) (.of main_c_31 : StableHlo.TRef sig ⟨S_, .i32⟩) (.of main_call21_v2 : StableHlo.TRef sig ⟨S_, .i32⟩) select,
    StableHlo.TRef.unary main_call21_call0.v0 (.of main_call21_v3 : StableHlo.TRef sig ⟨S1, .i32⟩) (broadcastInDim S1 ![] bcast_S_S1),
    StableHlo.TRef.nullary (.of main_call21_c_1 : StableHlo.TRef sig ⟨S1, .i32⟩) (constantI S1 32 1#32),
    StableHlo.TRef.unary (.of main_call21_v3 : StableHlo.TRef sig ⟨S1, .i32⟩) (.of main_call21_v4 : StableHlo.TRef sig ⟨S1, .i32⟩) id,
    StableHlo.TRef.nullary (.of main_call21_c_2 : StableHlo.TRef sig ⟨S_, .i32⟩) (constantI S_ 32 0#32),
    StableHlo.TRef.unary (.of main_call21_c_2 : StableHlo.TRef sig ⟨S_, .i32⟩) (.of main_call21_v5 : StableHlo.TRef sig ⟨S1, .i32⟩) (broadcastInDim S1 ![] bcast_S_S1),
    StableHlo.TRef.binary (.of main_call21_v4 : StableHlo.TRef sig ⟨S1, .i32⟩) (.of main_call21_v5 : StableHlo.TRef sig ⟨S1, .i32⟩) (.of main_call21_v6 : StableHlo.TRef sig ⟨S1, .i1⟩) (cmpi .sge),
    StableHlo.TRef.binary (.of main_call21_v4 : StableHlo.TRef sig ⟨S1, .i32⟩) (.of main_call21_c_1 : StableHlo.TRef sig ⟨S1, .i32⟩) (.of main_call21_v7 : StableHlo.TRef sig ⟨S1, .i1⟩) (cmpi .sle),
    StableHlo.TRef.binary (.of main_call21_v6 : StableHlo.TRef sig ⟨S1, .i1⟩) (.of main_call21_v7 : StableHlo.TRef sig ⟨S1, .i1⟩) (.of main_call21_v8 : StableHlo.TRef sig ⟨S1, .i1⟩) andi,
    StableHlo.TRef.nullary (.of main_call21_c_3 : StableHlo.TRef sig ⟨S_, .i1⟩) (constantI S_ 1 1#1),
    StableHlo.TRef.binary (.of main_call21_v8 : StableHlo.TRef sig ⟨S1, .i1⟩) (.of main_call21_c_3 : StableHlo.TRef sig ⟨S_, .i1⟩) (.of main_call21_v9 : StableHlo.TRef sig ⟨S_, .i1⟩) (fun x v => Host.reduce IntOp.andi x v reducesTo_S1_S_d0 h_S_),
    StableHlo.TRef.binary (.of main_v150 : StableHlo.TRef sig ⟨S256x2x2x2x2x2x2x2x2, .f32⟩) (.of main_call21_v4 : StableHlo.TRef sig ⟨S1, .i32⟩) (.of main_call21_v10 : StableHlo.TRef sig ⟨S256x2x2x2x2x2x2x2, .f32⟩) (fun x i => Host.gather gather_S256x2x2x2x2x2x2x2x2_S1_S256x2x2x2x2x2x2x2_01234567_3_n_n_3_0_25622122222 x i),
    StableHlo.TRef.unary (.of main_call21_v9 : StableHlo.TRef sig ⟨S_, .i1⟩) (.of main_call21_v11 : StableHlo.TRef sig ⟨S256x2x2x2x2x2x2x2, .i1⟩) (broadcastInDim S256x2x2x2x2x2x2x2 ![] bcast_S_S256x2x2x2x2x2x2x2),
    StableHlo.TRef.nullary (.of main_call21_cst : StableHlo.TRef sig ⟨S_, .f32⟩) (constant S_ .f32 0x7FC00000#32),
    StableHlo.TRef.unary (.of main_call21_cst : StableHlo.TRef sig ⟨S_, .f32⟩) (.of main_call21_v12 : StableHlo.TRef sig ⟨S256x2x2x2x2x2x2x2, .f32⟩) (broadcastInDim S256x2x2x2x2x2x2x2 ![] bcast_S_S256x2x2x2x2x2x2x2),
    StableHlo.TRef.ternary (.of main_call21_v11 : StableHlo.TRef sig ⟨S256x2x2x2x2x2x2x2, .i1⟩) (.of main_call21_v10 : StableHlo.TRef sig ⟨S256x2x2x2x2x2x2x2, .f32⟩) (.of main_call21_v12 : StableHlo.TRef sig ⟨S256x2x2x2x2x2x2x2, .f32⟩) (.of main_v157 : StableHlo.TRef sig ⟨S256x2x2x2x2x2x2x2, .f32⟩) select,
    StableHlo.nullary main_c_32 (constantI S_ 32 1#32),
    StableHlo.TRef.nullary (.of main_call22_c : StableHlo.TRef sig ⟨S_, .i32⟩) (constantI S_ 32 0#32),
    StableHlo.TRef.binary (.of main_c_32 : StableHlo.TRef sig ⟨S_, .i32⟩) (.of main_call22_c : StableHlo.TRef sig ⟨S_, .i32⟩) (.of main_call22_v0 : StableHlo.TRef sig ⟨S_, .i1⟩) (cmpi .slt),
    StableHlo.TRef.nullary (.of main_call22_c_0 : StableHlo.TRef sig ⟨S_, .i32⟩) (constantI S_ 32 2#32),
    StableHlo.TRef.binary (.of main_c_32 : StableHlo.TRef sig ⟨S_, .i32⟩) (.of main_call22_c_0 : StableHlo.TRef sig ⟨S_, .i32⟩) (.of main_call22_v1 : StableHlo.TRef sig ⟨S_, .i32⟩) addi,
    StableHlo.TRef.ternary (.of main_call22_v0 : StableHlo.TRef sig ⟨S_, .i1⟩) (.of main_call22_v1 : StableHlo.TRef sig ⟨S_, .i32⟩) (.of main_c_32 : StableHlo.TRef sig ⟨S_, .i32⟩) (.of main_call22_v2 : StableHlo.TRef sig ⟨S_, .i32⟩) select,
    StableHlo.TRef.unary main_call22_call0.v0 (.of main_call22_v3 : StableHlo.TRef sig ⟨S1, .i32⟩) (broadcastInDim S1 ![] bcast_S_S1),
    StableHlo.TRef.nullary (.of main_call22_c_1 : StableHlo.TRef sig ⟨S1, .i32⟩) (constantI S1 32 1#32),
    StableHlo.TRef.unary (.of main_call22_v3 : StableHlo.TRef sig ⟨S1, .i32⟩) (.of main_call22_v4 : StableHlo.TRef sig ⟨S1, .i32⟩) id,
    StableHlo.TRef.nullary (.of main_call22_c_2 : StableHlo.TRef sig ⟨S_, .i32⟩) (constantI S_ 32 0#32),
    StableHlo.TRef.unary (.of main_call22_c_2 : StableHlo.TRef sig ⟨S_, .i32⟩) (.of main_call22_v5 : StableHlo.TRef sig ⟨S1, .i32⟩) (broadcastInDim S1 ![] bcast_S_S1),
    StableHlo.TRef.binary (.of main_call22_v4 : StableHlo.TRef sig ⟨S1, .i32⟩) (.of main_call22_v5 : StableHlo.TRef sig ⟨S1, .i32⟩) (.of main_call22_v6 : StableHlo.TRef sig ⟨S1, .i1⟩) (cmpi .sge),
    StableHlo.TRef.binary (.of main_call22_v4 : StableHlo.TRef sig ⟨S1, .i32⟩) (.of main_call22_c_1 : StableHlo.TRef sig ⟨S1, .i32⟩) (.of main_call22_v7 : StableHlo.TRef sig ⟨S1, .i1⟩) (cmpi .sle),
    StableHlo.TRef.binary (.of main_call22_v6 : StableHlo.TRef sig ⟨S1, .i1⟩) (.of main_call22_v7 : StableHlo.TRef sig ⟨S1, .i1⟩) (.of main_call22_v8 : StableHlo.TRef sig ⟨S1, .i1⟩) andi,
    StableHlo.TRef.nullary (.of main_call22_c_3 : StableHlo.TRef sig ⟨S_, .i1⟩) (constantI S_ 1 1#1),
    StableHlo.TRef.binary (.of main_call22_v8 : StableHlo.TRef sig ⟨S1, .i1⟩) (.of main_call22_c_3 : StableHlo.TRef sig ⟨S_, .i1⟩) (.of main_call22_v9 : StableHlo.TRef sig ⟨S_, .i1⟩) (fun x v => Host.reduce IntOp.andi x v reducesTo_S1_S_d0 h_S_),
    StableHlo.TRef.binary (.of main_v150 : StableHlo.TRef sig ⟨S256x2x2x2x2x2x2x2x2, .f32⟩) (.of main_call22_v4 : StableHlo.TRef sig ⟨S1, .i32⟩) (.of main_call22_v10 : StableHlo.TRef sig ⟨S256x2x2x2x2x2x2x2, .f32⟩) (fun x i => Host.gather gather_S256x2x2x2x2x2x2x2x2_S1_S256x2x2x2x2x2x2x2_01234567_3_n_n_3_0_25622122222 x i),
    StableHlo.TRef.unary (.of main_call22_v9 : StableHlo.TRef sig ⟨S_, .i1⟩) (.of main_call22_v11 : StableHlo.TRef sig ⟨S256x2x2x2x2x2x2x2, .i1⟩) (broadcastInDim S256x2x2x2x2x2x2x2 ![] bcast_S_S256x2x2x2x2x2x2x2),
    StableHlo.TRef.nullary (.of main_call22_cst : StableHlo.TRef sig ⟨S_, .f32⟩) (constant S_ .f32 0x7FC00000#32),
    StableHlo.TRef.unary (.of main_call22_cst : StableHlo.TRef sig ⟨S_, .f32⟩) (.of main_call22_v12 : StableHlo.TRef sig ⟨S256x2x2x2x2x2x2x2, .f32⟩) (broadcastInDim S256x2x2x2x2x2x2x2 ![] bcast_S_S256x2x2x2x2x2x2x2),
    StableHlo.TRef.ternary (.of main_call22_v11 : StableHlo.TRef sig ⟨S256x2x2x2x2x2x2x2, .i1⟩) (.of main_call22_v10 : StableHlo.TRef sig ⟨S256x2x2x2x2x2x2x2, .f32⟩) (.of main_call22_v12 : StableHlo.TRef sig ⟨S256x2x2x2x2x2x2x2, .f32⟩) (.of main_v158 : StableHlo.TRef sig ⟨S256x2x2x2x2x2x2x2, .f32⟩) select,
    StableHlo.unary main_v154 main_v159 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v159 main_v157 main_v160 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v156 main_v161 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v161 main_v158 main_v162 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.binary main_v160 main_v162 main_v163 (subf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v156 main_v164 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v164 main_v157 main_v165 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v154 main_v166 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v166 main_v158 main_v167 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.binary main_v165 main_v167 main_v168 (addf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v163 main_v169 (broadcastInDim S256x2x2x1x2x2x2x2x2 ![0, 1, 2, 4, 5, 6, 7, 8] bcast_S256x2x2x2x2x2x2x2_S256x2x2x1x2x2x2x2x2_0_1_2_4_5_6_7_8 : (⟨S256x2x2x2x2x2x2x2, .f32⟩ : BufTy).Contents (Elt F) → (⟨S256x2x2x1x2x2x2x2x2, .f32⟩ : BufTy).Contents (Elt F)),
    StableHlo.unary main_v168 main_v170 (broadcastInDim S256x2x2x1x2x2x2x2x2 ![0, 1, 2, 4, 5, 6, 7, 8] bcast_S256x2x2x2x2x2x2x2_S256x2x2x1x2x2x2x2x2_0_1_2_4_5_6_7_8 : (⟨S256x2x2x2x2x2x2x2, .f32⟩ : BufTy).Contents (Elt F) → (⟨S256x2x2x1x2x2x2x2x2, .f32⟩ : BufTy).Contents (Elt F)),
    StableHlo.binary main_v169 main_v170 main_v171 ((fun a b => concatenate S256x2x2x2x2x2x2x2x2 3 [⟨S256x2x2x1x2x2x2x2x2, a⟩, ⟨S256x2x2x1x2x2x2x2x2, b⟩] concatenates_S256x2x2x1x2x2x2x2x2_S256x2x2x1x2x2x2x2x2_S256x2x2x2x2x2x2x2x2_d3) : (⟨S256x2x2x1x2x2x2x2x2, .f32⟩ : BufTy).Contents (Elt F) → (⟨S256x2x2x1x2x2x2x2x2, .f32⟩ : BufTy).Contents (Elt F) → (⟨S256x2x2x2x2x2x2x2x2, .f32⟩ : BufTy).Contents (Elt F)) ]

/-- The host operations of gate 11 (a rotation, parameter 7, axis 4). -/
abbrev G11 : List (HloOp τ sig (Elt F)) :=
  [ StableHlo.unary main_arg3 main_v172 ((extractStridedSlice S1 ![7] · slices_S21_S1_7) : (⟨S21, .f32⟩ : BufTy).Contents (Elt F) → (⟨S1, .f32⟩ : BufTy).Contents (Elt F)),
    StableHlo.reshape main_v172 main_v173 rfl shapeCasts_S1_S_,
    StableHlo.nullary main_cst_33 (constant S_ .f32 0x3F000000#32),
    StableHlo.binary main_cst_33 main_v173 main_v174 (mulf : (⟨S_, .f32⟩ : BufTy).Contents (Elt F) → (⟨S_, .f32⟩ : BufTy).Contents (Elt F) → (⟨S_, .f32⟩ : BufTy).Contents (Elt F)),
    StableHlo.unary main_v174 main_v175 (Host.cos : (⟨S_, .f32⟩ : BufTy).Contents (Elt F) → (⟨S_, .f32⟩ : BufTy).Contents (Elt F)),
    StableHlo.nullary main_cst_34 (constant S_ .f32 0x3F000000#32),
    StableHlo.binary main_cst_34 main_v173 main_v176 (mulf : (⟨S_, .f32⟩ : BufTy).Contents (Elt F) → (⟨S_, .f32⟩ : BufTy).Contents (Elt F) → (⟨S_, .f32⟩ : BufTy).Contents (Elt F)),
    StableHlo.unary main_v176 main_v177 (Host.sin : (⟨S_, .f32⟩ : BufTy).Contents (Elt F) → (⟨S_, .f32⟩ : BufTy).Contents (Elt F)),
    StableHlo.nullary main_c_35 (constantI S_ 32 0#32),
    StableHlo.TRef.nullary (.of main_call23_c : StableHlo.TRef sig ⟨S_, .i32⟩) (constantI S_ 32 0#32),
    StableHlo.TRef.binary (.of main_c_35 : StableHlo.TRef sig ⟨S_, .i32⟩) (.of main_call23_c : StableHlo.TRef sig ⟨S_, .i32⟩) (.of main_call23_v0 : StableHlo.TRef sig ⟨S_, .i1⟩) (cmpi .slt),
    StableHlo.TRef.nullary (.of main_call23_c_0 : StableHlo.TRef sig ⟨S_, .i32⟩) (constantI S_ 32 2#32),
    StableHlo.TRef.binary (.of main_c_35 : StableHlo.TRef sig ⟨S_, .i32⟩) (.of main_call23_c_0 : StableHlo.TRef sig ⟨S_, .i32⟩) (.of main_call23_v1 : StableHlo.TRef sig ⟨S_, .i32⟩) addi,
    StableHlo.TRef.ternary (.of main_call23_v0 : StableHlo.TRef sig ⟨S_, .i1⟩) (.of main_call23_v1 : StableHlo.TRef sig ⟨S_, .i32⟩) (.of main_c_35 : StableHlo.TRef sig ⟨S_, .i32⟩) (.of main_call23_v2 : StableHlo.TRef sig ⟨S_, .i32⟩) select,
    StableHlo.TRef.unary main_call23_call0.v0 (.of main_call23_v3 : StableHlo.TRef sig ⟨S1, .i32⟩) (broadcastInDim S1 ![] bcast_S_S1),
    StableHlo.TRef.nullary (.of main_call23_c_1 : StableHlo.TRef sig ⟨S1, .i32⟩) (constantI S1 32 1#32),
    StableHlo.TRef.unary (.of main_call23_v3 : StableHlo.TRef sig ⟨S1, .i32⟩) (.of main_call23_v4 : StableHlo.TRef sig ⟨S1, .i32⟩) id,
    StableHlo.TRef.nullary (.of main_call23_c_2 : StableHlo.TRef sig ⟨S_, .i32⟩) (constantI S_ 32 0#32),
    StableHlo.TRef.unary (.of main_call23_c_2 : StableHlo.TRef sig ⟨S_, .i32⟩) (.of main_call23_v5 : StableHlo.TRef sig ⟨S1, .i32⟩) (broadcastInDim S1 ![] bcast_S_S1),
    StableHlo.TRef.binary (.of main_call23_v4 : StableHlo.TRef sig ⟨S1, .i32⟩) (.of main_call23_v5 : StableHlo.TRef sig ⟨S1, .i32⟩) (.of main_call23_v6 : StableHlo.TRef sig ⟨S1, .i1⟩) (cmpi .sge),
    StableHlo.TRef.binary (.of main_call23_v4 : StableHlo.TRef sig ⟨S1, .i32⟩) (.of main_call23_c_1 : StableHlo.TRef sig ⟨S1, .i32⟩) (.of main_call23_v7 : StableHlo.TRef sig ⟨S1, .i1⟩) (cmpi .sle),
    StableHlo.TRef.binary (.of main_call23_v6 : StableHlo.TRef sig ⟨S1, .i1⟩) (.of main_call23_v7 : StableHlo.TRef sig ⟨S1, .i1⟩) (.of main_call23_v8 : StableHlo.TRef sig ⟨S1, .i1⟩) andi,
    StableHlo.TRef.nullary (.of main_call23_c_3 : StableHlo.TRef sig ⟨S_, .i1⟩) (constantI S_ 1 1#1),
    StableHlo.TRef.binary (.of main_call23_v8 : StableHlo.TRef sig ⟨S1, .i1⟩) (.of main_call23_c_3 : StableHlo.TRef sig ⟨S_, .i1⟩) (.of main_call23_v9 : StableHlo.TRef sig ⟨S_, .i1⟩) (fun x v => Host.reduce IntOp.andi x v reducesTo_S1_S_d0 h_S_),
    StableHlo.TRef.binary (.of main_v171 : StableHlo.TRef sig ⟨S256x2x2x2x2x2x2x2x2, .f32⟩) (.of main_call23_v4 : StableHlo.TRef sig ⟨S1, .i32⟩) (.of main_call23_v10 : StableHlo.TRef sig ⟨S256x2x2x2x2x2x2x2, .f32⟩) (fun x i => Host.gather gather_S256x2x2x2x2x2x2x2x2_S1_S256x2x2x2x2x2x2x2_01234567_4_n_n_4_0_25622212222 x i),
    StableHlo.TRef.unary (.of main_call23_v9 : StableHlo.TRef sig ⟨S_, .i1⟩) (.of main_call23_v11 : StableHlo.TRef sig ⟨S256x2x2x2x2x2x2x2, .i1⟩) (broadcastInDim S256x2x2x2x2x2x2x2 ![] bcast_S_S256x2x2x2x2x2x2x2),
    StableHlo.TRef.nullary (.of main_call23_cst : StableHlo.TRef sig ⟨S_, .f32⟩) (constant S_ .f32 0x7FC00000#32),
    StableHlo.TRef.unary (.of main_call23_cst : StableHlo.TRef sig ⟨S_, .f32⟩) (.of main_call23_v12 : StableHlo.TRef sig ⟨S256x2x2x2x2x2x2x2, .f32⟩) (broadcastInDim S256x2x2x2x2x2x2x2 ![] bcast_S_S256x2x2x2x2x2x2x2),
    StableHlo.TRef.ternary (.of main_call23_v11 : StableHlo.TRef sig ⟨S256x2x2x2x2x2x2x2, .i1⟩) (.of main_call23_v10 : StableHlo.TRef sig ⟨S256x2x2x2x2x2x2x2, .f32⟩) (.of main_call23_v12 : StableHlo.TRef sig ⟨S256x2x2x2x2x2x2x2, .f32⟩) (.of main_v178 : StableHlo.TRef sig ⟨S256x2x2x2x2x2x2x2, .f32⟩) select,
    StableHlo.nullary main_c_36 (constantI S_ 32 1#32),
    StableHlo.TRef.nullary (.of main_call24_c : StableHlo.TRef sig ⟨S_, .i32⟩) (constantI S_ 32 0#32),
    StableHlo.TRef.binary (.of main_c_36 : StableHlo.TRef sig ⟨S_, .i32⟩) (.of main_call24_c : StableHlo.TRef sig ⟨S_, .i32⟩) (.of main_call24_v0 : StableHlo.TRef sig ⟨S_, .i1⟩) (cmpi .slt),
    StableHlo.TRef.nullary (.of main_call24_c_0 : StableHlo.TRef sig ⟨S_, .i32⟩) (constantI S_ 32 2#32),
    StableHlo.TRef.binary (.of main_c_36 : StableHlo.TRef sig ⟨S_, .i32⟩) (.of main_call24_c_0 : StableHlo.TRef sig ⟨S_, .i32⟩) (.of main_call24_v1 : StableHlo.TRef sig ⟨S_, .i32⟩) addi,
    StableHlo.TRef.ternary (.of main_call24_v0 : StableHlo.TRef sig ⟨S_, .i1⟩) (.of main_call24_v1 : StableHlo.TRef sig ⟨S_, .i32⟩) (.of main_c_36 : StableHlo.TRef sig ⟨S_, .i32⟩) (.of main_call24_v2 : StableHlo.TRef sig ⟨S_, .i32⟩) select,
    StableHlo.TRef.unary main_call24_call0.v0 (.of main_call24_v3 : StableHlo.TRef sig ⟨S1, .i32⟩) (broadcastInDim S1 ![] bcast_S_S1),
    StableHlo.TRef.nullary (.of main_call24_c_1 : StableHlo.TRef sig ⟨S1, .i32⟩) (constantI S1 32 1#32),
    StableHlo.TRef.unary (.of main_call24_v3 : StableHlo.TRef sig ⟨S1, .i32⟩) (.of main_call24_v4 : StableHlo.TRef sig ⟨S1, .i32⟩) id,
    StableHlo.TRef.nullary (.of main_call24_c_2 : StableHlo.TRef sig ⟨S_, .i32⟩) (constantI S_ 32 0#32),
    StableHlo.TRef.unary (.of main_call24_c_2 : StableHlo.TRef sig ⟨S_, .i32⟩) (.of main_call24_v5 : StableHlo.TRef sig ⟨S1, .i32⟩) (broadcastInDim S1 ![] bcast_S_S1),
    StableHlo.TRef.binary (.of main_call24_v4 : StableHlo.TRef sig ⟨S1, .i32⟩) (.of main_call24_v5 : StableHlo.TRef sig ⟨S1, .i32⟩) (.of main_call24_v6 : StableHlo.TRef sig ⟨S1, .i1⟩) (cmpi .sge),
    StableHlo.TRef.binary (.of main_call24_v4 : StableHlo.TRef sig ⟨S1, .i32⟩) (.of main_call24_c_1 : StableHlo.TRef sig ⟨S1, .i32⟩) (.of main_call24_v7 : StableHlo.TRef sig ⟨S1, .i1⟩) (cmpi .sle),
    StableHlo.TRef.binary (.of main_call24_v6 : StableHlo.TRef sig ⟨S1, .i1⟩) (.of main_call24_v7 : StableHlo.TRef sig ⟨S1, .i1⟩) (.of main_call24_v8 : StableHlo.TRef sig ⟨S1, .i1⟩) andi,
    StableHlo.TRef.nullary (.of main_call24_c_3 : StableHlo.TRef sig ⟨S_, .i1⟩) (constantI S_ 1 1#1),
    StableHlo.TRef.binary (.of main_call24_v8 : StableHlo.TRef sig ⟨S1, .i1⟩) (.of main_call24_c_3 : StableHlo.TRef sig ⟨S_, .i1⟩) (.of main_call24_v9 : StableHlo.TRef sig ⟨S_, .i1⟩) (fun x v => Host.reduce IntOp.andi x v reducesTo_S1_S_d0 h_S_),
    StableHlo.TRef.binary (.of main_v171 : StableHlo.TRef sig ⟨S256x2x2x2x2x2x2x2x2, .f32⟩) (.of main_call24_v4 : StableHlo.TRef sig ⟨S1, .i32⟩) (.of main_call24_v10 : StableHlo.TRef sig ⟨S256x2x2x2x2x2x2x2, .f32⟩) (fun x i => Host.gather gather_S256x2x2x2x2x2x2x2x2_S1_S256x2x2x2x2x2x2x2_01234567_4_n_n_4_0_25622212222 x i),
    StableHlo.TRef.unary (.of main_call24_v9 : StableHlo.TRef sig ⟨S_, .i1⟩) (.of main_call24_v11 : StableHlo.TRef sig ⟨S256x2x2x2x2x2x2x2, .i1⟩) (broadcastInDim S256x2x2x2x2x2x2x2 ![] bcast_S_S256x2x2x2x2x2x2x2),
    StableHlo.TRef.nullary (.of main_call24_cst : StableHlo.TRef sig ⟨S_, .f32⟩) (constant S_ .f32 0x7FC00000#32),
    StableHlo.TRef.unary (.of main_call24_cst : StableHlo.TRef sig ⟨S_, .f32⟩) (.of main_call24_v12 : StableHlo.TRef sig ⟨S256x2x2x2x2x2x2x2, .f32⟩) (broadcastInDim S256x2x2x2x2x2x2x2 ![] bcast_S_S256x2x2x2x2x2x2x2),
    StableHlo.TRef.ternary (.of main_call24_v11 : StableHlo.TRef sig ⟨S256x2x2x2x2x2x2x2, .i1⟩) (.of main_call24_v10 : StableHlo.TRef sig ⟨S256x2x2x2x2x2x2x2, .f32⟩) (.of main_call24_v12 : StableHlo.TRef sig ⟨S256x2x2x2x2x2x2x2, .f32⟩) (.of main_v179 : StableHlo.TRef sig ⟨S256x2x2x2x2x2x2x2, .f32⟩) select,
    StableHlo.unary main_v175 main_v180 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v180 main_v178 main_v181 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v177 main_v182 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v182 main_v179 main_v183 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.binary main_v181 main_v183 main_v184 (subf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v177 main_v185 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v185 main_v178 main_v186 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v175 main_v187 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v187 main_v179 main_v188 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.binary main_v186 main_v188 main_v189 (addf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v184 main_v190 (broadcastInDim S256x2x2x2x1x2x2x2x2 ![0, 1, 2, 3, 5, 6, 7, 8] bcast_S256x2x2x2x2x2x2x2_S256x2x2x2x1x2x2x2x2_0_1_2_3_5_6_7_8 : (⟨S256x2x2x2x2x2x2x2, .f32⟩ : BufTy).Contents (Elt F) → (⟨S256x2x2x2x1x2x2x2x2, .f32⟩ : BufTy).Contents (Elt F)),
    StableHlo.unary main_v189 main_v191 (broadcastInDim S256x2x2x2x1x2x2x2x2 ![0, 1, 2, 3, 5, 6, 7, 8] bcast_S256x2x2x2x2x2x2x2_S256x2x2x2x1x2x2x2x2_0_1_2_3_5_6_7_8 : (⟨S256x2x2x2x2x2x2x2, .f32⟩ : BufTy).Contents (Elt F) → (⟨S256x2x2x2x1x2x2x2x2, .f32⟩ : BufTy).Contents (Elt F)),
    StableHlo.binary main_v190 main_v191 main_v192 ((fun a b => concatenate S256x2x2x2x2x2x2x2x2 4 [⟨S256x2x2x2x1x2x2x2x2, a⟩, ⟨S256x2x2x2x1x2x2x2x2, b⟩] concatenates_S256x2x2x2x1x2x2x2x2_S256x2x2x2x1x2x2x2x2_S256x2x2x2x2x2x2x2x2_d4) : (⟨S256x2x2x2x1x2x2x2x2, .f32⟩ : BufTy).Contents (Elt F) → (⟨S256x2x2x2x1x2x2x2x2, .f32⟩ : BufTy).Contents (Elt F) → (⟨S256x2x2x2x2x2x2x2x2, .f32⟩ : BufTy).Contents (Elt F)) ]

/-- The host operations of gate 12 (a controlled flip, axis 4). -/
abbrev G12 : List (HloOp τ sig (Elt F)) :=
  [ StableHlo.nullary main_c_37 (constantI S_ 32 0#32),
    StableHlo.TRef.nullary (.of main_call25_c : StableHlo.TRef sig ⟨S_, .i32⟩) (constantI S_ 32 0#32),
    StableHlo.TRef.binary (.of main_c_37 : StableHlo.TRef sig ⟨S_, .i32⟩) (.of main_call25_c : StableHlo.TRef sig ⟨S_, .i32⟩) (.of main_call25_v0 : StableHlo.TRef sig ⟨S_, .i1⟩) (cmpi .slt),
    StableHlo.TRef.nullary (.of main_call25_c_0 : StableHlo.TRef sig ⟨S_, .i32⟩) (constantI S_ 32 2#32),
    StableHlo.TRef.binary (.of main_c_37 : StableHlo.TRef sig ⟨S_, .i32⟩) (.of main_call25_c_0 : StableHlo.TRef sig ⟨S_, .i32⟩) (.of main_call25_v1 : StableHlo.TRef sig ⟨S_, .i32⟩) addi,
    StableHlo.TRef.ternary (.of main_call25_v0 : StableHlo.TRef sig ⟨S_, .i1⟩) (.of main_call25_v1 : StableHlo.TRef sig ⟨S_, .i32⟩) (.of main_c_37 : StableHlo.TRef sig ⟨S_, .i32⟩) (.of main_call25_v2 : StableHlo.TRef sig ⟨S_, .i32⟩) select,
    StableHlo.TRef.unary main_call25_call0.v0 (.of main_call25_v3 : StableHlo.TRef sig ⟨S1, .i32⟩) (broadcastInDim S1 ![] bcast_S_S1),
    StableHlo.TRef.nullary (.of main_call25_c_1 : StableHlo.TRef sig ⟨S1, .i32⟩) (constantI S1 32 1#32),
    StableHlo.TRef.unary (.of main_call25_v3 : StableHlo.TRef sig ⟨S1, .i32⟩) (.of main_call25_v4 : StableHlo.TRef sig ⟨S1, .i32⟩) id,
    StableHlo.TRef.nullary (.of main_call25_c_2 : StableHlo.TRef sig ⟨S_, .i32⟩) (constantI S_ 32 0#32),
    StableHlo.TRef.unary (.of main_call25_c_2 : StableHlo.TRef sig ⟨S_, .i32⟩) (.of main_call25_v5 : StableHlo.TRef sig ⟨S1, .i32⟩) (broadcastInDim S1 ![] bcast_S_S1),
    StableHlo.TRef.binary (.of main_call25_v4 : StableHlo.TRef sig ⟨S1, .i32⟩) (.of main_call25_v5 : StableHlo.TRef sig ⟨S1, .i32⟩) (.of main_call25_v6 : StableHlo.TRef sig ⟨S1, .i1⟩) (cmpi .sge),
    StableHlo.TRef.binary (.of main_call25_v4 : StableHlo.TRef sig ⟨S1, .i32⟩) (.of main_call25_c_1 : StableHlo.TRef sig ⟨S1, .i32⟩) (.of main_call25_v7 : StableHlo.TRef sig ⟨S1, .i1⟩) (cmpi .sle),
    StableHlo.TRef.binary (.of main_call25_v6 : StableHlo.TRef sig ⟨S1, .i1⟩) (.of main_call25_v7 : StableHlo.TRef sig ⟨S1, .i1⟩) (.of main_call25_v8 : StableHlo.TRef sig ⟨S1, .i1⟩) andi,
    StableHlo.TRef.nullary (.of main_call25_c_3 : StableHlo.TRef sig ⟨S_, .i1⟩) (constantI S_ 1 1#1),
    StableHlo.TRef.binary (.of main_call25_v8 : StableHlo.TRef sig ⟨S1, .i1⟩) (.of main_call25_c_3 : StableHlo.TRef sig ⟨S_, .i1⟩) (.of main_call25_v9 : StableHlo.TRef sig ⟨S_, .i1⟩) (fun x v => Host.reduce IntOp.andi x v reducesTo_S1_S_d0 h_S_),
    StableHlo.TRef.binary (.of main_v192 : StableHlo.TRef sig ⟨S256x2x2x2x2x2x2x2x2, .f32⟩) (.of main_call25_v4 : StableHlo.TRef sig ⟨S1, .i32⟩) (.of main_call25_v10 : StableHlo.TRef sig ⟨S256x2x2x2x2x2x2x2, .f32⟩) (fun x i => Host.gather gather_S256x2x2x2x2x2x2x2x2_S1_S256x2x2x2x2x2x2x2_01234567_4_n_n_4_0_25622212222 x i),
    StableHlo.TRef.unary (.of main_call25_v9 : StableHlo.TRef sig ⟨S_, .i1⟩) (.of main_call25_v11 : StableHlo.TRef sig ⟨S256x2x2x2x2x2x2x2, .i1⟩) (broadcastInDim S256x2x2x2x2x2x2x2 ![] bcast_S_S256x2x2x2x2x2x2x2),
    StableHlo.TRef.nullary (.of main_call25_cst : StableHlo.TRef sig ⟨S_, .f32⟩) (constant S_ .f32 0x7FC00000#32),
    StableHlo.TRef.unary (.of main_call25_cst : StableHlo.TRef sig ⟨S_, .f32⟩) (.of main_call25_v12 : StableHlo.TRef sig ⟨S256x2x2x2x2x2x2x2, .f32⟩) (broadcastInDim S256x2x2x2x2x2x2x2 ![] bcast_S_S256x2x2x2x2x2x2x2),
    StableHlo.TRef.ternary (.of main_call25_v11 : StableHlo.TRef sig ⟨S256x2x2x2x2x2x2x2, .i1⟩) (.of main_call25_v10 : StableHlo.TRef sig ⟨S256x2x2x2x2x2x2x2, .f32⟩) (.of main_call25_v12 : StableHlo.TRef sig ⟨S256x2x2x2x2x2x2x2, .f32⟩) (.of main_v193 : StableHlo.TRef sig ⟨S256x2x2x2x2x2x2x2, .f32⟩) select,
    StableHlo.nullary main_c_38 (constantI S_ 32 1#32),
    StableHlo.TRef.nullary (.of main_call26_c : StableHlo.TRef sig ⟨S_, .i32⟩) (constantI S_ 32 0#32),
    StableHlo.TRef.binary (.of main_c_38 : StableHlo.TRef sig ⟨S_, .i32⟩) (.of main_call26_c : StableHlo.TRef sig ⟨S_, .i32⟩) (.of main_call26_v0 : StableHlo.TRef sig ⟨S_, .i1⟩) (cmpi .slt),
    StableHlo.TRef.nullary (.of main_call26_c_0 : StableHlo.TRef sig ⟨S_, .i32⟩) (constantI S_ 32 2#32),
    StableHlo.TRef.binary (.of main_c_38 : StableHlo.TRef sig ⟨S_, .i32⟩) (.of main_call26_c_0 : StableHlo.TRef sig ⟨S_, .i32⟩) (.of main_call26_v1 : StableHlo.TRef sig ⟨S_, .i32⟩) addi,
    StableHlo.TRef.ternary (.of main_call26_v0 : StableHlo.TRef sig ⟨S_, .i1⟩) (.of main_call26_v1 : StableHlo.TRef sig ⟨S_, .i32⟩) (.of main_c_38 : StableHlo.TRef sig ⟨S_, .i32⟩) (.of main_call26_v2 : StableHlo.TRef sig ⟨S_, .i32⟩) select,
    StableHlo.TRef.unary main_call26_call0.v0 (.of main_call26_v3 : StableHlo.TRef sig ⟨S1, .i32⟩) (broadcastInDim S1 ![] bcast_S_S1),
    StableHlo.TRef.nullary (.of main_call26_c_1 : StableHlo.TRef sig ⟨S1, .i32⟩) (constantI S1 32 1#32),
    StableHlo.TRef.unary (.of main_call26_v3 : StableHlo.TRef sig ⟨S1, .i32⟩) (.of main_call26_v4 : StableHlo.TRef sig ⟨S1, .i32⟩) id,
    StableHlo.TRef.nullary (.of main_call26_c_2 : StableHlo.TRef sig ⟨S_, .i32⟩) (constantI S_ 32 0#32),
    StableHlo.TRef.unary (.of main_call26_c_2 : StableHlo.TRef sig ⟨S_, .i32⟩) (.of main_call26_v5 : StableHlo.TRef sig ⟨S1, .i32⟩) (broadcastInDim S1 ![] bcast_S_S1),
    StableHlo.TRef.binary (.of main_call26_v4 : StableHlo.TRef sig ⟨S1, .i32⟩) (.of main_call26_v5 : StableHlo.TRef sig ⟨S1, .i32⟩) (.of main_call26_v6 : StableHlo.TRef sig ⟨S1, .i1⟩) (cmpi .sge),
    StableHlo.TRef.binary (.of main_call26_v4 : StableHlo.TRef sig ⟨S1, .i32⟩) (.of main_call26_c_1 : StableHlo.TRef sig ⟨S1, .i32⟩) (.of main_call26_v7 : StableHlo.TRef sig ⟨S1, .i1⟩) (cmpi .sle),
    StableHlo.TRef.binary (.of main_call26_v6 : StableHlo.TRef sig ⟨S1, .i1⟩) (.of main_call26_v7 : StableHlo.TRef sig ⟨S1, .i1⟩) (.of main_call26_v8 : StableHlo.TRef sig ⟨S1, .i1⟩) andi,
    StableHlo.TRef.nullary (.of main_call26_c_3 : StableHlo.TRef sig ⟨S_, .i1⟩) (constantI S_ 1 1#1),
    StableHlo.TRef.binary (.of main_call26_v8 : StableHlo.TRef sig ⟨S1, .i1⟩) (.of main_call26_c_3 : StableHlo.TRef sig ⟨S_, .i1⟩) (.of main_call26_v9 : StableHlo.TRef sig ⟨S_, .i1⟩) (fun x v => Host.reduce IntOp.andi x v reducesTo_S1_S_d0 h_S_),
    StableHlo.TRef.binary (.of main_v192 : StableHlo.TRef sig ⟨S256x2x2x2x2x2x2x2x2, .f32⟩) (.of main_call26_v4 : StableHlo.TRef sig ⟨S1, .i32⟩) (.of main_call26_v10 : StableHlo.TRef sig ⟨S256x2x2x2x2x2x2x2, .f32⟩) (fun x i => Host.gather gather_S256x2x2x2x2x2x2x2x2_S1_S256x2x2x2x2x2x2x2_01234567_4_n_n_4_0_25622212222 x i),
    StableHlo.TRef.unary (.of main_call26_v9 : StableHlo.TRef sig ⟨S_, .i1⟩) (.of main_call26_v11 : StableHlo.TRef sig ⟨S256x2x2x2x2x2x2x2, .i1⟩) (broadcastInDim S256x2x2x2x2x2x2x2 ![] bcast_S_S256x2x2x2x2x2x2x2),
    StableHlo.TRef.nullary (.of main_call26_cst : StableHlo.TRef sig ⟨S_, .f32⟩) (constant S_ .f32 0x7FC00000#32),
    StableHlo.TRef.unary (.of main_call26_cst : StableHlo.TRef sig ⟨S_, .f32⟩) (.of main_call26_v12 : StableHlo.TRef sig ⟨S256x2x2x2x2x2x2x2, .f32⟩) (broadcastInDim S256x2x2x2x2x2x2x2 ![] bcast_S_S256x2x2x2x2x2x2x2),
    StableHlo.TRef.ternary (.of main_call26_v11 : StableHlo.TRef sig ⟨S256x2x2x2x2x2x2x2, .i1⟩) (.of main_call26_v10 : StableHlo.TRef sig ⟨S256x2x2x2x2x2x2x2, .f32⟩) (.of main_call26_v12 : StableHlo.TRef sig ⟨S256x2x2x2x2x2x2x2, .f32⟩) (.of main_v194 : StableHlo.TRef sig ⟨S256x2x2x2x2x2x2x2, .f32⟩) select,
    StableHlo.TRef.unary (.of main_v194 : StableHlo.TRef sig ⟨S256x2x2x2x2x2x2x2, .f32⟩) (.of main_v195 : StableHlo.TRef sig ⟨S256x2x2x2x2x2x2x2, .f32⟩) (Host.reverse [3]),
    StableHlo.unary main_v193 main_v196 (broadcastInDim S256x2x2x2x1x2x2x2x2 ![0, 1, 2, 3, 5, 6, 7, 8] bcast_S256x2x2x2x2x2x2x2_S256x2x2x2x1x2x2x2x2_0_1_2_3_5_6_7_8 : (⟨S256x2x2x2x2x2x2x2, .f32⟩ : BufTy).Contents (Elt F) → (⟨S256x2x2x2x1x2x2x2x2, .f32⟩ : BufTy).Contents (Elt F)),
    StableHlo.unary main_v195 main_v197 (broadcastInDim S256x2x2x2x1x2x2x2x2 ![0, 1, 2, 3, 5, 6, 7, 8] bcast_S256x2x2x2x2x2x2x2_S256x2x2x2x1x2x2x2x2_0_1_2_3_5_6_7_8 : (⟨S256x2x2x2x2x2x2x2, .f32⟩ : BufTy).Contents (Elt F) → (⟨S256x2x2x2x1x2x2x2x2, .f32⟩ : BufTy).Contents (Elt F)),
    StableHlo.binary main_v196 main_v197 main_v198 ((fun a b => concatenate S256x2x2x2x2x2x2x2x2 4 [⟨S256x2x2x2x1x2x2x2x2, a⟩, ⟨S256x2x2x2x1x2x2x2x2, b⟩] concatenates_S256x2x2x2x1x2x2x2x2_S256x2x2x2x1x2x2x2x2_S256x2x2x2x2x2x2x2x2_d4) : (⟨S256x2x2x2x1x2x2x2x2, .f32⟩ : BufTy).Contents (Elt F) → (⟨S256x2x2x2x1x2x2x2x2, .f32⟩ : BufTy).Contents (Elt F) → (⟨S256x2x2x2x2x2x2x2x2, .f32⟩ : BufTy).Contents (Elt F)) ]

/-- The host operations of gate 13 (a rotation, parameter 8, axis 5). -/
abbrev G13 : List (HloOp τ sig (Elt F)) :=
  [ StableHlo.unary main_arg3 main_v199 ((extractStridedSlice S1 ![8] · slices_S21_S1_8) : (⟨S21, .f32⟩ : BufTy).Contents (Elt F) → (⟨S1, .f32⟩ : BufTy).Contents (Elt F)),
    StableHlo.reshape main_v199 main_v200 rfl shapeCasts_S1_S_,
    StableHlo.nullary main_cst_39 (constant S_ .f32 0x3F000000#32),
    StableHlo.binary main_cst_39 main_v200 main_v201 (mulf : (⟨S_, .f32⟩ : BufTy).Contents (Elt F) → (⟨S_, .f32⟩ : BufTy).Contents (Elt F) → (⟨S_, .f32⟩ : BufTy).Contents (Elt F)),
    StableHlo.unary main_v201 main_v202 (Host.cos : (⟨S_, .f32⟩ : BufTy).Contents (Elt F) → (⟨S_, .f32⟩ : BufTy).Contents (Elt F)),
    StableHlo.nullary main_cst_40 (constant S_ .f32 0x3F000000#32),
    StableHlo.binary main_cst_40 main_v200 main_v203 (mulf : (⟨S_, .f32⟩ : BufTy).Contents (Elt F) → (⟨S_, .f32⟩ : BufTy).Contents (Elt F) → (⟨S_, .f32⟩ : BufTy).Contents (Elt F)),
    StableHlo.unary main_v203 main_v204 (Host.sin : (⟨S_, .f32⟩ : BufTy).Contents (Elt F) → (⟨S_, .f32⟩ : BufTy).Contents (Elt F)),
    StableHlo.nullary main_c_41 (constantI S_ 32 0#32),
    StableHlo.TRef.nullary (.of main_call28_c : StableHlo.TRef sig ⟨S_, .i32⟩) (constantI S_ 32 0#32),
    StableHlo.TRef.binary (.of main_c_41 : StableHlo.TRef sig ⟨S_, .i32⟩) (.of main_call28_c : StableHlo.TRef sig ⟨S_, .i32⟩) (.of main_call28_v0 : StableHlo.TRef sig ⟨S_, .i1⟩) (cmpi .slt),
    StableHlo.TRef.nullary (.of main_call28_c_0 : StableHlo.TRef sig ⟨S_, .i32⟩) (constantI S_ 32 2#32),
    StableHlo.TRef.binary (.of main_c_41 : StableHlo.TRef sig ⟨S_, .i32⟩) (.of main_call28_c_0 : StableHlo.TRef sig ⟨S_, .i32⟩) (.of main_call28_v1 : StableHlo.TRef sig ⟨S_, .i32⟩) addi,
    StableHlo.TRef.ternary (.of main_call28_v0 : StableHlo.TRef sig ⟨S_, .i1⟩) (.of main_call28_v1 : StableHlo.TRef sig ⟨S_, .i32⟩) (.of main_c_41 : StableHlo.TRef sig ⟨S_, .i32⟩) (.of main_call28_v2 : StableHlo.TRef sig ⟨S_, .i32⟩) select,
    StableHlo.TRef.unary main_call28_call0.v0 (.of main_call28_v3 : StableHlo.TRef sig ⟨S1, .i32⟩) (broadcastInDim S1 ![] bcast_S_S1),
    StableHlo.TRef.nullary (.of main_call28_c_1 : StableHlo.TRef sig ⟨S1, .i32⟩) (constantI S1 32 1#32),
    StableHlo.TRef.unary (.of main_call28_v3 : StableHlo.TRef sig ⟨S1, .i32⟩) (.of main_call28_v4 : StableHlo.TRef sig ⟨S1, .i32⟩) id,
    StableHlo.TRef.nullary (.of main_call28_c_2 : StableHlo.TRef sig ⟨S_, .i32⟩) (constantI S_ 32 0#32),
    StableHlo.TRef.unary (.of main_call28_c_2 : StableHlo.TRef sig ⟨S_, .i32⟩) (.of main_call28_v5 : StableHlo.TRef sig ⟨S1, .i32⟩) (broadcastInDim S1 ![] bcast_S_S1),
    StableHlo.TRef.binary (.of main_call28_v4 : StableHlo.TRef sig ⟨S1, .i32⟩) (.of main_call28_v5 : StableHlo.TRef sig ⟨S1, .i32⟩) (.of main_call28_v6 : StableHlo.TRef sig ⟨S1, .i1⟩) (cmpi .sge),
    StableHlo.TRef.binary (.of main_call28_v4 : StableHlo.TRef sig ⟨S1, .i32⟩) (.of main_call28_c_1 : StableHlo.TRef sig ⟨S1, .i32⟩) (.of main_call28_v7 : StableHlo.TRef sig ⟨S1, .i1⟩) (cmpi .sle),
    StableHlo.TRef.binary (.of main_call28_v6 : StableHlo.TRef sig ⟨S1, .i1⟩) (.of main_call28_v7 : StableHlo.TRef sig ⟨S1, .i1⟩) (.of main_call28_v8 : StableHlo.TRef sig ⟨S1, .i1⟩) andi,
    StableHlo.TRef.nullary (.of main_call28_c_3 : StableHlo.TRef sig ⟨S_, .i1⟩) (constantI S_ 1 1#1),
    StableHlo.TRef.binary (.of main_call28_v8 : StableHlo.TRef sig ⟨S1, .i1⟩) (.of main_call28_c_3 : StableHlo.TRef sig ⟨S_, .i1⟩) (.of main_call28_v9 : StableHlo.TRef sig ⟨S_, .i1⟩) (fun x v => Host.reduce IntOp.andi x v reducesTo_S1_S_d0 h_S_),
    StableHlo.TRef.binary (.of main_v198 : StableHlo.TRef sig ⟨S256x2x2x2x2x2x2x2x2, .f32⟩) (.of main_call28_v4 : StableHlo.TRef sig ⟨S1, .i32⟩) (.of main_call28_v10 : StableHlo.TRef sig ⟨S256x2x2x2x2x2x2x2, .f32⟩) (fun x i => Host.gather gather_S256x2x2x2x2x2x2x2x2_S1_S256x2x2x2x2x2x2x2_01234567_5_n_n_5_0_25622221222 x i),
    StableHlo.TRef.unary (.of main_call28_v9 : StableHlo.TRef sig ⟨S_, .i1⟩) (.of main_call28_v11 : StableHlo.TRef sig ⟨S256x2x2x2x2x2x2x2, .i1⟩) (broadcastInDim S256x2x2x2x2x2x2x2 ![] bcast_S_S256x2x2x2x2x2x2x2),
    StableHlo.TRef.nullary (.of main_call28_cst : StableHlo.TRef sig ⟨S_, .f32⟩) (constant S_ .f32 0x7FC00000#32),
    StableHlo.TRef.unary (.of main_call28_cst : StableHlo.TRef sig ⟨S_, .f32⟩) (.of main_call28_v12 : StableHlo.TRef sig ⟨S256x2x2x2x2x2x2x2, .f32⟩) (broadcastInDim S256x2x2x2x2x2x2x2 ![] bcast_S_S256x2x2x2x2x2x2x2),
    StableHlo.TRef.ternary (.of main_call28_v11 : StableHlo.TRef sig ⟨S256x2x2x2x2x2x2x2, .i1⟩) (.of main_call28_v10 : StableHlo.TRef sig ⟨S256x2x2x2x2x2x2x2, .f32⟩) (.of main_call28_v12 : StableHlo.TRef sig ⟨S256x2x2x2x2x2x2x2, .f32⟩) (.of main_v205 : StableHlo.TRef sig ⟨S256x2x2x2x2x2x2x2, .f32⟩) select,
    StableHlo.nullary main_c_42 (constantI S_ 32 1#32),
    StableHlo.TRef.nullary (.of main_call29_c : StableHlo.TRef sig ⟨S_, .i32⟩) (constantI S_ 32 0#32),
    StableHlo.TRef.binary (.of main_c_42 : StableHlo.TRef sig ⟨S_, .i32⟩) (.of main_call29_c : StableHlo.TRef sig ⟨S_, .i32⟩) (.of main_call29_v0 : StableHlo.TRef sig ⟨S_, .i1⟩) (cmpi .slt),
    StableHlo.TRef.nullary (.of main_call29_c_0 : StableHlo.TRef sig ⟨S_, .i32⟩) (constantI S_ 32 2#32),
    StableHlo.TRef.binary (.of main_c_42 : StableHlo.TRef sig ⟨S_, .i32⟩) (.of main_call29_c_0 : StableHlo.TRef sig ⟨S_, .i32⟩) (.of main_call29_v1 : StableHlo.TRef sig ⟨S_, .i32⟩) addi,
    StableHlo.TRef.ternary (.of main_call29_v0 : StableHlo.TRef sig ⟨S_, .i1⟩) (.of main_call29_v1 : StableHlo.TRef sig ⟨S_, .i32⟩) (.of main_c_42 : StableHlo.TRef sig ⟨S_, .i32⟩) (.of main_call29_v2 : StableHlo.TRef sig ⟨S_, .i32⟩) select,
    StableHlo.TRef.unary main_call29_call0.v0 (.of main_call29_v3 : StableHlo.TRef sig ⟨S1, .i32⟩) (broadcastInDim S1 ![] bcast_S_S1),
    StableHlo.TRef.nullary (.of main_call29_c_1 : StableHlo.TRef sig ⟨S1, .i32⟩) (constantI S1 32 1#32),
    StableHlo.TRef.unary (.of main_call29_v3 : StableHlo.TRef sig ⟨S1, .i32⟩) (.of main_call29_v4 : StableHlo.TRef sig ⟨S1, .i32⟩) id,
    StableHlo.TRef.nullary (.of main_call29_c_2 : StableHlo.TRef sig ⟨S_, .i32⟩) (constantI S_ 32 0#32),
    StableHlo.TRef.unary (.of main_call29_c_2 : StableHlo.TRef sig ⟨S_, .i32⟩) (.of main_call29_v5 : StableHlo.TRef sig ⟨S1, .i32⟩) (broadcastInDim S1 ![] bcast_S_S1),
    StableHlo.TRef.binary (.of main_call29_v4 : StableHlo.TRef sig ⟨S1, .i32⟩) (.of main_call29_v5 : StableHlo.TRef sig ⟨S1, .i32⟩) (.of main_call29_v6 : StableHlo.TRef sig ⟨S1, .i1⟩) (cmpi .sge),
    StableHlo.TRef.binary (.of main_call29_v4 : StableHlo.TRef sig ⟨S1, .i32⟩) (.of main_call29_c_1 : StableHlo.TRef sig ⟨S1, .i32⟩) (.of main_call29_v7 : StableHlo.TRef sig ⟨S1, .i1⟩) (cmpi .sle),
    StableHlo.TRef.binary (.of main_call29_v6 : StableHlo.TRef sig ⟨S1, .i1⟩) (.of main_call29_v7 : StableHlo.TRef sig ⟨S1, .i1⟩) (.of main_call29_v8 : StableHlo.TRef sig ⟨S1, .i1⟩) andi,
    StableHlo.TRef.nullary (.of main_call29_c_3 : StableHlo.TRef sig ⟨S_, .i1⟩) (constantI S_ 1 1#1),
    StableHlo.TRef.binary (.of main_call29_v8 : StableHlo.TRef sig ⟨S1, .i1⟩) (.of main_call29_c_3 : StableHlo.TRef sig ⟨S_, .i1⟩) (.of main_call29_v9 : StableHlo.TRef sig ⟨S_, .i1⟩) (fun x v => Host.reduce IntOp.andi x v reducesTo_S1_S_d0 h_S_),
    StableHlo.TRef.binary (.of main_v198 : StableHlo.TRef sig ⟨S256x2x2x2x2x2x2x2x2, .f32⟩) (.of main_call29_v4 : StableHlo.TRef sig ⟨S1, .i32⟩) (.of main_call29_v10 : StableHlo.TRef sig ⟨S256x2x2x2x2x2x2x2, .f32⟩) (fun x i => Host.gather gather_S256x2x2x2x2x2x2x2x2_S1_S256x2x2x2x2x2x2x2_01234567_5_n_n_5_0_25622221222 x i),
    StableHlo.TRef.unary (.of main_call29_v9 : StableHlo.TRef sig ⟨S_, .i1⟩) (.of main_call29_v11 : StableHlo.TRef sig ⟨S256x2x2x2x2x2x2x2, .i1⟩) (broadcastInDim S256x2x2x2x2x2x2x2 ![] bcast_S_S256x2x2x2x2x2x2x2),
    StableHlo.TRef.nullary (.of main_call29_cst : StableHlo.TRef sig ⟨S_, .f32⟩) (constant S_ .f32 0x7FC00000#32),
    StableHlo.TRef.unary (.of main_call29_cst : StableHlo.TRef sig ⟨S_, .f32⟩) (.of main_call29_v12 : StableHlo.TRef sig ⟨S256x2x2x2x2x2x2x2, .f32⟩) (broadcastInDim S256x2x2x2x2x2x2x2 ![] bcast_S_S256x2x2x2x2x2x2x2),
    StableHlo.TRef.ternary (.of main_call29_v11 : StableHlo.TRef sig ⟨S256x2x2x2x2x2x2x2, .i1⟩) (.of main_call29_v10 : StableHlo.TRef sig ⟨S256x2x2x2x2x2x2x2, .f32⟩) (.of main_call29_v12 : StableHlo.TRef sig ⟨S256x2x2x2x2x2x2x2, .f32⟩) (.of main_v206 : StableHlo.TRef sig ⟨S256x2x2x2x2x2x2x2, .f32⟩) select,
    StableHlo.unary main_v202 main_v207 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v207 main_v205 main_v208 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v204 main_v209 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v209 main_v206 main_v210 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.binary main_v208 main_v210 main_v211 (subf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v204 main_v212 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v212 main_v205 main_v213 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v202 main_v214 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v214 main_v206 main_v215 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.binary main_v213 main_v215 main_v216 (addf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v211 main_v217 (broadcastInDim S256x2x2x2x2x1x2x2x2 ![0, 1, 2, 3, 4, 6, 7, 8] bcast_S256x2x2x2x2x2x2x2_S256x2x2x2x2x1x2x2x2_0_1_2_3_4_6_7_8 : (⟨S256x2x2x2x2x2x2x2, .f32⟩ : BufTy).Contents (Elt F) → (⟨S256x2x2x2x2x1x2x2x2, .f32⟩ : BufTy).Contents (Elt F)),
    StableHlo.unary main_v216 main_v218 (broadcastInDim S256x2x2x2x2x1x2x2x2 ![0, 1, 2, 3, 4, 6, 7, 8] bcast_S256x2x2x2x2x2x2x2_S256x2x2x2x2x1x2x2x2_0_1_2_3_4_6_7_8 : (⟨S256x2x2x2x2x2x2x2, .f32⟩ : BufTy).Contents (Elt F) → (⟨S256x2x2x2x2x1x2x2x2, .f32⟩ : BufTy).Contents (Elt F)),
    StableHlo.binary main_v217 main_v218 main_v219 ((fun a b => concatenate S256x2x2x2x2x2x2x2x2 5 [⟨S256x2x2x2x2x1x2x2x2, a⟩, ⟨S256x2x2x2x2x1x2x2x2, b⟩] concatenates_S256x2x2x2x2x1x2x2x2_S256x2x2x2x2x1x2x2x2_S256x2x2x2x2x2x2x2x2_d5) : (⟨S256x2x2x2x2x1x2x2x2, .f32⟩ : BufTy).Contents (Elt F) → (⟨S256x2x2x2x2x1x2x2x2, .f32⟩ : BufTy).Contents (Elt F) → (⟨S256x2x2x2x2x2x2x2x2, .f32⟩ : BufTy).Contents (Elt F)) ]

/-- The host operations of gate 14 (a rotation, parameter 9, axis 6). -/
abbrev G14 : List (HloOp τ sig (Elt F)) :=
  [ StableHlo.unary main_arg3 main_v220 ((extractStridedSlice S1 ![9] · slices_S21_S1_9) : (⟨S21, .f32⟩ : BufTy).Contents (Elt F) → (⟨S1, .f32⟩ : BufTy).Contents (Elt F)),
    StableHlo.reshape main_v220 main_v221 rfl shapeCasts_S1_S_,
    StableHlo.nullary main_cst_43 (constant S_ .f32 0x3F000000#32),
    StableHlo.binary main_cst_43 main_v221 main_v222 (mulf : (⟨S_, .f32⟩ : BufTy).Contents (Elt F) → (⟨S_, .f32⟩ : BufTy).Contents (Elt F) → (⟨S_, .f32⟩ : BufTy).Contents (Elt F)),
    StableHlo.unary main_v222 main_v223 (Host.cos : (⟨S_, .f32⟩ : BufTy).Contents (Elt F) → (⟨S_, .f32⟩ : BufTy).Contents (Elt F)),
    StableHlo.nullary main_cst_44 (constant S_ .f32 0x3F000000#32),
    StableHlo.binary main_cst_44 main_v221 main_v224 (mulf : (⟨S_, .f32⟩ : BufTy).Contents (Elt F) → (⟨S_, .f32⟩ : BufTy).Contents (Elt F) → (⟨S_, .f32⟩ : BufTy).Contents (Elt F)),
    StableHlo.unary main_v224 main_v225 (Host.sin : (⟨S_, .f32⟩ : BufTy).Contents (Elt F) → (⟨S_, .f32⟩ : BufTy).Contents (Elt F)),
    StableHlo.nullary main_c_45 (constantI S_ 32 0#32),
    StableHlo.TRef.nullary (.of main_call30_c : StableHlo.TRef sig ⟨S_, .i32⟩) (constantI S_ 32 0#32),
    StableHlo.TRef.binary (.of main_c_45 : StableHlo.TRef sig ⟨S_, .i32⟩) (.of main_call30_c : StableHlo.TRef sig ⟨S_, .i32⟩) (.of main_call30_v0 : StableHlo.TRef sig ⟨S_, .i1⟩) (cmpi .slt),
    StableHlo.TRef.nullary (.of main_call30_c_0 : StableHlo.TRef sig ⟨S_, .i32⟩) (constantI S_ 32 2#32),
    StableHlo.TRef.binary (.of main_c_45 : StableHlo.TRef sig ⟨S_, .i32⟩) (.of main_call30_c_0 : StableHlo.TRef sig ⟨S_, .i32⟩) (.of main_call30_v1 : StableHlo.TRef sig ⟨S_, .i32⟩) addi,
    StableHlo.TRef.ternary (.of main_call30_v0 : StableHlo.TRef sig ⟨S_, .i1⟩) (.of main_call30_v1 : StableHlo.TRef sig ⟨S_, .i32⟩) (.of main_c_45 : StableHlo.TRef sig ⟨S_, .i32⟩) (.of main_call30_v2 : StableHlo.TRef sig ⟨S_, .i32⟩) select,
    StableHlo.TRef.unary main_call30_call0.v0 (.of main_call30_v3 : StableHlo.TRef sig ⟨S1, .i32⟩) (broadcastInDim S1 ![] bcast_S_S1),
    StableHlo.TRef.nullary (.of main_call30_c_1 : StableHlo.TRef sig ⟨S1, .i32⟩) (constantI S1 32 1#32),
    StableHlo.TRef.unary (.of main_call30_v3 : StableHlo.TRef sig ⟨S1, .i32⟩) (.of main_call30_v4 : StableHlo.TRef sig ⟨S1, .i32⟩) id,
    StableHlo.TRef.nullary (.of main_call30_c_2 : StableHlo.TRef sig ⟨S_, .i32⟩) (constantI S_ 32 0#32),
    StableHlo.TRef.unary (.of main_call30_c_2 : StableHlo.TRef sig ⟨S_, .i32⟩) (.of main_call30_v5 : StableHlo.TRef sig ⟨S1, .i32⟩) (broadcastInDim S1 ![] bcast_S_S1),
    StableHlo.TRef.binary (.of main_call30_v4 : StableHlo.TRef sig ⟨S1, .i32⟩) (.of main_call30_v5 : StableHlo.TRef sig ⟨S1, .i32⟩) (.of main_call30_v6 : StableHlo.TRef sig ⟨S1, .i1⟩) (cmpi .sge),
    StableHlo.TRef.binary (.of main_call30_v4 : StableHlo.TRef sig ⟨S1, .i32⟩) (.of main_call30_c_1 : StableHlo.TRef sig ⟨S1, .i32⟩) (.of main_call30_v7 : StableHlo.TRef sig ⟨S1, .i1⟩) (cmpi .sle),
    StableHlo.TRef.binary (.of main_call30_v6 : StableHlo.TRef sig ⟨S1, .i1⟩) (.of main_call30_v7 : StableHlo.TRef sig ⟨S1, .i1⟩) (.of main_call30_v8 : StableHlo.TRef sig ⟨S1, .i1⟩) andi,
    StableHlo.TRef.nullary (.of main_call30_c_3 : StableHlo.TRef sig ⟨S_, .i1⟩) (constantI S_ 1 1#1),
    StableHlo.TRef.binary (.of main_call30_v8 : StableHlo.TRef sig ⟨S1, .i1⟩) (.of main_call30_c_3 : StableHlo.TRef sig ⟨S_, .i1⟩) (.of main_call30_v9 : StableHlo.TRef sig ⟨S_, .i1⟩) (fun x v => Host.reduce IntOp.andi x v reducesTo_S1_S_d0 h_S_),
    StableHlo.TRef.binary (.of main_v219 : StableHlo.TRef sig ⟨S256x2x2x2x2x2x2x2x2, .f32⟩) (.of main_call30_v4 : StableHlo.TRef sig ⟨S1, .i32⟩) (.of main_call30_v10 : StableHlo.TRef sig ⟨S256x2x2x2x2x2x2x2, .f32⟩) (fun x i => Host.gather gather_S256x2x2x2x2x2x2x2x2_S1_S256x2x2x2x2x2x2x2_01234567_6_n_n_6_0_25622222122 x i),
    StableHlo.TRef.unary (.of main_call30_v9 : StableHlo.TRef sig ⟨S_, .i1⟩) (.of main_call30_v11 : StableHlo.TRef sig ⟨S256x2x2x2x2x2x2x2, .i1⟩) (broadcastInDim S256x2x2x2x2x2x2x2 ![] bcast_S_S256x2x2x2x2x2x2x2),
    StableHlo.TRef.nullary (.of main_call30_cst : StableHlo.TRef sig ⟨S_, .f32⟩) (constant S_ .f32 0x7FC00000#32),
    StableHlo.TRef.unary (.of main_call30_cst : StableHlo.TRef sig ⟨S_, .f32⟩) (.of main_call30_v12 : StableHlo.TRef sig ⟨S256x2x2x2x2x2x2x2, .f32⟩) (broadcastInDim S256x2x2x2x2x2x2x2 ![] bcast_S_S256x2x2x2x2x2x2x2),
    StableHlo.TRef.ternary (.of main_call30_v11 : StableHlo.TRef sig ⟨S256x2x2x2x2x2x2x2, .i1⟩) (.of main_call30_v10 : StableHlo.TRef sig ⟨S256x2x2x2x2x2x2x2, .f32⟩) (.of main_call30_v12 : StableHlo.TRef sig ⟨S256x2x2x2x2x2x2x2, .f32⟩) (.of main_v226 : StableHlo.TRef sig ⟨S256x2x2x2x2x2x2x2, .f32⟩) select,
    StableHlo.nullary main_c_46 (constantI S_ 32 1#32),
    StableHlo.TRef.nullary (.of main_call31_c : StableHlo.TRef sig ⟨S_, .i32⟩) (constantI S_ 32 0#32),
    StableHlo.TRef.binary (.of main_c_46 : StableHlo.TRef sig ⟨S_, .i32⟩) (.of main_call31_c : StableHlo.TRef sig ⟨S_, .i32⟩) (.of main_call31_v0 : StableHlo.TRef sig ⟨S_, .i1⟩) (cmpi .slt),
    StableHlo.TRef.nullary (.of main_call31_c_0 : StableHlo.TRef sig ⟨S_, .i32⟩) (constantI S_ 32 2#32),
    StableHlo.TRef.binary (.of main_c_46 : StableHlo.TRef sig ⟨S_, .i32⟩) (.of main_call31_c_0 : StableHlo.TRef sig ⟨S_, .i32⟩) (.of main_call31_v1 : StableHlo.TRef sig ⟨S_, .i32⟩) addi,
    StableHlo.TRef.ternary (.of main_call31_v0 : StableHlo.TRef sig ⟨S_, .i1⟩) (.of main_call31_v1 : StableHlo.TRef sig ⟨S_, .i32⟩) (.of main_c_46 : StableHlo.TRef sig ⟨S_, .i32⟩) (.of main_call31_v2 : StableHlo.TRef sig ⟨S_, .i32⟩) select,
    StableHlo.TRef.unary main_call31_call0.v0 (.of main_call31_v3 : StableHlo.TRef sig ⟨S1, .i32⟩) (broadcastInDim S1 ![] bcast_S_S1),
    StableHlo.TRef.nullary (.of main_call31_c_1 : StableHlo.TRef sig ⟨S1, .i32⟩) (constantI S1 32 1#32),
    StableHlo.TRef.unary (.of main_call31_v3 : StableHlo.TRef sig ⟨S1, .i32⟩) (.of main_call31_v4 : StableHlo.TRef sig ⟨S1, .i32⟩) id,
    StableHlo.TRef.nullary (.of main_call31_c_2 : StableHlo.TRef sig ⟨S_, .i32⟩) (constantI S_ 32 0#32),
    StableHlo.TRef.unary (.of main_call31_c_2 : StableHlo.TRef sig ⟨S_, .i32⟩) (.of main_call31_v5 : StableHlo.TRef sig ⟨S1, .i32⟩) (broadcastInDim S1 ![] bcast_S_S1),
    StableHlo.TRef.binary (.of main_call31_v4 : StableHlo.TRef sig ⟨S1, .i32⟩) (.of main_call31_v5 : StableHlo.TRef sig ⟨S1, .i32⟩) (.of main_call31_v6 : StableHlo.TRef sig ⟨S1, .i1⟩) (cmpi .sge),
    StableHlo.TRef.binary (.of main_call31_v4 : StableHlo.TRef sig ⟨S1, .i32⟩) (.of main_call31_c_1 : StableHlo.TRef sig ⟨S1, .i32⟩) (.of main_call31_v7 : StableHlo.TRef sig ⟨S1, .i1⟩) (cmpi .sle),
    StableHlo.TRef.binary (.of main_call31_v6 : StableHlo.TRef sig ⟨S1, .i1⟩) (.of main_call31_v7 : StableHlo.TRef sig ⟨S1, .i1⟩) (.of main_call31_v8 : StableHlo.TRef sig ⟨S1, .i1⟩) andi,
    StableHlo.TRef.nullary (.of main_call31_c_3 : StableHlo.TRef sig ⟨S_, .i1⟩) (constantI S_ 1 1#1),
    StableHlo.TRef.binary (.of main_call31_v8 : StableHlo.TRef sig ⟨S1, .i1⟩) (.of main_call31_c_3 : StableHlo.TRef sig ⟨S_, .i1⟩) (.of main_call31_v9 : StableHlo.TRef sig ⟨S_, .i1⟩) (fun x v => Host.reduce IntOp.andi x v reducesTo_S1_S_d0 h_S_),
    StableHlo.TRef.binary (.of main_v219 : StableHlo.TRef sig ⟨S256x2x2x2x2x2x2x2x2, .f32⟩) (.of main_call31_v4 : StableHlo.TRef sig ⟨S1, .i32⟩) (.of main_call31_v10 : StableHlo.TRef sig ⟨S256x2x2x2x2x2x2x2, .f32⟩) (fun x i => Host.gather gather_S256x2x2x2x2x2x2x2x2_S1_S256x2x2x2x2x2x2x2_01234567_6_n_n_6_0_25622222122 x i),
    StableHlo.TRef.unary (.of main_call31_v9 : StableHlo.TRef sig ⟨S_, .i1⟩) (.of main_call31_v11 : StableHlo.TRef sig ⟨S256x2x2x2x2x2x2x2, .i1⟩) (broadcastInDim S256x2x2x2x2x2x2x2 ![] bcast_S_S256x2x2x2x2x2x2x2),
    StableHlo.TRef.nullary (.of main_call31_cst : StableHlo.TRef sig ⟨S_, .f32⟩) (constant S_ .f32 0x7FC00000#32),
    StableHlo.TRef.unary (.of main_call31_cst : StableHlo.TRef sig ⟨S_, .f32⟩) (.of main_call31_v12 : StableHlo.TRef sig ⟨S256x2x2x2x2x2x2x2, .f32⟩) (broadcastInDim S256x2x2x2x2x2x2x2 ![] bcast_S_S256x2x2x2x2x2x2x2),
    StableHlo.TRef.ternary (.of main_call31_v11 : StableHlo.TRef sig ⟨S256x2x2x2x2x2x2x2, .i1⟩) (.of main_call31_v10 : StableHlo.TRef sig ⟨S256x2x2x2x2x2x2x2, .f32⟩) (.of main_call31_v12 : StableHlo.TRef sig ⟨S256x2x2x2x2x2x2x2, .f32⟩) (.of main_v227 : StableHlo.TRef sig ⟨S256x2x2x2x2x2x2x2, .f32⟩) select,
    StableHlo.unary main_v223 main_v228 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v228 main_v226 main_v229 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v225 main_v230 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v230 main_v227 main_v231 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.binary main_v229 main_v231 main_v232 (subf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v225 main_v233 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v233 main_v226 main_v234 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v223 main_v235 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v235 main_v227 main_v236 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.binary main_v234 main_v236 main_v237 (addf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v232 main_v238 (broadcastInDim S256x2x2x2x2x2x1x2x2 ![0, 1, 2, 3, 4, 5, 7, 8] bcast_S256x2x2x2x2x2x2x2_S256x2x2x2x2x2x1x2x2_0_1_2_3_4_5_7_8 : (⟨S256x2x2x2x2x2x2x2, .f32⟩ : BufTy).Contents (Elt F) → (⟨S256x2x2x2x2x2x1x2x2, .f32⟩ : BufTy).Contents (Elt F)),
    StableHlo.unary main_v237 main_v239 (broadcastInDim S256x2x2x2x2x2x1x2x2 ![0, 1, 2, 3, 4, 5, 7, 8] bcast_S256x2x2x2x2x2x2x2_S256x2x2x2x2x2x1x2x2_0_1_2_3_4_5_7_8 : (⟨S256x2x2x2x2x2x2x2, .f32⟩ : BufTy).Contents (Elt F) → (⟨S256x2x2x2x2x2x1x2x2, .f32⟩ : BufTy).Contents (Elt F)),
    StableHlo.binary main_v238 main_v239 main_v240 ((fun a b => concatenate S256x2x2x2x2x2x2x2x2 6 [⟨S256x2x2x2x2x2x1x2x2, a⟩, ⟨S256x2x2x2x2x2x1x2x2, b⟩] concatenates_S256x2x2x2x2x2x1x2x2_S256x2x2x2x2x2x1x2x2_S256x2x2x2x2x2x2x2x2_d6) : (⟨S256x2x2x2x2x2x1x2x2, .f32⟩ : BufTy).Contents (Elt F) → (⟨S256x2x2x2x2x2x1x2x2, .f32⟩ : BufTy).Contents (Elt F) → (⟨S256x2x2x2x2x2x2x2x2, .f32⟩ : BufTy).Contents (Elt F)) ]

/-- The host operations of gate 15 (a controlled flip, axis 5). -/
abbrev G15 : List (HloOp τ sig (Elt F)) :=
  [ StableHlo.nullary main_c_47 (constantI S_ 32 0#32),
    StableHlo.TRef.nullary (.of main_call32_c : StableHlo.TRef sig ⟨S_, .i32⟩) (constantI S_ 32 0#32),
    StableHlo.TRef.binary (.of main_c_47 : StableHlo.TRef sig ⟨S_, .i32⟩) (.of main_call32_c : StableHlo.TRef sig ⟨S_, .i32⟩) (.of main_call32_v0 : StableHlo.TRef sig ⟨S_, .i1⟩) (cmpi .slt),
    StableHlo.TRef.nullary (.of main_call32_c_0 : StableHlo.TRef sig ⟨S_, .i32⟩) (constantI S_ 32 2#32),
    StableHlo.TRef.binary (.of main_c_47 : StableHlo.TRef sig ⟨S_, .i32⟩) (.of main_call32_c_0 : StableHlo.TRef sig ⟨S_, .i32⟩) (.of main_call32_v1 : StableHlo.TRef sig ⟨S_, .i32⟩) addi,
    StableHlo.TRef.ternary (.of main_call32_v0 : StableHlo.TRef sig ⟨S_, .i1⟩) (.of main_call32_v1 : StableHlo.TRef sig ⟨S_, .i32⟩) (.of main_c_47 : StableHlo.TRef sig ⟨S_, .i32⟩) (.of main_call32_v2 : StableHlo.TRef sig ⟨S_, .i32⟩) select,
    StableHlo.TRef.unary main_call32_call0.v0 (.of main_call32_v3 : StableHlo.TRef sig ⟨S1, .i32⟩) (broadcastInDim S1 ![] bcast_S_S1),
    StableHlo.TRef.nullary (.of main_call32_c_1 : StableHlo.TRef sig ⟨S1, .i32⟩) (constantI S1 32 1#32),
    StableHlo.TRef.unary (.of main_call32_v3 : StableHlo.TRef sig ⟨S1, .i32⟩) (.of main_call32_v4 : StableHlo.TRef sig ⟨S1, .i32⟩) id,
    StableHlo.TRef.nullary (.of main_call32_c_2 : StableHlo.TRef sig ⟨S_, .i32⟩) (constantI S_ 32 0#32),
    StableHlo.TRef.unary (.of main_call32_c_2 : StableHlo.TRef sig ⟨S_, .i32⟩) (.of main_call32_v5 : StableHlo.TRef sig ⟨S1, .i32⟩) (broadcastInDim S1 ![] bcast_S_S1),
    StableHlo.TRef.binary (.of main_call32_v4 : StableHlo.TRef sig ⟨S1, .i32⟩) (.of main_call32_v5 : StableHlo.TRef sig ⟨S1, .i32⟩) (.of main_call32_v6 : StableHlo.TRef sig ⟨S1, .i1⟩) (cmpi .sge),
    StableHlo.TRef.binary (.of main_call32_v4 : StableHlo.TRef sig ⟨S1, .i32⟩) (.of main_call32_c_1 : StableHlo.TRef sig ⟨S1, .i32⟩) (.of main_call32_v7 : StableHlo.TRef sig ⟨S1, .i1⟩) (cmpi .sle),
    StableHlo.TRef.binary (.of main_call32_v6 : StableHlo.TRef sig ⟨S1, .i1⟩) (.of main_call32_v7 : StableHlo.TRef sig ⟨S1, .i1⟩) (.of main_call32_v8 : StableHlo.TRef sig ⟨S1, .i1⟩) andi,
    StableHlo.TRef.nullary (.of main_call32_c_3 : StableHlo.TRef sig ⟨S_, .i1⟩) (constantI S_ 1 1#1),
    StableHlo.TRef.binary (.of main_call32_v8 : StableHlo.TRef sig ⟨S1, .i1⟩) (.of main_call32_c_3 : StableHlo.TRef sig ⟨S_, .i1⟩) (.of main_call32_v9 : StableHlo.TRef sig ⟨S_, .i1⟩) (fun x v => Host.reduce IntOp.andi x v reducesTo_S1_S_d0 h_S_),
    StableHlo.TRef.binary (.of main_v240 : StableHlo.TRef sig ⟨S256x2x2x2x2x2x2x2x2, .f32⟩) (.of main_call32_v4 : StableHlo.TRef sig ⟨S1, .i32⟩) (.of main_call32_v10 : StableHlo.TRef sig ⟨S256x2x2x2x2x2x2x2, .f32⟩) (fun x i => Host.gather gather_S256x2x2x2x2x2x2x2x2_S1_S256x2x2x2x2x2x2x2_01234567_5_n_n_5_0_25622221222 x i),
    StableHlo.TRef.unary (.of main_call32_v9 : StableHlo.TRef sig ⟨S_, .i1⟩) (.of main_call32_v11 : StableHlo.TRef sig ⟨S256x2x2x2x2x2x2x2, .i1⟩) (broadcastInDim S256x2x2x2x2x2x2x2 ![] bcast_S_S256x2x2x2x2x2x2x2),
    StableHlo.TRef.nullary (.of main_call32_cst : StableHlo.TRef sig ⟨S_, .f32⟩) (constant S_ .f32 0x7FC00000#32),
    StableHlo.TRef.unary (.of main_call32_cst : StableHlo.TRef sig ⟨S_, .f32⟩) (.of main_call32_v12 : StableHlo.TRef sig ⟨S256x2x2x2x2x2x2x2, .f32⟩) (broadcastInDim S256x2x2x2x2x2x2x2 ![] bcast_S_S256x2x2x2x2x2x2x2),
    StableHlo.TRef.ternary (.of main_call32_v11 : StableHlo.TRef sig ⟨S256x2x2x2x2x2x2x2, .i1⟩) (.of main_call32_v10 : StableHlo.TRef sig ⟨S256x2x2x2x2x2x2x2, .f32⟩) (.of main_call32_v12 : StableHlo.TRef sig ⟨S256x2x2x2x2x2x2x2, .f32⟩) (.of main_v241 : StableHlo.TRef sig ⟨S256x2x2x2x2x2x2x2, .f32⟩) select,
    StableHlo.nullary main_c_48 (constantI S_ 32 1#32),
    StableHlo.TRef.nullary (.of main_call33_c : StableHlo.TRef sig ⟨S_, .i32⟩) (constantI S_ 32 0#32),
    StableHlo.TRef.binary (.of main_c_48 : StableHlo.TRef sig ⟨S_, .i32⟩) (.of main_call33_c : StableHlo.TRef sig ⟨S_, .i32⟩) (.of main_call33_v0 : StableHlo.TRef sig ⟨S_, .i1⟩) (cmpi .slt),
    StableHlo.TRef.nullary (.of main_call33_c_0 : StableHlo.TRef sig ⟨S_, .i32⟩) (constantI S_ 32 2#32),
    StableHlo.TRef.binary (.of main_c_48 : StableHlo.TRef sig ⟨S_, .i32⟩) (.of main_call33_c_0 : StableHlo.TRef sig ⟨S_, .i32⟩) (.of main_call33_v1 : StableHlo.TRef sig ⟨S_, .i32⟩) addi,
    StableHlo.TRef.ternary (.of main_call33_v0 : StableHlo.TRef sig ⟨S_, .i1⟩) (.of main_call33_v1 : StableHlo.TRef sig ⟨S_, .i32⟩) (.of main_c_48 : StableHlo.TRef sig ⟨S_, .i32⟩) (.of main_call33_v2 : StableHlo.TRef sig ⟨S_, .i32⟩) select,
    StableHlo.TRef.unary main_call33_call0.v0 (.of main_call33_v3 : StableHlo.TRef sig ⟨S1, .i32⟩) (broadcastInDim S1 ![] bcast_S_S1),
    StableHlo.TRef.nullary (.of main_call33_c_1 : StableHlo.TRef sig ⟨S1, .i32⟩) (constantI S1 32 1#32),
    StableHlo.TRef.unary (.of main_call33_v3 : StableHlo.TRef sig ⟨S1, .i32⟩) (.of main_call33_v4 : StableHlo.TRef sig ⟨S1, .i32⟩) id,
    StableHlo.TRef.nullary (.of main_call33_c_2 : StableHlo.TRef sig ⟨S_, .i32⟩) (constantI S_ 32 0#32),
    StableHlo.TRef.unary (.of main_call33_c_2 : StableHlo.TRef sig ⟨S_, .i32⟩) (.of main_call33_v5 : StableHlo.TRef sig ⟨S1, .i32⟩) (broadcastInDim S1 ![] bcast_S_S1),
    StableHlo.TRef.binary (.of main_call33_v4 : StableHlo.TRef sig ⟨S1, .i32⟩) (.of main_call33_v5 : StableHlo.TRef sig ⟨S1, .i32⟩) (.of main_call33_v6 : StableHlo.TRef sig ⟨S1, .i1⟩) (cmpi .sge),
    StableHlo.TRef.binary (.of main_call33_v4 : StableHlo.TRef sig ⟨S1, .i32⟩) (.of main_call33_c_1 : StableHlo.TRef sig ⟨S1, .i32⟩) (.of main_call33_v7 : StableHlo.TRef sig ⟨S1, .i1⟩) (cmpi .sle),
    StableHlo.TRef.binary (.of main_call33_v6 : StableHlo.TRef sig ⟨S1, .i1⟩) (.of main_call33_v7 : StableHlo.TRef sig ⟨S1, .i1⟩) (.of main_call33_v8 : StableHlo.TRef sig ⟨S1, .i1⟩) andi,
    StableHlo.TRef.nullary (.of main_call33_c_3 : StableHlo.TRef sig ⟨S_, .i1⟩) (constantI S_ 1 1#1),
    StableHlo.TRef.binary (.of main_call33_v8 : StableHlo.TRef sig ⟨S1, .i1⟩) (.of main_call33_c_3 : StableHlo.TRef sig ⟨S_, .i1⟩) (.of main_call33_v9 : StableHlo.TRef sig ⟨S_, .i1⟩) (fun x v => Host.reduce IntOp.andi x v reducesTo_S1_S_d0 h_S_),
    StableHlo.TRef.binary (.of main_v240 : StableHlo.TRef sig ⟨S256x2x2x2x2x2x2x2x2, .f32⟩) (.of main_call33_v4 : StableHlo.TRef sig ⟨S1, .i32⟩) (.of main_call33_v10 : StableHlo.TRef sig ⟨S256x2x2x2x2x2x2x2, .f32⟩) (fun x i => Host.gather gather_S256x2x2x2x2x2x2x2x2_S1_S256x2x2x2x2x2x2x2_01234567_5_n_n_5_0_25622221222 x i),
    StableHlo.TRef.unary (.of main_call33_v9 : StableHlo.TRef sig ⟨S_, .i1⟩) (.of main_call33_v11 : StableHlo.TRef sig ⟨S256x2x2x2x2x2x2x2, .i1⟩) (broadcastInDim S256x2x2x2x2x2x2x2 ![] bcast_S_S256x2x2x2x2x2x2x2),
    StableHlo.TRef.nullary (.of main_call33_cst : StableHlo.TRef sig ⟨S_, .f32⟩) (constant S_ .f32 0x7FC00000#32),
    StableHlo.TRef.unary (.of main_call33_cst : StableHlo.TRef sig ⟨S_, .f32⟩) (.of main_call33_v12 : StableHlo.TRef sig ⟨S256x2x2x2x2x2x2x2, .f32⟩) (broadcastInDim S256x2x2x2x2x2x2x2 ![] bcast_S_S256x2x2x2x2x2x2x2),
    StableHlo.TRef.ternary (.of main_call33_v11 : StableHlo.TRef sig ⟨S256x2x2x2x2x2x2x2, .i1⟩) (.of main_call33_v10 : StableHlo.TRef sig ⟨S256x2x2x2x2x2x2x2, .f32⟩) (.of main_call33_v12 : StableHlo.TRef sig ⟨S256x2x2x2x2x2x2x2, .f32⟩) (.of main_v242 : StableHlo.TRef sig ⟨S256x2x2x2x2x2x2x2, .f32⟩) select,
    StableHlo.TRef.unary (.of main_v242 : StableHlo.TRef sig ⟨S256x2x2x2x2x2x2x2, .f32⟩) (.of main_v243 : StableHlo.TRef sig ⟨S256x2x2x2x2x2x2x2, .f32⟩) (Host.reverse [5]),
    StableHlo.unary main_v241 main_v244 (broadcastInDim S256x2x2x2x2x1x2x2x2 ![0, 1, 2, 3, 4, 6, 7, 8] bcast_S256x2x2x2x2x2x2x2_S256x2x2x2x2x1x2x2x2_0_1_2_3_4_6_7_8 : (⟨S256x2x2x2x2x2x2x2, .f32⟩ : BufTy).Contents (Elt F) → (⟨S256x2x2x2x2x1x2x2x2, .f32⟩ : BufTy).Contents (Elt F)),
    StableHlo.unary main_v243 main_v245 (broadcastInDim S256x2x2x2x2x1x2x2x2 ![0, 1, 2, 3, 4, 6, 7, 8] bcast_S256x2x2x2x2x2x2x2_S256x2x2x2x2x1x2x2x2_0_1_2_3_4_6_7_8 : (⟨S256x2x2x2x2x2x2x2, .f32⟩ : BufTy).Contents (Elt F) → (⟨S256x2x2x2x2x1x2x2x2, .f32⟩ : BufTy).Contents (Elt F)),
    StableHlo.binary main_v244 main_v245 main_v246 ((fun a b => concatenate S256x2x2x2x2x2x2x2x2 5 [⟨S256x2x2x2x2x1x2x2x2, a⟩, ⟨S256x2x2x2x2x1x2x2x2, b⟩] concatenates_S256x2x2x2x2x1x2x2x2_S256x2x2x2x2x1x2x2x2_S256x2x2x2x2x2x2x2x2_d5) : (⟨S256x2x2x2x2x1x2x2x2, .f32⟩ : BufTy).Contents (Elt F) → (⟨S256x2x2x2x2x1x2x2x2, .f32⟩ : BufTy).Contents (Elt F) → (⟨S256x2x2x2x2x2x2x2x2, .f32⟩ : BufTy).Contents (Elt F)) ]

/-- The host operations of gate 16 (a rotation, parameter 10, axis 7). -/
abbrev G16 : List (HloOp τ sig (Elt F)) :=
  [ StableHlo.unary main_arg3 main_v247 ((extractStridedSlice S1 ![10] · slices_S21_S1_10) : (⟨S21, .f32⟩ : BufTy).Contents (Elt F) → (⟨S1, .f32⟩ : BufTy).Contents (Elt F)),
    StableHlo.reshape main_v247 main_v248 rfl shapeCasts_S1_S_,
    StableHlo.nullary main_cst_49 (constant S_ .f32 0x3F000000#32),
    StableHlo.binary main_cst_49 main_v248 main_v249 (mulf : (⟨S_, .f32⟩ : BufTy).Contents (Elt F) → (⟨S_, .f32⟩ : BufTy).Contents (Elt F) → (⟨S_, .f32⟩ : BufTy).Contents (Elt F)),
    StableHlo.unary main_v249 main_v250 (Host.cos : (⟨S_, .f32⟩ : BufTy).Contents (Elt F) → (⟨S_, .f32⟩ : BufTy).Contents (Elt F)),
    StableHlo.nullary main_cst_50 (constant S_ .f32 0x3F000000#32),
    StableHlo.binary main_cst_50 main_v248 main_v251 (mulf : (⟨S_, .f32⟩ : BufTy).Contents (Elt F) → (⟨S_, .f32⟩ : BufTy).Contents (Elt F) → (⟨S_, .f32⟩ : BufTy).Contents (Elt F)),
    StableHlo.unary main_v251 main_v252 (Host.sin : (⟨S_, .f32⟩ : BufTy).Contents (Elt F) → (⟨S_, .f32⟩ : BufTy).Contents (Elt F)),
    StableHlo.nullary main_c_51 (constantI S_ 32 0#32),
    StableHlo.TRef.nullary (.of main_call35_c : StableHlo.TRef sig ⟨S_, .i32⟩) (constantI S_ 32 0#32),
    StableHlo.TRef.binary (.of main_c_51 : StableHlo.TRef sig ⟨S_, .i32⟩) (.of main_call35_c : StableHlo.TRef sig ⟨S_, .i32⟩) (.of main_call35_v0 : StableHlo.TRef sig ⟨S_, .i1⟩) (cmpi .slt),
    StableHlo.TRef.nullary (.of main_call35_c_0 : StableHlo.TRef sig ⟨S_, .i32⟩) (constantI S_ 32 2#32),
    StableHlo.TRef.binary (.of main_c_51 : StableHlo.TRef sig ⟨S_, .i32⟩) (.of main_call35_c_0 : StableHlo.TRef sig ⟨S_, .i32⟩) (.of main_call35_v1 : StableHlo.TRef sig ⟨S_, .i32⟩) addi,
    StableHlo.TRef.ternary (.of main_call35_v0 : StableHlo.TRef sig ⟨S_, .i1⟩) (.of main_call35_v1 : StableHlo.TRef sig ⟨S_, .i32⟩) (.of main_c_51 : StableHlo.TRef sig ⟨S_, .i32⟩) (.of main_call35_v2 : StableHlo.TRef sig ⟨S_, .i32⟩) select,
    StableHlo.TRef.unary main_call35_call0.v0 (.of main_call35_v3 : StableHlo.TRef sig ⟨S1, .i32⟩) (broadcastInDim S1 ![] bcast_S_S1),
    StableHlo.TRef.nullary (.of main_call35_c_1 : StableHlo.TRef sig ⟨S1, .i32⟩) (constantI S1 32 1#32),
    StableHlo.TRef.unary (.of main_call35_v3 : StableHlo.TRef sig ⟨S1, .i32⟩) (.of main_call35_v4 : StableHlo.TRef sig ⟨S1, .i32⟩) id,
    StableHlo.TRef.nullary (.of main_call35_c_2 : StableHlo.TRef sig ⟨S_, .i32⟩) (constantI S_ 32 0#32),
    StableHlo.TRef.unary (.of main_call35_c_2 : StableHlo.TRef sig ⟨S_, .i32⟩) (.of main_call35_v5 : StableHlo.TRef sig ⟨S1, .i32⟩) (broadcastInDim S1 ![] bcast_S_S1),
    StableHlo.TRef.binary (.of main_call35_v4 : StableHlo.TRef sig ⟨S1, .i32⟩) (.of main_call35_v5 : StableHlo.TRef sig ⟨S1, .i32⟩) (.of main_call35_v6 : StableHlo.TRef sig ⟨S1, .i1⟩) (cmpi .sge),
    StableHlo.TRef.binary (.of main_call35_v4 : StableHlo.TRef sig ⟨S1, .i32⟩) (.of main_call35_c_1 : StableHlo.TRef sig ⟨S1, .i32⟩) (.of main_call35_v7 : StableHlo.TRef sig ⟨S1, .i1⟩) (cmpi .sle),
    StableHlo.TRef.binary (.of main_call35_v6 : StableHlo.TRef sig ⟨S1, .i1⟩) (.of main_call35_v7 : StableHlo.TRef sig ⟨S1, .i1⟩) (.of main_call35_v8 : StableHlo.TRef sig ⟨S1, .i1⟩) andi,
    StableHlo.TRef.nullary (.of main_call35_c_3 : StableHlo.TRef sig ⟨S_, .i1⟩) (constantI S_ 1 1#1),
    StableHlo.TRef.binary (.of main_call35_v8 : StableHlo.TRef sig ⟨S1, .i1⟩) (.of main_call35_c_3 : StableHlo.TRef sig ⟨S_, .i1⟩) (.of main_call35_v9 : StableHlo.TRef sig ⟨S_, .i1⟩) (fun x v => Host.reduce IntOp.andi x v reducesTo_S1_S_d0 h_S_),
    StableHlo.TRef.binary (.of main_v246 : StableHlo.TRef sig ⟨S256x2x2x2x2x2x2x2x2, .f32⟩) (.of main_call35_v4 : StableHlo.TRef sig ⟨S1, .i32⟩) (.of main_call35_v10 : StableHlo.TRef sig ⟨S256x2x2x2x2x2x2x2, .f32⟩) (fun x i => Host.gather gather_S256x2x2x2x2x2x2x2x2_S1_S256x2x2x2x2x2x2x2_01234567_7_n_n_7_0_25622222212 x i),
    StableHlo.TRef.unary (.of main_call35_v9 : StableHlo.TRef sig ⟨S_, .i1⟩) (.of main_call35_v11 : StableHlo.TRef sig ⟨S256x2x2x2x2x2x2x2, .i1⟩) (broadcastInDim S256x2x2x2x2x2x2x2 ![] bcast_S_S256x2x2x2x2x2x2x2),
    StableHlo.TRef.nullary (.of main_call35_cst : StableHlo.TRef sig ⟨S_, .f32⟩) (constant S_ .f32 0x7FC00000#32),
    StableHlo.TRef.unary (.of main_call35_cst : StableHlo.TRef sig ⟨S_, .f32⟩) (.of main_call35_v12 : StableHlo.TRef sig ⟨S256x2x2x2x2x2x2x2, .f32⟩) (broadcastInDim S256x2x2x2x2x2x2x2 ![] bcast_S_S256x2x2x2x2x2x2x2),
    StableHlo.TRef.ternary (.of main_call35_v11 : StableHlo.TRef sig ⟨S256x2x2x2x2x2x2x2, .i1⟩) (.of main_call35_v10 : StableHlo.TRef sig ⟨S256x2x2x2x2x2x2x2, .f32⟩) (.of main_call35_v12 : StableHlo.TRef sig ⟨S256x2x2x2x2x2x2x2, .f32⟩) (.of main_v253 : StableHlo.TRef sig ⟨S256x2x2x2x2x2x2x2, .f32⟩) select,
    StableHlo.nullary main_c_52 (constantI S_ 32 1#32),
    StableHlo.TRef.nullary (.of main_call36_c : StableHlo.TRef sig ⟨S_, .i32⟩) (constantI S_ 32 0#32),
    StableHlo.TRef.binary (.of main_c_52 : StableHlo.TRef sig ⟨S_, .i32⟩) (.of main_call36_c : StableHlo.TRef sig ⟨S_, .i32⟩) (.of main_call36_v0 : StableHlo.TRef sig ⟨S_, .i1⟩) (cmpi .slt),
    StableHlo.TRef.nullary (.of main_call36_c_0 : StableHlo.TRef sig ⟨S_, .i32⟩) (constantI S_ 32 2#32),
    StableHlo.TRef.binary (.of main_c_52 : StableHlo.TRef sig ⟨S_, .i32⟩) (.of main_call36_c_0 : StableHlo.TRef sig ⟨S_, .i32⟩) (.of main_call36_v1 : StableHlo.TRef sig ⟨S_, .i32⟩) addi,
    StableHlo.TRef.ternary (.of main_call36_v0 : StableHlo.TRef sig ⟨S_, .i1⟩) (.of main_call36_v1 : StableHlo.TRef sig ⟨S_, .i32⟩) (.of main_c_52 : StableHlo.TRef sig ⟨S_, .i32⟩) (.of main_call36_v2 : StableHlo.TRef sig ⟨S_, .i32⟩) select,
    StableHlo.TRef.unary main_call36_call0.v0 (.of main_call36_v3 : StableHlo.TRef sig ⟨S1, .i32⟩) (broadcastInDim S1 ![] bcast_S_S1),
    StableHlo.TRef.nullary (.of main_call36_c_1 : StableHlo.TRef sig ⟨S1, .i32⟩) (constantI S1 32 1#32),
    StableHlo.TRef.unary (.of main_call36_v3 : StableHlo.TRef sig ⟨S1, .i32⟩) (.of main_call36_v4 : StableHlo.TRef sig ⟨S1, .i32⟩) id,
    StableHlo.TRef.nullary (.of main_call36_c_2 : StableHlo.TRef sig ⟨S_, .i32⟩) (constantI S_ 32 0#32),
    StableHlo.TRef.unary (.of main_call36_c_2 : StableHlo.TRef sig ⟨S_, .i32⟩) (.of main_call36_v5 : StableHlo.TRef sig ⟨S1, .i32⟩) (broadcastInDim S1 ![] bcast_S_S1),
    StableHlo.TRef.binary (.of main_call36_v4 : StableHlo.TRef sig ⟨S1, .i32⟩) (.of main_call36_v5 : StableHlo.TRef sig ⟨S1, .i32⟩) (.of main_call36_v6 : StableHlo.TRef sig ⟨S1, .i1⟩) (cmpi .sge),
    StableHlo.TRef.binary (.of main_call36_v4 : StableHlo.TRef sig ⟨S1, .i32⟩) (.of main_call36_c_1 : StableHlo.TRef sig ⟨S1, .i32⟩) (.of main_call36_v7 : StableHlo.TRef sig ⟨S1, .i1⟩) (cmpi .sle),
    StableHlo.TRef.binary (.of main_call36_v6 : StableHlo.TRef sig ⟨S1, .i1⟩) (.of main_call36_v7 : StableHlo.TRef sig ⟨S1, .i1⟩) (.of main_call36_v8 : StableHlo.TRef sig ⟨S1, .i1⟩) andi,
    StableHlo.TRef.nullary (.of main_call36_c_3 : StableHlo.TRef sig ⟨S_, .i1⟩) (constantI S_ 1 1#1),
    StableHlo.TRef.binary (.of main_call36_v8 : StableHlo.TRef sig ⟨S1, .i1⟩) (.of main_call36_c_3 : StableHlo.TRef sig ⟨S_, .i1⟩) (.of main_call36_v9 : StableHlo.TRef sig ⟨S_, .i1⟩) (fun x v => Host.reduce IntOp.andi x v reducesTo_S1_S_d0 h_S_),
    StableHlo.TRef.binary (.of main_v246 : StableHlo.TRef sig ⟨S256x2x2x2x2x2x2x2x2, .f32⟩) (.of main_call36_v4 : StableHlo.TRef sig ⟨S1, .i32⟩) (.of main_call36_v10 : StableHlo.TRef sig ⟨S256x2x2x2x2x2x2x2, .f32⟩) (fun x i => Host.gather gather_S256x2x2x2x2x2x2x2x2_S1_S256x2x2x2x2x2x2x2_01234567_7_n_n_7_0_25622222212 x i),
    StableHlo.TRef.unary (.of main_call36_v9 : StableHlo.TRef sig ⟨S_, .i1⟩) (.of main_call36_v11 : StableHlo.TRef sig ⟨S256x2x2x2x2x2x2x2, .i1⟩) (broadcastInDim S256x2x2x2x2x2x2x2 ![] bcast_S_S256x2x2x2x2x2x2x2),
    StableHlo.TRef.nullary (.of main_call36_cst : StableHlo.TRef sig ⟨S_, .f32⟩) (constant S_ .f32 0x7FC00000#32),
    StableHlo.TRef.unary (.of main_call36_cst : StableHlo.TRef sig ⟨S_, .f32⟩) (.of main_call36_v12 : StableHlo.TRef sig ⟨S256x2x2x2x2x2x2x2, .f32⟩) (broadcastInDim S256x2x2x2x2x2x2x2 ![] bcast_S_S256x2x2x2x2x2x2x2),
    StableHlo.TRef.ternary (.of main_call36_v11 : StableHlo.TRef sig ⟨S256x2x2x2x2x2x2x2, .i1⟩) (.of main_call36_v10 : StableHlo.TRef sig ⟨S256x2x2x2x2x2x2x2, .f32⟩) (.of main_call36_v12 : StableHlo.TRef sig ⟨S256x2x2x2x2x2x2x2, .f32⟩) (.of main_v254 : StableHlo.TRef sig ⟨S256x2x2x2x2x2x2x2, .f32⟩) select,
    StableHlo.unary main_v250 main_v255 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v255 main_v253 main_v256 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v252 main_v257 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v257 main_v254 main_v258 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.binary main_v256 main_v258 main_v259 (subf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v252 main_v260 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v260 main_v253 main_v261 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v250 main_v262 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v262 main_v254 main_v263 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.binary main_v261 main_v263 main_v264 (addf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v259 main_v265 (broadcastInDim S256x2x2x2x2x2x2x1x2 ![0, 1, 2, 3, 4, 5, 6, 8] bcast_S256x2x2x2x2x2x2x2_S256x2x2x2x2x2x2x1x2_0_1_2_3_4_5_6_8 : (⟨S256x2x2x2x2x2x2x2, .f32⟩ : BufTy).Contents (Elt F) → (⟨S256x2x2x2x2x2x2x1x2, .f32⟩ : BufTy).Contents (Elt F)),
    StableHlo.unary main_v264 main_v266 (broadcastInDim S256x2x2x2x2x2x2x1x2 ![0, 1, 2, 3, 4, 5, 6, 8] bcast_S256x2x2x2x2x2x2x2_S256x2x2x2x2x2x2x1x2_0_1_2_3_4_5_6_8 : (⟨S256x2x2x2x2x2x2x2, .f32⟩ : BufTy).Contents (Elt F) → (⟨S256x2x2x2x2x2x2x1x2, .f32⟩ : BufTy).Contents (Elt F)),
    StableHlo.binary main_v265 main_v266 main_v267 ((fun a b => concatenate S256x2x2x2x2x2x2x2x2 7 [⟨S256x2x2x2x2x2x2x1x2, a⟩, ⟨S256x2x2x2x2x2x2x1x2, b⟩] concatenates_S256x2x2x2x2x2x2x1x2_S256x2x2x2x2x2x2x1x2_S256x2x2x2x2x2x2x2x2_d7) : (⟨S256x2x2x2x2x2x2x1x2, .f32⟩ : BufTy).Contents (Elt F) → (⟨S256x2x2x2x2x2x2x1x2, .f32⟩ : BufTy).Contents (Elt F) → (⟨S256x2x2x2x2x2x2x2x2, .f32⟩ : BufTy).Contents (Elt F)) ]

end Lists

-- the layout operations stay folded while the fold of the host operations is opened
attribute [local irreducible] Host.gather Host.reduce concatenate broadcastInDim Host.reverse shapeCast extractStridedSlice

set_option maxHeartbeats 1600000 in
theorem gate9 (W : Valuation τ sig (Elt Ideal)) :
    after (G9 (F := Ideal)) W (main_v150 : DevRef τ sig)
      = Cert.TTN.Gates.cxTerm (s := S256x2x2x2x2x2x2x2x2) (t := S256x2x2x2x2x2x2x2) (u := S256x1x2x2x2x2x2x2x2) 1 1 ![0, 2, 3, 4, 5, 6, 7, 8] gather_S256x2x2x2x2x2x2x2x2_S1_S256x2x2x2x2x2x2x2_01234567_1_n_n_1_0_25612222222 bcast_S_S1 bcast_S_S256x2x2x2x2x2x2x2 reducesTo_S1_S_d0 h_S_ bcast_S256x2x2x2x2x2x2x2_S256x1x2x2x2x2x2x2x2_0_2_3_4_5_6_7_8 concatenates_S256x1x2x2x2x2x2x2x2_S256x1x2x2x2x2x2x2x2_S256x2x2x2x2x2x2x2x2_d1
        (W (main_v144 : DevRef τ sig)) := by
  simp only [after_cons, after_nil]
  rfl

set_option maxHeartbeats 1600000 in
theorem gate9_arg3 (W : Valuation τ sig (Elt Ideal)) :
    after (G9 (F := Ideal)) W (main_arg3 : DevRef τ sig) = W (main_arg3 : DevRef τ sig) := by
  simp only [after_cons, after_nil]
  rfl

set_option maxHeartbeats 1600000 in
theorem gate10 (W : Valuation τ sig (Elt Ideal)) :
    after (G10 (F := Ideal)) W (main_v171 : DevRef τ sig)
      = Cert.TTN.Gates.ryTerm (s := S256x2x2x2x2x2x2x2x2) (t := S256x2x2x2x2x2x2x2) (u := S256x2x2x1x2x2x2x2x2) 3 ![0, 1, 2, 4, 5, 6, 7, 8] gather_S256x2x2x2x2x2x2x2x2_S1_S256x2x2x2x2x2x2x2_01234567_3_n_n_3_0_25622122222 bcast_S_S1 bcast_S_S256x2x2x2x2x2x2x2 reducesTo_S1_S_d0 h_S_ bcast_S256x2x2x2x2x2x2x2_S256x2x2x1x2x2x2x2x2_0_1_2_4_5_6_7_8 concatenates_S256x2x2x1x2x2x2x2x2_S256x2x2x1x2x2x2x2x2_S256x2x2x2x2x2x2x2x2_d3
        (W (main_v150 : DevRef τ sig)) (shapeCast S_ (extractStridedSlice S1 ![6] (W (main_arg3 : DevRef τ sig)) slices_S21_S1_6) shapeCasts_S1_S_) := by
  simp only [after_cons, after_nil]
  rfl

set_option maxHeartbeats 1600000 in
theorem gate10_arg3 (W : Valuation τ sig (Elt Ideal)) :
    after (G10 (F := Ideal)) W (main_arg3 : DevRef τ sig) = W (main_arg3 : DevRef τ sig) := by
  simp only [after_cons, after_nil]
  rfl

set_option maxHeartbeats 1600000 in
theorem gate11 (W : Valuation τ sig (Elt Ideal)) :
    after (G11 (F := Ideal)) W (main_v192 : DevRef τ sig)
      = Cert.TTN.Gates.ryTerm (s := S256x2x2x2x2x2x2x2x2) (t := S256x2x2x2x2x2x2x2) (u := S256x2x2x2x1x2x2x2x2) 4 ![0, 1, 2, 3, 5, 6, 7, 8] gather_S256x2x2x2x2x2x2x2x2_S1_S256x2x2x2x2x2x2x2_01234567_4_n_n_4_0_25622212222 bcast_S_S1 bcast_S_S256x2x2x2x2x2x2x2 reducesTo_S1_S_d0 h_S_ bcast_S256x2x2x2x2x2x2x2_S256x2x2x2x1x2x2x2x2_0_1_2_3_5_6_7_8 concatenates_S256x2x2x2x1x2x2x2x2_S256x2x2x2x1x2x2x2x2_S256x2x2x2x2x2x2x2x2_d4
        (W (main_v171 : DevRef τ sig)) (shapeCast S_ (extractStridedSlice S1 ![7] (W (main_arg3 : DevRef τ sig)) slices_S21_S1_7) shapeCasts_S1_S_) := by
  simp only [after_cons, after_nil]
  rfl

set_option maxHeartbeats 1600000 in
theorem gate11_arg3 (W : Valuation τ sig (Elt Ideal)) :
    after (G11 (F := Ideal)) W (main_arg3 : DevRef τ sig) = W (main_arg3 : DevRef τ sig) := by
  simp only [after_cons, after_nil]
  rfl

set_option maxHeartbeats 1600000 in
theorem gate12 (W : Valuation τ sig (Elt Ideal)) :
    after (G12 (F := Ideal)) W (main_v198 : DevRef τ sig)
      = Cert.TTN.Gates.cxTerm (s := S256x2x2x2x2x2x2x2x2) (t := S256x2x2x2x2x2x2x2) (u := S256x2x2x2x1x2x2x2x2) 4 3 ![0, 1, 2, 3, 5, 6, 7, 8] gather_S256x2x2x2x2x2x2x2x2_S1_S256x2x2x2x2x2x2x2_01234567_4_n_n_4_0_25622212222 bcast_S_S1 bcast_S_S256x2x2x2x2x2x2x2 reducesTo_S1_S_d0 h_S_ bcast_S256x2x2x2x2x2x2x2_S256x2x2x2x1x2x2x2x2_0_1_2_3_5_6_7_8 concatenates_S256x2x2x2x1x2x2x2x2_S256x2x2x2x1x2x2x2x2_S256x2x2x2x2x2x2x2x2_d4
        (W (main_v192 : DevRef τ sig)) := by
  simp only [after_cons, after_nil]
  rfl

set_option maxHeartbeats 1600000 in
theorem gate12_arg3 (W : Valuation τ sig (Elt Ideal)) :
    after (G12 (F := Ideal)) W (main_arg3 : DevRef τ sig) = W (main_arg3 : DevRef τ sig) := by
  simp only [after_cons, after_nil]
  rfl

set_option maxHeartbeats 1600000 in
theorem gate13 (W : Valuation τ sig (Elt Ideal)) :
    after (G13 (F := Ideal)) W (main_v219 : DevRef τ sig)
      = Cert.TTN.Gates.ryTerm (s := S256x2x2x2x2x2x2x2x2) (t := S256x2x2x2x2x2x2x2) (u := S256x2x2x2x2x1x2x2x2) 5 ![0, 1, 2, 3, 4, 6, 7, 8] gather_S256x2x2x2x2x2x2x2x2_S1_S256x2x2x2x2x2x2x2_01234567_5_n_n_5_0_25622221222 bcast_S_S1 bcast_S_S256x2x2x2x2x2x2x2 reducesTo_S1_S_d0 h_S_ bcast_S256x2x2x2x2x2x2x2_S256x2x2x2x2x1x2x2x2_0_1_2_3_4_6_7_8 concatenates_S256x2x2x2x2x1x2x2x2_S256x2x2x2x2x1x2x2x2_S256x2x2x2x2x2x2x2x2_d5
        (W (main_v198 : DevRef τ sig)) (shapeCast S_ (extractStridedSlice S1 ![8] (W (main_arg3 : DevRef τ sig)) slices_S21_S1_8) shapeCasts_S1_S_) := by
  simp only [after_cons, after_nil]
  rfl

set_option maxHeartbeats 1600000 in
theorem gate13_arg3 (W : Valuation τ sig (Elt Ideal)) :
    after (G13 (F := Ideal)) W (main_arg3 : DevRef τ sig) = W (main_arg3 : DevRef τ sig) := by
  simp only [after_cons, after_nil]
  rfl

set_option maxHeartbeats 1600000 in
theorem gate14 (W : Valuation τ sig (Elt Ideal)) :
    after (G14 (F := Ideal)) W (main_v240 : DevRef τ sig)
      = Cert.TTN.Gates.ryTerm (s := S256x2x2x2x2x2x2x2x2) (t := S256x2x2x2x2x2x2x2) (u := S256x2x2x2x2x2x1x2x2) 6 ![0, 1, 2, 3, 4, 5, 7, 8] gather_S256x2x2x2x2x2x2x2x2_S1_S256x2x2x2x2x2x2x2_01234567_6_n_n_6_0_25622222122 bcast_S_S1 bcast_S_S256x2x2x2x2x2x2x2 reducesTo_S1_S_d0 h_S_ bcast_S256x2x2x2x2x2x2x2_S256x2x2x2x2x2x1x2x2_0_1_2_3_4_5_7_8 concatenates_S256x2x2x2x2x2x1x2x2_S256x2x2x2x2x2x1x2x2_S256x2x2x2x2x2x2x2x2_d6
        (W (main_v219 : DevRef τ sig)) (shapeCast S_ (extractStridedSlice S1 ![9] (W (main_arg3 : DevRef τ sig)) slices_S21_S1_9) shapeCasts_S1_S_) := by
  simp only [after_cons, after_nil]
  rfl

set_option maxHeartbeats 1600000 in
theorem gate14_arg3 (W : Valuation τ sig (Elt Ideal)) :
    after (G14 (F := Ideal)) W (main_arg3 : DevRef τ sig) = W (main_arg3 : DevRef τ sig) := by
  simp only [after_cons, after_nil]
  rfl

set_option maxHeartbeats 1600000 in
theorem gate15 (W : Valuation τ sig (Elt Ideal)) :
    after (G15 (F := Ideal)) W (main_v246 : DevRef τ sig)
      = Cert.TTN.Gates.cxTerm (s := S256x2x2x2x2x2x2x2x2) (t := S256x2x2x2x2x2x2x2) (u := S256x2x2x2x2x1x2x2x2) 5 5 ![0, 1, 2, 3, 4, 6, 7, 8] gather_S256x2x2x2x2x2x2x2x2_S1_S256x2x2x2x2x2x2x2_01234567_5_n_n_5_0_25622221222 bcast_S_S1 bcast_S_S256x2x2x2x2x2x2x2 reducesTo_S1_S_d0 h_S_ bcast_S256x2x2x2x2x2x2x2_S256x2x2x2x2x1x2x2x2_0_1_2_3_4_6_7_8 concatenates_S256x2x2x2x2x1x2x2x2_S256x2x2x2x2x1x2x2x2_S256x2x2x2x2x2x2x2x2_d5
        (W (main_v240 : DevRef τ sig)) := by
  simp only [after_cons, after_nil]
  rfl

set_option maxHeartbeats 1600000 in
theorem gate15_arg3 (W : Valuation τ sig (Elt Ideal)) :
    after (G15 (F := Ideal)) W (main_arg3 : DevRef τ sig) = W (main_arg3 : DevRef τ sig) := by
  simp only [after_cons, after_nil]
  rfl

set_option maxHeartbeats 1600000 in
theorem gate16 (W : Valuation τ sig (Elt Ideal)) :
    after (G16 (F := Ideal)) W (main_v267 : DevRef τ sig)
      = Cert.TTN.Gates.ryTerm (s := S256x2x2x2x2x2x2x2x2) (t := S256x2x2x2x2x2x2x2) (u := S256x2x2x2x2x2x2x1x2) 7 ![0, 1, 2, 3, 4, 5, 6, 8] gather_S256x2x2x2x2x2x2x2x2_S1_S256x2x2x2x2x2x2x2_01234567_7_n_n_7_0_25622222212 bcast_S_S1 bcast_S_S256x2x2x2x2x2x2x2 reducesTo_S1_S_d0 h_S_ bcast_S256x2x2x2x2x2x2x2_S256x2x2x2x2x2x2x1x2_0_1_2_3_4_5_6_8 concatenates_S256x2x2x2x2x2x2x1x2_S256x2x2x2x2x2x2x1x2_S256x2x2x2x2x2x2x2x2_d7
        (W (main_v246 : DevRef τ sig)) (shapeCast S_ (extractStridedSlice S1 ![10] (W (main_arg3 : DevRef τ sig)) slices_S21_S1_10) shapeCasts_S1_S_) := by
  simp only [after_cons, after_nil]
  rfl

set_option maxHeartbeats 1600000 in
theorem gate16_arg3 (W : Valuation τ sig (Elt Ideal)) :
    after (G16 (F := Ideal)) W (main_arg3 : DevRef τ sig) = W (main_arg3 : DevRef τ sig) := by
  simp only [after_cons, after_nil]
  rfl

end Cert.TTN.KHost

end
-- ==== Proof.KHostG3.lean ====
/-
  Gates 17, 18, 19, 20, 21, 22, 23, 24 of the circuit as the host part of the kernel's program runs them on the 256 basis registers:
  for each gate, the stretch of host operations that computes it, and the fact that, from any buffer contents, the
  stretch leaves in the gate's result buffer the gate's term of the previous state (and of the parameter vector),
  and leaves the parameter vector alone.
-/
import proofs.«130987_j14276471292017_1_alg».proof.KernelIdeal
import proofs.«130987_j14276471292017_1_alg».proof.Proof.Gen.KernelIdeal
import proofs.«130987_j14276471292017_1_alg».proof.Proof.Gates
import Idealize.ShloMosaic.Lib.StableHlo.Run

set_option maxRecDepth 16384

noncomputable section

namespace Cert.TTN.KHost

open Idealize.ShloMosaic Idealize.ShloMosaic.TcCoe Idealize.SL.Sem Idealize.ShloMosaic.StableHlo
open Cert.KernelIdeal Cert.KernelIdeal.Gen

section Lists
variable {F : FTy → Type} [FloatOps F]

/-- The host operations of gate 17 (a rotation, parameter 11, axis 8). -/
abbrev G17 : List (HloOp τ sig (Elt F)) :=
  [ StableHlo.unary main_arg3 main_v268 ((extractStridedSlice S1 ![11] · slices_S21_S1_11) : (⟨S21, .f32⟩ : BufTy).Contents (Elt F) → (⟨S1, .f32⟩ : BufTy).Contents (Elt F)),
    StableHlo.reshape main_v268 main_v269 rfl shapeCasts_S1_S_,
    StableHlo.nullary main_cst_53 (constant S_ .f32 0x3F000000#32),
    StableHlo.binary main_cst_53 main_v269 main_v270 (mulf : (⟨S_, .f32⟩ : BufTy).Contents (Elt F) → (⟨S_, .f32⟩ : BufTy).Contents (Elt F) → (⟨S_, .f32⟩ : BufTy).Contents (Elt F)),
    StableHlo.unary main_v270 main_v271 (Host.cos : (⟨S_, .f32⟩ : BufTy).Contents (Elt F) → (⟨S_, .f32⟩ : BufTy).Contents (Elt F)),
    StableHlo.nullary main_cst_54 (constant S_ .f32 0x3F000000#32),
    StableHlo.binary main_cst_54 main_v269 main_v272 (mulf : (⟨S_, .f32⟩ : BufTy).Contents (Elt F) → (⟨S_, .f32⟩ : BufTy).Contents (Elt F) → (⟨S_, .f32⟩ : BufTy).Contents (Elt F)),
    StableHlo.unary main_v272 main_v273 (Host.sin : (⟨S_, .f32⟩ : BufTy).Contents (Elt F) → (⟨S_, .f32⟩ : BufTy).Contents (Elt F)),
    StableHlo.nullary main_c_55 (constantI S_ 32 0#32),
    StableHlo.TRef.nullary (.of main_call37_c : StableHlo.TRef sig ⟨S_, .i32⟩) (constantI S_ 32 0#32),
    StableHlo.TRef.binary (.of main_c_55 : StableHlo.TRef sig ⟨S_, .i32⟩) (.of main_call37_c : StableHlo.TRef sig ⟨S_, .i32⟩) (.of main_call37_v0 : StableHlo.TRef sig ⟨S_, .i1⟩) (cmpi .slt),
    StableHlo.TRef.nullary (.of main_call37_c_0 : StableHlo.TRef sig ⟨S_, .i32⟩) (constantI S_ 32 2#32),
    StableHlo.TRef.binary (.of main_c_55 : StableHlo.TRef sig ⟨S_, .i32⟩) (.of main_call37_c_0 : StableHlo.TRef sig ⟨S_, .i32⟩) (.of main_call37_v1 : StableHlo.TRef sig ⟨S_, .i32⟩) addi,
    StableHlo.TRef.ternary (.of main_call37_v0 : StableHlo.TRef sig ⟨S_, .i1⟩) (.of main_call37_v1 : StableHlo.TRef sig ⟨S_, .i32⟩) (.of main_c_55 : StableHlo.TRef sig ⟨S_, .i32⟩) (.of main_call37_v2 : StableHlo.TRef sig ⟨S_, .i32⟩) select,
    StableHlo.TRef.unary main_call37_call0.v0 (.of main_call37_v3 : StableHlo.TRef sig ⟨S1, .i32⟩) (broadcastInDim S1 ![] bcast_S_S1),
    StableHlo.TRef.nullary (.of main_call37_c_1 : StableHlo.TRef sig ⟨S1, .i32⟩) (constantI S1 32 1#32),
    StableHlo.TRef.unary (.of main_call37_v3 : StableHlo.TRef sig ⟨S1, .i32⟩) (.of main_call37_v4 : StableHlo.TRef sig ⟨S1, .i32⟩) id,
    StableHlo.TRef.nullary (.of main_call37_c_2 : StableHlo.TRef sig ⟨S_, .i32⟩) (constantI S_ 32 0#32),
    StableHlo.TRef.unary (.of main_call37_c_2 : StableHlo.TRef sig ⟨S_, .i32⟩) (.of main_call37_v5 : StableHlo.TRef sig ⟨S1, .i32⟩) (broadcastInDim S1 ![] bcast_S_S1),
    StableHlo.TRef.binary (.of main_call37_v4 : StableHlo.TRef sig ⟨S1, .i32⟩) (.of main_call37_v5 : StableHlo.TRef sig ⟨S1, .i32⟩) (.of main_call37_v6 : StableHlo.TRef sig ⟨S1, .i1⟩) (cmpi .sge),
    StableHlo.TRef.binary (.of main_call37_v4 : StableHlo.TRef sig ⟨S1, .i32⟩) (.of main_call37_c_1 : StableHlo.TRef sig ⟨S1, .i32⟩) (.of main_call37_v7 : StableHlo.TRef sig ⟨S1, .i1⟩) (cmpi .sle),
    StableHlo.TRef.binary (.of main_call37_v6 : StableHlo.TRef sig ⟨S1, .i1⟩) (.of main_call37_v7 : StableHlo.TRef sig ⟨S1, .i1⟩) (.of main_call37_v8 : StableHlo.TRef sig ⟨S1, .i1⟩) andi,
    StableHlo.TRef.nullary (.of main_call37_c_3 : StableHlo.TRef sig ⟨S_, .i1⟩) (constantI S_ 1 1#1),
    StableHlo.TRef.binary (.of main_call37_v8 : StableHlo.TRef sig ⟨S1, .i1⟩) (.of main_call37_c_3 : StableHlo.TRef sig ⟨S_, .i1⟩) (.of main_call37_v9 : StableHlo.TRef sig ⟨S_, .i1⟩) (fun x v => Host.reduce IntOp.andi x v reducesTo_S1_S_d0 h_S_),
    StableHlo.TRef.binary (.of main_v267 : StableHlo.TRef sig ⟨S256x2x2x2x2x2x2x2x2, .f32⟩) (.of main_call37_v4 : StableHlo.TRef sig ⟨S1, .i32⟩) (.of main_call37_v10 : StableHlo.TRef sig ⟨S256x2x2x2x2x2x2x2, .f32⟩) (fun x i => Host.gather gather_S256x2x2x2x2x2x2x2x2_S1_S256x2x2x2x2x2x2x2_01234567_8_n_n_8_0_25622222221 x i),
    StableHlo.TRef.unary (.of main_call37_v9 : StableHlo.TRef sig ⟨S_, .i1⟩) (.of main_call37_v11 : StableHlo.TRef sig ⟨S256x2x2x2x2x2x2x2, .i1⟩) (broadcastInDim S256x2x2x2x2x2x2x2 ![] bcast_S_S256x2x2x2x2x2x2x2),
    StableHlo.TRef.nullary (.of main_call37_cst : StableHlo.TRef sig ⟨S_, .f32⟩) (constant S_ .f32 0x7FC00000#32),
    StableHlo.TRef.unary (.of main_call37_cst : StableHlo.TRef sig ⟨S_, .f32⟩) (.of main_call37_v12 : StableHlo.TRef sig ⟨S256x2x2x2x2x2x2x2, .f32⟩) (broadcastInDim S256x2x2x2x2x2x2x2 ![] bcast_S_S256x2x2x2x2x2x2x2),
    StableHlo.TRef.ternary (.of main_call37_v11 : StableHlo.TRef sig ⟨S256x2x2x2x2x2x2x2, .i1⟩) (.of main_call37_v10 : StableHlo.TRef sig ⟨S256x2x2x2x2x2x2x2, .f32⟩) (.of main_call37_v12 : StableHlo.TRef sig ⟨S256x2x2x2x2x2x2x2, .f32⟩) (.of main_v274 : StableHlo.TRef sig ⟨S256x2x2x2x2x2x2x2, .f32⟩) select,
    StableHlo.nullary main_c_56 (constantI S_ 32 1#32),
    StableHlo.TRef.nullary (.of main_call38_c : StableHlo.TRef sig ⟨S_, .i32⟩) (constantI S_ 32 0#32),
    StableHlo.TRef.binary (.of main_c_56 : StableHlo.TRef sig ⟨S_, .i32⟩) (.of main_call38_c : StableHlo.TRef sig ⟨S_, .i32⟩) (.of main_call38_v0 : StableHlo.TRef sig ⟨S_, .i1⟩) (cmpi .slt),
    StableHlo.TRef.nullary (.of main_call38_c_0 : StableHlo.TRef sig ⟨S_, .i32⟩) (constantI S_ 32 2#32),
    StableHlo.TRef.binary (.of main_c_56 : StableHlo.TRef sig ⟨S_, .i32⟩) (.of main_call38_c_0 : StableHlo.TRef sig ⟨S_, .i32⟩) (.of main_call38_v1 : StableHlo.TRef sig ⟨S_, .i32⟩) addi,
    StableHlo.TRef.ternary (.of main_call38_v0 : StableHlo.TRef sig ⟨S_, .i1⟩) (.of main_call38_v1 : StableHlo.TRef sig ⟨S_, .i32⟩) (.of main_c_56 : StableHlo.TRef sig ⟨S_, .i32⟩) (.of main_call38_v2 : StableHlo.TRef sig ⟨S_, .i32⟩) select,
    StableHlo.TRef.unary main_call38_call0.v0 (.of main_call38_v3 : StableHlo.TRef sig ⟨S1, .i32⟩) (broadcastInDim S1 ![] bcast_S_S1),
    StableHlo.TRef.nullary (.of main_call38_c_1 : StableHlo.TRef sig ⟨S1, .i32⟩) (constantI S1 32 1#32),
    StableHlo.TRef.unary (.of main_call38_v3 : StableHlo.TRef sig ⟨S1, .i32⟩) (.of main_call38_v4 : StableHlo.TRef sig ⟨S1, .i32⟩) id,
    StableHlo.TRef.nullary (.of main_call38_c_2 : StableHlo.TRef sig ⟨S_, .i32⟩) (constantI S_ 32 0#32),
    StableHlo.TRef.unary (.of main_call38_c_2 : StableHlo.TRef sig ⟨S_, .i32⟩) (.of main_call38_v5 : StableHlo.TRef sig ⟨S1, .i32⟩) (broadcastInDim S1 ![] bcast_S_S1),
    StableHlo.TRef.binary (.of main_call38_v4 : StableHlo.TRef sig ⟨S1, .i32⟩) (.of main_call38_v5 : StableHlo.TRef sig ⟨S1, .i32⟩) (.of main_call38_v6 : StableHlo.TRef sig ⟨S1, .i1⟩) (cmpi .sge),
    StableHlo.TRef.binary (.of main_call38_v4 : StableHlo.TRef sig ⟨S1, .i32⟩) (.of main_call38_c_1 : StableHlo.TRef sig ⟨S1, .i32⟩) (.of main_call38_v7 : StableHlo.TRef sig ⟨S1, .i1⟩) (cmpi .sle),
    StableHlo.TRef.binary (.of main_call38_v6 : StableHlo.TRef sig ⟨S1, .i1⟩) (.of main_call38_v7 : StableHlo.TRef sig ⟨S1, .i1⟩) (.of main_call38_v8 : StableHlo.TRef sig ⟨S1, .i1⟩) andi,
    StableHlo.TRef.nullary (.of main_call38_c_3 : StableHlo.TRef sig ⟨S_, .i1⟩) (constantI S_ 1 1#1),
    StableHlo.TRef.binary (.of main_call38_v8 : StableHlo.TRef sig ⟨S1, .i1⟩) (.of main_call38_c_3 : StableHlo.TRef sig ⟨S_, .i1⟩) (.of main_call38_v9 : StableHlo.TRef sig ⟨S_, .i1⟩) (fun x v => Host.reduce IntOp.andi x v reducesTo_S1_S_d0 h_S_),
    StableHlo.TRef.binary (.of main_v267 : StableHlo.TRef sig ⟨S256x2x2x2x2x2x2x2x2, .f32⟩) (.of main_call38_v4 : StableHlo.TRef sig ⟨S1, .i32⟩) (.of main_call38_v10 : StableHlo.TRef sig ⟨S256x2x2x2x2x2x2x2, .f32⟩) (fun x i => Host.gather gather_S256x2x2x2x2x2x2x2x2_S1_S256x2x2x2x2x2x2x2_01234567_8_n_n_8_0_25622222221 x i),
    StableHlo.TRef.unary (.of main_call38_v9 : StableHlo.TRef sig ⟨S_, .i1⟩) (.of main_call38_v11 : StableHlo.TRef sig ⟨S256x2x2x2x2x2x2x2, .i1⟩) (broadcastInDim S256x2x2x2x2x2x2x2 ![] bcast_S_S256x2x2x2x2x2x2x2),
    StableHlo.TRef.nullary (.of main_call38_cst : StableHlo.TRef sig ⟨S_, .f32⟩) (constant S_ .f32 0x7FC00000#32),
    StableHlo.TRef.unary (.of main_call38_cst : StableHlo.TRef sig ⟨S_, .f32⟩) (.of main_call38_v12 : StableHlo.TRef sig ⟨S256x2x2x2x2x2x2x2, .f32⟩) (broadcastInDim S256x2x2x2x2x2x2x2 ![] bcast_S_S256x2x2x2x2x2x2x2),
    StableHlo.TRef.ternary (.of main_call38_v11 : StableHlo.TRef sig ⟨S256x2x2x2x2x2x2x2, .i1⟩) (.of main_call38_v10 : StableHlo.TRef sig ⟨S256x2x2x2x2x2x2x2, .f32⟩) (.of main_call38_v12 : StableHlo.TRef sig ⟨S256x2x2x2x2x2x2x2, .f32⟩) (.of main_v275 : StableHlo.TRef sig ⟨S256x2x2x2x2x2x2x2, .f32⟩) select,
    StableHlo.unary main_v271 main_v276 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v276 main_v274 main_v277 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v273 main_v278 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v278 main_v275 main_v279 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.binary main_v277 main_v279 main_v280 (subf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v273 main_v281 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v281 main_v274 main_v282 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v271 main_v283 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v283 main_v275 main_v284 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.binary main_v282 main_v284 main_v285 (addf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v280 main_v286 (broadcastInDim S256x2x2x2x2x2x2x2x1 ![0, 1, 2, 3, 4, 5, 6, 7] bcast_S256x2x2x2x2x2x2x2_S256x2x2x2x2x2x2x2x1_0_1_2_3_4_5_6_7 : (⟨S256x2x2x2x2x2x2x2, .f32⟩ : BufTy).Contents (Elt F) → (⟨S256x2x2x2x2x2x2x2x1, .f32⟩ : BufTy).Contents (Elt F)),
    StableHlo.unary main_v285 main_v287 (broadcastInDim S256x2x2x2x2x2x2x2x1 ![0, 1, 2, 3, 4, 5, 6, 7] bcast_S256x2x2x2x2x2x2x2_S256x2x2x2x2x2x2x2x1_0_1_2_3_4_5_6_7 : (⟨S256x2x2x2x2x2x2x2, .f32⟩ : BufTy).Contents (Elt F) → (⟨S256x2x2x2x2x2x2x2x1, .f32⟩ : BufTy).Contents (Elt F)),
    StableHlo.binary main_v286 main_v287 main_v288 ((fun a b => concatenate S256x2x2x2x2x2x2x2x2 8 [⟨S256x2x2x2x2x2x2x2x1, a⟩, ⟨S256x2x2x2x2x2x2x2x1, b⟩] concatenates_S256x2x2x2x2x2x2x2x1_S256x2x2x2x2x2x2x2x1_S256x2x2x2x2x2x2x2x2_d8) : (⟨S256x2x2x2x2x2x2x2x1, .f32⟩ : BufTy).Contents (Elt F) → (⟨S256x2x2x2x2x2x2x2x1, .f32⟩ : BufTy).Contents (Elt F) → (⟨S256x2x2x2x2x2x2x2x2, .f32⟩ : BufTy).Contents (Elt F)) ]

/-- The host operations of gate 18 (a controlled flip, axis 8). -/
abbrev G18 : List (HloOp τ sig (Elt F)) :=
  [ StableHlo.nullary main_c_57 (constantI S_ 32 0#32),
    StableHlo.TRef.nullary (.of main_call39_c : StableHlo.TRef sig ⟨S_, .i32⟩) (constantI S_ 32 0#32),
    StableHlo.TRef.binary (.of main_c_57 : StableHlo.TRef sig ⟨S_, .i32⟩) (.of main_call39_c : StableHlo.TRef sig ⟨S_, .i32⟩) (.of main_call39_v0 : StableHlo.TRef sig ⟨S_, .i1⟩) (cmpi .slt),
    StableHlo.TRef.nullary (.of main_call39_c_0 : StableHlo.TRef sig ⟨S_, .i32⟩) (constantI S_ 32 2#32),
    StableHlo.TRef.binary (.of main_c_57 : StableHlo.TRef sig ⟨S_, .i32⟩) (.of main_call39_c_0 : StableHlo.TRef sig ⟨S_, .i32⟩) (.of main_call39_v1 : StableHlo.TRef sig ⟨S_, .i32⟩) addi,
    StableHlo.TRef.ternary (.of main_call39_v0 : StableHlo.TRef sig ⟨S_, .i1⟩) (.of main_call39_v1 : StableHlo.TRef sig ⟨S_, .i32⟩) (.of main_c_57 : StableHlo.TRef sig ⟨S_, .i32⟩) (.of main_call39_v2 : StableHlo.TRef sig ⟨S_, .i32⟩) select,
    StableHlo.TRef.unary main_call39_call0.v0 (.of main_call39_v3 : StableHlo.TRef sig ⟨S1, .i32⟩) (broadcastInDim S1 ![] bcast_S_S1),
    StableHlo.TRef.nullary (.of main_call39_c_1 : StableHlo.TRef sig ⟨S1, .i32⟩) (constantI S1 32 1#32),
    StableHlo.TRef.unary (.of main_call39_v3 : StableHlo.TRef sig ⟨S1, .i32⟩) (.of main_call39_v4 : StableHlo.TRef sig ⟨S1, .i32⟩) id,
    StableHlo.TRef.nullary (.of main_call39_c_2 : StableHlo.TRef sig ⟨S_, .i32⟩) (constantI S_ 32 0#32),
    StableHlo.TRef.unary (.of main_call39_c_2 : StableHlo.TRef sig ⟨S_, .i32⟩) (.of main_call39_v5 : StableHlo.TRef sig ⟨S1, .i32⟩) (broadcastInDim S1 ![] bcast_S_S1),
    StableHlo.TRef.binary (.of main_call39_v4 : StableHlo.TRef sig ⟨S1, .i32⟩) (.of main_call39_v5 : StableHlo.TRef sig ⟨S1, .i32⟩) (.of main_call39_v6 : StableHlo.TRef sig ⟨S1, .i1⟩) (cmpi .sge),
    StableHlo.TRef.binary (.of main_call39_v4 : StableHlo.TRef sig ⟨S1, .i32⟩) (.of main_call39_c_1 : StableHlo.TRef sig ⟨S1, .i32⟩) (.of main_call39_v7 : StableHlo.TRef sig ⟨S1, .i1⟩) (cmpi .sle),
    StableHlo.TRef.binary (.of main_call39_v6 : StableHlo.TRef sig ⟨S1, .i1⟩) (.of main_call39_v7 : StableHlo.TRef sig ⟨S1, .i1⟩) (.of main_call39_v8 : StableHlo.TRef sig ⟨S1, .i1⟩) andi,
    StableHlo.TRef.nullary (.of main_call39_c_3 : StableHlo.TRef sig ⟨S_, .i1⟩) (constantI S_ 1 1#1),
    StableHlo.TRef.binary (.of main_call39_v8 : StableHlo.TRef sig ⟨S1, .i1⟩) (.of main_call39_c_3 : StableHlo.TRef sig ⟨S_, .i1⟩) (.of main_call39_v9 : StableHlo.TRef sig ⟨S_, .i1⟩) (fun x v => Host.reduce IntOp.andi x v reducesTo_S1_S_d0 h_S_),
    StableHlo.TRef.binary (.of main_v288 : StableHlo.TRef sig ⟨S256x2x2x2x2x2x2x2x2, .f32⟩) (.of main_call39_v4 : StableHlo.TRef sig ⟨S1, .i32⟩) (.of main_call39_v10 : StableHlo.TRef sig ⟨S256x2x2x2x2x2x2x2, .f32⟩) (fun x i => Host.gather gather_S256x2x2x2x2x2x2x2x2_S1_S256x2x2x2x2x2x2x2_01234567_8_n_n_8_0_25622222221 x i),
    StableHlo.TRef.unary (.of main_call39_v9 : StableHlo.TRef sig ⟨S_, .i1⟩) (.of main_call39_v11 : StableHlo.TRef sig ⟨S256x2x2x2x2x2x2x2, .i1⟩) (broadcastInDim S256x2x2x2x2x2x2x2 ![] bcast_S_S256x2x2x2x2x2x2x2),
    StableHlo.TRef.nullary (.of main_call39_cst : StableHlo.TRef sig ⟨S_, .f32⟩) (constant S_ .f32 0x7FC00000#32),
    StableHlo.TRef.unary (.of main_call39_cst : StableHlo.TRef sig ⟨S_, .f32⟩) (.of main_call39_v12 : StableHlo.TRef sig ⟨S256x2x2x2x2x2x2x2, .f32⟩) (broadcastInDim S256x2x2x2x2x2x2x2 ![] bcast_S_S256x2x2x2x2x2x2x2),
    StableHlo.TRef.ternary (.of main_call39_v11 : StableHlo.TRef sig ⟨S256x2x2x2x2x2x2x2, .i1⟩) (.of main_call39_v10 : StableHlo.TRef sig ⟨S256x2x2x2x2x2x2x2, .f32⟩) (.of main_call39_v12 : StableHlo.TRef sig ⟨S256x2x2x2x2x2x2x2, .f32⟩) (.of main_v289 : StableHlo.TRef sig ⟨S256x2x2x2x2x2x2x2, .f32⟩) select,
    StableHlo.nullary main_c_58 (constantI S_ 32 1#32),
    StableHlo.TRef.nullary (.of main_call40_c : StableHlo.TRef sig ⟨S_, .i32⟩) (constantI S_ 32 0#32),
    StableHlo.TRef.binary (.of main_c_58 : StableHlo.TRef sig ⟨S_, .i32⟩) (.of main_call40_c : StableHlo.TRef sig ⟨S_, .i32⟩) (.of main_call40_v0 : StableHlo.TRef sig ⟨S_, .i1⟩) (cmpi .slt),
    StableHlo.TRef.nullary (.of main_call40_c_0 : StableHlo.TRef sig ⟨S_, .i32⟩) (constantI S_ 32 2#32),
    StableHlo.TRef.binary (.of main_c_58 : StableHlo.TRef sig ⟨S_, .i32⟩) (.of main_call40_c_0 : StableHlo.TRef sig ⟨S_, .i32⟩) (.of main_call40_v1 : StableHlo.TRef sig ⟨S_, .i32⟩) addi,
    StableHlo.TRef.ternary (.of main_call40_v0 : StableHlo.TRef sig ⟨S_, .i1⟩) (.of main_call40_v1 : StableHlo.TRef sig ⟨S_, .i32⟩) (.of main_c_58 : StableHlo.TRef sig ⟨S_, .i32⟩) (.of main_call40_v2 : StableHlo.TRef sig ⟨S_, .i32⟩) select,
    StableHlo.TRef.unary main_call40_call0.v0 (.of main_call40_v3 : StableHlo.TRef sig ⟨S1, .i32⟩) (broadcastInDim S1 ![] bcast_S_S1),
    StableHlo.TRef.nullary (.of main_call40_c_1 : StableHlo.TRef sig ⟨S1, .i32⟩) (constantI S1 32 1#32),
    StableHlo.TRef.unary (.of main_call40_v3 : StableHlo.TRef sig ⟨S1, .i32⟩) (.of main_call40_v4 : StableHlo.TRef sig ⟨S1, .i32⟩) id,
    StableHlo.TRef.nullary (.of main_call40_c_2 : StableHlo.TRef sig ⟨S_, .i32⟩) (constantI S_ 32 0#32),
    StableHlo.TRef.unary (.of main_call40_c_2 : StableHlo.TRef sig ⟨S_, .i32⟩) (.of main_call40_v5 : StableHlo.TRef sig ⟨S1, .i32⟩) (broadcastInDim S1 ![] bcast_S_S1),
    StableHlo.TRef.binary (.of main_call40_v4 : StableHlo.TRef sig ⟨S1, .i32⟩) (.of main_call40_v5 : StableHlo.TRef sig ⟨S1, .i32⟩) (.of main_call40_v6 : StableHlo.TRef sig ⟨S1, .i1⟩) (cmpi .sge),
    StableHlo.TRef.binary (.of main_call40_v4 : StableHlo.TRef sig ⟨S1, .i32⟩) (.of main_call40_c_1 : StableHlo.TRef sig ⟨S1, .i32⟩) (.of main_call40_v7 : StableHlo.TRef sig ⟨S1, .i1⟩) (cmpi .sle),
    StableHlo.TRef.binary (.of main_call40_v6 : StableHlo.TRef sig ⟨S1, .i1⟩) (.of main_call40_v7 : StableHlo.TRef sig ⟨S1, .i1⟩) (.of main_call40_v8 : StableHlo.TRef sig ⟨S1, .i1⟩) andi,
    StableHlo.TRef.nullary (.of main_call40_c_3 : StableHlo.TRef sig ⟨S_, .i1⟩) (constantI S_ 1 1#1),
    StableHlo.TRef.binary (.of main_call40_v8 : StableHlo.TRef sig ⟨S1, .i1⟩) (.of main_call40_c_3 : StableHlo.TRef sig ⟨S_, .i1⟩) (.of main_call40_v9 : StableHlo.TRef sig ⟨S_, .i1⟩) (fun x v => Host.reduce IntOp.andi x v reducesTo_S1_S_d0 h_S_),
    StableHlo.TRef.binary (.of main_v288 : StableHlo.TRef sig ⟨S256x2x2x2x2x2x2x2x2, .f32⟩) (.of main_call40_v4 : StableHlo.TRef sig ⟨S1, .i32⟩) (.of main_call40_v10 : StableHlo.TRef sig ⟨S256x2x2x2x2x2x2x2, .f32⟩) (fun x i => Host.gather gather_S256x2x2x2x2x2x2x2x2_S1_S256x2x2x2x2x2x2x2_01234567_8_n_n_8_0_25622222221 x i),
    StableHlo.TRef.unary (.of main_call40_v9 : StableHlo.TRef sig ⟨S_, .i1⟩) (.of main_call40_v11 : StableHlo.TRef sig ⟨S256x2x2x2x2x2x2x2, .i1⟩) (broadcastInDim S256x2x2x2x2x2x2x2 ![] bcast_S_S256x2x2x2x2x2x2x2),
    StableHlo.TRef.nullary (.of main_call40_cst : StableHlo.TRef sig ⟨S_, .f32⟩) (constant S_ .f32 0x7FC00000#32),
    StableHlo.TRef.unary (.of main_call40_cst : StableHlo.TRef sig ⟨S_, .f32⟩) (.of main_call40_v12 : StableHlo.TRef sig ⟨S256x2x2x2x2x2x2x2, .f32⟩) (broadcastInDim S256x2x2x2x2x2x2x2 ![] bcast_S_S256x2x2x2x2x2x2x2),
    StableHlo.TRef.ternary (.of main_call40_v11 : StableHlo.TRef sig ⟨S256x2x2x2x2x2x2x2, .i1⟩) (.of main_call40_v10 : StableHlo.TRef sig ⟨S256x2x2x2x2x2x2x2, .f32⟩) (.of main_call40_v12 : StableHlo.TRef sig ⟨S256x2x2x2x2x2x2x2, .f32⟩) (.of main_v290 : StableHlo.TRef sig ⟨S256x2x2x2x2x2x2x2, .f32⟩) select,
    StableHlo.TRef.unary (.of main_v290 : StableHlo.TRef sig ⟨S256x2x2x2x2x2x2x2, .f32⟩) (.of main_v291 : StableHlo.TRef sig ⟨S256x2x2x2x2x2x2x2, .f32⟩) (Host.reverse [7]),
    StableHlo.unary main_v289 main_v292 (broadcastInDim S256x2x2x2x2x2x2x2x1 ![0, 1, 2, 3, 4, 5, 6, 7] bcast_S256x2x2x2x2x2x2x2_S256x2x2x2x2x2x2x2x1_0_1_2_3_4_5_6_7 : (⟨S256x2x2x2x2x2x2x2, .f32⟩ : BufTy).Contents (Elt F) → (⟨S256x2x2x2x2x2x2x2x1, .f32⟩ : BufTy).Contents (Elt F)),
    StableHlo.unary main_v291 main_v293 (broadcastInDim S256x2x2x2x2x2x2x2x1 ![0, 1, 2, 3, 4, 5, 6, 7] bcast_S256x2x2x2x2x2x2x2_S256x2x2x2x2x2x2x2x1_0_1_2_3_4_5_6_7 : (⟨S256x2x2x2x2x2x2x2, .f32⟩ : BufTy).Contents (Elt F) → (⟨S256x2x2x2x2x2x2x2x1, .f32⟩ : BufTy).Contents (Elt F)),
    StableHlo.binary main_v292 main_v293 main_v294 ((fun a b => concatenate S256x2x2x2x2x2x2x2x2 8 [⟨S256x2x2x2x2x2x2x2x1, a⟩, ⟨S256x2x2x2x2x2x2x2x1, b⟩] concatenates_S256x2x2x2x2x2x2x2x1_S256x2x2x2x2x2x2x2x1_S256x2x2x2x2x2x2x2x2_d8) : (⟨S256x2x2x2x2x2x2x2x1, .f32⟩ : BufTy).Contents (Elt F) → (⟨S256x2x2x2x2x2x2x2x1, .f32⟩ : BufTy).Contents (Elt F) → (⟨S256x2x2x2x2x2x2x2x2, .f32⟩ : BufTy).Contents (Elt F)) ]

/-- The host operations of gate 19 (a rotation, parameter 12, axis 3). -/
abbrev G19 : List (HloOp τ sig (Elt F)) :=
  [ StableHlo.unary main_arg3 main_v295 ((extractStridedSlice S1 ![12] · slices_S21_S1_12) : (⟨S21, .f32⟩ : BufTy).Contents (Elt F) → (⟨S1, .f32⟩ : BufTy).Contents (Elt F)),
    StableHlo.reshape main_v295 main_v296 rfl shapeCasts_S1_S_,
    StableHlo.nullary main_cst_59 (constant S_ .f32 0x3F000000#32),
    StableHlo.binary main_cst_59 main_v296 main_v297 (mulf : (⟨S_, .f32⟩ : BufTy).Contents (Elt F) → (⟨S_, .f32⟩ : BufTy).Contents (Elt F) → (⟨S_, .f32⟩ : BufTy).Contents (Elt F)),
    StableHlo.unary main_v297 main_v298 (Host.cos : (⟨S_, .f32⟩ : BufTy).Contents (Elt F) → (⟨S_, .f32⟩ : BufTy).Contents (Elt F)),
    StableHlo.nullary main_cst_60 (constant S_ .f32 0x3F000000#32),
    StableHlo.binary main_cst_60 main_v296 main_v299 (mulf : (⟨S_, .f32⟩ : BufTy).Contents (Elt F) → (⟨S_, .f32⟩ : BufTy).Contents (Elt F) → (⟨S_, .f32⟩ : BufTy).Contents (Elt F)),
    StableHlo.unary main_v299 main_v300 (Host.sin : (⟨S_, .f32⟩ : BufTy).Contents (Elt F) → (⟨S_, .f32⟩ : BufTy).Contents (Elt F)),
    StableHlo.nullary main_c_61 (constantI S_ 32 0#32),
    StableHlo.TRef.nullary (.of main_call42_c : StableHlo.TRef sig ⟨S_, .i32⟩) (constantI S_ 32 0#32),
    StableHlo.TRef.binary (.of main_c_61 : StableHlo.TRef sig ⟨S_, .i32⟩) (.of main_call42_c : StableHlo.TRef sig ⟨S_, .i32⟩) (.of main_call42_v0 : StableHlo.TRef sig ⟨S_, .i1⟩) (cmpi .slt),
    StableHlo.TRef.nullary (.of main_call42_c_0 : StableHlo.TRef sig ⟨S_, .i32⟩) (constantI S_ 32 2#32),
    StableHlo.TRef.binary (.of main_c_61 : StableHlo.TRef sig ⟨S_, .i32⟩) (.of main_call42_c_0 : StableHlo.TRef sig ⟨S_, .i32⟩) (.of main_call42_v1 : StableHlo.TRef sig ⟨S_, .i32⟩) addi,
    StableHlo.TRef.ternary (.of main_call42_v0 : StableHlo.TRef sig ⟨S_, .i1⟩) (.of main_call42_v1 : StableHlo.TRef sig ⟨S_, .i32⟩) (.of main_c_61 : StableHlo.TRef sig ⟨S_, .i32⟩) (.of main_call42_v2 : StableHlo.TRef sig ⟨S_, .i32⟩) select,
    StableHlo.TRef.unary main_call42_call0.v0 (.of main_call42_v3 : StableHlo.TRef sig ⟨S1, .i32⟩) (broadcastInDim S1 ![] bcast_S_S1),
    StableHlo.TRef.nullary (.of main_call42_c_1 : StableHlo.TRef sig ⟨S1, .i32⟩) (constantI S1 32 1#32),
    StableHlo.TRef.unary (.of main_call42_v3 : StableHlo.TRef sig ⟨S1, .i32⟩) (.of main_call42_v4 : StableHlo.TRef sig ⟨S1, .i32⟩) id,
    StableHlo.TRef.nullary (.of main_call42_c_2 : StableHlo.TRef sig ⟨S_, .i32⟩) (constantI S_ 32 0#32),
    StableHlo.TRef.unary (.of main_call42_c_2 : StableHlo.TRef sig ⟨S_, .i32⟩) (.of main_call42_v5 : StableHlo.TRef sig ⟨S1, .i32⟩) (broadcastInDim S1 ![] bcast_S_S1),
    StableHlo.TRef.binary (.of main_call42_v4 : StableHlo.TRef sig ⟨S1, .i32⟩) (.of main_call42_v5 : StableHlo.TRef sig ⟨S1, .i32⟩) (.of main_call42_v6 : StableHlo.TRef sig ⟨S1, .i1⟩) (cmpi .sge),
    StableHlo.TRef.binary (.of main_call42_v4 : StableHlo.TRef sig ⟨S1, .i32⟩) (.of main_call42_c_1 : StableHlo.TRef sig ⟨S1, .i32⟩) (.of main_call42_v7 : StableHlo.TRef sig ⟨S1, .i1⟩) (cmpi .sle),
    StableHlo.TRef.binary (.of main_call42_v6 : StableHlo.TRef sig ⟨S1, .i1⟩) (.of main_call42_v7 : StableHlo.TRef sig ⟨S1, .i1⟩) (.of main_call42_v8 : StableHlo.TRef sig ⟨S1, .i1⟩) andi,
    StableHlo.TRef.nullary (.of main_call42_c_3 : StableHlo.TRef sig ⟨S_, .i1⟩) (constantI S_ 1 1#1),
    StableHlo.TRef.binary (.of main_call42_v8 : StableHlo.TRef sig ⟨S1, .i1⟩) (.of main_call42_c_3 : StableHlo.TRef sig ⟨S_, .i1⟩) (.of main_call42_v9 : StableHlo.TRef sig ⟨S_, .i1⟩) (fun x v => Host.reduce IntOp.andi x v reducesTo_S1_S_d0 h_S_),
    StableHlo.TRef.binary (.of main_v294 : StableHlo.TRef sig ⟨S256x2x2x2x2x2x2x2x2, .f32⟩) (.of main_call42_v4 : StableHlo.TRef sig ⟨S1, .i32⟩) (.of main_call42_v10 : StableHlo.TRef sig ⟨S256x2x2x2x2x2x2x2, .f32⟩) (fun x i => Host.gather gather_S256x2x2x2x2x2x2x2x2_S1_S256x2x2x2x2x2x2x2_01234567_3_n_n_3_0_25622122222 x i),
    StableHlo.TRef.unary (.of main_call42_v9 : StableHlo.TRef sig ⟨S_, .i1⟩) (.of main_call42_v11 : StableHlo.TRef sig ⟨S256x2x2x2x2x2x2x2, .i1⟩) (broadcastInDim S256x2x2x2x2x2x2x2 ![] bcast_S_S256x2x2x2x2x2x2x2),
    StableHlo.TRef.nullary (.of main_call42_cst : StableHlo.TRef sig ⟨S_, .f32⟩) (constant S_ .f32 0x7FC00000#32),
    StableHlo.TRef.unary (.of main_call42_cst : StableHlo.TRef sig ⟨S_, .f32⟩) (.of main_call42_v12 : StableHlo.TRef sig ⟨S256x2x2x2x2x2x2x2, .f32⟩) (broadcastInDim S256x2x2x2x2x2x2x2 ![] bcast_S_S256x2x2x2x2x2x2x2),
    StableHlo.TRef.ternary (.of main_call42_v11 : StableHlo.TRef sig ⟨S256x2x2x2x2x2x2x2, .i1⟩) (.of main_call42_v10 : StableHlo.TRef sig ⟨S256x2x2x2x2x2x2x2, .f32⟩) (.of main_call42_v12 : StableHlo.TRef sig ⟨S256x2x2x2x2x2x2x2, .f32⟩) (.of main_v301 : StableHlo.TRef sig ⟨S256x2x2x2x2x2x2x2, .f32⟩) select,
    StableHlo.nullary main_c_62 (constantI S_ 32 1#32),
    StableHlo.TRef.nullary (.of main_call43_c : StableHlo.TRef sig ⟨S_, .i32⟩) (constantI S_ 32 0#32),
    StableHlo.TRef.binary (.of main_c_62 : StableHlo.TRef sig ⟨S_, .i32⟩) (.of main_call43_c : StableHlo.TRef sig ⟨S_, .i32⟩) (.of main_call43_v0 : StableHlo.TRef sig ⟨S_, .i1⟩) (cmpi .slt),
    StableHlo.TRef.nullary (.of main_call43_c_0 : StableHlo.TRef sig ⟨S_, .i32⟩) (constantI S_ 32 2#32),
    StableHlo.TRef.binary (.of main_c_62 : StableHlo.TRef sig ⟨S_, .i32⟩) (.of main_call43_c_0 : StableHlo.TRef sig ⟨S_, .i32⟩) (.of main_call43_v1 : StableHlo.TRef sig ⟨S_, .i32⟩) addi,
    StableHlo.TRef.ternary (.of main_call43_v0 : StableHlo.TRef sig ⟨S_, .i1⟩) (.of main_call43_v1 : StableHlo.TRef sig ⟨S_, .i32⟩) (.of main_c_62 : StableHlo.TRef sig ⟨S_, .i32⟩) (.of main_call43_v2 : StableHlo.TRef sig ⟨S_, .i32⟩) select,
    StableHlo.TRef.unary main_call43_call0.v0 (.of main_call43_v3 : StableHlo.TRef sig ⟨S1, .i32⟩) (broadcastInDim S1 ![] bcast_S_S1),
    StableHlo.TRef.nullary (.of main_call43_c_1 : StableHlo.TRef sig ⟨S1, .i32⟩) (constantI S1 32 1#32),
    StableHlo.TRef.unary (.of main_call43_v3 : StableHlo.TRef sig ⟨S1, .i32⟩) (.of main_call43_v4 : StableHlo.TRef sig ⟨S1, .i32⟩) id,
    StableHlo.TRef.nullary (.of main_call43_c_2 : StableHlo.TRef sig ⟨S_, .i32⟩) (constantI S_ 32 0#32),
    StableHlo.TRef.unary (.of main_call43_c_2 : StableHlo.TRef sig ⟨S_, .i32⟩) (.of main_call43_v5 : StableHlo.TRef sig ⟨S1, .i32⟩) (broadcastInDim S1 ![] bcast_S_S1),
    StableHlo.TRef.binary (.of main_call43_v4 : StableHlo.TRef sig ⟨S1, .i32⟩) (.of main_call43_v5 : StableHlo.TRef sig ⟨S1, .i32⟩) (.of main_call43_v6 : StableHlo.TRef sig ⟨S1, .i1⟩) (cmpi .sge),
    StableHlo.TRef.binary (.of main_call43_v4 : StableHlo.TRef sig ⟨S1, .i32⟩) (.of main_call43_c_1 : StableHlo.TRef sig ⟨S1, .i32⟩) (.of main_call43_v7 : StableHlo.TRef sig ⟨S1, .i1⟩) (cmpi .sle),
    StableHlo.TRef.binary (.of main_call43_v6 : StableHlo.TRef sig ⟨S1, .i1⟩) (.of main_call43_v7 : StableHlo.TRef sig ⟨S1, .i1⟩) (.of main_call43_v8 : StableHlo.TRef sig ⟨S1, .i1⟩) andi,
    StableHlo.TRef.nullary (.of main_call43_c_3 : StableHlo.TRef sig ⟨S_, .i1⟩) (constantI S_ 1 1#1),
    StableHlo.TRef.binary (.of main_call43_v8 : StableHlo.TRef sig ⟨S1, .i1⟩) (.of main_call43_c_3 : StableHlo.TRef sig ⟨S_, .i1⟩) (.of main_call43_v9 : StableHlo.TRef sig ⟨S_, .i1⟩) (fun x v => Host.reduce IntOp.andi x v reducesTo_S1_S_d0 h_S_),
    StableHlo.TRef.binary (.of main_v294 : StableHlo.TRef sig ⟨S256x2x2x2x2x2x2x2x2, .f32⟩) (.of main_call43_v4 : StableHlo.TRef sig ⟨S1, .i32⟩) (.of main_call43_v10 : StableHlo.TRef sig ⟨S256x2x2x2x2x2x2x2, .f32⟩) (fun x i => Host.gather gather_S256x2x2x2x2x2x2x2x2_S1_S256x2x2x2x2x2x2x2_01234567_3_n_n_3_0_25622122222 x i),
    StableHlo.TRef.unary (.of main_call43_v9 : StableHlo.TRef sig ⟨S_, .i1⟩) (.of main_call43_v11 : StableHlo.TRef sig ⟨S256x2x2x2x2x2x2x2, .i1⟩) (broadcastInDim S256x2x2x2x2x2x2x2 ![] bcast_S_S256x2x2x2x2x2x2x2),
    StableHlo.TRef.nullary (.of main_call43_cst : StableHlo.TRef sig ⟨S_, .f32⟩) (constant S_ .f32 0x7FC00000#32),
    StableHlo.TRef.unary (.of main_call43_cst : StableHlo.TRef sig ⟨S_, .f32⟩) (.of main_call43_v12 : StableHlo.TRef sig ⟨S256x2x2x2x2x2x2x2, .f32⟩) (broadcastInDim S256x2x2x2x2x2x2x2 ![] bcast_S_S256x2x2x2x2x2x2x2),
    StableHlo.TRef.ternary (.of main_call43_v11 : StableHlo.TRef sig ⟨S256x2x2x2x2x2x2x2, .i1⟩) (.of main_call43_v10 : StableHlo.TRef sig ⟨S256x2x2x2x2x2x2x2, .f32⟩) (.of main_call43_v12 : StableHlo.TRef sig ⟨S256x2x2x2x2x2x2x2, .f32⟩) (.of main_v302 : StableHlo.TRef sig ⟨S256x2x2x2x2x2x2x2, .f32⟩) select,
    StableHlo.unary main_v298 main_v303 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v303 main_v301 main_v304 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v300 main_v305 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v305 main_v302 main_v306 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.binary main_v304 main_v306 main_v307 (subf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v300 main_v308 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v308 main_v301 main_v309 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v298 main_v310 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v310 main_v302 main_v311 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.binary main_v309 main_v311 main_v312 (addf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v307 main_v313 (broadcastInDim S256x2x2x1x2x2x2x2x2 ![0, 1, 2, 4, 5, 6, 7, 8] bcast_S256x2x2x2x2x2x2x2_S256x2x2x1x2x2x2x2x2_0_1_2_4_5_6_7_8 : (⟨S256x2x2x2x2x2x2x2, .f32⟩ : BufTy).Contents (Elt F) → (⟨S256x2x2x1x2x2x2x2x2, .f32⟩ : BufTy).Contents (Elt F)),
    StableHlo.unary main_v312 main_v314 (broadcastInDim S256x2x2x1x2x2x2x2x2 ![0, 1, 2, 4, 5, 6, 7, 8] bcast_S256x2x2x2x2x2x2x2_S256x2x2x1x2x2x2x2x2_0_1_2_4_5_6_7_8 : (⟨S256x2x2x2x2x2x2x2, .f32⟩ : BufTy).Contents (Elt F) → (⟨S256x2x2x1x2x2x2x2x2, .f32⟩ : BufTy).Contents (Elt F)),
    StableHlo.binary main_v313 main_v314 main_v315 ((fun a b => concatenate S256x2x2x2x2x2x2x2x2 3 [⟨S256x2x2x1x2x2x2x2x2, a⟩, ⟨S256x2x2x1x2x2x2x2x2, b⟩] concatenates_S256x2x2x1x2x2x2x2x2_S256x2x2x1x2x2x2x2x2_S256x2x2x2x2x2x2x2x2_d3) : (⟨S256x2x2x1x2x2x2x2x2, .f32⟩ : BufTy).Contents (Elt F) → (⟨S256x2x2x1x2x2x2x2x2, .f32⟩ : BufTy).Contents (Elt F) → (⟨S256x2x2x2x2x2x2x2x2, .f32⟩ : BufTy).Contents (Elt F)) ]

/-- The host operations of gate 20 (a rotation, parameter 13, axis 6). -/
abbrev G20 : List (HloOp τ sig (Elt F)) :=
  [ StableHlo.unary main_arg3 main_v316 ((extractStridedSlice S1 ![13] · slices_S21_S1_13) : (⟨S21, .f32⟩ : BufTy).Contents (Elt F) → (⟨S1, .f32⟩ : BufTy).Contents (Elt F)),
    StableHlo.reshape main_v316 main_v317 rfl shapeCasts_S1_S_,
    StableHlo.nullary main_cst_63 (constant S_ .f32 0x3F000000#32),
    StableHlo.binary main_cst_63 main_v317 main_v318 (mulf : (⟨S_, .f32⟩ : BufTy).Contents (Elt F) → (⟨S_, .f32⟩ : BufTy).Contents (Elt F) → (⟨S_, .f32⟩ : BufTy).Contents (Elt F)),
    StableHlo.unary main_v318 main_v319 (Host.cos : (⟨S_, .f32⟩ : BufTy).Contents (Elt F) → (⟨S_, .f32⟩ : BufTy).Contents (Elt F)),
    StableHlo.nullary main_cst_64 (constant S_ .f32 0x3F000000#32),
    StableHlo.binary main_cst_64 main_v317 main_v320 (mulf : (⟨S_, .f32⟩ : BufTy).Contents (Elt F) → (⟨S_, .f32⟩ : BufTy).Contents (Elt F) → (⟨S_, .f32⟩ : BufTy).Contents (Elt F)),
    StableHlo.unary main_v320 main_v321 (Host.sin : (⟨S_, .f32⟩ : BufTy).Contents (Elt F) → (⟨S_, .f32⟩ : BufTy).Contents (Elt F)),
    StableHlo.nullary main_c_65 (constantI S_ 32 0#32),
    StableHlo.TRef.nullary (.of main_call44_c : StableHlo.TRef sig ⟨S_, .i32⟩) (constantI S_ 32 0#32),
    StableHlo.TRef.binary (.of main_c_65 : StableHlo.TRef sig ⟨S_, .i32⟩) (.of main_call44_c : StableHlo.TRef sig ⟨S_, .i32⟩) (.of main_call44_v0 : StableHlo.TRef sig ⟨S_, .i1⟩) (cmpi .slt),
    StableHlo.TRef.nullary (.of main_call44_c_0 : StableHlo.TRef sig ⟨S_, .i32⟩) (constantI S_ 32 2#32),
    StableHlo.TRef.binary (.of main_c_65 : StableHlo.TRef sig ⟨S_, .i32⟩) (.of main_call44_c_0 : StableHlo.TRef sig ⟨S_, .i32⟩) (.of main_call44_v1 : StableHlo.TRef sig ⟨S_, .i32⟩) addi,
    StableHlo.TRef.ternary (.of main_call44_v0 : StableHlo.TRef sig ⟨S_, .i1⟩) (.of main_call44_v1 : StableHlo.TRef sig ⟨S_, .i32⟩) (.of main_c_65 : StableHlo.TRef sig ⟨S_, .i32⟩) (.of main_call44_v2 : StableHlo.TRef sig ⟨S_, .i32⟩) select,
    StableHlo.TRef.unary main_call44_call0.v0 (.of main_call44_v3 : StableHlo.TRef sig ⟨S1, .i32⟩) (broadcastInDim S1 ![] bcast_S_S1),
    StableHlo.TRef.nullary (.of main_call44_c_1 : StableHlo.TRef sig ⟨S1, .i32⟩) (constantI S1 32 1#32),
    StableHlo.TRef.unary (.of main_call44_v3 : StableHlo.TRef sig ⟨S1, .i32⟩) (.of main_call44_v4 : StableHlo.TRef sig ⟨S1, .i32⟩) id,
    StableHlo.TRef.nullary (.of main_call44_c_2 : StableHlo.TRef sig ⟨S_, .i32⟩) (constantI S_ 32 0#32),
    StableHlo.TRef.unary (.of main_call44_c_2 : StableHlo.TRef sig ⟨S_, .i32⟩) (.of main_call44_v5 : StableHlo.TRef sig ⟨S1, .i32⟩) (broadcastInDim S1 ![] bcast_S_S1),
    StableHlo.TRef.binary (.of main_call44_v4 : StableHlo.TRef sig ⟨S1, .i32⟩) (.of main_call44_v5 : StableHlo.TRef sig ⟨S1, .i32⟩) (.of main_call44_v6 : StableHlo.TRef sig ⟨S1, .i1⟩) (cmpi .sge),
    StableHlo.TRef.binary (.of main_call44_v4 : StableHlo.TRef sig ⟨S1, .i32⟩) (.of main_call44_c_1 : StableHlo.TRef sig ⟨S1, .i32⟩) (.of main_call44_v7 : StableHlo.TRef sig ⟨S1, .i1⟩) (cmpi .sle),
    StableHlo.TRef.binary (.of main_call44_v6 : StableHlo.TRef sig ⟨S1, .i1⟩) (.of main_call44_v7 : StableHlo.TRef sig ⟨S1, .i1⟩) (.of main_call44_v8 : StableHlo.TRef sig ⟨S1, .i1⟩) andi,
    StableHlo.TRef.nullary (.of main_call44_c_3 : StableHlo.TRef sig ⟨S_, .i1⟩) (constantI S_ 1 1#1),
    StableHlo.TRef.binary (.of main_call44_v8 : StableHlo.TRef sig ⟨S1, .i1⟩) (.of main_call44_c_3 : StableHlo.TRef sig ⟨S_, .i1⟩) (.of main_call44_v9 : StableHlo.TRef sig ⟨S_, .i1⟩) (fun x v => Host.reduce IntOp.andi x v reducesTo_S1_S_d0 h_S_),
    StableHlo.TRef.binary (.of main_v315 : StableHlo.TRef sig ⟨S256x2x2x2x2x2x2x2x2, .f32⟩) (.of main_call44_v4 : StableHlo.TRef sig ⟨S1, .i32⟩) (.of main_call44_v10 : StableHlo.TRef sig ⟨S256x2x2x2x2x2x2x2, .f32⟩) (fun x i => Host.gather gather_S256x2x2x2x2x2x2x2x2_S1_S256x2x2x2x2x2x2x2_01234567_6_n_n_6_0_25622222122 x i),
    StableHlo.TRef.unary (.of main_call44_v9 : StableHlo.TRef sig ⟨S_, .i1⟩) (.of main_call44_v11 : StableHlo.TRef sig ⟨S256x2x2x2x2x2x2x2, .i1⟩) (broadcastInDim S256x2x2x2x2x2x2x2 ![] bcast_S_S256x2x2x2x2x2x2x2),
    StableHlo.TRef.nullary (.of main_call44_cst : StableHlo.TRef sig ⟨S_, .f32⟩) (constant S_ .f32 0x7FC00000#32),
    StableHlo.TRef.unary (.of main_call44_cst : StableHlo.TRef sig ⟨S_, .f32⟩) (.of main_call44_v12 : StableHlo.TRef sig ⟨S256x2x2x2x2x2x2x2, .f32⟩) (broadcastInDim S256x2x2x2x2x2x2x2 ![] bcast_S_S256x2x2x2x2x2x2x2),
    StableHlo.TRef.ternary (.of main_call44_v11 : StableHlo.TRef sig ⟨S256x2x2x2x2x2x2x2, .i1⟩) (.of main_call44_v10 : StableHlo.TRef sig ⟨S256x2x2x2x2x2x2x2, .f32⟩) (.of main_call44_v12 : StableHlo.TRef sig ⟨S256x2x2x2x2x2x2x2, .f32⟩) (.of main_v322 : StableHlo.TRef sig ⟨S256x2x2x2x2x2x2x2, .f32⟩) select,
    StableHlo.nullary main_c_66 (constantI S_ 32 1#32),
    StableHlo.TRef.nullary (.of main_call45_c : StableHlo.TRef sig ⟨S_, .i32⟩) (constantI S_ 32 0#32),
    StableHlo.TRef.binary (.of main_c_66 : StableHlo.TRef sig ⟨S_, .i32⟩) (.of main_call45_c : StableHlo.TRef sig ⟨S_, .i32⟩) (.of main_call45_v0 : StableHlo.TRef sig ⟨S_, .i1⟩) (cmpi .slt),
    StableHlo.TRef.nullary (.of main_call45_c_0 : StableHlo.TRef sig ⟨S_, .i32⟩) (constantI S_ 32 2#32),
    StableHlo.TRef.binary (.of main_c_66 : StableHlo.TRef sig ⟨S_, .i32⟩) (.of main_call45_c_0 : StableHlo.TRef sig ⟨S_, .i32⟩) (.of main_call45_v1 : StableHlo.TRef sig ⟨S_, .i32⟩) addi,
    StableHlo.TRef.ternary (.of main_call45_v0 : StableHlo.TRef sig ⟨S_, .i1⟩) (.of main_call45_v1 : StableHlo.TRef sig ⟨S_, .i32⟩) (.of main_c_66 : StableHlo.TRef sig ⟨S_, .i32⟩) (.of main_call45_v2 : StableHlo.TRef sig ⟨S_, .i32⟩) select,
    StableHlo.TRef.unary main_call45_call0.v0 (.of main_call45_v3 : StableHlo.TRef sig ⟨S1, .i32⟩) (broadcastInDim S1 ![] bcast_S_S1),
    StableHlo.TRef.nullary (.of main_call45_c_1 : StableHlo.TRef sig ⟨S1, .i32⟩) (constantI S1 32 1#32),
    StableHlo.TRef.unary (.of main_call45_v3 : StableHlo.TRef sig ⟨S1, .i32⟩) (.of main_call45_v4 : StableHlo.TRef sig ⟨S1, .i32⟩) id,
    StableHlo.TRef.nullary (.of main_call45_c_2 : StableHlo.TRef sig ⟨S_, .i32⟩) (constantI S_ 32 0#32),
    StableHlo.TRef.unary (.of main_call45_c_2 : StableHlo.TRef sig ⟨S_, .i32⟩) (.of main_call45_v5 : StableHlo.TRef sig ⟨S1, .i32⟩) (broadcastInDim S1 ![] bcast_S_S1),
    StableHlo.TRef.binary (.of main_call45_v4 : StableHlo.TRef sig ⟨S1, .i32⟩) (.of main_call45_v5 : StableHlo.TRef sig ⟨S1, .i32⟩) (.of main_call45_v6 : StableHlo.TRef sig ⟨S1, .i1⟩) (cmpi .sge),
    StableHlo.TRef.binary (.of main_call45_v4 : StableHlo.TRef sig ⟨S1, .i32⟩) (.of main_call45_c_1 : StableHlo.TRef sig ⟨S1, .i32⟩) (.of main_call45_v7 : StableHlo.TRef sig ⟨S1, .i1⟩) (cmpi .sle),
    StableHlo.TRef.binary (.of main_call45_v6 : StableHlo.TRef sig ⟨S1, .i1⟩) (.of main_call45_v7 : StableHlo.TRef sig ⟨S1, .i1⟩) (.of main_call45_v8 : StableHlo.TRef sig ⟨S1, .i1⟩) andi,
    StableHlo.TRef.nullary (.of main_call45_c_3 : StableHlo.TRef sig ⟨S_, .i1⟩) (constantI S_ 1 1#1),
    StableHlo.TRef.binary (.of main_call45_v8 : StableHlo.TRef sig ⟨S1, .i1⟩) (.of main_call45_c_3 : StableHlo.TRef sig ⟨S_, .i1⟩) (.of main_call45_v9 : StableHlo.TRef sig ⟨S_, .i1⟩) (fun x v => Host.reduce IntOp.andi x v reducesTo_S1_S_d0 h_S_),
    StableHlo.TRef.binary (.of main_v315 : StableHlo.TRef sig ⟨S256x2x2x2x2x2x2x2x2, .f32⟩) (.of main_call45_v4 : StableHlo.TRef sig ⟨S1, .i32⟩) (.of main_call45_v10 : StableHlo.TRef sig ⟨S256x2x2x2x2x2x2x2, .f32⟩) (fun x i => Host.gather gather_S256x2x2x2x2x2x2x2x2_S1_S256x2x2x2x2x2x2x2_01234567_6_n_n_6_0_25622222122 x i),
    StableHlo.TRef.unary (.of main_call45_v9 : StableHlo.TRef sig ⟨S_, .i1⟩) (.of main_call45_v11 : StableHlo.TRef sig ⟨S256x2x2x2x2x2x2x2, .i1⟩) (broadcastInDim S256x2x2x2x2x2x2x2 ![] bcast_S_S256x2x2x2x2x2x2x2),
    StableHlo.TRef.nullary (.of main_call45_cst : StableHlo.TRef sig ⟨S_, .f32⟩) (constant S_ .f32 0x7FC00000#32),
    StableHlo.TRef.unary (.of main_call45_cst : StableHlo.TRef sig ⟨S_, .f32⟩) (.of main_call45_v12 : StableHlo.TRef sig ⟨S256x2x2x2x2x2x2x2, .f32⟩) (broadcastInDim S256x2x2x2x2x2x2x2 ![] bcast_S_S256x2x2x2x2x2x2x2),
    StableHlo.TRef.ternary (.of main_call45_v11 : StableHlo.TRef sig ⟨S256x2x2x2x2x2x2x2, .i1⟩) (.of main_call45_v10 : StableHlo.TRef sig ⟨S256x2x2x2x2x2x2x2, .f32⟩) (.of main_call45_v12 : StableHlo.TRef sig ⟨S256x2x2x2x2x2x2x2, .f32⟩) (.of main_v323 : StableHlo.TRef sig ⟨S256x2x2x2x2x2x2x2, .f32⟩) select,
    StableHlo.unary main_v319 main_v324 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v324 main_v322 main_v325 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v321 main_v326 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v326 main_v323 main_v327 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.binary main_v325 main_v327 main_v328 (subf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v321 main_v329 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v329 main_v322 main_v330 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v319 main_v331 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v331 main_v323 main_v332 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.binary main_v330 main_v332 main_v333 (addf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v328 main_v334 (broadcastInDim S256x2x2x2x2x2x1x2x2 ![0, 1, 2, 3, 4, 5, 7, 8] bcast_S256x2x2x2x2x2x2x2_S256x2x2x2x2x2x1x2x2_0_1_2_3_4_5_7_8 : (⟨S256x2x2x2x2x2x2x2, .f32⟩ : BufTy).Contents (Elt F) → (⟨S256x2x2x2x2x2x1x2x2, .f32⟩ : BufTy).Contents (Elt F)),
    StableHlo.unary main_v333 main_v335 (broadcastInDim S256x2x2x2x2x2x1x2x2 ![0, 1, 2, 3, 4, 5, 7, 8] bcast_S256x2x2x2x2x2x2x2_S256x2x2x2x2x2x1x2x2_0_1_2_3_4_5_7_8 : (⟨S256x2x2x2x2x2x2x2, .f32⟩ : BufTy).Contents (Elt F) → (⟨S256x2x2x2x2x2x1x2x2, .f32⟩ : BufTy).Contents (Elt F)),
    StableHlo.binary main_v334 main_v335 main_v336 ((fun a b => concatenate S256x2x2x2x2x2x2x2x2 6 [⟨S256x2x2x2x2x2x1x2x2, a⟩, ⟨S256x2x2x2x2x2x1x2x2, b⟩] concatenates_S256x2x2x2x2x2x1x2x2_S256x2x2x2x2x2x1x2x2_S256x2x2x2x2x2x2x2x2_d6) : (⟨S256x2x2x2x2x2x1x2x2, .f32⟩ : BufTy).Contents (Elt F) → (⟨S256x2x2x2x2x2x1x2x2, .f32⟩ : BufTy).Contents (Elt F) → (⟨S256x2x2x2x2x2x2x2x2, .f32⟩ : BufTy).Contents (Elt F)) ]

/-- The host operations of gate 21 (a controlled flip, axis 3). -/
abbrev G21 : List (HloOp τ sig (Elt F)) :=
  [ StableHlo.nullary main_c_67 (constantI S_ 32 0#32),
    StableHlo.TRef.nullary (.of main_call46_c : StableHlo.TRef sig ⟨S_, .i32⟩) (constantI S_ 32 0#32),
    StableHlo.TRef.binary (.of main_c_67 : StableHlo.TRef sig ⟨S_, .i32⟩) (.of main_call46_c : StableHlo.TRef sig ⟨S_, .i32⟩) (.of main_call46_v0 : StableHlo.TRef sig ⟨S_, .i1⟩) (cmpi .slt),
    StableHlo.TRef.nullary (.of main_call46_c_0 : StableHlo.TRef sig ⟨S_, .i32⟩) (constantI S_ 32 2#32),
    StableHlo.TRef.binary (.of main_c_67 : StableHlo.TRef sig ⟨S_, .i32⟩) (.of main_call46_c_0 : StableHlo.TRef sig ⟨S_, .i32⟩) (.of main_call46_v1 : StableHlo.TRef sig ⟨S_, .i32⟩) addi,
    StableHlo.TRef.ternary (.of main_call46_v0 : StableHlo.TRef sig ⟨S_, .i1⟩) (.of main_call46_v1 : StableHlo.TRef sig ⟨S_, .i32⟩) (.of main_c_67 : StableHlo.TRef sig ⟨S_, .i32⟩) (.of main_call46_v2 : StableHlo.TRef sig ⟨S_, .i32⟩) select,
    StableHlo.TRef.unary main_call46_call0.v0 (.of main_call46_v3 : StableHlo.TRef sig ⟨S1, .i32⟩) (broadcastInDim S1 ![] bcast_S_S1),
    StableHlo.TRef.nullary (.of main_call46_c_1 : StableHlo.TRef sig ⟨S1, .i32⟩) (constantI S1 32 1#32),
    StableHlo.TRef.unary (.of main_call46_v3 : StableHlo.TRef sig ⟨S1, .i32⟩) (.of main_call46_v4 : StableHlo.TRef sig ⟨S1, .i32⟩) id,
    StableHlo.TRef.nullary (.of main_call46_c_2 : StableHlo.TRef sig ⟨S_, .i32⟩) (constantI S_ 32 0#32),
    StableHlo.TRef.unary (.of main_call46_c_2 : StableHlo.TRef sig ⟨S_, .i32⟩) (.of main_call46_v5 : StableHlo.TRef sig ⟨S1, .i32⟩) (broadcastInDim S1 ![] bcast_S_S1),
    StableHlo.TRef.binary (.of main_call46_v4 : StableHlo.TRef sig ⟨S1, .i32⟩) (.of main_call46_v5 : StableHlo.TRef sig ⟨S1, .i32⟩) (.of main_call46_v6 : StableHlo.TRef sig ⟨S1, .i1⟩) (cmpi .sge),
    StableHlo.TRef.binary (.of main_call46_v4 : StableHlo.TRef sig ⟨S1, .i32⟩) (.of main_call46_c_1 : StableHlo.TRef sig ⟨S1, .i32⟩) (.of main_call46_v7 : StableHlo.TRef sig ⟨S1, .i1⟩) (cmpi .sle),
    StableHlo.TRef.binary (.of main_call46_v6 : StableHlo.TRef sig ⟨S1, .i1⟩) (.of main_call46_v7 : StableHlo.TRef sig ⟨S1, .i1⟩) (.of main_call46_v8 : StableHlo.TRef sig ⟨S1, .i1⟩) andi,
    StableHlo.TRef.nullary (.of main_call46_c_3 : StableHlo.TRef sig ⟨S_, .i1⟩) (constantI S_ 1 1#1),
    StableHlo.TRef.binary (.of main_call46_v8 : StableHlo.TRef sig ⟨S1, .i1⟩) (.of main_call46_c_3 : StableHlo.TRef sig ⟨S_, .i1⟩) (.of main_call46_v9 : StableHlo.TRef sig ⟨S_, .i1⟩) (fun x v => Host.reduce IntOp.andi x v reducesTo_S1_S_d0 h_S_),
    StableHlo.TRef.binary (.of main_v336 : StableHlo.TRef sig ⟨S256x2x2x2x2x2x2x2x2, .f32⟩) (.of main_call46_v4 : StableHlo.TRef sig ⟨S1, .i32⟩) (.of main_call46_v10 : StableHlo.TRef sig ⟨S256x2x2x2x2x2x2x2, .f32⟩) (fun x i => Host.gather gather_S256x2x2x2x2x2x2x2x2_S1_S256x2x2x2x2x2x2x2_01234567_3_n_n_3_0_25622122222 x i),
    StableHlo.TRef.unary (.of main_call46_v9 : StableHlo.TRef sig ⟨S_, .i1⟩) (.of main_call46_v11 : StableHlo.TRef sig ⟨S256x2x2x2x2x2x2x2, .i1⟩) (broadcastInDim S256x2x2x2x2x2x2x2 ![] bcast_S_S256x2x2x2x2x2x2x2),
    StableHlo.TRef.nullary (.of main_call46_cst : StableHlo.TRef sig ⟨S_, .f32⟩) (constant S_ .f32 0x7FC00000#32),
    StableHlo.TRef.unary (.of main_call46_cst : StableHlo.TRef sig ⟨S_, .f32⟩) (.of main_call46_v12 : StableHlo.TRef sig ⟨S256x2x2x2x2x2x2x2, .f32⟩) (broadcastInDim S256x2x2x2x2x2x2x2 ![] bcast_S_S256x2x2x2x2x2x2x2),
    StableHlo.TRef.ternary (.of main_call46_v11 : StableHlo.TRef sig ⟨S256x2x2x2x2x2x2x2, .i1⟩) (.of main_call46_v10 : StableHlo.TRef sig ⟨S256x2x2x2x2x2x2x2, .f32⟩) (.of main_call46_v12 : StableHlo.TRef sig ⟨S256x2x2x2x2x2x2x2, .f32⟩) (.of main_v337 : StableHlo.TRef sig ⟨S256x2x2x2x2x2x2x2, .f32⟩) select,
    StableHlo.nullary main_c_68 (constantI S_ 32 1#32),
    StableHlo.TRef.nullary (.of main_call47_c : StableHlo.TRef sig ⟨S_, .i32⟩) (constantI S_ 32 0#32),
    StableHlo.TRef.binary (.of main_c_68 : StableHlo.TRef sig ⟨S_, .i32⟩) (.of main_call47_c : StableHlo.TRef sig ⟨S_, .i32⟩) (.of main_call47_v0 : StableHlo.TRef sig ⟨S_, .i1⟩) (cmpi .slt),
    StableHlo.TRef.nullary (.of main_call47_c_0 : StableHlo.TRef sig ⟨S_, .i32⟩) (constantI S_ 32 2#32),
    StableHlo.TRef.binary (.of main_c_68 : StableHlo.TRef sig ⟨S_, .i32⟩) (.of main_call47_c_0 : StableHlo.TRef sig ⟨S_, .i32⟩) (.of main_call47_v1 : StableHlo.TRef sig ⟨S_, .i32⟩) addi,
    StableHlo.TRef.ternary (.of main_call47_v0 : StableHlo.TRef sig ⟨S_, .i1⟩) (.of main_call47_v1 : StableHlo.TRef sig ⟨S_, .i32⟩) (.of main_c_68 : StableHlo.TRef sig ⟨S_, .i32⟩) (.of main_call47_v2 : StableHlo.TRef sig ⟨S_, .i32⟩) select,
    StableHlo.TRef.unary main_call47_call0.v0 (.of main_call47_v3 : StableHlo.TRef sig ⟨S1, .i32⟩) (broadcastInDim S1 ![] bcast_S_S1),
    StableHlo.TRef.nullary (.of main_call47_c_1 : StableHlo.TRef sig ⟨S1, .i32⟩) (constantI S1 32 1#32),
    StableHlo.TRef.unary (.of main_call47_v3 : StableHlo.TRef sig ⟨S1, .i32⟩) (.of main_call47_v4 : StableHlo.TRef sig ⟨S1, .i32⟩) id,
    StableHlo.TRef.nullary (.of main_call47_c_2 : StableHlo.TRef sig ⟨S_, .i32⟩) (constantI S_ 32 0#32),
    StableHlo.TRef.unary (.of main_call47_c_2 : StableHlo.TRef sig ⟨S_, .i32⟩) (.of main_call47_v5 : StableHlo.TRef sig ⟨S1, .i32⟩) (broadcastInDim S1 ![] bcast_S_S1),
    StableHlo.TRef.binary (.of main_call47_v4 : StableHlo.TRef sig ⟨S1, .i32⟩) (.of main_call47_v5 : StableHlo.TRef sig ⟨S1, .i32⟩) (.of main_call47_v6 : StableHlo.TRef sig ⟨S1, .i1⟩) (cmpi .sge),
    StableHlo.TRef.binary (.of main_call47_v4 : StableHlo.TRef sig ⟨S1, .i32⟩) (.of main_call47_c_1 : StableHlo.TRef sig ⟨S1, .i32⟩) (.of main_call47_v7 : StableHlo.TRef sig ⟨S1, .i1⟩) (cmpi .sle),
    StableHlo.TRef.binary (.of main_call47_v6 : StableHlo.TRef sig ⟨S1, .i1⟩) (.of main_call47_v7 : StableHlo.TRef sig ⟨S1, .i1⟩) (.of main_call47_v8 : StableHlo.TRef sig ⟨S1, .i1⟩) andi,
    StableHlo.TRef.nullary (.of main_call47_c_3 : StableHlo.TRef sig ⟨S_, .i1⟩) (constantI S_ 1 1#1),
    StableHlo.TRef.binary (.of main_call47_v8 : StableHlo.TRef sig ⟨S1, .i1⟩) (.of main_call47_c_3 : StableHlo.TRef sig ⟨S_, .i1⟩) (.of main_call47_v9 : StableHlo.TRef sig ⟨S_, .i1⟩) (fun x v => Host.reduce IntOp.andi x v reducesTo_S1_S_d0 h_S_),
    StableHlo.TRef.binary (.of main_v336 : StableHlo.TRef sig ⟨S256x2x2x2x2x2x2x2x2, .f32⟩) (.of main_call47_v4 : StableHlo.TRef sig ⟨S1, .i32⟩) (.of main_call47_v10 : StableHlo.TRef sig ⟨S256x2x2x2x2x2x2x2, .f32⟩) (fun x i => Host.gather gather_S256x2x2x2x2x2x2x2x2_S1_S256x2x2x2x2x2x2x2_01234567_3_n_n_3_0_25622122222 x i),
    StableHlo.TRef.unary (.of main_call47_v9 : StableHlo.TRef sig ⟨S_, .i1⟩) (.of main_call47_v11 : StableHlo.TRef sig ⟨S256x2x2x2x2x2x2x2, .i1⟩) (broadcastInDim S256x2x2x2x2x2x2x2 ![] bcast_S_S256x2x2x2x2x2x2x2),
    StableHlo.TRef.nullary (.of main_call47_cst : StableHlo.TRef sig ⟨S_, .f32⟩) (constant S_ .f32 0x7FC00000#32),
    StableHlo.TRef.unary (.of main_call47_cst : StableHlo.TRef sig ⟨S_, .f32⟩) (.of main_call47_v12 : StableHlo.TRef sig ⟨S256x2x2x2x2x2x2x2, .f32⟩) (broadcastInDim S256x2x2x2x2x2x2x2 ![] bcast_S_S256x2x2x2x2x2x2x2),
    StableHlo.TRef.ternary (.of main_call47_v11 : StableHlo.TRef sig ⟨S256x2x2x2x2x2x2x2, .i1⟩) (.of main_call47_v10 : StableHlo.TRef sig ⟨S256x2x2x2x2x2x2x2, .f32⟩) (.of main_call47_v12 : StableHlo.TRef sig ⟨S256x2x2x2x2x2x2x2, .f32⟩) (.of main_v338 : StableHlo.TRef sig ⟨S256x2x2x2x2x2x2x2, .f32⟩) select,
    StableHlo.TRef.unary (.of main_v338 : StableHlo.TRef sig ⟨S256x2x2x2x2x2x2x2, .f32⟩) (.of main_v339 : StableHlo.TRef sig ⟨S256x2x2x2x2x2x2x2, .f32⟩) (Host.reverse [5]),
    StableHlo.unary main_v337 main_v340 (broadcastInDim S256x2x2x1x2x2x2x2x2 ![0, 1, 2, 4, 5, 6, 7, 8] bcast_S256x2x2x2x2x2x2x2_S256x2x2x1x2x2x2x2x2_0_1_2_4_5_6_7_8 : (⟨S256x2x2x2x2x2x2x2, .f32⟩ : BufTy).Contents (Elt F) → (⟨S256x2x2x1x2x2x2x2x2, .f32⟩ : BufTy).Contents (Elt F)),
    StableHlo.unary main_v339 main_v341 (broadcastInDim S256x2x2x1x2x2x2x2x2 ![0, 1, 2, 4, 5, 6, 7, 8] bcast_S256x2x2x2x2x2x2x2_S256x2x2x1x2x2x2x2x2_0_1_2_4_5_6_7_8 : (⟨S256x2x2x2x2x2x2x2, .f32⟩ : BufTy).Contents (Elt F) → (⟨S256x2x2x1x2x2x2x2x2, .f32⟩ : BufTy).Contents (Elt F)),
    StableHlo.binary main_v340 main_v341 main_v342 ((fun a b => concatenate S256x2x2x2x2x2x2x2x2 3 [⟨S256x2x2x1x2x2x2x2x2, a⟩, ⟨S256x2x2x1x2x2x2x2x2, b⟩] concatenates_S256x2x2x1x2x2x2x2x2_S256x2x2x1x2x2x2x2x2_S256x2x2x2x2x2x2x2x2_d3) : (⟨S256x2x2x1x2x2x2x2x2, .f32⟩ : BufTy).Contents (Elt F) → (⟨S256x2x2x1x2x2x2x2x2, .f32⟩ : BufTy).Contents (Elt F) → (⟨S256x2x2x2x2x2x2x2x2, .f32⟩ : BufTy).Contents (Elt F)) ]

/-- The host operations of gate 22 (a rotation, parameter 14, axis 2). -/
abbrev G22 : List (HloOp τ sig (Elt F)) :=
  [ StableHlo.unary main_arg3 main_v343 ((extractStridedSlice S1 ![14] · slices_S21_S1_14) : (⟨S21, .f32⟩ : BufTy).Contents (Elt F) → (⟨S1, .f32⟩ : BufTy).Contents (Elt F)),
    StableHlo.reshape main_v343 main_v344 rfl shapeCasts_S1_S_,
    StableHlo.nullary main_cst_69 (constant S_ .f32 0x3F000000#32),
    StableHlo.binary main_cst_69 main_v344 main_v345 (mulf : (⟨S_, .f32⟩ : BufTy).Contents (Elt F) → (⟨S_, .f32⟩ : BufTy).Contents (Elt F) → (⟨S_, .f32⟩ : BufTy).Contents (Elt F)),
    StableHlo.unary main_v345 main_v346 (Host.cos : (⟨S_, .f32⟩ : BufTy).Contents (Elt F) → (⟨S_, .f32⟩ : BufTy).Contents (Elt F)),
    StableHlo.nullary main_cst_70 (constant S_ .f32 0x3F000000#32),
    StableHlo.binary main_cst_70 main_v344 main_v347 (mulf : (⟨S_, .f32⟩ : BufTy).Contents (Elt F) → (⟨S_, .f32⟩ : BufTy).Contents (Elt F) → (⟨S_, .f32⟩ : BufTy).Contents (Elt F)),
    StableHlo.unary main_v347 main_v348 (Host.sin : (⟨S_, .f32⟩ : BufTy).Contents (Elt F) → (⟨S_, .f32⟩ : BufTy).Contents (Elt F)),
    StableHlo.nullary main_c_71 (constantI S_ 32 0#32),
    StableHlo.TRef.nullary (.of main_call49_c : StableHlo.TRef sig ⟨S_, .i32⟩) (constantI S_ 32 0#32),
    StableHlo.TRef.binary (.of main_c_71 : StableHlo.TRef sig ⟨S_, .i32⟩) (.of main_call49_c : StableHlo.TRef sig ⟨S_, .i32⟩) (.of main_call49_v0 : StableHlo.TRef sig ⟨S_, .i1⟩) (cmpi .slt),
    StableHlo.TRef.nullary (.of main_call49_c_0 : StableHlo.TRef sig ⟨S_, .i32⟩) (constantI S_ 32 2#32),
    StableHlo.TRef.binary (.of main_c_71 : StableHlo.TRef sig ⟨S_, .i32⟩) (.of main_call49_c_0 : StableHlo.TRef sig ⟨S_, .i32⟩) (.of main_call49_v1 : StableHlo.TRef sig ⟨S_, .i32⟩) addi,
    StableHlo.TRef.ternary (.of main_call49_v0 : StableHlo.TRef sig ⟨S_, .i1⟩) (.of main_call49_v1 : StableHlo.TRef sig ⟨S_, .i32⟩) (.of main_c_71 : StableHlo.TRef sig ⟨S_, .i32⟩) (.of main_call49_v2 : StableHlo.TRef sig ⟨S_, .i32⟩) select,
    StableHlo.TRef.unary main_call49_call0.v0 (.of main_call49_v3 : StableHlo.TRef sig ⟨S1, .i32⟩) (broadcastInDim S1 ![] bcast_S_S1),
    StableHlo.TRef.nullary (.of main_call49_c_1 : StableHlo.TRef sig ⟨S1, .i32⟩) (constantI S1 32 1#32),
    StableHlo.TRef.unary (.of main_call49_v3 : StableHlo.TRef sig ⟨S1, .i32⟩) (.of main_call49_v4 : StableHlo.TRef sig ⟨S1, .i32⟩) id,
    StableHlo.TRef.nullary (.of main_call49_c_2 : StableHlo.TRef sig ⟨S_, .i32⟩) (constantI S_ 32 0#32),
    StableHlo.TRef.unary (.of main_call49_c_2 : StableHlo.TRef sig ⟨S_, .i32⟩) (.of main_call49_v5 : StableHlo.TRef sig ⟨S1, .i32⟩) (broadcastInDim S1 ![] bcast_S_S1),
    StableHlo.TRef.binary (.of main_call49_v4 : StableHlo.TRef sig ⟨S1, .i32⟩) (.of main_call49_v5 : StableHlo.TRef sig ⟨S1, .i32⟩) (.of main_call49_v6 : StableHlo.TRef sig ⟨S1, .i1⟩) (cmpi .sge),
    StableHlo.TRef.binary (.of main_call49_v4 : StableHlo.TRef sig ⟨S1, .i32⟩) (.of main_call49_c_1 : StableHlo.TRef sig ⟨S1, .i32⟩) (.of main_call49_v7 : StableHlo.TRef sig ⟨S1, .i1⟩) (cmpi .sle),
    StableHlo.TRef.binary (.of main_call49_v6 : StableHlo.TRef sig ⟨S1, .i1⟩) (.of main_call49_v7 : StableHlo.TRef sig ⟨S1, .i1⟩) (.of main_call49_v8 : StableHlo.TRef sig ⟨S1, .i1⟩) andi,
    StableHlo.TRef.nullary (.of main_call49_c_3 : StableHlo.TRef sig ⟨S_, .i1⟩) (constantI S_ 1 1#1),
    StableHlo.TRef.binary (.of main_call49_v8 : StableHlo.TRef sig ⟨S1, .i1⟩) (.of main_call49_c_3 : StableHlo.TRef sig ⟨S_, .i1⟩) (.of main_call49_v9 : StableHlo.TRef sig ⟨S_, .i1⟩) (fun x v => Host.reduce IntOp.andi x v reducesTo_S1_S_d0 h_S_),
    StableHlo.TRef.binary (.of main_v342 : StableHlo.TRef sig ⟨S256x2x2x2x2x2x2x2x2, .f32⟩) (.of main_call49_v4 : StableHlo.TRef sig ⟨S1, .i32⟩) (.of main_call49_v10 : StableHlo.TRef sig ⟨S256x2x2x2x2x2x2x2, .f32⟩) (fun x i => Host.gather gather_S256x2x2x2x2x2x2x2x2_S1_S256x2x2x2x2x2x2x2_01234567_2_n_n_2_0_25621222222 x i),
    StableHlo.TRef.unary (.of main_call49_v9 : StableHlo.TRef sig ⟨S_, .i1⟩) (.of main_call49_v11 : StableHlo.TRef sig ⟨S256x2x2x2x2x2x2x2, .i1⟩) (broadcastInDim S256x2x2x2x2x2x2x2 ![] bcast_S_S256x2x2x2x2x2x2x2),
    StableHlo.TRef.nullary (.of main_call49_cst : StableHlo.TRef sig ⟨S_, .f32⟩) (constant S_ .f32 0x7FC00000#32),
    StableHlo.TRef.unary (.of main_call49_cst : StableHlo.TRef sig ⟨S_, .f32⟩) (.of main_call49_v12 : StableHlo.TRef sig ⟨S256x2x2x2x2x2x2x2, .f32⟩) (broadcastInDim S256x2x2x2x2x2x2x2 ![] bcast_S_S256x2x2x2x2x2x2x2),
    StableHlo.TRef.ternary (.of main_call49_v11 : StableHlo.TRef sig ⟨S256x2x2x2x2x2x2x2, .i1⟩) (.of main_call49_v10 : StableHlo.TRef sig ⟨S256x2x2x2x2x2x2x2, .f32⟩) (.of main_call49_v12 : StableHlo.TRef sig ⟨S256x2x2x2x2x2x2x2, .f32⟩) (.of main_v349 : StableHlo.TRef sig ⟨S256x2x2x2x2x2x2x2, .f32⟩) select,
    StableHlo.nullary main_c_72 (constantI S_ 32 1#32),
    StableHlo.TRef.nullary (.of main_call50_c : StableHlo.TRef sig ⟨S_, .i32⟩) (constantI S_ 32 0#32),
    StableHlo.TRef.binary (.of main_c_72 : StableHlo.TRef sig ⟨S_, .i32⟩) (.of main_call50_c : StableHlo.TRef sig ⟨S_, .i32⟩) (.of main_call50_v0 : StableHlo.TRef sig ⟨S_, .i1⟩) (cmpi .slt),
    StableHlo.TRef.nullary (.of main_call50_c_0 : StableHlo.TRef sig ⟨S_, .i32⟩) (constantI S_ 32 2#32),
    StableHlo.TRef.binary (.of main_c_72 : StableHlo.TRef sig ⟨S_, .i32⟩) (.of main_call50_c_0 : StableHlo.TRef sig ⟨S_, .i32⟩) (.of main_call50_v1 : StableHlo.TRef sig ⟨S_, .i32⟩) addi,
    StableHlo.TRef.ternary (.of main_call50_v0 : StableHlo.TRef sig ⟨S_, .i1⟩) (.of main_call50_v1 : StableHlo.TRef sig ⟨S_, .i32⟩) (.of main_c_72 : StableHlo.TRef sig ⟨S_, .i32⟩) (.of main_call50_v2 : StableHlo.TRef sig ⟨S_, .i32⟩) select,
    StableHlo.TRef.unary main_call50_call0.v0 (.of main_call50_v3 : StableHlo.TRef sig ⟨S1, .i32⟩) (broadcastInDim S1 ![] bcast_S_S1),
    StableHlo.TRef.nullary (.of main_call50_c_1 : StableHlo.TRef sig ⟨S1, .i32⟩) (constantI S1 32 1#32),
    StableHlo.TRef.unary (.of main_call50_v3 : StableHlo.TRef sig ⟨S1, .i32⟩) (.of main_call50_v4 : StableHlo.TRef sig ⟨S1, .i32⟩) id,
    StableHlo.TRef.nullary (.of main_call50_c_2 : StableHlo.TRef sig ⟨S_, .i32⟩) (constantI S_ 32 0#32),
    StableHlo.TRef.unary (.of main_call50_c_2 : StableHlo.TRef sig ⟨S_, .i32⟩) (.of main_call50_v5 : StableHlo.TRef sig ⟨S1, .i32⟩) (broadcastInDim S1 ![] bcast_S_S1),
    StableHlo.TRef.binary (.of main_call50_v4 : StableHlo.TRef sig ⟨S1, .i32⟩) (.of main_call50_v5 : StableHlo.TRef sig ⟨S1, .i32⟩) (.of main_call50_v6 : StableHlo.TRef sig ⟨S1, .i1⟩) (cmpi .sge),
    StableHlo.TRef.binary (.of main_call50_v4 : StableHlo.TRef sig ⟨S1, .i32⟩) (.of main_call50_c_1 : StableHlo.TRef sig ⟨S1, .i32⟩) (.of main_call50_v7 : StableHlo.TRef sig ⟨S1, .i1⟩) (cmpi .sle),
    StableHlo.TRef.binary (.of main_call50_v6 : StableHlo.TRef sig ⟨S1, .i1⟩) (.of main_call50_v7 : StableHlo.TRef sig ⟨S1, .i1⟩) (.of main_call50_v8 : StableHlo.TRef sig ⟨S1, .i1⟩) andi,
    StableHlo.TRef.nullary (.of main_call50_c_3 : StableHlo.TRef sig ⟨S_, .i1⟩) (constantI S_ 1 1#1),
    StableHlo.TRef.binary (.of main_call50_v8 : StableHlo.TRef sig ⟨S1, .i1⟩) (.of main_call50_c_3 : StableHlo.TRef sig ⟨S_, .i1⟩) (.of main_call50_v9 : StableHlo.TRef sig ⟨S_, .i1⟩) (fun x v => Host.reduce IntOp.andi x v reducesTo_S1_S_d0 h_S_),
    StableHlo.TRef.binary (.of main_v342 : StableHlo.TRef sig ⟨S256x2x2x2x2x2x2x2x2, .f32⟩) (.of main_call50_v4 : StableHlo.TRef sig ⟨S1, .i32⟩) (.of main_call50_v10 : StableHlo.TRef sig ⟨S256x2x2x2x2x2x2x2, .f32⟩) (fun x i => Host.gather gather_S256x2x2x2x2x2x2x2x2_S1_S256x2x2x2x2x2x2x2_01234567_2_n_n_2_0_25621222222 x i),
    StableHlo.TRef.unary (.of main_call50_v9 : StableHlo.TRef sig ⟨S_, .i1⟩) (.of main_call50_v11 : StableHlo.TRef sig ⟨S256x2x2x2x2x2x2x2, .i1⟩) (broadcastInDim S256x2x2x2x2x2x2x2 ![] bcast_S_S256x2x2x2x2x2x2x2),
    StableHlo.TRef.nullary (.of main_call50_cst : StableHlo.TRef sig ⟨S_, .f32⟩) (constant S_ .f32 0x7FC00000#32),
    StableHlo.TRef.unary (.of main_call50_cst : StableHlo.TRef sig ⟨S_, .f32⟩) (.of main_call50_v12 : StableHlo.TRef sig ⟨S256x2x2x2x2x2x2x2, .f32⟩) (broadcastInDim S256x2x2x2x2x2x2x2 ![] bcast_S_S256x2x2x2x2x2x2x2),
    StableHlo.TRef.ternary (.of main_call50_v11 : StableHlo.TRef sig ⟨S256x2x2x2x2x2x2x2, .i1⟩) (.of main_call50_v10 : StableHlo.TRef sig ⟨S256x2x2x2x2x2x2x2, .f32⟩) (.of main_call50_v12 : StableHlo.TRef sig ⟨S256x2x2x2x2x2x2x2, .f32⟩) (.of main_v350 : StableHlo.TRef sig ⟨S256x2x2x2x2x2x2x2, .f32⟩) select,
    StableHlo.unary main_v346 main_v351 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v351 main_v349 main_v352 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v348 main_v353 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v353 main_v350 main_v354 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.binary main_v352 main_v354 main_v355 (subf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v348 main_v356 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v356 main_v349 main_v357 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v346 main_v358 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v358 main_v350 main_v359 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.binary main_v357 main_v359 main_v360 (addf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v355 main_v361 (broadcastInDim S256x2x1x2x2x2x2x2x2 ![0, 1, 3, 4, 5, 6, 7, 8] bcast_S256x2x2x2x2x2x2x2_S256x2x1x2x2x2x2x2x2_0_1_3_4_5_6_7_8 : (⟨S256x2x2x2x2x2x2x2, .f32⟩ : BufTy).Contents (Elt F) → (⟨S256x2x1x2x2x2x2x2x2, .f32⟩ : BufTy).Contents (Elt F)),
    StableHlo.unary main_v360 main_v362 (broadcastInDim S256x2x1x2x2x2x2x2x2 ![0, 1, 3, 4, 5, 6, 7, 8] bcast_S256x2x2x2x2x2x2x2_S256x2x1x2x2x2x2x2x2_0_1_3_4_5_6_7_8 : (⟨S256x2x2x2x2x2x2x2, .f32⟩ : BufTy).Contents (Elt F) → (⟨S256x2x1x2x2x2x2x2x2, .f32⟩ : BufTy).Contents (Elt F)),
    StableHlo.binary main_v361 main_v362 main_v363 ((fun a b => concatenate S256x2x2x2x2x2x2x2x2 2 [⟨S256x2x1x2x2x2x2x2x2, a⟩, ⟨S256x2x1x2x2x2x2x2x2, b⟩] concatenates_S256x2x1x2x2x2x2x2x2_S256x2x1x2x2x2x2x2x2_S256x2x2x2x2x2x2x2x2_d2) : (⟨S256x2x1x2x2x2x2x2x2, .f32⟩ : BufTy).Contents (Elt F) → (⟨S256x2x1x2x2x2x2x2x2, .f32⟩ : BufTy).Contents (Elt F) → (⟨S256x2x2x2x2x2x2x2x2, .f32⟩ : BufTy).Contents (Elt F)) ]

/-- The host operations of gate 23 (a rotation, parameter 15, axis 3). -/
abbrev G23 : List (HloOp τ sig (Elt F)) :=
  [ StableHlo.unary main_arg3 main_v364 ((extractStridedSlice S1 ![15] · slices_S21_S1_15) : (⟨S21, .f32⟩ : BufTy).Contents (Elt F) → (⟨S1, .f32⟩ : BufTy).Contents (Elt F)),
    StableHlo.reshape main_v364 main_v365 rfl shapeCasts_S1_S_,
    StableHlo.nullary main_cst_73 (constant S_ .f32 0x3F000000#32),
    StableHlo.binary main_cst_73 main_v365 main_v366 (mulf : (⟨S_, .f32⟩ : BufTy).Contents (Elt F) → (⟨S_, .f32⟩ : BufTy).Contents (Elt F) → (⟨S_, .f32⟩ : BufTy).Contents (Elt F)),
    StableHlo.unary main_v366 main_v367 (Host.cos : (⟨S_, .f32⟩ : BufTy).Contents (Elt F) → (⟨S_, .f32⟩ : BufTy).Contents (Elt F)),
    StableHlo.nullary main_cst_74 (constant S_ .f32 0x3F000000#32),
    StableHlo.binary main_cst_74 main_v365 main_v368 (mulf : (⟨S_, .f32⟩ : BufTy).Contents (Elt F) → (⟨S_, .f32⟩ : BufTy).Contents (Elt F) → (⟨S_, .f32⟩ : BufTy).Contents (Elt F)),
    StableHlo.unary main_v368 main_v369 (Host.sin : (⟨S_, .f32⟩ : BufTy).Contents (Elt F) → (⟨S_, .f32⟩ : BufTy).Contents (Elt F)),
    StableHlo.nullary main_c_75 (constantI S_ 32 0#32),
    StableHlo.TRef.nullary (.of main_call51_c : StableHlo.TRef sig ⟨S_, .i32⟩) (constantI S_ 32 0#32),
    StableHlo.TRef.binary (.of main_c_75 : StableHlo.TRef sig ⟨S_, .i32⟩) (.of main_call51_c : StableHlo.TRef sig ⟨S_, .i32⟩) (.of main_call51_v0 : StableHlo.TRef sig ⟨S_, .i1⟩) (cmpi .slt),
    StableHlo.TRef.nullary (.of main_call51_c_0 : StableHlo.TRef sig ⟨S_, .i32⟩) (constantI S_ 32 2#32),
    StableHlo.TRef.binary (.of main_c_75 : StableHlo.TRef sig ⟨S_, .i32⟩) (.of main_call51_c_0 : StableHlo.TRef sig ⟨S_, .i32⟩) (.of main_call51_v1 : StableHlo.TRef sig ⟨S_, .i32⟩) addi,
    StableHlo.TRef.ternary (.of main_call51_v0 : StableHlo.TRef sig ⟨S_, .i1⟩) (.of main_call51_v1 : StableHlo.TRef sig ⟨S_, .i32⟩) (.of main_c_75 : StableHlo.TRef sig ⟨S_, .i32⟩) (.of main_call51_v2 : StableHlo.TRef sig ⟨S_, .i32⟩) select,
    StableHlo.TRef.unary main_call51_call0.v0 (.of main_call51_v3 : StableHlo.TRef sig ⟨S1, .i32⟩) (broadcastInDim S1 ![] bcast_S_S1),
    StableHlo.TRef.nullary (.of main_call51_c_1 : StableHlo.TRef sig ⟨S1, .i32⟩) (constantI S1 32 1#32),
    StableHlo.TRef.unary (.of main_call51_v3 : StableHlo.TRef sig ⟨S1, .i32⟩) (.of main_call51_v4 : StableHlo.TRef sig ⟨S1, .i32⟩) id,
    StableHlo.TRef.nullary (.of main_call51_c_2 : StableHlo.TRef sig ⟨S_, .i32⟩) (constantI S_ 32 0#32),
    StableHlo.TRef.unary (.of main_call51_c_2 : StableHlo.TRef sig ⟨S_, .i32⟩) (.of main_call51_v5 : StableHlo.TRef sig ⟨S1, .i32⟩) (broadcastInDim S1 ![] bcast_S_S1),
    StableHlo.TRef.binary (.of main_call51_v4 : StableHlo.TRef sig ⟨S1, .i32⟩) (.of main_call51_v5 : StableHlo.TRef sig ⟨S1, .i32⟩) (.of main_call51_v6 : StableHlo.TRef sig ⟨S1, .i1⟩) (cmpi .sge),
    StableHlo.TRef.binary (.of main_call51_v4 : StableHlo.TRef sig ⟨S1, .i32⟩) (.of main_call51_c_1 : StableHlo.TRef sig ⟨S1, .i32⟩) (.of main_call51_v7 : StableHlo.TRef sig ⟨S1, .i1⟩) (cmpi .sle),
    StableHlo.TRef.binary (.of main_call51_v6 : StableHlo.TRef sig ⟨S1, .i1⟩) (.of main_call51_v7 : StableHlo.TRef sig ⟨S1, .i1⟩) (.of main_call51_v8 : StableHlo.TRef sig ⟨S1, .i1⟩) andi,
    StableHlo.TRef.nullary (.of main_call51_c_3 : StableHlo.TRef sig ⟨S_, .i1⟩) (constantI S_ 1 1#1),
    StableHlo.TRef.binary (.of main_call51_v8 : StableHlo.TRef sig ⟨S1, .i1⟩) (.of main_call51_c_3 : StableHlo.TRef sig ⟨S_, .i1⟩) (.of main_call51_v9 : StableHlo.TRef sig ⟨S_, .i1⟩) (fun x v => Host.reduce IntOp.andi x v reducesTo_S1_S_d0 h_S_),
    StableHlo.TRef.binary (.of main_v363 : StableHlo.TRef sig ⟨S256x2x2x2x2x2x2x2x2, .f32⟩) (.of main_call51_v4 : StableHlo.TRef sig ⟨S1, .i32⟩) (.of main_call51_v10 : StableHlo.TRef sig ⟨S256x2x2x2x2x2x2x2, .f32⟩) (fun x i => Host.gather gather_S256x2x2x2x2x2x2x2x2_S1_S256x2x2x2x2x2x2x2_01234567_3_n_n_3_0_25622122222 x i),
    StableHlo.TRef.unary (.of main_call51_v9 : StableHlo.TRef sig ⟨S_, .i1⟩) (.of main_call51_v11 : StableHlo.TRef sig ⟨S256x2x2x2x2x2x2x2, .i1⟩) (broadcastInDim S256x2x2x2x2x2x2x2 ![] bcast_S_S256x2x2x2x2x2x2x2),
    StableHlo.TRef.nullary (.of main_call51_cst : StableHlo.TRef sig ⟨S_, .f32⟩) (constant S_ .f32 0x7FC00000#32),
    StableHlo.TRef.unary (.of main_call51_cst : StableHlo.TRef sig ⟨S_, .f32⟩) (.of main_call51_v12 : StableHlo.TRef sig ⟨S256x2x2x2x2x2x2x2, .f32⟩) (broadcastInDim S256x2x2x2x2x2x2x2 ![] bcast_S_S256x2x2x2x2x2x2x2),
    StableHlo.TRef.ternary (.of main_call51_v11 : StableHlo.TRef sig ⟨S256x2x2x2x2x2x2x2, .i1⟩) (.of main_call51_v10 : StableHlo.TRef sig ⟨S256x2x2x2x2x2x2x2, .f32⟩) (.of main_call51_v12 : StableHlo.TRef sig ⟨S256x2x2x2x2x2x2x2, .f32⟩) (.of main_v370 : StableHlo.TRef sig ⟨S256x2x2x2x2x2x2x2, .f32⟩) select,
    StableHlo.nullary main_c_76 (constantI S_ 32 1#32),
    StableHlo.TRef.nullary (.of main_call52_c : StableHlo.TRef sig ⟨S_, .i32⟩) (constantI S_ 32 0#32),
    StableHlo.TRef.binary (.of main_c_76 : StableHlo.TRef sig ⟨S_, .i32⟩) (.of main_call52_c : StableHlo.TRef sig ⟨S_, .i32⟩) (.of main_call52_v0 : StableHlo.TRef sig ⟨S_, .i1⟩) (cmpi .slt),
    StableHlo.TRef.nullary (.of main_call52_c_0 : StableHlo.TRef sig ⟨S_, .i32⟩) (constantI S_ 32 2#32),
    StableHlo.TRef.binary (.of main_c_76 : StableHlo.TRef sig ⟨S_, .i32⟩) (.of main_call52_c_0 : StableHlo.TRef sig ⟨S_, .i32⟩) (.of main_call52_v1 : StableHlo.TRef sig ⟨S_, .i32⟩) addi,
    StableHlo.TRef.ternary (.of main_call52_v0 : StableHlo.TRef sig ⟨S_, .i1⟩) (.of main_call52_v1 : StableHlo.TRef sig ⟨S_, .i32⟩) (.of main_c_76 : StableHlo.TRef sig ⟨S_, .i32⟩) (.of main_call52_v2 : StableHlo.TRef sig ⟨S_, .i32⟩) select,
    StableHlo.TRef.unary main_call52_call0.v0 (.of main_call52_v3 : StableHlo.TRef sig ⟨S1, .i32⟩) (broadcastInDim S1 ![] bcast_S_S1),
    StableHlo.TRef.nullary (.of main_call52_c_1 : StableHlo.TRef sig ⟨S1, .i32⟩) (constantI S1 32 1#32),
    StableHlo.TRef.unary (.of main_call52_v3 : StableHlo.TRef sig ⟨S1, .i32⟩) (.of main_call52_v4 : StableHlo.TRef sig ⟨S1, .i32⟩) id,
    StableHlo.TRef.nullary (.of main_call52_c_2 : StableHlo.TRef sig ⟨S_, .i32⟩) (constantI S_ 32 0#32),
    StableHlo.TRef.unary (.of main_call52_c_2 : StableHlo.TRef sig ⟨S_, .i32⟩) (.of main_call52_v5 : StableHlo.TRef sig ⟨S1, .i32⟩) (broadcastInDim S1 ![] bcast_S_S1),
    StableHlo.TRef.binary (.of main_call52_v4 : StableHlo.TRef sig ⟨S1, .i32⟩) (.of main_call52_v5 : StableHlo.TRef sig ⟨S1, .i32⟩) (.of main_call52_v6 : StableHlo.TRef sig ⟨S1, .i1⟩) (cmpi .sge),
    StableHlo.TRef.binary (.of main_call52_v4 : StableHlo.TRef sig ⟨S1, .i32⟩) (.of main_call52_c_1 : StableHlo.TRef sig ⟨S1, .i32⟩) (.of main_call52_v7 : StableHlo.TRef sig ⟨S1, .i1⟩) (cmpi .sle),
    StableHlo.TRef.binary (.of main_call52_v6 : StableHlo.TRef sig ⟨S1, .i1⟩) (.of main_call52_v7 : StableHlo.TRef sig ⟨S1, .i1⟩) (.of main_call52_v8 : StableHlo.TRef sig ⟨S1, .i1⟩) andi,
    StableHlo.TRef.nullary (.of main_call52_c_3 : StableHlo.TRef sig ⟨S_, .i1⟩) (constantI S_ 1 1#1),
    StableHlo.TRef.binary (.of main_call52_v8 : StableHlo.TRef sig ⟨S1, .i1⟩) (.of main_call52_c_3 : StableHlo.TRef sig ⟨S_, .i1⟩) (.of main_call52_v9 : StableHlo.TRef sig ⟨S_, .i1⟩) (fun x v => Host.reduce IntOp.andi x v reducesTo_S1_S_d0 h_S_),
    StableHlo.TRef.binary (.of main_v363 : StableHlo.TRef sig ⟨S256x2x2x2x2x2x2x2x2, .f32⟩) (.of main_call52_v4 : StableHlo.TRef sig ⟨S1, .i32⟩) (.of main_call52_v10 : StableHlo.TRef sig ⟨S256x2x2x2x2x2x2x2, .f32⟩) (fun x i => Host.gather gather_S256x2x2x2x2x2x2x2x2_S1_S256x2x2x2x2x2x2x2_01234567_3_n_n_3_0_25622122222 x i),
    StableHlo.TRef.unary (.of main_call52_v9 : StableHlo.TRef sig ⟨S_, .i1⟩) (.of main_call52_v11 : StableHlo.TRef sig ⟨S256x2x2x2x2x2x2x2, .i1⟩) (broadcastInDim S256x2x2x2x2x2x2x2 ![] bcast_S_S256x2x2x2x2x2x2x2),
    StableHlo.TRef.nullary (.of main_call52_cst : StableHlo.TRef sig ⟨S_, .f32⟩) (constant S_ .f32 0x7FC00000#32),
    StableHlo.TRef.unary (.of main_call52_cst : StableHlo.TRef sig ⟨S_, .f32⟩) (.of main_call52_v12 : StableHlo.TRef sig ⟨S256x2x2x2x2x2x2x2, .f32⟩) (broadcastInDim S256x2x2x2x2x2x2x2 ![] bcast_S_S256x2x2x2x2x2x2x2),
    StableHlo.TRef.ternary (.of main_call52_v11 : StableHlo.TRef sig ⟨S256x2x2x2x2x2x2x2, .i1⟩) (.of main_call52_v10 : StableHlo.TRef sig ⟨S256x2x2x2x2x2x2x2, .f32⟩) (.of main_call52_v12 : StableHlo.TRef sig ⟨S256x2x2x2x2x2x2x2, .f32⟩) (.of main_v371 : StableHlo.TRef sig ⟨S256x2x2x2x2x2x2x2, .f32⟩) select,
    StableHlo.unary main_v367 main_v372 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v372 main_v370 main_v373 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v369 main_v374 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v374 main_v371 main_v375 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.binary main_v373 main_v375 main_v376 (subf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v369 main_v377 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v377 main_v370 main_v378 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v367 main_v379 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v379 main_v371 main_v380 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.binary main_v378 main_v380 main_v381 (addf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v376 main_v382 (broadcastInDim S256x2x2x1x2x2x2x2x2 ![0, 1, 2, 4, 5, 6, 7, 8] bcast_S256x2x2x2x2x2x2x2_S256x2x2x1x2x2x2x2x2_0_1_2_4_5_6_7_8 : (⟨S256x2x2x2x2x2x2x2, .f32⟩ : BufTy).Contents (Elt F) → (⟨S256x2x2x1x2x2x2x2x2, .f32⟩ : BufTy).Contents (Elt F)),
    StableHlo.unary main_v381 main_v383 (broadcastInDim S256x2x2x1x2x2x2x2x2 ![0, 1, 2, 4, 5, 6, 7, 8] bcast_S256x2x2x2x2x2x2x2_S256x2x2x1x2x2x2x2x2_0_1_2_4_5_6_7_8 : (⟨S256x2x2x2x2x2x2x2, .f32⟩ : BufTy).Contents (Elt F) → (⟨S256x2x2x1x2x2x2x2x2, .f32⟩ : BufTy).Contents (Elt F)),
    StableHlo.binary main_v382 main_v383 main_v384 ((fun a b => concatenate S256x2x2x2x2x2x2x2x2 3 [⟨S256x2x2x1x2x2x2x2x2, a⟩, ⟨S256x2x2x1x2x2x2x2x2, b⟩] concatenates_S256x2x2x1x2x2x2x2x2_S256x2x2x1x2x2x2x2x2_S256x2x2x2x2x2x2x2x2_d3) : (⟨S256x2x2x1x2x2x2x2x2, .f32⟩ : BufTy).Contents (Elt F) → (⟨S256x2x2x1x2x2x2x2x2, .f32⟩ : BufTy).Contents (Elt F) → (⟨S256x2x2x2x2x2x2x2x2, .f32⟩ : BufTy).Contents (Elt F)) ]

/-- The host operations of gate 24 (a controlled flip, axis 2). -/
abbrev G24 : List (HloOp τ sig (Elt F)) :=
  [ StableHlo.nullary main_c_77 (constantI S_ 32 0#32),
    StableHlo.TRef.nullary (.of main_call53_c : StableHlo.TRef sig ⟨S_, .i32⟩) (constantI S_ 32 0#32),
    StableHlo.TRef.binary (.of main_c_77 : StableHlo.TRef sig ⟨S_, .i32⟩) (.of main_call53_c : StableHlo.TRef sig ⟨S_, .i32⟩) (.of main_call53_v0 : StableHlo.TRef sig ⟨S_, .i1⟩) (cmpi .slt),
    StableHlo.TRef.nullary (.of main_call53_c_0 : StableHlo.TRef sig ⟨S_, .i32⟩) (constantI S_ 32 2#32),
    StableHlo.TRef.binary (.of main_c_77 : StableHlo.TRef sig ⟨S_, .i32⟩) (.of main_call53_c_0 : StableHlo.TRef sig ⟨S_, .i32⟩) (.of main_call53_v1 : StableHlo.TRef sig ⟨S_, .i32⟩) addi,
    StableHlo.TRef.ternary (.of main_call53_v0 : StableHlo.TRef sig ⟨S_, .i1⟩) (.of main_call53_v1 : StableHlo.TRef sig ⟨S_, .i32⟩) (.of main_c_77 : StableHlo.TRef sig ⟨S_, .i32⟩) (.of main_call53_v2 : StableHlo.TRef sig ⟨S_, .i32⟩) select,
    StableHlo.TRef.unary main_call53_call0.v0 (.of main_call53_v3 : StableHlo.TRef sig ⟨S1, .i32⟩) (broadcastInDim S1 ![] bcast_S_S1),
    StableHlo.TRef.nullary (.of main_call53_c_1 : StableHlo.TRef sig ⟨S1, .i32⟩) (constantI S1 32 1#32),
    StableHlo.TRef.unary (.of main_call53_v3 : StableHlo.TRef sig ⟨S1, .i32⟩) (.of main_call53_v4 : StableHlo.TRef sig ⟨S1, .i32⟩) id,
    StableHlo.TRef.nullary (.of main_call53_c_2 : StableHlo.TRef sig ⟨S_, .i32⟩) (constantI S_ 32 0#32),
    StableHlo.TRef.unary (.of main_call53_c_2 : StableHlo.TRef sig ⟨S_, .i32⟩) (.of main_call53_v5 : StableHlo.TRef sig ⟨S1, .i32⟩) (broadcastInDim S1 ![] bcast_S_S1),
    StableHlo.TRef.binary (.of main_call53_v4 : StableHlo.TRef sig ⟨S1, .i32⟩) (.of main_call53_v5 : StableHlo.TRef sig ⟨S1, .i32⟩) (.of main_call53_v6 : StableHlo.TRef sig ⟨S1, .i1⟩) (cmpi .sge),
    StableHlo.TRef.binary (.of main_call53_v4 : StableHlo.TRef sig ⟨S1, .i32⟩) (.of main_call53_c_1 : StableHlo.TRef sig ⟨S1, .i32⟩) (.of main_call53_v7 : StableHlo.TRef sig ⟨S1, .i1⟩) (cmpi .sle),
    StableHlo.TRef.binary (.of main_call53_v6 : StableHlo.TRef sig ⟨S1, .i1⟩) (.of main_call53_v7 : StableHlo.TRef sig ⟨S1, .i1⟩) (.of main_call53_v8 : StableHlo.TRef sig ⟨S1, .i1⟩) andi,
    StableHlo.TRef.nullary (.of main_call53_c_3 : StableHlo.TRef sig ⟨S_, .i1⟩) (constantI S_ 1 1#1),
    StableHlo.TRef.binary (.of main_call53_v8 : StableHlo.TRef sig ⟨S1, .i1⟩) (.of main_call53_c_3 : StableHlo.TRef sig ⟨S_, .i1⟩) (.of main_call53_v9 : StableHlo.TRef sig ⟨S_, .i1⟩) (fun x v => Host.reduce IntOp.andi x v reducesTo_S1_S_d0 h_S_),
    StableHlo.TRef.binary (.of main_v384 : StableHlo.TRef sig ⟨S256x2x2x2x2x2x2x2x2, .f32⟩) (.of main_call53_v4 : StableHlo.TRef sig ⟨S1, .i32⟩) (.of main_call53_v10 : StableHlo.TRef sig ⟨S256x2x2x2x2x2x2x2, .f32⟩) (fun x i => Host.gather gather_S256x2x2x2x2x2x2x2x2_S1_S256x2x2x2x2x2x2x2_01234567_2_n_n_2_0_25621222222 x i),
    StableHlo.TRef.unary (.of main_call53_v9 : StableHlo.TRef sig ⟨S_, .i1⟩) (.of main_call53_v11 : StableHlo.TRef sig ⟨S256x2x2x2x2x2x2x2, .i1⟩) (broadcastInDim S256x2x2x2x2x2x2x2 ![] bcast_S_S256x2x2x2x2x2x2x2),
    StableHlo.TRef.nullary (.of main_call53_cst : StableHlo.TRef sig ⟨S_, .f32⟩) (constant S_ .f32 0x7FC00000#32),
    StableHlo.TRef.unary (.of main_call53_cst : StableHlo.TRef sig ⟨S_, .f32⟩) (.of main_call53_v12 : StableHlo.TRef sig ⟨S256x2x2x2x2x2x2x2, .f32⟩) (broadcastInDim S256x2x2x2x2x2x2x2 ![] bcast_S_S256x2x2x2x2x2x2x2),
    StableHlo.TRef.ternary (.of main_call53_v11 : StableHlo.TRef sig ⟨S256x2x2x2x2x2x2x2, .i1⟩) (.of main_call53_v10 : StableHlo.TRef sig ⟨S256x2x2x2x2x2x2x2, .f32⟩) (.of main_call53_v12 : StableHlo.TRef sig ⟨S256x2x2x2x2x2x2x2, .f32⟩) (.of main_v385 : StableHlo.TRef sig ⟨S256x2x2x2x2x2x2x2, .f32⟩) select,
    StableHlo.nullary main_c_78 (constantI S_ 32 1#32),
    StableHlo.TRef.nullary (.of main_call54_c : StableHlo.TRef sig ⟨S_, .i32⟩) (constantI S_ 32 0#32),
    StableHlo.TRef.binary (.of main_c_78 : StableHlo.TRef sig ⟨S_, .i32⟩) (.of main_call54_c : StableHlo.TRef sig ⟨S_, .i32⟩) (.of main_call54_v0 : StableHlo.TRef sig ⟨S_, .i1⟩) (cmpi .slt),
    StableHlo.TRef.nullary (.of main_call54_c_0 : StableHlo.TRef sig ⟨S_, .i32⟩) (constantI S_ 32 2#32),
    StableHlo.TRef.binary (.of main_c_78 : StableHlo.TRef sig ⟨S_, .i32⟩) (.of main_call54_c_0 : StableHlo.TRef sig ⟨S_, .i32⟩) (.of main_call54_v1 : StableHlo.TRef sig ⟨S_, .i32⟩) addi,
    StableHlo.TRef.ternary (.of main_call54_v0 : StableHlo.TRef sig ⟨S_, .i1⟩) (.of main_call54_v1 : StableHlo.TRef sig ⟨S_, .i32⟩) (.of main_c_78 : StableHlo.TRef sig ⟨S_, .i32⟩) (.of main_call54_v2 : StableHlo.TRef sig ⟨S_, .i32⟩) select,
    StableHlo.TRef.unary main_call54_call0.v0 (.of main_call54_v3 : StableHlo.TRef sig ⟨S1, .i32⟩) (broadcastInDim S1 ![] bcast_S_S1),
    StableHlo.TRef.nullary (.of main_call54_c_1 : StableHlo.TRef sig ⟨S1, .i32⟩) (constantI S1 32 1#32),
    StableHlo.TRef.unary (.of main_call54_v3 : StableHlo.TRef sig ⟨S1, .i32⟩) (.of main_call54_v4 : StableHlo.TRef sig ⟨S1, .i32⟩) id,
    StableHlo.TRef.nullary (.of main_call54_c_2 : StableHlo.TRef sig ⟨S_, .i32⟩) (constantI S_ 32 0#32),
    StableHlo.TRef.unary (.of main_call54_c_2 : StableHlo.TRef sig ⟨S_, .i32⟩) (.of main_call54_v5 : StableHlo.TRef sig ⟨S1, .i32⟩) (broadcastInDim S1 ![] bcast_S_S1),
    StableHlo.TRef.binary (.of main_call54_v4 : StableHlo.TRef sig ⟨S1, .i32⟩) (.of main_call54_v5 : StableHlo.TRef sig ⟨S1, .i32⟩) (.of main_call54_v6 : StableHlo.TRef sig ⟨S1, .i1⟩) (cmpi .sge),
    StableHlo.TRef.binary (.of main_call54_v4 : StableHlo.TRef sig ⟨S1, .i32⟩) (.of main_call54_c_1 : StableHlo.TRef sig ⟨S1, .i32⟩) (.of main_call54_v7 : StableHlo.TRef sig ⟨S1, .i1⟩) (cmpi .sle),
    StableHlo.TRef.binary (.of main_call54_v6 : StableHlo.TRef sig ⟨S1, .i1⟩) (.of main_call54_v7 : StableHlo.TRef sig ⟨S1, .i1⟩) (.of main_call54_v8 : StableHlo.TRef sig ⟨S1, .i1⟩) andi,
    StableHlo.TRef.nullary (.of main_call54_c_3 : StableHlo.TRef sig ⟨S_, .i1⟩) (constantI S_ 1 1#1),
    StableHlo.TRef.binary (.of main_call54_v8 : StableHlo.TRef sig ⟨S1, .i1⟩) (.of main_call54_c_3 : StableHlo.TRef sig ⟨S_, .i1⟩) (.of main_call54_v9 : StableHlo.TRef sig ⟨S_, .i1⟩) (fun x v => Host.reduce IntOp.andi x v reducesTo_S1_S_d0 h_S_),
    StableHlo.TRef.binary (.of main_v384 : StableHlo.TRef sig ⟨S256x2x2x2x2x2x2x2x2, .f32⟩) (.of main_call54_v4 : StableHlo.TRef sig ⟨S1, .i32⟩) (.of main_call54_v10 : StableHlo.TRef sig ⟨S256x2x2x2x2x2x2x2, .f32⟩) (fun x i => Host.gather gather_S256x2x2x2x2x2x2x2x2_S1_S256x2x2x2x2x2x2x2_01234567_2_n_n_2_0_25621222222 x i),
    StableHlo.TRef.unary (.of main_call54_v9 : StableHlo.TRef sig ⟨S_, .i1⟩) (.of main_call54_v11 : StableHlo.TRef sig ⟨S256x2x2x2x2x2x2x2, .i1⟩) (broadcastInDim S256x2x2x2x2x2x2x2 ![] bcast_S_S256x2x2x2x2x2x2x2),
    StableHlo.TRef.nullary (.of main_call54_cst : StableHlo.TRef sig ⟨S_, .f32⟩) (constant S_ .f32 0x7FC00000#32),
    StableHlo.TRef.unary (.of main_call54_cst : StableHlo.TRef sig ⟨S_, .f32⟩) (.of main_call54_v12 : StableHlo.TRef sig ⟨S256x2x2x2x2x2x2x2, .f32⟩) (broadcastInDim S256x2x2x2x2x2x2x2 ![] bcast_S_S256x2x2x2x2x2x2x2),
    StableHlo.TRef.ternary (.of main_call54_v11 : StableHlo.TRef sig ⟨S256x2x2x2x2x2x2x2, .i1⟩) (.of main_call54_v10 : StableHlo.TRef sig ⟨S256x2x2x2x2x2x2x2, .f32⟩) (.of main_call54_v12 : StableHlo.TRef sig ⟨S256x2x2x2x2x2x2x2, .f32⟩) (.of main_v386 : StableHlo.TRef sig ⟨S256x2x2x2x2x2x2x2, .f32⟩) select,
    StableHlo.TRef.unary (.of main_v386 : StableHlo.TRef sig ⟨S256x2x2x2x2x2x2x2, .f32⟩) (.of main_v387 : StableHlo.TRef sig ⟨S256x2x2x2x2x2x2x2, .f32⟩) (Host.reverse [2]),
    StableHlo.unary main_v385 main_v388 (broadcastInDim S256x2x1x2x2x2x2x2x2 ![0, 1, 3, 4, 5, 6, 7, 8] bcast_S256x2x2x2x2x2x2x2_S256x2x1x2x2x2x2x2x2_0_1_3_4_5_6_7_8 : (⟨S256x2x2x2x2x2x2x2, .f32⟩ : BufTy).Contents (Elt F) → (⟨S256x2x1x2x2x2x2x2x2, .f32⟩ : BufTy).Contents (Elt F)),
    StableHlo.unary main_v387 main_v389 (broadcastInDim S256x2x1x2x2x2x2x2x2 ![0, 1, 3, 4, 5, 6, 7, 8] bcast_S256x2x2x2x2x2x2x2_S256x2x1x2x2x2x2x2x2_0_1_3_4_5_6_7_8 : (⟨S256x2x2x2x2x2x2x2, .f32⟩ : BufTy).Contents (Elt F) → (⟨S256x2x1x2x2x2x2x2x2, .f32⟩ : BufTy).Contents (Elt F)),
    StableHlo.binary main_v388 main_v389 main_v390 ((fun a b => concatenate S256x2x2x2x2x2x2x2x2 2 [⟨S256x2x1x2x2x2x2x2x2, a⟩, ⟨S256x2x1x2x2x2x2x2x2, b⟩] concatenates_S256x2x1x2x2x2x2x2x2_S256x2x1x2x2x2x2x2x2_S256x2x2x2x2x2x2x2x2_d2) : (⟨S256x2x1x2x2x2x2x2x2, .f32⟩ : BufTy).Contents (Elt F) → (⟨S256x2x1x2x2x2x2x2x2, .f32⟩ : BufTy).Contents (Elt F) → (⟨S256x2x2x2x2x2x2x2x2, .f32⟩ : BufTy).Contents (Elt F)) ]

end Lists

-- the layout operations stay folded while the fold of the host operations is opened
attribute [local irreducible] Host.gather Host.reduce concatenate broadcastInDim Host.reverse shapeCast extractStridedSlice

set_option maxHeartbeats 1600000 in
theorem gate17 (W : Valuation τ sig (Elt Ideal)) :
    after (G17 (F := Ideal)) W (main_v288 : DevRef τ sig)
      = Cert.TTN.Gates.ryTerm (s := S256x2x2x2x2x2x2x2x2) (t := S256x2x2x2x2x2x2x2) (u := S256x2x2x2x2x2x2x2x1) 8 ![0, 1, 2, 3, 4, 5, 6, 7] gather_S256x2x2x2x2x2x2x2x2_S1_S256x2x2x2x2x2x2x2_01234567_8_n_n_8_0_25622222221 bcast_S_S1 bcast_S_S256x2x2x2x2x2x2x2 reducesTo_S1_S_d0 h_S_ bcast_S256x2x2x2x2x2x2x2_S256x2x2x2x2x2x2x2x1_0_1_2_3_4_5_6_7 concatenates_S256x2x2x2x2x2x2x2x1_S256x2x2x2x2x2x2x2x1_S256x2x2x2x2x2x2x2x2_d8
        (W (main_v267 : DevRef τ sig)) (shapeCast S_ (extractStridedSlice S1 ![11] (W (main_arg3 : DevRef τ sig)) slices_S21_S1_11) shapeCasts_S1_S_) := by
  simp only [after_cons, after_nil]
  rfl

set_option maxHeartbeats 1600000 in
theorem gate17_arg3 (W : Valuation τ sig (Elt Ideal)) :
    after (G17 (F := Ideal)) W (main_arg3 : DevRef τ sig) = W (main_arg3 : DevRef τ sig) := by
  simp only [after_cons, after_nil]
  rfl

set_option maxHeartbeats 1600000 in
theorem gate18 (W : Valuation τ sig (Elt Ideal)) :
    after (G18 (F := Ideal)) W (main_v294 : DevRef τ sig)
      = Cert.TTN.Gates.cxTerm (s := S256x2x2x2x2x2x2x2x2) (t := S256x2x2x2x2x2x2x2) (u := S256x2x2x2x2x2x2x2x1) 8 7 ![0, 1, 2, 3, 4, 5, 6, 7] gather_S256x2x2x2x2x2x2x2x2_S1_S256x2x2x2x2x2x2x2_01234567_8_n_n_8_0_25622222221 bcast_S_S1 bcast_S_S256x2x2x2x2x2x2x2 reducesTo_S1_S_d0 h_S_ bcast_S256x2x2x2x2x2x2x2_S256x2x2x2x2x2x2x2x1_0_1_2_3_4_5_6_7 concatenates_S256x2x2x2x2x2x2x2x1_S256x2x2x2x2x2x2x2x1_S256x2x2x2x2x2x2x2x2_d8
        (W (main_v288 : DevRef τ sig)) := by
  simp only [after_cons, after_nil]
  rfl

set_option maxHeartbeats 1600000 in
theorem gate18_arg3 (W : Valuation τ sig (Elt Ideal)) :
    after (G18 (F := Ideal)) W (main_arg3 : DevRef τ sig) = W (main_arg3 : DevRef τ sig) := by
  simp only [after_cons, after_nil]
  rfl

set_option maxHeartbeats 1600000 in
theorem gate19 (W : Valuation τ sig (Elt Ideal)) :
    after (G19 (F := Ideal)) W (main_v315 : DevRef τ sig)
      = Cert.TTN.Gates.ryTerm (s := S256x2x2x2x2x2x2x2x2) (t := S256x2x2x2x2x2x2x2) (u := S256x2x2x1x2x2x2x2x2) 3 ![0, 1, 2, 4, 5, 6, 7, 8] gather_S256x2x2x2x2x2x2x2x2_S1_S256x2x2x2x2x2x2x2_01234567_3_n_n_3_0_25622122222 bcast_S_S1 bcast_S_S256x2x2x2x2x2x2x2 reducesTo_S1_S_d0 h_S_ bcast_S256x2x2x2x2x2x2x2_S256x2x2x1x2x2x2x2x2_0_1_2_4_5_6_7_8 concatenates_S256x2x2x1x2x2x2x2x2_S256x2x2x1x2x2x2x2x2_S256x2x2x2x2x2x2x2x2_d3
        (W (main_v294 : DevRef τ sig)) (shapeCast S_ (extractStridedSlice S1 ![12] (W (main_arg3 : DevRef τ sig)) slices_S21_S1_12) shapeCasts_S1_S_) := by
  simp only [after_cons, after_nil]
  rfl

set_option maxHeartbeats 1600000 in
theorem gate19_arg3 (W : Valuation τ sig (Elt Ideal)) :
    after (G19 (F := Ideal)) W (main_arg3 : DevRef τ sig) = W (main_arg3 : DevRef τ sig) := by
  simp only [after_cons, after_nil]
  rfl

set_option maxHeartbeats 1600000 in
theorem gate20 (W : Valuation τ sig (Elt Ideal)) :
    after (G20 (F := Ideal)) W (main_v336 : DevRef τ sig)
      = Cert.TTN.Gates.ryTerm (s := S256x2x2x2x2x2x2x2x2) (t := S256x2x2x2x2x2x2x2) (u := S256x2x2x2x2x2x1x2x2) 6 ![0, 1, 2, 3, 4, 5, 7, 8] gather_S256x2x2x2x2x2x2x2x2_S1_S256x2x2x2x2x2x2x2_01234567_6_n_n_6_0_25622222122 bcast_S_S1 bcast_S_S256x2x2x2x2x2x2x2 reducesTo_S1_S_d0 h_S_ bcast_S256x2x2x2x2x2x2x2_S256x2x2x2x2x2x1x2x2_0_1_2_3_4_5_7_8 concatenates_S256x2x2x2x2x2x1x2x2_S256x2x2x2x2x2x1x2x2_S256x2x2x2x2x2x2x2x2_d6
        (W (main_v315 : DevRef τ sig)) (shapeCast S_ (extractStridedSlice S1 ![13] (W (main_arg3 : DevRef τ sig)) slices_S21_S1_13) shapeCasts_S1_S_) := by
  simp only [after_cons, after_nil]
  rfl

set_option maxHeartbeats 1600000 in
theorem gate20_arg3 (W : Valuation τ sig (Elt Ideal)) :
    after (G20 (F := Ideal)) W (main_arg3 : DevRef τ sig) = W (main_arg3 : DevRef τ sig) := by
  simp only [after_cons, after_nil]
  rfl

set_option maxHeartbeats 1600000 in
theorem gate21 (W : Valuation τ sig (Elt Ideal)) :
    after (G21 (F := Ideal)) W (main_v342 : DevRef τ sig)
      = Cert.TTN.Gates.cxTerm (s := S256x2x2x2x2x2x2x2x2) (t := S256x2x2x2x2x2x2x2) (u := S256x2x2x1x2x2x2x2x2) 3 5 ![0, 1, 2, 4, 5, 6, 7, 8] gather_S256x2x2x2x2x2x2x2x2_S1_S256x2x2x2x2x2x2x2_01234567_3_n_n_3_0_25622122222 bcast_S_S1 bcast_S_S256x2x2x2x2x2x2x2 reducesTo_S1_S_d0 h_S_ bcast_S256x2x2x2x2x2x2x2_S256x2x2x1x2x2x2x2x2_0_1_2_4_5_6_7_8 concatenates_S256x2x2x1x2x2x2x2x2_S256x2x2x1x2x2x2x2x2_S256x2x2x2x2x2x2x2x2_d3
        (W (main_v336 : DevRef τ sig)) := by
  simp only [after_cons, after_nil]
  rfl

set_option maxHeartbeats 1600000 in
theorem gate21_arg3 (W : Valuation τ sig (Elt Ideal)) :
    after (G21 (F := Ideal)) W (main_arg3 : DevRef τ sig) = W (main_arg3 : DevRef τ sig) := by
  simp only [after_cons, after_nil]
  rfl

set_option maxHeartbeats 1600000 in
theorem gate22 (W : Valuation τ sig (Elt Ideal)) :
    after (G22 (F := Ideal)) W (main_v363 : DevRef τ sig)
      = Cert.TTN.Gates.ryTerm (s := S256x2x2x2x2x2x2x2x2) (t := S256x2x2x2x2x2x2x2) (u := S256x2x1x2x2x2x2x2x2) 2 ![0, 1, 3, 4, 5, 6, 7, 8] gather_S256x2x2x2x2x2x2x2x2_S1_S256x2x2x2x2x2x2x2_01234567_2_n_n_2_0_25621222222 bcast_S_S1 bcast_S_S256x2x2x2x2x2x2x2 reducesTo_S1_S_d0 h_S_ bcast_S256x2x2x2x2x2x2x2_S256x2x1x2x2x2x2x2x2_0_1_3_4_5_6_7_8 concatenates_S256x2x1x2x2x2x2x2x2_S256x2x1x2x2x2x2x2x2_S256x2x2x2x2x2x2x2x2_d2
        (W (main_v342 : DevRef τ sig)) (shapeCast S_ (extractStridedSlice S1 ![14] (W (main_arg3 : DevRef τ sig)) slices_S21_S1_14) shapeCasts_S1_S_) := by
  simp only [after_cons, after_nil]
  rfl

set_option maxHeartbeats 1600000 in
theorem gate22_arg3 (W : Valuation τ sig (Elt Ideal)) :
    after (G22 (F := Ideal)) W (main_arg3 : DevRef τ sig) = W (main_arg3 : DevRef τ sig) := by
  simp only [after_cons, after_nil]
  rfl

set_option maxHeartbeats 1600000 in
theorem gate23 (W : Valuation τ sig (Elt Ideal)) :
    after (G23 (F := Ideal)) W (main_v384 : DevRef τ sig)
      = Cert.TTN.Gates.ryTerm (s := S256x2x2x2x2x2x2x2x2) (t := S256x2x2x2x2x2x2x2) (u := S256x2x2x1x2x2x2x2x2) 3 ![0, 1, 2, 4, 5, 6, 7, 8] gather_S256x2x2x2x2x2x2x2x2_S1_S256x2x2x2x2x2x2x2_01234567_3_n_n_3_0_25622122222 bcast_S_S1 bcast_S_S256x2x2x2x2x2x2x2 reducesTo_S1_S_d0 h_S_ bcast_S256x2x2x2x2x2x2x2_S256x2x2x1x2x2x2x2x2_0_1_2_4_5_6_7_8 concatenates_S256x2x2x1x2x2x2x2x2_S256x2x2x1x2x2x2x2x2_S256x2x2x2x2x2x2x2x2_d3
        (W (main_v363 : DevRef τ sig)) (shapeCast S_ (extractStridedSlice S1 ![15] (W (main_arg3 : DevRef τ sig)) slices_S21_S1_15) shapeCasts_S1_S_) := by
  simp only [after_cons, after_nil]
  rfl

set_option maxHeartbeats 1600000 in
theorem gate23_arg3 (W : Valuation τ sig (Elt Ideal)) :
    after (G23 (F := Ideal)) W (main_arg3 : DevRef τ sig) = W (main_arg3 : DevRef τ sig) := by
  simp only [after_cons, after_nil]
  rfl

set_option maxHeartbeats 1600000 in
theorem gate24 (W : Valuation τ sig (Elt Ideal)) :
    after (G24 (F := Ideal)) W (main_v390 : DevRef τ sig)
      = Cert.TTN.Gates.cxTerm (s := S256x2x2x2x2x2x2x2x2) (t := S256x2x2x2x2x2x2x2) (u := S256x2x1x2x2x2x2x2x2) 2 2 ![0, 1, 3, 4, 5, 6, 7, 8] gather_S256x2x2x2x2x2x2x2x2_S1_S256x2x2x2x2x2x2x2_01234567_2_n_n_2_0_25621222222 bcast_S_S1 bcast_S_S256x2x2x2x2x2x2x2 reducesTo_S1_S_d0 h_S_ bcast_S256x2x2x2x2x2x2x2_S256x2x1x2x2x2x2x2x2_0_1_3_4_5_6_7_8 concatenates_S256x2x1x2x2x2x2x2x2_S256x2x1x2x2x2x2x2x2_S256x2x2x2x2x2x2x2x2_d2
        (W (main_v384 : DevRef τ sig)) := by
  simp only [after_cons, after_nil]
  rfl

set_option maxHeartbeats 1600000 in
theorem gate24_arg3 (W : Valuation τ sig (Elt Ideal)) :
    after (G24 (F := Ideal)) W (main_arg3 : DevRef τ sig) = W (main_arg3 : DevRef τ sig) := by
  simp only [after_cons, after_nil]
  rfl

end Cert.TTN.KHost

end
-- ==== Proof.KHostG4.lean ====
/-
  Gates 25, 26, 27, 28, 29, 30, 31 of the circuit as the host part of the kernel's program runs them on the 256 basis registers:
  for each gate, the stretch of host operations that computes it, and the fact that, from any buffer contents, the
  stretch leaves in the gate's result buffer the gate's term of the previous state (and of the parameter vector),
  and leaves the parameter vector alone.
-/
import proofs.«130987_j14276471292017_1_alg».proof.KernelIdeal
import proofs.«130987_j14276471292017_1_alg».proof.Proof.Gen.KernelIdeal
import proofs.«130987_j14276471292017_1_alg».proof.Proof.Gates
import Idealize.ShloMosaic.Lib.StableHlo.Run

set_option maxRecDepth 16384

noncomputable section

namespace Cert.TTN.KHost

open Idealize.ShloMosaic Idealize.ShloMosaic.TcCoe Idealize.SL.Sem Idealize.ShloMosaic.StableHlo
open Cert.KernelIdeal Cert.KernelIdeal.Gen

section Lists
variable {F : FTy → Type} [FloatOps F]

/-- The host operations of gate 25 (a rotation, parameter 16, axis 6). -/
abbrev G25 : List (HloOp τ sig (Elt F)) :=
  [ StableHlo.unary main_arg3 main_v391 ((extractStridedSlice S1 ![16] · slices_S21_S1_16) : (⟨S21, .f32⟩ : BufTy).Contents (Elt F) → (⟨S1, .f32⟩ : BufTy).Contents (Elt F)),
    StableHlo.reshape main_v391 main_v392 rfl shapeCasts_S1_S_,
    StableHlo.nullary main_cst_79 (constant S_ .f32 0x3F000000#32),
    StableHlo.binary main_cst_79 main_v392 main_v393 (mulf : (⟨S_, .f32⟩ : BufTy).Contents (Elt F) → (⟨S_, .f32⟩ : BufTy).Contents (Elt F) → (⟨S_, .f32⟩ : BufTy).Contents (Elt F)),
    StableHlo.unary main_v393 main_v394 (Host.cos : (⟨S_, .f32⟩ : BufTy).Contents (Elt F) → (⟨S_, .f32⟩ : BufTy).Contents (Elt F)),
    StableHlo.nullary main_cst_80 (constant S_ .f32 0x3F000000#32),
    StableHlo.binary main_cst_80 main_v392 main_v395 (mulf : (⟨S_, .f32⟩ : BufTy).Contents (Elt F) → (⟨S_, .f32⟩ : BufTy).Contents (Elt F) → (⟨S_, .f32⟩ : BufTy).Contents (Elt F)),
    StableHlo.unary main_v395 main_v396 (Host.sin : (⟨S_, .f32⟩ : BufTy).Contents (Elt F) → (⟨S_, .f32⟩ : BufTy).Contents (Elt F)),
    StableHlo.nullary main_c_81 (constantI S_ 32 0#32),
    StableHlo.TRef.nullary (.of main_call56_c : StableHlo.TRef sig ⟨S_, .i32⟩) (constantI S_ 32 0#32),
    StableHlo.TRef.binary (.of main_c_81 : StableHlo.TRef sig ⟨S_, .i32⟩) (.of main_call56_c : StableHlo.TRef sig ⟨S_, .i32⟩) (.of main_call56_v0 : StableHlo.TRef sig ⟨S_, .i1⟩) (cmpi .slt),
    StableHlo.TRef.nullary (.of main_call56_c_0 : StableHlo.TRef sig ⟨S_, .i32⟩) (constantI S_ 32 2#32),
    StableHlo.TRef.binary (.of main_c_81 : StableHlo.TRef sig ⟨S_, .i32⟩) (.of main_call56_c_0 : StableHlo.TRef sig ⟨S_, .i32⟩) (.of main_call56_v1 : StableHlo.TRef sig ⟨S_, .i32⟩) addi,
    StableHlo.TRef.ternary (.of main_call56_v0 : StableHlo.TRef sig ⟨S_, .i1⟩) (.of main_call56_v1 : StableHlo.TRef sig ⟨S_, .i32⟩) (.of main_c_81 : StableHlo.TRef sig ⟨S_, .i32⟩) (.of main_call56_v2 : StableHlo.TRef sig ⟨S_, .i32⟩) select,
    StableHlo.TRef.unary main_call56_call0.v0 (.of main_call56_v3 : StableHlo.TRef sig ⟨S1, .i32⟩) (broadcastInDim S1 ![] bcast_S_S1),
    StableHlo.TRef.nullary (.of main_call56_c_1 : StableHlo.TRef sig ⟨S1, .i32⟩) (constantI S1 32 1#32),
    StableHlo.TRef.unary (.of main_call56_v3 : StableHlo.TRef sig ⟨S1, .i32⟩) (.of main_call56_v4 : StableHlo.TRef sig ⟨S1, .i32⟩) id,
    StableHlo.TRef.nullary (.of main_call56_c_2 : StableHlo.TRef sig ⟨S_, .i32⟩) (constantI S_ 32 0#32),
    StableHlo.TRef.unary (.of main_call56_c_2 : StableHlo.TRef sig ⟨S_, .i32⟩) (.of main_call56_v5 : StableHlo.TRef sig ⟨S1, .i32⟩) (broadcastInDim S1 ![] bcast_S_S1),
    StableHlo.TRef.binary (.of main_call56_v4 : StableHlo.TRef sig ⟨S1, .i32⟩) (.of main_call56_v5 : StableHlo.TRef sig ⟨S1, .i32⟩) (.of main_call56_v6 : StableHlo.TRef sig ⟨S1, .i1⟩) (cmpi .sge),
    StableHlo.TRef.binary (.of main_call56_v4 : StableHlo.TRef sig ⟨S1, .i32⟩) (.of main_call56_c_1 : StableHlo.TRef sig ⟨S1, .i32⟩) (.of main_call56_v7 : StableHlo.TRef sig ⟨S1, .i1⟩) (cmpi .sle),
    StableHlo.TRef.binary (.of main_call56_v6 : StableHlo.TRef sig ⟨S1, .i1⟩) (.of main_call56_v7 : StableHlo.TRef sig ⟨S1, .i1⟩) (.of main_call56_v8 : StableHlo.TRef sig ⟨S1, .i1⟩) andi,
    StableHlo.TRef.nullary (.of main_call56_c_3 : StableHlo.TRef sig ⟨S_, .i1⟩) (constantI S_ 1 1#1),
    StableHlo.TRef.binary (.of main_call56_v8 : StableHlo.TRef sig ⟨S1, .i1⟩) (.of main_call56_c_3 : StableHlo.TRef sig ⟨S_, .i1⟩) (.of main_call56_v9 : StableHlo.TRef sig ⟨S_, .i1⟩) (fun x v => Host.reduce IntOp.andi x v reducesTo_S1_S_d0 h_S_),
    StableHlo.TRef.binary (.of main_v390 : StableHlo.TRef sig ⟨S256x2x2x2x2x2x2x2x2, .f32⟩) (.of main_call56_v4 : StableHlo.TRef sig ⟨S1, .i32⟩) (.of main_call56_v10 : StableHlo.TRef sig ⟨S256x2x2x2x2x2x2x2, .f32⟩) (fun x i => Host.gather gather_S256x2x2x2x2x2x2x2x2_S1_S256x2x2x2x2x2x2x2_01234567_6_n_n_6_0_25622222122 x i),
    StableHlo.TRef.unary (.of main_call56_v9 : StableHlo.TRef sig ⟨S_, .i1⟩) (.of main_call56_v11 : StableHlo.TRef sig ⟨S256x2x2x2x2x2x2x2, .i1⟩) (broadcastInDim S256x2x2x2x2x2x2x2 ![] bcast_S_S256x2x2x2x2x2x2x2),
    StableHlo.TRef.nullary (.of main_call56_cst : StableHlo.TRef sig ⟨S_, .f32⟩) (constant S_ .f32 0x7FC00000#32),
    StableHlo.TRef.unary (.of main_call56_cst : StableHlo.TRef sig ⟨S_, .f32⟩) (.of main_call56_v12 : StableHlo.TRef sig ⟨S256x2x2x2x2x2x2x2, .f32⟩) (broadcastInDim S256x2x2x2x2x2x2x2 ![] bcast_S_S256x2x2x2x2x2x2x2),
    StableHlo.TRef.ternary (.of main_call56_v11 : StableHlo.TRef sig ⟨S256x2x2x2x2x2x2x2, .i1⟩) (.of main_call56_v10 : StableHlo.TRef sig ⟨S256x2x2x2x2x2x2x2, .f32⟩) (.of main_call56_v12 : StableHlo.TRef sig ⟨S256x2x2x2x2x2x2x2, .f32⟩) (.of main_v397 : StableHlo.TRef sig ⟨S256x2x2x2x2x2x2x2, .f32⟩) select,
    StableHlo.nullary main_c_82 (constantI S_ 32 1#32),
    StableHlo.TRef.nullary (.of main_call57_c : StableHlo.TRef sig ⟨S_, .i32⟩) (constantI S_ 32 0#32),
    StableHlo.TRef.binary (.of main_c_82 : StableHlo.TRef sig ⟨S_, .i32⟩) (.of main_call57_c : StableHlo.TRef sig ⟨S_, .i32⟩) (.of main_call57_v0 : StableHlo.TRef sig ⟨S_, .i1⟩) (cmpi .slt),
    StableHlo.TRef.nullary (.of main_call57_c_0 : StableHlo.TRef sig ⟨S_, .i32⟩) (constantI S_ 32 2#32),
    StableHlo.TRef.binary (.of main_c_82 : StableHlo.TRef sig ⟨S_, .i32⟩) (.of main_call57_c_0 : StableHlo.TRef sig ⟨S_, .i32⟩) (.of main_call57_v1 : StableHlo.TRef sig ⟨S_, .i32⟩) addi,
    StableHlo.TRef.ternary (.of main_call57_v0 : StableHlo.TRef sig ⟨S_, .i1⟩) (.of main_call57_v1 : StableHlo.TRef sig ⟨S_, .i32⟩) (.of main_c_82 : StableHlo.TRef sig ⟨S_, .i32⟩) (.of main_call57_v2 : StableHlo.TRef sig ⟨S_, .i32⟩) select,
    StableHlo.TRef.unary main_call57_call0.v0 (.of main_call57_v3 : StableHlo.TRef sig ⟨S1, .i32⟩) (broadcastInDim S1 ![] bcast_S_S1),
    StableHlo.TRef.nullary (.of main_call57_c_1 : StableHlo.TRef sig ⟨S1, .i32⟩) (constantI S1 32 1#32),
    StableHlo.TRef.unary (.of main_call57_v3 : StableHlo.TRef sig ⟨S1, .i32⟩) (.of main_call57_v4 : StableHlo.TRef sig ⟨S1, .i32⟩) id,
    StableHlo.TRef.nullary (.of main_call57_c_2 : StableHlo.TRef sig ⟨S_, .i32⟩) (constantI S_ 32 0#32),
    StableHlo.TRef.unary (.of main_call57_c_2 : StableHlo.TRef sig ⟨S_, .i32⟩) (.of main_call57_v5 : StableHlo.TRef sig ⟨S1, .i32⟩) (broadcastInDim S1 ![] bcast_S_S1),
    StableHlo.TRef.binary (.of main_call57_v4 : StableHlo.TRef sig ⟨S1, .i32⟩) (.of main_call57_v5 : StableHlo.TRef sig ⟨S1, .i32⟩) (.of main_call57_v6 : StableHlo.TRef sig ⟨S1, .i1⟩) (cmpi .sge),
    StableHlo.TRef.binary (.of main_call57_v4 : StableHlo.TRef sig ⟨S1, .i32⟩) (.of main_call57_c_1 : StableHlo.TRef sig ⟨S1, .i32⟩) (.of main_call57_v7 : StableHlo.TRef sig ⟨S1, .i1⟩) (cmpi .sle),
    StableHlo.TRef.binary (.of main_call57_v6 : StableHlo.TRef sig ⟨S1, .i1⟩) (.of main_call57_v7 : StableHlo.TRef sig ⟨S1, .i1⟩) (.of main_call57_v8 : StableHlo.TRef sig ⟨S1, .i1⟩) andi,
    StableHlo.TRef.nullary (.of main_call57_c_3 : StableHlo.TRef sig ⟨S_, .i1⟩) (constantI S_ 1 1#1),
    StableHlo.TRef.binary (.of main_call57_v8 : StableHlo.TRef sig ⟨S1, .i1⟩) (.of main_call57_c_3 : StableHlo.TRef sig ⟨S_, .i1⟩) (.of main_call57_v9 : StableHlo.TRef sig ⟨S_, .i1⟩) (fun x v => Host.reduce IntOp.andi x v reducesTo_S1_S_d0 h_S_),
    StableHlo.TRef.binary (.of main_v390 : StableHlo.TRef sig ⟨S256x2x2x2x2x2x2x2x2, .f32⟩) (.of main_call57_v4 : StableHlo.TRef sig ⟨S1, .i32⟩) (.of main_call57_v10 : StableHlo.TRef sig ⟨S256x2x2x2x2x2x2x2, .f32⟩) (fun x i => Host.gather gather_S256x2x2x2x2x2x2x2x2_S1_S256x2x2x2x2x2x2x2_01234567_6_n_n_6_0_25622222122 x i),
    StableHlo.TRef.unary (.of main_call57_v9 : StableHlo.TRef sig ⟨S_, .i1⟩) (.of main_call57_v11 : StableHlo.TRef sig ⟨S256x2x2x2x2x2x2x2, .i1⟩) (broadcastInDim S256x2x2x2x2x2x2x2 ![] bcast_S_S256x2x2x2x2x2x2x2),
    StableHlo.TRef.nullary (.of main_call57_cst : StableHlo.TRef sig ⟨S_, .f32⟩) (constant S_ .f32 0x7FC00000#32),
    StableHlo.TRef.unary (.of main_call57_cst : StableHlo.TRef sig ⟨S_, .f32⟩) (.of main_call57_v12 : StableHlo.TRef sig ⟨S256x2x2x2x2x2x2x2, .f32⟩) (broadcastInDim S256x2x2x2x2x2x2x2 ![] bcast_S_S256x2x2x2x2x2x2x2),
    StableHlo.TRef.ternary (.of main_call57_v11 : StableHlo.TRef sig ⟨S256x2x2x2x2x2x2x2, .i1⟩) (.of main_call57_v10 : StableHlo.TRef sig ⟨S256x2x2x2x2x2x2x2, .f32⟩) (.of main_call57_v12 : StableHlo.TRef sig ⟨S256x2x2x2x2x2x2x2, .f32⟩) (.of main_v398 : StableHlo.TRef sig ⟨S256x2x2x2x2x2x2x2, .f32⟩) select,
    StableHlo.unary main_v394 main_v399 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v399 main_v397 main_v400 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v396 main_v401 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v401 main_v398 main_v402 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.binary main_v400 main_v402 main_v403 (subf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v396 main_v404 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v404 main_v397 main_v405 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v394 main_v406 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v406 main_v398 main_v407 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.binary main_v405 main_v407 main_v408 (addf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v403 main_v409 (broadcastInDim S256x2x2x2x2x2x1x2x2 ![0, 1, 2, 3, 4, 5, 7, 8] bcast_S256x2x2x2x2x2x2x2_S256x2x2x2x2x2x1x2x2_0_1_2_3_4_5_7_8 : (⟨S256x2x2x2x2x2x2x2, .f32⟩ : BufTy).Contents (Elt F) → (⟨S256x2x2x2x2x2x1x2x2, .f32⟩ : BufTy).Contents (Elt F)),
    StableHlo.unary main_v408 main_v410 (broadcastInDim S256x2x2x2x2x2x1x2x2 ![0, 1, 2, 3, 4, 5, 7, 8] bcast_S256x2x2x2x2x2x2x2_S256x2x2x2x2x2x1x2x2_0_1_2_3_4_5_7_8 : (⟨S256x2x2x2x2x2x2x2, .f32⟩ : BufTy).Contents (Elt F) → (⟨S256x2x2x2x2x2x1x2x2, .f32⟩ : BufTy).Contents (Elt F)),
    StableHlo.binary main_v409 main_v410 main_v411 ((fun a b => concatenate S256x2x2x2x2x2x2x2x2 6 [⟨S256x2x2x2x2x2x1x2x2, a⟩, ⟨S256x2x2x2x2x2x1x2x2, b⟩] concatenates_S256x2x2x2x2x2x1x2x2_S256x2x2x2x2x2x1x2x2_S256x2x2x2x2x2x2x2x2_d6) : (⟨S256x2x2x2x2x2x1x2x2, .f32⟩ : BufTy).Contents (Elt F) → (⟨S256x2x2x2x2x2x1x2x2, .f32⟩ : BufTy).Contents (Elt F) → (⟨S256x2x2x2x2x2x2x2x2, .f32⟩ : BufTy).Contents (Elt F)) ]

/-- The host operations of gate 26 (a rotation, parameter 17, axis 7). -/
abbrev G26 : List (HloOp τ sig (Elt F)) :=
  [ StableHlo.unary main_arg3 main_v412 ((extractStridedSlice S1 ![17] · slices_S21_S1_17) : (⟨S21, .f32⟩ : BufTy).Contents (Elt F) → (⟨S1, .f32⟩ : BufTy).Contents (Elt F)),
    StableHlo.reshape main_v412 main_v413 rfl shapeCasts_S1_S_,
    StableHlo.nullary main_cst_83 (constant S_ .f32 0x3F000000#32),
    StableHlo.binary main_cst_83 main_v413 main_v414 (mulf : (⟨S_, .f32⟩ : BufTy).Contents (Elt F) → (⟨S_, .f32⟩ : BufTy).Contents (Elt F) → (⟨S_, .f32⟩ : BufTy).Contents (Elt F)),
    StableHlo.unary main_v414 main_v415 (Host.cos : (⟨S_, .f32⟩ : BufTy).Contents (Elt F) → (⟨S_, .f32⟩ : BufTy).Contents (Elt F)),
    StableHlo.nullary main_cst_84 (constant S_ .f32 0x3F000000#32),
    StableHlo.binary main_cst_84 main_v413 main_v416 (mulf : (⟨S_, .f32⟩ : BufTy).Contents (Elt F) → (⟨S_, .f32⟩ : BufTy).Contents (Elt F) → (⟨S_, .f32⟩ : BufTy).Contents (Elt F)),
    StableHlo.unary main_v416 main_v417 (Host.sin : (⟨S_, .f32⟩ : BufTy).Contents (Elt F) → (⟨S_, .f32⟩ : BufTy).Contents (Elt F)),
    StableHlo.nullary main_c_85 (constantI S_ 32 0#32),
    StableHlo.TRef.nullary (.of main_call58_c : StableHlo.TRef sig ⟨S_, .i32⟩) (constantI S_ 32 0#32),
    StableHlo.TRef.binary (.of main_c_85 : StableHlo.TRef sig ⟨S_, .i32⟩) (.of main_call58_c : StableHlo.TRef sig ⟨S_, .i32⟩) (.of main_call58_v0 : StableHlo.TRef sig ⟨S_, .i1⟩) (cmpi .slt),
    StableHlo.TRef.nullary (.of main_call58_c_0 : StableHlo.TRef sig ⟨S_, .i32⟩) (constantI S_ 32 2#32),
    StableHlo.TRef.binary (.of main_c_85 : StableHlo.TRef sig ⟨S_, .i32⟩) (.of main_call58_c_0 : StableHlo.TRef sig ⟨S_, .i32⟩) (.of main_call58_v1 : StableHlo.TRef sig ⟨S_, .i32⟩) addi,
    StableHlo.TRef.ternary (.of main_call58_v0 : StableHlo.TRef sig ⟨S_, .i1⟩) (.of main_call58_v1 : StableHlo.TRef sig ⟨S_, .i32⟩) (.of main_c_85 : StableHlo.TRef sig ⟨S_, .i32⟩) (.of main_call58_v2 : StableHlo.TRef sig ⟨S_, .i32⟩) select,
    StableHlo.TRef.unary main_call58_call0.v0 (.of main_call58_v3 : StableHlo.TRef sig ⟨S1, .i32⟩) (broadcastInDim S1 ![] bcast_S_S1),
    StableHlo.TRef.nullary (.of main_call58_c_1 : StableHlo.TRef sig ⟨S1, .i32⟩) (constantI S1 32 1#32),
    StableHlo.TRef.unary (.of main_call58_v3 : StableHlo.TRef sig ⟨S1, .i32⟩) (.of main_call58_v4 : StableHlo.TRef sig ⟨S1, .i32⟩) id,
    StableHlo.TRef.nullary (.of main_call58_c_2 : StableHlo.TRef sig ⟨S_, .i32⟩) (constantI S_ 32 0#32),
    StableHlo.TRef.unary (.of main_call58_c_2 : StableHlo.TRef sig ⟨S_, .i32⟩) (.of main_call58_v5 : StableHlo.TRef sig ⟨S1, .i32⟩) (broadcastInDim S1 ![] bcast_S_S1),
    StableHlo.TRef.binary (.of main_call58_v4 : StableHlo.TRef sig ⟨S1, .i32⟩) (.of main_call58_v5 : StableHlo.TRef sig ⟨S1, .i32⟩) (.of main_call58_v6 : StableHlo.TRef sig ⟨S1, .i1⟩) (cmpi .sge),
    StableHlo.TRef.binary (.of main_call58_v4 : StableHlo.TRef sig ⟨S1, .i32⟩) (.of main_call58_c_1 : StableHlo.TRef sig ⟨S1, .i32⟩) (.of main_call58_v7 : StableHlo.TRef sig ⟨S1, .i1⟩) (cmpi .sle),
    StableHlo.TRef.binary (.of main_call58_v6 : StableHlo.TRef sig ⟨S1, .i1⟩) (.of main_call58_v7 : StableHlo.TRef sig ⟨S1, .i1⟩) (.of main_call58_v8 : StableHlo.TRef sig ⟨S1, .i1⟩) andi,
    StableHlo.TRef.nullary (.of main_call58_c_3 : StableHlo.TRef sig ⟨S_, .i1⟩) (constantI S_ 1 1#1),
    StableHlo.TRef.binary (.of main_call58_v8 : StableHlo.TRef sig ⟨S1, .i1⟩) (.of main_call58_c_3 : StableHlo.TRef sig ⟨S_, .i1⟩) (.of main_call58_v9 : StableHlo.TRef sig ⟨S_, .i1⟩) (fun x v => Host.reduce IntOp.andi x v reducesTo_S1_S_d0 h_S_),
    StableHlo.TRef.binary (.of main_v411 : StableHlo.TRef sig ⟨S256x2x2x2x2x2x2x2x2, .f32⟩) (.of main_call58_v4 : StableHlo.TRef sig ⟨S1, .i32⟩) (.of main_call58_v10 : StableHlo.TRef sig ⟨S256x2x2x2x2x2x2x2, .f32⟩) (fun x i => Host.gather gather_S256x2x2x2x2x2x2x2x2_S1_S256x2x2x2x2x2x2x2_01234567_7_n_n_7_0_25622222212 x i),
    StableHlo.TRef.unary (.of main_call58_v9 : StableHlo.TRef sig ⟨S_, .i1⟩) (.of main_call58_v11 : StableHlo.TRef sig ⟨S256x2x2x2x2x2x2x2, .i1⟩) (broadcastInDim S256x2x2x2x2x2x2x2 ![] bcast_S_S256x2x2x2x2x2x2x2),
    StableHlo.TRef.nullary (.of main_call58_cst : StableHlo.TRef sig ⟨S_, .f32⟩) (constant S_ .f32 0x7FC00000#32),
    StableHlo.TRef.unary (.of main_call58_cst : StableHlo.TRef sig ⟨S_, .f32⟩) (.of main_call58_v12 : StableHlo.TRef sig ⟨S256x2x2x2x2x2x2x2, .f32⟩) (broadcastInDim S256x2x2x2x2x2x2x2 ![] bcast_S_S256x2x2x2x2x2x2x2),
    StableHlo.TRef.ternary (.of main_call58_v11 : StableHlo.TRef sig ⟨S256x2x2x2x2x2x2x2, .i1⟩) (.of main_call58_v10 : StableHlo.TRef sig ⟨S256x2x2x2x2x2x2x2, .f32⟩) (.of main_call58_v12 : StableHlo.TRef sig ⟨S256x2x2x2x2x2x2x2, .f32⟩) (.of main_v418 : StableHlo.TRef sig ⟨S256x2x2x2x2x2x2x2, .f32⟩) select,
    StableHlo.nullary main_c_86 (constantI S_ 32 1#32),
    StableHlo.TRef.nullary (.of main_call59_c : StableHlo.TRef sig ⟨S_, .i32⟩) (constantI S_ 32 0#32),
    StableHlo.TRef.binary (.of main_c_86 : StableHlo.TRef sig ⟨S_, .i32⟩) (.of main_call59_c : StableHlo.TRef sig ⟨S_, .i32⟩) (.of main_call59_v0 : StableHlo.TRef sig ⟨S_, .i1⟩) (cmpi .slt),
    StableHlo.TRef.nullary (.of main_call59_c_0 : StableHlo.TRef sig ⟨S_, .i32⟩) (constantI S_ 32 2#32),
    StableHlo.TRef.binary (.of main_c_86 : StableHlo.TRef sig ⟨S_, .i32⟩) (.of main_call59_c_0 : StableHlo.TRef sig ⟨S_, .i32⟩) (.of main_call59_v1 : StableHlo.TRef sig ⟨S_, .i32⟩) addi,
    StableHlo.TRef.ternary (.of main_call59_v0 : StableHlo.TRef sig ⟨S_, .i1⟩) (.of main_call59_v1 : StableHlo.TRef sig ⟨S_, .i32⟩) (.of main_c_86 : StableHlo.TRef sig ⟨S_, .i32⟩) (.of main_call59_v2 : StableHlo.TRef sig ⟨S_, .i32⟩) select,
    StableHlo.TRef.unary main_call59_call0.v0 (.of main_call59_v3 : StableHlo.TRef sig ⟨S1, .i32⟩) (broadcastInDim S1 ![] bcast_S_S1),
    StableHlo.TRef.nullary (.of main_call59_c_1 : StableHlo.TRef sig ⟨S1, .i32⟩) (constantI S1 32 1#32),
    StableHlo.TRef.unary (.of main_call59_v3 : StableHlo.TRef sig ⟨S1, .i32⟩) (.of main_call59_v4 : StableHlo.TRef sig ⟨S1, .i32⟩) id,
    StableHlo.TRef.nullary (.of main_call59_c_2 : StableHlo.TRef sig ⟨S_, .i32⟩) (constantI S_ 32 0#32),
    StableHlo.TRef.unary (.of main_call59_c_2 : StableHlo.TRef sig ⟨S_, .i32⟩) (.of main_call59_v5 : StableHlo.TRef sig ⟨S1, .i32⟩) (broadcastInDim S1 ![] bcast_S_S1),
    StableHlo.TRef.binary (.of main_call59_v4 : StableHlo.TRef sig ⟨S1, .i32⟩) (.of main_call59_v5 : StableHlo.TRef sig ⟨S1, .i32⟩) (.of main_call59_v6 : StableHlo.TRef sig ⟨S1, .i1⟩) (cmpi .sge),
    StableHlo.TRef.binary (.of main_call59_v4 : StableHlo.TRef sig ⟨S1, .i32⟩) (.of main_call59_c_1 : StableHlo.TRef sig ⟨S1, .i32⟩) (.of main_call59_v7 : StableHlo.TRef sig ⟨S1, .i1⟩) (cmpi .sle),
    StableHlo.TRef.binary (.of main_call59_v6 : StableHlo.TRef sig ⟨S1, .i1⟩) (.of main_call59_v7 : StableHlo.TRef sig ⟨S1, .i1⟩) (.of main_call59_v8 : StableHlo.TRef sig ⟨S1, .i1⟩) andi,
    StableHlo.TRef.nullary (.of main_call59_c_3 : StableHlo.TRef sig ⟨S_, .i1⟩) (constantI S_ 1 1#1),
    StableHlo.TRef.binary (.of main_call59_v8 : StableHlo.TRef sig ⟨S1, .i1⟩) (.of main_call59_c_3 : StableHlo.TRef sig ⟨S_, .i1⟩) (.of main_call59_v9 : StableHlo.TRef sig ⟨S_, .i1⟩) (fun x v => Host.reduce IntOp.andi x v reducesTo_S1_S_d0 h_S_),
    StableHlo.TRef.binary (.of main_v411 : StableHlo.TRef sig ⟨S256x2x2x2x2x2x2x2x2, .f32⟩) (.of main_call59_v4 : StableHlo.TRef sig ⟨S1, .i32⟩) (.of main_call59_v10 : StableHlo.TRef sig ⟨S256x2x2x2x2x2x2x2, .f32⟩) (fun x i => Host.gather gather_S256x2x2x2x2x2x2x2x2_S1_S256x2x2x2x2x2x2x2_01234567_7_n_n_7_0_25622222212 x i),
    StableHlo.TRef.unary (.of main_call59_v9 : StableHlo.TRef sig ⟨S_, .i1⟩) (.of main_call59_v11 : StableHlo.TRef sig ⟨S256x2x2x2x2x2x2x2, .i1⟩) (broadcastInDim S256x2x2x2x2x2x2x2 ![] bcast_S_S256x2x2x2x2x2x2x2),
    StableHlo.TRef.nullary (.of main_call59_cst : StableHlo.TRef sig ⟨S_, .f32⟩) (constant S_ .f32 0x7FC00000#32),
    StableHlo.TRef.unary (.of main_call59_cst : StableHlo.TRef sig ⟨S_, .f32⟩) (.of main_call59_v12 : StableHlo.TRef sig ⟨S256x2x2x2x2x2x2x2, .f32⟩) (broadcastInDim S256x2x2x2x2x2x2x2 ![] bcast_S_S256x2x2x2x2x2x2x2),
    StableHlo.TRef.ternary (.of main_call59_v11 : StableHlo.TRef sig ⟨S256x2x2x2x2x2x2x2, .i1⟩) (.of main_call59_v10 : StableHlo.TRef sig ⟨S256x2x2x2x2x2x2x2, .f32⟩) (.of main_call59_v12 : StableHlo.TRef sig ⟨S256x2x2x2x2x2x2x2, .f32⟩) (.of main_v419 : StableHlo.TRef sig ⟨S256x2x2x2x2x2x2x2, .f32⟩) select,
    StableHlo.unary main_v415 main_v420 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v420 main_v418 main_v421 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v417 main_v422 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v422 main_v419 main_v423 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.binary main_v421 main_v423 main_v424 (subf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v417 main_v425 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v425 main_v418 main_v426 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v415 main_v427 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v427 main_v419 main_v428 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.binary main_v426 main_v428 main_v429 (addf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v424 main_v430 (broadcastInDim S256x2x2x2x2x2x2x1x2 ![0, 1, 2, 3, 4, 5, 6, 8] bcast_S256x2x2x2x2x2x2x2_S256x2x2x2x2x2x2x1x2_0_1_2_3_4_5_6_8 : (⟨S256x2x2x2x2x2x2x2, .f32⟩ : BufTy).Contents (Elt F) → (⟨S256x2x2x2x2x2x2x1x2, .f32⟩ : BufTy).Contents (Elt F)),
    StableHlo.unary main_v429 main_v431 (broadcastInDim S256x2x2x2x2x2x2x1x2 ![0, 1, 2, 3, 4, 5, 6, 8] bcast_S256x2x2x2x2x2x2x2_S256x2x2x2x2x2x2x1x2_0_1_2_3_4_5_6_8 : (⟨S256x2x2x2x2x2x2x2, .f32⟩ : BufTy).Contents (Elt F) → (⟨S256x2x2x2x2x2x2x1x2, .f32⟩ : BufTy).Contents (Elt F)),
    StableHlo.binary main_v430 main_v431 main_v432 ((fun a b => concatenate S256x2x2x2x2x2x2x2x2 7 [⟨S256x2x2x2x2x2x2x1x2, a⟩, ⟨S256x2x2x2x2x2x2x1x2, b⟩] concatenates_S256x2x2x2x2x2x2x1x2_S256x2x2x2x2x2x2x1x2_S256x2x2x2x2x2x2x2x2_d7) : (⟨S256x2x2x2x2x2x2x1x2, .f32⟩ : BufTy).Contents (Elt F) → (⟨S256x2x2x2x2x2x2x1x2, .f32⟩ : BufTy).Contents (Elt F) → (⟨S256x2x2x2x2x2x2x2x2, .f32⟩ : BufTy).Contents (Elt F)) ]

/-- The host operations of gate 27 (a controlled flip, axis 7). -/
abbrev G27 : List (HloOp τ sig (Elt F)) :=
  [ StableHlo.nullary main_c_87 (constantI S_ 32 0#32),
    StableHlo.TRef.nullary (.of main_call60_c : StableHlo.TRef sig ⟨S_, .i32⟩) (constantI S_ 32 0#32),
    StableHlo.TRef.binary (.of main_c_87 : StableHlo.TRef sig ⟨S_, .i32⟩) (.of main_call60_c : StableHlo.TRef sig ⟨S_, .i32⟩) (.of main_call60_v0 : StableHlo.TRef sig ⟨S_, .i1⟩) (cmpi .slt),
    StableHlo.TRef.nullary (.of main_call60_c_0 : StableHlo.TRef sig ⟨S_, .i32⟩) (constantI S_ 32 2#32),
    StableHlo.TRef.binary (.of main_c_87 : StableHlo.TRef sig ⟨S_, .i32⟩) (.of main_call60_c_0 : StableHlo.TRef sig ⟨S_, .i32⟩) (.of main_call60_v1 : StableHlo.TRef sig ⟨S_, .i32⟩) addi,
    StableHlo.TRef.ternary (.of main_call60_v0 : StableHlo.TRef sig ⟨S_, .i1⟩) (.of main_call60_v1 : StableHlo.TRef sig ⟨S_, .i32⟩) (.of main_c_87 : StableHlo.TRef sig ⟨S_, .i32⟩) (.of main_call60_v2 : StableHlo.TRef sig ⟨S_, .i32⟩) select,
    StableHlo.TRef.unary main_call60_call0.v0 (.of main_call60_v3 : StableHlo.TRef sig ⟨S1, .i32⟩) (broadcastInDim S1 ![] bcast_S_S1),
    StableHlo.TRef.nullary (.of main_call60_c_1 : StableHlo.TRef sig ⟨S1, .i32⟩) (constantI S1 32 1#32),
    StableHlo.TRef.unary (.of main_call60_v3 : StableHlo.TRef sig ⟨S1, .i32⟩) (.of main_call60_v4 : StableHlo.TRef sig ⟨S1, .i32⟩) id,
    StableHlo.TRef.nullary (.of main_call60_c_2 : StableHlo.TRef sig ⟨S_, .i32⟩) (constantI S_ 32 0#32),
    StableHlo.TRef.unary (.of main_call60_c_2 : StableHlo.TRef sig ⟨S_, .i32⟩) (.of main_call60_v5 : StableHlo.TRef sig ⟨S1, .i32⟩) (broadcastInDim S1 ![] bcast_S_S1),
    StableHlo.TRef.binary (.of main_call60_v4 : StableHlo.TRef sig ⟨S1, .i32⟩) (.of main_call60_v5 : StableHlo.TRef sig ⟨S1, .i32⟩) (.of main_call60_v6 : StableHlo.TRef sig ⟨S1, .i1⟩) (cmpi .sge),
    StableHlo.TRef.binary (.of main_call60_v4 : StableHlo.TRef sig ⟨S1, .i32⟩) (.of main_call60_c_1 : StableHlo.TRef sig ⟨S1, .i32⟩) (.of main_call60_v7 : StableHlo.TRef sig ⟨S1, .i1⟩) (cmpi .sle),
    StableHlo.TRef.binary (.of main_call60_v6 : StableHlo.TRef sig ⟨S1, .i1⟩) (.of main_call60_v7 : StableHlo.TRef sig ⟨S1, .i1⟩) (.of main_call60_v8 : StableHlo.TRef sig ⟨S1, .i1⟩) andi,
    StableHlo.TRef.nullary (.of main_call60_c_3 : StableHlo.TRef sig ⟨S_, .i1⟩) (constantI S_ 1 1#1),
    StableHlo.TRef.binary (.of main_call60_v8 : StableHlo.TRef sig ⟨S1, .i1⟩) (.of main_call60_c_3 : StableHlo.TRef sig ⟨S_, .i1⟩) (.of main_call60_v9 : StableHlo.TRef sig ⟨S_, .i1⟩) (fun x v => Host.reduce IntOp.andi x v reducesTo_S1_S_d0 h_S_),
    StableHlo.TRef.binary (.of main_v432 : StableHlo.TRef sig ⟨S256x2x2x2x2x2x2x2x2, .f32⟩) (.of main_call60_v4 : StableHlo.TRef sig ⟨S1, .i32⟩) (.of main_call60_v10 : StableHlo.TRef sig ⟨S256x2x2x2x2x2x2x2, .f32⟩) (fun x i => Host.gather gather_S256x2x2x2x2x2x2x2x2_S1_S256x2x2x2x2x2x2x2_01234567_7_n_n_7_0_25622222212 x i),
    StableHlo.TRef.unary (.of main_call60_v9 : StableHlo.TRef sig ⟨S_, .i1⟩) (.of main_call60_v11 : StableHlo.TRef sig ⟨S256x2x2x2x2x2x2x2, .i1⟩) (broadcastInDim S256x2x2x2x2x2x2x2 ![] bcast_S_S256x2x2x2x2x2x2x2),
    StableHlo.TRef.nullary (.of main_call60_cst : StableHlo.TRef sig ⟨S_, .f32⟩) (constant S_ .f32 0x7FC00000#32),
    StableHlo.TRef.unary (.of main_call60_cst : StableHlo.TRef sig ⟨S_, .f32⟩) (.of main_call60_v12 : StableHlo.TRef sig ⟨S256x2x2x2x2x2x2x2, .f32⟩) (broadcastInDim S256x2x2x2x2x2x2x2 ![] bcast_S_S256x2x2x2x2x2x2x2),
    StableHlo.TRef.ternary (.of main_call60_v11 : StableHlo.TRef sig ⟨S256x2x2x2x2x2x2x2, .i1⟩) (.of main_call60_v10 : StableHlo.TRef sig ⟨S256x2x2x2x2x2x2x2, .f32⟩) (.of main_call60_v12 : StableHlo.TRef sig ⟨S256x2x2x2x2x2x2x2, .f32⟩) (.of main_v433 : StableHlo.TRef sig ⟨S256x2x2x2x2x2x2x2, .f32⟩) select,
    StableHlo.nullary main_c_88 (constantI S_ 32 1#32),
    StableHlo.TRef.nullary (.of main_call61_c : StableHlo.TRef sig ⟨S_, .i32⟩) (constantI S_ 32 0#32),
    StableHlo.TRef.binary (.of main_c_88 : StableHlo.TRef sig ⟨S_, .i32⟩) (.of main_call61_c : StableHlo.TRef sig ⟨S_, .i32⟩) (.of main_call61_v0 : StableHlo.TRef sig ⟨S_, .i1⟩) (cmpi .slt),
    StableHlo.TRef.nullary (.of main_call61_c_0 : StableHlo.TRef sig ⟨S_, .i32⟩) (constantI S_ 32 2#32),
    StableHlo.TRef.binary (.of main_c_88 : StableHlo.TRef sig ⟨S_, .i32⟩) (.of main_call61_c_0 : StableHlo.TRef sig ⟨S_, .i32⟩) (.of main_call61_v1 : StableHlo.TRef sig ⟨S_, .i32⟩) addi,
    StableHlo.TRef.ternary (.of main_call61_v0 : StableHlo.TRef sig ⟨S_, .i1⟩) (.of main_call61_v1 : StableHlo.TRef sig ⟨S_, .i32⟩) (.of main_c_88 : StableHlo.TRef sig ⟨S_, .i32⟩) (.of main_call61_v2 : StableHlo.TRef sig ⟨S_, .i32⟩) select,
    StableHlo.TRef.unary main_call61_call0.v0 (.of main_call61_v3 : StableHlo.TRef sig ⟨S1, .i32⟩) (broadcastInDim S1 ![] bcast_S_S1),
    StableHlo.TRef.nullary (.of main_call61_c_1 : StableHlo.TRef sig ⟨S1, .i32⟩) (constantI S1 32 1#32),
    StableHlo.TRef.unary (.of main_call61_v3 : StableHlo.TRef sig ⟨S1, .i32⟩) (.of main_call61_v4 : StableHlo.TRef sig ⟨S1, .i32⟩) id,
    StableHlo.TRef.nullary (.of main_call61_c_2 : StableHlo.TRef sig ⟨S_, .i32⟩) (constantI S_ 32 0#32),
    StableHlo.TRef.unary (.of main_call61_c_2 : StableHlo.TRef sig ⟨S_, .i32⟩) (.of main_call61_v5 : StableHlo.TRef sig ⟨S1, .i32⟩) (broadcastInDim S1 ![] bcast_S_S1),
    StableHlo.TRef.binary (.of main_call61_v4 : StableHlo.TRef sig ⟨S1, .i32⟩) (.of main_call61_v5 : StableHlo.TRef sig ⟨S1, .i32⟩) (.of main_call61_v6 : StableHlo.TRef sig ⟨S1, .i1⟩) (cmpi .sge),
    StableHlo.TRef.binary (.of main_call61_v4 : StableHlo.TRef sig ⟨S1, .i32⟩) (.of main_call61_c_1 : StableHlo.TRef sig ⟨S1, .i32⟩) (.of main_call61_v7 : StableHlo.TRef sig ⟨S1, .i1⟩) (cmpi .sle),
    StableHlo.TRef.binary (.of main_call61_v6 : StableHlo.TRef sig ⟨S1, .i1⟩) (.of main_call61_v7 : StableHlo.TRef sig ⟨S1, .i1⟩) (.of main_call61_v8 : StableHlo.TRef sig ⟨S1, .i1⟩) andi,
    StableHlo.TRef.nullary (.of main_call61_c_3 : StableHlo.TRef sig ⟨S_, .i1⟩) (constantI S_ 1 1#1),
    StableHlo.TRef.binary (.of main_call61_v8 : StableHlo.TRef sig ⟨S1, .i1⟩) (.of main_call61_c_3 : StableHlo.TRef sig ⟨S_, .i1⟩) (.of main_call61_v9 : StableHlo.TRef sig ⟨S_, .i1⟩) (fun x v => Host.reduce IntOp.andi x v reducesTo_S1_S_d0 h_S_),
    StableHlo.TRef.binary (.of main_v432 : StableHlo.TRef sig ⟨S256x2x2x2x2x2x2x2x2, .f32⟩) (.of main_call61_v4 : StableHlo.TRef sig ⟨S1, .i32⟩) (.of main_call61_v10 : StableHlo.TRef sig ⟨S256x2x2x2x2x2x2x2, .f32⟩) (fun x i => Host.gather gather_S256x2x2x2x2x2x2x2x2_S1_S256x2x2x2x2x2x2x2_01234567_7_n_n_7_0_25622222212 x i),
    StableHlo.TRef.unary (.of main_call61_v9 : StableHlo.TRef sig ⟨S_, .i1⟩) (.of main_call61_v11 : StableHlo.TRef sig ⟨S256x2x2x2x2x2x2x2, .i1⟩) (broadcastInDim S256x2x2x2x2x2x2x2 ![] bcast_S_S256x2x2x2x2x2x2x2),
    StableHlo.TRef.nullary (.of main_call61_cst : StableHlo.TRef sig ⟨S_, .f32⟩) (constant S_ .f32 0x7FC00000#32),
    StableHlo.TRef.unary (.of main_call61_cst : StableHlo.TRef sig ⟨S_, .f32⟩) (.of main_call61_v12 : StableHlo.TRef sig ⟨S256x2x2x2x2x2x2x2, .f32⟩) (broadcastInDim S256x2x2x2x2x2x2x2 ![] bcast_S_S256x2x2x2x2x2x2x2),
    StableHlo.TRef.ternary (.of main_call61_v11 : StableHlo.TRef sig ⟨S256x2x2x2x2x2x2x2, .i1⟩) (.of main_call61_v10 : StableHlo.TRef sig ⟨S256x2x2x2x2x2x2x2, .f32⟩) (.of main_call61_v12 : StableHlo.TRef sig ⟨S256x2x2x2x2x2x2x2, .f32⟩) (.of main_v434 : StableHlo.TRef sig ⟨S256x2x2x2x2x2x2x2, .f32⟩) select,
    StableHlo.TRef.unary (.of main_v434 : StableHlo.TRef sig ⟨S256x2x2x2x2x2x2x2, .f32⟩) (.of main_v435 : StableHlo.TRef sig ⟨S256x2x2x2x2x2x2x2, .f32⟩) (Host.reverse [6]),
    StableHlo.unary main_v433 main_v436 (broadcastInDim S256x2x2x2x2x2x2x1x2 ![0, 1, 2, 3, 4, 5, 6, 8] bcast_S256x2x2x2x2x2x2x2_S256x2x2x2x2x2x2x1x2_0_1_2_3_4_5_6_8 : (⟨S256x2x2x2x2x2x2x2, .f32⟩ : BufTy).Contents (Elt F) → (⟨S256x2x2x2x2x2x2x1x2, .f32⟩ : BufTy).Contents (Elt F)),
    StableHlo.unary main_v435 main_v437 (broadcastInDim S256x2x2x2x2x2x2x1x2 ![0, 1, 2, 3, 4, 5, 6, 8] bcast_S256x2x2x2x2x2x2x2_S256x2x2x2x2x2x2x1x2_0_1_2_3_4_5_6_8 : (⟨S256x2x2x2x2x2x2x2, .f32⟩ : BufTy).Contents (Elt F) → (⟨S256x2x2x2x2x2x2x1x2, .f32⟩ : BufTy).Contents (Elt F)),
    StableHlo.binary main_v436 main_v437 main_v438 ((fun a b => concatenate S256x2x2x2x2x2x2x2x2 7 [⟨S256x2x2x2x2x2x2x1x2, a⟩, ⟨S256x2x2x2x2x2x2x1x2, b⟩] concatenates_S256x2x2x2x2x2x2x1x2_S256x2x2x2x2x2x2x1x2_S256x2x2x2x2x2x2x2x2_d7) : (⟨S256x2x2x2x2x2x2x1x2, .f32⟩ : BufTy).Contents (Elt F) → (⟨S256x2x2x2x2x2x2x1x2, .f32⟩ : BufTy).Contents (Elt F) → (⟨S256x2x2x2x2x2x2x2x2, .f32⟩ : BufTy).Contents (Elt F)) ]

/-- The host operations of gate 28 (a rotation, parameter 18, axis 3). -/
abbrev G28 : List (HloOp τ sig (Elt F)) :=
  [ StableHlo.unary main_arg3 main_v439 ((extractStridedSlice S1 ![18] · slices_S21_S1_18) : (⟨S21, .f32⟩ : BufTy).Contents (Elt F) → (⟨S1, .f32⟩ : BufTy).Contents (Elt F)),
    StableHlo.reshape main_v439 main_v440 rfl shapeCasts_S1_S_,
    StableHlo.nullary main_cst_89 (constant S_ .f32 0x3F000000#32),
    StableHlo.binary main_cst_89 main_v440 main_v441 (mulf : (⟨S_, .f32⟩ : BufTy).Contents (Elt F) → (⟨S_, .f32⟩ : BufTy).Contents (Elt F) → (⟨S_, .f32⟩ : BufTy).Contents (Elt F)),
    StableHlo.unary main_v441 main_v442 (Host.cos : (⟨S_, .f32⟩ : BufTy).Contents (Elt F) → (⟨S_, .f32⟩ : BufTy).Contents (Elt F)),
    StableHlo.nullary main_cst_90 (constant S_ .f32 0x3F000000#32),
    StableHlo.binary main_cst_90 main_v440 main_v443 (mulf : (⟨S_, .f32⟩ : BufTy).Contents (Elt F) → (⟨S_, .f32⟩ : BufTy).Contents (Elt F) → (⟨S_, .f32⟩ : BufTy).Contents (Elt F)),
    StableHlo.unary main_v443 main_v444 (Host.sin : (⟨S_, .f32⟩ : BufTy).Contents (Elt F) → (⟨S_, .f32⟩ : BufTy).Contents (Elt F)),
    StableHlo.nullary main_c_91 (constantI S_ 32 0#32),
    StableHlo.TRef.nullary (.of main_call63_c : StableHlo.TRef sig ⟨S_, .i32⟩) (constantI S_ 32 0#32),
    StableHlo.TRef.binary (.of main_c_91 : StableHlo.TRef sig ⟨S_, .i32⟩) (.of main_call63_c : StableHlo.TRef sig ⟨S_, .i32⟩) (.of main_call63_v0 : StableHlo.TRef sig ⟨S_, .i1⟩) (cmpi .slt),
    StableHlo.TRef.nullary (.of main_call63_c_0 : StableHlo.TRef sig ⟨S_, .i32⟩) (constantI S_ 32 2#32),
    StableHlo.TRef.binary (.of main_c_91 : StableHlo.TRef sig ⟨S_, .i32⟩) (.of main_call63_c_0 : StableHlo.TRef sig ⟨S_, .i32⟩) (.of main_call63_v1 : StableHlo.TRef sig ⟨S_, .i32⟩) addi,
    StableHlo.TRef.ternary (.of main_call63_v0 : StableHlo.TRef sig ⟨S_, .i1⟩) (.of main_call63_v1 : StableHlo.TRef sig ⟨S_, .i32⟩) (.of main_c_91 : StableHlo.TRef sig ⟨S_, .i32⟩) (.of main_call63_v2 : StableHlo.TRef sig ⟨S_, .i32⟩) select,
    StableHlo.TRef.unary main_call63_call0.v0 (.of main_call63_v3 : StableHlo.TRef sig ⟨S1, .i32⟩) (broadcastInDim S1 ![] bcast_S_S1),
    StableHlo.TRef.nullary (.of main_call63_c_1 : StableHlo.TRef sig ⟨S1, .i32⟩) (constantI S1 32 1#32),
    StableHlo.TRef.unary (.of main_call63_v3 : StableHlo.TRef sig ⟨S1, .i32⟩) (.of main_call63_v4 : StableHlo.TRef sig ⟨S1, .i32⟩) id,
    StableHlo.TRef.nullary (.of main_call63_c_2 : StableHlo.TRef sig ⟨S_, .i32⟩) (constantI S_ 32 0#32),
    StableHlo.TRef.unary (.of main_call63_c_2 : StableHlo.TRef sig ⟨S_, .i32⟩) (.of main_call63_v5 : StableHlo.TRef sig ⟨S1, .i32⟩) (broadcastInDim S1 ![] bcast_S_S1),
    StableHlo.TRef.binary (.of main_call63_v4 : StableHlo.TRef sig ⟨S1, .i32⟩) (.of main_call63_v5 : StableHlo.TRef sig ⟨S1, .i32⟩) (.of main_call63_v6 : StableHlo.TRef sig ⟨S1, .i1⟩) (cmpi .sge),
    StableHlo.TRef.binary (.of main_call63_v4 : StableHlo.TRef sig ⟨S1, .i32⟩) (.of main_call63_c_1 : StableHlo.TRef sig ⟨S1, .i32⟩) (.of main_call63_v7 : StableHlo.TRef sig ⟨S1, .i1⟩) (cmpi .sle),
    StableHlo.TRef.binary (.of main_call63_v6 : StableHlo.TRef sig ⟨S1, .i1⟩) (.of main_call63_v7 : StableHlo.TRef sig ⟨S1, .i1⟩) (.of main_call63_v8 : StableHlo.TRef sig ⟨S1, .i1⟩) andi,
    StableHlo.TRef.nullary (.of main_call63_c_3 : StableHlo.TRef sig ⟨S_, .i1⟩) (constantI S_ 1 1#1),
    StableHlo.TRef.binary (.of main_call63_v8 : StableHlo.TRef sig ⟨S1, .i1⟩) (.of main_call63_c_3 : StableHlo.TRef sig ⟨S_, .i1⟩) (.of main_call63_v9 : StableHlo.TRef sig ⟨S_, .i1⟩) (fun x v => Host.reduce IntOp.andi x v reducesTo_S1_S_d0 h_S_),
    StableHlo.TRef.binary (.of main_v438 : StableHlo.TRef sig ⟨S256x2x2x2x2x2x2x2x2, .f32⟩) (.of main_call63_v4 : StableHlo.TRef sig ⟨S1, .i32⟩) (.of main_call63_v10 : StableHlo.TRef sig ⟨S256x2x2x2x2x2x2x2, .f32⟩) (fun x i => Host.gather gather_S256x2x2x2x2x2x2x2x2_S1_S256x2x2x2x2x2x2x2_01234567_3_n_n_3_0_25622122222 x i),
    StableHlo.TRef.unary (.of main_call63_v9 : StableHlo.TRef sig ⟨S_, .i1⟩) (.of main_call63_v11 : StableHlo.TRef sig ⟨S256x2x2x2x2x2x2x2, .i1⟩) (broadcastInDim S256x2x2x2x2x2x2x2 ![] bcast_S_S256x2x2x2x2x2x2x2),
    StableHlo.TRef.nullary (.of main_call63_cst : StableHlo.TRef sig ⟨S_, .f32⟩) (constant S_ .f32 0x7FC00000#32),
    StableHlo.TRef.unary (.of main_call63_cst : StableHlo.TRef sig ⟨S_, .f32⟩) (.of main_call63_v12 : StableHlo.TRef sig ⟨S256x2x2x2x2x2x2x2, .f32⟩) (broadcastInDim S256x2x2x2x2x2x2x2 ![] bcast_S_S256x2x2x2x2x2x2x2),
    StableHlo.TRef.ternary (.of main_call63_v11 : StableHlo.TRef sig ⟨S256x2x2x2x2x2x2x2, .i1⟩) (.of main_call63_v10 : StableHlo.TRef sig ⟨S256x2x2x2x2x2x2x2, .f32⟩) (.of main_call63_v12 : StableHlo.TRef sig ⟨S256x2x2x2x2x2x2x2, .f32⟩) (.of main_v445 : StableHlo.TRef sig ⟨S256x2x2x2x2x2x2x2, .f32⟩) select,
    StableHlo.nullary main_c_92 (constantI S_ 32 1#32),
    StableHlo.TRef.nullary (.of main_call64_c : StableHlo.TRef sig ⟨S_, .i32⟩) (constantI S_ 32 0#32),
    StableHlo.TRef.binary (.of main_c_92 : StableHlo.TRef sig ⟨S_, .i32⟩) (.of main_call64_c : StableHlo.TRef sig ⟨S_, .i32⟩) (.of main_call64_v0 : StableHlo.TRef sig ⟨S_, .i1⟩) (cmpi .slt),
    StableHlo.TRef.nullary (.of main_call64_c_0 : StableHlo.TRef sig ⟨S_, .i32⟩) (constantI S_ 32 2#32),
    StableHlo.TRef.binary (.of main_c_92 : StableHlo.TRef sig ⟨S_, .i32⟩) (.of main_call64_c_0 : StableHlo.TRef sig ⟨S_, .i32⟩) (.of main_call64_v1 : StableHlo.TRef sig ⟨S_, .i32⟩) addi,
    StableHlo.TRef.ternary (.of main_call64_v0 : StableHlo.TRef sig ⟨S_, .i1⟩) (.of main_call64_v1 : StableHlo.TRef sig ⟨S_, .i32⟩) (.of main_c_92 : StableHlo.TRef sig ⟨S_, .i32⟩) (.of main_call64_v2 : StableHlo.TRef sig ⟨S_, .i32⟩) select,
    StableHlo.TRef.unary main_call64_call0.v0 (.of main_call64_v3 : StableHlo.TRef sig ⟨S1, .i32⟩) (broadcastInDim S1 ![] bcast_S_S1),
    StableHlo.TRef.nullary (.of main_call64_c_1 : StableHlo.TRef sig ⟨S1, .i32⟩) (constantI S1 32 1#32),
    StableHlo.TRef.unary (.of main_call64_v3 : StableHlo.TRef sig ⟨S1, .i32⟩) (.of main_call64_v4 : StableHlo.TRef sig ⟨S1, .i32⟩) id,
    StableHlo.TRef.nullary (.of main_call64_c_2 : StableHlo.TRef sig ⟨S_, .i32⟩) (constantI S_ 32 0#32),
    StableHlo.TRef.unary (.of main_call64_c_2 : StableHlo.TRef sig ⟨S_, .i32⟩) (.of main_call64_v5 : StableHlo.TRef sig ⟨S1, .i32⟩) (broadcastInDim S1 ![] bcast_S_S1),
    StableHlo.TRef.binary (.of main_call64_v4 : StableHlo.TRef sig ⟨S1, .i32⟩) (.of main_call64_v5 : StableHlo.TRef sig ⟨S1, .i32⟩) (.of main_call64_v6 : StableHlo.TRef sig ⟨S1, .i1⟩) (cmpi .sge),
    StableHlo.TRef.binary (.of main_call64_v4 : StableHlo.TRef sig ⟨S1, .i32⟩) (.of main_call64_c_1 : StableHlo.TRef sig ⟨S1, .i32⟩) (.of main_call64_v7 : StableHlo.TRef sig ⟨S1, .i1⟩) (cmpi .sle),
    StableHlo.TRef.binary (.of main_call64_v6 : StableHlo.TRef sig ⟨S1, .i1⟩) (.of main_call64_v7 : StableHlo.TRef sig ⟨S1, .i1⟩) (.of main_call64_v8 : StableHlo.TRef sig ⟨S1, .i1⟩) andi,
    StableHlo.TRef.nullary (.of main_call64_c_3 : StableHlo.TRef sig ⟨S_, .i1⟩) (constantI S_ 1 1#1),
    StableHlo.TRef.binary (.of main_call64_v8 : StableHlo.TRef sig ⟨S1, .i1⟩) (.of main_call64_c_3 : StableHlo.TRef sig ⟨S_, .i1⟩) (.of main_call64_v9 : StableHlo.TRef sig ⟨S_, .i1⟩) (fun x v => Host.reduce IntOp.andi x v reducesTo_S1_S_d0 h_S_),
    StableHlo.TRef.binary (.of main_v438 : StableHlo.TRef sig ⟨S256x2x2x2x2x2x2x2x2, .f32⟩) (.of main_call64_v4 : StableHlo.TRef sig ⟨S1, .i32⟩) (.of main_call64_v10 : StableHlo.TRef sig ⟨S256x2x2x2x2x2x2x2, .f32⟩) (fun x i => Host.gather gather_S256x2x2x2x2x2x2x2x2_S1_S256x2x2x2x2x2x2x2_01234567_3_n_n_3_0_25622122222 x i),
    StableHlo.TRef.unary (.of main_call64_v9 : StableHlo.TRef sig ⟨S_, .i1⟩) (.of main_call64_v11 : StableHlo.TRef sig ⟨S256x2x2x2x2x2x2x2, .i1⟩) (broadcastInDim S256x2x2x2x2x2x2x2 ![] bcast_S_S256x2x2x2x2x2x2x2),
    StableHlo.TRef.nullary (.of main_call64_cst : StableHlo.TRef sig ⟨S_, .f32⟩) (constant S_ .f32 0x7FC00000#32),
    StableHlo.TRef.unary (.of main_call64_cst : StableHlo.TRef sig ⟨S_, .f32⟩) (.of main_call64_v12 : StableHlo.TRef sig ⟨S256x2x2x2x2x2x2x2, .f32⟩) (broadcastInDim S256x2x2x2x2x2x2x2 ![] bcast_S_S256x2x2x2x2x2x2x2),
    StableHlo.TRef.ternary (.of main_call64_v11 : StableHlo.TRef sig ⟨S256x2x2x2x2x2x2x2, .i1⟩) (.of main_call64_v10 : StableHlo.TRef sig ⟨S256x2x2x2x2x2x2x2, .f32⟩) (.of main_call64_v12 : StableHlo.TRef sig ⟨S256x2x2x2x2x2x2x2, .f32⟩) (.of main_v446 : StableHlo.TRef sig ⟨S256x2x2x2x2x2x2x2, .f32⟩) select,
    StableHlo.unary main_v442 main_v447 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v447 main_v445 main_v448 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v444 main_v449 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v449 main_v446 main_v450 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.binary main_v448 main_v450 main_v451 (subf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v444 main_v452 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v452 main_v445 main_v453 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v442 main_v454 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v454 main_v446 main_v455 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.binary main_v453 main_v455 main_v456 (addf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v451 main_v457 (broadcastInDim S256x2x2x1x2x2x2x2x2 ![0, 1, 2, 4, 5, 6, 7, 8] bcast_S256x2x2x2x2x2x2x2_S256x2x2x1x2x2x2x2x2_0_1_2_4_5_6_7_8 : (⟨S256x2x2x2x2x2x2x2, .f32⟩ : BufTy).Contents (Elt F) → (⟨S256x2x2x1x2x2x2x2x2, .f32⟩ : BufTy).Contents (Elt F)),
    StableHlo.unary main_v456 main_v458 (broadcastInDim S256x2x2x1x2x2x2x2x2 ![0, 1, 2, 4, 5, 6, 7, 8] bcast_S256x2x2x2x2x2x2x2_S256x2x2x1x2x2x2x2x2_0_1_2_4_5_6_7_8 : (⟨S256x2x2x2x2x2x2x2, .f32⟩ : BufTy).Contents (Elt F) → (⟨S256x2x2x1x2x2x2x2x2, .f32⟩ : BufTy).Contents (Elt F)),
    StableHlo.binary main_v457 main_v458 main_v459 ((fun a b => concatenate S256x2x2x2x2x2x2x2x2 3 [⟨S256x2x2x1x2x2x2x2x2, a⟩, ⟨S256x2x2x1x2x2x2x2x2, b⟩] concatenates_S256x2x2x1x2x2x2x2x2_S256x2x2x1x2x2x2x2x2_S256x2x2x2x2x2x2x2x2_d3) : (⟨S256x2x2x1x2x2x2x2x2, .f32⟩ : BufTy).Contents (Elt F) → (⟨S256x2x2x1x2x2x2x2x2, .f32⟩ : BufTy).Contents (Elt F) → (⟨S256x2x2x2x2x2x2x2x2, .f32⟩ : BufTy).Contents (Elt F)) ]

/-- The host operations of gate 29 (a rotation, parameter 19, axis 6). -/
abbrev G29 : List (HloOp τ sig (Elt F)) :=
  [ StableHlo.unary main_arg3 main_v460 ((extractStridedSlice S1 ![19] · slices_S21_S1_19) : (⟨S21, .f32⟩ : BufTy).Contents (Elt F) → (⟨S1, .f32⟩ : BufTy).Contents (Elt F)),
    StableHlo.reshape main_v460 main_v461 rfl shapeCasts_S1_S_,
    StableHlo.nullary main_cst_93 (constant S_ .f32 0x3F000000#32),
    StableHlo.binary main_cst_93 main_v461 main_v462 (mulf : (⟨S_, .f32⟩ : BufTy).Contents (Elt F) → (⟨S_, .f32⟩ : BufTy).Contents (Elt F) → (⟨S_, .f32⟩ : BufTy).Contents (Elt F)),
    StableHlo.unary main_v462 main_v463 (Host.cos : (⟨S_, .f32⟩ : BufTy).Contents (Elt F) → (⟨S_, .f32⟩ : BufTy).Contents (Elt F)),
    StableHlo.nullary main_cst_94 (constant S_ .f32 0x3F000000#32),
    StableHlo.binary main_cst_94 main_v461 main_v464 (mulf : (⟨S_, .f32⟩ : BufTy).Contents (Elt F) → (⟨S_, .f32⟩ : BufTy).Contents (Elt F) → (⟨S_, .f32⟩ : BufTy).Contents (Elt F)),
    StableHlo.unary main_v464 main_v465 (Host.sin : (⟨S_, .f32⟩ : BufTy).Contents (Elt F) → (⟨S_, .f32⟩ : BufTy).Contents (Elt F)),
    StableHlo.nullary main_c_95 (constantI S_ 32 0#32),
    StableHlo.TRef.nullary (.of main_call65_c : StableHlo.TRef sig ⟨S_, .i32⟩) (constantI S_ 32 0#32),
    StableHlo.TRef.binary (.of main_c_95 : StableHlo.TRef sig ⟨S_, .i32⟩) (.of main_call65_c : StableHlo.TRef sig ⟨S_, .i32⟩) (.of main_call65_v0 : StableHlo.TRef sig ⟨S_, .i1⟩) (cmpi .slt),
    StableHlo.TRef.nullary (.of main_call65_c_0 : StableHlo.TRef sig ⟨S_, .i32⟩) (constantI S_ 32 2#32),
    StableHlo.TRef.binary (.of main_c_95 : StableHlo.TRef sig ⟨S_, .i32⟩) (.of main_call65_c_0 : StableHlo.TRef sig ⟨S_, .i32⟩) (.of main_call65_v1 : StableHlo.TRef sig ⟨S_, .i32⟩) addi,
    StableHlo.TRef.ternary (.of main_call65_v0 : StableHlo.TRef sig ⟨S_, .i1⟩) (.of main_call65_v1 : StableHlo.TRef sig ⟨S_, .i32⟩) (.of main_c_95 : StableHlo.TRef sig ⟨S_, .i32⟩) (.of main_call65_v2 : StableHlo.TRef sig ⟨S_, .i32⟩) select,
    StableHlo.TRef.unary main_call65_call0.v0 (.of main_call65_v3 : StableHlo.TRef sig ⟨S1, .i32⟩) (broadcastInDim S1 ![] bcast_S_S1),
    StableHlo.TRef.nullary (.of main_call65_c_1 : StableHlo.TRef sig ⟨S1, .i32⟩) (constantI S1 32 1#32),
    StableHlo.TRef.unary (.of main_call65_v3 : StableHlo.TRef sig ⟨S1, .i32⟩) (.of main_call65_v4 : StableHlo.TRef sig ⟨S1, .i32⟩) id,
    StableHlo.TRef.nullary (.of main_call65_c_2 : StableHlo.TRef sig ⟨S_, .i32⟩) (constantI S_ 32 0#32),
    StableHlo.TRef.unary (.of main_call65_c_2 : StableHlo.TRef sig ⟨S_, .i32⟩) (.of main_call65_v5 : StableHlo.TRef sig ⟨S1, .i32⟩) (broadcastInDim S1 ![] bcast_S_S1),
    StableHlo.TRef.binary (.of main_call65_v4 : StableHlo.TRef sig ⟨S1, .i32⟩) (.of main_call65_v5 : StableHlo.TRef sig ⟨S1, .i32⟩) (.of main_call65_v6 : StableHlo.TRef sig ⟨S1, .i1⟩) (cmpi .sge),
    StableHlo.TRef.binary (.of main_call65_v4 : StableHlo.TRef sig ⟨S1, .i32⟩) (.of main_call65_c_1 : StableHlo.TRef sig ⟨S1, .i32⟩) (.of main_call65_v7 : StableHlo.TRef sig ⟨S1, .i1⟩) (cmpi .sle),
    StableHlo.TRef.binary (.of main_call65_v6 : StableHlo.TRef sig ⟨S1, .i1⟩) (.of main_call65_v7 : StableHlo.TRef sig ⟨S1, .i1⟩) (.of main_call65_v8 : StableHlo.TRef sig ⟨S1, .i1⟩) andi,
    StableHlo.TRef.nullary (.of main_call65_c_3 : StableHlo.TRef sig ⟨S_, .i1⟩) (constantI S_ 1 1#1),
    StableHlo.TRef.binary (.of main_call65_v8 : StableHlo.TRef sig ⟨S1, .i1⟩) (.of main_call65_c_3 : StableHlo.TRef sig ⟨S_, .i1⟩) (.of main_call65_v9 : StableHlo.TRef sig ⟨S_, .i1⟩) (fun x v => Host.reduce IntOp.andi x v reducesTo_S1_S_d0 h_S_),
    StableHlo.TRef.binary (.of main_v459 : StableHlo.TRef sig ⟨S256x2x2x2x2x2x2x2x2, .f32⟩) (.of main_call65_v4 : StableHlo.TRef sig ⟨S1, .i32⟩) (.of main_call65_v10 : StableHlo.TRef sig ⟨S256x2x2x2x2x2x2x2, .f32⟩) (fun x i => Host.gather gather_S256x2x2x2x2x2x2x2x2_S1_S256x2x2x2x2x2x2x2_01234567_6_n_n_6_0_25622222122 x i),
    StableHlo.TRef.unary (.of main_call65_v9 : StableHlo.TRef sig ⟨S_, .i1⟩) (.of main_call65_v11 : StableHlo.TRef sig ⟨S256x2x2x2x2x2x2x2, .i1⟩) (broadcastInDim S256x2x2x2x2x2x2x2 ![] bcast_S_S256x2x2x2x2x2x2x2),
    StableHlo.TRef.nullary (.of main_call65_cst : StableHlo.TRef sig ⟨S_, .f32⟩) (constant S_ .f32 0x7FC00000#32),
    StableHlo.TRef.unary (.of main_call65_cst : StableHlo.TRef sig ⟨S_, .f32⟩) (.of main_call65_v12 : StableHlo.TRef sig ⟨S256x2x2x2x2x2x2x2, .f32⟩) (broadcastInDim S256x2x2x2x2x2x2x2 ![] bcast_S_S256x2x2x2x2x2x2x2),
    StableHlo.TRef.ternary (.of main_call65_v11 : StableHlo.TRef sig ⟨S256x2x2x2x2x2x2x2, .i1⟩) (.of main_call65_v10 : StableHlo.TRef sig ⟨S256x2x2x2x2x2x2x2, .f32⟩) (.of main_call65_v12 : StableHlo.TRef sig ⟨S256x2x2x2x2x2x2x2, .f32⟩) (.of main_v466 : StableHlo.TRef sig ⟨S256x2x2x2x2x2x2x2, .f32⟩) select,
    StableHlo.nullary main_c_96 (constantI S_ 32 1#32),
    StableHlo.TRef.nullary (.of main_call66_c : StableHlo.TRef sig ⟨S_, .i32⟩) (constantI S_ 32 0#32),
    StableHlo.TRef.binary (.of main_c_96 : StableHlo.TRef sig ⟨S_, .i32⟩) (.of main_call66_c : StableHlo.TRef sig ⟨S_, .i32⟩) (.of main_call66_v0 : StableHlo.TRef sig ⟨S_, .i1⟩) (cmpi .slt),
    StableHlo.TRef.nullary (.of main_call66_c_0 : StableHlo.TRef sig ⟨S_, .i32⟩) (constantI S_ 32 2#32),
    StableHlo.TRef.binary (.of main_c_96 : StableHlo.TRef sig ⟨S_, .i32⟩) (.of main_call66_c_0 : StableHlo.TRef sig ⟨S_, .i32⟩) (.of main_call66_v1 : StableHlo.TRef sig ⟨S_, .i32⟩) addi,
    StableHlo.TRef.ternary (.of main_call66_v0 : StableHlo.TRef sig ⟨S_, .i1⟩) (.of main_call66_v1 : StableHlo.TRef sig ⟨S_, .i32⟩) (.of main_c_96 : StableHlo.TRef sig ⟨S_, .i32⟩) (.of main_call66_v2 : StableHlo.TRef sig ⟨S_, .i32⟩) select,
    StableHlo.TRef.unary main_call66_call0.v0 (.of main_call66_v3 : StableHlo.TRef sig ⟨S1, .i32⟩) (broadcastInDim S1 ![] bcast_S_S1),
    StableHlo.TRef.nullary (.of main_call66_c_1 : StableHlo.TRef sig ⟨S1, .i32⟩) (constantI S1 32 1#32),
    StableHlo.TRef.unary (.of main_call66_v3 : StableHlo.TRef sig ⟨S1, .i32⟩) (.of main_call66_v4 : StableHlo.TRef sig ⟨S1, .i32⟩) id,
    StableHlo.TRef.nullary (.of main_call66_c_2 : StableHlo.TRef sig ⟨S_, .i32⟩) (constantI S_ 32 0#32),
    StableHlo.TRef.unary (.of main_call66_c_2 : StableHlo.TRef sig ⟨S_, .i32⟩) (.of main_call66_v5 : StableHlo.TRef sig ⟨S1, .i32⟩) (broadcastInDim S1 ![] bcast_S_S1),
    StableHlo.TRef.binary (.of main_call66_v4 : StableHlo.TRef sig ⟨S1, .i32⟩) (.of main_call66_v5 : StableHlo.TRef sig ⟨S1, .i32⟩) (.of main_call66_v6 : StableHlo.TRef sig ⟨S1, .i1⟩) (cmpi .sge),
    StableHlo.TRef.binary (.of main_call66_v4 : StableHlo.TRef sig ⟨S1, .i32⟩) (.of main_call66_c_1 : StableHlo.TRef sig ⟨S1, .i32⟩) (.of main_call66_v7 : StableHlo.TRef sig ⟨S1, .i1⟩) (cmpi .sle),
    StableHlo.TRef.binary (.of main_call66_v6 : StableHlo.TRef sig ⟨S1, .i1⟩) (.of main_call66_v7 : StableHlo.TRef sig ⟨S1, .i1⟩) (.of main_call66_v8 : StableHlo.TRef sig ⟨S1, .i1⟩) andi,
    StableHlo.TRef.nullary (.of main_call66_c_3 : StableHlo.TRef sig ⟨S_, .i1⟩) (constantI S_ 1 1#1),
    StableHlo.TRef.binary (.of main_call66_v8 : StableHlo.TRef sig ⟨S1, .i1⟩) (.of main_call66_c_3 : StableHlo.TRef sig ⟨S_, .i1⟩) (.of main_call66_v9 : StableHlo.TRef sig ⟨S_, .i1⟩) (fun x v => Host.reduce IntOp.andi x v reducesTo_S1_S_d0 h_S_),
    StableHlo.TRef.binary (.of main_v459 : StableHlo.TRef sig ⟨S256x2x2x2x2x2x2x2x2, .f32⟩) (.of main_call66_v4 : StableHlo.TRef sig ⟨S1, .i32⟩) (.of main_call66_v10 : StableHlo.TRef sig ⟨S256x2x2x2x2x2x2x2, .f32⟩) (fun x i => Host.gather gather_S256x2x2x2x2x2x2x2x2_S1_S256x2x2x2x2x2x2x2_01234567_6_n_n_6_0_25622222122 x i),
    StableHlo.TRef.unary (.of main_call66_v9 : StableHlo.TRef sig ⟨S_, .i1⟩) (.of main_call66_v11 : StableHlo.TRef sig ⟨S256x2x2x2x2x2x2x2, .i1⟩) (broadcastInDim S256x2x2x2x2x2x2x2 ![] bcast_S_S256x2x2x2x2x2x2x2),
    StableHlo.TRef.nullary (.of main_call66_cst : StableHlo.TRef sig ⟨S_, .f32⟩) (constant S_ .f32 0x7FC00000#32),
    StableHlo.TRef.unary (.of main_call66_cst : StableHlo.TRef sig ⟨S_, .f32⟩) (.of main_call66_v12 : StableHlo.TRef sig ⟨S256x2x2x2x2x2x2x2, .f32⟩) (broadcastInDim S256x2x2x2x2x2x2x2 ![] bcast_S_S256x2x2x2x2x2x2x2),
    StableHlo.TRef.ternary (.of main_call66_v11 : StableHlo.TRef sig ⟨S256x2x2x2x2x2x2x2, .i1⟩) (.of main_call66_v10 : StableHlo.TRef sig ⟨S256x2x2x2x2x2x2x2, .f32⟩) (.of main_call66_v12 : StableHlo.TRef sig ⟨S256x2x2x2x2x2x2x2, .f32⟩) (.of main_v467 : StableHlo.TRef sig ⟨S256x2x2x2x2x2x2x2, .f32⟩) select,
    StableHlo.unary main_v463 main_v468 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v468 main_v466 main_v469 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v465 main_v470 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v470 main_v467 main_v471 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.binary main_v469 main_v471 main_v472 (subf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v465 main_v473 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v473 main_v466 main_v474 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v463 main_v475 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v475 main_v467 main_v476 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.binary main_v474 main_v476 main_v477 (addf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v472 main_v478 (broadcastInDim S256x2x2x2x2x2x1x2x2 ![0, 1, 2, 3, 4, 5, 7, 8] bcast_S256x2x2x2x2x2x2x2_S256x2x2x2x2x2x1x2x2_0_1_2_3_4_5_7_8 : (⟨S256x2x2x2x2x2x2x2, .f32⟩ : BufTy).Contents (Elt F) → (⟨S256x2x2x2x2x2x1x2x2, .f32⟩ : BufTy).Contents (Elt F)),
    StableHlo.unary main_v477 main_v479 (broadcastInDim S256x2x2x2x2x2x1x2x2 ![0, 1, 2, 3, 4, 5, 7, 8] bcast_S256x2x2x2x2x2x2x2_S256x2x2x2x2x2x1x2x2_0_1_2_3_4_5_7_8 : (⟨S256x2x2x2x2x2x2x2, .f32⟩ : BufTy).Contents (Elt F) → (⟨S256x2x2x2x2x2x1x2x2, .f32⟩ : BufTy).Contents (Elt F)),
    StableHlo.binary main_v478 main_v479 main_v480 ((fun a b => concatenate S256x2x2x2x2x2x2x2x2 6 [⟨S256x2x2x2x2x2x1x2x2, a⟩, ⟨S256x2x2x2x2x2x1x2x2, b⟩] concatenates_S256x2x2x2x2x2x1x2x2_S256x2x2x2x2x2x1x2x2_S256x2x2x2x2x2x2x2x2_d6) : (⟨S256x2x2x2x2x2x1x2x2, .f32⟩ : BufTy).Contents (Elt F) → (⟨S256x2x2x2x2x2x1x2x2, .f32⟩ : BufTy).Contents (Elt F) → (⟨S256x2x2x2x2x2x2x2x2, .f32⟩ : BufTy).Contents (Elt F)) ]

/-- The host operations of gate 30 (a controlled flip, axis 3). -/
abbrev G30 : List (HloOp τ sig (Elt F)) :=
  [ StableHlo.nullary main_c_97 (constantI S_ 32 0#32),
    StableHlo.TRef.nullary (.of main_call67_c : StableHlo.TRef sig ⟨S_, .i32⟩) (constantI S_ 32 0#32),
    StableHlo.TRef.binary (.of main_c_97 : StableHlo.TRef sig ⟨S_, .i32⟩) (.of main_call67_c : StableHlo.TRef sig ⟨S_, .i32⟩) (.of main_call67_v0 : StableHlo.TRef sig ⟨S_, .i1⟩) (cmpi .slt),
    StableHlo.TRef.nullary (.of main_call67_c_0 : StableHlo.TRef sig ⟨S_, .i32⟩) (constantI S_ 32 2#32),
    StableHlo.TRef.binary (.of main_c_97 : StableHlo.TRef sig ⟨S_, .i32⟩) (.of main_call67_c_0 : StableHlo.TRef sig ⟨S_, .i32⟩) (.of main_call67_v1 : StableHlo.TRef sig ⟨S_, .i32⟩) addi,
    StableHlo.TRef.ternary (.of main_call67_v0 : StableHlo.TRef sig ⟨S_, .i1⟩) (.of main_call67_v1 : StableHlo.TRef sig ⟨S_, .i32⟩) (.of main_c_97 : StableHlo.TRef sig ⟨S_, .i32⟩) (.of main_call67_v2 : StableHlo.TRef sig ⟨S_, .i32⟩) select,
    StableHlo.TRef.unary main_call67_call0.v0 (.of main_call67_v3 : StableHlo.TRef sig ⟨S1, .i32⟩) (broadcastInDim S1 ![] bcast_S_S1),
    StableHlo.TRef.nullary (.of main_call67_c_1 : StableHlo.TRef sig ⟨S1, .i32⟩) (constantI S1 32 1#32),
    StableHlo.TRef.unary (.of main_call67_v3 : StableHlo.TRef sig ⟨S1, .i32⟩) (.of main_call67_v4 : StableHlo.TRef sig ⟨S1, .i32⟩) id,
    StableHlo.TRef.nullary (.of main_call67_c_2 : StableHlo.TRef sig ⟨S_, .i32⟩) (constantI S_ 32 0#32),
    StableHlo.TRef.unary (.of main_call67_c_2 : StableHlo.TRef sig ⟨S_, .i32⟩) (.of main_call67_v5 : StableHlo.TRef sig ⟨S1, .i32⟩) (broadcastInDim S1 ![] bcast_S_S1),
    StableHlo.TRef.binary (.of main_call67_v4 : StableHlo.TRef sig ⟨S1, .i32⟩) (.of main_call67_v5 : StableHlo.TRef sig ⟨S1, .i32⟩) (.of main_call67_v6 : StableHlo.TRef sig ⟨S1, .i1⟩) (cmpi .sge),
    StableHlo.TRef.binary (.of main_call67_v4 : StableHlo.TRef sig ⟨S1, .i32⟩) (.of main_call67_c_1 : StableHlo.TRef sig ⟨S1, .i32⟩) (.of main_call67_v7 : StableHlo.TRef sig ⟨S1, .i1⟩) (cmpi .sle),
    StableHlo.TRef.binary (.of main_call67_v6 : StableHlo.TRef sig ⟨S1, .i1⟩) (.of main_call67_v7 : StableHlo.TRef sig ⟨S1, .i1⟩) (.of main_call67_v8 : StableHlo.TRef sig ⟨S1, .i1⟩) andi,
    StableHlo.TRef.nullary (.of main_call67_c_3 : StableHlo.TRef sig ⟨S_, .i1⟩) (constantI S_ 1 1#1),
    StableHlo.TRef.binary (.of main_call67_v8 : StableHlo.TRef sig ⟨S1, .i1⟩) (.of main_call67_c_3 : StableHlo.TRef sig ⟨S_, .i1⟩) (.of main_call67_v9 : StableHlo.TRef sig ⟨S_, .i1⟩) (fun x v => Host.reduce IntOp.andi x v reducesTo_S1_S_d0 h_S_),
    StableHlo.TRef.binary (.of main_v480 : StableHlo.TRef sig ⟨S256x2x2x2x2x2x2x2x2, .f32⟩) (.of main_call67_v4 : StableHlo.TRef sig ⟨S1, .i32⟩) (.of main_call67_v10 : StableHlo.TRef sig ⟨S256x2x2x2x2x2x2x2, .f32⟩) (fun x i => Host.gather gather_S256x2x2x2x2x2x2x2x2_S1_S256x2x2x2x2x2x2x2_01234567_3_n_n_3_0_25622122222 x i),
    StableHlo.TRef.unary (.of main_call67_v9 : StableHlo.TRef sig ⟨S_, .i1⟩) (.of main_call67_v11 : StableHlo.TRef sig ⟨S256x2x2x2x2x2x2x2, .i1⟩) (broadcastInDim S256x2x2x2x2x2x2x2 ![] bcast_S_S256x2x2x2x2x2x2x2),
    StableHlo.TRef.nullary (.of main_call67_cst : StableHlo.TRef sig ⟨S_, .f32⟩) (constant S_ .f32 0x7FC00000#32),
    StableHlo.TRef.unary (.of main_call67_cst : StableHlo.TRef sig ⟨S_, .f32⟩) (.of main_call67_v12 : StableHlo.TRef sig ⟨S256x2x2x2x2x2x2x2, .f32⟩) (broadcastInDim S256x2x2x2x2x2x2x2 ![] bcast_S_S256x2x2x2x2x2x2x2),
    StableHlo.TRef.ternary (.of main_call67_v11 : StableHlo.TRef sig ⟨S256x2x2x2x2x2x2x2, .i1⟩) (.of main_call67_v10 : StableHlo.TRef sig ⟨S256x2x2x2x2x2x2x2, .f32⟩) (.of main_call67_v12 : StableHlo.TRef sig ⟨S256x2x2x2x2x2x2x2, .f32⟩) (.of main_v481 : StableHlo.TRef sig ⟨S256x2x2x2x2x2x2x2, .f32⟩) select,
    StableHlo.nullary main_c_98 (constantI S_ 32 1#32),
    StableHlo.TRef.nullary (.of main_call68_c : StableHlo.TRef sig ⟨S_, .i32⟩) (constantI S_ 32 0#32),
    StableHlo.TRef.binary (.of main_c_98 : StableHlo.TRef sig ⟨S_, .i32⟩) (.of main_call68_c : StableHlo.TRef sig ⟨S_, .i32⟩) (.of main_call68_v0 : StableHlo.TRef sig ⟨S_, .i1⟩) (cmpi .slt),
    StableHlo.TRef.nullary (.of main_call68_c_0 : StableHlo.TRef sig ⟨S_, .i32⟩) (constantI S_ 32 2#32),
    StableHlo.TRef.binary (.of main_c_98 : StableHlo.TRef sig ⟨S_, .i32⟩) (.of main_call68_c_0 : StableHlo.TRef sig ⟨S_, .i32⟩) (.of main_call68_v1 : StableHlo.TRef sig ⟨S_, .i32⟩) addi,
    StableHlo.TRef.ternary (.of main_call68_v0 : StableHlo.TRef sig ⟨S_, .i1⟩) (.of main_call68_v1 : StableHlo.TRef sig ⟨S_, .i32⟩) (.of main_c_98 : StableHlo.TRef sig ⟨S_, .i32⟩) (.of main_call68_v2 : StableHlo.TRef sig ⟨S_, .i32⟩) select,
    StableHlo.TRef.unary main_call68_call0.v0 (.of main_call68_v3 : StableHlo.TRef sig ⟨S1, .i32⟩) (broadcastInDim S1 ![] bcast_S_S1),
    StableHlo.TRef.nullary (.of main_call68_c_1 : StableHlo.TRef sig ⟨S1, .i32⟩) (constantI S1 32 1#32),
    StableHlo.TRef.unary (.of main_call68_v3 : StableHlo.TRef sig ⟨S1, .i32⟩) (.of main_call68_v4 : StableHlo.TRef sig ⟨S1, .i32⟩) id,
    StableHlo.TRef.nullary (.of main_call68_c_2 : StableHlo.TRef sig ⟨S_, .i32⟩) (constantI S_ 32 0#32),
    StableHlo.TRef.unary (.of main_call68_c_2 : StableHlo.TRef sig ⟨S_, .i32⟩) (.of main_call68_v5 : StableHlo.TRef sig ⟨S1, .i32⟩) (broadcastInDim S1 ![] bcast_S_S1),
    StableHlo.TRef.binary (.of main_call68_v4 : StableHlo.TRef sig ⟨S1, .i32⟩) (.of main_call68_v5 : StableHlo.TRef sig ⟨S1, .i32⟩) (.of main_call68_v6 : StableHlo.TRef sig ⟨S1, .i1⟩) (cmpi .sge),
    StableHlo.TRef.binary (.of main_call68_v4 : StableHlo.TRef sig ⟨S1, .i32⟩) (.of main_call68_c_1 : StableHlo.TRef sig ⟨S1, .i32⟩) (.of main_call68_v7 : StableHlo.TRef sig ⟨S1, .i1⟩) (cmpi .sle),
    StableHlo.TRef.binary (.of main_call68_v6 : StableHlo.TRef sig ⟨S1, .i1⟩) (.of main_call68_v7 : StableHlo.TRef sig ⟨S1, .i1⟩) (.of main_call68_v8 : StableHlo.TRef sig ⟨S1, .i1⟩) andi,
    StableHlo.TRef.nullary (.of main_call68_c_3 : StableHlo.TRef sig ⟨S_, .i1⟩) (constantI S_ 1 1#1),
    StableHlo.TRef.binary (.of main_call68_v8 : StableHlo.TRef sig ⟨S1, .i1⟩) (.of main_call68_c_3 : StableHlo.TRef sig ⟨S_, .i1⟩) (.of main_call68_v9 : StableHlo.TRef sig ⟨S_, .i1⟩) (fun x v => Host.reduce IntOp.andi x v reducesTo_S1_S_d0 h_S_),
    StableHlo.TRef.binary (.of main_v480 : StableHlo.TRef sig ⟨S256x2x2x2x2x2x2x2x2, .f32⟩) (.of main_call68_v4 : StableHlo.TRef sig ⟨S1, .i32⟩) (.of main_call68_v10 : StableHlo.TRef sig ⟨S256x2x2x2x2x2x2x2, .f32⟩) (fun x i => Host.gather gather_S256x2x2x2x2x2x2x2x2_S1_S256x2x2x2x2x2x2x2_01234567_3_n_n_3_0_25622122222 x i),
    StableHlo.TRef.unary (.of main_call68_v9 : StableHlo.TRef sig ⟨S_, .i1⟩) (.of main_call68_v11 : StableHlo.TRef sig ⟨S256x2x2x2x2x2x2x2, .i1⟩) (broadcastInDim S256x2x2x2x2x2x2x2 ![] bcast_S_S256x2x2x2x2x2x2x2),
    StableHlo.TRef.nullary (.of main_call68_cst : StableHlo.TRef sig ⟨S_, .f32⟩) (constant S_ .f32 0x7FC00000#32),
    StableHlo.TRef.unary (.of main_call68_cst : StableHlo.TRef sig ⟨S_, .f32⟩) (.of main_call68_v12 : StableHlo.TRef sig ⟨S256x2x2x2x2x2x2x2, .f32⟩) (broadcastInDim S256x2x2x2x2x2x2x2 ![] bcast_S_S256x2x2x2x2x2x2x2),
    StableHlo.TRef.ternary (.of main_call68_v11 : StableHlo.TRef sig ⟨S256x2x2x2x2x2x2x2, .i1⟩) (.of main_call68_v10 : StableHlo.TRef sig ⟨S256x2x2x2x2x2x2x2, .f32⟩) (.of main_call68_v12 : StableHlo.TRef sig ⟨S256x2x2x2x2x2x2x2, .f32⟩) (.of main_v482 : StableHlo.TRef sig ⟨S256x2x2x2x2x2x2x2, .f32⟩) select,
    StableHlo.TRef.unary (.of main_v482 : StableHlo.TRef sig ⟨S256x2x2x2x2x2x2x2, .f32⟩) (.of main_v483 : StableHlo.TRef sig ⟨S256x2x2x2x2x2x2x2, .f32⟩) (Host.reverse [5]),
    StableHlo.unary main_v481 main_v484 (broadcastInDim S256x2x2x1x2x2x2x2x2 ![0, 1, 2, 4, 5, 6, 7, 8] bcast_S256x2x2x2x2x2x2x2_S256x2x2x1x2x2x2x2x2_0_1_2_4_5_6_7_8 : (⟨S256x2x2x2x2x2x2x2, .f32⟩ : BufTy).Contents (Elt F) → (⟨S256x2x2x1x2x2x2x2x2, .f32⟩ : BufTy).Contents (Elt F)),
    StableHlo.unary main_v483 main_v485 (broadcastInDim S256x2x2x1x2x2x2x2x2 ![0, 1, 2, 4, 5, 6, 7, 8] bcast_S256x2x2x2x2x2x2x2_S256x2x2x1x2x2x2x2x2_0_1_2_4_5_6_7_8 : (⟨S256x2x2x2x2x2x2x2, .f32⟩ : BufTy).Contents (Elt F) → (⟨S256x2x2x1x2x2x2x2x2, .f32⟩ : BufTy).Contents (Elt F)),
    StableHlo.binary main_v484 main_v485 main_v486 ((fun a b => concatenate S256x2x2x2x2x2x2x2x2 3 [⟨S256x2x2x1x2x2x2x2x2, a⟩, ⟨S256x2x2x1x2x2x2x2x2, b⟩] concatenates_S256x2x2x1x2x2x2x2x2_S256x2x2x1x2x2x2x2x2_S256x2x2x2x2x2x2x2x2_d3) : (⟨S256x2x2x1x2x2x2x2x2, .f32⟩ : BufTy).Contents (Elt F) → (⟨S256x2x2x1x2x2x2x2x2, .f32⟩ : BufTy).Contents (Elt F) → (⟨S256x2x2x2x2x2x2x2x2, .f32⟩ : BufTy).Contents (Elt F)) ]

/-- The host operations of gate 31 (a rotation, parameter 20, axis 6). -/
abbrev G31 : List (HloOp τ sig (Elt F)) :=
  [ StableHlo.unary main_arg3 main_v487 ((extractStridedSlice S1 ![20] · slices_S21_S1_20) : (⟨S21, .f32⟩ : BufTy).Contents (Elt F) → (⟨S1, .f32⟩ : BufTy).Contents (Elt F)),
    StableHlo.reshape main_v487 main_v488 rfl shapeCasts_S1_S_,
    StableHlo.nullary main_cst_99 (constant S_ .f32 0x3F000000#32),
    StableHlo.binary main_cst_99 main_v488 main_v489 (mulf : (⟨S_, .f32⟩ : BufTy).Contents (Elt F) → (⟨S_, .f32⟩ : BufTy).Contents (Elt F) → (⟨S_, .f32⟩ : BufTy).Contents (Elt F)),
    StableHlo.unary main_v489 main_v490 (Host.cos : (⟨S_, .f32⟩ : BufTy).Contents (Elt F) → (⟨S_, .f32⟩ : BufTy).Contents (Elt F)),
    StableHlo.nullary main_cst_100 (constant S_ .f32 0x3F000000#32),
    StableHlo.binary main_cst_100 main_v488 main_v491 (mulf : (⟨S_, .f32⟩ : BufTy).Contents (Elt F) → (⟨S_, .f32⟩ : BufTy).Contents (Elt F) → (⟨S_, .f32⟩ : BufTy).Contents (Elt F)),
    StableHlo.unary main_v491 main_v492 (Host.sin : (⟨S_, .f32⟩ : BufTy).Contents (Elt F) → (⟨S_, .f32⟩ : BufTy).Contents (Elt F)),
    StableHlo.nullary main_c_101 (constantI S_ 32 0#32),
    StableHlo.TRef.nullary (.of main_call70_c : StableHlo.TRef sig ⟨S_, .i32⟩) (constantI S_ 32 0#32),
    StableHlo.TRef.binary (.of main_c_101 : StableHlo.TRef sig ⟨S_, .i32⟩) (.of main_call70_c : StableHlo.TRef sig ⟨S_, .i32⟩) (.of main_call70_v0 : StableHlo.TRef sig ⟨S_, .i1⟩) (cmpi .slt),
    StableHlo.TRef.nullary (.of main_call70_c_0 : StableHlo.TRef sig ⟨S_, .i32⟩) (constantI S_ 32 2#32),
    StableHlo.TRef.binary (.of main_c_101 : StableHlo.TRef sig ⟨S_, .i32⟩) (.of main_call70_c_0 : StableHlo.TRef sig ⟨S_, .i32⟩) (.of main_call70_v1 : StableHlo.TRef sig ⟨S_, .i32⟩) addi,
    StableHlo.TRef.ternary (.of main_call70_v0 : StableHlo.TRef sig ⟨S_, .i1⟩) (.of main_call70_v1 : StableHlo.TRef sig ⟨S_, .i32⟩) (.of main_c_101 : StableHlo.TRef sig ⟨S_, .i32⟩) (.of main_call70_v2 : StableHlo.TRef sig ⟨S_, .i32⟩) select,
    StableHlo.TRef.unary main_call70_call0.v0 (.of main_call70_v3 : StableHlo.TRef sig ⟨S1, .i32⟩) (broadcastInDim S1 ![] bcast_S_S1),
    StableHlo.TRef.nullary (.of main_call70_c_1 : StableHlo.TRef sig ⟨S1, .i32⟩) (constantI S1 32 1#32),
    StableHlo.TRef.unary (.of main_call70_v3 : StableHlo.TRef sig ⟨S1, .i32⟩) (.of main_call70_v4 : StableHlo.TRef sig ⟨S1, .i32⟩) id,
    StableHlo.TRef.nullary (.of main_call70_c_2 : StableHlo.TRef sig ⟨S_, .i32⟩) (constantI S_ 32 0#32),
    StableHlo.TRef.unary (.of main_call70_c_2 : StableHlo.TRef sig ⟨S_, .i32⟩) (.of main_call70_v5 : StableHlo.TRef sig ⟨S1, .i32⟩) (broadcastInDim S1 ![] bcast_S_S1),
    StableHlo.TRef.binary (.of main_call70_v4 : StableHlo.TRef sig ⟨S1, .i32⟩) (.of main_call70_v5 : StableHlo.TRef sig ⟨S1, .i32⟩) (.of main_call70_v6 : StableHlo.TRef sig ⟨S1, .i1⟩) (cmpi .sge),
    StableHlo.TRef.binary (.of main_call70_v4 : StableHlo.TRef sig ⟨S1, .i32⟩) (.of main_call70_c_1 : StableHlo.TRef sig ⟨S1, .i32⟩) (.of main_call70_v7 : StableHlo.TRef sig ⟨S1, .i1⟩) (cmpi .sle),
    StableHlo.TRef.binary (.of main_call70_v6 : StableHlo.TRef sig ⟨S1, .i1⟩) (.of main_call70_v7 : StableHlo.TRef sig ⟨S1, .i1⟩) (.of main_call70_v8 : StableHlo.TRef sig ⟨S1, .i1⟩) andi,
    StableHlo.TRef.nullary (.of main_call70_c_3 : StableHlo.TRef sig ⟨S_, .i1⟩) (constantI S_ 1 1#1),
    StableHlo.TRef.binary (.of main_call70_v8 : StableHlo.TRef sig ⟨S1, .i1⟩) (.of main_call70_c_3 : StableHlo.TRef sig ⟨S_, .i1⟩) (.of main_call70_v9 : StableHlo.TRef sig ⟨S_, .i1⟩) (fun x v => Host.reduce IntOp.andi x v reducesTo_S1_S_d0 h_S_),
    StableHlo.TRef.binary (.of main_v486 : StableHlo.TRef sig ⟨S256x2x2x2x2x2x2x2x2, .f32⟩) (.of main_call70_v4 : StableHlo.TRef sig ⟨S1, .i32⟩) (.of main_call70_v10 : StableHlo.TRef sig ⟨S256x2x2x2x2x2x2x2, .f32⟩) (fun x i => Host.gather gather_S256x2x2x2x2x2x2x2x2_S1_S256x2x2x2x2x2x2x2_01234567_6_n_n_6_0_25622222122 x i),
    StableHlo.TRef.unary (.of main_call70_v9 : StableHlo.TRef sig ⟨S_, .i1⟩) (.of main_call70_v11 : StableHlo.TRef sig ⟨S256x2x2x2x2x2x2x2, .i1⟩) (broadcastInDim S256x2x2x2x2x2x2x2 ![] bcast_S_S256x2x2x2x2x2x2x2),
    StableHlo.TRef.nullary (.of main_call70_cst : StableHlo.TRef sig ⟨S_, .f32⟩) (constant S_ .f32 0x7FC00000#32),
    StableHlo.TRef.unary (.of main_call70_cst : StableHlo.TRef sig ⟨S_, .f32⟩) (.of main_call70_v12 : StableHlo.TRef sig ⟨S256x2x2x2x2x2x2x2, .f32⟩) (broadcastInDim S256x2x2x2x2x2x2x2 ![] bcast_S_S256x2x2x2x2x2x2x2),
    StableHlo.TRef.ternary (.of main_call70_v11 : StableHlo.TRef sig ⟨S256x2x2x2x2x2x2x2, .i1⟩) (.of main_call70_v10 : StableHlo.TRef sig ⟨S256x2x2x2x2x2x2x2, .f32⟩) (.of main_call70_v12 : StableHlo.TRef sig ⟨S256x2x2x2x2x2x2x2, .f32⟩) (.of main_v493 : StableHlo.TRef sig ⟨S256x2x2x2x2x2x2x2, .f32⟩) select,
    StableHlo.nullary main_c_102 (constantI S_ 32 1#32),
    StableHlo.TRef.nullary (.of main_call71_c : StableHlo.TRef sig ⟨S_, .i32⟩) (constantI S_ 32 0#32),
    StableHlo.TRef.binary (.of main_c_102 : StableHlo.TRef sig ⟨S_, .i32⟩) (.of main_call71_c : StableHlo.TRef sig ⟨S_, .i32⟩) (.of main_call71_v0 : StableHlo.TRef sig ⟨S_, .i1⟩) (cmpi .slt),
    StableHlo.TRef.nullary (.of main_call71_c_0 : StableHlo.TRef sig ⟨S_, .i32⟩) (constantI S_ 32 2#32),
    StableHlo.TRef.binary (.of main_c_102 : StableHlo.TRef sig ⟨S_, .i32⟩) (.of main_call71_c_0 : StableHlo.TRef sig ⟨S_, .i32⟩) (.of main_call71_v1 : StableHlo.TRef sig ⟨S_, .i32⟩) addi,
    StableHlo.TRef.ternary (.of main_call71_v0 : StableHlo.TRef sig ⟨S_, .i1⟩) (.of main_call71_v1 : StableHlo.TRef sig ⟨S_, .i32⟩) (.of main_c_102 : StableHlo.TRef sig ⟨S_, .i32⟩) (.of main_call71_v2 : StableHlo.TRef sig ⟨S_, .i32⟩) select,
    StableHlo.TRef.unary main_call71_call0.v0 (.of main_call71_v3 : StableHlo.TRef sig ⟨S1, .i32⟩) (broadcastInDim S1 ![] bcast_S_S1),
    StableHlo.TRef.nullary (.of main_call71_c_1 : StableHlo.TRef sig ⟨S1, .i32⟩) (constantI S1 32 1#32),
    StableHlo.TRef.unary (.of main_call71_v3 : StableHlo.TRef sig ⟨S1, .i32⟩) (.of main_call71_v4 : StableHlo.TRef sig ⟨S1, .i32⟩) id,
    StableHlo.TRef.nullary (.of main_call71_c_2 : StableHlo.TRef sig ⟨S_, .i32⟩) (constantI S_ 32 0#32),
    StableHlo.TRef.unary (.of main_call71_c_2 : StableHlo.TRef sig ⟨S_, .i32⟩) (.of main_call71_v5 : StableHlo.TRef sig ⟨S1, .i32⟩) (broadcastInDim S1 ![] bcast_S_S1),
    StableHlo.TRef.binary (.of main_call71_v4 : StableHlo.TRef sig ⟨S1, .i32⟩) (.of main_call71_v5 : StableHlo.TRef sig ⟨S1, .i32⟩) (.of main_call71_v6 : StableHlo.TRef sig ⟨S1, .i1⟩) (cmpi .sge),
    StableHlo.TRef.binary (.of main_call71_v4 : StableHlo.TRef sig ⟨S1, .i32⟩) (.of main_call71_c_1 : StableHlo.TRef sig ⟨S1, .i32⟩) (.of main_call71_v7 : StableHlo.TRef sig ⟨S1, .i1⟩) (cmpi .sle),
    StableHlo.TRef.binary (.of main_call71_v6 : StableHlo.TRef sig ⟨S1, .i1⟩) (.of main_call71_v7 : StableHlo.TRef sig ⟨S1, .i1⟩) (.of main_call71_v8 : StableHlo.TRef sig ⟨S1, .i1⟩) andi,
    StableHlo.TRef.nullary (.of main_call71_c_3 : StableHlo.TRef sig ⟨S_, .i1⟩) (constantI S_ 1 1#1),
    StableHlo.TRef.binary (.of main_call71_v8 : StableHlo.TRef sig ⟨S1, .i1⟩) (.of main_call71_c_3 : StableHlo.TRef sig ⟨S_, .i1⟩) (.of main_call71_v9 : StableHlo.TRef sig ⟨S_, .i1⟩) (fun x v => Host.reduce IntOp.andi x v reducesTo_S1_S_d0 h_S_),
    StableHlo.TRef.binary (.of main_v486 : StableHlo.TRef sig ⟨S256x2x2x2x2x2x2x2x2, .f32⟩) (.of main_call71_v4 : StableHlo.TRef sig ⟨S1, .i32⟩) (.of main_call71_v10 : StableHlo.TRef sig ⟨S256x2x2x2x2x2x2x2, .f32⟩) (fun x i => Host.gather gather_S256x2x2x2x2x2x2x2x2_S1_S256x2x2x2x2x2x2x2_01234567_6_n_n_6_0_25622222122 x i),
    StableHlo.TRef.unary (.of main_call71_v9 : StableHlo.TRef sig ⟨S_, .i1⟩) (.of main_call71_v11 : StableHlo.TRef sig ⟨S256x2x2x2x2x2x2x2, .i1⟩) (broadcastInDim S256x2x2x2x2x2x2x2 ![] bcast_S_S256x2x2x2x2x2x2x2),
    StableHlo.TRef.nullary (.of main_call71_cst : StableHlo.TRef sig ⟨S_, .f32⟩) (constant S_ .f32 0x7FC00000#32),
    StableHlo.TRef.unary (.of main_call71_cst : StableHlo.TRef sig ⟨S_, .f32⟩) (.of main_call71_v12 : StableHlo.TRef sig ⟨S256x2x2x2x2x2x2x2, .f32⟩) (broadcastInDim S256x2x2x2x2x2x2x2 ![] bcast_S_S256x2x2x2x2x2x2x2),
    StableHlo.TRef.ternary (.of main_call71_v11 : StableHlo.TRef sig ⟨S256x2x2x2x2x2x2x2, .i1⟩) (.of main_call71_v10 : StableHlo.TRef sig ⟨S256x2x2x2x2x2x2x2, .f32⟩) (.of main_call71_v12 : StableHlo.TRef sig ⟨S256x2x2x2x2x2x2x2, .f32⟩) (.of main_v494 : StableHlo.TRef sig ⟨S256x2x2x2x2x2x2x2, .f32⟩) select,
    StableHlo.unary main_v490 main_v495 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v495 main_v493 main_v496 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v492 main_v497 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v497 main_v494 main_v498 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.binary main_v496 main_v498 main_v499 (subf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v492 main_v500 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v500 main_v493 main_v501 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v490 main_v502 (broadcastInDim S256x2x2x2x2x2x2x2 ![] bcast_S_S256x2x2x2x2x2x2x2 : (⟨S_, .f32⟩ : BufTy).Contents (Elt F) → (⟨S256x2x2x2x2x2x2x2, .f32⟩ : BufTy).Contents (Elt F)),
    StableHlo.binary main_v502 main_v494 main_v503 (mulf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.binary main_v501 main_v503 main_v504 (addf : (⟨S256x2x2x2x2x2x2x2, .f32⟩ : BufTy).Contents (Elt F) → (⟨S256x2x2x2x2x2x2x2, .f32⟩ : BufTy).Contents (Elt F) → (⟨S256x2x2x2x2x2x2x2, .f32⟩ : BufTy).Contents (Elt F)),
    StableHlo.unary main_v499 main_v505 (broadcastInDim S256x2x2x2x2x2x1x2x2 ![0, 1, 2, 3, 4, 5, 7, 8] bcast_S256x2x2x2x2x2x2x2_S256x2x2x2x2x2x1x2x2_0_1_2_3_4_5_7_8 : (⟨S256x2x2x2x2x2x2x2, .f32⟩ : BufTy).Contents (Elt F) → (⟨S256x2x2x2x2x2x1x2x2, .f32⟩ : BufTy).Contents (Elt F)),
    StableHlo.unary main_v504 main_v506 (broadcastInDim S256x2x2x2x2x2x1x2x2 ![0, 1, 2, 3, 4, 5, 7, 8] bcast_S256x2x2x2x2x2x2x2_S256x2x2x2x2x2x1x2x2_0_1_2_3_4_5_7_8 : (⟨S256x2x2x2x2x2x2x2, .f32⟩ : BufTy).Contents (Elt F) → (⟨S256x2x2x2x2x2x1x2x2, .f32⟩ : BufTy).Contents (Elt F)),
    StableHlo.binary main_v505 main_v506 main_v507 ((fun a b => concatenate S256x2x2x2x2x2x2x2x2 6 [⟨S256x2x2x2x2x2x1x2x2, a⟩, ⟨S256x2x2x2x2x2x1x2x2, b⟩] concatenates_S256x2x2x2x2x2x1x2x2_S256x2x2x2x2x2x1x2x2_S256x2x2x2x2x2x2x2x2_d6) : (⟨S256x2x2x2x2x2x1x2x2, .f32⟩ : BufTy).Contents (Elt F) → (⟨S256x2x2x2x2x2x1x2x2, .f32⟩ : BufTy).Contents (Elt F) → (⟨S256x2x2x2x2x2x2x2x2, .f32⟩ : BufTy).Contents (Elt F)) ]

end Lists

-- the layout operations stay folded while the fold of the host operations is opened
attribute [local irreducible] Host.gather Host.reduce concatenate broadcastInDim Host.reverse shapeCast extractStridedSlice

set_option maxHeartbeats 1600000 in
theorem gate25 (W : Valuation τ sig (Elt Ideal)) :
    after (G25 (F := Ideal)) W (main_v411 : DevRef τ sig)
      = Cert.TTN.Gates.ryTerm (s := S256x2x2x2x2x2x2x2x2) (t := S256x2x2x2x2x2x2x2) (u := S256x2x2x2x2x2x1x2x2) 6 ![0, 1, 2, 3, 4, 5, 7, 8] gather_S256x2x2x2x2x2x2x2x2_S1_S256x2x2x2x2x2x2x2_01234567_6_n_n_6_0_25622222122 bcast_S_S1 bcast_S_S256x2x2x2x2x2x2x2 reducesTo_S1_S_d0 h_S_ bcast_S256x2x2x2x2x2x2x2_S256x2x2x2x2x2x1x2x2_0_1_2_3_4_5_7_8 concatenates_S256x2x2x2x2x2x1x2x2_S256x2x2x2x2x2x1x2x2_S256x2x2x2x2x2x2x2x2_d6
        (W (main_v390 : DevRef τ sig)) (shapeCast S_ (extractStridedSlice S1 ![16] (W (main_arg3 : DevRef τ sig)) slices_S21_S1_16) shapeCasts_S1_S_) := by
  simp only [after_cons, after_nil]
  rfl

set_option maxHeartbeats 1600000 in
theorem gate25_arg3 (W : Valuation τ sig (Elt Ideal)) :
    after (G25 (F := Ideal)) W (main_arg3 : DevRef τ sig) = W (main_arg3 : DevRef τ sig) := by
  simp only [after_cons, after_nil]
  rfl

set_option maxHeartbeats 1600000 in
theorem gate26 (W : Valuation τ sig (Elt Ideal)) :
    after (G26 (F := Ideal)) W (main_v432 : DevRef τ sig)
      = Cert.TTN.Gates.ryTerm (s := S256x2x2x2x2x2x2x2x2) (t := S256x2x2x2x2x2x2x2) (u := S256x2x2x2x2x2x2x1x2) 7 ![0, 1, 2, 3, 4, 5, 6, 8] gather_S256x2x2x2x2x2x2x2x2_S1_S256x2x2x2x2x2x2x2_01234567_7_n_n_7_0_25622222212 bcast_S_S1 bcast_S_S256x2x2x2x2x2x2x2 reducesTo_S1_S_d0 h_S_ bcast_S256x2x2x2x2x2x2x2_S256x2x2x2x2x2x2x1x2_0_1_2_3_4_5_6_8 concatenates_S256x2x2x2x2x2x2x1x2_S256x2x2x2x2x2x2x1x2_S256x2x2x2x2x2x2x2x2_d7
        (W (main_v411 : DevRef τ sig)) (shapeCast S_ (extractStridedSlice S1 ![17] (W (main_arg3 : DevRef τ sig)) slices_S21_S1_17) shapeCasts_S1_S_) := by
  simp only [after_cons, after_nil]
  rfl

set_option maxHeartbeats 1600000 in
theorem gate26_arg3 (W : Valuation τ sig (Elt Ideal)) :
    after (G26 (F := Ideal)) W (main_arg3 : DevRef τ sig) = W (main_arg3 : DevRef τ sig) := by
  simp only [after_cons, after_nil]
  rfl

set_option maxHeartbeats 1600000 in
theorem gate27 (W : Valuation τ sig (Elt Ideal)) :
    after (G27 (F := Ideal)) W (main_v438 : DevRef τ sig)
      = Cert.TTN.Gates.cxTerm (s := S256x2x2x2x2x2x2x2x2) (t := S256x2x2x2x2x2x2x2) (u := S256x2x2x2x2x2x2x1x2) 7 6 ![0, 1, 2, 3, 4, 5, 6, 8] gather_S256x2x2x2x2x2x2x2x2_S1_S256x2x2x2x2x2x2x2_01234567_7_n_n_7_0_25622222212 bcast_S_S1 bcast_S_S256x2x2x2x2x2x2x2 reducesTo_S1_S_d0 h_S_ bcast_S256x2x2x2x2x2x2x2_S256x2x2x2x2x2x2x1x2_0_1_2_3_4_5_6_8 concatenates_S256x2x2x2x2x2x2x1x2_S256x2x2x2x2x2x2x1x2_S256x2x2x2x2x2x2x2x2_d7
        (W (main_v432 : DevRef τ sig)) := by
  simp only [after_cons, after_nil]
  rfl

set_option maxHeartbeats 1600000 in
theorem gate27_arg3 (W : Valuation τ sig (Elt Ideal)) :
    after (G27 (F := Ideal)) W (main_arg3 : DevRef τ sig) = W (main_arg3 : DevRef τ sig) := by
  simp only [after_cons, after_nil]
  rfl

set_option maxHeartbeats 1600000 in
theorem gate28 (W : Valuation τ sig (Elt Ideal)) :
    after (G28 (F := Ideal)) W (main_v459 : DevRef τ sig)
      = Cert.TTN.Gates.ryTerm (s := S256x2x2x2x2x2x2x2x2) (t := S256x2x2x2x2x2x2x2) (u := S256x2x2x1x2x2x2x2x2) 3 ![0, 1, 2, 4, 5, 6, 7, 8] gather_S256x2x2x2x2x2x2x2x2_S1_S256x2x2x2x2x2x2x2_01234567_3_n_n_3_0_25622122222 bcast_S_S1 bcast_S_S256x2x2x2x2x2x2x2 reducesTo_S1_S_d0 h_S_ bcast_S256x2x2x2x2x2x2x2_S256x2x2x1x2x2x2x2x2_0_1_2_4_5_6_7_8 concatenates_S256x2x2x1x2x2x2x2x2_S256x2x2x1x2x2x2x2x2_S256x2x2x2x2x2x2x2x2_d3
        (W (main_v438 : DevRef τ sig)) (shapeCast S_ (extractStridedSlice S1 ![18] (W (main_arg3 : DevRef τ sig)) slices_S21_S1_18) shapeCasts_S1_S_) := by
  simp only [after_cons, after_nil]
  rfl

set_option maxHeartbeats 1600000 in
theorem gate28_arg3 (W : Valuation τ sig (Elt Ideal)) :
    after (G28 (F := Ideal)) W (main_arg3 : DevRef τ sig) = W (main_arg3 : DevRef τ sig) := by
  simp only [after_cons, after_nil]
  rfl

set_option maxHeartbeats 1600000 in
theorem gate29 (W : Valuation τ sig (Elt Ideal)) :
    after (G29 (F := Ideal)) W (main_v480 : DevRef τ sig)
      = Cert.TTN.Gates.ryTerm (s := S256x2x2x2x2x2x2x2x2) (t := S256x2x2x2x2x2x2x2) (u := S256x2x2x2x2x2x1x2x2) 6 ![0, 1, 2, 3, 4, 5, 7, 8] gather_S256x2x2x2x2x2x2x2x2_S1_S256x2x2x2x2x2x2x2_01234567_6_n_n_6_0_25622222122 bcast_S_S1 bcast_S_S256x2x2x2x2x2x2x2 reducesTo_S1_S_d0 h_S_ bcast_S256x2x2x2x2x2x2x2_S256x2x2x2x2x2x1x2x2_0_1_2_3_4_5_7_8 concatenates_S256x2x2x2x2x2x1x2x2_S256x2x2x2x2x2x1x2x2_S256x2x2x2x2x2x2x2x2_d6
        (W (main_v459 : DevRef τ sig)) (shapeCast S_ (extractStridedSlice S1 ![19] (W (main_arg3 : DevRef τ sig)) slices_S21_S1_19) shapeCasts_S1_S_) := by
  simp only [after_cons, after_nil]
  rfl

set_option maxHeartbeats 1600000 in
theorem gate29_arg3 (W : Valuation τ sig (Elt Ideal)) :
    after (G29 (F := Ideal)) W (main_arg3 : DevRef τ sig) = W (main_arg3 : DevRef τ sig) := by
  simp only [after_cons, after_nil]
  rfl

set_option maxHeartbeats 1600000 in
theorem gate30 (W : Valuation τ sig (Elt Ideal)) :
    after (G30 (F := Ideal)) W (main_v486 : DevRef τ sig)
      = Cert.TTN.Gates.cxTerm (s := S256x2x2x2x2x2x2x2x2) (t := S256x2x2x2x2x2x2x2) (u := S256x2x2x1x2x2x2x2x2) 3 5 ![0, 1, 2, 4, 5, 6, 7, 8] gather_S256x2x2x2x2x2x2x2x2_S1_S256x2x2x2x2x2x2x2_01234567_3_n_n_3_0_25622122222 bcast_S_S1 bcast_S_S256x2x2x2x2x2x2x2 reducesTo_S1_S_d0 h_S_ bcast_S256x2x2x2x2x2x2x2_S256x2x2x1x2x2x2x2x2_0_1_2_4_5_6_7_8 concatenates_S256x2x2x1x2x2x2x2x2_S256x2x2x1x2x2x2x2x2_S256x2x2x2x2x2x2x2x2_d3
        (W (main_v480 : DevRef τ sig)) := by
  simp only [after_cons, after_nil]
  rfl

set_option maxHeartbeats 1600000 in
theorem gate30_arg3 (W : Valuation τ sig (Elt Ideal)) :
    after (G30 (F := Ideal)) W (main_arg3 : DevRef τ sig) = W (main_arg3 : DevRef τ sig) := by
  simp only [after_cons, after_nil]
  rfl

set_option maxHeartbeats 1600000 in
theorem gate31 (W : Valuation τ sig (Elt Ideal)) :
    after (G31 (F := Ideal)) W (main_v507 : DevRef τ sig)
      = Cert.TTN.Gates.ryTerm (s := S256x2x2x2x2x2x2x2x2) (t := S256x2x2x2x2x2x2x2) (u := S256x2x2x2x2x2x1x2x2) 6 ![0, 1, 2, 3, 4, 5, 7, 8] gather_S256x2x2x2x2x2x2x2x2_S1_S256x2x2x2x2x2x2x2_01234567_6_n_n_6_0_25622222122 bcast_S_S1 bcast_S_S256x2x2x2x2x2x2x2 reducesTo_S1_S_d0 h_S_ bcast_S256x2x2x2x2x2x2x2_S256x2x2x2x2x2x1x2x2_0_1_2_3_4_5_7_8 concatenates_S256x2x2x2x2x2x1x2x2_S256x2x2x2x2x2x1x2x2_S256x2x2x2x2x2x2x2x2_d6
        (W (main_v486 : DevRef τ sig)) (shapeCast S_ (extractStridedSlice S1 ![20] (W (main_arg3 : DevRef τ sig)) slices_S21_S1_20) shapeCasts_S1_S_) := by
  simp only [after_cons, after_nil]
  rfl

set_option maxHeartbeats 1600000 in
theorem gate31_arg3 (W : Valuation τ sig (Elt Ideal)) :
    after (G31 (F := Ideal)) W (main_arg3 : DevRef τ sig) = W (main_arg3 : DevRef τ sig) := by
  simp only [after_cons, after_nil]
  rfl

end Cert.TTN.KHost

end
-- ==== Proof.KHostEnds.lean ====
/-
  The two ends of the host part of the kernel's program around the 31 gates: before them, the 256 × 256 identity
  matrix built from two index arrays and recast as the 256 basis registers; after them, the final state recast as
  the 256 × 256 matrix the kernel multiplies by, and the mask row holding, for each column, the bit of weight 4 of
  its index.  For each stretch: from any buffer contents it leaves these values, and leaves the arguments alone.
-/
import proofs.«130987_j14276471292017_1_alg».proof.KernelIdeal
import proofs.«130987_j14276471292017_1_alg».proof.Proof.Gen.KernelIdeal
import Idealize.ShloMosaic.Lib.StableHlo.Run
import Idealize.ShloMosaic.PureOps.Ideal

set_option maxRecDepth 16384

noncomputable section

namespace Cert.TTN.KHost

open Idealize.ShloMosaic Idealize.ShloMosaic.TcCoe Idealize.SL.Sem Idealize.ShloMosaic.StableHlo
open Cert.KernelIdeal Cert.KernelIdeal.Gen

section Lists
variable {F : FTy → Type} [FloatOps F]

/-- The host operations before the first gate. -/
abbrev P0 : List (HloOp τ sig (Elt F)) :=
  [ StableHlo.nullary main_v0 (iotaInDim S256x256 32 0),
    StableHlo.nullary main_v1 (iotaInDim S256x256 32 1),
    StableHlo.nullary main_c (constantI S_ 32 0#32),
    StableHlo.unary main_c main_v2 (broadcastInDim S256x256 ![] bcast_S_S256x256 : (⟨S_, .i32⟩ : BufTy).Contents (Elt F) → (⟨S256x256, .i32⟩ : BufTy).Contents (Elt F)),
    StableHlo.binary main_v0 main_v2 main_v3 (addi : (⟨S256x256, .i32⟩ : BufTy).Contents (Elt F) → (⟨S256x256, .i32⟩ : BufTy).Contents (Elt F) → (⟨S256x256, .i32⟩ : BufTy).Contents (Elt F)),
    StableHlo.binary main_v3 main_v1 main_v4 (cmpi .eq : (⟨S256x256, .i32⟩ : BufTy).Contents (Elt F) → (⟨S256x256, .i32⟩ : BufTy).Contents (Elt F) → (⟨S256x256, .i1⟩ : BufTy).Contents (Elt F)),
    StableHlo.unary main_v4 main_v5 (uitofp .f32 : (⟨S256x256, .i1⟩ : BufTy).Contents (Elt F) → (⟨S256x256, .f32⟩ : BufTy).Contents (Elt F)),
    StableHlo.reshape main_v5 main_v6 rfl shapeCasts_S256x256_S256x2x2x2x2x2x2x2x2 ]

/-- The host operations after the last gate, up to the kernel's launch. -/
abbrev PR : List (HloOp τ sig (Elt F)) :=
  [ StableHlo.reshape main_v507 main_v508 rfl shapeCasts_S256x2x2x2x2x2x2x2x2_S256x256,
    StableHlo.nullary main_v509 (iotaInDim S256 32 0),
    StableHlo.nullary main_c_103 (constantI S_ 32 2#32),
    StableHlo.unary main_c_103 main_v510 (broadcastInDim S256 ![] bcast_S_S256 : (⟨S_, .i32⟩ : BufTy).Contents (Elt F) → (⟨S256, .i32⟩ : BufTy).Contents (Elt F)),
    StableHlo.binary main_v509 main_v510 main_v511 (Host.shrsi : (⟨S256, .i32⟩ : BufTy).Contents (Elt F) → (⟨S256, .i32⟩ : BufTy).Contents (Elt F) → (⟨S256, .i32⟩ : BufTy).Contents (Elt F)),
    StableHlo.nullary main_c_104 (constantI S_ 32 1#32),
    StableHlo.unary main_c_104 main_v512 (broadcastInDim S256 ![] bcast_S_S256 : (⟨S_, .i32⟩ : BufTy).Contents (Elt F) → (⟨S256, .i32⟩ : BufTy).Contents (Elt F)),
    StableHlo.binary main_v511 main_v512 main_v513 (andi : (⟨S256, .i32⟩ : BufTy).Contents (Elt F) → (⟨S256, .i32⟩ : BufTy).Contents (Elt F) → (⟨S256, .i32⟩ : BufTy).Contents (Elt F)),
    StableHlo.unary main_v513 main_v514 (sitofp .f32 : (⟨S256, .i32⟩ : BufTy).Contents (Elt F) → (⟨S256, .f32⟩ : BufTy).Contents (Elt F)),
    StableHlo.reshape main_v514 main_v515 rfl shapeCasts_S256_S1x256 ]

end Lists

attribute [local irreducible] Host.gather Host.reduce concatenate broadcastInDim Host.reverse shapeCast extractStridedSlice

/-- The identity matrix as the host builds it: 1 where the row index equals the column index. -/
def eyeTerm : FVec Ideal S256x256 .f32 :=
  uitofp (F := Ideal) .f32 (cmpi .eq (addi (iotaInDim S256x256 32 0) (broadcastInDim S256x256 ![] bcast_S_S256x256 (constantI S_ 32 0#32)))
    (iotaInDim S256x256 32 1))

/-- The mask row as the host builds it: the bit of weight 4 of the column index, as a float. -/
def maskTerm : FVec Ideal S256 .f32 :=
  sitofp (F := Ideal) .f32 (andi (Host.shrsi (iotaInDim S256 32 0) (broadcastInDim S256 ![] bcast_S_S256 (constantI S_ 32 2#32)))
    (broadcastInDim S256 ![] bcast_S_S256 (constantI S_ 32 1#32)))

theorem pre_state (W : Valuation τ sig (Elt Ideal)) :
    after (P0 (F := Ideal)) W (main_v6 : DevRef τ sig)
      = shapeCast S256x2x2x2x2x2x2x2x2 eyeTerm shapeCasts_S256x256_S256x2x2x2x2x2x2x2x2 := by
  simp only [after_cons, after_nil]
  rfl

theorem pre_arg0 (W : Valuation τ sig (Elt Ideal)) :
    after (P0 (F := Ideal)) W (main_arg0 : DevRef τ sig) = W (main_arg0 : DevRef τ sig) := by
  simp only [after_cons, after_nil]
  rfl

theorem pre_arg1 (W : Valuation τ sig (Elt Ideal)) :
    after (P0 (F := Ideal)) W (main_arg1 : DevRef τ sig) = W (main_arg1 : DevRef τ sig) := by
  simp only [after_cons, after_nil]
  rfl

theorem pre_arg2 (W : Valuation τ sig (Elt Ideal)) :
    after (P0 (F := Ideal)) W (main_arg2 : DevRef τ sig) = W (main_arg2 : DevRef τ sig) := by
  simp only [after_cons, after_nil]
  rfl

theorem pre_arg3 (W : Valuation τ sig (Elt Ideal)) :
    after (P0 (F := Ideal)) W (main_arg3 : DevRef τ sig) = W (main_arg3 : DevRef τ sig) := by
  simp only [after_cons, after_nil]
  rfl

theorem rest_M (W : Valuation τ sig (Elt Ideal)) :
    after (PR (F := Ideal)) W (main_v508 : DevRef τ sig)
      = shapeCast S256x256 (W (main_v507 : DevRef τ sig)) shapeCasts_S256x2x2x2x2x2x2x2x2_S256x256 := by
  simp only [after_cons, after_nil]
  rfl

theorem rest_mask (W : Valuation τ sig (Elt Ideal)) :
    after (PR (F := Ideal)) W (main_v515 : DevRef τ sig) = shapeCast S1x256 maskTerm shapeCasts_S256_S1x256 := by
  simp only [after_cons, after_nil]
  rfl

theorem rest_arg0 (W : Valuation τ sig (Elt Ideal)) :
    after (PR (F := Ideal)) W (main_arg0 : DevRef τ sig) = W (main_arg0 : DevRef τ sig) := by
  simp only [after_cons, after_nil]
  rfl

theorem rest_arg1 (W : Valuation τ sig (Elt Ideal)) :
    after (PR (F := Ideal)) W (main_arg1 : DevRef τ sig) = W (main_arg1 : DevRef τ sig) := by
  simp only [after_cons, after_nil]
  rfl

theorem rest_arg2 (W : Valuation τ sig (Elt Ideal)) :
    after (PR (F := Ideal)) W (main_arg2 : DevRef τ sig) = W (main_arg2 : DevRef τ sig) := by
  simp only [after_cons, after_nil]
  rfl

theorem rest_arg3 (W : Valuation τ sig (Elt Ideal)) :
    after (PR (F := Ideal)) W (main_arg3 : DevRef τ sig) = W (main_arg3 : DevRef τ sig) := by
  simp only [after_cons, after_nil]
  rfl

end Cert.TTN.KHost

end
-- ==== Proof.KHostChain.lean ====
/-
  The 31 gates composed: the state after each gate as a term of the parameter vector alone, and the fact that the
  host operations, run stretch after stretch from any buffer contents, leave exactly these terms in the gates'
  result buffers while the parameter vector stays as it was.
-/
import proofs.«130987_j14276471292017_1_alg».proof.Proof.KHostG1
import proofs.«130987_j14276471292017_1_alg».proof.Proof.KHostG2
import proofs.«130987_j14276471292017_1_alg».proof.Proof.KHostG3
import proofs.«130987_j14276471292017_1_alg».proof.Proof.KHostG4
import proofs.«130987_j14276471292017_1_alg».proof.Proof.KHostEnds

set_option maxRecDepth 16384

noncomputable section

namespace Cert.TTN.KHost

open Idealize.ShloMosaic Idealize.ShloMosaic.TcCoe Idealize.SL.Sem Idealize.ShloMosaic.StableHlo
open Cert.KernelIdeal Cert.KernelIdeal.Gen

/-- The state before the first gate. -/
def st0 : FVec Ideal S256x2x2x2x2x2x2x2x2 .f32 := shapeCast S256x2x2x2x2x2x2x2x2 eyeTerm shapeCasts_S256x256_S256x2x2x2x2x2x2x2x2

/-- The state after gate 1. -/
def st1 (th : FVec Ideal S21 .f32) : FVec Ideal S256x2x2x2x2x2x2x2x2 .f32 :=
  Cert.TTN.Gates.ryTerm (s := S256x2x2x2x2x2x2x2x2) (t := S256x2x2x2x2x2x2x2) (u := S256x2x1x2x2x2x2x2x2) 2 ![0, 1, 3, 4, 5, 6, 7, 8] gather_S256x2x2x2x2x2x2x2x2_S1_S256x2x2x2x2x2x2x2_01234567_2_n_n_2_0_25621222222 bcast_S_S1 bcast_S_S256x2x2x2x2x2x2x2 reducesTo_S1_S_d0 h_S_ bcast_S256x2x2x2x2x2x2x2_S256x2x1x2x2x2x2x2x2_0_1_3_4_5_6_7_8 concatenates_S256x2x1x2x2x2x2x2x2_S256x2x1x2x2x2x2x2x2_S256x2x2x2x2x2x2x2x2_d2
    (st0) (shapeCast S_ (extractStridedSlice S1 ![0] th slices_S21_S1_0) shapeCasts_S1_S_)

/-- The state after gate 2. -/
def st2 (th : FVec Ideal S21 .f32) : FVec Ideal S256x2x2x2x2x2x2x2x2 .f32 :=
  Cert.TTN.Gates.ryTerm (s := S256x2x2x2x2x2x2x2x2) (t := S256x2x2x2x2x2x2x2) (u := S256x2x2x1x2x2x2x2x2) 3 ![0, 1, 2, 4, 5, 6, 7, 8] gather_S256x2x2x2x2x2x2x2x2_S1_S256x2x2x2x2x2x2x2_01234567_3_n_n_3_0_25622122222 bcast_S_S1 bcast_S_S256x2x2x2x2x2x2x2 reducesTo_S1_S_d0 h_S_ bcast_S256x2x2x2x2x2x2x2_S256x2x2x1x2x2x2x2x2_0_1_2_4_5_6_7_8 concatenates_S256x2x2x1x2x2x2x2x2_S256x2x2x1x2x2x2x2x2_S256x2x2x2x2x2x2x2x2_d3
    (st1 th) (shapeCast S_ (extractStridedSlice S1 ![1] th slices_S21_S1_1) shapeCasts_S1_S_)

/-- The state after gate 3. -/
def st3 (th : FVec Ideal S21 .f32) : FVec Ideal S256x2x2x2x2x2x2x2x2 .f32 :=
  Cert.TTN.Gates.cxTerm (s := S256x2x2x2x2x2x2x2x2) (t := S256x2x2x2x2x2x2x2) (u := S256x2x1x2x2x2x2x2x2) 2 2 ![0, 1, 3, 4, 5, 6, 7, 8] gather_S256x2x2x2x2x2x2x2x2_S1_S256x2x2x2x2x2x2x2_01234567_2_n_n_2_0_25621222222 bcast_S_S1 bcast_S_S256x2x2x2x2x2x2x2 reducesTo_S1_S_d0 h_S_ bcast_S256x2x2x2x2x2x2x2_S256x2x1x2x2x2x2x2x2_0_1_3_4_5_6_7_8 concatenates_S256x2x1x2x2x2x2x2x2_S256x2x1x2x2x2x2x2x2_S256x2x2x2x2x2x2x2x2_d2
    (st2 th)

/-- The state after gate 4. -/
def st4 (th : FVec Ideal S21 .f32) : FVec Ideal S256x2x2x2x2x2x2x2x2 .f32 :=
  Cert.TTN.Gates.ryTerm (s := S256x2x2x2x2x2x2x2x2) (t := S256x2x2x2x2x2x2x2) (u := S256x2x2x2x2x2x1x2x2) 6 ![0, 1, 2, 3, 4, 5, 7, 8] gather_S256x2x2x2x2x2x2x2x2_S1_S256x2x2x2x2x2x2x2_01234567_6_n_n_6_0_25622222122 bcast_S_S1 bcast_S_S256x2x2x2x2x2x2x2 reducesTo_S1_S_d0 h_S_ bcast_S256x2x2x2x2x2x2x2_S256x2x2x2x2x2x1x2x2_0_1_2_3_4_5_7_8 concatenates_S256x2x2x2x2x2x1x2x2_S256x2x2x2x2x2x1x2x2_S256x2x2x2x2x2x2x2x2_d6
    (st3 th) (shapeCast S_ (extractStridedSlice S1 ![2] th slices_S21_S1_2) shapeCasts_S1_S_)

/-- The state after gate 5. -/
def st5 (th : FVec Ideal S21 .f32) : FVec Ideal S256x2x2x2x2x2x2x2x2 .f32 :=
  Cert.TTN.Gates.ryTerm (s := S256x2x2x2x2x2x2x2x2) (t := S256x2x2x2x2x2x2x2) (u := S256x2x2x2x2x2x2x1x2) 7 ![0, 1, 2, 3, 4, 5, 6, 8] gather_S256x2x2x2x2x2x2x2x2_S1_S256x2x2x2x2x2x2x2_01234567_7_n_n_7_0_25622222212 bcast_S_S1 bcast_S_S256x2x2x2x2x2x2x2 reducesTo_S1_S_d0 h_S_ bcast_S256x2x2x2x2x2x2x2_S256x2x2x2x2x2x2x1x2_0_1_2_3_4_5_6_8 concatenates_S256x2x2x2x2x2x2x1x2_S256x2x2x2x2x2x2x1x2_S256x2x2x2x2x2x2x2x2_d7
    (st4 th) (shapeCast S_ (extractStridedSlice S1 ![3] th slices_S21_S1_3) shapeCasts_S1_S_)

/-- The state after gate 6. -/
def st6 (th : FVec Ideal S21 .f32) : FVec Ideal S256x2x2x2x2x2x2x2x2 .f32 :=
  Cert.TTN.Gates.cxTerm (s := S256x2x2x2x2x2x2x2x2) (t := S256x2x2x2x2x2x2x2) (u := S256x2x2x2x2x2x2x1x2) 7 6 ![0, 1, 2, 3, 4, 5, 6, 8] gather_S256x2x2x2x2x2x2x2x2_S1_S256x2x2x2x2x2x2x2_01234567_7_n_n_7_0_25622222212 bcast_S_S1 bcast_S_S256x2x2x2x2x2x2x2 reducesTo_S1_S_d0 h_S_ bcast_S256x2x2x2x2x2x2x2_S256x2x2x2x2x2x2x1x2_0_1_2_3_4_5_6_8 concatenates_S256x2x2x2x2x2x2x1x2_S256x2x2x2x2x2x2x1x2_S256x2x2x2x2x2x2x2x2_d7
    (st5 th)

/-- The state after gate 7. -/
def st7 (th : FVec Ideal S21 .f32) : FVec Ideal S256x2x2x2x2x2x2x2x2 .f32 :=
  Cert.TTN.Gates.ryTerm (s := S256x2x2x2x2x2x2x2x2) (t := S256x2x2x2x2x2x2x2) (u := S256x1x2x2x2x2x2x2x2) 1 ![0, 2, 3, 4, 5, 6, 7, 8] gather_S256x2x2x2x2x2x2x2x2_S1_S256x2x2x2x2x2x2x2_01234567_1_n_n_1_0_25612222222 bcast_S_S1 bcast_S_S256x2x2x2x2x2x2x2 reducesTo_S1_S_d0 h_S_ bcast_S256x2x2x2x2x2x2x2_S256x1x2x2x2x2x2x2x2_0_2_3_4_5_6_7_8 concatenates_S256x1x2x2x2x2x2x2x2_S256x1x2x2x2x2x2x2x2_S256x2x2x2x2x2x2x2x2_d1
    (st6 th) (shapeCast S_ (extractStridedSlice S1 ![4] th slices_S21_S1_4) shapeCasts_S1_S_)

/-- The state after gate 8. -/
def st8 (th : FVec Ideal S21 .f32) : FVec Ideal S256x2x2x2x2x2x2x2x2 .f32 :=
  Cert.TTN.Gates.ryTerm (s := S256x2x2x2x2x2x2x2x2) (t := S256x2x2x2x2x2x2x2) (u := S256x2x1x2x2x2x2x2x2) 2 ![0, 1, 3, 4, 5, 6, 7, 8] gather_S256x2x2x2x2x2x2x2x2_S1_S256x2x2x2x2x2x2x2_01234567_2_n_n_2_0_25621222222 bcast_S_S1 bcast_S_S256x2x2x2x2x2x2x2 reducesTo_S1_S_d0 h_S_ bcast_S256x2x2x2x2x2x2x2_S256x2x1x2x2x2x2x2x2_0_1_3_4_5_6_7_8 concatenates_S256x2x1x2x2x2x2x2x2_S256x2x1x2x2x2x2x2x2_S256x2x2x2x2x2x2x2x2_d2
    (st7 th) (shapeCast S_ (extractStridedSlice S1 ![5] th slices_S21_S1_5) shapeCasts_S1_S_)

/-- The state after gate 9. -/
def st9 (th : FVec Ideal S21 .f32) : FVec Ideal S256x2x2x2x2x2x2x2x2 .f32 :=
  Cert.TTN.Gates.cxTerm (s := S256x2x2x2x2x2x2x2x2) (t := S256x2x2x2x2x2x2x2) (u := S256x1x2x2x2x2x2x2x2) 1 1 ![0, 2, 3, 4, 5, 6, 7, 8] gather_S256x2x2x2x2x2x2x2x2_S1_S256x2x2x2x2x2x2x2_01234567_1_n_n_1_0_25612222222 bcast_S_S1 bcast_S_S256x2x2x2x2x2x2x2 reducesTo_S1_S_d0 h_S_ bcast_S256x2x2x2x2x2x2x2_S256x1x2x2x2x2x2x2x2_0_2_3_4_5_6_7_8 concatenates_S256x1x2x2x2x2x2x2x2_S256x1x2x2x2x2x2x2x2_S256x2x2x2x2x2x2x2x2_d1
    (st8 th)

/-- The state after gate 10. -/
def st10 (th : FVec Ideal S21 .f32) : FVec Ideal S256x2x2x2x2x2x2x2x2 .f32 :=
  Cert.TTN.Gates.ryTerm (s := S256x2x2x2x2x2x2x2x2) (t := S256x2x2x2x2x2x2x2) (u := S256x2x2x1x2x2x2x2x2) 3 ![0, 1, 2, 4, 5, 6, 7, 8] gather_S256x2x2x2x2x2x2x2x2_S1_S256x2x2x2x2x2x2x2_01234567_3_n_n_3_0_25622122222 bcast_S_S1 bcast_S_S256x2x2x2x2x2x2x2 reducesTo_S1_S_d0 h_S_ bcast_S256x2x2x2x2x2x2x2_S256x2x2x1x2x2x2x2x2_0_1_2_4_5_6_7_8 concatenates_S256x2x2x1x2x2x2x2x2_S256x2x2x1x2x2x2x2x2_S256x2x2x2x2x2x2x2x2_d3
    (st9 th) (shapeCast S_ (extractStridedSlice S1 ![6] th slices_S21_S1_6) shapeCasts_S1_S_)

/-- The state after gate 11. -/
def st11 (th : FVec Ideal S21 .f32) : FVec Ideal S256x2x2x2x2x2x2x2x2 .f32 :=
  Cert.TTN.Gates.ryTerm (s := S256x2x2x2x2x2x2x2x2) (t := S256x2x2x2x2x2x2x2) (u := S256x2x2x2x1x2x2x2x2) 4 ![0, 1, 2, 3, 5, 6, 7, 8] gather_S256x2x2x2x2x2x2x2x2_S1_S256x2x2x2x2x2x2x2_01234567_4_n_n_4_0_25622212222 bcast_S_S1 bcast_S_S256x2x2x2x2x2x2x2 reducesTo_S1_S_d0 h_S_ bcast_S256x2x2x2x2x2x2x2_S256x2x2x2x1x2x2x2x2_0_1_2_3_5_6_7_8 concatenates_S256x2x2x2x1x2x2x2x2_S256x2x2x2x1x2x2x2x2_S256x2x2x2x2x2x2x2x2_d4
    (st10 th) (shapeCast S_ (extractStridedSlice S1 ![7] th slices_S21_S1_7) shapeCasts_S1_S_)

/-- The state after gate 12. -/
def st12 (th : FVec Ideal S21 .f32) : FVec Ideal S256x2x2x2x2x2x2x2x2 .f32 :=
  Cert.TTN.Gates.cxTerm (s := S256x2x2x2x2x2x2x2x2) (t := S256x2x2x2x2x2x2x2) (u := S256x2x2x2x1x2x2x2x2) 4 3 ![0, 1, 2, 3, 5, 6, 7, 8] gather_S256x2x2x2x2x2x2x2x2_S1_S256x2x2x2x2x2x2x2_01234567_4_n_n_4_0_25622212222 bcast_S_S1 bcast_S_S256x2x2x2x2x2x2x2 reducesTo_S1_S_d0 h_S_ bcast_S256x2x2x2x2x2x2x2_S256x2x2x2x1x2x2x2x2_0_1_2_3_5_6_7_8 concatenates_S256x2x2x2x1x2x2x2x2_S256x2x2x2x1x2x2x2x2_S256x2x2x2x2x2x2x2x2_d4
    (st11 th)

/-- The state after gate 13. -/
def st13 (th : FVec Ideal S21 .f32) : FVec Ideal S256x2x2x2x2x2x2x2x2 .f32 :=
  Cert.TTN.Gates.ryTerm (s := S256x2x2x2x2x2x2x2x2) (t := S256x2x2x2x2x2x2x2) (u := S256x2x2x2x2x1x2x2x2) 5 ![0, 1, 2, 3, 4, 6, 7, 8] gather_S256x2x2x2x2x2x2x2x2_S1_S256x2x2x2x2x2x2x2_01234567_5_n_n_5_0_25622221222 bcast_S_S1 bcast_S_S256x2x2x2x2x2x2x2 reducesTo_S1_S_d0 h_S_ bcast_S256x2x2x2x2x2x2x2_S256x2x2x2x2x1x2x2x2_0_1_2_3_4_6_7_8 concatenates_S256x2x2x2x2x1x2x2x2_S256x2x2x2x2x1x2x2x2_S256x2x2x2x2x2x2x2x2_d5
    (st12 th) (shapeCast S_ (extractStridedSlice S1 ![8] th slices_S21_S1_8) shapeCasts_S1_S_)

/-- The state after gate 14. -/
def st14 (th : FVec Ideal S21 .f32) : FVec Ideal S256x2x2x2x2x2x2x2x2 .f32 :=
  Cert.TTN.Gates.ryTerm (s := S256x2x2x2x2x2x2x2x2) (t := S256x2x2x2x2x2x2x2) (u := S256x2x2x2x2x2x1x2x2) 6 ![0, 1, 2, 3, 4, 5, 7, 8] gather_S256x2x2x2x2x2x2x2x2_S1_S256x2x2x2x2x2x2x2_01234567_6_n_n_6_0_25622222122 bcast_S_S1 bcast_S_S256x2x2x2x2x2x2x2 reducesTo_S1_S_d0 h_S_ bcast_S256x2x2x2x2x2x2x2_S256x2x2x2x2x2x1x2x2_0_1_2_3_4_5_7_8 concatenates_S256x2x2x2x2x2x1x2x2_S256x2x2x2x2x2x1x2x2_S256x2x2x2x2x2x2x2x2_d6
    (st13 th) (shapeCast S_ (extractStridedSlice S1 ![9] th slices_S21_S1_9) shapeCasts_S1_S_)

/-- The state after gate 15. -/
def st15 (th : FVec Ideal S21 .f32) : FVec Ideal S256x2x2x2x2x2x2x2x2 .f32 :=
  Cert.TTN.Gates.cxTerm (s := S256x2x2x2x2x2x2x2x2) (t := S256x2x2x2x2x2x2x2) (u := S256x2x2x2x2x1x2x2x2) 5 5 ![0, 1, 2, 3, 4, 6, 7, 8] gather_S256x2x2x2x2x2x2x2x2_S1_S256x2x2x2x2x2x2x2_01234567_5_n_n_5_0_25622221222 bcast_S_S1 bcast_S_S256x2x2x2x2x2x2x2 reducesTo_S1_S_d0 h_S_ bcast_S256x2x2x2x2x2x2x2_S256x2x2x2x2x1x2x2x2_0_1_2_3_4_6_7_8 concatenates_S256x2x2x2x2x1x2x2x2_S256x2x2x2x2x1x2x2x2_S256x2x2x2x2x2x2x2x2_d5
    (st14 th)

/-- The state after gate 16. -/
def st16 (th : FVec Ideal S21 .f32) : FVec Ideal S256x2x2x2x2x2x2x2x2 .f32 :=
  Cert.TTN.Gates.ryTerm (s := S256x2x2x2x2x2x2x2x2) (t := S256x2x2x2x2x2x2x2) (u := S256x2x2x2x2x2x2x1x2) 7 ![0, 1, 2, 3, 4, 5, 6, 8] gather_S256x2x2x2x2x2x2x2x2_S1_S256x2x2x2x2x2x2x2_01234567_7_n_n_7_0_25622222212 bcast_S_S1 bcast_S_S256x2x2x2x2x2x2x2 reducesTo_S1_S_d0 h_S_ bcast_S256x2x2x2x2x2x2x2_S256x2x2x2x2x2x2x1x2_0_1_2_3_4_5_6_8 concatenates_S256x2x2x2x2x2x2x1x2_S256x2x2x2x2x2x2x1x2_S256x2x2x2x2x2x2x2x2_d7
    (st15 th) (shapeCast S_ (extractStridedSlice S1 ![10] th slices_S21_S1_10) shapeCasts_S1_S_)

/-- The state after gate 17. -/
def st17 (th : FVec Ideal S21 .f32) : FVec Ideal S256x2x2x2x2x2x2x2x2 .f32 :=
  Cert.TTN.Gates.ryTerm (s := S256x2x2x2x2x2x2x2x2) (t := S256x2x2x2x2x2x2x2) (u := S256x2x2x2x2x2x2x2x1) 8 ![0, 1, 2, 3, 4, 5, 6, 7] gather_S256x2x2x2x2x2x2x2x2_S1_S256x2x2x2x2x2x2x2_01234567_8_n_n_8_0_25622222221 bcast_S_S1 bcast_S_S256x2x2x2x2x2x2x2 reducesTo_S1_S_d0 h_S_ bcast_S256x2x2x2x2x2x2x2_S256x2x2x2x2x2x2x2x1_0_1_2_3_4_5_6_7 concatenates_S256x2x2x2x2x2x2x2x1_S256x2x2x2x2x2x2x2x1_S256x2x2x2x2x2x2x2x2_d8
    (st16 th) (shapeCast S_ (extractStridedSlice S1 ![11] th slices_S21_S1_11) shapeCasts_S1_S_)

/-- The state after gate 18. -/
def st18 (th : FVec Ideal S21 .f32) : FVec Ideal S256x2x2x2x2x2x2x2x2 .f32 :=
  Cert.TTN.Gates.cxTerm (s := S256x2x2x2x2x2x2x2x2) (t := S256x2x2x2x2x2x2x2) (u := S256x2x2x2x2x2x2x2x1) 8 7 ![0, 1, 2, 3, 4, 5, 6, 7] gather_S256x2x2x2x2x2x2x2x2_S1_S256x2x2x2x2x2x2x2_01234567_8_n_n_8_0_25622222221 bcast_S_S1 bcast_S_S256x2x2x2x2x2x2x2 reducesTo_S1_S_d0 h_S_ bcast_S256x2x2x2x2x2x2x2_S256x2x2x2x2x2x2x2x1_0_1_2_3_4_5_6_7 concatenates_S256x2x2x2x2x2x2x2x1_S256x2x2x2x2x2x2x2x1_S256x2x2x2x2x2x2x2x2_d8
    (st17 th)

/-- The state after gate 19. -/
def st19 (th : FVec Ideal S21 .f32) : FVec Ideal S256x2x2x2x2x2x2x2x2 .f32 :=
  Cert.TTN.Gates.ryTerm (s := S256x2x2x2x2x2x2x2x2) (t := S256x2x2x2x2x2x2x2) (u := S256x2x2x1x2x2x2x2x2) 3 ![0, 1, 2, 4, 5, 6, 7, 8] gather_S256x2x2x2x2x2x2x2x2_S1_S256x2x2x2x2x2x2x2_01234567_3_n_n_3_0_25622122222 bcast_S_S1 bcast_S_S256x2x2x2x2x2x2x2 reducesTo_S1_S_d0 h_S_ bcast_S256x2x2x2x2x2x2x2_S256x2x2x1x2x2x2x2x2_0_1_2_4_5_6_7_8 concatenates_S256x2x2x1x2x2x2x2x2_S256x2x2x1x2x2x2x2x2_S256x2x2x2x2x2x2x2x2_d3
    (st18 th) (shapeCast S_ (extractStridedSlice S1 ![12] th slices_S21_S1_12) shapeCasts_S1_S_)

/-- The state after gate 20. -/
def st20 (th : FVec Ideal S21 .f32) : FVec Ideal S256x2x2x2x2x2x2x2x2 .f32 :=
  Cert.TTN.Gates.ryTerm (s := S256x2x2x2x2x2x2x2x2) (t := S256x2x2x2x2x2x2x2) (u := S256x2x2x2x2x2x1x2x2) 6 ![0, 1, 2, 3, 4, 5, 7, 8] gather_S256x2x2x2x2x2x2x2x2_S1_S256x2x2x2x2x2x2x2_01234567_6_n_n_6_0_25622222122 bcast_S_S1 bcast_S_S256x2x2x2x2x2x2x2 reducesTo_S1_S_d0 h_S_ bcast_S256x2x2x2x2x2x2x2_S256x2x2x2x2x2x1x2x2_0_1_2_3_4_5_7_8 concatenates_S256x2x2x2x2x2x1x2x2_S256x2x2x2x2x2x1x2x2_S256x2x2x2x2x2x2x2x2_d6
    (st19 th) (shapeCast S_ (extractStridedSlice S1 ![13] th slices_S21_S1_13) shapeCasts_S1_S_)

/-- The state after gate 21. -/
def st21 (th : FVec Ideal S21 .f32) : FVec Ideal S256x2x2x2x2x2x2x2x2 .f32 :=
  Cert.TTN.Gates.cxTerm (s := S256x2x2x2x2x2x2x2x2) (t := S256x2x2x2x2x2x2x2) (u := S256x2x2x1x2x2x2x2x2) 3 5 ![0, 1, 2, 4, 5, 6, 7, 8] gather_S256x2x2x2x2x2x2x2x2_S1_S256x2x2x2x2x2x2x2_01234567_3_n_n_3_0_25622122222 bcast_S_S1 bcast_S_S256x2x2x2x2x2x2x2 reducesTo_S1_S_d0 h_S_ bcast_S256x2x2x2x2x2x2x2_S256x2x2x1x2x2x2x2x2_0_1_2_4_5_6_7_8 concatenates_S256x2x2x1x2x2x2x2x2_S256x2x2x1x2x2x2x2x2_S256x2x2x2x2x2x2x2x2_d3
    (st20 th)

/-- The state after gate 22. -/
def st22 (th : FVec Ideal S21 .f32) : FVec Ideal S256x2x2x2x2x2x2x2x2 .f32 :=
  Cert.TTN.Gates.ryTerm (s := S256x2x2x2x2x2x2x2x2) (t := S256x2x2x2x2x2x2x2) (u := S256x2x1x2x2x2x2x2x2) 2 ![0, 1, 3, 4, 5, 6, 7, 8] gather_S256x2x2x2x2x2x2x2x2_S1_S256x2x2x2x2x2x2x2_01234567_2_n_n_2_0_25621222222 bcast_S_S1 bcast_S_S256x2x2x2x2x2x2x2 reducesTo_S1_S_d0 h_S_ bcast_S256x2x2x2x2x2x2x2_S256x2x1x2x2x2x2x2x2_0_1_3_4_5_6_7_8 concatenates_S256x2x1x2x2x2x2x2x2_S256x2x1x2x2x2x2x2x2_S256x2x2x2x2x2x2x2x2_d2
    (st21 th) (shapeCast S_ (extractStridedSlice S1 ![14] th slices_S21_S1_14) shapeCasts_S1_S_)

/-- The state after gate 23. -/
def st23 (th : FVec Ideal S21 .f32) : FVec Ideal S256x2x2x2x2x2x2x2x2 .f32 :=
  Cert.TTN.Gates.ryTerm (s := S256x2x2x2x2x2x2x2x2) (t := S256x2x2x2x2x2x2x2) (u := S256x2x2x1x2x2x2x2x2) 3 ![0, 1, 2, 4, 5, 6, 7, 8] gather_S256x2x2x2x2x2x2x2x2_S1_S256x2x2x2x2x2x2x2_01234567_3_n_n_3_0_25622122222 bcast_S_S1 bcast_S_S256x2x2x2x2x2x2x2 reducesTo_S1_S_d0 h_S_ bcast_S256x2x2x2x2x2x2x2_S256x2x2x1x2x2x2x2x2_0_1_2_4_5_6_7_8 concatenates_S256x2x2x1x2x2x2x2x2_S256x2x2x1x2x2x2x2x2_S256x2x2x2x2x2x2x2x2_d3
    (st22 th) (shapeCast S_ (extractStridedSlice S1 ![15] th slices_S21_S1_15) shapeCasts_S1_S_)

/-- The state after gate 24. -/
def st24 (th : FVec Ideal S21 .f32) : FVec Ideal S256x2x2x2x2x2x2x2x2 .f32 :=
  Cert.TTN.Gates.cxTerm (s := S256x2x2x2x2x2x2x2x2) (t := S256x2x2x2x2x2x2x2) (u := S256x2x1x2x2x2x2x2x2) 2 2 ![0, 1, 3, 4, 5, 6, 7, 8] gather_S256x2x2x2x2x2x2x2x2_S1_S256x2x2x2x2x2x2x2_01234567_2_n_n_2_0_25621222222 bcast_S_S1 bcast_S_S256x2x2x2x2x2x2x2 reducesTo_S1_S_d0 h_S_ bcast_S256x2x2x2x2x2x2x2_S256x2x1x2x2x2x2x2x2_0_1_3_4_5_6_7_8 concatenates_S256x2x1x2x2x2x2x2x2_S256x2x1x2x2x2x2x2x2_S256x2x2x2x2x2x2x2x2_d2
    (st23 th)

/-- The state after gate 25. -/
def st25 (th : FVec Ideal S21 .f32) : FVec Ideal S256x2x2x2x2x2x2x2x2 .f32 :=
  Cert.TTN.Gates.ryTerm (s := S256x2x2x2x2x2x2x2x2) (t := S256x2x2x2x2x2x2x2) (u := S256x2x2x2x2x2x1x2x2) 6 ![0, 1, 2, 3, 4, 5, 7, 8] gather_S256x2x2x2x2x2x2x2x2_S1_S256x2x2x2x2x2x2x2_01234567_6_n_n_6_0_25622222122 bcast_S_S1 bcast_S_S256x2x2x2x2x2x2x2 reducesTo_S1_S_d0 h_S_ bcast_S256x2x2x2x2x2x2x2_S256x2x2x2x2x2x1x2x2_0_1_2_3_4_5_7_8 concatenates_S256x2x2x2x2x2x1x2x2_S256x2x2x2x2x2x1x2x2_S256x2x2x2x2x2x2x2x2_d6
    (st24 th) (shapeCast S_ (extractStridedSlice S1 ![16] th slices_S21_S1_16) shapeCasts_S1_S_)

/-- The state after gate 26. -/
def st26 (th : FVec Ideal S21 .f32) : FVec Ideal S256x2x2x2x2x2x2x2x2 .f32 :=
  Cert.TTN.Gates.ryTerm (s := S256x2x2x2x2x2x2x2x2) (t := S256x2x2x2x2x2x2x2) (u := S256x2x2x2x2x2x2x1x2) 7 ![0, 1, 2, 3, 4, 5, 6, 8] gather_S256x2x2x2x2x2x2x2x2_S1_S256x2x2x2x2x2x2x2_01234567_7_n_n_7_0_25622222212 bcast_S_S1 bcast_S_S256x2x2x2x2x2x2x2 reducesTo_S1_S_d0 h_S_ bcast_S256x2x2x2x2x2x2x2_S256x2x2x2x2x2x2x1x2_0_1_2_3_4_5_6_8 concatenates_S256x2x2x2x2x2x2x1x2_S256x2x2x2x2x2x2x1x2_S256x2x2x2x2x2x2x2x2_d7
    (st25 th) (shapeCast S_ (extractStridedSlice S1 ![17] th slices_S21_S1_17) shapeCasts_S1_S_)

/-- The state after gate 27. -/
def st27 (th : FVec Ideal S21 .f32) : FVec Ideal S256x2x2x2x2x2x2x2x2 .f32 :=
  Cert.TTN.Gates.cxTerm (s := S256x2x2x2x2x2x2x2x2) (t := S256x2x2x2x2x2x2x2) (u := S256x2x2x2x2x2x2x1x2) 7 6 ![0, 1, 2, 3, 4, 5, 6, 8] gather_S256x2x2x2x2x2x2x2x2_S1_S256x2x2x2x2x2x2x2_01234567_7_n_n_7_0_25622222212 bcast_S_S1 bcast_S_S256x2x2x2x2x2x2x2 reducesTo_S1_S_d0 h_S_ bcast_S256x2x2x2x2x2x2x2_S256x2x2x2x2x2x2x1x2_0_1_2_3_4_5_6_8 concatenates_S256x2x2x2x2x2x2x1x2_S256x2x2x2x2x2x2x1x2_S256x2x2x2x2x2x2x2x2_d7
    (st26 th)

/-- The state after gate 28. -/
def st28 (th : FVec Ideal S21 .f32) : FVec Ideal S256x2x2x2x2x2x2x2x2 .f32 :=
  Cert.TTN.Gates.ryTerm (s := S256x2x2x2x2x2x2x2x2) (t := S256x2x2x2x2x2x2x2) (u := S256x2x2x1x2x2x2x2x2) 3 ![0, 1, 2, 4, 5, 6, 7, 8] gather_S256x2x2x2x2x2x2x2x2_S1_S256x2x2x2x2x2x2x2_01234567_3_n_n_3_0_25622122222 bcast_S_S1 bcast_S_S256x2x2x2x2x2x2x2 reducesTo_S1_S_d0 h_S_ bcast_S256x2x2x2x2x2x2x2_S256x2x2x1x2x2x2x2x2_0_1_2_4_5_6_7_8 concatenates_S256x2x2x1x2x2x2x2x2_S256x2x2x1x2x2x2x2x2_S256x2x2x2x2x2x2x2x2_d3
    (st27 th) (shapeCast S_ (extractStridedSlice S1 ![18] th slices_S21_S1_18) shapeCasts_S1_S_)

/-- The state after gate 29. -/
def st29 (th : FVec Ideal S21 .f32) : FVec Ideal S256x2x2x2x2x2x2x2x2 .f32 :=
  Cert.TTN.Gates.ryTerm (s := S256x2x2x2x2x2x2x2x2) (t := S256x2x2x2x2x2x2x2) (u := S256x2x2x2x2x2x1x2x2) 6 ![0, 1, 2, 3, 4, 5, 7, 8] gather_S256x2x2x2x2x2x2x2x2_S1_S256x2x2x2x2x2x2x2_01234567_6_n_n_6_0_25622222122 bcast_S_S1 bcast_S_S256x2x2x2x2x2x2x2 reducesTo_S1_S_d0 h_S_ bcast_S256x2x2x2x2x2x2x2_S256x2x2x2x2x2x1x2x2_0_1_2_3_4_5_7_8 concatenates_S256x2x2x2x2x2x1x2x2_S256x2x2x2x2x2x1x2x2_S256x2x2x2x2x2x2x2x2_d6
    (st28 th) (shapeCast S_ (extractStridedSlice S1 ![19] th slices_S21_S1_19) shapeCasts_S1_S_)

/-- The state after gate 30. -/
def st30 (th : FVec Ideal S21 .f32) : FVec Ideal S256x2x2x2x2x2x2x2x2 .f32 :=
  Cert.TTN.Gates.cxTerm (s := S256x2x2x2x2x2x2x2x2) (t := S256x2x2x2x2x2x2x2) (u := S256x2x2x1x2x2x2x2x2) 3 5 ![0, 1, 2, 4, 5, 6, 7, 8] gather_S256x2x2x2x2x2x2x2x2_S1_S256x2x2x2x2x2x2x2_01234567_3_n_n_3_0_25622122222 bcast_S_S1 bcast_S_S256x2x2x2x2x2x2x2 reducesTo_S1_S_d0 h_S_ bcast_S256x2x2x2x2x2x2x2_S256x2x2x1x2x2x2x2x2_0_1_2_4_5_6_7_8 concatenates_S256x2x2x1x2x2x2x2x2_S256x2x2x1x2x2x2x2x2_S256x2x2x2x2x2x2x2x2_d3
    (st29 th)

/-- The state after gate 31. -/
def st31 (th : FVec Ideal S21 .f32) : FVec Ideal S256x2x2x2x2x2x2x2x2 .f32 :=
  Cert.TTN.Gates.ryTerm (s := S256x2x2x2x2x2x2x2x2) (t := S256x2x2x2x2x2x2x2) (u := S256x2x2x2x2x2x1x2x2) 6 ![0, 1, 2, 3, 4, 5, 7, 8] gather_S256x2x2x2x2x2x2x2x2_S1_S256x2x2x2x2x2x2x2_01234567_6_n_n_6_0_25622222122 bcast_S_S1 bcast_S_S256x2x2x2x2x2x2x2 reducesTo_S1_S_d0 h_S_ bcast_S256x2x2x2x2x2x2x2_S256x2x2x2x2x2x1x2x2_0_1_2_3_4_5_7_8 concatenates_S256x2x2x2x2x2x1x2x2_S256x2x2x2x2x2x1x2x2_S256x2x2x2x2x2x2x2x2_d6
    (st30 th) (shapeCast S_ (extractStridedSlice S1 ![20] th slices_S21_S1_20) shapeCasts_S1_S_)

/-- The buffer contents after the stretch before the gates, from contents `W0`. -/
def Wk0 (W0 : Valuation τ sig (Elt Ideal)) : Valuation τ sig (Elt Ideal) := after (P0 (F := Ideal)) W0

theorem state0 (W0 : Valuation τ sig (Elt Ideal)) : Wk0 W0 (main_v6 : DevRef τ sig) = st0 := by
  unfold Wk0 st0; exact pre_state W0

theorem theta0 (W0 : Valuation τ sig (Elt Ideal)) : Wk0 W0 (main_arg3 : DevRef τ sig) = W0 (main_arg3 : DevRef τ sig) := by
  unfold Wk0; exact pre_arg3 W0

/-- The buffer contents after gate 1. -/
def Wk1 (W0 : Valuation τ sig (Elt Ideal)) : Valuation τ sig (Elt Ideal) := after (G1 (F := Ideal)) (Wk0 W0)

theorem state1 (W0 : Valuation τ sig (Elt Ideal)) :
    Wk1 W0 (main_v27 : DevRef τ sig) = st1 (W0 (main_arg3 : DevRef τ sig)) := by
  unfold Wk1 st1; rw [gate1, state0, theta0]

theorem theta1 (W0 : Valuation τ sig (Elt Ideal)) : Wk1 W0 (main_arg3 : DevRef τ sig) = W0 (main_arg3 : DevRef τ sig) := by
  unfold Wk1; rw [gate1_arg3, theta0]

/-- The buffer contents after gate 2. -/
def Wk2 (W0 : Valuation τ sig (Elt Ideal)) : Valuation τ sig (Elt Ideal) := after (G2 (F := Ideal)) (Wk1 W0)

theorem state2 (W0 : Valuation τ sig (Elt Ideal)) :
    Wk2 W0 (main_v48 : DevRef τ sig) = st2 (W0 (main_arg3 : DevRef τ sig)) := by
  unfold Wk2 st2; rw [gate2, state1, theta1]

theorem theta2 (W0 : Valuation τ sig (Elt Ideal)) : Wk2 W0 (main_arg3 : DevRef τ sig) = W0 (main_arg3 : DevRef τ sig) := by
  unfold Wk2; rw [gate2_arg3, theta1]

/-- The buffer contents after gate 3. -/
def Wk3 (W0 : Valuation τ sig (Elt Ideal)) : Valuation τ sig (Elt Ideal) := after (G3 (F := Ideal)) (Wk2 W0)

theorem state3 (W0 : Valuation τ sig (Elt Ideal)) :
    Wk3 W0 (main_v54 : DevRef τ sig) = st3 (W0 (main_arg3 : DevRef τ sig)) := by
  unfold Wk3 st3; rw [gate3, state2]

theorem theta3 (W0 : Valuation τ sig (Elt Ideal)) : Wk3 W0 (main_arg3 : DevRef τ sig) = W0 (main_arg3 : DevRef τ sig) := by
  unfold Wk3; rw [gate3_arg3, theta2]

/-- The buffer contents after gate 4. -/
def Wk4 (W0 : Valuation τ sig (Elt Ideal)) : Valuation τ sig (Elt Ideal) := after (G4 (F := Ideal)) (Wk3 W0)

theorem state4 (W0 : Valuation τ sig (Elt Ideal)) :
    Wk4 W0 (main_v75 : DevRef τ sig) = st4 (W0 (main_arg3 : DevRef τ sig)) := by
  unfold Wk4 st4; rw [gate4, state3, theta3]

theorem theta4 (W0 : Valuation τ sig (Elt Ideal)) : Wk4 W0 (main_arg3 : DevRef τ sig) = W0 (main_arg3 : DevRef τ sig) := by
  unfold Wk4; rw [gate4_arg3, theta3]

/-- The buffer contents after gate 5. -/
def Wk5 (W0 : Valuation τ sig (Elt Ideal)) : Valuation τ sig (Elt Ideal) := after (G5 (F := Ideal)) (Wk4 W0)

theorem state5 (W0 : Valuation τ sig (Elt Ideal)) :
    Wk5 W0 (main_v96 : DevRef τ sig) = st5 (W0 (main_arg3 : DevRef τ sig)) := by
  unfold Wk5 st5; rw [gate5, state4, theta4]

theorem theta5 (W0 : Valuation τ sig (Elt Ideal)) : Wk5 W0 (main_arg3 : DevRef τ sig) = W0 (main_arg3 : DevRef τ sig) := by
  unfold Wk5; rw [gate5_arg3, theta4]

/-- The buffer contents after gate 6. -/
def Wk6 (W0 : Valuation τ sig (Elt Ideal)) : Valuation τ sig (Elt Ideal) := after (G6 (F := Ideal)) (Wk5 W0)

theorem state6 (W0 : Valuation τ sig (Elt Ideal)) :
    Wk6 W0 (main_v102 : DevRef τ sig) = st6 (W0 (main_arg3 : DevRef τ sig)) := by
  unfold Wk6 st6; rw [gate6, state5]

theorem theta6 (W0 : Valuation τ sig (Elt Ideal)) : Wk6 W0 (main_arg3 : DevRef τ sig) = W0 (main_arg3 : DevRef τ sig) := by
  unfold Wk6; rw [gate6_arg3, theta5]

/-- The buffer contents after gate 7. -/
def Wk7 (W0 : Valuation τ sig (Elt Ideal)) : Valuation τ sig (Elt Ideal) := after (G7 (F := Ideal)) (Wk6 W0)

theorem state7 (W0 : Valuation τ sig (Elt Ideal)) :
    Wk7 W0 (main_v123 : DevRef τ sig) = st7 (W0 (main_arg3 : DevRef τ sig)) := by
  unfold Wk7 st7; rw [gate7, state6, theta6]

theorem theta7 (W0 : Valuation τ sig (Elt Ideal)) : Wk7 W0 (main_arg3 : DevRef τ sig) = W0 (main_arg3 : DevRef τ sig) := by
  unfold Wk7; rw [gate7_arg3, theta6]

/-- The buffer contents after gate 8. -/
def Wk8 (W0 : Valuation τ sig (Elt Ideal)) : Valuation τ sig (Elt Ideal) := after (G8 (F := Ideal)) (Wk7 W0)

theorem state8 (W0 : Valuation τ sig (Elt Ideal)) :
    Wk8 W0 (main_v144 : DevRef τ sig) = st8 (W0 (main_arg3 : DevRef τ sig)) := by
  unfold Wk8 st8; rw [gate8, state7, theta7]

theorem theta8 (W0 : Valuation τ sig (Elt Ideal)) : Wk8 W0 (main_arg3 : DevRef τ sig) = W0 (main_arg3 : DevRef τ sig) := by
  unfold Wk8; rw [gate8_arg3, theta7]

/-- The buffer contents after gate 9. -/
def Wk9 (W0 : Valuation τ sig (Elt Ideal)) : Valuation τ sig (Elt Ideal) := after (G9 (F := Ideal)) (Wk8 W0)

theorem state9 (W0 : Valuation τ sig (Elt Ideal)) :
    Wk9 W0 (main_v150 : DevRef τ sig) = st9 (W0 (main_arg3 : DevRef τ sig)) := by
  unfold Wk9 st9; rw [gate9, state8]

theorem theta9 (W0 : Valuation τ sig (Elt Ideal)) : Wk9 W0 (main_arg3 : DevRef τ sig) = W0 (main_arg3 : DevRef τ sig) := by
  unfold Wk9; rw [gate9_arg3, theta8]

/-- The buffer contents after gate 10. -/
def Wk10 (W0 : Valuation τ sig (Elt Ideal)) : Valuation τ sig (Elt Ideal) := after (G10 (F := Ideal)) (Wk9 W0)

theorem state10 (W0 : Valuation τ sig (Elt Ideal)) :
    Wk10 W0 (main_v171 : DevRef τ sig) = st10 (W0 (main_arg3 : DevRef τ sig)) := by
  unfold Wk10 st10; rw [gate10, state9, theta9]

theorem theta10 (W0 : Valuation τ sig (Elt Ideal)) : Wk10 W0 (main_arg3 : DevRef τ sig) = W0 (main_arg3 : DevRef τ sig) := by
  unfold Wk10; rw [gate10_arg3, theta9]

/-- The buffer contents after gate 11. -/
def Wk11 (W0 : Valuation τ sig (Elt Ideal)) : Valuation τ sig (Elt Ideal) := after (G11 (F := Ideal)) (Wk10 W0)

theorem state11 (W0 : Valuation τ sig (Elt Ideal)) :
    Wk11 W0 (main_v192 : DevRef τ sig) = st11 (W0 (main_arg3 : DevRef τ sig)) := by
  unfold Wk11 st11; rw [gate11, state10, theta10]

theorem theta11 (W0 : Valuation τ sig (Elt Ideal)) : Wk11 W0 (main_arg3 : DevRef τ sig) = W0 (main_arg3 : DevRef τ sig) := by
  unfold Wk11; rw [gate11_arg3, theta10]

/-- The buffer contents after gate 12. -/
def Wk12 (W0 : Valuation τ sig (Elt Ideal)) : Valuation τ sig (Elt Ideal) := after (G12 (F := Ideal)) (Wk11 W0)

theorem state12 (W0 : Valuation τ sig (Elt Ideal)) :
    Wk12 W0 (main_v198 : DevRef τ sig) = st12 (W0 (main_arg3 : DevRef τ sig)) := by
  unfold Wk12 st12; rw [gate12, state11]

theorem theta12 (W0 : Valuation τ sig (Elt Ideal)) : Wk12 W0 (main_arg3 : DevRef τ sig) = W0 (main_arg3 : DevRef τ sig) := by
  unfold Wk12; rw [gate12_arg3, theta11]

/-- The buffer contents after gate 13. -/
def Wk13 (W0 : Valuation τ sig (Elt Ideal)) : Valuation τ sig (Elt Ideal) := after (G13 (F := Ideal)) (Wk12 W0)

theorem state13 (W0 : Valuation τ sig (Elt Ideal)) :
    Wk13 W0 (main_v219 : DevRef τ sig) = st13 (W0 (main_arg3 : DevRef τ sig)) := by
  unfold Wk13 st13; rw [gate13, state12, theta12]

theorem theta13 (W0 : Valuation τ sig (Elt Ideal)) : Wk13 W0 (main_arg3 : DevRef τ sig) = W0 (main_arg3 : DevRef τ sig) := by
  unfold Wk13; rw [gate13_arg3, theta12]

/-- The buffer contents after gate 14. -/
def Wk14 (W0 : Valuation τ sig (Elt Ideal)) : Valuation τ sig (Elt Ideal) := after (G14 (F := Ideal)) (Wk13 W0)

theorem state14 (W0 : Valuation τ sig (Elt Ideal)) :
    Wk14 W0 (main_v240 : DevRef τ sig) = st14 (W0 (main_arg3 : DevRef τ sig)) := by
  unfold Wk14 st14; rw [gate14, state13, theta13]

theorem theta14 (W0 : Valuation τ sig (Elt Ideal)) : Wk14 W0 (main_arg3 : DevRef τ sig) = W0 (main_arg3 : DevRef τ sig) := by
  unfold Wk14; rw [gate14_arg3, theta13]

/-- The buffer contents after gate 15. -/
def Wk15 (W0 : Valuation τ sig (Elt Ideal)) : Valuation τ sig (Elt Ideal) := after (G15 (F := Ideal)) (Wk14 W0)

theorem state15 (W0 : Valuation τ sig (Elt Ideal)) :
    Wk15 W0 (main_v246 : DevRef τ sig) = st15 (W0 (main_arg3 : DevRef τ sig)) := by
  unfold Wk15 st15; rw [gate15, state14]

theorem theta15 (W0 : Valuation τ sig (Elt Ideal)) : Wk15 W0 (main_arg3 : DevRef τ sig) = W0 (main_arg3 : DevRef τ sig) := by
  unfold Wk15; rw [gate15_arg3, theta14]

/-- The buffer contents after gate 16. -/
def Wk16 (W0 : Valuation τ sig (Elt Ideal)) : Valuation τ sig (Elt Ideal) := after (G16 (F := Ideal)) (Wk15 W0)

theorem state16 (W0 : Valuation τ sig (Elt Ideal)) :
    Wk16 W0 (main_v267 : DevRef τ sig) = st16 (W0 (main_arg3 : DevRef τ sig)) := by
  unfold Wk16 st16; rw [gate16, state15, theta15]

theorem theta16 (W0 : Valuation τ sig (Elt Ideal)) : Wk16 W0 (main_arg3 : DevRef τ sig) = W0 (main_arg3 : DevRef τ sig) := by
  unfold Wk16; rw [gate16_arg3, theta15]

/-- The buffer contents after gate 17. -/
def Wk17 (W0 : Valuation τ sig (Elt Ideal)) : Valuation τ sig (Elt Ideal) := after (G17 (F := Ideal)) (Wk16 W0)

theorem state17 (W0 : Valuation τ sig (Elt Ideal)) :
    Wk17 W0 (main_v288 : DevRef τ sig) = st17 (W0 (main_arg3 : DevRef τ sig)) := by
  unfold Wk17 st17; rw [gate17, state16, theta16]

theorem theta17 (W0 : Valuation τ sig (Elt Ideal)) : Wk17 W0 (main_arg3 : DevRef τ sig) = W0 (main_arg3 : DevRef τ sig) := by
  unfold Wk17; rw [gate17_arg3, theta16]

/-- The buffer contents after gate 18. -/
def Wk18 (W0 : Valuation τ sig (Elt Ideal)) : Valuation τ sig (Elt Ideal) := after (G18 (F := Ideal)) (Wk17 W0)

theorem state18 (W0 : Valuation τ sig (Elt Ideal)) :
    Wk18 W0 (main_v294 : DevRef τ sig) = st18 (W0 (main_arg3 : DevRef τ sig)) := by
  unfold Wk18 st18; rw [gate18, state17]

theorem theta18 (W0 : Valuation τ sig (Elt Ideal)) : Wk18 W0 (main_arg3 : DevRef τ sig) = W0 (main_arg3 : DevRef τ sig) := by
  unfold Wk18; rw [gate18_arg3, theta17]

/-- The buffer contents after gate 19. -/
def Wk19 (W0 : Valuation τ sig (Elt Ideal)) : Valuation τ sig (Elt Ideal) := after (G19 (F := Ideal)) (Wk18 W0)

theorem state19 (W0 : Valuation τ sig (Elt Ideal)) :
    Wk19 W0 (main_v315 : DevRef τ sig) = st19 (W0 (main_arg3 : DevRef τ sig)) := by
  unfold Wk19 st19; rw [gate19, state18, theta18]

theorem theta19 (W0 : Valuation τ sig (Elt Ideal)) : Wk19 W0 (main_arg3 : DevRef τ sig) = W0 (main_arg3 : DevRef τ sig) := by
  unfold Wk19; rw [gate19_arg3, theta18]

/-- The buffer contents after gate 20. -/
def Wk20 (W0 : Valuation τ sig (Elt Ideal)) : Valuation τ sig (Elt Ideal) := after (G20 (F := Ideal)) (Wk19 W0)

theorem state20 (W0 : Valuation τ sig (Elt Ideal)) :
    Wk20 W0 (main_v336 : DevRef τ sig) = st20 (W0 (main_arg3 : DevRef τ sig)) := by
  unfold Wk20 st20; rw [gate20, state19, theta19]

theorem theta20 (W0 : Valuation τ sig (Elt Ideal)) : Wk20 W0 (main_arg3 : DevRef τ sig) = W0 (main_arg3 : DevRef τ sig) := by
  unfold Wk20; rw [gate20_arg3, theta19]

/-- The buffer contents after gate 21. -/
def Wk21 (W0 : Valuation τ sig (Elt Ideal)) : Valuation τ sig (Elt Ideal) := after (G21 (F := Ideal)) (Wk20 W0)

theorem state21 (W0 : Valuation τ sig (Elt Ideal)) :
    Wk21 W0 (main_v342 : DevRef τ sig) = st21 (W0 (main_arg3 : DevRef τ sig)) := by
  unfold Wk21 st21; rw [gate21, state20]

theorem theta21 (W0 : Valuation τ sig (Elt Ideal)) : Wk21 W0 (main_arg3 : DevRef τ sig) = W0 (main_arg3 : DevRef τ sig) := by
  unfold Wk21; rw [gate21_arg3, theta20]

/-- The buffer contents after gate 22. -/
def Wk22 (W0 : Valuation τ sig (Elt Ideal)) : Valuation τ sig (Elt Ideal) := after (G22 (F := Ideal)) (Wk21 W0)

theorem state22 (W0 : Valuation τ sig (Elt Ideal)) :
    Wk22 W0 (main_v363 : DevRef τ sig) = st22 (W0 (main_arg3 : DevRef τ sig)) := by
  unfold Wk22 st22; rw [gate22, state21, theta21]

theorem theta22 (W0 : Valuation τ sig (Elt Ideal)) : Wk22 W0 (main_arg3 : DevRef τ sig) = W0 (main_arg3 : DevRef τ sig) := by
  unfold Wk22; rw [gate22_arg3, theta21]

/-- The buffer contents after gate 23. -/
def Wk23 (W0 : Valuation τ sig (Elt Ideal)) : Valuation τ sig (Elt Ideal) := after (G23 (F := Ideal)) (Wk22 W0)

theorem state23 (W0 : Valuation τ sig (Elt Ideal)) :
    Wk23 W0 (main_v384 : DevRef τ sig) = st23 (W0 (main_arg3 : DevRef τ sig)) := by
  unfold Wk23 st23; rw [gate23, state22, theta22]

theorem theta23 (W0 : Valuation τ sig (Elt Ideal)) : Wk23 W0 (main_arg3 : DevRef τ sig) = W0 (main_arg3 : DevRef τ sig) := by
  unfold Wk23; rw [gate23_arg3, theta22]

/-- The buffer contents after gate 24. -/
def Wk24 (W0 : Valuation τ sig (Elt Ideal)) : Valuation τ sig (Elt Ideal) := after (G24 (F := Ideal)) (Wk23 W0)

theorem state24 (W0 : Valuation τ sig (Elt Ideal)) :
    Wk24 W0 (main_v390 : DevRef τ sig) = st24 (W0 (main_arg3 : DevRef τ sig)) := by
  unfold Wk24 st24; rw [gate24, state23]

theorem theta24 (W0 : Valuation τ sig (Elt Ideal)) : Wk24 W0 (main_arg3 : DevRef τ sig) = W0 (main_arg3 : DevRef τ sig) := by
  unfold Wk24; rw [gate24_arg3, theta23]

/-- The buffer contents after gate 25. -/
def Wk25 (W0 : Valuation τ sig (Elt Ideal)) : Valuation τ sig (Elt Ideal) := after (G25 (F := Ideal)) (Wk24 W0)

theorem state25 (W0 : Valuation τ sig (Elt Ideal)) :
    Wk25 W0 (main_v411 : DevRef τ sig) = st25 (W0 (main_arg3 : DevRef τ sig)) := by
  unfold Wk25 st25; rw [gate25, state24, theta24]

theorem theta25 (W0 : Valuation τ sig (Elt Ideal)) : Wk25 W0 (main_arg3 : DevRef τ sig) = W0 (main_arg3 : DevRef τ sig) := by
  unfold Wk25; rw [gate25_arg3, theta24]

/-- The buffer contents after gate 26. -/
def Wk26 (W0 : Valuation τ sig (Elt Ideal)) : Valuation τ sig (Elt Ideal) := after (G26 (F := Ideal)) (Wk25 W0)

theorem state26 (W0 : Valuation τ sig (Elt Ideal)) :
    Wk26 W0 (main_v432 : DevRef τ sig) = st26 (W0 (main_arg3 : DevRef τ sig)) := by
  unfold Wk26 st26; rw [gate26, state25, theta25]

theorem theta26 (W0 : Valuation τ sig (Elt Ideal)) : Wk26 W0 (main_arg3 : DevRef τ sig) = W0 (main_arg3 : DevRef τ sig) := by
  unfold Wk26; rw [gate26_arg3, theta25]

/-- The buffer contents after gate 27. -/
def Wk27 (W0 : Valuation τ sig (Elt Ideal)) : Valuation τ sig (Elt Ideal) := after (G27 (F := Ideal)) (Wk26 W0)

theorem state27 (W0 : Valuation τ sig (Elt Ideal)) :
    Wk27 W0 (main_v438 : DevRef τ sig) = st27 (W0 (main_arg3 : DevRef τ sig)) := by
  unfold Wk27 st27; rw [gate27, state26]

theorem theta27 (W0 : Valuation τ sig (Elt Ideal)) : Wk27 W0 (main_arg3 : DevRef τ sig) = W0 (main_arg3 : DevRef τ sig) := by
  unfold Wk27; rw [gate27_arg3, theta26]

/-- The buffer contents after gate 28. -/
def Wk28 (W0 : Valuation τ sig (Elt Ideal)) : Valuation τ sig (Elt Ideal) := after (G28 (F := Ideal)) (Wk27 W0)

theorem state28 (W0 : Valuation τ sig (Elt Ideal)) :
    Wk28 W0 (main_v459 : DevRef τ sig) = st28 (W0 (main_arg3 : DevRef τ sig)) := by
  unfold Wk28 st28; rw [gate28, state27, theta27]

theorem theta28 (W0 : Valuation τ sig (Elt Ideal)) : Wk28 W0 (main_arg3 : DevRef τ sig) = W0 (main_arg3 : DevRef τ sig) := by
  unfold Wk28; rw [gate28_arg3, theta27]

/-- The buffer contents after gate 29. -/
def Wk29 (W0 : Valuation τ sig (Elt Ideal)) : Valuation τ sig (Elt Ideal) := after (G29 (F := Ideal)) (Wk28 W0)

theorem state29 (W0 : Valuation τ sig (Elt Ideal)) :
    Wk29 W0 (main_v480 : DevRef τ sig) = st29 (W0 (main_arg3 : DevRef τ sig)) := by
  unfold Wk29 st29; rw [gate29, state28, theta28]

theorem theta29 (W0 : Valuation τ sig (Elt Ideal)) : Wk29 W0 (main_arg3 : DevRef τ sig) = W0 (main_arg3 : DevRef τ sig) := by
  unfold Wk29; rw [gate29_arg3, theta28]

/-- The buffer contents after gate 30. -/
def Wk30 (W0 : Valuation τ sig (Elt Ideal)) : Valuation τ sig (Elt Ideal) := after (G30 (F := Ideal)) (Wk29 W0)

theorem state30 (W0 : Valuation τ sig (Elt Ideal)) :
    Wk30 W0 (main_v486 : DevRef τ sig) = st30 (W0 (main_arg3 : DevRef τ sig)) := by
  unfold Wk30 st30; rw [gate30, state29]

theorem theta30 (W0 : Valuation τ sig (Elt Ideal)) : Wk30 W0 (main_arg3 : DevRef τ sig) = W0 (main_arg3 : DevRef τ sig) := by
  unfold Wk30; rw [gate30_arg3, theta29]

/-- The buffer contents after gate 31. -/
def Wk31 (W0 : Valuation τ sig (Elt Ideal)) : Valuation τ sig (Elt Ideal) := after (G31 (F := Ideal)) (Wk30 W0)

theorem state31 (W0 : Valuation τ sig (Elt Ideal)) :
    Wk31 W0 (main_v507 : DevRef τ sig) = st31 (W0 (main_arg3 : DevRef τ sig)) := by
  unfold Wk31 st31; rw [gate31, state30, theta30]

theorem theta31 (W0 : Valuation τ sig (Elt Ideal)) : Wk31 W0 (main_arg3 : DevRef τ sig) = W0 (main_arg3 : DevRef τ sig) := by
  unfold Wk31; rw [gate31_arg3, theta30]

end Cert.TTN.KHost

end
-- ==== Proof.KV.lean ====
/-
  The host part of the kernel's program, before the kernel is launched, is the stretch before the gates, the 31 gates'
  stretches and the stretch after them, in this order; so the buffers the kernel's windows read hold: the final state
  of the 256 basis registers recast as a 256 × 256 matrix, and the mask row.
-/
import proofs.«130987_j14276471292017_1_alg».proof.Proof.GenP.KernelIdeal.Frame
import proofs.«130987_j14276471292017_1_alg».proof.Proof.KHostChain

set_option maxRecDepth 65536

noncomputable section

namespace Cert.TTN.KHost

open Idealize.ShloMosaic Idealize.ShloMosaic.TcCoe Idealize.SL.Sem Idealize.ShloMosaic.StableHlo
open Cert.KernelIdeal Cert.KernelIdeal.Gen

/-- The buffers after two lines of operations run one after the other. -/
theorem after_append' {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

set_option maxHeartbeats 64000000 in
/-- The operations before the launch, regrouped gate by gate. -/
theorem prefix_eq :
    (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, hostOps0_73, hostOps0_74, hostOps0_75, hostOps0_76, hostOps0_77, hostOps0_78, hostOps0_79, hostOps0_80, hostOps0_81, hostOps0_82, hostOps0_83, hostOps0_84, hostOps0_85, hostOps0_86, hostOps0_87, hostOps0_88, hostOps0_89, hostOps0_90, hostOps0_91, hostOps0_92, hostOps0_93, hostOps0_94, hostOps0_95, hostOps0_96, hostOps0_97, hostOps0_98, hostOps0_99, hostOps0_100, hostOps0_101, hostOps0_102, hostOps0_103, hostOps0_104, hostOps0_105, hostOps0_106, hostOps0_107, hostOps0_108, hostOps0_109, hostOps0_110, hostOps0_111, hostOps0_112, hostOps0_113, hostOps0_114, hostOps0_115, hostOps0_116, hostOps0_117, hostOps0_118, hostOps0_119, hostOps0_120, hostOps0_121, hostOps0_122, hostOps0_123, hostOps0_124, hostOps0_125, hostOps0_126, hostOps0_127, hostOps0_128, hostOps0_129, hostOps0_130, hostOps0_131, hostOps0_132, hostOps0_133, hostOps0_134] : List (HloOp τ sig (Elt Ideal)))
      = P0 ++ (G1 ++ (G2 ++ (G3 ++ (G4 ++ (G5 ++ (G6 ++ (G7 ++ (G8 ++ (G9 ++ (G10 ++ (G11 ++ (G12 ++ (G13 ++ (G14 ++ (G15 ++ (G16 ++ (G17 ++ (G18 ++ (G19 ++ (G20 ++ (G21 ++ (G22 ++ (G23 ++ (G24 ++ (G25 ++ (G26 ++ (G27 ++ (G28 ++ (G29 ++ (G30 ++ (G31 ++ (PR)))))))))))))))))))))))))))))))) := by
  chain_rfl

/-- The buffers at the launch are those after the last stretch, from the launch memory. -/
theorem V0_eq (m : (ℓ : Loc nD τ sig) → Buf (Elt Ideal) ℓ) (c : Dev nD) :
    Gen.V0 (F := Ideal) m c = after (PR (F := Ideal)) (Wk31 (fun b => m (c, b))) := by
  show after (List.flatten [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51, hostOps0_52, hostOps0_53, hostOps0_54, hostOps0_55, hostOps0_56, hostOps0_57, hostOps0_58, hostOps0_59, hostOps0_60, hostOps0_61, hostOps0_62, hostOps0_63, hostOps0_64, hostOps0_65, hostOps0_66, hostOps0_67, hostOps0_68, hostOps0_69, hostOps0_70, hostOps0_71, hostOps0_72, hostOps0_73, hostOps0_74, hostOps0_75, hostOps0_76, hostOps0_77, hostOps0_78, hostOps0_79, hostOps0_80, hostOps0_81, hostOps0_82, hostOps0_83, hostOps0_84, hostOps0_85, hostOps0_86, hostOps0_87, hostOps0_88, hostOps0_89, hostOps0_90, hostOps0_91, hostOps0_92, hostOps0_93, hostOps0_94, hostOps0_95, hostOps0_96, hostOps0_97, hostOps0_98, hostOps0_99, hostOps0_100, hostOps0_101, hostOps0_102, hostOps0_103, hostOps0_104, hostOps0_105, hostOps0_106, hostOps0_107, hostOps0_108, hostOps0_109, hostOps0_110, hostOps0_111, hostOps0_112, hostOps0_113, hostOps0_114, hostOps0_115, hostOps0_116, hostOps0_117, hostOps0_118, hostOps0_119, hostOps0_120, hostOps0_121, hostOps0_122, hostOps0_123, hostOps0_124, hostOps0_125, hostOps0_126, hostOps0_127, hostOps0_128, hostOps0_129, hostOps0_130, hostOps0_131, hostOps0_132, hostOps0_133, hostOps0_134]) (fun b => m (c, b)) = _
  rw [prefix_eq]
  simp only [after_append']
  rfl

/-- The matrix the kernel multiplies by: the final state of the basis registers, recast. -/
theorem V_matrix (m : (ℓ : Loc nD τ sig) → Buf (Elt Ideal) ℓ) (c : Dev nD) :
    Gen.V (F := Ideal) m c main_v508
      = shapeCast S256x256 (st31 (m ((c.tc : Thread nD τ).loc main_arg3))) shapeCasts_S256x2x2x2x2x2x2x2x2_S256x256 := by
  show Gen.V0 (F := Ideal) m c (Proc.devRef .tc main_v508) = _
  rw [V0_eq, rest_M, state31]

/-- The mask row. -/
theorem V_mask (m : (ℓ : Loc nD τ sig) → Buf (Elt Ideal) ℓ) (c : Dev nD) :
    Gen.V (F := Ideal) m c main_v515 = shapeCast S1x256 maskTerm shapeCasts_S256_S1x256 := by
  show Gen.V0 (F := Ideal) m c (Proc.devRef .tc main_v515) = _
  rw [V0_eq, rest_mask]

end Cert.TTN.KHost

end
-- ==== Proof.Idx9.lean ====
/-
  Indices of the state array.  The state of `B` registers has shape [B,2,2,2,2,2,2,2,2]: axis 0 the register, axis
  `w+1` the bit of wire `w`.  The index of register `b` at basis state `q` has coordinates `(b, q 0, …, q 7)`,
  and every index of the array is of that form.
-/
import proofs.«130987_j14276471292017_1_alg».proof.Proof.Spec
import Idealize.ShloMosaic.Lib.ValueIdx

namespace Cert.TTN.Gates

open Idealize.ShloMosaic

/-- The state's shape for `B` registers, and a slice's: one axis less. -/
abbrev S9 (B : Nat) : Shape := ⟨9, ![B, 2, 2, 2, 2, 2, 2, 2, 2]⟩
abbrev S8 (B : Nat) : Shape := ⟨8, ![B, 2, 2, 2, 2, 2, 2, 2]⟩

/-- The index of register `b` at basis state `q`: coordinates `(b, q 0, …, q 7)`. -/
def ix9 {B : Nat} (b : Fin B) (q : Cert.TTN.Q) : (S9 B).Idx :=
  fun a => match a with
    | ⟨0, _⟩ => b | ⟨1, _⟩ => q 0 | ⟨2, _⟩ => q 1 | ⟨3, _⟩ => q 2 | ⟨4, _⟩ => q 3
    | ⟨5, _⟩ => q 4 | ⟨6, _⟩ => q 5 | ⟨7, _⟩ => q 6 | ⟨8, _⟩ => q 7

/-- The basis state an index names. -/
def qOf {B : Nat} (j : (S9 B).Idx) : Cert.TTN.Q :=
  fun w => match w with
    | ⟨0, _⟩ => (j 1 : Fin 2) | ⟨1, _⟩ => (j 2 : Fin 2) | ⟨2, _⟩ => (j 3 : Fin 2) | ⟨3, _⟩ => (j 4 : Fin 2)
    | ⟨4, _⟩ => (j 5 : Fin 2) | ⟨5, _⟩ => (j 6 : Fin 2) | ⟨6, _⟩ => (j 7 : Fin 2) | ⟨7, _⟩ => (j 8 : Fin 2)

/-- Every index is the index of a register at a basis state. -/
theorem eq_ix9 {B : Nat} (j : (S9 B).Idx) : j = ix9 (j 0) (qOf j) := by
  funext a
  match a with
  | ⟨0, _⟩ => rfl | ⟨1, _⟩ => rfl | ⟨2, _⟩ => rfl | ⟨3, _⟩ => rfl | ⟨4, _⟩ => rfl
  | ⟨5, _⟩ => rfl | ⟨6, _⟩ => rfl | ⟨7, _⟩ => rfl | ⟨8, _⟩ => rfl

theorem exists_ix9 {B : Nat} (j : (S9 B).Idx) : ∃ (b : Fin B) (q : Cert.TTN.Q), j = ix9 b q := ⟨j 0, qOf j, eq_ix9 j⟩

/-- The register and the basis state of `ix9 b q`. -/
theorem ix9_zero {B : Nat} (b : Fin B) (q : Cert.TTN.Q) : ix9 b q 0 = b := rfl
theorem qOf_ix9 {B : Nat} (b : Fin B) (q : Cert.TTN.Q) : qOf (ix9 b q) = q := by
  funext w
  match w with
  | ⟨0, _⟩ => rfl | ⟨1, _⟩ => rfl | ⟨2, _⟩ => rfl | ⟨3, _⟩ => rfl
  | ⟨4, _⟩ => rfl | ⟨5, _⟩ => rfl | ⟨6, _⟩ => rfl | ⟨7, _⟩ => rfl

end Cert.TTN.Gates
-- ==== Proof.GateReads.lean ====
/-
  The two gates read at an index: the general part.

  A `take` at the constant position 0 or 1 passes its range check, so it is the plain gather of that slice.  Two
  slices, each given a unit axis back and the two laid end to end along it, read at an index `j`: the first slice at
  `j` without that axis where `j`'s coordinate on it is 0, the second otherwise.  Hence a rotation at `j` is the
  plane rotation of the two slices' elements, the row chosen by `j`'s bit on the wire's axis; a controlled flip at
  `j` is slice 0 as it is, or slice 1 read with the target's bit reversed.
-/
import proofs.«130987_j14276471292017_1_alg».proof.Proof.Gates
import proofs.«130987_j14276471292017_1_alg».proof.Proof.Idx9
import Idealize.ShloMosaic.Lib.ValueIdx
import Idealize.ShloMosaic.Lib.Pipeline.Value
import Idealize.ShloMosaic.PureOps.Reduce

noncomputable section

namespace Cert.TTN.Gates

open Idealize.ShloMosaic Idealize.ShloMosaic.ValueIdx

/-- A left fold by `and` from 1 over words that are all 1 is 1. -/
theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..)]
    exact foldl_andi_one f l (fun n hn => h n (List.mem_cons_of_mem _ hn))

/-- The position operand of a `take` at the constant 0 or 1 is the one-element vector holding it. -/
theorem takeStart_const (hb1 : S0.BroadcastsInDim S1 ![]) (k : BitVec 32) (hk : k = 0#32 ∨ k = 1#32) :
    takeStart hb1 (constantI S0 32 k) = fun _ => k := by
  funext j
  show Scalar.select (IntOp.cmpi .slt k 0#32) (IntOp.addi k 2#32) k = k
  rcases hk with rfl | rfl <;> rfl

/-- `take` at the constant position 0 or 1: the guard holds, so it is the gather at that position. -/
theorem takeTerm_const {s t : Shape} (d : GatherDims s S1 t) (hb1 : S0.BroadcastsInDim S1 ![]) (hbt : S0.BroadcastsInDim t ![])
    (hr : S1.ReducesTo [0] S0) (hu : 0 < S0.numel) (x : FVec Ideal s .f32) (k : BitVec 32) (hk : k = 0#32 ∨ k = 1#32) :
    takeTerm d hb1 hbt hr hu x (constantI S0 32 k) = Host.gather d x (fun _ => k) := by
  funext j
  unfold takeTerm
  rw [takeStart_const hb1 k hk]
  rw [select_apply]
  have hg : ∀ i, Host.reduce IntOp.andi
        (andi (cmpi .sge (fun _ => k) (broadcastInDim S1 ![] hb1 (constantI S0 32 0#32)))
              (cmpi .sle (fun _ => k) (constantI S1 32 1#32)))
        (constantI S0 1 1#1) hr hu i = 1#1 := by
    intro i
    rw [Host.reduce_eq_foldl]
    refine foldl_andi_one _ _ (fun n _ => ?_)
    show IntOp.andi (IntOp.cmpi .sge k 0#32) (IntOp.cmpi .sle k 1#32) = 1#1
    rcases hk with rfl | rfl <;> rfl
  show Scalar.select (Host.reduce IntOp.andi _ _ hr hu _) _ _ = _
  rw [hg]
  exact select_one _ _

/-- A scalar broadcast to any shape reads the scalar's one element. -/
theorem broadcastInDim_scalar_apply {α : Type} {t : Shape} (hbt : S0.BroadcastsInDim t ![]) (c : S0.Idx → α) (k : t.Idx) :
    broadcastInDim t ![] hbt c k = c ix0 :=
  congrArg c (funext fun a => a.elim0)

/-- Two arrays of shape `t`, each given a unit axis `ax` back (shape `u`) and the two laid end to end along it
    (shape `s`), read at an index `j`: the first at `j` with that axis dropped where `j`'s coordinate on it is 0,
    the second otherwise. `k` is `j` with the axis dropped. -/
theorem concat_unit_pair_apply {α : Type} {s t u : Shape} (ax : Fin s.rank) (dims : Fin t.rank → Fin u.rank)
    (hx : t.BroadcastsInDim u dims) (hc : Shape.Concatenates [u, u] s ax) (y0 y1 : t.Idx → α) (j : s.Idx) (k : t.Idx)
    (hur : u.rank = s.rank) (hu1 : u.size (ax.cast hur.symm) = 1)
    (hax : ∀ a, (dims a).cast hur ≠ ax)
    (hk : ∀ a : Fin t.rank, (k a).val = (j ((dims a).cast hur)).val) :
    concatenate s ax [⟨u, broadcastInDim u dims hx y0⟩, ⟨u, broadcastInDim u dims hx y1⟩] hc j
      = if (j ax).val = 0 then y0 k else y1 k := by
  have hsz : ∀ b' : Fin u.rank, b'.cast hur ≠ ax → u.size b' = s.size (b'.cast hur) := by
    intro b' hb
    obtain ⟨h', hs⟩ := hc.2.1 u (List.mem_cons_self ..)
    exact hs (b'.cast hur) hb
  have hsum : s.size ax = 2 := by
    have := hc.2.2
    simp only [List.map, List.sum_cons, List.sum_nil, dif_pos hur, hu1] at this
    omega
  have hlt : (j ax).val < 2 := by have := (j ax).isLt; omega
  let i : u.Idx := fun b' =>
    if h : b'.cast hur = ax then
      ⟨0, by
        have e : b' = ax.cast hur.symm := Fin.ext (by have := congrArg Fin.val h; simpa using this)
        rw [e, hu1]; exact Nat.one_pos⟩
    else ⟨(j (b'.cast hur)).val, by rw [hsz b' h]; exact (j _).isLt⟩
  have hiax : (i (ax.cast hur.symm)).val = 0 := by
    show (dite _ _ _ : Fin _).val = 0
    rw [dif_pos (by apply Fin.ext; simp)]
  have hine : ∀ b' : Fin u.rank, b'.cast hur ≠ ax → (i b').val = (j (b'.cast hur)).val := by
    intro b' hb
    show (dite _ _ _ : Fin _).val = _
    rw [dif_neg hb]
  have hkk : ∀ a : Fin t.rank, (k a).val = if t.size a = 1 then 0 else (i (dims a)).val := by
    intro a
    rw [hine (dims a) (hax a), ← hk a]
    split
    · next h1 => have := (k a).isLt; omega
    · rfl
  by_cases h0 : (j ax).val = 0
  · rw [if_pos h0]
    rw [concatenate_pair_apply_left ax _ _ hc j hur i (fun b' => by
      by_cases hb : b'.cast hur = ax
      · have e : b' = ax.cast hur.symm := Fin.ext (by have := congrArg Fin.val hb; simpa using this)
        rw [e, hiax]; rw [show Fin.cast hur (Fin.cast hur.symm ax) = ax from Fin.ext rfl, h0]
      · exact hine b' hb)]
    exact broadcastInDim_apply dims hx y0 i k hkk
  · rw [if_neg h0]
    rw [concatenate_pair_apply_right ax _ _ hc j hur hur i hine (by rw [hiax, hu1]; omega)]
    exact broadcastInDim_apply dims hx y1 i k hkk

/-- The rotation read at an index `j` (`k` is `j` with the wire's axis dropped): the plane rotation of the two
    slices of the wire's axis, the row chosen by `j`'s coordinate on that axis. -/
theorem ryTerm_apply {s t u : Shape} (ax : Fin s.rank) (dims : Fin t.rank → Fin u.rank) (d : GatherDims s S1 t)
    (hb1 : S0.BroadcastsInDim S1 ![]) (hbt : S0.BroadcastsInDim t ![]) (hr : S1.ReducesTo [0] S0) (hu : 0 < S0.numel)
    (hx : t.BroadcastsInDim u dims) (hc : Shape.Concatenates [u, u] s ax)
    (st : FVec Ideal s .f32) (th : FVec Ideal S0 .f32) (j : s.Idx) (k : t.Idx)
    (hur : u.rank = s.rank) (hu1 : u.size (ax.cast hur.symm) = 1)
    (hax : ∀ a, (dims a).cast hur ≠ ax)
    (hk : ∀ a : Fin t.rank, (k a).val = (j ((dims a).cast hur)).val) :
    ryTerm ax dims d hb1 hbt hr hu hx hc st th j
      = if (j ax).val = 0 then
          Ideal.cos (Ideal.ofBits .f32 0x3F000000#32 * th ix0) * Host.gather d st (fun _ => 0#32) k
            - Ideal.sin (Ideal.ofBits .f32 0x3F000000#32 * th ix0) * Host.gather d st (fun _ => 1#32) k
        else
          Ideal.sin (Ideal.ofBits .f32 0x3F000000#32 * th ix0) * Host.gather d st (fun _ => 0#32) k
            + Ideal.cos (Ideal.ofBits .f32 0x3F000000#32 * th ix0) * Host.gather d st (fun _ => 1#32) k := by
  unfold ryTerm
  rw [takeTerm_const d hb1 hbt hr hu st 0#32 (Or.inl rfl), takeTerm_const d hb1 hbt hr hu st 1#32 (Or.inr rfl)]
  rw [concat_unit_pair_apply ax dims hx hc _ _ j k hur hu1 hax hk]
  simp only [subf_apply, addf_apply, mulf_apply, broadcastInDim_scalar_apply]
  rfl

/-- The controlled flip read at an index `j` (`k` is `j` with the control's axis dropped): the control's slice 0
    as it is, its slice 1 read at the index reversed along the target's axis. -/
theorem cxTerm_apply {s t u : Shape} (ax : Fin s.rank) (fl : Fin t.rank) (dims : Fin t.rank → Fin u.rank) (d : GatherDims s S1 t)
    (hb1 : S0.BroadcastsInDim S1 ![]) (hbt : S0.BroadcastsInDim t ![]) (hr : S1.ReducesTo [0] S0) (hu : 0 < S0.numel)
    (hx : t.BroadcastsInDim u dims) (hc : Shape.Concatenates [u, u] s ax)
    (st : FVec Ideal s .f32) (j : s.Idx) (k : t.Idx)
    (hur : u.rank = s.rank) (hu1 : u.size (ax.cast hur.symm) = 1)
    (hax : ∀ a, (dims a).cast hur ≠ ax)
    (hk : ∀ a : Fin t.rank, (k a).val = (j ((dims a).cast hur)).val) :
    cxTerm ax fl dims d hb1 hbt hr hu hx hc st j
      = if (j ax).val = 0 then Host.gather d st (fun _ => 0#32) k
        else Host.gather d st (fun _ => 1#32) (fun a => if a ∈ [fl] then (k a).rev else k a) := by
  unfold cxTerm
  rw [takeTerm_const d hb1 hbt hr hu st 0#32 (Or.inl rfl), takeTerm_const d hb1 hbt hr hu st 1#32 (Or.inr rfl)]
  rw [concat_unit_pair_apply ax dims hx hc _ _ j k hur hu1 hax hk]
  rfl

/-- Reversing a bit is taking it from 1. -/
theorem rev2 : ∀ x : Fin 2, x.rev = 1 - x := by decide

end Cert.TTN.Gates

end
-- ==== Proof.GateReadsW0.lean ====
/-
  Wire 0 of the gate reads (its bit is axis 1 of the state array): the shape with that axis of length one,
  the axes of a slice inside it, the gather that takes a slice; that gather at a constant position read at an index;
  the rotation of the wire read at register b, basis state q; the flip of wire 1 controlled by this wire, read there.
  The general statements these instantiate are in GateReads.lean.
-/
import proofs.«130987_j14276471292017_1_alg».proof.Proof.GateReads

noncomputable section

namespace Cert.TTN.Gates

open Idealize.ShloMosaic Idealize.ShloMosaic.ValueIdx

/-- The state's shape with wire 0's axis of length one; the axes of a slice inside it; the gather that takes a slice. -/
abbrev U9_0 (B : Nat) : Shape := ⟨9, ![B, 1, 2, 2, 2, 2, 2, 2, 2]⟩
abbrev dims_0 : Fin 8 → Fin 9 := ![0, 2, 3, 4, 5, 6, 7, 8]
abbrev takeDims_0 (B : Nat) (wf : GatherDims.WF (S9 B) S1 (S8 B) [0, 1, 2, 3, 4, 5, 6, 7] [1] [] [1] [] 0 ![B, 1, 2, 2, 2, 2, 2, 2, 2]) : GatherDims (S9 B) S1 (S8 B) where
  offsetDims := [0, 1, 2, 3, 4, 5, 6, 7]
  collapsedSliceDims := [1]
  operandBatchingDims := []
  startIndicesBatchingDims := []
  startIndexMap := [1]
  indexVectorDim := 0
  sliceSizes := ![B, 1, 2, 2, 2, 2, 2, 2, 2]
  wf := wf

/-- No axis of a slice is sent to wire 0's axis. -/
theorem dims_0_ne : ∀ a : Fin 8, (dims_0 a).val ≠ 1 := by decide

/-- An index with wire 0's axis dropped, and a slice's index with the bit v put back on that axis. -/
def drop_0 {B : Nat} (j : (S9 B).Idx) : (S8 B).Idx :=
  fun a => match a with | ⟨0, _⟩ => j 0 | ⟨1, _⟩ => j 2 | ⟨2, _⟩ => j 3 | ⟨3, _⟩ => j 4 | ⟨4, _⟩ => j 5 | ⟨5, _⟩ => j 6 | ⟨6, _⟩ => j 7 | ⟨7, _⟩ => j 8
def ins_0 {B : Nat} (k : (S8 B).Idx) (v : Fin 2) : (S9 B).Idx :=
  fun a => match a with | ⟨0, _⟩ => k 0 | ⟨1, _⟩ => v | ⟨2, _⟩ => k 1 | ⟨3, _⟩ => k 2 | ⟨4, _⟩ => k 3 | ⟨5, _⟩ => k 4 | ⟨6, _⟩ => k 5 | ⟨7, _⟩ => k 6 | ⟨8, _⟩ => k 7

theorem drop_0_val {B : Nat} (j : (S9 B).Idx) (a : Fin 8) : (drop_0 j a).val = (j (dims_0 a)).val :=
  match a with
  | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl

/-- Dropping wire 0's bit and putting v back sets the bit. -/
theorem ins_drop_0 {B : Nat} (b : Fin B) (q : Cert.TTN.Q) (v : Fin 2) :
    ins_0 (drop_0 (ix9 b q)) v = ix9 b (Cert.TTN.setBit q 0 v) := by
  funext a
  match a with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl

/-- The gather of wire 0's slice at the constant position p, read at a slice's index: the array at that index
    with the position (clamped into [0, 1]) on wire 0's axis. -/
theorem gather_0 {α : Type} {B : Nat} (wf : GatherDims.WF (S9 B) S1 (S8 B) [0, 1, 2, 3, 4, 5, 6, 7] [1] [] [1] [] 0 ![B, 1, 2, 2, 2, 2, 2, 2, 2])
    (x : (S9 B).Idx → α) (p : BitVec 32) (v : Fin 2) (hv : min p.toInt.toNat 1 = v.val) (k : (S8 B).Idx) :
    Host.gather (takeDims_0 B wf) x (fun _ => p) k = x (ins_0 k v) := by
  unfold Host.gather
  congr 1
  funext a
  refine Fin.ext ?_
  show (takeDims_0 B wf).start k (fun _ => p) a + (takeDims_0 B wf).batchCoord k a + (takeDims_0 B wf).offCoord k a = _
  rw [GatherDims.batchCoord_eq_zero _ _ _ List.not_mem_nil, Nat.add_zero]
  match a with
  | ⟨0, _⟩ => exact Nat.zero_add _
  | ⟨1, h1⟩ =>
    rw [GatherDims.offCoord_eq_zero _ _ _ (fun h => ((GatherDims.mem_sKept _ _).mp h).1 (List.mem_singleton.mpr rfl)), Nat.add_zero]
    unfold GatherDims.start
    rw [dif_pos (show (⟨1, h1⟩ : Fin (S9 B).rank) ∈ (takeDims_0 B wf).startIndexMap from List.mem_singleton.mpr rfl)]
    exact hv
  | ⟨2, _⟩ => exact Nat.zero_add _
  | ⟨3, _⟩ => exact Nat.zero_add _
  | ⟨4, _⟩ => exact Nat.zero_add _
  | ⟨5, _⟩ => exact Nat.zero_add _
  | ⟨6, _⟩ => exact Nat.zero_add _
  | ⟨7, _⟩ => exact Nat.zero_add _
  | ⟨8, _⟩ => exact Nat.zero_add _

/-- THE ROTATION OF WIRE 0 READ AT REGISTER b, BASIS STATE q. -/
theorem ry_apply_0 {B : Nat} (wf : GatherDims.WF (S9 B) S1 (S8 B) [0, 1, 2, 3, 4, 5, 6, 7] [1] [] [1] [] 0 ![B, 1, 2, 2, 2, 2, 2, 2, 2])
    (hb1 : S0.BroadcastsInDim S1 ![]) (hbt : S0.BroadcastsInDim (S8 B) ![]) (hr : S1.ReducesTo [0] S0) (hu : 0 < S0.numel)
    (hx : (S8 B).BroadcastsInDim (U9_0 B) dims_0) (hc : Shape.Concatenates [U9_0 B, U9_0 B] (S9 B) 1)
    (st : FVec Ideal (S9 B) .f32) (th : FVec Ideal S0 .f32) (b : Fin B) (q : Cert.TTN.Q) :
    ryTerm (s := S9 B) (t := S8 B) (u := U9_0 B) 1 dims_0 (takeDims_0 B wf) hb1 hbt hr hu hx hc st th (ix9 b q)
      = if q 0 = 0 then
          Ideal.cos (Ideal.ofBits .f32 0x3F000000#32 * th ix0) * st (ix9 b (Cert.TTN.setBit q 0 0))
            - Ideal.sin (Ideal.ofBits .f32 0x3F000000#32 * th ix0) * st (ix9 b (Cert.TTN.setBit q 0 1))
        else
          Ideal.sin (Ideal.ofBits .f32 0x3F000000#32 * th ix0) * st (ix9 b (Cert.TTN.setBit q 0 0))
            + Ideal.cos (Ideal.ofBits .f32 0x3F000000#32 * th ix0) * st (ix9 b (Cert.TTN.setBit q 0 1)) := by
  rw [ryTerm_apply (s := S9 B) (t := S8 B) (u := U9_0 B) 1 dims_0 (takeDims_0 B wf) hb1 hbt hr hu hx hc st th (ix9 b q)
    (drop_0 (ix9 b q)) rfl rfl (fun a h => dims_0_ne a (congrArg Fin.val h)) (drop_0_val (ix9 b q))]
  rw [gather_0 wf st 0#32 0 rfl, gather_0 wf st 1#32 1 rfl, ins_drop_0, ins_drop_0]
  by_cases hq : q 0 = 0
  · have h2 : (ix9 b q (1 : Fin (S9 B).rank)).val = 0 := congrArg Fin.val hq
    rw [if_pos hq, if_pos h2]
  · have h2 : ¬ (ix9 b q (1 : Fin (S9 B).rank)).val = 0 := fun h => hq (Fin.ext h)
    rw [if_neg hq, if_neg h2]

/-- A slice's index (control bit dropped) with the bit of wire 1 reversed, and the control bit 1 put back: the index of
    the basis state with wire 1 flipped, where the control bit is 1. -/
theorem flip_0_1 {B : Nat} (b : Fin B) (q : Cert.TTN.Q) (hq : q 0 = 1) :
    ins_0 (fun a => if a ∈ [(1 : Fin (S8 B).rank)] then (drop_0 (ix9 b q) a).rev else drop_0 (ix9 b q) a) 1
      = ix9 b (Cert.TTN.setBit q 1 (1 - q 1)) := by
  funext a
  match a with
  | ⟨0, _⟩ => rfl
  | ⟨1, _⟩ => exact hq.symm
  | ⟨2, _⟩ => exact rev2 (q 1)
  | ⟨3, _⟩ => rfl
  | ⟨4, _⟩ => rfl
  | ⟨5, _⟩ => rfl
  | ⟨6, _⟩ => rfl
  | ⟨7, _⟩ => rfl
  | ⟨8, _⟩ => rfl

/-- THE FLIP OF WIRE 1 CONTROLLED BY WIRE 0 READ AT REGISTER b, BASIS STATE q. -/
theorem cx_apply_0_1 {B : Nat} (wf : GatherDims.WF (S9 B) S1 (S8 B) [0, 1, 2, 3, 4, 5, 6, 7] [1] [] [1] [] 0 ![B, 1, 2, 2, 2, 2, 2, 2, 2])
    (hb1 : S0.BroadcastsInDim S1 ![]) (hbt : S0.BroadcastsInDim (S8 B) ![]) (hr : S1.ReducesTo [0] S0) (hu : 0 < S0.numel)
    (hx : (S8 B).BroadcastsInDim (U9_0 B) dims_0) (hc : Shape.Concatenates [U9_0 B, U9_0 B] (S9 B) 1)
    (st : FVec Ideal (S9 B) .f32) (b : Fin B) (q : Cert.TTN.Q) :
    cxTerm (s := S9 B) (t := S8 B) (u := U9_0 B) 1 1 dims_0 (takeDims_0 B wf) hb1 hbt hr hu hx hc st (ix9 b q)
      = if q 0 = 0 then st (ix9 b q) else st (ix9 b (Cert.TTN.setBit q 1 (1 - q 1))) := by
  rw [cxTerm_apply (s := S9 B) (t := S8 B) (u := U9_0 B) 1 1 dims_0 (takeDims_0 B wf) hb1 hbt hr hu hx hc st (ix9 b q)
    (drop_0 (ix9 b q)) rfl rfl (fun a h => dims_0_ne a (congrArg Fin.val h)) (drop_0_val (ix9 b q))]
  rw [gather_0 wf st 0#32 0 rfl, gather_0 wf st 1#32 1 rfl, ins_drop_0]
  by_cases hq : q 0 = 0
  · have h2 : (ix9 b q (1 : Fin (S9 B).rank)).val = 0 := congrArg Fin.val hq
    have e : Cert.TTN.setBit q 0 0 = q := by
      have := Function.update_eq_self (0 : Fin 8) q
      rw [hq] at this
      exact this
    rw [if_pos hq, if_pos h2, e]
  · have h2 : ¬ (ix9 b q (1 : Fin (S9 B).rank)).val = 0 := fun h => hq (Fin.ext h)
    have h1 : q 0 = 1 := Fin.ext (by
      show (q 0).val = 1
      have h3 : (q 0).val ≠ 0 := fun h => hq (Fin.ext h)
      have := (q 0).isLt
      omega)
    rw [if_neg hq, if_neg h2]
    exact congrArg st (flip_0_1 b q h1)

end Cert.TTN.Gates

end
-- ==== Proof.GateReadsW1.lean ====
/-
  Wire 1 of the gate reads (its bit is axis 2 of the state array): the shape with that axis of length one,
  the axes of a slice inside it, the gather that takes a slice; that gather at a constant position read at an index;
  the rotation of the wire read at register b, basis state q; the flip of wire 2 controlled by this wire, read there.
  The general statements these instantiate are in GateReads.lean.
-/
import proofs.«130987_j14276471292017_1_alg».proof.Proof.GateReads

noncomputable section

namespace Cert.TTN.Gates

open Idealize.ShloMosaic Idealize.ShloMosaic.ValueIdx

/-- The state's shape with wire 1's axis of length one; the axes of a slice inside it; the gather that takes a slice. -/
abbrev U9_1 (B : Nat) : Shape := ⟨9, ![B, 2, 1, 2, 2, 2, 2, 2, 2]⟩
abbrev dims_1 : Fin 8 → Fin 9 := ![0, 1, 3, 4, 5, 6, 7, 8]
abbrev takeDims_1 (B : Nat) (wf : GatherDims.WF (S9 B) S1 (S8 B) [0, 1, 2, 3, 4, 5, 6, 7] [2] [] [2] [] 0 ![B, 2, 1, 2, 2, 2, 2, 2, 2]) : GatherDims (S9 B) S1 (S8 B) where
  offsetDims := [0, 1, 2, 3, 4, 5, 6, 7]
  collapsedSliceDims := [2]
  operandBatchingDims := []
  startIndicesBatchingDims := []
  startIndexMap := [2]
  indexVectorDim := 0
  sliceSizes := ![B, 2, 1, 2, 2, 2, 2, 2, 2]
  wf := wf

/-- No axis of a slice is sent to wire 1's axis. -/
theorem dims_1_ne : ∀ a : Fin 8, (dims_1 a).val ≠ 2 := by decide

/-- An index with wire 1's axis dropped, and a slice's index with the bit v put back on that axis. -/
def drop_1 {B : Nat} (j : (S9 B).Idx) : (S8 B).Idx :=
  fun a => match a with | ⟨0, _⟩ => j 0 | ⟨1, _⟩ => j 1 | ⟨2, _⟩ => j 3 | ⟨3, _⟩ => j 4 | ⟨4, _⟩ => j 5 | ⟨5, _⟩ => j 6 | ⟨6, _⟩ => j 7 | ⟨7, _⟩ => j 8
def ins_1 {B : Nat} (k : (S8 B).Idx) (v : Fin 2) : (S9 B).Idx :=
  fun a => match a with | ⟨0, _⟩ => k 0 | ⟨1, _⟩ => k 1 | ⟨2, _⟩ => v | ⟨3, _⟩ => k 2 | ⟨4, _⟩ => k 3 | ⟨5, _⟩ => k 4 | ⟨6, _⟩ => k 5 | ⟨7, _⟩ => k 6 | ⟨8, _⟩ => k 7

theorem drop_1_val {B : Nat} (j : (S9 B).Idx) (a : Fin 8) : (drop_1 j a).val = (j (dims_1 a)).val :=
  match a with
  | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl

/-- Dropping wire 1's bit and putting v back sets the bit. -/
theorem ins_drop_1 {B : Nat} (b : Fin B) (q : Cert.TTN.Q) (v : Fin 2) :
    ins_1 (drop_1 (ix9 b q)) v = ix9 b (Cert.TTN.setBit q 1 v) := by
  funext a
  match a with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl

/-- The gather of wire 1's slice at the constant position p, read at a slice's index: the array at that index
    with the position (clamped into [0, 1]) on wire 1's axis. -/
theorem gather_1 {α : Type} {B : Nat} (wf : GatherDims.WF (S9 B) S1 (S8 B) [0, 1, 2, 3, 4, 5, 6, 7] [2] [] [2] [] 0 ![B, 2, 1, 2, 2, 2, 2, 2, 2])
    (x : (S9 B).Idx → α) (p : BitVec 32) (v : Fin 2) (hv : min p.toInt.toNat 1 = v.val) (k : (S8 B).Idx) :
    Host.gather (takeDims_1 B wf) x (fun _ => p) k = x (ins_1 k v) := by
  unfold Host.gather
  congr 1
  funext a
  refine Fin.ext ?_
  show (takeDims_1 B wf).start k (fun _ => p) a + (takeDims_1 B wf).batchCoord k a + (takeDims_1 B wf).offCoord k a = _
  rw [GatherDims.batchCoord_eq_zero _ _ _ List.not_mem_nil, Nat.add_zero]
  match a with
  | ⟨0, _⟩ => exact Nat.zero_add _
  | ⟨1, _⟩ => exact Nat.zero_add _
  | ⟨2, h2⟩ =>
    rw [GatherDims.offCoord_eq_zero _ _ _ (fun h => ((GatherDims.mem_sKept _ _).mp h).1 (List.mem_singleton.mpr rfl)), Nat.add_zero]
    unfold GatherDims.start
    rw [dif_pos (show (⟨2, h2⟩ : Fin (S9 B).rank) ∈ (takeDims_1 B wf).startIndexMap from List.mem_singleton.mpr rfl)]
    exact hv
  | ⟨3, _⟩ => exact Nat.zero_add _
  | ⟨4, _⟩ => exact Nat.zero_add _
  | ⟨5, _⟩ => exact Nat.zero_add _
  | ⟨6, _⟩ => exact Nat.zero_add _
  | ⟨7, _⟩ => exact Nat.zero_add _
  | ⟨8, _⟩ => exact Nat.zero_add _

/-- THE ROTATION OF WIRE 1 READ AT REGISTER b, BASIS STATE q. -/
theorem ry_apply_1 {B : Nat} (wf : GatherDims.WF (S9 B) S1 (S8 B) [0, 1, 2, 3, 4, 5, 6, 7] [2] [] [2] [] 0 ![B, 2, 1, 2, 2, 2, 2, 2, 2])
    (hb1 : S0.BroadcastsInDim S1 ![]) (hbt : S0.BroadcastsInDim (S8 B) ![]) (hr : S1.ReducesTo [0] S0) (hu : 0 < S0.numel)
    (hx : (S8 B).BroadcastsInDim (U9_1 B) dims_1) (hc : Shape.Concatenates [U9_1 B, U9_1 B] (S9 B) 2)
    (st : FVec Ideal (S9 B) .f32) (th : FVec Ideal S0 .f32) (b : Fin B) (q : Cert.TTN.Q) :
    ryTerm (s := S9 B) (t := S8 B) (u := U9_1 B) 2 dims_1 (takeDims_1 B wf) hb1 hbt hr hu hx hc st th (ix9 b q)
      = if q 1 = 0 then
          Ideal.cos (Ideal.ofBits .f32 0x3F000000#32 * th ix0) * st (ix9 b (Cert.TTN.setBit q 1 0))
            - Ideal.sin (Ideal.ofBits .f32 0x3F000000#32 * th ix0) * st (ix9 b (Cert.TTN.setBit q 1 1))
        else
          Ideal.sin (Ideal.ofBits .f32 0x3F000000#32 * th ix0) * st (ix9 b (Cert.TTN.setBit q 1 0))
            + Ideal.cos (Ideal.ofBits .f32 0x3F000000#32 * th ix0) * st (ix9 b (Cert.TTN.setBit q 1 1)) := by
  rw [ryTerm_apply (s := S9 B) (t := S8 B) (u := U9_1 B) 2 dims_1 (takeDims_1 B wf) hb1 hbt hr hu hx hc st th (ix9 b q)
    (drop_1 (ix9 b q)) rfl rfl (fun a h => dims_1_ne a (congrArg Fin.val h)) (drop_1_val (ix9 b q))]
  rw [gather_1 wf st 0#32 0 rfl, gather_1 wf st 1#32 1 rfl, ins_drop_1, ins_drop_1]
  by_cases hq : q 1 = 0
  · have h2 : (ix9 b q (2 : Fin (S9 B).rank)).val = 0 := congrArg Fin.val hq
    rw [if_pos hq, if_pos h2]
  · have h2 : ¬ (ix9 b q (2 : Fin (S9 B).rank)).val = 0 := fun h => hq (Fin.ext h)
    rw [if_neg hq, if_neg h2]

/-- A slice's index (control bit dropped) with the bit of wire 2 reversed, and the control bit 1 put back: the index of
    the basis state with wire 2 flipped, where the control bit is 1. -/
theorem flip_1_2 {B : Nat} (b : Fin B) (q : Cert.TTN.Q) (hq : q 1 = 1) :
    ins_1 (fun a => if a ∈ [(2 : Fin (S8 B).rank)] then (drop_1 (ix9 b q) a).rev else drop_1 (ix9 b q) a) 1
      = ix9 b (Cert.TTN.setBit q 2 (1 - q 2)) := by
  funext a
  match a with
  | ⟨0, _⟩ => rfl
  | ⟨1, _⟩ => rfl
  | ⟨2, _⟩ => exact hq.symm
  | ⟨3, _⟩ => exact rev2 (q 2)
  | ⟨4, _⟩ => rfl
  | ⟨5, _⟩ => rfl
  | ⟨6, _⟩ => rfl
  | ⟨7, _⟩ => rfl
  | ⟨8, _⟩ => rfl

/-- THE FLIP OF WIRE 2 CONTROLLED BY WIRE 1 READ AT REGISTER b, BASIS STATE q. -/
theorem cx_apply_1_2 {B : Nat} (wf : GatherDims.WF (S9 B) S1 (S8 B) [0, 1, 2, 3, 4, 5, 6, 7] [2] [] [2] [] 0 ![B, 2, 1, 2, 2, 2, 2, 2, 2])
    (hb1 : S0.BroadcastsInDim S1 ![]) (hbt : S0.BroadcastsInDim (S8 B) ![]) (hr : S1.ReducesTo [0] S0) (hu : 0 < S0.numel)
    (hx : (S8 B).BroadcastsInDim (U9_1 B) dims_1) (hc : Shape.Concatenates [U9_1 B, U9_1 B] (S9 B) 2)
    (st : FVec Ideal (S9 B) .f32) (b : Fin B) (q : Cert.TTN.Q) :
    cxTerm (s := S9 B) (t := S8 B) (u := U9_1 B) 2 2 dims_1 (takeDims_1 B wf) hb1 hbt hr hu hx hc st (ix9 b q)
      = if q 1 = 0 then st (ix9 b q) else st (ix9 b (Cert.TTN.setBit q 2 (1 - q 2))) := by
  rw [cxTerm_apply (s := S9 B) (t := S8 B) (u := U9_1 B) 2 2 dims_1 (takeDims_1 B wf) hb1 hbt hr hu hx hc st (ix9 b q)
    (drop_1 (ix9 b q)) rfl rfl (fun a h => dims_1_ne a (congrArg Fin.val h)) (drop_1_val (ix9 b q))]
  rw [gather_1 wf st 0#32 0 rfl, gather_1 wf st 1#32 1 rfl, ins_drop_1]
  by_cases hq : q 1 = 0
  · have h2 : (ix9 b q (2 : Fin (S9 B).rank)).val = 0 := congrArg Fin.val hq
    have e : Cert.TTN.setBit q 1 0 = q := by
      have := Function.update_eq_self (1 : Fin 8) q
      rw [hq] at this
      exact this
    rw [if_pos hq, if_pos h2, e]
  · have h2 : ¬ (ix9 b q (2 : Fin (S9 B).rank)).val = 0 := fun h => hq (Fin.ext h)
    have h1 : q 1 = 1 := Fin.ext (by
      show (q 1).val = 1
      have h3 : (q 1).val ≠ 0 := fun h => hq (Fin.ext h)
      have := (q 1).isLt
      omega)
    rw [if_neg hq, if_neg h2]
    exact congrArg st (flip_1_2 b q h1)

end Cert.TTN.Gates

end
-- ==== Proof.GateReadsW2.lean ====
/-
  Wire 2 of the gate reads (its bit is axis 3 of the state array): the shape with that axis of length one,
  the axes of a slice inside it, the gather that takes a slice; that gather at a constant position read at an index;
  the rotation of the wire read at register b, basis state q; the flip of wire 5 controlled by this wire, read there.
  The general statements these instantiate are in GateReads.lean.
-/
import proofs.«130987_j14276471292017_1_alg».proof.Proof.GateReads

noncomputable section

namespace Cert.TTN.Gates

open Idealize.ShloMosaic Idealize.ShloMosaic.ValueIdx

/-- The state's shape with wire 2's axis of length one; the axes of a slice inside it; the gather that takes a slice. -/
abbrev U9_2 (B : Nat) : Shape := ⟨9, ![B, 2, 2, 1, 2, 2, 2, 2, 2]⟩
abbrev dims_2 : Fin 8 → Fin 9 := ![0, 1, 2, 4, 5, 6, 7, 8]
abbrev takeDims_2 (B : Nat) (wf : GatherDims.WF (S9 B) S1 (S8 B) [0, 1, 2, 3, 4, 5, 6, 7] [3] [] [3] [] 0 ![B, 2, 2, 1, 2, 2, 2, 2, 2]) : GatherDims (S9 B) S1 (S8 B) where
  offsetDims := [0, 1, 2, 3, 4, 5, 6, 7]
  collapsedSliceDims := [3]
  operandBatchingDims := []
  startIndicesBatchingDims := []
  startIndexMap := [3]
  indexVectorDim := 0
  sliceSizes := ![B, 2, 2, 1, 2, 2, 2, 2, 2]
  wf := wf

/-- No axis of a slice is sent to wire 2's axis. -/
theorem dims_2_ne : ∀ a : Fin 8, (dims_2 a).val ≠ 3 := by decide

/-- An index with wire 2's axis dropped, and a slice's index with the bit v put back on that axis. -/
def drop_2 {B : Nat} (j : (S9 B).Idx) : (S8 B).Idx :=
  fun a => match a with | ⟨0, _⟩ => j 0 | ⟨1, _⟩ => j 1 | ⟨2, _⟩ => j 2 | ⟨3, _⟩ => j 4 | ⟨4, _⟩ => j 5 | ⟨5, _⟩ => j 6 | ⟨6, _⟩ => j 7 | ⟨7, _⟩ => j 8
def ins_2 {B : Nat} (k : (S8 B).Idx) (v : Fin 2) : (S9 B).Idx :=
  fun a => match a with | ⟨0, _⟩ => k 0 | ⟨1, _⟩ => k 1 | ⟨2, _⟩ => k 2 | ⟨3, _⟩ => v | ⟨4, _⟩ => k 3 | ⟨5, _⟩ => k 4 | ⟨6, _⟩ => k 5 | ⟨7, _⟩ => k 6 | ⟨8, _⟩ => k 7

theorem drop_2_val {B : Nat} (j : (S9 B).Idx) (a : Fin 8) : (drop_2 j a).val = (j (dims_2 a)).val :=
  match a with
  | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl

/-- Dropping wire 2's bit and putting v back sets the bit. -/
theorem ins_drop_2 {B : Nat} (b : Fin B) (q : Cert.TTN.Q) (v : Fin 2) :
    ins_2 (drop_2 (ix9 b q)) v = ix9 b (Cert.TTN.setBit q 2 v) := by
  funext a
  match a with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl

/-- The gather of wire 2's slice at the constant position p, read at a slice's index: the array at that index
    with the position (clamped into [0, 1]) on wire 2's axis. -/
theorem gather_2 {α : Type} {B : Nat} (wf : GatherDims.WF (S9 B) S1 (S8 B) [0, 1, 2, 3, 4, 5, 6, 7] [3] [] [3] [] 0 ![B, 2, 2, 1, 2, 2, 2, 2, 2])
    (x : (S9 B).Idx → α) (p : BitVec 32) (v : Fin 2) (hv : min p.toInt.toNat 1 = v.val) (k : (S8 B).Idx) :
    Host.gather (takeDims_2 B wf) x (fun _ => p) k = x (ins_2 k v) := by
  unfold Host.gather
  congr 1
  funext a
  refine Fin.ext ?_
  show (takeDims_2 B wf).start k (fun _ => p) a + (takeDims_2 B wf).batchCoord k a + (takeDims_2 B wf).offCoord k a = _
  rw [GatherDims.batchCoord_eq_zero _ _ _ List.not_mem_nil, Nat.add_zero]
  match a with
  | ⟨0, _⟩ => exact Nat.zero_add _
  | ⟨1, _⟩ => exact Nat.zero_add _
  | ⟨2, _⟩ => exact Nat.zero_add _
  | ⟨3, h3⟩ =>
    rw [GatherDims.offCoord_eq_zero _ _ _ (fun h => ((GatherDims.mem_sKept _ _).mp h).1 (List.mem_singleton.mpr rfl)), Nat.add_zero]
    unfold GatherDims.start
    rw [dif_pos (show (⟨3, h3⟩ : Fin (S9 B).rank) ∈ (takeDims_2 B wf).startIndexMap from List.mem_singleton.mpr rfl)]
    exact hv
  | ⟨4, _⟩ => exact Nat.zero_add _
  | ⟨5, _⟩ => exact Nat.zero_add _
  | ⟨6, _⟩ => exact Nat.zero_add _
  | ⟨7, _⟩ => exact Nat.zero_add _
  | ⟨8, _⟩ => exact Nat.zero_add _

/-- THE ROTATION OF WIRE 2 READ AT REGISTER b, BASIS STATE q. -/
theorem ry_apply_2 {B : Nat} (wf : GatherDims.WF (S9 B) S1 (S8 B) [0, 1, 2, 3, 4, 5, 6, 7] [3] [] [3] [] 0 ![B, 2, 2, 1, 2, 2, 2, 2, 2])
    (hb1 : S0.BroadcastsInDim S1 ![]) (hbt : S0.BroadcastsInDim (S8 B) ![]) (hr : S1.ReducesTo [0] S0) (hu : 0 < S0.numel)
    (hx : (S8 B).BroadcastsInDim (U9_2 B) dims_2) (hc : Shape.Concatenates [U9_2 B, U9_2 B] (S9 B) 3)
    (st : FVec Ideal (S9 B) .f32) (th : FVec Ideal S0 .f32) (b : Fin B) (q : Cert.TTN.Q) :
    ryTerm (s := S9 B) (t := S8 B) (u := U9_2 B) 3 dims_2 (takeDims_2 B wf) hb1 hbt hr hu hx hc st th (ix9 b q)
      = if q 2 = 0 then
          Ideal.cos (Ideal.ofBits .f32 0x3F000000#32 * th ix0) * st (ix9 b (Cert.TTN.setBit q 2 0))
            - Ideal.sin (Ideal.ofBits .f32 0x3F000000#32 * th ix0) * st (ix9 b (Cert.TTN.setBit q 2 1))
        else
          Ideal.sin (Ideal.ofBits .f32 0x3F000000#32 * th ix0) * st (ix9 b (Cert.TTN.setBit q 2 0))
            + Ideal.cos (Ideal.ofBits .f32 0x3F000000#32 * th ix0) * st (ix9 b (Cert.TTN.setBit q 2 1)) := by
  rw [ryTerm_apply (s := S9 B) (t := S8 B) (u := U9_2 B) 3 dims_2 (takeDims_2 B wf) hb1 hbt hr hu hx hc st th (ix9 b q)
    (drop_2 (ix9 b q)) rfl rfl (fun a h => dims_2_ne a (congrArg Fin.val h)) (drop_2_val (ix9 b q))]
  rw [gather_2 wf st 0#32 0 rfl, gather_2 wf st 1#32 1 rfl, ins_drop_2, ins_drop_2]
  by_cases hq : q 2 = 0
  · have h2 : (ix9 b q (3 : Fin (S9 B).rank)).val = 0 := congrArg Fin.val hq
    rw [if_pos hq, if_pos h2]
  · have h2 : ¬ (ix9 b q (3 : Fin (S9 B).rank)).val = 0 := fun h => hq (Fin.ext h)
    rw [if_neg hq, if_neg h2]

/-- A slice's index (control bit dropped) with the bit of wire 5 reversed, and the control bit 1 put back: the index of
    the basis state with wire 5 flipped, where the control bit is 1. -/
theorem flip_2_5 {B : Nat} (b : Fin B) (q : Cert.TTN.Q) (hq : q 2 = 1) :
    ins_2 (fun a => if a ∈ [(5 : Fin (S8 B).rank)] then (drop_2 (ix9 b q) a).rev else drop_2 (ix9 b q) a) 1
      = ix9 b (Cert.TTN.setBit q 5 (1 - q 5)) := by
  funext a
  match a with
  | ⟨0, _⟩ => rfl
  | ⟨1, _⟩ => rfl
  | ⟨2, _⟩ => rfl
  | ⟨3, _⟩ => exact hq.symm
  | ⟨4, _⟩ => rfl
  | ⟨5, _⟩ => rfl
  | ⟨6, _⟩ => exact rev2 (q 5)
  | ⟨7, _⟩ => rfl
  | ⟨8, _⟩ => rfl

/-- THE FLIP OF WIRE 5 CONTROLLED BY WIRE 2 READ AT REGISTER b, BASIS STATE q. -/
theorem cx_apply_2_5 {B : Nat} (wf : GatherDims.WF (S9 B) S1 (S8 B) [0, 1, 2, 3, 4, 5, 6, 7] [3] [] [3] [] 0 ![B, 2, 2, 1, 2, 2, 2, 2, 2])
    (hb1 : S0.BroadcastsInDim S1 ![]) (hbt : S0.BroadcastsInDim (S8 B) ![]) (hr : S1.ReducesTo [0] S0) (hu : 0 < S0.numel)
    (hx : (S8 B).BroadcastsInDim (U9_2 B) dims_2) (hc : Shape.Concatenates [U9_2 B, U9_2 B] (S9 B) 3)
    (st : FVec Ideal (S9 B) .f32) (b : Fin B) (q : Cert.TTN.Q) :
    cxTerm (s := S9 B) (t := S8 B) (u := U9_2 B) 3 5 dims_2 (takeDims_2 B wf) hb1 hbt hr hu hx hc st (ix9 b q)
      = if q 2 = 0 then st (ix9 b q) else st (ix9 b (Cert.TTN.setBit q 5 (1 - q 5))) := by
  rw [cxTerm_apply (s := S9 B) (t := S8 B) (u := U9_2 B) 3 5 dims_2 (takeDims_2 B wf) hb1 hbt hr hu hx hc st (ix9 b q)
    (drop_2 (ix9 b q)) rfl rfl (fun a h => dims_2_ne a (congrArg Fin.val h)) (drop_2_val (ix9 b q))]
  rw [gather_2 wf st 0#32 0 rfl, gather_2 wf st 1#32 1 rfl, ins_drop_2]
  by_cases hq : q 2 = 0
  · have h2 : (ix9 b q (3 : Fin (S9 B).rank)).val = 0 := congrArg Fin.val hq
    have e : Cert.TTN.setBit q 2 0 = q := by
      have := Function.update_eq_self (2 : Fin 8) q
      rw [hq] at this
      exact this
    rw [if_pos hq, if_pos h2, e]
  · have h2 : ¬ (ix9 b q (3 : Fin (S9 B).rank)).val = 0 := fun h => hq (Fin.ext h)
    have h1 : q 2 = 1 := Fin.ext (by
      show (q 2).val = 1
      have h3 : (q 2).val ≠ 0 := fun h => hq (Fin.ext h)
      have := (q 2).isLt
      omega)
    rw [if_neg hq, if_neg h2]
    exact congrArg st (flip_2_5 b q h1)

end Cert.TTN.Gates

end
-- ==== Proof.GateReadsW3.lean ====
/-
  Wire 3 of the gate reads (its bit is axis 4 of the state array): the shape with that axis of length one,
  the axes of a slice inside it, the gather that takes a slice; that gather at a constant position read at an index;
  the rotation of the wire read at register b, basis state q; the flip of wire 2 controlled by this wire, read there.
  The general statements these instantiate are in GateReads.lean.
-/
import proofs.«130987_j14276471292017_1_alg».proof.Proof.GateReads

noncomputable section

namespace Cert.TTN.Gates

open Idealize.ShloMosaic Idealize.ShloMosaic.ValueIdx

/-- The state's shape with wire 3's axis of length one; the axes of a slice inside it; the gather that takes a slice. -/
abbrev U9_3 (B : Nat) : Shape := ⟨9, ![B, 2, 2, 2, 1, 2, 2, 2, 2]⟩
abbrev dims_3 : Fin 8 → Fin 9 := ![0, 1, 2, 3, 5, 6, 7, 8]
abbrev takeDims_3 (B : Nat) (wf : GatherDims.WF (S9 B) S1 (S8 B) [0, 1, 2, 3, 4, 5, 6, 7] [4] [] [4] [] 0 ![B, 2, 2, 2, 1, 2, 2, 2, 2]) : GatherDims (S9 B) S1 (S8 B) where
  offsetDims := [0, 1, 2, 3, 4, 5, 6, 7]
  collapsedSliceDims := [4]
  operandBatchingDims := []
  startIndicesBatchingDims := []
  startIndexMap := [4]
  indexVectorDim := 0
  sliceSizes := ![B, 2, 2, 2, 1, 2, 2, 2, 2]
  wf := wf

/-- No axis of a slice is sent to wire 3's axis. -/
theorem dims_3_ne : ∀ a : Fin 8, (dims_3 a).val ≠ 4 := by decide

/-- An index with wire 3's axis dropped, and a slice's index with the bit v put back on that axis. -/
def drop_3 {B : Nat} (j : (S9 B).Idx) : (S8 B).Idx :=
  fun a => match a with | ⟨0, _⟩ => j 0 | ⟨1, _⟩ => j 1 | ⟨2, _⟩ => j 2 | ⟨3, _⟩ => j 3 | ⟨4, _⟩ => j 5 | ⟨5, _⟩ => j 6 | ⟨6, _⟩ => j 7 | ⟨7, _⟩ => j 8
def ins_3 {B : Nat} (k : (S8 B).Idx) (v : Fin 2) : (S9 B).Idx :=
  fun a => match a with | ⟨0, _⟩ => k 0 | ⟨1, _⟩ => k 1 | ⟨2, _⟩ => k 2 | ⟨3, _⟩ => k 3 | ⟨4, _⟩ => v | ⟨5, _⟩ => k 4 | ⟨6, _⟩ => k 5 | ⟨7, _⟩ => k 6 | ⟨8, _⟩ => k 7

theorem drop_3_val {B : Nat} (j : (S9 B).Idx) (a : Fin 8) : (drop_3 j a).val = (j (dims_3 a)).val :=
  match a with
  | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl

/-- Dropping wire 3's bit and putting v back sets the bit. -/
theorem ins_drop_3 {B : Nat} (b : Fin B) (q : Cert.TTN.Q) (v : Fin 2) :
    ins_3 (drop_3 (ix9 b q)) v = ix9 b (Cert.TTN.setBit q 3 v) := by
  funext a
  match a with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl

/-- The gather of wire 3's slice at the constant position p, read at a slice's index: the array at that index
    with the position (clamped into [0, 1]) on wire 3's axis. -/
theorem gather_3 {α : Type} {B : Nat} (wf : GatherDims.WF (S9 B) S1 (S8 B) [0, 1, 2, 3, 4, 5, 6, 7] [4] [] [4] [] 0 ![B, 2, 2, 2, 1, 2, 2, 2, 2])
    (x : (S9 B).Idx → α) (p : BitVec 32) (v : Fin 2) (hv : min p.toInt.toNat 1 = v.val) (k : (S8 B).Idx) :
    Host.gather (takeDims_3 B wf) x (fun _ => p) k = x (ins_3 k v) := by
  unfold Host.gather
  congr 1
  funext a
  refine Fin.ext ?_
  show (takeDims_3 B wf).start k (fun _ => p) a + (takeDims_3 B wf).batchCoord k a + (takeDims_3 B wf).offCoord k a = _
  rw [GatherDims.batchCoord_eq_zero _ _ _ List.not_mem_nil, Nat.add_zero]
  match a with
  | ⟨0, _⟩ => exact Nat.zero_add _
  | ⟨1, _⟩ => exact Nat.zero_add _
  | ⟨2, _⟩ => exact Nat.zero_add _
  | ⟨3, _⟩ => exact Nat.zero_add _
  | ⟨4, h4⟩ =>
    rw [GatherDims.offCoord_eq_zero _ _ _ (fun h => ((GatherDims.mem_sKept _ _).mp h).1 (List.mem_singleton.mpr rfl)), Nat.add_zero]
    unfold GatherDims.start
    rw [dif_pos (show (⟨4, h4⟩ : Fin (S9 B).rank) ∈ (takeDims_3 B wf).startIndexMap from List.mem_singleton.mpr rfl)]
    exact hv
  | ⟨5, _⟩ => exact Nat.zero_add _
  | ⟨6, _⟩ => exact Nat.zero_add _
  | ⟨7, _⟩ => exact Nat.zero_add _
  | ⟨8, _⟩ => exact Nat.zero_add _

/-- THE ROTATION OF WIRE 3 READ AT REGISTER b, BASIS STATE q. -/
theorem ry_apply_3 {B : Nat} (wf : GatherDims.WF (S9 B) S1 (S8 B) [0, 1, 2, 3, 4, 5, 6, 7] [4] [] [4] [] 0 ![B, 2, 2, 2, 1, 2, 2, 2, 2])
    (hb1 : S0.BroadcastsInDim S1 ![]) (hbt : S0.BroadcastsInDim (S8 B) ![]) (hr : S1.ReducesTo [0] S0) (hu : 0 < S0.numel)
    (hx : (S8 B).BroadcastsInDim (U9_3 B) dims_3) (hc : Shape.Concatenates [U9_3 B, U9_3 B] (S9 B) 4)
    (st : FVec Ideal (S9 B) .f32) (th : FVec Ideal S0 .f32) (b : Fin B) (q : Cert.TTN.Q) :
    ryTerm (s := S9 B) (t := S8 B) (u := U9_3 B) 4 dims_3 (takeDims_3 B wf) hb1 hbt hr hu hx hc st th (ix9 b q)
      = if q 3 = 0 then
          Ideal.cos (Ideal.ofBits .f32 0x3F000000#32 * th ix0) * st (ix9 b (Cert.TTN.setBit q 3 0))
            - Ideal.sin (Ideal.ofBits .f32 0x3F000000#32 * th ix0) * st (ix9 b (Cert.TTN.setBit q 3 1))
        else
          Ideal.sin (Ideal.ofBits .f32 0x3F000000#32 * th ix0) * st (ix9 b (Cert.TTN.setBit q 3 0))
            + Ideal.cos (Ideal.ofBits .f32 0x3F000000#32 * th ix0) * st (ix9 b (Cert.TTN.setBit q 3 1)) := by
  rw [ryTerm_apply (s := S9 B) (t := S8 B) (u := U9_3 B) 4 dims_3 (takeDims_3 B wf) hb1 hbt hr hu hx hc st th (ix9 b q)
    (drop_3 (ix9 b q)) rfl rfl (fun a h => dims_3_ne a (congrArg Fin.val h)) (drop_3_val (ix9 b q))]
  rw [gather_3 wf st 0#32 0 rfl, gather_3 wf st 1#32 1 rfl, ins_drop_3, ins_drop_3]
  by_cases hq : q 3 = 0
  · have h2 : (ix9 b q (4 : Fin (S9 B).rank)).val = 0 := congrArg Fin.val hq
    rw [if_pos hq, if_pos h2]
  · have h2 : ¬ (ix9 b q (4 : Fin (S9 B).rank)).val = 0 := fun h => hq (Fin.ext h)
    rw [if_neg hq, if_neg h2]

/-- A slice's index (control bit dropped) with the bit of wire 2 reversed, and the control bit 1 put back: the index of
    the basis state with wire 2 flipped, where the control bit is 1. -/
theorem flip_3_2 {B : Nat} (b : Fin B) (q : Cert.TTN.Q) (hq : q 3 = 1) :
    ins_3 (fun a => if a ∈ [(3 : Fin (S8 B).rank)] then (drop_3 (ix9 b q) a).rev else drop_3 (ix9 b q) a) 1
      = ix9 b (Cert.TTN.setBit q 2 (1 - q 2)) := by
  funext a
  match a with
  | ⟨0, _⟩ => rfl
  | ⟨1, _⟩ => rfl
  | ⟨2, _⟩ => rfl
  | ⟨3, _⟩ => exact rev2 (q 2)
  | ⟨4, _⟩ => exact hq.symm
  | ⟨5, _⟩ => rfl
  | ⟨6, _⟩ => rfl
  | ⟨7, _⟩ => rfl
  | ⟨8, _⟩ => rfl

/-- THE FLIP OF WIRE 2 CONTROLLED BY WIRE 3 READ AT REGISTER b, BASIS STATE q. -/
theorem cx_apply_3_2 {B : Nat} (wf : GatherDims.WF (S9 B) S1 (S8 B) [0, 1, 2, 3, 4, 5, 6, 7] [4] [] [4] [] 0 ![B, 2, 2, 2, 1, 2, 2, 2, 2])
    (hb1 : S0.BroadcastsInDim S1 ![]) (hbt : S0.BroadcastsInDim (S8 B) ![]) (hr : S1.ReducesTo [0] S0) (hu : 0 < S0.numel)
    (hx : (S8 B).BroadcastsInDim (U9_3 B) dims_3) (hc : Shape.Concatenates [U9_3 B, U9_3 B] (S9 B) 4)
    (st : FVec Ideal (S9 B) .f32) (b : Fin B) (q : Cert.TTN.Q) :
    cxTerm (s := S9 B) (t := S8 B) (u := U9_3 B) 4 3 dims_3 (takeDims_3 B wf) hb1 hbt hr hu hx hc st (ix9 b q)
      = if q 3 = 0 then st (ix9 b q) else st (ix9 b (Cert.TTN.setBit q 2 (1 - q 2))) := by
  rw [cxTerm_apply (s := S9 B) (t := S8 B) (u := U9_3 B) 4 3 dims_3 (takeDims_3 B wf) hb1 hbt hr hu hx hc st (ix9 b q)
    (drop_3 (ix9 b q)) rfl rfl (fun a h => dims_3_ne a (congrArg Fin.val h)) (drop_3_val (ix9 b q))]
  rw [gather_3 wf st 0#32 0 rfl, gather_3 wf st 1#32 1 rfl, ins_drop_3]
  by_cases hq : q 3 = 0
  · have h2 : (ix9 b q (4 : Fin (S9 B).rank)).val = 0 := congrArg Fin.val hq
    have e : Cert.TTN.setBit q 3 0 = q := by
      have := Function.update_eq_self (3 : Fin 8) q
      rw [hq] at this
      exact this
    rw [if_pos hq, if_pos h2, e]
  · have h2 : ¬ (ix9 b q (4 : Fin (S9 B).rank)).val = 0 := fun h => hq (Fin.ext h)
    have h1 : q 3 = 1 := Fin.ext (by
      show (q 3).val = 1
      have h3 : (q 3).val ≠ 0 := fun h => hq (Fin.ext h)
      have := (q 3).isLt
      omega)
    rw [if_neg hq, if_neg h2]
    exact congrArg st (flip_3_2 b q h1)

end Cert.TTN.Gates

end
-- ==== Proof.GateReadsW4.lean ====
/-
  Wire 4 of the gate reads (its bit is axis 5 of the state array): the shape with that axis of length one,
  the axes of a slice inside it, the gather that takes a slice; that gather at a constant position read at an index;
  the rotation of the wire read at register b, basis state q; the flip of wire 5 controlled by this wire, read there.
  The general statements these instantiate are in GateReads.lean.
-/
import proofs.«130987_j14276471292017_1_alg».proof.Proof.GateReads

noncomputable section

namespace Cert.TTN.Gates

open Idealize.ShloMosaic Idealize.ShloMosaic.ValueIdx

/-- The state's shape with wire 4's axis of length one; the axes of a slice inside it; the gather that takes a slice. -/
abbrev U9_4 (B : Nat) : Shape := ⟨9, ![B, 2, 2, 2, 2, 1, 2, 2, 2]⟩
abbrev dims_4 : Fin 8 → Fin 9 := ![0, 1, 2, 3, 4, 6, 7, 8]
abbrev takeDims_4 (B : Nat) (wf : GatherDims.WF (S9 B) S1 (S8 B) [0, 1, 2, 3, 4, 5, 6, 7] [5] [] [5] [] 0 ![B, 2, 2, 2, 2, 1, 2, 2, 2]) : GatherDims (S9 B) S1 (S8 B) where
  offsetDims := [0, 1, 2, 3, 4, 5, 6, 7]
  collapsedSliceDims := [5]
  operandBatchingDims := []
  startIndicesBatchingDims := []
  startIndexMap := [5]
  indexVectorDim := 0
  sliceSizes := ![B, 2, 2, 2, 2, 1, 2, 2, 2]
  wf := wf

/-- No axis of a slice is sent to wire 4's axis. -/
theorem dims_4_ne : ∀ a : Fin 8, (dims_4 a).val ≠ 5 := by decide

/-- An index with wire 4's axis dropped, and a slice's index with the bit v put back on that axis. -/
def drop_4 {B : Nat} (j : (S9 B).Idx) : (S8 B).Idx :=
  fun a => match a with | ⟨0, _⟩ => j 0 | ⟨1, _⟩ => j 1 | ⟨2, _⟩ => j 2 | ⟨3, _⟩ => j 3 | ⟨4, _⟩ => j 4 | ⟨5, _⟩ => j 6 | ⟨6, _⟩ => j 7 | ⟨7, _⟩ => j 8
def ins_4 {B : Nat} (k : (S8 B).Idx) (v : Fin 2) : (S9 B).Idx :=
  fun a => match a with | ⟨0, _⟩ => k 0 | ⟨1, _⟩ => k 1 | ⟨2, _⟩ => k 2 | ⟨3, _⟩ => k 3 | ⟨4, _⟩ => k 4 | ⟨5, _⟩ => v | ⟨6, _⟩ => k 5 | ⟨7, _⟩ => k 6 | ⟨8, _⟩ => k 7

theorem drop_4_val {B : Nat} (j : (S9 B).Idx) (a : Fin 8) : (drop_4 j a).val = (j (dims_4 a)).val :=
  match a with
  | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl

/-- Dropping wire 4's bit and putting v back sets the bit. -/
theorem ins_drop_4 {B : Nat} (b : Fin B) (q : Cert.TTN.Q) (v : Fin 2) :
    ins_4 (drop_4 (ix9 b q)) v = ix9 b (Cert.TTN.setBit q 4 v) := by
  funext a
  match a with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl

/-- The gather of wire 4's slice at the constant position p, read at a slice's index: the array at that index
    with the position (clamped into [0, 1]) on wire 4's axis. -/
theorem gather_4 {α : Type} {B : Nat} (wf : GatherDims.WF (S9 B) S1 (S8 B) [0, 1, 2, 3, 4, 5, 6, 7] [5] [] [5] [] 0 ![B, 2, 2, 2, 2, 1, 2, 2, 2])
    (x : (S9 B).Idx → α) (p : BitVec 32) (v : Fin 2) (hv : min p.toInt.toNat 1 = v.val) (k : (S8 B).Idx) :
    Host.gather (takeDims_4 B wf) x (fun _ => p) k = x (ins_4 k v) := by
  unfold Host.gather
  congr 1
  funext a
  refine Fin.ext ?_
  show (takeDims_4 B wf).start k (fun _ => p) a + (takeDims_4 B wf).batchCoord k a + (takeDims_4 B wf).offCoord k a = _
  rw [GatherDims.batchCoord_eq_zero _ _ _ List.not_mem_nil, Nat.add_zero]
  match a with
  | ⟨0, _⟩ => exact Nat.zero_add _
  | ⟨1, _⟩ => exact Nat.zero_add _
  | ⟨2, _⟩ => exact Nat.zero_add _
  | ⟨3, _⟩ => exact Nat.zero_add _
  | ⟨4, _⟩ => exact Nat.zero_add _
  | ⟨5, h5⟩ =>
    rw [GatherDims.offCoord_eq_zero _ _ _ (fun h => ((GatherDims.mem_sKept _ _).mp h).1 (List.mem_singleton.mpr rfl)), Nat.add_zero]
    unfold GatherDims.start
    rw [dif_pos (show (⟨5, h5⟩ : Fin (S9 B).rank) ∈ (takeDims_4 B wf).startIndexMap from List.mem_singleton.mpr rfl)]
    exact hv
  | ⟨6, _⟩ => exact Nat.zero_add _
  | ⟨7, _⟩ => exact Nat.zero_add _
  | ⟨8, _⟩ => exact Nat.zero_add _

/-- THE ROTATION OF WIRE 4 READ AT REGISTER b, BASIS STATE q. -/
theorem ry_apply_4 {B : Nat} (wf : GatherDims.WF (S9 B) S1 (S8 B) [0, 1, 2, 3, 4, 5, 6, 7] [5] [] [5] [] 0 ![B, 2, 2, 2, 2, 1, 2, 2, 2])
    (hb1 : S0.BroadcastsInDim S1 ![]) (hbt : S0.BroadcastsInDim (S8 B) ![]) (hr : S1.ReducesTo [0] S0) (hu : 0 < S0.numel)
    (hx : (S8 B).BroadcastsInDim (U9_4 B) dims_4) (hc : Shape.Concatenates [U9_4 B, U9_4 B] (S9 B) 5)
    (st : FVec Ideal (S9 B) .f32) (th : FVec Ideal S0 .f32) (b : Fin B) (q : Cert.TTN.Q) :
    ryTerm (s := S9 B) (t := S8 B) (u := U9_4 B) 5 dims_4 (takeDims_4 B wf) hb1 hbt hr hu hx hc st th (ix9 b q)
      = if q 4 = 0 then
          Ideal.cos (Ideal.ofBits .f32 0x3F000000#32 * th ix0) * st (ix9 b (Cert.TTN.setBit q 4 0))
            - Ideal.sin (Ideal.ofBits .f32 0x3F000000#32 * th ix0) * st (ix9 b (Cert.TTN.setBit q 4 1))
        else
          Ideal.sin (Ideal.ofBits .f32 0x3F000000#32 * th ix0) * st (ix9 b (Cert.TTN.setBit q 4 0))
            + Ideal.cos (Ideal.ofBits .f32 0x3F000000#32 * th ix0) * st (ix9 b (Cert.TTN.setBit q 4 1)) := by
  rw [ryTerm_apply (s := S9 B) (t := S8 B) (u := U9_4 B) 5 dims_4 (takeDims_4 B wf) hb1 hbt hr hu hx hc st th (ix9 b q)
    (drop_4 (ix9 b q)) rfl rfl (fun a h => dims_4_ne a (congrArg Fin.val h)) (drop_4_val (ix9 b q))]
  rw [gather_4 wf st 0#32 0 rfl, gather_4 wf st 1#32 1 rfl, ins_drop_4, ins_drop_4]
  by_cases hq : q 4 = 0
  · have h2 : (ix9 b q (5 : Fin (S9 B).rank)).val = 0 := congrArg Fin.val hq
    rw [if_pos hq, if_pos h2]
  · have h2 : ¬ (ix9 b q (5 : Fin (S9 B).rank)).val = 0 := fun h => hq (Fin.ext h)
    rw [if_neg hq, if_neg h2]

/-- A slice's index (control bit dropped) with the bit of wire 5 reversed, and the control bit 1 put back: the index of
    the basis state with wire 5 flipped, where the control bit is 1. -/
theorem flip_4_5 {B : Nat} (b : Fin B) (q : Cert.TTN.Q) (hq : q 4 = 1) :
    ins_4 (fun a => if a ∈ [(5 : Fin (S8 B).rank)] then (drop_4 (ix9 b q) a).rev else drop_4 (ix9 b q) a) 1
      = ix9 b (Cert.TTN.setBit q 5 (1 - q 5)) := by
  funext a
  match a with
  | ⟨0, _⟩ => rfl
  | ⟨1, _⟩ => rfl
  | ⟨2, _⟩ => rfl
  | ⟨3, _⟩ => rfl
  | ⟨4, _⟩ => rfl
  | ⟨5, _⟩ => exact hq.symm
  | ⟨6, _⟩ => exact rev2 (q 5)
  | ⟨7, _⟩ => rfl
  | ⟨8, _⟩ => rfl

/-- THE FLIP OF WIRE 5 CONTROLLED BY WIRE 4 READ AT REGISTER b, BASIS STATE q. -/
theorem cx_apply_4_5 {B : Nat} (wf : GatherDims.WF (S9 B) S1 (S8 B) [0, 1, 2, 3, 4, 5, 6, 7] [5] [] [5] [] 0 ![B, 2, 2, 2, 2, 1, 2, 2, 2])
    (hb1 : S0.BroadcastsInDim S1 ![]) (hbt : S0.BroadcastsInDim (S8 B) ![]) (hr : S1.ReducesTo [0] S0) (hu : 0 < S0.numel)
    (hx : (S8 B).BroadcastsInDim (U9_4 B) dims_4) (hc : Shape.Concatenates [U9_4 B, U9_4 B] (S9 B) 5)
    (st : FVec Ideal (S9 B) .f32) (b : Fin B) (q : Cert.TTN.Q) :
    cxTerm (s := S9 B) (t := S8 B) (u := U9_4 B) 5 5 dims_4 (takeDims_4 B wf) hb1 hbt hr hu hx hc st (ix9 b q)
      = if q 4 = 0 then st (ix9 b q) else st (ix9 b (Cert.TTN.setBit q 5 (1 - q 5))) := by
  rw [cxTerm_apply (s := S9 B) (t := S8 B) (u := U9_4 B) 5 5 dims_4 (takeDims_4 B wf) hb1 hbt hr hu hx hc st (ix9 b q)
    (drop_4 (ix9 b q)) rfl rfl (fun a h => dims_4_ne a (congrArg Fin.val h)) (drop_4_val (ix9 b q))]
  rw [gather_4 wf st 0#32 0 rfl, gather_4 wf st 1#32 1 rfl, ins_drop_4]
  by_cases hq : q 4 = 0
  · have h2 : (ix9 b q (5 : Fin (S9 B).rank)).val = 0 := congrArg Fin.val hq
    have e : Cert.TTN.setBit q 4 0 = q := by
      have := Function.update_eq_self (4 : Fin 8) q
      rw [hq] at this
      exact this
    rw [if_pos hq, if_pos h2, e]
  · have h2 : ¬ (ix9 b q (5 : Fin (S9 B).rank)).val = 0 := fun h => hq (Fin.ext h)
    have h1 : q 4 = 1 := Fin.ext (by
      show (q 4).val = 1
      have h3 : (q 4).val ≠ 0 := fun h => hq (Fin.ext h)
      have := (q 4).isLt
      omega)
    rw [if_neg hq, if_neg h2]
    exact congrArg st (flip_4_5 b q h1)

end Cert.TTN.Gates

end
-- ==== Proof.GateReadsW5.lean ====
/-
  Wire 5 of the gate reads (its bit is axis 6 of the state array): the shape with that axis of length one,
  the axes of a slice inside it, the gather that takes a slice; that gather at a constant position read at an index;
  the rotation of the wire read at register b, basis state q.
  The general statements these instantiate are in GateReads.lean.
-/
import proofs.«130987_j14276471292017_1_alg».proof.Proof.GateReads

noncomputable section

namespace Cert.TTN.Gates

open Idealize.ShloMosaic Idealize.ShloMosaic.ValueIdx

/-- The state's shape with wire 5's axis of length one; the axes of a slice inside it; the gather that takes a slice. -/
abbrev U9_5 (B : Nat) : Shape := ⟨9, ![B, 2, 2, 2, 2, 2, 1, 2, 2]⟩
abbrev dims_5 : Fin 8 → Fin 9 := ![0, 1, 2, 3, 4, 5, 7, 8]
abbrev takeDims_5 (B : Nat) (wf : GatherDims.WF (S9 B) S1 (S8 B) [0, 1, 2, 3, 4, 5, 6, 7] [6] [] [6] [] 0 ![B, 2, 2, 2, 2, 2, 1, 2, 2]) : GatherDims (S9 B) S1 (S8 B) where
  offsetDims := [0, 1, 2, 3, 4, 5, 6, 7]
  collapsedSliceDims := [6]
  operandBatchingDims := []
  startIndicesBatchingDims := []
  startIndexMap := [6]
  indexVectorDim := 0
  sliceSizes := ![B, 2, 2, 2, 2, 2, 1, 2, 2]
  wf := wf

/-- No axis of a slice is sent to wire 5's axis. -/
theorem dims_5_ne : ∀ a : Fin 8, (dims_5 a).val ≠ 6 := by decide

/-- An index with wire 5's axis dropped, and a slice's index with the bit v put back on that axis. -/
def drop_5 {B : Nat} (j : (S9 B).Idx) : (S8 B).Idx :=
  fun a => match a with | ⟨0, _⟩ => j 0 | ⟨1, _⟩ => j 1 | ⟨2, _⟩ => j 2 | ⟨3, _⟩ => j 3 | ⟨4, _⟩ => j 4 | ⟨5, _⟩ => j 5 | ⟨6, _⟩ => j 7 | ⟨7, _⟩ => j 8
def ins_5 {B : Nat} (k : (S8 B).Idx) (v : Fin 2) : (S9 B).Idx :=
  fun a => match a with | ⟨0, _⟩ => k 0 | ⟨1, _⟩ => k 1 | ⟨2, _⟩ => k 2 | ⟨3, _⟩ => k 3 | ⟨4, _⟩ => k 4 | ⟨5, _⟩ => k 5 | ⟨6, _⟩ => v | ⟨7, _⟩ => k 6 | ⟨8, _⟩ => k 7

theorem drop_5_val {B : Nat} (j : (S9 B).Idx) (a : Fin 8) : (drop_5 j a).val = (j (dims_5 a)).val :=
  match a with
  | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl

/-- Dropping wire 5's bit and putting v back sets the bit. -/
theorem ins_drop_5 {B : Nat} (b : Fin B) (q : Cert.TTN.Q) (v : Fin 2) :
    ins_5 (drop_5 (ix9 b q)) v = ix9 b (Cert.TTN.setBit q 5 v) := by
  funext a
  match a with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl

/-- The gather of wire 5's slice at the constant position p, read at a slice's index: the array at that index
    with the position (clamped into [0, 1]) on wire 5's axis. -/
theorem gather_5 {α : Type} {B : Nat} (wf : GatherDims.WF (S9 B) S1 (S8 B) [0, 1, 2, 3, 4, 5, 6, 7] [6] [] [6] [] 0 ![B, 2, 2, 2, 2, 2, 1, 2, 2])
    (x : (S9 B).Idx → α) (p : BitVec 32) (v : Fin 2) (hv : min p.toInt.toNat 1 = v.val) (k : (S8 B).Idx) :
    Host.gather (takeDims_5 B wf) x (fun _ => p) k = x (ins_5 k v) := by
  unfold Host.gather
  congr 1
  funext a
  refine Fin.ext ?_
  show (takeDims_5 B wf).start k (fun _ => p) a + (takeDims_5 B wf).batchCoord k a + (takeDims_5 B wf).offCoord k a = _
  rw [GatherDims.batchCoord_eq_zero _ _ _ List.not_mem_nil, Nat.add_zero]
  match a with
  | ⟨0, _⟩ => exact Nat.zero_add _
  | ⟨1, _⟩ => exact Nat.zero_add _
  | ⟨2, _⟩ => exact Nat.zero_add _
  | ⟨3, _⟩ => exact Nat.zero_add _
  | ⟨4, _⟩ => exact Nat.zero_add _
  | ⟨5, _⟩ => exact Nat.zero_add _
  | ⟨6, h6⟩ =>
    rw [GatherDims.offCoord_eq_zero _ _ _ (fun h => ((GatherDims.mem_sKept _ _).mp h).1 (List.mem_singleton.mpr rfl)), Nat.add_zero]
    unfold GatherDims.start
    rw [dif_pos (show (⟨6, h6⟩ : Fin (S9 B).rank) ∈ (takeDims_5 B wf).startIndexMap from List.mem_singleton.mpr rfl)]
    exact hv
  | ⟨7, _⟩ => exact Nat.zero_add _
  | ⟨8, _⟩ => exact Nat.zero_add _

/-- THE ROTATION OF WIRE 5 READ AT REGISTER b, BASIS STATE q. -/
theorem ry_apply_5 {B : Nat} (wf : GatherDims.WF (S9 B) S1 (S8 B) [0, 1, 2, 3, 4, 5, 6, 7] [6] [] [6] [] 0 ![B, 2, 2, 2, 2, 2, 1, 2, 2])
    (hb1 : S0.BroadcastsInDim S1 ![]) (hbt : S0.BroadcastsInDim (S8 B) ![]) (hr : S1.ReducesTo [0] S0) (hu : 0 < S0.numel)
    (hx : (S8 B).BroadcastsInDim (U9_5 B) dims_5) (hc : Shape.Concatenates [U9_5 B, U9_5 B] (S9 B) 6)
    (st : FVec Ideal (S9 B) .f32) (th : FVec Ideal S0 .f32) (b : Fin B) (q : Cert.TTN.Q) :
    ryTerm (s := S9 B) (t := S8 B) (u := U9_5 B) 6 dims_5 (takeDims_5 B wf) hb1 hbt hr hu hx hc st th (ix9 b q)
      = if q 5 = 0 then
          Ideal.cos (Ideal.ofBits .f32 0x3F000000#32 * th ix0) * st (ix9 b (Cert.TTN.setBit q 5 0))
            - Ideal.sin (Ideal.ofBits .f32 0x3F000000#32 * th ix0) * st (ix9 b (Cert.TTN.setBit q 5 1))
        else
          Ideal.sin (Ideal.ofBits .f32 0x3F000000#32 * th ix0) * st (ix9 b (Cert.TTN.setBit q 5 0))
            + Ideal.cos (Ideal.ofBits .f32 0x3F000000#32 * th ix0) * st (ix9 b (Cert.TTN.setBit q 5 1)) := by
  rw [ryTerm_apply (s := S9 B) (t := S8 B) (u := U9_5 B) 6 dims_5 (takeDims_5 B wf) hb1 hbt hr hu hx hc st th (ix9 b q)
    (drop_5 (ix9 b q)) rfl rfl (fun a h => dims_5_ne a (congrArg Fin.val h)) (drop_5_val (ix9 b q))]
  rw [gather_5 wf st 0#32 0 rfl, gather_5 wf st 1#32 1 rfl, ins_drop_5, ins_drop_5]
  by_cases hq : q 5 = 0
  · have h2 : (ix9 b q (6 : Fin (S9 B).rank)).val = 0 := congrArg Fin.val hq
    rw [if_pos hq, if_pos h2]
  · have h2 : ¬ (ix9 b q (6 : Fin (S9 B).rank)).val = 0 := fun h => hq (Fin.ext h)
    rw [if_neg hq, if_neg h2]

end Cert.TTN.Gates

end
-- ==== Proof.GateReadsW6.lean ====
/-
  Wire 6 of the gate reads (its bit is axis 7 of the state array): the shape with that axis of length one,
  the axes of a slice inside it, the gather that takes a slice; that gather at a constant position read at an index;
  the rotation of the wire read at register b, basis state q; the flip of wire 5 controlled by this wire, read there.
  The general statements these instantiate are in GateReads.lean.
-/
import proofs.«130987_j14276471292017_1_alg».proof.Proof.GateReads

noncomputable section

namespace Cert.TTN.Gates

open Idealize.ShloMosaic Idealize.ShloMosaic.ValueIdx

/-- The state's shape with wire 6's axis of length one; the axes of a slice inside it; the gather that takes a slice. -/
abbrev U9_6 (B : Nat) : Shape := ⟨9, ![B, 2, 2, 2, 2, 2, 2, 1, 2]⟩
abbrev dims_6 : Fin 8 → Fin 9 := ![0, 1, 2, 3, 4, 5, 6, 8]
abbrev takeDims_6 (B : Nat) (wf : GatherDims.WF (S9 B) S1 (S8 B) [0, 1, 2, 3, 4, 5, 6, 7] [7] [] [7] [] 0 ![B, 2, 2, 2, 2, 2, 2, 1, 2]) : GatherDims (S9 B) S1 (S8 B) where
  offsetDims := [0, 1, 2, 3, 4, 5, 6, 7]
  collapsedSliceDims := [7]
  operandBatchingDims := []
  startIndicesBatchingDims := []
  startIndexMap := [7]
  indexVectorDim := 0
  sliceSizes := ![B, 2, 2, 2, 2, 2, 2, 1, 2]
  wf := wf

/-- No axis of a slice is sent to wire 6's axis. -/
theorem dims_6_ne : ∀ a : Fin 8, (dims_6 a).val ≠ 7 := by decide

/-- An index with wire 6's axis dropped, and a slice's index with the bit v put back on that axis. -/
def drop_6 {B : Nat} (j : (S9 B).Idx) : (S8 B).Idx :=
  fun a => match a with | ⟨0, _⟩ => j 0 | ⟨1, _⟩ => j 1 | ⟨2, _⟩ => j 2 | ⟨3, _⟩ => j 3 | ⟨4, _⟩ => j 4 | ⟨5, _⟩ => j 5 | ⟨6, _⟩ => j 6 | ⟨7, _⟩ => j 8
def ins_6 {B : Nat} (k : (S8 B).Idx) (v : Fin 2) : (S9 B).Idx :=
  fun a => match a with | ⟨0, _⟩ => k 0 | ⟨1, _⟩ => k 1 | ⟨2, _⟩ => k 2 | ⟨3, _⟩ => k 3 | ⟨4, _⟩ => k 4 | ⟨5, _⟩ => k 5 | ⟨6, _⟩ => k 6 | ⟨7, _⟩ => v | ⟨8, _⟩ => k 7

theorem drop_6_val {B : Nat} (j : (S9 B).Idx) (a : Fin 8) : (drop_6 j a).val = (j (dims_6 a)).val :=
  match a with
  | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl

/-- Dropping wire 6's bit and putting v back sets the bit. -/
theorem ins_drop_6 {B : Nat} (b : Fin B) (q : Cert.TTN.Q) (v : Fin 2) :
    ins_6 (drop_6 (ix9 b q)) v = ix9 b (Cert.TTN.setBit q 6 v) := by
  funext a
  match a with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl

/-- The gather of wire 6's slice at the constant position p, read at a slice's index: the array at that index
    with the position (clamped into [0, 1]) on wire 6's axis. -/
theorem gather_6 {α : Type} {B : Nat} (wf : GatherDims.WF (S9 B) S1 (S8 B) [0, 1, 2, 3, 4, 5, 6, 7] [7] [] [7] [] 0 ![B, 2, 2, 2, 2, 2, 2, 1, 2])
    (x : (S9 B).Idx → α) (p : BitVec 32) (v : Fin 2) (hv : min p.toInt.toNat 1 = v.val) (k : (S8 B).Idx) :
    Host.gather (takeDims_6 B wf) x (fun _ => p) k = x (ins_6 k v) := by
  unfold Host.gather
  congr 1
  funext a
  refine Fin.ext ?_
  show (takeDims_6 B wf).start k (fun _ => p) a + (takeDims_6 B wf).batchCoord k a + (takeDims_6 B wf).offCoord k a = _
  rw [GatherDims.batchCoord_eq_zero _ _ _ List.not_mem_nil, Nat.add_zero]
  match a with
  | ⟨0, _⟩ => exact Nat.zero_add _
  | ⟨1, _⟩ => exact Nat.zero_add _
  | ⟨2, _⟩ => exact Nat.zero_add _
  | ⟨3, _⟩ => exact Nat.zero_add _
  | ⟨4, _⟩ => exact Nat.zero_add _
  | ⟨5, _⟩ => exact Nat.zero_add _
  | ⟨6, _⟩ => exact Nat.zero_add _
  | ⟨7, h7⟩ =>
    rw [GatherDims.offCoord_eq_zero _ _ _ (fun h => ((GatherDims.mem_sKept _ _).mp h).1 (List.mem_singleton.mpr rfl)), Nat.add_zero]
    unfold GatherDims.start
    rw [dif_pos (show (⟨7, h7⟩ : Fin (S9 B).rank) ∈ (takeDims_6 B wf).startIndexMap from List.mem_singleton.mpr rfl)]
    exact hv
  | ⟨8, _⟩ => exact Nat.zero_add _

/-- THE ROTATION OF WIRE 6 READ AT REGISTER b, BASIS STATE q. -/
theorem ry_apply_6 {B : Nat} (wf : GatherDims.WF (S9 B) S1 (S8 B) [0, 1, 2, 3, 4, 5, 6, 7] [7] [] [7] [] 0 ![B, 2, 2, 2, 2, 2, 2, 1, 2])
    (hb1 : S0.BroadcastsInDim S1 ![]) (hbt : S0.BroadcastsInDim (S8 B) ![]) (hr : S1.ReducesTo [0] S0) (hu : 0 < S0.numel)
    (hx : (S8 B).BroadcastsInDim (U9_6 B) dims_6) (hc : Shape.Concatenates [U9_6 B, U9_6 B] (S9 B) 7)
    (st : FVec Ideal (S9 B) .f32) (th : FVec Ideal S0 .f32) (b : Fin B) (q : Cert.TTN.Q) :
    ryTerm (s := S9 B) (t := S8 B) (u := U9_6 B) 7 dims_6 (takeDims_6 B wf) hb1 hbt hr hu hx hc st th (ix9 b q)
      = if q 6 = 0 then
          Ideal.cos (Ideal.ofBits .f32 0x3F000000#32 * th ix0) * st (ix9 b (Cert.TTN.setBit q 6 0))
            - Ideal.sin (Ideal.ofBits .f32 0x3F000000#32 * th ix0) * st (ix9 b (Cert.TTN.setBit q 6 1))
        else
          Ideal.sin (Ideal.ofBits .f32 0x3F000000#32 * th ix0) * st (ix9 b (Cert.TTN.setBit q 6 0))
            + Ideal.cos (Ideal.ofBits .f32 0x3F000000#32 * th ix0) * st (ix9 b (Cert.TTN.setBit q 6 1)) := by
  rw [ryTerm_apply (s := S9 B) (t := S8 B) (u := U9_6 B) 7 dims_6 (takeDims_6 B wf) hb1 hbt hr hu hx hc st th (ix9 b q)
    (drop_6 (ix9 b q)) rfl rfl (fun a h => dims_6_ne a (congrArg Fin.val h)) (drop_6_val (ix9 b q))]
  rw [gather_6 wf st 0#32 0 rfl, gather_6 wf st 1#32 1 rfl, ins_drop_6, ins_drop_6]
  by_cases hq : q 6 = 0
  · have h2 : (ix9 b q (7 : Fin (S9 B).rank)).val = 0 := congrArg Fin.val hq
    rw [if_pos hq, if_pos h2]
  · have h2 : ¬ (ix9 b q (7 : Fin (S9 B).rank)).val = 0 := fun h => hq (Fin.ext h)
    rw [if_neg hq, if_neg h2]

/-- A slice's index (control bit dropped) with the bit of wire 5 reversed, and the control bit 1 put back: the index of
    the basis state with wire 5 flipped, where the control bit is 1. -/
theorem flip_6_5 {B : Nat} (b : Fin B) (q : Cert.TTN.Q) (hq : q 6 = 1) :
    ins_6 (fun a => if a ∈ [(6 : Fin (S8 B).rank)] then (drop_6 (ix9 b q) a).rev else drop_6 (ix9 b q) a) 1
      = ix9 b (Cert.TTN.setBit q 5 (1 - q 5)) := by
  funext a
  match a with
  | ⟨0, _⟩ => rfl
  | ⟨1, _⟩ => rfl
  | ⟨2, _⟩ => rfl
  | ⟨3, _⟩ => rfl
  | ⟨4, _⟩ => rfl
  | ⟨5, _⟩ => rfl
  | ⟨6, _⟩ => exact rev2 (q 5)
  | ⟨7, _⟩ => exact hq.symm
  | ⟨8, _⟩ => rfl

/-- THE FLIP OF WIRE 5 CONTROLLED BY WIRE 6 READ AT REGISTER b, BASIS STATE q. -/
theorem cx_apply_6_5 {B : Nat} (wf : GatherDims.WF (S9 B) S1 (S8 B) [0, 1, 2, 3, 4, 5, 6, 7] [7] [] [7] [] 0 ![B, 2, 2, 2, 2, 2, 2, 1, 2])
    (hb1 : S0.BroadcastsInDim S1 ![]) (hbt : S0.BroadcastsInDim (S8 B) ![]) (hr : S1.ReducesTo [0] S0) (hu : 0 < S0.numel)
    (hx : (S8 B).BroadcastsInDim (U9_6 B) dims_6) (hc : Shape.Concatenates [U9_6 B, U9_6 B] (S9 B) 7)
    (st : FVec Ideal (S9 B) .f32) (b : Fin B) (q : Cert.TTN.Q) :
    cxTerm (s := S9 B) (t := S8 B) (u := U9_6 B) 7 6 dims_6 (takeDims_6 B wf) hb1 hbt hr hu hx hc st (ix9 b q)
      = if q 6 = 0 then st (ix9 b q) else st (ix9 b (Cert.TTN.setBit q 5 (1 - q 5))) := by
  rw [cxTerm_apply (s := S9 B) (t := S8 B) (u := U9_6 B) 7 6 dims_6 (takeDims_6 B wf) hb1 hbt hr hu hx hc st (ix9 b q)
    (drop_6 (ix9 b q)) rfl rfl (fun a h => dims_6_ne a (congrArg Fin.val h)) (drop_6_val (ix9 b q))]
  rw [gather_6 wf st 0#32 0 rfl, gather_6 wf st 1#32 1 rfl, ins_drop_6]
  by_cases hq : q 6 = 0
  · have h2 : (ix9 b q (7 : Fin (S9 B).rank)).val = 0 := congrArg Fin.val hq
    have e : Cert.TTN.setBit q 6 0 = q := by
      have := Function.update_eq_self (6 : Fin 8) q
      rw [hq] at this
      exact this
    rw [if_pos hq, if_pos h2, e]
  · have h2 : ¬ (ix9 b q (7 : Fin (S9 B).rank)).val = 0 := fun h => hq (Fin.ext h)
    have h1 : q 6 = 1 := Fin.ext (by
      show (q 6).val = 1
      have h3 : (q 6).val ≠ 0 := fun h => hq (Fin.ext h)
      have := (q 6).isLt
      omega)
    rw [if_neg hq, if_neg h2]
    exact congrArg st (flip_6_5 b q h1)

end Cert.TTN.Gates

end
-- ==== Proof.GateReadsW7.lean ====
/-
  Wire 7 of the gate reads (its bit is axis 8 of the state array): the shape with that axis of length one,
  the axes of a slice inside it, the gather that takes a slice; that gather at a constant position read at an index;
  the rotation of the wire read at register b, basis state q; the flip of wire 6 controlled by this wire, read there.
  The general statements these instantiate are in GateReads.lean.
-/
import proofs.«130987_j14276471292017_1_alg».proof.Proof.GateReads

noncomputable section

namespace Cert.TTN.Gates

open Idealize.ShloMosaic Idealize.ShloMosaic.ValueIdx

/-- The state's shape with wire 7's axis of length one; the axes of a slice inside it; the gather that takes a slice. -/
abbrev U9_7 (B : Nat) : Shape := ⟨9, ![B, 2, 2, 2, 2, 2, 2, 2, 1]⟩
abbrev dims_7 : Fin 8 → Fin 9 := ![0, 1, 2, 3, 4, 5, 6, 7]
abbrev takeDims_7 (B : Nat) (wf : GatherDims.WF (S9 B) S1 (S8 B) [0, 1, 2, 3, 4, 5, 6, 7] [8] [] [8] [] 0 ![B, 2, 2, 2, 2, 2, 2, 2, 1]) : GatherDims (S9 B) S1 (S8 B) where
  offsetDims := [0, 1, 2, 3, 4, 5, 6, 7]
  collapsedSliceDims := [8]
  operandBatchingDims := []
  startIndicesBatchingDims := []
  startIndexMap := [8]
  indexVectorDim := 0
  sliceSizes := ![B, 2, 2, 2, 2, 2, 2, 2, 1]
  wf := wf

/-- No axis of a slice is sent to wire 7's axis. -/
theorem dims_7_ne : ∀ a : Fin 8, (dims_7 a).val ≠ 8 := by decide

/-- An index with wire 7's axis dropped, and a slice's index with the bit v put back on that axis. -/
def drop_7 {B : Nat} (j : (S9 B).Idx) : (S8 B).Idx :=
  fun a => match a with | ⟨0, _⟩ => j 0 | ⟨1, _⟩ => j 1 | ⟨2, _⟩ => j 2 | ⟨3, _⟩ => j 3 | ⟨4, _⟩ => j 4 | ⟨5, _⟩ => j 5 | ⟨6, _⟩ => j 6 | ⟨7, _⟩ => j 7
def ins_7 {B : Nat} (k : (S8 B).Idx) (v : Fin 2) : (S9 B).Idx :=
  fun a => match a with | ⟨0, _⟩ => k 0 | ⟨1, _⟩ => k 1 | ⟨2, _⟩ => k 2 | ⟨3, _⟩ => k 3 | ⟨4, _⟩ => k 4 | ⟨5, _⟩ => k 5 | ⟨6, _⟩ => k 6 | ⟨7, _⟩ => k 7 | ⟨8, _⟩ => v

theorem drop_7_val {B : Nat} (j : (S9 B).Idx) (a : Fin 8) : (drop_7 j a).val = (j (dims_7 a)).val :=
  match a with
  | ⟨0, _⟩ => rfl | ⟨1, _⟩ => rfl | ⟨2, _⟩ => rfl | ⟨3, _⟩ => rfl | ⟨4, _⟩ => rfl | ⟨5, _⟩ => rfl | ⟨6, _⟩ => rfl | ⟨7, _⟩ => rfl

/-- Dropping wire 7's bit and putting v back sets the bit. -/
theorem ins_drop_7 {B : Nat} (b : Fin B) (q : Cert.TTN.Q) (v : Fin 2) :
    ins_7 (drop_7 (ix9 b q)) v = ix9 b (Cert.TTN.setBit q 7 v) := by
  funext a
  match a with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl
  | ⟨8, _⟩ => rfl

/-- The gather of wire 7's slice at the constant position p, read at a slice's index: the array at that index
    with the position (clamped into [0, 1]) on wire 7's axis. -/
theorem gather_7 {α : Type} {B : Nat} (wf : GatherDims.WF (S9 B) S1 (S8 B) [0, 1, 2, 3, 4, 5, 6, 7] [8] [] [8] [] 0 ![B, 2, 2, 2, 2, 2, 2, 2, 1])
    (x : (S9 B).Idx → α) (p : BitVec 32) (v : Fin 2) (hv : min p.toInt.toNat 1 = v.val) (k : (S8 B).Idx) :
    Host.gather (takeDims_7 B wf) x (fun _ => p) k = x (ins_7 k v) := by
  unfold Host.gather
  congr 1
  funext a
  refine Fin.ext ?_
  show (takeDims_7 B wf).start k (fun _ => p) a + (takeDims_7 B wf).batchCoord k a + (takeDims_7 B wf).offCoord k a = _
  rw [GatherDims.batchCoord_eq_zero _ _ _ List.not_mem_nil, Nat.add_zero]
  match a with
  | ⟨0, _⟩ => exact Nat.zero_add _
  | ⟨1, _⟩ => exact Nat.zero_add _
  | ⟨2, _⟩ => exact Nat.zero_add _
  | ⟨3, _⟩ => exact Nat.zero_add _
  | ⟨4, _⟩ => exact Nat.zero_add _
  | ⟨5, _⟩ => exact Nat.zero_add _
  | ⟨6, _⟩ => exact Nat.zero_add _
  | ⟨7, _⟩ => exact Nat.zero_add _
  | ⟨8, h8⟩ =>
    rw [GatherDims.offCoord_eq_zero _ _ _ (fun h => ((GatherDims.mem_sKept _ _).mp h).1 (List.mem_singleton.mpr rfl)), Nat.add_zero]
    unfold GatherDims.start
    rw [dif_pos (show (⟨8, h8⟩ : Fin (S9 B).rank) ∈ (takeDims_7 B wf).startIndexMap from List.mem_singleton.mpr rfl)]
    exact hv

/-- THE ROTATION OF WIRE 7 READ AT REGISTER b, BASIS STATE q. -/
theorem ry_apply_7 {B : Nat} (wf : GatherDims.WF (S9 B) S1 (S8 B) [0, 1, 2, 3, 4, 5, 6, 7] [8] [] [8] [] 0 ![B, 2, 2, 2, 2, 2, 2, 2, 1])
    (hb1 : S0.BroadcastsInDim S1 ![]) (hbt : S0.BroadcastsInDim (S8 B) ![]) (hr : S1.ReducesTo [0] S0) (hu : 0 < S0.numel)
    (hx : (S8 B).BroadcastsInDim (U9_7 B) dims_7) (hc : Shape.Concatenates [U9_7 B, U9_7 B] (S9 B) 8)
    (st : FVec Ideal (S9 B) .f32) (th : FVec Ideal S0 .f32) (b : Fin B) (q : Cert.TTN.Q) :
    ryTerm (s := S9 B) (t := S8 B) (u := U9_7 B) 8 dims_7 (takeDims_7 B wf) hb1 hbt hr hu hx hc st th (ix9 b q)
      = if q 7 = 0 then
          Ideal.cos (Ideal.ofBits .f32 0x3F000000#32 * th ix0) * st (ix9 b (Cert.TTN.setBit q 7 0))
            - Ideal.sin (Ideal.ofBits .f32 0x3F000000#32 * th ix0) * st (ix9 b (Cert.TTN.setBit q 7 1))
        else
          Ideal.sin (Ideal.ofBits .f32 0x3F000000#32 * th ix0) * st (ix9 b (Cert.TTN.setBit q 7 0))
            + Ideal.cos (Ideal.ofBits .f32 0x3F000000#32 * th ix0) * st (ix9 b (Cert.TTN.setBit q 7 1)) := by
  rw [ryTerm_apply (s := S9 B) (t := S8 B) (u := U9_7 B) 8 dims_7 (takeDims_7 B wf) hb1 hbt hr hu hx hc st th (ix9 b q)
    (drop_7 (ix9 b q)) rfl rfl (fun a h => dims_7_ne a (congrArg Fin.val h)) (drop_7_val (ix9 b q))]
  rw [gather_7 wf st 0#32 0 rfl, gather_7 wf st 1#32 1 rfl, ins_drop_7, ins_drop_7]
  by_cases hq : q 7 = 0
  · have h2 : (ix9 b q (8 : Fin (S9 B).rank)).val = 0 := congrArg Fin.val hq
    rw [if_pos hq, if_pos h2]
  · have h2 : ¬ (ix9 b q (8 : Fin (S9 B).rank)).val = 0 := fun h => hq (Fin.ext h)
    rw [if_neg hq, if_neg h2]

/-- A slice's index (control bit dropped) with the bit of wire 6 reversed, and the control bit 1 put back: the index of
    the basis state with wire 6 flipped, where the control bit is 1. -/
theorem flip_7_6 {B : Nat} (b : Fin B) (q : Cert.TTN.Q) (hq : q 7 = 1) :
    ins_7 (fun a => if a ∈ [(7 : Fin (S8 B).rank)] then (drop_7 (ix9 b q) a).rev else drop_7 (ix9 b q) a) 1
      = ix9 b (Cert.TTN.setBit q 6 (1 - q 6)) := by
  funext a
  match a with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => exact rev2 (q 6)
  | ⟨8, _⟩ => exact hq.symm

/-- THE FLIP OF WIRE 6 CONTROLLED BY WIRE 7 READ AT REGISTER b, BASIS STATE q. -/
theorem cx_apply_7_6 {B : Nat} (wf : GatherDims.WF (S9 B) S1 (S8 B) [0, 1, 2, 3, 4, 5, 6, 7] [8] [] [8] [] 0 ![B, 2, 2, 2, 2, 2, 2, 2, 1])
    (hb1 : S0.BroadcastsInDim S1 ![]) (hbt : S0.BroadcastsInDim (S8 B) ![]) (hr : S1.ReducesTo [0] S0) (hu : 0 < S0.numel)
    (hx : (S8 B).BroadcastsInDim (U9_7 B) dims_7) (hc : Shape.Concatenates [U9_7 B, U9_7 B] (S9 B) 8)
    (st : FVec Ideal (S9 B) .f32) (b : Fin B) (q : Cert.TTN.Q) :
    cxTerm (s := S9 B) (t := S8 B) (u := U9_7 B) 8 7 dims_7 (takeDims_7 B wf) hb1 hbt hr hu hx hc st (ix9 b q)
      = if q 7 = 0 then st (ix9 b q) else st (ix9 b (Cert.TTN.setBit q 6 (1 - q 6))) := by
  rw [cxTerm_apply (s := S9 B) (t := S8 B) (u := U9_7 B) 8 7 dims_7 (takeDims_7 B wf) hb1 hbt hr hu hx hc st (ix9 b q)
    (drop_7 (ix9 b q)) rfl rfl (fun a h => dims_7_ne a (congrArg Fin.val h)) (drop_7_val (ix9 b q))]
  rw [gather_7 wf st 0#32 0 rfl, gather_7 wf st 1#32 1 rfl, ins_drop_7]
  by_cases hq : q 7 = 0
  · have h2 : (ix9 b q (8 : Fin (S9 B).rank)).val = 0 := congrArg Fin.val hq
    have e : Cert.TTN.setBit q 7 0 = q := by
      have := Function.update_eq_self (7 : Fin 8) q
      rw [hq] at this
      exact this
    rw [if_pos hq, if_pos h2, e]
  · have h2 : ¬ (ix9 b q (8 : Fin (S9 B).rank)).val = 0 := fun h => hq (Fin.ext h)
    have h1 : q 7 = 1 := Fin.ext (by
      show (q 7).val = 1
      have h3 : (q 7).val ≠ 0 := fun h => hq (Fin.ext h)
      have := (q 7).isLt
      omega)
    rw [if_neg hq, if_neg h2]
    exact congrArg st (flip_7_6 b q h1)

end Cert.TTN.Gates

end
-- ==== Proof.GateReadsAll.lean ====
/-
  The gate reads of all eight wires: the rotation of each wire and the seven controlled flips of the circuit, each read at
  register `b`, basis state `q` (`ry_apply_w`, `cx_apply_c_t`).
-/
import proofs.«130987_j14276471292017_1_alg».proof.Proof.GateReadsW0
import proofs.«130987_j14276471292017_1_alg».proof.Proof.GateReadsW1
import proofs.«130987_j14276471292017_1_alg».proof.Proof.GateReadsW2
import proofs.«130987_j14276471292017_1_alg».proof.Proof.GateReadsW3
import proofs.«130987_j14276471292017_1_alg».proof.Proof.GateReadsW4
import proofs.«130987_j14276471292017_1_alg».proof.Proof.GateReadsW5
import proofs.«130987_j14276471292017_1_alg».proof.Proof.GateReadsW6
import proofs.«130987_j14276471292017_1_alg».proof.Proof.GateReadsW7
-- ==== Proof.SpecLaws.lean ====
/-
  Laws of the eight-qubit tree circuit, over the reals.

  Every gate acts linearly on amplitude vectors, so the circuit applied to a vector is the combination, with the
  vector's own coefficients, of the circuit applied to the basis states.  A rotation gate mixes each pair of
  amplitudes that differ only in one wire by a plane rotation, and a plane rotation keeps x² + y²; a controlled flip
  with distinct control and target permutes the basis states; hence every gate, and the whole circuit, keeps the sum
  of squares.  (A controlled flip whose control and target coincide would not; the circuit has none.)  The product
  state is a unit vector because the sum over all bit choices of a product of per-wire factors is the product of the
  per-wire sums, each being cos² + sin² = 1.  Consequently the total weight of the circuit's output is 1, and so
  (1 - (m0 - m1)) / 2 = m1, where m0, m1 are the weights of the states whose wire 5 is 0, 1.
-/
import proofs.«130987_j14276471292017_1_alg».proof.Proof.Spec
import Mathlib.Algebra.BigOperators.Ring.Finset

namespace Cert.TTN

open Finset

/-! ### Bits -/

theorem fin2_cases (b : Fin 2) : b = 0 ∨ b = 1 := by
  revert b; decide

theorem fin2_one_sub_one_sub (b : Fin 2) : 1 - (1 - b) = b := by
  revert b; decide

@[simp] theorem setBit_same (q : Q) (w : Fin 8) (b : Fin 2) : setBit q w b w = b := by
  simp [setBit]

theorem setBit_ne (q : Q) {w v : Fin 8} (b : Fin 2) (h : v ≠ w) : setBit q w b v = q v := by
  simp [setBit, Function.update_of_ne h]

@[simp] theorem setBit_setBit (q : Q) (w : Fin 8) (a b : Fin 2) :
    setBit (setBit q w a) w b = setBit q w b := by
  simp [setBit]

theorem setBit_self (q : Q) (w : Fin 8) : setBit q w (q w) = q := by
  simp [setBit]

/-- The basis state q with wire w flipped. -/
def flipBit (q : Q) (w : Fin 8) : Q := setBit q w (1 - q w)

theorem flipBit_flipBit (q : Q) (w : Fin 8) : flipBit (flipBit q w) w = q := by
  unfold flipBit
  rw [setBit_same, setBit_setBit, fin2_one_sub_one_sub, setBit_self]

theorem flipBit_ne (q : Q) {w v : Fin 8} (h : v ≠ w) : flipBit q w v = q v :=
  setBit_ne q _ h

/-- Flipping a wire is a bijection of the basis states, so it does not change a sum over them. -/
theorem sum_flipBit (w : Fin 8) (F : Q → ℝ) : ∑ q : Q, F (flipBit q w) = ∑ q : Q, F q :=
  Fintype.sum_bijective (fun q => flipBit q w)
    (Function.Involutive.bijective (fun q => flipBit_flipBit q w)) _ _ (fun _ => rfl)

/-! ### Linearity -/

/-- A gate applied to a combination of vectors is the same combination of the gate applied to each. -/
theorem Gate.apply_sum (θ : Fin 21 → ℝ) (g : Gate) (c : Q → ℝ) (F : Q → Q → ℝ) :
    g.apply θ (fun q => ∑ j : Q, c j * F j q) = fun q => ∑ j : Q, c j * g.apply θ (F j) q := by
  funext q
  cases g with
  | ry w k =>
    by_cases h : q w = 0
    · simp only [Gate.apply, h, if_true]
      rw [Finset.mul_sum, Finset.mul_sum, ← Finset.sum_sub_distrib]
      apply Finset.sum_congr rfl; intro j _; ring
    · simp only [Gate.apply, h, if_false]
      rw [Finset.mul_sum, Finset.mul_sum, ← Finset.sum_add_distrib]
      apply Finset.sum_congr rfl; intro j _; ring
  | cx c' t =>
    by_cases h : q c' = 0
    · simp only [Gate.apply, h, if_true]
    · simp only [Gate.apply, h, if_false]

theorem runGates_sum (θ : Fin 21 → ℝ) (gs : List Gate) (c : Q → ℝ) (F : Q → Q → ℝ) :
    runGates θ gs (fun q => ∑ j : Q, c j * F j q) = fun q => ∑ j : Q, c j * runGates θ gs (F j) q := by
  induction gs generalizing F with
  | nil => rfl
  | cons g gs ih =>
    simp only [runGates, List.foldl_cons] at ih ⊢
    rw [Gate.apply_sum]
    exact ih (fun j => g.apply θ (F j))

/-- A vector is the combination of the basis vectors with its own values as coefficients. -/
theorem eq_sum_basis (f : Q → ℝ) : f = fun q => ∑ j : Q, f j * basis j q := by
  funext q
  simp [basis]

theorem runGates_linear (θ : Fin 21 → ℝ) (gs : List Gate) (f : Q → ℝ) (q : Q) :
    runGates θ gs f q = ∑ j : Q, f j * runGates θ gs (basis j) q := by
  calc runGates θ gs f q
      = runGates θ gs (fun q => ∑ j : Q, f j * basis j q) q :=
        congrArg (fun g => runGates θ gs g q) (eq_sum_basis f)
    _ = ∑ j : Q, f j * runGates θ gs (basis j) q := congrFun (runGates_sum θ gs f basis) q

theorem circuit_linear (θ : Fin 21 → ℝ) (f : Q → ℝ) (q : Q) :
    circuit θ f q = ∑ j : Q, f j * circuit θ (basis j) q :=
  runGates_linear θ gates f q

/-! ### Sum of squares -/

/-- A plane rotation keeps x² + y². -/
theorem rot_pair (c s x y : ℝ) (h : c * c + s * s = 1) :
    (c * x - s * y) * (c * x - s * y) + (s * x + c * y) * (s * x + c * y) = x * x + y * y := by
  linear_combination (x * x + y * y) * h

theorem ry_apply_zero (θ : Fin 21 → ℝ) (w : Fin 8) (k : Fin 21) (f : Q → ℝ) (q : Q) (h : q w = 0) :
    Gate.apply θ (.ry w k) f q
      = Real.cos (θ k / 2) * f (setBit q w 0) - Real.sin (θ k / 2) * f (setBit q w 1) := by
  simp only [Gate.apply, h, if_true]

theorem ry_apply_one (θ : Fin 21 → ℝ) (w : Fin 8) (k : Fin 21) (f : Q → ℝ) (q : Q) (h : q w = 1) :
    Gate.apply θ (.ry w k) f q
      = Real.sin (θ k / 2) * f (setBit q w 0) + Real.cos (θ k / 2) * f (setBit q w 1) := by
  have h' : q w ≠ 0 := by rw [h]; decide
  simp only [Gate.apply, h', if_false]

/-- On a pair of states differing only in one wire, a rotation of that wire keeps the sum of the two squares. -/
theorem ry_apply_pair (θ : Fin 21 → ℝ) (w : Fin 8) (k : Fin 21) (f : Q → ℝ) (q : Q) :
    Gate.apply θ (.ry w k) f q * Gate.apply θ (.ry w k) f q
      + Gate.apply θ (.ry w k) f (flipBit q w) * Gate.apply θ (.ry w k) f (flipBit q w)
      = f q * f q + f (flipBit q w) * f (flipBit q w) := by
  have hcs : Real.cos (θ k / 2) * Real.cos (θ k / 2) + Real.sin (θ k / 2) * Real.sin (θ k / 2) = 1 := by
    have := Real.cos_sq_add_sin_sq (θ k / 2)
    nlinarith [this]
  rcases fin2_cases (q w) with h | h
  · have hp : flipBit q w = setBit q w 1 := by simp [flipBit, h]
    have h0 : setBit q w 0 = q := by have := setBit_self q w; rwa [h] at this
    have hpw : setBit q w 1 w = 1 := setBit_same q w 1
    rw [hp, ry_apply_zero θ w k f q h, ry_apply_one θ w k f (setBit q w 1) hpw,
      setBit_setBit, setBit_setBit, h0]
    exact rot_pair _ _ _ _ hcs
  · have hp : flipBit q w = setBit q w 0 := by simp [flipBit, h]
    have h1 : setBit q w 1 = q := by have := setBit_self q w; rwa [h] at this
    have hpw : setBit q w 0 w = 0 := setBit_same q w 0
    rw [hp, ry_apply_one θ w k f q h, ry_apply_zero θ w k f (setBit q w 0) hpw,
      setBit_setBit, setBit_setBit, h1]
    have := rot_pair _ _ (f (setBit q w 0)) (f q) hcs
    linarith [this]

/-- A sum over the basis states is half the sum of the pair totals. -/
theorem sum_eq_half_pairs (w : Fin 8) (F : Q → ℝ) :
    ∑ q : Q, F q = (∑ q : Q, (F q + F (flipBit q w))) / 2 := by
  rw [Finset.sum_add_distrib, sum_flipBit]; ring

theorem ry_norm (θ : Fin 21 → ℝ) (w : Fin 8) (k : Fin 21) (f : Q → ℝ) :
    ∑ q : Q, Gate.apply θ (.ry w k) f q * Gate.apply θ (.ry w k) f q = ∑ q : Q, f q * f q := by
  rw [sum_eq_half_pairs w (fun q => Gate.apply θ (.ry w k) f q * Gate.apply θ (.ry w k) f q),
    sum_eq_half_pairs w (fun q => f q * f q)]
  congr 1
  apply Finset.sum_congr rfl
  intro q _
  exact ry_apply_pair θ w k f q

/-- The permutation of basis states made by a controlled flip. -/
def cxMap (c t : Fin 8) (q : Q) : Q := if q c = 0 then q else flipBit q t

theorem cxMap_cxMap (c t : Fin 8) (hct : c ≠ t) (q : Q) : cxMap c t (cxMap c t q) = q := by
  by_cases h : q c = 0
  · simp only [cxMap, h, if_true]
  · have h2 : flipBit q t c = q c := flipBit_ne q hct
    have h3 : ¬ flipBit q t c = 0 := by rw [h2]; exact h
    simp only [cxMap, h, if_false, h3, flipBit_flipBit]

theorem cx_apply (θ : Fin 21 → ℝ) (c t : Fin 8) (f : Q → ℝ) (q : Q) :
    Gate.apply θ (.cx c t) f q = f (cxMap c t q) := by
  by_cases h : q c = 0
  · simp only [Gate.apply, cxMap, h, if_true]
  · simp only [Gate.apply, cxMap, h, if_false, flipBit]

theorem cx_norm (θ : Fin 21 → ℝ) (c t : Fin 8) (hct : c ≠ t) (f : Q → ℝ) :
    ∑ q : Q, Gate.apply θ (.cx c t) f q * Gate.apply θ (.cx c t) f q = ∑ q : Q, f q * f q := by
  simp only [cx_apply]
  exact Fintype.sum_bijective (cxMap c t)
    (Function.Involutive.bijective (cxMap_cxMap c t hct)) _ _ (fun _ => rfl)

/-- A controlled flip is well formed when its control and its target are different wires. -/
def Gate.WF : Gate → Prop
  | .ry _ _ => True
  | .cx c t => c ≠ t

instance : DecidablePred Gate.WF := fun g => by
  cases g <;> simp only [Gate.WF] <;> infer_instance

theorem Gate.apply_norm (θ : Fin 21 → ℝ) (g : Gate) (hg : g.WF) (f : Q → ℝ) :
    ∑ q : Q, g.apply θ f q * g.apply θ f q = ∑ q : Q, f q * f q := by
  cases g with
  | ry w k => exact ry_norm θ w k f
  | cx c t => exact cx_norm θ c t hg f

/-- Every controlled flip of the circuit has distinct control and target. -/
theorem gates_wf : ∀ g ∈ gates, g.WF := by
  decide

theorem runGates_norm (θ : Fin 21 → ℝ) (gs : List Gate) (hgs : ∀ g ∈ gs, g.WF) (f : Q → ℝ) :
    ∑ q : Q, runGates θ gs f q * runGates θ gs f q = ∑ q : Q, f q * f q := by
  induction gs generalizing f with
  | nil => rfl
  | cons g gs ih =>
    simp only [runGates, List.foldl_cons] at ih ⊢
    rw [ih (fun g' hg' => hgs g' (List.mem_cons_of_mem _ hg')) (g.apply θ f),
      Gate.apply_norm θ g (hgs g (List.mem_cons.mpr (Or.inl rfl))) f]

theorem circuit_norm (θ : Fin 21 → ℝ) (f : Q → ℝ) :
    ∑ q : Q, circuit θ f q * circuit θ f q = ∑ q : Q, f q * f q :=
  runGates_norm θ gates gates_wf f

/-! ### The product state -/

theorem prodState_norm (a : Fin 8 → ℝ) : ∑ q : Q, prodState a q * prodState a q = 1 := by
  let g : Fin 8 → Fin 2 → ℝ := fun w b =>
    (if b = 0 then Real.cos (a w / 2) else Real.sin (a w / 2))
      * (if b = 0 then Real.cos (a w / 2) else Real.sin (a w / 2))
  calc ∑ q : Q, prodState a q * prodState a q
      = ∑ q : Q, ∏ w : Fin 8, g w (q w) := by
        apply Finset.sum_congr rfl
        intro q _
        simp only [prodState, g]
        rw [← Finset.prod_mul_distrib]
    _ = ∏ w : Fin 8, ∑ b : Fin 2, g w b := (Fintype.prod_sum g).symm
    _ = ∏ w : Fin 8, (1 : ℝ) := by
        apply Finset.prod_congr rfl
        intro w _
        rw [Fin.sum_univ_two]
        have h10 : ¬ ((1 : Fin 2) = 0) := by decide
        simp only [g, if_true, h10, if_false]
        have := Real.cos_sq_add_sin_sq (a w / 2)
        nlinarith [this]
    _ = 1 := by simp

/-! ### The two ways of reading wire 5 -/

/-- The reference's (1 - (m0 - m1)) / 2 is the kernel's masked sum m1. -/
theorem marginal_identity (θ : Fin 21 → ℝ) (a : Fin 8 → ℝ) :
    (1 - ((∑ q : Q, if q 5 = 0 then circuit θ (prodState a) q * circuit θ (prodState a) q else 0)
          - (∑ q : Q, if q 5 = 1 then circuit θ (prodState a) q * circuit θ (prodState a) q else 0))) / 2
      = ∑ q : Q, ((∑ j : Q, prodState a j * circuit θ (basis j) q)
            * (∑ j : Q, prodState a j * circuit θ (basis j) q))
            * (if q 5 = 1 then (1 : ℝ) else 0) := by
  have hlin : ∀ q : Q, (∑ j : Q, prodState a j * circuit θ (basis j) q) = circuit θ (prodState a) q :=
    fun q => (circuit_linear θ (prodState a) q).symm
  simp only [hlin]
  have htot : ∑ q : Q, circuit θ (prodState a) q * circuit θ (prodState a) q = 1 := by
    rw [circuit_norm, prodState_norm]
  have hsplit : ∑ q : Q, circuit θ (prodState a) q * circuit θ (prodState a) q
      = (∑ q : Q, if q 5 = 0 then circuit θ (prodState a) q * circuit θ (prodState a) q else 0)
        + (∑ q : Q, if q 5 = 1 then circuit θ (prodState a) q * circuit θ (prodState a) q else 0) := by
    rw [← Finset.sum_add_distrib]
    apply Finset.sum_congr rfl
    intro q _
    rcases fin2_cases (q 5) with h | h
    · have h1 : ¬ ((0 : Fin 2) = 1) := by decide
      simp only [h, if_true, h1, if_false, add_zero]
    · have h1 : ¬ ((1 : Fin 2) = 0) := by decide
      simp only [h, if_true, h1, if_false, zero_add]
  have hrhs : ∑ q : Q, (circuit θ (prodState a) q * circuit θ (prodState a) q)
        * (if q 5 = 1 then (1 : ℝ) else 0)
      = ∑ q : Q, if q 5 = 1 then circuit θ (prodState a) q * circuit θ (prodState a) q else 0 := by
    apply Finset.sum_congr rfl
    intro q _
    by_cases h : q 5 = 1
    · simp only [h, if_true, mul_one]
    · simp only [h, if_false, mul_zero]
  rw [hrhs]
  linarith [htot, hsplit]

end Cert.TTN
-- ==== Proof.Bridge.lean ====
/-
  From the extended-real quantities of one edge to the real mathematics of the circuit.

  The float words the programs spell denote the reals 1/2, 1, 2 and 0.  A flat index below 256 is determined by
  its eight binary digits, so reading the digits is a bijection from flat indices to basis states, and a sum over
  flat indices is a sum over basis states.  On real half angles the cosine and sine are the real ones, so the
  encoded amplitude is the real product state, and the stored quantity is the real masked sum of squares of the
  combination of the circuit's images of the basis states.
-/
import proofs.«130987_j14276471292017_1_alg».proof.Proof.Amp
import proofs.«130987_j14276471292017_1_alg».proof.Proof.SpecLaws

noncomputable section

namespace Cert.TTN

open Idealize.ShloMosaic

/-! ### The float words -/

theorem half_word : Idealize.ShloMosaic.Ideal.ofBits .f32 0x3F000000#32 = ((1 / 2 : ℝ) : EReal) := by
  simp [Ideal.ofBits, Ideal.ieee, -EReal.coe_mul]; norm_num

theorem one_word : Idealize.ShloMosaic.Ideal.ofBits .f32 0x3F800000#32 = ((1 : ℝ) : EReal) := by
  simp [Ideal.ofBits, Ideal.ieee, -EReal.coe_mul]; norm_num

theorem two_word : Idealize.ShloMosaic.Ideal.ofBits .f32 0x40000000#32 = ((2 : ℝ) : EReal) := by
  simp [Ideal.ofBits, Ideal.ieee, -EReal.coe_mul]; norm_num

theorem zero_word : Idealize.ShloMosaic.Ideal.ofBits .f32 0x00000000#32 = (0 : EReal) := by
  simp [Ideal.ofBits, Ideal.ieee]

/-! ### Flat indices and basis states -/

theorem toQ_injective : Function.Injective toQ := by
  intro k k' h
  have h0 : k.val / 128 % 2 = k'.val / 128 % 2 := congrArg Fin.val (congrFun h 0)
  have h1 : k.val / 64 % 2 = k'.val / 64 % 2 := congrArg Fin.val (congrFun h 1)
  have h2 : k.val / 32 % 2 = k'.val / 32 % 2 := congrArg Fin.val (congrFun h 2)
  have h3 : k.val / 16 % 2 = k'.val / 16 % 2 := congrArg Fin.val (congrFun h 3)
  have h4 : k.val / 8 % 2 = k'.val / 8 % 2 := congrArg Fin.val (congrFun h 4)
  have h5 : k.val / 4 % 2 = k'.val / 4 % 2 := congrArg Fin.val (congrFun h 5)
  have h6 : k.val / 2 % 2 = k'.val / 2 % 2 := congrArg Fin.val (congrFun h 6)
  have h7 : k.val / 1 % 2 = k'.val / 1 % 2 := congrArg Fin.val (congrFun h 7)
  have hk := k.isLt
  have hk' := k'.isLt
  apply Fin.ext
  omega

theorem toQ_bijective : Function.Bijective toQ :=
  (Fintype.bijective_iff_injective_and_card toQ).mpr ⟨toQ_injective, by simp⟩

/-- Reading the binary digits, as an equivalence. -/
noncomputable def equivQ : Fin 256 ≃ Q := Equiv.ofBijective toQ toQ_bijective

theorem sum_toQ (F : Q → ℝ) : ∑ k : Fin 256, F (toQ k) = ∑ q : Q, F q :=
  Fintype.sum_bijective toQ toQ_bijective _ _ (fun _ => rfl)

/-! ### Real values inside the extended reals -/

theorem coe_sum {ι : Type*} (s : Finset ι) (f : ι → ℝ) :
    ((∑ i ∈ s, f i : ℝ) : EReal) = ∑ i ∈ s, (f i : EReal) := by
  classical
  refine Finset.induction_on s ?_ ?_
  · simp
  · intro i s hi ih
    rw [Finset.sum_insert hi, Finset.sum_insert hi, EReal.coe_add, ih]

theorem ampE_real (x : ℝ) (b : Fin 2) :
    ampE ((x : ℝ) : EReal) b = (((if b = 0 then Real.cos x else Real.sin x) : ℝ) : EReal) := by
  unfold ampE
  by_cases h : b = 0
  · simp only [h, if_true, Ideal.cos_coe]
  · simp only [h, if_false, Ideal.sin_coe]

theorem psiE_real (a : Fin 8 → ℝ) (k : Fin 256) :
    psiE (fun w => (((1/2 : ℝ) * a w : ℝ) : EReal)) k = ((prodState a (toQ k) : ℝ) : EReal) := by
  unfold psiE
  simp only [ampE_real, ← EReal.coe_mul]
  congr 1
  rw [show prodState a (toQ k)
      = ∏ w : Fin 8, if bitOf k w = 0 then Real.cos (a w / 2) else Real.sin (a w / 2) from rfl,
    Fin.prod_univ_eight]
  have hh : ∀ w, (1/2 : ℝ) * a w = a w / 2 := fun w => by ring
  simp only [hh]
  ring

theorem kernelRow_real (θ : Fin 21 → ℝ) (a : Fin 8 → ℝ) :
    kernelRow (fun w => (((1/2 : ℝ) * a w : ℝ) : EReal))
        (fun j k => ((circuit θ (basis (toQ j)) (toQ k) : ℝ) : EReal))
        (fun k => (((if bitOf k 5 = 1 then (1 : ℝ) else 0) : ℝ) : EReal))
      = (((∑ q : Q, ((∑ j : Q, prodState a j * circuit θ (basis j) q)
            * (∑ j : Q, prodState a j * circuit θ (basis j) q)) * (if q 5 = 1 then (1:ℝ) else 0)) : ℝ) : EReal) := by
  have inner : ∀ q : Q, ∑ j : Fin 256, prodState a (toQ j) * circuit θ (basis (toQ j)) q
      = ∑ j : Q, prodState a j * circuit θ (basis j) q :=
    fun q => sum_toQ (fun j => prodState a j * circuit θ (basis j) q)
  have outer := sum_toQ (fun q => ((∑ j : Q, prodState a j * circuit θ (basis j) q)
            * (∑ j : Q, prodState a j * circuit θ (basis j) q)) * (if q 5 = 1 then (1:ℝ) else 0))
  have hb : ∀ k : Fin 256, bitOf k 5 = toQ k 5 := fun _ => rfl
  unfold kernelRow
  simp only [psiE_real, zero_add, ← EReal.coe_mul, ← coe_sum, hb, inner]
  congr 1

end Cert.TTN

end
-- ==== Proof.RealGates.lean ====
/-
  The host's and the reference's array operations, read at one index, as the real mathematics of the circuit.

  A rotation or a controlled flip computed on extended reals from real data is the real gate.  The array of shape
  [256,256] and the array of shape [256,2,2,2,2,2,2,2,2] hold the same elements in row-major order: the element at
  row j and column k of the first is the element of the second at register j and at the basis state whose bits
  are the binary digits of k.  The identity matrix built by comparing the two coordinates, and the mask row built
  from the digit of weight 4 of the column number, are the real 0/1 arrays one expects.  A one-element slice of the
  parameter vector recast to a scalar is that parameter.
-/
import proofs.«130987_j14276471292017_1_alg».proof.Proof.Bridge
import proofs.«130987_j14276471292017_1_alg».proof.Proof.Idx9
import Idealize.ShloMosaic.Lib.ValueIdx
import Idealize.ShloMosaic.Lib.Pipeline.Value
import Idealize.ShloMosaic.Lib.IdealHost

noncomputable section

namespace Cert.TTN

open Idealize.ShloMosaic Idealize.ShloMosaic.ValueIdx Cert.TTN.Gates

/-! ### Gates on real data -/

theorem ryE_real (θ : Fin 21 → ℝ) (w : Fin 8) (k : Fin 21) (f : Q → ℝ) (X : Q → EReal)
    (hX : ∀ q, X q = ((f q : ℝ) : EReal)) (t : EReal) (ht : t = ((θ k : ℝ) : EReal)) (q : Q) :
    (if q w = 0 then Ideal.cos (Ideal.ofBits .f32 0x3F000000#32 * t) * X (setBit q w 0)
          - Ideal.sin (Ideal.ofBits .f32 0x3F000000#32 * t) * X (setBit q w 1)
       else Ideal.sin (Ideal.ofBits .f32 0x3F000000#32 * t) * X (setBit q w 0)
          + Ideal.cos (Ideal.ofBits .f32 0x3F000000#32 * t) * X (setBit q w 1))
      = ((Gate.apply θ (.ry w k) f q : ℝ) : EReal) := by
  have hh : (1 / 2 : ℝ) * θ k = θ k / 2 := by ring
  rw [half_word, ht, ← EReal.coe_mul, hh, Ideal.cos_coe, Ideal.sin_coe, hX (setBit q w 0), hX (setBit q w 1)]
  rcases fin2_cases (q w) with h | h
  · rw [if_pos h, ry_apply_zero θ w k f q h, EReal.coe_sub, EReal.coe_mul, EReal.coe_mul]
  · have h' : ¬ q w = 0 := by rw [h]; decide
    rw [if_neg h', ry_apply_one θ w k f q h, EReal.coe_add, EReal.coe_mul, EReal.coe_mul]

theorem cxE_real (θ : Fin 21 → ℝ) (c t : Fin 8) (f : Q → ℝ) (X : Q → EReal)
    (hX : ∀ q, X q = ((f q : ℝ) : EReal)) (q : Q) :
    (if q c = 0 then X q else X (setBit q t (1 - q t))) = ((Gate.apply θ (.cx c t) f q : ℝ) : EReal) := by
  by_cases h : q c = 0
  · simp only [Gate.apply, h, if_true, hX]
  · simp only [Gate.apply, h, if_false, hX]

/-! ### A parameter read out of the parameter vector -/

theorem theta_slice (th : (⟨1, ![21]⟩ : Shape).Idx → EReal) (k : Fin 21)
    (hs : (⟨1, ![21]⟩ : Shape).Slices ![k.val] ⟨1, ![1]⟩) (hc : (⟨1, ![1]⟩ : Shape).ShapeCasts ⟨0, ![]⟩) :
    shapeCast ⟨0, ![]⟩ (extractStridedSlice ⟨1, ![1]⟩ ![k.val] th hs) hc ix0 = th (ix1 k) := by
  have h1 : shapeCast ⟨0, ![]⟩ (extractStridedSlice ⟨1, ![1]⟩ ![k.val] th hs) hc ix0
      = extractStridedSlice ⟨1, ![1]⟩ ![k.val] th hs (ix1 (0 : Fin 1)) := by
    apply shapeCast_apply
    rw [Shape.rowMajor_val_one]
    show (0 : Nat) = (Shape.rowMajorPi _ _).val
    rw [Shape.rowMajorPi_zero]
  rw [h1]
  apply extractStridedSlice_apply
  intro a
  match a with
  | ⟨0, _⟩ => rfl

/-! ### The two shapes of the matrix -/

/-- The row-major position of an index of a rank-nine array, as one nested sum of products. -/
theorem rowMajor_val_nine {d : Fin 9 → Nat} (i : (⟨9, d⟩ : Shape).Idx) :
    ((⟨9, d⟩ : Shape).rowMajor i).val
      = ((((((((i 0).val * d 1 + (i 1).val) * d 2 + (i 2).val) * d 3 + (i 3).val) * d 4 + (i 4).val) * d 5
          + (i 5).val) * d 6 + (i 6).val) * d 7 + (i 7).val) * d 8 + (i 8).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val, Shape.rowMajorPi_succ_val,
    Shape.rowMajorPi_succ_val]
  simp [Shape.rowMajorPi_zero, Fin.prod_univ_succ, Nat.add_mul, Nat.mul_assoc, Nat.add_assoc]

/-- The row-major position of register j at the basis state named by the column number k is 256 j + k. -/
theorem rowMajor_ix9_toQ (j k : Fin 256) : ((S9 256).rowMajor (ix9 j (toQ k))).val = j.val * 256 + k.val := by
  rw [rowMajor_val_nine]
  show ((((((((j.val * 2 + (k.val / 128 % 2)) * 2 + (k.val / 64 % 2)) * 2 + (k.val / 32 % 2)) * 2
      + (k.val / 16 % 2)) * 2 + (k.val / 8 % 2)) * 2 + (k.val / 4 % 2)) * 2 + (k.val / 2 % 2)) * 2 + (k.val / 1 % 2))
      = j.val * 256 + k.val
  have hk := k.isLt
  omega

theorem recast_from9 {α : Type} (y : (S9 256).Idx → α) (h : (S9 256).ShapeCasts ⟨2, ![256, 256]⟩) (j k : Fin 256) :
    shapeCast ⟨2, ![256, 256]⟩ y h (ix2 j k) = y (ix9 j (toQ k)) := by
  apply shapeCast_apply
  rw [rowMajor_ix9_toQ, Shape.rowMajor_val_two]
  rfl

theorem recast_to9 {α : Type} (x : (⟨2, ![256, 256]⟩ : Shape).Idx → α)
    (h : (⟨2, ![256, 256]⟩ : Shape).ShapeCasts (S9 256)) (j : Fin 256) (q : Q) :
    shapeCast (S9 256) x h (ix9 j q) = x (ix2 j (equivQ.symm q)) := by
  obtain ⟨k, rfl⟩ : ∃ k, q = toQ k := ⟨equivQ.symm q, (equivQ.apply_symm_apply q).symm⟩
  have hk : equivQ.symm (toQ k) = k := equivQ.symm_apply_apply k
  rw [hk]
  apply shapeCast_apply
  rw [rowMajor_ix9_toQ, Shape.rowMajor_val_two]
  rfl

/-! ### The identity matrix and the mask row as the host builds them -/

theorem basis_toQ (j k : Fin 256) : (if j = k then (1 : ℝ) else 0) = basis (toQ j) (toQ k) := by
  unfold basis
  by_cases h : j = k
  · subst h; rw [if_pos rfl, if_pos rfl]
  · have h' : ¬ toQ k = toQ j := fun e => h (toQ_injective e).symm
    rw [if_neg h, if_neg h']

/-- A number below 256 is its own 32-bit word. -/
theorem toNat_word (k : Fin 256) : (BitVec.ofNat 32 k.val).toNat = k.val := by
  have hk := k.isLt
  rw [BitVec.toNat_ofNat]
  exact Nat.mod_eq_of_lt (by omega)

theorem eye_apply (hb : (⟨0, ![]⟩ : Shape).BroadcastsInDim ⟨2, ![256, 256]⟩ ![]) (j k : Fin 256) :
    uitofp (F := Ideal) .f32 (cmpi .eq (addi (iotaInDim ⟨2, ![256, 256]⟩ 32 0)
        (broadcastInDim ⟨2, ![256, 256]⟩ ![] hb (constantI ⟨0, ![]⟩ 32 0#32))) (iotaInDim ⟨2, ![256, 256]⟩ 32 1)) (ix2 j k)
      = (((if j = k then (1 : ℝ) else 0) : ℝ) : EReal) := by
  show (((IntOp.cmpi .eq (IntOp.addi (BitVec.ofNat 32 j.val) 0#32) (BitVec.ofNat 32 k.val)).toNat : ℝ) : EReal) = _
  congr 1
  have h0 : IntOp.addi (BitVec.ofNat 32 j.val) 0#32 = BitVec.ofNat 32 j.val := by
    unfold IntOp.addi; exact BitVec.add_zero _
  rw [h0]
  by_cases hjk : j = k
  · subst hjk
    rw [if_pos rfl]
    simp [IntOp.cmpi]
  · have hne : BitVec.ofNat 32 j.val ≠ BitVec.ofNat 32 k.val := by
      intro h
      have h' := congrArg BitVec.toNat h
      rw [toNat_word, toNat_word] at h'
      exact hjk (Fin.ext h')
    rw [if_neg hjk]
    simp [IntOp.cmpi, hne]

/-- The digit of weight 4 of a number below 256, computed on 32-bit words by a shift and a mask. -/
theorem mask_word (k : Fin 256) :
    (IntOp.andi (IntOp.shrsi .host (BitVec.ofNat 32 k.val) 2#32) 1#32).toInt = ((k.val / 4 % 2 : Nat) : Int) := by
  have hk := k.isLt
  have hx := toNat_word k
  have hmsb : (BitVec.ofNat 32 k.val).msb = false := by
    rw [BitVec.msb_eq_false_iff_two_mul_lt, hx]; omega
  have h1 : IntOp.shrsi .host (BitVec.ofNat 32 k.val) 2#32 = BitVec.ofNat 32 k.val >>> 2 := by
    unfold IntOp.shrsi
    rw [if_pos (by decide), BitVec.sshiftRight_eq', BitVec.sshiftRight_eq_of_msb_false hmsb]
    rfl
  have h2 : (IntOp.andi (BitVec.ofNat 32 k.val >>> 2) 1#32).toNat = k.val / 4 % 2 := by
    unfold IntOp.andi
    rw [BitVec.toNat_and, BitVec.toNat_ushiftRight, hx, Nat.shiftRight_eq_div_pow]
    show k.val / 2 ^ 2 &&& 1 = _
    rw [Nat.and_one_is_mod]
  rw [h1, BitVec.toInt_eq_toNat_of_lt (by rw [h2]; omega), h2]

theorem mask_apply (hb : (⟨0, ![]⟩ : Shape).BroadcastsInDim ⟨1, ![256]⟩ ![]) (k : Fin 256) :
    sitofp (F := Ideal) .f32 (andi (Host.shrsi (iotaInDim ⟨1, ![256]⟩ 32 0)
        (broadcastInDim ⟨1, ![256]⟩ ![] hb (constantI ⟨0, ![]⟩ 32 2#32)))
        (broadcastInDim ⟨1, ![256]⟩ ![] hb (constantI ⟨0, ![]⟩ 32 1#32))) (ix1 k)
      = (((if bitOf k 5 = 1 then (1 : ℝ) else 0) : ℝ) : EReal) := by
  show (((IntOp.andi (IntOp.shrsi .host (BitVec.ofNat 32 k.val) 2#32) 1#32).toInt : ℝ) : EReal) = _
  rw [mask_word]
  congr 1
  have hb5 : (bitOf k 5).val = k.val / 4 % 2 := rfl
  rcases fin2_cases (bitOf k 5) with h | h
  · have h4 : k.val / 4 % 2 = 0 := by rw [← hb5, h]; rfl
    rw [h4, h]; simp
  · have h4 : k.val / 4 % 2 = 1 := by rw [← hb5, h]; rfl
    rw [h4, h]; simp

end Cert.TTN

end
-- ==== Proof.KRead.lean ====
/-
  The state after each gate, read at an index.  If the state before the gates holds, at register `b` and basis state
  `q`, the real number `f0 b q`, and the parameter vector holds the real numbers `θ`, then after `g` gates it holds
  the first `g` gates of the circuit applied to `f0 b`, at `q`: each rotation and each controlled flip acts on every
  register separately, by the gate's formula.
-/
import proofs.«130987_j14276471292017_1_alg».proof.Proof.KHostChain
import proofs.«130987_j14276471292017_1_alg».proof.Proof.GateReadsAll
import proofs.«130987_j14276471292017_1_alg».proof.Proof.RealGates

set_option maxRecDepth 16384

noncomputable section

namespace Cert.TTN.KHost

open Idealize.ShloMosaic Idealize.ShloMosaic.ValueIdx
open Cert.KernelIdeal Cert.KernelIdeal.Gen Cert.TTN

/-- The first gates of the circuit, on a real amplitude vector. -/
def C0 (θ : Fin 21 → ℝ) (f : Q → ℝ) : Q → ℝ := f
def C1 (θ : Fin 21 → ℝ) (f : Q → ℝ) : Q → ℝ := Gate.apply θ (.ry 1 0) (C0 θ f)
def C2 (θ : Fin 21 → ℝ) (f : Q → ℝ) : Q → ℝ := Gate.apply θ (.ry 2 1) (C1 θ f)
def C3 (θ : Fin 21 → ℝ) (f : Q → ℝ) : Q → ℝ := Gate.apply θ (.cx 1 2) (C2 θ f)
def C4 (θ : Fin 21 → ℝ) (f : Q → ℝ) : Q → ℝ := Gate.apply θ (.ry 5 2) (C3 θ f)
def C5 (θ : Fin 21 → ℝ) (f : Q → ℝ) : Q → ℝ := Gate.apply θ (.ry 6 3) (C4 θ f)
def C6 (θ : Fin 21 → ℝ) (f : Q → ℝ) : Q → ℝ := Gate.apply θ (.cx 6 5) (C5 θ f)
def C7 (θ : Fin 21 → ℝ) (f : Q → ℝ) : Q → ℝ := Gate.apply θ (.ry 0 4) (C6 θ f)
def C8 (θ : Fin 21 → ℝ) (f : Q → ℝ) : Q → ℝ := Gate.apply θ (.ry 1 5) (C7 θ f)
def C9 (θ : Fin 21 → ℝ) (f : Q → ℝ) : Q → ℝ := Gate.apply θ (.cx 0 1) (C8 θ f)
def C10 (θ : Fin 21 → ℝ) (f : Q → ℝ) : Q → ℝ := Gate.apply θ (.ry 2 6) (C9 θ f)
def C11 (θ : Fin 21 → ℝ) (f : Q → ℝ) : Q → ℝ := Gate.apply θ (.ry 3 7) (C10 θ f)
def C12 (θ : Fin 21 → ℝ) (f : Q → ℝ) : Q → ℝ := Gate.apply θ (.cx 3 2) (C11 θ f)
def C13 (θ : Fin 21 → ℝ) (f : Q → ℝ) : Q → ℝ := Gate.apply θ (.ry 4 8) (C12 θ f)
def C14 (θ : Fin 21 → ℝ) (f : Q → ℝ) : Q → ℝ := Gate.apply θ (.ry 5 9) (C13 θ f)
def C15 (θ : Fin 21 → ℝ) (f : Q → ℝ) : Q → ℝ := Gate.apply θ (.cx 4 5) (C14 θ f)
def C16 (θ : Fin 21 → ℝ) (f : Q → ℝ) : Q → ℝ := Gate.apply θ (.ry 6 10) (C15 θ f)
def C17 (θ : Fin 21 → ℝ) (f : Q → ℝ) : Q → ℝ := Gate.apply θ (.ry 7 11) (C16 θ f)
def C18 (θ : Fin 21 → ℝ) (f : Q → ℝ) : Q → ℝ := Gate.apply θ (.cx 7 6) (C17 θ f)
def C19 (θ : Fin 21 → ℝ) (f : Q → ℝ) : Q → ℝ := Gate.apply θ (.ry 2 12) (C18 θ f)
def C20 (θ : Fin 21 → ℝ) (f : Q → ℝ) : Q → ℝ := Gate.apply θ (.ry 5 13) (C19 θ f)
def C21 (θ : Fin 21 → ℝ) (f : Q → ℝ) : Q → ℝ := Gate.apply θ (.cx 2 5) (C20 θ f)
def C22 (θ : Fin 21 → ℝ) (f : Q → ℝ) : Q → ℝ := Gate.apply θ (.ry 1 14) (C21 θ f)
def C23 (θ : Fin 21 → ℝ) (f : Q → ℝ) : Q → ℝ := Gate.apply θ (.ry 2 15) (C22 θ f)
def C24 (θ : Fin 21 → ℝ) (f : Q → ℝ) : Q → ℝ := Gate.apply θ (.cx 1 2) (C23 θ f)
def C25 (θ : Fin 21 → ℝ) (f : Q → ℝ) : Q → ℝ := Gate.apply θ (.ry 5 16) (C24 θ f)
def C26 (θ : Fin 21 → ℝ) (f : Q → ℝ) : Q → ℝ := Gate.apply θ (.ry 6 17) (C25 θ f)
def C27 (θ : Fin 21 → ℝ) (f : Q → ℝ) : Q → ℝ := Gate.apply θ (.cx 6 5) (C26 θ f)
def C28 (θ : Fin 21 → ℝ) (f : Q → ℝ) : Q → ℝ := Gate.apply θ (.ry 2 18) (C27 θ f)
def C29 (θ : Fin 21 → ℝ) (f : Q → ℝ) : Q → ℝ := Gate.apply θ (.ry 5 19) (C28 θ f)
def C30 (θ : Fin 21 → ℝ) (f : Q → ℝ) : Q → ℝ := Gate.apply θ (.cx 2 5) (C29 θ f)
def C31 (θ : Fin 21 → ℝ) (f : Q → ℝ) : Q → ℝ := Gate.apply θ (.ry 5 20) (C30 θ f)

theorem C31_eq (θ : Fin 21 → ℝ) (f : Q → ℝ) : C31 θ f = circuit θ f := rfl

theorem read0 (th : FVec Ideal S21 .f32) (θ : Fin 21 → ℝ) (hth : ∀ k : Fin 21, th (ix1 k) = ((θ k : ℝ) : EReal))
    (f0 : Fin 256 → Q → ℝ) (h0 : ∀ (b : Fin 256) (q : Q), st0 (Gates.ix9 b q) = ((f0 b q : ℝ) : EReal))
    (b : Fin 256) (q : Q) : st0 (Gates.ix9 b q) = ((C0 θ (f0 b) q : ℝ) : EReal) := h0 b q

theorem read1 (th : FVec Ideal S21 .f32) (θ : Fin 21 → ℝ) (hth : ∀ k : Fin 21, th (ix1 k) = ((θ k : ℝ) : EReal))
    (f0 : Fin 256 → Q → ℝ) (h0 : ∀ (b : Fin 256) (q : Q), st0 (Gates.ix9 b q) = ((f0 b q : ℝ) : EReal))
    (b : Fin 256) (q : Q) : st1 th (Gates.ix9 b q) = ((C1 θ (f0 b) q : ℝ) : EReal) := by
  unfold st1
  refine (Gates.ry_apply_1 (B := 256) gather_S256x2x2x2x2x2x2x2x2_S1_S256x2x2x2x2x2x2x2_01234567_2_n_n_2_0_25621222222.wf bcast_S_S1 bcast_S_S256x2x2x2x2x2x2x2 reducesTo_S1_S_d0 h_S_ bcast_S256x2x2x2x2x2x2x2_S256x2x1x2x2x2x2x2x2_0_1_3_4_5_6_7_8 concatenates_S256x2x1x2x2x2x2x2x2_S256x2x1x2x2x2x2x2x2_S256x2x2x2x2x2x2x2x2_d2 (st0) _ b q).trans ?_
  exact ryE_real θ 1 0 (C0 θ (f0 b)) (fun q' => (st0) (Gates.ix9 b q')) (fun q' => read0 th θ hth f0 h0 b q') _
    ((theta_slice th 0 slices_S21_S1_0 shapeCasts_S1_S_).trans (hth 0)) q

theorem read2 (th : FVec Ideal S21 .f32) (θ : Fin 21 → ℝ) (hth : ∀ k : Fin 21, th (ix1 k) = ((θ k : ℝ) : EReal))
    (f0 : Fin 256 → Q → ℝ) (h0 : ∀ (b : Fin 256) (q : Q), st0 (Gates.ix9 b q) = ((f0 b q : ℝ) : EReal))
    (b : Fin 256) (q : Q) : st2 th (Gates.ix9 b q) = ((C2 θ (f0 b) q : ℝ) : EReal) := by
  unfold st2
  refine (Gates.ry_apply_2 (B := 256) gather_S256x2x2x2x2x2x2x2x2_S1_S256x2x2x2x2x2x2x2_01234567_3_n_n_3_0_25622122222.wf bcast_S_S1 bcast_S_S256x2x2x2x2x2x2x2 reducesTo_S1_S_d0 h_S_ bcast_S256x2x2x2x2x2x2x2_S256x2x2x1x2x2x2x2x2_0_1_2_4_5_6_7_8 concatenates_S256x2x2x1x2x2x2x2x2_S256x2x2x1x2x2x2x2x2_S256x2x2x2x2x2x2x2x2_d3 (st1 th) _ b q).trans ?_
  exact ryE_real θ 2 1 (C1 θ (f0 b)) (fun q' => (st1 th) (Gates.ix9 b q')) (fun q' => read1 th θ hth f0 h0 b q') _
    ((theta_slice th 1 slices_S21_S1_1 shapeCasts_S1_S_).trans (hth 1)) q

theorem read3 (th : FVec Ideal S21 .f32) (θ : Fin 21 → ℝ) (hth : ∀ k : Fin 21, th (ix1 k) = ((θ k : ℝ) : EReal))
    (f0 : Fin 256 → Q → ℝ) (h0 : ∀ (b : Fin 256) (q : Q), st0 (Gates.ix9 b q) = ((f0 b q : ℝ) : EReal))
    (b : Fin 256) (q : Q) : st3 th (Gates.ix9 b q) = ((C3 θ (f0 b) q : ℝ) : EReal) := by
  unfold st3
  refine (Gates.cx_apply_1_2 (B := 256) gather_S256x2x2x2x2x2x2x2x2_S1_S256x2x2x2x2x2x2x2_01234567_2_n_n_2_0_25621222222.wf bcast_S_S1 bcast_S_S256x2x2x2x2x2x2x2 reducesTo_S1_S_d0 h_S_ bcast_S256x2x2x2x2x2x2x2_S256x2x1x2x2x2x2x2x2_0_1_3_4_5_6_7_8 concatenates_S256x2x1x2x2x2x2x2x2_S256x2x1x2x2x2x2x2x2_S256x2x2x2x2x2x2x2x2_d2 (st2 th) b q).trans ?_
  exact cxE_real θ 1 2 (C2 θ (f0 b)) (fun q' => (st2 th) (Gates.ix9 b q')) (fun q' => read2 th θ hth f0 h0 b q') q

theorem read4 (th : FVec Ideal S21 .f32) (θ : Fin 21 → ℝ) (hth : ∀ k : Fin 21, th (ix1 k) = ((θ k : ℝ) : EReal))
    (f0 : Fin 256 → Q → ℝ) (h0 : ∀ (b : Fin 256) (q : Q), st0 (Gates.ix9 b q) = ((f0 b q : ℝ) : EReal))
    (b : Fin 256) (q : Q) : st4 th (Gates.ix9 b q) = ((C4 θ (f0 b) q : ℝ) : EReal) := by
  unfold st4
  refine (Gates.ry_apply_5 (B := 256) gather_S256x2x2x2x2x2x2x2x2_S1_S256x2x2x2x2x2x2x2_01234567_6_n_n_6_0_25622222122.wf bcast_S_S1 bcast_S_S256x2x2x2x2x2x2x2 reducesTo_S1_S_d0 h_S_ bcast_S256x2x2x2x2x2x2x2_S256x2x2x2x2x2x1x2x2_0_1_2_3_4_5_7_8 concatenates_S256x2x2x2x2x2x1x2x2_S256x2x2x2x2x2x1x2x2_S256x2x2x2x2x2x2x2x2_d6 (st3 th) _ b q).trans ?_
  exact ryE_real θ 5 2 (C3 θ (f0 b)) (fun q' => (st3 th) (Gates.ix9 b q')) (fun q' => read3 th θ hth f0 h0 b q') _
    ((theta_slice th 2 slices_S21_S1_2 shapeCasts_S1_S_).trans (hth 2)) q

theorem read5 (th : FVec Ideal S21 .f32) (θ : Fin 21 → ℝ) (hth : ∀ k : Fin 21, th (ix1 k) = ((θ k : ℝ) : EReal))
    (f0 : Fin 256 → Q → ℝ) (h0 : ∀ (b : Fin 256) (q : Q), st0 (Gates.ix9 b q) = ((f0 b q : ℝ) : EReal))
    (b : Fin 256) (q : Q) : st5 th (Gates.ix9 b q) = ((C5 θ (f0 b) q : ℝ) : EReal) := by
  unfold st5
  refine (Gates.ry_apply_6 (B := 256) gather_S256x2x2x2x2x2x2x2x2_S1_S256x2x2x2x2x2x2x2_01234567_7_n_n_7_0_25622222212.wf bcast_S_S1 bcast_S_S256x2x2x2x2x2x2x2 reducesTo_S1_S_d0 h_S_ bcast_S256x2x2x2x2x2x2x2_S256x2x2x2x2x2x2x1x2_0_1_2_3_4_5_6_8 concatenates_S256x2x2x2x2x2x2x1x2_S256x2x2x2x2x2x2x1x2_S256x2x2x2x2x2x2x2x2_d7 (st4 th) _ b q).trans ?_
  exact ryE_real θ 6 3 (C4 θ (f0 b)) (fun q' => (st4 th) (Gates.ix9 b q')) (fun q' => read4 th θ hth f0 h0 b q') _
    ((theta_slice th 3 slices_S21_S1_3 shapeCasts_S1_S_).trans (hth 3)) q

theorem read6 (th : FVec Ideal S21 .f32) (θ : Fin 21 → ℝ) (hth : ∀ k : Fin 21, th (ix1 k) = ((θ k : ℝ) : EReal))
    (f0 : Fin 256 → Q → ℝ) (h0 : ∀ (b : Fin 256) (q : Q), st0 (Gates.ix9 b q) = ((f0 b q : ℝ) : EReal))
    (b : Fin 256) (q : Q) : st6 th (Gates.ix9 b q) = ((C6 θ (f0 b) q : ℝ) : EReal) := by
  unfold st6
  refine (Gates.cx_apply_6_5 (B := 256) gather_S256x2x2x2x2x2x2x2x2_S1_S256x2x2x2x2x2x2x2_01234567_7_n_n_7_0_25622222212.wf bcast_S_S1 bcast_S_S256x2x2x2x2x2x2x2 reducesTo_S1_S_d0 h_S_ bcast_S256x2x2x2x2x2x2x2_S256x2x2x2x2x2x2x1x2_0_1_2_3_4_5_6_8 concatenates_S256x2x2x2x2x2x2x1x2_S256x2x2x2x2x2x2x1x2_S256x2x2x2x2x2x2x2x2_d7 (st5 th) b q).trans ?_
  exact cxE_real θ 6 5 (C5 θ (f0 b)) (fun q' => (st5 th) (Gates.ix9 b q')) (fun q' => read5 th θ hth f0 h0 b q') q

theorem read7 (th : FVec Ideal S21 .f32) (θ : Fin 21 → ℝ) (hth : ∀ k : Fin 21, th (ix1 k) = ((θ k : ℝ) : EReal))
    (f0 : Fin 256 → Q → ℝ) (h0 : ∀ (b : Fin 256) (q : Q), st0 (Gates.ix9 b q) = ((f0 b q : ℝ) : EReal))
    (b : Fin 256) (q : Q) : st7 th (Gates.ix9 b q) = ((C7 θ (f0 b) q : ℝ) : EReal) := by
  unfold st7
  refine (Gates.ry_apply_0 (B := 256) gather_S256x2x2x2x2x2x2x2x2_S1_S256x2x2x2x2x2x2x2_01234567_1_n_n_1_0_25612222222.wf bcast_S_S1 bcast_S_S256x2x2x2x2x2x2x2 reducesTo_S1_S_d0 h_S_ bcast_S256x2x2x2x2x2x2x2_S256x1x2x2x2x2x2x2x2_0_2_3_4_5_6_7_8 concatenates_S256x1x2x2x2x2x2x2x2_S256x1x2x2x2x2x2x2x2_S256x2x2x2x2x2x2x2x2_d1 (st6 th) _ b q).trans ?_
  exact ryE_real θ 0 4 (C6 θ (f0 b)) (fun q' => (st6 th) (Gates.ix9 b q')) (fun q' => read6 th θ hth f0 h0 b q') _
    ((theta_slice th 4 slices_S21_S1_4 shapeCasts_S1_S_).trans (hth 4)) q

theorem read8 (th : FVec Ideal S21 .f32) (θ : Fin 21 → ℝ) (hth : ∀ k : Fin 21, th (ix1 k) = ((θ k : ℝ) : EReal))
    (f0 : Fin 256 → Q → ℝ) (h0 : ∀ (b : Fin 256) (q : Q), st0 (Gates.ix9 b q) = ((f0 b q : ℝ) : EReal))
    (b : Fin 256) (q : Q) : st8 th (Gates.ix9 b q) = ((C8 θ (f0 b) q : ℝ) : EReal) := by
  unfold st8
  refine (Gates.ry_apply_1 (B := 256) gather_S256x2x2x2x2x2x2x2x2_S1_S256x2x2x2x2x2x2x2_01234567_2_n_n_2_0_25621222222.wf bcast_S_S1 bcast_S_S256x2x2x2x2x2x2x2 reducesTo_S1_S_d0 h_S_ bcast_S256x2x2x2x2x2x2x2_S256x2x1x2x2x2x2x2x2_0_1_3_4_5_6_7_8 concatenates_S256x2x1x2x2x2x2x2x2_S256x2x1x2x2x2x2x2x2_S256x2x2x2x2x2x2x2x2_d2 (st7 th) _ b q).trans ?_
  exact ryE_real θ 1 5 (C7 θ (f0 b)) (fun q' => (st7 th) (Gates.ix9 b q')) (fun q' => read7 th θ hth f0 h0 b q') _
    ((theta_slice th 5 slices_S21_S1_5 shapeCasts_S1_S_).trans (hth 5)) q

theorem read9 (th : FVec Ideal S21 .f32) (θ : Fin 21 → ℝ) (hth : ∀ k : Fin 21, th (ix1 k) = ((θ k : ℝ) : EReal))
    (f0 : Fin 256 → Q → ℝ) (h0 : ∀ (b : Fin 256) (q : Q), st0 (Gates.ix9 b q) = ((f0 b q : ℝ) : EReal))
    (b : Fin 256) (q : Q) : st9 th (Gates.ix9 b q) = ((C9 θ (f0 b) q : ℝ) : EReal) := by
  unfold st9
  refine (Gates.cx_apply_0_1 (B := 256) gather_S256x2x2x2x2x2x2x2x2_S1_S256x2x2x2x2x2x2x2_01234567_1_n_n_1_0_25612222222.wf bcast_S_S1 bcast_S_S256x2x2x2x2x2x2x2 reducesTo_S1_S_d0 h_S_ bcast_S256x2x2x2x2x2x2x2_S256x1x2x2x2x2x2x2x2_0_2_3_4_5_6_7_8 concatenates_S256x1x2x2x2x2x2x2x2_S256x1x2x2x2x2x2x2x2_S256x2x2x2x2x2x2x2x2_d1 (st8 th) b q).trans ?_
  exact cxE_real θ 0 1 (C8 θ (f0 b)) (fun q' => (st8 th) (Gates.ix9 b q')) (fun q' => read8 th θ hth f0 h0 b q') q

theorem read10 (th : FVec Ideal S21 .f32) (θ : Fin 21 → ℝ) (hth : ∀ k : Fin 21, th (ix1 k) = ((θ k : ℝ) : EReal))
    (f0 : Fin 256 → Q → ℝ) (h0 : ∀ (b : Fin 256) (q : Q), st0 (Gates.ix9 b q) = ((f0 b q : ℝ) : EReal))
    (b : Fin 256) (q : Q) : st10 th (Gates.ix9 b q) = ((C10 θ (f0 b) q : ℝ) : EReal) := by
  unfold st10
  refine (Gates.ry_apply_2 (B := 256) gather_S256x2x2x2x2x2x2x2x2_S1_S256x2x2x2x2x2x2x2_01234567_3_n_n_3_0_25622122222.wf bcast_S_S1 bcast_S_S256x2x2x2x2x2x2x2 reducesTo_S1_S_d0 h_S_ bcast_S256x2x2x2x2x2x2x2_S256x2x2x1x2x2x2x2x2_0_1_2_4_5_6_7_8 concatenates_S256x2x2x1x2x2x2x2x2_S256x2x2x1x2x2x2x2x2_S256x2x2x2x2x2x2x2x2_d3 (st9 th) _ b q).trans ?_
  exact ryE_real θ 2 6 (C9 θ (f0 b)) (fun q' => (st9 th) (Gates.ix9 b q')) (fun q' => read9 th θ hth f0 h0 b q') _
    ((theta_slice th 6 slices_S21_S1_6 shapeCasts_S1_S_).trans (hth 6)) q

theorem read11 (th : FVec Ideal S21 .f32) (θ : Fin 21 → ℝ) (hth : ∀ k : Fin 21, th (ix1 k) = ((θ k : ℝ) : EReal))
    (f0 : Fin 256 → Q → ℝ) (h0 : ∀ (b : Fin 256) (q : Q), st0 (Gates.ix9 b q) = ((f0 b q : ℝ) : EReal))
    (b : Fin 256) (q : Q) : st11 th (Gates.ix9 b q) = ((C11 θ (f0 b) q : ℝ) : EReal) := by
  unfold st11
  refine (Gates.ry_apply_3 (B := 256) gather_S256x2x2x2x2x2x2x2x2_S1_S256x2x2x2x2x2x2x2_01234567_4_n_n_4_0_25622212222.wf bcast_S_S1 bcast_S_S256x2x2x2x2x2x2x2 reducesTo_S1_S_d0 h_S_ bcast_S256x2x2x2x2x2x2x2_S256x2x2x2x1x2x2x2x2_0_1_2_3_5_6_7_8 concatenates_S256x2x2x2x1x2x2x2x2_S256x2x2x2x1x2x2x2x2_S256x2x2x2x2x2x2x2x2_d4 (st10 th) _ b q).trans ?_
  exact ryE_real θ 3 7 (C10 θ (f0 b)) (fun q' => (st10 th) (Gates.ix9 b q')) (fun q' => read10 th θ hth f0 h0 b q') _
    ((theta_slice th 7 slices_S21_S1_7 shapeCasts_S1_S_).trans (hth 7)) q

theorem read12 (th : FVec Ideal S21 .f32) (θ : Fin 21 → ℝ) (hth : ∀ k : Fin 21, th (ix1 k) = ((θ k : ℝ) : EReal))
    (f0 : Fin 256 → Q → ℝ) (h0 : ∀ (b : Fin 256) (q : Q), st0 (Gates.ix9 b q) = ((f0 b q : ℝ) : EReal))
    (b : Fin 256) (q : Q) : st12 th (Gates.ix9 b q) = ((C12 θ (f0 b) q : ℝ) : EReal) := by
  unfold st12
  refine (Gates.cx_apply_3_2 (B := 256) gather_S256x2x2x2x2x2x2x2x2_S1_S256x2x2x2x2x2x2x2_01234567_4_n_n_4_0_25622212222.wf bcast_S_S1 bcast_S_S256x2x2x2x2x2x2x2 reducesTo_S1_S_d0 h_S_ bcast_S256x2x2x2x2x2x2x2_S256x2x2x2x1x2x2x2x2_0_1_2_3_5_6_7_8 concatenates_S256x2x2x2x1x2x2x2x2_S256x2x2x2x1x2x2x2x2_S256x2x2x2x2x2x2x2x2_d4 (st11 th) b q).trans ?_
  exact cxE_real θ 3 2 (C11 θ (f0 b)) (fun q' => (st11 th) (Gates.ix9 b q')) (fun q' => read11 th θ hth f0 h0 b q') q

theorem read13 (th : FVec Ideal S21 .f32) (θ : Fin 21 → ℝ) (hth : ∀ k : Fin 21, th (ix1 k) = ((θ k : ℝ) : EReal))
    (f0 : Fin 256 → Q → ℝ) (h0 : ∀ (b : Fin 256) (q : Q), st0 (Gates.ix9 b q) = ((f0 b q : ℝ) : EReal))
    (b : Fin 256) (q : Q) : st13 th (Gates.ix9 b q) = ((C13 θ (f0 b) q : ℝ) : EReal) := by
  unfold st13
  refine (Gates.ry_apply_4 (B := 256) gather_S256x2x2x2x2x2x2x2x2_S1_S256x2x2x2x2x2x2x2_01234567_5_n_n_5_0_25622221222.wf bcast_S_S1 bcast_S_S256x2x2x2x2x2x2x2 reducesTo_S1_S_d0 h_S_ bcast_S256x2x2x2x2x2x2x2_S256x2x2x2x2x1x2x2x2_0_1_2_3_4_6_7_8 concatenates_S256x2x2x2x2x1x2x2x2_S256x2x2x2x2x1x2x2x2_S256x2x2x2x2x2x2x2x2_d5 (st12 th) _ b q).trans ?_
  exact ryE_real θ 4 8 (C12 θ (f0 b)) (fun q' => (st12 th) (Gates.ix9 b q')) (fun q' => read12 th θ hth f0 h0 b q') _
    ((theta_slice th 8 slices_S21_S1_8 shapeCasts_S1_S_).trans (hth 8)) q

theorem read14 (th : FVec Ideal S21 .f32) (θ : Fin 21 → ℝ) (hth : ∀ k : Fin 21, th (ix1 k) = ((θ k : ℝ) : EReal))
    (f0 : Fin 256 → Q → ℝ) (h0 : ∀ (b : Fin 256) (q : Q), st0 (Gates.ix9 b q) = ((f0 b q : ℝ) : EReal))
    (b : Fin 256) (q : Q) : st14 th (Gates.ix9 b q) = ((C14 θ (f0 b) q : ℝ) : EReal) := by
  unfold st14
  refine (Gates.ry_apply_5 (B := 256) gather_S256x2x2x2x2x2x2x2x2_S1_S256x2x2x2x2x2x2x2_01234567_6_n_n_6_0_25622222122.wf bcast_S_S1 bcast_S_S256x2x2x2x2x2x2x2 reducesTo_S1_S_d0 h_S_ bcast_S256x2x2x2x2x2x2x2_S256x2x2x2x2x2x1x2x2_0_1_2_3_4_5_7_8 concatenates_S256x2x2x2x2x2x1x2x2_S256x2x2x2x2x2x1x2x2_S256x2x2x2x2x2x2x2x2_d6 (st13 th) _ b q).trans ?_
  exact ryE_real θ 5 9 (C13 θ (f0 b)) (fun q' => (st13 th) (Gates.ix9 b q')) (fun q' => read13 th θ hth f0 h0 b q') _
    ((theta_slice th 9 slices_S21_S1_9 shapeCasts_S1_S_).trans (hth 9)) q

theorem read15 (th : FVec Ideal S21 .f32) (θ : Fin 21 → ℝ) (hth : ∀ k : Fin 21, th (ix1 k) = ((θ k : ℝ) : EReal))
    (f0 : Fin 256 → Q → ℝ) (h0 : ∀ (b : Fin 256) (q : Q), st0 (Gates.ix9 b q) = ((f0 b q : ℝ) : EReal))
    (b : Fin 256) (q : Q) : st15 th (Gates.ix9 b q) = ((C15 θ (f0 b) q : ℝ) : EReal) := by
  unfold st15
  refine (Gates.cx_apply_4_5 (B := 256) gather_S256x2x2x2x2x2x2x2x2_S1_S256x2x2x2x2x2x2x2_01234567_5_n_n_5_0_25622221222.wf bcast_S_S1 bcast_S_S256x2x2x2x2x2x2x2 reducesTo_S1_S_d0 h_S_ bcast_S256x2x2x2x2x2x2x2_S256x2x2x2x2x1x2x2x2_0_1_2_3_4_6_7_8 concatenates_S256x2x2x2x2x1x2x2x2_S256x2x2x2x2x1x2x2x2_S256x2x2x2x2x2x2x2x2_d5 (st14 th) b q).trans ?_
  exact cxE_real θ 4 5 (C14 θ (f0 b)) (fun q' => (st14 th) (Gates.ix9 b q')) (fun q' => read14 th θ hth f0 h0 b q') q

theorem read16 (th : FVec Ideal S21 .f32) (θ : Fin 21 → ℝ) (hth : ∀ k : Fin 21, th (ix1 k) = ((θ k : ℝ) : EReal))
    (f0 : Fin 256 → Q → ℝ) (h0 : ∀ (b : Fin 256) (q : Q), st0 (Gates.ix9 b q) = ((f0 b q : ℝ) : EReal))
    (b : Fin 256) (q : Q) : st16 th (Gates.ix9 b q) = ((C16 θ (f0 b) q : ℝ) : EReal) := by
  unfold st16
  refine (Gates.ry_apply_6 (B := 256) gather_S256x2x2x2x2x2x2x2x2_S1_S256x2x2x2x2x2x2x2_01234567_7_n_n_7_0_25622222212.wf bcast_S_S1 bcast_S_S256x2x2x2x2x2x2x2 reducesTo_S1_S_d0 h_S_ bcast_S256x2x2x2x2x2x2x2_S256x2x2x2x2x2x2x1x2_0_1_2_3_4_5_6_8 concatenates_S256x2x2x2x2x2x2x1x2_S256x2x2x2x2x2x2x1x2_S256x2x2x2x2x2x2x2x2_d7 (st15 th) _ b q).trans ?_
  exact ryE_real θ 6 10 (C15 θ (f0 b)) (fun q' => (st15 th) (Gates.ix9 b q')) (fun q' => read15 th θ hth f0 h0 b q') _
    ((theta_slice th 10 slices_S21_S1_10 shapeCasts_S1_S_).trans (hth 10)) q

theorem read17 (th : FVec Ideal S21 .f32) (θ : Fin 21 → ℝ) (hth : ∀ k : Fin 21, th (ix1 k) = ((θ k : ℝ) : EReal))
    (f0 : Fin 256 → Q → ℝ) (h0 : ∀ (b : Fin 256) (q : Q), st0 (Gates.ix9 b q) = ((f0 b q : ℝ) : EReal))
    (b : Fin 256) (q : Q) : st17 th (Gates.ix9 b q) = ((C17 θ (f0 b) q : ℝ) : EReal) := by
  unfold st17
  refine (Gates.ry_apply_7 (B := 256) gather_S256x2x2x2x2x2x2x2x2_S1_S256x2x2x2x2x2x2x2_01234567_8_n_n_8_0_25622222221.wf bcast_S_S1 bcast_S_S256x2x2x2x2x2x2x2 reducesTo_S1_S_d0 h_S_ bcast_S256x2x2x2x2x2x2x2_S256x2x2x2x2x2x2x2x1_0_1_2_3_4_5_6_7 concatenates_S256x2x2x2x2x2x2x2x1_S256x2x2x2x2x2x2x2x1_S256x2x2x2x2x2x2x2x2_d8 (st16 th) _ b q).trans ?_
  exact ryE_real θ 7 11 (C16 θ (f0 b)) (fun q' => (st16 th) (Gates.ix9 b q')) (fun q' => read16 th θ hth f0 h0 b q') _
    ((theta_slice th 11 slices_S21_S1_11 shapeCasts_S1_S_).trans (hth 11)) q

theorem read18 (th : FVec Ideal S21 .f32) (θ : Fin 21 → ℝ) (hth : ∀ k : Fin 21, th (ix1 k) = ((θ k : ℝ) : EReal))
    (f0 : Fin 256 → Q → ℝ) (h0 : ∀ (b : Fin 256) (q : Q), st0 (Gates.ix9 b q) = ((f0 b q : ℝ) : EReal))
    (b : Fin 256) (q : Q) : st18 th (Gates.ix9 b q) = ((C18 θ (f0 b) q : ℝ) : EReal) := by
  unfold st18
  refine (Gates.cx_apply_7_6 (B := 256) gather_S256x2x2x2x2x2x2x2x2_S1_S256x2x2x2x2x2x2x2_01234567_8_n_n_8_0_25622222221.wf bcast_S_S1 bcast_S_S256x2x2x2x2x2x2x2 reducesTo_S1_S_d0 h_S_ bcast_S256x2x2x2x2x2x2x2_S256x2x2x2x2x2x2x2x1_0_1_2_3_4_5_6_7 concatenates_S256x2x2x2x2x2x2x2x1_S256x2x2x2x2x2x2x2x1_S256x2x2x2x2x2x2x2x2_d8 (st17 th) b q).trans ?_
  exact cxE_real θ 7 6 (C17 θ (f0 b)) (fun q' => (st17 th) (Gates.ix9 b q')) (fun q' => read17 th θ hth f0 h0 b q') q

theorem read19 (th : FVec Ideal S21 .f32) (θ : Fin 21 → ℝ) (hth : ∀ k : Fin 21, th (ix1 k) = ((θ k : ℝ) : EReal))
    (f0 : Fin 256 → Q → ℝ) (h0 : ∀ (b : Fin 256) (q : Q), st0 (Gates.ix9 b q) = ((f0 b q : ℝ) : EReal))
    (b : Fin 256) (q : Q) : st19 th (Gates.ix9 b q) = ((C19 θ (f0 b) q : ℝ) : EReal) := by
  unfold st19
  refine (Gates.ry_apply_2 (B := 256) gather_S256x2x2x2x2x2x2x2x2_S1_S256x2x2x2x2x2x2x2_01234567_3_n_n_3_0_25622122222.wf bcast_S_S1 bcast_S_S256x2x2x2x2x2x2x2 reducesTo_S1_S_d0 h_S_ bcast_S256x2x2x2x2x2x2x2_S256x2x2x1x2x2x2x2x2_0_1_2_4_5_6_7_8 concatenates_S256x2x2x1x2x2x2x2x2_S256x2x2x1x2x2x2x2x2_S256x2x2x2x2x2x2x2x2_d3 (st18 th) _ b q).trans ?_
  exact ryE_real θ 2 12 (C18 θ (f0 b)) (fun q' => (st18 th) (Gates.ix9 b q')) (fun q' => read18 th θ hth f0 h0 b q') _
    ((theta_slice th 12 slices_S21_S1_12 shapeCasts_S1_S_).trans (hth 12)) q

theorem read20 (th : FVec Ideal S21 .f32) (θ : Fin 21 → ℝ) (hth : ∀ k : Fin 21, th (ix1 k) = ((θ k : ℝ) : EReal))
    (f0 : Fin 256 → Q → ℝ) (h0 : ∀ (b : Fin 256) (q : Q), st0 (Gates.ix9 b q) = ((f0 b q : ℝ) : EReal))
    (b : Fin 256) (q : Q) : st20 th (Gates.ix9 b q) = ((C20 θ (f0 b) q : ℝ) : EReal) := by
  unfold st20
  refine (Gates.ry_apply_5 (B := 256) gather_S256x2x2x2x2x2x2x2x2_S1_S256x2x2x2x2x2x2x2_01234567_6_n_n_6_0_25622222122.wf bcast_S_S1 bcast_S_S256x2x2x2x2x2x2x2 reducesTo_S1_S_d0 h_S_ bcast_S256x2x2x2x2x2x2x2_S256x2x2x2x2x2x1x2x2_0_1_2_3_4_5_7_8 concatenates_S256x2x2x2x2x2x1x2x2_S256x2x2x2x2x2x1x2x2_S256x2x2x2x2x2x2x2x2_d6 (st19 th) _ b q).trans ?_
  exact ryE_real θ 5 13 (C19 θ (f0 b)) (fun q' => (st19 th) (Gates.ix9 b q')) (fun q' => read19 th θ hth f0 h0 b q') _
    ((theta_slice th 13 slices_S21_S1_13 shapeCasts_S1_S_).trans (hth 13)) q

theorem read21 (th : FVec Ideal S21 .f32) (θ : Fin 21 → ℝ) (hth : ∀ k : Fin 21, th (ix1 k) = ((θ k : ℝ) : EReal))
    (f0 : Fin 256 → Q → ℝ) (h0 : ∀ (b : Fin 256) (q : Q), st0 (Gates.ix9 b q) = ((f0 b q : ℝ) : EReal))
    (b : Fin 256) (q : Q) : st21 th (Gates.ix9 b q) = ((C21 θ (f0 b) q : ℝ) : EReal) := by
  unfold st21
  refine (Gates.cx_apply_2_5 (B := 256) gather_S256x2x2x2x2x2x2x2x2_S1_S256x2x2x2x2x2x2x2_01234567_3_n_n_3_0_25622122222.wf bcast_S_S1 bcast_S_S256x2x2x2x2x2x2x2 reducesTo_S1_S_d0 h_S_ bcast_S256x2x2x2x2x2x2x2_S256x2x2x1x2x2x2x2x2_0_1_2_4_5_6_7_8 concatenates_S256x2x2x1x2x2x2x2x2_S256x2x2x1x2x2x2x2x2_S256x2x2x2x2x2x2x2x2_d3 (st20 th) b q).trans ?_
  exact cxE_real θ 2 5 (C20 θ (f0 b)) (fun q' => (st20 th) (Gates.ix9 b q')) (fun q' => read20 th θ hth f0 h0 b q') q

theorem read22 (th : FVec Ideal S21 .f32) (θ : Fin 21 → ℝ) (hth : ∀ k : Fin 21, th (ix1 k) = ((θ k : ℝ) : EReal))
    (f0 : Fin 256 → Q → ℝ) (h0 : ∀ (b : Fin 256) (q : Q), st0 (Gates.ix9 b q) = ((f0 b q : ℝ) : EReal))
    (b : Fin 256) (q : Q) : st22 th (Gates.ix9 b q) = ((C22 θ (f0 b) q : ℝ) : EReal) := by
  unfold st22
  refine (Gates.ry_apply_1 (B := 256) gather_S256x2x2x2x2x2x2x2x2_S1_S256x2x2x2x2x2x2x2_01234567_2_n_n_2_0_25621222222.wf bcast_S_S1 bcast_S_S256x2x2x2x2x2x2x2 reducesTo_S1_S_d0 h_S_ bcast_S256x2x2x2x2x2x2x2_S256x2x1x2x2x2x2x2x2_0_1_3_4_5_6_7_8 concatenates_S256x2x1x2x2x2x2x2x2_S256x2x1x2x2x2x2x2x2_S256x2x2x2x2x2x2x2x2_d2 (st21 th) _ b q).trans ?_
  exact ryE_real θ 1 14 (C21 θ (f0 b)) (fun q' => (st21 th) (Gates.ix9 b q')) (fun q' => read21 th θ hth f0 h0 b q') _
    ((theta_slice th 14 slices_S21_S1_14 shapeCasts_S1_S_).trans (hth 14)) q

theorem read23 (th : FVec Ideal S21 .f32) (θ : Fin 21 → ℝ) (hth : ∀ k : Fin 21, th (ix1 k) = ((θ k : ℝ) : EReal))
    (f0 : Fin 256 → Q → ℝ) (h0 : ∀ (b : Fin 256) (q : Q), st0 (Gates.ix9 b q) = ((f0 b q : ℝ) : EReal))
    (b : Fin 256) (q : Q) : st23 th (Gates.ix9 b q) = ((C23 θ (f0 b) q : ℝ) : EReal) := by
  unfold st23
  refine (Gates.ry_apply_2 (B := 256) gather_S256x2x2x2x2x2x2x2x2_S1_S256x2x2x2x2x2x2x2_01234567_3_n_n_3_0_25622122222.wf bcast_S_S1 bcast_S_S256x2x2x2x2x2x2x2 reducesTo_S1_S_d0 h_S_ bcast_S256x2x2x2x2x2x2x2_S256x2x2x1x2x2x2x2x2_0_1_2_4_5_6_7_8 concatenates_S256x2x2x1x2x2x2x2x2_S256x2x2x1x2x2x2x2x2_S256x2x2x2x2x2x2x2x2_d3 (st22 th) _ b q).trans ?_
  exact ryE_real θ 2 15 (C22 θ (f0 b)) (fun q' => (st22 th) (Gates.ix9 b q')) (fun q' => read22 th θ hth f0 h0 b q') _
    ((theta_slice th 15 slices_S21_S1_15 shapeCasts_S1_S_).trans (hth 15)) q

theorem read24 (th : FVec Ideal S21 .f32) (θ : Fin 21 → ℝ) (hth : ∀ k : Fin 21, th (ix1 k) = ((θ k : ℝ) : EReal))
    (f0 : Fin 256 → Q → ℝ) (h0 : ∀ (b : Fin 256) (q : Q), st0 (Gates.ix9 b q) = ((f0 b q : ℝ) : EReal))
    (b : Fin 256) (q : Q) : st24 th (Gates.ix9 b q) = ((C24 θ (f0 b) q : ℝ) : EReal) := by
  unfold st24
  refine (Gates.cx_apply_1_2 (B := 256) gather_S256x2x2x2x2x2x2x2x2_S1_S256x2x2x2x2x2x2x2_01234567_2_n_n_2_0_25621222222.wf bcast_S_S1 bcast_S_S256x2x2x2x2x2x2x2 reducesTo_S1_S_d0 h_S_ bcast_S256x2x2x2x2x2x2x2_S256x2x1x2x2x2x2x2x2_0_1_3_4_5_6_7_8 concatenates_S256x2x1x2x2x2x2x2x2_S256x2x1x2x2x2x2x2x2_S256x2x2x2x2x2x2x2x2_d2 (st23 th) b q).trans ?_
  exact cxE_real θ 1 2 (C23 θ (f0 b)) (fun q' => (st23 th) (Gates.ix9 b q')) (fun q' => read23 th θ hth f0 h0 b q') q

theorem read25 (th : FVec Ideal S21 .f32) (θ : Fin 21 → ℝ) (hth : ∀ k : Fin 21, th (ix1 k) = ((θ k : ℝ) : EReal))
    (f0 : Fin 256 → Q → ℝ) (h0 : ∀ (b : Fin 256) (q : Q), st0 (Gates.ix9 b q) = ((f0 b q : ℝ) : EReal))
    (b : Fin 256) (q : Q) : st25 th (Gates.ix9 b q) = ((C25 θ (f0 b) q : ℝ) : EReal) := by
  unfold st25
  refine (Gates.ry_apply_5 (B := 256) gather_S256x2x2x2x2x2x2x2x2_S1_S256x2x2x2x2x2x2x2_01234567_6_n_n_6_0_25622222122.wf bcast_S_S1 bcast_S_S256x2x2x2x2x2x2x2 reducesTo_S1_S_d0 h_S_ bcast_S256x2x2x2x2x2x2x2_S256x2x2x2x2x2x1x2x2_0_1_2_3_4_5_7_8 concatenates_S256x2x2x2x2x2x1x2x2_S256x2x2x2x2x2x1x2x2_S256x2x2x2x2x2x2x2x2_d6 (st24 th) _ b q).trans ?_
  exact ryE_real θ 5 16 (C24 θ (f0 b)) (fun q' => (st24 th) (Gates.ix9 b q')) (fun q' => read24 th θ hth f0 h0 b q') _
    ((theta_slice th 16 slices_S21_S1_16 shapeCasts_S1_S_).trans (hth 16)) q

theorem read26 (th : FVec Ideal S21 .f32) (θ : Fin 21 → ℝ) (hth : ∀ k : Fin 21, th (ix1 k) = ((θ k : ℝ) : EReal))
    (f0 : Fin 256 → Q → ℝ) (h0 : ∀ (b : Fin 256) (q : Q), st0 (Gates.ix9 b q) = ((f0 b q : ℝ) : EReal))
    (b : Fin 256) (q : Q) : st26 th (Gates.ix9 b q) = ((C26 θ (f0 b) q : ℝ) : EReal) := by
  unfold st26
  refine (Gates.ry_apply_6 (B := 256) gather_S256x2x2x2x2x2x2x2x2_S1_S256x2x2x2x2x2x2x2_01234567_7_n_n_7_0_25622222212.wf bcast_S_S1 bcast_S_S256x2x2x2x2x2x2x2 reducesTo_S1_S_d0 h_S_ bcast_S256x2x2x2x2x2x2x2_S256x2x2x2x2x2x2x1x2_0_1_2_3_4_5_6_8 concatenates_S256x2x2x2x2x2x2x1x2_S256x2x2x2x2x2x2x1x2_S256x2x2x2x2x2x2x2x2_d7 (st25 th) _ b q).trans ?_
  exact ryE_real θ 6 17 (C25 θ (f0 b)) (fun q' => (st25 th) (Gates.ix9 b q')) (fun q' => read25 th θ hth f0 h0 b q') _
    ((theta_slice th 17 slices_S21_S1_17 shapeCasts_S1_S_).trans (hth 17)) q

theorem read27 (th : FVec Ideal S21 .f32) (θ : Fin 21 → ℝ) (hth : ∀ k : Fin 21, th (ix1 k) = ((θ k : ℝ) : EReal))
    (f0 : Fin 256 → Q → ℝ) (h0 : ∀ (b : Fin 256) (q : Q), st0 (Gates.ix9 b q) = ((f0 b q : ℝ) : EReal))
    (b : Fin 256) (q : Q) : st27 th (Gates.ix9 b q) = ((C27 θ (f0 b) q : ℝ) : EReal) := by
  unfold st27
  refine (Gates.cx_apply_6_5 (B := 256) gather_S256x2x2x2x2x2x2x2x2_S1_S256x2x2x2x2x2x2x2_01234567_7_n_n_7_0_25622222212.wf bcast_S_S1 bcast_S_S256x2x2x2x2x2x2x2 reducesTo_S1_S_d0 h_S_ bcast_S256x2x2x2x2x2x2x2_S256x2x2x2x2x2x2x1x2_0_1_2_3_4_5_6_8 concatenates_S256x2x2x2x2x2x2x1x2_S256x2x2x2x2x2x2x1x2_S256x2x2x2x2x2x2x2x2_d7 (st26 th) b q).trans ?_
  exact cxE_real θ 6 5 (C26 θ (f0 b)) (fun q' => (st26 th) (Gates.ix9 b q')) (fun q' => read26 th θ hth f0 h0 b q') q

theorem read28 (th : FVec Ideal S21 .f32) (θ : Fin 21 → ℝ) (hth : ∀ k : Fin 21, th (ix1 k) = ((θ k : ℝ) : EReal))
    (f0 : Fin 256 → Q → ℝ) (h0 : ∀ (b : Fin 256) (q : Q), st0 (Gates.ix9 b q) = ((f0 b q : ℝ) : EReal))
    (b : Fin 256) (q : Q) : st28 th (Gates.ix9 b q) = ((C28 θ (f0 b) q : ℝ) : EReal) := by
  unfold st28
  refine (Gates.ry_apply_2 (B := 256) gather_S256x2x2x2x2x2x2x2x2_S1_S256x2x2x2x2x2x2x2_01234567_3_n_n_3_0_25622122222.wf bcast_S_S1 bcast_S_S256x2x2x2x2x2x2x2 reducesTo_S1_S_d0 h_S_ bcast_S256x2x2x2x2x2x2x2_S256x2x2x1x2x2x2x2x2_0_1_2_4_5_6_7_8 concatenates_S256x2x2x1x2x2x2x2x2_S256x2x2x1x2x2x2x2x2_S256x2x2x2x2x2x2x2x2_d3 (st27 th) _ b q).trans ?_
  exact ryE_real θ 2 18 (C27 θ (f0 b)) (fun q' => (st27 th) (Gates.ix9 b q')) (fun q' => read27 th θ hth f0 h0 b q') _
    ((theta_slice th 18 slices_S21_S1_18 shapeCasts_S1_S_).trans (hth 18)) q

theorem read29 (th : FVec Ideal S21 .f32) (θ : Fin 21 → ℝ) (hth : ∀ k : Fin 21, th (ix1 k) = ((θ k : ℝ) : EReal))
    (f0 : Fin 256 → Q → ℝ) (h0 : ∀ (b : Fin 256) (q : Q), st0 (Gates.ix9 b q) = ((f0 b q : ℝ) : EReal))
    (b : Fin 256) (q : Q) : st29 th (Gates.ix9 b q) = ((C29 θ (f0 b) q : ℝ) : EReal) := by
  unfold st29
  refine (Gates.ry_apply_5 (B := 256) gather_S256x2x2x2x2x2x2x2x2_S1_S256x2x2x2x2x2x2x2_01234567_6_n_n_6_0_25622222122.wf bcast_S_S1 bcast_S_S256x2x2x2x2x2x2x2 reducesTo_S1_S_d0 h_S_ bcast_S256x2x2x2x2x2x2x2_S256x2x2x2x2x2x1x2x2_0_1_2_3_4_5_7_8 concatenates_S256x2x2x2x2x2x1x2x2_S256x2x2x2x2x2x1x2x2_S256x2x2x2x2x2x2x2x2_d6 (st28 th) _ b q).trans ?_
  exact ryE_real θ 5 19 (C28 θ (f0 b)) (fun q' => (st28 th) (Gates.ix9 b q')) (fun q' => read28 th θ hth f0 h0 b q') _
    ((theta_slice th 19 slices_S21_S1_19 shapeCasts_S1_S_).trans (hth 19)) q

theorem read30 (th : FVec Ideal S21 .f32) (θ : Fin 21 → ℝ) (hth : ∀ k : Fin 21, th (ix1 k) = ((θ k : ℝ) : EReal))
    (f0 : Fin 256 → Q → ℝ) (h0 : ∀ (b : Fin 256) (q : Q), st0 (Gates.ix9 b q) = ((f0 b q : ℝ) : EReal))
    (b : Fin 256) (q : Q) : st30 th (Gates.ix9 b q) = ((C30 θ (f0 b) q : ℝ) : EReal) := by
  unfold st30
  refine (Gates.cx_apply_2_5 (B := 256) gather_S256x2x2x2x2x2x2x2x2_S1_S256x2x2x2x2x2x2x2_01234567_3_n_n_3_0_25622122222.wf bcast_S_S1 bcast_S_S256x2x2x2x2x2x2x2 reducesTo_S1_S_d0 h_S_ bcast_S256x2x2x2x2x2x2x2_S256x2x2x1x2x2x2x2x2_0_1_2_4_5_6_7_8 concatenates_S256x2x2x1x2x2x2x2x2_S256x2x2x1x2x2x2x2x2_S256x2x2x2x2x2x2x2x2_d3 (st29 th) b q).trans ?_
  exact cxE_real θ 2 5 (C29 θ (f0 b)) (fun q' => (st29 th) (Gates.ix9 b q')) (fun q' => read29 th θ hth f0 h0 b q') q

theorem read31 (th : FVec Ideal S21 .f32) (θ : Fin 21 → ℝ) (hth : ∀ k : Fin 21, th (ix1 k) = ((θ k : ℝ) : EReal))
    (f0 : Fin 256 → Q → ℝ) (h0 : ∀ (b : Fin 256) (q : Q), st0 (Gates.ix9 b q) = ((f0 b q : ℝ) : EReal))
    (b : Fin 256) (q : Q) : st31 th (Gates.ix9 b q) = ((C31 θ (f0 b) q : ℝ) : EReal) := by
  unfold st31
  refine (Gates.ry_apply_5 (B := 256) gather_S256x2x2x2x2x2x2x2x2_S1_S256x2x2x2x2x2x2x2_01234567_6_n_n_6_0_25622222122.wf bcast_S_S1 bcast_S_S256x2x2x2x2x2x2x2 reducesTo_S1_S_d0 h_S_ bcast_S256x2x2x2x2x2x2x2_S256x2x2x2x2x2x1x2x2_0_1_2_3_4_5_7_8 concatenates_S256x2x2x2x2x2x1x2x2_S256x2x2x2x2x2x1x2x2_S256x2x2x2x2x2x2x2x2_d6 (st30 th) _ b q).trans ?_
  exact ryE_real θ 5 20 (C30 θ (f0 b)) (fun q' => (st30 th) (Gates.ix9 b q')) (fun q' => read30 th θ hth f0 h0 b q') _
    ((theta_slice th 20 slices_S21_S1_20 shapeCasts_S1_S_).trans (hth 20)) q

end Cert.TTN.KHost

end
-- ==== Proof.Final.lean ====
/-
  The two programs' results for one edge are the same real number.

  On real inputs the halved encoding angles are real, the product state multiplied in either order of the wires is
  the real product state, and the reference's (1 - (m0 - m1)) / 2, computed on extended reals with the float words
  of 1 and 2, is the real number of the same formula.  The kernel's stored sum is the weight m1 of the states whose
  wire 5 is 1; since the circuit keeps the total weight 1 of the product state, the two agree.
-/
import proofs.«130987_j14276471292017_1_alg».proof.Proof.RealGates
import proofs.«130987_j14276471292017_1_alg».proof.Proof.Angles

noncomputable section

namespace Cert.TTN

open Idealize.ShloMosaic Idealize.ShloMosaic.ValueIdx

/-- the real angles of edge e -/
def angR (xr : Fin 2048 → Fin 4 → ℝ) (rir ror : Fin 2048 → Fin 16384 → ℝ) (e : Fin 16384) (w : Fin 8) : ℝ :=
  if h : w.val < 4 then ∑ n : Fin 2048, ror n e * xr n ⟨w.val, h⟩ else ∑ n : Fin 2048, rir n e * xr n ⟨w.val - 4, by omega⟩

theorem halfG_real (x : FVec Ideal ⟨2, ![2048, 4]⟩ .f32) (ri ro : FVec Ideal ⟨2, ![2048, 16384]⟩ .f32)
    (xr : Fin 2048 → Fin 4 → ℝ) (rir ror : Fin 2048 → Fin 16384 → ℝ)
    (hx : ∀ n d, x (ix2 n d) = ((xr n d : ℝ) : EReal)) (hri : ∀ n e, ri (ix2 n e) = ((rir n e : ℝ) : EReal))
    (hro : ∀ n e, ro (ix2 n e) = ((ror n e : ℝ) : EReal)) (e : Fin 16384) :
    halfG x ri ro e = fun w => (((1/2 : ℝ) * angR xr rir ror e w : ℝ) : EReal) := by
  funext w
  unfold halfG angR
  rw [half_word]
  by_cases h : w.val < 4
  · simp only [dif_pos h, hx, hro, zero_add, ← EReal.coe_mul, ← coe_sum]
  · simp only [dif_neg h, hx, hri, zero_add, ← EReal.coe_mul, ← coe_sum]

theorem psiRef_real (a : Fin 8 → ℝ) (q : Q) :
    psiRef (fun w => (((1/2 : ℝ) * a w : ℝ) : EReal)) q = ((prodState a q : ℝ) : EReal) := by
  unfold psiRef
  simp only [ampE_real, ← EReal.coe_mul]
  congr 1
  unfold prodState
  rw [Fin.prod_univ_eight]
  have hh : ∀ w, (1/2 : ℝ) * a w = a w / 2 := fun w => by ring
  simp only [hh]

/-- A real value or zero, chosen inside the extended reals, is the real choice. -/
theorem coe_ite_zero (c : Prop) [Decidable c] (a : ℝ) :
    (if c then ((a : ℝ) : EReal) else 0) = (((if c then a else 0) : ℝ) : EReal) := by
  split_ifs <;> simp

theorem refRow_real (φ : Q → ℝ) :
    Ideal.div (Ideal.ofBits .f32 0x3F800000#32
        - ((0 + ∑ q : Q, if q 5 = 0 then ((φ q : ℝ) : EReal) * ((φ q : ℝ) : EReal) else 0)
          - (0 + ∑ q : Q, if q 5 = 1 then ((φ q : ℝ) : EReal) * ((φ q : ℝ) : EReal) else 0)))
        (Ideal.ofBits .f32 0x40000000#32)
      = (((1 - ((∑ q : Q, if q 5 = 0 then φ q * φ q else 0) - (∑ q : Q, if q 5 = 1 then φ q * φ q else 0))) / 2 : ℝ) : EReal) := by
  simp only [← EReal.coe_mul, coe_ite_zero, ← coe_sum, zero_add]
  rw [one_word, two_word, Ideal.div_coe (by norm_num : (2 : ℝ) ≠ 0), ← EReal.coe_sub, ← EReal.coe_sub, ← EReal.coe_mul]
  congr 1
  ring

/-! ### The laws of the circuit, with the sums over basis states as this file reads them

  A sum over all basis states does not depend on how the basis states are enumerated; the statements below are the
  laws of the circuit with the enumeration that is in force here. -/

theorem circuit_linear' (θ : Fin 21 → ℝ) (f : Q → ℝ) (q : Q) :
    circuit θ f q = ∑ j : Q, f j * circuit θ (basis j) q := by
  convert circuit_linear θ f q

theorem circuit_norm' (θ : Fin 21 → ℝ) (f : Q → ℝ) :
    ∑ q : Q, circuit θ f q * circuit θ f q = ∑ q : Q, f q * f q := by
  convert circuit_norm θ f

theorem prodState_norm' (a : Fin 8 → ℝ) : ∑ q : Q, prodState a q * prodState a q = 1 := by
  convert prodState_norm a

theorem marginal_identity' (θ : Fin 21 → ℝ) (a : Fin 8 → ℝ) :
    (1 - ((∑ q : Q, if q 5 = 0 then circuit θ (prodState a) q * circuit θ (prodState a) q else 0)
          - (∑ q : Q, if q 5 = 1 then circuit θ (prodState a) q * circuit θ (prodState a) q else 0))) / 2
      = ∑ q : Q, ((∑ j : Q, prodState a j * circuit θ (basis j) q)
            * (∑ j : Q, prodState a j * circuit θ (basis j) q))
            * (if q 5 = 1 then (1 : ℝ) else 0) := by
  convert marginal_identity θ a

/-- both programs' results for one edge, as extended reals, are the same real number -/
theorem edge_agree (θ : Fin 21 → ℝ) (a : Fin 8 → ℝ) :
    kernelRow (fun w => (((1/2 : ℝ) * a w : ℝ) : EReal))
        (fun j k => ((circuit θ (basis (toQ j)) (toQ k) : ℝ) : EReal))
        (fun k => (((if bitOf k 5 = 1 then (1 : ℝ) else 0) : ℝ) : EReal))
      = Ideal.div (Ideal.ofBits .f32 0x3F800000#32
          - ((0 + ∑ q : Q, if q 5 = 0 then ((circuit θ (prodState a) q : ℝ) : EReal) * ((circuit θ (prodState a) q : ℝ) : EReal) else 0)
            - (0 + ∑ q : Q, if q 5 = 1 then ((circuit θ (prodState a) q : ℝ) : EReal) * ((circuit θ (prodState a) q : ℝ) : EReal) else 0)))
          (Ideal.ofBits .f32 0x40000000#32) := by
  rw [kernelRow_real, refRow_real (circuit θ (prodState a)), marginal_identity']

end Cert.TTN

end
-- ==== Proof.KFinal.lean ====
/-
  The kernel's host part read as real mathematics, and what the kernel stores for one edge.

  The state before the gates is the identity matrix recast as 256 registers: register `b` holds the basis state of
  the binary digits of `b`.  The 31 gates act on every register as the circuit does, so the matrix the kernel
  multiplies by holds, at row `j` and column `k`, the circuit's image of basis state `j` at basis state `k`; the
  mask row holds, at column `k`, the digit of weight 4 of `k` (the bit of wire 5).  With real inputs the halved
  encoding angles are real, so the stored quantity of an edge is the one the real mathematics speaks about.
-/
import proofs.«130987_j14276471292017_1_alg».proof.Proof.KV
import proofs.«130987_j14276471292017_1_alg».proof.Proof.KRead
import proofs.«130987_j14276471292017_1_alg».proof.Proof.Final
import Idealize.ShloMosaic.Lib.ValueLayout

set_option maxRecDepth 16384

noncomputable section

namespace Cert.TTN.KHost

open Idealize.ShloMosaic Idealize.ShloMosaic.TcCoe Idealize.SL.Sem Idealize.ShloMosaic.ValueIdx
open Cert.KernelIdeal Cert.KernelIdeal.Gen Cert.TTN

/-- Before the gates, register `b` holds the basis state named by `b`. -/
theorem st0_apply (b : Fin 256) (q : Q) : st0 (Gates.ix9 b q) = ((basis (toQ b) q : ℝ) : EReal) := by
  unfold st0
  refine (recast_to9 eyeTerm shapeCasts_S256x256_S256x2x2x2x2x2x2x2x2 b q).trans ?_
  refine (eye_apply bcast_S_S256x256 b (equivQ.symm q)).trans ?_
  have e : toQ (equivQ.symm q) = q := equivQ.apply_symm_apply q
  have hb := basis_toQ b (equivQ.symm q)
  rw [e] at hb
  rw [hb]

/-- The matrix the kernel multiplies by: at row `j`, column `k`, the circuit's image of basis state `j` at basis
    state `k`. -/
theorem M_entry (m : (ℓ : Loc nD τ sig) → Buf (Elt Ideal) ℓ) (c : Dev nD) (θ : Fin 21 → ℝ)
    (hθ : ∀ k : Fin 21, (m ((c.tc : Thread nD τ).loc main_arg3) : FVec Ideal S21 .f32) (ix1 k) = ((θ k : ℝ) : EReal))
    (j k : Fin 256) :
    (Gen.V (F := Ideal) m c main_v508 : FVec Ideal S256x256 .f32) (ix2 j k)
      = ((circuit θ (basis (toQ j)) (toQ k) : ℝ) : EReal) := by
  rw [V_matrix m c]
  refine (recast_from9 (st31 (m ((c.tc : Thread nD τ).loc main_arg3))) shapeCasts_S256x2x2x2x2x2x2x2x2_S256x256 j k).trans ?_
  refine (read31 (m ((c.tc : Thread nD τ).loc main_arg3)) θ hθ (fun b => basis (toQ b)) st0_apply j (toQ k)).trans ?_
  exact congrArg (fun r : ℝ => (r : EReal)) (congrFun (C31_eq θ (basis (toQ j))) (toQ k))

/-- The mask row: at column `k`, 1 where the bit of wire 5 of `k` is 1, else 0. -/
theorem mask_entry (m : (ℓ : Loc nD τ sig) → Buf (Elt Ideal) ℓ) (c : Dev nD) (k : Fin 256) :
    (Gen.V (F := Ideal) m c main_v515 : FVec Ideal S1x256 .f32) (ix2 (0 : Fin 1) k)
      = (((if bitOf k 5 = 1 then (1 : ℝ) else 0) : ℝ) : EReal) := by
  rw [V_mask m c]
  refine (shapeCast_a_1a_apply maskTerm shapeCasts_S256_S1x256 (0 : Fin 1) k).trans ?_
  exact mask_apply bcast_S_S256 k

/-- What the kernel stores for edge `e`, on real inputs: the stored quantity of the real half angles, the circuit's
    matrix and the wire-5 mask. -/
theorem kernel_row_value (m : (ℓ : Loc nD τ sig) → Buf (Elt Ideal) ℓ) (c : Dev nD) (θ : Fin 21 → ℝ)
    (hθ : ∀ k : Fin 21, (m ((c.tc : Thread nD τ).loc main_arg3) : FVec Ideal S21 .f32) (ix1 k) = ((θ k : ℝ) : EReal))
    (xr : Fin 2048 → Fin 4 → ℝ) (rir ror : Fin 2048 → Fin 16384 → ℝ)
    (hx : ∀ n d, (m ((c.tc : Thread nD τ).loc main_arg0) : FVec Ideal S2048x4 .f32) (ix2 n d) = ((xr n d : ℝ) : EReal))
    (hri : ∀ n e, (m ((c.tc : Thread nD τ).loc main_arg1) : FVec Ideal S2048x16384 .f32) (ix2 n e) = ((rir n e : ℝ) : EReal))
    (hro : ∀ n e, (m ((c.tc : Thread nD τ).loc main_arg2) : FVec Ideal S2048x16384 .f32) (ix2 n e) = ((ror n e : ℝ) : EReal))
    (e : Fin 16384) :
    kernelRow
        (halfG (m ((c.tc : Thread nD τ).loc main_arg0) : FVec Ideal S2048x4 .f32)
          (m ((c.tc : Thread nD τ).loc main_arg1) : FVec Ideal S2048x16384 .f32)
          (m ((c.tc : Thread nD τ).loc main_arg2) : FVec Ideal S2048x16384 .f32) e)
        (fun j k => (Gen.V (F := Ideal) m c main_v508 : FVec Ideal S256x256 .f32) (ix2 j k))
        (fun k => (Gen.V (F := Ideal) m c main_v515 : FVec Ideal S1x256 .f32) (ix2 (0 : Fin 1) k))
      = kernelRow (fun w => (((1 / 2 : ℝ) * angR xr rir ror e w : ℝ) : EReal))
          (fun j k => ((circuit θ (basis (toQ j)) (toQ k) : ℝ) : EReal))
          (fun k => (((if bitOf k 5 = 1 then (1 : ℝ) else 0) : ℝ) : EReal)) := by
  have hM : (fun j k => (Gen.V (F := Ideal) m c main_v508 : FVec Ideal S256x256 .f32) (ix2 j k))
      = fun j k => ((circuit θ (basis (toQ j)) (toQ k) : ℝ) : EReal) :=
    funext fun j => funext fun k => M_entry m c θ hθ j k
  have hK : (fun k => (Gen.V (F := Ideal) m c main_v515 : FVec Ideal S1x256 .f32) (ix2 (0 : Fin 1) k))
      = fun k => (((if bitOf k 5 = 1 then (1 : ℝ) else 0) : ℝ) : EReal) :=
    funext fun k => mask_entry m c k
  rw [halfG_real (m ((c.tc : Thread nD τ).loc main_arg0) : FVec Ideal S2048x4 .f32)
      (m ((c.tc : Thread nD τ).loc main_arg1) : FVec Ideal S2048x16384 .f32)
      (m ((c.tc : Thread nD τ).loc main_arg2) : FVec Ideal S2048x16384 .f32) xr rir ror hx hri hro e, hM, hK]

end Cert.TTN.KHost

end
-- ==== Proof.ResultFun.lean ====
/-
  The common result of the two programs, as one array of extended reals: for real inputs, entry `e` is the masked sum
  the kernel computes from the real encoding angles of edge `e`, the real matrix of the circuit and the real mask.
-/
import proofs.«130987_j14276471292017_1_alg».proof.Proof.Final

noncomputable section

namespace Cert.TTN

open Idealize.ShloMosaic

/-- The result array, from real inputs: features `xr`, incidence matrices `rir`, `ror`, parameters `θ`. -/
def resultFun (xr : Fin 2048 → Fin 4 → ℝ) (rir ror : Fin 2048 → Fin 16384 → ℝ) (θ : Fin 21 → ℝ) :
    (⟨1, ![16384]⟩ : Shape).Idx → EReal :=
  fun i => kernelRow (fun w => (((1/2 : ℝ) * angR xr rir ror ⟨(i 0).val, (i 0).isLt⟩ w : ℝ) : EReal))
    (fun j k => ((circuit θ (basis (toQ j)) (toQ k) : ℝ) : EReal))
    (fun k => (((if bitOf k 5 = 1 then (1 : ℝ) else 0) : ℝ) : EReal))

end Cert.TTN

end
-- ==== Proof.KSide.lean ====
/-
  The kernel's program, run from a memory whose four arguments hold real numbers: every weakly fair execution ends
  with the result buffer at the common result array of those real numbers, and the arguments as they were.
-/
import proofs.«130987_j14276471292017_1_alg».proof.Proof.KernelRun
import proofs.«130987_j14276471292017_1_alg».proof.Proof.KFinal
import proofs.«130987_j14276471292017_1_alg».proof.Proof.ResultFun

set_option maxRecDepth 16384

noncomputable section

namespace Cert.TTN.KHost

open Idealize.ShloMosaic Idealize.ShloMosaic.TcCoe Idealize.ShloMosaic.ValueIdx Idealize.SL.Sem
open Cert.KernelIdeal Cert.KernelIdeal.Gen Cert.TTN

theorem kernel_side (m : (ℓ : Loc nD τ sig) → Buf (Elt Ideal) ℓ) (ρ : Dev nD → PrngReg)
    (xr : Dev nD → Fin 2048 → Fin 4 → ℝ) (rir ror : Dev nD → Fin 2048 → Fin 16384 → ℝ) (θ : Dev nD → Fin 21 → ℝ)
    (hx : ∀ (c : Dev nD) n d, (m ((c.tc : Thread nD τ).loc main_arg0) : FVec Ideal S2048x4 .f32) (ix2 n d) = ((xr c n d : ℝ) : EReal))
    (hri : ∀ (c : Dev nD) n e, (m ((c.tc : Thread nD τ).loc main_arg1) : FVec Ideal S2048x16384 .f32) (ix2 n e) = ((rir c n e : ℝ) : EReal))
    (hro : ∀ (c : Dev nD) n e, (m ((c.tc : Thread nD τ).loc main_arg2) : FVec Ideal S2048x16384 .f32) (ix2 n e) = ((ror c n e : ℝ) : EReal))
    (hθ : ∀ (c : Dev nD) (k : Fin 21), (m ((c.tc : Thread nD τ).loc main_arg3) : FVec Ideal S21 .f32) (ix1 k) = ((θ c k : ℝ) : EReal)) :
    θ_run (defs (F := Ideal)) (onTc (τ := τ) (main (F := Ideal))) ⟨m, fun _ => 0, ρ⟩ (fun r => ∀ c : Dev nD,
        r.2.mem ((c.tc : Thread nD τ).loc main_v517) = resultFun (xr c) (rir c) (ror c) (θ c)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  (θ_run (defs (F := Ideal)) _ _).mono (fun r h c => ⟨(h c).1.trans (funext fun i =>
      kernel_row_value m c (θ c) (hθ c) (xr c) (rir c) (ror c) (hx c) (hri c) (hro c) ⟨(i 0).val, (i 0).isLt⟩), (h c).2⟩)
    (Cert.TTN.KRun.kernel_run m ρ)

end Cert.TTN.KHost

end
-- ==== Proof.RefRunLib.lean ====
/- Small facts about straight lines of StableHLO operations, used to read the reference program's run back list by
   list: a predicate holds of every operation of a concatenation when it holds of every operation of each list; the
   buffers after a concatenation are the buffers after the second list from those after the first; and an operation
   built by one of the builders writes only its result reference, so it writes none of a list of references its result
   is not among — whence a reference none of a line's operations has as its result keeps its contents. -/
import Idealize.ShloMosaic.Lib.StableHlo.Run

noncomputable section

namespace Cert.TTN.RefRun

open Idealize.ShloMosaic Idealize.ShloMosaic.StableHlo Idealize.SL.Sem

variable {τ : Topo} {sig : RefSig} {Val : EltTy → Type}

/-- A predicate on every element of two lists holds on every element of their concatenation. -/
theorem forall_append {α : Type*} {p : α → Prop} {xs ys : List α} (hx : xs.Forall p) (hy : ys.Forall p) :
    (xs ++ ys).Forall p :=
  List.forall_append.mpr ⟨hx, hy⟩

/-- The buffers after two lines run one after the other. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The operation writes none of the references \`A\`. -/
def NoWrite (A : List (Ref sig .tc)) (op : HloOp τ sig Val) : Prop :=
  ∀ r ∈ A, Proc.devRef (τ := τ) .tc r ∉ op.writes

section Builders

variable {A : List (Ref sig .tc)} {x a b c y : Ref sig .tc}

private theorem nw_of_writes {op : HloOp τ sig Val} (hw : op.writes = {Proc.devRef .tc y}) (h : y ∉ A) : NoWrite A op :=
  fun r hr hm => by
    rw [hw, Finset.mem_singleton] at hm
    exact h (Proc.devRef_injective _ hm ▸ hr)

theorem nullary_nw {v : y.ty.Contents Val} {hy} (h : y ∉ A) : NoWrite A (nullary (τ := τ) y v hy) :=
  nw_of_writes (nullary_writes ..) h
theorem unary_nw {f : x.ty.Contents Val → y.ty.Contents Val} {hx hy} (h : y ∉ A) : NoWrite A (unary (τ := τ) x y f hx hy) :=
  nw_of_writes (unary_writes ..) h
theorem binary_nw {f : a.ty.Contents Val → b.ty.Contents Val → y.ty.Contents Val} {ha hb hy} (h : y ∉ A) :
    NoWrite A (binary (τ := τ) a b y f ha hb hy) :=
  nw_of_writes (binary_writes ..) h
theorem ternary_nw {f : c.ty.Contents Val → a.ty.Contents Val → b.ty.Contents Val → y.ty.Contents Val} {hc ha hb hy} (h : y ∉ A) :
    NoWrite A (ternary (τ := τ) c a b y f hc ha hb hy) :=
  nw_of_writes (ternary_writes ..) h
theorem reshape_nw {he hn hx hy} (h : y ∉ A) : NoWrite A (reshape (τ := τ) (Val := Val) x y he hn hx hy) :=
  nw_of_writes (reshape_writes ..) h

end Builders

/-- A reference none of the line's operations writes keeps its contents. -/
theorem after_of_noWrite {A : List (Ref sig .tc)} {r : Ref sig .tc} (ops : List (HloOp τ sig Val)) (V : Valuation τ sig Val)
    (h : ops.Forall (NoWrite (τ := τ) A)) (hr : r ∈ A) :
    after ops V (Proc.devRef .tc r) = V (Proc.devRef .tc r) :=
  after_of_forall_not_mem ops V fun op hop => (List.forall_iff_forall_mem.mp h) op hop r hr

end Cert.TTN.RefRun

end
-- ==== Proof.RHostG1.lean ====
/-
  Gates 1, 2, 3, 4, 5, 6, 7, 8 of the circuit as the host part of the reference runs them on the 16384 edge registers:
  for each gate, the stretch of host operations that computes it, and the fact that, from any buffer contents, the
  stretch leaves in the gate's result buffer the gate's term of the previous state (and of the parameter vector),
  and leaves the parameter vector alone.
-/
import proofs.«130987_j14276471292017_1_alg».proof.ReferenceIdeal
import proofs.«130987_j14276471292017_1_alg».proof.Proof.Gen.ReferenceIdeal
import proofs.«130987_j14276471292017_1_alg».proof.Proof.Gates
import Idealize.ShloMosaic.Lib.StableHlo.Run

set_option maxRecDepth 16384

noncomputable section

namespace Cert.TTN.RHost

open Idealize.ShloMosaic Idealize.ShloMosaic.TcCoe Idealize.SL.Sem Idealize.ShloMosaic.StableHlo
open Cert.ReferenceIdeal Cert.ReferenceIdeal.Gen

section Lists
variable {F : FTy → Type} [FloatOps F]

/-- The host operations of gate 1 (a rotation, parameter 0, axis 2). -/
abbrev G1 : List (HloOp τ sig (Elt F)) :=
  [ StableHlo.unary main_arg3 main_v61 ((extractStridedSlice S1 ![0] · slices_S21_S1_0) : (⟨S21, .f32⟩ : BufTy).Contents (Elt F) → (⟨S1, .f32⟩ : BufTy).Contents (Elt F)),
    StableHlo.reshape main_v61 main_v62 rfl shapeCasts_S1_S_,
    StableHlo.nullary main_cst_0 (constant S_ .f32 0x3F000000#32),
    StableHlo.binary main_cst_0 main_v62 main_v63 (mulf : (⟨S_, .f32⟩ : BufTy).Contents (Elt F) → (⟨S_, .f32⟩ : BufTy).Contents (Elt F) → (⟨S_, .f32⟩ : BufTy).Contents (Elt F)),
    StableHlo.unary main_v63 main_v64 (Host.cos : (⟨S_, .f32⟩ : BufTy).Contents (Elt F) → (⟨S_, .f32⟩ : BufTy).Contents (Elt F)),
    StableHlo.nullary main_cst_1 (constant S_ .f32 0x3F000000#32),
    StableHlo.binary main_cst_1 main_v62 main_v65 (mulf : (⟨S_, .f32⟩ : BufTy).Contents (Elt F) → (⟨S_, .f32⟩ : BufTy).Contents (Elt F) → (⟨S_, .f32⟩ : BufTy).Contents (Elt F)),
    StableHlo.unary main_v65 main_v66 (Host.sin : (⟨S_, .f32⟩ : BufTy).Contents (Elt F) → (⟨S_, .f32⟩ : BufTy).Contents (Elt F)),
    StableHlo.nullary main_c (constantI S_ 32 0#32),
    StableHlo.TRef.nullary (.of main_call0_c : StableHlo.TRef sig ⟨S_, .i32⟩) (constantI S_ 32 0#32),
    StableHlo.TRef.binary (.of main_c : StableHlo.TRef sig ⟨S_, .i32⟩) (.of main_call0_c : StableHlo.TRef sig ⟨S_, .i32⟩) (.of main_call0_v0 : StableHlo.TRef sig ⟨S_, .i1⟩) (cmpi .slt),
    StableHlo.TRef.nullary (.of main_call0_c_0 : StableHlo.TRef sig ⟨S_, .i32⟩) (constantI S_ 32 2#32),
    StableHlo.TRef.binary (.of main_c : StableHlo.TRef sig ⟨S_, .i32⟩) (.of main_call0_c_0 : StableHlo.TRef sig ⟨S_, .i32⟩) (.of main_call0_v1 : StableHlo.TRef sig ⟨S_, .i32⟩) addi,
    StableHlo.TRef.ternary (.of main_call0_v0 : StableHlo.TRef sig ⟨S_, .i1⟩) (.of main_call0_v1 : StableHlo.TRef sig ⟨S_, .i32⟩) (.of main_c : StableHlo.TRef sig ⟨S_, .i32⟩) (.of main_call0_v2 : StableHlo.TRef sig ⟨S_, .i32⟩) select,
    StableHlo.TRef.unary (.of main_call0_v2 : StableHlo.TRef sig ⟨S_, .i32⟩) (.of main_call0_v3 : StableHlo.TRef sig ⟨S1, .i32⟩) (broadcastInDim S1 ![] bcast_S_S1),
    StableHlo.TRef.nullary (.of main_call0_c_1 : StableHlo.TRef sig ⟨S1, .i32⟩) (constantI S1 32 1#32),
    StableHlo.TRef.unary (.of main_call0_v3 : StableHlo.TRef sig ⟨S1, .i32⟩) (.of main_call0_v4 : StableHlo.TRef sig ⟨S1, .i32⟩) id,
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v5 : StableHlo.TRef sig ⟨S1, .i32⟩) (broadcastInDim S1 ![] bcast_S_S1),
    StableHlo.TRef.binary (.of main_call0_v4 : StableHlo.TRef sig ⟨S1, .i32⟩) (.of main_call0_v5 : StableHlo.TRef sig ⟨S1, .i32⟩) (.of main_call0_v6 : StableHlo.TRef sig ⟨S1, .i1⟩) (cmpi .sge),
    StableHlo.TRef.binary (.of main_call0_v4 : StableHlo.TRef sig ⟨S1, .i32⟩) (.of main_call0_c_1 : StableHlo.TRef sig ⟨S1, .i32⟩) (.of main_call0_v7 : StableHlo.TRef sig ⟨S1, .i1⟩) (cmpi .sle),
    StableHlo.TRef.binary (.of main_call0_v6 : StableHlo.TRef sig ⟨S1, .i1⟩) (.of main_call0_v7 : StableHlo.TRef sig ⟨S1, .i1⟩) (.of main_call0_v8 : StableHlo.TRef sig ⟨S1, .i1⟩) andi,
    StableHlo.TRef.nullary (.of main_call0_c_3 : StableHlo.TRef sig ⟨S_, .i1⟩) (constantI S_ 1 1#1),
    StableHlo.TRef.binary (.of main_call0_v8 : StableHlo.TRef sig ⟨S1, .i1⟩) (.of main_call0_c_3 : StableHlo.TRef sig ⟨S_, .i1⟩) (.of main_call0_v9 : StableHlo.TRef sig ⟨S_, .i1⟩) (fun x v => Host.reduce IntOp.andi x v reducesTo_S1_S_d0 h_S_),
    StableHlo.TRef.binary (.of main_v60 : StableHlo.TRef sig ⟨S16384x2x2x2x2x2x2x2x2, .f32⟩) (.of main_call0_v4 : StableHlo.TRef sig ⟨S1, .i32⟩) (.of main_call0_v10 : StableHlo.TRef sig ⟨S16384x2x2x2x2x2x2x2, .f32⟩) (fun x i => Host.gather gather_S16384x2x2x2x2x2x2x2x2_S1_S16384x2x2x2x2x2x2x2_01234567_2_n_n_2_0_1638421222222 x i),
    StableHlo.TRef.unary (.of main_call0_v9 : StableHlo.TRef sig ⟨S_, .i1⟩) (.of main_call0_v11 : StableHlo.TRef sig ⟨S16384x2x2x2x2x2x2x2, .i1⟩) (broadcastInDim S16384x2x2x2x2x2x2x2 ![] bcast_S_S16384x2x2x2x2x2x2x2),
    StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v12 : StableHlo.TRef sig ⟨S16384x2x2x2x2x2x2x2, .f32⟩) (broadcastInDim S16384x2x2x2x2x2x2x2 ![] bcast_S_S16384x2x2x2x2x2x2x2),
    StableHlo.TRef.ternary (.of main_call0_v11 : StableHlo.TRef sig ⟨S16384x2x2x2x2x2x2x2, .i1⟩) (.of main_call0_v10 : StableHlo.TRef sig ⟨S16384x2x2x2x2x2x2x2, .f32⟩) (.of main_call0_v12 : StableHlo.TRef sig ⟨S16384x2x2x2x2x2x2x2, .f32⟩) (.of main_v67 : StableHlo.TRef sig ⟨S16384x2x2x2x2x2x2x2, .f32⟩) select,
    StableHlo.nullary main_c_2 (constantI S_ 32 1#32),
    StableHlo.TRef.nullary (.of main_call1_c : StableHlo.TRef sig ⟨S_, .i32⟩) (constantI S_ 32 0#32),
    StableHlo.TRef.binary (.of main_c_2 : StableHlo.TRef sig ⟨S_, .i32⟩) (.of main_call1_c : StableHlo.TRef sig ⟨S_, .i32⟩) (.of main_call1_v0 : StableHlo.TRef sig ⟨S_, .i1⟩) (cmpi .slt),
    StableHlo.TRef.nullary (.of main_call1_c_0 : StableHlo.TRef sig ⟨S_, .i32⟩) (constantI S_ 32 2#32),
    StableHlo.TRef.binary (.of main_c_2 : StableHlo.TRef sig ⟨S_, .i32⟩) (.of main_call1_c_0 : StableHlo.TRef sig ⟨S_, .i32⟩) (.of main_call1_v1 : StableHlo.TRef sig ⟨S_, .i32⟩) addi,
    StableHlo.TRef.ternary (.of main_call1_v0 : StableHlo.TRef sig ⟨S_, .i1⟩) (.of main_call1_v1 : StableHlo.TRef sig ⟨S_, .i32⟩) (.of main_c_2 : StableHlo.TRef sig ⟨S_, .i32⟩) (.of main_call1_v2 : StableHlo.TRef sig ⟨S_, .i32⟩) select,
    StableHlo.TRef.unary (.of main_call1_v2 : StableHlo.TRef sig ⟨S_, .i32⟩) (.of main_call1_v3 : StableHlo.TRef sig ⟨S1, .i32⟩) (broadcastInDim S1 ![] bcast_S_S1),
    StableHlo.TRef.nullary (.of main_call1_c_1 : StableHlo.TRef sig ⟨S1, .i32⟩) (constantI S1 32 1#32),
    StableHlo.TRef.unary (.of main_call1_v3 : StableHlo.TRef sig ⟨S1, .i32⟩) (.of main_call1_v4 : StableHlo.TRef sig ⟨S1, .i32⟩) id,
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v5 : StableHlo.TRef sig ⟨S1, .i32⟩) (broadcastInDim S1 ![] bcast_S_S1),
    StableHlo.TRef.binary (.of main_call1_v4 : StableHlo.TRef sig ⟨S1, .i32⟩) (.of main_call1_v5 : StableHlo.TRef sig ⟨S1, .i32⟩) (.of main_call1_v6 : StableHlo.TRef sig ⟨S1, .i1⟩) (cmpi .sge),
    StableHlo.TRef.binary (.of main_call1_v4 : StableHlo.TRef sig ⟨S1, .i32⟩) (.of main_call1_c_1 : StableHlo.TRef sig ⟨S1, .i32⟩) (.of main_call1_v7 : StableHlo.TRef sig ⟨S1, .i1⟩) (cmpi .sle),
    StableHlo.TRef.binary (.of main_call1_v6 : StableHlo.TRef sig ⟨S1, .i1⟩) (.of main_call1_v7 : StableHlo.TRef sig ⟨S1, .i1⟩) (.of main_call1_v8 : StableHlo.TRef sig ⟨S1, .i1⟩) andi,
    StableHlo.TRef.nullary (.of main_call1_c_3 : StableHlo.TRef sig ⟨S_, .i1⟩) (constantI S_ 1 1#1),
    StableHlo.TRef.binary (.of main_call1_v8 : StableHlo.TRef sig ⟨S1, .i1⟩) (.of main_call1_c_3 : StableHlo.TRef sig ⟨S_, .i1⟩) (.of main_call1_v9 : StableHlo.TRef sig ⟨S_, .i1⟩) (fun x v => Host.reduce IntOp.andi x v reducesTo_S1_S_d0 h_S_),
    StableHlo.TRef.binary (.of main_v60 : StableHlo.TRef sig ⟨S16384x2x2x2x2x2x2x2x2, .f32⟩) (.of main_call1_v4 : StableHlo.TRef sig ⟨S1, .i32⟩) (.of main_call1_v10 : StableHlo.TRef sig ⟨S16384x2x2x2x2x2x2x2, .f32⟩) (fun x i => Host.gather gather_S16384x2x2x2x2x2x2x2x2_S1_S16384x2x2x2x2x2x2x2_01234567_2_n_n_2_0_1638421222222 x i),
    StableHlo.TRef.unary (.of main_call1_v9 : StableHlo.TRef sig ⟨S_, .i1⟩) (.of main_call1_v11 : StableHlo.TRef sig ⟨S16384x2x2x2x2x2x2x2, .i1⟩) (broadcastInDim S16384x2x2x2x2x2x2x2 ![] bcast_S_S16384x2x2x2x2x2x2x2),
    StableHlo.TRef.nullary (.of main_call1_cst : StableHlo.TRef sig ⟨S_, .f32⟩) (constant S_ .f32 0x7FC00000#32),
    StableHlo.TRef.unary (.of main_call1_cst : StableHlo.TRef sig ⟨S_, .f32⟩) (.of main_call1_v12 : StableHlo.TRef sig ⟨S16384x2x2x2x2x2x2x2, .f32⟩) (broadcastInDim S16384x2x2x2x2x2x2x2 ![] bcast_S_S16384x2x2x2x2x2x2x2),
    StableHlo.TRef.ternary (.of main_call1_v11 : StableHlo.TRef sig ⟨S16384x2x2x2x2x2x2x2, .i1⟩) (.of main_call1_v10 : StableHlo.TRef sig ⟨S16384x2x2x2x2x2x2x2, .f32⟩) (.of main_call1_v12 : StableHlo.TRef sig ⟨S16384x2x2x2x2x2x2x2, .f32⟩) (.of main_v68 : StableHlo.TRef sig ⟨S16384x2x2x2x2x2x2x2, .f32⟩) select,
    StableHlo.unary main_v64 main_v69 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v69 main_v67 main_v70 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v66 main_v71 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v71 main_v68 main_v72 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.binary main_v70 main_v72 main_v73 (subf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v66 main_v74 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v74 main_v67 main_v75 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v64 main_v76 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v76 main_v68 main_v77 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.binary main_v75 main_v77 main_v78 (addf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v73 main_v79 (broadcastInDim S16384x2x1x2x2x2x2x2x2 ![0, 1, 3, 4, 5, 6, 7, 8] bcast_S16384x2x2x2x2x2x2x2_S16384x2x1x2x2x2x2x2x2_0_1_3_4_5_6_7_8 : (⟨S16384x2x2x2x2x2x2x2, .f32⟩ : BufTy).Contents (Elt F) → (⟨S16384x2x1x2x2x2x2x2x2, .f32⟩ : BufTy).Contents (Elt F)),
    StableHlo.unary main_v78 main_v80 (broadcastInDim S16384x2x1x2x2x2x2x2x2 ![0, 1, 3, 4, 5, 6, 7, 8] bcast_S16384x2x2x2x2x2x2x2_S16384x2x1x2x2x2x2x2x2_0_1_3_4_5_6_7_8 : (⟨S16384x2x2x2x2x2x2x2, .f32⟩ : BufTy).Contents (Elt F) → (⟨S16384x2x1x2x2x2x2x2x2, .f32⟩ : BufTy).Contents (Elt F)),
    StableHlo.binary main_v79 main_v80 main_v81 ((fun a b => concatenate S16384x2x2x2x2x2x2x2x2 2 [⟨S16384x2x1x2x2x2x2x2x2, a⟩, ⟨S16384x2x1x2x2x2x2x2x2, b⟩] concatenates_S16384x2x1x2x2x2x2x2x2_S16384x2x1x2x2x2x2x2x2_S16384x2x2x2x2x2x2x2x2_d2) : (⟨S16384x2x1x2x2x2x2x2x2, .f32⟩ : BufTy).Contents (Elt F) → (⟨S16384x2x1x2x2x2x2x2x2, .f32⟩ : BufTy).Contents (Elt F) → (⟨S16384x2x2x2x2x2x2x2x2, .f32⟩ : BufTy).Contents (Elt F)) ]

/-- The host operations of gate 2 (a rotation, parameter 1, axis 3). -/
abbrev G2 : List (HloOp τ sig (Elt F)) :=
  [ StableHlo.unary main_arg3 main_v82 ((extractStridedSlice S1 ![1] · slices_S21_S1_1) : (⟨S21, .f32⟩ : BufTy).Contents (Elt F) → (⟨S1, .f32⟩ : BufTy).Contents (Elt F)),
    StableHlo.reshape main_v82 main_v83 rfl shapeCasts_S1_S_,
    StableHlo.nullary main_cst_3 (constant S_ .f32 0x3F000000#32),
    StableHlo.binary main_cst_3 main_v83 main_v84 (mulf : (⟨S_, .f32⟩ : BufTy).Contents (Elt F) → (⟨S_, .f32⟩ : BufTy).Contents (Elt F) → (⟨S_, .f32⟩ : BufTy).Contents (Elt F)),
    StableHlo.unary main_v84 main_v85 (Host.cos : (⟨S_, .f32⟩ : BufTy).Contents (Elt F) → (⟨S_, .f32⟩ : BufTy).Contents (Elt F)),
    StableHlo.nullary main_cst_4 (constant S_ .f32 0x3F000000#32),
    StableHlo.binary main_cst_4 main_v83 main_v86 (mulf : (⟨S_, .f32⟩ : BufTy).Contents (Elt F) → (⟨S_, .f32⟩ : BufTy).Contents (Elt F) → (⟨S_, .f32⟩ : BufTy).Contents (Elt F)),
    StableHlo.unary main_v86 main_v87 (Host.sin : (⟨S_, .f32⟩ : BufTy).Contents (Elt F) → (⟨S_, .f32⟩ : BufTy).Contents (Elt F)),
    StableHlo.nullary main_c_5 (constantI S_ 32 0#32),
    StableHlo.TRef.nullary (.of main_call2_c : StableHlo.TRef sig ⟨S_, .i32⟩) (constantI S_ 32 0#32),
    StableHlo.TRef.binary (.of main_c_5 : StableHlo.TRef sig ⟨S_, .i32⟩) (.of main_call2_c : StableHlo.TRef sig ⟨S_, .i32⟩) (.of main_call2_v0 : StableHlo.TRef sig ⟨S_, .i1⟩) (cmpi .slt),
    StableHlo.TRef.nullary (.of main_call2_c_0 : StableHlo.TRef sig ⟨S_, .i32⟩) (constantI S_ 32 2#32),
    StableHlo.TRef.binary (.of main_c_5 : StableHlo.TRef sig ⟨S_, .i32⟩) (.of main_call2_c_0 : StableHlo.TRef sig ⟨S_, .i32⟩) (.of main_call2_v1 : StableHlo.TRef sig ⟨S_, .i32⟩) addi,
    StableHlo.TRef.ternary (.of main_call2_v0 : StableHlo.TRef sig ⟨S_, .i1⟩) (.of main_call2_v1 : StableHlo.TRef sig ⟨S_, .i32⟩) (.of main_c_5 : StableHlo.TRef sig ⟨S_, .i32⟩) (.of main_call2_v2 : StableHlo.TRef sig ⟨S_, .i32⟩) select,
    StableHlo.TRef.unary (.of main_call2_v2 : StableHlo.TRef sig ⟨S_, .i32⟩) (.of main_call2_v3 : StableHlo.TRef sig ⟨S1, .i32⟩) (broadcastInDim S1 ![] bcast_S_S1),
    StableHlo.TRef.nullary (.of main_call2_c_1 : StableHlo.TRef sig ⟨S1, .i32⟩) (constantI S1 32 1#32),
    StableHlo.TRef.unary (.of main_call2_v3 : StableHlo.TRef sig ⟨S1, .i32⟩) (.of main_call2_v4 : StableHlo.TRef sig ⟨S1, .i32⟩) id,
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v5 : StableHlo.TRef sig ⟨S1, .i32⟩) (broadcastInDim S1 ![] bcast_S_S1),
    StableHlo.TRef.binary (.of main_call2_v4 : StableHlo.TRef sig ⟨S1, .i32⟩) (.of main_call2_v5 : StableHlo.TRef sig ⟨S1, .i32⟩) (.of main_call2_v6 : StableHlo.TRef sig ⟨S1, .i1⟩) (cmpi .sge),
    StableHlo.TRef.binary (.of main_call2_v4 : StableHlo.TRef sig ⟨S1, .i32⟩) (.of main_call2_c_1 : StableHlo.TRef sig ⟨S1, .i32⟩) (.of main_call2_v7 : StableHlo.TRef sig ⟨S1, .i1⟩) (cmpi .sle),
    StableHlo.TRef.binary (.of main_call2_v6 : StableHlo.TRef sig ⟨S1, .i1⟩) (.of main_call2_v7 : StableHlo.TRef sig ⟨S1, .i1⟩) (.of main_call2_v8 : StableHlo.TRef sig ⟨S1, .i1⟩) andi,
    StableHlo.TRef.nullary (.of main_call2_c_3 : StableHlo.TRef sig ⟨S_, .i1⟩) (constantI S_ 1 1#1),
    StableHlo.TRef.binary (.of main_call2_v8 : StableHlo.TRef sig ⟨S1, .i1⟩) (.of main_call2_c_3 : StableHlo.TRef sig ⟨S_, .i1⟩) (.of main_call2_v9 : StableHlo.TRef sig ⟨S_, .i1⟩) (fun x v => Host.reduce IntOp.andi x v reducesTo_S1_S_d0 h_S_),
    StableHlo.TRef.binary (.of main_v81 : StableHlo.TRef sig ⟨S16384x2x2x2x2x2x2x2x2, .f32⟩) (.of main_call2_v4 : StableHlo.TRef sig ⟨S1, .i32⟩) (.of main_call2_v10 : StableHlo.TRef sig ⟨S16384x2x2x2x2x2x2x2, .f32⟩) (fun x i => Host.gather gather_S16384x2x2x2x2x2x2x2x2_S1_S16384x2x2x2x2x2x2x2_01234567_3_n_n_3_0_1638422122222 x i),
    StableHlo.TRef.unary (.of main_call2_v9 : StableHlo.TRef sig ⟨S_, .i1⟩) (.of main_call2_v11 : StableHlo.TRef sig ⟨S16384x2x2x2x2x2x2x2, .i1⟩) (broadcastInDim S16384x2x2x2x2x2x2x2 ![] bcast_S_S16384x2x2x2x2x2x2x2),
    StableHlo.TRef.nullary (.of main_call2_cst : StableHlo.TRef sig ⟨S_, .f32⟩) (constant S_ .f32 0x7FC00000#32),
    StableHlo.TRef.unary (.of main_call2_cst : StableHlo.TRef sig ⟨S_, .f32⟩) (.of main_call2_v12 : StableHlo.TRef sig ⟨S16384x2x2x2x2x2x2x2, .f32⟩) (broadcastInDim S16384x2x2x2x2x2x2x2 ![] bcast_S_S16384x2x2x2x2x2x2x2),
    StableHlo.TRef.ternary (.of main_call2_v11 : StableHlo.TRef sig ⟨S16384x2x2x2x2x2x2x2, .i1⟩) (.of main_call2_v10 : StableHlo.TRef sig ⟨S16384x2x2x2x2x2x2x2, .f32⟩) (.of main_call2_v12 : StableHlo.TRef sig ⟨S16384x2x2x2x2x2x2x2, .f32⟩) (.of main_v88 : StableHlo.TRef sig ⟨S16384x2x2x2x2x2x2x2, .f32⟩) select,
    StableHlo.nullary main_c_6 (constantI S_ 32 1#32),
    StableHlo.TRef.nullary (.of main_call3_c : StableHlo.TRef sig ⟨S_, .i32⟩) (constantI S_ 32 0#32),
    StableHlo.TRef.binary (.of main_c_6 : StableHlo.TRef sig ⟨S_, .i32⟩) (.of main_call3_c : StableHlo.TRef sig ⟨S_, .i32⟩) (.of main_call3_v0 : StableHlo.TRef sig ⟨S_, .i1⟩) (cmpi .slt),
    StableHlo.TRef.nullary (.of main_call3_c_0 : StableHlo.TRef sig ⟨S_, .i32⟩) (constantI S_ 32 2#32),
    StableHlo.TRef.binary (.of main_c_6 : StableHlo.TRef sig ⟨S_, .i32⟩) (.of main_call3_c_0 : StableHlo.TRef sig ⟨S_, .i32⟩) (.of main_call3_v1 : StableHlo.TRef sig ⟨S_, .i32⟩) addi,
    StableHlo.TRef.ternary (.of main_call3_v0 : StableHlo.TRef sig ⟨S_, .i1⟩) (.of main_call3_v1 : StableHlo.TRef sig ⟨S_, .i32⟩) (.of main_c_6 : StableHlo.TRef sig ⟨S_, .i32⟩) (.of main_call3_v2 : StableHlo.TRef sig ⟨S_, .i32⟩) select,
    StableHlo.TRef.unary (.of main_call3_v2 : StableHlo.TRef sig ⟨S_, .i32⟩) (.of main_call3_v3 : StableHlo.TRef sig ⟨S1, .i32⟩) (broadcastInDim S1 ![] bcast_S_S1),
    StableHlo.TRef.nullary (.of main_call3_c_1 : StableHlo.TRef sig ⟨S1, .i32⟩) (constantI S1 32 1#32),
    StableHlo.TRef.unary (.of main_call3_v3 : StableHlo.TRef sig ⟨S1, .i32⟩) (.of main_call3_v4 : StableHlo.TRef sig ⟨S1, .i32⟩) id,
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v5 : StableHlo.TRef sig ⟨S1, .i32⟩) (broadcastInDim S1 ![] bcast_S_S1),
    StableHlo.TRef.binary (.of main_call3_v4 : StableHlo.TRef sig ⟨S1, .i32⟩) (.of main_call3_v5 : StableHlo.TRef sig ⟨S1, .i32⟩) (.of main_call3_v6 : StableHlo.TRef sig ⟨S1, .i1⟩) (cmpi .sge),
    StableHlo.TRef.binary (.of main_call3_v4 : StableHlo.TRef sig ⟨S1, .i32⟩) (.of main_call3_c_1 : StableHlo.TRef sig ⟨S1, .i32⟩) (.of main_call3_v7 : StableHlo.TRef sig ⟨S1, .i1⟩) (cmpi .sle),
    StableHlo.TRef.binary (.of main_call3_v6 : StableHlo.TRef sig ⟨S1, .i1⟩) (.of main_call3_v7 : StableHlo.TRef sig ⟨S1, .i1⟩) (.of main_call3_v8 : StableHlo.TRef sig ⟨S1, .i1⟩) andi,
    StableHlo.TRef.nullary (.of main_call3_c_3 : StableHlo.TRef sig ⟨S_, .i1⟩) (constantI S_ 1 1#1),
    StableHlo.TRef.binary (.of main_call3_v8 : StableHlo.TRef sig ⟨S1, .i1⟩) (.of main_call3_c_3 : StableHlo.TRef sig ⟨S_, .i1⟩) (.of main_call3_v9 : StableHlo.TRef sig ⟨S_, .i1⟩) (fun x v => Host.reduce IntOp.andi x v reducesTo_S1_S_d0 h_S_),
    StableHlo.TRef.binary (.of main_v81 : StableHlo.TRef sig ⟨S16384x2x2x2x2x2x2x2x2, .f32⟩) (.of main_call3_v4 : StableHlo.TRef sig ⟨S1, .i32⟩) (.of main_call3_v10 : StableHlo.TRef sig ⟨S16384x2x2x2x2x2x2x2, .f32⟩) (fun x i => Host.gather gather_S16384x2x2x2x2x2x2x2x2_S1_S16384x2x2x2x2x2x2x2_01234567_3_n_n_3_0_1638422122222 x i),
    StableHlo.TRef.unary (.of main_call3_v9 : StableHlo.TRef sig ⟨S_, .i1⟩) (.of main_call3_v11 : StableHlo.TRef sig ⟨S16384x2x2x2x2x2x2x2, .i1⟩) (broadcastInDim S16384x2x2x2x2x2x2x2 ![] bcast_S_S16384x2x2x2x2x2x2x2),
    StableHlo.TRef.nullary (.of main_call3_cst : StableHlo.TRef sig ⟨S_, .f32⟩) (constant S_ .f32 0x7FC00000#32),
    StableHlo.TRef.unary (.of main_call3_cst : StableHlo.TRef sig ⟨S_, .f32⟩) (.of main_call3_v12 : StableHlo.TRef sig ⟨S16384x2x2x2x2x2x2x2, .f32⟩) (broadcastInDim S16384x2x2x2x2x2x2x2 ![] bcast_S_S16384x2x2x2x2x2x2x2),
    StableHlo.TRef.ternary (.of main_call3_v11 : StableHlo.TRef sig ⟨S16384x2x2x2x2x2x2x2, .i1⟩) (.of main_call3_v10 : StableHlo.TRef sig ⟨S16384x2x2x2x2x2x2x2, .f32⟩) (.of main_call3_v12 : StableHlo.TRef sig ⟨S16384x2x2x2x2x2x2x2, .f32⟩) (.of main_v89 : StableHlo.TRef sig ⟨S16384x2x2x2x2x2x2x2, .f32⟩) select,
    StableHlo.unary main_v85 main_v90 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v90 main_v88 main_v91 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v87 main_v92 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v92 main_v89 main_v93 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.binary main_v91 main_v93 main_v94 (subf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v87 main_v95 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v95 main_v88 main_v96 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v85 main_v97 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v97 main_v89 main_v98 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.binary main_v96 main_v98 main_v99 (addf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v94 main_v100 (broadcastInDim S16384x2x2x1x2x2x2x2x2 ![0, 1, 2, 4, 5, 6, 7, 8] bcast_S16384x2x2x2x2x2x2x2_S16384x2x2x1x2x2x2x2x2_0_1_2_4_5_6_7_8 : (⟨S16384x2x2x2x2x2x2x2, .f32⟩ : BufTy).Contents (Elt F) → (⟨S16384x2x2x1x2x2x2x2x2, .f32⟩ : BufTy).Contents (Elt F)),
    StableHlo.unary main_v99 main_v101 (broadcastInDim S16384x2x2x1x2x2x2x2x2 ![0, 1, 2, 4, 5, 6, 7, 8] bcast_S16384x2x2x2x2x2x2x2_S16384x2x2x1x2x2x2x2x2_0_1_2_4_5_6_7_8 : (⟨S16384x2x2x2x2x2x2x2, .f32⟩ : BufTy).Contents (Elt F) → (⟨S16384x2x2x1x2x2x2x2x2, .f32⟩ : BufTy).Contents (Elt F)),
    StableHlo.binary main_v100 main_v101 main_v102 ((fun a b => concatenate S16384x2x2x2x2x2x2x2x2 3 [⟨S16384x2x2x1x2x2x2x2x2, a⟩, ⟨S16384x2x2x1x2x2x2x2x2, b⟩] concatenates_S16384x2x2x1x2x2x2x2x2_S16384x2x2x1x2x2x2x2x2_S16384x2x2x2x2x2x2x2x2_d3) : (⟨S16384x2x2x1x2x2x2x2x2, .f32⟩ : BufTy).Contents (Elt F) → (⟨S16384x2x2x1x2x2x2x2x2, .f32⟩ : BufTy).Contents (Elt F) → (⟨S16384x2x2x2x2x2x2x2x2, .f32⟩ : BufTy).Contents (Elt F)) ]

/-- The host operations of gate 3 (a controlled flip, axis 2). -/
abbrev G3 : List (HloOp τ sig (Elt F)) :=
  [ StableHlo.nullary main_c_7 (constantI S_ 32 0#32),
    StableHlo.TRef.nullary (.of main_call4_c : StableHlo.TRef sig ⟨S_, .i32⟩) (constantI S_ 32 0#32),
    StableHlo.TRef.binary (.of main_c_7 : StableHlo.TRef sig ⟨S_, .i32⟩) (.of main_call4_c : StableHlo.TRef sig ⟨S_, .i32⟩) (.of main_call4_v0 : StableHlo.TRef sig ⟨S_, .i1⟩) (cmpi .slt),
    StableHlo.TRef.nullary (.of main_call4_c_0 : StableHlo.TRef sig ⟨S_, .i32⟩) (constantI S_ 32 2#32),
    StableHlo.TRef.binary (.of main_c_7 : StableHlo.TRef sig ⟨S_, .i32⟩) (.of main_call4_c_0 : StableHlo.TRef sig ⟨S_, .i32⟩) (.of main_call4_v1 : StableHlo.TRef sig ⟨S_, .i32⟩) addi,
    StableHlo.TRef.ternary (.of main_call4_v0 : StableHlo.TRef sig ⟨S_, .i1⟩) (.of main_call4_v1 : StableHlo.TRef sig ⟨S_, .i32⟩) (.of main_c_7 : StableHlo.TRef sig ⟨S_, .i32⟩) (.of main_call4_v2 : StableHlo.TRef sig ⟨S_, .i32⟩) select,
    StableHlo.TRef.unary (.of main_call4_v2 : StableHlo.TRef sig ⟨S_, .i32⟩) (.of main_call4_v3 : StableHlo.TRef sig ⟨S1, .i32⟩) (broadcastInDim S1 ![] bcast_S_S1),
    StableHlo.TRef.nullary (.of main_call4_c_1 : StableHlo.TRef sig ⟨S1, .i32⟩) (constantI S1 32 1#32),
    StableHlo.TRef.unary (.of main_call4_v3 : StableHlo.TRef sig ⟨S1, .i32⟩) (.of main_call4_v4 : StableHlo.TRef sig ⟨S1, .i32⟩) id,
    StableHlo.TRef.nullary (.of main_call4_c_2 : StableHlo.TRef sig ⟨S_, .i32⟩) (constantI S_ 32 0#32),
    StableHlo.TRef.unary (.of main_call4_c_2 : StableHlo.TRef sig ⟨S_, .i32⟩) (.of main_call4_v5 : StableHlo.TRef sig ⟨S1, .i32⟩) (broadcastInDim S1 ![] bcast_S_S1),
    StableHlo.TRef.binary (.of main_call4_v4 : StableHlo.TRef sig ⟨S1, .i32⟩) (.of main_call4_v5 : StableHlo.TRef sig ⟨S1, .i32⟩) (.of main_call4_v6 : StableHlo.TRef sig ⟨S1, .i1⟩) (cmpi .sge),
    StableHlo.TRef.binary (.of main_call4_v4 : StableHlo.TRef sig ⟨S1, .i32⟩) (.of main_call4_c_1 : StableHlo.TRef sig ⟨S1, .i32⟩) (.of main_call4_v7 : StableHlo.TRef sig ⟨S1, .i1⟩) (cmpi .sle),
    StableHlo.TRef.binary (.of main_call4_v6 : StableHlo.TRef sig ⟨S1, .i1⟩) (.of main_call4_v7 : StableHlo.TRef sig ⟨S1, .i1⟩) (.of main_call4_v8 : StableHlo.TRef sig ⟨S1, .i1⟩) andi,
    StableHlo.TRef.nullary (.of main_call4_c_3 : StableHlo.TRef sig ⟨S_, .i1⟩) (constantI S_ 1 1#1),
    StableHlo.TRef.binary (.of main_call4_v8 : StableHlo.TRef sig ⟨S1, .i1⟩) (.of main_call4_c_3 : StableHlo.TRef sig ⟨S_, .i1⟩) (.of main_call4_v9 : StableHlo.TRef sig ⟨S_, .i1⟩) (fun x v => Host.reduce IntOp.andi x v reducesTo_S1_S_d0 h_S_),
    StableHlo.TRef.binary (.of main_v102 : StableHlo.TRef sig ⟨S16384x2x2x2x2x2x2x2x2, .f32⟩) (.of main_call4_v4 : StableHlo.TRef sig ⟨S1, .i32⟩) (.of main_call4_v10 : StableHlo.TRef sig ⟨S16384x2x2x2x2x2x2x2, .f32⟩) (fun x i => Host.gather gather_S16384x2x2x2x2x2x2x2x2_S1_S16384x2x2x2x2x2x2x2_01234567_2_n_n_2_0_1638421222222 x i),
    StableHlo.TRef.unary (.of main_call4_v9 : StableHlo.TRef sig ⟨S_, .i1⟩) (.of main_call4_v11 : StableHlo.TRef sig ⟨S16384x2x2x2x2x2x2x2, .i1⟩) (broadcastInDim S16384x2x2x2x2x2x2x2 ![] bcast_S_S16384x2x2x2x2x2x2x2),
    StableHlo.TRef.nullary (.of main_call4_cst : StableHlo.TRef sig ⟨S_, .f32⟩) (constant S_ .f32 0x7FC00000#32),
    StableHlo.TRef.unary (.of main_call4_cst : StableHlo.TRef sig ⟨S_, .f32⟩) (.of main_call4_v12 : StableHlo.TRef sig ⟨S16384x2x2x2x2x2x2x2, .f32⟩) (broadcastInDim S16384x2x2x2x2x2x2x2 ![] bcast_S_S16384x2x2x2x2x2x2x2),
    StableHlo.TRef.ternary (.of main_call4_v11 : StableHlo.TRef sig ⟨S16384x2x2x2x2x2x2x2, .i1⟩) (.of main_call4_v10 : StableHlo.TRef sig ⟨S16384x2x2x2x2x2x2x2, .f32⟩) (.of main_call4_v12 : StableHlo.TRef sig ⟨S16384x2x2x2x2x2x2x2, .f32⟩) (.of main_v103 : StableHlo.TRef sig ⟨S16384x2x2x2x2x2x2x2, .f32⟩) select,
    StableHlo.nullary main_c_8 (constantI S_ 32 1#32),
    StableHlo.TRef.nullary (.of main_call5_c : StableHlo.TRef sig ⟨S_, .i32⟩) (constantI S_ 32 0#32),
    StableHlo.TRef.binary (.of main_c_8 : StableHlo.TRef sig ⟨S_, .i32⟩) (.of main_call5_c : StableHlo.TRef sig ⟨S_, .i32⟩) (.of main_call5_v0 : StableHlo.TRef sig ⟨S_, .i1⟩) (cmpi .slt),
    StableHlo.TRef.nullary (.of main_call5_c_0 : StableHlo.TRef sig ⟨S_, .i32⟩) (constantI S_ 32 2#32),
    StableHlo.TRef.binary (.of main_c_8 : StableHlo.TRef sig ⟨S_, .i32⟩) (.of main_call5_c_0 : StableHlo.TRef sig ⟨S_, .i32⟩) (.of main_call5_v1 : StableHlo.TRef sig ⟨S_, .i32⟩) addi,
    StableHlo.TRef.ternary (.of main_call5_v0 : StableHlo.TRef sig ⟨S_, .i1⟩) (.of main_call5_v1 : StableHlo.TRef sig ⟨S_, .i32⟩) (.of main_c_8 : StableHlo.TRef sig ⟨S_, .i32⟩) (.of main_call5_v2 : StableHlo.TRef sig ⟨S_, .i32⟩) select,
    StableHlo.TRef.unary (.of main_call5_v2 : StableHlo.TRef sig ⟨S_, .i32⟩) (.of main_call5_v3 : StableHlo.TRef sig ⟨S1, .i32⟩) (broadcastInDim S1 ![] bcast_S_S1),
    StableHlo.TRef.nullary (.of main_call5_c_1 : StableHlo.TRef sig ⟨S1, .i32⟩) (constantI S1 32 1#32),
    StableHlo.TRef.unary (.of main_call5_v3 : StableHlo.TRef sig ⟨S1, .i32⟩) (.of main_call5_v4 : StableHlo.TRef sig ⟨S1, .i32⟩) id,
    StableHlo.TRef.nullary (.of main_call5_c_2 : StableHlo.TRef sig ⟨S_, .i32⟩) (constantI S_ 32 0#32),
    StableHlo.TRef.unary (.of main_call5_c_2 : StableHlo.TRef sig ⟨S_, .i32⟩) (.of main_call5_v5 : StableHlo.TRef sig ⟨S1, .i32⟩) (broadcastInDim S1 ![] bcast_S_S1),
    StableHlo.TRef.binary (.of main_call5_v4 : StableHlo.TRef sig ⟨S1, .i32⟩) (.of main_call5_v5 : StableHlo.TRef sig ⟨S1, .i32⟩) (.of main_call5_v6 : StableHlo.TRef sig ⟨S1, .i1⟩) (cmpi .sge),
    StableHlo.TRef.binary (.of main_call5_v4 : StableHlo.TRef sig ⟨S1, .i32⟩) (.of main_call5_c_1 : StableHlo.TRef sig ⟨S1, .i32⟩) (.of main_call5_v7 : StableHlo.TRef sig ⟨S1, .i1⟩) (cmpi .sle),
    StableHlo.TRef.binary (.of main_call5_v6 : StableHlo.TRef sig ⟨S1, .i1⟩) (.of main_call5_v7 : StableHlo.TRef sig ⟨S1, .i1⟩) (.of main_call5_v8 : StableHlo.TRef sig ⟨S1, .i1⟩) andi,
    StableHlo.TRef.nullary (.of main_call5_c_3 : StableHlo.TRef sig ⟨S_, .i1⟩) (constantI S_ 1 1#1),
    StableHlo.TRef.binary (.of main_call5_v8 : StableHlo.TRef sig ⟨S1, .i1⟩) (.of main_call5_c_3 : StableHlo.TRef sig ⟨S_, .i1⟩) (.of main_call5_v9 : StableHlo.TRef sig ⟨S_, .i1⟩) (fun x v => Host.reduce IntOp.andi x v reducesTo_S1_S_d0 h_S_),
    StableHlo.TRef.binary (.of main_v102 : StableHlo.TRef sig ⟨S16384x2x2x2x2x2x2x2x2, .f32⟩) (.of main_call5_v4 : StableHlo.TRef sig ⟨S1, .i32⟩) (.of main_call5_v10 : StableHlo.TRef sig ⟨S16384x2x2x2x2x2x2x2, .f32⟩) (fun x i => Host.gather gather_S16384x2x2x2x2x2x2x2x2_S1_S16384x2x2x2x2x2x2x2_01234567_2_n_n_2_0_1638421222222 x i),
    StableHlo.TRef.unary (.of main_call5_v9 : StableHlo.TRef sig ⟨S_, .i1⟩) (.of main_call5_v11 : StableHlo.TRef sig ⟨S16384x2x2x2x2x2x2x2, .i1⟩) (broadcastInDim S16384x2x2x2x2x2x2x2 ![] bcast_S_S16384x2x2x2x2x2x2x2),
    StableHlo.TRef.nullary (.of main_call5_cst : StableHlo.TRef sig ⟨S_, .f32⟩) (constant S_ .f32 0x7FC00000#32),
    StableHlo.TRef.unary (.of main_call5_cst : StableHlo.TRef sig ⟨S_, .f32⟩) (.of main_call5_v12 : StableHlo.TRef sig ⟨S16384x2x2x2x2x2x2x2, .f32⟩) (broadcastInDim S16384x2x2x2x2x2x2x2 ![] bcast_S_S16384x2x2x2x2x2x2x2),
    StableHlo.TRef.ternary (.of main_call5_v11 : StableHlo.TRef sig ⟨S16384x2x2x2x2x2x2x2, .i1⟩) (.of main_call5_v10 : StableHlo.TRef sig ⟨S16384x2x2x2x2x2x2x2, .f32⟩) (.of main_call5_v12 : StableHlo.TRef sig ⟨S16384x2x2x2x2x2x2x2, .f32⟩) (.of main_v104 : StableHlo.TRef sig ⟨S16384x2x2x2x2x2x2x2, .f32⟩) select,
    StableHlo.TRef.unary (.of main_v104 : StableHlo.TRef sig ⟨S16384x2x2x2x2x2x2x2, .f32⟩) (.of main_v105 : StableHlo.TRef sig ⟨S16384x2x2x2x2x2x2x2, .f32⟩) (Host.reverse [2]),
    StableHlo.unary main_v103 main_v106 (broadcastInDim S16384x2x1x2x2x2x2x2x2 ![0, 1, 3, 4, 5, 6, 7, 8] bcast_S16384x2x2x2x2x2x2x2_S16384x2x1x2x2x2x2x2x2_0_1_3_4_5_6_7_8 : (⟨S16384x2x2x2x2x2x2x2, .f32⟩ : BufTy).Contents (Elt F) → (⟨S16384x2x1x2x2x2x2x2x2, .f32⟩ : BufTy).Contents (Elt F)),
    StableHlo.unary main_v105 main_v107 (broadcastInDim S16384x2x1x2x2x2x2x2x2 ![0, 1, 3, 4, 5, 6, 7, 8] bcast_S16384x2x2x2x2x2x2x2_S16384x2x1x2x2x2x2x2x2_0_1_3_4_5_6_7_8 : (⟨S16384x2x2x2x2x2x2x2, .f32⟩ : BufTy).Contents (Elt F) → (⟨S16384x2x1x2x2x2x2x2x2, .f32⟩ : BufTy).Contents (Elt F)),
    StableHlo.binary main_v106 main_v107 main_v108 ((fun a b => concatenate S16384x2x2x2x2x2x2x2x2 2 [⟨S16384x2x1x2x2x2x2x2x2, a⟩, ⟨S16384x2x1x2x2x2x2x2x2, b⟩] concatenates_S16384x2x1x2x2x2x2x2x2_S16384x2x1x2x2x2x2x2x2_S16384x2x2x2x2x2x2x2x2_d2) : (⟨S16384x2x1x2x2x2x2x2x2, .f32⟩ : BufTy).Contents (Elt F) → (⟨S16384x2x1x2x2x2x2x2x2, .f32⟩ : BufTy).Contents (Elt F) → (⟨S16384x2x2x2x2x2x2x2x2, .f32⟩ : BufTy).Contents (Elt F)) ]

/-- The host operations of gate 4 (a rotation, parameter 2, axis 6). -/
abbrev G4 : List (HloOp τ sig (Elt F)) :=
  [ StableHlo.unary main_arg3 main_v109 ((extractStridedSlice S1 ![2] · slices_S21_S1_2) : (⟨S21, .f32⟩ : BufTy).Contents (Elt F) → (⟨S1, .f32⟩ : BufTy).Contents (Elt F)),
    StableHlo.reshape main_v109 main_v110 rfl shapeCasts_S1_S_,
    StableHlo.nullary main_cst_9 (constant S_ .f32 0x3F000000#32),
    StableHlo.binary main_cst_9 main_v110 main_v111 (mulf : (⟨S_, .f32⟩ : BufTy).Contents (Elt F) → (⟨S_, .f32⟩ : BufTy).Contents (Elt F) → (⟨S_, .f32⟩ : BufTy).Contents (Elt F)),
    StableHlo.unary main_v111 main_v112 (Host.cos : (⟨S_, .f32⟩ : BufTy).Contents (Elt F) → (⟨S_, .f32⟩ : BufTy).Contents (Elt F)),
    StableHlo.nullary main_cst_10 (constant S_ .f32 0x3F000000#32),
    StableHlo.binary main_cst_10 main_v110 main_v113 (mulf : (⟨S_, .f32⟩ : BufTy).Contents (Elt F) → (⟨S_, .f32⟩ : BufTy).Contents (Elt F) → (⟨S_, .f32⟩ : BufTy).Contents (Elt F)),
    StableHlo.unary main_v113 main_v114 (Host.sin : (⟨S_, .f32⟩ : BufTy).Contents (Elt F) → (⟨S_, .f32⟩ : BufTy).Contents (Elt F)),
    StableHlo.nullary main_c_11 (constantI S_ 32 0#32),
    StableHlo.TRef.nullary (.of main_call7_c : StableHlo.TRef sig ⟨S_, .i32⟩) (constantI S_ 32 0#32),
    StableHlo.TRef.binary (.of main_c_11 : StableHlo.TRef sig ⟨S_, .i32⟩) (.of main_call7_c : StableHlo.TRef sig ⟨S_, .i32⟩) (.of main_call7_v0 : StableHlo.TRef sig ⟨S_, .i1⟩) (cmpi .slt),
    StableHlo.TRef.nullary (.of main_call7_c_0 : StableHlo.TRef sig ⟨S_, .i32⟩) (constantI S_ 32 2#32),
    StableHlo.TRef.binary (.of main_c_11 : StableHlo.TRef sig ⟨S_, .i32⟩) (.of main_call7_c_0 : StableHlo.TRef sig ⟨S_, .i32⟩) (.of main_call7_v1 : StableHlo.TRef sig ⟨S_, .i32⟩) addi,
    StableHlo.TRef.ternary (.of main_call7_v0 : StableHlo.TRef sig ⟨S_, .i1⟩) (.of main_call7_v1 : StableHlo.TRef sig ⟨S_, .i32⟩) (.of main_c_11 : StableHlo.TRef sig ⟨S_, .i32⟩) (.of main_call7_v2 : StableHlo.TRef sig ⟨S_, .i32⟩) select,
    StableHlo.TRef.unary (.of main_call7_v2 : StableHlo.TRef sig ⟨S_, .i32⟩) (.of main_call7_v3 : StableHlo.TRef sig ⟨S1, .i32⟩) (broadcastInDim S1 ![] bcast_S_S1),
    StableHlo.TRef.nullary (.of main_call7_c_1 : StableHlo.TRef sig ⟨S1, .i32⟩) (constantI S1 32 1#32),
    StableHlo.TRef.unary (.of main_call7_v3 : StableHlo.TRef sig ⟨S1, .i32⟩) (.of main_call7_v4 : StableHlo.TRef sig ⟨S1, .i32⟩) id,
    StableHlo.TRef.nullary (.of main_call7_c_2 : StableHlo.TRef sig ⟨S_, .i32⟩) (constantI S_ 32 0#32),
    StableHlo.TRef.unary (.of main_call7_c_2 : StableHlo.TRef sig ⟨S_, .i32⟩) (.of main_call7_v5 : StableHlo.TRef sig ⟨S1, .i32⟩) (broadcastInDim S1 ![] bcast_S_S1),
    StableHlo.TRef.binary (.of main_call7_v4 : StableHlo.TRef sig ⟨S1, .i32⟩) (.of main_call7_v5 : StableHlo.TRef sig ⟨S1, .i32⟩) (.of main_call7_v6 : StableHlo.TRef sig ⟨S1, .i1⟩) (cmpi .sge),
    StableHlo.TRef.binary (.of main_call7_v4 : StableHlo.TRef sig ⟨S1, .i32⟩) (.of main_call7_c_1 : StableHlo.TRef sig ⟨S1, .i32⟩) (.of main_call7_v7 : StableHlo.TRef sig ⟨S1, .i1⟩) (cmpi .sle),
    StableHlo.TRef.binary (.of main_call7_v6 : StableHlo.TRef sig ⟨S1, .i1⟩) (.of main_call7_v7 : StableHlo.TRef sig ⟨S1, .i1⟩) (.of main_call7_v8 : StableHlo.TRef sig ⟨S1, .i1⟩) andi,
    StableHlo.TRef.nullary (.of main_call7_c_3 : StableHlo.TRef sig ⟨S_, .i1⟩) (constantI S_ 1 1#1),
    StableHlo.TRef.binary (.of main_call7_v8 : StableHlo.TRef sig ⟨S1, .i1⟩) (.of main_call7_c_3 : StableHlo.TRef sig ⟨S_, .i1⟩) (.of main_call7_v9 : StableHlo.TRef sig ⟨S_, .i1⟩) (fun x v => Host.reduce IntOp.andi x v reducesTo_S1_S_d0 h_S_),
    StableHlo.TRef.binary (.of main_v108 : StableHlo.TRef sig ⟨S16384x2x2x2x2x2x2x2x2, .f32⟩) (.of main_call7_v4 : StableHlo.TRef sig ⟨S1, .i32⟩) (.of main_call7_v10 : StableHlo.TRef sig ⟨S16384x2x2x2x2x2x2x2, .f32⟩) (fun x i => Host.gather gather_S16384x2x2x2x2x2x2x2x2_S1_S16384x2x2x2x2x2x2x2_01234567_6_n_n_6_0_1638422222122 x i),
    StableHlo.TRef.unary (.of main_call7_v9 : StableHlo.TRef sig ⟨S_, .i1⟩) (.of main_call7_v11 : StableHlo.TRef sig ⟨S16384x2x2x2x2x2x2x2, .i1⟩) (broadcastInDim S16384x2x2x2x2x2x2x2 ![] bcast_S_S16384x2x2x2x2x2x2x2),
    StableHlo.TRef.nullary (.of main_call7_cst : StableHlo.TRef sig ⟨S_, .f32⟩) (constant S_ .f32 0x7FC00000#32),
    StableHlo.TRef.unary (.of main_call7_cst : StableHlo.TRef sig ⟨S_, .f32⟩) (.of main_call7_v12 : StableHlo.TRef sig ⟨S16384x2x2x2x2x2x2x2, .f32⟩) (broadcastInDim S16384x2x2x2x2x2x2x2 ![] bcast_S_S16384x2x2x2x2x2x2x2),
    StableHlo.TRef.ternary (.of main_call7_v11 : StableHlo.TRef sig ⟨S16384x2x2x2x2x2x2x2, .i1⟩) (.of main_call7_v10 : StableHlo.TRef sig ⟨S16384x2x2x2x2x2x2x2, .f32⟩) (.of main_call7_v12 : StableHlo.TRef sig ⟨S16384x2x2x2x2x2x2x2, .f32⟩) (.of main_v115 : StableHlo.TRef sig ⟨S16384x2x2x2x2x2x2x2, .f32⟩) select,
    StableHlo.nullary main_c_12 (constantI S_ 32 1#32),
    StableHlo.TRef.nullary (.of main_call8_c : StableHlo.TRef sig ⟨S_, .i32⟩) (constantI S_ 32 0#32),
    StableHlo.TRef.binary (.of main_c_12 : StableHlo.TRef sig ⟨S_, .i32⟩) (.of main_call8_c : StableHlo.TRef sig ⟨S_, .i32⟩) (.of main_call8_v0 : StableHlo.TRef sig ⟨S_, .i1⟩) (cmpi .slt),
    StableHlo.TRef.nullary (.of main_call8_c_0 : StableHlo.TRef sig ⟨S_, .i32⟩) (constantI S_ 32 2#32),
    StableHlo.TRef.binary (.of main_c_12 : StableHlo.TRef sig ⟨S_, .i32⟩) (.of main_call8_c_0 : StableHlo.TRef sig ⟨S_, .i32⟩) (.of main_call8_v1 : StableHlo.TRef sig ⟨S_, .i32⟩) addi,
    StableHlo.TRef.ternary (.of main_call8_v0 : StableHlo.TRef sig ⟨S_, .i1⟩) (.of main_call8_v1 : StableHlo.TRef sig ⟨S_, .i32⟩) (.of main_c_12 : StableHlo.TRef sig ⟨S_, .i32⟩) (.of main_call8_v2 : StableHlo.TRef sig ⟨S_, .i32⟩) select,
    StableHlo.TRef.unary (.of main_call8_v2 : StableHlo.TRef sig ⟨S_, .i32⟩) (.of main_call8_v3 : StableHlo.TRef sig ⟨S1, .i32⟩) (broadcastInDim S1 ![] bcast_S_S1),
    StableHlo.TRef.nullary (.of main_call8_c_1 : StableHlo.TRef sig ⟨S1, .i32⟩) (constantI S1 32 1#32),
    StableHlo.TRef.unary (.of main_call8_v3 : StableHlo.TRef sig ⟨S1, .i32⟩) (.of main_call8_v4 : StableHlo.TRef sig ⟨S1, .i32⟩) id,
    StableHlo.TRef.nullary (.of main_call8_c_2 : StableHlo.TRef sig ⟨S_, .i32⟩) (constantI S_ 32 0#32),
    StableHlo.TRef.unary (.of main_call8_c_2 : StableHlo.TRef sig ⟨S_, .i32⟩) (.of main_call8_v5 : StableHlo.TRef sig ⟨S1, .i32⟩) (broadcastInDim S1 ![] bcast_S_S1),
    StableHlo.TRef.binary (.of main_call8_v4 : StableHlo.TRef sig ⟨S1, .i32⟩) (.of main_call8_v5 : StableHlo.TRef sig ⟨S1, .i32⟩) (.of main_call8_v6 : StableHlo.TRef sig ⟨S1, .i1⟩) (cmpi .sge),
    StableHlo.TRef.binary (.of main_call8_v4 : StableHlo.TRef sig ⟨S1, .i32⟩) (.of main_call8_c_1 : StableHlo.TRef sig ⟨S1, .i32⟩) (.of main_call8_v7 : StableHlo.TRef sig ⟨S1, .i1⟩) (cmpi .sle),
    StableHlo.TRef.binary (.of main_call8_v6 : StableHlo.TRef sig ⟨S1, .i1⟩) (.of main_call8_v7 : StableHlo.TRef sig ⟨S1, .i1⟩) (.of main_call8_v8 : StableHlo.TRef sig ⟨S1, .i1⟩) andi,
    StableHlo.TRef.nullary (.of main_call8_c_3 : StableHlo.TRef sig ⟨S_, .i1⟩) (constantI S_ 1 1#1),
    StableHlo.TRef.binary (.of main_call8_v8 : StableHlo.TRef sig ⟨S1, .i1⟩) (.of main_call8_c_3 : StableHlo.TRef sig ⟨S_, .i1⟩) (.of main_call8_v9 : StableHlo.TRef sig ⟨S_, .i1⟩) (fun x v => Host.reduce IntOp.andi x v reducesTo_S1_S_d0 h_S_),
    StableHlo.TRef.binary (.of main_v108 : StableHlo.TRef sig ⟨S16384x2x2x2x2x2x2x2x2, .f32⟩) (.of main_call8_v4 : StableHlo.TRef sig ⟨S1, .i32⟩) (.of main_call8_v10 : StableHlo.TRef sig ⟨S16384x2x2x2x2x2x2x2, .f32⟩) (fun x i => Host.gather gather_S16384x2x2x2x2x2x2x2x2_S1_S16384x2x2x2x2x2x2x2_01234567_6_n_n_6_0_1638422222122 x i),
    StableHlo.TRef.unary (.of main_call8_v9 : StableHlo.TRef sig ⟨S_, .i1⟩) (.of main_call8_v11 : StableHlo.TRef sig ⟨S16384x2x2x2x2x2x2x2, .i1⟩) (broadcastInDim S16384x2x2x2x2x2x2x2 ![] bcast_S_S16384x2x2x2x2x2x2x2),
    StableHlo.TRef.nullary (.of main_call8_cst : StableHlo.TRef sig ⟨S_, .f32⟩) (constant S_ .f32 0x7FC00000#32),
    StableHlo.TRef.unary (.of main_call8_cst : StableHlo.TRef sig ⟨S_, .f32⟩) (.of main_call8_v12 : StableHlo.TRef sig ⟨S16384x2x2x2x2x2x2x2, .f32⟩) (broadcastInDim S16384x2x2x2x2x2x2x2 ![] bcast_S_S16384x2x2x2x2x2x2x2),
    StableHlo.TRef.ternary (.of main_call8_v11 : StableHlo.TRef sig ⟨S16384x2x2x2x2x2x2x2, .i1⟩) (.of main_call8_v10 : StableHlo.TRef sig ⟨S16384x2x2x2x2x2x2x2, .f32⟩) (.of main_call8_v12 : StableHlo.TRef sig ⟨S16384x2x2x2x2x2x2x2, .f32⟩) (.of main_v116 : StableHlo.TRef sig ⟨S16384x2x2x2x2x2x2x2, .f32⟩) select,
    StableHlo.unary main_v112 main_v117 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v117 main_v115 main_v118 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v114 main_v119 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v119 main_v116 main_v120 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.binary main_v118 main_v120 main_v121 (subf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v114 main_v122 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v122 main_v115 main_v123 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v112 main_v124 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v124 main_v116 main_v125 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.binary main_v123 main_v125 main_v126 (addf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v121 main_v127 (broadcastInDim S16384x2x2x2x2x2x1x2x2 ![0, 1, 2, 3, 4, 5, 7, 8] bcast_S16384x2x2x2x2x2x2x2_S16384x2x2x2x2x2x1x2x2_0_1_2_3_4_5_7_8 : (⟨S16384x2x2x2x2x2x2x2, .f32⟩ : BufTy).Contents (Elt F) → (⟨S16384x2x2x2x2x2x1x2x2, .f32⟩ : BufTy).Contents (Elt F)),
    StableHlo.unary main_v126 main_v128 (broadcastInDim S16384x2x2x2x2x2x1x2x2 ![0, 1, 2, 3, 4, 5, 7, 8] bcast_S16384x2x2x2x2x2x2x2_S16384x2x2x2x2x2x1x2x2_0_1_2_3_4_5_7_8 : (⟨S16384x2x2x2x2x2x2x2, .f32⟩ : BufTy).Contents (Elt F) → (⟨S16384x2x2x2x2x2x1x2x2, .f32⟩ : BufTy).Contents (Elt F)),
    StableHlo.binary main_v127 main_v128 main_v129 ((fun a b => concatenate S16384x2x2x2x2x2x2x2x2 6 [⟨S16384x2x2x2x2x2x1x2x2, a⟩, ⟨S16384x2x2x2x2x2x1x2x2, b⟩] concatenates_S16384x2x2x2x2x2x1x2x2_S16384x2x2x2x2x2x1x2x2_S16384x2x2x2x2x2x2x2x2_d6) : (⟨S16384x2x2x2x2x2x1x2x2, .f32⟩ : BufTy).Contents (Elt F) → (⟨S16384x2x2x2x2x2x1x2x2, .f32⟩ : BufTy).Contents (Elt F) → (⟨S16384x2x2x2x2x2x2x2x2, .f32⟩ : BufTy).Contents (Elt F)) ]

/-- The host operations of gate 5 (a rotation, parameter 3, axis 7). -/
abbrev G5 : List (HloOp τ sig (Elt F)) :=
  [ StableHlo.unary main_arg3 main_v130 ((extractStridedSlice S1 ![3] · slices_S21_S1_3) : (⟨S21, .f32⟩ : BufTy).Contents (Elt F) → (⟨S1, .f32⟩ : BufTy).Contents (Elt F)),
    StableHlo.reshape main_v130 main_v131 rfl shapeCasts_S1_S_,
    StableHlo.nullary main_cst_13 (constant S_ .f32 0x3F000000#32),
    StableHlo.binary main_cst_13 main_v131 main_v132 (mulf : (⟨S_, .f32⟩ : BufTy).Contents (Elt F) → (⟨S_, .f32⟩ : BufTy).Contents (Elt F) → (⟨S_, .f32⟩ : BufTy).Contents (Elt F)),
    StableHlo.unary main_v132 main_v133 (Host.cos : (⟨S_, .f32⟩ : BufTy).Contents (Elt F) → (⟨S_, .f32⟩ : BufTy).Contents (Elt F)),
    StableHlo.nullary main_cst_14 (constant S_ .f32 0x3F000000#32),
    StableHlo.binary main_cst_14 main_v131 main_v134 (mulf : (⟨S_, .f32⟩ : BufTy).Contents (Elt F) → (⟨S_, .f32⟩ : BufTy).Contents (Elt F) → (⟨S_, .f32⟩ : BufTy).Contents (Elt F)),
    StableHlo.unary main_v134 main_v135 (Host.sin : (⟨S_, .f32⟩ : BufTy).Contents (Elt F) → (⟨S_, .f32⟩ : BufTy).Contents (Elt F)),
    StableHlo.nullary main_c_15 (constantI S_ 32 0#32),
    StableHlo.TRef.nullary (.of main_call9_c : StableHlo.TRef sig ⟨S_, .i32⟩) (constantI S_ 32 0#32),
    StableHlo.TRef.binary (.of main_c_15 : StableHlo.TRef sig ⟨S_, .i32⟩) (.of main_call9_c : StableHlo.TRef sig ⟨S_, .i32⟩) (.of main_call9_v0 : StableHlo.TRef sig ⟨S_, .i1⟩) (cmpi .slt),
    StableHlo.TRef.nullary (.of main_call9_c_0 : StableHlo.TRef sig ⟨S_, .i32⟩) (constantI S_ 32 2#32),
    StableHlo.TRef.binary (.of main_c_15 : StableHlo.TRef sig ⟨S_, .i32⟩) (.of main_call9_c_0 : StableHlo.TRef sig ⟨S_, .i32⟩) (.of main_call9_v1 : StableHlo.TRef sig ⟨S_, .i32⟩) addi,
    StableHlo.TRef.ternary (.of main_call9_v0 : StableHlo.TRef sig ⟨S_, .i1⟩) (.of main_call9_v1 : StableHlo.TRef sig ⟨S_, .i32⟩) (.of main_c_15 : StableHlo.TRef sig ⟨S_, .i32⟩) (.of main_call9_v2 : StableHlo.TRef sig ⟨S_, .i32⟩) select,
    StableHlo.TRef.unary (.of main_call9_v2 : StableHlo.TRef sig ⟨S_, .i32⟩) (.of main_call9_v3 : StableHlo.TRef sig ⟨S1, .i32⟩) (broadcastInDim S1 ![] bcast_S_S1),
    StableHlo.TRef.nullary (.of main_call9_c_1 : StableHlo.TRef sig ⟨S1, .i32⟩) (constantI S1 32 1#32),
    StableHlo.TRef.unary (.of main_call9_v3 : StableHlo.TRef sig ⟨S1, .i32⟩) (.of main_call9_v4 : StableHlo.TRef sig ⟨S1, .i32⟩) id,
    StableHlo.TRef.nullary (.of main_call9_c_2 : StableHlo.TRef sig ⟨S_, .i32⟩) (constantI S_ 32 0#32),
    StableHlo.TRef.unary (.of main_call9_c_2 : StableHlo.TRef sig ⟨S_, .i32⟩) (.of main_call9_v5 : StableHlo.TRef sig ⟨S1, .i32⟩) (broadcastInDim S1 ![] bcast_S_S1),
    StableHlo.TRef.binary (.of main_call9_v4 : StableHlo.TRef sig ⟨S1, .i32⟩) (.of main_call9_v5 : StableHlo.TRef sig ⟨S1, .i32⟩) (.of main_call9_v6 : StableHlo.TRef sig ⟨S1, .i1⟩) (cmpi .sge),
    StableHlo.TRef.binary (.of main_call9_v4 : StableHlo.TRef sig ⟨S1, .i32⟩) (.of main_call9_c_1 : StableHlo.TRef sig ⟨S1, .i32⟩) (.of main_call9_v7 : StableHlo.TRef sig ⟨S1, .i1⟩) (cmpi .sle),
    StableHlo.TRef.binary (.of main_call9_v6 : StableHlo.TRef sig ⟨S1, .i1⟩) (.of main_call9_v7 : StableHlo.TRef sig ⟨S1, .i1⟩) (.of main_call9_v8 : StableHlo.TRef sig ⟨S1, .i1⟩) andi,
    StableHlo.TRef.nullary (.of main_call9_c_3 : StableHlo.TRef sig ⟨S_, .i1⟩) (constantI S_ 1 1#1),
    StableHlo.TRef.binary (.of main_call9_v8 : StableHlo.TRef sig ⟨S1, .i1⟩) (.of main_call9_c_3 : StableHlo.TRef sig ⟨S_, .i1⟩) (.of main_call9_v9 : StableHlo.TRef sig ⟨S_, .i1⟩) (fun x v => Host.reduce IntOp.andi x v reducesTo_S1_S_d0 h_S_),
    StableHlo.TRef.binary (.of main_v129 : StableHlo.TRef sig ⟨S16384x2x2x2x2x2x2x2x2, .f32⟩) (.of main_call9_v4 : StableHlo.TRef sig ⟨S1, .i32⟩) (.of main_call9_v10 : StableHlo.TRef sig ⟨S16384x2x2x2x2x2x2x2, .f32⟩) (fun x i => Host.gather gather_S16384x2x2x2x2x2x2x2x2_S1_S16384x2x2x2x2x2x2x2_01234567_7_n_n_7_0_1638422222212 x i),
    StableHlo.TRef.unary (.of main_call9_v9 : StableHlo.TRef sig ⟨S_, .i1⟩) (.of main_call9_v11 : StableHlo.TRef sig ⟨S16384x2x2x2x2x2x2x2, .i1⟩) (broadcastInDim S16384x2x2x2x2x2x2x2 ![] bcast_S_S16384x2x2x2x2x2x2x2),
    StableHlo.TRef.nullary (.of main_call9_cst : StableHlo.TRef sig ⟨S_, .f32⟩) (constant S_ .f32 0x7FC00000#32),
    StableHlo.TRef.unary (.of main_call9_cst : StableHlo.TRef sig ⟨S_, .f32⟩) (.of main_call9_v12 : StableHlo.TRef sig ⟨S16384x2x2x2x2x2x2x2, .f32⟩) (broadcastInDim S16384x2x2x2x2x2x2x2 ![] bcast_S_S16384x2x2x2x2x2x2x2),
    StableHlo.TRef.ternary (.of main_call9_v11 : StableHlo.TRef sig ⟨S16384x2x2x2x2x2x2x2, .i1⟩) (.of main_call9_v10 : StableHlo.TRef sig ⟨S16384x2x2x2x2x2x2x2, .f32⟩) (.of main_call9_v12 : StableHlo.TRef sig ⟨S16384x2x2x2x2x2x2x2, .f32⟩) (.of main_v136 : StableHlo.TRef sig ⟨S16384x2x2x2x2x2x2x2, .f32⟩) select,
    StableHlo.nullary main_c_16 (constantI S_ 32 1#32),
    StableHlo.TRef.nullary (.of main_call10_c : StableHlo.TRef sig ⟨S_, .i32⟩) (constantI S_ 32 0#32),
    StableHlo.TRef.binary (.of main_c_16 : StableHlo.TRef sig ⟨S_, .i32⟩) (.of main_call10_c : StableHlo.TRef sig ⟨S_, .i32⟩) (.of main_call10_v0 : StableHlo.TRef sig ⟨S_, .i1⟩) (cmpi .slt),
    StableHlo.TRef.nullary (.of main_call10_c_0 : StableHlo.TRef sig ⟨S_, .i32⟩) (constantI S_ 32 2#32),
    StableHlo.TRef.binary (.of main_c_16 : StableHlo.TRef sig ⟨S_, .i32⟩) (.of main_call10_c_0 : StableHlo.TRef sig ⟨S_, .i32⟩) (.of main_call10_v1 : StableHlo.TRef sig ⟨S_, .i32⟩) addi,
    StableHlo.TRef.ternary (.of main_call10_v0 : StableHlo.TRef sig ⟨S_, .i1⟩) (.of main_call10_v1 : StableHlo.TRef sig ⟨S_, .i32⟩) (.of main_c_16 : StableHlo.TRef sig ⟨S_, .i32⟩) (.of main_call10_v2 : StableHlo.TRef sig ⟨S_, .i32⟩) select,
    StableHlo.TRef.unary (.of main_call10_v2 : StableHlo.TRef sig ⟨S_, .i32⟩) (.of main_call10_v3 : StableHlo.TRef sig ⟨S1, .i32⟩) (broadcastInDim S1 ![] bcast_S_S1),
    StableHlo.TRef.nullary (.of main_call10_c_1 : StableHlo.TRef sig ⟨S1, .i32⟩) (constantI S1 32 1#32),
    StableHlo.TRef.unary (.of main_call10_v3 : StableHlo.TRef sig ⟨S1, .i32⟩) (.of main_call10_v4 : StableHlo.TRef sig ⟨S1, .i32⟩) id,
    StableHlo.TRef.nullary (.of main_call10_c_2 : StableHlo.TRef sig ⟨S_, .i32⟩) (constantI S_ 32 0#32),
    StableHlo.TRef.unary (.of main_call10_c_2 : StableHlo.TRef sig ⟨S_, .i32⟩) (.of main_call10_v5 : StableHlo.TRef sig ⟨S1, .i32⟩) (broadcastInDim S1 ![] bcast_S_S1),
    StableHlo.TRef.binary (.of main_call10_v4 : StableHlo.TRef sig ⟨S1, .i32⟩) (.of main_call10_v5 : StableHlo.TRef sig ⟨S1, .i32⟩) (.of main_call10_v6 : StableHlo.TRef sig ⟨S1, .i1⟩) (cmpi .sge),
    StableHlo.TRef.binary (.of main_call10_v4 : StableHlo.TRef sig ⟨S1, .i32⟩) (.of main_call10_c_1 : StableHlo.TRef sig ⟨S1, .i32⟩) (.of main_call10_v7 : StableHlo.TRef sig ⟨S1, .i1⟩) (cmpi .sle),
    StableHlo.TRef.binary (.of main_call10_v6 : StableHlo.TRef sig ⟨S1, .i1⟩) (.of main_call10_v7 : StableHlo.TRef sig ⟨S1, .i1⟩) (.of main_call10_v8 : StableHlo.TRef sig ⟨S1, .i1⟩) andi,
    StableHlo.TRef.nullary (.of main_call10_c_3 : StableHlo.TRef sig ⟨S_, .i1⟩) (constantI S_ 1 1#1),
    StableHlo.TRef.binary (.of main_call10_v8 : StableHlo.TRef sig ⟨S1, .i1⟩) (.of main_call10_c_3 : StableHlo.TRef sig ⟨S_, .i1⟩) (.of main_call10_v9 : StableHlo.TRef sig ⟨S_, .i1⟩) (fun x v => Host.reduce IntOp.andi x v reducesTo_S1_S_d0 h_S_),
    StableHlo.TRef.binary (.of main_v129 : StableHlo.TRef sig ⟨S16384x2x2x2x2x2x2x2x2, .f32⟩) (.of main_call10_v4 : StableHlo.TRef sig ⟨S1, .i32⟩) (.of main_call10_v10 : StableHlo.TRef sig ⟨S16384x2x2x2x2x2x2x2, .f32⟩) (fun x i => Host.gather gather_S16384x2x2x2x2x2x2x2x2_S1_S16384x2x2x2x2x2x2x2_01234567_7_n_n_7_0_1638422222212 x i),
    StableHlo.TRef.unary (.of main_call10_v9 : StableHlo.TRef sig ⟨S_, .i1⟩) (.of main_call10_v11 : StableHlo.TRef sig ⟨S16384x2x2x2x2x2x2x2, .i1⟩) (broadcastInDim S16384x2x2x2x2x2x2x2 ![] bcast_S_S16384x2x2x2x2x2x2x2),
    StableHlo.TRef.nullary (.of main_call10_cst : StableHlo.TRef sig ⟨S_, .f32⟩) (constant S_ .f32 0x7FC00000#32),
    StableHlo.TRef.unary (.of main_call10_cst : StableHlo.TRef sig ⟨S_, .f32⟩) (.of main_call10_v12 : StableHlo.TRef sig ⟨S16384x2x2x2x2x2x2x2, .f32⟩) (broadcastInDim S16384x2x2x2x2x2x2x2 ![] bcast_S_S16384x2x2x2x2x2x2x2),
    StableHlo.TRef.ternary (.of main_call10_v11 : StableHlo.TRef sig ⟨S16384x2x2x2x2x2x2x2, .i1⟩) (.of main_call10_v10 : StableHlo.TRef sig ⟨S16384x2x2x2x2x2x2x2, .f32⟩) (.of main_call10_v12 : StableHlo.TRef sig ⟨S16384x2x2x2x2x2x2x2, .f32⟩) (.of main_v137 : StableHlo.TRef sig ⟨S16384x2x2x2x2x2x2x2, .f32⟩) select,
    StableHlo.unary main_v133 main_v138 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v138 main_v136 main_v139 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v135 main_v140 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v140 main_v137 main_v141 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.binary main_v139 main_v141 main_v142 (subf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v135 main_v143 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v143 main_v136 main_v144 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v133 main_v145 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v145 main_v137 main_v146 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.binary main_v144 main_v146 main_v147 (addf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v142 main_v148 (broadcastInDim S16384x2x2x2x2x2x2x1x2 ![0, 1, 2, 3, 4, 5, 6, 8] bcast_S16384x2x2x2x2x2x2x2_S16384x2x2x2x2x2x2x1x2_0_1_2_3_4_5_6_8 : (⟨S16384x2x2x2x2x2x2x2, .f32⟩ : BufTy).Contents (Elt F) → (⟨S16384x2x2x2x2x2x2x1x2, .f32⟩ : BufTy).Contents (Elt F)),
    StableHlo.unary main_v147 main_v149 (broadcastInDim S16384x2x2x2x2x2x2x1x2 ![0, 1, 2, 3, 4, 5, 6, 8] bcast_S16384x2x2x2x2x2x2x2_S16384x2x2x2x2x2x2x1x2_0_1_2_3_4_5_6_8 : (⟨S16384x2x2x2x2x2x2x2, .f32⟩ : BufTy).Contents (Elt F) → (⟨S16384x2x2x2x2x2x2x1x2, .f32⟩ : BufTy).Contents (Elt F)),
    StableHlo.binary main_v148 main_v149 main_v150 ((fun a b => concatenate S16384x2x2x2x2x2x2x2x2 7 [⟨S16384x2x2x2x2x2x2x1x2, a⟩, ⟨S16384x2x2x2x2x2x2x1x2, b⟩] concatenates_S16384x2x2x2x2x2x2x1x2_S16384x2x2x2x2x2x2x1x2_S16384x2x2x2x2x2x2x2x2_d7) : (⟨S16384x2x2x2x2x2x2x1x2, .f32⟩ : BufTy).Contents (Elt F) → (⟨S16384x2x2x2x2x2x2x1x2, .f32⟩ : BufTy).Contents (Elt F) → (⟨S16384x2x2x2x2x2x2x2x2, .f32⟩ : BufTy).Contents (Elt F)) ]

/-- The host operations of gate 6 (a controlled flip, axis 7). -/
abbrev G6 : List (HloOp τ sig (Elt F)) :=
  [ StableHlo.nullary main_c_17 (constantI S_ 32 0#32),
    StableHlo.TRef.nullary (.of main_call11_c : StableHlo.TRef sig ⟨S_, .i32⟩) (constantI S_ 32 0#32),
    StableHlo.TRef.binary (.of main_c_17 : StableHlo.TRef sig ⟨S_, .i32⟩) (.of main_call11_c : StableHlo.TRef sig ⟨S_, .i32⟩) (.of main_call11_v0 : StableHlo.TRef sig ⟨S_, .i1⟩) (cmpi .slt),
    StableHlo.TRef.nullary (.of main_call11_c_0 : StableHlo.TRef sig ⟨S_, .i32⟩) (constantI S_ 32 2#32),
    StableHlo.TRef.binary (.of main_c_17 : StableHlo.TRef sig ⟨S_, .i32⟩) (.of main_call11_c_0 : StableHlo.TRef sig ⟨S_, .i32⟩) (.of main_call11_v1 : StableHlo.TRef sig ⟨S_, .i32⟩) addi,
    StableHlo.TRef.ternary (.of main_call11_v0 : StableHlo.TRef sig ⟨S_, .i1⟩) (.of main_call11_v1 : StableHlo.TRef sig ⟨S_, .i32⟩) (.of main_c_17 : StableHlo.TRef sig ⟨S_, .i32⟩) (.of main_call11_v2 : StableHlo.TRef sig ⟨S_, .i32⟩) select,
    StableHlo.TRef.unary (.of main_call11_v2 : StableHlo.TRef sig ⟨S_, .i32⟩) (.of main_call11_v3 : StableHlo.TRef sig ⟨S1, .i32⟩) (broadcastInDim S1 ![] bcast_S_S1),
    StableHlo.TRef.nullary (.of main_call11_c_1 : StableHlo.TRef sig ⟨S1, .i32⟩) (constantI S1 32 1#32),
    StableHlo.TRef.unary (.of main_call11_v3 : StableHlo.TRef sig ⟨S1, .i32⟩) (.of main_call11_v4 : StableHlo.TRef sig ⟨S1, .i32⟩) id,
    StableHlo.TRef.nullary (.of main_call11_c_2 : StableHlo.TRef sig ⟨S_, .i32⟩) (constantI S_ 32 0#32),
    StableHlo.TRef.unary (.of main_call11_c_2 : StableHlo.TRef sig ⟨S_, .i32⟩) (.of main_call11_v5 : StableHlo.TRef sig ⟨S1, .i32⟩) (broadcastInDim S1 ![] bcast_S_S1),
    StableHlo.TRef.binary (.of main_call11_v4 : StableHlo.TRef sig ⟨S1, .i32⟩) (.of main_call11_v5 : StableHlo.TRef sig ⟨S1, .i32⟩) (.of main_call11_v6 : StableHlo.TRef sig ⟨S1, .i1⟩) (cmpi .sge),
    StableHlo.TRef.binary (.of main_call11_v4 : StableHlo.TRef sig ⟨S1, .i32⟩) (.of main_call11_c_1 : StableHlo.TRef sig ⟨S1, .i32⟩) (.of main_call11_v7 : StableHlo.TRef sig ⟨S1, .i1⟩) (cmpi .sle),
    StableHlo.TRef.binary (.of main_call11_v6 : StableHlo.TRef sig ⟨S1, .i1⟩) (.of main_call11_v7 : StableHlo.TRef sig ⟨S1, .i1⟩) (.of main_call11_v8 : StableHlo.TRef sig ⟨S1, .i1⟩) andi,
    StableHlo.TRef.nullary (.of main_call11_c_3 : StableHlo.TRef sig ⟨S_, .i1⟩) (constantI S_ 1 1#1),
    StableHlo.TRef.binary (.of main_call11_v8 : StableHlo.TRef sig ⟨S1, .i1⟩) (.of main_call11_c_3 : StableHlo.TRef sig ⟨S_, .i1⟩) (.of main_call11_v9 : StableHlo.TRef sig ⟨S_, .i1⟩) (fun x v => Host.reduce IntOp.andi x v reducesTo_S1_S_d0 h_S_),
    StableHlo.TRef.binary (.of main_v150 : StableHlo.TRef sig ⟨S16384x2x2x2x2x2x2x2x2, .f32⟩) (.of main_call11_v4 : StableHlo.TRef sig ⟨S1, .i32⟩) (.of main_call11_v10 : StableHlo.TRef sig ⟨S16384x2x2x2x2x2x2x2, .f32⟩) (fun x i => Host.gather gather_S16384x2x2x2x2x2x2x2x2_S1_S16384x2x2x2x2x2x2x2_01234567_7_n_n_7_0_1638422222212 x i),
    StableHlo.TRef.unary (.of main_call11_v9 : StableHlo.TRef sig ⟨S_, .i1⟩) (.of main_call11_v11 : StableHlo.TRef sig ⟨S16384x2x2x2x2x2x2x2, .i1⟩) (broadcastInDim S16384x2x2x2x2x2x2x2 ![] bcast_S_S16384x2x2x2x2x2x2x2),
    StableHlo.TRef.nullary (.of main_call11_cst : StableHlo.TRef sig ⟨S_, .f32⟩) (constant S_ .f32 0x7FC00000#32),
    StableHlo.TRef.unary (.of main_call11_cst : StableHlo.TRef sig ⟨S_, .f32⟩) (.of main_call11_v12 : StableHlo.TRef sig ⟨S16384x2x2x2x2x2x2x2, .f32⟩) (broadcastInDim S16384x2x2x2x2x2x2x2 ![] bcast_S_S16384x2x2x2x2x2x2x2),
    StableHlo.TRef.ternary (.of main_call11_v11 : StableHlo.TRef sig ⟨S16384x2x2x2x2x2x2x2, .i1⟩) (.of main_call11_v10 : StableHlo.TRef sig ⟨S16384x2x2x2x2x2x2x2, .f32⟩) (.of main_call11_v12 : StableHlo.TRef sig ⟨S16384x2x2x2x2x2x2x2, .f32⟩) (.of main_v151 : StableHlo.TRef sig ⟨S16384x2x2x2x2x2x2x2, .f32⟩) select,
    StableHlo.nullary main_c_18 (constantI S_ 32 1#32),
    StableHlo.TRef.nullary (.of main_call12_c : StableHlo.TRef sig ⟨S_, .i32⟩) (constantI S_ 32 0#32),
    StableHlo.TRef.binary (.of main_c_18 : StableHlo.TRef sig ⟨S_, .i32⟩) (.of main_call12_c : StableHlo.TRef sig ⟨S_, .i32⟩) (.of main_call12_v0 : StableHlo.TRef sig ⟨S_, .i1⟩) (cmpi .slt),
    StableHlo.TRef.nullary (.of main_call12_c_0 : StableHlo.TRef sig ⟨S_, .i32⟩) (constantI S_ 32 2#32),
    StableHlo.TRef.binary (.of main_c_18 : StableHlo.TRef sig ⟨S_, .i32⟩) (.of main_call12_c_0 : StableHlo.TRef sig ⟨S_, .i32⟩) (.of main_call12_v1 : StableHlo.TRef sig ⟨S_, .i32⟩) addi,
    StableHlo.TRef.ternary (.of main_call12_v0 : StableHlo.TRef sig ⟨S_, .i1⟩) (.of main_call12_v1 : StableHlo.TRef sig ⟨S_, .i32⟩) (.of main_c_18 : StableHlo.TRef sig ⟨S_, .i32⟩) (.of main_call12_v2 : StableHlo.TRef sig ⟨S_, .i32⟩) select,
    StableHlo.TRef.unary (.of main_call12_v2 : StableHlo.TRef sig ⟨S_, .i32⟩) (.of main_call12_v3 : StableHlo.TRef sig ⟨S1, .i32⟩) (broadcastInDim S1 ![] bcast_S_S1),
    StableHlo.TRef.nullary (.of main_call12_c_1 : StableHlo.TRef sig ⟨S1, .i32⟩) (constantI S1 32 1#32),
    StableHlo.TRef.unary (.of main_call12_v3 : StableHlo.TRef sig ⟨S1, .i32⟩) (.of main_call12_v4 : StableHlo.TRef sig ⟨S1, .i32⟩) id,
    StableHlo.TRef.nullary (.of main_call12_c_2 : StableHlo.TRef sig ⟨S_, .i32⟩) (constantI S_ 32 0#32),
    StableHlo.TRef.unary (.of main_call12_c_2 : StableHlo.TRef sig ⟨S_, .i32⟩) (.of main_call12_v5 : StableHlo.TRef sig ⟨S1, .i32⟩) (broadcastInDim S1 ![] bcast_S_S1),
    StableHlo.TRef.binary (.of main_call12_v4 : StableHlo.TRef sig ⟨S1, .i32⟩) (.of main_call12_v5 : StableHlo.TRef sig ⟨S1, .i32⟩) (.of main_call12_v6 : StableHlo.TRef sig ⟨S1, .i1⟩) (cmpi .sge),
    StableHlo.TRef.binary (.of main_call12_v4 : StableHlo.TRef sig ⟨S1, .i32⟩) (.of main_call12_c_1 : StableHlo.TRef sig ⟨S1, .i32⟩) (.of main_call12_v7 : StableHlo.TRef sig ⟨S1, .i1⟩) (cmpi .sle),
    StableHlo.TRef.binary (.of main_call12_v6 : StableHlo.TRef sig ⟨S1, .i1⟩) (.of main_call12_v7 : StableHlo.TRef sig ⟨S1, .i1⟩) (.of main_call12_v8 : StableHlo.TRef sig ⟨S1, .i1⟩) andi,
    StableHlo.TRef.nullary (.of main_call12_c_3 : StableHlo.TRef sig ⟨S_, .i1⟩) (constantI S_ 1 1#1),
    StableHlo.TRef.binary (.of main_call12_v8 : StableHlo.TRef sig ⟨S1, .i1⟩) (.of main_call12_c_3 : StableHlo.TRef sig ⟨S_, .i1⟩) (.of main_call12_v9 : StableHlo.TRef sig ⟨S_, .i1⟩) (fun x v => Host.reduce IntOp.andi x v reducesTo_S1_S_d0 h_S_),
    StableHlo.TRef.binary (.of main_v150 : StableHlo.TRef sig ⟨S16384x2x2x2x2x2x2x2x2, .f32⟩) (.of main_call12_v4 : StableHlo.TRef sig ⟨S1, .i32⟩) (.of main_call12_v10 : StableHlo.TRef sig ⟨S16384x2x2x2x2x2x2x2, .f32⟩) (fun x i => Host.gather gather_S16384x2x2x2x2x2x2x2x2_S1_S16384x2x2x2x2x2x2x2_01234567_7_n_n_7_0_1638422222212 x i),
    StableHlo.TRef.unary (.of main_call12_v9 : StableHlo.TRef sig ⟨S_, .i1⟩) (.of main_call12_v11 : StableHlo.TRef sig ⟨S16384x2x2x2x2x2x2x2, .i1⟩) (broadcastInDim S16384x2x2x2x2x2x2x2 ![] bcast_S_S16384x2x2x2x2x2x2x2),
    StableHlo.TRef.nullary (.of main_call12_cst : StableHlo.TRef sig ⟨S_, .f32⟩) (constant S_ .f32 0x7FC00000#32),
    StableHlo.TRef.unary (.of main_call12_cst : StableHlo.TRef sig ⟨S_, .f32⟩) (.of main_call12_v12 : StableHlo.TRef sig ⟨S16384x2x2x2x2x2x2x2, .f32⟩) (broadcastInDim S16384x2x2x2x2x2x2x2 ![] bcast_S_S16384x2x2x2x2x2x2x2),
    StableHlo.TRef.ternary (.of main_call12_v11 : StableHlo.TRef sig ⟨S16384x2x2x2x2x2x2x2, .i1⟩) (.of main_call12_v10 : StableHlo.TRef sig ⟨S16384x2x2x2x2x2x2x2, .f32⟩) (.of main_call12_v12 : StableHlo.TRef sig ⟨S16384x2x2x2x2x2x2x2, .f32⟩) (.of main_v152 : StableHlo.TRef sig ⟨S16384x2x2x2x2x2x2x2, .f32⟩) select,
    StableHlo.TRef.unary (.of main_v152 : StableHlo.TRef sig ⟨S16384x2x2x2x2x2x2x2, .f32⟩) (.of main_v153 : StableHlo.TRef sig ⟨S16384x2x2x2x2x2x2x2, .f32⟩) (Host.reverse [6]),
    StableHlo.unary main_v151 main_v154 (broadcastInDim S16384x2x2x2x2x2x2x1x2 ![0, 1, 2, 3, 4, 5, 6, 8] bcast_S16384x2x2x2x2x2x2x2_S16384x2x2x2x2x2x2x1x2_0_1_2_3_4_5_6_8 : (⟨S16384x2x2x2x2x2x2x2, .f32⟩ : BufTy).Contents (Elt F) → (⟨S16384x2x2x2x2x2x2x1x2, .f32⟩ : BufTy).Contents (Elt F)),
    StableHlo.unary main_v153 main_v155 (broadcastInDim S16384x2x2x2x2x2x2x1x2 ![0, 1, 2, 3, 4, 5, 6, 8] bcast_S16384x2x2x2x2x2x2x2_S16384x2x2x2x2x2x2x1x2_0_1_2_3_4_5_6_8 : (⟨S16384x2x2x2x2x2x2x2, .f32⟩ : BufTy).Contents (Elt F) → (⟨S16384x2x2x2x2x2x2x1x2, .f32⟩ : BufTy).Contents (Elt F)),
    StableHlo.binary main_v154 main_v155 main_v156 ((fun a b => concatenate S16384x2x2x2x2x2x2x2x2 7 [⟨S16384x2x2x2x2x2x2x1x2, a⟩, ⟨S16384x2x2x2x2x2x2x1x2, b⟩] concatenates_S16384x2x2x2x2x2x2x1x2_S16384x2x2x2x2x2x2x1x2_S16384x2x2x2x2x2x2x2x2_d7) : (⟨S16384x2x2x2x2x2x2x1x2, .f32⟩ : BufTy).Contents (Elt F) → (⟨S16384x2x2x2x2x2x2x1x2, .f32⟩ : BufTy).Contents (Elt F) → (⟨S16384x2x2x2x2x2x2x2x2, .f32⟩ : BufTy).Contents (Elt F)) ]

/-- The host operations of gate 7 (a rotation, parameter 4, axis 1). -/
abbrev G7 : List (HloOp τ sig (Elt F)) :=
  [ StableHlo.unary main_arg3 main_v157 ((extractStridedSlice S1 ![4] · slices_S21_S1_4) : (⟨S21, .f32⟩ : BufTy).Contents (Elt F) → (⟨S1, .f32⟩ : BufTy).Contents (Elt F)),
    StableHlo.reshape main_v157 main_v158 rfl shapeCasts_S1_S_,
    StableHlo.nullary main_cst_19 (constant S_ .f32 0x3F000000#32),
    StableHlo.binary main_cst_19 main_v158 main_v159 (mulf : (⟨S_, .f32⟩ : BufTy).Contents (Elt F) → (⟨S_, .f32⟩ : BufTy).Contents (Elt F) → (⟨S_, .f32⟩ : BufTy).Contents (Elt F)),
    StableHlo.unary main_v159 main_v160 (Host.cos : (⟨S_, .f32⟩ : BufTy).Contents (Elt F) → (⟨S_, .f32⟩ : BufTy).Contents (Elt F)),
    StableHlo.nullary main_cst_20 (constant S_ .f32 0x3F000000#32),
    StableHlo.binary main_cst_20 main_v158 main_v161 (mulf : (⟨S_, .f32⟩ : BufTy).Contents (Elt F) → (⟨S_, .f32⟩ : BufTy).Contents (Elt F) → (⟨S_, .f32⟩ : BufTy).Contents (Elt F)),
    StableHlo.unary main_v161 main_v162 (Host.sin : (⟨S_, .f32⟩ : BufTy).Contents (Elt F) → (⟨S_, .f32⟩ : BufTy).Contents (Elt F)),
    StableHlo.nullary main_c_21 (constantI S_ 32 0#32),
    StableHlo.TRef.nullary (.of main_call14_c : StableHlo.TRef sig ⟨S_, .i32⟩) (constantI S_ 32 0#32),
    StableHlo.TRef.binary (.of main_c_21 : StableHlo.TRef sig ⟨S_, .i32⟩) (.of main_call14_c : StableHlo.TRef sig ⟨S_, .i32⟩) (.of main_call14_v0 : StableHlo.TRef sig ⟨S_, .i1⟩) (cmpi .slt),
    StableHlo.TRef.nullary (.of main_call14_c_0 : StableHlo.TRef sig ⟨S_, .i32⟩) (constantI S_ 32 2#32),
    StableHlo.TRef.binary (.of main_c_21 : StableHlo.TRef sig ⟨S_, .i32⟩) (.of main_call14_c_0 : StableHlo.TRef sig ⟨S_, .i32⟩) (.of main_call14_v1 : StableHlo.TRef sig ⟨S_, .i32⟩) addi,
    StableHlo.TRef.ternary (.of main_call14_v0 : StableHlo.TRef sig ⟨S_, .i1⟩) (.of main_call14_v1 : StableHlo.TRef sig ⟨S_, .i32⟩) (.of main_c_21 : StableHlo.TRef sig ⟨S_, .i32⟩) (.of main_call14_v2 : StableHlo.TRef sig ⟨S_, .i32⟩) select,
    StableHlo.TRef.unary (.of main_call14_v2 : StableHlo.TRef sig ⟨S_, .i32⟩) (.of main_call14_v3 : StableHlo.TRef sig ⟨S1, .i32⟩) (broadcastInDim S1 ![] bcast_S_S1),
    StableHlo.TRef.nullary (.of main_call14_c_1 : StableHlo.TRef sig ⟨S1, .i32⟩) (constantI S1 32 1#32),
    StableHlo.TRef.unary (.of main_call14_v3 : StableHlo.TRef sig ⟨S1, .i32⟩) (.of main_call14_v4 : StableHlo.TRef sig ⟨S1, .i32⟩) id,
    StableHlo.TRef.nullary (.of main_call14_c_2 : StableHlo.TRef sig ⟨S_, .i32⟩) (constantI S_ 32 0#32),
    StableHlo.TRef.unary (.of main_call14_c_2 : StableHlo.TRef sig ⟨S_, .i32⟩) (.of main_call14_v5 : StableHlo.TRef sig ⟨S1, .i32⟩) (broadcastInDim S1 ![] bcast_S_S1),
    StableHlo.TRef.binary (.of main_call14_v4 : StableHlo.TRef sig ⟨S1, .i32⟩) (.of main_call14_v5 : StableHlo.TRef sig ⟨S1, .i32⟩) (.of main_call14_v6 : StableHlo.TRef sig ⟨S1, .i1⟩) (cmpi .sge),
    StableHlo.TRef.binary (.of main_call14_v4 : StableHlo.TRef sig ⟨S1, .i32⟩) (.of main_call14_c_1 : StableHlo.TRef sig ⟨S1, .i32⟩) (.of main_call14_v7 : StableHlo.TRef sig ⟨S1, .i1⟩) (cmpi .sle),
    StableHlo.TRef.binary (.of main_call14_v6 : StableHlo.TRef sig ⟨S1, .i1⟩) (.of main_call14_v7 : StableHlo.TRef sig ⟨S1, .i1⟩) (.of main_call14_v8 : StableHlo.TRef sig ⟨S1, .i1⟩) andi,
    StableHlo.TRef.nullary (.of main_call14_c_3 : StableHlo.TRef sig ⟨S_, .i1⟩) (constantI S_ 1 1#1),
    StableHlo.TRef.binary (.of main_call14_v8 : StableHlo.TRef sig ⟨S1, .i1⟩) (.of main_call14_c_3 : StableHlo.TRef sig ⟨S_, .i1⟩) (.of main_call14_v9 : StableHlo.TRef sig ⟨S_, .i1⟩) (fun x v => Host.reduce IntOp.andi x v reducesTo_S1_S_d0 h_S_),
    StableHlo.TRef.binary (.of main_v156 : StableHlo.TRef sig ⟨S16384x2x2x2x2x2x2x2x2, .f32⟩) (.of main_call14_v4 : StableHlo.TRef sig ⟨S1, .i32⟩) (.of main_call14_v10 : StableHlo.TRef sig ⟨S16384x2x2x2x2x2x2x2, .f32⟩) (fun x i => Host.gather gather_S16384x2x2x2x2x2x2x2x2_S1_S16384x2x2x2x2x2x2x2_01234567_1_n_n_1_0_1638412222222 x i),
    StableHlo.TRef.unary (.of main_call14_v9 : StableHlo.TRef sig ⟨S_, .i1⟩) (.of main_call14_v11 : StableHlo.TRef sig ⟨S16384x2x2x2x2x2x2x2, .i1⟩) (broadcastInDim S16384x2x2x2x2x2x2x2 ![] bcast_S_S16384x2x2x2x2x2x2x2),
    StableHlo.TRef.nullary (.of main_call14_cst : StableHlo.TRef sig ⟨S_, .f32⟩) (constant S_ .f32 0x7FC00000#32),
    StableHlo.TRef.unary (.of main_call14_cst : StableHlo.TRef sig ⟨S_, .f32⟩) (.of main_call14_v12 : StableHlo.TRef sig ⟨S16384x2x2x2x2x2x2x2, .f32⟩) (broadcastInDim S16384x2x2x2x2x2x2x2 ![] bcast_S_S16384x2x2x2x2x2x2x2),
    StableHlo.TRef.ternary (.of main_call14_v11 : StableHlo.TRef sig ⟨S16384x2x2x2x2x2x2x2, .i1⟩) (.of main_call14_v10 : StableHlo.TRef sig ⟨S16384x2x2x2x2x2x2x2, .f32⟩) (.of main_call14_v12 : StableHlo.TRef sig ⟨S16384x2x2x2x2x2x2x2, .f32⟩) (.of main_v163 : StableHlo.TRef sig ⟨S16384x2x2x2x2x2x2x2, .f32⟩) select,
    StableHlo.nullary main_c_22 (constantI S_ 32 1#32),
    StableHlo.TRef.nullary (.of main_call15_c : StableHlo.TRef sig ⟨S_, .i32⟩) (constantI S_ 32 0#32),
    StableHlo.TRef.binary (.of main_c_22 : StableHlo.TRef sig ⟨S_, .i32⟩) (.of main_call15_c : StableHlo.TRef sig ⟨S_, .i32⟩) (.of main_call15_v0 : StableHlo.TRef sig ⟨S_, .i1⟩) (cmpi .slt),
    StableHlo.TRef.nullary (.of main_call15_c_0 : StableHlo.TRef sig ⟨S_, .i32⟩) (constantI S_ 32 2#32),
    StableHlo.TRef.binary (.of main_c_22 : StableHlo.TRef sig ⟨S_, .i32⟩) (.of main_call15_c_0 : StableHlo.TRef sig ⟨S_, .i32⟩) (.of main_call15_v1 : StableHlo.TRef sig ⟨S_, .i32⟩) addi,
    StableHlo.TRef.ternary (.of main_call15_v0 : StableHlo.TRef sig ⟨S_, .i1⟩) (.of main_call15_v1 : StableHlo.TRef sig ⟨S_, .i32⟩) (.of main_c_22 : StableHlo.TRef sig ⟨S_, .i32⟩) (.of main_call15_v2 : StableHlo.TRef sig ⟨S_, .i32⟩) select,
    StableHlo.TRef.unary (.of main_call15_v2 : StableHlo.TRef sig ⟨S_, .i32⟩) (.of main_call15_v3 : StableHlo.TRef sig ⟨S1, .i32⟩) (broadcastInDim S1 ![] bcast_S_S1),
    StableHlo.TRef.nullary (.of main_call15_c_1 : StableHlo.TRef sig ⟨S1, .i32⟩) (constantI S1 32 1#32),
    StableHlo.TRef.unary (.of main_call15_v3 : StableHlo.TRef sig ⟨S1, .i32⟩) (.of main_call15_v4 : StableHlo.TRef sig ⟨S1, .i32⟩) id,
    StableHlo.TRef.nullary (.of main_call15_c_2 : StableHlo.TRef sig ⟨S_, .i32⟩) (constantI S_ 32 0#32),
    StableHlo.TRef.unary (.of main_call15_c_2 : StableHlo.TRef sig ⟨S_, .i32⟩) (.of main_call15_v5 : StableHlo.TRef sig ⟨S1, .i32⟩) (broadcastInDim S1 ![] bcast_S_S1),
    StableHlo.TRef.binary (.of main_call15_v4 : StableHlo.TRef sig ⟨S1, .i32⟩) (.of main_call15_v5 : StableHlo.TRef sig ⟨S1, .i32⟩) (.of main_call15_v6 : StableHlo.TRef sig ⟨S1, .i1⟩) (cmpi .sge),
    StableHlo.TRef.binary (.of main_call15_v4 : StableHlo.TRef sig ⟨S1, .i32⟩) (.of main_call15_c_1 : StableHlo.TRef sig ⟨S1, .i32⟩) (.of main_call15_v7 : StableHlo.TRef sig ⟨S1, .i1⟩) (cmpi .sle),
    StableHlo.TRef.binary (.of main_call15_v6 : StableHlo.TRef sig ⟨S1, .i1⟩) (.of main_call15_v7 : StableHlo.TRef sig ⟨S1, .i1⟩) (.of main_call15_v8 : StableHlo.TRef sig ⟨S1, .i1⟩) andi,
    StableHlo.TRef.nullary (.of main_call15_c_3 : StableHlo.TRef sig ⟨S_, .i1⟩) (constantI S_ 1 1#1),
    StableHlo.TRef.binary (.of main_call15_v8 : StableHlo.TRef sig ⟨S1, .i1⟩) (.of main_call15_c_3 : StableHlo.TRef sig ⟨S_, .i1⟩) (.of main_call15_v9 : StableHlo.TRef sig ⟨S_, .i1⟩) (fun x v => Host.reduce IntOp.andi x v reducesTo_S1_S_d0 h_S_),
    StableHlo.TRef.binary (.of main_v156 : StableHlo.TRef sig ⟨S16384x2x2x2x2x2x2x2x2, .f32⟩) (.of main_call15_v4 : StableHlo.TRef sig ⟨S1, .i32⟩) (.of main_call15_v10 : StableHlo.TRef sig ⟨S16384x2x2x2x2x2x2x2, .f32⟩) (fun x i => Host.gather gather_S16384x2x2x2x2x2x2x2x2_S1_S16384x2x2x2x2x2x2x2_01234567_1_n_n_1_0_1638412222222 x i),
    StableHlo.TRef.unary (.of main_call15_v9 : StableHlo.TRef sig ⟨S_, .i1⟩) (.of main_call15_v11 : StableHlo.TRef sig ⟨S16384x2x2x2x2x2x2x2, .i1⟩) (broadcastInDim S16384x2x2x2x2x2x2x2 ![] bcast_S_S16384x2x2x2x2x2x2x2),
    StableHlo.TRef.nullary (.of main_call15_cst : StableHlo.TRef sig ⟨S_, .f32⟩) (constant S_ .f32 0x7FC00000#32),
    StableHlo.TRef.unary (.of main_call15_cst : StableHlo.TRef sig ⟨S_, .f32⟩) (.of main_call15_v12 : StableHlo.TRef sig ⟨S16384x2x2x2x2x2x2x2, .f32⟩) (broadcastInDim S16384x2x2x2x2x2x2x2 ![] bcast_S_S16384x2x2x2x2x2x2x2),
    StableHlo.TRef.ternary (.of main_call15_v11 : StableHlo.TRef sig ⟨S16384x2x2x2x2x2x2x2, .i1⟩) (.of main_call15_v10 : StableHlo.TRef sig ⟨S16384x2x2x2x2x2x2x2, .f32⟩) (.of main_call15_v12 : StableHlo.TRef sig ⟨S16384x2x2x2x2x2x2x2, .f32⟩) (.of main_v164 : StableHlo.TRef sig ⟨S16384x2x2x2x2x2x2x2, .f32⟩) select,
    StableHlo.unary main_v160 main_v165 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v165 main_v163 main_v166 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v162 main_v167 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v167 main_v164 main_v168 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.binary main_v166 main_v168 main_v169 (subf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v162 main_v170 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v170 main_v163 main_v171 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v160 main_v172 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v172 main_v164 main_v173 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.binary main_v171 main_v173 main_v174 (addf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v169 main_v175 (broadcastInDim S16384x1x2x2x2x2x2x2x2 ![0, 2, 3, 4, 5, 6, 7, 8] bcast_S16384x2x2x2x2x2x2x2_S16384x1x2x2x2x2x2x2x2_0_2_3_4_5_6_7_8 : (⟨S16384x2x2x2x2x2x2x2, .f32⟩ : BufTy).Contents (Elt F) → (⟨S16384x1x2x2x2x2x2x2x2, .f32⟩ : BufTy).Contents (Elt F)),
    StableHlo.unary main_v174 main_v176 (broadcastInDim S16384x1x2x2x2x2x2x2x2 ![0, 2, 3, 4, 5, 6, 7, 8] bcast_S16384x2x2x2x2x2x2x2_S16384x1x2x2x2x2x2x2x2_0_2_3_4_5_6_7_8 : (⟨S16384x2x2x2x2x2x2x2, .f32⟩ : BufTy).Contents (Elt F) → (⟨S16384x1x2x2x2x2x2x2x2, .f32⟩ : BufTy).Contents (Elt F)),
    StableHlo.binary main_v175 main_v176 main_v177 ((fun a b => concatenate S16384x2x2x2x2x2x2x2x2 1 [⟨S16384x1x2x2x2x2x2x2x2, a⟩, ⟨S16384x1x2x2x2x2x2x2x2, b⟩] concatenates_S16384x1x2x2x2x2x2x2x2_S16384x1x2x2x2x2x2x2x2_S16384x2x2x2x2x2x2x2x2_d1) : (⟨S16384x1x2x2x2x2x2x2x2, .f32⟩ : BufTy).Contents (Elt F) → (⟨S16384x1x2x2x2x2x2x2x2, .f32⟩ : BufTy).Contents (Elt F) → (⟨S16384x2x2x2x2x2x2x2x2, .f32⟩ : BufTy).Contents (Elt F)) ]

/-- The host operations of gate 8 (a rotation, parameter 5, axis 2). -/
abbrev G8 : List (HloOp τ sig (Elt F)) :=
  [ StableHlo.unary main_arg3 main_v178 ((extractStridedSlice S1 ![5] · slices_S21_S1_5) : (⟨S21, .f32⟩ : BufTy).Contents (Elt F) → (⟨S1, .f32⟩ : BufTy).Contents (Elt F)),
    StableHlo.reshape main_v178 main_v179 rfl shapeCasts_S1_S_,
    StableHlo.nullary main_cst_23 (constant S_ .f32 0x3F000000#32),
    StableHlo.binary main_cst_23 main_v179 main_v180 (mulf : (⟨S_, .f32⟩ : BufTy).Contents (Elt F) → (⟨S_, .f32⟩ : BufTy).Contents (Elt F) → (⟨S_, .f32⟩ : BufTy).Contents (Elt F)),
    StableHlo.unary main_v180 main_v181 (Host.cos : (⟨S_, .f32⟩ : BufTy).Contents (Elt F) → (⟨S_, .f32⟩ : BufTy).Contents (Elt F)),
    StableHlo.nullary main_cst_24 (constant S_ .f32 0x3F000000#32),
    StableHlo.binary main_cst_24 main_v179 main_v182 (mulf : (⟨S_, .f32⟩ : BufTy).Contents (Elt F) → (⟨S_, .f32⟩ : BufTy).Contents (Elt F) → (⟨S_, .f32⟩ : BufTy).Contents (Elt F)),
    StableHlo.unary main_v182 main_v183 (Host.sin : (⟨S_, .f32⟩ : BufTy).Contents (Elt F) → (⟨S_, .f32⟩ : BufTy).Contents (Elt F)),
    StableHlo.nullary main_c_25 (constantI S_ 32 0#32),
    StableHlo.TRef.nullary (.of main_call16_c : StableHlo.TRef sig ⟨S_, .i32⟩) (constantI S_ 32 0#32),
    StableHlo.TRef.binary (.of main_c_25 : StableHlo.TRef sig ⟨S_, .i32⟩) (.of main_call16_c : StableHlo.TRef sig ⟨S_, .i32⟩) (.of main_call16_v0 : StableHlo.TRef sig ⟨S_, .i1⟩) (cmpi .slt),
    StableHlo.TRef.nullary (.of main_call16_c_0 : StableHlo.TRef sig ⟨S_, .i32⟩) (constantI S_ 32 2#32),
    StableHlo.TRef.binary (.of main_c_25 : StableHlo.TRef sig ⟨S_, .i32⟩) (.of main_call16_c_0 : StableHlo.TRef sig ⟨S_, .i32⟩) (.of main_call16_v1 : StableHlo.TRef sig ⟨S_, .i32⟩) addi,
    StableHlo.TRef.ternary (.of main_call16_v0 : StableHlo.TRef sig ⟨S_, .i1⟩) (.of main_call16_v1 : StableHlo.TRef sig ⟨S_, .i32⟩) (.of main_c_25 : StableHlo.TRef sig ⟨S_, .i32⟩) (.of main_call16_v2 : StableHlo.TRef sig ⟨S_, .i32⟩) select,
    StableHlo.TRef.unary (.of main_call16_v2 : StableHlo.TRef sig ⟨S_, .i32⟩) (.of main_call16_v3 : StableHlo.TRef sig ⟨S1, .i32⟩) (broadcastInDim S1 ![] bcast_S_S1),
    StableHlo.TRef.nullary (.of main_call16_c_1 : StableHlo.TRef sig ⟨S1, .i32⟩) (constantI S1 32 1#32),
    StableHlo.TRef.unary (.of main_call16_v3 : StableHlo.TRef sig ⟨S1, .i32⟩) (.of main_call16_v4 : StableHlo.TRef sig ⟨S1, .i32⟩) id,
    StableHlo.TRef.nullary (.of main_call16_c_2 : StableHlo.TRef sig ⟨S_, .i32⟩) (constantI S_ 32 0#32),
    StableHlo.TRef.unary (.of main_call16_c_2 : StableHlo.TRef sig ⟨S_, .i32⟩) (.of main_call16_v5 : StableHlo.TRef sig ⟨S1, .i32⟩) (broadcastInDim S1 ![] bcast_S_S1),
    StableHlo.TRef.binary (.of main_call16_v4 : StableHlo.TRef sig ⟨S1, .i32⟩) (.of main_call16_v5 : StableHlo.TRef sig ⟨S1, .i32⟩) (.of main_call16_v6 : StableHlo.TRef sig ⟨S1, .i1⟩) (cmpi .sge),
    StableHlo.TRef.binary (.of main_call16_v4 : StableHlo.TRef sig ⟨S1, .i32⟩) (.of main_call16_c_1 : StableHlo.TRef sig ⟨S1, .i32⟩) (.of main_call16_v7 : StableHlo.TRef sig ⟨S1, .i1⟩) (cmpi .sle),
    StableHlo.TRef.binary (.of main_call16_v6 : StableHlo.TRef sig ⟨S1, .i1⟩) (.of main_call16_v7 : StableHlo.TRef sig ⟨S1, .i1⟩) (.of main_call16_v8 : StableHlo.TRef sig ⟨S1, .i1⟩) andi,
    StableHlo.TRef.nullary (.of main_call16_c_3 : StableHlo.TRef sig ⟨S_, .i1⟩) (constantI S_ 1 1#1),
    StableHlo.TRef.binary (.of main_call16_v8 : StableHlo.TRef sig ⟨S1, .i1⟩) (.of main_call16_c_3 : StableHlo.TRef sig ⟨S_, .i1⟩) (.of main_call16_v9 : StableHlo.TRef sig ⟨S_, .i1⟩) (fun x v => Host.reduce IntOp.andi x v reducesTo_S1_S_d0 h_S_),
    StableHlo.TRef.binary (.of main_v177 : StableHlo.TRef sig ⟨S16384x2x2x2x2x2x2x2x2, .f32⟩) (.of main_call16_v4 : StableHlo.TRef sig ⟨S1, .i32⟩) (.of main_call16_v10 : StableHlo.TRef sig ⟨S16384x2x2x2x2x2x2x2, .f32⟩) (fun x i => Host.gather gather_S16384x2x2x2x2x2x2x2x2_S1_S16384x2x2x2x2x2x2x2_01234567_2_n_n_2_0_1638421222222 x i),
    StableHlo.TRef.unary (.of main_call16_v9 : StableHlo.TRef sig ⟨S_, .i1⟩) (.of main_call16_v11 : StableHlo.TRef sig ⟨S16384x2x2x2x2x2x2x2, .i1⟩) (broadcastInDim S16384x2x2x2x2x2x2x2 ![] bcast_S_S16384x2x2x2x2x2x2x2),
    StableHlo.TRef.nullary (.of main_call16_cst : StableHlo.TRef sig ⟨S_, .f32⟩) (constant S_ .f32 0x7FC00000#32),
    StableHlo.TRef.unary (.of main_call16_cst : StableHlo.TRef sig ⟨S_, .f32⟩) (.of main_call16_v12 : StableHlo.TRef sig ⟨S16384x2x2x2x2x2x2x2, .f32⟩) (broadcastInDim S16384x2x2x2x2x2x2x2 ![] bcast_S_S16384x2x2x2x2x2x2x2),
    StableHlo.TRef.ternary (.of main_call16_v11 : StableHlo.TRef sig ⟨S16384x2x2x2x2x2x2x2, .i1⟩) (.of main_call16_v10 : StableHlo.TRef sig ⟨S16384x2x2x2x2x2x2x2, .f32⟩) (.of main_call16_v12 : StableHlo.TRef sig ⟨S16384x2x2x2x2x2x2x2, .f32⟩) (.of main_v184 : StableHlo.TRef sig ⟨S16384x2x2x2x2x2x2x2, .f32⟩) select,
    StableHlo.nullary main_c_26 (constantI S_ 32 1#32),
    StableHlo.TRef.nullary (.of main_call17_c : StableHlo.TRef sig ⟨S_, .i32⟩) (constantI S_ 32 0#32),
    StableHlo.TRef.binary (.of main_c_26 : StableHlo.TRef sig ⟨S_, .i32⟩) (.of main_call17_c : StableHlo.TRef sig ⟨S_, .i32⟩) (.of main_call17_v0 : StableHlo.TRef sig ⟨S_, .i1⟩) (cmpi .slt),
    StableHlo.TRef.nullary (.of main_call17_c_0 : StableHlo.TRef sig ⟨S_, .i32⟩) (constantI S_ 32 2#32),
    StableHlo.TRef.binary (.of main_c_26 : StableHlo.TRef sig ⟨S_, .i32⟩) (.of main_call17_c_0 : StableHlo.TRef sig ⟨S_, .i32⟩) (.of main_call17_v1 : StableHlo.TRef sig ⟨S_, .i32⟩) addi,
    StableHlo.TRef.ternary (.of main_call17_v0 : StableHlo.TRef sig ⟨S_, .i1⟩) (.of main_call17_v1 : StableHlo.TRef sig ⟨S_, .i32⟩) (.of main_c_26 : StableHlo.TRef sig ⟨S_, .i32⟩) (.of main_call17_v2 : StableHlo.TRef sig ⟨S_, .i32⟩) select,
    StableHlo.TRef.unary (.of main_call17_v2 : StableHlo.TRef sig ⟨S_, .i32⟩) (.of main_call17_v3 : StableHlo.TRef sig ⟨S1, .i32⟩) (broadcastInDim S1 ![] bcast_S_S1),
    StableHlo.TRef.nullary (.of main_call17_c_1 : StableHlo.TRef sig ⟨S1, .i32⟩) (constantI S1 32 1#32),
    StableHlo.TRef.unary (.of main_call17_v3 : StableHlo.TRef sig ⟨S1, .i32⟩) (.of main_call17_v4 : StableHlo.TRef sig ⟨S1, .i32⟩) id,
    StableHlo.TRef.nullary (.of main_call17_c_2 : StableHlo.TRef sig ⟨S_, .i32⟩) (constantI S_ 32 0#32),
    StableHlo.TRef.unary (.of main_call17_c_2 : StableHlo.TRef sig ⟨S_, .i32⟩) (.of main_call17_v5 : StableHlo.TRef sig ⟨S1, .i32⟩) (broadcastInDim S1 ![] bcast_S_S1),
    StableHlo.TRef.binary (.of main_call17_v4 : StableHlo.TRef sig ⟨S1, .i32⟩) (.of main_call17_v5 : StableHlo.TRef sig ⟨S1, .i32⟩) (.of main_call17_v6 : StableHlo.TRef sig ⟨S1, .i1⟩) (cmpi .sge),
    StableHlo.TRef.binary (.of main_call17_v4 : StableHlo.TRef sig ⟨S1, .i32⟩) (.of main_call17_c_1 : StableHlo.TRef sig ⟨S1, .i32⟩) (.of main_call17_v7 : StableHlo.TRef sig ⟨S1, .i1⟩) (cmpi .sle),
    StableHlo.TRef.binary (.of main_call17_v6 : StableHlo.TRef sig ⟨S1, .i1⟩) (.of main_call17_v7 : StableHlo.TRef sig ⟨S1, .i1⟩) (.of main_call17_v8 : StableHlo.TRef sig ⟨S1, .i1⟩) andi,
    StableHlo.TRef.nullary (.of main_call17_c_3 : StableHlo.TRef sig ⟨S_, .i1⟩) (constantI S_ 1 1#1),
    StableHlo.TRef.binary (.of main_call17_v8 : StableHlo.TRef sig ⟨S1, .i1⟩) (.of main_call17_c_3 : StableHlo.TRef sig ⟨S_, .i1⟩) (.of main_call17_v9 : StableHlo.TRef sig ⟨S_, .i1⟩) (fun x v => Host.reduce IntOp.andi x v reducesTo_S1_S_d0 h_S_),
    StableHlo.TRef.binary (.of main_v177 : StableHlo.TRef sig ⟨S16384x2x2x2x2x2x2x2x2, .f32⟩) (.of main_call17_v4 : StableHlo.TRef sig ⟨S1, .i32⟩) (.of main_call17_v10 : StableHlo.TRef sig ⟨S16384x2x2x2x2x2x2x2, .f32⟩) (fun x i => Host.gather gather_S16384x2x2x2x2x2x2x2x2_S1_S16384x2x2x2x2x2x2x2_01234567_2_n_n_2_0_1638421222222 x i),
    StableHlo.TRef.unary (.of main_call17_v9 : StableHlo.TRef sig ⟨S_, .i1⟩) (.of main_call17_v11 : StableHlo.TRef sig ⟨S16384x2x2x2x2x2x2x2, .i1⟩) (broadcastInDim S16384x2x2x2x2x2x2x2 ![] bcast_S_S16384x2x2x2x2x2x2x2),
    StableHlo.TRef.nullary (.of main_call17_cst : StableHlo.TRef sig ⟨S_, .f32⟩) (constant S_ .f32 0x7FC00000#32),
    StableHlo.TRef.unary (.of main_call17_cst : StableHlo.TRef sig ⟨S_, .f32⟩) (.of main_call17_v12 : StableHlo.TRef sig ⟨S16384x2x2x2x2x2x2x2, .f32⟩) (broadcastInDim S16384x2x2x2x2x2x2x2 ![] bcast_S_S16384x2x2x2x2x2x2x2),
    StableHlo.TRef.ternary (.of main_call17_v11 : StableHlo.TRef sig ⟨S16384x2x2x2x2x2x2x2, .i1⟩) (.of main_call17_v10 : StableHlo.TRef sig ⟨S16384x2x2x2x2x2x2x2, .f32⟩) (.of main_call17_v12 : StableHlo.TRef sig ⟨S16384x2x2x2x2x2x2x2, .f32⟩) (.of main_v185 : StableHlo.TRef sig ⟨S16384x2x2x2x2x2x2x2, .f32⟩) select,
    StableHlo.unary main_v181 main_v186 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v186 main_v184 main_v187 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v183 main_v188 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v188 main_v185 main_v189 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.binary main_v187 main_v189 main_v190 (subf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v183 main_v191 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v191 main_v184 main_v192 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v181 main_v193 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v193 main_v185 main_v194 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.binary main_v192 main_v194 main_v195 (addf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v190 main_v196 (broadcastInDim S16384x2x1x2x2x2x2x2x2 ![0, 1, 3, 4, 5, 6, 7, 8] bcast_S16384x2x2x2x2x2x2x2_S16384x2x1x2x2x2x2x2x2_0_1_3_4_5_6_7_8 : (⟨S16384x2x2x2x2x2x2x2, .f32⟩ : BufTy).Contents (Elt F) → (⟨S16384x2x1x2x2x2x2x2x2, .f32⟩ : BufTy).Contents (Elt F)),
    StableHlo.unary main_v195 main_v197 (broadcastInDim S16384x2x1x2x2x2x2x2x2 ![0, 1, 3, 4, 5, 6, 7, 8] bcast_S16384x2x2x2x2x2x2x2_S16384x2x1x2x2x2x2x2x2_0_1_3_4_5_6_7_8 : (⟨S16384x2x2x2x2x2x2x2, .f32⟩ : BufTy).Contents (Elt F) → (⟨S16384x2x1x2x2x2x2x2x2, .f32⟩ : BufTy).Contents (Elt F)),
    StableHlo.binary main_v196 main_v197 main_v198 ((fun a b => concatenate S16384x2x2x2x2x2x2x2x2 2 [⟨S16384x2x1x2x2x2x2x2x2, a⟩, ⟨S16384x2x1x2x2x2x2x2x2, b⟩] concatenates_S16384x2x1x2x2x2x2x2x2_S16384x2x1x2x2x2x2x2x2_S16384x2x2x2x2x2x2x2x2_d2) : (⟨S16384x2x1x2x2x2x2x2x2, .f32⟩ : BufTy).Contents (Elt F) → (⟨S16384x2x1x2x2x2x2x2x2, .f32⟩ : BufTy).Contents (Elt F) → (⟨S16384x2x2x2x2x2x2x2x2, .f32⟩ : BufTy).Contents (Elt F)) ]

end Lists

-- the layout operations stay folded while the fold of the host operations is opened
attribute [local irreducible] Host.gather Host.reduce concatenate broadcastInDim Host.reverse shapeCast extractStridedSlice

set_option maxHeartbeats 1600000 in
theorem gate1 (W : Valuation τ sig (Elt Ideal)) :
    after (G1 (F := Ideal)) W (main_v81 : DevRef τ sig)
      = Cert.TTN.Gates.ryTerm (s := S16384x2x2x2x2x2x2x2x2) (t := S16384x2x2x2x2x2x2x2) (u := S16384x2x1x2x2x2x2x2x2) 2 ![0, 1, 3, 4, 5, 6, 7, 8] gather_S16384x2x2x2x2x2x2x2x2_S1_S16384x2x2x2x2x2x2x2_01234567_2_n_n_2_0_1638421222222 bcast_S_S1 bcast_S_S16384x2x2x2x2x2x2x2 reducesTo_S1_S_d0 h_S_ bcast_S16384x2x2x2x2x2x2x2_S16384x2x1x2x2x2x2x2x2_0_1_3_4_5_6_7_8 concatenates_S16384x2x1x2x2x2x2x2x2_S16384x2x1x2x2x2x2x2x2_S16384x2x2x2x2x2x2x2x2_d2
        (W (main_v60 : DevRef τ sig)) (shapeCast S_ (extractStridedSlice S1 ![0] (W (main_arg3 : DevRef τ sig)) slices_S21_S1_0) shapeCasts_S1_S_) := by
  simp only [after_cons, after_nil]
  rfl

set_option maxHeartbeats 1600000 in
theorem gate1_arg3 (W : Valuation τ sig (Elt Ideal)) :
    after (G1 (F := Ideal)) W (main_arg3 : DevRef τ sig) = W (main_arg3 : DevRef τ sig) := by
  simp only [after_cons, after_nil]
  rfl

set_option maxHeartbeats 1600000 in
theorem gate2 (W : Valuation τ sig (Elt Ideal)) :
    after (G2 (F := Ideal)) W (main_v102 : DevRef τ sig)
      = Cert.TTN.Gates.ryTerm (s := S16384x2x2x2x2x2x2x2x2) (t := S16384x2x2x2x2x2x2x2) (u := S16384x2x2x1x2x2x2x2x2) 3 ![0, 1, 2, 4, 5, 6, 7, 8] gather_S16384x2x2x2x2x2x2x2x2_S1_S16384x2x2x2x2x2x2x2_01234567_3_n_n_3_0_1638422122222 bcast_S_S1 bcast_S_S16384x2x2x2x2x2x2x2 reducesTo_S1_S_d0 h_S_ bcast_S16384x2x2x2x2x2x2x2_S16384x2x2x1x2x2x2x2x2_0_1_2_4_5_6_7_8 concatenates_S16384x2x2x1x2x2x2x2x2_S16384x2x2x1x2x2x2x2x2_S16384x2x2x2x2x2x2x2x2_d3
        (W (main_v81 : DevRef τ sig)) (shapeCast S_ (extractStridedSlice S1 ![1] (W (main_arg3 : DevRef τ sig)) slices_S21_S1_1) shapeCasts_S1_S_) := by
  simp only [after_cons, after_nil]
  rfl

set_option maxHeartbeats 1600000 in
theorem gate2_arg3 (W : Valuation τ sig (Elt Ideal)) :
    after (G2 (F := Ideal)) W (main_arg3 : DevRef τ sig) = W (main_arg3 : DevRef τ sig) := by
  simp only [after_cons, after_nil]
  rfl

set_option maxHeartbeats 1600000 in
theorem gate3 (W : Valuation τ sig (Elt Ideal)) :
    after (G3 (F := Ideal)) W (main_v108 : DevRef τ sig)
      = Cert.TTN.Gates.cxTerm (s := S16384x2x2x2x2x2x2x2x2) (t := S16384x2x2x2x2x2x2x2) (u := S16384x2x1x2x2x2x2x2x2) 2 2 ![0, 1, 3, 4, 5, 6, 7, 8] gather_S16384x2x2x2x2x2x2x2x2_S1_S16384x2x2x2x2x2x2x2_01234567_2_n_n_2_0_1638421222222 bcast_S_S1 bcast_S_S16384x2x2x2x2x2x2x2 reducesTo_S1_S_d0 h_S_ bcast_S16384x2x2x2x2x2x2x2_S16384x2x1x2x2x2x2x2x2_0_1_3_4_5_6_7_8 concatenates_S16384x2x1x2x2x2x2x2x2_S16384x2x1x2x2x2x2x2x2_S16384x2x2x2x2x2x2x2x2_d2
        (W (main_v102 : DevRef τ sig)) := by
  simp only [after_cons, after_nil]
  rfl

set_option maxHeartbeats 1600000 in
theorem gate3_arg3 (W : Valuation τ sig (Elt Ideal)) :
    after (G3 (F := Ideal)) W (main_arg3 : DevRef τ sig) = W (main_arg3 : DevRef τ sig) := by
  simp only [after_cons, after_nil]
  rfl

set_option maxHeartbeats 1600000 in
theorem gate4 (W : Valuation τ sig (Elt Ideal)) :
    after (G4 (F := Ideal)) W (main_v129 : DevRef τ sig)
      = Cert.TTN.Gates.ryTerm (s := S16384x2x2x2x2x2x2x2x2) (t := S16384x2x2x2x2x2x2x2) (u := S16384x2x2x2x2x2x1x2x2) 6 ![0, 1, 2, 3, 4, 5, 7, 8] gather_S16384x2x2x2x2x2x2x2x2_S1_S16384x2x2x2x2x2x2x2_01234567_6_n_n_6_0_1638422222122 bcast_S_S1 bcast_S_S16384x2x2x2x2x2x2x2 reducesTo_S1_S_d0 h_S_ bcast_S16384x2x2x2x2x2x2x2_S16384x2x2x2x2x2x1x2x2_0_1_2_3_4_5_7_8 concatenates_S16384x2x2x2x2x2x1x2x2_S16384x2x2x2x2x2x1x2x2_S16384x2x2x2x2x2x2x2x2_d6
        (W (main_v108 : DevRef τ sig)) (shapeCast S_ (extractStridedSlice S1 ![2] (W (main_arg3 : DevRef τ sig)) slices_S21_S1_2) shapeCasts_S1_S_) := by
  simp only [after_cons, after_nil]
  rfl

set_option maxHeartbeats 1600000 in
theorem gate4_arg3 (W : Valuation τ sig (Elt Ideal)) :
    after (G4 (F := Ideal)) W (main_arg3 : DevRef τ sig) = W (main_arg3 : DevRef τ sig) := by
  simp only [after_cons, after_nil]
  rfl

set_option maxHeartbeats 1600000 in
theorem gate5 (W : Valuation τ sig (Elt Ideal)) :
    after (G5 (F := Ideal)) W (main_v150 : DevRef τ sig)
      = Cert.TTN.Gates.ryTerm (s := S16384x2x2x2x2x2x2x2x2) (t := S16384x2x2x2x2x2x2x2) (u := S16384x2x2x2x2x2x2x1x2) 7 ![0, 1, 2, 3, 4, 5, 6, 8] gather_S16384x2x2x2x2x2x2x2x2_S1_S16384x2x2x2x2x2x2x2_01234567_7_n_n_7_0_1638422222212 bcast_S_S1 bcast_S_S16384x2x2x2x2x2x2x2 reducesTo_S1_S_d0 h_S_ bcast_S16384x2x2x2x2x2x2x2_S16384x2x2x2x2x2x2x1x2_0_1_2_3_4_5_6_8 concatenates_S16384x2x2x2x2x2x2x1x2_S16384x2x2x2x2x2x2x1x2_S16384x2x2x2x2x2x2x2x2_d7
        (W (main_v129 : DevRef τ sig)) (shapeCast S_ (extractStridedSlice S1 ![3] (W (main_arg3 : DevRef τ sig)) slices_S21_S1_3) shapeCasts_S1_S_) := by
  simp only [after_cons, after_nil]
  rfl

set_option maxHeartbeats 1600000 in
theorem gate5_arg3 (W : Valuation τ sig (Elt Ideal)) :
    after (G5 (F := Ideal)) W (main_arg3 : DevRef τ sig) = W (main_arg3 : DevRef τ sig) := by
  simp only [after_cons, after_nil]
  rfl

set_option maxHeartbeats 1600000 in
theorem gate6 (W : Valuation τ sig (Elt Ideal)) :
    after (G6 (F := Ideal)) W (main_v156 : DevRef τ sig)
      = Cert.TTN.Gates.cxTerm (s := S16384x2x2x2x2x2x2x2x2) (t := S16384x2x2x2x2x2x2x2) (u := S16384x2x2x2x2x2x2x1x2) 7 6 ![0, 1, 2, 3, 4, 5, 6, 8] gather_S16384x2x2x2x2x2x2x2x2_S1_S16384x2x2x2x2x2x2x2_01234567_7_n_n_7_0_1638422222212 bcast_S_S1 bcast_S_S16384x2x2x2x2x2x2x2 reducesTo_S1_S_d0 h_S_ bcast_S16384x2x2x2x2x2x2x2_S16384x2x2x2x2x2x2x1x2_0_1_2_3_4_5_6_8 concatenates_S16384x2x2x2x2x2x2x1x2_S16384x2x2x2x2x2x2x1x2_S16384x2x2x2x2x2x2x2x2_d7
        (W (main_v150 : DevRef τ sig)) := by
  simp only [after_cons, after_nil]
  rfl

set_option maxHeartbeats 1600000 in
theorem gate6_arg3 (W : Valuation τ sig (Elt Ideal)) :
    after (G6 (F := Ideal)) W (main_arg3 : DevRef τ sig) = W (main_arg3 : DevRef τ sig) := by
  simp only [after_cons, after_nil]
  rfl

set_option maxHeartbeats 1600000 in
theorem gate7 (W : Valuation τ sig (Elt Ideal)) :
    after (G7 (F := Ideal)) W (main_v177 : DevRef τ sig)
      = Cert.TTN.Gates.ryTerm (s := S16384x2x2x2x2x2x2x2x2) (t := S16384x2x2x2x2x2x2x2) (u := S16384x1x2x2x2x2x2x2x2) 1 ![0, 2, 3, 4, 5, 6, 7, 8] gather_S16384x2x2x2x2x2x2x2x2_S1_S16384x2x2x2x2x2x2x2_01234567_1_n_n_1_0_1638412222222 bcast_S_S1 bcast_S_S16384x2x2x2x2x2x2x2 reducesTo_S1_S_d0 h_S_ bcast_S16384x2x2x2x2x2x2x2_S16384x1x2x2x2x2x2x2x2_0_2_3_4_5_6_7_8 concatenates_S16384x1x2x2x2x2x2x2x2_S16384x1x2x2x2x2x2x2x2_S16384x2x2x2x2x2x2x2x2_d1
        (W (main_v156 : DevRef τ sig)) (shapeCast S_ (extractStridedSlice S1 ![4] (W (main_arg3 : DevRef τ sig)) slices_S21_S1_4) shapeCasts_S1_S_) := by
  simp only [after_cons, after_nil]
  rfl

set_option maxHeartbeats 1600000 in
theorem gate7_arg3 (W : Valuation τ sig (Elt Ideal)) :
    after (G7 (F := Ideal)) W (main_arg3 : DevRef τ sig) = W (main_arg3 : DevRef τ sig) := by
  simp only [after_cons, after_nil]
  rfl

set_option maxHeartbeats 1600000 in
theorem gate8 (W : Valuation τ sig (Elt Ideal)) :
    after (G8 (F := Ideal)) W (main_v198 : DevRef τ sig)
      = Cert.TTN.Gates.ryTerm (s := S16384x2x2x2x2x2x2x2x2) (t := S16384x2x2x2x2x2x2x2) (u := S16384x2x1x2x2x2x2x2x2) 2 ![0, 1, 3, 4, 5, 6, 7, 8] gather_S16384x2x2x2x2x2x2x2x2_S1_S16384x2x2x2x2x2x2x2_01234567_2_n_n_2_0_1638421222222 bcast_S_S1 bcast_S_S16384x2x2x2x2x2x2x2 reducesTo_S1_S_d0 h_S_ bcast_S16384x2x2x2x2x2x2x2_S16384x2x1x2x2x2x2x2x2_0_1_3_4_5_6_7_8 concatenates_S16384x2x1x2x2x2x2x2x2_S16384x2x1x2x2x2x2x2x2_S16384x2x2x2x2x2x2x2x2_d2
        (W (main_v177 : DevRef τ sig)) (shapeCast S_ (extractStridedSlice S1 ![5] (W (main_arg3 : DevRef τ sig)) slices_S21_S1_5) shapeCasts_S1_S_) := by
  simp only [after_cons, after_nil]
  rfl

set_option maxHeartbeats 1600000 in
theorem gate8_arg3 (W : Valuation τ sig (Elt Ideal)) :
    after (G8 (F := Ideal)) W (main_arg3 : DevRef τ sig) = W (main_arg3 : DevRef τ sig) := by
  simp only [after_cons, after_nil]
  rfl

end Cert.TTN.RHost

end
-- ==== Proof.RHostG2.lean ====
/-
  Gates 9, 10, 11, 12, 13, 14, 15, 16 of the circuit as the host part of the reference runs them on the 16384 edge registers:
  for each gate, the stretch of host operations that computes it, and the fact that, from any buffer contents, the
  stretch leaves in the gate's result buffer the gate's term of the previous state (and of the parameter vector),
  and leaves the parameter vector alone.
-/
import proofs.«130987_j14276471292017_1_alg».proof.ReferenceIdeal
import proofs.«130987_j14276471292017_1_alg».proof.Proof.Gen.ReferenceIdeal
import proofs.«130987_j14276471292017_1_alg».proof.Proof.Gates
import Idealize.ShloMosaic.Lib.StableHlo.Run

set_option maxRecDepth 16384

noncomputable section

namespace Cert.TTN.RHost

open Idealize.ShloMosaic Idealize.ShloMosaic.TcCoe Idealize.SL.Sem Idealize.ShloMosaic.StableHlo
open Cert.ReferenceIdeal Cert.ReferenceIdeal.Gen

section Lists
variable {F : FTy → Type} [FloatOps F]

/-- The host operations of gate 9 (a controlled flip, axis 1). -/
abbrev G9 : List (HloOp τ sig (Elt F)) :=
  [ StableHlo.nullary main_c_27 (constantI S_ 32 0#32),
    StableHlo.TRef.nullary (.of main_call18_c : StableHlo.TRef sig ⟨S_, .i32⟩) (constantI S_ 32 0#32),
    StableHlo.TRef.binary (.of main_c_27 : StableHlo.TRef sig ⟨S_, .i32⟩) (.of main_call18_c : StableHlo.TRef sig ⟨S_, .i32⟩) (.of main_call18_v0 : StableHlo.TRef sig ⟨S_, .i1⟩) (cmpi .slt),
    StableHlo.TRef.nullary (.of main_call18_c_0 : StableHlo.TRef sig ⟨S_, .i32⟩) (constantI S_ 32 2#32),
    StableHlo.TRef.binary (.of main_c_27 : StableHlo.TRef sig ⟨S_, .i32⟩) (.of main_call18_c_0 : StableHlo.TRef sig ⟨S_, .i32⟩) (.of main_call18_v1 : StableHlo.TRef sig ⟨S_, .i32⟩) addi,
    StableHlo.TRef.ternary (.of main_call18_v0 : StableHlo.TRef sig ⟨S_, .i1⟩) (.of main_call18_v1 : StableHlo.TRef sig ⟨S_, .i32⟩) (.of main_c_27 : StableHlo.TRef sig ⟨S_, .i32⟩) (.of main_call18_v2 : StableHlo.TRef sig ⟨S_, .i32⟩) select,
    StableHlo.TRef.unary (.of main_call18_v2 : StableHlo.TRef sig ⟨S_, .i32⟩) (.of main_call18_v3 : StableHlo.TRef sig ⟨S1, .i32⟩) (broadcastInDim S1 ![] bcast_S_S1),
    StableHlo.TRef.nullary (.of main_call18_c_1 : StableHlo.TRef sig ⟨S1, .i32⟩) (constantI S1 32 1#32),
    StableHlo.TRef.unary (.of main_call18_v3 : StableHlo.TRef sig ⟨S1, .i32⟩) (.of main_call18_v4 : StableHlo.TRef sig ⟨S1, .i32⟩) id,
    StableHlo.TRef.nullary (.of main_call18_c_2 : StableHlo.TRef sig ⟨S_, .i32⟩) (constantI S_ 32 0#32),
    StableHlo.TRef.unary (.of main_call18_c_2 : StableHlo.TRef sig ⟨S_, .i32⟩) (.of main_call18_v5 : StableHlo.TRef sig ⟨S1, .i32⟩) (broadcastInDim S1 ![] bcast_S_S1),
    StableHlo.TRef.binary (.of main_call18_v4 : StableHlo.TRef sig ⟨S1, .i32⟩) (.of main_call18_v5 : StableHlo.TRef sig ⟨S1, .i32⟩) (.of main_call18_v6 : StableHlo.TRef sig ⟨S1, .i1⟩) (cmpi .sge),
    StableHlo.TRef.binary (.of main_call18_v4 : StableHlo.TRef sig ⟨S1, .i32⟩) (.of main_call18_c_1 : StableHlo.TRef sig ⟨S1, .i32⟩) (.of main_call18_v7 : StableHlo.TRef sig ⟨S1, .i1⟩) (cmpi .sle),
    StableHlo.TRef.binary (.of main_call18_v6 : StableHlo.TRef sig ⟨S1, .i1⟩) (.of main_call18_v7 : StableHlo.TRef sig ⟨S1, .i1⟩) (.of main_call18_v8 : StableHlo.TRef sig ⟨S1, .i1⟩) andi,
    StableHlo.TRef.nullary (.of main_call18_c_3 : StableHlo.TRef sig ⟨S_, .i1⟩) (constantI S_ 1 1#1),
    StableHlo.TRef.binary (.of main_call18_v8 : StableHlo.TRef sig ⟨S1, .i1⟩) (.of main_call18_c_3 : StableHlo.TRef sig ⟨S_, .i1⟩) (.of main_call18_v9 : StableHlo.TRef sig ⟨S_, .i1⟩) (fun x v => Host.reduce IntOp.andi x v reducesTo_S1_S_d0 h_S_),
    StableHlo.TRef.binary (.of main_v198 : StableHlo.TRef sig ⟨S16384x2x2x2x2x2x2x2x2, .f32⟩) (.of main_call18_v4 : StableHlo.TRef sig ⟨S1, .i32⟩) (.of main_call18_v10 : StableHlo.TRef sig ⟨S16384x2x2x2x2x2x2x2, .f32⟩) (fun x i => Host.gather gather_S16384x2x2x2x2x2x2x2x2_S1_S16384x2x2x2x2x2x2x2_01234567_1_n_n_1_0_1638412222222 x i),
    StableHlo.TRef.unary (.of main_call18_v9 : StableHlo.TRef sig ⟨S_, .i1⟩) (.of main_call18_v11 : StableHlo.TRef sig ⟨S16384x2x2x2x2x2x2x2, .i1⟩) (broadcastInDim S16384x2x2x2x2x2x2x2 ![] bcast_S_S16384x2x2x2x2x2x2x2),
    StableHlo.TRef.nullary (.of main_call18_cst : StableHlo.TRef sig ⟨S_, .f32⟩) (constant S_ .f32 0x7FC00000#32),
    StableHlo.TRef.unary (.of main_call18_cst : StableHlo.TRef sig ⟨S_, .f32⟩) (.of main_call18_v12 : StableHlo.TRef sig ⟨S16384x2x2x2x2x2x2x2, .f32⟩) (broadcastInDim S16384x2x2x2x2x2x2x2 ![] bcast_S_S16384x2x2x2x2x2x2x2),
    StableHlo.TRef.ternary (.of main_call18_v11 : StableHlo.TRef sig ⟨S16384x2x2x2x2x2x2x2, .i1⟩) (.of main_call18_v10 : StableHlo.TRef sig ⟨S16384x2x2x2x2x2x2x2, .f32⟩) (.of main_call18_v12 : StableHlo.TRef sig ⟨S16384x2x2x2x2x2x2x2, .f32⟩) (.of main_v199 : StableHlo.TRef sig ⟨S16384x2x2x2x2x2x2x2, .f32⟩) select,
    StableHlo.nullary main_c_28 (constantI S_ 32 1#32),
    StableHlo.TRef.nullary (.of main_call19_c : StableHlo.TRef sig ⟨S_, .i32⟩) (constantI S_ 32 0#32),
    StableHlo.TRef.binary (.of main_c_28 : StableHlo.TRef sig ⟨S_, .i32⟩) (.of main_call19_c : StableHlo.TRef sig ⟨S_, .i32⟩) (.of main_call19_v0 : StableHlo.TRef sig ⟨S_, .i1⟩) (cmpi .slt),
    StableHlo.TRef.nullary (.of main_call19_c_0 : StableHlo.TRef sig ⟨S_, .i32⟩) (constantI S_ 32 2#32),
    StableHlo.TRef.binary (.of main_c_28 : StableHlo.TRef sig ⟨S_, .i32⟩) (.of main_call19_c_0 : StableHlo.TRef sig ⟨S_, .i32⟩) (.of main_call19_v1 : StableHlo.TRef sig ⟨S_, .i32⟩) addi,
    StableHlo.TRef.ternary (.of main_call19_v0 : StableHlo.TRef sig ⟨S_, .i1⟩) (.of main_call19_v1 : StableHlo.TRef sig ⟨S_, .i32⟩) (.of main_c_28 : StableHlo.TRef sig ⟨S_, .i32⟩) (.of main_call19_v2 : StableHlo.TRef sig ⟨S_, .i32⟩) select,
    StableHlo.TRef.unary (.of main_call19_v2 : StableHlo.TRef sig ⟨S_, .i32⟩) (.of main_call19_v3 : StableHlo.TRef sig ⟨S1, .i32⟩) (broadcastInDim S1 ![] bcast_S_S1),
    StableHlo.TRef.nullary (.of main_call19_c_1 : StableHlo.TRef sig ⟨S1, .i32⟩) (constantI S1 32 1#32),
    StableHlo.TRef.unary (.of main_call19_v3 : StableHlo.TRef sig ⟨S1, .i32⟩) (.of main_call19_v4 : StableHlo.TRef sig ⟨S1, .i32⟩) id,
    StableHlo.TRef.nullary (.of main_call19_c_2 : StableHlo.TRef sig ⟨S_, .i32⟩) (constantI S_ 32 0#32),
    StableHlo.TRef.unary (.of main_call19_c_2 : StableHlo.TRef sig ⟨S_, .i32⟩) (.of main_call19_v5 : StableHlo.TRef sig ⟨S1, .i32⟩) (broadcastInDim S1 ![] bcast_S_S1),
    StableHlo.TRef.binary (.of main_call19_v4 : StableHlo.TRef sig ⟨S1, .i32⟩) (.of main_call19_v5 : StableHlo.TRef sig ⟨S1, .i32⟩) (.of main_call19_v6 : StableHlo.TRef sig ⟨S1, .i1⟩) (cmpi .sge),
    StableHlo.TRef.binary (.of main_call19_v4 : StableHlo.TRef sig ⟨S1, .i32⟩) (.of main_call19_c_1 : StableHlo.TRef sig ⟨S1, .i32⟩) (.of main_call19_v7 : StableHlo.TRef sig ⟨S1, .i1⟩) (cmpi .sle),
    StableHlo.TRef.binary (.of main_call19_v6 : StableHlo.TRef sig ⟨S1, .i1⟩) (.of main_call19_v7 : StableHlo.TRef sig ⟨S1, .i1⟩) (.of main_call19_v8 : StableHlo.TRef sig ⟨S1, .i1⟩) andi,
    StableHlo.TRef.nullary (.of main_call19_c_3 : StableHlo.TRef sig ⟨S_, .i1⟩) (constantI S_ 1 1#1),
    StableHlo.TRef.binary (.of main_call19_v8 : StableHlo.TRef sig ⟨S1, .i1⟩) (.of main_call19_c_3 : StableHlo.TRef sig ⟨S_, .i1⟩) (.of main_call19_v9 : StableHlo.TRef sig ⟨S_, .i1⟩) (fun x v => Host.reduce IntOp.andi x v reducesTo_S1_S_d0 h_S_),
    StableHlo.TRef.binary (.of main_v198 : StableHlo.TRef sig ⟨S16384x2x2x2x2x2x2x2x2, .f32⟩) (.of main_call19_v4 : StableHlo.TRef sig ⟨S1, .i32⟩) (.of main_call19_v10 : StableHlo.TRef sig ⟨S16384x2x2x2x2x2x2x2, .f32⟩) (fun x i => Host.gather gather_S16384x2x2x2x2x2x2x2x2_S1_S16384x2x2x2x2x2x2x2_01234567_1_n_n_1_0_1638412222222 x i),
    StableHlo.TRef.unary (.of main_call19_v9 : StableHlo.TRef sig ⟨S_, .i1⟩) (.of main_call19_v11 : StableHlo.TRef sig ⟨S16384x2x2x2x2x2x2x2, .i1⟩) (broadcastInDim S16384x2x2x2x2x2x2x2 ![] bcast_S_S16384x2x2x2x2x2x2x2),
    StableHlo.TRef.nullary (.of main_call19_cst : StableHlo.TRef sig ⟨S_, .f32⟩) (constant S_ .f32 0x7FC00000#32),
    StableHlo.TRef.unary (.of main_call19_cst : StableHlo.TRef sig ⟨S_, .f32⟩) (.of main_call19_v12 : StableHlo.TRef sig ⟨S16384x2x2x2x2x2x2x2, .f32⟩) (broadcastInDim S16384x2x2x2x2x2x2x2 ![] bcast_S_S16384x2x2x2x2x2x2x2),
    StableHlo.TRef.ternary (.of main_call19_v11 : StableHlo.TRef sig ⟨S16384x2x2x2x2x2x2x2, .i1⟩) (.of main_call19_v10 : StableHlo.TRef sig ⟨S16384x2x2x2x2x2x2x2, .f32⟩) (.of main_call19_v12 : StableHlo.TRef sig ⟨S16384x2x2x2x2x2x2x2, .f32⟩) (.of main_v200 : StableHlo.TRef sig ⟨S16384x2x2x2x2x2x2x2, .f32⟩) select,
    StableHlo.TRef.unary (.of main_v200 : StableHlo.TRef sig ⟨S16384x2x2x2x2x2x2x2, .f32⟩) (.of main_v201 : StableHlo.TRef sig ⟨S16384x2x2x2x2x2x2x2, .f32⟩) (Host.reverse [1]),
    StableHlo.unary main_v199 main_v202 (broadcastInDim S16384x1x2x2x2x2x2x2x2 ![0, 2, 3, 4, 5, 6, 7, 8] bcast_S16384x2x2x2x2x2x2x2_S16384x1x2x2x2x2x2x2x2_0_2_3_4_5_6_7_8 : (⟨S16384x2x2x2x2x2x2x2, .f32⟩ : BufTy).Contents (Elt F) → (⟨S16384x1x2x2x2x2x2x2x2, .f32⟩ : BufTy).Contents (Elt F)),
    StableHlo.unary main_v201 main_v203 (broadcastInDim S16384x1x2x2x2x2x2x2x2 ![0, 2, 3, 4, 5, 6, 7, 8] bcast_S16384x2x2x2x2x2x2x2_S16384x1x2x2x2x2x2x2x2_0_2_3_4_5_6_7_8 : (⟨S16384x2x2x2x2x2x2x2, .f32⟩ : BufTy).Contents (Elt F) → (⟨S16384x1x2x2x2x2x2x2x2, .f32⟩ : BufTy).Contents (Elt F)),
    StableHlo.binary main_v202 main_v203 main_v204 ((fun a b => concatenate S16384x2x2x2x2x2x2x2x2 1 [⟨S16384x1x2x2x2x2x2x2x2, a⟩, ⟨S16384x1x2x2x2x2x2x2x2, b⟩] concatenates_S16384x1x2x2x2x2x2x2x2_S16384x1x2x2x2x2x2x2x2_S16384x2x2x2x2x2x2x2x2_d1) : (⟨S16384x1x2x2x2x2x2x2x2, .f32⟩ : BufTy).Contents (Elt F) → (⟨S16384x1x2x2x2x2x2x2x2, .f32⟩ : BufTy).Contents (Elt F) → (⟨S16384x2x2x2x2x2x2x2x2, .f32⟩ : BufTy).Contents (Elt F)) ]

/-- The host operations of gate 10 (a rotation, parameter 6, axis 3). -/
abbrev G10 : List (HloOp τ sig (Elt F)) :=
  [ StableHlo.unary main_arg3 main_v205 ((extractStridedSlice S1 ![6] · slices_S21_S1_6) : (⟨S21, .f32⟩ : BufTy).Contents (Elt F) → (⟨S1, .f32⟩ : BufTy).Contents (Elt F)),
    StableHlo.reshape main_v205 main_v206 rfl shapeCasts_S1_S_,
    StableHlo.nullary main_cst_29 (constant S_ .f32 0x3F000000#32),
    StableHlo.binary main_cst_29 main_v206 main_v207 (mulf : (⟨S_, .f32⟩ : BufTy).Contents (Elt F) → (⟨S_, .f32⟩ : BufTy).Contents (Elt F) → (⟨S_, .f32⟩ : BufTy).Contents (Elt F)),
    StableHlo.unary main_v207 main_v208 (Host.cos : (⟨S_, .f32⟩ : BufTy).Contents (Elt F) → (⟨S_, .f32⟩ : BufTy).Contents (Elt F)),
    StableHlo.nullary main_cst_30 (constant S_ .f32 0x3F000000#32),
    StableHlo.binary main_cst_30 main_v206 main_v209 (mulf : (⟨S_, .f32⟩ : BufTy).Contents (Elt F) → (⟨S_, .f32⟩ : BufTy).Contents (Elt F) → (⟨S_, .f32⟩ : BufTy).Contents (Elt F)),
    StableHlo.unary main_v209 main_v210 (Host.sin : (⟨S_, .f32⟩ : BufTy).Contents (Elt F) → (⟨S_, .f32⟩ : BufTy).Contents (Elt F)),
    StableHlo.nullary main_c_31 (constantI S_ 32 0#32),
    StableHlo.TRef.nullary (.of main_call21_c : StableHlo.TRef sig ⟨S_, .i32⟩) (constantI S_ 32 0#32),
    StableHlo.TRef.binary (.of main_c_31 : StableHlo.TRef sig ⟨S_, .i32⟩) (.of main_call21_c : StableHlo.TRef sig ⟨S_, .i32⟩) (.of main_call21_v0 : StableHlo.TRef sig ⟨S_, .i1⟩) (cmpi .slt),
    StableHlo.TRef.nullary (.of main_call21_c_0 : StableHlo.TRef sig ⟨S_, .i32⟩) (constantI S_ 32 2#32),
    StableHlo.TRef.binary (.of main_c_31 : StableHlo.TRef sig ⟨S_, .i32⟩) (.of main_call21_c_0 : StableHlo.TRef sig ⟨S_, .i32⟩) (.of main_call21_v1 : StableHlo.TRef sig ⟨S_, .i32⟩) addi,
    StableHlo.TRef.ternary (.of main_call21_v0 : StableHlo.TRef sig ⟨S_, .i1⟩) (.of main_call21_v1 : StableHlo.TRef sig ⟨S_, .i32⟩) (.of main_c_31 : StableHlo.TRef sig ⟨S_, .i32⟩) (.of main_call21_v2 : StableHlo.TRef sig ⟨S_, .i32⟩) select,
    StableHlo.TRef.unary (.of main_call21_v2 : StableHlo.TRef sig ⟨S_, .i32⟩) (.of main_call21_v3 : StableHlo.TRef sig ⟨S1, .i32⟩) (broadcastInDim S1 ![] bcast_S_S1),
    StableHlo.TRef.nullary (.of main_call21_c_1 : StableHlo.TRef sig ⟨S1, .i32⟩) (constantI S1 32 1#32),
    StableHlo.TRef.unary (.of main_call21_v3 : StableHlo.TRef sig ⟨S1, .i32⟩) (.of main_call21_v4 : StableHlo.TRef sig ⟨S1, .i32⟩) id,
    StableHlo.TRef.nullary (.of main_call21_c_2 : StableHlo.TRef sig ⟨S_, .i32⟩) (constantI S_ 32 0#32),
    StableHlo.TRef.unary (.of main_call21_c_2 : StableHlo.TRef sig ⟨S_, .i32⟩) (.of main_call21_v5 : StableHlo.TRef sig ⟨S1, .i32⟩) (broadcastInDim S1 ![] bcast_S_S1),
    StableHlo.TRef.binary (.of main_call21_v4 : StableHlo.TRef sig ⟨S1, .i32⟩) (.of main_call21_v5 : StableHlo.TRef sig ⟨S1, .i32⟩) (.of main_call21_v6 : StableHlo.TRef sig ⟨S1, .i1⟩) (cmpi .sge),
    StableHlo.TRef.binary (.of main_call21_v4 : StableHlo.TRef sig ⟨S1, .i32⟩) (.of main_call21_c_1 : StableHlo.TRef sig ⟨S1, .i32⟩) (.of main_call21_v7 : StableHlo.TRef sig ⟨S1, .i1⟩) (cmpi .sle),
    StableHlo.TRef.binary (.of main_call21_v6 : StableHlo.TRef sig ⟨S1, .i1⟩) (.of main_call21_v7 : StableHlo.TRef sig ⟨S1, .i1⟩) (.of main_call21_v8 : StableHlo.TRef sig ⟨S1, .i1⟩) andi,
    StableHlo.TRef.nullary (.of main_call21_c_3 : StableHlo.TRef sig ⟨S_, .i1⟩) (constantI S_ 1 1#1),
    StableHlo.TRef.binary (.of main_call21_v8 : StableHlo.TRef sig ⟨S1, .i1⟩) (.of main_call21_c_3 : StableHlo.TRef sig ⟨S_, .i1⟩) (.of main_call21_v9 : StableHlo.TRef sig ⟨S_, .i1⟩) (fun x v => Host.reduce IntOp.andi x v reducesTo_S1_S_d0 h_S_),
    StableHlo.TRef.binary (.of main_v204 : StableHlo.TRef sig ⟨S16384x2x2x2x2x2x2x2x2, .f32⟩) (.of main_call21_v4 : StableHlo.TRef sig ⟨S1, .i32⟩) (.of main_call21_v10 : StableHlo.TRef sig ⟨S16384x2x2x2x2x2x2x2, .f32⟩) (fun x i => Host.gather gather_S16384x2x2x2x2x2x2x2x2_S1_S16384x2x2x2x2x2x2x2_01234567_3_n_n_3_0_1638422122222 x i),
    StableHlo.TRef.unary (.of main_call21_v9 : StableHlo.TRef sig ⟨S_, .i1⟩) (.of main_call21_v11 : StableHlo.TRef sig ⟨S16384x2x2x2x2x2x2x2, .i1⟩) (broadcastInDim S16384x2x2x2x2x2x2x2 ![] bcast_S_S16384x2x2x2x2x2x2x2),
    StableHlo.TRef.nullary (.of main_call21_cst : StableHlo.TRef sig ⟨S_, .f32⟩) (constant S_ .f32 0x7FC00000#32),
    StableHlo.TRef.unary (.of main_call21_cst : StableHlo.TRef sig ⟨S_, .f32⟩) (.of main_call21_v12 : StableHlo.TRef sig ⟨S16384x2x2x2x2x2x2x2, .f32⟩) (broadcastInDim S16384x2x2x2x2x2x2x2 ![] bcast_S_S16384x2x2x2x2x2x2x2),
    StableHlo.TRef.ternary (.of main_call21_v11 : StableHlo.TRef sig ⟨S16384x2x2x2x2x2x2x2, .i1⟩) (.of main_call21_v10 : StableHlo.TRef sig ⟨S16384x2x2x2x2x2x2x2, .f32⟩) (.of main_call21_v12 : StableHlo.TRef sig ⟨S16384x2x2x2x2x2x2x2, .f32⟩) (.of main_v211 : StableHlo.TRef sig ⟨S16384x2x2x2x2x2x2x2, .f32⟩) select,
    StableHlo.nullary main_c_32 (constantI S_ 32 1#32),
    StableHlo.TRef.nullary (.of main_call22_c : StableHlo.TRef sig ⟨S_, .i32⟩) (constantI S_ 32 0#32),
    StableHlo.TRef.binary (.of main_c_32 : StableHlo.TRef sig ⟨S_, .i32⟩) (.of main_call22_c : StableHlo.TRef sig ⟨S_, .i32⟩) (.of main_call22_v0 : StableHlo.TRef sig ⟨S_, .i1⟩) (cmpi .slt),
    StableHlo.TRef.nullary (.of main_call22_c_0 : StableHlo.TRef sig ⟨S_, .i32⟩) (constantI S_ 32 2#32),
    StableHlo.TRef.binary (.of main_c_32 : StableHlo.TRef sig ⟨S_, .i32⟩) (.of main_call22_c_0 : StableHlo.TRef sig ⟨S_, .i32⟩) (.of main_call22_v1 : StableHlo.TRef sig ⟨S_, .i32⟩) addi,
    StableHlo.TRef.ternary (.of main_call22_v0 : StableHlo.TRef sig ⟨S_, .i1⟩) (.of main_call22_v1 : StableHlo.TRef sig ⟨S_, .i32⟩) (.of main_c_32 : StableHlo.TRef sig ⟨S_, .i32⟩) (.of main_call22_v2 : StableHlo.TRef sig ⟨S_, .i32⟩) select,
    StableHlo.TRef.unary (.of main_call22_v2 : StableHlo.TRef sig ⟨S_, .i32⟩) (.of main_call22_v3 : StableHlo.TRef sig ⟨S1, .i32⟩) (broadcastInDim S1 ![] bcast_S_S1),
    StableHlo.TRef.nullary (.of main_call22_c_1 : StableHlo.TRef sig ⟨S1, .i32⟩) (constantI S1 32 1#32),
    StableHlo.TRef.unary (.of main_call22_v3 : StableHlo.TRef sig ⟨S1, .i32⟩) (.of main_call22_v4 : StableHlo.TRef sig ⟨S1, .i32⟩) id,
    StableHlo.TRef.nullary (.of main_call22_c_2 : StableHlo.TRef sig ⟨S_, .i32⟩) (constantI S_ 32 0#32),
    StableHlo.TRef.unary (.of main_call22_c_2 : StableHlo.TRef sig ⟨S_, .i32⟩) (.of main_call22_v5 : StableHlo.TRef sig ⟨S1, .i32⟩) (broadcastInDim S1 ![] bcast_S_S1),
    StableHlo.TRef.binary (.of main_call22_v4 : StableHlo.TRef sig ⟨S1, .i32⟩) (.of main_call22_v5 : StableHlo.TRef sig ⟨S1, .i32⟩) (.of main_call22_v6 : StableHlo.TRef sig ⟨S1, .i1⟩) (cmpi .sge),
    StableHlo.TRef.binary (.of main_call22_v4 : StableHlo.TRef sig ⟨S1, .i32⟩) (.of main_call22_c_1 : StableHlo.TRef sig ⟨S1, .i32⟩) (.of main_call22_v7 : StableHlo.TRef sig ⟨S1, .i1⟩) (cmpi .sle),
    StableHlo.TRef.binary (.of main_call22_v6 : StableHlo.TRef sig ⟨S1, .i1⟩) (.of main_call22_v7 : StableHlo.TRef sig ⟨S1, .i1⟩) (.of main_call22_v8 : StableHlo.TRef sig ⟨S1, .i1⟩) andi,
    StableHlo.TRef.nullary (.of main_call22_c_3 : StableHlo.TRef sig ⟨S_, .i1⟩) (constantI S_ 1 1#1),
    StableHlo.TRef.binary (.of main_call22_v8 : StableHlo.TRef sig ⟨S1, .i1⟩) (.of main_call22_c_3 : StableHlo.TRef sig ⟨S_, .i1⟩) (.of main_call22_v9 : StableHlo.TRef sig ⟨S_, .i1⟩) (fun x v => Host.reduce IntOp.andi x v reducesTo_S1_S_d0 h_S_),
    StableHlo.TRef.binary (.of main_v204 : StableHlo.TRef sig ⟨S16384x2x2x2x2x2x2x2x2, .f32⟩) (.of main_call22_v4 : StableHlo.TRef sig ⟨S1, .i32⟩) (.of main_call22_v10 : StableHlo.TRef sig ⟨S16384x2x2x2x2x2x2x2, .f32⟩) (fun x i => Host.gather gather_S16384x2x2x2x2x2x2x2x2_S1_S16384x2x2x2x2x2x2x2_01234567_3_n_n_3_0_1638422122222 x i),
    StableHlo.TRef.unary (.of main_call22_v9 : StableHlo.TRef sig ⟨S_, .i1⟩) (.of main_call22_v11 : StableHlo.TRef sig ⟨S16384x2x2x2x2x2x2x2, .i1⟩) (broadcastInDim S16384x2x2x2x2x2x2x2 ![] bcast_S_S16384x2x2x2x2x2x2x2),
    StableHlo.TRef.nullary (.of main_call22_cst : StableHlo.TRef sig ⟨S_, .f32⟩) (constant S_ .f32 0x7FC00000#32),
    StableHlo.TRef.unary (.of main_call22_cst : StableHlo.TRef sig ⟨S_, .f32⟩) (.of main_call22_v12 : StableHlo.TRef sig ⟨S16384x2x2x2x2x2x2x2, .f32⟩) (broadcastInDim S16384x2x2x2x2x2x2x2 ![] bcast_S_S16384x2x2x2x2x2x2x2),
    StableHlo.TRef.ternary (.of main_call22_v11 : StableHlo.TRef sig ⟨S16384x2x2x2x2x2x2x2, .i1⟩) (.of main_call22_v10 : StableHlo.TRef sig ⟨S16384x2x2x2x2x2x2x2, .f32⟩) (.of main_call22_v12 : StableHlo.TRef sig ⟨S16384x2x2x2x2x2x2x2, .f32⟩) (.of main_v212 : StableHlo.TRef sig ⟨S16384x2x2x2x2x2x2x2, .f32⟩) select,
    StableHlo.unary main_v208 main_v213 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v213 main_v211 main_v214 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v210 main_v215 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v215 main_v212 main_v216 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.binary main_v214 main_v216 main_v217 (subf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v210 main_v218 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v218 main_v211 main_v219 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v208 main_v220 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v220 main_v212 main_v221 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.binary main_v219 main_v221 main_v222 (addf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v217 main_v223 (broadcastInDim S16384x2x2x1x2x2x2x2x2 ![0, 1, 2, 4, 5, 6, 7, 8] bcast_S16384x2x2x2x2x2x2x2_S16384x2x2x1x2x2x2x2x2_0_1_2_4_5_6_7_8 : (⟨S16384x2x2x2x2x2x2x2, .f32⟩ : BufTy).Contents (Elt F) → (⟨S16384x2x2x1x2x2x2x2x2, .f32⟩ : BufTy).Contents (Elt F)),
    StableHlo.unary main_v222 main_v224 (broadcastInDim S16384x2x2x1x2x2x2x2x2 ![0, 1, 2, 4, 5, 6, 7, 8] bcast_S16384x2x2x2x2x2x2x2_S16384x2x2x1x2x2x2x2x2_0_1_2_4_5_6_7_8 : (⟨S16384x2x2x2x2x2x2x2, .f32⟩ : BufTy).Contents (Elt F) → (⟨S16384x2x2x1x2x2x2x2x2, .f32⟩ : BufTy).Contents (Elt F)),
    StableHlo.binary main_v223 main_v224 main_v225 ((fun a b => concatenate S16384x2x2x2x2x2x2x2x2 3 [⟨S16384x2x2x1x2x2x2x2x2, a⟩, ⟨S16384x2x2x1x2x2x2x2x2, b⟩] concatenates_S16384x2x2x1x2x2x2x2x2_S16384x2x2x1x2x2x2x2x2_S16384x2x2x2x2x2x2x2x2_d3) : (⟨S16384x2x2x1x2x2x2x2x2, .f32⟩ : BufTy).Contents (Elt F) → (⟨S16384x2x2x1x2x2x2x2x2, .f32⟩ : BufTy).Contents (Elt F) → (⟨S16384x2x2x2x2x2x2x2x2, .f32⟩ : BufTy).Contents (Elt F)) ]

/-- The host operations of gate 11 (a rotation, parameter 7, axis 4). -/
abbrev G11 : List (HloOp τ sig (Elt F)) :=
  [ StableHlo.unary main_arg3 main_v226 ((extractStridedSlice S1 ![7] · slices_S21_S1_7) : (⟨S21, .f32⟩ : BufTy).Contents (Elt F) → (⟨S1, .f32⟩ : BufTy).Contents (Elt F)),
    StableHlo.reshape main_v226 main_v227 rfl shapeCasts_S1_S_,
    StableHlo.nullary main_cst_33 (constant S_ .f32 0x3F000000#32),
    StableHlo.binary main_cst_33 main_v227 main_v228 (mulf : (⟨S_, .f32⟩ : BufTy).Contents (Elt F) → (⟨S_, .f32⟩ : BufTy).Contents (Elt F) → (⟨S_, .f32⟩ : BufTy).Contents (Elt F)),
    StableHlo.unary main_v228 main_v229 (Host.cos : (⟨S_, .f32⟩ : BufTy).Contents (Elt F) → (⟨S_, .f32⟩ : BufTy).Contents (Elt F)),
    StableHlo.nullary main_cst_34 (constant S_ .f32 0x3F000000#32),
    StableHlo.binary main_cst_34 main_v227 main_v230 (mulf : (⟨S_, .f32⟩ : BufTy).Contents (Elt F) → (⟨S_, .f32⟩ : BufTy).Contents (Elt F) → (⟨S_, .f32⟩ : BufTy).Contents (Elt F)),
    StableHlo.unary main_v230 main_v231 (Host.sin : (⟨S_, .f32⟩ : BufTy).Contents (Elt F) → (⟨S_, .f32⟩ : BufTy).Contents (Elt F)),
    StableHlo.nullary main_c_35 (constantI S_ 32 0#32),
    StableHlo.TRef.nullary (.of main_call23_c : StableHlo.TRef sig ⟨S_, .i32⟩) (constantI S_ 32 0#32),
    StableHlo.TRef.binary (.of main_c_35 : StableHlo.TRef sig ⟨S_, .i32⟩) (.of main_call23_c : StableHlo.TRef sig ⟨S_, .i32⟩) (.of main_call23_v0 : StableHlo.TRef sig ⟨S_, .i1⟩) (cmpi .slt),
    StableHlo.TRef.nullary (.of main_call23_c_0 : StableHlo.TRef sig ⟨S_, .i32⟩) (constantI S_ 32 2#32),
    StableHlo.TRef.binary (.of main_c_35 : StableHlo.TRef sig ⟨S_, .i32⟩) (.of main_call23_c_0 : StableHlo.TRef sig ⟨S_, .i32⟩) (.of main_call23_v1 : StableHlo.TRef sig ⟨S_, .i32⟩) addi,
    StableHlo.TRef.ternary (.of main_call23_v0 : StableHlo.TRef sig ⟨S_, .i1⟩) (.of main_call23_v1 : StableHlo.TRef sig ⟨S_, .i32⟩) (.of main_c_35 : StableHlo.TRef sig ⟨S_, .i32⟩) (.of main_call23_v2 : StableHlo.TRef sig ⟨S_, .i32⟩) select,
    StableHlo.TRef.unary (.of main_call23_v2 : StableHlo.TRef sig ⟨S_, .i32⟩) (.of main_call23_v3 : StableHlo.TRef sig ⟨S1, .i32⟩) (broadcastInDim S1 ![] bcast_S_S1),
    StableHlo.TRef.nullary (.of main_call23_c_1 : StableHlo.TRef sig ⟨S1, .i32⟩) (constantI S1 32 1#32),
    StableHlo.TRef.unary (.of main_call23_v3 : StableHlo.TRef sig ⟨S1, .i32⟩) (.of main_call23_v4 : StableHlo.TRef sig ⟨S1, .i32⟩) id,
    StableHlo.TRef.nullary (.of main_call23_c_2 : StableHlo.TRef sig ⟨S_, .i32⟩) (constantI S_ 32 0#32),
    StableHlo.TRef.unary (.of main_call23_c_2 : StableHlo.TRef sig ⟨S_, .i32⟩) (.of main_call23_v5 : StableHlo.TRef sig ⟨S1, .i32⟩) (broadcastInDim S1 ![] bcast_S_S1),
    StableHlo.TRef.binary (.of main_call23_v4 : StableHlo.TRef sig ⟨S1, .i32⟩) (.of main_call23_v5 : StableHlo.TRef sig ⟨S1, .i32⟩) (.of main_call23_v6 : StableHlo.TRef sig ⟨S1, .i1⟩) (cmpi .sge),
    StableHlo.TRef.binary (.of main_call23_v4 : StableHlo.TRef sig ⟨S1, .i32⟩) (.of main_call23_c_1 : StableHlo.TRef sig ⟨S1, .i32⟩) (.of main_call23_v7 : StableHlo.TRef sig ⟨S1, .i1⟩) (cmpi .sle),
    StableHlo.TRef.binary (.of main_call23_v6 : StableHlo.TRef sig ⟨S1, .i1⟩) (.of main_call23_v7 : StableHlo.TRef sig ⟨S1, .i1⟩) (.of main_call23_v8 : StableHlo.TRef sig ⟨S1, .i1⟩) andi,
    StableHlo.TRef.nullary (.of main_call23_c_3 : StableHlo.TRef sig ⟨S_, .i1⟩) (constantI S_ 1 1#1),
    StableHlo.TRef.binary (.of main_call23_v8 : StableHlo.TRef sig ⟨S1, .i1⟩) (.of main_call23_c_3 : StableHlo.TRef sig ⟨S_, .i1⟩) (.of main_call23_v9 : StableHlo.TRef sig ⟨S_, .i1⟩) (fun x v => Host.reduce IntOp.andi x v reducesTo_S1_S_d0 h_S_),
    StableHlo.TRef.binary (.of main_v225 : StableHlo.TRef sig ⟨S16384x2x2x2x2x2x2x2x2, .f32⟩) (.of main_call23_v4 : StableHlo.TRef sig ⟨S1, .i32⟩) (.of main_call23_v10 : StableHlo.TRef sig ⟨S16384x2x2x2x2x2x2x2, .f32⟩) (fun x i => Host.gather gather_S16384x2x2x2x2x2x2x2x2_S1_S16384x2x2x2x2x2x2x2_01234567_4_n_n_4_0_1638422212222 x i),
    StableHlo.TRef.unary (.of main_call23_v9 : StableHlo.TRef sig ⟨S_, .i1⟩) (.of main_call23_v11 : StableHlo.TRef sig ⟨S16384x2x2x2x2x2x2x2, .i1⟩) (broadcastInDim S16384x2x2x2x2x2x2x2 ![] bcast_S_S16384x2x2x2x2x2x2x2),
    StableHlo.TRef.nullary (.of main_call23_cst : StableHlo.TRef sig ⟨S_, .f32⟩) (constant S_ .f32 0x7FC00000#32),
    StableHlo.TRef.unary (.of main_call23_cst : StableHlo.TRef sig ⟨S_, .f32⟩) (.of main_call23_v12 : StableHlo.TRef sig ⟨S16384x2x2x2x2x2x2x2, .f32⟩) (broadcastInDim S16384x2x2x2x2x2x2x2 ![] bcast_S_S16384x2x2x2x2x2x2x2),
    StableHlo.TRef.ternary (.of main_call23_v11 : StableHlo.TRef sig ⟨S16384x2x2x2x2x2x2x2, .i1⟩) (.of main_call23_v10 : StableHlo.TRef sig ⟨S16384x2x2x2x2x2x2x2, .f32⟩) (.of main_call23_v12 : StableHlo.TRef sig ⟨S16384x2x2x2x2x2x2x2, .f32⟩) (.of main_v232 : StableHlo.TRef sig ⟨S16384x2x2x2x2x2x2x2, .f32⟩) select,
    StableHlo.nullary main_c_36 (constantI S_ 32 1#32),
    StableHlo.TRef.nullary (.of main_call24_c : StableHlo.TRef sig ⟨S_, .i32⟩) (constantI S_ 32 0#32),
    StableHlo.TRef.binary (.of main_c_36 : StableHlo.TRef sig ⟨S_, .i32⟩) (.of main_call24_c : StableHlo.TRef sig ⟨S_, .i32⟩) (.of main_call24_v0 : StableHlo.TRef sig ⟨S_, .i1⟩) (cmpi .slt),
    StableHlo.TRef.nullary (.of main_call24_c_0 : StableHlo.TRef sig ⟨S_, .i32⟩) (constantI S_ 32 2#32),
    StableHlo.TRef.binary (.of main_c_36 : StableHlo.TRef sig ⟨S_, .i32⟩) (.of main_call24_c_0 : StableHlo.TRef sig ⟨S_, .i32⟩) (.of main_call24_v1 : StableHlo.TRef sig ⟨S_, .i32⟩) addi,
    StableHlo.TRef.ternary (.of main_call24_v0 : StableHlo.TRef sig ⟨S_, .i1⟩) (.of main_call24_v1 : StableHlo.TRef sig ⟨S_, .i32⟩) (.of main_c_36 : StableHlo.TRef sig ⟨S_, .i32⟩) (.of main_call24_v2 : StableHlo.TRef sig ⟨S_, .i32⟩) select,
    StableHlo.TRef.unary (.of main_call24_v2 : StableHlo.TRef sig ⟨S_, .i32⟩) (.of main_call24_v3 : StableHlo.TRef sig ⟨S1, .i32⟩) (broadcastInDim S1 ![] bcast_S_S1),
    StableHlo.TRef.nullary (.of main_call24_c_1 : StableHlo.TRef sig ⟨S1, .i32⟩) (constantI S1 32 1#32),
    StableHlo.TRef.unary (.of main_call24_v3 : StableHlo.TRef sig ⟨S1, .i32⟩) (.of main_call24_v4 : StableHlo.TRef sig ⟨S1, .i32⟩) id,
    StableHlo.TRef.nullary (.of main_call24_c_2 : StableHlo.TRef sig ⟨S_, .i32⟩) (constantI S_ 32 0#32),
    StableHlo.TRef.unary (.of main_call24_c_2 : StableHlo.TRef sig ⟨S_, .i32⟩) (.of main_call24_v5 : StableHlo.TRef sig ⟨S1, .i32⟩) (broadcastInDim S1 ![] bcast_S_S1),
    StableHlo.TRef.binary (.of main_call24_v4 : StableHlo.TRef sig ⟨S1, .i32⟩) (.of main_call24_v5 : StableHlo.TRef sig ⟨S1, .i32⟩) (.of main_call24_v6 : StableHlo.TRef sig ⟨S1, .i1⟩) (cmpi .sge),
    StableHlo.TRef.binary (.of main_call24_v4 : StableHlo.TRef sig ⟨S1, .i32⟩) (.of main_call24_c_1 : StableHlo.TRef sig ⟨S1, .i32⟩) (.of main_call24_v7 : StableHlo.TRef sig ⟨S1, .i1⟩) (cmpi .sle),
    StableHlo.TRef.binary (.of main_call24_v6 : StableHlo.TRef sig ⟨S1, .i1⟩) (.of main_call24_v7 : StableHlo.TRef sig ⟨S1, .i1⟩) (.of main_call24_v8 : StableHlo.TRef sig ⟨S1, .i1⟩) andi,
    StableHlo.TRef.nullary (.of main_call24_c_3 : StableHlo.TRef sig ⟨S_, .i1⟩) (constantI S_ 1 1#1),
    StableHlo.TRef.binary (.of main_call24_v8 : StableHlo.TRef sig ⟨S1, .i1⟩) (.of main_call24_c_3 : StableHlo.TRef sig ⟨S_, .i1⟩) (.of main_call24_v9 : StableHlo.TRef sig ⟨S_, .i1⟩) (fun x v => Host.reduce IntOp.andi x v reducesTo_S1_S_d0 h_S_),
    StableHlo.TRef.binary (.of main_v225 : StableHlo.TRef sig ⟨S16384x2x2x2x2x2x2x2x2, .f32⟩) (.of main_call24_v4 : StableHlo.TRef sig ⟨S1, .i32⟩) (.of main_call24_v10 : StableHlo.TRef sig ⟨S16384x2x2x2x2x2x2x2, .f32⟩) (fun x i => Host.gather gather_S16384x2x2x2x2x2x2x2x2_S1_S16384x2x2x2x2x2x2x2_01234567_4_n_n_4_0_1638422212222 x i),
    StableHlo.TRef.unary (.of main_call24_v9 : StableHlo.TRef sig ⟨S_, .i1⟩) (.of main_call24_v11 : StableHlo.TRef sig ⟨S16384x2x2x2x2x2x2x2, .i1⟩) (broadcastInDim S16384x2x2x2x2x2x2x2 ![] bcast_S_S16384x2x2x2x2x2x2x2),
    StableHlo.TRef.nullary (.of main_call24_cst : StableHlo.TRef sig ⟨S_, .f32⟩) (constant S_ .f32 0x7FC00000#32),
    StableHlo.TRef.unary (.of main_call24_cst : StableHlo.TRef sig ⟨S_, .f32⟩) (.of main_call24_v12 : StableHlo.TRef sig ⟨S16384x2x2x2x2x2x2x2, .f32⟩) (broadcastInDim S16384x2x2x2x2x2x2x2 ![] bcast_S_S16384x2x2x2x2x2x2x2),
    StableHlo.TRef.ternary (.of main_call24_v11 : StableHlo.TRef sig ⟨S16384x2x2x2x2x2x2x2, .i1⟩) (.of main_call24_v10 : StableHlo.TRef sig ⟨S16384x2x2x2x2x2x2x2, .f32⟩) (.of main_call24_v12 : StableHlo.TRef sig ⟨S16384x2x2x2x2x2x2x2, .f32⟩) (.of main_v233 : StableHlo.TRef sig ⟨S16384x2x2x2x2x2x2x2, .f32⟩) select,
    StableHlo.unary main_v229 main_v234 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v234 main_v232 main_v235 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v231 main_v236 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v236 main_v233 main_v237 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.binary main_v235 main_v237 main_v238 (subf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v231 main_v239 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v239 main_v232 main_v240 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v229 main_v241 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v241 main_v233 main_v242 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.binary main_v240 main_v242 main_v243 (addf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v238 main_v244 (broadcastInDim S16384x2x2x2x1x2x2x2x2 ![0, 1, 2, 3, 5, 6, 7, 8] bcast_S16384x2x2x2x2x2x2x2_S16384x2x2x2x1x2x2x2x2_0_1_2_3_5_6_7_8 : (⟨S16384x2x2x2x2x2x2x2, .f32⟩ : BufTy).Contents (Elt F) → (⟨S16384x2x2x2x1x2x2x2x2, .f32⟩ : BufTy).Contents (Elt F)),
    StableHlo.unary main_v243 main_v245 (broadcastInDim S16384x2x2x2x1x2x2x2x2 ![0, 1, 2, 3, 5, 6, 7, 8] bcast_S16384x2x2x2x2x2x2x2_S16384x2x2x2x1x2x2x2x2_0_1_2_3_5_6_7_8 : (⟨S16384x2x2x2x2x2x2x2, .f32⟩ : BufTy).Contents (Elt F) → (⟨S16384x2x2x2x1x2x2x2x2, .f32⟩ : BufTy).Contents (Elt F)),
    StableHlo.binary main_v244 main_v245 main_v246 ((fun a b => concatenate S16384x2x2x2x2x2x2x2x2 4 [⟨S16384x2x2x2x1x2x2x2x2, a⟩, ⟨S16384x2x2x2x1x2x2x2x2, b⟩] concatenates_S16384x2x2x2x1x2x2x2x2_S16384x2x2x2x1x2x2x2x2_S16384x2x2x2x2x2x2x2x2_d4) : (⟨S16384x2x2x2x1x2x2x2x2, .f32⟩ : BufTy).Contents (Elt F) → (⟨S16384x2x2x2x1x2x2x2x2, .f32⟩ : BufTy).Contents (Elt F) → (⟨S16384x2x2x2x2x2x2x2x2, .f32⟩ : BufTy).Contents (Elt F)) ]

/-- The host operations of gate 12 (a controlled flip, axis 4). -/
abbrev G12 : List (HloOp τ sig (Elt F)) :=
  [ StableHlo.nullary main_c_37 (constantI S_ 32 0#32),
    StableHlo.TRef.nullary (.of main_call25_c : StableHlo.TRef sig ⟨S_, .i32⟩) (constantI S_ 32 0#32),
    StableHlo.TRef.binary (.of main_c_37 : StableHlo.TRef sig ⟨S_, .i32⟩) (.of main_call25_c : StableHlo.TRef sig ⟨S_, .i32⟩) (.of main_call25_v0 : StableHlo.TRef sig ⟨S_, .i1⟩) (cmpi .slt),
    StableHlo.TRef.nullary (.of main_call25_c_0 : StableHlo.TRef sig ⟨S_, .i32⟩) (constantI S_ 32 2#32),
    StableHlo.TRef.binary (.of main_c_37 : StableHlo.TRef sig ⟨S_, .i32⟩) (.of main_call25_c_0 : StableHlo.TRef sig ⟨S_, .i32⟩) (.of main_call25_v1 : StableHlo.TRef sig ⟨S_, .i32⟩) addi,
    StableHlo.TRef.ternary (.of main_call25_v0 : StableHlo.TRef sig ⟨S_, .i1⟩) (.of main_call25_v1 : StableHlo.TRef sig ⟨S_, .i32⟩) (.of main_c_37 : StableHlo.TRef sig ⟨S_, .i32⟩) (.of main_call25_v2 : StableHlo.TRef sig ⟨S_, .i32⟩) select,
    StableHlo.TRef.unary (.of main_call25_v2 : StableHlo.TRef sig ⟨S_, .i32⟩) (.of main_call25_v3 : StableHlo.TRef sig ⟨S1, .i32⟩) (broadcastInDim S1 ![] bcast_S_S1),
    StableHlo.TRef.nullary (.of main_call25_c_1 : StableHlo.TRef sig ⟨S1, .i32⟩) (constantI S1 32 1#32),
    StableHlo.TRef.unary (.of main_call25_v3 : StableHlo.TRef sig ⟨S1, .i32⟩) (.of main_call25_v4 : StableHlo.TRef sig ⟨S1, .i32⟩) id,
    StableHlo.TRef.nullary (.of main_call25_c_2 : StableHlo.TRef sig ⟨S_, .i32⟩) (constantI S_ 32 0#32),
    StableHlo.TRef.unary (.of main_call25_c_2 : StableHlo.TRef sig ⟨S_, .i32⟩) (.of main_call25_v5 : StableHlo.TRef sig ⟨S1, .i32⟩) (broadcastInDim S1 ![] bcast_S_S1),
    StableHlo.TRef.binary (.of main_call25_v4 : StableHlo.TRef sig ⟨S1, .i32⟩) (.of main_call25_v5 : StableHlo.TRef sig ⟨S1, .i32⟩) (.of main_call25_v6 : StableHlo.TRef sig ⟨S1, .i1⟩) (cmpi .sge),
    StableHlo.TRef.binary (.of main_call25_v4 : StableHlo.TRef sig ⟨S1, .i32⟩) (.of main_call25_c_1 : StableHlo.TRef sig ⟨S1, .i32⟩) (.of main_call25_v7 : StableHlo.TRef sig ⟨S1, .i1⟩) (cmpi .sle),
    StableHlo.TRef.binary (.of main_call25_v6 : StableHlo.TRef sig ⟨S1, .i1⟩) (.of main_call25_v7 : StableHlo.TRef sig ⟨S1, .i1⟩) (.of main_call25_v8 : StableHlo.TRef sig ⟨S1, .i1⟩) andi,
    StableHlo.TRef.nullary (.of main_call25_c_3 : StableHlo.TRef sig ⟨S_, .i1⟩) (constantI S_ 1 1#1),
    StableHlo.TRef.binary (.of main_call25_v8 : StableHlo.TRef sig ⟨S1, .i1⟩) (.of main_call25_c_3 : StableHlo.TRef sig ⟨S_, .i1⟩) (.of main_call25_v9 : StableHlo.TRef sig ⟨S_, .i1⟩) (fun x v => Host.reduce IntOp.andi x v reducesTo_S1_S_d0 h_S_),
    StableHlo.TRef.binary (.of main_v246 : StableHlo.TRef sig ⟨S16384x2x2x2x2x2x2x2x2, .f32⟩) (.of main_call25_v4 : StableHlo.TRef sig ⟨S1, .i32⟩) (.of main_call25_v10 : StableHlo.TRef sig ⟨S16384x2x2x2x2x2x2x2, .f32⟩) (fun x i => Host.gather gather_S16384x2x2x2x2x2x2x2x2_S1_S16384x2x2x2x2x2x2x2_01234567_4_n_n_4_0_1638422212222 x i),
    StableHlo.TRef.unary (.of main_call25_v9 : StableHlo.TRef sig ⟨S_, .i1⟩) (.of main_call25_v11 : StableHlo.TRef sig ⟨S16384x2x2x2x2x2x2x2, .i1⟩) (broadcastInDim S16384x2x2x2x2x2x2x2 ![] bcast_S_S16384x2x2x2x2x2x2x2),
    StableHlo.TRef.nullary (.of main_call25_cst : StableHlo.TRef sig ⟨S_, .f32⟩) (constant S_ .f32 0x7FC00000#32),
    StableHlo.TRef.unary (.of main_call25_cst : StableHlo.TRef sig ⟨S_, .f32⟩) (.of main_call25_v12 : StableHlo.TRef sig ⟨S16384x2x2x2x2x2x2x2, .f32⟩) (broadcastInDim S16384x2x2x2x2x2x2x2 ![] bcast_S_S16384x2x2x2x2x2x2x2),
    StableHlo.TRef.ternary (.of main_call25_v11 : StableHlo.TRef sig ⟨S16384x2x2x2x2x2x2x2, .i1⟩) (.of main_call25_v10 : StableHlo.TRef sig ⟨S16384x2x2x2x2x2x2x2, .f32⟩) (.of main_call25_v12 : StableHlo.TRef sig ⟨S16384x2x2x2x2x2x2x2, .f32⟩) (.of main_v247 : StableHlo.TRef sig ⟨S16384x2x2x2x2x2x2x2, .f32⟩) select,
    StableHlo.nullary main_c_38 (constantI S_ 32 1#32),
    StableHlo.TRef.nullary (.of main_call26_c : StableHlo.TRef sig ⟨S_, .i32⟩) (constantI S_ 32 0#32),
    StableHlo.TRef.binary (.of main_c_38 : StableHlo.TRef sig ⟨S_, .i32⟩) (.of main_call26_c : StableHlo.TRef sig ⟨S_, .i32⟩) (.of main_call26_v0 : StableHlo.TRef sig ⟨S_, .i1⟩) (cmpi .slt),
    StableHlo.TRef.nullary (.of main_call26_c_0 : StableHlo.TRef sig ⟨S_, .i32⟩) (constantI S_ 32 2#32),
    StableHlo.TRef.binary (.of main_c_38 : StableHlo.TRef sig ⟨S_, .i32⟩) (.of main_call26_c_0 : StableHlo.TRef sig ⟨S_, .i32⟩) (.of main_call26_v1 : StableHlo.TRef sig ⟨S_, .i32⟩) addi,
    StableHlo.TRef.ternary (.of main_call26_v0 : StableHlo.TRef sig ⟨S_, .i1⟩) (.of main_call26_v1 : StableHlo.TRef sig ⟨S_, .i32⟩) (.of main_c_38 : StableHlo.TRef sig ⟨S_, .i32⟩) (.of main_call26_v2 : StableHlo.TRef sig ⟨S_, .i32⟩) select,
    StableHlo.TRef.unary (.of main_call26_v2 : StableHlo.TRef sig ⟨S_, .i32⟩) (.of main_call26_v3 : StableHlo.TRef sig ⟨S1, .i32⟩) (broadcastInDim S1 ![] bcast_S_S1),
    StableHlo.TRef.nullary (.of main_call26_c_1 : StableHlo.TRef sig ⟨S1, .i32⟩) (constantI S1 32 1#32),
    StableHlo.TRef.unary (.of main_call26_v3 : StableHlo.TRef sig ⟨S1, .i32⟩) (.of main_call26_v4 : StableHlo.TRef sig ⟨S1, .i32⟩) id,
    StableHlo.TRef.nullary (.of main_call26_c_2 : StableHlo.TRef sig ⟨S_, .i32⟩) (constantI S_ 32 0#32),
    StableHlo.TRef.unary (.of main_call26_c_2 : StableHlo.TRef sig ⟨S_, .i32⟩) (.of main_call26_v5 : StableHlo.TRef sig ⟨S1, .i32⟩) (broadcastInDim S1 ![] bcast_S_S1),
    StableHlo.TRef.binary (.of main_call26_v4 : StableHlo.TRef sig ⟨S1, .i32⟩) (.of main_call26_v5 : StableHlo.TRef sig ⟨S1, .i32⟩) (.of main_call26_v6 : StableHlo.TRef sig ⟨S1, .i1⟩) (cmpi .sge),
    StableHlo.TRef.binary (.of main_call26_v4 : StableHlo.TRef sig ⟨S1, .i32⟩) (.of main_call26_c_1 : StableHlo.TRef sig ⟨S1, .i32⟩) (.of main_call26_v7 : StableHlo.TRef sig ⟨S1, .i1⟩) (cmpi .sle),
    StableHlo.TRef.binary (.of main_call26_v6 : StableHlo.TRef sig ⟨S1, .i1⟩) (.of main_call26_v7 : StableHlo.TRef sig ⟨S1, .i1⟩) (.of main_call26_v8 : StableHlo.TRef sig ⟨S1, .i1⟩) andi,
    StableHlo.TRef.nullary (.of main_call26_c_3 : StableHlo.TRef sig ⟨S_, .i1⟩) (constantI S_ 1 1#1),
    StableHlo.TRef.binary (.of main_call26_v8 : StableHlo.TRef sig ⟨S1, .i1⟩) (.of main_call26_c_3 : StableHlo.TRef sig ⟨S_, .i1⟩) (.of main_call26_v9 : StableHlo.TRef sig ⟨S_, .i1⟩) (fun x v => Host.reduce IntOp.andi x v reducesTo_S1_S_d0 h_S_),
    StableHlo.TRef.binary (.of main_v246 : StableHlo.TRef sig ⟨S16384x2x2x2x2x2x2x2x2, .f32⟩) (.of main_call26_v4 : StableHlo.TRef sig ⟨S1, .i32⟩) (.of main_call26_v10 : StableHlo.TRef sig ⟨S16384x2x2x2x2x2x2x2, .f32⟩) (fun x i => Host.gather gather_S16384x2x2x2x2x2x2x2x2_S1_S16384x2x2x2x2x2x2x2_01234567_4_n_n_4_0_1638422212222 x i),
    StableHlo.TRef.unary (.of main_call26_v9 : StableHlo.TRef sig ⟨S_, .i1⟩) (.of main_call26_v11 : StableHlo.TRef sig ⟨S16384x2x2x2x2x2x2x2, .i1⟩) (broadcastInDim S16384x2x2x2x2x2x2x2 ![] bcast_S_S16384x2x2x2x2x2x2x2),
    StableHlo.TRef.nullary (.of main_call26_cst : StableHlo.TRef sig ⟨S_, .f32⟩) (constant S_ .f32 0x7FC00000#32),
    StableHlo.TRef.unary (.of main_call26_cst : StableHlo.TRef sig ⟨S_, .f32⟩) (.of main_call26_v12 : StableHlo.TRef sig ⟨S16384x2x2x2x2x2x2x2, .f32⟩) (broadcastInDim S16384x2x2x2x2x2x2x2 ![] bcast_S_S16384x2x2x2x2x2x2x2),
    StableHlo.TRef.ternary (.of main_call26_v11 : StableHlo.TRef sig ⟨S16384x2x2x2x2x2x2x2, .i1⟩) (.of main_call26_v10 : StableHlo.TRef sig ⟨S16384x2x2x2x2x2x2x2, .f32⟩) (.of main_call26_v12 : StableHlo.TRef sig ⟨S16384x2x2x2x2x2x2x2, .f32⟩) (.of main_v248 : StableHlo.TRef sig ⟨S16384x2x2x2x2x2x2x2, .f32⟩) select,
    StableHlo.TRef.unary (.of main_v248 : StableHlo.TRef sig ⟨S16384x2x2x2x2x2x2x2, .f32⟩) (.of main_v249 : StableHlo.TRef sig ⟨S16384x2x2x2x2x2x2x2, .f32⟩) (Host.reverse [3]),
    StableHlo.unary main_v247 main_v250 (broadcastInDim S16384x2x2x2x1x2x2x2x2 ![0, 1, 2, 3, 5, 6, 7, 8] bcast_S16384x2x2x2x2x2x2x2_S16384x2x2x2x1x2x2x2x2_0_1_2_3_5_6_7_8 : (⟨S16384x2x2x2x2x2x2x2, .f32⟩ : BufTy).Contents (Elt F) → (⟨S16384x2x2x2x1x2x2x2x2, .f32⟩ : BufTy).Contents (Elt F)),
    StableHlo.unary main_v249 main_v251 (broadcastInDim S16384x2x2x2x1x2x2x2x2 ![0, 1, 2, 3, 5, 6, 7, 8] bcast_S16384x2x2x2x2x2x2x2_S16384x2x2x2x1x2x2x2x2_0_1_2_3_5_6_7_8 : (⟨S16384x2x2x2x2x2x2x2, .f32⟩ : BufTy).Contents (Elt F) → (⟨S16384x2x2x2x1x2x2x2x2, .f32⟩ : BufTy).Contents (Elt F)),
    StableHlo.binary main_v250 main_v251 main_v252 ((fun a b => concatenate S16384x2x2x2x2x2x2x2x2 4 [⟨S16384x2x2x2x1x2x2x2x2, a⟩, ⟨S16384x2x2x2x1x2x2x2x2, b⟩] concatenates_S16384x2x2x2x1x2x2x2x2_S16384x2x2x2x1x2x2x2x2_S16384x2x2x2x2x2x2x2x2_d4) : (⟨S16384x2x2x2x1x2x2x2x2, .f32⟩ : BufTy).Contents (Elt F) → (⟨S16384x2x2x2x1x2x2x2x2, .f32⟩ : BufTy).Contents (Elt F) → (⟨S16384x2x2x2x2x2x2x2x2, .f32⟩ : BufTy).Contents (Elt F)) ]

/-- The host operations of gate 13 (a rotation, parameter 8, axis 5). -/
abbrev G13 : List (HloOp τ sig (Elt F)) :=
  [ StableHlo.unary main_arg3 main_v253 ((extractStridedSlice S1 ![8] · slices_S21_S1_8) : (⟨S21, .f32⟩ : BufTy).Contents (Elt F) → (⟨S1, .f32⟩ : BufTy).Contents (Elt F)),
    StableHlo.reshape main_v253 main_v254 rfl shapeCasts_S1_S_,
    StableHlo.nullary main_cst_39 (constant S_ .f32 0x3F000000#32),
    StableHlo.binary main_cst_39 main_v254 main_v255 (mulf : (⟨S_, .f32⟩ : BufTy).Contents (Elt F) → (⟨S_, .f32⟩ : BufTy).Contents (Elt F) → (⟨S_, .f32⟩ : BufTy).Contents (Elt F)),
    StableHlo.unary main_v255 main_v256 (Host.cos : (⟨S_, .f32⟩ : BufTy).Contents (Elt F) → (⟨S_, .f32⟩ : BufTy).Contents (Elt F)),
    StableHlo.nullary main_cst_40 (constant S_ .f32 0x3F000000#32),
    StableHlo.binary main_cst_40 main_v254 main_v257 (mulf : (⟨S_, .f32⟩ : BufTy).Contents (Elt F) → (⟨S_, .f32⟩ : BufTy).Contents (Elt F) → (⟨S_, .f32⟩ : BufTy).Contents (Elt F)),
    StableHlo.unary main_v257 main_v258 (Host.sin : (⟨S_, .f32⟩ : BufTy).Contents (Elt F) → (⟨S_, .f32⟩ : BufTy).Contents (Elt F)),
    StableHlo.nullary main_c_41 (constantI S_ 32 0#32),
    StableHlo.TRef.nullary (.of main_call28_c : StableHlo.TRef sig ⟨S_, .i32⟩) (constantI S_ 32 0#32),
    StableHlo.TRef.binary (.of main_c_41 : StableHlo.TRef sig ⟨S_, .i32⟩) (.of main_call28_c : StableHlo.TRef sig ⟨S_, .i32⟩) (.of main_call28_v0 : StableHlo.TRef sig ⟨S_, .i1⟩) (cmpi .slt),
    StableHlo.TRef.nullary (.of main_call28_c_0 : StableHlo.TRef sig ⟨S_, .i32⟩) (constantI S_ 32 2#32),
    StableHlo.TRef.binary (.of main_c_41 : StableHlo.TRef sig ⟨S_, .i32⟩) (.of main_call28_c_0 : StableHlo.TRef sig ⟨S_, .i32⟩) (.of main_call28_v1 : StableHlo.TRef sig ⟨S_, .i32⟩) addi,
    StableHlo.TRef.ternary (.of main_call28_v0 : StableHlo.TRef sig ⟨S_, .i1⟩) (.of main_call28_v1 : StableHlo.TRef sig ⟨S_, .i32⟩) (.of main_c_41 : StableHlo.TRef sig ⟨S_, .i32⟩) (.of main_call28_v2 : StableHlo.TRef sig ⟨S_, .i32⟩) select,
    StableHlo.TRef.unary (.of main_call28_v2 : StableHlo.TRef sig ⟨S_, .i32⟩) (.of main_call28_v3 : StableHlo.TRef sig ⟨S1, .i32⟩) (broadcastInDim S1 ![] bcast_S_S1),
    StableHlo.TRef.nullary (.of main_call28_c_1 : StableHlo.TRef sig ⟨S1, .i32⟩) (constantI S1 32 1#32),
    StableHlo.TRef.unary (.of main_call28_v3 : StableHlo.TRef sig ⟨S1, .i32⟩) (.of main_call28_v4 : StableHlo.TRef sig ⟨S1, .i32⟩) id,
    StableHlo.TRef.nullary (.of main_call28_c_2 : StableHlo.TRef sig ⟨S_, .i32⟩) (constantI S_ 32 0#32),
    StableHlo.TRef.unary (.of main_call28_c_2 : StableHlo.TRef sig ⟨S_, .i32⟩) (.of main_call28_v5 : StableHlo.TRef sig ⟨S1, .i32⟩) (broadcastInDim S1 ![] bcast_S_S1),
    StableHlo.TRef.binary (.of main_call28_v4 : StableHlo.TRef sig ⟨S1, .i32⟩) (.of main_call28_v5 : StableHlo.TRef sig ⟨S1, .i32⟩) (.of main_call28_v6 : StableHlo.TRef sig ⟨S1, .i1⟩) (cmpi .sge),
    StableHlo.TRef.binary (.of main_call28_v4 : StableHlo.TRef sig ⟨S1, .i32⟩) (.of main_call28_c_1 : StableHlo.TRef sig ⟨S1, .i32⟩) (.of main_call28_v7 : StableHlo.TRef sig ⟨S1, .i1⟩) (cmpi .sle),
    StableHlo.TRef.binary (.of main_call28_v6 : StableHlo.TRef sig ⟨S1, .i1⟩) (.of main_call28_v7 : StableHlo.TRef sig ⟨S1, .i1⟩) (.of main_call28_v8 : StableHlo.TRef sig ⟨S1, .i1⟩) andi,
    StableHlo.TRef.nullary (.of main_call28_c_3 : StableHlo.TRef sig ⟨S_, .i1⟩) (constantI S_ 1 1#1),
    StableHlo.TRef.binary (.of main_call28_v8 : StableHlo.TRef sig ⟨S1, .i1⟩) (.of main_call28_c_3 : StableHlo.TRef sig ⟨S_, .i1⟩) (.of main_call28_v9 : StableHlo.TRef sig ⟨S_, .i1⟩) (fun x v => Host.reduce IntOp.andi x v reducesTo_S1_S_d0 h_S_),
    StableHlo.TRef.binary (.of main_v252 : StableHlo.TRef sig ⟨S16384x2x2x2x2x2x2x2x2, .f32⟩) (.of main_call28_v4 : StableHlo.TRef sig ⟨S1, .i32⟩) (.of main_call28_v10 : StableHlo.TRef sig ⟨S16384x2x2x2x2x2x2x2, .f32⟩) (fun x i => Host.gather gather_S16384x2x2x2x2x2x2x2x2_S1_S16384x2x2x2x2x2x2x2_01234567_5_n_n_5_0_1638422221222 x i),
    StableHlo.TRef.unary (.of main_call28_v9 : StableHlo.TRef sig ⟨S_, .i1⟩) (.of main_call28_v11 : StableHlo.TRef sig ⟨S16384x2x2x2x2x2x2x2, .i1⟩) (broadcastInDim S16384x2x2x2x2x2x2x2 ![] bcast_S_S16384x2x2x2x2x2x2x2),
    StableHlo.TRef.nullary (.of main_call28_cst : StableHlo.TRef sig ⟨S_, .f32⟩) (constant S_ .f32 0x7FC00000#32),
    StableHlo.TRef.unary (.of main_call28_cst : StableHlo.TRef sig ⟨S_, .f32⟩) (.of main_call28_v12 : StableHlo.TRef sig ⟨S16384x2x2x2x2x2x2x2, .f32⟩) (broadcastInDim S16384x2x2x2x2x2x2x2 ![] bcast_S_S16384x2x2x2x2x2x2x2),
    StableHlo.TRef.ternary (.of main_call28_v11 : StableHlo.TRef sig ⟨S16384x2x2x2x2x2x2x2, .i1⟩) (.of main_call28_v10 : StableHlo.TRef sig ⟨S16384x2x2x2x2x2x2x2, .f32⟩) (.of main_call28_v12 : StableHlo.TRef sig ⟨S16384x2x2x2x2x2x2x2, .f32⟩) (.of main_v259 : StableHlo.TRef sig ⟨S16384x2x2x2x2x2x2x2, .f32⟩) select,
    StableHlo.nullary main_c_42 (constantI S_ 32 1#32),
    StableHlo.TRef.nullary (.of main_call29_c : StableHlo.TRef sig ⟨S_, .i32⟩) (constantI S_ 32 0#32),
    StableHlo.TRef.binary (.of main_c_42 : StableHlo.TRef sig ⟨S_, .i32⟩) (.of main_call29_c : StableHlo.TRef sig ⟨S_, .i32⟩) (.of main_call29_v0 : StableHlo.TRef sig ⟨S_, .i1⟩) (cmpi .slt),
    StableHlo.TRef.nullary (.of main_call29_c_0 : StableHlo.TRef sig ⟨S_, .i32⟩) (constantI S_ 32 2#32),
    StableHlo.TRef.binary (.of main_c_42 : StableHlo.TRef sig ⟨S_, .i32⟩) (.of main_call29_c_0 : StableHlo.TRef sig ⟨S_, .i32⟩) (.of main_call29_v1 : StableHlo.TRef sig ⟨S_, .i32⟩) addi,
    StableHlo.TRef.ternary (.of main_call29_v0 : StableHlo.TRef sig ⟨S_, .i1⟩) (.of main_call29_v1 : StableHlo.TRef sig ⟨S_, .i32⟩) (.of main_c_42 : StableHlo.TRef sig ⟨S_, .i32⟩) (.of main_call29_v2 : StableHlo.TRef sig ⟨S_, .i32⟩) select,
    StableHlo.TRef.unary (.of main_call29_v2 : StableHlo.TRef sig ⟨S_, .i32⟩) (.of main_call29_v3 : StableHlo.TRef sig ⟨S1, .i32⟩) (broadcastInDim S1 ![] bcast_S_S1),
    StableHlo.TRef.nullary (.of main_call29_c_1 : StableHlo.TRef sig ⟨S1, .i32⟩) (constantI S1 32 1#32),
    StableHlo.TRef.unary (.of main_call29_v3 : StableHlo.TRef sig ⟨S1, .i32⟩) (.of main_call29_v4 : StableHlo.TRef sig ⟨S1, .i32⟩) id,
    StableHlo.TRef.nullary (.of main_call29_c_2 : StableHlo.TRef sig ⟨S_, .i32⟩) (constantI S_ 32 0#32),
    StableHlo.TRef.unary (.of main_call29_c_2 : StableHlo.TRef sig ⟨S_, .i32⟩) (.of main_call29_v5 : StableHlo.TRef sig ⟨S1, .i32⟩) (broadcastInDim S1 ![] bcast_S_S1),
    StableHlo.TRef.binary (.of main_call29_v4 : StableHlo.TRef sig ⟨S1, .i32⟩) (.of main_call29_v5 : StableHlo.TRef sig ⟨S1, .i32⟩) (.of main_call29_v6 : StableHlo.TRef sig ⟨S1, .i1⟩) (cmpi .sge),
    StableHlo.TRef.binary (.of main_call29_v4 : StableHlo.TRef sig ⟨S1, .i32⟩) (.of main_call29_c_1 : StableHlo.TRef sig ⟨S1, .i32⟩) (.of main_call29_v7 : StableHlo.TRef sig ⟨S1, .i1⟩) (cmpi .sle),
    StableHlo.TRef.binary (.of main_call29_v6 : StableHlo.TRef sig ⟨S1, .i1⟩) (.of main_call29_v7 : StableHlo.TRef sig ⟨S1, .i1⟩) (.of main_call29_v8 : StableHlo.TRef sig ⟨S1, .i1⟩) andi,
    StableHlo.TRef.nullary (.of main_call29_c_3 : StableHlo.TRef sig ⟨S_, .i1⟩) (constantI S_ 1 1#1),
    StableHlo.TRef.binary (.of main_call29_v8 : StableHlo.TRef sig ⟨S1, .i1⟩) (.of main_call29_c_3 : StableHlo.TRef sig ⟨S_, .i1⟩) (.of main_call29_v9 : StableHlo.TRef sig ⟨S_, .i1⟩) (fun x v => Host.reduce IntOp.andi x v reducesTo_S1_S_d0 h_S_),
    StableHlo.TRef.binary (.of main_v252 : StableHlo.TRef sig ⟨S16384x2x2x2x2x2x2x2x2, .f32⟩) (.of main_call29_v4 : StableHlo.TRef sig ⟨S1, .i32⟩) (.of main_call29_v10 : StableHlo.TRef sig ⟨S16384x2x2x2x2x2x2x2, .f32⟩) (fun x i => Host.gather gather_S16384x2x2x2x2x2x2x2x2_S1_S16384x2x2x2x2x2x2x2_01234567_5_n_n_5_0_1638422221222 x i),
    StableHlo.TRef.unary (.of main_call29_v9 : StableHlo.TRef sig ⟨S_, .i1⟩) (.of main_call29_v11 : StableHlo.TRef sig ⟨S16384x2x2x2x2x2x2x2, .i1⟩) (broadcastInDim S16384x2x2x2x2x2x2x2 ![] bcast_S_S16384x2x2x2x2x2x2x2),
    StableHlo.TRef.nullary (.of main_call29_cst : StableHlo.TRef sig ⟨S_, .f32⟩) (constant S_ .f32 0x7FC00000#32),
    StableHlo.TRef.unary (.of main_call29_cst : StableHlo.TRef sig ⟨S_, .f32⟩) (.of main_call29_v12 : StableHlo.TRef sig ⟨S16384x2x2x2x2x2x2x2, .f32⟩) (broadcastInDim S16384x2x2x2x2x2x2x2 ![] bcast_S_S16384x2x2x2x2x2x2x2),
    StableHlo.TRef.ternary (.of main_call29_v11 : StableHlo.TRef sig ⟨S16384x2x2x2x2x2x2x2, .i1⟩) (.of main_call29_v10 : StableHlo.TRef sig ⟨S16384x2x2x2x2x2x2x2, .f32⟩) (.of main_call29_v12 : StableHlo.TRef sig ⟨S16384x2x2x2x2x2x2x2, .f32⟩) (.of main_v260 : StableHlo.TRef sig ⟨S16384x2x2x2x2x2x2x2, .f32⟩) select,
    StableHlo.unary main_v256 main_v261 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v261 main_v259 main_v262 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v258 main_v263 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v263 main_v260 main_v264 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.binary main_v262 main_v264 main_v265 (subf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v258 main_v266 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v266 main_v259 main_v267 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v256 main_v268 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v268 main_v260 main_v269 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.binary main_v267 main_v269 main_v270 (addf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v265 main_v271 (broadcastInDim S16384x2x2x2x2x1x2x2x2 ![0, 1, 2, 3, 4, 6, 7, 8] bcast_S16384x2x2x2x2x2x2x2_S16384x2x2x2x2x1x2x2x2_0_1_2_3_4_6_7_8 : (⟨S16384x2x2x2x2x2x2x2, .f32⟩ : BufTy).Contents (Elt F) → (⟨S16384x2x2x2x2x1x2x2x2, .f32⟩ : BufTy).Contents (Elt F)),
    StableHlo.unary main_v270 main_v272 (broadcastInDim S16384x2x2x2x2x1x2x2x2 ![0, 1, 2, 3, 4, 6, 7, 8] bcast_S16384x2x2x2x2x2x2x2_S16384x2x2x2x2x1x2x2x2_0_1_2_3_4_6_7_8 : (⟨S16384x2x2x2x2x2x2x2, .f32⟩ : BufTy).Contents (Elt F) → (⟨S16384x2x2x2x2x1x2x2x2, .f32⟩ : BufTy).Contents (Elt F)),
    StableHlo.binary main_v271 main_v272 main_v273 ((fun a b => concatenate S16384x2x2x2x2x2x2x2x2 5 [⟨S16384x2x2x2x2x1x2x2x2, a⟩, ⟨S16384x2x2x2x2x1x2x2x2, b⟩] concatenates_S16384x2x2x2x2x1x2x2x2_S16384x2x2x2x2x1x2x2x2_S16384x2x2x2x2x2x2x2x2_d5) : (⟨S16384x2x2x2x2x1x2x2x2, .f32⟩ : BufTy).Contents (Elt F) → (⟨S16384x2x2x2x2x1x2x2x2, .f32⟩ : BufTy).Contents (Elt F) → (⟨S16384x2x2x2x2x2x2x2x2, .f32⟩ : BufTy).Contents (Elt F)) ]

/-- The host operations of gate 14 (a rotation, parameter 9, axis 6). -/
abbrev G14 : List (HloOp τ sig (Elt F)) :=
  [ StableHlo.unary main_arg3 main_v274 ((extractStridedSlice S1 ![9] · slices_S21_S1_9) : (⟨S21, .f32⟩ : BufTy).Contents (Elt F) → (⟨S1, .f32⟩ : BufTy).Contents (Elt F)),
    StableHlo.reshape main_v274 main_v275 rfl shapeCasts_S1_S_,
    StableHlo.nullary main_cst_43 (constant S_ .f32 0x3F000000#32),
    StableHlo.binary main_cst_43 main_v275 main_v276 (mulf : (⟨S_, .f32⟩ : BufTy).Contents (Elt F) → (⟨S_, .f32⟩ : BufTy).Contents (Elt F) → (⟨S_, .f32⟩ : BufTy).Contents (Elt F)),
    StableHlo.unary main_v276 main_v277 (Host.cos : (⟨S_, .f32⟩ : BufTy).Contents (Elt F) → (⟨S_, .f32⟩ : BufTy).Contents (Elt F)),
    StableHlo.nullary main_cst_44 (constant S_ .f32 0x3F000000#32),
    StableHlo.binary main_cst_44 main_v275 main_v278 (mulf : (⟨S_, .f32⟩ : BufTy).Contents (Elt F) → (⟨S_, .f32⟩ : BufTy).Contents (Elt F) → (⟨S_, .f32⟩ : BufTy).Contents (Elt F)),
    StableHlo.unary main_v278 main_v279 (Host.sin : (⟨S_, .f32⟩ : BufTy).Contents (Elt F) → (⟨S_, .f32⟩ : BufTy).Contents (Elt F)),
    StableHlo.nullary main_c_45 (constantI S_ 32 0#32),
    StableHlo.TRef.nullary (.of main_call30_c : StableHlo.TRef sig ⟨S_, .i32⟩) (constantI S_ 32 0#32),
    StableHlo.TRef.binary (.of main_c_45 : StableHlo.TRef sig ⟨S_, .i32⟩) (.of main_call30_c : StableHlo.TRef sig ⟨S_, .i32⟩) (.of main_call30_v0 : StableHlo.TRef sig ⟨S_, .i1⟩) (cmpi .slt),
    StableHlo.TRef.nullary (.of main_call30_c_0 : StableHlo.TRef sig ⟨S_, .i32⟩) (constantI S_ 32 2#32),
    StableHlo.TRef.binary (.of main_c_45 : StableHlo.TRef sig ⟨S_, .i32⟩) (.of main_call30_c_0 : StableHlo.TRef sig ⟨S_, .i32⟩) (.of main_call30_v1 : StableHlo.TRef sig ⟨S_, .i32⟩) addi,
    StableHlo.TRef.ternary (.of main_call30_v0 : StableHlo.TRef sig ⟨S_, .i1⟩) (.of main_call30_v1 : StableHlo.TRef sig ⟨S_, .i32⟩) (.of main_c_45 : StableHlo.TRef sig ⟨S_, .i32⟩) (.of main_call30_v2 : StableHlo.TRef sig ⟨S_, .i32⟩) select,
    StableHlo.TRef.unary (.of main_call30_v2 : StableHlo.TRef sig ⟨S_, .i32⟩) (.of main_call30_v3 : StableHlo.TRef sig ⟨S1, .i32⟩) (broadcastInDim S1 ![] bcast_S_S1),
    StableHlo.TRef.nullary (.of main_call30_c_1 : StableHlo.TRef sig ⟨S1, .i32⟩) (constantI S1 32 1#32),
    StableHlo.TRef.unary (.of main_call30_v3 : StableHlo.TRef sig ⟨S1, .i32⟩) (.of main_call30_v4 : StableHlo.TRef sig ⟨S1, .i32⟩) id,
    StableHlo.TRef.nullary (.of main_call30_c_2 : StableHlo.TRef sig ⟨S_, .i32⟩) (constantI S_ 32 0#32),
    StableHlo.TRef.unary (.of main_call30_c_2 : StableHlo.TRef sig ⟨S_, .i32⟩) (.of main_call30_v5 : StableHlo.TRef sig ⟨S1, .i32⟩) (broadcastInDim S1 ![] bcast_S_S1),
    StableHlo.TRef.binary (.of main_call30_v4 : StableHlo.TRef sig ⟨S1, .i32⟩) (.of main_call30_v5 : StableHlo.TRef sig ⟨S1, .i32⟩) (.of main_call30_v6 : StableHlo.TRef sig ⟨S1, .i1⟩) (cmpi .sge),
    StableHlo.TRef.binary (.of main_call30_v4 : StableHlo.TRef sig ⟨S1, .i32⟩) (.of main_call30_c_1 : StableHlo.TRef sig ⟨S1, .i32⟩) (.of main_call30_v7 : StableHlo.TRef sig ⟨S1, .i1⟩) (cmpi .sle),
    StableHlo.TRef.binary (.of main_call30_v6 : StableHlo.TRef sig ⟨S1, .i1⟩) (.of main_call30_v7 : StableHlo.TRef sig ⟨S1, .i1⟩) (.of main_call30_v8 : StableHlo.TRef sig ⟨S1, .i1⟩) andi,
    StableHlo.TRef.nullary (.of main_call30_c_3 : StableHlo.TRef sig ⟨S_, .i1⟩) (constantI S_ 1 1#1),
    StableHlo.TRef.binary (.of main_call30_v8 : StableHlo.TRef sig ⟨S1, .i1⟩) (.of main_call30_c_3 : StableHlo.TRef sig ⟨S_, .i1⟩) (.of main_call30_v9 : StableHlo.TRef sig ⟨S_, .i1⟩) (fun x v => Host.reduce IntOp.andi x v reducesTo_S1_S_d0 h_S_),
    StableHlo.TRef.binary (.of main_v273 : StableHlo.TRef sig ⟨S16384x2x2x2x2x2x2x2x2, .f32⟩) (.of main_call30_v4 : StableHlo.TRef sig ⟨S1, .i32⟩) (.of main_call30_v10 : StableHlo.TRef sig ⟨S16384x2x2x2x2x2x2x2, .f32⟩) (fun x i => Host.gather gather_S16384x2x2x2x2x2x2x2x2_S1_S16384x2x2x2x2x2x2x2_01234567_6_n_n_6_0_1638422222122 x i),
    StableHlo.TRef.unary (.of main_call30_v9 : StableHlo.TRef sig ⟨S_, .i1⟩) (.of main_call30_v11 : StableHlo.TRef sig ⟨S16384x2x2x2x2x2x2x2, .i1⟩) (broadcastInDim S16384x2x2x2x2x2x2x2 ![] bcast_S_S16384x2x2x2x2x2x2x2),
    StableHlo.TRef.nullary (.of main_call30_cst : StableHlo.TRef sig ⟨S_, .f32⟩) (constant S_ .f32 0x7FC00000#32),
    StableHlo.TRef.unary (.of main_call30_cst : StableHlo.TRef sig ⟨S_, .f32⟩) (.of main_call30_v12 : StableHlo.TRef sig ⟨S16384x2x2x2x2x2x2x2, .f32⟩) (broadcastInDim S16384x2x2x2x2x2x2x2 ![] bcast_S_S16384x2x2x2x2x2x2x2),
    StableHlo.TRef.ternary (.of main_call30_v11 : StableHlo.TRef sig ⟨S16384x2x2x2x2x2x2x2, .i1⟩) (.of main_call30_v10 : StableHlo.TRef sig ⟨S16384x2x2x2x2x2x2x2, .f32⟩) (.of main_call30_v12 : StableHlo.TRef sig ⟨S16384x2x2x2x2x2x2x2, .f32⟩) (.of main_v280 : StableHlo.TRef sig ⟨S16384x2x2x2x2x2x2x2, .f32⟩) select,
    StableHlo.nullary main_c_46 (constantI S_ 32 1#32),
    StableHlo.TRef.nullary (.of main_call31_c : StableHlo.TRef sig ⟨S_, .i32⟩) (constantI S_ 32 0#32),
    StableHlo.TRef.binary (.of main_c_46 : StableHlo.TRef sig ⟨S_, .i32⟩) (.of main_call31_c : StableHlo.TRef sig ⟨S_, .i32⟩) (.of main_call31_v0 : StableHlo.TRef sig ⟨S_, .i1⟩) (cmpi .slt),
    StableHlo.TRef.nullary (.of main_call31_c_0 : StableHlo.TRef sig ⟨S_, .i32⟩) (constantI S_ 32 2#32),
    StableHlo.TRef.binary (.of main_c_46 : StableHlo.TRef sig ⟨S_, .i32⟩) (.of main_call31_c_0 : StableHlo.TRef sig ⟨S_, .i32⟩) (.of main_call31_v1 : StableHlo.TRef sig ⟨S_, .i32⟩) addi,
    StableHlo.TRef.ternary (.of main_call31_v0 : StableHlo.TRef sig ⟨S_, .i1⟩) (.of main_call31_v1 : StableHlo.TRef sig ⟨S_, .i32⟩) (.of main_c_46 : StableHlo.TRef sig ⟨S_, .i32⟩) (.of main_call31_v2 : StableHlo.TRef sig ⟨S_, .i32⟩) select,
    StableHlo.TRef.unary (.of main_call31_v2 : StableHlo.TRef sig ⟨S_, .i32⟩) (.of main_call31_v3 : StableHlo.TRef sig ⟨S1, .i32⟩) (broadcastInDim S1 ![] bcast_S_S1),
    StableHlo.TRef.nullary (.of main_call31_c_1 : StableHlo.TRef sig ⟨S1, .i32⟩) (constantI S1 32 1#32),
    StableHlo.TRef.unary (.of main_call31_v3 : StableHlo.TRef sig ⟨S1, .i32⟩) (.of main_call31_v4 : StableHlo.TRef sig ⟨S1, .i32⟩) id,
    StableHlo.TRef.nullary (.of main_call31_c_2 : StableHlo.TRef sig ⟨S_, .i32⟩) (constantI S_ 32 0#32),
    StableHlo.TRef.unary (.of main_call31_c_2 : StableHlo.TRef sig ⟨S_, .i32⟩) (.of main_call31_v5 : StableHlo.TRef sig ⟨S1, .i32⟩) (broadcastInDim S1 ![] bcast_S_S1),
    StableHlo.TRef.binary (.of main_call31_v4 : StableHlo.TRef sig ⟨S1, .i32⟩) (.of main_call31_v5 : StableHlo.TRef sig ⟨S1, .i32⟩) (.of main_call31_v6 : StableHlo.TRef sig ⟨S1, .i1⟩) (cmpi .sge),
    StableHlo.TRef.binary (.of main_call31_v4 : StableHlo.TRef sig ⟨S1, .i32⟩) (.of main_call31_c_1 : StableHlo.TRef sig ⟨S1, .i32⟩) (.of main_call31_v7 : StableHlo.TRef sig ⟨S1, .i1⟩) (cmpi .sle),
    StableHlo.TRef.binary (.of main_call31_v6 : StableHlo.TRef sig ⟨S1, .i1⟩) (.of main_call31_v7 : StableHlo.TRef sig ⟨S1, .i1⟩) (.of main_call31_v8 : StableHlo.TRef sig ⟨S1, .i1⟩) andi,
    StableHlo.TRef.nullary (.of main_call31_c_3 : StableHlo.TRef sig ⟨S_, .i1⟩) (constantI S_ 1 1#1),
    StableHlo.TRef.binary (.of main_call31_v8 : StableHlo.TRef sig ⟨S1, .i1⟩) (.of main_call31_c_3 : StableHlo.TRef sig ⟨S_, .i1⟩) (.of main_call31_v9 : StableHlo.TRef sig ⟨S_, .i1⟩) (fun x v => Host.reduce IntOp.andi x v reducesTo_S1_S_d0 h_S_),
    StableHlo.TRef.binary (.of main_v273 : StableHlo.TRef sig ⟨S16384x2x2x2x2x2x2x2x2, .f32⟩) (.of main_call31_v4 : StableHlo.TRef sig ⟨S1, .i32⟩) (.of main_call31_v10 : StableHlo.TRef sig ⟨S16384x2x2x2x2x2x2x2, .f32⟩) (fun x i => Host.gather gather_S16384x2x2x2x2x2x2x2x2_S1_S16384x2x2x2x2x2x2x2_01234567_6_n_n_6_0_1638422222122 x i),
    StableHlo.TRef.unary (.of main_call31_v9 : StableHlo.TRef sig ⟨S_, .i1⟩) (.of main_call31_v11 : StableHlo.TRef sig ⟨S16384x2x2x2x2x2x2x2, .i1⟩) (broadcastInDim S16384x2x2x2x2x2x2x2 ![] bcast_S_S16384x2x2x2x2x2x2x2),
    StableHlo.TRef.nullary (.of main_call31_cst : StableHlo.TRef sig ⟨S_, .f32⟩) (constant S_ .f32 0x7FC00000#32),
    StableHlo.TRef.unary (.of main_call31_cst : StableHlo.TRef sig ⟨S_, .f32⟩) (.of main_call31_v12 : StableHlo.TRef sig ⟨S16384x2x2x2x2x2x2x2, .f32⟩) (broadcastInDim S16384x2x2x2x2x2x2x2 ![] bcast_S_S16384x2x2x2x2x2x2x2),
    StableHlo.TRef.ternary (.of main_call31_v11 : StableHlo.TRef sig ⟨S16384x2x2x2x2x2x2x2, .i1⟩) (.of main_call31_v10 : StableHlo.TRef sig ⟨S16384x2x2x2x2x2x2x2, .f32⟩) (.of main_call31_v12 : StableHlo.TRef sig ⟨S16384x2x2x2x2x2x2x2, .f32⟩) (.of main_v281 : StableHlo.TRef sig ⟨S16384x2x2x2x2x2x2x2, .f32⟩) select,
    StableHlo.unary main_v277 main_v282 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v282 main_v280 main_v283 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v279 main_v284 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v284 main_v281 main_v285 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.binary main_v283 main_v285 main_v286 (subf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v279 main_v287 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v287 main_v280 main_v288 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v277 main_v289 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v289 main_v281 main_v290 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.binary main_v288 main_v290 main_v291 (addf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v286 main_v292 (broadcastInDim S16384x2x2x2x2x2x1x2x2 ![0, 1, 2, 3, 4, 5, 7, 8] bcast_S16384x2x2x2x2x2x2x2_S16384x2x2x2x2x2x1x2x2_0_1_2_3_4_5_7_8 : (⟨S16384x2x2x2x2x2x2x2, .f32⟩ : BufTy).Contents (Elt F) → (⟨S16384x2x2x2x2x2x1x2x2, .f32⟩ : BufTy).Contents (Elt F)),
    StableHlo.unary main_v291 main_v293 (broadcastInDim S16384x2x2x2x2x2x1x2x2 ![0, 1, 2, 3, 4, 5, 7, 8] bcast_S16384x2x2x2x2x2x2x2_S16384x2x2x2x2x2x1x2x2_0_1_2_3_4_5_7_8 : (⟨S16384x2x2x2x2x2x2x2, .f32⟩ : BufTy).Contents (Elt F) → (⟨S16384x2x2x2x2x2x1x2x2, .f32⟩ : BufTy).Contents (Elt F)),
    StableHlo.binary main_v292 main_v293 main_v294 ((fun a b => concatenate S16384x2x2x2x2x2x2x2x2 6 [⟨S16384x2x2x2x2x2x1x2x2, a⟩, ⟨S16384x2x2x2x2x2x1x2x2, b⟩] concatenates_S16384x2x2x2x2x2x1x2x2_S16384x2x2x2x2x2x1x2x2_S16384x2x2x2x2x2x2x2x2_d6) : (⟨S16384x2x2x2x2x2x1x2x2, .f32⟩ : BufTy).Contents (Elt F) → (⟨S16384x2x2x2x2x2x1x2x2, .f32⟩ : BufTy).Contents (Elt F) → (⟨S16384x2x2x2x2x2x2x2x2, .f32⟩ : BufTy).Contents (Elt F)) ]

/-- The host operations of gate 15 (a controlled flip, axis 5). -/
abbrev G15 : List (HloOp τ sig (Elt F)) :=
  [ StableHlo.nullary main_c_47 (constantI S_ 32 0#32),
    StableHlo.TRef.nullary (.of main_call32_c : StableHlo.TRef sig ⟨S_, .i32⟩) (constantI S_ 32 0#32),
    StableHlo.TRef.binary (.of main_c_47 : StableHlo.TRef sig ⟨S_, .i32⟩) (.of main_call32_c : StableHlo.TRef sig ⟨S_, .i32⟩) (.of main_call32_v0 : StableHlo.TRef sig ⟨S_, .i1⟩) (cmpi .slt),
    StableHlo.TRef.nullary (.of main_call32_c_0 : StableHlo.TRef sig ⟨S_, .i32⟩) (constantI S_ 32 2#32),
    StableHlo.TRef.binary (.of main_c_47 : StableHlo.TRef sig ⟨S_, .i32⟩) (.of main_call32_c_0 : StableHlo.TRef sig ⟨S_, .i32⟩) (.of main_call32_v1 : StableHlo.TRef sig ⟨S_, .i32⟩) addi,
    StableHlo.TRef.ternary (.of main_call32_v0 : StableHlo.TRef sig ⟨S_, .i1⟩) (.of main_call32_v1 : StableHlo.TRef sig ⟨S_, .i32⟩) (.of main_c_47 : StableHlo.TRef sig ⟨S_, .i32⟩) (.of main_call32_v2 : StableHlo.TRef sig ⟨S_, .i32⟩) select,
    StableHlo.TRef.unary (.of main_call32_v2 : StableHlo.TRef sig ⟨S_, .i32⟩) (.of main_call32_v3 : StableHlo.TRef sig ⟨S1, .i32⟩) (broadcastInDim S1 ![] bcast_S_S1),
    StableHlo.TRef.nullary (.of main_call32_c_1 : StableHlo.TRef sig ⟨S1, .i32⟩) (constantI S1 32 1#32),
    StableHlo.TRef.unary (.of main_call32_v3 : StableHlo.TRef sig ⟨S1, .i32⟩) (.of main_call32_v4 : StableHlo.TRef sig ⟨S1, .i32⟩) id,
    StableHlo.TRef.nullary (.of main_call32_c_2 : StableHlo.TRef sig ⟨S_, .i32⟩) (constantI S_ 32 0#32),
    StableHlo.TRef.unary (.of main_call32_c_2 : StableHlo.TRef sig ⟨S_, .i32⟩) (.of main_call32_v5 : StableHlo.TRef sig ⟨S1, .i32⟩) (broadcastInDim S1 ![] bcast_S_S1),
    StableHlo.TRef.binary (.of main_call32_v4 : StableHlo.TRef sig ⟨S1, .i32⟩) (.of main_call32_v5 : StableHlo.TRef sig ⟨S1, .i32⟩) (.of main_call32_v6 : StableHlo.TRef sig ⟨S1, .i1⟩) (cmpi .sge),
    StableHlo.TRef.binary (.of main_call32_v4 : StableHlo.TRef sig ⟨S1, .i32⟩) (.of main_call32_c_1 : StableHlo.TRef sig ⟨S1, .i32⟩) (.of main_call32_v7 : StableHlo.TRef sig ⟨S1, .i1⟩) (cmpi .sle),
    StableHlo.TRef.binary (.of main_call32_v6 : StableHlo.TRef sig ⟨S1, .i1⟩) (.of main_call32_v7 : StableHlo.TRef sig ⟨S1, .i1⟩) (.of main_call32_v8 : StableHlo.TRef sig ⟨S1, .i1⟩) andi,
    StableHlo.TRef.nullary (.of main_call32_c_3 : StableHlo.TRef sig ⟨S_, .i1⟩) (constantI S_ 1 1#1),
    StableHlo.TRef.binary (.of main_call32_v8 : StableHlo.TRef sig ⟨S1, .i1⟩) (.of main_call32_c_3 : StableHlo.TRef sig ⟨S_, .i1⟩) (.of main_call32_v9 : StableHlo.TRef sig ⟨S_, .i1⟩) (fun x v => Host.reduce IntOp.andi x v reducesTo_S1_S_d0 h_S_),
    StableHlo.TRef.binary (.of main_v294 : StableHlo.TRef sig ⟨S16384x2x2x2x2x2x2x2x2, .f32⟩) (.of main_call32_v4 : StableHlo.TRef sig ⟨S1, .i32⟩) (.of main_call32_v10 : StableHlo.TRef sig ⟨S16384x2x2x2x2x2x2x2, .f32⟩) (fun x i => Host.gather gather_S16384x2x2x2x2x2x2x2x2_S1_S16384x2x2x2x2x2x2x2_01234567_5_n_n_5_0_1638422221222 x i),
    StableHlo.TRef.unary (.of main_call32_v9 : StableHlo.TRef sig ⟨S_, .i1⟩) (.of main_call32_v11 : StableHlo.TRef sig ⟨S16384x2x2x2x2x2x2x2, .i1⟩) (broadcastInDim S16384x2x2x2x2x2x2x2 ![] bcast_S_S16384x2x2x2x2x2x2x2),
    StableHlo.TRef.nullary (.of main_call32_cst : StableHlo.TRef sig ⟨S_, .f32⟩) (constant S_ .f32 0x7FC00000#32),
    StableHlo.TRef.unary (.of main_call32_cst : StableHlo.TRef sig ⟨S_, .f32⟩) (.of main_call32_v12 : StableHlo.TRef sig ⟨S16384x2x2x2x2x2x2x2, .f32⟩) (broadcastInDim S16384x2x2x2x2x2x2x2 ![] bcast_S_S16384x2x2x2x2x2x2x2),
    StableHlo.TRef.ternary (.of main_call32_v11 : StableHlo.TRef sig ⟨S16384x2x2x2x2x2x2x2, .i1⟩) (.of main_call32_v10 : StableHlo.TRef sig ⟨S16384x2x2x2x2x2x2x2, .f32⟩) (.of main_call32_v12 : StableHlo.TRef sig ⟨S16384x2x2x2x2x2x2x2, .f32⟩) (.of main_v295 : StableHlo.TRef sig ⟨S16384x2x2x2x2x2x2x2, .f32⟩) select,
    StableHlo.nullary main_c_48 (constantI S_ 32 1#32),
    StableHlo.TRef.nullary (.of main_call33_c : StableHlo.TRef sig ⟨S_, .i32⟩) (constantI S_ 32 0#32),
    StableHlo.TRef.binary (.of main_c_48 : StableHlo.TRef sig ⟨S_, .i32⟩) (.of main_call33_c : StableHlo.TRef sig ⟨S_, .i32⟩) (.of main_call33_v0 : StableHlo.TRef sig ⟨S_, .i1⟩) (cmpi .slt),
    StableHlo.TRef.nullary (.of main_call33_c_0 : StableHlo.TRef sig ⟨S_, .i32⟩) (constantI S_ 32 2#32),
    StableHlo.TRef.binary (.of main_c_48 : StableHlo.TRef sig ⟨S_, .i32⟩) (.of main_call33_c_0 : StableHlo.TRef sig ⟨S_, .i32⟩) (.of main_call33_v1 : StableHlo.TRef sig ⟨S_, .i32⟩) addi,
    StableHlo.TRef.ternary (.of main_call33_v0 : StableHlo.TRef sig ⟨S_, .i1⟩) (.of main_call33_v1 : StableHlo.TRef sig ⟨S_, .i32⟩) (.of main_c_48 : StableHlo.TRef sig ⟨S_, .i32⟩) (.of main_call33_v2 : StableHlo.TRef sig ⟨S_, .i32⟩) select,
    StableHlo.TRef.unary (.of main_call33_v2 : StableHlo.TRef sig ⟨S_, .i32⟩) (.of main_call33_v3 : StableHlo.TRef sig ⟨S1, .i32⟩) (broadcastInDim S1 ![] bcast_S_S1),
    StableHlo.TRef.nullary (.of main_call33_c_1 : StableHlo.TRef sig ⟨S1, .i32⟩) (constantI S1 32 1#32),
    StableHlo.TRef.unary (.of main_call33_v3 : StableHlo.TRef sig ⟨S1, .i32⟩) (.of main_call33_v4 : StableHlo.TRef sig ⟨S1, .i32⟩) id,
    StableHlo.TRef.nullary (.of main_call33_c_2 : StableHlo.TRef sig ⟨S_, .i32⟩) (constantI S_ 32 0#32),
    StableHlo.TRef.unary (.of main_call33_c_2 : StableHlo.TRef sig ⟨S_, .i32⟩) (.of main_call33_v5 : StableHlo.TRef sig ⟨S1, .i32⟩) (broadcastInDim S1 ![] bcast_S_S1),
    StableHlo.TRef.binary (.of main_call33_v4 : StableHlo.TRef sig ⟨S1, .i32⟩) (.of main_call33_v5 : StableHlo.TRef sig ⟨S1, .i32⟩) (.of main_call33_v6 : StableHlo.TRef sig ⟨S1, .i1⟩) (cmpi .sge),
    StableHlo.TRef.binary (.of main_call33_v4 : StableHlo.TRef sig ⟨S1, .i32⟩) (.of main_call33_c_1 : StableHlo.TRef sig ⟨S1, .i32⟩) (.of main_call33_v7 : StableHlo.TRef sig ⟨S1, .i1⟩) (cmpi .sle),
    StableHlo.TRef.binary (.of main_call33_v6 : StableHlo.TRef sig ⟨S1, .i1⟩) (.of main_call33_v7 : StableHlo.TRef sig ⟨S1, .i1⟩) (.of main_call33_v8 : StableHlo.TRef sig ⟨S1, .i1⟩) andi,
    StableHlo.TRef.nullary (.of main_call33_c_3 : StableHlo.TRef sig ⟨S_, .i1⟩) (constantI S_ 1 1#1),
    StableHlo.TRef.binary (.of main_call33_v8 : StableHlo.TRef sig ⟨S1, .i1⟩) (.of main_call33_c_3 : StableHlo.TRef sig ⟨S_, .i1⟩) (.of main_call33_v9 : StableHlo.TRef sig ⟨S_, .i1⟩) (fun x v => Host.reduce IntOp.andi x v reducesTo_S1_S_d0 h_S_),
    StableHlo.TRef.binary (.of main_v294 : StableHlo.TRef sig ⟨S16384x2x2x2x2x2x2x2x2, .f32⟩) (.of main_call33_v4 : StableHlo.TRef sig ⟨S1, .i32⟩) (.of main_call33_v10 : StableHlo.TRef sig ⟨S16384x2x2x2x2x2x2x2, .f32⟩) (fun x i => Host.gather gather_S16384x2x2x2x2x2x2x2x2_S1_S16384x2x2x2x2x2x2x2_01234567_5_n_n_5_0_1638422221222 x i),
    StableHlo.TRef.unary (.of main_call33_v9 : StableHlo.TRef sig ⟨S_, .i1⟩) (.of main_call33_v11 : StableHlo.TRef sig ⟨S16384x2x2x2x2x2x2x2, .i1⟩) (broadcastInDim S16384x2x2x2x2x2x2x2 ![] bcast_S_S16384x2x2x2x2x2x2x2),
    StableHlo.TRef.nullary (.of main_call33_cst : StableHlo.TRef sig ⟨S_, .f32⟩) (constant S_ .f32 0x7FC00000#32),
    StableHlo.TRef.unary (.of main_call33_cst : StableHlo.TRef sig ⟨S_, .f32⟩) (.of main_call33_v12 : StableHlo.TRef sig ⟨S16384x2x2x2x2x2x2x2, .f32⟩) (broadcastInDim S16384x2x2x2x2x2x2x2 ![] bcast_S_S16384x2x2x2x2x2x2x2),
    StableHlo.TRef.ternary (.of main_call33_v11 : StableHlo.TRef sig ⟨S16384x2x2x2x2x2x2x2, .i1⟩) (.of main_call33_v10 : StableHlo.TRef sig ⟨S16384x2x2x2x2x2x2x2, .f32⟩) (.of main_call33_v12 : StableHlo.TRef sig ⟨S16384x2x2x2x2x2x2x2, .f32⟩) (.of main_v296 : StableHlo.TRef sig ⟨S16384x2x2x2x2x2x2x2, .f32⟩) select,
    StableHlo.TRef.unary (.of main_v296 : StableHlo.TRef sig ⟨S16384x2x2x2x2x2x2x2, .f32⟩) (.of main_v297 : StableHlo.TRef sig ⟨S16384x2x2x2x2x2x2x2, .f32⟩) (Host.reverse [5]),
    StableHlo.unary main_v295 main_v298 (broadcastInDim S16384x2x2x2x2x1x2x2x2 ![0, 1, 2, 3, 4, 6, 7, 8] bcast_S16384x2x2x2x2x2x2x2_S16384x2x2x2x2x1x2x2x2_0_1_2_3_4_6_7_8 : (⟨S16384x2x2x2x2x2x2x2, .f32⟩ : BufTy).Contents (Elt F) → (⟨S16384x2x2x2x2x1x2x2x2, .f32⟩ : BufTy).Contents (Elt F)),
    StableHlo.unary main_v297 main_v299 (broadcastInDim S16384x2x2x2x2x1x2x2x2 ![0, 1, 2, 3, 4, 6, 7, 8] bcast_S16384x2x2x2x2x2x2x2_S16384x2x2x2x2x1x2x2x2_0_1_2_3_4_6_7_8 : (⟨S16384x2x2x2x2x2x2x2, .f32⟩ : BufTy).Contents (Elt F) → (⟨S16384x2x2x2x2x1x2x2x2, .f32⟩ : BufTy).Contents (Elt F)),
    StableHlo.binary main_v298 main_v299 main_v300 ((fun a b => concatenate S16384x2x2x2x2x2x2x2x2 5 [⟨S16384x2x2x2x2x1x2x2x2, a⟩, ⟨S16384x2x2x2x2x1x2x2x2, b⟩] concatenates_S16384x2x2x2x2x1x2x2x2_S16384x2x2x2x2x1x2x2x2_S16384x2x2x2x2x2x2x2x2_d5) : (⟨S16384x2x2x2x2x1x2x2x2, .f32⟩ : BufTy).Contents (Elt F) → (⟨S16384x2x2x2x2x1x2x2x2, .f32⟩ : BufTy).Contents (Elt F) → (⟨S16384x2x2x2x2x2x2x2x2, .f32⟩ : BufTy).Contents (Elt F)) ]

/-- The host operations of gate 16 (a rotation, parameter 10, axis 7). -/
abbrev G16 : List (HloOp τ sig (Elt F)) :=
  [ StableHlo.unary main_arg3 main_v301 ((extractStridedSlice S1 ![10] · slices_S21_S1_10) : (⟨S21, .f32⟩ : BufTy).Contents (Elt F) → (⟨S1, .f32⟩ : BufTy).Contents (Elt F)),
    StableHlo.reshape main_v301 main_v302 rfl shapeCasts_S1_S_,
    StableHlo.nullary main_cst_49 (constant S_ .f32 0x3F000000#32),
    StableHlo.binary main_cst_49 main_v302 main_v303 (mulf : (⟨S_, .f32⟩ : BufTy).Contents (Elt F) → (⟨S_, .f32⟩ : BufTy).Contents (Elt F) → (⟨S_, .f32⟩ : BufTy).Contents (Elt F)),
    StableHlo.unary main_v303 main_v304 (Host.cos : (⟨S_, .f32⟩ : BufTy).Contents (Elt F) → (⟨S_, .f32⟩ : BufTy).Contents (Elt F)),
    StableHlo.nullary main_cst_50 (constant S_ .f32 0x3F000000#32),
    StableHlo.binary main_cst_50 main_v302 main_v305 (mulf : (⟨S_, .f32⟩ : BufTy).Contents (Elt F) → (⟨S_, .f32⟩ : BufTy).Contents (Elt F) → (⟨S_, .f32⟩ : BufTy).Contents (Elt F)),
    StableHlo.unary main_v305 main_v306 (Host.sin : (⟨S_, .f32⟩ : BufTy).Contents (Elt F) → (⟨S_, .f32⟩ : BufTy).Contents (Elt F)),
    StableHlo.nullary main_c_51 (constantI S_ 32 0#32),
    StableHlo.TRef.nullary (.of main_call35_c : StableHlo.TRef sig ⟨S_, .i32⟩) (constantI S_ 32 0#32),
    StableHlo.TRef.binary (.of main_c_51 : StableHlo.TRef sig ⟨S_, .i32⟩) (.of main_call35_c : StableHlo.TRef sig ⟨S_, .i32⟩) (.of main_call35_v0 : StableHlo.TRef sig ⟨S_, .i1⟩) (cmpi .slt),
    StableHlo.TRef.nullary (.of main_call35_c_0 : StableHlo.TRef sig ⟨S_, .i32⟩) (constantI S_ 32 2#32),
    StableHlo.TRef.binary (.of main_c_51 : StableHlo.TRef sig ⟨S_, .i32⟩) (.of main_call35_c_0 : StableHlo.TRef sig ⟨S_, .i32⟩) (.of main_call35_v1 : StableHlo.TRef sig ⟨S_, .i32⟩) addi,
    StableHlo.TRef.ternary (.of main_call35_v0 : StableHlo.TRef sig ⟨S_, .i1⟩) (.of main_call35_v1 : StableHlo.TRef sig ⟨S_, .i32⟩) (.of main_c_51 : StableHlo.TRef sig ⟨S_, .i32⟩) (.of main_call35_v2 : StableHlo.TRef sig ⟨S_, .i32⟩) select,
    StableHlo.TRef.unary (.of main_call35_v2 : StableHlo.TRef sig ⟨S_, .i32⟩) (.of main_call35_v3 : StableHlo.TRef sig ⟨S1, .i32⟩) (broadcastInDim S1 ![] bcast_S_S1),
    StableHlo.TRef.nullary (.of main_call35_c_1 : StableHlo.TRef sig ⟨S1, .i32⟩) (constantI S1 32 1#32),
    StableHlo.TRef.unary (.of main_call35_v3 : StableHlo.TRef sig ⟨S1, .i32⟩) (.of main_call35_v4 : StableHlo.TRef sig ⟨S1, .i32⟩) id,
    StableHlo.TRef.nullary (.of main_call35_c_2 : StableHlo.TRef sig ⟨S_, .i32⟩) (constantI S_ 32 0#32),
    StableHlo.TRef.unary (.of main_call35_c_2 : StableHlo.TRef sig ⟨S_, .i32⟩) (.of main_call35_v5 : StableHlo.TRef sig ⟨S1, .i32⟩) (broadcastInDim S1 ![] bcast_S_S1),
    StableHlo.TRef.binary (.of main_call35_v4 : StableHlo.TRef sig ⟨S1, .i32⟩) (.of main_call35_v5 : StableHlo.TRef sig ⟨S1, .i32⟩) (.of main_call35_v6 : StableHlo.TRef sig ⟨S1, .i1⟩) (cmpi .sge),
    StableHlo.TRef.binary (.of main_call35_v4 : StableHlo.TRef sig ⟨S1, .i32⟩) (.of main_call35_c_1 : StableHlo.TRef sig ⟨S1, .i32⟩) (.of main_call35_v7 : StableHlo.TRef sig ⟨S1, .i1⟩) (cmpi .sle),
    StableHlo.TRef.binary (.of main_call35_v6 : StableHlo.TRef sig ⟨S1, .i1⟩) (.of main_call35_v7 : StableHlo.TRef sig ⟨S1, .i1⟩) (.of main_call35_v8 : StableHlo.TRef sig ⟨S1, .i1⟩) andi,
    StableHlo.TRef.nullary (.of main_call35_c_3 : StableHlo.TRef sig ⟨S_, .i1⟩) (constantI S_ 1 1#1),
    StableHlo.TRef.binary (.of main_call35_v8 : StableHlo.TRef sig ⟨S1, .i1⟩) (.of main_call35_c_3 : StableHlo.TRef sig ⟨S_, .i1⟩) (.of main_call35_v9 : StableHlo.TRef sig ⟨S_, .i1⟩) (fun x v => Host.reduce IntOp.andi x v reducesTo_S1_S_d0 h_S_),
    StableHlo.TRef.binary (.of main_v300 : StableHlo.TRef sig ⟨S16384x2x2x2x2x2x2x2x2, .f32⟩) (.of main_call35_v4 : StableHlo.TRef sig ⟨S1, .i32⟩) (.of main_call35_v10 : StableHlo.TRef sig ⟨S16384x2x2x2x2x2x2x2, .f32⟩) (fun x i => Host.gather gather_S16384x2x2x2x2x2x2x2x2_S1_S16384x2x2x2x2x2x2x2_01234567_7_n_n_7_0_1638422222212 x i),
    StableHlo.TRef.unary (.of main_call35_v9 : StableHlo.TRef sig ⟨S_, .i1⟩) (.of main_call35_v11 : StableHlo.TRef sig ⟨S16384x2x2x2x2x2x2x2, .i1⟩) (broadcastInDim S16384x2x2x2x2x2x2x2 ![] bcast_S_S16384x2x2x2x2x2x2x2),
    StableHlo.TRef.nullary (.of main_call35_cst : StableHlo.TRef sig ⟨S_, .f32⟩) (constant S_ .f32 0x7FC00000#32),
    StableHlo.TRef.unary (.of main_call35_cst : StableHlo.TRef sig ⟨S_, .f32⟩) (.of main_call35_v12 : StableHlo.TRef sig ⟨S16384x2x2x2x2x2x2x2, .f32⟩) (broadcastInDim S16384x2x2x2x2x2x2x2 ![] bcast_S_S16384x2x2x2x2x2x2x2),
    StableHlo.TRef.ternary (.of main_call35_v11 : StableHlo.TRef sig ⟨S16384x2x2x2x2x2x2x2, .i1⟩) (.of main_call35_v10 : StableHlo.TRef sig ⟨S16384x2x2x2x2x2x2x2, .f32⟩) (.of main_call35_v12 : StableHlo.TRef sig ⟨S16384x2x2x2x2x2x2x2, .f32⟩) (.of main_v307 : StableHlo.TRef sig ⟨S16384x2x2x2x2x2x2x2, .f32⟩) select,
    StableHlo.nullary main_c_52 (constantI S_ 32 1#32),
    StableHlo.TRef.nullary (.of main_call36_c : StableHlo.TRef sig ⟨S_, .i32⟩) (constantI S_ 32 0#32),
    StableHlo.TRef.binary (.of main_c_52 : StableHlo.TRef sig ⟨S_, .i32⟩) (.of main_call36_c : StableHlo.TRef sig ⟨S_, .i32⟩) (.of main_call36_v0 : StableHlo.TRef sig ⟨S_, .i1⟩) (cmpi .slt),
    StableHlo.TRef.nullary (.of main_call36_c_0 : StableHlo.TRef sig ⟨S_, .i32⟩) (constantI S_ 32 2#32),
    StableHlo.TRef.binary (.of main_c_52 : StableHlo.TRef sig ⟨S_, .i32⟩) (.of main_call36_c_0 : StableHlo.TRef sig ⟨S_, .i32⟩) (.of main_call36_v1 : StableHlo.TRef sig ⟨S_, .i32⟩) addi,
    StableHlo.TRef.ternary (.of main_call36_v0 : StableHlo.TRef sig ⟨S_, .i1⟩) (.of main_call36_v1 : StableHlo.TRef sig ⟨S_, .i32⟩) (.of main_c_52 : StableHlo.TRef sig ⟨S_, .i32⟩) (.of main_call36_v2 : StableHlo.TRef sig ⟨S_, .i32⟩) select,
    StableHlo.TRef.unary (.of main_call36_v2 : StableHlo.TRef sig ⟨S_, .i32⟩) (.of main_call36_v3 : StableHlo.TRef sig ⟨S1, .i32⟩) (broadcastInDim S1 ![] bcast_S_S1),
    StableHlo.TRef.nullary (.of main_call36_c_1 : StableHlo.TRef sig ⟨S1, .i32⟩) (constantI S1 32 1#32),
    StableHlo.TRef.unary (.of main_call36_v3 : StableHlo.TRef sig ⟨S1, .i32⟩) (.of main_call36_v4 : StableHlo.TRef sig ⟨S1, .i32⟩) id,
    StableHlo.TRef.nullary (.of main_call36_c_2 : StableHlo.TRef sig ⟨S_, .i32⟩) (constantI S_ 32 0#32),
    StableHlo.TRef.unary (.of main_call36_c_2 : StableHlo.TRef sig ⟨S_, .i32⟩) (.of main_call36_v5 : StableHlo.TRef sig ⟨S1, .i32⟩) (broadcastInDim S1 ![] bcast_S_S1),
    StableHlo.TRef.binary (.of main_call36_v4 : StableHlo.TRef sig ⟨S1, .i32⟩) (.of main_call36_v5 : StableHlo.TRef sig ⟨S1, .i32⟩) (.of main_call36_v6 : StableHlo.TRef sig ⟨S1, .i1⟩) (cmpi .sge),
    StableHlo.TRef.binary (.of main_call36_v4 : StableHlo.TRef sig ⟨S1, .i32⟩) (.of main_call36_c_1 : StableHlo.TRef sig ⟨S1, .i32⟩) (.of main_call36_v7 : StableHlo.TRef sig ⟨S1, .i1⟩) (cmpi .sle),
    StableHlo.TRef.binary (.of main_call36_v6 : StableHlo.TRef sig ⟨S1, .i1⟩) (.of main_call36_v7 : StableHlo.TRef sig ⟨S1, .i1⟩) (.of main_call36_v8 : StableHlo.TRef sig ⟨S1, .i1⟩) andi,
    StableHlo.TRef.nullary (.of main_call36_c_3 : StableHlo.TRef sig ⟨S_, .i1⟩) (constantI S_ 1 1#1),
    StableHlo.TRef.binary (.of main_call36_v8 : StableHlo.TRef sig ⟨S1, .i1⟩) (.of main_call36_c_3 : StableHlo.TRef sig ⟨S_, .i1⟩) (.of main_call36_v9 : StableHlo.TRef sig ⟨S_, .i1⟩) (fun x v => Host.reduce IntOp.andi x v reducesTo_S1_S_d0 h_S_),
    StableHlo.TRef.binary (.of main_v300 : StableHlo.TRef sig ⟨S16384x2x2x2x2x2x2x2x2, .f32⟩) (.of main_call36_v4 : StableHlo.TRef sig ⟨S1, .i32⟩) (.of main_call36_v10 : StableHlo.TRef sig ⟨S16384x2x2x2x2x2x2x2, .f32⟩) (fun x i => Host.gather gather_S16384x2x2x2x2x2x2x2x2_S1_S16384x2x2x2x2x2x2x2_01234567_7_n_n_7_0_1638422222212 x i),
    StableHlo.TRef.unary (.of main_call36_v9 : StableHlo.TRef sig ⟨S_, .i1⟩) (.of main_call36_v11 : StableHlo.TRef sig ⟨S16384x2x2x2x2x2x2x2, .i1⟩) (broadcastInDim S16384x2x2x2x2x2x2x2 ![] bcast_S_S16384x2x2x2x2x2x2x2),
    StableHlo.TRef.nullary (.of main_call36_cst : StableHlo.TRef sig ⟨S_, .f32⟩) (constant S_ .f32 0x7FC00000#32),
    StableHlo.TRef.unary (.of main_call36_cst : StableHlo.TRef sig ⟨S_, .f32⟩) (.of main_call36_v12 : StableHlo.TRef sig ⟨S16384x2x2x2x2x2x2x2, .f32⟩) (broadcastInDim S16384x2x2x2x2x2x2x2 ![] bcast_S_S16384x2x2x2x2x2x2x2),
    StableHlo.TRef.ternary (.of main_call36_v11 : StableHlo.TRef sig ⟨S16384x2x2x2x2x2x2x2, .i1⟩) (.of main_call36_v10 : StableHlo.TRef sig ⟨S16384x2x2x2x2x2x2x2, .f32⟩) (.of main_call36_v12 : StableHlo.TRef sig ⟨S16384x2x2x2x2x2x2x2, .f32⟩) (.of main_v308 : StableHlo.TRef sig ⟨S16384x2x2x2x2x2x2x2, .f32⟩) select,
    StableHlo.unary main_v304 main_v309 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v309 main_v307 main_v310 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v306 main_v311 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v311 main_v308 main_v312 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.binary main_v310 main_v312 main_v313 (subf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v306 main_v314 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v314 main_v307 main_v315 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v304 main_v316 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v316 main_v308 main_v317 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.binary main_v315 main_v317 main_v318 (addf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v313 main_v319 (broadcastInDim S16384x2x2x2x2x2x2x1x2 ![0, 1, 2, 3, 4, 5, 6, 8] bcast_S16384x2x2x2x2x2x2x2_S16384x2x2x2x2x2x2x1x2_0_1_2_3_4_5_6_8 : (⟨S16384x2x2x2x2x2x2x2, .f32⟩ : BufTy).Contents (Elt F) → (⟨S16384x2x2x2x2x2x2x1x2, .f32⟩ : BufTy).Contents (Elt F)),
    StableHlo.unary main_v318 main_v320 (broadcastInDim S16384x2x2x2x2x2x2x1x2 ![0, 1, 2, 3, 4, 5, 6, 8] bcast_S16384x2x2x2x2x2x2x2_S16384x2x2x2x2x2x2x1x2_0_1_2_3_4_5_6_8 : (⟨S16384x2x2x2x2x2x2x2, .f32⟩ : BufTy).Contents (Elt F) → (⟨S16384x2x2x2x2x2x2x1x2, .f32⟩ : BufTy).Contents (Elt F)),
    StableHlo.binary main_v319 main_v320 main_v321 ((fun a b => concatenate S16384x2x2x2x2x2x2x2x2 7 [⟨S16384x2x2x2x2x2x2x1x2, a⟩, ⟨S16384x2x2x2x2x2x2x1x2, b⟩] concatenates_S16384x2x2x2x2x2x2x1x2_S16384x2x2x2x2x2x2x1x2_S16384x2x2x2x2x2x2x2x2_d7) : (⟨S16384x2x2x2x2x2x2x1x2, .f32⟩ : BufTy).Contents (Elt F) → (⟨S16384x2x2x2x2x2x2x1x2, .f32⟩ : BufTy).Contents (Elt F) → (⟨S16384x2x2x2x2x2x2x2x2, .f32⟩ : BufTy).Contents (Elt F)) ]

end Lists

-- the layout operations stay folded while the fold of the host operations is opened
attribute [local irreducible] Host.gather Host.reduce concatenate broadcastInDim Host.reverse shapeCast extractStridedSlice

set_option maxHeartbeats 1600000 in
theorem gate9 (W : Valuation τ sig (Elt Ideal)) :
    after (G9 (F := Ideal)) W (main_v204 : DevRef τ sig)
      = Cert.TTN.Gates.cxTerm (s := S16384x2x2x2x2x2x2x2x2) (t := S16384x2x2x2x2x2x2x2) (u := S16384x1x2x2x2x2x2x2x2) 1 1 ![0, 2, 3, 4, 5, 6, 7, 8] gather_S16384x2x2x2x2x2x2x2x2_S1_S16384x2x2x2x2x2x2x2_01234567_1_n_n_1_0_1638412222222 bcast_S_S1 bcast_S_S16384x2x2x2x2x2x2x2 reducesTo_S1_S_d0 h_S_ bcast_S16384x2x2x2x2x2x2x2_S16384x1x2x2x2x2x2x2x2_0_2_3_4_5_6_7_8 concatenates_S16384x1x2x2x2x2x2x2x2_S16384x1x2x2x2x2x2x2x2_S16384x2x2x2x2x2x2x2x2_d1
        (W (main_v198 : DevRef τ sig)) := by
  simp only [after_cons, after_nil]
  rfl

set_option maxHeartbeats 1600000 in
theorem gate9_arg3 (W : Valuation τ sig (Elt Ideal)) :
    after (G9 (F := Ideal)) W (main_arg3 : DevRef τ sig) = W (main_arg3 : DevRef τ sig) := by
  simp only [after_cons, after_nil]
  rfl

set_option maxHeartbeats 1600000 in
theorem gate10 (W : Valuation τ sig (Elt Ideal)) :
    after (G10 (F := Ideal)) W (main_v225 : DevRef τ sig)
      = Cert.TTN.Gates.ryTerm (s := S16384x2x2x2x2x2x2x2x2) (t := S16384x2x2x2x2x2x2x2) (u := S16384x2x2x1x2x2x2x2x2) 3 ![0, 1, 2, 4, 5, 6, 7, 8] gather_S16384x2x2x2x2x2x2x2x2_S1_S16384x2x2x2x2x2x2x2_01234567_3_n_n_3_0_1638422122222 bcast_S_S1 bcast_S_S16384x2x2x2x2x2x2x2 reducesTo_S1_S_d0 h_S_ bcast_S16384x2x2x2x2x2x2x2_S16384x2x2x1x2x2x2x2x2_0_1_2_4_5_6_7_8 concatenates_S16384x2x2x1x2x2x2x2x2_S16384x2x2x1x2x2x2x2x2_S16384x2x2x2x2x2x2x2x2_d3
        (W (main_v204 : DevRef τ sig)) (shapeCast S_ (extractStridedSlice S1 ![6] (W (main_arg3 : DevRef τ sig)) slices_S21_S1_6) shapeCasts_S1_S_) := by
  simp only [after_cons, after_nil]
  rfl

set_option maxHeartbeats 1600000 in
theorem gate10_arg3 (W : Valuation τ sig (Elt Ideal)) :
    after (G10 (F := Ideal)) W (main_arg3 : DevRef τ sig) = W (main_arg3 : DevRef τ sig) := by
  simp only [after_cons, after_nil]
  rfl

set_option maxHeartbeats 1600000 in
theorem gate11 (W : Valuation τ sig (Elt Ideal)) :
    after (G11 (F := Ideal)) W (main_v246 : DevRef τ sig)
      = Cert.TTN.Gates.ryTerm (s := S16384x2x2x2x2x2x2x2x2) (t := S16384x2x2x2x2x2x2x2) (u := S16384x2x2x2x1x2x2x2x2) 4 ![0, 1, 2, 3, 5, 6, 7, 8] gather_S16384x2x2x2x2x2x2x2x2_S1_S16384x2x2x2x2x2x2x2_01234567_4_n_n_4_0_1638422212222 bcast_S_S1 bcast_S_S16384x2x2x2x2x2x2x2 reducesTo_S1_S_d0 h_S_ bcast_S16384x2x2x2x2x2x2x2_S16384x2x2x2x1x2x2x2x2_0_1_2_3_5_6_7_8 concatenates_S16384x2x2x2x1x2x2x2x2_S16384x2x2x2x1x2x2x2x2_S16384x2x2x2x2x2x2x2x2_d4
        (W (main_v225 : DevRef τ sig)) (shapeCast S_ (extractStridedSlice S1 ![7] (W (main_arg3 : DevRef τ sig)) slices_S21_S1_7) shapeCasts_S1_S_) := by
  simp only [after_cons, after_nil]
  rfl

set_option maxHeartbeats 1600000 in
theorem gate11_arg3 (W : Valuation τ sig (Elt Ideal)) :
    after (G11 (F := Ideal)) W (main_arg3 : DevRef τ sig) = W (main_arg3 : DevRef τ sig) := by
  simp only [after_cons, after_nil]
  rfl

set_option maxHeartbeats 1600000 in
theorem gate12 (W : Valuation τ sig (Elt Ideal)) :
    after (G12 (F := Ideal)) W (main_v252 : DevRef τ sig)
      = Cert.TTN.Gates.cxTerm (s := S16384x2x2x2x2x2x2x2x2) (t := S16384x2x2x2x2x2x2x2) (u := S16384x2x2x2x1x2x2x2x2) 4 3 ![0, 1, 2, 3, 5, 6, 7, 8] gather_S16384x2x2x2x2x2x2x2x2_S1_S16384x2x2x2x2x2x2x2_01234567_4_n_n_4_0_1638422212222 bcast_S_S1 bcast_S_S16384x2x2x2x2x2x2x2 reducesTo_S1_S_d0 h_S_ bcast_S16384x2x2x2x2x2x2x2_S16384x2x2x2x1x2x2x2x2_0_1_2_3_5_6_7_8 concatenates_S16384x2x2x2x1x2x2x2x2_S16384x2x2x2x1x2x2x2x2_S16384x2x2x2x2x2x2x2x2_d4
        (W (main_v246 : DevRef τ sig)) := by
  simp only [after_cons, after_nil]
  rfl

set_option maxHeartbeats 1600000 in
theorem gate12_arg3 (W : Valuation τ sig (Elt Ideal)) :
    after (G12 (F := Ideal)) W (main_arg3 : DevRef τ sig) = W (main_arg3 : DevRef τ sig) := by
  simp only [after_cons, after_nil]
  rfl

set_option maxHeartbeats 1600000 in
theorem gate13 (W : Valuation τ sig (Elt Ideal)) :
    after (G13 (F := Ideal)) W (main_v273 : DevRef τ sig)
      = Cert.TTN.Gates.ryTerm (s := S16384x2x2x2x2x2x2x2x2) (t := S16384x2x2x2x2x2x2x2) (u := S16384x2x2x2x2x1x2x2x2) 5 ![0, 1, 2, 3, 4, 6, 7, 8] gather_S16384x2x2x2x2x2x2x2x2_S1_S16384x2x2x2x2x2x2x2_01234567_5_n_n_5_0_1638422221222 bcast_S_S1 bcast_S_S16384x2x2x2x2x2x2x2 reducesTo_S1_S_d0 h_S_ bcast_S16384x2x2x2x2x2x2x2_S16384x2x2x2x2x1x2x2x2_0_1_2_3_4_6_7_8 concatenates_S16384x2x2x2x2x1x2x2x2_S16384x2x2x2x2x1x2x2x2_S16384x2x2x2x2x2x2x2x2_d5
        (W (main_v252 : DevRef τ sig)) (shapeCast S_ (extractStridedSlice S1 ![8] (W (main_arg3 : DevRef τ sig)) slices_S21_S1_8) shapeCasts_S1_S_) := by
  simp only [after_cons, after_nil]
  rfl

set_option maxHeartbeats 1600000 in
theorem gate13_arg3 (W : Valuation τ sig (Elt Ideal)) :
    after (G13 (F := Ideal)) W (main_arg3 : DevRef τ sig) = W (main_arg3 : DevRef τ sig) := by
  simp only [after_cons, after_nil]
  rfl

set_option maxHeartbeats 1600000 in
theorem gate14 (W : Valuation τ sig (Elt Ideal)) :
    after (G14 (F := Ideal)) W (main_v294 : DevRef τ sig)
      = Cert.TTN.Gates.ryTerm (s := S16384x2x2x2x2x2x2x2x2) (t := S16384x2x2x2x2x2x2x2) (u := S16384x2x2x2x2x2x1x2x2) 6 ![0, 1, 2, 3, 4, 5, 7, 8] gather_S16384x2x2x2x2x2x2x2x2_S1_S16384x2x2x2x2x2x2x2_01234567_6_n_n_6_0_1638422222122 bcast_S_S1 bcast_S_S16384x2x2x2x2x2x2x2 reducesTo_S1_S_d0 h_S_ bcast_S16384x2x2x2x2x2x2x2_S16384x2x2x2x2x2x1x2x2_0_1_2_3_4_5_7_8 concatenates_S16384x2x2x2x2x2x1x2x2_S16384x2x2x2x2x2x1x2x2_S16384x2x2x2x2x2x2x2x2_d6
        (W (main_v273 : DevRef τ sig)) (shapeCast S_ (extractStridedSlice S1 ![9] (W (main_arg3 : DevRef τ sig)) slices_S21_S1_9) shapeCasts_S1_S_) := by
  simp only [after_cons, after_nil]
  rfl

set_option maxHeartbeats 1600000 in
theorem gate14_arg3 (W : Valuation τ sig (Elt Ideal)) :
    after (G14 (F := Ideal)) W (main_arg3 : DevRef τ sig) = W (main_arg3 : DevRef τ sig) := by
  simp only [after_cons, after_nil]
  rfl

set_option maxHeartbeats 1600000 in
theorem gate15 (W : Valuation τ sig (Elt Ideal)) :
    after (G15 (F := Ideal)) W (main_v300 : DevRef τ sig)
      = Cert.TTN.Gates.cxTerm (s := S16384x2x2x2x2x2x2x2x2) (t := S16384x2x2x2x2x2x2x2) (u := S16384x2x2x2x2x1x2x2x2) 5 5 ![0, 1, 2, 3, 4, 6, 7, 8] gather_S16384x2x2x2x2x2x2x2x2_S1_S16384x2x2x2x2x2x2x2_01234567_5_n_n_5_0_1638422221222 bcast_S_S1 bcast_S_S16384x2x2x2x2x2x2x2 reducesTo_S1_S_d0 h_S_ bcast_S16384x2x2x2x2x2x2x2_S16384x2x2x2x2x1x2x2x2_0_1_2_3_4_6_7_8 concatenates_S16384x2x2x2x2x1x2x2x2_S16384x2x2x2x2x1x2x2x2_S16384x2x2x2x2x2x2x2x2_d5
        (W (main_v294 : DevRef τ sig)) := by
  simp only [after_cons, after_nil]
  rfl

set_option maxHeartbeats 1600000 in
theorem gate15_arg3 (W : Valuation τ sig (Elt Ideal)) :
    after (G15 (F := Ideal)) W (main_arg3 : DevRef τ sig) = W (main_arg3 : DevRef τ sig) := by
  simp only [after_cons, after_nil]
  rfl

set_option maxHeartbeats 1600000 in
theorem gate16 (W : Valuation τ sig (Elt Ideal)) :
    after (G16 (F := Ideal)) W (main_v321 : DevRef τ sig)
      = Cert.TTN.Gates.ryTerm (s := S16384x2x2x2x2x2x2x2x2) (t := S16384x2x2x2x2x2x2x2) (u := S16384x2x2x2x2x2x2x1x2) 7 ![0, 1, 2, 3, 4, 5, 6, 8] gather_S16384x2x2x2x2x2x2x2x2_S1_S16384x2x2x2x2x2x2x2_01234567_7_n_n_7_0_1638422222212 bcast_S_S1 bcast_S_S16384x2x2x2x2x2x2x2 reducesTo_S1_S_d0 h_S_ bcast_S16384x2x2x2x2x2x2x2_S16384x2x2x2x2x2x2x1x2_0_1_2_3_4_5_6_8 concatenates_S16384x2x2x2x2x2x2x1x2_S16384x2x2x2x2x2x2x1x2_S16384x2x2x2x2x2x2x2x2_d7
        (W (main_v300 : DevRef τ sig)) (shapeCast S_ (extractStridedSlice S1 ![10] (W (main_arg3 : DevRef τ sig)) slices_S21_S1_10) shapeCasts_S1_S_) := by
  simp only [after_cons, after_nil]
  rfl

set_option maxHeartbeats 1600000 in
theorem gate16_arg3 (W : Valuation τ sig (Elt Ideal)) :
    after (G16 (F := Ideal)) W (main_arg3 : DevRef τ sig) = W (main_arg3 : DevRef τ sig) := by
  simp only [after_cons, after_nil]
  rfl

end Cert.TTN.RHost

end
-- ==== Proof.RHostG3.lean ====
/-
  Gates 17, 18, 19, 20, 21, 22, 23, 24 of the circuit as the host part of the reference runs them on the 16384 edge registers:
  for each gate, the stretch of host operations that computes it, and the fact that, from any buffer contents, the
  stretch leaves in the gate's result buffer the gate's term of the previous state (and of the parameter vector),
  and leaves the parameter vector alone.
-/
import proofs.«130987_j14276471292017_1_alg».proof.ReferenceIdeal
import proofs.«130987_j14276471292017_1_alg».proof.Proof.Gen.ReferenceIdeal
import proofs.«130987_j14276471292017_1_alg».proof.Proof.Gates
import Idealize.ShloMosaic.Lib.StableHlo.Run

set_option maxRecDepth 16384

noncomputable section

namespace Cert.TTN.RHost

open Idealize.ShloMosaic Idealize.ShloMosaic.TcCoe Idealize.SL.Sem Idealize.ShloMosaic.StableHlo
open Cert.ReferenceIdeal Cert.ReferenceIdeal.Gen

section Lists
variable {F : FTy → Type} [FloatOps F]

/-- The host operations of gate 17 (a rotation, parameter 11, axis 8). -/
abbrev G17 : List (HloOp τ sig (Elt F)) :=
  [ StableHlo.unary main_arg3 main_v322 ((extractStridedSlice S1 ![11] · slices_S21_S1_11) : (⟨S21, .f32⟩ : BufTy).Contents (Elt F) → (⟨S1, .f32⟩ : BufTy).Contents (Elt F)),
    StableHlo.reshape main_v322 main_v323 rfl shapeCasts_S1_S_,
    StableHlo.nullary main_cst_53 (constant S_ .f32 0x3F000000#32),
    StableHlo.binary main_cst_53 main_v323 main_v324 (mulf : (⟨S_, .f32⟩ : BufTy).Contents (Elt F) → (⟨S_, .f32⟩ : BufTy).Contents (Elt F) → (⟨S_, .f32⟩ : BufTy).Contents (Elt F)),
    StableHlo.unary main_v324 main_v325 (Host.cos : (⟨S_, .f32⟩ : BufTy).Contents (Elt F) → (⟨S_, .f32⟩ : BufTy).Contents (Elt F)),
    StableHlo.nullary main_cst_54 (constant S_ .f32 0x3F000000#32),
    StableHlo.binary main_cst_54 main_v323 main_v326 (mulf : (⟨S_, .f32⟩ : BufTy).Contents (Elt F) → (⟨S_, .f32⟩ : BufTy).Contents (Elt F) → (⟨S_, .f32⟩ : BufTy).Contents (Elt F)),
    StableHlo.unary main_v326 main_v327 (Host.sin : (⟨S_, .f32⟩ : BufTy).Contents (Elt F) → (⟨S_, .f32⟩ : BufTy).Contents (Elt F)),
    StableHlo.nullary main_c_55 (constantI S_ 32 0#32),
    StableHlo.TRef.nullary (.of main_call37_c : StableHlo.TRef sig ⟨S_, .i32⟩) (constantI S_ 32 0#32),
    StableHlo.TRef.binary (.of main_c_55 : StableHlo.TRef sig ⟨S_, .i32⟩) (.of main_call37_c : StableHlo.TRef sig ⟨S_, .i32⟩) (.of main_call37_v0 : StableHlo.TRef sig ⟨S_, .i1⟩) (cmpi .slt),
    StableHlo.TRef.nullary (.of main_call37_c_0 : StableHlo.TRef sig ⟨S_, .i32⟩) (constantI S_ 32 2#32),
    StableHlo.TRef.binary (.of main_c_55 : StableHlo.TRef sig ⟨S_, .i32⟩) (.of main_call37_c_0 : StableHlo.TRef sig ⟨S_, .i32⟩) (.of main_call37_v1 : StableHlo.TRef sig ⟨S_, .i32⟩) addi,
    StableHlo.TRef.ternary (.of main_call37_v0 : StableHlo.TRef sig ⟨S_, .i1⟩) (.of main_call37_v1 : StableHlo.TRef sig ⟨S_, .i32⟩) (.of main_c_55 : StableHlo.TRef sig ⟨S_, .i32⟩) (.of main_call37_v2 : StableHlo.TRef sig ⟨S_, .i32⟩) select,
    StableHlo.TRef.unary (.of main_call37_v2 : StableHlo.TRef sig ⟨S_, .i32⟩) (.of main_call37_v3 : StableHlo.TRef sig ⟨S1, .i32⟩) (broadcastInDim S1 ![] bcast_S_S1),
    StableHlo.TRef.nullary (.of main_call37_c_1 : StableHlo.TRef sig ⟨S1, .i32⟩) (constantI S1 32 1#32),
    StableHlo.TRef.unary (.of main_call37_v3 : StableHlo.TRef sig ⟨S1, .i32⟩) (.of main_call37_v4 : StableHlo.TRef sig ⟨S1, .i32⟩) id,
    StableHlo.TRef.nullary (.of main_call37_c_2 : StableHlo.TRef sig ⟨S_, .i32⟩) (constantI S_ 32 0#32),
    StableHlo.TRef.unary (.of main_call37_c_2 : StableHlo.TRef sig ⟨S_, .i32⟩) (.of main_call37_v5 : StableHlo.TRef sig ⟨S1, .i32⟩) (broadcastInDim S1 ![] bcast_S_S1),
    StableHlo.TRef.binary (.of main_call37_v4 : StableHlo.TRef sig ⟨S1, .i32⟩) (.of main_call37_v5 : StableHlo.TRef sig ⟨S1, .i32⟩) (.of main_call37_v6 : StableHlo.TRef sig ⟨S1, .i1⟩) (cmpi .sge),
    StableHlo.TRef.binary (.of main_call37_v4 : StableHlo.TRef sig ⟨S1, .i32⟩) (.of main_call37_c_1 : StableHlo.TRef sig ⟨S1, .i32⟩) (.of main_call37_v7 : StableHlo.TRef sig ⟨S1, .i1⟩) (cmpi .sle),
    StableHlo.TRef.binary (.of main_call37_v6 : StableHlo.TRef sig ⟨S1, .i1⟩) (.of main_call37_v7 : StableHlo.TRef sig ⟨S1, .i1⟩) (.of main_call37_v8 : StableHlo.TRef sig ⟨S1, .i1⟩) andi,
    StableHlo.TRef.nullary (.of main_call37_c_3 : StableHlo.TRef sig ⟨S_, .i1⟩) (constantI S_ 1 1#1),
    StableHlo.TRef.binary (.of main_call37_v8 : StableHlo.TRef sig ⟨S1, .i1⟩) (.of main_call37_c_3 : StableHlo.TRef sig ⟨S_, .i1⟩) (.of main_call37_v9 : StableHlo.TRef sig ⟨S_, .i1⟩) (fun x v => Host.reduce IntOp.andi x v reducesTo_S1_S_d0 h_S_),
    StableHlo.TRef.binary (.of main_v321 : StableHlo.TRef sig ⟨S16384x2x2x2x2x2x2x2x2, .f32⟩) (.of main_call37_v4 : StableHlo.TRef sig ⟨S1, .i32⟩) (.of main_call37_v10 : StableHlo.TRef sig ⟨S16384x2x2x2x2x2x2x2, .f32⟩) (fun x i => Host.gather gather_S16384x2x2x2x2x2x2x2x2_S1_S16384x2x2x2x2x2x2x2_01234567_8_n_n_8_0_1638422222221 x i),
    StableHlo.TRef.unary (.of main_call37_v9 : StableHlo.TRef sig ⟨S_, .i1⟩) (.of main_call37_v11 : StableHlo.TRef sig ⟨S16384x2x2x2x2x2x2x2, .i1⟩) (broadcastInDim S16384x2x2x2x2x2x2x2 ![] bcast_S_S16384x2x2x2x2x2x2x2),
    StableHlo.TRef.nullary (.of main_call37_cst : StableHlo.TRef sig ⟨S_, .f32⟩) (constant S_ .f32 0x7FC00000#32),
    StableHlo.TRef.unary (.of main_call37_cst : StableHlo.TRef sig ⟨S_, .f32⟩) (.of main_call37_v12 : StableHlo.TRef sig ⟨S16384x2x2x2x2x2x2x2, .f32⟩) (broadcastInDim S16384x2x2x2x2x2x2x2 ![] bcast_S_S16384x2x2x2x2x2x2x2),
    StableHlo.TRef.ternary (.of main_call37_v11 : StableHlo.TRef sig ⟨S16384x2x2x2x2x2x2x2, .i1⟩) (.of main_call37_v10 : StableHlo.TRef sig ⟨S16384x2x2x2x2x2x2x2, .f32⟩) (.of main_call37_v12 : StableHlo.TRef sig ⟨S16384x2x2x2x2x2x2x2, .f32⟩) (.of main_v328 : StableHlo.TRef sig ⟨S16384x2x2x2x2x2x2x2, .f32⟩) select,
    StableHlo.nullary main_c_56 (constantI S_ 32 1#32),
    StableHlo.TRef.nullary (.of main_call38_c : StableHlo.TRef sig ⟨S_, .i32⟩) (constantI S_ 32 0#32),
    StableHlo.TRef.binary (.of main_c_56 : StableHlo.TRef sig ⟨S_, .i32⟩) (.of main_call38_c : StableHlo.TRef sig ⟨S_, .i32⟩) (.of main_call38_v0 : StableHlo.TRef sig ⟨S_, .i1⟩) (cmpi .slt),
    StableHlo.TRef.nullary (.of main_call38_c_0 : StableHlo.TRef sig ⟨S_, .i32⟩) (constantI S_ 32 2#32),
    StableHlo.TRef.binary (.of main_c_56 : StableHlo.TRef sig ⟨S_, .i32⟩) (.of main_call38_c_0 : StableHlo.TRef sig ⟨S_, .i32⟩) (.of main_call38_v1 : StableHlo.TRef sig ⟨S_, .i32⟩) addi,
    StableHlo.TRef.ternary (.of main_call38_v0 : StableHlo.TRef sig ⟨S_, .i1⟩) (.of main_call38_v1 : StableHlo.TRef sig ⟨S_, .i32⟩) (.of main_c_56 : StableHlo.TRef sig ⟨S_, .i32⟩) (.of main_call38_v2 : StableHlo.TRef sig ⟨S_, .i32⟩) select,
    StableHlo.TRef.unary (.of main_call38_v2 : StableHlo.TRef sig ⟨S_, .i32⟩) (.of main_call38_v3 : StableHlo.TRef sig ⟨S1, .i32⟩) (broadcastInDim S1 ![] bcast_S_S1),
    StableHlo.TRef.nullary (.of main_call38_c_1 : StableHlo.TRef sig ⟨S1, .i32⟩) (constantI S1 32 1#32),
    StableHlo.TRef.unary (.of main_call38_v3 : StableHlo.TRef sig ⟨S1, .i32⟩) (.of main_call38_v4 : StableHlo.TRef sig ⟨S1, .i32⟩) id,
    StableHlo.TRef.nullary (.of main_call38_c_2 : StableHlo.TRef sig ⟨S_, .i32⟩) (constantI S_ 32 0#32),
    StableHlo.TRef.unary (.of main_call38_c_2 : StableHlo.TRef sig ⟨S_, .i32⟩) (.of main_call38_v5 : StableHlo.TRef sig ⟨S1, .i32⟩) (broadcastInDim S1 ![] bcast_S_S1),
    StableHlo.TRef.binary (.of main_call38_v4 : StableHlo.TRef sig ⟨S1, .i32⟩) (.of main_call38_v5 : StableHlo.TRef sig ⟨S1, .i32⟩) (.of main_call38_v6 : StableHlo.TRef sig ⟨S1, .i1⟩) (cmpi .sge),
    StableHlo.TRef.binary (.of main_call38_v4 : StableHlo.TRef sig ⟨S1, .i32⟩) (.of main_call38_c_1 : StableHlo.TRef sig ⟨S1, .i32⟩) (.of main_call38_v7 : StableHlo.TRef sig ⟨S1, .i1⟩) (cmpi .sle),
    StableHlo.TRef.binary (.of main_call38_v6 : StableHlo.TRef sig ⟨S1, .i1⟩) (.of main_call38_v7 : StableHlo.TRef sig ⟨S1, .i1⟩) (.of main_call38_v8 : StableHlo.TRef sig ⟨S1, .i1⟩) andi,
    StableHlo.TRef.nullary (.of main_call38_c_3 : StableHlo.TRef sig ⟨S_, .i1⟩) (constantI S_ 1 1#1),
    StableHlo.TRef.binary (.of main_call38_v8 : StableHlo.TRef sig ⟨S1, .i1⟩) (.of main_call38_c_3 : StableHlo.TRef sig ⟨S_, .i1⟩) (.of main_call38_v9 : StableHlo.TRef sig ⟨S_, .i1⟩) (fun x v => Host.reduce IntOp.andi x v reducesTo_S1_S_d0 h_S_),
    StableHlo.TRef.binary (.of main_v321 : StableHlo.TRef sig ⟨S16384x2x2x2x2x2x2x2x2, .f32⟩) (.of main_call38_v4 : StableHlo.TRef sig ⟨S1, .i32⟩) (.of main_call38_v10 : StableHlo.TRef sig ⟨S16384x2x2x2x2x2x2x2, .f32⟩) (fun x i => Host.gather gather_S16384x2x2x2x2x2x2x2x2_S1_S16384x2x2x2x2x2x2x2_01234567_8_n_n_8_0_1638422222221 x i),
    StableHlo.TRef.unary (.of main_call38_v9 : StableHlo.TRef sig ⟨S_, .i1⟩) (.of main_call38_v11 : StableHlo.TRef sig ⟨S16384x2x2x2x2x2x2x2, .i1⟩) (broadcastInDim S16384x2x2x2x2x2x2x2 ![] bcast_S_S16384x2x2x2x2x2x2x2),
    StableHlo.TRef.nullary (.of main_call38_cst : StableHlo.TRef sig ⟨S_, .f32⟩) (constant S_ .f32 0x7FC00000#32),
    StableHlo.TRef.unary (.of main_call38_cst : StableHlo.TRef sig ⟨S_, .f32⟩) (.of main_call38_v12 : StableHlo.TRef sig ⟨S16384x2x2x2x2x2x2x2, .f32⟩) (broadcastInDim S16384x2x2x2x2x2x2x2 ![] bcast_S_S16384x2x2x2x2x2x2x2),
    StableHlo.TRef.ternary (.of main_call38_v11 : StableHlo.TRef sig ⟨S16384x2x2x2x2x2x2x2, .i1⟩) (.of main_call38_v10 : StableHlo.TRef sig ⟨S16384x2x2x2x2x2x2x2, .f32⟩) (.of main_call38_v12 : StableHlo.TRef sig ⟨S16384x2x2x2x2x2x2x2, .f32⟩) (.of main_v329 : StableHlo.TRef sig ⟨S16384x2x2x2x2x2x2x2, .f32⟩) select,
    StableHlo.unary main_v325 main_v330 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v330 main_v328 main_v331 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v327 main_v332 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v332 main_v329 main_v333 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.binary main_v331 main_v333 main_v334 (subf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v327 main_v335 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v335 main_v328 main_v336 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v325 main_v337 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v337 main_v329 main_v338 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.binary main_v336 main_v338 main_v339 (addf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v334 main_v340 (broadcastInDim S16384x2x2x2x2x2x2x2x1 ![0, 1, 2, 3, 4, 5, 6, 7] bcast_S16384x2x2x2x2x2x2x2_S16384x2x2x2x2x2x2x2x1_0_1_2_3_4_5_6_7 : (⟨S16384x2x2x2x2x2x2x2, .f32⟩ : BufTy).Contents (Elt F) → (⟨S16384x2x2x2x2x2x2x2x1, .f32⟩ : BufTy).Contents (Elt F)),
    StableHlo.unary main_v339 main_v341 (broadcastInDim S16384x2x2x2x2x2x2x2x1 ![0, 1, 2, 3, 4, 5, 6, 7] bcast_S16384x2x2x2x2x2x2x2_S16384x2x2x2x2x2x2x2x1_0_1_2_3_4_5_6_7 : (⟨S16384x2x2x2x2x2x2x2, .f32⟩ : BufTy).Contents (Elt F) → (⟨S16384x2x2x2x2x2x2x2x1, .f32⟩ : BufTy).Contents (Elt F)),
    StableHlo.binary main_v340 main_v341 main_v342 ((fun a b => concatenate S16384x2x2x2x2x2x2x2x2 8 [⟨S16384x2x2x2x2x2x2x2x1, a⟩, ⟨S16384x2x2x2x2x2x2x2x1, b⟩] concatenates_S16384x2x2x2x2x2x2x2x1_S16384x2x2x2x2x2x2x2x1_S16384x2x2x2x2x2x2x2x2_d8) : (⟨S16384x2x2x2x2x2x2x2x1, .f32⟩ : BufTy).Contents (Elt F) → (⟨S16384x2x2x2x2x2x2x2x1, .f32⟩ : BufTy).Contents (Elt F) → (⟨S16384x2x2x2x2x2x2x2x2, .f32⟩ : BufTy).Contents (Elt F)) ]

/-- The host operations of gate 18 (a controlled flip, axis 8). -/
abbrev G18 : List (HloOp τ sig (Elt F)) :=
  [ StableHlo.nullary main_c_57 (constantI S_ 32 0#32),
    StableHlo.TRef.nullary (.of main_call39_c : StableHlo.TRef sig ⟨S_, .i32⟩) (constantI S_ 32 0#32),
    StableHlo.TRef.binary (.of main_c_57 : StableHlo.TRef sig ⟨S_, .i32⟩) (.of main_call39_c : StableHlo.TRef sig ⟨S_, .i32⟩) (.of main_call39_v0 : StableHlo.TRef sig ⟨S_, .i1⟩) (cmpi .slt),
    StableHlo.TRef.nullary (.of main_call39_c_0 : StableHlo.TRef sig ⟨S_, .i32⟩) (constantI S_ 32 2#32),
    StableHlo.TRef.binary (.of main_c_57 : StableHlo.TRef sig ⟨S_, .i32⟩) (.of main_call39_c_0 : StableHlo.TRef sig ⟨S_, .i32⟩) (.of main_call39_v1 : StableHlo.TRef sig ⟨S_, .i32⟩) addi,
    StableHlo.TRef.ternary (.of main_call39_v0 : StableHlo.TRef sig ⟨S_, .i1⟩) (.of main_call39_v1 : StableHlo.TRef sig ⟨S_, .i32⟩) (.of main_c_57 : StableHlo.TRef sig ⟨S_, .i32⟩) (.of main_call39_v2 : StableHlo.TRef sig ⟨S_, .i32⟩) select,
    StableHlo.TRef.unary (.of main_call39_v2 : StableHlo.TRef sig ⟨S_, .i32⟩) (.of main_call39_v3 : StableHlo.TRef sig ⟨S1, .i32⟩) (broadcastInDim S1 ![] bcast_S_S1),
    StableHlo.TRef.nullary (.of main_call39_c_1 : StableHlo.TRef sig ⟨S1, .i32⟩) (constantI S1 32 1#32),
    StableHlo.TRef.unary (.of main_call39_v3 : StableHlo.TRef sig ⟨S1, .i32⟩) (.of main_call39_v4 : StableHlo.TRef sig ⟨S1, .i32⟩) id,
    StableHlo.TRef.nullary (.of main_call39_c_2 : StableHlo.TRef sig ⟨S_, .i32⟩) (constantI S_ 32 0#32),
    StableHlo.TRef.unary (.of main_call39_c_2 : StableHlo.TRef sig ⟨S_, .i32⟩) (.of main_call39_v5 : StableHlo.TRef sig ⟨S1, .i32⟩) (broadcastInDim S1 ![] bcast_S_S1),
    StableHlo.TRef.binary (.of main_call39_v4 : StableHlo.TRef sig ⟨S1, .i32⟩) (.of main_call39_v5 : StableHlo.TRef sig ⟨S1, .i32⟩) (.of main_call39_v6 : StableHlo.TRef sig ⟨S1, .i1⟩) (cmpi .sge),
    StableHlo.TRef.binary (.of main_call39_v4 : StableHlo.TRef sig ⟨S1, .i32⟩) (.of main_call39_c_1 : StableHlo.TRef sig ⟨S1, .i32⟩) (.of main_call39_v7 : StableHlo.TRef sig ⟨S1, .i1⟩) (cmpi .sle),
    StableHlo.TRef.binary (.of main_call39_v6 : StableHlo.TRef sig ⟨S1, .i1⟩) (.of main_call39_v7 : StableHlo.TRef sig ⟨S1, .i1⟩) (.of main_call39_v8 : StableHlo.TRef sig ⟨S1, .i1⟩) andi,
    StableHlo.TRef.nullary (.of main_call39_c_3 : StableHlo.TRef sig ⟨S_, .i1⟩) (constantI S_ 1 1#1),
    StableHlo.TRef.binary (.of main_call39_v8 : StableHlo.TRef sig ⟨S1, .i1⟩) (.of main_call39_c_3 : StableHlo.TRef sig ⟨S_, .i1⟩) (.of main_call39_v9 : StableHlo.TRef sig ⟨S_, .i1⟩) (fun x v => Host.reduce IntOp.andi x v reducesTo_S1_S_d0 h_S_),
    StableHlo.TRef.binary (.of main_v342 : StableHlo.TRef sig ⟨S16384x2x2x2x2x2x2x2x2, .f32⟩) (.of main_call39_v4 : StableHlo.TRef sig ⟨S1, .i32⟩) (.of main_call39_v10 : StableHlo.TRef sig ⟨S16384x2x2x2x2x2x2x2, .f32⟩) (fun x i => Host.gather gather_S16384x2x2x2x2x2x2x2x2_S1_S16384x2x2x2x2x2x2x2_01234567_8_n_n_8_0_1638422222221 x i),
    StableHlo.TRef.unary (.of main_call39_v9 : StableHlo.TRef sig ⟨S_, .i1⟩) (.of main_call39_v11 : StableHlo.TRef sig ⟨S16384x2x2x2x2x2x2x2, .i1⟩) (broadcastInDim S16384x2x2x2x2x2x2x2 ![] bcast_S_S16384x2x2x2x2x2x2x2),
    StableHlo.TRef.nullary (.of main_call39_cst : StableHlo.TRef sig ⟨S_, .f32⟩) (constant S_ .f32 0x7FC00000#32),
    StableHlo.TRef.unary (.of main_call39_cst : StableHlo.TRef sig ⟨S_, .f32⟩) (.of main_call39_v12 : StableHlo.TRef sig ⟨S16384x2x2x2x2x2x2x2, .f32⟩) (broadcastInDim S16384x2x2x2x2x2x2x2 ![] bcast_S_S16384x2x2x2x2x2x2x2),
    StableHlo.TRef.ternary (.of main_call39_v11 : StableHlo.TRef sig ⟨S16384x2x2x2x2x2x2x2, .i1⟩) (.of main_call39_v10 : StableHlo.TRef sig ⟨S16384x2x2x2x2x2x2x2, .f32⟩) (.of main_call39_v12 : StableHlo.TRef sig ⟨S16384x2x2x2x2x2x2x2, .f32⟩) (.of main_v343 : StableHlo.TRef sig ⟨S16384x2x2x2x2x2x2x2, .f32⟩) select,
    StableHlo.nullary main_c_58 (constantI S_ 32 1#32),
    StableHlo.TRef.nullary (.of main_call40_c : StableHlo.TRef sig ⟨S_, .i32⟩) (constantI S_ 32 0#32),
    StableHlo.TRef.binary (.of main_c_58 : StableHlo.TRef sig ⟨S_, .i32⟩) (.of main_call40_c : StableHlo.TRef sig ⟨S_, .i32⟩) (.of main_call40_v0 : StableHlo.TRef sig ⟨S_, .i1⟩) (cmpi .slt),
    StableHlo.TRef.nullary (.of main_call40_c_0 : StableHlo.TRef sig ⟨S_, .i32⟩) (constantI S_ 32 2#32),
    StableHlo.TRef.binary (.of main_c_58 : StableHlo.TRef sig ⟨S_, .i32⟩) (.of main_call40_c_0 : StableHlo.TRef sig ⟨S_, .i32⟩) (.of main_call40_v1 : StableHlo.TRef sig ⟨S_, .i32⟩) addi,
    StableHlo.TRef.ternary (.of main_call40_v0 : StableHlo.TRef sig ⟨S_, .i1⟩) (.of main_call40_v1 : StableHlo.TRef sig ⟨S_, .i32⟩) (.of main_c_58 : StableHlo.TRef sig ⟨S_, .i32⟩) (.of main_call40_v2 : StableHlo.TRef sig ⟨S_, .i32⟩) select,
    StableHlo.TRef.unary (.of main_call40_v2 : StableHlo.TRef sig ⟨S_, .i32⟩) (.of main_call40_v3 : StableHlo.TRef sig ⟨S1, .i32⟩) (broadcastInDim S1 ![] bcast_S_S1),
    StableHlo.TRef.nullary (.of main_call40_c_1 : StableHlo.TRef sig ⟨S1, .i32⟩) (constantI S1 32 1#32),
    StableHlo.TRef.unary (.of main_call40_v3 : StableHlo.TRef sig ⟨S1, .i32⟩) (.of main_call40_v4 : StableHlo.TRef sig ⟨S1, .i32⟩) id,
    StableHlo.TRef.nullary (.of main_call40_c_2 : StableHlo.TRef sig ⟨S_, .i32⟩) (constantI S_ 32 0#32),
    StableHlo.TRef.unary (.of main_call40_c_2 : StableHlo.TRef sig ⟨S_, .i32⟩) (.of main_call40_v5 : StableHlo.TRef sig ⟨S1, .i32⟩) (broadcastInDim S1 ![] bcast_S_S1),
    StableHlo.TRef.binary (.of main_call40_v4 : StableHlo.TRef sig ⟨S1, .i32⟩) (.of main_call40_v5 : StableHlo.TRef sig ⟨S1, .i32⟩) (.of main_call40_v6 : StableHlo.TRef sig ⟨S1, .i1⟩) (cmpi .sge),
    StableHlo.TRef.binary (.of main_call40_v4 : StableHlo.TRef sig ⟨S1, .i32⟩) (.of main_call40_c_1 : StableHlo.TRef sig ⟨S1, .i32⟩) (.of main_call40_v7 : StableHlo.TRef sig ⟨S1, .i1⟩) (cmpi .sle),
    StableHlo.TRef.binary (.of main_call40_v6 : StableHlo.TRef sig ⟨S1, .i1⟩) (.of main_call40_v7 : StableHlo.TRef sig ⟨S1, .i1⟩) (.of main_call40_v8 : StableHlo.TRef sig ⟨S1, .i1⟩) andi,
    StableHlo.TRef.nullary (.of main_call40_c_3 : StableHlo.TRef sig ⟨S_, .i1⟩) (constantI S_ 1 1#1),
    StableHlo.TRef.binary (.of main_call40_v8 : StableHlo.TRef sig ⟨S1, .i1⟩) (.of main_call40_c_3 : StableHlo.TRef sig ⟨S_, .i1⟩) (.of main_call40_v9 : StableHlo.TRef sig ⟨S_, .i1⟩) (fun x v => Host.reduce IntOp.andi x v reducesTo_S1_S_d0 h_S_),
    StableHlo.TRef.binary (.of main_v342 : StableHlo.TRef sig ⟨S16384x2x2x2x2x2x2x2x2, .f32⟩) (.of main_call40_v4 : StableHlo.TRef sig ⟨S1, .i32⟩) (.of main_call40_v10 : StableHlo.TRef sig ⟨S16384x2x2x2x2x2x2x2, .f32⟩) (fun x i => Host.gather gather_S16384x2x2x2x2x2x2x2x2_S1_S16384x2x2x2x2x2x2x2_01234567_8_n_n_8_0_1638422222221 x i),
    StableHlo.TRef.unary (.of main_call40_v9 : StableHlo.TRef sig ⟨S_, .i1⟩) (.of main_call40_v11 : StableHlo.TRef sig ⟨S16384x2x2x2x2x2x2x2, .i1⟩) (broadcastInDim S16384x2x2x2x2x2x2x2 ![] bcast_S_S16384x2x2x2x2x2x2x2),
    StableHlo.TRef.nullary (.of main_call40_cst : StableHlo.TRef sig ⟨S_, .f32⟩) (constant S_ .f32 0x7FC00000#32),
    StableHlo.TRef.unary (.of main_call40_cst : StableHlo.TRef sig ⟨S_, .f32⟩) (.of main_call40_v12 : StableHlo.TRef sig ⟨S16384x2x2x2x2x2x2x2, .f32⟩) (broadcastInDim S16384x2x2x2x2x2x2x2 ![] bcast_S_S16384x2x2x2x2x2x2x2),
    StableHlo.TRef.ternary (.of main_call40_v11 : StableHlo.TRef sig ⟨S16384x2x2x2x2x2x2x2, .i1⟩) (.of main_call40_v10 : StableHlo.TRef sig ⟨S16384x2x2x2x2x2x2x2, .f32⟩) (.of main_call40_v12 : StableHlo.TRef sig ⟨S16384x2x2x2x2x2x2x2, .f32⟩) (.of main_v344 : StableHlo.TRef sig ⟨S16384x2x2x2x2x2x2x2, .f32⟩) select,
    StableHlo.TRef.unary (.of main_v344 : StableHlo.TRef sig ⟨S16384x2x2x2x2x2x2x2, .f32⟩) (.of main_v345 : StableHlo.TRef sig ⟨S16384x2x2x2x2x2x2x2, .f32⟩) (Host.reverse [7]),
    StableHlo.unary main_v343 main_v346 (broadcastInDim S16384x2x2x2x2x2x2x2x1 ![0, 1, 2, 3, 4, 5, 6, 7] bcast_S16384x2x2x2x2x2x2x2_S16384x2x2x2x2x2x2x2x1_0_1_2_3_4_5_6_7 : (⟨S16384x2x2x2x2x2x2x2, .f32⟩ : BufTy).Contents (Elt F) → (⟨S16384x2x2x2x2x2x2x2x1, .f32⟩ : BufTy).Contents (Elt F)),
    StableHlo.unary main_v345 main_v347 (broadcastInDim S16384x2x2x2x2x2x2x2x1 ![0, 1, 2, 3, 4, 5, 6, 7] bcast_S16384x2x2x2x2x2x2x2_S16384x2x2x2x2x2x2x2x1_0_1_2_3_4_5_6_7 : (⟨S16384x2x2x2x2x2x2x2, .f32⟩ : BufTy).Contents (Elt F) → (⟨S16384x2x2x2x2x2x2x2x1, .f32⟩ : BufTy).Contents (Elt F)),
    StableHlo.binary main_v346 main_v347 main_v348 ((fun a b => concatenate S16384x2x2x2x2x2x2x2x2 8 [⟨S16384x2x2x2x2x2x2x2x1, a⟩, ⟨S16384x2x2x2x2x2x2x2x1, b⟩] concatenates_S16384x2x2x2x2x2x2x2x1_S16384x2x2x2x2x2x2x2x1_S16384x2x2x2x2x2x2x2x2_d8) : (⟨S16384x2x2x2x2x2x2x2x1, .f32⟩ : BufTy).Contents (Elt F) → (⟨S16384x2x2x2x2x2x2x2x1, .f32⟩ : BufTy).Contents (Elt F) → (⟨S16384x2x2x2x2x2x2x2x2, .f32⟩ : BufTy).Contents (Elt F)) ]

/-- The host operations of gate 19 (a rotation, parameter 12, axis 3). -/
abbrev G19 : List (HloOp τ sig (Elt F)) :=
  [ StableHlo.unary main_arg3 main_v349 ((extractStridedSlice S1 ![12] · slices_S21_S1_12) : (⟨S21, .f32⟩ : BufTy).Contents (Elt F) → (⟨S1, .f32⟩ : BufTy).Contents (Elt F)),
    StableHlo.reshape main_v349 main_v350 rfl shapeCasts_S1_S_,
    StableHlo.nullary main_cst_59 (constant S_ .f32 0x3F000000#32),
    StableHlo.binary main_cst_59 main_v350 main_v351 (mulf : (⟨S_, .f32⟩ : BufTy).Contents (Elt F) → (⟨S_, .f32⟩ : BufTy).Contents (Elt F) → (⟨S_, .f32⟩ : BufTy).Contents (Elt F)),
    StableHlo.unary main_v351 main_v352 (Host.cos : (⟨S_, .f32⟩ : BufTy).Contents (Elt F) → (⟨S_, .f32⟩ : BufTy).Contents (Elt F)),
    StableHlo.nullary main_cst_60 (constant S_ .f32 0x3F000000#32),
    StableHlo.binary main_cst_60 main_v350 main_v353 (mulf : (⟨S_, .f32⟩ : BufTy).Contents (Elt F) → (⟨S_, .f32⟩ : BufTy).Contents (Elt F) → (⟨S_, .f32⟩ : BufTy).Contents (Elt F)),
    StableHlo.unary main_v353 main_v354 (Host.sin : (⟨S_, .f32⟩ : BufTy).Contents (Elt F) → (⟨S_, .f32⟩ : BufTy).Contents (Elt F)),
    StableHlo.nullary main_c_61 (constantI S_ 32 0#32),
    StableHlo.TRef.nullary (.of main_call42_c : StableHlo.TRef sig ⟨S_, .i32⟩) (constantI S_ 32 0#32),
    StableHlo.TRef.binary (.of main_c_61 : StableHlo.TRef sig ⟨S_, .i32⟩) (.of main_call42_c : StableHlo.TRef sig ⟨S_, .i32⟩) (.of main_call42_v0 : StableHlo.TRef sig ⟨S_, .i1⟩) (cmpi .slt),
    StableHlo.TRef.nullary (.of main_call42_c_0 : StableHlo.TRef sig ⟨S_, .i32⟩) (constantI S_ 32 2#32),
    StableHlo.TRef.binary (.of main_c_61 : StableHlo.TRef sig ⟨S_, .i32⟩) (.of main_call42_c_0 : StableHlo.TRef sig ⟨S_, .i32⟩) (.of main_call42_v1 : StableHlo.TRef sig ⟨S_, .i32⟩) addi,
    StableHlo.TRef.ternary (.of main_call42_v0 : StableHlo.TRef sig ⟨S_, .i1⟩) (.of main_call42_v1 : StableHlo.TRef sig ⟨S_, .i32⟩) (.of main_c_61 : StableHlo.TRef sig ⟨S_, .i32⟩) (.of main_call42_v2 : StableHlo.TRef sig ⟨S_, .i32⟩) select,
    StableHlo.TRef.unary (.of main_call42_v2 : StableHlo.TRef sig ⟨S_, .i32⟩) (.of main_call42_v3 : StableHlo.TRef sig ⟨S1, .i32⟩) (broadcastInDim S1 ![] bcast_S_S1),
    StableHlo.TRef.nullary (.of main_call42_c_1 : StableHlo.TRef sig ⟨S1, .i32⟩) (constantI S1 32 1#32),
    StableHlo.TRef.unary (.of main_call42_v3 : StableHlo.TRef sig ⟨S1, .i32⟩) (.of main_call42_v4 : StableHlo.TRef sig ⟨S1, .i32⟩) id,
    StableHlo.TRef.nullary (.of main_call42_c_2 : StableHlo.TRef sig ⟨S_, .i32⟩) (constantI S_ 32 0#32),
    StableHlo.TRef.unary (.of main_call42_c_2 : StableHlo.TRef sig ⟨S_, .i32⟩) (.of main_call42_v5 : StableHlo.TRef sig ⟨S1, .i32⟩) (broadcastInDim S1 ![] bcast_S_S1),
    StableHlo.TRef.binary (.of main_call42_v4 : StableHlo.TRef sig ⟨S1, .i32⟩) (.of main_call42_v5 : StableHlo.TRef sig ⟨S1, .i32⟩) (.of main_call42_v6 : StableHlo.TRef sig ⟨S1, .i1⟩) (cmpi .sge),
    StableHlo.TRef.binary (.of main_call42_v4 : StableHlo.TRef sig ⟨S1, .i32⟩) (.of main_call42_c_1 : StableHlo.TRef sig ⟨S1, .i32⟩) (.of main_call42_v7 : StableHlo.TRef sig ⟨S1, .i1⟩) (cmpi .sle),
    StableHlo.TRef.binary (.of main_call42_v6 : StableHlo.TRef sig ⟨S1, .i1⟩) (.of main_call42_v7 : StableHlo.TRef sig ⟨S1, .i1⟩) (.of main_call42_v8 : StableHlo.TRef sig ⟨S1, .i1⟩) andi,
    StableHlo.TRef.nullary (.of main_call42_c_3 : StableHlo.TRef sig ⟨S_, .i1⟩) (constantI S_ 1 1#1),
    StableHlo.TRef.binary (.of main_call42_v8 : StableHlo.TRef sig ⟨S1, .i1⟩) (.of main_call42_c_3 : StableHlo.TRef sig ⟨S_, .i1⟩) (.of main_call42_v9 : StableHlo.TRef sig ⟨S_, .i1⟩) (fun x v => Host.reduce IntOp.andi x v reducesTo_S1_S_d0 h_S_),
    StableHlo.TRef.binary (.of main_v348 : StableHlo.TRef sig ⟨S16384x2x2x2x2x2x2x2x2, .f32⟩) (.of main_call42_v4 : StableHlo.TRef sig ⟨S1, .i32⟩) (.of main_call42_v10 : StableHlo.TRef sig ⟨S16384x2x2x2x2x2x2x2, .f32⟩) (fun x i => Host.gather gather_S16384x2x2x2x2x2x2x2x2_S1_S16384x2x2x2x2x2x2x2_01234567_3_n_n_3_0_1638422122222 x i),
    StableHlo.TRef.unary (.of main_call42_v9 : StableHlo.TRef sig ⟨S_, .i1⟩) (.of main_call42_v11 : StableHlo.TRef sig ⟨S16384x2x2x2x2x2x2x2, .i1⟩) (broadcastInDim S16384x2x2x2x2x2x2x2 ![] bcast_S_S16384x2x2x2x2x2x2x2),
    StableHlo.TRef.nullary (.of main_call42_cst : StableHlo.TRef sig ⟨S_, .f32⟩) (constant S_ .f32 0x7FC00000#32),
    StableHlo.TRef.unary (.of main_call42_cst : StableHlo.TRef sig ⟨S_, .f32⟩) (.of main_call42_v12 : StableHlo.TRef sig ⟨S16384x2x2x2x2x2x2x2, .f32⟩) (broadcastInDim S16384x2x2x2x2x2x2x2 ![] bcast_S_S16384x2x2x2x2x2x2x2),
    StableHlo.TRef.ternary (.of main_call42_v11 : StableHlo.TRef sig ⟨S16384x2x2x2x2x2x2x2, .i1⟩) (.of main_call42_v10 : StableHlo.TRef sig ⟨S16384x2x2x2x2x2x2x2, .f32⟩) (.of main_call42_v12 : StableHlo.TRef sig ⟨S16384x2x2x2x2x2x2x2, .f32⟩) (.of main_v355 : StableHlo.TRef sig ⟨S16384x2x2x2x2x2x2x2, .f32⟩) select,
    StableHlo.nullary main_c_62 (constantI S_ 32 1#32),
    StableHlo.TRef.nullary (.of main_call43_c : StableHlo.TRef sig ⟨S_, .i32⟩) (constantI S_ 32 0#32),
    StableHlo.TRef.binary (.of main_c_62 : StableHlo.TRef sig ⟨S_, .i32⟩) (.of main_call43_c : StableHlo.TRef sig ⟨S_, .i32⟩) (.of main_call43_v0 : StableHlo.TRef sig ⟨S_, .i1⟩) (cmpi .slt),
    StableHlo.TRef.nullary (.of main_call43_c_0 : StableHlo.TRef sig ⟨S_, .i32⟩) (constantI S_ 32 2#32),
    StableHlo.TRef.binary (.of main_c_62 : StableHlo.TRef sig ⟨S_, .i32⟩) (.of main_call43_c_0 : StableHlo.TRef sig ⟨S_, .i32⟩) (.of main_call43_v1 : StableHlo.TRef sig ⟨S_, .i32⟩) addi,
    StableHlo.TRef.ternary (.of main_call43_v0 : StableHlo.TRef sig ⟨S_, .i1⟩) (.of main_call43_v1 : StableHlo.TRef sig ⟨S_, .i32⟩) (.of main_c_62 : StableHlo.TRef sig ⟨S_, .i32⟩) (.of main_call43_v2 : StableHlo.TRef sig ⟨S_, .i32⟩) select,
    StableHlo.TRef.unary (.of main_call43_v2 : StableHlo.TRef sig ⟨S_, .i32⟩) (.of main_call43_v3 : StableHlo.TRef sig ⟨S1, .i32⟩) (broadcastInDim S1 ![] bcast_S_S1),
    StableHlo.TRef.nullary (.of main_call43_c_1 : StableHlo.TRef sig ⟨S1, .i32⟩) (constantI S1 32 1#32),
    StableHlo.TRef.unary (.of main_call43_v3 : StableHlo.TRef sig ⟨S1, .i32⟩) (.of main_call43_v4 : StableHlo.TRef sig ⟨S1, .i32⟩) id,
    StableHlo.TRef.nullary (.of main_call43_c_2 : StableHlo.TRef sig ⟨S_, .i32⟩) (constantI S_ 32 0#32),
    StableHlo.TRef.unary (.of main_call43_c_2 : StableHlo.TRef sig ⟨S_, .i32⟩) (.of main_call43_v5 : StableHlo.TRef sig ⟨S1, .i32⟩) (broadcastInDim S1 ![] bcast_S_S1),
    StableHlo.TRef.binary (.of main_call43_v4 : StableHlo.TRef sig ⟨S1, .i32⟩) (.of main_call43_v5 : StableHlo.TRef sig ⟨S1, .i32⟩) (.of main_call43_v6 : StableHlo.TRef sig ⟨S1, .i1⟩) (cmpi .sge),
    StableHlo.TRef.binary (.of main_call43_v4 : StableHlo.TRef sig ⟨S1, .i32⟩) (.of main_call43_c_1 : StableHlo.TRef sig ⟨S1, .i32⟩) (.of main_call43_v7 : StableHlo.TRef sig ⟨S1, .i1⟩) (cmpi .sle),
    StableHlo.TRef.binary (.of main_call43_v6 : StableHlo.TRef sig ⟨S1, .i1⟩) (.of main_call43_v7 : StableHlo.TRef sig ⟨S1, .i1⟩) (.of main_call43_v8 : StableHlo.TRef sig ⟨S1, .i1⟩) andi,
    StableHlo.TRef.nullary (.of main_call43_c_3 : StableHlo.TRef sig ⟨S_, .i1⟩) (constantI S_ 1 1#1),
    StableHlo.TRef.binary (.of main_call43_v8 : StableHlo.TRef sig ⟨S1, .i1⟩) (.of main_call43_c_3 : StableHlo.TRef sig ⟨S_, .i1⟩) (.of main_call43_v9 : StableHlo.TRef sig ⟨S_, .i1⟩) (fun x v => Host.reduce IntOp.andi x v reducesTo_S1_S_d0 h_S_),
    StableHlo.TRef.binary (.of main_v348 : StableHlo.TRef sig ⟨S16384x2x2x2x2x2x2x2x2, .f32⟩) (.of main_call43_v4 : StableHlo.TRef sig ⟨S1, .i32⟩) (.of main_call43_v10 : StableHlo.TRef sig ⟨S16384x2x2x2x2x2x2x2, .f32⟩) (fun x i => Host.gather gather_S16384x2x2x2x2x2x2x2x2_S1_S16384x2x2x2x2x2x2x2_01234567_3_n_n_3_0_1638422122222 x i),
    StableHlo.TRef.unary (.of main_call43_v9 : StableHlo.TRef sig ⟨S_, .i1⟩) (.of main_call43_v11 : StableHlo.TRef sig ⟨S16384x2x2x2x2x2x2x2, .i1⟩) (broadcastInDim S16384x2x2x2x2x2x2x2 ![] bcast_S_S16384x2x2x2x2x2x2x2),
    StableHlo.TRef.nullary (.of main_call43_cst : StableHlo.TRef sig ⟨S_, .f32⟩) (constant S_ .f32 0x7FC00000#32),
    StableHlo.TRef.unary (.of main_call43_cst : StableHlo.TRef sig ⟨S_, .f32⟩) (.of main_call43_v12 : StableHlo.TRef sig ⟨S16384x2x2x2x2x2x2x2, .f32⟩) (broadcastInDim S16384x2x2x2x2x2x2x2 ![] bcast_S_S16384x2x2x2x2x2x2x2),
    StableHlo.TRef.ternary (.of main_call43_v11 : StableHlo.TRef sig ⟨S16384x2x2x2x2x2x2x2, .i1⟩) (.of main_call43_v10 : StableHlo.TRef sig ⟨S16384x2x2x2x2x2x2x2, .f32⟩) (.of main_call43_v12 : StableHlo.TRef sig ⟨S16384x2x2x2x2x2x2x2, .f32⟩) (.of main_v356 : StableHlo.TRef sig ⟨S16384x2x2x2x2x2x2x2, .f32⟩) select,
    StableHlo.unary main_v352 main_v357 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v357 main_v355 main_v358 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v354 main_v359 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v359 main_v356 main_v360 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.binary main_v358 main_v360 main_v361 (subf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v354 main_v362 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v362 main_v355 main_v363 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v352 main_v364 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v364 main_v356 main_v365 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.binary main_v363 main_v365 main_v366 (addf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v361 main_v367 (broadcastInDim S16384x2x2x1x2x2x2x2x2 ![0, 1, 2, 4, 5, 6, 7, 8] bcast_S16384x2x2x2x2x2x2x2_S16384x2x2x1x2x2x2x2x2_0_1_2_4_5_6_7_8 : (⟨S16384x2x2x2x2x2x2x2, .f32⟩ : BufTy).Contents (Elt F) → (⟨S16384x2x2x1x2x2x2x2x2, .f32⟩ : BufTy).Contents (Elt F)),
    StableHlo.unary main_v366 main_v368 (broadcastInDim S16384x2x2x1x2x2x2x2x2 ![0, 1, 2, 4, 5, 6, 7, 8] bcast_S16384x2x2x2x2x2x2x2_S16384x2x2x1x2x2x2x2x2_0_1_2_4_5_6_7_8 : (⟨S16384x2x2x2x2x2x2x2, .f32⟩ : BufTy).Contents (Elt F) → (⟨S16384x2x2x1x2x2x2x2x2, .f32⟩ : BufTy).Contents (Elt F)),
    StableHlo.binary main_v367 main_v368 main_v369 ((fun a b => concatenate S16384x2x2x2x2x2x2x2x2 3 [⟨S16384x2x2x1x2x2x2x2x2, a⟩, ⟨S16384x2x2x1x2x2x2x2x2, b⟩] concatenates_S16384x2x2x1x2x2x2x2x2_S16384x2x2x1x2x2x2x2x2_S16384x2x2x2x2x2x2x2x2_d3) : (⟨S16384x2x2x1x2x2x2x2x2, .f32⟩ : BufTy).Contents (Elt F) → (⟨S16384x2x2x1x2x2x2x2x2, .f32⟩ : BufTy).Contents (Elt F) → (⟨S16384x2x2x2x2x2x2x2x2, .f32⟩ : BufTy).Contents (Elt F)) ]

/-- The host operations of gate 20 (a rotation, parameter 13, axis 6). -/
abbrev G20 : List (HloOp τ sig (Elt F)) :=
  [ StableHlo.unary main_arg3 main_v370 ((extractStridedSlice S1 ![13] · slices_S21_S1_13) : (⟨S21, .f32⟩ : BufTy).Contents (Elt F) → (⟨S1, .f32⟩ : BufTy).Contents (Elt F)),
    StableHlo.reshape main_v370 main_v371 rfl shapeCasts_S1_S_,
    StableHlo.nullary main_cst_63 (constant S_ .f32 0x3F000000#32),
    StableHlo.binary main_cst_63 main_v371 main_v372 (mulf : (⟨S_, .f32⟩ : BufTy).Contents (Elt F) → (⟨S_, .f32⟩ : BufTy).Contents (Elt F) → (⟨S_, .f32⟩ : BufTy).Contents (Elt F)),
    StableHlo.unary main_v372 main_v373 (Host.cos : (⟨S_, .f32⟩ : BufTy).Contents (Elt F) → (⟨S_, .f32⟩ : BufTy).Contents (Elt F)),
    StableHlo.nullary main_cst_64 (constant S_ .f32 0x3F000000#32),
    StableHlo.binary main_cst_64 main_v371 main_v374 (mulf : (⟨S_, .f32⟩ : BufTy).Contents (Elt F) → (⟨S_, .f32⟩ : BufTy).Contents (Elt F) → (⟨S_, .f32⟩ : BufTy).Contents (Elt F)),
    StableHlo.unary main_v374 main_v375 (Host.sin : (⟨S_, .f32⟩ : BufTy).Contents (Elt F) → (⟨S_, .f32⟩ : BufTy).Contents (Elt F)),
    StableHlo.nullary main_c_65 (constantI S_ 32 0#32),
    StableHlo.TRef.nullary (.of main_call44_c : StableHlo.TRef sig ⟨S_, .i32⟩) (constantI S_ 32 0#32),
    StableHlo.TRef.binary (.of main_c_65 : StableHlo.TRef sig ⟨S_, .i32⟩) (.of main_call44_c : StableHlo.TRef sig ⟨S_, .i32⟩) (.of main_call44_v0 : StableHlo.TRef sig ⟨S_, .i1⟩) (cmpi .slt),
    StableHlo.TRef.nullary (.of main_call44_c_0 : StableHlo.TRef sig ⟨S_, .i32⟩) (constantI S_ 32 2#32),
    StableHlo.TRef.binary (.of main_c_65 : StableHlo.TRef sig ⟨S_, .i32⟩) (.of main_call44_c_0 : StableHlo.TRef sig ⟨S_, .i32⟩) (.of main_call44_v1 : StableHlo.TRef sig ⟨S_, .i32⟩) addi,
    StableHlo.TRef.ternary (.of main_call44_v0 : StableHlo.TRef sig ⟨S_, .i1⟩) (.of main_call44_v1 : StableHlo.TRef sig ⟨S_, .i32⟩) (.of main_c_65 : StableHlo.TRef sig ⟨S_, .i32⟩) (.of main_call44_v2 : StableHlo.TRef sig ⟨S_, .i32⟩) select,
    StableHlo.TRef.unary (.of main_call44_v2 : StableHlo.TRef sig ⟨S_, .i32⟩) (.of main_call44_v3 : StableHlo.TRef sig ⟨S1, .i32⟩) (broadcastInDim S1 ![] bcast_S_S1),
    StableHlo.TRef.nullary (.of main_call44_c_1 : StableHlo.TRef sig ⟨S1, .i32⟩) (constantI S1 32 1#32),
    StableHlo.TRef.unary (.of main_call44_v3 : StableHlo.TRef sig ⟨S1, .i32⟩) (.of main_call44_v4 : StableHlo.TRef sig ⟨S1, .i32⟩) id,
    StableHlo.TRef.nullary (.of main_call44_c_2 : StableHlo.TRef sig ⟨S_, .i32⟩) (constantI S_ 32 0#32),
    StableHlo.TRef.unary (.of main_call44_c_2 : StableHlo.TRef sig ⟨S_, .i32⟩) (.of main_call44_v5 : StableHlo.TRef sig ⟨S1, .i32⟩) (broadcastInDim S1 ![] bcast_S_S1),
    StableHlo.TRef.binary (.of main_call44_v4 : StableHlo.TRef sig ⟨S1, .i32⟩) (.of main_call44_v5 : StableHlo.TRef sig ⟨S1, .i32⟩) (.of main_call44_v6 : StableHlo.TRef sig ⟨S1, .i1⟩) (cmpi .sge),
    StableHlo.TRef.binary (.of main_call44_v4 : StableHlo.TRef sig ⟨S1, .i32⟩) (.of main_call44_c_1 : StableHlo.TRef sig ⟨S1, .i32⟩) (.of main_call44_v7 : StableHlo.TRef sig ⟨S1, .i1⟩) (cmpi .sle),
    StableHlo.TRef.binary (.of main_call44_v6 : StableHlo.TRef sig ⟨S1, .i1⟩) (.of main_call44_v7 : StableHlo.TRef sig ⟨S1, .i1⟩) (.of main_call44_v8 : StableHlo.TRef sig ⟨S1, .i1⟩) andi,
    StableHlo.TRef.nullary (.of main_call44_c_3 : StableHlo.TRef sig ⟨S_, .i1⟩) (constantI S_ 1 1#1),
    StableHlo.TRef.binary (.of main_call44_v8 : StableHlo.TRef sig ⟨S1, .i1⟩) (.of main_call44_c_3 : StableHlo.TRef sig ⟨S_, .i1⟩) (.of main_call44_v9 : StableHlo.TRef sig ⟨S_, .i1⟩) (fun x v => Host.reduce IntOp.andi x v reducesTo_S1_S_d0 h_S_),
    StableHlo.TRef.binary (.of main_v369 : StableHlo.TRef sig ⟨S16384x2x2x2x2x2x2x2x2, .f32⟩) (.of main_call44_v4 : StableHlo.TRef sig ⟨S1, .i32⟩) (.of main_call44_v10 : StableHlo.TRef sig ⟨S16384x2x2x2x2x2x2x2, .f32⟩) (fun x i => Host.gather gather_S16384x2x2x2x2x2x2x2x2_S1_S16384x2x2x2x2x2x2x2_01234567_6_n_n_6_0_1638422222122 x i),
    StableHlo.TRef.unary (.of main_call44_v9 : StableHlo.TRef sig ⟨S_, .i1⟩) (.of main_call44_v11 : StableHlo.TRef sig ⟨S16384x2x2x2x2x2x2x2, .i1⟩) (broadcastInDim S16384x2x2x2x2x2x2x2 ![] bcast_S_S16384x2x2x2x2x2x2x2),
    StableHlo.TRef.nullary (.of main_call44_cst : StableHlo.TRef sig ⟨S_, .f32⟩) (constant S_ .f32 0x7FC00000#32),
    StableHlo.TRef.unary (.of main_call44_cst : StableHlo.TRef sig ⟨S_, .f32⟩) (.of main_call44_v12 : StableHlo.TRef sig ⟨S16384x2x2x2x2x2x2x2, .f32⟩) (broadcastInDim S16384x2x2x2x2x2x2x2 ![] bcast_S_S16384x2x2x2x2x2x2x2),
    StableHlo.TRef.ternary (.of main_call44_v11 : StableHlo.TRef sig ⟨S16384x2x2x2x2x2x2x2, .i1⟩) (.of main_call44_v10 : StableHlo.TRef sig ⟨S16384x2x2x2x2x2x2x2, .f32⟩) (.of main_call44_v12 : StableHlo.TRef sig ⟨S16384x2x2x2x2x2x2x2, .f32⟩) (.of main_v376 : StableHlo.TRef sig ⟨S16384x2x2x2x2x2x2x2, .f32⟩) select,
    StableHlo.nullary main_c_66 (constantI S_ 32 1#32),
    StableHlo.TRef.nullary (.of main_call45_c : StableHlo.TRef sig ⟨S_, .i32⟩) (constantI S_ 32 0#32),
    StableHlo.TRef.binary (.of main_c_66 : StableHlo.TRef sig ⟨S_, .i32⟩) (.of main_call45_c : StableHlo.TRef sig ⟨S_, .i32⟩) (.of main_call45_v0 : StableHlo.TRef sig ⟨S_, .i1⟩) (cmpi .slt),
    StableHlo.TRef.nullary (.of main_call45_c_0 : StableHlo.TRef sig ⟨S_, .i32⟩) (constantI S_ 32 2#32),
    StableHlo.TRef.binary (.of main_c_66 : StableHlo.TRef sig ⟨S_, .i32⟩) (.of main_call45_c_0 : StableHlo.TRef sig ⟨S_, .i32⟩) (.of main_call45_v1 : StableHlo.TRef sig ⟨S_, .i32⟩) addi,
    StableHlo.TRef.ternary (.of main_call45_v0 : StableHlo.TRef sig ⟨S_, .i1⟩) (.of main_call45_v1 : StableHlo.TRef sig ⟨S_, .i32⟩) (.of main_c_66 : StableHlo.TRef sig ⟨S_, .i32⟩) (.of main_call45_v2 : StableHlo.TRef sig ⟨S_, .i32⟩) select,
    StableHlo.TRef.unary (.of main_call45_v2 : StableHlo.TRef sig ⟨S_, .i32⟩) (.of main_call45_v3 : StableHlo.TRef sig ⟨S1, .i32⟩) (broadcastInDim S1 ![] bcast_S_S1),
    StableHlo.TRef.nullary (.of main_call45_c_1 : StableHlo.TRef sig ⟨S1, .i32⟩) (constantI S1 32 1#32),
    StableHlo.TRef.unary (.of main_call45_v3 : StableHlo.TRef sig ⟨S1, .i32⟩) (.of main_call45_v4 : StableHlo.TRef sig ⟨S1, .i32⟩) id,
    StableHlo.TRef.nullary (.of main_call45_c_2 : StableHlo.TRef sig ⟨S_, .i32⟩) (constantI S_ 32 0#32),
    StableHlo.TRef.unary (.of main_call45_c_2 : StableHlo.TRef sig ⟨S_, .i32⟩) (.of main_call45_v5 : StableHlo.TRef sig ⟨S1, .i32⟩) (broadcastInDim S1 ![] bcast_S_S1),
    StableHlo.TRef.binary (.of main_call45_v4 : StableHlo.TRef sig ⟨S1, .i32⟩) (.of main_call45_v5 : StableHlo.TRef sig ⟨S1, .i32⟩) (.of main_call45_v6 : StableHlo.TRef sig ⟨S1, .i1⟩) (cmpi .sge),
    StableHlo.TRef.binary (.of main_call45_v4 : StableHlo.TRef sig ⟨S1, .i32⟩) (.of main_call45_c_1 : StableHlo.TRef sig ⟨S1, .i32⟩) (.of main_call45_v7 : StableHlo.TRef sig ⟨S1, .i1⟩) (cmpi .sle),
    StableHlo.TRef.binary (.of main_call45_v6 : StableHlo.TRef sig ⟨S1, .i1⟩) (.of main_call45_v7 : StableHlo.TRef sig ⟨S1, .i1⟩) (.of main_call45_v8 : StableHlo.TRef sig ⟨S1, .i1⟩) andi,
    StableHlo.TRef.nullary (.of main_call45_c_3 : StableHlo.TRef sig ⟨S_, .i1⟩) (constantI S_ 1 1#1),
    StableHlo.TRef.binary (.of main_call45_v8 : StableHlo.TRef sig ⟨S1, .i1⟩) (.of main_call45_c_3 : StableHlo.TRef sig ⟨S_, .i1⟩) (.of main_call45_v9 : StableHlo.TRef sig ⟨S_, .i1⟩) (fun x v => Host.reduce IntOp.andi x v reducesTo_S1_S_d0 h_S_),
    StableHlo.TRef.binary (.of main_v369 : StableHlo.TRef sig ⟨S16384x2x2x2x2x2x2x2x2, .f32⟩) (.of main_call45_v4 : StableHlo.TRef sig ⟨S1, .i32⟩) (.of main_call45_v10 : StableHlo.TRef sig ⟨S16384x2x2x2x2x2x2x2, .f32⟩) (fun x i => Host.gather gather_S16384x2x2x2x2x2x2x2x2_S1_S16384x2x2x2x2x2x2x2_01234567_6_n_n_6_0_1638422222122 x i),
    StableHlo.TRef.unary (.of main_call45_v9 : StableHlo.TRef sig ⟨S_, .i1⟩) (.of main_call45_v11 : StableHlo.TRef sig ⟨S16384x2x2x2x2x2x2x2, .i1⟩) (broadcastInDim S16384x2x2x2x2x2x2x2 ![] bcast_S_S16384x2x2x2x2x2x2x2),
    StableHlo.TRef.nullary (.of main_call45_cst : StableHlo.TRef sig ⟨S_, .f32⟩) (constant S_ .f32 0x7FC00000#32),
    StableHlo.TRef.unary (.of main_call45_cst : StableHlo.TRef sig ⟨S_, .f32⟩) (.of main_call45_v12 : StableHlo.TRef sig ⟨S16384x2x2x2x2x2x2x2, .f32⟩) (broadcastInDim S16384x2x2x2x2x2x2x2 ![] bcast_S_S16384x2x2x2x2x2x2x2),
    StableHlo.TRef.ternary (.of main_call45_v11 : StableHlo.TRef sig ⟨S16384x2x2x2x2x2x2x2, .i1⟩) (.of main_call45_v10 : StableHlo.TRef sig ⟨S16384x2x2x2x2x2x2x2, .f32⟩) (.of main_call45_v12 : StableHlo.TRef sig ⟨S16384x2x2x2x2x2x2x2, .f32⟩) (.of main_v377 : StableHlo.TRef sig ⟨S16384x2x2x2x2x2x2x2, .f32⟩) select,
    StableHlo.unary main_v373 main_v378 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v378 main_v376 main_v379 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v375 main_v380 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v380 main_v377 main_v381 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.binary main_v379 main_v381 main_v382 (subf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v375 main_v383 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v383 main_v376 main_v384 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v373 main_v385 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v385 main_v377 main_v386 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.binary main_v384 main_v386 main_v387 (addf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v382 main_v388 (broadcastInDim S16384x2x2x2x2x2x1x2x2 ![0, 1, 2, 3, 4, 5, 7, 8] bcast_S16384x2x2x2x2x2x2x2_S16384x2x2x2x2x2x1x2x2_0_1_2_3_4_5_7_8 : (⟨S16384x2x2x2x2x2x2x2, .f32⟩ : BufTy).Contents (Elt F) → (⟨S16384x2x2x2x2x2x1x2x2, .f32⟩ : BufTy).Contents (Elt F)),
    StableHlo.unary main_v387 main_v389 (broadcastInDim S16384x2x2x2x2x2x1x2x2 ![0, 1, 2, 3, 4, 5, 7, 8] bcast_S16384x2x2x2x2x2x2x2_S16384x2x2x2x2x2x1x2x2_0_1_2_3_4_5_7_8 : (⟨S16384x2x2x2x2x2x2x2, .f32⟩ : BufTy).Contents (Elt F) → (⟨S16384x2x2x2x2x2x1x2x2, .f32⟩ : BufTy).Contents (Elt F)),
    StableHlo.binary main_v388 main_v389 main_v390 ((fun a b => concatenate S16384x2x2x2x2x2x2x2x2 6 [⟨S16384x2x2x2x2x2x1x2x2, a⟩, ⟨S16384x2x2x2x2x2x1x2x2, b⟩] concatenates_S16384x2x2x2x2x2x1x2x2_S16384x2x2x2x2x2x1x2x2_S16384x2x2x2x2x2x2x2x2_d6) : (⟨S16384x2x2x2x2x2x1x2x2, .f32⟩ : BufTy).Contents (Elt F) → (⟨S16384x2x2x2x2x2x1x2x2, .f32⟩ : BufTy).Contents (Elt F) → (⟨S16384x2x2x2x2x2x2x2x2, .f32⟩ : BufTy).Contents (Elt F)) ]

/-- The host operations of gate 21 (a controlled flip, axis 3). -/
abbrev G21 : List (HloOp τ sig (Elt F)) :=
  [ StableHlo.nullary main_c_67 (constantI S_ 32 0#32),
    StableHlo.TRef.nullary (.of main_call46_c : StableHlo.TRef sig ⟨S_, .i32⟩) (constantI S_ 32 0#32),
    StableHlo.TRef.binary (.of main_c_67 : StableHlo.TRef sig ⟨S_, .i32⟩) (.of main_call46_c : StableHlo.TRef sig ⟨S_, .i32⟩) (.of main_call46_v0 : StableHlo.TRef sig ⟨S_, .i1⟩) (cmpi .slt),
    StableHlo.TRef.nullary (.of main_call46_c_0 : StableHlo.TRef sig ⟨S_, .i32⟩) (constantI S_ 32 2#32),
    StableHlo.TRef.binary (.of main_c_67 : StableHlo.TRef sig ⟨S_, .i32⟩) (.of main_call46_c_0 : StableHlo.TRef sig ⟨S_, .i32⟩) (.of main_call46_v1 : StableHlo.TRef sig ⟨S_, .i32⟩) addi,
    StableHlo.TRef.ternary (.of main_call46_v0 : StableHlo.TRef sig ⟨S_, .i1⟩) (.of main_call46_v1 : StableHlo.TRef sig ⟨S_, .i32⟩) (.of main_c_67 : StableHlo.TRef sig ⟨S_, .i32⟩) (.of main_call46_v2 : StableHlo.TRef sig ⟨S_, .i32⟩) select,
    StableHlo.TRef.unary (.of main_call46_v2 : StableHlo.TRef sig ⟨S_, .i32⟩) (.of main_call46_v3 : StableHlo.TRef sig ⟨S1, .i32⟩) (broadcastInDim S1 ![] bcast_S_S1),
    StableHlo.TRef.nullary (.of main_call46_c_1 : StableHlo.TRef sig ⟨S1, .i32⟩) (constantI S1 32 1#32),
    StableHlo.TRef.unary (.of main_call46_v3 : StableHlo.TRef sig ⟨S1, .i32⟩) (.of main_call46_v4 : StableHlo.TRef sig ⟨S1, .i32⟩) id,
    StableHlo.TRef.nullary (.of main_call46_c_2 : StableHlo.TRef sig ⟨S_, .i32⟩) (constantI S_ 32 0#32),
    StableHlo.TRef.unary (.of main_call46_c_2 : StableHlo.TRef sig ⟨S_, .i32⟩) (.of main_call46_v5 : StableHlo.TRef sig ⟨S1, .i32⟩) (broadcastInDim S1 ![] bcast_S_S1),
    StableHlo.TRef.binary (.of main_call46_v4 : StableHlo.TRef sig ⟨S1, .i32⟩) (.of main_call46_v5 : StableHlo.TRef sig ⟨S1, .i32⟩) (.of main_call46_v6 : StableHlo.TRef sig ⟨S1, .i1⟩) (cmpi .sge),
    StableHlo.TRef.binary (.of main_call46_v4 : StableHlo.TRef sig ⟨S1, .i32⟩) (.of main_call46_c_1 : StableHlo.TRef sig ⟨S1, .i32⟩) (.of main_call46_v7 : StableHlo.TRef sig ⟨S1, .i1⟩) (cmpi .sle),
    StableHlo.TRef.binary (.of main_call46_v6 : StableHlo.TRef sig ⟨S1, .i1⟩) (.of main_call46_v7 : StableHlo.TRef sig ⟨S1, .i1⟩) (.of main_call46_v8 : StableHlo.TRef sig ⟨S1, .i1⟩) andi,
    StableHlo.TRef.nullary (.of main_call46_c_3 : StableHlo.TRef sig ⟨S_, .i1⟩) (constantI S_ 1 1#1),
    StableHlo.TRef.binary (.of main_call46_v8 : StableHlo.TRef sig ⟨S1, .i1⟩) (.of main_call46_c_3 : StableHlo.TRef sig ⟨S_, .i1⟩) (.of main_call46_v9 : StableHlo.TRef sig ⟨S_, .i1⟩) (fun x v => Host.reduce IntOp.andi x v reducesTo_S1_S_d0 h_S_),
    StableHlo.TRef.binary (.of main_v390 : StableHlo.TRef sig ⟨S16384x2x2x2x2x2x2x2x2, .f32⟩) (.of main_call46_v4 : StableHlo.TRef sig ⟨S1, .i32⟩) (.of main_call46_v10 : StableHlo.TRef sig ⟨S16384x2x2x2x2x2x2x2, .f32⟩) (fun x i => Host.gather gather_S16384x2x2x2x2x2x2x2x2_S1_S16384x2x2x2x2x2x2x2_01234567_3_n_n_3_0_1638422122222 x i),
    StableHlo.TRef.unary (.of main_call46_v9 : StableHlo.TRef sig ⟨S_, .i1⟩) (.of main_call46_v11 : StableHlo.TRef sig ⟨S16384x2x2x2x2x2x2x2, .i1⟩) (broadcastInDim S16384x2x2x2x2x2x2x2 ![] bcast_S_S16384x2x2x2x2x2x2x2),
    StableHlo.TRef.nullary (.of main_call46_cst : StableHlo.TRef sig ⟨S_, .f32⟩) (constant S_ .f32 0x7FC00000#32),
    StableHlo.TRef.unary (.of main_call46_cst : StableHlo.TRef sig ⟨S_, .f32⟩) (.of main_call46_v12 : StableHlo.TRef sig ⟨S16384x2x2x2x2x2x2x2, .f32⟩) (broadcastInDim S16384x2x2x2x2x2x2x2 ![] bcast_S_S16384x2x2x2x2x2x2x2),
    StableHlo.TRef.ternary (.of main_call46_v11 : StableHlo.TRef sig ⟨S16384x2x2x2x2x2x2x2, .i1⟩) (.of main_call46_v10 : StableHlo.TRef sig ⟨S16384x2x2x2x2x2x2x2, .f32⟩) (.of main_call46_v12 : StableHlo.TRef sig ⟨S16384x2x2x2x2x2x2x2, .f32⟩) (.of main_v391 : StableHlo.TRef sig ⟨S16384x2x2x2x2x2x2x2, .f32⟩) select,
    StableHlo.nullary main_c_68 (constantI S_ 32 1#32),
    StableHlo.TRef.nullary (.of main_call47_c : StableHlo.TRef sig ⟨S_, .i32⟩) (constantI S_ 32 0#32),
    StableHlo.TRef.binary (.of main_c_68 : StableHlo.TRef sig ⟨S_, .i32⟩) (.of main_call47_c : StableHlo.TRef sig ⟨S_, .i32⟩) (.of main_call47_v0 : StableHlo.TRef sig ⟨S_, .i1⟩) (cmpi .slt),
    StableHlo.TRef.nullary (.of main_call47_c_0 : StableHlo.TRef sig ⟨S_, .i32⟩) (constantI S_ 32 2#32),
    StableHlo.TRef.binary (.of main_c_68 : StableHlo.TRef sig ⟨S_, .i32⟩) (.of main_call47_c_0 : StableHlo.TRef sig ⟨S_, .i32⟩) (.of main_call47_v1 : StableHlo.TRef sig ⟨S_, .i32⟩) addi,
    StableHlo.TRef.ternary (.of main_call47_v0 : StableHlo.TRef sig ⟨S_, .i1⟩) (.of main_call47_v1 : StableHlo.TRef sig ⟨S_, .i32⟩) (.of main_c_68 : StableHlo.TRef sig ⟨S_, .i32⟩) (.of main_call47_v2 : StableHlo.TRef sig ⟨S_, .i32⟩) select,
    StableHlo.TRef.unary (.of main_call47_v2 : StableHlo.TRef sig ⟨S_, .i32⟩) (.of main_call47_v3 : StableHlo.TRef sig ⟨S1, .i32⟩) (broadcastInDim S1 ![] bcast_S_S1),
    StableHlo.TRef.nullary (.of main_call47_c_1 : StableHlo.TRef sig ⟨S1, .i32⟩) (constantI S1 32 1#32),
    StableHlo.TRef.unary (.of main_call47_v3 : StableHlo.TRef sig ⟨S1, .i32⟩) (.of main_call47_v4 : StableHlo.TRef sig ⟨S1, .i32⟩) id,
    StableHlo.TRef.nullary (.of main_call47_c_2 : StableHlo.TRef sig ⟨S_, .i32⟩) (constantI S_ 32 0#32),
    StableHlo.TRef.unary (.of main_call47_c_2 : StableHlo.TRef sig ⟨S_, .i32⟩) (.of main_call47_v5 : StableHlo.TRef sig ⟨S1, .i32⟩) (broadcastInDim S1 ![] bcast_S_S1),
    StableHlo.TRef.binary (.of main_call47_v4 : StableHlo.TRef sig ⟨S1, .i32⟩) (.of main_call47_v5 : StableHlo.TRef sig ⟨S1, .i32⟩) (.of main_call47_v6 : StableHlo.TRef sig ⟨S1, .i1⟩) (cmpi .sge),
    StableHlo.TRef.binary (.of main_call47_v4 : StableHlo.TRef sig ⟨S1, .i32⟩) (.of main_call47_c_1 : StableHlo.TRef sig ⟨S1, .i32⟩) (.of main_call47_v7 : StableHlo.TRef sig ⟨S1, .i1⟩) (cmpi .sle),
    StableHlo.TRef.binary (.of main_call47_v6 : StableHlo.TRef sig ⟨S1, .i1⟩) (.of main_call47_v7 : StableHlo.TRef sig ⟨S1, .i1⟩) (.of main_call47_v8 : StableHlo.TRef sig ⟨S1, .i1⟩) andi,
    StableHlo.TRef.nullary (.of main_call47_c_3 : StableHlo.TRef sig ⟨S_, .i1⟩) (constantI S_ 1 1#1),
    StableHlo.TRef.binary (.of main_call47_v8 : StableHlo.TRef sig ⟨S1, .i1⟩) (.of main_call47_c_3 : StableHlo.TRef sig ⟨S_, .i1⟩) (.of main_call47_v9 : StableHlo.TRef sig ⟨S_, .i1⟩) (fun x v => Host.reduce IntOp.andi x v reducesTo_S1_S_d0 h_S_),
    StableHlo.TRef.binary (.of main_v390 : StableHlo.TRef sig ⟨S16384x2x2x2x2x2x2x2x2, .f32⟩) (.of main_call47_v4 : StableHlo.TRef sig ⟨S1, .i32⟩) (.of main_call47_v10 : StableHlo.TRef sig ⟨S16384x2x2x2x2x2x2x2, .f32⟩) (fun x i => Host.gather gather_S16384x2x2x2x2x2x2x2x2_S1_S16384x2x2x2x2x2x2x2_01234567_3_n_n_3_0_1638422122222 x i),
    StableHlo.TRef.unary (.of main_call47_v9 : StableHlo.TRef sig ⟨S_, .i1⟩) (.of main_call47_v11 : StableHlo.TRef sig ⟨S16384x2x2x2x2x2x2x2, .i1⟩) (broadcastInDim S16384x2x2x2x2x2x2x2 ![] bcast_S_S16384x2x2x2x2x2x2x2),
    StableHlo.TRef.nullary (.of main_call47_cst : StableHlo.TRef sig ⟨S_, .f32⟩) (constant S_ .f32 0x7FC00000#32),
    StableHlo.TRef.unary (.of main_call47_cst : StableHlo.TRef sig ⟨S_, .f32⟩) (.of main_call47_v12 : StableHlo.TRef sig ⟨S16384x2x2x2x2x2x2x2, .f32⟩) (broadcastInDim S16384x2x2x2x2x2x2x2 ![] bcast_S_S16384x2x2x2x2x2x2x2),
    StableHlo.TRef.ternary (.of main_call47_v11 : StableHlo.TRef sig ⟨S16384x2x2x2x2x2x2x2, .i1⟩) (.of main_call47_v10 : StableHlo.TRef sig ⟨S16384x2x2x2x2x2x2x2, .f32⟩) (.of main_call47_v12 : StableHlo.TRef sig ⟨S16384x2x2x2x2x2x2x2, .f32⟩) (.of main_v392 : StableHlo.TRef sig ⟨S16384x2x2x2x2x2x2x2, .f32⟩) select,
    StableHlo.TRef.unary (.of main_v392 : StableHlo.TRef sig ⟨S16384x2x2x2x2x2x2x2, .f32⟩) (.of main_v393 : StableHlo.TRef sig ⟨S16384x2x2x2x2x2x2x2, .f32⟩) (Host.reverse [5]),
    StableHlo.unary main_v391 main_v394 (broadcastInDim S16384x2x2x1x2x2x2x2x2 ![0, 1, 2, 4, 5, 6, 7, 8] bcast_S16384x2x2x2x2x2x2x2_S16384x2x2x1x2x2x2x2x2_0_1_2_4_5_6_7_8 : (⟨S16384x2x2x2x2x2x2x2, .f32⟩ : BufTy).Contents (Elt F) → (⟨S16384x2x2x1x2x2x2x2x2, .f32⟩ : BufTy).Contents (Elt F)),
    StableHlo.unary main_v393 main_v395 (broadcastInDim S16384x2x2x1x2x2x2x2x2 ![0, 1, 2, 4, 5, 6, 7, 8] bcast_S16384x2x2x2x2x2x2x2_S16384x2x2x1x2x2x2x2x2_0_1_2_4_5_6_7_8 : (⟨S16384x2x2x2x2x2x2x2, .f32⟩ : BufTy).Contents (Elt F) → (⟨S16384x2x2x1x2x2x2x2x2, .f32⟩ : BufTy).Contents (Elt F)),
    StableHlo.binary main_v394 main_v395 main_v396 ((fun a b => concatenate S16384x2x2x2x2x2x2x2x2 3 [⟨S16384x2x2x1x2x2x2x2x2, a⟩, ⟨S16384x2x2x1x2x2x2x2x2, b⟩] concatenates_S16384x2x2x1x2x2x2x2x2_S16384x2x2x1x2x2x2x2x2_S16384x2x2x2x2x2x2x2x2_d3) : (⟨S16384x2x2x1x2x2x2x2x2, .f32⟩ : BufTy).Contents (Elt F) → (⟨S16384x2x2x1x2x2x2x2x2, .f32⟩ : BufTy).Contents (Elt F) → (⟨S16384x2x2x2x2x2x2x2x2, .f32⟩ : BufTy).Contents (Elt F)) ]

/-- The host operations of gate 22 (a rotation, parameter 14, axis 2). -/
abbrev G22 : List (HloOp τ sig (Elt F)) :=
  [ StableHlo.unary main_arg3 main_v397 ((extractStridedSlice S1 ![14] · slices_S21_S1_14) : (⟨S21, .f32⟩ : BufTy).Contents (Elt F) → (⟨S1, .f32⟩ : BufTy).Contents (Elt F)),
    StableHlo.reshape main_v397 main_v398 rfl shapeCasts_S1_S_,
    StableHlo.nullary main_cst_69 (constant S_ .f32 0x3F000000#32),
    StableHlo.binary main_cst_69 main_v398 main_v399 (mulf : (⟨S_, .f32⟩ : BufTy).Contents (Elt F) → (⟨S_, .f32⟩ : BufTy).Contents (Elt F) → (⟨S_, .f32⟩ : BufTy).Contents (Elt F)),
    StableHlo.unary main_v399 main_v400 (Host.cos : (⟨S_, .f32⟩ : BufTy).Contents (Elt F) → (⟨S_, .f32⟩ : BufTy).Contents (Elt F)),
    StableHlo.nullary main_cst_70 (constant S_ .f32 0x3F000000#32),
    StableHlo.binary main_cst_70 main_v398 main_v401 (mulf : (⟨S_, .f32⟩ : BufTy).Contents (Elt F) → (⟨S_, .f32⟩ : BufTy).Contents (Elt F) → (⟨S_, .f32⟩ : BufTy).Contents (Elt F)),
    StableHlo.unary main_v401 main_v402 (Host.sin : (⟨S_, .f32⟩ : BufTy).Contents (Elt F) → (⟨S_, .f32⟩ : BufTy).Contents (Elt F)),
    StableHlo.nullary main_c_71 (constantI S_ 32 0#32),
    StableHlo.TRef.nullary (.of main_call49_c : StableHlo.TRef sig ⟨S_, .i32⟩) (constantI S_ 32 0#32),
    StableHlo.TRef.binary (.of main_c_71 : StableHlo.TRef sig ⟨S_, .i32⟩) (.of main_call49_c : StableHlo.TRef sig ⟨S_, .i32⟩) (.of main_call49_v0 : StableHlo.TRef sig ⟨S_, .i1⟩) (cmpi .slt),
    StableHlo.TRef.nullary (.of main_call49_c_0 : StableHlo.TRef sig ⟨S_, .i32⟩) (constantI S_ 32 2#32),
    StableHlo.TRef.binary (.of main_c_71 : StableHlo.TRef sig ⟨S_, .i32⟩) (.of main_call49_c_0 : StableHlo.TRef sig ⟨S_, .i32⟩) (.of main_call49_v1 : StableHlo.TRef sig ⟨S_, .i32⟩) addi,
    StableHlo.TRef.ternary (.of main_call49_v0 : StableHlo.TRef sig ⟨S_, .i1⟩) (.of main_call49_v1 : StableHlo.TRef sig ⟨S_, .i32⟩) (.of main_c_71 : StableHlo.TRef sig ⟨S_, .i32⟩) (.of main_call49_v2 : StableHlo.TRef sig ⟨S_, .i32⟩) select,
    StableHlo.TRef.unary (.of main_call49_v2 : StableHlo.TRef sig ⟨S_, .i32⟩) (.of main_call49_v3 : StableHlo.TRef sig ⟨S1, .i32⟩) (broadcastInDim S1 ![] bcast_S_S1),
    StableHlo.TRef.nullary (.of main_call49_c_1 : StableHlo.TRef sig ⟨S1, .i32⟩) (constantI S1 32 1#32),
    StableHlo.TRef.unary (.of main_call49_v3 : StableHlo.TRef sig ⟨S1, .i32⟩) (.of main_call49_v4 : StableHlo.TRef sig ⟨S1, .i32⟩) id,
    StableHlo.TRef.nullary (.of main_call49_c_2 : StableHlo.TRef sig ⟨S_, .i32⟩) (constantI S_ 32 0#32),
    StableHlo.TRef.unary (.of main_call49_c_2 : StableHlo.TRef sig ⟨S_, .i32⟩) (.of main_call49_v5 : StableHlo.TRef sig ⟨S1, .i32⟩) (broadcastInDim S1 ![] bcast_S_S1),
    StableHlo.TRef.binary (.of main_call49_v4 : StableHlo.TRef sig ⟨S1, .i32⟩) (.of main_call49_v5 : StableHlo.TRef sig ⟨S1, .i32⟩) (.of main_call49_v6 : StableHlo.TRef sig ⟨S1, .i1⟩) (cmpi .sge),
    StableHlo.TRef.binary (.of main_call49_v4 : StableHlo.TRef sig ⟨S1, .i32⟩) (.of main_call49_c_1 : StableHlo.TRef sig ⟨S1, .i32⟩) (.of main_call49_v7 : StableHlo.TRef sig ⟨S1, .i1⟩) (cmpi .sle),
    StableHlo.TRef.binary (.of main_call49_v6 : StableHlo.TRef sig ⟨S1, .i1⟩) (.of main_call49_v7 : StableHlo.TRef sig ⟨S1, .i1⟩) (.of main_call49_v8 : StableHlo.TRef sig ⟨S1, .i1⟩) andi,
    StableHlo.TRef.nullary (.of main_call49_c_3 : StableHlo.TRef sig ⟨S_, .i1⟩) (constantI S_ 1 1#1),
    StableHlo.TRef.binary (.of main_call49_v8 : StableHlo.TRef sig ⟨S1, .i1⟩) (.of main_call49_c_3 : StableHlo.TRef sig ⟨S_, .i1⟩) (.of main_call49_v9 : StableHlo.TRef sig ⟨S_, .i1⟩) (fun x v => Host.reduce IntOp.andi x v reducesTo_S1_S_d0 h_S_),
    StableHlo.TRef.binary (.of main_v396 : StableHlo.TRef sig ⟨S16384x2x2x2x2x2x2x2x2, .f32⟩) (.of main_call49_v4 : StableHlo.TRef sig ⟨S1, .i32⟩) (.of main_call49_v10 : StableHlo.TRef sig ⟨S16384x2x2x2x2x2x2x2, .f32⟩) (fun x i => Host.gather gather_S16384x2x2x2x2x2x2x2x2_S1_S16384x2x2x2x2x2x2x2_01234567_2_n_n_2_0_1638421222222 x i),
    StableHlo.TRef.unary (.of main_call49_v9 : StableHlo.TRef sig ⟨S_, .i1⟩) (.of main_call49_v11 : StableHlo.TRef sig ⟨S16384x2x2x2x2x2x2x2, .i1⟩) (broadcastInDim S16384x2x2x2x2x2x2x2 ![] bcast_S_S16384x2x2x2x2x2x2x2),
    StableHlo.TRef.nullary (.of main_call49_cst : StableHlo.TRef sig ⟨S_, .f32⟩) (constant S_ .f32 0x7FC00000#32),
    StableHlo.TRef.unary (.of main_call49_cst : StableHlo.TRef sig ⟨S_, .f32⟩) (.of main_call49_v12 : StableHlo.TRef sig ⟨S16384x2x2x2x2x2x2x2, .f32⟩) (broadcastInDim S16384x2x2x2x2x2x2x2 ![] bcast_S_S16384x2x2x2x2x2x2x2),
    StableHlo.TRef.ternary (.of main_call49_v11 : StableHlo.TRef sig ⟨S16384x2x2x2x2x2x2x2, .i1⟩) (.of main_call49_v10 : StableHlo.TRef sig ⟨S16384x2x2x2x2x2x2x2, .f32⟩) (.of main_call49_v12 : StableHlo.TRef sig ⟨S16384x2x2x2x2x2x2x2, .f32⟩) (.of main_v403 : StableHlo.TRef sig ⟨S16384x2x2x2x2x2x2x2, .f32⟩) select,
    StableHlo.nullary main_c_72 (constantI S_ 32 1#32),
    StableHlo.TRef.nullary (.of main_call50_c : StableHlo.TRef sig ⟨S_, .i32⟩) (constantI S_ 32 0#32),
    StableHlo.TRef.binary (.of main_c_72 : StableHlo.TRef sig ⟨S_, .i32⟩) (.of main_call50_c : StableHlo.TRef sig ⟨S_, .i32⟩) (.of main_call50_v0 : StableHlo.TRef sig ⟨S_, .i1⟩) (cmpi .slt),
    StableHlo.TRef.nullary (.of main_call50_c_0 : StableHlo.TRef sig ⟨S_, .i32⟩) (constantI S_ 32 2#32),
    StableHlo.TRef.binary (.of main_c_72 : StableHlo.TRef sig ⟨S_, .i32⟩) (.of main_call50_c_0 : StableHlo.TRef sig ⟨S_, .i32⟩) (.of main_call50_v1 : StableHlo.TRef sig ⟨S_, .i32⟩) addi,
    StableHlo.TRef.ternary (.of main_call50_v0 : StableHlo.TRef sig ⟨S_, .i1⟩) (.of main_call50_v1 : StableHlo.TRef sig ⟨S_, .i32⟩) (.of main_c_72 : StableHlo.TRef sig ⟨S_, .i32⟩) (.of main_call50_v2 : StableHlo.TRef sig ⟨S_, .i32⟩) select,
    StableHlo.TRef.unary (.of main_call50_v2 : StableHlo.TRef sig ⟨S_, .i32⟩) (.of main_call50_v3 : StableHlo.TRef sig ⟨S1, .i32⟩) (broadcastInDim S1 ![] bcast_S_S1),
    StableHlo.TRef.nullary (.of main_call50_c_1 : StableHlo.TRef sig ⟨S1, .i32⟩) (constantI S1 32 1#32),
    StableHlo.TRef.unary (.of main_call50_v3 : StableHlo.TRef sig ⟨S1, .i32⟩) (.of main_call50_v4 : StableHlo.TRef sig ⟨S1, .i32⟩) id,
    StableHlo.TRef.nullary (.of main_call50_c_2 : StableHlo.TRef sig ⟨S_, .i32⟩) (constantI S_ 32 0#32),
    StableHlo.TRef.unary (.of main_call50_c_2 : StableHlo.TRef sig ⟨S_, .i32⟩) (.of main_call50_v5 : StableHlo.TRef sig ⟨S1, .i32⟩) (broadcastInDim S1 ![] bcast_S_S1),
    StableHlo.TRef.binary (.of main_call50_v4 : StableHlo.TRef sig ⟨S1, .i32⟩) (.of main_call50_v5 : StableHlo.TRef sig ⟨S1, .i32⟩) (.of main_call50_v6 : StableHlo.TRef sig ⟨S1, .i1⟩) (cmpi .sge),
    StableHlo.TRef.binary (.of main_call50_v4 : StableHlo.TRef sig ⟨S1, .i32⟩) (.of main_call50_c_1 : StableHlo.TRef sig ⟨S1, .i32⟩) (.of main_call50_v7 : StableHlo.TRef sig ⟨S1, .i1⟩) (cmpi .sle),
    StableHlo.TRef.binary (.of main_call50_v6 : StableHlo.TRef sig ⟨S1, .i1⟩) (.of main_call50_v7 : StableHlo.TRef sig ⟨S1, .i1⟩) (.of main_call50_v8 : StableHlo.TRef sig ⟨S1, .i1⟩) andi,
    StableHlo.TRef.nullary (.of main_call50_c_3 : StableHlo.TRef sig ⟨S_, .i1⟩) (constantI S_ 1 1#1),
    StableHlo.TRef.binary (.of main_call50_v8 : StableHlo.TRef sig ⟨S1, .i1⟩) (.of main_call50_c_3 : StableHlo.TRef sig ⟨S_, .i1⟩) (.of main_call50_v9 : StableHlo.TRef sig ⟨S_, .i1⟩) (fun x v => Host.reduce IntOp.andi x v reducesTo_S1_S_d0 h_S_),
    StableHlo.TRef.binary (.of main_v396 : StableHlo.TRef sig ⟨S16384x2x2x2x2x2x2x2x2, .f32⟩) (.of main_call50_v4 : StableHlo.TRef sig ⟨S1, .i32⟩) (.of main_call50_v10 : StableHlo.TRef sig ⟨S16384x2x2x2x2x2x2x2, .f32⟩) (fun x i => Host.gather gather_S16384x2x2x2x2x2x2x2x2_S1_S16384x2x2x2x2x2x2x2_01234567_2_n_n_2_0_1638421222222 x i),
    StableHlo.TRef.unary (.of main_call50_v9 : StableHlo.TRef sig ⟨S_, .i1⟩) (.of main_call50_v11 : StableHlo.TRef sig ⟨S16384x2x2x2x2x2x2x2, .i1⟩) (broadcastInDim S16384x2x2x2x2x2x2x2 ![] bcast_S_S16384x2x2x2x2x2x2x2),
    StableHlo.TRef.nullary (.of main_call50_cst : StableHlo.TRef sig ⟨S_, .f32⟩) (constant S_ .f32 0x7FC00000#32),
    StableHlo.TRef.unary (.of main_call50_cst : StableHlo.TRef sig ⟨S_, .f32⟩) (.of main_call50_v12 : StableHlo.TRef sig ⟨S16384x2x2x2x2x2x2x2, .f32⟩) (broadcastInDim S16384x2x2x2x2x2x2x2 ![] bcast_S_S16384x2x2x2x2x2x2x2),
    StableHlo.TRef.ternary (.of main_call50_v11 : StableHlo.TRef sig ⟨S16384x2x2x2x2x2x2x2, .i1⟩) (.of main_call50_v10 : StableHlo.TRef sig ⟨S16384x2x2x2x2x2x2x2, .f32⟩) (.of main_call50_v12 : StableHlo.TRef sig ⟨S16384x2x2x2x2x2x2x2, .f32⟩) (.of main_v404 : StableHlo.TRef sig ⟨S16384x2x2x2x2x2x2x2, .f32⟩) select,
    StableHlo.unary main_v400 main_v405 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v405 main_v403 main_v406 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v402 main_v407 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v407 main_v404 main_v408 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.binary main_v406 main_v408 main_v409 (subf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v402 main_v410 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v410 main_v403 main_v411 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v400 main_v412 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v412 main_v404 main_v413 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.binary main_v411 main_v413 main_v414 (addf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v409 main_v415 (broadcastInDim S16384x2x1x2x2x2x2x2x2 ![0, 1, 3, 4, 5, 6, 7, 8] bcast_S16384x2x2x2x2x2x2x2_S16384x2x1x2x2x2x2x2x2_0_1_3_4_5_6_7_8 : (⟨S16384x2x2x2x2x2x2x2, .f32⟩ : BufTy).Contents (Elt F) → (⟨S16384x2x1x2x2x2x2x2x2, .f32⟩ : BufTy).Contents (Elt F)),
    StableHlo.unary main_v414 main_v416 (broadcastInDim S16384x2x1x2x2x2x2x2x2 ![0, 1, 3, 4, 5, 6, 7, 8] bcast_S16384x2x2x2x2x2x2x2_S16384x2x1x2x2x2x2x2x2_0_1_3_4_5_6_7_8 : (⟨S16384x2x2x2x2x2x2x2, .f32⟩ : BufTy).Contents (Elt F) → (⟨S16384x2x1x2x2x2x2x2x2, .f32⟩ : BufTy).Contents (Elt F)),
    StableHlo.binary main_v415 main_v416 main_v417 ((fun a b => concatenate S16384x2x2x2x2x2x2x2x2 2 [⟨S16384x2x1x2x2x2x2x2x2, a⟩, ⟨S16384x2x1x2x2x2x2x2x2, b⟩] concatenates_S16384x2x1x2x2x2x2x2x2_S16384x2x1x2x2x2x2x2x2_S16384x2x2x2x2x2x2x2x2_d2) : (⟨S16384x2x1x2x2x2x2x2x2, .f32⟩ : BufTy).Contents (Elt F) → (⟨S16384x2x1x2x2x2x2x2x2, .f32⟩ : BufTy).Contents (Elt F) → (⟨S16384x2x2x2x2x2x2x2x2, .f32⟩ : BufTy).Contents (Elt F)) ]

/-- The host operations of gate 23 (a rotation, parameter 15, axis 3). -/
abbrev G23 : List (HloOp τ sig (Elt F)) :=
  [ StableHlo.unary main_arg3 main_v418 ((extractStridedSlice S1 ![15] · slices_S21_S1_15) : (⟨S21, .f32⟩ : BufTy).Contents (Elt F) → (⟨S1, .f32⟩ : BufTy).Contents (Elt F)),
    StableHlo.reshape main_v418 main_v419 rfl shapeCasts_S1_S_,
    StableHlo.nullary main_cst_73 (constant S_ .f32 0x3F000000#32),
    StableHlo.binary main_cst_73 main_v419 main_v420 (mulf : (⟨S_, .f32⟩ : BufTy).Contents (Elt F) → (⟨S_, .f32⟩ : BufTy).Contents (Elt F) → (⟨S_, .f32⟩ : BufTy).Contents (Elt F)),
    StableHlo.unary main_v420 main_v421 (Host.cos : (⟨S_, .f32⟩ : BufTy).Contents (Elt F) → (⟨S_, .f32⟩ : BufTy).Contents (Elt F)),
    StableHlo.nullary main_cst_74 (constant S_ .f32 0x3F000000#32),
    StableHlo.binary main_cst_74 main_v419 main_v422 (mulf : (⟨S_, .f32⟩ : BufTy).Contents (Elt F) → (⟨S_, .f32⟩ : BufTy).Contents (Elt F) → (⟨S_, .f32⟩ : BufTy).Contents (Elt F)),
    StableHlo.unary main_v422 main_v423 (Host.sin : (⟨S_, .f32⟩ : BufTy).Contents (Elt F) → (⟨S_, .f32⟩ : BufTy).Contents (Elt F)),
    StableHlo.nullary main_c_75 (constantI S_ 32 0#32),
    StableHlo.TRef.nullary (.of main_call51_c : StableHlo.TRef sig ⟨S_, .i32⟩) (constantI S_ 32 0#32),
    StableHlo.TRef.binary (.of main_c_75 : StableHlo.TRef sig ⟨S_, .i32⟩) (.of main_call51_c : StableHlo.TRef sig ⟨S_, .i32⟩) (.of main_call51_v0 : StableHlo.TRef sig ⟨S_, .i1⟩) (cmpi .slt),
    StableHlo.TRef.nullary (.of main_call51_c_0 : StableHlo.TRef sig ⟨S_, .i32⟩) (constantI S_ 32 2#32),
    StableHlo.TRef.binary (.of main_c_75 : StableHlo.TRef sig ⟨S_, .i32⟩) (.of main_call51_c_0 : StableHlo.TRef sig ⟨S_, .i32⟩) (.of main_call51_v1 : StableHlo.TRef sig ⟨S_, .i32⟩) addi,
    StableHlo.TRef.ternary (.of main_call51_v0 : StableHlo.TRef sig ⟨S_, .i1⟩) (.of main_call51_v1 : StableHlo.TRef sig ⟨S_, .i32⟩) (.of main_c_75 : StableHlo.TRef sig ⟨S_, .i32⟩) (.of main_call51_v2 : StableHlo.TRef sig ⟨S_, .i32⟩) select,
    StableHlo.TRef.unary (.of main_call51_v2 : StableHlo.TRef sig ⟨S_, .i32⟩) (.of main_call51_v3 : StableHlo.TRef sig ⟨S1, .i32⟩) (broadcastInDim S1 ![] bcast_S_S1),
    StableHlo.TRef.nullary (.of main_call51_c_1 : StableHlo.TRef sig ⟨S1, .i32⟩) (constantI S1 32 1#32),
    StableHlo.TRef.unary (.of main_call51_v3 : StableHlo.TRef sig ⟨S1, .i32⟩) (.of main_call51_v4 : StableHlo.TRef sig ⟨S1, .i32⟩) id,
    StableHlo.TRef.nullary (.of main_call51_c_2 : StableHlo.TRef sig ⟨S_, .i32⟩) (constantI S_ 32 0#32),
    StableHlo.TRef.unary (.of main_call51_c_2 : StableHlo.TRef sig ⟨S_, .i32⟩) (.of main_call51_v5 : StableHlo.TRef sig ⟨S1, .i32⟩) (broadcastInDim S1 ![] bcast_S_S1),
    StableHlo.TRef.binary (.of main_call51_v4 : StableHlo.TRef sig ⟨S1, .i32⟩) (.of main_call51_v5 : StableHlo.TRef sig ⟨S1, .i32⟩) (.of main_call51_v6 : StableHlo.TRef sig ⟨S1, .i1⟩) (cmpi .sge),
    StableHlo.TRef.binary (.of main_call51_v4 : StableHlo.TRef sig ⟨S1, .i32⟩) (.of main_call51_c_1 : StableHlo.TRef sig ⟨S1, .i32⟩) (.of main_call51_v7 : StableHlo.TRef sig ⟨S1, .i1⟩) (cmpi .sle),
    StableHlo.TRef.binary (.of main_call51_v6 : StableHlo.TRef sig ⟨S1, .i1⟩) (.of main_call51_v7 : StableHlo.TRef sig ⟨S1, .i1⟩) (.of main_call51_v8 : StableHlo.TRef sig ⟨S1, .i1⟩) andi,
    StableHlo.TRef.nullary (.of main_call51_c_3 : StableHlo.TRef sig ⟨S_, .i1⟩) (constantI S_ 1 1#1),
    StableHlo.TRef.binary (.of main_call51_v8 : StableHlo.TRef sig ⟨S1, .i1⟩) (.of main_call51_c_3 : StableHlo.TRef sig ⟨S_, .i1⟩) (.of main_call51_v9 : StableHlo.TRef sig ⟨S_, .i1⟩) (fun x v => Host.reduce IntOp.andi x v reducesTo_S1_S_d0 h_S_),
    StableHlo.TRef.binary (.of main_v417 : StableHlo.TRef sig ⟨S16384x2x2x2x2x2x2x2x2, .f32⟩) (.of main_call51_v4 : StableHlo.TRef sig ⟨S1, .i32⟩) (.of main_call51_v10 : StableHlo.TRef sig ⟨S16384x2x2x2x2x2x2x2, .f32⟩) (fun x i => Host.gather gather_S16384x2x2x2x2x2x2x2x2_S1_S16384x2x2x2x2x2x2x2_01234567_3_n_n_3_0_1638422122222 x i),
    StableHlo.TRef.unary (.of main_call51_v9 : StableHlo.TRef sig ⟨S_, .i1⟩) (.of main_call51_v11 : StableHlo.TRef sig ⟨S16384x2x2x2x2x2x2x2, .i1⟩) (broadcastInDim S16384x2x2x2x2x2x2x2 ![] bcast_S_S16384x2x2x2x2x2x2x2),
    StableHlo.TRef.nullary (.of main_call51_cst : StableHlo.TRef sig ⟨S_, .f32⟩) (constant S_ .f32 0x7FC00000#32),
    StableHlo.TRef.unary (.of main_call51_cst : StableHlo.TRef sig ⟨S_, .f32⟩) (.of main_call51_v12 : StableHlo.TRef sig ⟨S16384x2x2x2x2x2x2x2, .f32⟩) (broadcastInDim S16384x2x2x2x2x2x2x2 ![] bcast_S_S16384x2x2x2x2x2x2x2),
    StableHlo.TRef.ternary (.of main_call51_v11 : StableHlo.TRef sig ⟨S16384x2x2x2x2x2x2x2, .i1⟩) (.of main_call51_v10 : StableHlo.TRef sig ⟨S16384x2x2x2x2x2x2x2, .f32⟩) (.of main_call51_v12 : StableHlo.TRef sig ⟨S16384x2x2x2x2x2x2x2, .f32⟩) (.of main_v424 : StableHlo.TRef sig ⟨S16384x2x2x2x2x2x2x2, .f32⟩) select,
    StableHlo.nullary main_c_76 (constantI S_ 32 1#32),
    StableHlo.TRef.nullary (.of main_call52_c : StableHlo.TRef sig ⟨S_, .i32⟩) (constantI S_ 32 0#32),
    StableHlo.TRef.binary (.of main_c_76 : StableHlo.TRef sig ⟨S_, .i32⟩) (.of main_call52_c : StableHlo.TRef sig ⟨S_, .i32⟩) (.of main_call52_v0 : StableHlo.TRef sig ⟨S_, .i1⟩) (cmpi .slt),
    StableHlo.TRef.nullary (.of main_call52_c_0 : StableHlo.TRef sig ⟨S_, .i32⟩) (constantI S_ 32 2#32),
    StableHlo.TRef.binary (.of main_c_76 : StableHlo.TRef sig ⟨S_, .i32⟩) (.of main_call52_c_0 : StableHlo.TRef sig ⟨S_, .i32⟩) (.of main_call52_v1 : StableHlo.TRef sig ⟨S_, .i32⟩) addi,
    StableHlo.TRef.ternary (.of main_call52_v0 : StableHlo.TRef sig ⟨S_, .i1⟩) (.of main_call52_v1 : StableHlo.TRef sig ⟨S_, .i32⟩) (.of main_c_76 : StableHlo.TRef sig ⟨S_, .i32⟩) (.of main_call52_v2 : StableHlo.TRef sig ⟨S_, .i32⟩) select,
    StableHlo.TRef.unary (.of main_call52_v2 : StableHlo.TRef sig ⟨S_, .i32⟩) (.of main_call52_v3 : StableHlo.TRef sig ⟨S1, .i32⟩) (broadcastInDim S1 ![] bcast_S_S1),
    StableHlo.TRef.nullary (.of main_call52_c_1 : StableHlo.TRef sig ⟨S1, .i32⟩) (constantI S1 32 1#32),
    StableHlo.TRef.unary (.of main_call52_v3 : StableHlo.TRef sig ⟨S1, .i32⟩) (.of main_call52_v4 : StableHlo.TRef sig ⟨S1, .i32⟩) id,
    StableHlo.TRef.nullary (.of main_call52_c_2 : StableHlo.TRef sig ⟨S_, .i32⟩) (constantI S_ 32 0#32),
    StableHlo.TRef.unary (.of main_call52_c_2 : StableHlo.TRef sig ⟨S_, .i32⟩) (.of main_call52_v5 : StableHlo.TRef sig ⟨S1, .i32⟩) (broadcastInDim S1 ![] bcast_S_S1),
    StableHlo.TRef.binary (.of main_call52_v4 : StableHlo.TRef sig ⟨S1, .i32⟩) (.of main_call52_v5 : StableHlo.TRef sig ⟨S1, .i32⟩) (.of main_call52_v6 : StableHlo.TRef sig ⟨S1, .i1⟩) (cmpi .sge),
    StableHlo.TRef.binary (.of main_call52_v4 : StableHlo.TRef sig ⟨S1, .i32⟩) (.of main_call52_c_1 : StableHlo.TRef sig ⟨S1, .i32⟩) (.of main_call52_v7 : StableHlo.TRef sig ⟨S1, .i1⟩) (cmpi .sle),
    StableHlo.TRef.binary (.of main_call52_v6 : StableHlo.TRef sig ⟨S1, .i1⟩) (.of main_call52_v7 : StableHlo.TRef sig ⟨S1, .i1⟩) (.of main_call52_v8 : StableHlo.TRef sig ⟨S1, .i1⟩) andi,
    StableHlo.TRef.nullary (.of main_call52_c_3 : StableHlo.TRef sig ⟨S_, .i1⟩) (constantI S_ 1 1#1),
    StableHlo.TRef.binary (.of main_call52_v8 : StableHlo.TRef sig ⟨S1, .i1⟩) (.of main_call52_c_3 : StableHlo.TRef sig ⟨S_, .i1⟩) (.of main_call52_v9 : StableHlo.TRef sig ⟨S_, .i1⟩) (fun x v => Host.reduce IntOp.andi x v reducesTo_S1_S_d0 h_S_),
    StableHlo.TRef.binary (.of main_v417 : StableHlo.TRef sig ⟨S16384x2x2x2x2x2x2x2x2, .f32⟩) (.of main_call52_v4 : StableHlo.TRef sig ⟨S1, .i32⟩) (.of main_call52_v10 : StableHlo.TRef sig ⟨S16384x2x2x2x2x2x2x2, .f32⟩) (fun x i => Host.gather gather_S16384x2x2x2x2x2x2x2x2_S1_S16384x2x2x2x2x2x2x2_01234567_3_n_n_3_0_1638422122222 x i),
    StableHlo.TRef.unary (.of main_call52_v9 : StableHlo.TRef sig ⟨S_, .i1⟩) (.of main_call52_v11 : StableHlo.TRef sig ⟨S16384x2x2x2x2x2x2x2, .i1⟩) (broadcastInDim S16384x2x2x2x2x2x2x2 ![] bcast_S_S16384x2x2x2x2x2x2x2),
    StableHlo.TRef.nullary (.of main_call52_cst : StableHlo.TRef sig ⟨S_, .f32⟩) (constant S_ .f32 0x7FC00000#32),
    StableHlo.TRef.unary (.of main_call52_cst : StableHlo.TRef sig ⟨S_, .f32⟩) (.of main_call52_v12 : StableHlo.TRef sig ⟨S16384x2x2x2x2x2x2x2, .f32⟩) (broadcastInDim S16384x2x2x2x2x2x2x2 ![] bcast_S_S16384x2x2x2x2x2x2x2),
    StableHlo.TRef.ternary (.of main_call52_v11 : StableHlo.TRef sig ⟨S16384x2x2x2x2x2x2x2, .i1⟩) (.of main_call52_v10 : StableHlo.TRef sig ⟨S16384x2x2x2x2x2x2x2, .f32⟩) (.of main_call52_v12 : StableHlo.TRef sig ⟨S16384x2x2x2x2x2x2x2, .f32⟩) (.of main_v425 : StableHlo.TRef sig ⟨S16384x2x2x2x2x2x2x2, .f32⟩) select,
    StableHlo.unary main_v421 main_v426 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v426 main_v424 main_v427 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v423 main_v428 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v428 main_v425 main_v429 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.binary main_v427 main_v429 main_v430 (subf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v423 main_v431 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v431 main_v424 main_v432 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v421 main_v433 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v433 main_v425 main_v434 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.binary main_v432 main_v434 main_v435 (addf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v430 main_v436 (broadcastInDim S16384x2x2x1x2x2x2x2x2 ![0, 1, 2, 4, 5, 6, 7, 8] bcast_S16384x2x2x2x2x2x2x2_S16384x2x2x1x2x2x2x2x2_0_1_2_4_5_6_7_8 : (⟨S16384x2x2x2x2x2x2x2, .f32⟩ : BufTy).Contents (Elt F) → (⟨S16384x2x2x1x2x2x2x2x2, .f32⟩ : BufTy).Contents (Elt F)),
    StableHlo.unary main_v435 main_v437 (broadcastInDim S16384x2x2x1x2x2x2x2x2 ![0, 1, 2, 4, 5, 6, 7, 8] bcast_S16384x2x2x2x2x2x2x2_S16384x2x2x1x2x2x2x2x2_0_1_2_4_5_6_7_8 : (⟨S16384x2x2x2x2x2x2x2, .f32⟩ : BufTy).Contents (Elt F) → (⟨S16384x2x2x1x2x2x2x2x2, .f32⟩ : BufTy).Contents (Elt F)),
    StableHlo.binary main_v436 main_v437 main_v438 ((fun a b => concatenate S16384x2x2x2x2x2x2x2x2 3 [⟨S16384x2x2x1x2x2x2x2x2, a⟩, ⟨S16384x2x2x1x2x2x2x2x2, b⟩] concatenates_S16384x2x2x1x2x2x2x2x2_S16384x2x2x1x2x2x2x2x2_S16384x2x2x2x2x2x2x2x2_d3) : (⟨S16384x2x2x1x2x2x2x2x2, .f32⟩ : BufTy).Contents (Elt F) → (⟨S16384x2x2x1x2x2x2x2x2, .f32⟩ : BufTy).Contents (Elt F) → (⟨S16384x2x2x2x2x2x2x2x2, .f32⟩ : BufTy).Contents (Elt F)) ]

/-- The host operations of gate 24 (a controlled flip, axis 2). -/
abbrev G24 : List (HloOp τ sig (Elt F)) :=
  [ StableHlo.nullary main_c_77 (constantI S_ 32 0#32),
    StableHlo.TRef.nullary (.of main_call53_c : StableHlo.TRef sig ⟨S_, .i32⟩) (constantI S_ 32 0#32),
    StableHlo.TRef.binary (.of main_c_77 : StableHlo.TRef sig ⟨S_, .i32⟩) (.of main_call53_c : StableHlo.TRef sig ⟨S_, .i32⟩) (.of main_call53_v0 : StableHlo.TRef sig ⟨S_, .i1⟩) (cmpi .slt),
    StableHlo.TRef.nullary (.of main_call53_c_0 : StableHlo.TRef sig ⟨S_, .i32⟩) (constantI S_ 32 2#32),
    StableHlo.TRef.binary (.of main_c_77 : StableHlo.TRef sig ⟨S_, .i32⟩) (.of main_call53_c_0 : StableHlo.TRef sig ⟨S_, .i32⟩) (.of main_call53_v1 : StableHlo.TRef sig ⟨S_, .i32⟩) addi,
    StableHlo.TRef.ternary (.of main_call53_v0 : StableHlo.TRef sig ⟨S_, .i1⟩) (.of main_call53_v1 : StableHlo.TRef sig ⟨S_, .i32⟩) (.of main_c_77 : StableHlo.TRef sig ⟨S_, .i32⟩) (.of main_call53_v2 : StableHlo.TRef sig ⟨S_, .i32⟩) select,
    StableHlo.TRef.unary (.of main_call53_v2 : StableHlo.TRef sig ⟨S_, .i32⟩) (.of main_call53_v3 : StableHlo.TRef sig ⟨S1, .i32⟩) (broadcastInDim S1 ![] bcast_S_S1),
    StableHlo.TRef.nullary (.of main_call53_c_1 : StableHlo.TRef sig ⟨S1, .i32⟩) (constantI S1 32 1#32),
    StableHlo.TRef.unary (.of main_call53_v3 : StableHlo.TRef sig ⟨S1, .i32⟩) (.of main_call53_v4 : StableHlo.TRef sig ⟨S1, .i32⟩) id,
    StableHlo.TRef.nullary (.of main_call53_c_2 : StableHlo.TRef sig ⟨S_, .i32⟩) (constantI S_ 32 0#32),
    StableHlo.TRef.unary (.of main_call53_c_2 : StableHlo.TRef sig ⟨S_, .i32⟩) (.of main_call53_v5 : StableHlo.TRef sig ⟨S1, .i32⟩) (broadcastInDim S1 ![] bcast_S_S1),
    StableHlo.TRef.binary (.of main_call53_v4 : StableHlo.TRef sig ⟨S1, .i32⟩) (.of main_call53_v5 : StableHlo.TRef sig ⟨S1, .i32⟩) (.of main_call53_v6 : StableHlo.TRef sig ⟨S1, .i1⟩) (cmpi .sge),
    StableHlo.TRef.binary (.of main_call53_v4 : StableHlo.TRef sig ⟨S1, .i32⟩) (.of main_call53_c_1 : StableHlo.TRef sig ⟨S1, .i32⟩) (.of main_call53_v7 : StableHlo.TRef sig ⟨S1, .i1⟩) (cmpi .sle),
    StableHlo.TRef.binary (.of main_call53_v6 : StableHlo.TRef sig ⟨S1, .i1⟩) (.of main_call53_v7 : StableHlo.TRef sig ⟨S1, .i1⟩) (.of main_call53_v8 : StableHlo.TRef sig ⟨S1, .i1⟩) andi,
    StableHlo.TRef.nullary (.of main_call53_c_3 : StableHlo.TRef sig ⟨S_, .i1⟩) (constantI S_ 1 1#1),
    StableHlo.TRef.binary (.of main_call53_v8 : StableHlo.TRef sig ⟨S1, .i1⟩) (.of main_call53_c_3 : StableHlo.TRef sig ⟨S_, .i1⟩) (.of main_call53_v9 : StableHlo.TRef sig ⟨S_, .i1⟩) (fun x v => Host.reduce IntOp.andi x v reducesTo_S1_S_d0 h_S_),
    StableHlo.TRef.binary (.of main_v438 : StableHlo.TRef sig ⟨S16384x2x2x2x2x2x2x2x2, .f32⟩) (.of main_call53_v4 : StableHlo.TRef sig ⟨S1, .i32⟩) (.of main_call53_v10 : StableHlo.TRef sig ⟨S16384x2x2x2x2x2x2x2, .f32⟩) (fun x i => Host.gather gather_S16384x2x2x2x2x2x2x2x2_S1_S16384x2x2x2x2x2x2x2_01234567_2_n_n_2_0_1638421222222 x i),
    StableHlo.TRef.unary (.of main_call53_v9 : StableHlo.TRef sig ⟨S_, .i1⟩) (.of main_call53_v11 : StableHlo.TRef sig ⟨S16384x2x2x2x2x2x2x2, .i1⟩) (broadcastInDim S16384x2x2x2x2x2x2x2 ![] bcast_S_S16384x2x2x2x2x2x2x2),
    StableHlo.TRef.nullary (.of main_call53_cst : StableHlo.TRef sig ⟨S_, .f32⟩) (constant S_ .f32 0x7FC00000#32),
    StableHlo.TRef.unary (.of main_call53_cst : StableHlo.TRef sig ⟨S_, .f32⟩) (.of main_call53_v12 : StableHlo.TRef sig ⟨S16384x2x2x2x2x2x2x2, .f32⟩) (broadcastInDim S16384x2x2x2x2x2x2x2 ![] bcast_S_S16384x2x2x2x2x2x2x2),
    StableHlo.TRef.ternary (.of main_call53_v11 : StableHlo.TRef sig ⟨S16384x2x2x2x2x2x2x2, .i1⟩) (.of main_call53_v10 : StableHlo.TRef sig ⟨S16384x2x2x2x2x2x2x2, .f32⟩) (.of main_call53_v12 : StableHlo.TRef sig ⟨S16384x2x2x2x2x2x2x2, .f32⟩) (.of main_v439 : StableHlo.TRef sig ⟨S16384x2x2x2x2x2x2x2, .f32⟩) select,
    StableHlo.nullary main_c_78 (constantI S_ 32 1#32),
    StableHlo.TRef.nullary (.of main_call54_c : StableHlo.TRef sig ⟨S_, .i32⟩) (constantI S_ 32 0#32),
    StableHlo.TRef.binary (.of main_c_78 : StableHlo.TRef sig ⟨S_, .i32⟩) (.of main_call54_c : StableHlo.TRef sig ⟨S_, .i32⟩) (.of main_call54_v0 : StableHlo.TRef sig ⟨S_, .i1⟩) (cmpi .slt),
    StableHlo.TRef.nullary (.of main_call54_c_0 : StableHlo.TRef sig ⟨S_, .i32⟩) (constantI S_ 32 2#32),
    StableHlo.TRef.binary (.of main_c_78 : StableHlo.TRef sig ⟨S_, .i32⟩) (.of main_call54_c_0 : StableHlo.TRef sig ⟨S_, .i32⟩) (.of main_call54_v1 : StableHlo.TRef sig ⟨S_, .i32⟩) addi,
    StableHlo.TRef.ternary (.of main_call54_v0 : StableHlo.TRef sig ⟨S_, .i1⟩) (.of main_call54_v1 : StableHlo.TRef sig ⟨S_, .i32⟩) (.of main_c_78 : StableHlo.TRef sig ⟨S_, .i32⟩) (.of main_call54_v2 : StableHlo.TRef sig ⟨S_, .i32⟩) select,
    StableHlo.TRef.unary (.of main_call54_v2 : StableHlo.TRef sig ⟨S_, .i32⟩) (.of main_call54_v3 : StableHlo.TRef sig ⟨S1, .i32⟩) (broadcastInDim S1 ![] bcast_S_S1),
    StableHlo.TRef.nullary (.of main_call54_c_1 : StableHlo.TRef sig ⟨S1, .i32⟩) (constantI S1 32 1#32),
    StableHlo.TRef.unary (.of main_call54_v3 : StableHlo.TRef sig ⟨S1, .i32⟩) (.of main_call54_v4 : StableHlo.TRef sig ⟨S1, .i32⟩) id,
    StableHlo.TRef.nullary (.of main_call54_c_2 : StableHlo.TRef sig ⟨S_, .i32⟩) (constantI S_ 32 0#32),
    StableHlo.TRef.unary (.of main_call54_c_2 : StableHlo.TRef sig ⟨S_, .i32⟩) (.of main_call54_v5 : StableHlo.TRef sig ⟨S1, .i32⟩) (broadcastInDim S1 ![] bcast_S_S1),
    StableHlo.TRef.binary (.of main_call54_v4 : StableHlo.TRef sig ⟨S1, .i32⟩) (.of main_call54_v5 : StableHlo.TRef sig ⟨S1, .i32⟩) (.of main_call54_v6 : StableHlo.TRef sig ⟨S1, .i1⟩) (cmpi .sge),
    StableHlo.TRef.binary (.of main_call54_v4 : StableHlo.TRef sig ⟨S1, .i32⟩) (.of main_call54_c_1 : StableHlo.TRef sig ⟨S1, .i32⟩) (.of main_call54_v7 : StableHlo.TRef sig ⟨S1, .i1⟩) (cmpi .sle),
    StableHlo.TRef.binary (.of main_call54_v6 : StableHlo.TRef sig ⟨S1, .i1⟩) (.of main_call54_v7 : StableHlo.TRef sig ⟨S1, .i1⟩) (.of main_call54_v8 : StableHlo.TRef sig ⟨S1, .i1⟩) andi,
    StableHlo.TRef.nullary (.of main_call54_c_3 : StableHlo.TRef sig ⟨S_, .i1⟩) (constantI S_ 1 1#1),
    StableHlo.TRef.binary (.of main_call54_v8 : StableHlo.TRef sig ⟨S1, .i1⟩) (.of main_call54_c_3 : StableHlo.TRef sig ⟨S_, .i1⟩) (.of main_call54_v9 : StableHlo.TRef sig ⟨S_, .i1⟩) (fun x v => Host.reduce IntOp.andi x v reducesTo_S1_S_d0 h_S_),
    StableHlo.TRef.binary (.of main_v438 : StableHlo.TRef sig ⟨S16384x2x2x2x2x2x2x2x2, .f32⟩) (.of main_call54_v4 : StableHlo.TRef sig ⟨S1, .i32⟩) (.of main_call54_v10 : StableHlo.TRef sig ⟨S16384x2x2x2x2x2x2x2, .f32⟩) (fun x i => Host.gather gather_S16384x2x2x2x2x2x2x2x2_S1_S16384x2x2x2x2x2x2x2_01234567_2_n_n_2_0_1638421222222 x i),
    StableHlo.TRef.unary (.of main_call54_v9 : StableHlo.TRef sig ⟨S_, .i1⟩) (.of main_call54_v11 : StableHlo.TRef sig ⟨S16384x2x2x2x2x2x2x2, .i1⟩) (broadcastInDim S16384x2x2x2x2x2x2x2 ![] bcast_S_S16384x2x2x2x2x2x2x2),
    StableHlo.TRef.nullary (.of main_call54_cst : StableHlo.TRef sig ⟨S_, .f32⟩) (constant S_ .f32 0x7FC00000#32),
    StableHlo.TRef.unary (.of main_call54_cst : StableHlo.TRef sig ⟨S_, .f32⟩) (.of main_call54_v12 : StableHlo.TRef sig ⟨S16384x2x2x2x2x2x2x2, .f32⟩) (broadcastInDim S16384x2x2x2x2x2x2x2 ![] bcast_S_S16384x2x2x2x2x2x2x2),
    StableHlo.TRef.ternary (.of main_call54_v11 : StableHlo.TRef sig ⟨S16384x2x2x2x2x2x2x2, .i1⟩) (.of main_call54_v10 : StableHlo.TRef sig ⟨S16384x2x2x2x2x2x2x2, .f32⟩) (.of main_call54_v12 : StableHlo.TRef sig ⟨S16384x2x2x2x2x2x2x2, .f32⟩) (.of main_v440 : StableHlo.TRef sig ⟨S16384x2x2x2x2x2x2x2, .f32⟩) select,
    StableHlo.TRef.unary (.of main_v440 : StableHlo.TRef sig ⟨S16384x2x2x2x2x2x2x2, .f32⟩) (.of main_v441 : StableHlo.TRef sig ⟨S16384x2x2x2x2x2x2x2, .f32⟩) (Host.reverse [2]),
    StableHlo.unary main_v439 main_v442 (broadcastInDim S16384x2x1x2x2x2x2x2x2 ![0, 1, 3, 4, 5, 6, 7, 8] bcast_S16384x2x2x2x2x2x2x2_S16384x2x1x2x2x2x2x2x2_0_1_3_4_5_6_7_8 : (⟨S16384x2x2x2x2x2x2x2, .f32⟩ : BufTy).Contents (Elt F) → (⟨S16384x2x1x2x2x2x2x2x2, .f32⟩ : BufTy).Contents (Elt F)),
    StableHlo.unary main_v441 main_v443 (broadcastInDim S16384x2x1x2x2x2x2x2x2 ![0, 1, 3, 4, 5, 6, 7, 8] bcast_S16384x2x2x2x2x2x2x2_S16384x2x1x2x2x2x2x2x2_0_1_3_4_5_6_7_8 : (⟨S16384x2x2x2x2x2x2x2, .f32⟩ : BufTy).Contents (Elt F) → (⟨S16384x2x1x2x2x2x2x2x2, .f32⟩ : BufTy).Contents (Elt F)),
    StableHlo.binary main_v442 main_v443 main_v444 ((fun a b => concatenate S16384x2x2x2x2x2x2x2x2 2 [⟨S16384x2x1x2x2x2x2x2x2, a⟩, ⟨S16384x2x1x2x2x2x2x2x2, b⟩] concatenates_S16384x2x1x2x2x2x2x2x2_S16384x2x1x2x2x2x2x2x2_S16384x2x2x2x2x2x2x2x2_d2) : (⟨S16384x2x1x2x2x2x2x2x2, .f32⟩ : BufTy).Contents (Elt F) → (⟨S16384x2x1x2x2x2x2x2x2, .f32⟩ : BufTy).Contents (Elt F) → (⟨S16384x2x2x2x2x2x2x2x2, .f32⟩ : BufTy).Contents (Elt F)) ]

end Lists

-- the layout operations stay folded while the fold of the host operations is opened
attribute [local irreducible] Host.gather Host.reduce concatenate broadcastInDim Host.reverse shapeCast extractStridedSlice

set_option maxHeartbeats 1600000 in
theorem gate17 (W : Valuation τ sig (Elt Ideal)) :
    after (G17 (F := Ideal)) W (main_v342 : DevRef τ sig)
      = Cert.TTN.Gates.ryTerm (s := S16384x2x2x2x2x2x2x2x2) (t := S16384x2x2x2x2x2x2x2) (u := S16384x2x2x2x2x2x2x2x1) 8 ![0, 1, 2, 3, 4, 5, 6, 7] gather_S16384x2x2x2x2x2x2x2x2_S1_S16384x2x2x2x2x2x2x2_01234567_8_n_n_8_0_1638422222221 bcast_S_S1 bcast_S_S16384x2x2x2x2x2x2x2 reducesTo_S1_S_d0 h_S_ bcast_S16384x2x2x2x2x2x2x2_S16384x2x2x2x2x2x2x2x1_0_1_2_3_4_5_6_7 concatenates_S16384x2x2x2x2x2x2x2x1_S16384x2x2x2x2x2x2x2x1_S16384x2x2x2x2x2x2x2x2_d8
        (W (main_v321 : DevRef τ sig)) (shapeCast S_ (extractStridedSlice S1 ![11] (W (main_arg3 : DevRef τ sig)) slices_S21_S1_11) shapeCasts_S1_S_) := by
  simp only [after_cons, after_nil]
  rfl

set_option maxHeartbeats 1600000 in
theorem gate17_arg3 (W : Valuation τ sig (Elt Ideal)) :
    after (G17 (F := Ideal)) W (main_arg3 : DevRef τ sig) = W (main_arg3 : DevRef τ sig) := by
  simp only [after_cons, after_nil]
  rfl

set_option maxHeartbeats 1600000 in
theorem gate18 (W : Valuation τ sig (Elt Ideal)) :
    after (G18 (F := Ideal)) W (main_v348 : DevRef τ sig)
      = Cert.TTN.Gates.cxTerm (s := S16384x2x2x2x2x2x2x2x2) (t := S16384x2x2x2x2x2x2x2) (u := S16384x2x2x2x2x2x2x2x1) 8 7 ![0, 1, 2, 3, 4, 5, 6, 7] gather_S16384x2x2x2x2x2x2x2x2_S1_S16384x2x2x2x2x2x2x2_01234567_8_n_n_8_0_1638422222221 bcast_S_S1 bcast_S_S16384x2x2x2x2x2x2x2 reducesTo_S1_S_d0 h_S_ bcast_S16384x2x2x2x2x2x2x2_S16384x2x2x2x2x2x2x2x1_0_1_2_3_4_5_6_7 concatenates_S16384x2x2x2x2x2x2x2x1_S16384x2x2x2x2x2x2x2x1_S16384x2x2x2x2x2x2x2x2_d8
        (W (main_v342 : DevRef τ sig)) := by
  simp only [after_cons, after_nil]
  rfl

set_option maxHeartbeats 1600000 in
theorem gate18_arg3 (W : Valuation τ sig (Elt Ideal)) :
    after (G18 (F := Ideal)) W (main_arg3 : DevRef τ sig) = W (main_arg3 : DevRef τ sig) := by
  simp only [after_cons, after_nil]
  rfl

set_option maxHeartbeats 1600000 in
theorem gate19 (W : Valuation τ sig (Elt Ideal)) :
    after (G19 (F := Ideal)) W (main_v369 : DevRef τ sig)
      = Cert.TTN.Gates.ryTerm (s := S16384x2x2x2x2x2x2x2x2) (t := S16384x2x2x2x2x2x2x2) (u := S16384x2x2x1x2x2x2x2x2) 3 ![0, 1, 2, 4, 5, 6, 7, 8] gather_S16384x2x2x2x2x2x2x2x2_S1_S16384x2x2x2x2x2x2x2_01234567_3_n_n_3_0_1638422122222 bcast_S_S1 bcast_S_S16384x2x2x2x2x2x2x2 reducesTo_S1_S_d0 h_S_ bcast_S16384x2x2x2x2x2x2x2_S16384x2x2x1x2x2x2x2x2_0_1_2_4_5_6_7_8 concatenates_S16384x2x2x1x2x2x2x2x2_S16384x2x2x1x2x2x2x2x2_S16384x2x2x2x2x2x2x2x2_d3
        (W (main_v348 : DevRef τ sig)) (shapeCast S_ (extractStridedSlice S1 ![12] (W (main_arg3 : DevRef τ sig)) slices_S21_S1_12) shapeCasts_S1_S_) := by
  simp only [after_cons, after_nil]
  rfl

set_option maxHeartbeats 1600000 in
theorem gate19_arg3 (W : Valuation τ sig (Elt Ideal)) :
    after (G19 (F := Ideal)) W (main_arg3 : DevRef τ sig) = W (main_arg3 : DevRef τ sig) := by
  simp only [after_cons, after_nil]
  rfl

set_option maxHeartbeats 1600000 in
theorem gate20 (W : Valuation τ sig (Elt Ideal)) :
    after (G20 (F := Ideal)) W (main_v390 : DevRef τ sig)
      = Cert.TTN.Gates.ryTerm (s := S16384x2x2x2x2x2x2x2x2) (t := S16384x2x2x2x2x2x2x2) (u := S16384x2x2x2x2x2x1x2x2) 6 ![0, 1, 2, 3, 4, 5, 7, 8] gather_S16384x2x2x2x2x2x2x2x2_S1_S16384x2x2x2x2x2x2x2_01234567_6_n_n_6_0_1638422222122 bcast_S_S1 bcast_S_S16384x2x2x2x2x2x2x2 reducesTo_S1_S_d0 h_S_ bcast_S16384x2x2x2x2x2x2x2_S16384x2x2x2x2x2x1x2x2_0_1_2_3_4_5_7_8 concatenates_S16384x2x2x2x2x2x1x2x2_S16384x2x2x2x2x2x1x2x2_S16384x2x2x2x2x2x2x2x2_d6
        (W (main_v369 : DevRef τ sig)) (shapeCast S_ (extractStridedSlice S1 ![13] (W (main_arg3 : DevRef τ sig)) slices_S21_S1_13) shapeCasts_S1_S_) := by
  simp only [after_cons, after_nil]
  rfl

set_option maxHeartbeats 1600000 in
theorem gate20_arg3 (W : Valuation τ sig (Elt Ideal)) :
    after (G20 (F := Ideal)) W (main_arg3 : DevRef τ sig) = W (main_arg3 : DevRef τ sig) := by
  simp only [after_cons, after_nil]
  rfl

set_option maxHeartbeats 1600000 in
theorem gate21 (W : Valuation τ sig (Elt Ideal)) :
    after (G21 (F := Ideal)) W (main_v396 : DevRef τ sig)
      = Cert.TTN.Gates.cxTerm (s := S16384x2x2x2x2x2x2x2x2) (t := S16384x2x2x2x2x2x2x2) (u := S16384x2x2x1x2x2x2x2x2) 3 5 ![0, 1, 2, 4, 5, 6, 7, 8] gather_S16384x2x2x2x2x2x2x2x2_S1_S16384x2x2x2x2x2x2x2_01234567_3_n_n_3_0_1638422122222 bcast_S_S1 bcast_S_S16384x2x2x2x2x2x2x2 reducesTo_S1_S_d0 h_S_ bcast_S16384x2x2x2x2x2x2x2_S16384x2x2x1x2x2x2x2x2_0_1_2_4_5_6_7_8 concatenates_S16384x2x2x1x2x2x2x2x2_S16384x2x2x1x2x2x2x2x2_S16384x2x2x2x2x2x2x2x2_d3
        (W (main_v390 : DevRef τ sig)) := by
  simp only [after_cons, after_nil]
  rfl

set_option maxHeartbeats 1600000 in
theorem gate21_arg3 (W : Valuation τ sig (Elt Ideal)) :
    after (G21 (F := Ideal)) W (main_arg3 : DevRef τ sig) = W (main_arg3 : DevRef τ sig) := by
  simp only [after_cons, after_nil]
  rfl

set_option maxHeartbeats 1600000 in
theorem gate22 (W : Valuation τ sig (Elt Ideal)) :
    after (G22 (F := Ideal)) W (main_v417 : DevRef τ sig)
      = Cert.TTN.Gates.ryTerm (s := S16384x2x2x2x2x2x2x2x2) (t := S16384x2x2x2x2x2x2x2) (u := S16384x2x1x2x2x2x2x2x2) 2 ![0, 1, 3, 4, 5, 6, 7, 8] gather_S16384x2x2x2x2x2x2x2x2_S1_S16384x2x2x2x2x2x2x2_01234567_2_n_n_2_0_1638421222222 bcast_S_S1 bcast_S_S16384x2x2x2x2x2x2x2 reducesTo_S1_S_d0 h_S_ bcast_S16384x2x2x2x2x2x2x2_S16384x2x1x2x2x2x2x2x2_0_1_3_4_5_6_7_8 concatenates_S16384x2x1x2x2x2x2x2x2_S16384x2x1x2x2x2x2x2x2_S16384x2x2x2x2x2x2x2x2_d2
        (W (main_v396 : DevRef τ sig)) (shapeCast S_ (extractStridedSlice S1 ![14] (W (main_arg3 : DevRef τ sig)) slices_S21_S1_14) shapeCasts_S1_S_) := by
  simp only [after_cons, after_nil]
  rfl

set_option maxHeartbeats 1600000 in
theorem gate22_arg3 (W : Valuation τ sig (Elt Ideal)) :
    after (G22 (F := Ideal)) W (main_arg3 : DevRef τ sig) = W (main_arg3 : DevRef τ sig) := by
  simp only [after_cons, after_nil]
  rfl

set_option maxHeartbeats 1600000 in
theorem gate23 (W : Valuation τ sig (Elt Ideal)) :
    after (G23 (F := Ideal)) W (main_v438 : DevRef τ sig)
      = Cert.TTN.Gates.ryTerm (s := S16384x2x2x2x2x2x2x2x2) (t := S16384x2x2x2x2x2x2x2) (u := S16384x2x2x1x2x2x2x2x2) 3 ![0, 1, 2, 4, 5, 6, 7, 8] gather_S16384x2x2x2x2x2x2x2x2_S1_S16384x2x2x2x2x2x2x2_01234567_3_n_n_3_0_1638422122222 bcast_S_S1 bcast_S_S16384x2x2x2x2x2x2x2 reducesTo_S1_S_d0 h_S_ bcast_S16384x2x2x2x2x2x2x2_S16384x2x2x1x2x2x2x2x2_0_1_2_4_5_6_7_8 concatenates_S16384x2x2x1x2x2x2x2x2_S16384x2x2x1x2x2x2x2x2_S16384x2x2x2x2x2x2x2x2_d3
        (W (main_v417 : DevRef τ sig)) (shapeCast S_ (extractStridedSlice S1 ![15] (W (main_arg3 : DevRef τ sig)) slices_S21_S1_15) shapeCasts_S1_S_) := by
  simp only [after_cons, after_nil]
  rfl

set_option maxHeartbeats 1600000 in
theorem gate23_arg3 (W : Valuation τ sig (Elt Ideal)) :
    after (G23 (F := Ideal)) W (main_arg3 : DevRef τ sig) = W (main_arg3 : DevRef τ sig) := by
  simp only [after_cons, after_nil]
  rfl

set_option maxHeartbeats 1600000 in
theorem gate24 (W : Valuation τ sig (Elt Ideal)) :
    after (G24 (F := Ideal)) W (main_v444 : DevRef τ sig)
      = Cert.TTN.Gates.cxTerm (s := S16384x2x2x2x2x2x2x2x2) (t := S16384x2x2x2x2x2x2x2) (u := S16384x2x1x2x2x2x2x2x2) 2 2 ![0, 1, 3, 4, 5, 6, 7, 8] gather_S16384x2x2x2x2x2x2x2x2_S1_S16384x2x2x2x2x2x2x2_01234567_2_n_n_2_0_1638421222222 bcast_S_S1 bcast_S_S16384x2x2x2x2x2x2x2 reducesTo_S1_S_d0 h_S_ bcast_S16384x2x2x2x2x2x2x2_S16384x2x1x2x2x2x2x2x2_0_1_3_4_5_6_7_8 concatenates_S16384x2x1x2x2x2x2x2x2_S16384x2x1x2x2x2x2x2x2_S16384x2x2x2x2x2x2x2x2_d2
        (W (main_v438 : DevRef τ sig)) := by
  simp only [after_cons, after_nil]
  rfl

set_option maxHeartbeats 1600000 in
theorem gate24_arg3 (W : Valuation τ sig (Elt Ideal)) :
    after (G24 (F := Ideal)) W (main_arg3 : DevRef τ sig) = W (main_arg3 : DevRef τ sig) := by
  simp only [after_cons, after_nil]
  rfl

end Cert.TTN.RHost

end
-- ==== Proof.RHostG4.lean ====
/-
  Gates 25, 26, 27, 28, 29, 30, 31 of the circuit as the host part of the reference runs them on the 16384 edge registers:
  for each gate, the stretch of host operations that computes it, and the fact that, from any buffer contents, the
  stretch leaves in the gate's result buffer the gate's term of the previous state (and of the parameter vector),
  and leaves the parameter vector alone.
-/
import proofs.«130987_j14276471292017_1_alg».proof.ReferenceIdeal
import proofs.«130987_j14276471292017_1_alg».proof.Proof.Gen.ReferenceIdeal
import proofs.«130987_j14276471292017_1_alg».proof.Proof.Gates
import Idealize.ShloMosaic.Lib.StableHlo.Run

set_option maxRecDepth 16384

noncomputable section

namespace Cert.TTN.RHost

open Idealize.ShloMosaic Idealize.ShloMosaic.TcCoe Idealize.SL.Sem Idealize.ShloMosaic.StableHlo
open Cert.ReferenceIdeal Cert.ReferenceIdeal.Gen

section Lists
variable {F : FTy → Type} [FloatOps F]

/-- The host operations of gate 25 (a rotation, parameter 16, axis 6). -/
abbrev G25 : List (HloOp τ sig (Elt F)) :=
  [ StableHlo.unary main_arg3 main_v445 ((extractStridedSlice S1 ![16] · slices_S21_S1_16) : (⟨S21, .f32⟩ : BufTy).Contents (Elt F) → (⟨S1, .f32⟩ : BufTy).Contents (Elt F)),
    StableHlo.reshape main_v445 main_v446 rfl shapeCasts_S1_S_,
    StableHlo.nullary main_cst_79 (constant S_ .f32 0x3F000000#32),
    StableHlo.binary main_cst_79 main_v446 main_v447 (mulf : (⟨S_, .f32⟩ : BufTy).Contents (Elt F) → (⟨S_, .f32⟩ : BufTy).Contents (Elt F) → (⟨S_, .f32⟩ : BufTy).Contents (Elt F)),
    StableHlo.unary main_v447 main_v448 (Host.cos : (⟨S_, .f32⟩ : BufTy).Contents (Elt F) → (⟨S_, .f32⟩ : BufTy).Contents (Elt F)),
    StableHlo.nullary main_cst_80 (constant S_ .f32 0x3F000000#32),
    StableHlo.binary main_cst_80 main_v446 main_v449 (mulf : (⟨S_, .f32⟩ : BufTy).Contents (Elt F) → (⟨S_, .f32⟩ : BufTy).Contents (Elt F) → (⟨S_, .f32⟩ : BufTy).Contents (Elt F)),
    StableHlo.unary main_v449 main_v450 (Host.sin : (⟨S_, .f32⟩ : BufTy).Contents (Elt F) → (⟨S_, .f32⟩ : BufTy).Contents (Elt F)),
    StableHlo.nullary main_c_81 (constantI S_ 32 0#32),
    StableHlo.TRef.nullary (.of main_call56_c : StableHlo.TRef sig ⟨S_, .i32⟩) (constantI S_ 32 0#32),
    StableHlo.TRef.binary (.of main_c_81 : StableHlo.TRef sig ⟨S_, .i32⟩) (.of main_call56_c : StableHlo.TRef sig ⟨S_, .i32⟩) (.of main_call56_v0 : StableHlo.TRef sig ⟨S_, .i1⟩) (cmpi .slt),
    StableHlo.TRef.nullary (.of main_call56_c_0 : StableHlo.TRef sig ⟨S_, .i32⟩) (constantI S_ 32 2#32),
    StableHlo.TRef.binary (.of main_c_81 : StableHlo.TRef sig ⟨S_, .i32⟩) (.of main_call56_c_0 : StableHlo.TRef sig ⟨S_, .i32⟩) (.of main_call56_v1 : StableHlo.TRef sig ⟨S_, .i32⟩) addi,
    StableHlo.TRef.ternary (.of main_call56_v0 : StableHlo.TRef sig ⟨S_, .i1⟩) (.of main_call56_v1 : StableHlo.TRef sig ⟨S_, .i32⟩) (.of main_c_81 : StableHlo.TRef sig ⟨S_, .i32⟩) (.of main_call56_v2 : StableHlo.TRef sig ⟨S_, .i32⟩) select,
    StableHlo.TRef.unary (.of main_call56_v2 : StableHlo.TRef sig ⟨S_, .i32⟩) (.of main_call56_v3 : StableHlo.TRef sig ⟨S1, .i32⟩) (broadcastInDim S1 ![] bcast_S_S1),
    StableHlo.TRef.nullary (.of main_call56_c_1 : StableHlo.TRef sig ⟨S1, .i32⟩) (constantI S1 32 1#32),
    StableHlo.TRef.unary (.of main_call56_v3 : StableHlo.TRef sig ⟨S1, .i32⟩) (.of main_call56_v4 : StableHlo.TRef sig ⟨S1, .i32⟩) id,
    StableHlo.TRef.nullary (.of main_call56_c_2 : StableHlo.TRef sig ⟨S_, .i32⟩) (constantI S_ 32 0#32),
    StableHlo.TRef.unary (.of main_call56_c_2 : StableHlo.TRef sig ⟨S_, .i32⟩) (.of main_call56_v5 : StableHlo.TRef sig ⟨S1, .i32⟩) (broadcastInDim S1 ![] bcast_S_S1),
    StableHlo.TRef.binary (.of main_call56_v4 : StableHlo.TRef sig ⟨S1, .i32⟩) (.of main_call56_v5 : StableHlo.TRef sig ⟨S1, .i32⟩) (.of main_call56_v6 : StableHlo.TRef sig ⟨S1, .i1⟩) (cmpi .sge),
    StableHlo.TRef.binary (.of main_call56_v4 : StableHlo.TRef sig ⟨S1, .i32⟩) (.of main_call56_c_1 : StableHlo.TRef sig ⟨S1, .i32⟩) (.of main_call56_v7 : StableHlo.TRef sig ⟨S1, .i1⟩) (cmpi .sle),
    StableHlo.TRef.binary (.of main_call56_v6 : StableHlo.TRef sig ⟨S1, .i1⟩) (.of main_call56_v7 : StableHlo.TRef sig ⟨S1, .i1⟩) (.of main_call56_v8 : StableHlo.TRef sig ⟨S1, .i1⟩) andi,
    StableHlo.TRef.nullary (.of main_call56_c_3 : StableHlo.TRef sig ⟨S_, .i1⟩) (constantI S_ 1 1#1),
    StableHlo.TRef.binary (.of main_call56_v8 : StableHlo.TRef sig ⟨S1, .i1⟩) (.of main_call56_c_3 : StableHlo.TRef sig ⟨S_, .i1⟩) (.of main_call56_v9 : StableHlo.TRef sig ⟨S_, .i1⟩) (fun x v => Host.reduce IntOp.andi x v reducesTo_S1_S_d0 h_S_),
    StableHlo.TRef.binary (.of main_v444 : StableHlo.TRef sig ⟨S16384x2x2x2x2x2x2x2x2, .f32⟩) (.of main_call56_v4 : StableHlo.TRef sig ⟨S1, .i32⟩) (.of main_call56_v10 : StableHlo.TRef sig ⟨S16384x2x2x2x2x2x2x2, .f32⟩) (fun x i => Host.gather gather_S16384x2x2x2x2x2x2x2x2_S1_S16384x2x2x2x2x2x2x2_01234567_6_n_n_6_0_1638422222122 x i),
    StableHlo.TRef.unary (.of main_call56_v9 : StableHlo.TRef sig ⟨S_, .i1⟩) (.of main_call56_v11 : StableHlo.TRef sig ⟨S16384x2x2x2x2x2x2x2, .i1⟩) (broadcastInDim S16384x2x2x2x2x2x2x2 ![] bcast_S_S16384x2x2x2x2x2x2x2),
    StableHlo.TRef.nullary (.of main_call56_cst : StableHlo.TRef sig ⟨S_, .f32⟩) (constant S_ .f32 0x7FC00000#32),
    StableHlo.TRef.unary (.of main_call56_cst : StableHlo.TRef sig ⟨S_, .f32⟩) (.of main_call56_v12 : StableHlo.TRef sig ⟨S16384x2x2x2x2x2x2x2, .f32⟩) (broadcastInDim S16384x2x2x2x2x2x2x2 ![] bcast_S_S16384x2x2x2x2x2x2x2),
    StableHlo.TRef.ternary (.of main_call56_v11 : StableHlo.TRef sig ⟨S16384x2x2x2x2x2x2x2, .i1⟩) (.of main_call56_v10 : StableHlo.TRef sig ⟨S16384x2x2x2x2x2x2x2, .f32⟩) (.of main_call56_v12 : StableHlo.TRef sig ⟨S16384x2x2x2x2x2x2x2, .f32⟩) (.of main_v451 : StableHlo.TRef sig ⟨S16384x2x2x2x2x2x2x2, .f32⟩) select,
    StableHlo.nullary main_c_82 (constantI S_ 32 1#32),
    StableHlo.TRef.nullary (.of main_call57_c : StableHlo.TRef sig ⟨S_, .i32⟩) (constantI S_ 32 0#32),
    StableHlo.TRef.binary (.of main_c_82 : StableHlo.TRef sig ⟨S_, .i32⟩) (.of main_call57_c : StableHlo.TRef sig ⟨S_, .i32⟩) (.of main_call57_v0 : StableHlo.TRef sig ⟨S_, .i1⟩) (cmpi .slt),
    StableHlo.TRef.nullary (.of main_call57_c_0 : StableHlo.TRef sig ⟨S_, .i32⟩) (constantI S_ 32 2#32),
    StableHlo.TRef.binary (.of main_c_82 : StableHlo.TRef sig ⟨S_, .i32⟩) (.of main_call57_c_0 : StableHlo.TRef sig ⟨S_, .i32⟩) (.of main_call57_v1 : StableHlo.TRef sig ⟨S_, .i32⟩) addi,
    StableHlo.TRef.ternary (.of main_call57_v0 : StableHlo.TRef sig ⟨S_, .i1⟩) (.of main_call57_v1 : StableHlo.TRef sig ⟨S_, .i32⟩) (.of main_c_82 : StableHlo.TRef sig ⟨S_, .i32⟩) (.of main_call57_v2 : StableHlo.TRef sig ⟨S_, .i32⟩) select,
    StableHlo.TRef.unary (.of main_call57_v2 : StableHlo.TRef sig ⟨S_, .i32⟩) (.of main_call57_v3 : StableHlo.TRef sig ⟨S1, .i32⟩) (broadcastInDim S1 ![] bcast_S_S1),
    StableHlo.TRef.nullary (.of main_call57_c_1 : StableHlo.TRef sig ⟨S1, .i32⟩) (constantI S1 32 1#32),
    StableHlo.TRef.unary (.of main_call57_v3 : StableHlo.TRef sig ⟨S1, .i32⟩) (.of main_call57_v4 : StableHlo.TRef sig ⟨S1, .i32⟩) id,
    StableHlo.TRef.nullary (.of main_call57_c_2 : StableHlo.TRef sig ⟨S_, .i32⟩) (constantI S_ 32 0#32),
    StableHlo.TRef.unary (.of main_call57_c_2 : StableHlo.TRef sig ⟨S_, .i32⟩) (.of main_call57_v5 : StableHlo.TRef sig ⟨S1, .i32⟩) (broadcastInDim S1 ![] bcast_S_S1),
    StableHlo.TRef.binary (.of main_call57_v4 : StableHlo.TRef sig ⟨S1, .i32⟩) (.of main_call57_v5 : StableHlo.TRef sig ⟨S1, .i32⟩) (.of main_call57_v6 : StableHlo.TRef sig ⟨S1, .i1⟩) (cmpi .sge),
    StableHlo.TRef.binary (.of main_call57_v4 : StableHlo.TRef sig ⟨S1, .i32⟩) (.of main_call57_c_1 : StableHlo.TRef sig ⟨S1, .i32⟩) (.of main_call57_v7 : StableHlo.TRef sig ⟨S1, .i1⟩) (cmpi .sle),
    StableHlo.TRef.binary (.of main_call57_v6 : StableHlo.TRef sig ⟨S1, .i1⟩) (.of main_call57_v7 : StableHlo.TRef sig ⟨S1, .i1⟩) (.of main_call57_v8 : StableHlo.TRef sig ⟨S1, .i1⟩) andi,
    StableHlo.TRef.nullary (.of main_call57_c_3 : StableHlo.TRef sig ⟨S_, .i1⟩) (constantI S_ 1 1#1),
    StableHlo.TRef.binary (.of main_call57_v8 : StableHlo.TRef sig ⟨S1, .i1⟩) (.of main_call57_c_3 : StableHlo.TRef sig ⟨S_, .i1⟩) (.of main_call57_v9 : StableHlo.TRef sig ⟨S_, .i1⟩) (fun x v => Host.reduce IntOp.andi x v reducesTo_S1_S_d0 h_S_),
    StableHlo.TRef.binary (.of main_v444 : StableHlo.TRef sig ⟨S16384x2x2x2x2x2x2x2x2, .f32⟩) (.of main_call57_v4 : StableHlo.TRef sig ⟨S1, .i32⟩) (.of main_call57_v10 : StableHlo.TRef sig ⟨S16384x2x2x2x2x2x2x2, .f32⟩) (fun x i => Host.gather gather_S16384x2x2x2x2x2x2x2x2_S1_S16384x2x2x2x2x2x2x2_01234567_6_n_n_6_0_1638422222122 x i),
    StableHlo.TRef.unary (.of main_call57_v9 : StableHlo.TRef sig ⟨S_, .i1⟩) (.of main_call57_v11 : StableHlo.TRef sig ⟨S16384x2x2x2x2x2x2x2, .i1⟩) (broadcastInDim S16384x2x2x2x2x2x2x2 ![] bcast_S_S16384x2x2x2x2x2x2x2),
    StableHlo.TRef.nullary (.of main_call57_cst : StableHlo.TRef sig ⟨S_, .f32⟩) (constant S_ .f32 0x7FC00000#32),
    StableHlo.TRef.unary (.of main_call57_cst : StableHlo.TRef sig ⟨S_, .f32⟩) (.of main_call57_v12 : StableHlo.TRef sig ⟨S16384x2x2x2x2x2x2x2, .f32⟩) (broadcastInDim S16384x2x2x2x2x2x2x2 ![] bcast_S_S16384x2x2x2x2x2x2x2),
    StableHlo.TRef.ternary (.of main_call57_v11 : StableHlo.TRef sig ⟨S16384x2x2x2x2x2x2x2, .i1⟩) (.of main_call57_v10 : StableHlo.TRef sig ⟨S16384x2x2x2x2x2x2x2, .f32⟩) (.of main_call57_v12 : StableHlo.TRef sig ⟨S16384x2x2x2x2x2x2x2, .f32⟩) (.of main_v452 : StableHlo.TRef sig ⟨S16384x2x2x2x2x2x2x2, .f32⟩) select,
    StableHlo.unary main_v448 main_v453 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v453 main_v451 main_v454 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v450 main_v455 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v455 main_v452 main_v456 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.binary main_v454 main_v456 main_v457 (subf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v450 main_v458 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v458 main_v451 main_v459 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v448 main_v460 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v460 main_v452 main_v461 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.binary main_v459 main_v461 main_v462 (addf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v457 main_v463 (broadcastInDim S16384x2x2x2x2x2x1x2x2 ![0, 1, 2, 3, 4, 5, 7, 8] bcast_S16384x2x2x2x2x2x2x2_S16384x2x2x2x2x2x1x2x2_0_1_2_3_4_5_7_8 : (⟨S16384x2x2x2x2x2x2x2, .f32⟩ : BufTy).Contents (Elt F) → (⟨S16384x2x2x2x2x2x1x2x2, .f32⟩ : BufTy).Contents (Elt F)),
    StableHlo.unary main_v462 main_v464 (broadcastInDim S16384x2x2x2x2x2x1x2x2 ![0, 1, 2, 3, 4, 5, 7, 8] bcast_S16384x2x2x2x2x2x2x2_S16384x2x2x2x2x2x1x2x2_0_1_2_3_4_5_7_8 : (⟨S16384x2x2x2x2x2x2x2, .f32⟩ : BufTy).Contents (Elt F) → (⟨S16384x2x2x2x2x2x1x2x2, .f32⟩ : BufTy).Contents (Elt F)),
    StableHlo.binary main_v463 main_v464 main_v465 ((fun a b => concatenate S16384x2x2x2x2x2x2x2x2 6 [⟨S16384x2x2x2x2x2x1x2x2, a⟩, ⟨S16384x2x2x2x2x2x1x2x2, b⟩] concatenates_S16384x2x2x2x2x2x1x2x2_S16384x2x2x2x2x2x1x2x2_S16384x2x2x2x2x2x2x2x2_d6) : (⟨S16384x2x2x2x2x2x1x2x2, .f32⟩ : BufTy).Contents (Elt F) → (⟨S16384x2x2x2x2x2x1x2x2, .f32⟩ : BufTy).Contents (Elt F) → (⟨S16384x2x2x2x2x2x2x2x2, .f32⟩ : BufTy).Contents (Elt F)) ]

/-- The host operations of gate 26 (a rotation, parameter 17, axis 7). -/
abbrev G26 : List (HloOp τ sig (Elt F)) :=
  [ StableHlo.unary main_arg3 main_v466 ((extractStridedSlice S1 ![17] · slices_S21_S1_17) : (⟨S21, .f32⟩ : BufTy).Contents (Elt F) → (⟨S1, .f32⟩ : BufTy).Contents (Elt F)),
    StableHlo.reshape main_v466 main_v467 rfl shapeCasts_S1_S_,
    StableHlo.nullary main_cst_83 (constant S_ .f32 0x3F000000#32),
    StableHlo.binary main_cst_83 main_v467 main_v468 (mulf : (⟨S_, .f32⟩ : BufTy).Contents (Elt F) → (⟨S_, .f32⟩ : BufTy).Contents (Elt F) → (⟨S_, .f32⟩ : BufTy).Contents (Elt F)),
    StableHlo.unary main_v468 main_v469 (Host.cos : (⟨S_, .f32⟩ : BufTy).Contents (Elt F) → (⟨S_, .f32⟩ : BufTy).Contents (Elt F)),
    StableHlo.nullary main_cst_84 (constant S_ .f32 0x3F000000#32),
    StableHlo.binary main_cst_84 main_v467 main_v470 (mulf : (⟨S_, .f32⟩ : BufTy).Contents (Elt F) → (⟨S_, .f32⟩ : BufTy).Contents (Elt F) → (⟨S_, .f32⟩ : BufTy).Contents (Elt F)),
    StableHlo.unary main_v470 main_v471 (Host.sin : (⟨S_, .f32⟩ : BufTy).Contents (Elt F) → (⟨S_, .f32⟩ : BufTy).Contents (Elt F)),
    StableHlo.nullary main_c_85 (constantI S_ 32 0#32),
    StableHlo.TRef.nullary (.of main_call58_c : StableHlo.TRef sig ⟨S_, .i32⟩) (constantI S_ 32 0#32),
    StableHlo.TRef.binary (.of main_c_85 : StableHlo.TRef sig ⟨S_, .i32⟩) (.of main_call58_c : StableHlo.TRef sig ⟨S_, .i32⟩) (.of main_call58_v0 : StableHlo.TRef sig ⟨S_, .i1⟩) (cmpi .slt),
    StableHlo.TRef.nullary (.of main_call58_c_0 : StableHlo.TRef sig ⟨S_, .i32⟩) (constantI S_ 32 2#32),
    StableHlo.TRef.binary (.of main_c_85 : StableHlo.TRef sig ⟨S_, .i32⟩) (.of main_call58_c_0 : StableHlo.TRef sig ⟨S_, .i32⟩) (.of main_call58_v1 : StableHlo.TRef sig ⟨S_, .i32⟩) addi,
    StableHlo.TRef.ternary (.of main_call58_v0 : StableHlo.TRef sig ⟨S_, .i1⟩) (.of main_call58_v1 : StableHlo.TRef sig ⟨S_, .i32⟩) (.of main_c_85 : StableHlo.TRef sig ⟨S_, .i32⟩) (.of main_call58_v2 : StableHlo.TRef sig ⟨S_, .i32⟩) select,
    StableHlo.TRef.unary (.of main_call58_v2 : StableHlo.TRef sig ⟨S_, .i32⟩) (.of main_call58_v3 : StableHlo.TRef sig ⟨S1, .i32⟩) (broadcastInDim S1 ![] bcast_S_S1),
    StableHlo.TRef.nullary (.of main_call58_c_1 : StableHlo.TRef sig ⟨S1, .i32⟩) (constantI S1 32 1#32),
    StableHlo.TRef.unary (.of main_call58_v3 : StableHlo.TRef sig ⟨S1, .i32⟩) (.of main_call58_v4 : StableHlo.TRef sig ⟨S1, .i32⟩) id,
    StableHlo.TRef.nullary (.of main_call58_c_2 : StableHlo.TRef sig ⟨S_, .i32⟩) (constantI S_ 32 0#32),
    StableHlo.TRef.unary (.of main_call58_c_2 : StableHlo.TRef sig ⟨S_, .i32⟩) (.of main_call58_v5 : StableHlo.TRef sig ⟨S1, .i32⟩) (broadcastInDim S1 ![] bcast_S_S1),
    StableHlo.TRef.binary (.of main_call58_v4 : StableHlo.TRef sig ⟨S1, .i32⟩) (.of main_call58_v5 : StableHlo.TRef sig ⟨S1, .i32⟩) (.of main_call58_v6 : StableHlo.TRef sig ⟨S1, .i1⟩) (cmpi .sge),
    StableHlo.TRef.binary (.of main_call58_v4 : StableHlo.TRef sig ⟨S1, .i32⟩) (.of main_call58_c_1 : StableHlo.TRef sig ⟨S1, .i32⟩) (.of main_call58_v7 : StableHlo.TRef sig ⟨S1, .i1⟩) (cmpi .sle),
    StableHlo.TRef.binary (.of main_call58_v6 : StableHlo.TRef sig ⟨S1, .i1⟩) (.of main_call58_v7 : StableHlo.TRef sig ⟨S1, .i1⟩) (.of main_call58_v8 : StableHlo.TRef sig ⟨S1, .i1⟩) andi,
    StableHlo.TRef.nullary (.of main_call58_c_3 : StableHlo.TRef sig ⟨S_, .i1⟩) (constantI S_ 1 1#1),
    StableHlo.TRef.binary (.of main_call58_v8 : StableHlo.TRef sig ⟨S1, .i1⟩) (.of main_call58_c_3 : StableHlo.TRef sig ⟨S_, .i1⟩) (.of main_call58_v9 : StableHlo.TRef sig ⟨S_, .i1⟩) (fun x v => Host.reduce IntOp.andi x v reducesTo_S1_S_d0 h_S_),
    StableHlo.TRef.binary (.of main_v465 : StableHlo.TRef sig ⟨S16384x2x2x2x2x2x2x2x2, .f32⟩) (.of main_call58_v4 : StableHlo.TRef sig ⟨S1, .i32⟩) (.of main_call58_v10 : StableHlo.TRef sig ⟨S16384x2x2x2x2x2x2x2, .f32⟩) (fun x i => Host.gather gather_S16384x2x2x2x2x2x2x2x2_S1_S16384x2x2x2x2x2x2x2_01234567_7_n_n_7_0_1638422222212 x i),
    StableHlo.TRef.unary (.of main_call58_v9 : StableHlo.TRef sig ⟨S_, .i1⟩) (.of main_call58_v11 : StableHlo.TRef sig ⟨S16384x2x2x2x2x2x2x2, .i1⟩) (broadcastInDim S16384x2x2x2x2x2x2x2 ![] bcast_S_S16384x2x2x2x2x2x2x2),
    StableHlo.TRef.nullary (.of main_call58_cst : StableHlo.TRef sig ⟨S_, .f32⟩) (constant S_ .f32 0x7FC00000#32),
    StableHlo.TRef.unary (.of main_call58_cst : StableHlo.TRef sig ⟨S_, .f32⟩) (.of main_call58_v12 : StableHlo.TRef sig ⟨S16384x2x2x2x2x2x2x2, .f32⟩) (broadcastInDim S16384x2x2x2x2x2x2x2 ![] bcast_S_S16384x2x2x2x2x2x2x2),
    StableHlo.TRef.ternary (.of main_call58_v11 : StableHlo.TRef sig ⟨S16384x2x2x2x2x2x2x2, .i1⟩) (.of main_call58_v10 : StableHlo.TRef sig ⟨S16384x2x2x2x2x2x2x2, .f32⟩) (.of main_call58_v12 : StableHlo.TRef sig ⟨S16384x2x2x2x2x2x2x2, .f32⟩) (.of main_v472 : StableHlo.TRef sig ⟨S16384x2x2x2x2x2x2x2, .f32⟩) select,
    StableHlo.nullary main_c_86 (constantI S_ 32 1#32),
    StableHlo.TRef.nullary (.of main_call59_c : StableHlo.TRef sig ⟨S_, .i32⟩) (constantI S_ 32 0#32),
    StableHlo.TRef.binary (.of main_c_86 : StableHlo.TRef sig ⟨S_, .i32⟩) (.of main_call59_c : StableHlo.TRef sig ⟨S_, .i32⟩) (.of main_call59_v0 : StableHlo.TRef sig ⟨S_, .i1⟩) (cmpi .slt),
    StableHlo.TRef.nullary (.of main_call59_c_0 : StableHlo.TRef sig ⟨S_, .i32⟩) (constantI S_ 32 2#32),
    StableHlo.TRef.binary (.of main_c_86 : StableHlo.TRef sig ⟨S_, .i32⟩) (.of main_call59_c_0 : StableHlo.TRef sig ⟨S_, .i32⟩) (.of main_call59_v1 : StableHlo.TRef sig ⟨S_, .i32⟩) addi,
    StableHlo.TRef.ternary (.of main_call59_v0 : StableHlo.TRef sig ⟨S_, .i1⟩) (.of main_call59_v1 : StableHlo.TRef sig ⟨S_, .i32⟩) (.of main_c_86 : StableHlo.TRef sig ⟨S_, .i32⟩) (.of main_call59_v2 : StableHlo.TRef sig ⟨S_, .i32⟩) select,
    StableHlo.TRef.unary (.of main_call59_v2 : StableHlo.TRef sig ⟨S_, .i32⟩) (.of main_call59_v3 : StableHlo.TRef sig ⟨S1, .i32⟩) (broadcastInDim S1 ![] bcast_S_S1),
    StableHlo.TRef.nullary (.of main_call59_c_1 : StableHlo.TRef sig ⟨S1, .i32⟩) (constantI S1 32 1#32),
    StableHlo.TRef.unary (.of main_call59_v3 : StableHlo.TRef sig ⟨S1, .i32⟩) (.of main_call59_v4 : StableHlo.TRef sig ⟨S1, .i32⟩) id,
    StableHlo.TRef.nullary (.of main_call59_c_2 : StableHlo.TRef sig ⟨S_, .i32⟩) (constantI S_ 32 0#32),
    StableHlo.TRef.unary (.of main_call59_c_2 : StableHlo.TRef sig ⟨S_, .i32⟩) (.of main_call59_v5 : StableHlo.TRef sig ⟨S1, .i32⟩) (broadcastInDim S1 ![] bcast_S_S1),
    StableHlo.TRef.binary (.of main_call59_v4 : StableHlo.TRef sig ⟨S1, .i32⟩) (.of main_call59_v5 : StableHlo.TRef sig ⟨S1, .i32⟩) (.of main_call59_v6 : StableHlo.TRef sig ⟨S1, .i1⟩) (cmpi .sge),
    StableHlo.TRef.binary (.of main_call59_v4 : StableHlo.TRef sig ⟨S1, .i32⟩) (.of main_call59_c_1 : StableHlo.TRef sig ⟨S1, .i32⟩) (.of main_call59_v7 : StableHlo.TRef sig ⟨S1, .i1⟩) (cmpi .sle),
    StableHlo.TRef.binary (.of main_call59_v6 : StableHlo.TRef sig ⟨S1, .i1⟩) (.of main_call59_v7 : StableHlo.TRef sig ⟨S1, .i1⟩) (.of main_call59_v8 : StableHlo.TRef sig ⟨S1, .i1⟩) andi,
    StableHlo.TRef.nullary (.of main_call59_c_3 : StableHlo.TRef sig ⟨S_, .i1⟩) (constantI S_ 1 1#1),
    StableHlo.TRef.binary (.of main_call59_v8 : StableHlo.TRef sig ⟨S1, .i1⟩) (.of main_call59_c_3 : StableHlo.TRef sig ⟨S_, .i1⟩) (.of main_call59_v9 : StableHlo.TRef sig ⟨S_, .i1⟩) (fun x v => Host.reduce IntOp.andi x v reducesTo_S1_S_d0 h_S_),
    StableHlo.TRef.binary (.of main_v465 : StableHlo.TRef sig ⟨S16384x2x2x2x2x2x2x2x2, .f32⟩) (.of main_call59_v4 : StableHlo.TRef sig ⟨S1, .i32⟩) (.of main_call59_v10 : StableHlo.TRef sig ⟨S16384x2x2x2x2x2x2x2, .f32⟩) (fun x i => Host.gather gather_S16384x2x2x2x2x2x2x2x2_S1_S16384x2x2x2x2x2x2x2_01234567_7_n_n_7_0_1638422222212 x i),
    StableHlo.TRef.unary (.of main_call59_v9 : StableHlo.TRef sig ⟨S_, .i1⟩) (.of main_call59_v11 : StableHlo.TRef sig ⟨S16384x2x2x2x2x2x2x2, .i1⟩) (broadcastInDim S16384x2x2x2x2x2x2x2 ![] bcast_S_S16384x2x2x2x2x2x2x2),
    StableHlo.TRef.nullary (.of main_call59_cst : StableHlo.TRef sig ⟨S_, .f32⟩) (constant S_ .f32 0x7FC00000#32),
    StableHlo.TRef.unary (.of main_call59_cst : StableHlo.TRef sig ⟨S_, .f32⟩) (.of main_call59_v12 : StableHlo.TRef sig ⟨S16384x2x2x2x2x2x2x2, .f32⟩) (broadcastInDim S16384x2x2x2x2x2x2x2 ![] bcast_S_S16384x2x2x2x2x2x2x2),
    StableHlo.TRef.ternary (.of main_call59_v11 : StableHlo.TRef sig ⟨S16384x2x2x2x2x2x2x2, .i1⟩) (.of main_call59_v10 : StableHlo.TRef sig ⟨S16384x2x2x2x2x2x2x2, .f32⟩) (.of main_call59_v12 : StableHlo.TRef sig ⟨S16384x2x2x2x2x2x2x2, .f32⟩) (.of main_v473 : StableHlo.TRef sig ⟨S16384x2x2x2x2x2x2x2, .f32⟩) select,
    StableHlo.unary main_v469 main_v474 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v474 main_v472 main_v475 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v471 main_v476 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v476 main_v473 main_v477 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.binary main_v475 main_v477 main_v478 (subf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v471 main_v479 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v479 main_v472 main_v480 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v469 main_v481 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v481 main_v473 main_v482 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.binary main_v480 main_v482 main_v483 (addf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v478 main_v484 (broadcastInDim S16384x2x2x2x2x2x2x1x2 ![0, 1, 2, 3, 4, 5, 6, 8] bcast_S16384x2x2x2x2x2x2x2_S16384x2x2x2x2x2x2x1x2_0_1_2_3_4_5_6_8 : (⟨S16384x2x2x2x2x2x2x2, .f32⟩ : BufTy).Contents (Elt F) → (⟨S16384x2x2x2x2x2x2x1x2, .f32⟩ : BufTy).Contents (Elt F)),
    StableHlo.unary main_v483 main_v485 (broadcastInDim S16384x2x2x2x2x2x2x1x2 ![0, 1, 2, 3, 4, 5, 6, 8] bcast_S16384x2x2x2x2x2x2x2_S16384x2x2x2x2x2x2x1x2_0_1_2_3_4_5_6_8 : (⟨S16384x2x2x2x2x2x2x2, .f32⟩ : BufTy).Contents (Elt F) → (⟨S16384x2x2x2x2x2x2x1x2, .f32⟩ : BufTy).Contents (Elt F)),
    StableHlo.binary main_v484 main_v485 main_v486 ((fun a b => concatenate S16384x2x2x2x2x2x2x2x2 7 [⟨S16384x2x2x2x2x2x2x1x2, a⟩, ⟨S16384x2x2x2x2x2x2x1x2, b⟩] concatenates_S16384x2x2x2x2x2x2x1x2_S16384x2x2x2x2x2x2x1x2_S16384x2x2x2x2x2x2x2x2_d7) : (⟨S16384x2x2x2x2x2x2x1x2, .f32⟩ : BufTy).Contents (Elt F) → (⟨S16384x2x2x2x2x2x2x1x2, .f32⟩ : BufTy).Contents (Elt F) → (⟨S16384x2x2x2x2x2x2x2x2, .f32⟩ : BufTy).Contents (Elt F)) ]

/-- The host operations of gate 27 (a controlled flip, axis 7). -/
abbrev G27 : List (HloOp τ sig (Elt F)) :=
  [ StableHlo.nullary main_c_87 (constantI S_ 32 0#32),
    StableHlo.TRef.nullary (.of main_call60_c : StableHlo.TRef sig ⟨S_, .i32⟩) (constantI S_ 32 0#32),
    StableHlo.TRef.binary (.of main_c_87 : StableHlo.TRef sig ⟨S_, .i32⟩) (.of main_call60_c : StableHlo.TRef sig ⟨S_, .i32⟩) (.of main_call60_v0 : StableHlo.TRef sig ⟨S_, .i1⟩) (cmpi .slt),
    StableHlo.TRef.nullary (.of main_call60_c_0 : StableHlo.TRef sig ⟨S_, .i32⟩) (constantI S_ 32 2#32),
    StableHlo.TRef.binary (.of main_c_87 : StableHlo.TRef sig ⟨S_, .i32⟩) (.of main_call60_c_0 : StableHlo.TRef sig ⟨S_, .i32⟩) (.of main_call60_v1 : StableHlo.TRef sig ⟨S_, .i32⟩) addi,
    StableHlo.TRef.ternary (.of main_call60_v0 : StableHlo.TRef sig ⟨S_, .i1⟩) (.of main_call60_v1 : StableHlo.TRef sig ⟨S_, .i32⟩) (.of main_c_87 : StableHlo.TRef sig ⟨S_, .i32⟩) (.of main_call60_v2 : StableHlo.TRef sig ⟨S_, .i32⟩) select,
    StableHlo.TRef.unary (.of main_call60_v2 : StableHlo.TRef sig ⟨S_, .i32⟩) (.of main_call60_v3 : StableHlo.TRef sig ⟨S1, .i32⟩) (broadcastInDim S1 ![] bcast_S_S1),
    StableHlo.TRef.nullary (.of main_call60_c_1 : StableHlo.TRef sig ⟨S1, .i32⟩) (constantI S1 32 1#32),
    StableHlo.TRef.unary (.of main_call60_v3 : StableHlo.TRef sig ⟨S1, .i32⟩) (.of main_call60_v4 : StableHlo.TRef sig ⟨S1, .i32⟩) id,
    StableHlo.TRef.nullary (.of main_call60_c_2 : StableHlo.TRef sig ⟨S_, .i32⟩) (constantI S_ 32 0#32),
    StableHlo.TRef.unary (.of main_call60_c_2 : StableHlo.TRef sig ⟨S_, .i32⟩) (.of main_call60_v5 : StableHlo.TRef sig ⟨S1, .i32⟩) (broadcastInDim S1 ![] bcast_S_S1),
    StableHlo.TRef.binary (.of main_call60_v4 : StableHlo.TRef sig ⟨S1, .i32⟩) (.of main_call60_v5 : StableHlo.TRef sig ⟨S1, .i32⟩) (.of main_call60_v6 : StableHlo.TRef sig ⟨S1, .i1⟩) (cmpi .sge),
    StableHlo.TRef.binary (.of main_call60_v4 : StableHlo.TRef sig ⟨S1, .i32⟩) (.of main_call60_c_1 : StableHlo.TRef sig ⟨S1, .i32⟩) (.of main_call60_v7 : StableHlo.TRef sig ⟨S1, .i1⟩) (cmpi .sle),
    StableHlo.TRef.binary (.of main_call60_v6 : StableHlo.TRef sig ⟨S1, .i1⟩) (.of main_call60_v7 : StableHlo.TRef sig ⟨S1, .i1⟩) (.of main_call60_v8 : StableHlo.TRef sig ⟨S1, .i1⟩) andi,
    StableHlo.TRef.nullary (.of main_call60_c_3 : StableHlo.TRef sig ⟨S_, .i1⟩) (constantI S_ 1 1#1),
    StableHlo.TRef.binary (.of main_call60_v8 : StableHlo.TRef sig ⟨S1, .i1⟩) (.of main_call60_c_3 : StableHlo.TRef sig ⟨S_, .i1⟩) (.of main_call60_v9 : StableHlo.TRef sig ⟨S_, .i1⟩) (fun x v => Host.reduce IntOp.andi x v reducesTo_S1_S_d0 h_S_),
    StableHlo.TRef.binary (.of main_v486 : StableHlo.TRef sig ⟨S16384x2x2x2x2x2x2x2x2, .f32⟩) (.of main_call60_v4 : StableHlo.TRef sig ⟨S1, .i32⟩) (.of main_call60_v10 : StableHlo.TRef sig ⟨S16384x2x2x2x2x2x2x2, .f32⟩) (fun x i => Host.gather gather_S16384x2x2x2x2x2x2x2x2_S1_S16384x2x2x2x2x2x2x2_01234567_7_n_n_7_0_1638422222212 x i),
    StableHlo.TRef.unary (.of main_call60_v9 : StableHlo.TRef sig ⟨S_, .i1⟩) (.of main_call60_v11 : StableHlo.TRef sig ⟨S16384x2x2x2x2x2x2x2, .i1⟩) (broadcastInDim S16384x2x2x2x2x2x2x2 ![] bcast_S_S16384x2x2x2x2x2x2x2),
    StableHlo.TRef.nullary (.of main_call60_cst : StableHlo.TRef sig ⟨S_, .f32⟩) (constant S_ .f32 0x7FC00000#32),
    StableHlo.TRef.unary (.of main_call60_cst : StableHlo.TRef sig ⟨S_, .f32⟩) (.of main_call60_v12 : StableHlo.TRef sig ⟨S16384x2x2x2x2x2x2x2, .f32⟩) (broadcastInDim S16384x2x2x2x2x2x2x2 ![] bcast_S_S16384x2x2x2x2x2x2x2),
    StableHlo.TRef.ternary (.of main_call60_v11 : StableHlo.TRef sig ⟨S16384x2x2x2x2x2x2x2, .i1⟩) (.of main_call60_v10 : StableHlo.TRef sig ⟨S16384x2x2x2x2x2x2x2, .f32⟩) (.of main_call60_v12 : StableHlo.TRef sig ⟨S16384x2x2x2x2x2x2x2, .f32⟩) (.of main_v487 : StableHlo.TRef sig ⟨S16384x2x2x2x2x2x2x2, .f32⟩) select,
    StableHlo.nullary main_c_88 (constantI S_ 32 1#32),
    StableHlo.TRef.nullary (.of main_call61_c : StableHlo.TRef sig ⟨S_, .i32⟩) (constantI S_ 32 0#32),
    StableHlo.TRef.binary (.of main_c_88 : StableHlo.TRef sig ⟨S_, .i32⟩) (.of main_call61_c : StableHlo.TRef sig ⟨S_, .i32⟩) (.of main_call61_v0 : StableHlo.TRef sig ⟨S_, .i1⟩) (cmpi .slt),
    StableHlo.TRef.nullary (.of main_call61_c_0 : StableHlo.TRef sig ⟨S_, .i32⟩) (constantI S_ 32 2#32),
    StableHlo.TRef.binary (.of main_c_88 : StableHlo.TRef sig ⟨S_, .i32⟩) (.of main_call61_c_0 : StableHlo.TRef sig ⟨S_, .i32⟩) (.of main_call61_v1 : StableHlo.TRef sig ⟨S_, .i32⟩) addi,
    StableHlo.TRef.ternary (.of main_call61_v0 : StableHlo.TRef sig ⟨S_, .i1⟩) (.of main_call61_v1 : StableHlo.TRef sig ⟨S_, .i32⟩) (.of main_c_88 : StableHlo.TRef sig ⟨S_, .i32⟩) (.of main_call61_v2 : StableHlo.TRef sig ⟨S_, .i32⟩) select,
    StableHlo.TRef.unary (.of main_call61_v2 : StableHlo.TRef sig ⟨S_, .i32⟩) (.of main_call61_v3 : StableHlo.TRef sig ⟨S1, .i32⟩) (broadcastInDim S1 ![] bcast_S_S1),
    StableHlo.TRef.nullary (.of main_call61_c_1 : StableHlo.TRef sig ⟨S1, .i32⟩) (constantI S1 32 1#32),
    StableHlo.TRef.unary (.of main_call61_v3 : StableHlo.TRef sig ⟨S1, .i32⟩) (.of main_call61_v4 : StableHlo.TRef sig ⟨S1, .i32⟩) id,
    StableHlo.TRef.nullary (.of main_call61_c_2 : StableHlo.TRef sig ⟨S_, .i32⟩) (constantI S_ 32 0#32),
    StableHlo.TRef.unary (.of main_call61_c_2 : StableHlo.TRef sig ⟨S_, .i32⟩) (.of main_call61_v5 : StableHlo.TRef sig ⟨S1, .i32⟩) (broadcastInDim S1 ![] bcast_S_S1),
    StableHlo.TRef.binary (.of main_call61_v4 : StableHlo.TRef sig ⟨S1, .i32⟩) (.of main_call61_v5 : StableHlo.TRef sig ⟨S1, .i32⟩) (.of main_call61_v6 : StableHlo.TRef sig ⟨S1, .i1⟩) (cmpi .sge),
    StableHlo.TRef.binary (.of main_call61_v4 : StableHlo.TRef sig ⟨S1, .i32⟩) (.of main_call61_c_1 : StableHlo.TRef sig ⟨S1, .i32⟩) (.of main_call61_v7 : StableHlo.TRef sig ⟨S1, .i1⟩) (cmpi .sle),
    StableHlo.TRef.binary (.of main_call61_v6 : StableHlo.TRef sig ⟨S1, .i1⟩) (.of main_call61_v7 : StableHlo.TRef sig ⟨S1, .i1⟩) (.of main_call61_v8 : StableHlo.TRef sig ⟨S1, .i1⟩) andi,
    StableHlo.TRef.nullary (.of main_call61_c_3 : StableHlo.TRef sig ⟨S_, .i1⟩) (constantI S_ 1 1#1),
    StableHlo.TRef.binary (.of main_call61_v8 : StableHlo.TRef sig ⟨S1, .i1⟩) (.of main_call61_c_3 : StableHlo.TRef sig ⟨S_, .i1⟩) (.of main_call61_v9 : StableHlo.TRef sig ⟨S_, .i1⟩) (fun x v => Host.reduce IntOp.andi x v reducesTo_S1_S_d0 h_S_),
    StableHlo.TRef.binary (.of main_v486 : StableHlo.TRef sig ⟨S16384x2x2x2x2x2x2x2x2, .f32⟩) (.of main_call61_v4 : StableHlo.TRef sig ⟨S1, .i32⟩) (.of main_call61_v10 : StableHlo.TRef sig ⟨S16384x2x2x2x2x2x2x2, .f32⟩) (fun x i => Host.gather gather_S16384x2x2x2x2x2x2x2x2_S1_S16384x2x2x2x2x2x2x2_01234567_7_n_n_7_0_1638422222212 x i),
    StableHlo.TRef.unary (.of main_call61_v9 : StableHlo.TRef sig ⟨S_, .i1⟩) (.of main_call61_v11 : StableHlo.TRef sig ⟨S16384x2x2x2x2x2x2x2, .i1⟩) (broadcastInDim S16384x2x2x2x2x2x2x2 ![] bcast_S_S16384x2x2x2x2x2x2x2),
    StableHlo.TRef.nullary (.of main_call61_cst : StableHlo.TRef sig ⟨S_, .f32⟩) (constant S_ .f32 0x7FC00000#32),
    StableHlo.TRef.unary (.of main_call61_cst : StableHlo.TRef sig ⟨S_, .f32⟩) (.of main_call61_v12 : StableHlo.TRef sig ⟨S16384x2x2x2x2x2x2x2, .f32⟩) (broadcastInDim S16384x2x2x2x2x2x2x2 ![] bcast_S_S16384x2x2x2x2x2x2x2),
    StableHlo.TRef.ternary (.of main_call61_v11 : StableHlo.TRef sig ⟨S16384x2x2x2x2x2x2x2, .i1⟩) (.of main_call61_v10 : StableHlo.TRef sig ⟨S16384x2x2x2x2x2x2x2, .f32⟩) (.of main_call61_v12 : StableHlo.TRef sig ⟨S16384x2x2x2x2x2x2x2, .f32⟩) (.of main_v488 : StableHlo.TRef sig ⟨S16384x2x2x2x2x2x2x2, .f32⟩) select,
    StableHlo.TRef.unary (.of main_v488 : StableHlo.TRef sig ⟨S16384x2x2x2x2x2x2x2, .f32⟩) (.of main_v489 : StableHlo.TRef sig ⟨S16384x2x2x2x2x2x2x2, .f32⟩) (Host.reverse [6]),
    StableHlo.unary main_v487 main_v490 (broadcastInDim S16384x2x2x2x2x2x2x1x2 ![0, 1, 2, 3, 4, 5, 6, 8] bcast_S16384x2x2x2x2x2x2x2_S16384x2x2x2x2x2x2x1x2_0_1_2_3_4_5_6_8 : (⟨S16384x2x2x2x2x2x2x2, .f32⟩ : BufTy).Contents (Elt F) → (⟨S16384x2x2x2x2x2x2x1x2, .f32⟩ : BufTy).Contents (Elt F)),
    StableHlo.unary main_v489 main_v491 (broadcastInDim S16384x2x2x2x2x2x2x1x2 ![0, 1, 2, 3, 4, 5, 6, 8] bcast_S16384x2x2x2x2x2x2x2_S16384x2x2x2x2x2x2x1x2_0_1_2_3_4_5_6_8 : (⟨S16384x2x2x2x2x2x2x2, .f32⟩ : BufTy).Contents (Elt F) → (⟨S16384x2x2x2x2x2x2x1x2, .f32⟩ : BufTy).Contents (Elt F)),
    StableHlo.binary main_v490 main_v491 main_v492 ((fun a b => concatenate S16384x2x2x2x2x2x2x2x2 7 [⟨S16384x2x2x2x2x2x2x1x2, a⟩, ⟨S16384x2x2x2x2x2x2x1x2, b⟩] concatenates_S16384x2x2x2x2x2x2x1x2_S16384x2x2x2x2x2x2x1x2_S16384x2x2x2x2x2x2x2x2_d7) : (⟨S16384x2x2x2x2x2x2x1x2, .f32⟩ : BufTy).Contents (Elt F) → (⟨S16384x2x2x2x2x2x2x1x2, .f32⟩ : BufTy).Contents (Elt F) → (⟨S16384x2x2x2x2x2x2x2x2, .f32⟩ : BufTy).Contents (Elt F)) ]

/-- The host operations of gate 28 (a rotation, parameter 18, axis 3). -/
abbrev G28 : List (HloOp τ sig (Elt F)) :=
  [ StableHlo.unary main_arg3 main_v493 ((extractStridedSlice S1 ![18] · slices_S21_S1_18) : (⟨S21, .f32⟩ : BufTy).Contents (Elt F) → (⟨S1, .f32⟩ : BufTy).Contents (Elt F)),
    StableHlo.reshape main_v493 main_v494 rfl shapeCasts_S1_S_,
    StableHlo.nullary main_cst_89 (constant S_ .f32 0x3F000000#32),
    StableHlo.binary main_cst_89 main_v494 main_v495 (mulf : (⟨S_, .f32⟩ : BufTy).Contents (Elt F) → (⟨S_, .f32⟩ : BufTy).Contents (Elt F) → (⟨S_, .f32⟩ : BufTy).Contents (Elt F)),
    StableHlo.unary main_v495 main_v496 (Host.cos : (⟨S_, .f32⟩ : BufTy).Contents (Elt F) → (⟨S_, .f32⟩ : BufTy).Contents (Elt F)),
    StableHlo.nullary main_cst_90 (constant S_ .f32 0x3F000000#32),
    StableHlo.binary main_cst_90 main_v494 main_v497 (mulf : (⟨S_, .f32⟩ : BufTy).Contents (Elt F) → (⟨S_, .f32⟩ : BufTy).Contents (Elt F) → (⟨S_, .f32⟩ : BufTy).Contents (Elt F)),
    StableHlo.unary main_v497 main_v498 (Host.sin : (⟨S_, .f32⟩ : BufTy).Contents (Elt F) → (⟨S_, .f32⟩ : BufTy).Contents (Elt F)),
    StableHlo.nullary main_c_91 (constantI S_ 32 0#32),
    StableHlo.TRef.nullary (.of main_call63_c : StableHlo.TRef sig ⟨S_, .i32⟩) (constantI S_ 32 0#32),
    StableHlo.TRef.binary (.of main_c_91 : StableHlo.TRef sig ⟨S_, .i32⟩) (.of main_call63_c : StableHlo.TRef sig ⟨S_, .i32⟩) (.of main_call63_v0 : StableHlo.TRef sig ⟨S_, .i1⟩) (cmpi .slt),
    StableHlo.TRef.nullary (.of main_call63_c_0 : StableHlo.TRef sig ⟨S_, .i32⟩) (constantI S_ 32 2#32),
    StableHlo.TRef.binary (.of main_c_91 : StableHlo.TRef sig ⟨S_, .i32⟩) (.of main_call63_c_0 : StableHlo.TRef sig ⟨S_, .i32⟩) (.of main_call63_v1 : StableHlo.TRef sig ⟨S_, .i32⟩) addi,
    StableHlo.TRef.ternary (.of main_call63_v0 : StableHlo.TRef sig ⟨S_, .i1⟩) (.of main_call63_v1 : StableHlo.TRef sig ⟨S_, .i32⟩) (.of main_c_91 : StableHlo.TRef sig ⟨S_, .i32⟩) (.of main_call63_v2 : StableHlo.TRef sig ⟨S_, .i32⟩) select,
    StableHlo.TRef.unary (.of main_call63_v2 : StableHlo.TRef sig ⟨S_, .i32⟩) (.of main_call63_v3 : StableHlo.TRef sig ⟨S1, .i32⟩) (broadcastInDim S1 ![] bcast_S_S1),
    StableHlo.TRef.nullary (.of main_call63_c_1 : StableHlo.TRef sig ⟨S1, .i32⟩) (constantI S1 32 1#32),
    StableHlo.TRef.unary (.of main_call63_v3 : StableHlo.TRef sig ⟨S1, .i32⟩) (.of main_call63_v4 : StableHlo.TRef sig ⟨S1, .i32⟩) id,
    StableHlo.TRef.nullary (.of main_call63_c_2 : StableHlo.TRef sig ⟨S_, .i32⟩) (constantI S_ 32 0#32),
    StableHlo.TRef.unary (.of main_call63_c_2 : StableHlo.TRef sig ⟨S_, .i32⟩) (.of main_call63_v5 : StableHlo.TRef sig ⟨S1, .i32⟩) (broadcastInDim S1 ![] bcast_S_S1),
    StableHlo.TRef.binary (.of main_call63_v4 : StableHlo.TRef sig ⟨S1, .i32⟩) (.of main_call63_v5 : StableHlo.TRef sig ⟨S1, .i32⟩) (.of main_call63_v6 : StableHlo.TRef sig ⟨S1, .i1⟩) (cmpi .sge),
    StableHlo.TRef.binary (.of main_call63_v4 : StableHlo.TRef sig ⟨S1, .i32⟩) (.of main_call63_c_1 : StableHlo.TRef sig ⟨S1, .i32⟩) (.of main_call63_v7 : StableHlo.TRef sig ⟨S1, .i1⟩) (cmpi .sle),
    StableHlo.TRef.binary (.of main_call63_v6 : StableHlo.TRef sig ⟨S1, .i1⟩) (.of main_call63_v7 : StableHlo.TRef sig ⟨S1, .i1⟩) (.of main_call63_v8 : StableHlo.TRef sig ⟨S1, .i1⟩) andi,
    StableHlo.TRef.nullary (.of main_call63_c_3 : StableHlo.TRef sig ⟨S_, .i1⟩) (constantI S_ 1 1#1),
    StableHlo.TRef.binary (.of main_call63_v8 : StableHlo.TRef sig ⟨S1, .i1⟩) (.of main_call63_c_3 : StableHlo.TRef sig ⟨S_, .i1⟩) (.of main_call63_v9 : StableHlo.TRef sig ⟨S_, .i1⟩) (fun x v => Host.reduce IntOp.andi x v reducesTo_S1_S_d0 h_S_),
    StableHlo.TRef.binary (.of main_v492 : StableHlo.TRef sig ⟨S16384x2x2x2x2x2x2x2x2, .f32⟩) (.of main_call63_v4 : StableHlo.TRef sig ⟨S1, .i32⟩) (.of main_call63_v10 : StableHlo.TRef sig ⟨S16384x2x2x2x2x2x2x2, .f32⟩) (fun x i => Host.gather gather_S16384x2x2x2x2x2x2x2x2_S1_S16384x2x2x2x2x2x2x2_01234567_3_n_n_3_0_1638422122222 x i),
    StableHlo.TRef.unary (.of main_call63_v9 : StableHlo.TRef sig ⟨S_, .i1⟩) (.of main_call63_v11 : StableHlo.TRef sig ⟨S16384x2x2x2x2x2x2x2, .i1⟩) (broadcastInDim S16384x2x2x2x2x2x2x2 ![] bcast_S_S16384x2x2x2x2x2x2x2),
    StableHlo.TRef.nullary (.of main_call63_cst : StableHlo.TRef sig ⟨S_, .f32⟩) (constant S_ .f32 0x7FC00000#32),
    StableHlo.TRef.unary (.of main_call63_cst : StableHlo.TRef sig ⟨S_, .f32⟩) (.of main_call63_v12 : StableHlo.TRef sig ⟨S16384x2x2x2x2x2x2x2, .f32⟩) (broadcastInDim S16384x2x2x2x2x2x2x2 ![] bcast_S_S16384x2x2x2x2x2x2x2),
    StableHlo.TRef.ternary (.of main_call63_v11 : StableHlo.TRef sig ⟨S16384x2x2x2x2x2x2x2, .i1⟩) (.of main_call63_v10 : StableHlo.TRef sig ⟨S16384x2x2x2x2x2x2x2, .f32⟩) (.of main_call63_v12 : StableHlo.TRef sig ⟨S16384x2x2x2x2x2x2x2, .f32⟩) (.of main_v499 : StableHlo.TRef sig ⟨S16384x2x2x2x2x2x2x2, .f32⟩) select,
    StableHlo.nullary main_c_92 (constantI S_ 32 1#32),
    StableHlo.TRef.nullary (.of main_call64_c : StableHlo.TRef sig ⟨S_, .i32⟩) (constantI S_ 32 0#32),
    StableHlo.TRef.binary (.of main_c_92 : StableHlo.TRef sig ⟨S_, .i32⟩) (.of main_call64_c : StableHlo.TRef sig ⟨S_, .i32⟩) (.of main_call64_v0 : StableHlo.TRef sig ⟨S_, .i1⟩) (cmpi .slt),
    StableHlo.TRef.nullary (.of main_call64_c_0 : StableHlo.TRef sig ⟨S_, .i32⟩) (constantI S_ 32 2#32),
    StableHlo.TRef.binary (.of main_c_92 : StableHlo.TRef sig ⟨S_, .i32⟩) (.of main_call64_c_0 : StableHlo.TRef sig ⟨S_, .i32⟩) (.of main_call64_v1 : StableHlo.TRef sig ⟨S_, .i32⟩) addi,
    StableHlo.TRef.ternary (.of main_call64_v0 : StableHlo.TRef sig ⟨S_, .i1⟩) (.of main_call64_v1 : StableHlo.TRef sig ⟨S_, .i32⟩) (.of main_c_92 : StableHlo.TRef sig ⟨S_, .i32⟩) (.of main_call64_v2 : StableHlo.TRef sig ⟨S_, .i32⟩) select,
    StableHlo.TRef.unary (.of main_call64_v2 : StableHlo.TRef sig ⟨S_, .i32⟩) (.of main_call64_v3 : StableHlo.TRef sig ⟨S1, .i32⟩) (broadcastInDim S1 ![] bcast_S_S1),
    StableHlo.TRef.nullary (.of main_call64_c_1 : StableHlo.TRef sig ⟨S1, .i32⟩) (constantI S1 32 1#32),
    StableHlo.TRef.unary (.of main_call64_v3 : StableHlo.TRef sig ⟨S1, .i32⟩) (.of main_call64_v4 : StableHlo.TRef sig ⟨S1, .i32⟩) id,
    StableHlo.TRef.nullary (.of main_call64_c_2 : StableHlo.TRef sig ⟨S_, .i32⟩) (constantI S_ 32 0#32),
    StableHlo.TRef.unary (.of main_call64_c_2 : StableHlo.TRef sig ⟨S_, .i32⟩) (.of main_call64_v5 : StableHlo.TRef sig ⟨S1, .i32⟩) (broadcastInDim S1 ![] bcast_S_S1),
    StableHlo.TRef.binary (.of main_call64_v4 : StableHlo.TRef sig ⟨S1, .i32⟩) (.of main_call64_v5 : StableHlo.TRef sig ⟨S1, .i32⟩) (.of main_call64_v6 : StableHlo.TRef sig ⟨S1, .i1⟩) (cmpi .sge),
    StableHlo.TRef.binary (.of main_call64_v4 : StableHlo.TRef sig ⟨S1, .i32⟩) (.of main_call64_c_1 : StableHlo.TRef sig ⟨S1, .i32⟩) (.of main_call64_v7 : StableHlo.TRef sig ⟨S1, .i1⟩) (cmpi .sle),
    StableHlo.TRef.binary (.of main_call64_v6 : StableHlo.TRef sig ⟨S1, .i1⟩) (.of main_call64_v7 : StableHlo.TRef sig ⟨S1, .i1⟩) (.of main_call64_v8 : StableHlo.TRef sig ⟨S1, .i1⟩) andi,
    StableHlo.TRef.nullary (.of main_call64_c_3 : StableHlo.TRef sig ⟨S_, .i1⟩) (constantI S_ 1 1#1),
    StableHlo.TRef.binary (.of main_call64_v8 : StableHlo.TRef sig ⟨S1, .i1⟩) (.of main_call64_c_3 : StableHlo.TRef sig ⟨S_, .i1⟩) (.of main_call64_v9 : StableHlo.TRef sig ⟨S_, .i1⟩) (fun x v => Host.reduce IntOp.andi x v reducesTo_S1_S_d0 h_S_),
    StableHlo.TRef.binary (.of main_v492 : StableHlo.TRef sig ⟨S16384x2x2x2x2x2x2x2x2, .f32⟩) (.of main_call64_v4 : StableHlo.TRef sig ⟨S1, .i32⟩) (.of main_call64_v10 : StableHlo.TRef sig ⟨S16384x2x2x2x2x2x2x2, .f32⟩) (fun x i => Host.gather gather_S16384x2x2x2x2x2x2x2x2_S1_S16384x2x2x2x2x2x2x2_01234567_3_n_n_3_0_1638422122222 x i),
    StableHlo.TRef.unary (.of main_call64_v9 : StableHlo.TRef sig ⟨S_, .i1⟩) (.of main_call64_v11 : StableHlo.TRef sig ⟨S16384x2x2x2x2x2x2x2, .i1⟩) (broadcastInDim S16384x2x2x2x2x2x2x2 ![] bcast_S_S16384x2x2x2x2x2x2x2),
    StableHlo.TRef.nullary (.of main_call64_cst : StableHlo.TRef sig ⟨S_, .f32⟩) (constant S_ .f32 0x7FC00000#32),
    StableHlo.TRef.unary (.of main_call64_cst : StableHlo.TRef sig ⟨S_, .f32⟩) (.of main_call64_v12 : StableHlo.TRef sig ⟨S16384x2x2x2x2x2x2x2, .f32⟩) (broadcastInDim S16384x2x2x2x2x2x2x2 ![] bcast_S_S16384x2x2x2x2x2x2x2),
    StableHlo.TRef.ternary (.of main_call64_v11 : StableHlo.TRef sig ⟨S16384x2x2x2x2x2x2x2, .i1⟩) (.of main_call64_v10 : StableHlo.TRef sig ⟨S16384x2x2x2x2x2x2x2, .f32⟩) (.of main_call64_v12 : StableHlo.TRef sig ⟨S16384x2x2x2x2x2x2x2, .f32⟩) (.of main_v500 : StableHlo.TRef sig ⟨S16384x2x2x2x2x2x2x2, .f32⟩) select,
    StableHlo.unary main_v496 main_v501 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v501 main_v499 main_v502 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v498 main_v503 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v503 main_v500 main_v504 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.binary main_v502 main_v504 main_v505 (subf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v498 main_v506 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v506 main_v499 main_v507 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v496 main_v508 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v508 main_v500 main_v509 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.binary main_v507 main_v509 main_v510 (addf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v505 main_v511 (broadcastInDim S16384x2x2x1x2x2x2x2x2 ![0, 1, 2, 4, 5, 6, 7, 8] bcast_S16384x2x2x2x2x2x2x2_S16384x2x2x1x2x2x2x2x2_0_1_2_4_5_6_7_8 : (⟨S16384x2x2x2x2x2x2x2, .f32⟩ : BufTy).Contents (Elt F) → (⟨S16384x2x2x1x2x2x2x2x2, .f32⟩ : BufTy).Contents (Elt F)),
    StableHlo.unary main_v510 main_v512 (broadcastInDim S16384x2x2x1x2x2x2x2x2 ![0, 1, 2, 4, 5, 6, 7, 8] bcast_S16384x2x2x2x2x2x2x2_S16384x2x2x1x2x2x2x2x2_0_1_2_4_5_6_7_8 : (⟨S16384x2x2x2x2x2x2x2, .f32⟩ : BufTy).Contents (Elt F) → (⟨S16384x2x2x1x2x2x2x2x2, .f32⟩ : BufTy).Contents (Elt F)),
    StableHlo.binary main_v511 main_v512 main_v513 ((fun a b => concatenate S16384x2x2x2x2x2x2x2x2 3 [⟨S16384x2x2x1x2x2x2x2x2, a⟩, ⟨S16384x2x2x1x2x2x2x2x2, b⟩] concatenates_S16384x2x2x1x2x2x2x2x2_S16384x2x2x1x2x2x2x2x2_S16384x2x2x2x2x2x2x2x2_d3) : (⟨S16384x2x2x1x2x2x2x2x2, .f32⟩ : BufTy).Contents (Elt F) → (⟨S16384x2x2x1x2x2x2x2x2, .f32⟩ : BufTy).Contents (Elt F) → (⟨S16384x2x2x2x2x2x2x2x2, .f32⟩ : BufTy).Contents (Elt F)) ]

/-- The host operations of gate 29 (a rotation, parameter 19, axis 6). -/
abbrev G29 : List (HloOp τ sig (Elt F)) :=
  [ StableHlo.unary main_arg3 main_v514 ((extractStridedSlice S1 ![19] · slices_S21_S1_19) : (⟨S21, .f32⟩ : BufTy).Contents (Elt F) → (⟨S1, .f32⟩ : BufTy).Contents (Elt F)),
    StableHlo.reshape main_v514 main_v515 rfl shapeCasts_S1_S_,
    StableHlo.nullary main_cst_93 (constant S_ .f32 0x3F000000#32),
    StableHlo.binary main_cst_93 main_v515 main_v516 (mulf : (⟨S_, .f32⟩ : BufTy).Contents (Elt F) → (⟨S_, .f32⟩ : BufTy).Contents (Elt F) → (⟨S_, .f32⟩ : BufTy).Contents (Elt F)),
    StableHlo.unary main_v516 main_v517 (Host.cos : (⟨S_, .f32⟩ : BufTy).Contents (Elt F) → (⟨S_, .f32⟩ : BufTy).Contents (Elt F)),
    StableHlo.nullary main_cst_94 (constant S_ .f32 0x3F000000#32),
    StableHlo.binary main_cst_94 main_v515 main_v518 (mulf : (⟨S_, .f32⟩ : BufTy).Contents (Elt F) → (⟨S_, .f32⟩ : BufTy).Contents (Elt F) → (⟨S_, .f32⟩ : BufTy).Contents (Elt F)),
    StableHlo.unary main_v518 main_v519 (Host.sin : (⟨S_, .f32⟩ : BufTy).Contents (Elt F) → (⟨S_, .f32⟩ : BufTy).Contents (Elt F)),
    StableHlo.nullary main_c_95 (constantI S_ 32 0#32),
    StableHlo.TRef.nullary (.of main_call65_c : StableHlo.TRef sig ⟨S_, .i32⟩) (constantI S_ 32 0#32),
    StableHlo.TRef.binary (.of main_c_95 : StableHlo.TRef sig ⟨S_, .i32⟩) (.of main_call65_c : StableHlo.TRef sig ⟨S_, .i32⟩) (.of main_call65_v0 : StableHlo.TRef sig ⟨S_, .i1⟩) (cmpi .slt),
    StableHlo.TRef.nullary (.of main_call65_c_0 : StableHlo.TRef sig ⟨S_, .i32⟩) (constantI S_ 32 2#32),
    StableHlo.TRef.binary (.of main_c_95 : StableHlo.TRef sig ⟨S_, .i32⟩) (.of main_call65_c_0 : StableHlo.TRef sig ⟨S_, .i32⟩) (.of main_call65_v1 : StableHlo.TRef sig ⟨S_, .i32⟩) addi,
    StableHlo.TRef.ternary (.of main_call65_v0 : StableHlo.TRef sig ⟨S_, .i1⟩) (.of main_call65_v1 : StableHlo.TRef sig ⟨S_, .i32⟩) (.of main_c_95 : StableHlo.TRef sig ⟨S_, .i32⟩) (.of main_call65_v2 : StableHlo.TRef sig ⟨S_, .i32⟩) select,
    StableHlo.TRef.unary (.of main_call65_v2 : StableHlo.TRef sig ⟨S_, .i32⟩) (.of main_call65_v3 : StableHlo.TRef sig ⟨S1, .i32⟩) (broadcastInDim S1 ![] bcast_S_S1),
    StableHlo.TRef.nullary (.of main_call65_c_1 : StableHlo.TRef sig ⟨S1, .i32⟩) (constantI S1 32 1#32),
    StableHlo.TRef.unary (.of main_call65_v3 : StableHlo.TRef sig ⟨S1, .i32⟩) (.of main_call65_v4 : StableHlo.TRef sig ⟨S1, .i32⟩) id,
    StableHlo.TRef.nullary (.of main_call65_c_2 : StableHlo.TRef sig ⟨S_, .i32⟩) (constantI S_ 32 0#32),
    StableHlo.TRef.unary (.of main_call65_c_2 : StableHlo.TRef sig ⟨S_, .i32⟩) (.of main_call65_v5 : StableHlo.TRef sig ⟨S1, .i32⟩) (broadcastInDim S1 ![] bcast_S_S1),
    StableHlo.TRef.binary (.of main_call65_v4 : StableHlo.TRef sig ⟨S1, .i32⟩) (.of main_call65_v5 : StableHlo.TRef sig ⟨S1, .i32⟩) (.of main_call65_v6 : StableHlo.TRef sig ⟨S1, .i1⟩) (cmpi .sge),
    StableHlo.TRef.binary (.of main_call65_v4 : StableHlo.TRef sig ⟨S1, .i32⟩) (.of main_call65_c_1 : StableHlo.TRef sig ⟨S1, .i32⟩) (.of main_call65_v7 : StableHlo.TRef sig ⟨S1, .i1⟩) (cmpi .sle),
    StableHlo.TRef.binary (.of main_call65_v6 : StableHlo.TRef sig ⟨S1, .i1⟩) (.of main_call65_v7 : StableHlo.TRef sig ⟨S1, .i1⟩) (.of main_call65_v8 : StableHlo.TRef sig ⟨S1, .i1⟩) andi,
    StableHlo.TRef.nullary (.of main_call65_c_3 : StableHlo.TRef sig ⟨S_, .i1⟩) (constantI S_ 1 1#1),
    StableHlo.TRef.binary (.of main_call65_v8 : StableHlo.TRef sig ⟨S1, .i1⟩) (.of main_call65_c_3 : StableHlo.TRef sig ⟨S_, .i1⟩) (.of main_call65_v9 : StableHlo.TRef sig ⟨S_, .i1⟩) (fun x v => Host.reduce IntOp.andi x v reducesTo_S1_S_d0 h_S_),
    StableHlo.TRef.binary (.of main_v513 : StableHlo.TRef sig ⟨S16384x2x2x2x2x2x2x2x2, .f32⟩) (.of main_call65_v4 : StableHlo.TRef sig ⟨S1, .i32⟩) (.of main_call65_v10 : StableHlo.TRef sig ⟨S16384x2x2x2x2x2x2x2, .f32⟩) (fun x i => Host.gather gather_S16384x2x2x2x2x2x2x2x2_S1_S16384x2x2x2x2x2x2x2_01234567_6_n_n_6_0_1638422222122 x i),
    StableHlo.TRef.unary (.of main_call65_v9 : StableHlo.TRef sig ⟨S_, .i1⟩) (.of main_call65_v11 : StableHlo.TRef sig ⟨S16384x2x2x2x2x2x2x2, .i1⟩) (broadcastInDim S16384x2x2x2x2x2x2x2 ![] bcast_S_S16384x2x2x2x2x2x2x2),
    StableHlo.TRef.nullary (.of main_call65_cst : StableHlo.TRef sig ⟨S_, .f32⟩) (constant S_ .f32 0x7FC00000#32),
    StableHlo.TRef.unary (.of main_call65_cst : StableHlo.TRef sig ⟨S_, .f32⟩) (.of main_call65_v12 : StableHlo.TRef sig ⟨S16384x2x2x2x2x2x2x2, .f32⟩) (broadcastInDim S16384x2x2x2x2x2x2x2 ![] bcast_S_S16384x2x2x2x2x2x2x2),
    StableHlo.TRef.ternary (.of main_call65_v11 : StableHlo.TRef sig ⟨S16384x2x2x2x2x2x2x2, .i1⟩) (.of main_call65_v10 : StableHlo.TRef sig ⟨S16384x2x2x2x2x2x2x2, .f32⟩) (.of main_call65_v12 : StableHlo.TRef sig ⟨S16384x2x2x2x2x2x2x2, .f32⟩) (.of main_v520 : StableHlo.TRef sig ⟨S16384x2x2x2x2x2x2x2, .f32⟩) select,
    StableHlo.nullary main_c_96 (constantI S_ 32 1#32),
    StableHlo.TRef.nullary (.of main_call66_c : StableHlo.TRef sig ⟨S_, .i32⟩) (constantI S_ 32 0#32),
    StableHlo.TRef.binary (.of main_c_96 : StableHlo.TRef sig ⟨S_, .i32⟩) (.of main_call66_c : StableHlo.TRef sig ⟨S_, .i32⟩) (.of main_call66_v0 : StableHlo.TRef sig ⟨S_, .i1⟩) (cmpi .slt),
    StableHlo.TRef.nullary (.of main_call66_c_0 : StableHlo.TRef sig ⟨S_, .i32⟩) (constantI S_ 32 2#32),
    StableHlo.TRef.binary (.of main_c_96 : StableHlo.TRef sig ⟨S_, .i32⟩) (.of main_call66_c_0 : StableHlo.TRef sig ⟨S_, .i32⟩) (.of main_call66_v1 : StableHlo.TRef sig ⟨S_, .i32⟩) addi,
    StableHlo.TRef.ternary (.of main_call66_v0 : StableHlo.TRef sig ⟨S_, .i1⟩) (.of main_call66_v1 : StableHlo.TRef sig ⟨S_, .i32⟩) (.of main_c_96 : StableHlo.TRef sig ⟨S_, .i32⟩) (.of main_call66_v2 : StableHlo.TRef sig ⟨S_, .i32⟩) select,
    StableHlo.TRef.unary (.of main_call66_v2 : StableHlo.TRef sig ⟨S_, .i32⟩) (.of main_call66_v3 : StableHlo.TRef sig ⟨S1, .i32⟩) (broadcastInDim S1 ![] bcast_S_S1),
    StableHlo.TRef.nullary (.of main_call66_c_1 : StableHlo.TRef sig ⟨S1, .i32⟩) (constantI S1 32 1#32),
    StableHlo.TRef.unary (.of main_call66_v3 : StableHlo.TRef sig ⟨S1, .i32⟩) (.of main_call66_v4 : StableHlo.TRef sig ⟨S1, .i32⟩) id,
    StableHlo.TRef.nullary (.of main_call66_c_2 : StableHlo.TRef sig ⟨S_, .i32⟩) (constantI S_ 32 0#32),
    StableHlo.TRef.unary (.of main_call66_c_2 : StableHlo.TRef sig ⟨S_, .i32⟩) (.of main_call66_v5 : StableHlo.TRef sig ⟨S1, .i32⟩) (broadcastInDim S1 ![] bcast_S_S1),
    StableHlo.TRef.binary (.of main_call66_v4 : StableHlo.TRef sig ⟨S1, .i32⟩) (.of main_call66_v5 : StableHlo.TRef sig ⟨S1, .i32⟩) (.of main_call66_v6 : StableHlo.TRef sig ⟨S1, .i1⟩) (cmpi .sge),
    StableHlo.TRef.binary (.of main_call66_v4 : StableHlo.TRef sig ⟨S1, .i32⟩) (.of main_call66_c_1 : StableHlo.TRef sig ⟨S1, .i32⟩) (.of main_call66_v7 : StableHlo.TRef sig ⟨S1, .i1⟩) (cmpi .sle),
    StableHlo.TRef.binary (.of main_call66_v6 : StableHlo.TRef sig ⟨S1, .i1⟩) (.of main_call66_v7 : StableHlo.TRef sig ⟨S1, .i1⟩) (.of main_call66_v8 : StableHlo.TRef sig ⟨S1, .i1⟩) andi,
    StableHlo.TRef.nullary (.of main_call66_c_3 : StableHlo.TRef sig ⟨S_, .i1⟩) (constantI S_ 1 1#1),
    StableHlo.TRef.binary (.of main_call66_v8 : StableHlo.TRef sig ⟨S1, .i1⟩) (.of main_call66_c_3 : StableHlo.TRef sig ⟨S_, .i1⟩) (.of main_call66_v9 : StableHlo.TRef sig ⟨S_, .i1⟩) (fun x v => Host.reduce IntOp.andi x v reducesTo_S1_S_d0 h_S_),
    StableHlo.TRef.binary (.of main_v513 : StableHlo.TRef sig ⟨S16384x2x2x2x2x2x2x2x2, .f32⟩) (.of main_call66_v4 : StableHlo.TRef sig ⟨S1, .i32⟩) (.of main_call66_v10 : StableHlo.TRef sig ⟨S16384x2x2x2x2x2x2x2, .f32⟩) (fun x i => Host.gather gather_S16384x2x2x2x2x2x2x2x2_S1_S16384x2x2x2x2x2x2x2_01234567_6_n_n_6_0_1638422222122 x i),
    StableHlo.TRef.unary (.of main_call66_v9 : StableHlo.TRef sig ⟨S_, .i1⟩) (.of main_call66_v11 : StableHlo.TRef sig ⟨S16384x2x2x2x2x2x2x2, .i1⟩) (broadcastInDim S16384x2x2x2x2x2x2x2 ![] bcast_S_S16384x2x2x2x2x2x2x2),
    StableHlo.TRef.nullary (.of main_call66_cst : StableHlo.TRef sig ⟨S_, .f32⟩) (constant S_ .f32 0x7FC00000#32),
    StableHlo.TRef.unary (.of main_call66_cst : StableHlo.TRef sig ⟨S_, .f32⟩) (.of main_call66_v12 : StableHlo.TRef sig ⟨S16384x2x2x2x2x2x2x2, .f32⟩) (broadcastInDim S16384x2x2x2x2x2x2x2 ![] bcast_S_S16384x2x2x2x2x2x2x2),
    StableHlo.TRef.ternary (.of main_call66_v11 : StableHlo.TRef sig ⟨S16384x2x2x2x2x2x2x2, .i1⟩) (.of main_call66_v10 : StableHlo.TRef sig ⟨S16384x2x2x2x2x2x2x2, .f32⟩) (.of main_call66_v12 : StableHlo.TRef sig ⟨S16384x2x2x2x2x2x2x2, .f32⟩) (.of main_v521 : StableHlo.TRef sig ⟨S16384x2x2x2x2x2x2x2, .f32⟩) select,
    StableHlo.unary main_v517 main_v522 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v522 main_v520 main_v523 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v519 main_v524 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v524 main_v521 main_v525 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.binary main_v523 main_v525 main_v526 (subf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v519 main_v527 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v527 main_v520 main_v528 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v517 main_v529 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v529 main_v521 main_v530 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.binary main_v528 main_v530 main_v531 (addf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v526 main_v532 (broadcastInDim S16384x2x2x2x2x2x1x2x2 ![0, 1, 2, 3, 4, 5, 7, 8] bcast_S16384x2x2x2x2x2x2x2_S16384x2x2x2x2x2x1x2x2_0_1_2_3_4_5_7_8 : (⟨S16384x2x2x2x2x2x2x2, .f32⟩ : BufTy).Contents (Elt F) → (⟨S16384x2x2x2x2x2x1x2x2, .f32⟩ : BufTy).Contents (Elt F)),
    StableHlo.unary main_v531 main_v533 (broadcastInDim S16384x2x2x2x2x2x1x2x2 ![0, 1, 2, 3, 4, 5, 7, 8] bcast_S16384x2x2x2x2x2x2x2_S16384x2x2x2x2x2x1x2x2_0_1_2_3_4_5_7_8 : (⟨S16384x2x2x2x2x2x2x2, .f32⟩ : BufTy).Contents (Elt F) → (⟨S16384x2x2x2x2x2x1x2x2, .f32⟩ : BufTy).Contents (Elt F)),
    StableHlo.binary main_v532 main_v533 main_v534 ((fun a b => concatenate S16384x2x2x2x2x2x2x2x2 6 [⟨S16384x2x2x2x2x2x1x2x2, a⟩, ⟨S16384x2x2x2x2x2x1x2x2, b⟩] concatenates_S16384x2x2x2x2x2x1x2x2_S16384x2x2x2x2x2x1x2x2_S16384x2x2x2x2x2x2x2x2_d6) : (⟨S16384x2x2x2x2x2x1x2x2, .f32⟩ : BufTy).Contents (Elt F) → (⟨S16384x2x2x2x2x2x1x2x2, .f32⟩ : BufTy).Contents (Elt F) → (⟨S16384x2x2x2x2x2x2x2x2, .f32⟩ : BufTy).Contents (Elt F)) ]

/-- The host operations of gate 30 (a controlled flip, axis 3). -/
abbrev G30 : List (HloOp τ sig (Elt F)) :=
  [ StableHlo.nullary main_c_97 (constantI S_ 32 0#32),
    StableHlo.TRef.nullary (.of main_call67_c : StableHlo.TRef sig ⟨S_, .i32⟩) (constantI S_ 32 0#32),
    StableHlo.TRef.binary (.of main_c_97 : StableHlo.TRef sig ⟨S_, .i32⟩) (.of main_call67_c : StableHlo.TRef sig ⟨S_, .i32⟩) (.of main_call67_v0 : StableHlo.TRef sig ⟨S_, .i1⟩) (cmpi .slt),
    StableHlo.TRef.nullary (.of main_call67_c_0 : StableHlo.TRef sig ⟨S_, .i32⟩) (constantI S_ 32 2#32),
    StableHlo.TRef.binary (.of main_c_97 : StableHlo.TRef sig ⟨S_, .i32⟩) (.of main_call67_c_0 : StableHlo.TRef sig ⟨S_, .i32⟩) (.of main_call67_v1 : StableHlo.TRef sig ⟨S_, .i32⟩) addi,
    StableHlo.TRef.ternary (.of main_call67_v0 : StableHlo.TRef sig ⟨S_, .i1⟩) (.of main_call67_v1 : StableHlo.TRef sig ⟨S_, .i32⟩) (.of main_c_97 : StableHlo.TRef sig ⟨S_, .i32⟩) (.of main_call67_v2 : StableHlo.TRef sig ⟨S_, .i32⟩) select,
    StableHlo.TRef.unary (.of main_call67_v2 : StableHlo.TRef sig ⟨S_, .i32⟩) (.of main_call67_v3 : StableHlo.TRef sig ⟨S1, .i32⟩) (broadcastInDim S1 ![] bcast_S_S1),
    StableHlo.TRef.nullary (.of main_call67_c_1 : StableHlo.TRef sig ⟨S1, .i32⟩) (constantI S1 32 1#32),
    StableHlo.TRef.unary (.of main_call67_v3 : StableHlo.TRef sig ⟨S1, .i32⟩) (.of main_call67_v4 : StableHlo.TRef sig ⟨S1, .i32⟩) id,
    StableHlo.TRef.nullary (.of main_call67_c_2 : StableHlo.TRef sig ⟨S_, .i32⟩) (constantI S_ 32 0#32),
    StableHlo.TRef.unary (.of main_call67_c_2 : StableHlo.TRef sig ⟨S_, .i32⟩) (.of main_call67_v5 : StableHlo.TRef sig ⟨S1, .i32⟩) (broadcastInDim S1 ![] bcast_S_S1),
    StableHlo.TRef.binary (.of main_call67_v4 : StableHlo.TRef sig ⟨S1, .i32⟩) (.of main_call67_v5 : StableHlo.TRef sig ⟨S1, .i32⟩) (.of main_call67_v6 : StableHlo.TRef sig ⟨S1, .i1⟩) (cmpi .sge),
    StableHlo.TRef.binary (.of main_call67_v4 : StableHlo.TRef sig ⟨S1, .i32⟩) (.of main_call67_c_1 : StableHlo.TRef sig ⟨S1, .i32⟩) (.of main_call67_v7 : StableHlo.TRef sig ⟨S1, .i1⟩) (cmpi .sle),
    StableHlo.TRef.binary (.of main_call67_v6 : StableHlo.TRef sig ⟨S1, .i1⟩) (.of main_call67_v7 : StableHlo.TRef sig ⟨S1, .i1⟩) (.of main_call67_v8 : StableHlo.TRef sig ⟨S1, .i1⟩) andi,
    StableHlo.TRef.nullary (.of main_call67_c_3 : StableHlo.TRef sig ⟨S_, .i1⟩) (constantI S_ 1 1#1),
    StableHlo.TRef.binary (.of main_call67_v8 : StableHlo.TRef sig ⟨S1, .i1⟩) (.of main_call67_c_3 : StableHlo.TRef sig ⟨S_, .i1⟩) (.of main_call67_v9 : StableHlo.TRef sig ⟨S_, .i1⟩) (fun x v => Host.reduce IntOp.andi x v reducesTo_S1_S_d0 h_S_),
    StableHlo.TRef.binary (.of main_v534 : StableHlo.TRef sig ⟨S16384x2x2x2x2x2x2x2x2, .f32⟩) (.of main_call67_v4 : StableHlo.TRef sig ⟨S1, .i32⟩) (.of main_call67_v10 : StableHlo.TRef sig ⟨S16384x2x2x2x2x2x2x2, .f32⟩) (fun x i => Host.gather gather_S16384x2x2x2x2x2x2x2x2_S1_S16384x2x2x2x2x2x2x2_01234567_3_n_n_3_0_1638422122222 x i),
    StableHlo.TRef.unary (.of main_call67_v9 : StableHlo.TRef sig ⟨S_, .i1⟩) (.of main_call67_v11 : StableHlo.TRef sig ⟨S16384x2x2x2x2x2x2x2, .i1⟩) (broadcastInDim S16384x2x2x2x2x2x2x2 ![] bcast_S_S16384x2x2x2x2x2x2x2),
    StableHlo.TRef.nullary (.of main_call67_cst : StableHlo.TRef sig ⟨S_, .f32⟩) (constant S_ .f32 0x7FC00000#32),
    StableHlo.TRef.unary (.of main_call67_cst : StableHlo.TRef sig ⟨S_, .f32⟩) (.of main_call67_v12 : StableHlo.TRef sig ⟨S16384x2x2x2x2x2x2x2, .f32⟩) (broadcastInDim S16384x2x2x2x2x2x2x2 ![] bcast_S_S16384x2x2x2x2x2x2x2),
    StableHlo.TRef.ternary (.of main_call67_v11 : StableHlo.TRef sig ⟨S16384x2x2x2x2x2x2x2, .i1⟩) (.of main_call67_v10 : StableHlo.TRef sig ⟨S16384x2x2x2x2x2x2x2, .f32⟩) (.of main_call67_v12 : StableHlo.TRef sig ⟨S16384x2x2x2x2x2x2x2, .f32⟩) (.of main_v535 : StableHlo.TRef sig ⟨S16384x2x2x2x2x2x2x2, .f32⟩) select,
    StableHlo.nullary main_c_98 (constantI S_ 32 1#32),
    StableHlo.TRef.nullary (.of main_call68_c : StableHlo.TRef sig ⟨S_, .i32⟩) (constantI S_ 32 0#32),
    StableHlo.TRef.binary (.of main_c_98 : StableHlo.TRef sig ⟨S_, .i32⟩) (.of main_call68_c : StableHlo.TRef sig ⟨S_, .i32⟩) (.of main_call68_v0 : StableHlo.TRef sig ⟨S_, .i1⟩) (cmpi .slt),
    StableHlo.TRef.nullary (.of main_call68_c_0 : StableHlo.TRef sig ⟨S_, .i32⟩) (constantI S_ 32 2#32),
    StableHlo.TRef.binary (.of main_c_98 : StableHlo.TRef sig ⟨S_, .i32⟩) (.of main_call68_c_0 : StableHlo.TRef sig ⟨S_, .i32⟩) (.of main_call68_v1 : StableHlo.TRef sig ⟨S_, .i32⟩) addi,
    StableHlo.TRef.ternary (.of main_call68_v0 : StableHlo.TRef sig ⟨S_, .i1⟩) (.of main_call68_v1 : StableHlo.TRef sig ⟨S_, .i32⟩) (.of main_c_98 : StableHlo.TRef sig ⟨S_, .i32⟩) (.of main_call68_v2 : StableHlo.TRef sig ⟨S_, .i32⟩) select,
    StableHlo.TRef.unary (.of main_call68_v2 : StableHlo.TRef sig ⟨S_, .i32⟩) (.of main_call68_v3 : StableHlo.TRef sig ⟨S1, .i32⟩) (broadcastInDim S1 ![] bcast_S_S1),
    StableHlo.TRef.nullary (.of main_call68_c_1 : StableHlo.TRef sig ⟨S1, .i32⟩) (constantI S1 32 1#32),
    StableHlo.TRef.unary (.of main_call68_v3 : StableHlo.TRef sig ⟨S1, .i32⟩) (.of main_call68_v4 : StableHlo.TRef sig ⟨S1, .i32⟩) id,
    StableHlo.TRef.nullary (.of main_call68_c_2 : StableHlo.TRef sig ⟨S_, .i32⟩) (constantI S_ 32 0#32),
    StableHlo.TRef.unary (.of main_call68_c_2 : StableHlo.TRef sig ⟨S_, .i32⟩) (.of main_call68_v5 : StableHlo.TRef sig ⟨S1, .i32⟩) (broadcastInDim S1 ![] bcast_S_S1),
    StableHlo.TRef.binary (.of main_call68_v4 : StableHlo.TRef sig ⟨S1, .i32⟩) (.of main_call68_v5 : StableHlo.TRef sig ⟨S1, .i32⟩) (.of main_call68_v6 : StableHlo.TRef sig ⟨S1, .i1⟩) (cmpi .sge),
    StableHlo.TRef.binary (.of main_call68_v4 : StableHlo.TRef sig ⟨S1, .i32⟩) (.of main_call68_c_1 : StableHlo.TRef sig ⟨S1, .i32⟩) (.of main_call68_v7 : StableHlo.TRef sig ⟨S1, .i1⟩) (cmpi .sle),
    StableHlo.TRef.binary (.of main_call68_v6 : StableHlo.TRef sig ⟨S1, .i1⟩) (.of main_call68_v7 : StableHlo.TRef sig ⟨S1, .i1⟩) (.of main_call68_v8 : StableHlo.TRef sig ⟨S1, .i1⟩) andi,
    StableHlo.TRef.nullary (.of main_call68_c_3 : StableHlo.TRef sig ⟨S_, .i1⟩) (constantI S_ 1 1#1),
    StableHlo.TRef.binary (.of main_call68_v8 : StableHlo.TRef sig ⟨S1, .i1⟩) (.of main_call68_c_3 : StableHlo.TRef sig ⟨S_, .i1⟩) (.of main_call68_v9 : StableHlo.TRef sig ⟨S_, .i1⟩) (fun x v => Host.reduce IntOp.andi x v reducesTo_S1_S_d0 h_S_),
    StableHlo.TRef.binary (.of main_v534 : StableHlo.TRef sig ⟨S16384x2x2x2x2x2x2x2x2, .f32⟩) (.of main_call68_v4 : StableHlo.TRef sig ⟨S1, .i32⟩) (.of main_call68_v10 : StableHlo.TRef sig ⟨S16384x2x2x2x2x2x2x2, .f32⟩) (fun x i => Host.gather gather_S16384x2x2x2x2x2x2x2x2_S1_S16384x2x2x2x2x2x2x2_01234567_3_n_n_3_0_1638422122222 x i),
    StableHlo.TRef.unary (.of main_call68_v9 : StableHlo.TRef sig ⟨S_, .i1⟩) (.of main_call68_v11 : StableHlo.TRef sig ⟨S16384x2x2x2x2x2x2x2, .i1⟩) (broadcastInDim S16384x2x2x2x2x2x2x2 ![] bcast_S_S16384x2x2x2x2x2x2x2),
    StableHlo.TRef.nullary (.of main_call68_cst : StableHlo.TRef sig ⟨S_, .f32⟩) (constant S_ .f32 0x7FC00000#32),
    StableHlo.TRef.unary (.of main_call68_cst : StableHlo.TRef sig ⟨S_, .f32⟩) (.of main_call68_v12 : StableHlo.TRef sig ⟨S16384x2x2x2x2x2x2x2, .f32⟩) (broadcastInDim S16384x2x2x2x2x2x2x2 ![] bcast_S_S16384x2x2x2x2x2x2x2),
    StableHlo.TRef.ternary (.of main_call68_v11 : StableHlo.TRef sig ⟨S16384x2x2x2x2x2x2x2, .i1⟩) (.of main_call68_v10 : StableHlo.TRef sig ⟨S16384x2x2x2x2x2x2x2, .f32⟩) (.of main_call68_v12 : StableHlo.TRef sig ⟨S16384x2x2x2x2x2x2x2, .f32⟩) (.of main_v536 : StableHlo.TRef sig ⟨S16384x2x2x2x2x2x2x2, .f32⟩) select,
    StableHlo.TRef.unary (.of main_v536 : StableHlo.TRef sig ⟨S16384x2x2x2x2x2x2x2, .f32⟩) (.of main_v537 : StableHlo.TRef sig ⟨S16384x2x2x2x2x2x2x2, .f32⟩) (Host.reverse [5]),
    StableHlo.unary main_v535 main_v538 (broadcastInDim S16384x2x2x1x2x2x2x2x2 ![0, 1, 2, 4, 5, 6, 7, 8] bcast_S16384x2x2x2x2x2x2x2_S16384x2x2x1x2x2x2x2x2_0_1_2_4_5_6_7_8 : (⟨S16384x2x2x2x2x2x2x2, .f32⟩ : BufTy).Contents (Elt F) → (⟨S16384x2x2x1x2x2x2x2x2, .f32⟩ : BufTy).Contents (Elt F)),
    StableHlo.unary main_v537 main_v539 (broadcastInDim S16384x2x2x1x2x2x2x2x2 ![0, 1, 2, 4, 5, 6, 7, 8] bcast_S16384x2x2x2x2x2x2x2_S16384x2x2x1x2x2x2x2x2_0_1_2_4_5_6_7_8 : (⟨S16384x2x2x2x2x2x2x2, .f32⟩ : BufTy).Contents (Elt F) → (⟨S16384x2x2x1x2x2x2x2x2, .f32⟩ : BufTy).Contents (Elt F)),
    StableHlo.binary main_v538 main_v539 main_v540 ((fun a b => concatenate S16384x2x2x2x2x2x2x2x2 3 [⟨S16384x2x2x1x2x2x2x2x2, a⟩, ⟨S16384x2x2x1x2x2x2x2x2, b⟩] concatenates_S16384x2x2x1x2x2x2x2x2_S16384x2x2x1x2x2x2x2x2_S16384x2x2x2x2x2x2x2x2_d3) : (⟨S16384x2x2x1x2x2x2x2x2, .f32⟩ : BufTy).Contents (Elt F) → (⟨S16384x2x2x1x2x2x2x2x2, .f32⟩ : BufTy).Contents (Elt F) → (⟨S16384x2x2x2x2x2x2x2x2, .f32⟩ : BufTy).Contents (Elt F)) ]

/-- The host operations of gate 31 (a rotation, parameter 20, axis 6). -/
abbrev G31 : List (HloOp τ sig (Elt F)) :=
  [ StableHlo.unary main_arg3 main_v541 ((extractStridedSlice S1 ![20] · slices_S21_S1_20) : (⟨S21, .f32⟩ : BufTy).Contents (Elt F) → (⟨S1, .f32⟩ : BufTy).Contents (Elt F)),
    StableHlo.reshape main_v541 main_v542 rfl shapeCasts_S1_S_,
    StableHlo.nullary main_cst_99 (constant S_ .f32 0x3F000000#32),
    StableHlo.binary main_cst_99 main_v542 main_v543 (mulf : (⟨S_, .f32⟩ : BufTy).Contents (Elt F) → (⟨S_, .f32⟩ : BufTy).Contents (Elt F) → (⟨S_, .f32⟩ : BufTy).Contents (Elt F)),
    StableHlo.unary main_v543 main_v544 (Host.cos : (⟨S_, .f32⟩ : BufTy).Contents (Elt F) → (⟨S_, .f32⟩ : BufTy).Contents (Elt F)),
    StableHlo.nullary main_cst_100 (constant S_ .f32 0x3F000000#32),
    StableHlo.binary main_cst_100 main_v542 main_v545 (mulf : (⟨S_, .f32⟩ : BufTy).Contents (Elt F) → (⟨S_, .f32⟩ : BufTy).Contents (Elt F) → (⟨S_, .f32⟩ : BufTy).Contents (Elt F)),
    StableHlo.unary main_v545 main_v546 (Host.sin : (⟨S_, .f32⟩ : BufTy).Contents (Elt F) → (⟨S_, .f32⟩ : BufTy).Contents (Elt F)),
    StableHlo.nullary main_c_101 (constantI S_ 32 0#32),
    StableHlo.TRef.nullary (.of main_call70_c : StableHlo.TRef sig ⟨S_, .i32⟩) (constantI S_ 32 0#32),
    StableHlo.TRef.binary (.of main_c_101 : StableHlo.TRef sig ⟨S_, .i32⟩) (.of main_call70_c : StableHlo.TRef sig ⟨S_, .i32⟩) (.of main_call70_v0 : StableHlo.TRef sig ⟨S_, .i1⟩) (cmpi .slt),
    StableHlo.TRef.nullary (.of main_call70_c_0 : StableHlo.TRef sig ⟨S_, .i32⟩) (constantI S_ 32 2#32),
    StableHlo.TRef.binary (.of main_c_101 : StableHlo.TRef sig ⟨S_, .i32⟩) (.of main_call70_c_0 : StableHlo.TRef sig ⟨S_, .i32⟩) (.of main_call70_v1 : StableHlo.TRef sig ⟨S_, .i32⟩) addi,
    StableHlo.TRef.ternary (.of main_call70_v0 : StableHlo.TRef sig ⟨S_, .i1⟩) (.of main_call70_v1 : StableHlo.TRef sig ⟨S_, .i32⟩) (.of main_c_101 : StableHlo.TRef sig ⟨S_, .i32⟩) (.of main_call70_v2 : StableHlo.TRef sig ⟨S_, .i32⟩) select,
    StableHlo.TRef.unary (.of main_call70_v2 : StableHlo.TRef sig ⟨S_, .i32⟩) (.of main_call70_v3 : StableHlo.TRef sig ⟨S1, .i32⟩) (broadcastInDim S1 ![] bcast_S_S1),
    StableHlo.TRef.nullary (.of main_call70_c_1 : StableHlo.TRef sig ⟨S1, .i32⟩) (constantI S1 32 1#32),
    StableHlo.TRef.unary (.of main_call70_v3 : StableHlo.TRef sig ⟨S1, .i32⟩) (.of main_call70_v4 : StableHlo.TRef sig ⟨S1, .i32⟩) id,
    StableHlo.TRef.nullary (.of main_call70_c_2 : StableHlo.TRef sig ⟨S_, .i32⟩) (constantI S_ 32 0#32),
    StableHlo.TRef.unary (.of main_call70_c_2 : StableHlo.TRef sig ⟨S_, .i32⟩) (.of main_call70_v5 : StableHlo.TRef sig ⟨S1, .i32⟩) (broadcastInDim S1 ![] bcast_S_S1),
    StableHlo.TRef.binary (.of main_call70_v4 : StableHlo.TRef sig ⟨S1, .i32⟩) (.of main_call70_v5 : StableHlo.TRef sig ⟨S1, .i32⟩) (.of main_call70_v6 : StableHlo.TRef sig ⟨S1, .i1⟩) (cmpi .sge),
    StableHlo.TRef.binary (.of main_call70_v4 : StableHlo.TRef sig ⟨S1, .i32⟩) (.of main_call70_c_1 : StableHlo.TRef sig ⟨S1, .i32⟩) (.of main_call70_v7 : StableHlo.TRef sig ⟨S1, .i1⟩) (cmpi .sle),
    StableHlo.TRef.binary (.of main_call70_v6 : StableHlo.TRef sig ⟨S1, .i1⟩) (.of main_call70_v7 : StableHlo.TRef sig ⟨S1, .i1⟩) (.of main_call70_v8 : StableHlo.TRef sig ⟨S1, .i1⟩) andi,
    StableHlo.TRef.nullary (.of main_call70_c_3 : StableHlo.TRef sig ⟨S_, .i1⟩) (constantI S_ 1 1#1),
    StableHlo.TRef.binary (.of main_call70_v8 : StableHlo.TRef sig ⟨S1, .i1⟩) (.of main_call70_c_3 : StableHlo.TRef sig ⟨S_, .i1⟩) (.of main_call70_v9 : StableHlo.TRef sig ⟨S_, .i1⟩) (fun x v => Host.reduce IntOp.andi x v reducesTo_S1_S_d0 h_S_),
    StableHlo.TRef.binary (.of main_v540 : StableHlo.TRef sig ⟨S16384x2x2x2x2x2x2x2x2, .f32⟩) (.of main_call70_v4 : StableHlo.TRef sig ⟨S1, .i32⟩) (.of main_call70_v10 : StableHlo.TRef sig ⟨S16384x2x2x2x2x2x2x2, .f32⟩) (fun x i => Host.gather gather_S16384x2x2x2x2x2x2x2x2_S1_S16384x2x2x2x2x2x2x2_01234567_6_n_n_6_0_1638422222122 x i),
    StableHlo.TRef.unary (.of main_call70_v9 : StableHlo.TRef sig ⟨S_, .i1⟩) (.of main_call70_v11 : StableHlo.TRef sig ⟨S16384x2x2x2x2x2x2x2, .i1⟩) (broadcastInDim S16384x2x2x2x2x2x2x2 ![] bcast_S_S16384x2x2x2x2x2x2x2),
    StableHlo.TRef.nullary (.of main_call70_cst : StableHlo.TRef sig ⟨S_, .f32⟩) (constant S_ .f32 0x7FC00000#32),
    StableHlo.TRef.unary (.of main_call70_cst : StableHlo.TRef sig ⟨S_, .f32⟩) (.of main_call70_v12 : StableHlo.TRef sig ⟨S16384x2x2x2x2x2x2x2, .f32⟩) (broadcastInDim S16384x2x2x2x2x2x2x2 ![] bcast_S_S16384x2x2x2x2x2x2x2),
    StableHlo.TRef.ternary (.of main_call70_v11 : StableHlo.TRef sig ⟨S16384x2x2x2x2x2x2x2, .i1⟩) (.of main_call70_v10 : StableHlo.TRef sig ⟨S16384x2x2x2x2x2x2x2, .f32⟩) (.of main_call70_v12 : StableHlo.TRef sig ⟨S16384x2x2x2x2x2x2x2, .f32⟩) (.of main_v547 : StableHlo.TRef sig ⟨S16384x2x2x2x2x2x2x2, .f32⟩) select,
    StableHlo.nullary main_c_102 (constantI S_ 32 1#32),
    StableHlo.TRef.nullary (.of main_call71_c : StableHlo.TRef sig ⟨S_, .i32⟩) (constantI S_ 32 0#32),
    StableHlo.TRef.binary (.of main_c_102 : StableHlo.TRef sig ⟨S_, .i32⟩) (.of main_call71_c : StableHlo.TRef sig ⟨S_, .i32⟩) (.of main_call71_v0 : StableHlo.TRef sig ⟨S_, .i1⟩) (cmpi .slt),
    StableHlo.TRef.nullary (.of main_call71_c_0 : StableHlo.TRef sig ⟨S_, .i32⟩) (constantI S_ 32 2#32),
    StableHlo.TRef.binary (.of main_c_102 : StableHlo.TRef sig ⟨S_, .i32⟩) (.of main_call71_c_0 : StableHlo.TRef sig ⟨S_, .i32⟩) (.of main_call71_v1 : StableHlo.TRef sig ⟨S_, .i32⟩) addi,
    StableHlo.TRef.ternary (.of main_call71_v0 : StableHlo.TRef sig ⟨S_, .i1⟩) (.of main_call71_v1 : StableHlo.TRef sig ⟨S_, .i32⟩) (.of main_c_102 : StableHlo.TRef sig ⟨S_, .i32⟩) (.of main_call71_v2 : StableHlo.TRef sig ⟨S_, .i32⟩) select,
    StableHlo.TRef.unary (.of main_call71_v2 : StableHlo.TRef sig ⟨S_, .i32⟩) (.of main_call71_v3 : StableHlo.TRef sig ⟨S1, .i32⟩) (broadcastInDim S1 ![] bcast_S_S1),
    StableHlo.TRef.nullary (.of main_call71_c_1 : StableHlo.TRef sig ⟨S1, .i32⟩) (constantI S1 32 1#32),
    StableHlo.TRef.unary (.of main_call71_v3 : StableHlo.TRef sig ⟨S1, .i32⟩) (.of main_call71_v4 : StableHlo.TRef sig ⟨S1, .i32⟩) id,
    StableHlo.TRef.nullary (.of main_call71_c_2 : StableHlo.TRef sig ⟨S_, .i32⟩) (constantI S_ 32 0#32),
    StableHlo.TRef.unary (.of main_call71_c_2 : StableHlo.TRef sig ⟨S_, .i32⟩) (.of main_call71_v5 : StableHlo.TRef sig ⟨S1, .i32⟩) (broadcastInDim S1 ![] bcast_S_S1),
    StableHlo.TRef.binary (.of main_call71_v4 : StableHlo.TRef sig ⟨S1, .i32⟩) (.of main_call71_v5 : StableHlo.TRef sig ⟨S1, .i32⟩) (.of main_call71_v6 : StableHlo.TRef sig ⟨S1, .i1⟩) (cmpi .sge),
    StableHlo.TRef.binary (.of main_call71_v4 : StableHlo.TRef sig ⟨S1, .i32⟩) (.of main_call71_c_1 : StableHlo.TRef sig ⟨S1, .i32⟩) (.of main_call71_v7 : StableHlo.TRef sig ⟨S1, .i1⟩) (cmpi .sle),
    StableHlo.TRef.binary (.of main_call71_v6 : StableHlo.TRef sig ⟨S1, .i1⟩) (.of main_call71_v7 : StableHlo.TRef sig ⟨S1, .i1⟩) (.of main_call71_v8 : StableHlo.TRef sig ⟨S1, .i1⟩) andi,
    StableHlo.TRef.nullary (.of main_call71_c_3 : StableHlo.TRef sig ⟨S_, .i1⟩) (constantI S_ 1 1#1),
    StableHlo.TRef.binary (.of main_call71_v8 : StableHlo.TRef sig ⟨S1, .i1⟩) (.of main_call71_c_3 : StableHlo.TRef sig ⟨S_, .i1⟩) (.of main_call71_v9 : StableHlo.TRef sig ⟨S_, .i1⟩) (fun x v => Host.reduce IntOp.andi x v reducesTo_S1_S_d0 h_S_),
    StableHlo.TRef.binary (.of main_v540 : StableHlo.TRef sig ⟨S16384x2x2x2x2x2x2x2x2, .f32⟩) (.of main_call71_v4 : StableHlo.TRef sig ⟨S1, .i32⟩) (.of main_call71_v10 : StableHlo.TRef sig ⟨S16384x2x2x2x2x2x2x2, .f32⟩) (fun x i => Host.gather gather_S16384x2x2x2x2x2x2x2x2_S1_S16384x2x2x2x2x2x2x2_01234567_6_n_n_6_0_1638422222122 x i),
    StableHlo.TRef.unary (.of main_call71_v9 : StableHlo.TRef sig ⟨S_, .i1⟩) (.of main_call71_v11 : StableHlo.TRef sig ⟨S16384x2x2x2x2x2x2x2, .i1⟩) (broadcastInDim S16384x2x2x2x2x2x2x2 ![] bcast_S_S16384x2x2x2x2x2x2x2),
    StableHlo.TRef.nullary (.of main_call71_cst : StableHlo.TRef sig ⟨S_, .f32⟩) (constant S_ .f32 0x7FC00000#32),
    StableHlo.TRef.unary (.of main_call71_cst : StableHlo.TRef sig ⟨S_, .f32⟩) (.of main_call71_v12 : StableHlo.TRef sig ⟨S16384x2x2x2x2x2x2x2, .f32⟩) (broadcastInDim S16384x2x2x2x2x2x2x2 ![] bcast_S_S16384x2x2x2x2x2x2x2),
    StableHlo.TRef.ternary (.of main_call71_v11 : StableHlo.TRef sig ⟨S16384x2x2x2x2x2x2x2, .i1⟩) (.of main_call71_v10 : StableHlo.TRef sig ⟨S16384x2x2x2x2x2x2x2, .f32⟩) (.of main_call71_v12 : StableHlo.TRef sig ⟨S16384x2x2x2x2x2x2x2, .f32⟩) (.of main_v548 : StableHlo.TRef sig ⟨S16384x2x2x2x2x2x2x2, .f32⟩) select,
    StableHlo.unary main_v544 main_v549 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v549 main_v547 main_v550 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v546 main_v551 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v551 main_v548 main_v552 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.binary main_v550 main_v552 main_v553 (subf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v546 main_v554 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v554 main_v547 main_v555 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v544 main_v556 (broadcastInDim S16384x2x2x2x2x2x2x2 ![] bcast_S_S16384x2x2x2x2x2x2x2 : (⟨S_, .f32⟩ : BufTy).Contents (Elt F) → (⟨S16384x2x2x2x2x2x2x2, .f32⟩ : BufTy).Contents (Elt F)),
    StableHlo.binary main_v556 main_v548 main_v557 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.binary main_v555 main_v557 main_v558 (addf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)),
    StableHlo.unary main_v553 main_v559 (broadcastInDim S16384x2x2x2x2x2x1x2x2 ![0, 1, 2, 3, 4, 5, 7, 8] bcast_S16384x2x2x2x2x2x2x2_S16384x2x2x2x2x2x1x2x2_0_1_2_3_4_5_7_8 : (⟨S16384x2x2x2x2x2x2x2, .f32⟩ : BufTy).Contents (Elt F) → (⟨S16384x2x2x2x2x2x1x2x2, .f32⟩ : BufTy).Contents (Elt F)),
    StableHlo.unary main_v558 main_v560 (broadcastInDim S16384x2x2x2x2x2x1x2x2 ![0, 1, 2, 3, 4, 5, 7, 8] bcast_S16384x2x2x2x2x2x2x2_S16384x2x2x2x2x2x1x2x2_0_1_2_3_4_5_7_8 : (⟨S16384x2x2x2x2x2x2x2, .f32⟩ : BufTy).Contents (Elt F) → (⟨S16384x2x2x2x2x2x1x2x2, .f32⟩ : BufTy).Contents (Elt F)),
    StableHlo.binary main_v559 main_v560 main_v561 ((fun a b => concatenate S16384x2x2x2x2x2x2x2x2 6 [⟨S16384x2x2x2x2x2x1x2x2, a⟩, ⟨S16384x2x2x2x2x2x1x2x2, b⟩] concatenates_S16384x2x2x2x2x2x1x2x2_S16384x2x2x2x2x2x1x2x2_S16384x2x2x2x2x2x2x2x2_d6) : (⟨S16384x2x2x2x2x2x1x2x2, .f32⟩ : BufTy).Contents (Elt F) → (⟨S16384x2x2x2x2x2x1x2x2, .f32⟩ : BufTy).Contents (Elt F) → (⟨S16384x2x2x2x2x2x2x2x2, .f32⟩ : BufTy).Contents (Elt F)) ]

end Lists

-- the layout operations stay folded while the fold of the host operations is opened
attribute [local irreducible] Host.gather Host.reduce concatenate broadcastInDim Host.reverse shapeCast extractStridedSlice

set_option maxHeartbeats 1600000 in
theorem gate25 (W : Valuation τ sig (Elt Ideal)) :
    after (G25 (F := Ideal)) W (main_v465 : DevRef τ sig)
      = Cert.TTN.Gates.ryTerm (s := S16384x2x2x2x2x2x2x2x2) (t := S16384x2x2x2x2x2x2x2) (u := S16384x2x2x2x2x2x1x2x2) 6 ![0, 1, 2, 3, 4, 5, 7, 8] gather_S16384x2x2x2x2x2x2x2x2_S1_S16384x2x2x2x2x2x2x2_01234567_6_n_n_6_0_1638422222122 bcast_S_S1 bcast_S_S16384x2x2x2x2x2x2x2 reducesTo_S1_S_d0 h_S_ bcast_S16384x2x2x2x2x2x2x2_S16384x2x2x2x2x2x1x2x2_0_1_2_3_4_5_7_8 concatenates_S16384x2x2x2x2x2x1x2x2_S16384x2x2x2x2x2x1x2x2_S16384x2x2x2x2x2x2x2x2_d6
        (W (main_v444 : DevRef τ sig)) (shapeCast S_ (extractStridedSlice S1 ![16] (W (main_arg3 : DevRef τ sig)) slices_S21_S1_16) shapeCasts_S1_S_) := by
  simp only [after_cons, after_nil]
  rfl

set_option maxHeartbeats 1600000 in
theorem gate25_arg3 (W : Valuation τ sig (Elt Ideal)) :
    after (G25 (F := Ideal)) W (main_arg3 : DevRef τ sig) = W (main_arg3 : DevRef τ sig) := by
  simp only [after_cons, after_nil]
  rfl

set_option maxHeartbeats 1600000 in
theorem gate26 (W : Valuation τ sig (Elt Ideal)) :
    after (G26 (F := Ideal)) W (main_v486 : DevRef τ sig)
      = Cert.TTN.Gates.ryTerm (s := S16384x2x2x2x2x2x2x2x2) (t := S16384x2x2x2x2x2x2x2) (u := S16384x2x2x2x2x2x2x1x2) 7 ![0, 1, 2, 3, 4, 5, 6, 8] gather_S16384x2x2x2x2x2x2x2x2_S1_S16384x2x2x2x2x2x2x2_01234567_7_n_n_7_0_1638422222212 bcast_S_S1 bcast_S_S16384x2x2x2x2x2x2x2 reducesTo_S1_S_d0 h_S_ bcast_S16384x2x2x2x2x2x2x2_S16384x2x2x2x2x2x2x1x2_0_1_2_3_4_5_6_8 concatenates_S16384x2x2x2x2x2x2x1x2_S16384x2x2x2x2x2x2x1x2_S16384x2x2x2x2x2x2x2x2_d7
        (W (main_v465 : DevRef τ sig)) (shapeCast S_ (extractStridedSlice S1 ![17] (W (main_arg3 : DevRef τ sig)) slices_S21_S1_17) shapeCasts_S1_S_) := by
  simp only [after_cons, after_nil]
  rfl

set_option maxHeartbeats 1600000 in
theorem gate26_arg3 (W : Valuation τ sig (Elt Ideal)) :
    after (G26 (F := Ideal)) W (main_arg3 : DevRef τ sig) = W (main_arg3 : DevRef τ sig) := by
  simp only [after_cons, after_nil]
  rfl

set_option maxHeartbeats 1600000 in
theorem gate27 (W : Valuation τ sig (Elt Ideal)) :
    after (G27 (F := Ideal)) W (main_v492 : DevRef τ sig)
      = Cert.TTN.Gates.cxTerm (s := S16384x2x2x2x2x2x2x2x2) (t := S16384x2x2x2x2x2x2x2) (u := S16384x2x2x2x2x2x2x1x2) 7 6 ![0, 1, 2, 3, 4, 5, 6, 8] gather_S16384x2x2x2x2x2x2x2x2_S1_S16384x2x2x2x2x2x2x2_01234567_7_n_n_7_0_1638422222212 bcast_S_S1 bcast_S_S16384x2x2x2x2x2x2x2 reducesTo_S1_S_d0 h_S_ bcast_S16384x2x2x2x2x2x2x2_S16384x2x2x2x2x2x2x1x2_0_1_2_3_4_5_6_8 concatenates_S16384x2x2x2x2x2x2x1x2_S16384x2x2x2x2x2x2x1x2_S16384x2x2x2x2x2x2x2x2_d7
        (W (main_v486 : DevRef τ sig)) := by
  simp only [after_cons, after_nil]
  rfl

set_option maxHeartbeats 1600000 in
theorem gate27_arg3 (W : Valuation τ sig (Elt Ideal)) :
    after (G27 (F := Ideal)) W (main_arg3 : DevRef τ sig) = W (main_arg3 : DevRef τ sig) := by
  simp only [after_cons, after_nil]
  rfl

set_option maxHeartbeats 1600000 in
theorem gate28 (W : Valuation τ sig (Elt Ideal)) :
    after (G28 (F := Ideal)) W (main_v513 : DevRef τ sig)
      = Cert.TTN.Gates.ryTerm (s := S16384x2x2x2x2x2x2x2x2) (t := S16384x2x2x2x2x2x2x2) (u := S16384x2x2x1x2x2x2x2x2) 3 ![0, 1, 2, 4, 5, 6, 7, 8] gather_S16384x2x2x2x2x2x2x2x2_S1_S16384x2x2x2x2x2x2x2_01234567_3_n_n_3_0_1638422122222 bcast_S_S1 bcast_S_S16384x2x2x2x2x2x2x2 reducesTo_S1_S_d0 h_S_ bcast_S16384x2x2x2x2x2x2x2_S16384x2x2x1x2x2x2x2x2_0_1_2_4_5_6_7_8 concatenates_S16384x2x2x1x2x2x2x2x2_S16384x2x2x1x2x2x2x2x2_S16384x2x2x2x2x2x2x2x2_d3
        (W (main_v492 : DevRef τ sig)) (shapeCast S_ (extractStridedSlice S1 ![18] (W (main_arg3 : DevRef τ sig)) slices_S21_S1_18) shapeCasts_S1_S_) := by
  simp only [after_cons, after_nil]
  rfl

set_option maxHeartbeats 1600000 in
theorem gate28_arg3 (W : Valuation τ sig (Elt Ideal)) :
    after (G28 (F := Ideal)) W (main_arg3 : DevRef τ sig) = W (main_arg3 : DevRef τ sig) := by
  simp only [after_cons, after_nil]
  rfl

set_option maxHeartbeats 1600000 in
theorem gate29 (W : Valuation τ sig (Elt Ideal)) :
    after (G29 (F := Ideal)) W (main_v534 : DevRef τ sig)
      = Cert.TTN.Gates.ryTerm (s := S16384x2x2x2x2x2x2x2x2) (t := S16384x2x2x2x2x2x2x2) (u := S16384x2x2x2x2x2x1x2x2) 6 ![0, 1, 2, 3, 4, 5, 7, 8] gather_S16384x2x2x2x2x2x2x2x2_S1_S16384x2x2x2x2x2x2x2_01234567_6_n_n_6_0_1638422222122 bcast_S_S1 bcast_S_S16384x2x2x2x2x2x2x2 reducesTo_S1_S_d0 h_S_ bcast_S16384x2x2x2x2x2x2x2_S16384x2x2x2x2x2x1x2x2_0_1_2_3_4_5_7_8 concatenates_S16384x2x2x2x2x2x1x2x2_S16384x2x2x2x2x2x1x2x2_S16384x2x2x2x2x2x2x2x2_d6
        (W (main_v513 : DevRef τ sig)) (shapeCast S_ (extractStridedSlice S1 ![19] (W (main_arg3 : DevRef τ sig)) slices_S21_S1_19) shapeCasts_S1_S_) := by
  simp only [after_cons, after_nil]
  rfl

set_option maxHeartbeats 1600000 in
theorem gate29_arg3 (W : Valuation τ sig (Elt Ideal)) :
    after (G29 (F := Ideal)) W (main_arg3 : DevRef τ sig) = W (main_arg3 : DevRef τ sig) := by
  simp only [after_cons, after_nil]
  rfl

set_option maxHeartbeats 1600000 in
theorem gate30 (W : Valuation τ sig (Elt Ideal)) :
    after (G30 (F := Ideal)) W (main_v540 : DevRef τ sig)
      = Cert.TTN.Gates.cxTerm (s := S16384x2x2x2x2x2x2x2x2) (t := S16384x2x2x2x2x2x2x2) (u := S16384x2x2x1x2x2x2x2x2) 3 5 ![0, 1, 2, 4, 5, 6, 7, 8] gather_S16384x2x2x2x2x2x2x2x2_S1_S16384x2x2x2x2x2x2x2_01234567_3_n_n_3_0_1638422122222 bcast_S_S1 bcast_S_S16384x2x2x2x2x2x2x2 reducesTo_S1_S_d0 h_S_ bcast_S16384x2x2x2x2x2x2x2_S16384x2x2x1x2x2x2x2x2_0_1_2_4_5_6_7_8 concatenates_S16384x2x2x1x2x2x2x2x2_S16384x2x2x1x2x2x2x2x2_S16384x2x2x2x2x2x2x2x2_d3
        (W (main_v534 : DevRef τ sig)) := by
  simp only [after_cons, after_nil]
  rfl

set_option maxHeartbeats 1600000 in
theorem gate30_arg3 (W : Valuation τ sig (Elt Ideal)) :
    after (G30 (F := Ideal)) W (main_arg3 : DevRef τ sig) = W (main_arg3 : DevRef τ sig) := by
  simp only [after_cons, after_nil]
  rfl

set_option maxHeartbeats 1600000 in
theorem gate31 (W : Valuation τ sig (Elt Ideal)) :
    after (G31 (F := Ideal)) W (main_v561 : DevRef τ sig)
      = Cert.TTN.Gates.ryTerm (s := S16384x2x2x2x2x2x2x2x2) (t := S16384x2x2x2x2x2x2x2) (u := S16384x2x2x2x2x2x1x2x2) 6 ![0, 1, 2, 3, 4, 5, 7, 8] gather_S16384x2x2x2x2x2x2x2x2_S1_S16384x2x2x2x2x2x2x2_01234567_6_n_n_6_0_1638422222122 bcast_S_S1 bcast_S_S16384x2x2x2x2x2x2x2 reducesTo_S1_S_d0 h_S_ bcast_S16384x2x2x2x2x2x2x2_S16384x2x2x2x2x2x1x2x2_0_1_2_3_4_5_7_8 concatenates_S16384x2x2x2x2x2x1x2x2_S16384x2x2x2x2x2x1x2x2_S16384x2x2x2x2x2x2x2x2_d6
        (W (main_v540 : DevRef τ sig)) (shapeCast S_ (extractStridedSlice S1 ![20] (W (main_arg3 : DevRef τ sig)) slices_S21_S1_20) shapeCasts_S1_S_) := by
  simp only [after_cons, after_nil]
  rfl

set_option maxHeartbeats 1600000 in
theorem gate31_arg3 (W : Valuation τ sig (Elt Ideal)) :
    after (G31 (F := Ideal)) W (main_arg3 : DevRef τ sig) = W (main_arg3 : DevRef τ sig) := by
  simp only [after_cons, after_nil]
  rfl

end Cert.TTN.RHost

end
-- ==== Proof.RHostHead.lean ====
/-
  The start of the reference, before the 31 gates: the eight angles of each edge (two products of the incidence
  matrices with the features, side by side), their halves' cosines and sines paired as [edge, wire, 2], and the
  product state built wire by wire, each round appending one axis of length 2.  Each host operation's value is named
  as a term of the three arrays; the last one is the encoded product state of every edge.  The operations are read in
  nine stretches — the pairs of cosines and sines, then one stretch per wire — each leaving its named term behind.
-/
import proofs.«130987_j14276471292017_1_alg».proof.ReferenceIdeal
import proofs.«130987_j14276471292017_1_alg».proof.Proof.Gen.ReferenceIdeal
import Idealize.ShloMosaic.Lib.StableHlo.Run
import Idealize.ShloMosaic.PureOps.Ideal

set_option maxRecDepth 16384

noncomputable section

namespace Cert.TTN.RHost

open Idealize.ShloMosaic Idealize.ShloMosaic.TcCoe Idealize.SL.Sem Idealize.ShloMosaic.StableHlo
open Cert.ReferenceIdeal Cert.ReferenceIdeal.Gen

section Lists
variable {F : FTy → Type} [FloatOps F]

/-- Stretch 0 of the operations before the first gate. -/
abbrev A0 : List (HloOp τ sig (Elt F)) :=
  [ StableHlo.binary main_arg2 main_arg0 main_v0 ((fun l r => Host.dotGeneral dot_S2048x16384_S2048x4_S16384x4_0_0_1_1_n_n none l r) : (⟨S2048x16384, .f32⟩ : BufTy).Contents (Elt F) → (⟨S2048x4, .f32⟩ : BufTy).Contents (Elt F) → (⟨S16384x4, .f32⟩ : BufTy).Contents (Elt F)),
    StableHlo.binary main_arg1 main_arg0 main_v1 ((fun l r => Host.dotGeneral dot_S2048x16384_S2048x4_S16384x4_0_0_1_1_n_n none l r) : (⟨S2048x16384, .f32⟩ : BufTy).Contents (Elt F) → (⟨S2048x4, .f32⟩ : BufTy).Contents (Elt F) → (⟨S16384x4, .f32⟩ : BufTy).Contents (Elt F)),
    StableHlo.binary main_v0 main_v1 main_v2 ((fun a b => concatenate S16384x8 1 [⟨S16384x4, a⟩, ⟨S16384x4, b⟩] concatenates_S16384x4_S16384x4_S16384x8_d1) : (⟨S16384x4, .f32⟩ : BufTy).Contents (Elt F) → (⟨S16384x4, .f32⟩ : BufTy).Contents (Elt F) → (⟨S16384x8, .f32⟩ : BufTy).Contents (Elt F)),
    StableHlo.nullary main_cst (constant S_ .f32 0x3F000000#32),
    StableHlo.unary main_cst main_v3 (broadcastInDim S16384x8 ![] bcast_S_S16384x8 : (⟨S_, .f32⟩ : BufTy).Contents (Elt F) → (⟨S16384x8, .f32⟩ : BufTy).Contents (Elt F)),
    StableHlo.binary main_v3 main_v2 main_v4 (mulf : (⟨S16384x8, .f32⟩ : BufTy).Contents (Elt F) → (⟨S16384x8, .f32⟩ : BufTy).Contents (Elt F) → (⟨S16384x8, .f32⟩ : BufTy).Contents (Elt F)),
    StableHlo.unary main_v4 main_v5 (Host.cos : (⟨S16384x8, .f32⟩ : BufTy).Contents (Elt F) → (⟨S16384x8, .f32⟩ : BufTy).Contents (Elt F)),
    StableHlo.unary main_v4 main_v6 (Host.sin : (⟨S16384x8, .f32⟩ : BufTy).Contents (Elt F) → (⟨S16384x8, .f32⟩ : BufTy).Contents (Elt F)),
    StableHlo.unary main_v5 main_v7 (broadcastInDim S16384x8x1 ![0, 1] bcast_S16384x8_S16384x8x1_0_1 : (⟨S16384x8, .f32⟩ : BufTy).Contents (Elt F) → (⟨S16384x8x1, .f32⟩ : BufTy).Contents (Elt F)),
    StableHlo.unary main_v6 main_v8 (broadcastInDim S16384x8x1 ![0, 1] bcast_S16384x8_S16384x8x1_0_1 : (⟨S16384x8, .f32⟩ : BufTy).Contents (Elt F) → (⟨S16384x8x1, .f32⟩ : BufTy).Contents (Elt F)),
    StableHlo.binary main_v7 main_v8 main_v9 ((fun a b => concatenate S16384x8x2 2 [⟨S16384x8x1, a⟩, ⟨S16384x8x1, b⟩] concatenates_S16384x8x1_S16384x8x1_S16384x8x2_d2) : (⟨S16384x8x1, .f32⟩ : BufTy).Contents (Elt F) → (⟨S16384x8x1, .f32⟩ : BufTy).Contents (Elt F) → (⟨S16384x8x2, .f32⟩ : BufTy).Contents (Elt F)) ]

/-- Stretch 1 of the operations before the first gate. -/
abbrev A1 : List (HloOp τ sig (Elt F)) :=
  [ StableHlo.unary main_v9 main_v10 ((extractStridedSlice S16384x1x2 ![0, 0, 0] · slices_S16384x8x2_S16384x1x2_0_0_0) : (⟨S16384x8x2, .f32⟩ : BufTy).Contents (Elt F) → (⟨S16384x1x2, .f32⟩ : BufTy).Contents (Elt F)),
    StableHlo.reshape main_v10 main_v11 rfl shapeCasts_S16384x1x2_S16384x2 ]

/-- Stretch 2 of the operations before the first gate. -/
abbrev A2 : List (HloOp τ sig (Elt F)) :=
  [ StableHlo.unary main_v11 main_v12 (broadcastInDim S16384x2x1 ![0, 1] bcast_S16384x2_S16384x2x1_0_1 : (⟨S16384x2, .f32⟩ : BufTy).Contents (Elt F) → (⟨S16384x2x1, .f32⟩ : BufTy).Contents (Elt F)),
    StableHlo.unary main_v9 main_v13 ((extractStridedSlice S16384x1x2 ![0, 1, 0] · slices_S16384x8x2_S16384x1x2_0_1_0) : (⟨S16384x8x2, .f32⟩ : BufTy).Contents (Elt F) → (⟨S16384x1x2, .f32⟩ : BufTy).Contents (Elt F)),
    StableHlo.reshape main_v13 main_v14 rfl shapeCasts_S16384x1x2_S16384x2,
    StableHlo.reshape main_v14 main_v15 rfl shapeCasts_S16384x2_S16384x1x2,
    StableHlo.unary main_v12 main_v16 (broadcastInDim S16384x2x2 ![0, 1, 2] bcast_S16384x2x1_S16384x2x2_0_1_2 : (⟨S16384x2x1, .f32⟩ : BufTy).Contents (Elt F) → (⟨S16384x2x2, .f32⟩ : BufTy).Contents (Elt F)),
    StableHlo.unary main_v15 main_v17 (broadcastInDim S16384x2x2 ![0, 1, 2] bcast_S16384x1x2_S16384x2x2_0_1_2 : (⟨S16384x1x2, .f32⟩ : BufTy).Contents (Elt F) → (⟨S16384x2x2, .f32⟩ : BufTy).Contents (Elt F)),
    StableHlo.binary main_v16 main_v17 main_v18 (mulf : (⟨S16384x2x2, .f32⟩ : BufTy).Contents (Elt F) → (⟨S16384x2x2, .f32⟩ : BufTy).Contents (Elt F) → (⟨S16384x2x2, .f32⟩ : BufTy).Contents (Elt F)) ]

/-- Stretch 3 of the operations before the first gate. -/
abbrev A3 : List (HloOp τ sig (Elt F)) :=
  [ StableHlo.unary main_v18 main_v19 (broadcastInDim S16384x2x2x1 ![0, 1, 2] bcast_S16384x2x2_S16384x2x2x1_0_1_2 : (⟨S16384x2x2, .f32⟩ : BufTy).Contents (Elt F) → (⟨S16384x2x2x1, .f32⟩ : BufTy).Contents (Elt F)),
    StableHlo.unary main_v9 main_v20 ((extractStridedSlice S16384x1x2 ![0, 2, 0] · slices_S16384x8x2_S16384x1x2_0_2_0) : (⟨S16384x8x2, .f32⟩ : BufTy).Contents (Elt F) → (⟨S16384x1x2, .f32⟩ : BufTy).Contents (Elt F)),
    StableHlo.reshape main_v20 main_v21 rfl shapeCasts_S16384x1x2_S16384x2,
    StableHlo.reshape main_v21 main_v22 rfl shapeCasts_S16384x2_S16384x1x1x2,
    StableHlo.unary main_v19 main_v23 (broadcastInDim S16384x2x2x2 ![0, 1, 2, 3] bcast_S16384x2x2x1_S16384x2x2x2_0_1_2_3 : (⟨S16384x2x2x1, .f32⟩ : BufTy).Contents (Elt F) → (⟨S16384x2x2x2, .f32⟩ : BufTy).Contents (Elt F)),
    StableHlo.unary main_v22 main_v24 (broadcastInDim S16384x2x2x2 ![0, 1, 2, 3] bcast_S16384x1x1x2_S16384x2x2x2_0_1_2_3 : (⟨S16384x1x1x2, .f32⟩ : BufTy).Contents (Elt F) → (⟨S16384x2x2x2, .f32⟩ : BufTy).Contents (Elt F)),
    StableHlo.binary main_v23 main_v24 main_v25 (mulf : (⟨S16384x2x2x2, .f32⟩ : BufTy).Contents (Elt F) → (⟨S16384x2x2x2, .f32⟩ : BufTy).Contents (Elt F) → (⟨S16384x2x2x2, .f32⟩ : BufTy).Contents (Elt F)) ]

/-- Stretch 4 of the operations before the first gate. -/
abbrev A4 : List (HloOp τ sig (Elt F)) :=
  [ StableHlo.unary main_v25 main_v26 (broadcastInDim S16384x2x2x2x1 ![0, 1, 2, 3] bcast_S16384x2x2x2_S16384x2x2x2x1_0_1_2_3 : (⟨S16384x2x2x2, .f32⟩ : BufTy).Contents (Elt F) → (⟨S16384x2x2x2x1, .f32⟩ : BufTy).Contents (Elt F)),
    StableHlo.unary main_v9 main_v27 ((extractStridedSlice S16384x1x2 ![0, 3, 0] · slices_S16384x8x2_S16384x1x2_0_3_0) : (⟨S16384x8x2, .f32⟩ : BufTy).Contents (Elt F) → (⟨S16384x1x2, .f32⟩ : BufTy).Contents (Elt F)),
    StableHlo.reshape main_v27 main_v28 rfl shapeCasts_S16384x1x2_S16384x2,
    StableHlo.reshape main_v28 main_v29 rfl shapeCasts_S16384x2_S16384x1x1x1x2,
    StableHlo.unary main_v26 main_v30 (broadcastInDim S16384x2x2x2x2 ![0, 1, 2, 3, 4] bcast_S16384x2x2x2x1_S16384x2x2x2x2_0_1_2_3_4 : (⟨S16384x2x2x2x1, .f32⟩ : BufTy).Contents (Elt F) → (⟨S16384x2x2x2x2, .f32⟩ : BufTy).Contents (Elt F)),
    StableHlo.unary main_v29 main_v31 (broadcastInDim S16384x2x2x2x2 ![0, 1, 2, 3, 4] bcast_S16384x1x1x1x2_S16384x2x2x2x2_0_1_2_3_4 : (⟨S16384x1x1x1x2, .f32⟩ : BufTy).Contents (Elt F) → (⟨S16384x2x2x2x2, .f32⟩ : BufTy).Contents (Elt F)),
    StableHlo.binary main_v30 main_v31 main_v32 (mulf : (⟨S16384x2x2x2x2, .f32⟩ : BufTy).Contents (Elt F) → (⟨S16384x2x2x2x2, .f32⟩ : BufTy).Contents (Elt F) → (⟨S16384x2x2x2x2, .f32⟩ : BufTy).Contents (Elt F)) ]

/-- Stretch 5 of the operations before the first gate. -/
abbrev A5 : List (HloOp τ sig (Elt F)) :=
  [ StableHlo.unary main_v32 main_v33 (broadcastInDim S16384x2x2x2x2x1 ![0, 1, 2, 3, 4] bcast_S16384x2x2x2x2_S16384x2x2x2x2x1_0_1_2_3_4 : (⟨S16384x2x2x2x2, .f32⟩ : BufTy).Contents (Elt F) → (⟨S16384x2x2x2x2x1, .f32⟩ : BufTy).Contents (Elt F)),
    StableHlo.unary main_v9 main_v34 ((extractStridedSlice S16384x1x2 ![0, 4, 0] · slices_S16384x8x2_S16384x1x2_0_4_0) : (⟨S16384x8x2, .f32⟩ : BufTy).Contents (Elt F) → (⟨S16384x1x2, .f32⟩ : BufTy).Contents (Elt F)),
    StableHlo.reshape main_v34 main_v35 rfl shapeCasts_S16384x1x2_S16384x2,
    StableHlo.reshape main_v35 main_v36 rfl shapeCasts_S16384x2_S16384x1x1x1x1x2,
    StableHlo.unary main_v33 main_v37 (broadcastInDim S16384x2x2x2x2x2 ![0, 1, 2, 3, 4, 5] bcast_S16384x2x2x2x2x1_S16384x2x2x2x2x2_0_1_2_3_4_5 : (⟨S16384x2x2x2x2x1, .f32⟩ : BufTy).Contents (Elt F) → (⟨S16384x2x2x2x2x2, .f32⟩ : BufTy).Contents (Elt F)),
    StableHlo.unary main_v36 main_v38 (broadcastInDim S16384x2x2x2x2x2 ![0, 1, 2, 3, 4, 5] bcast_S16384x1x1x1x1x2_S16384x2x2x2x2x2_0_1_2_3_4_5 : (⟨S16384x1x1x1x1x2, .f32⟩ : BufTy).Contents (Elt F) → (⟨S16384x2x2x2x2x2, .f32⟩ : BufTy).Contents (Elt F)),
    StableHlo.binary main_v37 main_v38 main_v39 (mulf : (⟨S16384x2x2x2x2x2, .f32⟩ : BufTy).Contents (Elt F) → (⟨S16384x2x2x2x2x2, .f32⟩ : BufTy).Contents (Elt F) → (⟨S16384x2x2x2x2x2, .f32⟩ : BufTy).Contents (Elt F)) ]

/-- Stretch 6 of the operations before the first gate. -/
abbrev A6 : List (HloOp τ sig (Elt F)) :=
  [ StableHlo.unary main_v39 main_v40 (broadcastInDim S16384x2x2x2x2x2x1 ![0, 1, 2, 3, 4, 5] bcast_S16384x2x2x2x2x2_S16384x2x2x2x2x2x1_0_1_2_3_4_5 : (⟨S16384x2x2x2x2x2, .f32⟩ : BufTy).Contents (Elt F) → (⟨S16384x2x2x2x2x2x1, .f32⟩ : BufTy).Contents (Elt F)),
    StableHlo.unary main_v9 main_v41 ((extractStridedSlice S16384x1x2 ![0, 5, 0] · slices_S16384x8x2_S16384x1x2_0_5_0) : (⟨S16384x8x2, .f32⟩ : BufTy).Contents (Elt F) → (⟨S16384x1x2, .f32⟩ : BufTy).Contents (Elt F)),
    StableHlo.reshape main_v41 main_v42 rfl shapeCasts_S16384x1x2_S16384x2,
    StableHlo.reshape main_v42 main_v43 rfl shapeCasts_S16384x2_S16384x1x1x1x1x1x2,
    StableHlo.unary main_v40 main_v44 (broadcastInDim S16384x2x2x2x2x2x2 ![0, 1, 2, 3, 4, 5, 6] bcast_S16384x2x2x2x2x2x1_S16384x2x2x2x2x2x2_0_1_2_3_4_5_6 : (⟨S16384x2x2x2x2x2x1, .f32⟩ : BufTy).Contents (Elt F) → (⟨S16384x2x2x2x2x2x2, .f32⟩ : BufTy).Contents (Elt F)),
    StableHlo.unary main_v43 main_v45 (broadcastInDim S16384x2x2x2x2x2x2 ![0, 1, 2, 3, 4, 5, 6] bcast_S16384x1x1x1x1x1x2_S16384x2x2x2x2x2x2_0_1_2_3_4_5_6 : (⟨S16384x1x1x1x1x1x2, .f32⟩ : BufTy).Contents (Elt F) → (⟨S16384x2x2x2x2x2x2, .f32⟩ : BufTy).Contents (Elt F)),
    StableHlo.binary main_v44 main_v45 main_v46 (mulf : (⟨S16384x2x2x2x2x2x2, .f32⟩ : BufTy).Contents (Elt F) → (⟨S16384x2x2x2x2x2x2, .f32⟩ : BufTy).Contents (Elt F) → (⟨S16384x2x2x2x2x2x2, .f32⟩ : BufTy).Contents (Elt F)) ]

/-- Stretch 7 of the operations before the first gate. -/
abbrev A7 : List (HloOp τ sig (Elt F)) :=
  [ StableHlo.unary main_v46 main_v47 (broadcastInDim S16384x2x2x2x2x2x2x1 ![0, 1, 2, 3, 4, 5, 6] bcast_S16384x2x2x2x2x2x2_S16384x2x2x2x2x2x2x1_0_1_2_3_4_5_6 : (⟨S16384x2x2x2x2x2x2, .f32⟩ : BufTy).Contents (Elt F) → (⟨S16384x2x2x2x2x2x2x1, .f32⟩ : BufTy).Contents (Elt F)),
    StableHlo.unary main_v9 main_v48 ((extractStridedSlice S16384x1x2 ![0, 6, 0] · slices_S16384x8x2_S16384x1x2_0_6_0) : (⟨S16384x8x2, .f32⟩ : BufTy).Contents (Elt F) → (⟨S16384x1x2, .f32⟩ : BufTy).Contents (Elt F)),
    StableHlo.reshape main_v48 main_v49 rfl shapeCasts_S16384x1x2_S16384x2,
    StableHlo.reshape main_v49 main_v50 rfl shapeCasts_S16384x2_S16384x1x1x1x1x1x1x2,
    StableHlo.unary main_v47 main_v51 (broadcastInDim S16384x2x2x2x2x2x2x2 ![0, 1, 2, 3, 4, 5, 6, 7] bcast_S16384x2x2x2x2x2x2x1_S16384x2x2x2x2x2x2x2_0_1_2_3_4_5_6_7 : (⟨S16384x2x2x2x2x2x2x1, .f32⟩ : BufTy).Contents (Elt F) → (⟨S16384x2x2x2x2x2x2x2, .f32⟩ : BufTy).Contents (Elt F)),
    StableHlo.unary main_v50 main_v52 (broadcastInDim S16384x2x2x2x2x2x2x2 ![0, 1, 2, 3, 4, 5, 6, 7] bcast_S16384x1x1x1x1x1x1x2_S16384x2x2x2x2x2x2x2_0_1_2_3_4_5_6_7 : (⟨S16384x1x1x1x1x1x1x2, .f32⟩ : BufTy).Contents (Elt F) → (⟨S16384x2x2x2x2x2x2x2, .f32⟩ : BufTy).Contents (Elt F)),
    StableHlo.binary main_v51 main_v52 main_v53 (mulf : (⟨S16384x2x2x2x2x2x2x2, .f32⟩ : BufTy).Contents (Elt F) → (⟨S16384x2x2x2x2x2x2x2, .f32⟩ : BufTy).Contents (Elt F) → (⟨S16384x2x2x2x2x2x2x2, .f32⟩ : BufTy).Contents (Elt F)) ]

/-- Stretch 8 of the operations before the first gate. -/
abbrev A8 : List (HloOp τ sig (Elt F)) :=
  [ StableHlo.unary main_v53 main_v54 (broadcastInDim S16384x2x2x2x2x2x2x2x1 ![0, 1, 2, 3, 4, 5, 6, 7] bcast_S16384x2x2x2x2x2x2x2_S16384x2x2x2x2x2x2x2x1_0_1_2_3_4_5_6_7 : (⟨S16384x2x2x2x2x2x2x2, .f32⟩ : BufTy).Contents (Elt F) → (⟨S16384x2x2x2x2x2x2x2x1, .f32⟩ : BufTy).Contents (Elt F)),
    StableHlo.unary main_v9 main_v55 ((extractStridedSlice S16384x1x2 ![0, 7, 0] · slices_S16384x8x2_S16384x1x2_0_7_0) : (⟨S16384x8x2, .f32⟩ : BufTy).Contents (Elt F) → (⟨S16384x1x2, .f32⟩ : BufTy).Contents (Elt F)),
    StableHlo.reshape main_v55 main_v56 rfl shapeCasts_S16384x1x2_S16384x2,
    StableHlo.reshape main_v56 main_v57 rfl shapeCasts_S16384x2_S16384x1x1x1x1x1x1x1x2,
    StableHlo.unary main_v54 main_v58 (broadcastInDim S16384x2x2x2x2x2x2x2x2 ![0, 1, 2, 3, 4, 5, 6, 7, 8] bcast_S16384x2x2x2x2x2x2x2x1_S16384x2x2x2x2x2x2x2x2_0_1_2_3_4_5_6_7_8 : (⟨S16384x2x2x2x2x2x2x2x1, .f32⟩ : BufTy).Contents (Elt F) → (⟨S16384x2x2x2x2x2x2x2x2, .f32⟩ : BufTy).Contents (Elt F)),
    StableHlo.unary main_v57 main_v59 (broadcastInDim S16384x2x2x2x2x2x2x2x2 ![0, 1, 2, 3, 4, 5, 6, 7, 8] bcast_S16384x1x1x1x1x1x1x1x2_S16384x2x2x2x2x2x2x2x2_0_1_2_3_4_5_6_7_8 : (⟨S16384x1x1x1x1x1x1x1x2, .f32⟩ : BufTy).Contents (Elt F) → (⟨S16384x2x2x2x2x2x2x2x2, .f32⟩ : BufTy).Contents (Elt F)),
    StableHlo.binary main_v58 main_v59 main_v60 (mulf : (⟨S16384x2x2x2x2x2x2x2x2, .f32⟩ : BufTy).Contents (Elt F) → (⟨S16384x2x2x2x2x2x2x2x2, .f32⟩ : BufTy).Contents (Elt F) → (⟨S16384x2x2x2x2x2x2x2x2, .f32⟩ : BufTy).Contents (Elt F)) ]

/-- The host operations before the first gate. -/
abbrev R0 : List (HloOp τ sig (Elt F)) :=
  A0 ++ (A1 ++ (A2 ++ (A3 ++ (A4 ++ (A5 ++ (A6 ++ (A7 ++ (A8))))))))

end Lists

/-! The value of each of these operations, from the features `x` and the incidence matrices `ri`, `ro`. -/

def h_v0 (x : FVec Ideal S2048x4 .f32) (ri ro : FVec Ideal S2048x16384 .f32) : FVec Ideal S16384x4 .f32 :=
  (fun l r => Host.dotGeneral dot_S2048x16384_S2048x4_S16384x4_0_0_1_1_n_n none l r) ro x

def h_v1 (x : FVec Ideal S2048x4 .f32) (ri ro : FVec Ideal S2048x16384 .f32) : FVec Ideal S16384x4 .f32 :=
  (fun l r => Host.dotGeneral dot_S2048x16384_S2048x4_S16384x4_0_0_1_1_n_n none l r) ri x

def h_v2 (x : FVec Ideal S2048x4 .f32) (ri ro : FVec Ideal S2048x16384 .f32) : FVec Ideal S16384x8 .f32 :=
  (fun a b => concatenate S16384x8 1 [⟨S16384x4, a⟩, ⟨S16384x4, b⟩] concatenates_S16384x4_S16384x4_S16384x8_d1) (h_v0 x ri ro) (h_v1 x ri ro)

def h_cst (x : FVec Ideal S2048x4 .f32) (ri ro : FVec Ideal S2048x16384 .f32) : FVec Ideal S_ .f32 :=
  constant S_ .f32 0x3F000000#32

def h_v3 (x : FVec Ideal S2048x4 .f32) (ri ro : FVec Ideal S2048x16384 .f32) : FVec Ideal S16384x8 .f32 :=
  broadcastInDim S16384x8 ![] bcast_S_S16384x8 (h_cst x ri ro)

def h_v4 (x : FVec Ideal S2048x4 .f32) (ri ro : FVec Ideal S2048x16384 .f32) : FVec Ideal S16384x8 .f32 :=
  mulf (h_v3 x ri ro) (h_v2 x ri ro)

def h_v5 (x : FVec Ideal S2048x4 .f32) (ri ro : FVec Ideal S2048x16384 .f32) : FVec Ideal S16384x8 .f32 :=
  Host.cos (h_v4 x ri ro)

def h_v6 (x : FVec Ideal S2048x4 .f32) (ri ro : FVec Ideal S2048x16384 .f32) : FVec Ideal S16384x8 .f32 :=
  Host.sin (h_v4 x ri ro)

def h_v7 (x : FVec Ideal S2048x4 .f32) (ri ro : FVec Ideal S2048x16384 .f32) : FVec Ideal S16384x8x1 .f32 :=
  broadcastInDim S16384x8x1 ![0, 1] bcast_S16384x8_S16384x8x1_0_1 (h_v5 x ri ro)

def h_v8 (x : FVec Ideal S2048x4 .f32) (ri ro : FVec Ideal S2048x16384 .f32) : FVec Ideal S16384x8x1 .f32 :=
  broadcastInDim S16384x8x1 ![0, 1] bcast_S16384x8_S16384x8x1_0_1 (h_v6 x ri ro)

def h_v9 (x : FVec Ideal S2048x4 .f32) (ri ro : FVec Ideal S2048x16384 .f32) : FVec Ideal S16384x8x2 .f32 :=
  (fun a b => concatenate S16384x8x2 2 [⟨S16384x8x1, a⟩, ⟨S16384x8x1, b⟩] concatenates_S16384x8x1_S16384x8x1_S16384x8x2_d2) (h_v7 x ri ro) (h_v8 x ri ro)

def h_v10 (x : FVec Ideal S2048x4 .f32) (ri ro : FVec Ideal S2048x16384 .f32) : FVec Ideal S16384x1x2 .f32 :=
  (extractStridedSlice S16384x1x2 ![0, 0, 0] · slices_S16384x8x2_S16384x1x2_0_0_0) (h_v9 x ri ro)

def h_v11 (x : FVec Ideal S2048x4 .f32) (ri ro : FVec Ideal S2048x16384 .f32) : FVec Ideal S16384x2 .f32 :=
  shapeCast S16384x2 (h_v10 x ri ro) shapeCasts_S16384x1x2_S16384x2

def h_v12 (x : FVec Ideal S2048x4 .f32) (ri ro : FVec Ideal S2048x16384 .f32) : FVec Ideal S16384x2x1 .f32 :=
  broadcastInDim S16384x2x1 ![0, 1] bcast_S16384x2_S16384x2x1_0_1 (h_v11 x ri ro)

def h_v13 (x : FVec Ideal S2048x4 .f32) (ri ro : FVec Ideal S2048x16384 .f32) : FVec Ideal S16384x1x2 .f32 :=
  (extractStridedSlice S16384x1x2 ![0, 1, 0] · slices_S16384x8x2_S16384x1x2_0_1_0) (h_v9 x ri ro)

def h_v14 (x : FVec Ideal S2048x4 .f32) (ri ro : FVec Ideal S2048x16384 .f32) : FVec Ideal S16384x2 .f32 :=
  shapeCast S16384x2 (h_v13 x ri ro) shapeCasts_S16384x1x2_S16384x2

def h_v15 (x : FVec Ideal S2048x4 .f32) (ri ro : FVec Ideal S2048x16384 .f32) : FVec Ideal S16384x1x2 .f32 :=
  shapeCast S16384x1x2 (h_v14 x ri ro) shapeCasts_S16384x2_S16384x1x2

def h_v16 (x : FVec Ideal S2048x4 .f32) (ri ro : FVec Ideal S2048x16384 .f32) : FVec Ideal S16384x2x2 .f32 :=
  broadcastInDim S16384x2x2 ![0, 1, 2] bcast_S16384x2x1_S16384x2x2_0_1_2 (h_v12 x ri ro)

def h_v17 (x : FVec Ideal S2048x4 .f32) (ri ro : FVec Ideal S2048x16384 .f32) : FVec Ideal S16384x2x2 .f32 :=
  broadcastInDim S16384x2x2 ![0, 1, 2] bcast_S16384x1x2_S16384x2x2_0_1_2 (h_v15 x ri ro)

def h_v18 (x : FVec Ideal S2048x4 .f32) (ri ro : FVec Ideal S2048x16384 .f32) : FVec Ideal S16384x2x2 .f32 :=
  mulf (h_v16 x ri ro) (h_v17 x ri ro)

def h_v19 (x : FVec Ideal S2048x4 .f32) (ri ro : FVec Ideal S2048x16384 .f32) : FVec Ideal S16384x2x2x1 .f32 :=
  broadcastInDim S16384x2x2x1 ![0, 1, 2] bcast_S16384x2x2_S16384x2x2x1_0_1_2 (h_v18 x ri ro)

def h_v20 (x : FVec Ideal S2048x4 .f32) (ri ro : FVec Ideal S2048x16384 .f32) : FVec Ideal S16384x1x2 .f32 :=
  (extractStridedSlice S16384x1x2 ![0, 2, 0] · slices_S16384x8x2_S16384x1x2_0_2_0) (h_v9 x ri ro)

def h_v21 (x : FVec Ideal S2048x4 .f32) (ri ro : FVec Ideal S2048x16384 .f32) : FVec Ideal S16384x2 .f32 :=
  shapeCast S16384x2 (h_v20 x ri ro) shapeCasts_S16384x1x2_S16384x2

def h_v22 (x : FVec Ideal S2048x4 .f32) (ri ro : FVec Ideal S2048x16384 .f32) : FVec Ideal S16384x1x1x2 .f32 :=
  shapeCast S16384x1x1x2 (h_v21 x ri ro) shapeCasts_S16384x2_S16384x1x1x2

def h_v23 (x : FVec Ideal S2048x4 .f32) (ri ro : FVec Ideal S2048x16384 .f32) : FVec Ideal S16384x2x2x2 .f32 :=
  broadcastInDim S16384x2x2x2 ![0, 1, 2, 3] bcast_S16384x2x2x1_S16384x2x2x2_0_1_2_3 (h_v19 x ri ro)

def h_v24 (x : FVec Ideal S2048x4 .f32) (ri ro : FVec Ideal S2048x16384 .f32) : FVec Ideal S16384x2x2x2 .f32 :=
  broadcastInDim S16384x2x2x2 ![0, 1, 2, 3] bcast_S16384x1x1x2_S16384x2x2x2_0_1_2_3 (h_v22 x ri ro)

def h_v25 (x : FVec Ideal S2048x4 .f32) (ri ro : FVec Ideal S2048x16384 .f32) : FVec Ideal S16384x2x2x2 .f32 :=
  mulf (h_v23 x ri ro) (h_v24 x ri ro)

def h_v26 (x : FVec Ideal S2048x4 .f32) (ri ro : FVec Ideal S2048x16384 .f32) : FVec Ideal S16384x2x2x2x1 .f32 :=
  broadcastInDim S16384x2x2x2x1 ![0, 1, 2, 3] bcast_S16384x2x2x2_S16384x2x2x2x1_0_1_2_3 (h_v25 x ri ro)

def h_v27 (x : FVec Ideal S2048x4 .f32) (ri ro : FVec Ideal S2048x16384 .f32) : FVec Ideal S16384x1x2 .f32 :=
  (extractStridedSlice S16384x1x2 ![0, 3, 0] · slices_S16384x8x2_S16384x1x2_0_3_0) (h_v9 x ri ro)

def h_v28 (x : FVec Ideal S2048x4 .f32) (ri ro : FVec Ideal S2048x16384 .f32) : FVec Ideal S16384x2 .f32 :=
  shapeCast S16384x2 (h_v27 x ri ro) shapeCasts_S16384x1x2_S16384x2

def h_v29 (x : FVec Ideal S2048x4 .f32) (ri ro : FVec Ideal S2048x16384 .f32) : FVec Ideal S16384x1x1x1x2 .f32 :=
  shapeCast S16384x1x1x1x2 (h_v28 x ri ro) shapeCasts_S16384x2_S16384x1x1x1x2

def h_v30 (x : FVec Ideal S2048x4 .f32) (ri ro : FVec Ideal S2048x16384 .f32) : FVec Ideal S16384x2x2x2x2 .f32 :=
  broadcastInDim S16384x2x2x2x2 ![0, 1, 2, 3, 4] bcast_S16384x2x2x2x1_S16384x2x2x2x2_0_1_2_3_4 (h_v26 x ri ro)

def h_v31 (x : FVec Ideal S2048x4 .f32) (ri ro : FVec Ideal S2048x16384 .f32) : FVec Ideal S16384x2x2x2x2 .f32 :=
  broadcastInDim S16384x2x2x2x2 ![0, 1, 2, 3, 4] bcast_S16384x1x1x1x2_S16384x2x2x2x2_0_1_2_3_4 (h_v29 x ri ro)

def h_v32 (x : FVec Ideal S2048x4 .f32) (ri ro : FVec Ideal S2048x16384 .f32) : FVec Ideal S16384x2x2x2x2 .f32 :=
  mulf (h_v30 x ri ro) (h_v31 x ri ro)

def h_v33 (x : FVec Ideal S2048x4 .f32) (ri ro : FVec Ideal S2048x16384 .f32) : FVec Ideal S16384x2x2x2x2x1 .f32 :=
  broadcastInDim S16384x2x2x2x2x1 ![0, 1, 2, 3, 4] bcast_S16384x2x2x2x2_S16384x2x2x2x2x1_0_1_2_3_4 (h_v32 x ri ro)

def h_v34 (x : FVec Ideal S2048x4 .f32) (ri ro : FVec Ideal S2048x16384 .f32) : FVec Ideal S16384x1x2 .f32 :=
  (extractStridedSlice S16384x1x2 ![0, 4, 0] · slices_S16384x8x2_S16384x1x2_0_4_0) (h_v9 x ri ro)

def h_v35 (x : FVec Ideal S2048x4 .f32) (ri ro : FVec Ideal S2048x16384 .f32) : FVec Ideal S16384x2 .f32 :=
  shapeCast S16384x2 (h_v34 x ri ro) shapeCasts_S16384x1x2_S16384x2

def h_v36 (x : FVec Ideal S2048x4 .f32) (ri ro : FVec Ideal S2048x16384 .f32) : FVec Ideal S16384x1x1x1x1x2 .f32 :=
  shapeCast S16384x1x1x1x1x2 (h_v35 x ri ro) shapeCasts_S16384x2_S16384x1x1x1x1x2

def h_v37 (x : FVec Ideal S2048x4 .f32) (ri ro : FVec Ideal S2048x16384 .f32) : FVec Ideal S16384x2x2x2x2x2 .f32 :=
  broadcastInDim S16384x2x2x2x2x2 ![0, 1, 2, 3, 4, 5] bcast_S16384x2x2x2x2x1_S16384x2x2x2x2x2_0_1_2_3_4_5 (h_v33 x ri ro)

def h_v38 (x : FVec Ideal S2048x4 .f32) (ri ro : FVec Ideal S2048x16384 .f32) : FVec Ideal S16384x2x2x2x2x2 .f32 :=
  broadcastInDim S16384x2x2x2x2x2 ![0, 1, 2, 3, 4, 5] bcast_S16384x1x1x1x1x2_S16384x2x2x2x2x2_0_1_2_3_4_5 (h_v36 x ri ro)

def h_v39 (x : FVec Ideal S2048x4 .f32) (ri ro : FVec Ideal S2048x16384 .f32) : FVec Ideal S16384x2x2x2x2x2 .f32 :=
  mulf (h_v37 x ri ro) (h_v38 x ri ro)

def h_v40 (x : FVec Ideal S2048x4 .f32) (ri ro : FVec Ideal S2048x16384 .f32) : FVec Ideal S16384x2x2x2x2x2x1 .f32 :=
  broadcastInDim S16384x2x2x2x2x2x1 ![0, 1, 2, 3, 4, 5] bcast_S16384x2x2x2x2x2_S16384x2x2x2x2x2x1_0_1_2_3_4_5 (h_v39 x ri ro)

def h_v41 (x : FVec Ideal S2048x4 .f32) (ri ro : FVec Ideal S2048x16384 .f32) : FVec Ideal S16384x1x2 .f32 :=
  (extractStridedSlice S16384x1x2 ![0, 5, 0] · slices_S16384x8x2_S16384x1x2_0_5_0) (h_v9 x ri ro)

def h_v42 (x : FVec Ideal S2048x4 .f32) (ri ro : FVec Ideal S2048x16384 .f32) : FVec Ideal S16384x2 .f32 :=
  shapeCast S16384x2 (h_v41 x ri ro) shapeCasts_S16384x1x2_S16384x2

def h_v43 (x : FVec Ideal S2048x4 .f32) (ri ro : FVec Ideal S2048x16384 .f32) : FVec Ideal S16384x1x1x1x1x1x2 .f32 :=
  shapeCast S16384x1x1x1x1x1x2 (h_v42 x ri ro) shapeCasts_S16384x2_S16384x1x1x1x1x1x2

def h_v44 (x : FVec Ideal S2048x4 .f32) (ri ro : FVec Ideal S2048x16384 .f32) : FVec Ideal S16384x2x2x2x2x2x2 .f32 :=
  broadcastInDim S16384x2x2x2x2x2x2 ![0, 1, 2, 3, 4, 5, 6] bcast_S16384x2x2x2x2x2x1_S16384x2x2x2x2x2x2_0_1_2_3_4_5_6 (h_v40 x ri ro)

def h_v45 (x : FVec Ideal S2048x4 .f32) (ri ro : FVec Ideal S2048x16384 .f32) : FVec Ideal S16384x2x2x2x2x2x2 .f32 :=
  broadcastInDim S16384x2x2x2x2x2x2 ![0, 1, 2, 3, 4, 5, 6] bcast_S16384x1x1x1x1x1x2_S16384x2x2x2x2x2x2_0_1_2_3_4_5_6 (h_v43 x ri ro)

def h_v46 (x : FVec Ideal S2048x4 .f32) (ri ro : FVec Ideal S2048x16384 .f32) : FVec Ideal S16384x2x2x2x2x2x2 .f32 :=
  mulf (h_v44 x ri ro) (h_v45 x ri ro)

def h_v47 (x : FVec Ideal S2048x4 .f32) (ri ro : FVec Ideal S2048x16384 .f32) : FVec Ideal S16384x2x2x2x2x2x2x1 .f32 :=
  broadcastInDim S16384x2x2x2x2x2x2x1 ![0, 1, 2, 3, 4, 5, 6] bcast_S16384x2x2x2x2x2x2_S16384x2x2x2x2x2x2x1_0_1_2_3_4_5_6 (h_v46 x ri ro)

def h_v48 (x : FVec Ideal S2048x4 .f32) (ri ro : FVec Ideal S2048x16384 .f32) : FVec Ideal S16384x1x2 .f32 :=
  (extractStridedSlice S16384x1x2 ![0, 6, 0] · slices_S16384x8x2_S16384x1x2_0_6_0) (h_v9 x ri ro)

def h_v49 (x : FVec Ideal S2048x4 .f32) (ri ro : FVec Ideal S2048x16384 .f32) : FVec Ideal S16384x2 .f32 :=
  shapeCast S16384x2 (h_v48 x ri ro) shapeCasts_S16384x1x2_S16384x2

def h_v50 (x : FVec Ideal S2048x4 .f32) (ri ro : FVec Ideal S2048x16384 .f32) : FVec Ideal S16384x1x1x1x1x1x1x2 .f32 :=
  shapeCast S16384x1x1x1x1x1x1x2 (h_v49 x ri ro) shapeCasts_S16384x2_S16384x1x1x1x1x1x1x2

def h_v51 (x : FVec Ideal S2048x4 .f32) (ri ro : FVec Ideal S2048x16384 .f32) : FVec Ideal S16384x2x2x2x2x2x2x2 .f32 :=
  broadcastInDim S16384x2x2x2x2x2x2x2 ![0, 1, 2, 3, 4, 5, 6, 7] bcast_S16384x2x2x2x2x2x2x1_S16384x2x2x2x2x2x2x2_0_1_2_3_4_5_6_7 (h_v47 x ri ro)

def h_v52 (x : FVec Ideal S2048x4 .f32) (ri ro : FVec Ideal S2048x16384 .f32) : FVec Ideal S16384x2x2x2x2x2x2x2 .f32 :=
  broadcastInDim S16384x2x2x2x2x2x2x2 ![0, 1, 2, 3, 4, 5, 6, 7] bcast_S16384x1x1x1x1x1x1x2_S16384x2x2x2x2x2x2x2_0_1_2_3_4_5_6_7 (h_v50 x ri ro)

def h_v53 (x : FVec Ideal S2048x4 .f32) (ri ro : FVec Ideal S2048x16384 .f32) : FVec Ideal S16384x2x2x2x2x2x2x2 .f32 :=
  mulf (h_v51 x ri ro) (h_v52 x ri ro)

def h_v54 (x : FVec Ideal S2048x4 .f32) (ri ro : FVec Ideal S2048x16384 .f32) : FVec Ideal S16384x2x2x2x2x2x2x2x1 .f32 :=
  broadcastInDim S16384x2x2x2x2x2x2x2x1 ![0, 1, 2, 3, 4, 5, 6, 7] bcast_S16384x2x2x2x2x2x2x2_S16384x2x2x2x2x2x2x2x1_0_1_2_3_4_5_6_7 (h_v53 x ri ro)

def h_v55 (x : FVec Ideal S2048x4 .f32) (ri ro : FVec Ideal S2048x16384 .f32) : FVec Ideal S16384x1x2 .f32 :=
  (extractStridedSlice S16384x1x2 ![0, 7, 0] · slices_S16384x8x2_S16384x1x2_0_7_0) (h_v9 x ri ro)

def h_v56 (x : FVec Ideal S2048x4 .f32) (ri ro : FVec Ideal S2048x16384 .f32) : FVec Ideal S16384x2 .f32 :=
  shapeCast S16384x2 (h_v55 x ri ro) shapeCasts_S16384x1x2_S16384x2

def h_v57 (x : FVec Ideal S2048x4 .f32) (ri ro : FVec Ideal S2048x16384 .f32) : FVec Ideal S16384x1x1x1x1x1x1x1x2 .f32 :=
  shapeCast S16384x1x1x1x1x1x1x1x2 (h_v56 x ri ro) shapeCasts_S16384x2_S16384x1x1x1x1x1x1x1x2

def h_v58 (x : FVec Ideal S2048x4 .f32) (ri ro : FVec Ideal S2048x16384 .f32) : FVec Ideal S16384x2x2x2x2x2x2x2x2 .f32 :=
  broadcastInDim S16384x2x2x2x2x2x2x2x2 ![0, 1, 2, 3, 4, 5, 6, 7, 8] bcast_S16384x2x2x2x2x2x2x2x1_S16384x2x2x2x2x2x2x2x2_0_1_2_3_4_5_6_7_8 (h_v54 x ri ro)

def h_v59 (x : FVec Ideal S2048x4 .f32) (ri ro : FVec Ideal S2048x16384 .f32) : FVec Ideal S16384x2x2x2x2x2x2x2x2 .f32 :=
  broadcastInDim S16384x2x2x2x2x2x2x2x2 ![0, 1, 2, 3, 4, 5, 6, 7, 8] bcast_S16384x1x1x1x1x1x1x1x2_S16384x2x2x2x2x2x2x2x2_0_1_2_3_4_5_6_7_8 (h_v57 x ri ro)

def h_v60 (x : FVec Ideal S2048x4 .f32) (ri ro : FVec Ideal S2048x16384 .f32) : FVec Ideal S16384x2x2x2x2x2x2x2x2 .f32 :=
  mulf (h_v58 x ri ro) (h_v59 x ri ro)

/-- The encoded product state of every edge, as the reference builds it. -/
def headTerm (x : FVec Ideal S2048x4 .f32) (ri ro : FVec Ideal S2048x16384 .f32) : FVec Ideal S16384x2x2x2x2x2x2x2x2 .f32 :=
  h_v60 x ri ro

attribute [local irreducible] Host.gather Host.reduce concatenate broadcastInDim Host.reverse shapeCast extractStridedSlice Host.reduceAdd

theorem chunk0 (W : Valuation τ sig (Elt Ideal)) :
    after (A0 (F := Ideal)) W (main_v9 : DevRef τ sig) = h_v9 (W (main_arg0 : DevRef τ sig)) (W (main_arg1 : DevRef τ sig)) (W (main_arg2 : DevRef τ sig)) := by
  simp only [after_cons, after_nil]
  rfl

/-- What stretch 1 computes from the pairs `A`. -/
def round1 (A : FVec Ideal S16384x8x2 .f32) : FVec Ideal S16384x2 .f32 :=
  (shapeCast S16384x2 ((extractStridedSlice S16384x1x2 ![0, 0, 0] · slices_S16384x8x2_S16384x1x2_0_0_0) A) shapeCasts_S16384x1x2_S16384x2)

theorem chunk1 (W : Valuation τ sig (Elt Ideal)) :
    after (A1 (F := Ideal)) W (main_v11 : DevRef τ sig) = round1 (W (main_v9 : DevRef τ sig)) := by
  simp only [after_cons, after_nil]
  rfl

theorem chunk1_amps (W : Valuation τ sig (Elt Ideal)) :
    after (A1 (F := Ideal)) W (main_v9 : DevRef τ sig) = W (main_v9 : DevRef τ sig) := by
  simp only [after_cons, after_nil]
  rfl

theorem round1_eq (x : FVec Ideal S2048x4 .f32) (ri ro : FVec Ideal S2048x16384 .f32) :
    round1 (h_v9 x ri ro) = h_v11 x ri ro := rfl

/-- What stretch 2 computes from the pairs `A` and the previous state `P`. -/
def round2 (A : FVec Ideal S16384x8x2 .f32) (P : FVec Ideal S16384x2 .f32) : FVec Ideal S16384x2x2 .f32 :=
  (mulf (broadcastInDim S16384x2x2 ![0, 1, 2] bcast_S16384x2x1_S16384x2x2_0_1_2 (broadcastInDim S16384x2x1 ![0, 1] bcast_S16384x2_S16384x2x1_0_1 P)) (broadcastInDim S16384x2x2 ![0, 1, 2] bcast_S16384x1x2_S16384x2x2_0_1_2 (shapeCast S16384x1x2 (shapeCast S16384x2 ((extractStridedSlice S16384x1x2 ![0, 1, 0] · slices_S16384x8x2_S16384x1x2_0_1_0) A) shapeCasts_S16384x1x2_S16384x2) shapeCasts_S16384x2_S16384x1x2)))

theorem chunk2 (W : Valuation τ sig (Elt Ideal)) :
    after (A2 (F := Ideal)) W (main_v18 : DevRef τ sig) = round2 (W (main_v9 : DevRef τ sig)) (W (main_v11 : DevRef τ sig)) := by
  simp only [after_cons, after_nil]
  rfl

theorem chunk2_amps (W : Valuation τ sig (Elt Ideal)) :
    after (A2 (F := Ideal)) W (main_v9 : DevRef τ sig) = W (main_v9 : DevRef τ sig) := by
  simp only [after_cons, after_nil]
  rfl

theorem round2_eq (x : FVec Ideal S2048x4 .f32) (ri ro : FVec Ideal S2048x16384 .f32) :
    round2 (h_v9 x ri ro) (h_v11 x ri ro) = h_v18 x ri ro := rfl

/-- What stretch 3 computes from the pairs `A` and the previous state `P`. -/
def round3 (A : FVec Ideal S16384x8x2 .f32) (P : FVec Ideal S16384x2x2 .f32) : FVec Ideal S16384x2x2x2 .f32 :=
  (mulf (broadcastInDim S16384x2x2x2 ![0, 1, 2, 3] bcast_S16384x2x2x1_S16384x2x2x2_0_1_2_3 (broadcastInDim S16384x2x2x1 ![0, 1, 2] bcast_S16384x2x2_S16384x2x2x1_0_1_2 P)) (broadcastInDim S16384x2x2x2 ![0, 1, 2, 3] bcast_S16384x1x1x2_S16384x2x2x2_0_1_2_3 (shapeCast S16384x1x1x2 (shapeCast S16384x2 ((extractStridedSlice S16384x1x2 ![0, 2, 0] · slices_S16384x8x2_S16384x1x2_0_2_0) A) shapeCasts_S16384x1x2_S16384x2) shapeCasts_S16384x2_S16384x1x1x2)))

theorem chunk3 (W : Valuation τ sig (Elt Ideal)) :
    after (A3 (F := Ideal)) W (main_v25 : DevRef τ sig) = round3 (W (main_v9 : DevRef τ sig)) (W (main_v18 : DevRef τ sig)) := by
  simp only [after_cons, after_nil]
  rfl

theorem chunk3_amps (W : Valuation τ sig (Elt Ideal)) :
    after (A3 (F := Ideal)) W (main_v9 : DevRef τ sig) = W (main_v9 : DevRef τ sig) := by
  simp only [after_cons, after_nil]
  rfl

theorem round3_eq (x : FVec Ideal S2048x4 .f32) (ri ro : FVec Ideal S2048x16384 .f32) :
    round3 (h_v9 x ri ro) (h_v18 x ri ro) = h_v25 x ri ro := rfl

/-- What stretch 4 computes from the pairs `A` and the previous state `P`. -/
def round4 (A : FVec Ideal S16384x8x2 .f32) (P : FVec Ideal S16384x2x2x2 .f32) : FVec Ideal S16384x2x2x2x2 .f32 :=
  (mulf (broadcastInDim S16384x2x2x2x2 ![0, 1, 2, 3, 4] bcast_S16384x2x2x2x1_S16384x2x2x2x2_0_1_2_3_4 (broadcastInDim S16384x2x2x2x1 ![0, 1, 2, 3] bcast_S16384x2x2x2_S16384x2x2x2x1_0_1_2_3 P)) (broadcastInDim S16384x2x2x2x2 ![0, 1, 2, 3, 4] bcast_S16384x1x1x1x2_S16384x2x2x2x2_0_1_2_3_4 (shapeCast S16384x1x1x1x2 (shapeCast S16384x2 ((extractStridedSlice S16384x1x2 ![0, 3, 0] · slices_S16384x8x2_S16384x1x2_0_3_0) A) shapeCasts_S16384x1x2_S16384x2) shapeCasts_S16384x2_S16384x1x1x1x2)))

theorem chunk4 (W : Valuation τ sig (Elt Ideal)) :
    after (A4 (F := Ideal)) W (main_v32 : DevRef τ sig) = round4 (W (main_v9 : DevRef τ sig)) (W (main_v25 : DevRef τ sig)) := by
  simp only [after_cons, after_nil]
  rfl

theorem chunk4_amps (W : Valuation τ sig (Elt Ideal)) :
    after (A4 (F := Ideal)) W (main_v9 : DevRef τ sig) = W (main_v9 : DevRef τ sig) := by
  simp only [after_cons, after_nil]
  rfl

theorem round4_eq (x : FVec Ideal S2048x4 .f32) (ri ro : FVec Ideal S2048x16384 .f32) :
    round4 (h_v9 x ri ro) (h_v25 x ri ro) = h_v32 x ri ro := rfl

/-- What stretch 5 computes from the pairs `A` and the previous state `P`. -/
def round5 (A : FVec Ideal S16384x8x2 .f32) (P : FVec Ideal S16384x2x2x2x2 .f32) : FVec Ideal S16384x2x2x2x2x2 .f32 :=
  (mulf (broadcastInDim S16384x2x2x2x2x2 ![0, 1, 2, 3, 4, 5] bcast_S16384x2x2x2x2x1_S16384x2x2x2x2x2_0_1_2_3_4_5 (broadcastInDim S16384x2x2x2x2x1 ![0, 1, 2, 3, 4] bcast_S16384x2x2x2x2_S16384x2x2x2x2x1_0_1_2_3_4 P)) (broadcastInDim S16384x2x2x2x2x2 ![0, 1, 2, 3, 4, 5] bcast_S16384x1x1x1x1x2_S16384x2x2x2x2x2_0_1_2_3_4_5 (shapeCast S16384x1x1x1x1x2 (shapeCast S16384x2 ((extractStridedSlice S16384x1x2 ![0, 4, 0] · slices_S16384x8x2_S16384x1x2_0_4_0) A) shapeCasts_S16384x1x2_S16384x2) shapeCasts_S16384x2_S16384x1x1x1x1x2)))

theorem chunk5 (W : Valuation τ sig (Elt Ideal)) :
    after (A5 (F := Ideal)) W (main_v39 : DevRef τ sig) = round5 (W (main_v9 : DevRef τ sig)) (W (main_v32 : DevRef τ sig)) := by
  simp only [after_cons, after_nil]
  rfl

theorem chunk5_amps (W : Valuation τ sig (Elt Ideal)) :
    after (A5 (F := Ideal)) W (main_v9 : DevRef τ sig) = W (main_v9 : DevRef τ sig) := by
  simp only [after_cons, after_nil]
  rfl

theorem round5_eq (x : FVec Ideal S2048x4 .f32) (ri ro : FVec Ideal S2048x16384 .f32) :
    round5 (h_v9 x ri ro) (h_v32 x ri ro) = h_v39 x ri ro := rfl

/-- What stretch 6 computes from the pairs `A` and the previous state `P`. -/
def round6 (A : FVec Ideal S16384x8x2 .f32) (P : FVec Ideal S16384x2x2x2x2x2 .f32) : FVec Ideal S16384x2x2x2x2x2x2 .f32 :=
  (mulf (broadcastInDim S16384x2x2x2x2x2x2 ![0, 1, 2, 3, 4, 5, 6] bcast_S16384x2x2x2x2x2x1_S16384x2x2x2x2x2x2_0_1_2_3_4_5_6 (broadcastInDim S16384x2x2x2x2x2x1 ![0, 1, 2, 3, 4, 5] bcast_S16384x2x2x2x2x2_S16384x2x2x2x2x2x1_0_1_2_3_4_5 P)) (broadcastInDim S16384x2x2x2x2x2x2 ![0, 1, 2, 3, 4, 5, 6] bcast_S16384x1x1x1x1x1x2_S16384x2x2x2x2x2x2_0_1_2_3_4_5_6 (shapeCast S16384x1x1x1x1x1x2 (shapeCast S16384x2 ((extractStridedSlice S16384x1x2 ![0, 5, 0] · slices_S16384x8x2_S16384x1x2_0_5_0) A) shapeCasts_S16384x1x2_S16384x2) shapeCasts_S16384x2_S16384x1x1x1x1x1x2)))

theorem chunk6 (W : Valuation τ sig (Elt Ideal)) :
    after (A6 (F := Ideal)) W (main_v46 : DevRef τ sig) = round6 (W (main_v9 : DevRef τ sig)) (W (main_v39 : DevRef τ sig)) := by
  simp only [after_cons, after_nil]
  rfl

theorem chunk6_amps (W : Valuation τ sig (Elt Ideal)) :
    after (A6 (F := Ideal)) W (main_v9 : DevRef τ sig) = W (main_v9 : DevRef τ sig) := by
  simp only [after_cons, after_nil]
  rfl

theorem round6_eq (x : FVec Ideal S2048x4 .f32) (ri ro : FVec Ideal S2048x16384 .f32) :
    round6 (h_v9 x ri ro) (h_v39 x ri ro) = h_v46 x ri ro := rfl

/-- What stretch 7 computes from the pairs `A` and the previous state `P`. -/
def round7 (A : FVec Ideal S16384x8x2 .f32) (P : FVec Ideal S16384x2x2x2x2x2x2 .f32) : FVec Ideal S16384x2x2x2x2x2x2x2 .f32 :=
  (mulf (broadcastInDim S16384x2x2x2x2x2x2x2 ![0, 1, 2, 3, 4, 5, 6, 7] bcast_S16384x2x2x2x2x2x2x1_S16384x2x2x2x2x2x2x2_0_1_2_3_4_5_6_7 (broadcastInDim S16384x2x2x2x2x2x2x1 ![0, 1, 2, 3, 4, 5, 6] bcast_S16384x2x2x2x2x2x2_S16384x2x2x2x2x2x2x1_0_1_2_3_4_5_6 P)) (broadcastInDim S16384x2x2x2x2x2x2x2 ![0, 1, 2, 3, 4, 5, 6, 7] bcast_S16384x1x1x1x1x1x1x2_S16384x2x2x2x2x2x2x2_0_1_2_3_4_5_6_7 (shapeCast S16384x1x1x1x1x1x1x2 (shapeCast S16384x2 ((extractStridedSlice S16384x1x2 ![0, 6, 0] · slices_S16384x8x2_S16384x1x2_0_6_0) A) shapeCasts_S16384x1x2_S16384x2) shapeCasts_S16384x2_S16384x1x1x1x1x1x1x2)))

theorem chunk7 (W : Valuation τ sig (Elt Ideal)) :
    after (A7 (F := Ideal)) W (main_v53 : DevRef τ sig) = round7 (W (main_v9 : DevRef τ sig)) (W (main_v46 : DevRef τ sig)) := by
  simp only [after_cons, after_nil]
  rfl

theorem chunk7_amps (W : Valuation τ sig (Elt Ideal)) :
    after (A7 (F := Ideal)) W (main_v9 : DevRef τ sig) = W (main_v9 : DevRef τ sig) := by
  simp only [after_cons, after_nil]
  rfl

theorem round7_eq (x : FVec Ideal S2048x4 .f32) (ri ro : FVec Ideal S2048x16384 .f32) :
    round7 (h_v9 x ri ro) (h_v46 x ri ro) = h_v53 x ri ro := rfl

/-- What stretch 8 computes from the pairs `A` and the previous state `P`. -/
def round8 (A : FVec Ideal S16384x8x2 .f32) (P : FVec Ideal S16384x2x2x2x2x2x2x2 .f32) : FVec Ideal S16384x2x2x2x2x2x2x2x2 .f32 :=
  (mulf (broadcastInDim S16384x2x2x2x2x2x2x2x2 ![0, 1, 2, 3, 4, 5, 6, 7, 8] bcast_S16384x2x2x2x2x2x2x2x1_S16384x2x2x2x2x2x2x2x2_0_1_2_3_4_5_6_7_8 (broadcastInDim S16384x2x2x2x2x2x2x2x1 ![0, 1, 2, 3, 4, 5, 6, 7] bcast_S16384x2x2x2x2x2x2x2_S16384x2x2x2x2x2x2x2x1_0_1_2_3_4_5_6_7 P)) (broadcastInDim S16384x2x2x2x2x2x2x2x2 ![0, 1, 2, 3, 4, 5, 6, 7, 8] bcast_S16384x1x1x1x1x1x1x1x2_S16384x2x2x2x2x2x2x2x2_0_1_2_3_4_5_6_7_8 (shapeCast S16384x1x1x1x1x1x1x1x2 (shapeCast S16384x2 ((extractStridedSlice S16384x1x2 ![0, 7, 0] · slices_S16384x8x2_S16384x1x2_0_7_0) A) shapeCasts_S16384x1x2_S16384x2) shapeCasts_S16384x2_S16384x1x1x1x1x1x1x1x2)))

theorem chunk8 (W : Valuation τ sig (Elt Ideal)) :
    after (A8 (F := Ideal)) W (main_v60 : DevRef τ sig) = round8 (W (main_v9 : DevRef τ sig)) (W (main_v53 : DevRef τ sig)) := by
  simp only [after_cons, after_nil]
  rfl

theorem chunk8_amps (W : Valuation τ sig (Elt Ideal)) :
    after (A8 (F := Ideal)) W (main_v9 : DevRef τ sig) = W (main_v9 : DevRef τ sig) := by
  simp only [after_cons, after_nil]
  rfl

theorem round8_eq (x : FVec Ideal S2048x4 .f32) (ri ro : FVec Ideal S2048x16384 .f32) :
    round8 (h_v9 x ri ro) (h_v53 x ri ro) = h_v60 x ri ro := rfl

theorem chunk0_arg0 (W : Valuation τ sig (Elt Ideal)) :
    after (A0 (F := Ideal)) W (main_arg0 : DevRef τ sig) = W (main_arg0 : DevRef τ sig) := by
  simp only [after_cons, after_nil]
  rfl

theorem chunk0_arg1 (W : Valuation τ sig (Elt Ideal)) :
    after (A0 (F := Ideal)) W (main_arg1 : DevRef τ sig) = W (main_arg1 : DevRef τ sig) := by
  simp only [after_cons, after_nil]
  rfl

theorem chunk0_arg2 (W : Valuation τ sig (Elt Ideal)) :
    after (A0 (F := Ideal)) W (main_arg2 : DevRef τ sig) = W (main_arg2 : DevRef τ sig) := by
  simp only [after_cons, after_nil]
  rfl

theorem chunk0_arg3 (W : Valuation τ sig (Elt Ideal)) :
    after (A0 (F := Ideal)) W (main_arg3 : DevRef τ sig) = W (main_arg3 : DevRef τ sig) := by
  simp only [after_cons, after_nil]
  rfl

theorem chunk1_arg0 (W : Valuation τ sig (Elt Ideal)) :
    after (A1 (F := Ideal)) W (main_arg0 : DevRef τ sig) = W (main_arg0 : DevRef τ sig) := by
  simp only [after_cons, after_nil]
  rfl

theorem chunk1_arg1 (W : Valuation τ sig (Elt Ideal)) :
    after (A1 (F := Ideal)) W (main_arg1 : DevRef τ sig) = W (main_arg1 : DevRef τ sig) := by
  simp only [after_cons, after_nil]
  rfl

theorem chunk1_arg2 (W : Valuation τ sig (Elt Ideal)) :
    after (A1 (F := Ideal)) W (main_arg2 : DevRef τ sig) = W (main_arg2 : DevRef τ sig) := by
  simp only [after_cons, after_nil]
  rfl

theorem chunk1_arg3 (W : Valuation τ sig (Elt Ideal)) :
    after (A1 (F := Ideal)) W (main_arg3 : DevRef τ sig) = W (main_arg3 : DevRef τ sig) := by
  simp only [after_cons, after_nil]
  rfl

theorem chunk2_arg0 (W : Valuation τ sig (Elt Ideal)) :
    after (A2 (F := Ideal)) W (main_arg0 : DevRef τ sig) = W (main_arg0 : DevRef τ sig) := by
  simp only [after_cons, after_nil]
  rfl

theorem chunk2_arg1 (W : Valuation τ sig (Elt Ideal)) :
    after (A2 (F := Ideal)) W (main_arg1 : DevRef τ sig) = W (main_arg1 : DevRef τ sig) := by
  simp only [after_cons, after_nil]
  rfl

theorem chunk2_arg2 (W : Valuation τ sig (Elt Ideal)) :
    after (A2 (F := Ideal)) W (main_arg2 : DevRef τ sig) = W (main_arg2 : DevRef τ sig) := by
  simp only [after_cons, after_nil]
  rfl

theorem chunk2_arg3 (W : Valuation τ sig (Elt Ideal)) :
    after (A2 (F := Ideal)) W (main_arg3 : DevRef τ sig) = W (main_arg3 : DevRef τ sig) := by
  simp only [after_cons, after_nil]
  rfl

theorem chunk3_arg0 (W : Valuation τ sig (Elt Ideal)) :
    after (A3 (F := Ideal)) W (main_arg0 : DevRef τ sig) = W (main_arg0 : DevRef τ sig) := by
  simp only [after_cons, after_nil]
  rfl

theorem chunk3_arg1 (W : Valuation τ sig (Elt Ideal)) :
    after (A3 (F := Ideal)) W (main_arg1 : DevRef τ sig) = W (main_arg1 : DevRef τ sig) := by
  simp only [after_cons, after_nil]
  rfl

theorem chunk3_arg2 (W : Valuation τ sig (Elt Ideal)) :
    after (A3 (F := Ideal)) W (main_arg2 : DevRef τ sig) = W (main_arg2 : DevRef τ sig) := by
  simp only [after_cons, after_nil]
  rfl

theorem chunk3_arg3 (W : Valuation τ sig (Elt Ideal)) :
    after (A3 (F := Ideal)) W (main_arg3 : DevRef τ sig) = W (main_arg3 : DevRef τ sig) := by
  simp only [after_cons, after_nil]
  rfl

theorem chunk4_arg0 (W : Valuation τ sig (Elt Ideal)) :
    after (A4 (F := Ideal)) W (main_arg0 : DevRef τ sig) = W (main_arg0 : DevRef τ sig) := by
  simp only [after_cons, after_nil]
  rfl

theorem chunk4_arg1 (W : Valuation τ sig (Elt Ideal)) :
    after (A4 (F := Ideal)) W (main_arg1 : DevRef τ sig) = W (main_arg1 : DevRef τ sig) := by
  simp only [after_cons, after_nil]
  rfl

theorem chunk4_arg2 (W : Valuation τ sig (Elt Ideal)) :
    after (A4 (F := Ideal)) W (main_arg2 : DevRef τ sig) = W (main_arg2 : DevRef τ sig) := by
  simp only [after_cons, after_nil]
  rfl

theorem chunk4_arg3 (W : Valuation τ sig (Elt Ideal)) :
    after (A4 (F := Ideal)) W (main_arg3 : DevRef τ sig) = W (main_arg3 : DevRef τ sig) := by
  simp only [after_cons, after_nil]
  rfl

theorem chunk5_arg0 (W : Valuation τ sig (Elt Ideal)) :
    after (A5 (F := Ideal)) W (main_arg0 : DevRef τ sig) = W (main_arg0 : DevRef τ sig) := by
  simp only [after_cons, after_nil]
  rfl

theorem chunk5_arg1 (W : Valuation τ sig (Elt Ideal)) :
    after (A5 (F := Ideal)) W (main_arg1 : DevRef τ sig) = W (main_arg1 : DevRef τ sig) := by
  simp only [after_cons, after_nil]
  rfl

theorem chunk5_arg2 (W : Valuation τ sig (Elt Ideal)) :
    after (A5 (F := Ideal)) W (main_arg2 : DevRef τ sig) = W (main_arg2 : DevRef τ sig) := by
  simp only [after_cons, after_nil]
  rfl

theorem chunk5_arg3 (W : Valuation τ sig (Elt Ideal)) :
    after (A5 (F := Ideal)) W (main_arg3 : DevRef τ sig) = W (main_arg3 : DevRef τ sig) := by
  simp only [after_cons, after_nil]
  rfl

theorem chunk6_arg0 (W : Valuation τ sig (Elt Ideal)) :
    after (A6 (F := Ideal)) W (main_arg0 : DevRef τ sig) = W (main_arg0 : DevRef τ sig) := by
  simp only [after_cons, after_nil]
  rfl

theorem chunk6_arg1 (W : Valuation τ sig (Elt Ideal)) :
    after (A6 (F := Ideal)) W (main_arg1 : DevRef τ sig) = W (main_arg1 : DevRef τ sig) := by
  simp only [after_cons, after_nil]
  rfl

theorem chunk6_arg2 (W : Valuation τ sig (Elt Ideal)) :
    after (A6 (F := Ideal)) W (main_arg2 : DevRef τ sig) = W (main_arg2 : DevRef τ sig) := by
  simp only [after_cons, after_nil]
  rfl

theorem chunk6_arg3 (W : Valuation τ sig (Elt Ideal)) :
    after (A6 (F := Ideal)) W (main_arg3 : DevRef τ sig) = W (main_arg3 : DevRef τ sig) := by
  simp only [after_cons, after_nil]
  rfl

theorem chunk7_arg0 (W : Valuation τ sig (Elt Ideal)) :
    after (A7 (F := Ideal)) W (main_arg0 : DevRef τ sig) = W (main_arg0 : DevRef τ sig) := by
  simp only [after_cons, after_nil]
  rfl

theorem chunk7_arg1 (W : Valuation τ sig (Elt Ideal)) :
    after (A7 (F := Ideal)) W (main_arg1 : DevRef τ sig) = W (main_arg1 : DevRef τ sig) := by
  simp only [after_cons, after_nil]
  rfl

theorem chunk7_arg2 (W : Valuation τ sig (Elt Ideal)) :
    after (A7 (F := Ideal)) W (main_arg2 : DevRef τ sig) = W (main_arg2 : DevRef τ sig) := by
  simp only [after_cons, after_nil]
  rfl

theorem chunk7_arg3 (W : Valuation τ sig (Elt Ideal)) :
    after (A7 (F := Ideal)) W (main_arg3 : DevRef τ sig) = W (main_arg3 : DevRef τ sig) := by
  simp only [after_cons, after_nil]
  rfl

theorem chunk8_arg0 (W : Valuation τ sig (Elt Ideal)) :
    after (A8 (F := Ideal)) W (main_arg0 : DevRef τ sig) = W (main_arg0 : DevRef τ sig) := by
  simp only [after_cons, after_nil]
  rfl

theorem chunk8_arg1 (W : Valuation τ sig (Elt Ideal)) :
    after (A8 (F := Ideal)) W (main_arg1 : DevRef τ sig) = W (main_arg1 : DevRef τ sig) := by
  simp only [after_cons, after_nil]
  rfl

theorem chunk8_arg2 (W : Valuation τ sig (Elt Ideal)) :
    after (A8 (F := Ideal)) W (main_arg2 : DevRef τ sig) = W (main_arg2 : DevRef τ sig) := by
  simp only [after_cons, after_nil]
  rfl

theorem chunk8_arg3 (W : Valuation τ sig (Elt Ideal)) :
    after (A8 (F := Ideal)) W (main_arg3 : DevRef τ sig) = W (main_arg3 : DevRef τ sig) := by
  simp only [after_cons, after_nil]
  rfl

/-- The buffers after two lines of operations run one after the other. -/
theorem after_append₀ {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

def Wh0 (W : Valuation τ sig (Elt Ideal)) : Valuation τ sig (Elt Ideal) := after (A0 (F := Ideal)) W
def Wh1 (W : Valuation τ sig (Elt Ideal)) : Valuation τ sig (Elt Ideal) := after (A1 (F := Ideal)) (Wh0 W)
def Wh2 (W : Valuation τ sig (Elt Ideal)) : Valuation τ sig (Elt Ideal) := after (A2 (F := Ideal)) (Wh1 W)
def Wh3 (W : Valuation τ sig (Elt Ideal)) : Valuation τ sig (Elt Ideal) := after (A3 (F := Ideal)) (Wh2 W)
def Wh4 (W : Valuation τ sig (Elt Ideal)) : Valuation τ sig (Elt Ideal) := after (A4 (F := Ideal)) (Wh3 W)
def Wh5 (W : Valuation τ sig (Elt Ideal)) : Valuation τ sig (Elt Ideal) := after (A5 (F := Ideal)) (Wh4 W)
def Wh6 (W : Valuation τ sig (Elt Ideal)) : Valuation τ sig (Elt Ideal) := after (A6 (F := Ideal)) (Wh5 W)
def Wh7 (W : Valuation τ sig (Elt Ideal)) : Valuation τ sig (Elt Ideal) := after (A7 (F := Ideal)) (Wh6 W)
def Wh8 (W : Valuation τ sig (Elt Ideal)) : Valuation τ sig (Elt Ideal) := after (A8 (F := Ideal)) (Wh7 W)

theorem Wh0_arg0 (W : Valuation τ sig (Elt Ideal)) : Wh0 W (main_arg0 : DevRef τ sig) = W (main_arg0 : DevRef τ sig) := by
  unfold Wh0; rw [chunk0_arg0]

theorem Wh0_arg1 (W : Valuation τ sig (Elt Ideal)) : Wh0 W (main_arg1 : DevRef τ sig) = W (main_arg1 : DevRef τ sig) := by
  unfold Wh0; rw [chunk0_arg1]

theorem Wh0_arg2 (W : Valuation τ sig (Elt Ideal)) : Wh0 W (main_arg2 : DevRef τ sig) = W (main_arg2 : DevRef τ sig) := by
  unfold Wh0; rw [chunk0_arg2]

theorem Wh0_arg3 (W : Valuation τ sig (Elt Ideal)) : Wh0 W (main_arg3 : DevRef τ sig) = W (main_arg3 : DevRef τ sig) := by
  unfold Wh0; rw [chunk0_arg3]

theorem Wh1_arg0 (W : Valuation τ sig (Elt Ideal)) : Wh1 W (main_arg0 : DevRef τ sig) = W (main_arg0 : DevRef τ sig) := by
  unfold Wh1; rw [chunk1_arg0, Wh0_arg0]

theorem Wh1_arg1 (W : Valuation τ sig (Elt Ideal)) : Wh1 W (main_arg1 : DevRef τ sig) = W (main_arg1 : DevRef τ sig) := by
  unfold Wh1; rw [chunk1_arg1, Wh0_arg1]

theorem Wh1_arg2 (W : Valuation τ sig (Elt Ideal)) : Wh1 W (main_arg2 : DevRef τ sig) = W (main_arg2 : DevRef τ sig) := by
  unfold Wh1; rw [chunk1_arg2, Wh0_arg2]

theorem Wh1_arg3 (W : Valuation τ sig (Elt Ideal)) : Wh1 W (main_arg3 : DevRef τ sig) = W (main_arg3 : DevRef τ sig) := by
  unfold Wh1; rw [chunk1_arg3, Wh0_arg3]

theorem Wh2_arg0 (W : Valuation τ sig (Elt Ideal)) : Wh2 W (main_arg0 : DevRef τ sig) = W (main_arg0 : DevRef τ sig) := by
  unfold Wh2; rw [chunk2_arg0, Wh1_arg0]

theorem Wh2_arg1 (W : Valuation τ sig (Elt Ideal)) : Wh2 W (main_arg1 : DevRef τ sig) = W (main_arg1 : DevRef τ sig) := by
  unfold Wh2; rw [chunk2_arg1, Wh1_arg1]

theorem Wh2_arg2 (W : Valuation τ sig (Elt Ideal)) : Wh2 W (main_arg2 : DevRef τ sig) = W (main_arg2 : DevRef τ sig) := by
  unfold Wh2; rw [chunk2_arg2, Wh1_arg2]

theorem Wh2_arg3 (W : Valuation τ sig (Elt Ideal)) : Wh2 W (main_arg3 : DevRef τ sig) = W (main_arg3 : DevRef τ sig) := by
  unfold Wh2; rw [chunk2_arg3, Wh1_arg3]

theorem Wh3_arg0 (W : Valuation τ sig (Elt Ideal)) : Wh3 W (main_arg0 : DevRef τ sig) = W (main_arg0 : DevRef τ sig) := by
  unfold Wh3; rw [chunk3_arg0, Wh2_arg0]

theorem Wh3_arg1 (W : Valuation τ sig (Elt Ideal)) : Wh3 W (main_arg1 : DevRef τ sig) = W (main_arg1 : DevRef τ sig) := by
  unfold Wh3; rw [chunk3_arg1, Wh2_arg1]

theorem Wh3_arg2 (W : Valuation τ sig (Elt Ideal)) : Wh3 W (main_arg2 : DevRef τ sig) = W (main_arg2 : DevRef τ sig) := by
  unfold Wh3; rw [chunk3_arg2, Wh2_arg2]

theorem Wh3_arg3 (W : Valuation τ sig (Elt Ideal)) : Wh3 W (main_arg3 : DevRef τ sig) = W (main_arg3 : DevRef τ sig) := by
  unfold Wh3; rw [chunk3_arg3, Wh2_arg3]

theorem Wh4_arg0 (W : Valuation τ sig (Elt Ideal)) : Wh4 W (main_arg0 : DevRef τ sig) = W (main_arg0 : DevRef τ sig) := by
  unfold Wh4; rw [chunk4_arg0, Wh3_arg0]

theorem Wh4_arg1 (W : Valuation τ sig (Elt Ideal)) : Wh4 W (main_arg1 : DevRef τ sig) = W (main_arg1 : DevRef τ sig) := by
  unfold Wh4; rw [chunk4_arg1, Wh3_arg1]

theorem Wh4_arg2 (W : Valuation τ sig (Elt Ideal)) : Wh4 W (main_arg2 : DevRef τ sig) = W (main_arg2 : DevRef τ sig) := by
  unfold Wh4; rw [chunk4_arg2, Wh3_arg2]

theorem Wh4_arg3 (W : Valuation τ sig (Elt Ideal)) : Wh4 W (main_arg3 : DevRef τ sig) = W (main_arg3 : DevRef τ sig) := by
  unfold Wh4; rw [chunk4_arg3, Wh3_arg3]

theorem Wh5_arg0 (W : Valuation τ sig (Elt Ideal)) : Wh5 W (main_arg0 : DevRef τ sig) = W (main_arg0 : DevRef τ sig) := by
  unfold Wh5; rw [chunk5_arg0, Wh4_arg0]

theorem Wh5_arg1 (W : Valuation τ sig (Elt Ideal)) : Wh5 W (main_arg1 : DevRef τ sig) = W (main_arg1 : DevRef τ sig) := by
  unfold Wh5; rw [chunk5_arg1, Wh4_arg1]

theorem Wh5_arg2 (W : Valuation τ sig (Elt Ideal)) : Wh5 W (main_arg2 : DevRef τ sig) = W (main_arg2 : DevRef τ sig) := by
  unfold Wh5; rw [chunk5_arg2, Wh4_arg2]

theorem Wh5_arg3 (W : Valuation τ sig (Elt Ideal)) : Wh5 W (main_arg3 : DevRef τ sig) = W (main_arg3 : DevRef τ sig) := by
  unfold Wh5; rw [chunk5_arg3, Wh4_arg3]

theorem Wh6_arg0 (W : Valuation τ sig (Elt Ideal)) : Wh6 W (main_arg0 : DevRef τ sig) = W (main_arg0 : DevRef τ sig) := by
  unfold Wh6; rw [chunk6_arg0, Wh5_arg0]

theorem Wh6_arg1 (W : Valuation τ sig (Elt Ideal)) : Wh6 W (main_arg1 : DevRef τ sig) = W (main_arg1 : DevRef τ sig) := by
  unfold Wh6; rw [chunk6_arg1, Wh5_arg1]

theorem Wh6_arg2 (W : Valuation τ sig (Elt Ideal)) : Wh6 W (main_arg2 : DevRef τ sig) = W (main_arg2 : DevRef τ sig) := by
  unfold Wh6; rw [chunk6_arg2, Wh5_arg2]

theorem Wh6_arg3 (W : Valuation τ sig (Elt Ideal)) : Wh6 W (main_arg3 : DevRef τ sig) = W (main_arg3 : DevRef τ sig) := by
  unfold Wh6; rw [chunk6_arg3, Wh5_arg3]

theorem Wh7_arg0 (W : Valuation τ sig (Elt Ideal)) : Wh7 W (main_arg0 : DevRef τ sig) = W (main_arg0 : DevRef τ sig) := by
  unfold Wh7; rw [chunk7_arg0, Wh6_arg0]

theorem Wh7_arg1 (W : Valuation τ sig (Elt Ideal)) : Wh7 W (main_arg1 : DevRef τ sig) = W (main_arg1 : DevRef τ sig) := by
  unfold Wh7; rw [chunk7_arg1, Wh6_arg1]

theorem Wh7_arg2 (W : Valuation τ sig (Elt Ideal)) : Wh7 W (main_arg2 : DevRef τ sig) = W (main_arg2 : DevRef τ sig) := by
  unfold Wh7; rw [chunk7_arg2, Wh6_arg2]

theorem Wh7_arg3 (W : Valuation τ sig (Elt Ideal)) : Wh7 W (main_arg3 : DevRef τ sig) = W (main_arg3 : DevRef τ sig) := by
  unfold Wh7; rw [chunk7_arg3, Wh6_arg3]

theorem Wh8_arg0 (W : Valuation τ sig (Elt Ideal)) : Wh8 W (main_arg0 : DevRef τ sig) = W (main_arg0 : DevRef τ sig) := by
  unfold Wh8; rw [chunk8_arg0, Wh7_arg0]

theorem Wh8_arg1 (W : Valuation τ sig (Elt Ideal)) : Wh8 W (main_arg1 : DevRef τ sig) = W (main_arg1 : DevRef τ sig) := by
  unfold Wh8; rw [chunk8_arg1, Wh7_arg1]

theorem Wh8_arg2 (W : Valuation τ sig (Elt Ideal)) : Wh8 W (main_arg2 : DevRef τ sig) = W (main_arg2 : DevRef τ sig) := by
  unfold Wh8; rw [chunk8_arg2, Wh7_arg2]

theorem Wh8_arg3 (W : Valuation τ sig (Elt Ideal)) : Wh8 W (main_arg3 : DevRef τ sig) = W (main_arg3 : DevRef τ sig) := by
  unfold Wh8; rw [chunk8_arg3, Wh7_arg3]

theorem Wh0_amps (W : Valuation τ sig (Elt Ideal)) : Wh0 W (main_v9 : DevRef τ sig) = h_v9 (W (main_arg0 : DevRef τ sig)) (W (main_arg1 : DevRef τ sig)) (W (main_arg2 : DevRef τ sig)) := by
  unfold Wh0; exact chunk0 W

theorem Wh1_amps (W : Valuation τ sig (Elt Ideal)) : Wh1 W (main_v9 : DevRef τ sig) = h_v9 (W (main_arg0 : DevRef τ sig)) (W (main_arg1 : DevRef τ sig)) (W (main_arg2 : DevRef τ sig)) := by
  unfold Wh1; rw [chunk1_amps, Wh0_amps]

theorem Wh2_amps (W : Valuation τ sig (Elt Ideal)) : Wh2 W (main_v9 : DevRef τ sig) = h_v9 (W (main_arg0 : DevRef τ sig)) (W (main_arg1 : DevRef τ sig)) (W (main_arg2 : DevRef τ sig)) := by
  unfold Wh2; rw [chunk2_amps, Wh1_amps]

theorem Wh3_amps (W : Valuation τ sig (Elt Ideal)) : Wh3 W (main_v9 : DevRef τ sig) = h_v9 (W (main_arg0 : DevRef τ sig)) (W (main_arg1 : DevRef τ sig)) (W (main_arg2 : DevRef τ sig)) := by
  unfold Wh3; rw [chunk3_amps, Wh2_amps]

theorem Wh4_amps (W : Valuation τ sig (Elt Ideal)) : Wh4 W (main_v9 : DevRef τ sig) = h_v9 (W (main_arg0 : DevRef τ sig)) (W (main_arg1 : DevRef τ sig)) (W (main_arg2 : DevRef τ sig)) := by
  unfold Wh4; rw [chunk4_amps, Wh3_amps]

theorem Wh5_amps (W : Valuation τ sig (Elt Ideal)) : Wh5 W (main_v9 : DevRef τ sig) = h_v9 (W (main_arg0 : DevRef τ sig)) (W (main_arg1 : DevRef τ sig)) (W (main_arg2 : DevRef τ sig)) := by
  unfold Wh5; rw [chunk5_amps, Wh4_amps]

theorem Wh6_amps (W : Valuation τ sig (Elt Ideal)) : Wh6 W (main_v9 : DevRef τ sig) = h_v9 (W (main_arg0 : DevRef τ sig)) (W (main_arg1 : DevRef τ sig)) (W (main_arg2 : DevRef τ sig)) := by
  unfold Wh6; rw [chunk6_amps, Wh5_amps]

theorem Wh7_amps (W : Valuation τ sig (Elt Ideal)) : Wh7 W (main_v9 : DevRef τ sig) = h_v9 (W (main_arg0 : DevRef τ sig)) (W (main_arg1 : DevRef τ sig)) (W (main_arg2 : DevRef τ sig)) := by
  unfold Wh7; rw [chunk7_amps, Wh6_amps]

theorem Wh8_amps (W : Valuation τ sig (Elt Ideal)) : Wh8 W (main_v9 : DevRef τ sig) = h_v9 (W (main_arg0 : DevRef τ sig)) (W (main_arg1 : DevRef τ sig)) (W (main_arg2 : DevRef τ sig)) := by
  unfold Wh8; rw [chunk8_amps, Wh7_amps]

theorem Wh1_state (W : Valuation τ sig (Elt Ideal)) : Wh1 W (main_v11 : DevRef τ sig) = h_v11 (W (main_arg0 : DevRef τ sig)) (W (main_arg1 : DevRef τ sig)) (W (main_arg2 : DevRef τ sig)) := by
  unfold Wh1; rw [chunk1, Wh0_amps, round1_eq]

theorem Wh2_state (W : Valuation τ sig (Elt Ideal)) : Wh2 W (main_v18 : DevRef τ sig) = h_v18 (W (main_arg0 : DevRef τ sig)) (W (main_arg1 : DevRef τ sig)) (W (main_arg2 : DevRef τ sig)) := by
  unfold Wh2; rw [chunk2, Wh1_amps, Wh1_state, round2_eq]

theorem Wh3_state (W : Valuation τ sig (Elt Ideal)) : Wh3 W (main_v25 : DevRef τ sig) = h_v25 (W (main_arg0 : DevRef τ sig)) (W (main_arg1 : DevRef τ sig)) (W (main_arg2 : DevRef τ sig)) := by
  unfold Wh3; rw [chunk3, Wh2_amps, Wh2_state, round3_eq]

theorem Wh4_state (W : Valuation τ sig (Elt Ideal)) : Wh4 W (main_v32 : DevRef τ sig) = h_v32 (W (main_arg0 : DevRef τ sig)) (W (main_arg1 : DevRef τ sig)) (W (main_arg2 : DevRef τ sig)) := by
  unfold Wh4; rw [chunk4, Wh3_amps, Wh3_state, round4_eq]

theorem Wh5_state (W : Valuation τ sig (Elt Ideal)) : Wh5 W (main_v39 : DevRef τ sig) = h_v39 (W (main_arg0 : DevRef τ sig)) (W (main_arg1 : DevRef τ sig)) (W (main_arg2 : DevRef τ sig)) := by
  unfold Wh5; rw [chunk5, Wh4_amps, Wh4_state, round5_eq]

theorem Wh6_state (W : Valuation τ sig (Elt Ideal)) : Wh6 W (main_v46 : DevRef τ sig) = h_v46 (W (main_arg0 : DevRef τ sig)) (W (main_arg1 : DevRef τ sig)) (W (main_arg2 : DevRef τ sig)) := by
  unfold Wh6; rw [chunk6, Wh5_amps, Wh5_state, round6_eq]

theorem Wh7_state (W : Valuation τ sig (Elt Ideal)) : Wh7 W (main_v53 : DevRef τ sig) = h_v53 (W (main_arg0 : DevRef τ sig)) (W (main_arg1 : DevRef τ sig)) (W (main_arg2 : DevRef τ sig)) := by
  unfold Wh7; rw [chunk7, Wh6_amps, Wh6_state, round7_eq]

theorem Wh8_state (W : Valuation τ sig (Elt Ideal)) : Wh8 W (main_v60 : DevRef τ sig) = h_v60 (W (main_arg0 : DevRef τ sig)) (W (main_arg1 : DevRef τ sig)) (W (main_arg2 : DevRef τ sig)) := by
  unfold Wh8; rw [chunk8, Wh7_amps, Wh7_state, round8_eq]

theorem R0_after (W : Valuation τ sig (Elt Ideal)) : after (R0 (F := Ideal)) W = Wh8 W := by
  simp only [R0, after_append₀]
  rfl

theorem head_state (W : Valuation τ sig (Elt Ideal)) :
    after (R0 (F := Ideal)) W (main_v60 : DevRef τ sig)
      = headTerm (W (main_arg0 : DevRef τ sig)) (W (main_arg1 : DevRef τ sig)) (W (main_arg2 : DevRef τ sig)) := by
  rw [R0_after, Wh8_state]; rfl

theorem head_arg0 (W : Valuation τ sig (Elt Ideal)) :
    after (R0 (F := Ideal)) W (main_arg0 : DevRef τ sig) = W (main_arg0 : DevRef τ sig) := by
  rw [R0_after, Wh8_arg0]

theorem head_arg1 (W : Valuation τ sig (Elt Ideal)) :
    after (R0 (F := Ideal)) W (main_arg1 : DevRef τ sig) = W (main_arg1 : DevRef τ sig) := by
  rw [R0_after, Wh8_arg1]

theorem head_arg2 (W : Valuation τ sig (Elt Ideal)) :
    after (R0 (F := Ideal)) W (main_arg2 : DevRef τ sig) = W (main_arg2 : DevRef τ sig) := by
  rw [R0_after, Wh8_arg2]

theorem head_arg3 (W : Valuation τ sig (Elt Ideal)) :
    after (R0 (F := Ideal)) W (main_arg3 : DevRef τ sig) = W (main_arg3 : DevRef τ sig) := by
  rw [R0_after, Wh8_arg3]

end Cert.TTN.RHost

end
-- ==== Proof.RHostTail.lean ====
/-
  The end of the reference, after the 31 gates: the squares of the amplitudes summed over every wire but wire 5, the
  two marginals' difference `ez`, and `(1 - ez) / 2` — as one term of the final state, with the fact that the host
  operations leave exactly this term behind and leave the arguments alone.
-/
import proofs.«130987_j14276471292017_1_alg».proof.ReferenceIdeal
import proofs.«130987_j14276471292017_1_alg».proof.Proof.Gen.ReferenceIdeal
import Idealize.ShloMosaic.Lib.StableHlo.Run
import Idealize.ShloMosaic.PureOps.Ideal

set_option maxRecDepth 16384

noncomputable section

namespace Cert.TTN.RHost

open Idealize.ShloMosaic Idealize.ShloMosaic.TcCoe Idealize.SL.Sem Idealize.ShloMosaic.StableHlo
open Cert.ReferenceIdeal Cert.ReferenceIdeal.Gen

section Lists
variable {F : FTy → Type} [FloatOps F]

/-- The host operations after the last gate. -/
abbrev RT : List (HloOp τ sig (Elt F)) :=
  [ StableHlo.binary main_v561 main_v561 main_v562 (mulf : (⟨S16384x2x2x2x2x2x2x2x2, .f32⟩ : BufTy).Contents (Elt F) → (⟨S16384x2x2x2x2x2x2x2x2, .f32⟩ : BufTy).Contents (Elt F) → (⟨S16384x2x2x2x2x2x2x2x2, .f32⟩ : BufTy).Contents (Elt F)),
    StableHlo.nullary main_cst_103 (constant S_ .f32 0x00000000#32),
    StableHlo.binary main_v562 main_cst_103 main_v563 ((fun x v => Host.reduceAdd x v reducesTo_S16384x2x2x2x2x2x2x2x2_S16384x2_d1_2_3_4_5_7_8 h_S_) : (⟨S16384x2x2x2x2x2x2x2x2, .f32⟩ : BufTy).Contents (Elt F) → (⟨S_, .f32⟩ : BufTy).Contents (Elt F) → (⟨S16384x2, .f32⟩ : BufTy).Contents (Elt F)),
    StableHlo.unary main_v563 main_v564 ((extractStridedSlice S16384x1 ![0, 0] · slices_S16384x2_S16384x1_0_0) : (⟨S16384x2, .f32⟩ : BufTy).Contents (Elt F) → (⟨S16384x1, .f32⟩ : BufTy).Contents (Elt F)),
    StableHlo.reshape main_v564 main_v565 rfl shapeCasts_S16384x1_S16384,
    StableHlo.unary main_v563 main_v566 ((extractStridedSlice S16384x1 ![0, 1] · slices_S16384x2_S16384x1_0_1) : (⟨S16384x2, .f32⟩ : BufTy).Contents (Elt F) → (⟨S16384x1, .f32⟩ : BufTy).Contents (Elt F)),
    StableHlo.reshape main_v566 main_v567 rfl shapeCasts_S16384x1_S16384,
    StableHlo.binary main_v565 main_v567 main_v568 (subf : (⟨S16384, .f32⟩ : BufTy).Contents (Elt F) → (⟨S16384, .f32⟩ : BufTy).Contents (Elt F) → (⟨S16384, .f32⟩ : BufTy).Contents (Elt F)),
    StableHlo.nullary main_cst_104 (constant S_ .f32 0x3F800000#32),
    StableHlo.unary main_cst_104 main_v569 (broadcastInDim S16384 ![] bcast_S_S16384 : (⟨S_, .f32⟩ : BufTy).Contents (Elt F) → (⟨S16384, .f32⟩ : BufTy).Contents (Elt F)),
    StableHlo.binary main_v569 main_v568 main_v570 (subf : (⟨S16384, .f32⟩ : BufTy).Contents (Elt F) → (⟨S16384, .f32⟩ : BufTy).Contents (Elt F) → (⟨S16384, .f32⟩ : BufTy).Contents (Elt F)),
    StableHlo.nullary main_cst_105 (constant S_ .f32 0x40000000#32),
    StableHlo.unary main_cst_105 main_v571 (broadcastInDim S16384 ![] bcast_S_S16384 : (⟨S_, .f32⟩ : BufTy).Contents (Elt F) → (⟨S16384, .f32⟩ : BufTy).Contents (Elt F)),
    StableHlo.binary main_v570 main_v571 main_v572 (Host.divf : (⟨S16384, .f32⟩ : BufTy).Contents (Elt F) → (⟨S16384, .f32⟩ : BufTy).Contents (Elt F) → (⟨S16384, .f32⟩ : BufTy).Contents (Elt F)) ]

end Lists

/-- The reference's result from the final state. -/
def tailTerm (st : FVec Ideal S16384x2x2x2x2x2x2x2x2 .f32) : FVec Ideal S16384 .f32 :=
  let v562 : FVec Ideal S16384x2x2x2x2x2x2x2x2 .f32 := mulf st st
  let cst_103 : FVec Ideal S_ .f32 := constant S_ .f32 0x00000000#32
  let v563 : FVec Ideal S16384x2 .f32 := (fun x v => Host.reduceAdd x v reducesTo_S16384x2x2x2x2x2x2x2x2_S16384x2_d1_2_3_4_5_7_8 h_S_) v562 cst_103
  let v564 : FVec Ideal S16384x1 .f32 := (extractStridedSlice S16384x1 ![0, 0] · slices_S16384x2_S16384x1_0_0) v563
  let v565 : FVec Ideal S16384 .f32 := shapeCast S16384 v564 shapeCasts_S16384x1_S16384
  let v566 : FVec Ideal S16384x1 .f32 := (extractStridedSlice S16384x1 ![0, 1] · slices_S16384x2_S16384x1_0_1) v563
  let v567 : FVec Ideal S16384 .f32 := shapeCast S16384 v566 shapeCasts_S16384x1_S16384
  let v568 : FVec Ideal S16384 .f32 := subf v565 v567
  let cst_104 : FVec Ideal S_ .f32 := constant S_ .f32 0x3F800000#32
  let v569 : FVec Ideal S16384 .f32 := broadcastInDim S16384 ![] bcast_S_S16384 cst_104
  let v570 : FVec Ideal S16384 .f32 := subf v569 v568
  let cst_105 : FVec Ideal S_ .f32 := constant S_ .f32 0x40000000#32
  let v571 : FVec Ideal S16384 .f32 := broadcastInDim S16384 ![] bcast_S_S16384 cst_105
  let v572 : FVec Ideal S16384 .f32 := Host.divf v570 v571
  v572

attribute [local irreducible] Host.gather Host.reduce concatenate broadcastInDim Host.reverse shapeCast extractStridedSlice Host.reduceAdd mulf subf Host.divf constant

theorem tail_result (W : Valuation τ sig (Elt Ideal)) :
    after (RT (F := Ideal)) W (main_v572 : DevRef τ sig) = tailTerm (W (main_v561 : DevRef τ sig)) := by
  simp only [after_cons, after_nil]
  rfl

theorem tail_arg0 (W : Valuation τ sig (Elt Ideal)) :
    after (RT (F := Ideal)) W (main_arg0 : DevRef τ sig) = W (main_arg0 : DevRef τ sig) := by
  simp only [after_cons, after_nil]
  rfl

theorem tail_arg1 (W : Valuation τ sig (Elt Ideal)) :
    after (RT (F := Ideal)) W (main_arg1 : DevRef τ sig) = W (main_arg1 : DevRef τ sig) := by
  simp only [after_cons, after_nil]
  rfl

theorem tail_arg2 (W : Valuation τ sig (Elt Ideal)) :
    after (RT (F := Ideal)) W (main_arg2 : DevRef τ sig) = W (main_arg2 : DevRef τ sig) := by
  simp only [after_cons, after_nil]
  rfl

theorem tail_arg3 (W : Valuation τ sig (Elt Ideal)) :
    after (RT (F := Ideal)) W (main_arg3 : DevRef τ sig) = W (main_arg3 : DevRef τ sig) := by
  simp only [after_cons, after_nil]
  rfl

end Cert.TTN.RHost

end
-- ==== Proof.RHostEnds.lean ====
/-
  The two ends of the reference around the 31 gates, gathered: the product state before them and the result after.
-/
import proofs.«130987_j14276471292017_1_alg».proof.Proof.RHostHead
import proofs.«130987_j14276471292017_1_alg».proof.Proof.RHostTail
-- ==== Proof.RHostChain.lean ====
/-
  The 31 gates composed: the state after each gate as a term of the parameter vector alone, and the fact that the
  host operations, run stretch after stretch from any buffer contents, leave exactly these terms in the gates'
  result buffers while the parameter vector stays as it was.
-/
import proofs.«130987_j14276471292017_1_alg».proof.Proof.RHostG1
import proofs.«130987_j14276471292017_1_alg».proof.Proof.RHostG2
import proofs.«130987_j14276471292017_1_alg».proof.Proof.RHostG3
import proofs.«130987_j14276471292017_1_alg».proof.Proof.RHostG4
import proofs.«130987_j14276471292017_1_alg».proof.Proof.RHostEnds

set_option maxRecDepth 16384

noncomputable section

namespace Cert.TTN.RHost

open Idealize.ShloMosaic Idealize.ShloMosaic.TcCoe Idealize.SL.Sem Idealize.ShloMosaic.StableHlo
open Cert.ReferenceIdeal Cert.ReferenceIdeal.Gen

/-- The state before the first gate. -/
def st0 (x0 : FVec Ideal S16384x2x2x2x2x2x2x2x2 .f32) : FVec Ideal S16384x2x2x2x2x2x2x2x2 .f32 := x0

/-- The state after gate 1. -/
def st1 (x0 : FVec Ideal S16384x2x2x2x2x2x2x2x2 .f32) (th : FVec Ideal S21 .f32) : FVec Ideal S16384x2x2x2x2x2x2x2x2 .f32 :=
  Cert.TTN.Gates.ryTerm (s := S16384x2x2x2x2x2x2x2x2) (t := S16384x2x2x2x2x2x2x2) (u := S16384x2x1x2x2x2x2x2x2) 2 ![0, 1, 3, 4, 5, 6, 7, 8] gather_S16384x2x2x2x2x2x2x2x2_S1_S16384x2x2x2x2x2x2x2_01234567_2_n_n_2_0_1638421222222 bcast_S_S1 bcast_S_S16384x2x2x2x2x2x2x2 reducesTo_S1_S_d0 h_S_ bcast_S16384x2x2x2x2x2x2x2_S16384x2x1x2x2x2x2x2x2_0_1_3_4_5_6_7_8 concatenates_S16384x2x1x2x2x2x2x2x2_S16384x2x1x2x2x2x2x2x2_S16384x2x2x2x2x2x2x2x2_d2
    (st0 x0) (shapeCast S_ (extractStridedSlice S1 ![0] th slices_S21_S1_0) shapeCasts_S1_S_)

/-- The state after gate 2. -/
def st2 (x0 : FVec Ideal S16384x2x2x2x2x2x2x2x2 .f32) (th : FVec Ideal S21 .f32) : FVec Ideal S16384x2x2x2x2x2x2x2x2 .f32 :=
  Cert.TTN.Gates.ryTerm (s := S16384x2x2x2x2x2x2x2x2) (t := S16384x2x2x2x2x2x2x2) (u := S16384x2x2x1x2x2x2x2x2) 3 ![0, 1, 2, 4, 5, 6, 7, 8] gather_S16384x2x2x2x2x2x2x2x2_S1_S16384x2x2x2x2x2x2x2_01234567_3_n_n_3_0_1638422122222 bcast_S_S1 bcast_S_S16384x2x2x2x2x2x2x2 reducesTo_S1_S_d0 h_S_ bcast_S16384x2x2x2x2x2x2x2_S16384x2x2x1x2x2x2x2x2_0_1_2_4_5_6_7_8 concatenates_S16384x2x2x1x2x2x2x2x2_S16384x2x2x1x2x2x2x2x2_S16384x2x2x2x2x2x2x2x2_d3
    (st1 x0 th) (shapeCast S_ (extractStridedSlice S1 ![1] th slices_S21_S1_1) shapeCasts_S1_S_)

/-- The state after gate 3. -/
def st3 (x0 : FVec Ideal S16384x2x2x2x2x2x2x2x2 .f32) (th : FVec Ideal S21 .f32) : FVec Ideal S16384x2x2x2x2x2x2x2x2 .f32 :=
  Cert.TTN.Gates.cxTerm (s := S16384x2x2x2x2x2x2x2x2) (t := S16384x2x2x2x2x2x2x2) (u := S16384x2x1x2x2x2x2x2x2) 2 2 ![0, 1, 3, 4, 5, 6, 7, 8] gather_S16384x2x2x2x2x2x2x2x2_S1_S16384x2x2x2x2x2x2x2_01234567_2_n_n_2_0_1638421222222 bcast_S_S1 bcast_S_S16384x2x2x2x2x2x2x2 reducesTo_S1_S_d0 h_S_ bcast_S16384x2x2x2x2x2x2x2_S16384x2x1x2x2x2x2x2x2_0_1_3_4_5_6_7_8 concatenates_S16384x2x1x2x2x2x2x2x2_S16384x2x1x2x2x2x2x2x2_S16384x2x2x2x2x2x2x2x2_d2
    (st2 x0 th)

/-- The state after gate 4. -/
def st4 (x0 : FVec Ideal S16384x2x2x2x2x2x2x2x2 .f32) (th : FVec Ideal S21 .f32) : FVec Ideal S16384x2x2x2x2x2x2x2x2 .f32 :=
  Cert.TTN.Gates.ryTerm (s := S16384x2x2x2x2x2x2x2x2) (t := S16384x2x2x2x2x2x2x2) (u := S16384x2x2x2x2x2x1x2x2) 6 ![0, 1, 2, 3, 4, 5, 7, 8] gather_S16384x2x2x2x2x2x2x2x2_S1_S16384x2x2x2x2x2x2x2_01234567_6_n_n_6_0_1638422222122 bcast_S_S1 bcast_S_S16384x2x2x2x2x2x2x2 reducesTo_S1_S_d0 h_S_ bcast_S16384x2x2x2x2x2x2x2_S16384x2x2x2x2x2x1x2x2_0_1_2_3_4_5_7_8 concatenates_S16384x2x2x2x2x2x1x2x2_S16384x2x2x2x2x2x1x2x2_S16384x2x2x2x2x2x2x2x2_d6
    (st3 x0 th) (shapeCast S_ (extractStridedSlice S1 ![2] th slices_S21_S1_2) shapeCasts_S1_S_)

/-- The state after gate 5. -/
def st5 (x0 : FVec Ideal S16384x2x2x2x2x2x2x2x2 .f32) (th : FVec Ideal S21 .f32) : FVec Ideal S16384x2x2x2x2x2x2x2x2 .f32 :=
  Cert.TTN.Gates.ryTerm (s := S16384x2x2x2x2x2x2x2x2) (t := S16384x2x2x2x2x2x2x2) (u := S16384x2x2x2x2x2x2x1x2) 7 ![0, 1, 2, 3, 4, 5, 6, 8] gather_S16384x2x2x2x2x2x2x2x2_S1_S16384x2x2x2x2x2x2x2_01234567_7_n_n_7_0_1638422222212 bcast_S_S1 bcast_S_S16384x2x2x2x2x2x2x2 reducesTo_S1_S_d0 h_S_ bcast_S16384x2x2x2x2x2x2x2_S16384x2x2x2x2x2x2x1x2_0_1_2_3_4_5_6_8 concatenates_S16384x2x2x2x2x2x2x1x2_S16384x2x2x2x2x2x2x1x2_S16384x2x2x2x2x2x2x2x2_d7
    (st4 x0 th) (shapeCast S_ (extractStridedSlice S1 ![3] th slices_S21_S1_3) shapeCasts_S1_S_)

/-- The state after gate 6. -/
def st6 (x0 : FVec Ideal S16384x2x2x2x2x2x2x2x2 .f32) (th : FVec Ideal S21 .f32) : FVec Ideal S16384x2x2x2x2x2x2x2x2 .f32 :=
  Cert.TTN.Gates.cxTerm (s := S16384x2x2x2x2x2x2x2x2) (t := S16384x2x2x2x2x2x2x2) (u := S16384x2x2x2x2x2x2x1x2) 7 6 ![0, 1, 2, 3, 4, 5, 6, 8] gather_S16384x2x2x2x2x2x2x2x2_S1_S16384x2x2x2x2x2x2x2_01234567_7_n_n_7_0_1638422222212 bcast_S_S1 bcast_S_S16384x2x2x2x2x2x2x2 reducesTo_S1_S_d0 h_S_ bcast_S16384x2x2x2x2x2x2x2_S16384x2x2x2x2x2x2x1x2_0_1_2_3_4_5_6_8 concatenates_S16384x2x2x2x2x2x2x1x2_S16384x2x2x2x2x2x2x1x2_S16384x2x2x2x2x2x2x2x2_d7
    (st5 x0 th)

/-- The state after gate 7. -/
def st7 (x0 : FVec Ideal S16384x2x2x2x2x2x2x2x2 .f32) (th : FVec Ideal S21 .f32) : FVec Ideal S16384x2x2x2x2x2x2x2x2 .f32 :=
  Cert.TTN.Gates.ryTerm (s := S16384x2x2x2x2x2x2x2x2) (t := S16384x2x2x2x2x2x2x2) (u := S16384x1x2x2x2x2x2x2x2) 1 ![0, 2, 3, 4, 5, 6, 7, 8] gather_S16384x2x2x2x2x2x2x2x2_S1_S16384x2x2x2x2x2x2x2_01234567_1_n_n_1_0_1638412222222 bcast_S_S1 bcast_S_S16384x2x2x2x2x2x2x2 reducesTo_S1_S_d0 h_S_ bcast_S16384x2x2x2x2x2x2x2_S16384x1x2x2x2x2x2x2x2_0_2_3_4_5_6_7_8 concatenates_S16384x1x2x2x2x2x2x2x2_S16384x1x2x2x2x2x2x2x2_S16384x2x2x2x2x2x2x2x2_d1
    (st6 x0 th) (shapeCast S_ (extractStridedSlice S1 ![4] th slices_S21_S1_4) shapeCasts_S1_S_)

/-- The state after gate 8. -/
def st8 (x0 : FVec Ideal S16384x2x2x2x2x2x2x2x2 .f32) (th : FVec Ideal S21 .f32) : FVec Ideal S16384x2x2x2x2x2x2x2x2 .f32 :=
  Cert.TTN.Gates.ryTerm (s := S16384x2x2x2x2x2x2x2x2) (t := S16384x2x2x2x2x2x2x2) (u := S16384x2x1x2x2x2x2x2x2) 2 ![0, 1, 3, 4, 5, 6, 7, 8] gather_S16384x2x2x2x2x2x2x2x2_S1_S16384x2x2x2x2x2x2x2_01234567_2_n_n_2_0_1638421222222 bcast_S_S1 bcast_S_S16384x2x2x2x2x2x2x2 reducesTo_S1_S_d0 h_S_ bcast_S16384x2x2x2x2x2x2x2_S16384x2x1x2x2x2x2x2x2_0_1_3_4_5_6_7_8 concatenates_S16384x2x1x2x2x2x2x2x2_S16384x2x1x2x2x2x2x2x2_S16384x2x2x2x2x2x2x2x2_d2
    (st7 x0 th) (shapeCast S_ (extractStridedSlice S1 ![5] th slices_S21_S1_5) shapeCasts_S1_S_)

/-- The state after gate 9. -/
def st9 (x0 : FVec Ideal S16384x2x2x2x2x2x2x2x2 .f32) (th : FVec Ideal S21 .f32) : FVec Ideal S16384x2x2x2x2x2x2x2x2 .f32 :=
  Cert.TTN.Gates.cxTerm (s := S16384x2x2x2x2x2x2x2x2) (t := S16384x2x2x2x2x2x2x2) (u := S16384x1x2x2x2x2x2x2x2) 1 1 ![0, 2, 3, 4, 5, 6, 7, 8] gather_S16384x2x2x2x2x2x2x2x2_S1_S16384x2x2x2x2x2x2x2_01234567_1_n_n_1_0_1638412222222 bcast_S_S1 bcast_S_S16384x2x2x2x2x2x2x2 reducesTo_S1_S_d0 h_S_ bcast_S16384x2x2x2x2x2x2x2_S16384x1x2x2x2x2x2x2x2_0_2_3_4_5_6_7_8 concatenates_S16384x1x2x2x2x2x2x2x2_S16384x1x2x2x2x2x2x2x2_S16384x2x2x2x2x2x2x2x2_d1
    (st8 x0 th)

/-- The state after gate 10. -/
def st10 (x0 : FVec Ideal S16384x2x2x2x2x2x2x2x2 .f32) (th : FVec Ideal S21 .f32) : FVec Ideal S16384x2x2x2x2x2x2x2x2 .f32 :=
  Cert.TTN.Gates.ryTerm (s := S16384x2x2x2x2x2x2x2x2) (t := S16384x2x2x2x2x2x2x2) (u := S16384x2x2x1x2x2x2x2x2) 3 ![0, 1, 2, 4, 5, 6, 7, 8] gather_S16384x2x2x2x2x2x2x2x2_S1_S16384x2x2x2x2x2x2x2_01234567_3_n_n_3_0_1638422122222 bcast_S_S1 bcast_S_S16384x2x2x2x2x2x2x2 reducesTo_S1_S_d0 h_S_ bcast_S16384x2x2x2x2x2x2x2_S16384x2x2x1x2x2x2x2x2_0_1_2_4_5_6_7_8 concatenates_S16384x2x2x1x2x2x2x2x2_S16384x2x2x1x2x2x2x2x2_S16384x2x2x2x2x2x2x2x2_d3
    (st9 x0 th) (shapeCast S_ (extractStridedSlice S1 ![6] th slices_S21_S1_6) shapeCasts_S1_S_)

/-- The state after gate 11. -/
def st11 (x0 : FVec Ideal S16384x2x2x2x2x2x2x2x2 .f32) (th : FVec Ideal S21 .f32) : FVec Ideal S16384x2x2x2x2x2x2x2x2 .f32 :=
  Cert.TTN.Gates.ryTerm (s := S16384x2x2x2x2x2x2x2x2) (t := S16384x2x2x2x2x2x2x2) (u := S16384x2x2x2x1x2x2x2x2) 4 ![0, 1, 2, 3, 5, 6, 7, 8] gather_S16384x2x2x2x2x2x2x2x2_S1_S16384x2x2x2x2x2x2x2_01234567_4_n_n_4_0_1638422212222 bcast_S_S1 bcast_S_S16384x2x2x2x2x2x2x2 reducesTo_S1_S_d0 h_S_ bcast_S16384x2x2x2x2x2x2x2_S16384x2x2x2x1x2x2x2x2_0_1_2_3_5_6_7_8 concatenates_S16384x2x2x2x1x2x2x2x2_S16384x2x2x2x1x2x2x2x2_S16384x2x2x2x2x2x2x2x2_d4
    (st10 x0 th) (shapeCast S_ (extractStridedSlice S1 ![7] th slices_S21_S1_7) shapeCasts_S1_S_)

/-- The state after gate 12. -/
def st12 (x0 : FVec Ideal S16384x2x2x2x2x2x2x2x2 .f32) (th : FVec Ideal S21 .f32) : FVec Ideal S16384x2x2x2x2x2x2x2x2 .f32 :=
  Cert.TTN.Gates.cxTerm (s := S16384x2x2x2x2x2x2x2x2) (t := S16384x2x2x2x2x2x2x2) (u := S16384x2x2x2x1x2x2x2x2) 4 3 ![0, 1, 2, 3, 5, 6, 7, 8] gather_S16384x2x2x2x2x2x2x2x2_S1_S16384x2x2x2x2x2x2x2_01234567_4_n_n_4_0_1638422212222 bcast_S_S1 bcast_S_S16384x2x2x2x2x2x2x2 reducesTo_S1_S_d0 h_S_ bcast_S16384x2x2x2x2x2x2x2_S16384x2x2x2x1x2x2x2x2_0_1_2_3_5_6_7_8 concatenates_S16384x2x2x2x1x2x2x2x2_S16384x2x2x2x1x2x2x2x2_S16384x2x2x2x2x2x2x2x2_d4
    (st11 x0 th)

/-- The state after gate 13. -/
def st13 (x0 : FVec Ideal S16384x2x2x2x2x2x2x2x2 .f32) (th : FVec Ideal S21 .f32) : FVec Ideal S16384x2x2x2x2x2x2x2x2 .f32 :=
  Cert.TTN.Gates.ryTerm (s := S16384x2x2x2x2x2x2x2x2) (t := S16384x2x2x2x2x2x2x2) (u := S16384x2x2x2x2x1x2x2x2) 5 ![0, 1, 2, 3, 4, 6, 7, 8] gather_S16384x2x2x2x2x2x2x2x2_S1_S16384x2x2x2x2x2x2x2_01234567_5_n_n_5_0_1638422221222 bcast_S_S1 bcast_S_S16384x2x2x2x2x2x2x2 reducesTo_S1_S_d0 h_S_ bcast_S16384x2x2x2x2x2x2x2_S16384x2x2x2x2x1x2x2x2_0_1_2_3_4_6_7_8 concatenates_S16384x2x2x2x2x1x2x2x2_S16384x2x2x2x2x1x2x2x2_S16384x2x2x2x2x2x2x2x2_d5
    (st12 x0 th) (shapeCast S_ (extractStridedSlice S1 ![8] th slices_S21_S1_8) shapeCasts_S1_S_)

/-- The state after gate 14. -/
def st14 (x0 : FVec Ideal S16384x2x2x2x2x2x2x2x2 .f32) (th : FVec Ideal S21 .f32) : FVec Ideal S16384x2x2x2x2x2x2x2x2 .f32 :=
  Cert.TTN.Gates.ryTerm (s := S16384x2x2x2x2x2x2x2x2) (t := S16384x2x2x2x2x2x2x2) (u := S16384x2x2x2x2x2x1x2x2) 6 ![0, 1, 2, 3, 4, 5, 7, 8] gather_S16384x2x2x2x2x2x2x2x2_S1_S16384x2x2x2x2x2x2x2_01234567_6_n_n_6_0_1638422222122 bcast_S_S1 bcast_S_S16384x2x2x2x2x2x2x2 reducesTo_S1_S_d0 h_S_ bcast_S16384x2x2x2x2x2x2x2_S16384x2x2x2x2x2x1x2x2_0_1_2_3_4_5_7_8 concatenates_S16384x2x2x2x2x2x1x2x2_S16384x2x2x2x2x2x1x2x2_S16384x2x2x2x2x2x2x2x2_d6
    (st13 x0 th) (shapeCast S_ (extractStridedSlice S1 ![9] th slices_S21_S1_9) shapeCasts_S1_S_)

/-- The state after gate 15. -/
def st15 (x0 : FVec Ideal S16384x2x2x2x2x2x2x2x2 .f32) (th : FVec Ideal S21 .f32) : FVec Ideal S16384x2x2x2x2x2x2x2x2 .f32 :=
  Cert.TTN.Gates.cxTerm (s := S16384x2x2x2x2x2x2x2x2) (t := S16384x2x2x2x2x2x2x2) (u := S16384x2x2x2x2x1x2x2x2) 5 5 ![0, 1, 2, 3, 4, 6, 7, 8] gather_S16384x2x2x2x2x2x2x2x2_S1_S16384x2x2x2x2x2x2x2_01234567_5_n_n_5_0_1638422221222 bcast_S_S1 bcast_S_S16384x2x2x2x2x2x2x2 reducesTo_S1_S_d0 h_S_ bcast_S16384x2x2x2x2x2x2x2_S16384x2x2x2x2x1x2x2x2_0_1_2_3_4_6_7_8 concatenates_S16384x2x2x2x2x1x2x2x2_S16384x2x2x2x2x1x2x2x2_S16384x2x2x2x2x2x2x2x2_d5
    (st14 x0 th)

/-- The state after gate 16. -/
def st16 (x0 : FVec Ideal S16384x2x2x2x2x2x2x2x2 .f32) (th : FVec Ideal S21 .f32) : FVec Ideal S16384x2x2x2x2x2x2x2x2 .f32 :=
  Cert.TTN.Gates.ryTerm (s := S16384x2x2x2x2x2x2x2x2) (t := S16384x2x2x2x2x2x2x2) (u := S16384x2x2x2x2x2x2x1x2) 7 ![0, 1, 2, 3, 4, 5, 6, 8] gather_S16384x2x2x2x2x2x2x2x2_S1_S16384x2x2x2x2x2x2x2_01234567_7_n_n_7_0_1638422222212 bcast_S_S1 bcast_S_S16384x2x2x2x2x2x2x2 reducesTo_S1_S_d0 h_S_ bcast_S16384x2x2x2x2x2x2x2_S16384x2x2x2x2x2x2x1x2_0_1_2_3_4_5_6_8 concatenates_S16384x2x2x2x2x2x2x1x2_S16384x2x2x2x2x2x2x1x2_S16384x2x2x2x2x2x2x2x2_d7
    (st15 x0 th) (shapeCast S_ (extractStridedSlice S1 ![10] th slices_S21_S1_10) shapeCasts_S1_S_)

/-- The state after gate 17. -/
def st17 (x0 : FVec Ideal S16384x2x2x2x2x2x2x2x2 .f32) (th : FVec Ideal S21 .f32) : FVec Ideal S16384x2x2x2x2x2x2x2x2 .f32 :=
  Cert.TTN.Gates.ryTerm (s := S16384x2x2x2x2x2x2x2x2) (t := S16384x2x2x2x2x2x2x2) (u := S16384x2x2x2x2x2x2x2x1) 8 ![0, 1, 2, 3, 4, 5, 6, 7] gather_S16384x2x2x2x2x2x2x2x2_S1_S16384x2x2x2x2x2x2x2_01234567_8_n_n_8_0_1638422222221 bcast_S_S1 bcast_S_S16384x2x2x2x2x2x2x2 reducesTo_S1_S_d0 h_S_ bcast_S16384x2x2x2x2x2x2x2_S16384x2x2x2x2x2x2x2x1_0_1_2_3_4_5_6_7 concatenates_S16384x2x2x2x2x2x2x2x1_S16384x2x2x2x2x2x2x2x1_S16384x2x2x2x2x2x2x2x2_d8
    (st16 x0 th) (shapeCast S_ (extractStridedSlice S1 ![11] th slices_S21_S1_11) shapeCasts_S1_S_)

/-- The state after gate 18. -/
def st18 (x0 : FVec Ideal S16384x2x2x2x2x2x2x2x2 .f32) (th : FVec Ideal S21 .f32) : FVec Ideal S16384x2x2x2x2x2x2x2x2 .f32 :=
  Cert.TTN.Gates.cxTerm (s := S16384x2x2x2x2x2x2x2x2) (t := S16384x2x2x2x2x2x2x2) (u := S16384x2x2x2x2x2x2x2x1) 8 7 ![0, 1, 2, 3, 4, 5, 6, 7] gather_S16384x2x2x2x2x2x2x2x2_S1_S16384x2x2x2x2x2x2x2_01234567_8_n_n_8_0_1638422222221 bcast_S_S1 bcast_S_S16384x2x2x2x2x2x2x2 reducesTo_S1_S_d0 h_S_ bcast_S16384x2x2x2x2x2x2x2_S16384x2x2x2x2x2x2x2x1_0_1_2_3_4_5_6_7 concatenates_S16384x2x2x2x2x2x2x2x1_S16384x2x2x2x2x2x2x2x1_S16384x2x2x2x2x2x2x2x2_d8
    (st17 x0 th)

/-- The state after gate 19. -/
def st19 (x0 : FVec Ideal S16384x2x2x2x2x2x2x2x2 .f32) (th : FVec Ideal S21 .f32) : FVec Ideal S16384x2x2x2x2x2x2x2x2 .f32 :=
  Cert.TTN.Gates.ryTerm (s := S16384x2x2x2x2x2x2x2x2) (t := S16384x2x2x2x2x2x2x2) (u := S16384x2x2x1x2x2x2x2x2) 3 ![0, 1, 2, 4, 5, 6, 7, 8] gather_S16384x2x2x2x2x2x2x2x2_S1_S16384x2x2x2x2x2x2x2_01234567_3_n_n_3_0_1638422122222 bcast_S_S1 bcast_S_S16384x2x2x2x2x2x2x2 reducesTo_S1_S_d0 h_S_ bcast_S16384x2x2x2x2x2x2x2_S16384x2x2x1x2x2x2x2x2_0_1_2_4_5_6_7_8 concatenates_S16384x2x2x1x2x2x2x2x2_S16384x2x2x1x2x2x2x2x2_S16384x2x2x2x2x2x2x2x2_d3
    (st18 x0 th) (shapeCast S_ (extractStridedSlice S1 ![12] th slices_S21_S1_12) shapeCasts_S1_S_)

/-- The state after gate 20. -/
def st20 (x0 : FVec Ideal S16384x2x2x2x2x2x2x2x2 .f32) (th : FVec Ideal S21 .f32) : FVec Ideal S16384x2x2x2x2x2x2x2x2 .f32 :=
  Cert.TTN.Gates.ryTerm (s := S16384x2x2x2x2x2x2x2x2) (t := S16384x2x2x2x2x2x2x2) (u := S16384x2x2x2x2x2x1x2x2) 6 ![0, 1, 2, 3, 4, 5, 7, 8] gather_S16384x2x2x2x2x2x2x2x2_S1_S16384x2x2x2x2x2x2x2_01234567_6_n_n_6_0_1638422222122 bcast_S_S1 bcast_S_S16384x2x2x2x2x2x2x2 reducesTo_S1_S_d0 h_S_ bcast_S16384x2x2x2x2x2x2x2_S16384x2x2x2x2x2x1x2x2_0_1_2_3_4_5_7_8 concatenates_S16384x2x2x2x2x2x1x2x2_S16384x2x2x2x2x2x1x2x2_S16384x2x2x2x2x2x2x2x2_d6
    (st19 x0 th) (shapeCast S_ (extractStridedSlice S1 ![13] th slices_S21_S1_13) shapeCasts_S1_S_)

/-- The state after gate 21. -/
def st21 (x0 : FVec Ideal S16384x2x2x2x2x2x2x2x2 .f32) (th : FVec Ideal S21 .f32) : FVec Ideal S16384x2x2x2x2x2x2x2x2 .f32 :=
  Cert.TTN.Gates.cxTerm (s := S16384x2x2x2x2x2x2x2x2) (t := S16384x2x2x2x2x2x2x2) (u := S16384x2x2x1x2x2x2x2x2) 3 5 ![0, 1, 2, 4, 5, 6, 7, 8] gather_S16384x2x2x2x2x2x2x2x2_S1_S16384x2x2x2x2x2x2x2_01234567_3_n_n_3_0_1638422122222 bcast_S_S1 bcast_S_S16384x2x2x2x2x2x2x2 reducesTo_S1_S_d0 h_S_ bcast_S16384x2x2x2x2x2x2x2_S16384x2x2x1x2x2x2x2x2_0_1_2_4_5_6_7_8 concatenates_S16384x2x2x1x2x2x2x2x2_S16384x2x2x1x2x2x2x2x2_S16384x2x2x2x2x2x2x2x2_d3
    (st20 x0 th)

/-- The state after gate 22. -/
def st22 (x0 : FVec Ideal S16384x2x2x2x2x2x2x2x2 .f32) (th : FVec Ideal S21 .f32) : FVec Ideal S16384x2x2x2x2x2x2x2x2 .f32 :=
  Cert.TTN.Gates.ryTerm (s := S16384x2x2x2x2x2x2x2x2) (t := S16384x2x2x2x2x2x2x2) (u := S16384x2x1x2x2x2x2x2x2) 2 ![0, 1, 3, 4, 5, 6, 7, 8] gather_S16384x2x2x2x2x2x2x2x2_S1_S16384x2x2x2x2x2x2x2_01234567_2_n_n_2_0_1638421222222 bcast_S_S1 bcast_S_S16384x2x2x2x2x2x2x2 reducesTo_S1_S_d0 h_S_ bcast_S16384x2x2x2x2x2x2x2_S16384x2x1x2x2x2x2x2x2_0_1_3_4_5_6_7_8 concatenates_S16384x2x1x2x2x2x2x2x2_S16384x2x1x2x2x2x2x2x2_S16384x2x2x2x2x2x2x2x2_d2
    (st21 x0 th) (shapeCast S_ (extractStridedSlice S1 ![14] th slices_S21_S1_14) shapeCasts_S1_S_)

/-- The state after gate 23. -/
def st23 (x0 : FVec Ideal S16384x2x2x2x2x2x2x2x2 .f32) (th : FVec Ideal S21 .f32) : FVec Ideal S16384x2x2x2x2x2x2x2x2 .f32 :=
  Cert.TTN.Gates.ryTerm (s := S16384x2x2x2x2x2x2x2x2) (t := S16384x2x2x2x2x2x2x2) (u := S16384x2x2x1x2x2x2x2x2) 3 ![0, 1, 2, 4, 5, 6, 7, 8] gather_S16384x2x2x2x2x2x2x2x2_S1_S16384x2x2x2x2x2x2x2_01234567_3_n_n_3_0_1638422122222 bcast_S_S1 bcast_S_S16384x2x2x2x2x2x2x2 reducesTo_S1_S_d0 h_S_ bcast_S16384x2x2x2x2x2x2x2_S16384x2x2x1x2x2x2x2x2_0_1_2_4_5_6_7_8 concatenates_S16384x2x2x1x2x2x2x2x2_S16384x2x2x1x2x2x2x2x2_S16384x2x2x2x2x2x2x2x2_d3
    (st22 x0 th) (shapeCast S_ (extractStridedSlice S1 ![15] th slices_S21_S1_15) shapeCasts_S1_S_)

/-- The state after gate 24. -/
def st24 (x0 : FVec Ideal S16384x2x2x2x2x2x2x2x2 .f32) (th : FVec Ideal S21 .f32) : FVec Ideal S16384x2x2x2x2x2x2x2x2 .f32 :=
  Cert.TTN.Gates.cxTerm (s := S16384x2x2x2x2x2x2x2x2) (t := S16384x2x2x2x2x2x2x2) (u := S16384x2x1x2x2x2x2x2x2) 2 2 ![0, 1, 3, 4, 5, 6, 7, 8] gather_S16384x2x2x2x2x2x2x2x2_S1_S16384x2x2x2x2x2x2x2_01234567_2_n_n_2_0_1638421222222 bcast_S_S1 bcast_S_S16384x2x2x2x2x2x2x2 reducesTo_S1_S_d0 h_S_ bcast_S16384x2x2x2x2x2x2x2_S16384x2x1x2x2x2x2x2x2_0_1_3_4_5_6_7_8 concatenates_S16384x2x1x2x2x2x2x2x2_S16384x2x1x2x2x2x2x2x2_S16384x2x2x2x2x2x2x2x2_d2
    (st23 x0 th)

/-- The state after gate 25. -/
def st25 (x0 : FVec Ideal S16384x2x2x2x2x2x2x2x2 .f32) (th : FVec Ideal S21 .f32) : FVec Ideal S16384x2x2x2x2x2x2x2x2 .f32 :=
  Cert.TTN.Gates.ryTerm (s := S16384x2x2x2x2x2x2x2x2) (t := S16384x2x2x2x2x2x2x2) (u := S16384x2x2x2x2x2x1x2x2) 6 ![0, 1, 2, 3, 4, 5, 7, 8] gather_S16384x2x2x2x2x2x2x2x2_S1_S16384x2x2x2x2x2x2x2_01234567_6_n_n_6_0_1638422222122 bcast_S_S1 bcast_S_S16384x2x2x2x2x2x2x2 reducesTo_S1_S_d0 h_S_ bcast_S16384x2x2x2x2x2x2x2_S16384x2x2x2x2x2x1x2x2_0_1_2_3_4_5_7_8 concatenates_S16384x2x2x2x2x2x1x2x2_S16384x2x2x2x2x2x1x2x2_S16384x2x2x2x2x2x2x2x2_d6
    (st24 x0 th) (shapeCast S_ (extractStridedSlice S1 ![16] th slices_S21_S1_16) shapeCasts_S1_S_)

/-- The state after gate 26. -/
def st26 (x0 : FVec Ideal S16384x2x2x2x2x2x2x2x2 .f32) (th : FVec Ideal S21 .f32) : FVec Ideal S16384x2x2x2x2x2x2x2x2 .f32 :=
  Cert.TTN.Gates.ryTerm (s := S16384x2x2x2x2x2x2x2x2) (t := S16384x2x2x2x2x2x2x2) (u := S16384x2x2x2x2x2x2x1x2) 7 ![0, 1, 2, 3, 4, 5, 6, 8] gather_S16384x2x2x2x2x2x2x2x2_S1_S16384x2x2x2x2x2x2x2_01234567_7_n_n_7_0_1638422222212 bcast_S_S1 bcast_S_S16384x2x2x2x2x2x2x2 reducesTo_S1_S_d0 h_S_ bcast_S16384x2x2x2x2x2x2x2_S16384x2x2x2x2x2x2x1x2_0_1_2_3_4_5_6_8 concatenates_S16384x2x2x2x2x2x2x1x2_S16384x2x2x2x2x2x2x1x2_S16384x2x2x2x2x2x2x2x2_d7
    (st25 x0 th) (shapeCast S_ (extractStridedSlice S1 ![17] th slices_S21_S1_17) shapeCasts_S1_S_)

/-- The state after gate 27. -/
def st27 (x0 : FVec Ideal S16384x2x2x2x2x2x2x2x2 .f32) (th : FVec Ideal S21 .f32) : FVec Ideal S16384x2x2x2x2x2x2x2x2 .f32 :=
  Cert.TTN.Gates.cxTerm (s := S16384x2x2x2x2x2x2x2x2) (t := S16384x2x2x2x2x2x2x2) (u := S16384x2x2x2x2x2x2x1x2) 7 6 ![0, 1, 2, 3, 4, 5, 6, 8] gather_S16384x2x2x2x2x2x2x2x2_S1_S16384x2x2x2x2x2x2x2_01234567_7_n_n_7_0_1638422222212 bcast_S_S1 bcast_S_S16384x2x2x2x2x2x2x2 reducesTo_S1_S_d0 h_S_ bcast_S16384x2x2x2x2x2x2x2_S16384x2x2x2x2x2x2x1x2_0_1_2_3_4_5_6_8 concatenates_S16384x2x2x2x2x2x2x1x2_S16384x2x2x2x2x2x2x1x2_S16384x2x2x2x2x2x2x2x2_d7
    (st26 x0 th)

/-- The state after gate 28. -/
def st28 (x0 : FVec Ideal S16384x2x2x2x2x2x2x2x2 .f32) (th : FVec Ideal S21 .f32) : FVec Ideal S16384x2x2x2x2x2x2x2x2 .f32 :=
  Cert.TTN.Gates.ryTerm (s := S16384x2x2x2x2x2x2x2x2) (t := S16384x2x2x2x2x2x2x2) (u := S16384x2x2x1x2x2x2x2x2) 3 ![0, 1, 2, 4, 5, 6, 7, 8] gather_S16384x2x2x2x2x2x2x2x2_S1_S16384x2x2x2x2x2x2x2_01234567_3_n_n_3_0_1638422122222 bcast_S_S1 bcast_S_S16384x2x2x2x2x2x2x2 reducesTo_S1_S_d0 h_S_ bcast_S16384x2x2x2x2x2x2x2_S16384x2x2x1x2x2x2x2x2_0_1_2_4_5_6_7_8 concatenates_S16384x2x2x1x2x2x2x2x2_S16384x2x2x1x2x2x2x2x2_S16384x2x2x2x2x2x2x2x2_d3
    (st27 x0 th) (shapeCast S_ (extractStridedSlice S1 ![18] th slices_S21_S1_18) shapeCasts_S1_S_)

/-- The state after gate 29. -/
def st29 (x0 : FVec Ideal S16384x2x2x2x2x2x2x2x2 .f32) (th : FVec Ideal S21 .f32) : FVec Ideal S16384x2x2x2x2x2x2x2x2 .f32 :=
  Cert.TTN.Gates.ryTerm (s := S16384x2x2x2x2x2x2x2x2) (t := S16384x2x2x2x2x2x2x2) (u := S16384x2x2x2x2x2x1x2x2) 6 ![0, 1, 2, 3, 4, 5, 7, 8] gather_S16384x2x2x2x2x2x2x2x2_S1_S16384x2x2x2x2x2x2x2_01234567_6_n_n_6_0_1638422222122 bcast_S_S1 bcast_S_S16384x2x2x2x2x2x2x2 reducesTo_S1_S_d0 h_S_ bcast_S16384x2x2x2x2x2x2x2_S16384x2x2x2x2x2x1x2x2_0_1_2_3_4_5_7_8 concatenates_S16384x2x2x2x2x2x1x2x2_S16384x2x2x2x2x2x1x2x2_S16384x2x2x2x2x2x2x2x2_d6
    (st28 x0 th) (shapeCast S_ (extractStridedSlice S1 ![19] th slices_S21_S1_19) shapeCasts_S1_S_)

/-- The state after gate 30. -/
def st30 (x0 : FVec Ideal S16384x2x2x2x2x2x2x2x2 .f32) (th : FVec Ideal S21 .f32) : FVec Ideal S16384x2x2x2x2x2x2x2x2 .f32 :=
  Cert.TTN.Gates.cxTerm (s := S16384x2x2x2x2x2x2x2x2) (t := S16384x2x2x2x2x2x2x2) (u := S16384x2x2x1x2x2x2x2x2) 3 5 ![0, 1, 2, 4, 5, 6, 7, 8] gather_S16384x2x2x2x2x2x2x2x2_S1_S16384x2x2x2x2x2x2x2_01234567_3_n_n_3_0_1638422122222 bcast_S_S1 bcast_S_S16384x2x2x2x2x2x2x2 reducesTo_S1_S_d0 h_S_ bcast_S16384x2x2x2x2x2x2x2_S16384x2x2x1x2x2x2x2x2_0_1_2_4_5_6_7_8 concatenates_S16384x2x2x1x2x2x2x2x2_S16384x2x2x1x2x2x2x2x2_S16384x2x2x2x2x2x2x2x2_d3
    (st29 x0 th)

/-- The state after gate 31. -/
def st31 (x0 : FVec Ideal S16384x2x2x2x2x2x2x2x2 .f32) (th : FVec Ideal S21 .f32) : FVec Ideal S16384x2x2x2x2x2x2x2x2 .f32 :=
  Cert.TTN.Gates.ryTerm (s := S16384x2x2x2x2x2x2x2x2) (t := S16384x2x2x2x2x2x2x2) (u := S16384x2x2x2x2x2x1x2x2) 6 ![0, 1, 2, 3, 4, 5, 7, 8] gather_S16384x2x2x2x2x2x2x2x2_S1_S16384x2x2x2x2x2x2x2_01234567_6_n_n_6_0_1638422222122 bcast_S_S1 bcast_S_S16384x2x2x2x2x2x2x2 reducesTo_S1_S_d0 h_S_ bcast_S16384x2x2x2x2x2x2x2_S16384x2x2x2x2x2x1x2x2_0_1_2_3_4_5_7_8 concatenates_S16384x2x2x2x2x2x1x2x2_S16384x2x2x2x2x2x1x2x2_S16384x2x2x2x2x2x2x2x2_d6
    (st30 x0 th) (shapeCast S_ (extractStridedSlice S1 ![20] th slices_S21_S1_20) shapeCasts_S1_S_)

/-- The buffer contents after the stretch before the gates, from contents `W0`. -/
def Wk0 (W0 : Valuation τ sig (Elt Ideal)) : Valuation τ sig (Elt Ideal) := after (R0 (F := Ideal)) W0

theorem state0 (W0 : Valuation τ sig (Elt Ideal)) : Wk0 W0 (main_v60 : DevRef τ sig) = st0 (headTerm (W0 (main_arg0 : DevRef τ sig)) (W0 (main_arg1 : DevRef τ sig)) (W0 (main_arg2 : DevRef τ sig))) := by
  unfold Wk0 st0; exact head_state W0

theorem theta0 (W0 : Valuation τ sig (Elt Ideal)) : Wk0 W0 (main_arg3 : DevRef τ sig) = W0 (main_arg3 : DevRef τ sig) := by
  unfold Wk0; exact head_arg3 W0

/-- The buffer contents after gate 1. -/
def Wk1 (W0 : Valuation τ sig (Elt Ideal)) : Valuation τ sig (Elt Ideal) := after (G1 (F := Ideal)) (Wk0 W0)

theorem state1 (W0 : Valuation τ sig (Elt Ideal)) :
    Wk1 W0 (main_v81 : DevRef τ sig) = st1 (headTerm (W0 (main_arg0 : DevRef τ sig)) (W0 (main_arg1 : DevRef τ sig)) (W0 (main_arg2 : DevRef τ sig))) (W0 (main_arg3 : DevRef τ sig)) := by
  unfold Wk1 st1; rw [gate1, state0, theta0]

theorem theta1 (W0 : Valuation τ sig (Elt Ideal)) : Wk1 W0 (main_arg3 : DevRef τ sig) = W0 (main_arg3 : DevRef τ sig) := by
  unfold Wk1; rw [gate1_arg3, theta0]

/-- The buffer contents after gate 2. -/
def Wk2 (W0 : Valuation τ sig (Elt Ideal)) : Valuation τ sig (Elt Ideal) := after (G2 (F := Ideal)) (Wk1 W0)

theorem state2 (W0 : Valuation τ sig (Elt Ideal)) :
    Wk2 W0 (main_v102 : DevRef τ sig) = st2 (headTerm (W0 (main_arg0 : DevRef τ sig)) (W0 (main_arg1 : DevRef τ sig)) (W0 (main_arg2 : DevRef τ sig))) (W0 (main_arg3 : DevRef τ sig)) := by
  unfold Wk2 st2; rw [gate2, state1, theta1]

theorem theta2 (W0 : Valuation τ sig (Elt Ideal)) : Wk2 W0 (main_arg3 : DevRef τ sig) = W0 (main_arg3 : DevRef τ sig) := by
  unfold Wk2; rw [gate2_arg3, theta1]

/-- The buffer contents after gate 3. -/
def Wk3 (W0 : Valuation τ sig (Elt Ideal)) : Valuation τ sig (Elt Ideal) := after (G3 (F := Ideal)) (Wk2 W0)

theorem state3 (W0 : Valuation τ sig (Elt Ideal)) :
    Wk3 W0 (main_v108 : DevRef τ sig) = st3 (headTerm (W0 (main_arg0 : DevRef τ sig)) (W0 (main_arg1 : DevRef τ sig)) (W0 (main_arg2 : DevRef τ sig))) (W0 (main_arg3 : DevRef τ sig)) := by
  unfold Wk3 st3; rw [gate3, state2]

theorem theta3 (W0 : Valuation τ sig (Elt Ideal)) : Wk3 W0 (main_arg3 : DevRef τ sig) = W0 (main_arg3 : DevRef τ sig) := by
  unfold Wk3; rw [gate3_arg3, theta2]

/-- The buffer contents after gate 4. -/
def Wk4 (W0 : Valuation τ sig (Elt Ideal)) : Valuation τ sig (Elt Ideal) := after (G4 (F := Ideal)) (Wk3 W0)

theorem state4 (W0 : Valuation τ sig (Elt Ideal)) :
    Wk4 W0 (main_v129 : DevRef τ sig) = st4 (headTerm (W0 (main_arg0 : DevRef τ sig)) (W0 (main_arg1 : DevRef τ sig)) (W0 (main_arg2 : DevRef τ sig))) (W0 (main_arg3 : DevRef τ sig)) := by
  unfold Wk4 st4; rw [gate4, state3, theta3]

theorem theta4 (W0 : Valuation τ sig (Elt Ideal)) : Wk4 W0 (main_arg3 : DevRef τ sig) = W0 (main_arg3 : DevRef τ sig) := by
  unfold Wk4; rw [gate4_arg3, theta3]

/-- The buffer contents after gate 5. -/
def Wk5 (W0 : Valuation τ sig (Elt Ideal)) : Valuation τ sig (Elt Ideal) := after (G5 (F := Ideal)) (Wk4 W0)

theorem state5 (W0 : Valuation τ sig (Elt Ideal)) :
    Wk5 W0 (main_v150 : DevRef τ sig) = st5 (headTerm (W0 (main_arg0 : DevRef τ sig)) (W0 (main_arg1 : DevRef τ sig)) (W0 (main_arg2 : DevRef τ sig))) (W0 (main_arg3 : DevRef τ sig)) := by
  unfold Wk5 st5; rw [gate5, state4, theta4]

theorem theta5 (W0 : Valuation τ sig (Elt Ideal)) : Wk5 W0 (main_arg3 : DevRef τ sig) = W0 (main_arg3 : DevRef τ sig) := by
  unfold Wk5; rw [gate5_arg3, theta4]

/-- The buffer contents after gate 6. -/
def Wk6 (W0 : Valuation τ sig (Elt Ideal)) : Valuation τ sig (Elt Ideal) := after (G6 (F := Ideal)) (Wk5 W0)

theorem state6 (W0 : Valuation τ sig (Elt Ideal)) :
    Wk6 W0 (main_v156 : DevRef τ sig) = st6 (headTerm (W0 (main_arg0 : DevRef τ sig)) (W0 (main_arg1 : DevRef τ sig)) (W0 (main_arg2 : DevRef τ sig))) (W0 (main_arg3 : DevRef τ sig)) := by
  unfold Wk6 st6; rw [gate6, state5]

theorem theta6 (W0 : Valuation τ sig (Elt Ideal)) : Wk6 W0 (main_arg3 : DevRef τ sig) = W0 (main_arg3 : DevRef τ sig) := by
  unfold Wk6; rw [gate6_arg3, theta5]

/-- The buffer contents after gate 7. -/
def Wk7 (W0 : Valuation τ sig (Elt Ideal)) : Valuation τ sig (Elt Ideal) := after (G7 (F := Ideal)) (Wk6 W0)

theorem state7 (W0 : Valuation τ sig (Elt Ideal)) :
    Wk7 W0 (main_v177 : DevRef τ sig) = st7 (headTerm (W0 (main_arg0 : DevRef τ sig)) (W0 (main_arg1 : DevRef τ sig)) (W0 (main_arg2 : DevRef τ sig))) (W0 (main_arg3 : DevRef τ sig)) := by
  unfold Wk7 st7; rw [gate7, state6, theta6]

theorem theta7 (W0 : Valuation τ sig (Elt Ideal)) : Wk7 W0 (main_arg3 : DevRef τ sig) = W0 (main_arg3 : DevRef τ sig) := by
  unfold Wk7; rw [gate7_arg3, theta6]

/-- The buffer contents after gate 8. -/
def Wk8 (W0 : Valuation τ sig (Elt Ideal)) : Valuation τ sig (Elt Ideal) := after (G8 (F := Ideal)) (Wk7 W0)

theorem state8 (W0 : Valuation τ sig (Elt Ideal)) :
    Wk8 W0 (main_v198 : DevRef τ sig) = st8 (headTerm (W0 (main_arg0 : DevRef τ sig)) (W0 (main_arg1 : DevRef τ sig)) (W0 (main_arg2 : DevRef τ sig))) (W0 (main_arg3 : DevRef τ sig)) := by
  unfold Wk8 st8; rw [gate8, state7, theta7]

theorem theta8 (W0 : Valuation τ sig (Elt Ideal)) : Wk8 W0 (main_arg3 : DevRef τ sig) = W0 (main_arg3 : DevRef τ sig) := by
  unfold Wk8; rw [gate8_arg3, theta7]

/-- The buffer contents after gate 9. -/
def Wk9 (W0 : Valuation τ sig (Elt Ideal)) : Valuation τ sig (Elt Ideal) := after (G9 (F := Ideal)) (Wk8 W0)

theorem state9 (W0 : Valuation τ sig (Elt Ideal)) :
    Wk9 W0 (main_v204 : DevRef τ sig) = st9 (headTerm (W0 (main_arg0 : DevRef τ sig)) (W0 (main_arg1 : DevRef τ sig)) (W0 (main_arg2 : DevRef τ sig))) (W0 (main_arg3 : DevRef τ sig)) := by
  unfold Wk9 st9; rw [gate9, state8]

theorem theta9 (W0 : Valuation τ sig (Elt Ideal)) : Wk9 W0 (main_arg3 : DevRef τ sig) = W0 (main_arg3 : DevRef τ sig) := by
  unfold Wk9; rw [gate9_arg3, theta8]

/-- The buffer contents after gate 10. -/
def Wk10 (W0 : Valuation τ sig (Elt Ideal)) : Valuation τ sig (Elt Ideal) := after (G10 (F := Ideal)) (Wk9 W0)

theorem state10 (W0 : Valuation τ sig (Elt Ideal)) :
    Wk10 W0 (main_v225 : DevRef τ sig) = st10 (headTerm (W0 (main_arg0 : DevRef τ sig)) (W0 (main_arg1 : DevRef τ sig)) (W0 (main_arg2 : DevRef τ sig))) (W0 (main_arg3 : DevRef τ sig)) := by
  unfold Wk10 st10; rw [gate10, state9, theta9]

theorem theta10 (W0 : Valuation τ sig (Elt Ideal)) : Wk10 W0 (main_arg3 : DevRef τ sig) = W0 (main_arg3 : DevRef τ sig) := by
  unfold Wk10; rw [gate10_arg3, theta9]

/-- The buffer contents after gate 11. -/
def Wk11 (W0 : Valuation τ sig (Elt Ideal)) : Valuation τ sig (Elt Ideal) := after (G11 (F := Ideal)) (Wk10 W0)

theorem state11 (W0 : Valuation τ sig (Elt Ideal)) :
    Wk11 W0 (main_v246 : DevRef τ sig) = st11 (headTerm (W0 (main_arg0 : DevRef τ sig)) (W0 (main_arg1 : DevRef τ sig)) (W0 (main_arg2 : DevRef τ sig))) (W0 (main_arg3 : DevRef τ sig)) := by
  unfold Wk11 st11; rw [gate11, state10, theta10]

theorem theta11 (W0 : Valuation τ sig (Elt Ideal)) : Wk11 W0 (main_arg3 : DevRef τ sig) = W0 (main_arg3 : DevRef τ sig) := by
  unfold Wk11; rw [gate11_arg3, theta10]

/-- The buffer contents after gate 12. -/
def Wk12 (W0 : Valuation τ sig (Elt Ideal)) : Valuation τ sig (Elt Ideal) := after (G12 (F := Ideal)) (Wk11 W0)

theorem state12 (W0 : Valuation τ sig (Elt Ideal)) :
    Wk12 W0 (main_v252 : DevRef τ sig) = st12 (headTerm (W0 (main_arg0 : DevRef τ sig)) (W0 (main_arg1 : DevRef τ sig)) (W0 (main_arg2 : DevRef τ sig))) (W0 (main_arg3 : DevRef τ sig)) := by
  unfold Wk12 st12; rw [gate12, state11]

theorem theta12 (W0 : Valuation τ sig (Elt Ideal)) : Wk12 W0 (main_arg3 : DevRef τ sig) = W0 (main_arg3 : DevRef τ sig) := by
  unfold Wk12; rw [gate12_arg3, theta11]

/-- The buffer contents after gate 13. -/
def Wk13 (W0 : Valuation τ sig (Elt Ideal)) : Valuation τ sig (Elt Ideal) := after (G13 (F := Ideal)) (Wk12 W0)

theorem state13 (W0 : Valuation τ sig (Elt Ideal)) :
    Wk13 W0 (main_v273 : DevRef τ sig) = st13 (headTerm (W0 (main_arg0 : DevRef τ sig)) (W0 (main_arg1 : DevRef τ sig)) (W0 (main_arg2 : DevRef τ sig))) (W0 (main_arg3 : DevRef τ sig)) := by
  unfold Wk13 st13; rw [gate13, state12, theta12]

theorem theta13 (W0 : Valuation τ sig (Elt Ideal)) : Wk13 W0 (main_arg3 : DevRef τ sig) = W0 (main_arg3 : DevRef τ sig) := by
  unfold Wk13; rw [gate13_arg3, theta12]

/-- The buffer contents after gate 14. -/
def Wk14 (W0 : Valuation τ sig (Elt Ideal)) : Valuation τ sig (Elt Ideal) := after (G14 (F := Ideal)) (Wk13 W0)

theorem state14 (W0 : Valuation τ sig (Elt Ideal)) :
    Wk14 W0 (main_v294 : DevRef τ sig) = st14 (headTerm (W0 (main_arg0 : DevRef τ sig)) (W0 (main_arg1 : DevRef τ sig)) (W0 (main_arg2 : DevRef τ sig))) (W0 (main_arg3 : DevRef τ sig)) := by
  unfold Wk14 st14; rw [gate14, state13, theta13]

theorem theta14 (W0 : Valuation τ sig (Elt Ideal)) : Wk14 W0 (main_arg3 : DevRef τ sig) = W0 (main_arg3 : DevRef τ sig) := by
  unfold Wk14; rw [gate14_arg3, theta13]

/-- The buffer contents after gate 15. -/
def Wk15 (W0 : Valuation τ sig (Elt Ideal)) : Valuation τ sig (Elt Ideal) := after (G15 (F := Ideal)) (Wk14 W0)

theorem state15 (W0 : Valuation τ sig (Elt Ideal)) :
    Wk15 W0 (main_v300 : DevRef τ sig) = st15 (headTerm (W0 (main_arg0 : DevRef τ sig)) (W0 (main_arg1 : DevRef τ sig)) (W0 (main_arg2 : DevRef τ sig))) (W0 (main_arg3 : DevRef τ sig)) := by
  unfold Wk15 st15; rw [gate15, state14]

theorem theta15 (W0 : Valuation τ sig (Elt Ideal)) : Wk15 W0 (main_arg3 : DevRef τ sig) = W0 (main_arg3 : DevRef τ sig) := by
  unfold Wk15; rw [gate15_arg3, theta14]

/-- The buffer contents after gate 16. -/
def Wk16 (W0 : Valuation τ sig (Elt Ideal)) : Valuation τ sig (Elt Ideal) := after (G16 (F := Ideal)) (Wk15 W0)

theorem state16 (W0 : Valuation τ sig (Elt Ideal)) :
    Wk16 W0 (main_v321 : DevRef τ sig) = st16 (headTerm (W0 (main_arg0 : DevRef τ sig)) (W0 (main_arg1 : DevRef τ sig)) (W0 (main_arg2 : DevRef τ sig))) (W0 (main_arg3 : DevRef τ sig)) := by
  unfold Wk16 st16; rw [gate16, state15, theta15]

theorem theta16 (W0 : Valuation τ sig (Elt Ideal)) : Wk16 W0 (main_arg3 : DevRef τ sig) = W0 (main_arg3 : DevRef τ sig) := by
  unfold Wk16; rw [gate16_arg3, theta15]

/-- The buffer contents after gate 17. -/
def Wk17 (W0 : Valuation τ sig (Elt Ideal)) : Valuation τ sig (Elt Ideal) := after (G17 (F := Ideal)) (Wk16 W0)

theorem state17 (W0 : Valuation τ sig (Elt Ideal)) :
    Wk17 W0 (main_v342 : DevRef τ sig) = st17 (headTerm (W0 (main_arg0 : DevRef τ sig)) (W0 (main_arg1 : DevRef τ sig)) (W0 (main_arg2 : DevRef τ sig))) (W0 (main_arg3 : DevRef τ sig)) := by
  unfold Wk17 st17; rw [gate17, state16, theta16]

theorem theta17 (W0 : Valuation τ sig (Elt Ideal)) : Wk17 W0 (main_arg3 : DevRef τ sig) = W0 (main_arg3 : DevRef τ sig) := by
  unfold Wk17; rw [gate17_arg3, theta16]

/-- The buffer contents after gate 18. -/
def Wk18 (W0 : Valuation τ sig (Elt Ideal)) : Valuation τ sig (Elt Ideal) := after (G18 (F := Ideal)) (Wk17 W0)

theorem state18 (W0 : Valuation τ sig (Elt Ideal)) :
    Wk18 W0 (main_v348 : DevRef τ sig) = st18 (headTerm (W0 (main_arg0 : DevRef τ sig)) (W0 (main_arg1 : DevRef τ sig)) (W0 (main_arg2 : DevRef τ sig))) (W0 (main_arg3 : DevRef τ sig)) := by
  unfold Wk18 st18; rw [gate18, state17]

theorem theta18 (W0 : Valuation τ sig (Elt Ideal)) : Wk18 W0 (main_arg3 : DevRef τ sig) = W0 (main_arg3 : DevRef τ sig) := by
  unfold Wk18; rw [gate18_arg3, theta17]

/-- The buffer contents after gate 19. -/
def Wk19 (W0 : Valuation τ sig (Elt Ideal)) : Valuation τ sig (Elt Ideal) := after (G19 (F := Ideal)) (Wk18 W0)

theorem state19 (W0 : Valuation τ sig (Elt Ideal)) :
    Wk19 W0 (main_v369 : DevRef τ sig) = st19 (headTerm (W0 (main_arg0 : DevRef τ sig)) (W0 (main_arg1 : DevRef τ sig)) (W0 (main_arg2 : DevRef τ sig))) (W0 (main_arg3 : DevRef τ sig)) := by
  unfold Wk19 st19; rw [gate19, state18, theta18]

theorem theta19 (W0 : Valuation τ sig (Elt Ideal)) : Wk19 W0 (main_arg3 : DevRef τ sig) = W0 (main_arg3 : DevRef τ sig) := by
  unfold Wk19; rw [gate19_arg3, theta18]

/-- The buffer contents after gate 20. -/
def Wk20 (W0 : Valuation τ sig (Elt Ideal)) : Valuation τ sig (Elt Ideal) := after (G20 (F := Ideal)) (Wk19 W0)

theorem state20 (W0 : Valuation τ sig (Elt Ideal)) :
    Wk20 W0 (main_v390 : DevRef τ sig) = st20 (headTerm (W0 (main_arg0 : DevRef τ sig)) (W0 (main_arg1 : DevRef τ sig)) (W0 (main_arg2 : DevRef τ sig))) (W0 (main_arg3 : DevRef τ sig)) := by
  unfold Wk20 st20; rw [gate20, state19, theta19]

theorem theta20 (W0 : Valuation τ sig (Elt Ideal)) : Wk20 W0 (main_arg3 : DevRef τ sig) = W0 (main_arg3 : DevRef τ sig) := by
  unfold Wk20; rw [gate20_arg3, theta19]

/-- The buffer contents after gate 21. -/
def Wk21 (W0 : Valuation τ sig (Elt Ideal)) : Valuation τ sig (Elt Ideal) := after (G21 (F := Ideal)) (Wk20 W0)

theorem state21 (W0 : Valuation τ sig (Elt Ideal)) :
    Wk21 W0 (main_v396 : DevRef τ sig) = st21 (headTerm (W0 (main_arg0 : DevRef τ sig)) (W0 (main_arg1 : DevRef τ sig)) (W0 (main_arg2 : DevRef τ sig))) (W0 (main_arg3 : DevRef τ sig)) := by
  unfold Wk21 st21; rw [gate21, state20]

theorem theta21 (W0 : Valuation τ sig (Elt Ideal)) : Wk21 W0 (main_arg3 : DevRef τ sig) = W0 (main_arg3 : DevRef τ sig) := by
  unfold Wk21; rw [gate21_arg3, theta20]

/-- The buffer contents after gate 22. -/
def Wk22 (W0 : Valuation τ sig (Elt Ideal)) : Valuation τ sig (Elt Ideal) := after (G22 (F := Ideal)) (Wk21 W0)

theorem state22 (W0 : Valuation τ sig (Elt Ideal)) :
    Wk22 W0 (main_v417 : DevRef τ sig) = st22 (headTerm (W0 (main_arg0 : DevRef τ sig)) (W0 (main_arg1 : DevRef τ sig)) (W0 (main_arg2 : DevRef τ sig))) (W0 (main_arg3 : DevRef τ sig)) := by
  unfold Wk22 st22; rw [gate22, state21, theta21]

theorem theta22 (W0 : Valuation τ sig (Elt Ideal)) : Wk22 W0 (main_arg3 : DevRef τ sig) = W0 (main_arg3 : DevRef τ sig) := by
  unfold Wk22; rw [gate22_arg3, theta21]

/-- The buffer contents after gate 23. -/
def Wk23 (W0 : Valuation τ sig (Elt Ideal)) : Valuation τ sig (Elt Ideal) := after (G23 (F := Ideal)) (Wk22 W0)

theorem state23 (W0 : Valuation τ sig (Elt Ideal)) :
    Wk23 W0 (main_v438 : DevRef τ sig) = st23 (headTerm (W0 (main_arg0 : DevRef τ sig)) (W0 (main_arg1 : DevRef τ sig)) (W0 (main_arg2 : DevRef τ sig))) (W0 (main_arg3 : DevRef τ sig)) := by
  unfold Wk23 st23; rw [gate23, state22, theta22]

theorem theta23 (W0 : Valuation τ sig (Elt Ideal)) : Wk23 W0 (main_arg3 : DevRef τ sig) = W0 (main_arg3 : DevRef τ sig) := by
  unfold Wk23; rw [gate23_arg3, theta22]

/-- The buffer contents after gate 24. -/
def Wk24 (W0 : Valuation τ sig (Elt Ideal)) : Valuation τ sig (Elt Ideal) := after (G24 (F := Ideal)) (Wk23 W0)

theorem state24 (W0 : Valuation τ sig (Elt Ideal)) :
    Wk24 W0 (main_v444 : DevRef τ sig) = st24 (headTerm (W0 (main_arg0 : DevRef τ sig)) (W0 (main_arg1 : DevRef τ sig)) (W0 (main_arg2 : DevRef τ sig))) (W0 (main_arg3 : DevRef τ sig)) := by
  unfold Wk24 st24; rw [gate24, state23]

theorem theta24 (W0 : Valuation τ sig (Elt Ideal)) : Wk24 W0 (main_arg3 : DevRef τ sig) = W0 (main_arg3 : DevRef τ sig) := by
  unfold Wk24; rw [gate24_arg3, theta23]

/-- The buffer contents after gate 25. -/
def Wk25 (W0 : Valuation τ sig (Elt Ideal)) : Valuation τ sig (Elt Ideal) := after (G25 (F := Ideal)) (Wk24 W0)

theorem state25 (W0 : Valuation τ sig (Elt Ideal)) :
    Wk25 W0 (main_v465 : DevRef τ sig) = st25 (headTerm (W0 (main_arg0 : DevRef τ sig)) (W0 (main_arg1 : DevRef τ sig)) (W0 (main_arg2 : DevRef τ sig))) (W0 (main_arg3 : DevRef τ sig)) := by
  unfold Wk25 st25; rw [gate25, state24, theta24]

theorem theta25 (W0 : Valuation τ sig (Elt Ideal)) : Wk25 W0 (main_arg3 : DevRef τ sig) = W0 (main_arg3 : DevRef τ sig) := by
  unfold Wk25; rw [gate25_arg3, theta24]

/-- The buffer contents after gate 26. -/
def Wk26 (W0 : Valuation τ sig (Elt Ideal)) : Valuation τ sig (Elt Ideal) := after (G26 (F := Ideal)) (Wk25 W0)

theorem state26 (W0 : Valuation τ sig (Elt Ideal)) :
    Wk26 W0 (main_v486 : DevRef τ sig) = st26 (headTerm (W0 (main_arg0 : DevRef τ sig)) (W0 (main_arg1 : DevRef τ sig)) (W0 (main_arg2 : DevRef τ sig))) (W0 (main_arg3 : DevRef τ sig)) := by
  unfold Wk26 st26; rw [gate26, state25, theta25]

theorem theta26 (W0 : Valuation τ sig (Elt Ideal)) : Wk26 W0 (main_arg3 : DevRef τ sig) = W0 (main_arg3 : DevRef τ sig) := by
  unfold Wk26; rw [gate26_arg3, theta25]

/-- The buffer contents after gate 27. -/
def Wk27 (W0 : Valuation τ sig (Elt Ideal)) : Valuation τ sig (Elt Ideal) := after (G27 (F := Ideal)) (Wk26 W0)

theorem state27 (W0 : Valuation τ sig (Elt Ideal)) :
    Wk27 W0 (main_v492 : DevRef τ sig) = st27 (headTerm (W0 (main_arg0 : DevRef τ sig)) (W0 (main_arg1 : DevRef τ sig)) (W0 (main_arg2 : DevRef τ sig))) (W0 (main_arg3 : DevRef τ sig)) := by
  unfold Wk27 st27; rw [gate27, state26]

theorem theta27 (W0 : Valuation τ sig (Elt Ideal)) : Wk27 W0 (main_arg3 : DevRef τ sig) = W0 (main_arg3 : DevRef τ sig) := by
  unfold Wk27; rw [gate27_arg3, theta26]

/-- The buffer contents after gate 28. -/
def Wk28 (W0 : Valuation τ sig (Elt Ideal)) : Valuation τ sig (Elt Ideal) := after (G28 (F := Ideal)) (Wk27 W0)

theorem state28 (W0 : Valuation τ sig (Elt Ideal)) :
    Wk28 W0 (main_v513 : DevRef τ sig) = st28 (headTerm (W0 (main_arg0 : DevRef τ sig)) (W0 (main_arg1 : DevRef τ sig)) (W0 (main_arg2 : DevRef τ sig))) (W0 (main_arg3 : DevRef τ sig)) := by
  unfold Wk28 st28; rw [gate28, state27, theta27]

theorem theta28 (W0 : Valuation τ sig (Elt Ideal)) : Wk28 W0 (main_arg3 : DevRef τ sig) = W0 (main_arg3 : DevRef τ sig) := by
  unfold Wk28; rw [gate28_arg3, theta27]

/-- The buffer contents after gate 29. -/
def Wk29 (W0 : Valuation τ sig (Elt Ideal)) : Valuation τ sig (Elt Ideal) := after (G29 (F := Ideal)) (Wk28 W0)

theorem state29 (W0 : Valuation τ sig (Elt Ideal)) :
    Wk29 W0 (main_v534 : DevRef τ sig) = st29 (headTerm (W0 (main_arg0 : DevRef τ sig)) (W0 (main_arg1 : DevRef τ sig)) (W0 (main_arg2 : DevRef τ sig))) (W0 (main_arg3 : DevRef τ sig)) := by
  unfold Wk29 st29; rw [gate29, state28, theta28]

theorem theta29 (W0 : Valuation τ sig (Elt Ideal)) : Wk29 W0 (main_arg3 : DevRef τ sig) = W0 (main_arg3 : DevRef τ sig) := by
  unfold Wk29; rw [gate29_arg3, theta28]

/-- The buffer contents after gate 30. -/
def Wk30 (W0 : Valuation τ sig (Elt Ideal)) : Valuation τ sig (Elt Ideal) := after (G30 (F := Ideal)) (Wk29 W0)

theorem state30 (W0 : Valuation τ sig (Elt Ideal)) :
    Wk30 W0 (main_v540 : DevRef τ sig) = st30 (headTerm (W0 (main_arg0 : DevRef τ sig)) (W0 (main_arg1 : DevRef τ sig)) (W0 (main_arg2 : DevRef τ sig))) (W0 (main_arg3 : DevRef τ sig)) := by
  unfold Wk30 st30; rw [gate30, state29]

theorem theta30 (W0 : Valuation τ sig (Elt Ideal)) : Wk30 W0 (main_arg3 : DevRef τ sig) = W0 (main_arg3 : DevRef τ sig) := by
  unfold Wk30; rw [gate30_arg3, theta29]

/-- The buffer contents after gate 31. -/
def Wk31 (W0 : Valuation τ sig (Elt Ideal)) : Valuation τ sig (Elt Ideal) := after (G31 (F := Ideal)) (Wk30 W0)

theorem state31 (W0 : Valuation τ sig (Elt Ideal)) :
    Wk31 W0 (main_v561 : DevRef τ sig) = st31 (headTerm (W0 (main_arg0 : DevRef τ sig)) (W0 (main_arg1 : DevRef τ sig)) (W0 (main_arg2 : DevRef τ sig))) (W0 (main_arg3 : DevRef τ sig)) := by
  unfold Wk31 st31; rw [gate31, state30, theta30]

theorem theta31 (W0 : Valuation τ sig (Elt Ideal)) : Wk31 W0 (main_arg3 : DevRef τ sig) = W0 (main_arg3 : DevRef τ sig) := by
  unfold Wk31; rw [gate31_arg3, theta30]

end Cert.TTN.RHost

end
-- ==== Proof.RV.lean ====
/-
  The reference's operations are the stretch before the gates, the 31 gates' stretches and the stretch after them, in
  this order; so, from any buffer contents, the result buffer ends at the final stretch's term of the state after the
  31 gates, itself a term of the product state and of the parameter vector.
-/
import proofs.«130987_j14276471292017_1_alg».proof.Proof.RefRun
import proofs.«130987_j14276471292017_1_alg».proof.Proof.RHostChain

set_option maxRecDepth 65536

noncomputable section

namespace Cert.TTN.RHost

open Idealize.ShloMosaic Idealize.ShloMosaic.TcCoe Idealize.SL.Sem Idealize.ShloMosaic.StableHlo
open Cert.ReferenceIdeal Cert.ReferenceIdeal.Gen

/-- The buffers after two lines of operations run one after the other. -/
theorem after_append' {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

set_option maxHeartbeats 64000000 in
/-- The reference's operations, regrouped gate by gate. -/
theorem ops_eq : (Cert.TTN.RefRun.ops : List (HloOp τ sig (Elt Ideal))) = R0 ++ (G1 ++ (G2 ++ (G3 ++ (G4 ++ (G5 ++ (G6 ++ (G7 ++ (G8 ++ (G9 ++ (G10 ++ (G11 ++ (G12 ++ (G13 ++ (G14 ++ (G15 ++ (G16 ++ (G17 ++ (G18 ++ (G19 ++ (G20 ++ (G21 ++ (G22 ++ (G23 ++ (G24 ++ (G25 ++ (G26 ++ (G27 ++ (G28 ++ (G29 ++ (G30 ++ (G31 ++ (RT)))))))))))))))))))))))))))))))) := by
  chain_rfl

/-- The result buffer after the whole line, from contents `W0`. -/
theorem after_ops_result (W0 : Valuation τ sig (Elt Ideal)) :
    after (Cert.TTN.RefRun.ops : List (HloOp τ sig (Elt Ideal))) W0 (main_v572 : DevRef τ sig)
      = tailTerm (st31 (headTerm (W0 (main_arg0 : DevRef τ sig)) (W0 (main_arg1 : DevRef τ sig)) (W0 (main_arg2 : DevRef τ sig)))
          (W0 (main_arg3 : DevRef τ sig))) := by
  rw [ops_eq]
  have key : after ((R0 ++ (G1 ++ (G2 ++ (G3 ++ (G4 ++ (G5 ++ (G6 ++ (G7 ++ (G8 ++ (G9 ++ (G10 ++ (G11 ++ (G12 ++ (G13 ++ (G14 ++ (G15 ++ (G16 ++ (G17 ++ (G18 ++ (G19 ++ (G20 ++ (G21 ++ (G22 ++ (G23 ++ (G24 ++ (G25 ++ (G26 ++ (G27 ++ (G28 ++ (G29 ++ (G30 ++ (G31 ++ (RT))))))))))))))))))))))))))))))))) : List (HloOp τ sig (Elt Ideal))) W0 = after (RT (F := Ideal)) (Wk31 W0) := by
    simp only [after_append', Wk31, Wk30, Wk29, Wk28, Wk27, Wk26, Wk25, Wk24, Wk23, Wk22, Wk21, Wk20, Wk19, Wk18, Wk17, Wk16, Wk15, Wk14, Wk13, Wk12, Wk11, Wk10, Wk9, Wk8, Wk7, Wk6, Wk5, Wk4, Wk3, Wk2, Wk1, Wk0]
  rw [key, tail_result, state31]

end Cert.TTN.RHost

end
-- ==== Proof.RRead.lean ====
/-
  The state after each gate, read at an index.  If the state before the gates holds, at register `b` and basis state
  `q`, the real number `f0 b q`, and the parameter vector holds the real numbers `θ`, then after `g` gates it holds
  the first `g` gates of the circuit applied to `f0 b`, at `q`: each rotation and each controlled flip acts on every
  register separately, by the gate's formula.
-/
import proofs.«130987_j14276471292017_1_alg».proof.Proof.RHostChain
import proofs.«130987_j14276471292017_1_alg».proof.Proof.GateReadsAll
import proofs.«130987_j14276471292017_1_alg».proof.Proof.RealGates

set_option maxRecDepth 16384

noncomputable section

namespace Cert.TTN.RHost

open Idealize.ShloMosaic Idealize.ShloMosaic.ValueIdx
open Cert.ReferenceIdeal Cert.ReferenceIdeal.Gen Cert.TTN

/-- The first gates of the circuit, on a real amplitude vector. -/
def C0 (θ : Fin 21 → ℝ) (f : Q → ℝ) : Q → ℝ := f
def C1 (θ : Fin 21 → ℝ) (f : Q → ℝ) : Q → ℝ := Gate.apply θ (.ry 1 0) (C0 θ f)
def C2 (θ : Fin 21 → ℝ) (f : Q → ℝ) : Q → ℝ := Gate.apply θ (.ry 2 1) (C1 θ f)
def C3 (θ : Fin 21 → ℝ) (f : Q → ℝ) : Q → ℝ := Gate.apply θ (.cx 1 2) (C2 θ f)
def C4 (θ : Fin 21 → ℝ) (f : Q → ℝ) : Q → ℝ := Gate.apply θ (.ry 5 2) (C3 θ f)
def C5 (θ : Fin 21 → ℝ) (f : Q → ℝ) : Q → ℝ := Gate.apply θ (.ry 6 3) (C4 θ f)
def C6 (θ : Fin 21 → ℝ) (f : Q → ℝ) : Q → ℝ := Gate.apply θ (.cx 6 5) (C5 θ f)
def C7 (θ : Fin 21 → ℝ) (f : Q → ℝ) : Q → ℝ := Gate.apply θ (.ry 0 4) (C6 θ f)
def C8 (θ : Fin 21 → ℝ) (f : Q → ℝ) : Q → ℝ := Gate.apply θ (.ry 1 5) (C7 θ f)
def C9 (θ : Fin 21 → ℝ) (f : Q → ℝ) : Q → ℝ := Gate.apply θ (.cx 0 1) (C8 θ f)
def C10 (θ : Fin 21 → ℝ) (f : Q → ℝ) : Q → ℝ := Gate.apply θ (.ry 2 6) (C9 θ f)
def C11 (θ : Fin 21 → ℝ) (f : Q → ℝ) : Q → ℝ := Gate.apply θ (.ry 3 7) (C10 θ f)
def C12 (θ : Fin 21 → ℝ) (f : Q → ℝ) : Q → ℝ := Gate.apply θ (.cx 3 2) (C11 θ f)
def C13 (θ : Fin 21 → ℝ) (f : Q → ℝ) : Q → ℝ := Gate.apply θ (.ry 4 8) (C12 θ f)
def C14 (θ : Fin 21 → ℝ) (f : Q → ℝ) : Q → ℝ := Gate.apply θ (.ry 5 9) (C13 θ f)
def C15 (θ : Fin 21 → ℝ) (f : Q → ℝ) : Q → ℝ := Gate.apply θ (.cx 4 5) (C14 θ f)
def C16 (θ : Fin 21 → ℝ) (f : Q → ℝ) : Q → ℝ := Gate.apply θ (.ry 6 10) (C15 θ f)
def C17 (θ : Fin 21 → ℝ) (f : Q → ℝ) : Q → ℝ := Gate.apply θ (.ry 7 11) (C16 θ f)
def C18 (θ : Fin 21 → ℝ) (f : Q → ℝ) : Q → ℝ := Gate.apply θ (.cx 7 6) (C17 θ f)
def C19 (θ : Fin 21 → ℝ) (f : Q → ℝ) : Q → ℝ := Gate.apply θ (.ry 2 12) (C18 θ f)
def C20 (θ : Fin 21 → ℝ) (f : Q → ℝ) : Q → ℝ := Gate.apply θ (.ry 5 13) (C19 θ f)
def C21 (θ : Fin 21 → ℝ) (f : Q → ℝ) : Q → ℝ := Gate.apply θ (.cx 2 5) (C20 θ f)
def C22 (θ : Fin 21 → ℝ) (f : Q → ℝ) : Q → ℝ := Gate.apply θ (.ry 1 14) (C21 θ f)
def C23 (θ : Fin 21 → ℝ) (f : Q → ℝ) : Q → ℝ := Gate.apply θ (.ry 2 15) (C22 θ f)
def C24 (θ : Fin 21 → ℝ) (f : Q → ℝ) : Q → ℝ := Gate.apply θ (.cx 1 2) (C23 θ f)
def C25 (θ : Fin 21 → ℝ) (f : Q → ℝ) : Q → ℝ := Gate.apply θ (.ry 5 16) (C24 θ f)
def C26 (θ : Fin 21 → ℝ) (f : Q → ℝ) : Q → ℝ := Gate.apply θ (.ry 6 17) (C25 θ f)
def C27 (θ : Fin 21 → ℝ) (f : Q → ℝ) : Q → ℝ := Gate.apply θ (.cx 6 5) (C26 θ f)
def C28 (θ : Fin 21 → ℝ) (f : Q → ℝ) : Q → ℝ := Gate.apply θ (.ry 2 18) (C27 θ f)
def C29 (θ : Fin 21 → ℝ) (f : Q → ℝ) : Q → ℝ := Gate.apply θ (.ry 5 19) (C28 θ f)
def C30 (θ : Fin 21 → ℝ) (f : Q → ℝ) : Q → ℝ := Gate.apply θ (.cx 2 5) (C29 θ f)
def C31 (θ : Fin 21 → ℝ) (f : Q → ℝ) : Q → ℝ := Gate.apply θ (.ry 5 20) (C30 θ f)

theorem C31_eq (θ : Fin 21 → ℝ) (f : Q → ℝ) : C31 θ f = circuit θ f := rfl

theorem read0 (th : FVec Ideal S21 .f32) (θ : Fin 21 → ℝ) (hth : ∀ k : Fin 21, th (ix1 k) = ((θ k : ℝ) : EReal))
    (x0 : FVec Ideal S16384x2x2x2x2x2x2x2x2 .f32) (f0 : Fin 16384 → Q → ℝ) (h0 : ∀ (b : Fin 16384) (q : Q), st0 x0 (Gates.ix9 b q) = ((f0 b q : ℝ) : EReal))
    (b : Fin 16384) (q : Q) : st0 x0 (Gates.ix9 b q) = ((C0 θ (f0 b) q : ℝ) : EReal) := h0 b q

theorem read1 (th : FVec Ideal S21 .f32) (θ : Fin 21 → ℝ) (hth : ∀ k : Fin 21, th (ix1 k) = ((θ k : ℝ) : EReal))
    (x0 : FVec Ideal S16384x2x2x2x2x2x2x2x2 .f32) (f0 : Fin 16384 → Q → ℝ) (h0 : ∀ (b : Fin 16384) (q : Q), st0 x0 (Gates.ix9 b q) = ((f0 b q : ℝ) : EReal))
    (b : Fin 16384) (q : Q) : st1 x0 th (Gates.ix9 b q) = ((C1 θ (f0 b) q : ℝ) : EReal) := by
  unfold st1
  refine (Gates.ry_apply_1 (B := 16384) gather_S16384x2x2x2x2x2x2x2x2_S1_S16384x2x2x2x2x2x2x2_01234567_2_n_n_2_0_1638421222222.wf bcast_S_S1 bcast_S_S16384x2x2x2x2x2x2x2 reducesTo_S1_S_d0 h_S_ bcast_S16384x2x2x2x2x2x2x2_S16384x2x1x2x2x2x2x2x2_0_1_3_4_5_6_7_8 concatenates_S16384x2x1x2x2x2x2x2x2_S16384x2x1x2x2x2x2x2x2_S16384x2x2x2x2x2x2x2x2_d2 (st0 x0) _ b q).trans ?_
  exact ryE_real θ 1 0 (C0 θ (f0 b)) (fun q' => (st0 x0) (Gates.ix9 b q')) (fun q' => read0 th θ hth x0 f0 h0 b q') _
    ((theta_slice th 0 slices_S21_S1_0 shapeCasts_S1_S_).trans (hth 0)) q

theorem read2 (th : FVec Ideal S21 .f32) (θ : Fin 21 → ℝ) (hth : ∀ k : Fin 21, th (ix1 k) = ((θ k : ℝ) : EReal))
    (x0 : FVec Ideal S16384x2x2x2x2x2x2x2x2 .f32) (f0 : Fin 16384 → Q → ℝ) (h0 : ∀ (b : Fin 16384) (q : Q), st0 x0 (Gates.ix9 b q) = ((f0 b q : ℝ) : EReal))
    (b : Fin 16384) (q : Q) : st2 x0 th (Gates.ix9 b q) = ((C2 θ (f0 b) q : ℝ) : EReal) := by
  unfold st2
  refine (Gates.ry_apply_2 (B := 16384) gather_S16384x2x2x2x2x2x2x2x2_S1_S16384x2x2x2x2x2x2x2_01234567_3_n_n_3_0_1638422122222.wf bcast_S_S1 bcast_S_S16384x2x2x2x2x2x2x2 reducesTo_S1_S_d0 h_S_ bcast_S16384x2x2x2x2x2x2x2_S16384x2x2x1x2x2x2x2x2_0_1_2_4_5_6_7_8 concatenates_S16384x2x2x1x2x2x2x2x2_S16384x2x2x1x2x2x2x2x2_S16384x2x2x2x2x2x2x2x2_d3 (st1 x0 th) _ b q).trans ?_
  exact ryE_real θ 2 1 (C1 θ (f0 b)) (fun q' => (st1 x0 th) (Gates.ix9 b q')) (fun q' => read1 th θ hth x0 f0 h0 b q') _
    ((theta_slice th 1 slices_S21_S1_1 shapeCasts_S1_S_).trans (hth 1)) q

theorem read3 (th : FVec Ideal S21 .f32) (θ : Fin 21 → ℝ) (hth : ∀ k : Fin 21, th (ix1 k) = ((θ k : ℝ) : EReal))
    (x0 : FVec Ideal S16384x2x2x2x2x2x2x2x2 .f32) (f0 : Fin 16384 → Q → ℝ) (h0 : ∀ (b : Fin 16384) (q : Q), st0 x0 (Gates.ix9 b q) = ((f0 b q : ℝ) : EReal))
    (b : Fin 16384) (q : Q) : st3 x0 th (Gates.ix9 b q) = ((C3 θ (f0 b) q : ℝ) : EReal) := by
  unfold st3
  refine (Gates.cx_apply_1_2 (B := 16384) gather_S16384x2x2x2x2x2x2x2x2_S1_S16384x2x2x2x2x2x2x2_01234567_2_n_n_2_0_1638421222222.wf bcast_S_S1 bcast_S_S16384x2x2x2x2x2x2x2 reducesTo_S1_S_d0 h_S_ bcast_S16384x2x2x2x2x2x2x2_S16384x2x1x2x2x2x2x2x2_0_1_3_4_5_6_7_8 concatenates_S16384x2x1x2x2x2x2x2x2_S16384x2x1x2x2x2x2x2x2_S16384x2x2x2x2x2x2x2x2_d2 (st2 x0 th) b q).trans ?_
  exact cxE_real θ 1 2 (C2 θ (f0 b)) (fun q' => (st2 x0 th) (Gates.ix9 b q')) (fun q' => read2 th θ hth x0 f0 h0 b q') q

theorem read4 (th : FVec Ideal S21 .f32) (θ : Fin 21 → ℝ) (hth : ∀ k : Fin 21, th (ix1 k) = ((θ k : ℝ) : EReal))
    (x0 : FVec Ideal S16384x2x2x2x2x2x2x2x2 .f32) (f0 : Fin 16384 → Q → ℝ) (h0 : ∀ (b : Fin 16384) (q : Q), st0 x0 (Gates.ix9 b q) = ((f0 b q : ℝ) : EReal))
    (b : Fin 16384) (q : Q) : st4 x0 th (Gates.ix9 b q) = ((C4 θ (f0 b) q : ℝ) : EReal) := by
  unfold st4
  refine (Gates.ry_apply_5 (B := 16384) gather_S16384x2x2x2x2x2x2x2x2_S1_S16384x2x2x2x2x2x2x2_01234567_6_n_n_6_0_1638422222122.wf bcast_S_S1 bcast_S_S16384x2x2x2x2x2x2x2 reducesTo_S1_S_d0 h_S_ bcast_S16384x2x2x2x2x2x2x2_S16384x2x2x2x2x2x1x2x2_0_1_2_3_4_5_7_8 concatenates_S16384x2x2x2x2x2x1x2x2_S16384x2x2x2x2x2x1x2x2_S16384x2x2x2x2x2x2x2x2_d6 (st3 x0 th) _ b q).trans ?_
  exact ryE_real θ 5 2 (C3 θ (f0 b)) (fun q' => (st3 x0 th) (Gates.ix9 b q')) (fun q' => read3 th θ hth x0 f0 h0 b q') _
    ((theta_slice th 2 slices_S21_S1_2 shapeCasts_S1_S_).trans (hth 2)) q

theorem read5 (th : FVec Ideal S21 .f32) (θ : Fin 21 → ℝ) (hth : ∀ k : Fin 21, th (ix1 k) = ((θ k : ℝ) : EReal))
    (x0 : FVec Ideal S16384x2x2x2x2x2x2x2x2 .f32) (f0 : Fin 16384 → Q → ℝ) (h0 : ∀ (b : Fin 16384) (q : Q), st0 x0 (Gates.ix9 b q) = ((f0 b q : ℝ) : EReal))
    (b : Fin 16384) (q : Q) : st5 x0 th (Gates.ix9 b q) = ((C5 θ (f0 b) q : ℝ) : EReal) := by
  unfold st5
  refine (Gates.ry_apply_6 (B := 16384) gather_S16384x2x2x2x2x2x2x2x2_S1_S16384x2x2x2x2x2x2x2_01234567_7_n_n_7_0_1638422222212.wf bcast_S_S1 bcast_S_S16384x2x2x2x2x2x2x2 reducesTo_S1_S_d0 h_S_ bcast_S16384x2x2x2x2x2x2x2_S16384x2x2x2x2x2x2x1x2_0_1_2_3_4_5_6_8 concatenates_S16384x2x2x2x2x2x2x1x2_S16384x2x2x2x2x2x2x1x2_S16384x2x2x2x2x2x2x2x2_d7 (st4 x0 th) _ b q).trans ?_
  exact ryE_real θ 6 3 (C4 θ (f0 b)) (fun q' => (st4 x0 th) (Gates.ix9 b q')) (fun q' => read4 th θ hth x0 f0 h0 b q') _
    ((theta_slice th 3 slices_S21_S1_3 shapeCasts_S1_S_).trans (hth 3)) q

theorem read6 (th : FVec Ideal S21 .f32) (θ : Fin 21 → ℝ) (hth : ∀ k : Fin 21, th (ix1 k) = ((θ k : ℝ) : EReal))
    (x0 : FVec Ideal S16384x2x2x2x2x2x2x2x2 .f32) (f0 : Fin 16384 → Q → ℝ) (h0 : ∀ (b : Fin 16384) (q : Q), st0 x0 (Gates.ix9 b q) = ((f0 b q : ℝ) : EReal))
    (b : Fin 16384) (q : Q) : st6 x0 th (Gates.ix9 b q) = ((C6 θ (f0 b) q : ℝ) : EReal) := by
  unfold st6
  refine (Gates.cx_apply_6_5 (B := 16384) gather_S16384x2x2x2x2x2x2x2x2_S1_S16384x2x2x2x2x2x2x2_01234567_7_n_n_7_0_1638422222212.wf bcast_S_S1 bcast_S_S16384x2x2x2x2x2x2x2 reducesTo_S1_S_d0 h_S_ bcast_S16384x2x2x2x2x2x2x2_S16384x2x2x2x2x2x2x1x2_0_1_2_3_4_5_6_8 concatenates_S16384x2x2x2x2x2x2x1x2_S16384x2x2x2x2x2x2x1x2_S16384x2x2x2x2x2x2x2x2_d7 (st5 x0 th) b q).trans ?_
  exact cxE_real θ 6 5 (C5 θ (f0 b)) (fun q' => (st5 x0 th) (Gates.ix9 b q')) (fun q' => read5 th θ hth x0 f0 h0 b q') q

theorem read7 (th : FVec Ideal S21 .f32) (θ : Fin 21 → ℝ) (hth : ∀ k : Fin 21, th (ix1 k) = ((θ k : ℝ) : EReal))
    (x0 : FVec Ideal S16384x2x2x2x2x2x2x2x2 .f32) (f0 : Fin 16384 → Q → ℝ) (h0 : ∀ (b : Fin 16384) (q : Q), st0 x0 (Gates.ix9 b q) = ((f0 b q : ℝ) : EReal))
    (b : Fin 16384) (q : Q) : st7 x0 th (Gates.ix9 b q) = ((C7 θ (f0 b) q : ℝ) : EReal) := by
  unfold st7
  refine (Gates.ry_apply_0 (B := 16384) gather_S16384x2x2x2x2x2x2x2x2_S1_S16384x2x2x2x2x2x2x2_01234567_1_n_n_1_0_1638412222222.wf bcast_S_S1 bcast_S_S16384x2x2x2x2x2x2x2 reducesTo_S1_S_d0 h_S_ bcast_S16384x2x2x2x2x2x2x2_S16384x1x2x2x2x2x2x2x2_0_2_3_4_5_6_7_8 concatenates_S16384x1x2x2x2x2x2x2x2_S16384x1x2x2x2x2x2x2x2_S16384x2x2x2x2x2x2x2x2_d1 (st6 x0 th) _ b q).trans ?_
  exact ryE_real θ 0 4 (C6 θ (f0 b)) (fun q' => (st6 x0 th) (Gates.ix9 b q')) (fun q' => read6 th θ hth x0 f0 h0 b q') _
    ((theta_slice th 4 slices_S21_S1_4 shapeCasts_S1_S_).trans (hth 4)) q

theorem read8 (th : FVec Ideal S21 .f32) (θ : Fin 21 → ℝ) (hth : ∀ k : Fin 21, th (ix1 k) = ((θ k : ℝ) : EReal))
    (x0 : FVec Ideal S16384x2x2x2x2x2x2x2x2 .f32) (f0 : Fin 16384 → Q → ℝ) (h0 : ∀ (b : Fin 16384) (q : Q), st0 x0 (Gates.ix9 b q) = ((f0 b q : ℝ) : EReal))
    (b : Fin 16384) (q : Q) : st8 x0 th (Gates.ix9 b q) = ((C8 θ (f0 b) q : ℝ) : EReal) := by
  unfold st8
  refine (Gates.ry_apply_1 (B := 16384) gather_S16384x2x2x2x2x2x2x2x2_S1_S16384x2x2x2x2x2x2x2_01234567_2_n_n_2_0_1638421222222.wf bcast_S_S1 bcast_S_S16384x2x2x2x2x2x2x2 reducesTo_S1_S_d0 h_S_ bcast_S16384x2x2x2x2x2x2x2_S16384x2x1x2x2x2x2x2x2_0_1_3_4_5_6_7_8 concatenates_S16384x2x1x2x2x2x2x2x2_S16384x2x1x2x2x2x2x2x2_S16384x2x2x2x2x2x2x2x2_d2 (st7 x0 th) _ b q).trans ?_
  exact ryE_real θ 1 5 (C7 θ (f0 b)) (fun q' => (st7 x0 th) (Gates.ix9 b q')) (fun q' => read7 th θ hth x0 f0 h0 b q') _
    ((theta_slice th 5 slices_S21_S1_5 shapeCasts_S1_S_).trans (hth 5)) q

theorem read9 (th : FVec Ideal S21 .f32) (θ : Fin 21 → ℝ) (hth : ∀ k : Fin 21, th (ix1 k) = ((θ k : ℝ) : EReal))
    (x0 : FVec Ideal S16384x2x2x2x2x2x2x2x2 .f32) (f0 : Fin 16384 → Q → ℝ) (h0 : ∀ (b : Fin 16384) (q : Q), st0 x0 (Gates.ix9 b q) = ((f0 b q : ℝ) : EReal))
    (b : Fin 16384) (q : Q) : st9 x0 th (Gates.ix9 b q) = ((C9 θ (f0 b) q : ℝ) : EReal) := by
  unfold st9
  refine (Gates.cx_apply_0_1 (B := 16384) gather_S16384x2x2x2x2x2x2x2x2_S1_S16384x2x2x2x2x2x2x2_01234567_1_n_n_1_0_1638412222222.wf bcast_S_S1 bcast_S_S16384x2x2x2x2x2x2x2 reducesTo_S1_S_d0 h_S_ bcast_S16384x2x2x2x2x2x2x2_S16384x1x2x2x2x2x2x2x2_0_2_3_4_5_6_7_8 concatenates_S16384x1x2x2x2x2x2x2x2_S16384x1x2x2x2x2x2x2x2_S16384x2x2x2x2x2x2x2x2_d1 (st8 x0 th) b q).trans ?_
  exact cxE_real θ 0 1 (C8 θ (f0 b)) (fun q' => (st8 x0 th) (Gates.ix9 b q')) (fun q' => read8 th θ hth x0 f0 h0 b q') q

theorem read10 (th : FVec Ideal S21 .f32) (θ : Fin 21 → ℝ) (hth : ∀ k : Fin 21, th (ix1 k) = ((θ k : ℝ) : EReal))
    (x0 : FVec Ideal S16384x2x2x2x2x2x2x2x2 .f32) (f0 : Fin 16384 → Q → ℝ) (h0 : ∀ (b : Fin 16384) (q : Q), st0 x0 (Gates.ix9 b q) = ((f0 b q : ℝ) : EReal))
    (b : Fin 16384) (q : Q) : st10 x0 th (Gates.ix9 b q) = ((C10 θ (f0 b) q : ℝ) : EReal) := by
  unfold st10
  refine (Gates.ry_apply_2 (B := 16384) gather_S16384x2x2x2x2x2x2x2x2_S1_S16384x2x2x2x2x2x2x2_01234567_3_n_n_3_0_1638422122222.wf bcast_S_S1 bcast_S_S16384x2x2x2x2x2x2x2 reducesTo_S1_S_d0 h_S_ bcast_S16384x2x2x2x2x2x2x2_S16384x2x2x1x2x2x2x2x2_0_1_2_4_5_6_7_8 concatenates_S16384x2x2x1x2x2x2x2x2_S16384x2x2x1x2x2x2x2x2_S16384x2x2x2x2x2x2x2x2_d3 (st9 x0 th) _ b q).trans ?_
  exact ryE_real θ 2 6 (C9 θ (f0 b)) (fun q' => (st9 x0 th) (Gates.ix9 b q')) (fun q' => read9 th θ hth x0 f0 h0 b q') _
    ((theta_slice th 6 slices_S21_S1_6 shapeCasts_S1_S_).trans (hth 6)) q

theorem read11 (th : FVec Ideal S21 .f32) (θ : Fin 21 → ℝ) (hth : ∀ k : Fin 21, th (ix1 k) = ((θ k : ℝ) : EReal))
    (x0 : FVec Ideal S16384x2x2x2x2x2x2x2x2 .f32) (f0 : Fin 16384 → Q → ℝ) (h0 : ∀ (b : Fin 16384) (q : Q), st0 x0 (Gates.ix9 b q) = ((f0 b q : ℝ) : EReal))
    (b : Fin 16384) (q : Q) : st11 x0 th (Gates.ix9 b q) = ((C11 θ (f0 b) q : ℝ) : EReal) := by
  unfold st11
  refine (Gates.ry_apply_3 (B := 16384) gather_S16384x2x2x2x2x2x2x2x2_S1_S16384x2x2x2x2x2x2x2_01234567_4_n_n_4_0_1638422212222.wf bcast_S_S1 bcast_S_S16384x2x2x2x2x2x2x2 reducesTo_S1_S_d0 h_S_ bcast_S16384x2x2x2x2x2x2x2_S16384x2x2x2x1x2x2x2x2_0_1_2_3_5_6_7_8 concatenates_S16384x2x2x2x1x2x2x2x2_S16384x2x2x2x1x2x2x2x2_S16384x2x2x2x2x2x2x2x2_d4 (st10 x0 th) _ b q).trans ?_
  exact ryE_real θ 3 7 (C10 θ (f0 b)) (fun q' => (st10 x0 th) (Gates.ix9 b q')) (fun q' => read10 th θ hth x0 f0 h0 b q') _
    ((theta_slice th 7 slices_S21_S1_7 shapeCasts_S1_S_).trans (hth 7)) q

theorem read12 (th : FVec Ideal S21 .f32) (θ : Fin 21 → ℝ) (hth : ∀ k : Fin 21, th (ix1 k) = ((θ k : ℝ) : EReal))
    (x0 : FVec Ideal S16384x2x2x2x2x2x2x2x2 .f32) (f0 : Fin 16384 → Q → ℝ) (h0 : ∀ (b : Fin 16384) (q : Q), st0 x0 (Gates.ix9 b q) = ((f0 b q : ℝ) : EReal))
    (b : Fin 16384) (q : Q) : st12 x0 th (Gates.ix9 b q) = ((C12 θ (f0 b) q : ℝ) : EReal) := by
  unfold st12
  refine (Gates.cx_apply_3_2 (B := 16384) gather_S16384x2x2x2x2x2x2x2x2_S1_S16384x2x2x2x2x2x2x2_01234567_4_n_n_4_0_1638422212222.wf bcast_S_S1 bcast_S_S16384x2x2x2x2x2x2x2 reducesTo_S1_S_d0 h_S_ bcast_S16384x2x2x2x2x2x2x2_S16384x2x2x2x1x2x2x2x2_0_1_2_3_5_6_7_8 concatenates_S16384x2x2x2x1x2x2x2x2_S16384x2x2x2x1x2x2x2x2_S16384x2x2x2x2x2x2x2x2_d4 (st11 x0 th) b q).trans ?_
  exact cxE_real θ 3 2 (C11 θ (f0 b)) (fun q' => (st11 x0 th) (Gates.ix9 b q')) (fun q' => read11 th θ hth x0 f0 h0 b q') q

theorem read13 (th : FVec Ideal S21 .f32) (θ : Fin 21 → ℝ) (hth : ∀ k : Fin 21, th (ix1 k) = ((θ k : ℝ) : EReal))
    (x0 : FVec Ideal S16384x2x2x2x2x2x2x2x2 .f32) (f0 : Fin 16384 → Q → ℝ) (h0 : ∀ (b : Fin 16384) (q : Q), st0 x0 (Gates.ix9 b q) = ((f0 b q : ℝ) : EReal))
    (b : Fin 16384) (q : Q) : st13 x0 th (Gates.ix9 b q) = ((C13 θ (f0 b) q : ℝ) : EReal) := by
  unfold st13
  refine (Gates.ry_apply_4 (B := 16384) gather_S16384x2x2x2x2x2x2x2x2_S1_S16384x2x2x2x2x2x2x2_01234567_5_n_n_5_0_1638422221222.wf bcast_S_S1 bcast_S_S16384x2x2x2x2x2x2x2 reducesTo_S1_S_d0 h_S_ bcast_S16384x2x2x2x2x2x2x2_S16384x2x2x2x2x1x2x2x2_0_1_2_3_4_6_7_8 concatenates_S16384x2x2x2x2x1x2x2x2_S16384x2x2x2x2x1x2x2x2_S16384x2x2x2x2x2x2x2x2_d5 (st12 x0 th) _ b q).trans ?_
  exact ryE_real θ 4 8 (C12 θ (f0 b)) (fun q' => (st12 x0 th) (Gates.ix9 b q')) (fun q' => read12 th θ hth x0 f0 h0 b q') _
    ((theta_slice th 8 slices_S21_S1_8 shapeCasts_S1_S_).trans (hth 8)) q

theorem read14 (th : FVec Ideal S21 .f32) (θ : Fin 21 → ℝ) (hth : ∀ k : Fin 21, th (ix1 k) = ((θ k : ℝ) : EReal))
    (x0 : FVec Ideal S16384x2x2x2x2x2x2x2x2 .f32) (f0 : Fin 16384 → Q → ℝ) (h0 : ∀ (b : Fin 16384) (q : Q), st0 x0 (Gates.ix9 b q) = ((f0 b q : ℝ) : EReal))
    (b : Fin 16384) (q : Q) : st14 x0 th (Gates.ix9 b q) = ((C14 θ (f0 b) q : ℝ) : EReal) := by
  unfold st14
  refine (Gates.ry_apply_5 (B := 16384) gather_S16384x2x2x2x2x2x2x2x2_S1_S16384x2x2x2x2x2x2x2_01234567_6_n_n_6_0_1638422222122.wf bcast_S_S1 bcast_S_S16384x2x2x2x2x2x2x2 reducesTo_S1_S_d0 h_S_ bcast_S16384x2x2x2x2x2x2x2_S16384x2x2x2x2x2x1x2x2_0_1_2_3_4_5_7_8 concatenates_S16384x2x2x2x2x2x1x2x2_S16384x2x2x2x2x2x1x2x2_S16384x2x2x2x2x2x2x2x2_d6 (st13 x0 th) _ b q).trans ?_
  exact ryE_real θ 5 9 (C13 θ (f0 b)) (fun q' => (st13 x0 th) (Gates.ix9 b q')) (fun q' => read13 th θ hth x0 f0 h0 b q') _
    ((theta_slice th 9 slices_S21_S1_9 shapeCasts_S1_S_).trans (hth 9)) q

theorem read15 (th : FVec Ideal S21 .f32) (θ : Fin 21 → ℝ) (hth : ∀ k : Fin 21, th (ix1 k) = ((θ k : ℝ) : EReal))
    (x0 : FVec Ideal S16384x2x2x2x2x2x2x2x2 .f32) (f0 : Fin 16384 → Q → ℝ) (h0 : ∀ (b : Fin 16384) (q : Q), st0 x0 (Gates.ix9 b q) = ((f0 b q : ℝ) : EReal))
    (b : Fin 16384) (q : Q) : st15 x0 th (Gates.ix9 b q) = ((C15 θ (f0 b) q : ℝ) : EReal) := by
  unfold st15
  refine (Gates.cx_apply_4_5 (B := 16384) gather_S16384x2x2x2x2x2x2x2x2_S1_S16384x2x2x2x2x2x2x2_01234567_5_n_n_5_0_1638422221222.wf bcast_S_S1 bcast_S_S16384x2x2x2x2x2x2x2 reducesTo_S1_S_d0 h_S_ bcast_S16384x2x2x2x2x2x2x2_S16384x2x2x2x2x1x2x2x2_0_1_2_3_4_6_7_8 concatenates_S16384x2x2x2x2x1x2x2x2_S16384x2x2x2x2x1x2x2x2_S16384x2x2x2x2x2x2x2x2_d5 (st14 x0 th) b q).trans ?_
  exact cxE_real θ 4 5 (C14 θ (f0 b)) (fun q' => (st14 x0 th) (Gates.ix9 b q')) (fun q' => read14 th θ hth x0 f0 h0 b q') q

theorem read16 (th : FVec Ideal S21 .f32) (θ : Fin 21 → ℝ) (hth : ∀ k : Fin 21, th (ix1 k) = ((θ k : ℝ) : EReal))
    (x0 : FVec Ideal S16384x2x2x2x2x2x2x2x2 .f32) (f0 : Fin 16384 → Q → ℝ) (h0 : ∀ (b : Fin 16384) (q : Q), st0 x0 (Gates.ix9 b q) = ((f0 b q : ℝ) : EReal))
    (b : Fin 16384) (q : Q) : st16 x0 th (Gates.ix9 b q) = ((C16 θ (f0 b) q : ℝ) : EReal) := by
  unfold st16
  refine (Gates.ry_apply_6 (B := 16384) gather_S16384x2x2x2x2x2x2x2x2_S1_S16384x2x2x2x2x2x2x2_01234567_7_n_n_7_0_1638422222212.wf bcast_S_S1 bcast_S_S16384x2x2x2x2x2x2x2 reducesTo_S1_S_d0 h_S_ bcast_S16384x2x2x2x2x2x2x2_S16384x2x2x2x2x2x2x1x2_0_1_2_3_4_5_6_8 concatenates_S16384x2x2x2x2x2x2x1x2_S16384x2x2x2x2x2x2x1x2_S16384x2x2x2x2x2x2x2x2_d7 (st15 x0 th) _ b q).trans ?_
  exact ryE_real θ 6 10 (C15 θ (f0 b)) (fun q' => (st15 x0 th) (Gates.ix9 b q')) (fun q' => read15 th θ hth x0 f0 h0 b q') _
    ((theta_slice th 10 slices_S21_S1_10 shapeCasts_S1_S_).trans (hth 10)) q

theorem read17 (th : FVec Ideal S21 .f32) (θ : Fin 21 → ℝ) (hth : ∀ k : Fin 21, th (ix1 k) = ((θ k : ℝ) : EReal))
    (x0 : FVec Ideal S16384x2x2x2x2x2x2x2x2 .f32) (f0 : Fin 16384 → Q → ℝ) (h0 : ∀ (b : Fin 16384) (q : Q), st0 x0 (Gates.ix9 b q) = ((f0 b q : ℝ) : EReal))
    (b : Fin 16384) (q : Q) : st17 x0 th (Gates.ix9 b q) = ((C17 θ (f0 b) q : ℝ) : EReal) := by
  unfold st17
  refine (Gates.ry_apply_7 (B := 16384) gather_S16384x2x2x2x2x2x2x2x2_S1_S16384x2x2x2x2x2x2x2_01234567_8_n_n_8_0_1638422222221.wf bcast_S_S1 bcast_S_S16384x2x2x2x2x2x2x2 reducesTo_S1_S_d0 h_S_ bcast_S16384x2x2x2x2x2x2x2_S16384x2x2x2x2x2x2x2x1_0_1_2_3_4_5_6_7 concatenates_S16384x2x2x2x2x2x2x2x1_S16384x2x2x2x2x2x2x2x1_S16384x2x2x2x2x2x2x2x2_d8 (st16 x0 th) _ b q).trans ?_
  exact ryE_real θ 7 11 (C16 θ (f0 b)) (fun q' => (st16 x0 th) (Gates.ix9 b q')) (fun q' => read16 th θ hth x0 f0 h0 b q') _
    ((theta_slice th 11 slices_S21_S1_11 shapeCasts_S1_S_).trans (hth 11)) q

theorem read18 (th : FVec Ideal S21 .f32) (θ : Fin 21 → ℝ) (hth : ∀ k : Fin 21, th (ix1 k) = ((θ k : ℝ) : EReal))
    (x0 : FVec Ideal S16384x2x2x2x2x2x2x2x2 .f32) (f0 : Fin 16384 → Q → ℝ) (h0 : ∀ (b : Fin 16384) (q : Q), st0 x0 (Gates.ix9 b q) = ((f0 b q : ℝ) : EReal))
    (b : Fin 16384) (q : Q) : st18 x0 th (Gates.ix9 b q) = ((C18 θ (f0 b) q : ℝ) : EReal) := by
  unfold st18
  refine (Gates.cx_apply_7_6 (B := 16384) gather_S16384x2x2x2x2x2x2x2x2_S1_S16384x2x2x2x2x2x2x2_01234567_8_n_n_8_0_1638422222221.wf bcast_S_S1 bcast_S_S16384x2x2x2x2x2x2x2 reducesTo_S1_S_d0 h_S_ bcast_S16384x2x2x2x2x2x2x2_S16384x2x2x2x2x2x2x2x1_0_1_2_3_4_5_6_7 concatenates_S16384x2x2x2x2x2x2x2x1_S16384x2x2x2x2x2x2x2x1_S16384x2x2x2x2x2x2x2x2_d8 (st17 x0 th) b q).trans ?_
  exact cxE_real θ 7 6 (C17 θ (f0 b)) (fun q' => (st17 x0 th) (Gates.ix9 b q')) (fun q' => read17 th θ hth x0 f0 h0 b q') q

theorem read19 (th : FVec Ideal S21 .f32) (θ : Fin 21 → ℝ) (hth : ∀ k : Fin 21, th (ix1 k) = ((θ k : ℝ) : EReal))
    (x0 : FVec Ideal S16384x2x2x2x2x2x2x2x2 .f32) (f0 : Fin 16384 → Q → ℝ) (h0 : ∀ (b : Fin 16384) (q : Q), st0 x0 (Gates.ix9 b q) = ((f0 b q : ℝ) : EReal))
    (b : Fin 16384) (q : Q) : st19 x0 th (Gates.ix9 b q) = ((C19 θ (f0 b) q : ℝ) : EReal) := by
  unfold st19
  refine (Gates.ry_apply_2 (B := 16384) gather_S16384x2x2x2x2x2x2x2x2_S1_S16384x2x2x2x2x2x2x2_01234567_3_n_n_3_0_1638422122222.wf bcast_S_S1 bcast_S_S16384x2x2x2x2x2x2x2 reducesTo_S1_S_d0 h_S_ bcast_S16384x2x2x2x2x2x2x2_S16384x2x2x1x2x2x2x2x2_0_1_2_4_5_6_7_8 concatenates_S16384x2x2x1x2x2x2x2x2_S16384x2x2x1x2x2x2x2x2_S16384x2x2x2x2x2x2x2x2_d3 (st18 x0 th) _ b q).trans ?_
  exact ryE_real θ 2 12 (C18 θ (f0 b)) (fun q' => (st18 x0 th) (Gates.ix9 b q')) (fun q' => read18 th θ hth x0 f0 h0 b q') _
    ((theta_slice th 12 slices_S21_S1_12 shapeCasts_S1_S_).trans (hth 12)) q

theorem read20 (th : FVec Ideal S21 .f32) (θ : Fin 21 → ℝ) (hth : ∀ k : Fin 21, th (ix1 k) = ((θ k : ℝ) : EReal))
    (x0 : FVec Ideal S16384x2x2x2x2x2x2x2x2 .f32) (f0 : Fin 16384 → Q → ℝ) (h0 : ∀ (b : Fin 16384) (q : Q), st0 x0 (Gates.ix9 b q) = ((f0 b q : ℝ) : EReal))
    (b : Fin 16384) (q : Q) : st20 x0 th (Gates.ix9 b q) = ((C20 θ (f0 b) q : ℝ) : EReal) := by
  unfold st20
  refine (Gates.ry_apply_5 (B := 16384) gather_S16384x2x2x2x2x2x2x2x2_S1_S16384x2x2x2x2x2x2x2_01234567_6_n_n_6_0_1638422222122.wf bcast_S_S1 bcast_S_S16384x2x2x2x2x2x2x2 reducesTo_S1_S_d0 h_S_ bcast_S16384x2x2x2x2x2x2x2_S16384x2x2x2x2x2x1x2x2_0_1_2_3_4_5_7_8 concatenates_S16384x2x2x2x2x2x1x2x2_S16384x2x2x2x2x2x1x2x2_S16384x2x2x2x2x2x2x2x2_d6 (st19 x0 th) _ b q).trans ?_
  exact ryE_real θ 5 13 (C19 θ (f0 b)) (fun q' => (st19 x0 th) (Gates.ix9 b q')) (fun q' => read19 th θ hth x0 f0 h0 b q') _
    ((theta_slice th 13 slices_S21_S1_13 shapeCasts_S1_S_).trans (hth 13)) q

theorem read21 (th : FVec Ideal S21 .f32) (θ : Fin 21 → ℝ) (hth : ∀ k : Fin 21, th (ix1 k) = ((θ k : ℝ) : EReal))
    (x0 : FVec Ideal S16384x2x2x2x2x2x2x2x2 .f32) (f0 : Fin 16384 → Q → ℝ) (h0 : ∀ (b : Fin 16384) (q : Q), st0 x0 (Gates.ix9 b q) = ((f0 b q : ℝ) : EReal))
    (b : Fin 16384) (q : Q) : st21 x0 th (Gates.ix9 b q) = ((C21 θ (f0 b) q : ℝ) : EReal) := by
  unfold st21
  refine (Gates.cx_apply_2_5 (B := 16384) gather_S16384x2x2x2x2x2x2x2x2_S1_S16384x2x2x2x2x2x2x2_01234567_3_n_n_3_0_1638422122222.wf bcast_S_S1 bcast_S_S16384x2x2x2x2x2x2x2 reducesTo_S1_S_d0 h_S_ bcast_S16384x2x2x2x2x2x2x2_S16384x2x2x1x2x2x2x2x2_0_1_2_4_5_6_7_8 concatenates_S16384x2x2x1x2x2x2x2x2_S16384x2x2x1x2x2x2x2x2_S16384x2x2x2x2x2x2x2x2_d3 (st20 x0 th) b q).trans ?_
  exact cxE_real θ 2 5 (C20 θ (f0 b)) (fun q' => (st20 x0 th) (Gates.ix9 b q')) (fun q' => read20 th θ hth x0 f0 h0 b q') q

theorem read22 (th : FVec Ideal S21 .f32) (θ : Fin 21 → ℝ) (hth : ∀ k : Fin 21, th (ix1 k) = ((θ k : ℝ) : EReal))
    (x0 : FVec Ideal S16384x2x2x2x2x2x2x2x2 .f32) (f0 : Fin 16384 → Q → ℝ) (h0 : ∀ (b : Fin 16384) (q : Q), st0 x0 (Gates.ix9 b q) = ((f0 b q : ℝ) : EReal))
    (b : Fin 16384) (q : Q) : st22 x0 th (Gates.ix9 b q) = ((C22 θ (f0 b) q : ℝ) : EReal) := by
  unfold st22
  refine (Gates.ry_apply_1 (B := 16384) gather_S16384x2x2x2x2x2x2x2x2_S1_S16384x2x2x2x2x2x2x2_01234567_2_n_n_2_0_1638421222222.wf bcast_S_S1 bcast_S_S16384x2x2x2x2x2x2x2 reducesTo_S1_S_d0 h_S_ bcast_S16384x2x2x2x2x2x2x2_S16384x2x1x2x2x2x2x2x2_0_1_3_4_5_6_7_8 concatenates_S16384x2x1x2x2x2x2x2x2_S16384x2x1x2x2x2x2x2x2_S16384x2x2x2x2x2x2x2x2_d2 (st21 x0 th) _ b q).trans ?_
  exact ryE_real θ 1 14 (C21 θ (f0 b)) (fun q' => (st21 x0 th) (Gates.ix9 b q')) (fun q' => read21 th θ hth x0 f0 h0 b q') _
    ((theta_slice th 14 slices_S21_S1_14 shapeCasts_S1_S_).trans (hth 14)) q

theorem read23 (th : FVec Ideal S21 .f32) (θ : Fin 21 → ℝ) (hth : ∀ k : Fin 21, th (ix1 k) = ((θ k : ℝ) : EReal))
    (x0 : FVec Ideal S16384x2x2x2x2x2x2x2x2 .f32) (f0 : Fin 16384 → Q → ℝ) (h0 : ∀ (b : Fin 16384) (q : Q), st0 x0 (Gates.ix9 b q) = ((f0 b q : ℝ) : EReal))
    (b : Fin 16384) (q : Q) : st23 x0 th (Gates.ix9 b q) = ((C23 θ (f0 b) q : ℝ) : EReal) := by
  unfold st23
  refine (Gates.ry_apply_2 (B := 16384) gather_S16384x2x2x2x2x2x2x2x2_S1_S16384x2x2x2x2x2x2x2_01234567_3_n_n_3_0_1638422122222.wf bcast_S_S1 bcast_S_S16384x2x2x2x2x2x2x2 reducesTo_S1_S_d0 h_S_ bcast_S16384x2x2x2x2x2x2x2_S16384x2x2x1x2x2x2x2x2_0_1_2_4_5_6_7_8 concatenates_S16384x2x2x1x2x2x2x2x2_S16384x2x2x1x2x2x2x2x2_S16384x2x2x2x2x2x2x2x2_d3 (st22 x0 th) _ b q).trans ?_
  exact ryE_real θ 2 15 (C22 θ (f0 b)) (fun q' => (st22 x0 th) (Gates.ix9 b q')) (fun q' => read22 th θ hth x0 f0 h0 b q') _
    ((theta_slice th 15 slices_S21_S1_15 shapeCasts_S1_S_).trans (hth 15)) q

theorem read24 (th : FVec Ideal S21 .f32) (θ : Fin 21 → ℝ) (hth : ∀ k : Fin 21, th (ix1 k) = ((θ k : ℝ) : EReal))
    (x0 : FVec Ideal S16384x2x2x2x2x2x2x2x2 .f32) (f0 : Fin 16384 → Q → ℝ) (h0 : ∀ (b : Fin 16384) (q : Q), st0 x0 (Gates.ix9 b q) = ((f0 b q : ℝ) : EReal))
    (b : Fin 16384) (q : Q) : st24 x0 th (Gates.ix9 b q) = ((C24 θ (f0 b) q : ℝ) : EReal) := by
  unfold st24
  refine (Gates.cx_apply_1_2 (B := 16384) gather_S16384x2x2x2x2x2x2x2x2_S1_S16384x2x2x2x2x2x2x2_01234567_2_n_n_2_0_1638421222222.wf bcast_S_S1 bcast_S_S16384x2x2x2x2x2x2x2 reducesTo_S1_S_d0 h_S_ bcast_S16384x2x2x2x2x2x2x2_S16384x2x1x2x2x2x2x2x2_0_1_3_4_5_6_7_8 concatenates_S16384x2x1x2x2x2x2x2x2_S16384x2x1x2x2x2x2x2x2_S16384x2x2x2x2x2x2x2x2_d2 (st23 x0 th) b q).trans ?_
  exact cxE_real θ 1 2 (C23 θ (f0 b)) (fun q' => (st23 x0 th) (Gates.ix9 b q')) (fun q' => read23 th θ hth x0 f0 h0 b q') q

theorem read25 (th : FVec Ideal S21 .f32) (θ : Fin 21 → ℝ) (hth : ∀ k : Fin 21, th (ix1 k) = ((θ k : ℝ) : EReal))
    (x0 : FVec Ideal S16384x2x2x2x2x2x2x2x2 .f32) (f0 : Fin 16384 → Q → ℝ) (h0 : ∀ (b : Fin 16384) (q : Q), st0 x0 (Gates.ix9 b q) = ((f0 b q : ℝ) : EReal))
    (b : Fin 16384) (q : Q) : st25 x0 th (Gates.ix9 b q) = ((C25 θ (f0 b) q : ℝ) : EReal) := by
  unfold st25
  refine (Gates.ry_apply_5 (B := 16384) gather_S16384x2x2x2x2x2x2x2x2_S1_S16384x2x2x2x2x2x2x2_01234567_6_n_n_6_0_1638422222122.wf bcast_S_S1 bcast_S_S16384x2x2x2x2x2x2x2 reducesTo_S1_S_d0 h_S_ bcast_S16384x2x2x2x2x2x2x2_S16384x2x2x2x2x2x1x2x2_0_1_2_3_4_5_7_8 concatenates_S16384x2x2x2x2x2x1x2x2_S16384x2x2x2x2x2x1x2x2_S16384x2x2x2x2x2x2x2x2_d6 (st24 x0 th) _ b q).trans ?_
  exact ryE_real θ 5 16 (C24 θ (f0 b)) (fun q' => (st24 x0 th) (Gates.ix9 b q')) (fun q' => read24 th θ hth x0 f0 h0 b q') _
    ((theta_slice th 16 slices_S21_S1_16 shapeCasts_S1_S_).trans (hth 16)) q

theorem read26 (th : FVec Ideal S21 .f32) (θ : Fin 21 → ℝ) (hth : ∀ k : Fin 21, th (ix1 k) = ((θ k : ℝ) : EReal))
    (x0 : FVec Ideal S16384x2x2x2x2x2x2x2x2 .f32) (f0 : Fin 16384 → Q → ℝ) (h0 : ∀ (b : Fin 16384) (q : Q), st0 x0 (Gates.ix9 b q) = ((f0 b q : ℝ) : EReal))
    (b : Fin 16384) (q : Q) : st26 x0 th (Gates.ix9 b q) = ((C26 θ (f0 b) q : ℝ) : EReal) := by
  unfold st26
  refine (Gates.ry_apply_6 (B := 16384) gather_S16384x2x2x2x2x2x2x2x2_S1_S16384x2x2x2x2x2x2x2_01234567_7_n_n_7_0_1638422222212.wf bcast_S_S1 bcast_S_S16384x2x2x2x2x2x2x2 reducesTo_S1_S_d0 h_S_ bcast_S16384x2x2x2x2x2x2x2_S16384x2x2x2x2x2x2x1x2_0_1_2_3_4_5_6_8 concatenates_S16384x2x2x2x2x2x2x1x2_S16384x2x2x2x2x2x2x1x2_S16384x2x2x2x2x2x2x2x2_d7 (st25 x0 th) _ b q).trans ?_
  exact ryE_real θ 6 17 (C25 θ (f0 b)) (fun q' => (st25 x0 th) (Gates.ix9 b q')) (fun q' => read25 th θ hth x0 f0 h0 b q') _
    ((theta_slice th 17 slices_S21_S1_17 shapeCasts_S1_S_).trans (hth 17)) q

theorem read27 (th : FVec Ideal S21 .f32) (θ : Fin 21 → ℝ) (hth : ∀ k : Fin 21, th (ix1 k) = ((θ k : ℝ) : EReal))
    (x0 : FVec Ideal S16384x2x2x2x2x2x2x2x2 .f32) (f0 : Fin 16384 → Q → ℝ) (h0 : ∀ (b : Fin 16384) (q : Q), st0 x0 (Gates.ix9 b q) = ((f0 b q : ℝ) : EReal))
    (b : Fin 16384) (q : Q) : st27 x0 th (Gates.ix9 b q) = ((C27 θ (f0 b) q : ℝ) : EReal) := by
  unfold st27
  refine (Gates.cx_apply_6_5 (B := 16384) gather_S16384x2x2x2x2x2x2x2x2_S1_S16384x2x2x2x2x2x2x2_01234567_7_n_n_7_0_1638422222212.wf bcast_S_S1 bcast_S_S16384x2x2x2x2x2x2x2 reducesTo_S1_S_d0 h_S_ bcast_S16384x2x2x2x2x2x2x2_S16384x2x2x2x2x2x2x1x2_0_1_2_3_4_5_6_8 concatenates_S16384x2x2x2x2x2x2x1x2_S16384x2x2x2x2x2x2x1x2_S16384x2x2x2x2x2x2x2x2_d7 (st26 x0 th) b q).trans ?_
  exact cxE_real θ 6 5 (C26 θ (f0 b)) (fun q' => (st26 x0 th) (Gates.ix9 b q')) (fun q' => read26 th θ hth x0 f0 h0 b q') q

theorem read28 (th : FVec Ideal S21 .f32) (θ : Fin 21 → ℝ) (hth : ∀ k : Fin 21, th (ix1 k) = ((θ k : ℝ) : EReal))
    (x0 : FVec Ideal S16384x2x2x2x2x2x2x2x2 .f32) (f0 : Fin 16384 → Q → ℝ) (h0 : ∀ (b : Fin 16384) (q : Q), st0 x0 (Gates.ix9 b q) = ((f0 b q : ℝ) : EReal))
    (b : Fin 16384) (q : Q) : st28 x0 th (Gates.ix9 b q) = ((C28 θ (f0 b) q : ℝ) : EReal) := by
  unfold st28
  refine (Gates.ry_apply_2 (B := 16384) gather_S16384x2x2x2x2x2x2x2x2_S1_S16384x2x2x2x2x2x2x2_01234567_3_n_n_3_0_1638422122222.wf bcast_S_S1 bcast_S_S16384x2x2x2x2x2x2x2 reducesTo_S1_S_d0 h_S_ bcast_S16384x2x2x2x2x2x2x2_S16384x2x2x1x2x2x2x2x2_0_1_2_4_5_6_7_8 concatenates_S16384x2x2x1x2x2x2x2x2_S16384x2x2x1x2x2x2x2x2_S16384x2x2x2x2x2x2x2x2_d3 (st27 x0 th) _ b q).trans ?_
  exact ryE_real θ 2 18 (C27 θ (f0 b)) (fun q' => (st27 x0 th) (Gates.ix9 b q')) (fun q' => read27 th θ hth x0 f0 h0 b q') _
    ((theta_slice th 18 slices_S21_S1_18 shapeCasts_S1_S_).trans (hth 18)) q

theorem read29 (th : FVec Ideal S21 .f32) (θ : Fin 21 → ℝ) (hth : ∀ k : Fin 21, th (ix1 k) = ((θ k : ℝ) : EReal))
    (x0 : FVec Ideal S16384x2x2x2x2x2x2x2x2 .f32) (f0 : Fin 16384 → Q → ℝ) (h0 : ∀ (b : Fin 16384) (q : Q), st0 x0 (Gates.ix9 b q) = ((f0 b q : ℝ) : EReal))
    (b : Fin 16384) (q : Q) : st29 x0 th (Gates.ix9 b q) = ((C29 θ (f0 b) q : ℝ) : EReal) := by
  unfold st29
  refine (Gates.ry_apply_5 (B := 16384) gather_S16384x2x2x2x2x2x2x2x2_S1_S16384x2x2x2x2x2x2x2_01234567_6_n_n_6_0_1638422222122.wf bcast_S_S1 bcast_S_S16384x2x2x2x2x2x2x2 reducesTo_S1_S_d0 h_S_ bcast_S16384x2x2x2x2x2x2x2_S16384x2x2x2x2x2x1x2x2_0_1_2_3_4_5_7_8 concatenates_S16384x2x2x2x2x2x1x2x2_S16384x2x2x2x2x2x1x2x2_S16384x2x2x2x2x2x2x2x2_d6 (st28 x0 th) _ b q).trans ?_
  exact ryE_real θ 5 19 (C28 θ (f0 b)) (fun q' => (st28 x0 th) (Gates.ix9 b q')) (fun q' => read28 th θ hth x0 f0 h0 b q') _
    ((theta_slice th 19 slices_S21_S1_19 shapeCasts_S1_S_).trans (hth 19)) q

theorem read30 (th : FVec Ideal S21 .f32) (θ : Fin 21 → ℝ) (hth : ∀ k : Fin 21, th (ix1 k) = ((θ k : ℝ) : EReal))
    (x0 : FVec Ideal S16384x2x2x2x2x2x2x2x2 .f32) (f0 : Fin 16384 → Q → ℝ) (h0 : ∀ (b : Fin 16384) (q : Q), st0 x0 (Gates.ix9 b q) = ((f0 b q : ℝ) : EReal))
    (b : Fin 16384) (q : Q) : st30 x0 th (Gates.ix9 b q) = ((C30 θ (f0 b) q : ℝ) : EReal) := by
  unfold st30
  refine (Gates.cx_apply_2_5 (B := 16384) gather_S16384x2x2x2x2x2x2x2x2_S1_S16384x2x2x2x2x2x2x2_01234567_3_n_n_3_0_1638422122222.wf bcast_S_S1 bcast_S_S16384x2x2x2x2x2x2x2 reducesTo_S1_S_d0 h_S_ bcast_S16384x2x2x2x2x2x2x2_S16384x2x2x1x2x2x2x2x2_0_1_2_4_5_6_7_8 concatenates_S16384x2x2x1x2x2x2x2x2_S16384x2x2x1x2x2x2x2x2_S16384x2x2x2x2x2x2x2x2_d3 (st29 x0 th) b q).trans ?_
  exact cxE_real θ 2 5 (C29 θ (f0 b)) (fun q' => (st29 x0 th) (Gates.ix9 b q')) (fun q' => read29 th θ hth x0 f0 h0 b q') q

theorem read31 (th : FVec Ideal S21 .f32) (θ : Fin 21 → ℝ) (hth : ∀ k : Fin 21, th (ix1 k) = ((θ k : ℝ) : EReal))
    (x0 : FVec Ideal S16384x2x2x2x2x2x2x2x2 .f32) (f0 : Fin 16384 → Q → ℝ) (h0 : ∀ (b : Fin 16384) (q : Q), st0 x0 (Gates.ix9 b q) = ((f0 b q : ℝ) : EReal))
    (b : Fin 16384) (q : Q) : st31 x0 th (Gates.ix9 b q) = ((C31 θ (f0 b) q : ℝ) : EReal) := by
  unfold st31
  refine (Gates.ry_apply_5 (B := 16384) gather_S16384x2x2x2x2x2x2x2x2_S1_S16384x2x2x2x2x2x2x2_01234567_6_n_n_6_0_1638422222122.wf bcast_S_S1 bcast_S_S16384x2x2x2x2x2x2x2 reducesTo_S1_S_d0 h_S_ bcast_S16384x2x2x2x2x2x2x2_S16384x2x2x2x2x2x1x2x2_0_1_2_3_4_5_7_8 concatenates_S16384x2x2x2x2x2x1x2x2_S16384x2x2x2x2x2x1x2x2_S16384x2x2x2x2x2x2x2x2_d6 (st30 x0 th) _ b q).trans ?_
  exact ryE_real θ 5 20 (C30 θ (f0 b)) (fun q' => (st30 x0 th) (Gates.ix9 b q')) (fun q' => read30 th θ hth x0 f0 h0 b q') _
    ((theta_slice th 20 slices_S21_S1_20 shapeCasts_S1_S_).trans (hth 20)) q

end Cert.TTN.RHost

end
-- ==== Proof.RefEndsSum.lean ====
/-
  The sum of a state array over every wire but wire 5, read at a register and a bit.

  The state of `B` registers has one axis for the register and one axis of length 2 for each of the eight wires.
  Summing it over the axes of wires 0, 1, 2, 3, 4, 6 and 7 leaves a `B × 2` array.  Its entry at register `e` and bit
  `b` is the sum of the state over the indices whose register is `e` and whose wire-5 bit is `b`; indexing the
  state by basis states `q`, that is the sum over all `q` of the entry at `(e, q)` when `q 5 = b` and of 0 otherwise.
  Also here: a column of a `B × n` array and the cast of a one-column array to a vector, read at an entry.
-/
import proofs.«130987_j14276471292017_1_alg».proof.Proof.Idx9
import Idealize.ShloMosaic.PureOps.Ideal.Laws
import Idealize.ShloMosaic.Lib.IdealHost
import Idealize.ShloMosaic.Lib.ValueLayout

noncomputable section

open scoped BigOperators

namespace Cert.TTN.RHost

open Idealize.ShloMosaic Idealize.ShloMosaic.ValueIdx Cert.TTN.Gates

/-- An index of the state array is a register and a basis state. -/
def idx9Equiv (B : Nat) : (S9 B).Idx ≃ Fin B × Cert.TTN.Q where
  toFun j := (j 0, qOf j)
  invFun p := ix9 p.1 p.2
  left_inv j := (eq_ix9 j).symm
  right_inv p := Prod.ext (ix9_zero p.1 p.2) (qOf_ix9 p.1 p.2)

/-- The sum over every wire but wire 5, read at register `e` and bit `b`. -/
theorem reduce_wire5 (h : (S9 16384).ReducesTo [1, 2, 3, 4, 5, 7, 8] ⟨2, ![16384, 2]⟩) (f : (S9 16384).Idx → EReal)
    (init : EReal) (e : Fin 16384) (b : Fin 2) :
    Ideal.hostReduceAdd h f init (ix2 e b) = init + ∑ q : Cert.TTN.Q, if q 5 = b then f (ix9 e q) else 0 := by
  unfold Ideal.hostReduceAdd
  refine congrArg (init + ·) ?_
  have hd : ∀ (e' : Fin 16384) (q : Cert.TTN.Q), h.drop (ix9 e' q) = ix2 e b ↔ (e' = e ∧ q 5 = b) := by
    intro e' q
    have d0 : (h.drop (ix9 e' q) 0 : Nat) = e'.val := h.drop_apply_val_of_eq (ix9 e' q) 0 0
    have d1 : (h.drop (ix9 e' q) 1 : Nat) = (q 5).val := h.drop_apply_val_of_eq (ix9 e' q) 1 6
    constructor
    · intro hh
      have h0 : (h.drop (ix9 e' q) 0 : Nat) = e.val := congrArg (fun j => ((j 0 : Fin _) : Nat)) hh
      have h1 : (h.drop (ix9 e' q) 1 : Nat) = b.val := congrArg (fun j => ((j 1 : Fin _) : Nat)) hh
      exact ⟨Fin.ext (d0.symm.trans h0), Fin.ext (d1.symm.trans h1)⟩
    · rintro ⟨rfl, rfl⟩
      funext a
      apply Fin.ext
      match a with
      | ⟨0, _⟩ => exact d0
      | ⟨1, _⟩ => exact d1
  rw [Finset.sum_filter, ← Equiv.sum_comp (idx9Equiv 16384).symm, Fintype.sum_prod_type]
  show ∑ e' : Fin 16384, ∑ q : Cert.TTN.Q, (if h.drop (ix9 e' q) = ix2 e b then f (ix9 e' q) else 0) = _
  rw [Finset.sum_eq_single e]
  · refine Finset.sum_congr rfl fun q _ => ?_
    by_cases hq : q 5 = b
    · rw [if_pos ((hd e q).mpr ⟨rfl, hq⟩), if_pos hq]
    · rw [if_neg (fun hh => hq ((hd e q).mp hh).2), if_neg hq]
  · intro e' _ hne
    refine Finset.sum_eq_zero fun q _ => ?_
    rw [if_neg (fun hh => hne ((hd e' q).mp hh).1)]
  · intro hne
    exact absurd (Finset.mem_univ e) hne

section Layout
variable {α : Type}

/-- Column `c` cut out of a B × n array, read at row `e`: the entry `(e, c)`. -/
theorem col_apply {B n : Nat} (c : Nat) (hc : c < n) (x : (⟨2, ![B, n]⟩ : Shape).Idx → α)
    (h : (⟨2, ![B, n]⟩ : Shape).Slices ![0, c] ⟨2, ![B, 1]⟩) (e : Fin B) (z : Fin 1) :
    extractStridedSlice ⟨2, ![B, 1]⟩ ![0, c] x h (ix2 e z) = x (ix2 e ⟨c, hc⟩) :=
  extractStridedSlice_apply _ x h _ _ fun a => match a with
    | ⟨0, _⟩ => by show e.val = 0 + e.val; omega
    | ⟨1, _⟩ => by show c = c + z.val; have := z.isLt; omega

/-- A one-column array cast to a vector reads, at `e`, the column's entry at row `e`. -/
theorem shapeCast_a1_a_apply {a : Nat} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

end Layout

/-! ## The reference's result from the final state -/

/-- From the final state: the squares summed over every wire but wire 5, the difference of the two marginals,
    one minus it, halved — read at edge `e`. The shape facts are hypotheses, so that the statement names no program. -/
theorem tail_generic (st : FVec Ideal (S9 16384) .f32)
    (hR : (S9 16384).ReducesTo [1, 2, 3, 4, 5, 7, 8] ⟨2, ![16384, 2]⟩) (hS : 0 < (⟨0, ![]⟩ : Shape).numel)
    (hs0 : (⟨2, ![16384, 2]⟩ : Shape).Slices ![0, 0] ⟨2, ![16384, 1]⟩)
    (hs1 : (⟨2, ![16384, 2]⟩ : Shape).Slices ![0, 1] ⟨2, ![16384, 1]⟩)
    (hc : (⟨2, ![16384, 1]⟩ : Shape).ShapeCasts ⟨1, ![16384]⟩)
    (hb : (⟨0, ![]⟩ : Shape).BroadcastsInDim ⟨1, ![16384]⟩ ![]) (e : Fin 16384) :
    Host.divf
        (subf (broadcastInDim ⟨1, ![16384]⟩ ![] hb (constant (F := Ideal) ⟨0, ![]⟩ .f32 0x3F800000#32))
          (subf
            (shapeCast ⟨1, ![16384]⟩ (extractStridedSlice ⟨2, ![16384, 1]⟩ ![0, 0]
              (Host.reduceAdd (mulf st st) (constant (F := Ideal) ⟨0, ![]⟩ .f32 0x00000000#32) hR hS) hs0) hc)
            (shapeCast ⟨1, ![16384]⟩ (extractStridedSlice ⟨2, ![16384, 1]⟩ ![0, 1]
              (Host.reduceAdd (mulf st st) (constant (F := Ideal) ⟨0, ![]⟩ .f32 0x00000000#32) hR hS) hs1) hc)))
        (broadcastInDim ⟨1, ![16384]⟩ ![] hb (constant (F := Ideal) ⟨0, ![]⟩ .f32 0x40000000#32)) (ix1 e)
      = Ideal.div
          (Ideal.ofBits .f32 0x3F800000#32
            - ((0 + ∑ q : Cert.TTN.Q, if q 5 = 0 then st (ix9 e q) * st (ix9 e q) else 0)
              - (0 + ∑ q : Cert.TTN.Q, if q 5 = 1 then st (ix9 e q) * st (ix9 e q) else 0)))
          (Ideal.ofBits .f32 0x40000000#32) := by
  have m0 : ∀ (hs : (⟨2, ![16384, 2]⟩ : Shape).Slices ![0, 0] ⟨2, ![16384, 1]⟩),
      shapeCast ⟨1, ![16384]⟩ (extractStridedSlice ⟨2, ![16384, 1]⟩ ![0, 0]
          (Host.reduceAdd (mulf st st) (constant (F := Ideal) ⟨0, ![]⟩ .f32 0x00000000#32) hR hS) hs) hc (ix1 e)
        = 0 + ∑ q : Cert.TTN.Q, if q 5 = 0 then st (ix9 e q) * st (ix9 e q) else 0 := fun hs => by
    rw [shapeCast_a1_a_apply, col_apply 0 (by decide), hostReduceAdd_apply, reduce_wire5, constant_apply,
      Ideal.ofBits_zero_f32]
    rfl
  have m1 : ∀ (hs : (⟨2, ![16384, 2]⟩ : Shape).Slices ![0, 1] ⟨2, ![16384, 1]⟩),
      shapeCast ⟨1, ![16384]⟩ (extractStridedSlice ⟨2, ![16384, 1]⟩ ![0, 1]
          (Host.reduceAdd (mulf st st) (constant (F := Ideal) ⟨0, ![]⟩ .f32 0x00000000#32) hR hS) hs) hc (ix1 e)
        = 0 + ∑ q : Cert.TTN.Q, if q 5 = 1 then st (ix9 e q) * st (ix9 e q) else 0 := fun hs => by
    rw [shapeCast_a1_a_apply, col_apply 1 (by decide), hostReduceAdd_apply, reduce_wire5, constant_apply,
      Ideal.ofBits_zero_f32]
    rfl
  rw [hostDivf_apply, subf_apply, subf_apply, m0 hs0, m1 hs1, broadcastInDim_scalar_apply,
    broadcastInDim_scalar_apply, constant_apply, constant_apply]

end Cert.TTN.RHost

end
-- ==== Proof.RefEndsHead.lean ====
/-
  The reference's product state, read at a register and a basis state.

  The reference pairs the cosine and the sine of each half angle in an array [edge, wire, 2] (`amps`), starts from wire
  0's pair [edge, 2], and for each further wire `w` appends an axis of length 2: the state so far, spread along the new
  axis, times wire `w`'s pair recast to [edge, 1, …, 1, 2] and spread over the old axes.  Read at edge `e` and bits
  `(q 0, …, q w)` the new state is the old state at `(q 0, …, q (w-1))` times `amps (e, w, q w)`.  This file proves
  the pieces: the amplitude array at an entry (the cosine or sine of the half angle), a wire's pair cut out of it, the
  spreading of the old state (`lift`), and the recast and spreading of a pair (`pad`), for every number of axes
  from 3 to 9.  A recast that only inserts unit axes after the first axis keeps the row-major position (`rowMajor_unit1`).
-/
import proofs.«130987_j14276471292017_1_alg».proof.Proof.Idx9
import proofs.«130987_j14276471292017_1_alg».proof.Proof.Angles
import Idealize.ShloMosaic.PureOps.Ideal.Laws
import Idealize.ShloMosaic.Lib.IdealHost
import Idealize.ShloMosaic.Lib.ValueLayout
import Idealize.ShloMosaic.Lib.Pipeline.Value

noncomputable section

open scoped BigOperators

namespace Cert.TTN.RHost

open Idealize.ShloMosaic Idealize.ShloMosaic.ValueIdx Cert.TTN.Gates

/-! ## The half angles and the amplitude array -/

section Angles
variable {K m n : Nat} {φ₁ φ₂ : FTy}

/-- The host's product contracting the ROWS of both operands: entry `(a, b)` is the sum over `c` of
    `A (c, a) · B (c, b)`. -/
theorem dotT_apply (w : DotDims.WF ⟨2, ![K, m]⟩ ⟨2, ![K, n]⟩ ⟨2, ![m, n]⟩ [0] [0] [1] [1] [] [])
    (prec : Option ContractPrecision) (A : FVec Ideal ⟨2, ![K, m]⟩ φ₁) (B : FVec Ideal ⟨2, ![K, n]⟩ φ₂)
    (a : Fin m) (b : Fin n) :
    Host.dotGeneral (⟨[0], [0], [1], [1], [], [], w⟩ : DotDims _ _ _) prec A B (ix2 a b)
      = ∑ c : Fin K, A (ix2 c a) * B (ix2 c b) := by
  show FloatOps.dotGeneral _ prec _ A B (ix2 a b) = _
  rw [Ideal.dotGeneral_apply,
    ← Equiv.sum_comp (contrEquiv1 (⟨[0], [0], [1], [1], [], [], w⟩ : DotDims _ _ _) K rfl rfl).symm]
  refine Finset.sum_congr rfl fun c _ => ?_
  have c2 := contrEquiv1_symm_val
    (⟨[0], [0], [1], [1], [], [], w⟩ : DotDims ⟨2, ![K, m]⟩ ⟨2, ![K, n]⟩ ⟨2, ![m, n]⟩) K rfl rfl c
  have l2 : (⟨[0], [0], [1], [1], [], [], w⟩ : DotDims ⟨2, ![K, m]⟩ ⟨2, ![K, n]⟩ ⟨2, ![m, n]⟩).lhsIdx (ix2 a b)
      ((contrEquiv1 _ K rfl rfl).symm c) = ix2 c a := by
    funext ax; apply Fin.ext
    match ax with
    | ⟨0, _⟩ => simp [DotDims.lhsIdx]; exact c2
    | ⟨1, _⟩ => simp [DotDims.lhsIdx]; rfl
  have r2 : (⟨[0], [0], [1], [1], [], [], w⟩ : DotDims ⟨2, ![K, m]⟩ ⟨2, ![K, n]⟩ ⟨2, ![m, n]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

end Angles

section Concat
variable {α : Type}

/-- Two R × n blocks side by side, read in the left block. -/
theorem concat2_left {R n m : Nat} (x₁ x₂ : (⟨2, ![R, n]⟩ : Shape).Idx → α)
    (h : Shape.Concatenates [(⟨2, ![R, n]⟩ : Shape), ⟨2, ![R, n]⟩] ⟨2, ![R, m]⟩ 1) (r : Fin R) (j : Fin m)
    (hj : j.val < n) :
    concatenate ⟨2, ![R, m]⟩ 1 [⟨⟨2, ![R, n]⟩, x₁⟩, ⟨⟨2, ![R, n]⟩, x₂⟩] h (ix2 r j) = x₁ (ix2 r ⟨j.val, hj⟩) :=
  concatenate_pair_apply_left 1 x₁ x₂ h (ix2 r j) rfl (ix2 r ⟨j.val, hj⟩) fun b => match b with
    | ⟨0, _⟩ => rfl
    | ⟨1, _⟩ => rfl

/-- Two R × n blocks side by side, read in the right block. -/
theorem concat2_right {R n m : Nat} (x₁ x₂ : (⟨2, ![R, n]⟩ : Shape).Idx → α)
    (h : Shape.Concatenates [(⟨2, ![R, n]⟩ : Shape), ⟨2, ![R, n]⟩] ⟨2, ![R, m]⟩ 1) (r : Fin R) (j : Fin m)
    (hj : n ≤ j.val) (hm : m = n + n) :
    concatenate ⟨2, ![R, m]⟩ 1 [⟨⟨2, ![R, n]⟩, x₁⟩, ⟨⟨2, ![R, n]⟩, x₂⟩] h (ix2 r j)
      = x₂ (ix2 r ⟨j.val - n, by have := j.isLt; omega⟩) :=
  concatenate_pair_apply_right 1 x₁ x₂ h (ix2 r j) rfl rfl (ix2 r ⟨j.val - n, by have := j.isLt; omega⟩)
    (fun b => match b with
      | ⟨0, _⟩ => fun _ => rfl
      | ⟨1, _⟩ => fun hb => absurd rfl hb)
    (by show j.val - n + n = j.val; omega)

end Concat

/-- The halved products at `(e, w)`: the half angle of wire `w` at edge `e`. -/
theorem half_apply (x : FVec Ideal ⟨2, ![2048, 4]⟩ .f32) (ri ro : FVec Ideal ⟨2, ![2048, 16384]⟩ .f32)
    (wf : DotDims.WF ⟨2, ![2048, 16384]⟩ ⟨2, ![2048, 4]⟩ ⟨2, ![16384, 4]⟩ [0] [0] [1] [1] [] [])
    (hc4 : Shape.Concatenates [(⟨2, ![16384, 4]⟩ : Shape), ⟨2, ![16384, 4]⟩] ⟨2, ![16384, 8]⟩ 1)
    (hb0 : (⟨0, ![]⟩ : Shape).BroadcastsInDim ⟨2, ![16384, 8]⟩ ![]) (e : Fin 16384) (w : Fin 8) :
    mulf (broadcastInDim ⟨2, ![16384, 8]⟩ ![] hb0 (constant (F := Ideal) ⟨0, ![]⟩ .f32 0x3F000000#32))
        (concatenate ⟨2, ![16384, 8]⟩ 1
          [⟨⟨2, ![16384, 4]⟩, Host.dotGeneral (⟨[0], [0], [1], [1], [], [], wf⟩ : DotDims _ _ _) none ro x⟩,
           ⟨⟨2, ![16384, 4]⟩, Host.dotGeneral (⟨[0], [0], [1], [1], [], [], wf⟩ : DotDims _ _ _) none ri x⟩] hc4)
        (ix2 e w)
      = Cert.TTN.halfG x ri ro e w := by
  unfold Cert.TTN.halfG
  refine (mulf_apply _ _ _).trans ?_
  refine congr (congrArg HMul.hMul ((broadcastInDim_scalar_apply hb0 _ _).trans (constant_apply _ _))) ?_
  by_cases h : w.val < 4
  · rw [dif_pos h]
    refine (concat2_left _ _ hc4 e w h).trans ?_
    refine (dotT_apply wf none ro x e ⟨w.val, h⟩).trans ?_
    exact (zero_add _).symm
  · rw [dif_neg h]
    refine (concat2_right _ _ hc4 e w (Nat.le_of_not_lt h) rfl).trans ?_
    refine (dotT_apply wf none ri x e _).trans ?_
    exact (zero_add _).symm

/-- The amplitude array `[edge, wire, 2]` (cosines at 0, sines at 1, of a matrix `V` of half angles) at `(e, w, b)`. -/
theorem amps_apply (V : FVec Ideal ⟨2, ![16384, 8]⟩ .f32)
    (hb1 : (⟨2, ![16384, 8]⟩ : Shape).BroadcastsInDim ⟨3, ![16384, 8, 1]⟩ ![0, 1])
    (hc2 : Shape.Concatenates [(⟨3, ![16384, 8, 1]⟩ : Shape), ⟨3, ![16384, 8, 1]⟩] ⟨3, ![16384, 8, 2]⟩ 2)
    (e : Fin 16384) (w : Fin 8) (b : Fin 2) :
    concatenate ⟨3, ![16384, 8, 2]⟩ 2
        [⟨⟨3, ![16384, 8, 1]⟩, broadcastInDim ⟨3, ![16384, 8, 1]⟩ ![0, 1] hb1 (Host.cos V)⟩,
         ⟨⟨3, ![16384, 8, 1]⟩, broadcastInDim ⟨3, ![16384, 8, 1]⟩ ![0, 1] hb1 (Host.sin V)⟩] hc2 (ix3 e w b)
      = Cert.TTN.ampE (V (ix2 e w)) b := by
  unfold Cert.TTN.ampE
  by_cases hb : b = 0
  · subst hb
    rw [if_pos rfl]
    refine (concatenate_pair_apply_left 2 _ _ hc2 _ rfl (ix3 e w (0 : Fin 1)) fun a => match a with
      | ⟨0, _⟩ => rfl
      | ⟨1, _⟩ => rfl
      | ⟨2, _⟩ => rfl).trans ?_
    exact broadcastInDim_apply _ hb1 (Host.cos V) _ (ix2 e w) fun a => match a with
      | ⟨0, _⟩ => rfl
      | ⟨1, _⟩ => rfl
  · have hb' : b = 1 := Fin.ext (by
      have := b.isLt
      have h0 : b.val ≠ 0 := fun h => hb (Fin.ext h)
      show b.val = 1
      omega)
    subst hb'
    rw [if_neg (by decide)]
    refine (concatenate_pair_apply_right 2 _ _ hc2 _ rfl rfl (ix3 e w (0 : Fin 1))
      (fun a => match a with
        | ⟨0, _⟩ => fun _ => rfl
        | ⟨1, _⟩ => fun _ => rfl
        | ⟨2, _⟩ => fun ha => absurd rfl ha)
      rfl).trans ?_
    exact broadcastInDim_apply _ hb1 (Host.sin V) _ (ix2 e w) fun a => match a with
      | ⟨0, _⟩ => rfl
      | ⟨1, _⟩ => rfl

/-- Wire `w`'s pair cut out of the amplitude array and recast to `[edge, 2]`, at `(e, b)`. -/
theorem col_amp {α : Type} (w : Fin 8) (A : (⟨3, ![16384, 8, 2]⟩ : Shape).Idx → α)
    (hs : (⟨3, ![16384, 8, 2]⟩ : Shape).Slices ![0, w.val, 0] ⟨3, ![16384, 1, 2]⟩)
    (hc : (⟨3, ![16384, 1, 2]⟩ : Shape).ShapeCasts ⟨2, ![16384, 2]⟩) (e : Fin 16384) (b : Fin 2) :
    shapeCast ⟨2, ![16384, 2]⟩ (extractStridedSlice ⟨3, ![16384, 1, 2]⟩ ![0, w.val, 0] A hs) hc (ix2 e b)
      = A (ix3 e w b) := by
  refine (shapeCast_apply _ hc (ix2 e b) (ix3 e (0 : Fin 1) b) (by
    rw [Shape.rowMajor_val_three, Shape.rowMajor_val_two]
    show (e.val * 1 + 0) * 2 + b.val = e.val * 2 + b.val
    omega)).trans ?_
  exact extractStridedSlice_apply _ A hs _ _ fun a => match a with
    | ⟨0, _⟩ => by show e.val = 0 + e.val; omega
    | ⟨1, _⟩ => by show w.val = w.val + 0; omega
    | ⟨2, _⟩ => by show b.val = 0 + b.val; omega

/-! ## Shapes and indices of the growing state -/

/-- The state after the round for wire `R - 2`: one axis for the edge, `R - 1` axes of length 2. -/
abbrev T2 : Shape := ⟨2, ![16384, 2]⟩
abbrev T3 : Shape := ⟨3, ![16384, 2, 2]⟩
abbrev T4 : Shape := ⟨4, ![16384, 2, 2, 2]⟩
abbrev T5 : Shape := ⟨5, ![16384, 2, 2, 2, 2]⟩
abbrev T6 : Shape := ⟨6, ![16384, 2, 2, 2, 2, 2]⟩
abbrev T7 : Shape := ⟨7, ![16384, 2, 2, 2, 2, 2, 2]⟩
abbrev T8 : Shape := ⟨8, ![16384, 2, 2, 2, 2, 2, 2, 2]⟩
abbrev T9 : Shape := ⟨9, ![16384, 2, 2, 2, 2, 2, 2, 2, 2]⟩
/-- The state so far with a new trailing axis of length 1. -/
abbrev W3 : Shape := ⟨3, ![16384, 2, 1]⟩
abbrev W4 : Shape := ⟨4, ![16384, 2, 2, 1]⟩
abbrev W5 : Shape := ⟨5, ![16384, 2, 2, 2, 1]⟩
abbrev W6 : Shape := ⟨6, ![16384, 2, 2, 2, 2, 1]⟩
abbrev W7 : Shape := ⟨7, ![16384, 2, 2, 2, 2, 2, 1]⟩
abbrev W8 : Shape := ⟨8, ![16384, 2, 2, 2, 2, 2, 2, 1]⟩
abbrev W9 : Shape := ⟨9, ![16384, 2, 2, 2, 2, 2, 2, 2, 1]⟩
/-- A wire's pair with unit axes in place of the earlier wires. -/
abbrev U3 : Shape := ⟨3, ![16384, 1, 2]⟩
abbrev U4 : Shape := ⟨4, ![16384, 1, 1, 2]⟩
abbrev U5 : Shape := ⟨5, ![16384, 1, 1, 1, 2]⟩
abbrev U6 : Shape := ⟨6, ![16384, 1, 1, 1, 1, 2]⟩
abbrev U7 : Shape := ⟨7, ![16384, 1, 1, 1, 1, 1, 2]⟩
abbrev U8 : Shape := ⟨8, ![16384, 1, 1, 1, 1, 1, 1, 2]⟩
abbrev U9 : Shape := ⟨9, ![16384, 1, 1, 1, 1, 1, 1, 1, 2]⟩

/-- The index of edge `e` at the bits of the first `R - 1` wires of `q`. -/
def p2 (e : Fin 16384) (q : Cert.TTN.Q) : T2.Idx := fun a => match a with
  | ⟨0, _⟩ => e | ⟨1, _⟩ => q 0
def p3 (e : Fin 16384) (q : Cert.TTN.Q) : T3.Idx := fun a => match a with
  | ⟨0, _⟩ => e | ⟨1, _⟩ => q 0 | ⟨2, _⟩ => q 1
def p4 (e : Fin 16384) (q : Cert.TTN.Q) : T4.Idx := fun a => match a with
  | ⟨0, _⟩ => e | ⟨1, _⟩ => q 0 | ⟨2, _⟩ => q 1 | ⟨3, _⟩ => q 2
def p5 (e : Fin 16384) (q : Cert.TTN.Q) : T5.Idx := fun a => match a with
  | ⟨0, _⟩ => e | ⟨1, _⟩ => q 0 | ⟨2, _⟩ => q 1 | ⟨3, _⟩ => q 2 | ⟨4, _⟩ => q 3
def p6 (e : Fin 16384) (q : Cert.TTN.Q) : T6.Idx := fun a => match a with
  | ⟨0, _⟩ => e | ⟨1, _⟩ => q 0 | ⟨2, _⟩ => q 1 | ⟨3, _⟩ => q 2 | ⟨4, _⟩ => q 3 | ⟨5, _⟩ => q 4
def p7 (e : Fin 16384) (q : Cert.TTN.Q) : T7.Idx := fun a => match a with
  | ⟨0, _⟩ => e | ⟨1, _⟩ => q 0 | ⟨2, _⟩ => q 1 | ⟨3, _⟩ => q 2 | ⟨4, _⟩ => q 3 | ⟨5, _⟩ => q 4 | ⟨6, _⟩ => q 5
def p8 (e : Fin 16384) (q : Cert.TTN.Q) : T8.Idx := fun a => match a with
  | ⟨0, _⟩ => e | ⟨1, _⟩ => q 0 | ⟨2, _⟩ => q 1 | ⟨3, _⟩ => q 2 | ⟨4, _⟩ => q 3 | ⟨5, _⟩ => q 4 | ⟨6, _⟩ => q 5
  | ⟨7, _⟩ => q 6

/-- `p2` is the pair of the edge and wire 0's bit. -/
theorem p2_eq (e : Fin 16384) (q : Cert.TTN.Q) : p2 e q = ix2 e (q 0) := by
  funext a
  match a with
  | ⟨0, _⟩ => rfl
  | ⟨1, _⟩ => rfl

/-! ## Unit axes after the first axis do not move the row-major position -/

theorem numel_cons_one {n : Nat} (d' : Fin n → Nat) :
    (⟨n + 1, Matrix.vecCons 1 d'⟩ : Shape).numel = (⟨n, d'⟩ : Shape).numel := by
  show (∏ a : Fin (n + 1), Matrix.vecCons 1 d' a) = ∏ a : Fin n, d' a
  rw [Fin.prod_univ_succ]
  simp

/-- The index `(e, 0, x')` of `[B, 1, d']` has the row-major position of `(e, x')` in `[B, d']`. -/
theorem rowMajor_unit1 {n : Nat} (B : Nat) (d' : Fin n → Nat) (e : Fin B) (x' : (a : Fin n) → Fin (d' a)) :
    ((⟨n + 2, Matrix.vecCons B (Matrix.vecCons 1 d')⟩ : Shape).rowMajor
        (Fin.cons e (Fin.cons (⟨0, Nat.one_pos⟩ : Fin 1) x'))).val
      = ((⟨n + 1, Matrix.vecCons B d'⟩ : Shape).rowMajor (Fin.cons e x')).val := by
  have L := Shape.rowMajor_val_succ (d := Matrix.vecCons B (Matrix.vecCons 1 d'))
    (Fin.cons e (Fin.cons (⟨0, Nat.one_pos⟩ : Fin 1) x'))
  have L2 := Shape.rowMajor_val_succ (d := Matrix.vecCons 1 d') (Fin.cons (⟨0, Nat.one_pos⟩ : Fin 1) x')
  have R := Shape.rowMajor_val_succ (d := Matrix.vecCons B d') (Fin.cons e x')
  rw [L, R]
  show e.val * (⟨n + 1, Matrix.vecCons 1 d'⟩ : Shape).numel
      + ((⟨n + 1, Matrix.vecCons 1 d'⟩ : Shape).rowMajor (Fin.cons (⟨0, Nat.one_pos⟩ : Fin 1) x')).val
    = e.val * (⟨n, d'⟩ : Shape).numel + ((⟨n, d'⟩ : Shape).rowMajor x').val
  rw [L2, numel_cons_one]
  show e.val * (⟨n, d'⟩ : Shape).numel + (0 * (⟨n, d'⟩ : Shape).numel + ((⟨n, d'⟩ : Shape).rowMajor x').val) = _
  rw [Nat.zero_mul, Nat.zero_add]

/-- The bit `b` behind `k - 1` unit coordinates: an index of `[1, …, 1, 2]`. -/
def t1 (b : Fin 2) : (a : Fin 1) → Fin (![2] a) := fun a => match a with
  | ⟨0, _⟩ => b
def t2 (b : Fin 2) : (a : Fin 2) → Fin (![1, 2] a) := Fin.cons (⟨0, Nat.one_pos⟩ : Fin 1) (t1 b)
def t3 (b : Fin 2) : (a : Fin 3) → Fin (![1, 1, 2] a) := Fin.cons (⟨0, Nat.one_pos⟩ : Fin 1) (t2 b)
def t4 (b : Fin 2) : (a : Fin 4) → Fin (![1, 1, 1, 2] a) := Fin.cons (⟨0, Nat.one_pos⟩ : Fin 1) (t3 b)
def t5 (b : Fin 2) : (a : Fin 5) → Fin (![1, 1, 1, 1, 2] a) := Fin.cons (⟨0, Nat.one_pos⟩ : Fin 1) (t4 b)
def t6 (b : Fin 2) : (a : Fin 6) → Fin (![1, 1, 1, 1, 1, 2] a) := Fin.cons (⟨0, Nat.one_pos⟩ : Fin 1) (t5 b)
def t7 (b : Fin 2) : (a : Fin 7) → Fin (![1, 1, 1, 1, 1, 1, 2] a) := Fin.cons (⟨0, Nat.one_pos⟩ : Fin 1) (t6 b)
def t8 (b : Fin 2) : (a : Fin 8) → Fin (![1, 1, 1, 1, 1, 1, 1, 2] a) := Fin.cons (⟨0, Nat.one_pos⟩ : Fin 1) (t7 b)

/-- The index `(e, 0, …, 0, b)` of a wire's pair with unit axes. -/
def k2 (e : Fin 16384) (b : Fin 2) : T2.Idx := Fin.cons e (t1 b)
def k3 (e : Fin 16384) (b : Fin 2) : U3.Idx := Fin.cons e (t2 b)
def k4 (e : Fin 16384) (b : Fin 2) : U4.Idx := Fin.cons e (t3 b)
def k5 (e : Fin 16384) (b : Fin 2) : U5.Idx := Fin.cons e (t4 b)
def k6 (e : Fin 16384) (b : Fin 2) : U6.Idx := Fin.cons e (t5 b)
def k7 (e : Fin 16384) (b : Fin 2) : U7.Idx := Fin.cons e (t6 b)
def k8 (e : Fin 16384) (b : Fin 2) : U8.Idx := Fin.cons e (t7 b)
def k9 (e : Fin 16384) (b : Fin 2) : U9.Idx := Fin.cons e (t8 b)

theorem k2_eq (e : Fin 16384) (b : Fin 2) : k2 e b = ix2 e b := by
  funext a
  match a with
  | ⟨0, _⟩ => rfl
  | ⟨1, _⟩ => rfl

/-- Each padded index has the row-major position of `(e, b)` in `[16384, 2]`. -/
theorem rm3 (e : Fin 16384) (b : Fin 2) : (U3.rowMajor (k3 e b)).val = (T2.rowMajor (k2 e b)).val :=
  rowMajor_unit1 16384 ![2] e (t1 b)
theorem rm4 (e : Fin 16384) (b : Fin 2) : (U4.rowMajor (k4 e b)).val = (T2.rowMajor (k2 e b)).val :=
  (rowMajor_unit1 16384 ![1, 2] e (t2 b)).trans (rm3 e b)
theorem rm5 (e : Fin 16384) (b : Fin 2) : (U5.rowMajor (k5 e b)).val = (T2.rowMajor (k2 e b)).val :=
  (rowMajor_unit1 16384 ![1, 1, 2] e (t3 b)).trans (rm4 e b)
theorem rm6 (e : Fin 16384) (b : Fin 2) : (U6.rowMajor (k6 e b)).val = (T2.rowMajor (k2 e b)).val :=
  (rowMajor_unit1 16384 ![1, 1, 1, 2] e (t4 b)).trans (rm5 e b)
theorem rm7 (e : Fin 16384) (b : Fin 2) : (U7.rowMajor (k7 e b)).val = (T2.rowMajor (k2 e b)).val :=
  (rowMajor_unit1 16384 ![1, 1, 1, 1, 2] e (t5 b)).trans (rm6 e b)
theorem rm8 (e : Fin 16384) (b : Fin 2) : (U8.rowMajor (k8 e b)).val = (T2.rowMajor (k2 e b)).val :=
  (rowMajor_unit1 16384 ![1, 1, 1, 1, 1, 2] e (t6 b)).trans (rm7 e b)
theorem rm9 (e : Fin 16384) (b : Fin 2) : (U9.rowMajor (k9 e b)).val = (T2.rowMajor (k2 e b)).val :=
  (rowMajor_unit1 16384 ![1, 1, 1, 1, 1, 1, 2] e (t7 b)).trans (rm8 e b)

/-! ## Spreading the old state, and recasting and spreading a pair -/

/-- Two spreadings in a row read the operand at the index whose coordinates are the result's, 0 on unit axes. -/
theorem bcast_bcast {α : Type} {s w t : Shape} (d1 : Fin s.rank → Fin w.rank) (d2 : Fin w.rank → Fin t.rank)
    (h1 : s.BroadcastsInDim w d1) (h2 : w.BroadcastsInDim t d2) (S : s.Idx → α) (j : t.Idx) (k : s.Idx)
    (hk : ∀ a : Fin s.rank, (k a).val
      = if s.size a = 1 then 0 else if w.size (d1 a) = 1 then 0 else (j (d2 (d1 a))).val) :
    broadcastInDim t d2 h2 (broadcastInDim w d1 h1 S) j = S k := by
  refine (broadcastInDim_apply d2 h2 _ j (fun a => if h : w.size a = 1 then ⟨0, by omega⟩ else ⟨(j (d2 a)).val, by
      rcases h2.2 a with h' | h'
      · exact absurd h' h
      · rw [h']; exact (j (d2 a)).isLt⟩) (fun a => by
    by_cases h : w.size a = 1
    · rw [dif_pos h, if_pos h]
    · rw [dif_neg h, if_neg h])).trans ?_
  refine broadcastInDim_apply d1 h1 S _ k fun a => ?_
  rw [hk a]
  by_cases h : s.size a = 1
  · rw [if_pos h, if_pos h]
  · rw [if_neg h, if_neg h]
    by_cases h' : w.size (d1 a) = 1
    · rw [if_pos h', dif_pos h']
    · rw [if_neg h', dif_neg h']

section Lift
variable (e : Fin 16384) (q : Cert.TTN.Q)

/-- The old state spread along a new last axis, read at the bits of `q`: the old state at the earlier bits. -/
theorem lift3 {α : Type} (S : T2.Idx → α) (h1 : T2.BroadcastsInDim W3 ![0, 1]) (hT : W3.BroadcastsInDim T3 ![0, 1, 2]) :
    broadcastInDim T3 ![0, 1, 2] hT (broadcastInDim W3 ![0, 1] h1 S) (p3 e q) = S (ix2 e (q 0)) :=
  (bcast_bcast _ _ h1 hT S _ (p2 e q) fun a => match a with
    | ⟨0, _⟩ => rfl | ⟨1, _⟩ => rfl).trans (congrArg S (p2_eq e q))
theorem lift4 {α : Type} (S : T3.Idx → α) (h1 : T3.BroadcastsInDim W4 ![0, 1, 2])
    (hT : W4.BroadcastsInDim T4 ![0, 1, 2, 3]) :
    broadcastInDim T4 ![0, 1, 2, 3] hT (broadcastInDim W4 ![0, 1, 2] h1 S) (p4 e q) = S (p3 e q) :=
  bcast_bcast _ _ h1 hT S _ _ fun a => match a with
    | ⟨0, _⟩ => rfl | ⟨1, _⟩ => rfl | ⟨2, _⟩ => rfl
theorem lift5 {α : Type} (S : T4.Idx → α) (h1 : T4.BroadcastsInDim W5 ![0, 1, 2, 3])
    (hT : W5.BroadcastsInDim T5 ![0, 1, 2, 3, 4]) :
    broadcastInDim T5 ![0, 1, 2, 3, 4] hT (broadcastInDim W5 ![0, 1, 2, 3] h1 S) (p5 e q) = S (p4 e q) :=
  bcast_bcast _ _ h1 hT S _ _ fun a => match a with
    | ⟨0, _⟩ => rfl | ⟨1, _⟩ => rfl | ⟨2, _⟩ => rfl | ⟨3, _⟩ => rfl
theorem lift6 {α : Type} (S : T5.Idx → α) (h1 : T5.BroadcastsInDim W6 ![0, 1, 2, 3, 4])
    (hT : W6.BroadcastsInDim T6 ![0, 1, 2, 3, 4, 5]) :
    broadcastInDim T6 ![0, 1, 2, 3, 4, 5] hT (broadcastInDim W6 ![0, 1, 2, 3, 4] h1 S) (p6 e q) = S (p5 e q) :=
  bcast_bcast _ _ h1 hT S _ _ fun a => match a with
    | ⟨0, _⟩ => rfl | ⟨1, _⟩ => rfl | ⟨2, _⟩ => rfl | ⟨3, _⟩ => rfl | ⟨4, _⟩ => rfl
theorem lift7 {α : Type} (S : T6.Idx → α) (h1 : T6.BroadcastsInDim W7 ![0, 1, 2, 3, 4, 5])
    (hT : W7.BroadcastsInDim T7 ![0, 1, 2, 3, 4, 5, 6]) :
    broadcastInDim T7 ![0, 1, 2, 3, 4, 5, 6] hT (broadcastInDim W7 ![0, 1, 2, 3, 4, 5] h1 S) (p7 e q) = S (p6 e q) :=
  bcast_bcast _ _ h1 hT S _ _ fun a => match a with
    | ⟨0, _⟩ => rfl | ⟨1, _⟩ => rfl | ⟨2, _⟩ => rfl | ⟨3, _⟩ => rfl | ⟨4, _⟩ => rfl | ⟨5, _⟩ => rfl
theorem lift8 {α : Type} (S : T7.Idx → α) (h1 : T7.BroadcastsInDim W8 ![0, 1, 2, 3, 4, 5, 6])
    (hT : W8.BroadcastsInDim T8 ![0, 1, 2, 3, 4, 5, 6, 7]) :
    broadcastInDim T8 ![0, 1, 2, 3, 4, 5, 6, 7] hT (broadcastInDim W8 ![0, 1, 2, 3, 4, 5, 6] h1 S) (p8 e q)
      = S (p7 e q) :=
  bcast_bcast _ _ h1 hT S _ _ fun a => match a with
    | ⟨0, _⟩ => rfl | ⟨1, _⟩ => rfl | ⟨2, _⟩ => rfl | ⟨3, _⟩ => rfl | ⟨4, _⟩ => rfl | ⟨5, _⟩ => rfl | ⟨6, _⟩ => rfl
theorem lift9 {α : Type} (S : T8.Idx → α) (h1 : T8.BroadcastsInDim W9 ![0, 1, 2, 3, 4, 5, 6, 7])
    (hT : W9.BroadcastsInDim T9 ![0, 1, 2, 3, 4, 5, 6, 7, 8]) :
    broadcastInDim T9 ![0, 1, 2, 3, 4, 5, 6, 7, 8] hT (broadcastInDim W9 ![0, 1, 2, 3, 4, 5, 6, 7] h1 S) (ix9 e q)
      = S (p8 e q) :=
  bcast_bcast _ _ h1 hT S _ _ fun a => match a with
    | ⟨0, _⟩ => rfl | ⟨1, _⟩ => rfl | ⟨2, _⟩ => rfl | ⟨3, _⟩ => rfl | ⟨4, _⟩ => rfl | ⟨5, _⟩ => rfl | ⟨6, _⟩ => rfl
    | ⟨7, _⟩ => rfl

end Lift

section Pad
variable {α : Type} (e : Fin 16384) (q : Cert.TTN.Q) (y : T2.Idx → α)

/-- A wire's pair recast with unit axes and spread over the earlier wires, read at the bits of `q`: the pair at the
    last bit. -/
theorem pad3 (hc : T2.ShapeCasts U3) (hT : U3.BroadcastsInDim T3 ![0, 1, 2]) :
    broadcastInDim T3 ![0, 1, 2] hT (shapeCast U3 y hc) (p3 e q) = y (ix2 e (q 1)) := by
  refine (broadcastInDim_apply _ hT _ (p3 e q) (k3 e (q 1)) fun a => match a with
    | ⟨0, _⟩ => rfl | ⟨1, _⟩ => rfl | ⟨2, _⟩ => rfl).trans ?_
  exact (shapeCast_apply y hc (k3 e (q 1)) (k2 e (q 1)) (rm3 e (q 1)).symm).trans (congrArg y (k2_eq e (q 1)))
theorem pad4 (hc : T2.ShapeCasts U4) (hT : U4.BroadcastsInDim T4 ![0, 1, 2, 3]) :
    broadcastInDim T4 ![0, 1, 2, 3] hT (shapeCast U4 y hc) (p4 e q) = y (ix2 e (q 2)) := by
  refine (broadcastInDim_apply _ hT _ (p4 e q) (k4 e (q 2)) fun a => match a with
    | ⟨0, _⟩ => rfl | ⟨1, _⟩ => rfl | ⟨2, _⟩ => rfl | ⟨3, _⟩ => rfl).trans ?_
  exact (shapeCast_apply y hc (k4 e (q 2)) (k2 e (q 2)) (rm4 e (q 2)).symm).trans (congrArg y (k2_eq e (q 2)))
theorem pad5 (hc : T2.ShapeCasts U5) (hT : U5.BroadcastsInDim T5 ![0, 1, 2, 3, 4]) :
    broadcastInDim T5 ![0, 1, 2, 3, 4] hT (shapeCast U5 y hc) (p5 e q) = y (ix2 e (q 3)) := by
  refine (broadcastInDim_apply _ hT _ (p5 e q) (k5 e (q 3)) fun a => match a with
    | ⟨0, _⟩ => rfl | ⟨1, _⟩ => rfl | ⟨2, _⟩ => rfl | ⟨3, _⟩ => rfl | ⟨4, _⟩ => rfl).trans ?_
  exact (shapeCast_apply y hc (k5 e (q 3)) (k2 e (q 3)) (rm5 e (q 3)).symm).trans (congrArg y (k2_eq e (q 3)))
theorem pad6 (hc : T2.ShapeCasts U6) (hT : U6.BroadcastsInDim T6 ![0, 1, 2, 3, 4, 5]) :
    broadcastInDim T6 ![0, 1, 2, 3, 4, 5] hT (shapeCast U6 y hc) (p6 e q) = y (ix2 e (q 4)) := by
  refine (broadcastInDim_apply _ hT _ (p6 e q) (k6 e (q 4)) fun a => match a with
    | ⟨0, _⟩ => rfl | ⟨1, _⟩ => rfl | ⟨2, _⟩ => rfl | ⟨3, _⟩ => rfl | ⟨4, _⟩ => rfl | ⟨5, _⟩ => rfl).trans ?_
  exact (shapeCast_apply y hc (k6 e (q 4)) (k2 e (q 4)) (rm6 e (q 4)).symm).trans (congrArg y (k2_eq e (q 4)))
theorem pad7 (hc : T2.ShapeCasts U7) (hT : U7.BroadcastsInDim T7 ![0, 1, 2, 3, 4, 5, 6]) :
    broadcastInDim T7 ![0, 1, 2, 3, 4, 5, 6] hT (shapeCast U7 y hc) (p7 e q) = y (ix2 e (q 5)) := by
  refine (broadcastInDim_apply _ hT _ (p7 e q) (k7 e (q 5)) fun a => match a with
    | ⟨0, _⟩ => rfl | ⟨1, _⟩ => rfl | ⟨2, _⟩ => rfl | ⟨3, _⟩ => rfl | ⟨4, _⟩ => rfl | ⟨5, _⟩ => rfl
    | ⟨6, _⟩ => rfl).trans ?_
  exact (shapeCast_apply y hc (k7 e (q 5)) (k2 e (q 5)) (rm7 e (q 5)).symm).trans (congrArg y (k2_eq e (q 5)))
theorem pad8 (hc : T2.ShapeCasts U8) (hT : U8.BroadcastsInDim T8 ![0, 1, 2, 3, 4, 5, 6, 7]) :
    broadcastInDim T8 ![0, 1, 2, 3, 4, 5, 6, 7] hT (shapeCast U8 y hc) (p8 e q) = y (ix2 e (q 6)) := by
  refine (broadcastInDim_apply _ hT _ (p8 e q) (k8 e (q 6)) fun a => match a with
    | ⟨0, _⟩ => rfl | ⟨1, _⟩ => rfl | ⟨2, _⟩ => rfl | ⟨3, _⟩ => rfl | ⟨4, _⟩ => rfl | ⟨5, _⟩ => rfl
    | ⟨6, _⟩ => rfl | ⟨7, _⟩ => rfl).trans ?_
  exact (shapeCast_apply y hc (k8 e (q 6)) (k2 e (q 6)) (rm8 e (q 6)).symm).trans (congrArg y (k2_eq e (q 6)))
theorem pad9 (hc : T2.ShapeCasts U9) (hT : U9.BroadcastsInDim T9 ![0, 1, 2, 3, 4, 5, 6, 7, 8]) :
    broadcastInDim T9 ![0, 1, 2, 3, 4, 5, 6, 7, 8] hT (shapeCast U9 y hc) (ix9 e q) = y (ix2 e (q 7)) := by
  refine (broadcastInDim_apply _ hT _ (ix9 e q) (k9 e (q 7)) fun a => match a with
    | ⟨0, _⟩ => rfl | ⟨1, _⟩ => rfl | ⟨2, _⟩ => rfl | ⟨3, _⟩ => rfl | ⟨4, _⟩ => rfl | ⟨5, _⟩ => rfl
    | ⟨6, _⟩ => rfl | ⟨7, _⟩ => rfl | ⟨8, _⟩ => rfl).trans ?_
  exact (shapeCast_apply y hc (k9 e (q 7)) (k2 e (q 7)) (rm9 e (q 7)).symm).trans (congrArg y (k2_eq e (q 7)))

end Pad

end Cert.TTN.RHost

end
-- ==== Proof.RefEnds.lean ====
/-
  The two ends of the reference read at an index.

  Before the gates: the reference pairs the cosine and the sine of every half angle in an array [edge, wire, 2], starts
  the state from wire 0's pair and, for each further wire, spreads the state along a new axis of length 2 and
  multiplies by that wire's pair.  At edge `e` and basis state `q` the result is the product, from wire 0 up to wire 7,
  of the cosine or sine of the wire's half angle chosen by the wire's bit: the encoded product state.

  After the gates: the reference squares the amplitudes, sums them over every wire but wire 5, takes the difference of
  the two marginals, subtracts it from one and halves.  At edge `e` that is `(1 - (m0 - m1)) / 2` with `m_b` the sum
  over the basis states `q` with `q 5 = b` of the squared amplitude of `(e, q)`, each sum started from zero.
-/
import proofs.«130987_j14276471292017_1_alg».proof.Proof.RHostEnds
import proofs.«130987_j14276471292017_1_alg».proof.Proof.RefEndsSum
import proofs.«130987_j14276471292017_1_alg».proof.Proof.RefEndsHead

noncomputable section

open scoped BigOperators

namespace Cert.TTN.RHost

open Idealize.ShloMosaic Idealize.ShloMosaic.ValueIdx Cert.TTN.Gates
open Cert.ReferenceIdeal Cert.ReferenceIdeal.Gen

/-- The reference's result at edge `e`, from the final state. -/
theorem tail_apply (st : FVec Ideal S16384x2x2x2x2x2x2x2x2 .f32) (e : Fin 16384) :
    tailTerm st (ix1 e)
      = Ideal.div
          (Ideal.ofBits .f32 0x3F800000#32
            - ((0 + ∑ q : Cert.TTN.Q, if q 5 = 0 then st (ix9 e q) * st (ix9 e q) else 0)
              - (0 + ∑ q : Cert.TTN.Q, if q 5 = 1 then st (ix9 e q) * st (ix9 e q) else 0)))
          (Ideal.ofBits .f32 0x40000000#32) := by
  unfold tailTerm
  exact tail_generic st reducesTo_S16384x2x2x2x2x2x2x2x2_S16384x2_d1_2_3_4_5_7_8 h_S_ slices_S16384x2_S16384x1_0_0
    slices_S16384x2_S16384x1_0_1 shapeCasts_S16384x1_S16384 bcast_S_S16384 e

/-- The amplitude array at edge `e`, wire `w`, bit `b`: the cosine (bit 0) or sine (bit 1) of the half angle. -/
theorem amps_entry (x : FVec Ideal S2048x4 .f32) (ri ro : FVec Ideal S2048x16384 .f32) (e : Fin 16384) (w : Fin 8)
    (b : Fin 2) : h_v9 x ri ro (ix3 e w b) = Cert.TTN.ampE (Cert.TTN.halfG x ri ro e w) b := by
  unfold h_v9 h_v7 h_v8 h_v5 h_v6 h_v4 h_v3 h_cst h_v2 h_v0 h_v1
  exact (amps_apply _ _ _ e w b).trans (congrArg (Cert.TTN.ampE · b) (half_apply x ri ro _ _ _ e w))

section Wires
variable (x : FVec Ideal S2048x4 .f32) (ri ro : FVec Ideal S2048x16384 .f32) (e : Fin 16384) (q : Cert.TTN.Q)

/-- The state after wire 0: its pair. -/
theorem wire0 : h_v11 x ri ro (ix2 e (q 0)) = Cert.TTN.ampE (Cert.TTN.halfG x ri ro e 0) (q 0) := by
  unfold h_v11 h_v10
  exact (col_amp 0 _ _ _ e (q 0)).trans (amps_entry x ri ro e 0 (q 0))

/-- The state after wire 1: the state after wire 0 times wire 1's factor. -/
theorem wire1 : h_v18 x ri ro (p3 e q)
    = h_v11 x ri ro (ix2 e (q 0)) * Cert.TTN.ampE (Cert.TTN.halfG x ri ro e 1) (q 1) := by
  unfold h_v18 h_v16 h_v17 h_v15 h_v14 h_v13 h_v12
  refine (mulf_apply _ _ _).trans ?_
  exact congr (congrArg HMul.hMul (lift3 e q _ _ _))
    ((pad3 e q _ _ _).trans ((col_amp 1 _ _ _ e (q 1)).trans (amps_entry x ri ro e 1 (q 1))))

/-- The state after wire 2. -/
theorem wire2 : h_v25 x ri ro (p4 e q)
    = h_v18 x ri ro (p3 e q) * Cert.TTN.ampE (Cert.TTN.halfG x ri ro e 2) (q 2) := by
  unfold h_v25 h_v23 h_v24 h_v22 h_v21 h_v20 h_v19
  refine (mulf_apply _ _ _).trans ?_
  exact congr (congrArg HMul.hMul (lift4 e q _ _ _))
    ((pad4 e q _ _ _).trans ((col_amp 2 _ _ _ e (q 2)).trans (amps_entry x ri ro e 2 (q 2))))

/-- The state after wire 3. -/
theorem wire3 : h_v32 x ri ro (p5 e q)
    = h_v25 x ri ro (p4 e q) * Cert.TTN.ampE (Cert.TTN.halfG x ri ro e 3) (q 3) := by
  unfold h_v32 h_v30 h_v31 h_v29 h_v28 h_v27 h_v26
  refine (mulf_apply _ _ _).trans ?_
  exact congr (congrArg HMul.hMul (lift5 e q _ _ _))
    ((pad5 e q _ _ _).trans ((col_amp 3 _ _ _ e (q 3)).trans (amps_entry x ri ro e 3 (q 3))))

/-- The state after wire 4. -/
theorem wire4 : h_v39 x ri ro (p6 e q)
    = h_v32 x ri ro (p5 e q) * Cert.TTN.ampE (Cert.TTN.halfG x ri ro e 4) (q 4) := by
  unfold h_v39 h_v37 h_v38 h_v36 h_v35 h_v34 h_v33
  refine (mulf_apply _ _ _).trans ?_
  exact congr (congrArg HMul.hMul (lift6 e q _ _ _))
    ((pad6 e q _ _ _).trans ((col_amp 4 _ _ _ e (q 4)).trans (amps_entry x ri ro e 4 (q 4))))

/-- The state after wire 5. -/
theorem wire5 : h_v46 x ri ro (p7 e q)
    = h_v39 x ri ro (p6 e q) * Cert.TTN.ampE (Cert.TTN.halfG x ri ro e 5) (q 5) := by
  unfold h_v46 h_v44 h_v45 h_v43 h_v42 h_v41 h_v40
  refine (mulf_apply _ _ _).trans ?_
  exact congr (congrArg HMul.hMul (lift7 e q _ _ _))
    ((pad7 e q _ _ _).trans ((col_amp 5 _ _ _ e (q 5)).trans (amps_entry x ri ro e 5 (q 5))))

/-- The state after wire 6. -/
theorem wire6 : h_v53 x ri ro (p8 e q)
    = h_v46 x ri ro (p7 e q) * Cert.TTN.ampE (Cert.TTN.halfG x ri ro e 6) (q 6) := by
  unfold h_v53 h_v51 h_v52 h_v50 h_v49 h_v48 h_v47
  refine (mulf_apply _ _ _).trans ?_
  exact congr (congrArg HMul.hMul (lift8 e q _ _ _))
    ((pad8 e q _ _ _).trans ((col_amp 6 _ _ _ e (q 6)).trans (amps_entry x ri ro e 6 (q 6))))

/-- The state after wire 7: the whole product state. -/
theorem wire7 : h_v60 x ri ro (ix9 e q)
    = h_v53 x ri ro (p8 e q) * Cert.TTN.ampE (Cert.TTN.halfG x ri ro e 7) (q 7) := by
  unfold h_v60 h_v58 h_v59 h_v57 h_v56 h_v55 h_v54
  refine (mulf_apply _ _ _).trans ?_
  exact congr (congrArg HMul.hMul (lift9 e q _ _ _))
    ((pad9 e q _ _ _).trans ((col_amp 7 _ _ _ e (q 7)).trans (amps_entry x ri ro e 7 (q 7))))

end Wires

/-- The reference's product state at edge `e` and basis state `q`. -/
theorem head_apply (x : FVec Ideal S2048x4 .f32) (ri ro : FVec Ideal S2048x16384 .f32) (e : Fin 16384)
    (q : Cert.TTN.Q) : headTerm x ri ro (ix9 e q) = Cert.TTN.psiRef (Cert.TTN.halfG x ri ro e) q := by
  unfold headTerm Cert.TTN.psiRef
  rw [wire7, wire6, wire5, wire4, wire3, wire2, wire1, wire0]

end Cert.TTN.RHost

end
-- ==== Proof.RFinal.lean ====
/-
  The reference's result at one edge is the kernel's stored quantity of that edge.

  On real inputs the state the reference builds before the gates is, at edge e, the real product state of that
  edge's eight angles; after the 31 gates it is the circuit applied to that product state; and the reference's last
  operations turn it into (1 - (m0 - m1)) / 2, with m0, m1 the weights of the basis states whose wire 5 is 0, 1.
  That number is the masked sum the kernel stores for the same edge.
-/
import proofs.«130987_j14276471292017_1_alg».proof.Proof.RRead
import proofs.«130987_j14276471292017_1_alg».proof.Proof.RefEnds
import proofs.«130987_j14276471292017_1_alg».proof.Proof.Final

set_option maxRecDepth 16384

noncomputable section

namespace Cert.TTN.RHost

open Idealize.ShloMosaic Idealize.ShloMosaic.ValueIdx
open Cert.ReferenceIdeal Cert.ReferenceIdeal.Gen Cert.TTN

/-- The final state at edge e and basis state q is the circuit applied to the edge's product state. -/
theorem st31_value (x : FVec Ideal S2048x4 .f32) (ri ro : FVec Ideal S2048x16384 .f32) (th : FVec Ideal S21 .f32)
    (xr : Fin 2048 → Fin 4 → ℝ) (rir ror : Fin 2048 → Fin 16384 → ℝ) (θ : Fin 21 → ℝ)
    (hx : ∀ n d, x (ix2 n d) = ((xr n d : ℝ) : EReal)) (hri : ∀ n e, ri (ix2 n e) = ((rir n e : ℝ) : EReal))
    (hro : ∀ n e, ro (ix2 n e) = ((ror n e : ℝ) : EReal)) (hθ : ∀ k : Fin 21, th (ix1 k) = ((θ k : ℝ) : EReal))
    (e : Fin 16384) (q : Q) :
    st31 (headTerm x ri ro) th (Gates.ix9 e q) = ((circuit θ (prodState (angR xr rir ror e)) q : ℝ) : EReal) := by
  have h0 : ∀ (b : Fin 16384) (q : Q), st0 (headTerm x ri ro) (Gates.ix9 b q)
      = ((prodState (angR xr rir ror b) q : ℝ) : EReal) := by
    intro b q
    show headTerm x ri ro (Gates.ix9 b q) = _
    rw [head_apply, halfG_real x ri ro xr rir ror hx hri hro b, psiRef_real]
  have h := read31 th θ hθ (headTerm x ri ro) (fun b => prodState (angR xr rir ror b)) h0 e q
  rw [C31_eq] at h
  exact h

theorem ref_row_value (x : FVec Ideal S2048x4 .f32) (ri ro : FVec Ideal S2048x16384 .f32) (th : FVec Ideal S21 .f32)
    (xr : Fin 2048 → Fin 4 → ℝ) (rir ror : Fin 2048 → Fin 16384 → ℝ) (θ : Fin 21 → ℝ)
    (hx : ∀ n d, x (ix2 n d) = ((xr n d : ℝ) : EReal)) (hri : ∀ n e, ri (ix2 n e) = ((rir n e : ℝ) : EReal))
    (hro : ∀ n e, ro (ix2 n e) = ((ror n e : ℝ) : EReal)) (hθ : ∀ k : Fin 21, th (ix1 k) = ((θ k : ℝ) : EReal))
    (e : Fin 16384) :
    tailTerm (st31 (headTerm x ri ro) th) (ix1 e)
      = kernelRow (fun w => (((1/2 : ℝ) * angR xr rir ror e w : ℝ) : EReal))
          (fun j k => ((circuit θ (basis (toQ j)) (toQ k) : ℝ) : EReal))
          (fun k => (((if bitOf k 5 = 1 then (1 : ℝ) else 0) : ℝ) : EReal)) := by
  rw [tail_apply]
  simp only [st31_value x ri ro th xr rir ror θ hx hri hro hθ e]
  exact (edge_agree θ (angR xr rir ror e)).symm

end Cert.TTN.RHost

end
-- ==== Proof.RSide.lean ====
/-
  The reference, run from a memory whose four arguments hold real numbers: every weakly fair execution ends with the
  result buffer at the common result array of those real numbers, and the arguments as they were.  And, from any
  memory, the reference runs and leaves its arguments as they were.
-/
import proofs.«130987_j14276471292017_1_alg».proof.Proof.RV
import proofs.«130987_j14276471292017_1_alg».proof.Proof.RFinal
import proofs.«130987_j14276471292017_1_alg».proof.Proof.ResultFun

set_option maxRecDepth 16384

noncomputable section

namespace Cert.TTN.RHost

open Idealize.ShloMosaic Idealize.ShloMosaic.TcCoe Idealize.ShloMosaic.ValueIdx Idealize.SL.Sem Idealize.ShloMosaic.StableHlo
open Cert.ReferenceIdeal Cert.ReferenceIdeal.Gen Cert.TTN

/-- The reference runs, and its four arguments end as they were. -/
theorem ref_frame (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  (θ_run (defs (F := Ideal)) _ _).mono (fun r h c =>
      ⟨(h c main_arg0).trans (Cert.TTN.RefRun.arg0_eq _), (h c main_arg1).trans (Cert.TTN.RefRun.arg1_eq _),
        (h c main_arg2).trans (Cert.TTN.RefRun.arg2_eq _), (h c main_arg3).trans (Cert.TTN.RefRun.arg3_eq _)⟩)
    (Cert.TTN.RefRun.run_main (F := Ideal) m ρ)

theorem ref_side (m : (ℓ : Loc nD τ sig) → Buf (Elt Ideal) ℓ) (ρ : Dev nD → PrngReg)
    (xr : Dev nD → Fin 2048 → Fin 4 → ℝ) (rir ror : Dev nD → Fin 2048 → Fin 16384 → ℝ) (θ : Dev nD → Fin 21 → ℝ)
    (hx : ∀ (c : Dev nD) n d, (m ((c.tc : Thread nD τ).loc main_arg0) : FVec Ideal S2048x4 .f32) (ix2 n d) = ((xr c n d : ℝ) : EReal))
    (hri : ∀ (c : Dev nD) n e, (m ((c.tc : Thread nD τ).loc main_arg1) : FVec Ideal S2048x16384 .f32) (ix2 n e) = ((rir c n e : ℝ) : EReal))
    (hro : ∀ (c : Dev nD) n e, (m ((c.tc : Thread nD τ).loc main_arg2) : FVec Ideal S2048x16384 .f32) (ix2 n e) = ((ror c n e : ℝ) : EReal))
    (hθ : ∀ (c : Dev nD) (k : Fin 21), (m ((c.tc : Thread nD τ).loc main_arg3) : FVec Ideal S21 .f32) (ix1 k) = ((θ c k : ℝ) : EReal)) :
    θ_run (defs (F := Ideal)) (onTc (τ := τ) (main (F := Ideal))) ⟨m, fun _ => 0, ρ⟩ (fun r => ∀ c : Dev nD,
        r.2.mem ((c.tc : Thread nD τ).loc main_v572) = resultFun (xr c) (rir c) (ror c) (θ c)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) :=
  (θ_run (defs (F := Ideal)) _ _).mono (fun r h c =>
      ⟨(h c main_v572).trans ((after_ops_result _).trans (funext fun i => by
          obtain ⟨e, rfl⟩ : ∃ e : Fin 16384, i = ix1 e := ⟨i 0, eq_ix1 i⟩
          exact ref_row_value _ _ _ _ (xr c) (rir c) (ror c) (θ c) (hx c) (hri c) (hro c) (hθ c) e)),
        (h c main_arg0).trans (Cert.TTN.RefRun.arg0_eq _), (h c main_arg1).trans (Cert.TTN.RefRun.arg1_eq _),
        (h c main_arg2).trans (Cert.TTN.RefRun.arg2_eq _), (h c main_arg3).trans (Cert.TTN.RefRun.arg3_eq _)⟩)
    (Cert.TTN.RefRun.run_main (F := Ideal) m ρ)

end Cert.TTN.RHost

end
-- ==== Proof.LibFiniteEntry.lean ====
/-
  The "every input is finite" precondition, read at one entry, on the extended reals.

  Such a precondition tests each float argument `x` by `all (|x| < +inf)`: elementwise `|x[i]| < inf` against the f32
  pattern `0x7F800000`, reduced by `and` to one bit. There `|a| = max a (-a)`, the pattern is `⊤`, and `max a (-a) < ⊤`
  excludes both `a = ⊤` and `a = ⊥`: the entry is a real number (`entry_real`, for an array of any shape, from its
  elementwise test being 1 at that entry; the reduction's bit gives that through `Host.reduce_andi_all`, which asks for
  the `Subsingleton` instance below). Also here: the f32 pattern of 1.0 is the real number 1 (`ofBits_one_real`).
-/
import Idealize.ShloMosaic.PureOps.Ideal
import Idealize.ShloMosaic.Lib.ReduceAll

noncomputable section

namespace Cert.Lib.FiniteEntry

open Idealize.ShloMosaic

/-- The scalar shape has one index. -/
instance : Subsingleton (⟨0, ![]⟩ : Shape).Idx := ⟨fun a b => funext fun d => d.elim0⟩

/-- The f32 pattern `0x7F800000` is `+inf`. -/
theorem ofBits_inf : Ideal.ofBits .f32 0x7F800000#32 = ⊤ := by
  simp [Ideal.ofBits, Ideal.ieee]

/-- The f32 pattern `0x3F800000` is the real number 1. -/
theorem ofBits_one_real : ∃ r : ℝ, Ideal.ofBits .f32 0x3F800000#32 = (r : EReal) :=
  ⟨1, by simp [Ideal.ofBits, Ideal.ieee, -EReal.coe_mul]; norm_num⟩

/-- An extended real whose absolute value is below `+inf` is a real number. -/
theorem real_of_abs_lt_inf (a : EReal) (h : Ideal.cmp .olt (max a (-a)) (Ideal.ofBits .f32 0x7F800000#32) = 1#1) :
    ∃ r : ℝ, a = (r : EReal) := by
  rw [ofBits_inf] at h
  induction a using EReal.rec with
  | bot => simp [Ideal.cmp] at h
  | coe r => exact ⟨r, rfl⟩
  | top => simp [Ideal.cmp] at h

/-- One argument's elementwise test `|x| < inf`, 1 at entry `i`: that entry is a real number. -/
theorem entry_real {s : Shape} (hb : (⟨0, ![]⟩ : Shape).BroadcastsInDim s (![] : Fin 0 → Fin s.rank)) (x : FVec Ideal s .f32)
    (i : s.Idx)
    (h : cmpf .olt (Host.absf x) (broadcastInDim s ![] hb (constant (F := Ideal) ⟨0, ![]⟩ .f32 0x7F800000#32)) i = 1#1) :
    ∃ r : ℝ, x i = (r : EReal) :=
  real_of_abs_lt_inf (x i) h

end Cert.Lib.FiniteEntry

end
-- ==== Proof.FiniteIn.lean ====
/-
  The precondition, opened: every entry of the four float arguments is a real number.

  The precondition is the conjunction of four tests "all (|x| < +inf)", one per argument.  Its one bit being 1 splits
  into the four reductions' bits being 1; a reduction by `and` that is 1 had a 1 at every index; and `|a| < +inf`
  for an extended real `a` leaves only the real numbers.
-/
import proofs.«130987_j14276471292017_1_alg».proof.Pre_finite_inputs
import proofs.«130987_j14276471292017_1_alg».proof.Proof.LibFiniteEntry
import Idealize.ShloMosaic.Lib.ReduceAll
import Idealize.ShloMosaic.Lib.Affine
import Idealize.ShloMosaic.Lib.ValueIdx

noncomputable section

namespace Cert.TTN.Finite

open Idealize.ShloMosaic Idealize.ShloMosaic.ValueIdx Cert.Pre_finite_inputs Cert.Lib.FiniteEntry

variable [hF : Cert.Pre_finite_inputs.Facts]

/-- Under the precondition each of the four arguments holds real numbers only. -/
theorem inputs_real (a0 : FVec Ideal S2048x4 .f32) (a1 a2 : FVec Ideal S2048x16384 .f32) (a3 : FVec Ideal S21 .f32)
    (h : Cert.Pre_finite_inputs.fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) := by
  have h0 := congrFun h ix0
  dsimp only [Cert.Pre_finite_inputs.fn, Cert.Pre_finite_inputs.fn_part1] at h0
  have e1 := (IntOp.andi_eq_one.mp h0)
  have e2 := (IntOp.andi_eq_one.mp e1.1)
  have e3 := (IntOp.andi_eq_one.mp e2.1)
  refine ⟨fun i => ?_, fun i => ?_, fun i => ?_, fun i => ?_⟩
  · exact entry_real _ a0 i (Host.reduce_andi_all _ _ _ _ ix0 e3.1 i)
  · exact entry_real _ a1 i (Host.reduce_andi_all _ _ _ _ ix0 e3.2 i)
  · exact entry_real _ a2 i (Host.reduce_andi_all _ _ _ _ ix0 e2.2 i)
  · exact entry_real _ a3 i (Host.reduce_andi_all _ _ _ _ ix0 e1.2 i)

end Cert.TTN.Finite

end
-- ==== Proof.lean ====
/-
  The certificate's five claims for the eight-qubit tree circuit.

  Both programs compute, for every edge, from its eight encoding angles `a` (products of the incidence matrices with the
  features) and the 21 parameters `θ`, a quantity of the state `C_θ ψ_a`: `ψ_a` the product state of the half angles,
  `C_θ` the circuit of 21 plane rotations and 10 controlled flips.  The reference applies the gates to each edge's
  state and returns `(1 - (m₀ - m₁)) / 2`, `m_b` the probability that wire 5 reads `b`.  The kernel's program applies the
  same gates to the 256 basis states once, on the host, to get the circuit's matrix, and the kernel returns
  `∑ₖ (ψ_a · M)ₖ² · bit₅(k) = m₁`.  The two agree because the circuit is linear (so `ψ_a · M = C_θ ψ_a`) and orthogonal
  and `ψ_a` is a unit vector (so `m₀ + m₁ = 1`) — over the reals, which is where the precondition puts every input.
  The three frames: the kernel's two programs run by the frame of their one pipelined region; the reference is a
  straight line of host operations.  The idealization rewrote nothing, so there is nothing to preserve.
-/
import proofs.«130987_j14276471292017_1_alg».proof.Defs
import proofs.«130987_j14276471292017_1_alg».proof.Proof.Gen.Kernel
import proofs.«130987_j14276471292017_1_alg».proof.Proof.Gen.KernelIdeal
import proofs.«130987_j14276471292017_1_alg».proof.Proof.Gen.ReferenceIdeal
import proofs.«130987_j14276471292017_1_alg».proof.Proof.Gen.Pre_finite_inputs
import proofs.«130987_j14276471292017_1_alg».proof.Proof.GenP.Kernel.Frame
import proofs.«130987_j14276471292017_1_alg».proof.Proof.KSide
import proofs.«130987_j14276471292017_1_alg».proof.Proof.RSide
import proofs.«130987_j14276471292017_1_alg».proof.Proof.FiniteIn

noncomputable section

namespace Cert.Proof

open Idealize.ShloMosaic Idealize.ShloMosaic.ValueIdx Idealize.SL.Sem Cert.TTN

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => Cert.TTN.RHost.ref_frame m ρ

theorem preserves : Cert.preserves_Kernel_KernelIdeal := trivial

/-- Every entry of the kernel program's four arguments is a real number, on every device: the real arrays. -/
theorem reals_of_pre (m : (ℓ : Loc Cert.KernelIdeal.nD Cert.KernelIdeal.τ Cert.KernelIdeal.sig) → Buf (Elt Ideal) ℓ)
    (hpre : Cert.Pre_KernelIdeal (hPre_finite_inputs := Cert.Pre_finite_inputs.Gen.facts) m) :
    ∃ (xr : Dev Cert.KernelIdeal.nD → Fin 2048 → Fin 4 → ℝ) (rir ror : Dev Cert.KernelIdeal.nD → Fin 2048 → Fin 16384 → ℝ)
      (θ : Dev Cert.KernelIdeal.nD → Fin 21 → ℝ),
      (∀ (c : Dev Cert.KernelIdeal.nD) n d, (m ((c.tc : Thread Cert.KernelIdeal.nD Cert.KernelIdeal.τ).loc Cert.KernelIdeal.main_arg0) : FVec Ideal Cert.KernelIdeal.S2048x4 .f32) (ix2 n d) = ((xr c n d : ℝ) : EReal))
      ∧ (∀ (c : Dev Cert.KernelIdeal.nD) n e, (m ((c.tc : Thread Cert.KernelIdeal.nD Cert.KernelIdeal.τ).loc Cert.KernelIdeal.main_arg1) : FVec Ideal Cert.KernelIdeal.S2048x16384 .f32) (ix2 n e) = ((rir c n e : ℝ) : EReal))
      ∧ (∀ (c : Dev Cert.KernelIdeal.nD) n e, (m ((c.tc : Thread Cert.KernelIdeal.nD Cert.KernelIdeal.τ).loc Cert.KernelIdeal.main_arg2) : FVec Ideal Cert.KernelIdeal.S2048x16384 .f32) (ix2 n e) = ((ror c n e : ℝ) : EReal))
      ∧ (∀ (c : Dev Cert.KernelIdeal.nD) (k : Fin 21), (m ((c.tc : Thread Cert.KernelIdeal.nD Cert.KernelIdeal.τ).loc Cert.KernelIdeal.main_arg3) : FVec Ideal Cert.KernelIdeal.S21 .f32) (ix1 k) = ((θ c k : ℝ) : EReal)) := by
  have h := fun c => Cert.TTN.Finite.inputs_real (hF := Cert.Pre_finite_inputs.Gen.facts) _ _ _ _ (hpre c)
  refine ⟨fun c n d => Classical.choose ((h c).1 (ix2 n d)), fun c n e => Classical.choose ((h c).2.1 (ix2 n e)),
    fun c n e => Classical.choose ((h c).2.2.1 (ix2 n e)), fun c k => Classical.choose ((h c).2.2.2 (ix1 k)), ?_, ?_, ?_, ?_⟩
  · exact fun c n d => Classical.choose_spec ((h c).1 (ix2 n d))
  · exact fun c n e => Classical.choose_spec ((h c).2.1 (ix2 n e))
  · exact fun c n e => Classical.choose_spec ((h c).2.2.1 (ix2 n e))
  · exact fun c k => Classical.choose_spec ((h c).2.2.2 (ix1 k))

theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  obtain ⟨xr, rir, ror, θ, hx, hri, hro, hθ⟩ := reals_of_pre m hpre
  refine ⟨fun c => resultFun (xr c) (rir c) (ror c) (θ c), Cert.TTN.KHost.kernel_side m ρ xr rir ror θ hx hri hro hθ, ?_⟩
  refine Cert.TTN.RHost.ref_side m' ρ' xr rir ror θ ?_ ?_ ?_ ?_
  · intro c n d; rw [(hagree c).1]; exact hx c n d
  · intro c n e; rw [(hagree c).2.1]; exact hri c n e
  · intro c n e; rw [(hagree c).2.2.1]; exact hro c n e
  · intro c k; rw [(hagree c).2.2.2]; exact hθ c k

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
